-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)) →
    ∃ (v0 : (c : Dev Cert.KernelIdeal.nD) → Buf (Elt Ideal) ((c.tc : Thread Cert.KernelIdeal.nD Cert.KernelIdeal.τ).loc Cert.KernelIdeal.main_v439)) (v1 : (c : Dev Cert.KernelIdeal.nD) → Buf (Elt Ideal) ((c.tc : Thread Cert.KernelIdeal.nD Cert.KernelIdeal.τ).loc Cert.KernelIdeal.main_v404_1)) (v2 : (c : Dev Cert.KernelIdeal.nD) → Buf (Elt Ideal) ((c.tc : Thread Cert.KernelIdeal.nD Cert.KernelIdeal.τ).loc Cert.KernelIdeal.main_v440)) (v3 : (c : Dev Cert.KernelIdeal.nD) → Buf (Elt Ideal) ((c.tc : Thread Cert.KernelIdeal.nD Cert.KernelIdeal.τ).loc Cert.KernelIdeal.main_v463)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v439) = v0 c
          ∧ r.2.mem ((c.tc : Thread Cert.KernelIdeal.nD Cert.KernelIdeal.τ).loc Cert.KernelIdeal.main_v404_1) = v1 c
          ∧ r.2.mem ((c.tc : Thread Cert.KernelIdeal.nD Cert.KernelIdeal.τ).loc Cert.KernelIdeal.main_v440) = v2 c
          ∧ r.2.mem ((c.tc : Thread Cert.KernelIdeal.nD Cert.KernelIdeal.τ).loc Cert.KernelIdeal.main_v463) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v514) = v0 c
          ∧ r.2.mem ((c.tc : Thread Cert.ReferenceIdeal.nD Cert.ReferenceIdeal.τ).loc Cert.ReferenceIdeal.main_v515) = v1 c
          ∧ r.2.mem ((c.tc : Thread Cert.ReferenceIdeal.nD Cert.ReferenceIdeal.τ).loc Cert.ReferenceIdeal.main_v516) = v2 c
          ∧ r.2.mem ((c.tc : Thread Cert.ReferenceIdeal.nD Cert.ReferenceIdeal.τ).loc Cert.ReferenceIdeal.main_v543) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x128 : Shape := ⟨2, ![5000, 128]⟩
abbrev S2x80000 : Shape := ⟨2, ![2, 80000]⟩
abbrev S80000x128 : Shape := ⟨2, ![80000, 128]⟩
abbrev S64x128 : Shape := ⟨2, ![64, 128]⟩
abbrev S5000 : Shape := ⟨1, ![5000]⟩
abbrev S80000 : Shape := ⟨1, ![80000]⟩
abbrev S5000x3 : Shape := ⟨2, ![5000, 3]⟩
abbrev S3x128 : Shape := ⟨2, ![3, 128]⟩
abbrev S128 : Shape := ⟨1, ![128]⟩
abbrev S128x128 : Shape := ⟨2, ![128, 128]⟩
abbrev S1x128 : Shape := ⟨2, ![1, 128]⟩
abbrev S3x512x512 : Shape := ⟨3, ![3, 512, 512]⟩
abbrev S3x512 : Shape := ⟨2, ![3, 512]⟩
abbrev S3x512x128 : Shape := ⟨3, ![3, 512, 128]⟩
abbrev S2x384x512 : Shape := ⟨3, ![2, 384, 512]⟩
abbrev S2x512 : Shape := ⟨2, ![2, 512]⟩
abbrev S2x512x512 : Shape := ⟨3, ![2, 512, 512]⟩
abbrev S2x512x128 : Shape := ⟨3, ![2, 512, 128]⟩
abbrev S2x128 : Shape := ⟨2, ![2, 128]⟩
abbrev S128x3 : Shape := ⟨2, ![128, 3]⟩
abbrev S3 : Shape := ⟨1, ![3]⟩
abbrev S_ : Shape := ⟨0, ![]⟩

class Facts : Prop where
  bcast_S_S5000x128 : S_.BroadcastsInDim S5000x128 (![] : Fin 0 → Fin S5000x128.rank)
  reducesTo_S5000x128_S_d0_1 : S5000x128.ReducesTo [0, 1] S_
  h_S_ : 0 < S_.numel
  bcast_S_S80000x128 : S_.BroadcastsInDim S80000x128 (![] : Fin 0 → Fin S80000x128.rank)
  reducesTo_S80000x128_S_d0_1 : S80000x128.ReducesTo [0, 1] S_
  bcast_S_S64x128 : S_.BroadcastsInDim S64x128 (![] : Fin 0 → Fin S64x128.rank)
  reducesTo_S64x128_S_d0_1 : S64x128.ReducesTo [0, 1] S_
  bcast_S_S5000x3 : S_.BroadcastsInDim S5000x3 (![] : Fin 0 → Fin S5000x3.rank)
  reducesTo_S5000x3_S_d0_1 : S5000x3.ReducesTo [0, 1] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_
  bcast_S_S3x512x128 : S_.BroadcastsInDim S3x512x128 (![] : Fin 0 → Fin S3x512x128.rank)
  reducesTo_S3x512x128_S_d0_1_2 : S3x512x128.ReducesTo [0, 1, 2] S_
  bcast_S_S2x384x512 : S_.BroadcastsInDim S2x384x512 (![] : Fin 0 → Fin S2x384x512.rank)
  reducesTo_S2x384x512_S_d0_1_2 : S2x384x512.ReducesTo [0, 1, 2] S_
  bcast_S_S2x512 : S_.BroadcastsInDim S2x512 (![] : Fin 0 → Fin S2x512.rank)
  reducesTo_S2x512_S_d0_1 : S2x512.ReducesTo [0, 1] S_
  bcast_S_S2x512x512 : S_.BroadcastsInDim S2x512x512 (![] : Fin 0 → Fin S2x512x512.rank)
  reducesTo_S2x512x512_S_d0_1_2 : S2x512x512.ReducesTo [0, 1, 2] S_
  bcast_S_S2x512x128 : S_.BroadcastsInDim S2x512x128 (![] : Fin 0 → Fin S2x512x128.rank)
  reducesTo_S2x512x128_S_d0_1_2 : S2x512x128.ReducesTo [0, 1, 2] S_
  bcast_S_S2x128 : S_.BroadcastsInDim S2x128 (![] : Fin 0 → Fin S2x128.rank)
  reducesTo_S2x128_S_d0_1 : S2x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part10 {F : FTy → Type} [FloatOps F] (main_v168 : IVec S_ 1) (main_v169 : FVec F S3 .f32) (main_v170 : FVec F S3 .f32) : IVec S_ 1 :=
  let main_v171 : IVec S3 1 := cmpf .olt main_v169 main_v170
  let main_c_67 : IVec S_ 1 := constantI S_ 1 1#1
  let main_v172 : IVec S_ 1 := (fun x v => Host.reduce IntOp.andi x v reducesTo_S3_S_d0 h_S_) main_v171 main_c_67
  let main_v173 : IVec S_ 1 := andi main_v168 main_v172
  main_v173

def fn_part9 {F : FTy → Type} [FloatOps F] (main_arg34 : FVec F S128x128 .f32) (main_arg35 : FVec F S128 .f32) (main_arg36 : FVec F S128x3 .f32) (main_arg37 : FVec F S3 .f32) (main_v153 : IVec S_ 1) : IVec S_ 1 :=
  let main_v154 : FVec F S128x128 .f32 := Host.absf main_arg34
  let main_cst_60 : FVec F S_ .f32 := constant S_ .f32 0x7F800000#32
  let main_v155 : FVec F S128x128 .f32 := broadcastInDim S128x128 ![] bcast_S_S128x128 main_cst_60
  let main_v156 : IVec S128x128 1 := cmpf .olt main_v154 main_v155
  let main_c_61 : IVec S_ 1 := constantI S_ 1 1#1
  let main_v157 : IVec S_ 1 := (fun x v => Host.reduce IntOp.andi x v reducesTo_S128x128_S_d0_1 h_S_) main_v156 main_c_61
  let main_v158 : IVec S_ 1 := andi main_v153 main_v157
  let main_v159 : FVec F S128 .f32 := Host.absf main_arg35
  let main_cst_62 : FVec F S_ .f32 := constant S_ .f32 0x7F800000#32
  let main_v160 : FVec F S128 .f32 := broadcastInDim S128 ![] bcast_S_S128 main_cst_62
  let main_v161 : IVec S128 1 := cmpf .olt main_v159 main_v160
  let main_c_63 : IVec S_ 1 := constantI S_ 1 1#1
  let main_v162 : IVec S_ 1 := (fun x v => Host.reduce IntOp.andi x v reducesTo_S128_S_d0 h_S_) main_v161 main_c_63
  let main_v163 : IVec S_ 1 := andi main_v158 main_v162
  let main_v164 : FVec F S128x3 .f32 := Host.absf main_arg36
  let main_cst_64 : FVec F S_ .f32 := constant S_ .f32 0x7F800000#32
  let main_v165 : FVec F S128x3 .f32 := broadcastInDim S128x3 ![] bcast_S_S128x3 main_cst_64
  let main_v166 : IVec S128x3 1 := cmpf .olt main_v164 main_v165
  let main_c_65 : IVec S_ 1 := constantI S_ 1 1#1
  let main_v167 : IVec S_ 1 := (fun x v => Host.reduce IntOp.andi x v reducesTo_S128x3_S_d0_1 h_S_) main_v166 main_c_65
  let main_v168 : IVec S_ 1 := andi main_v163 main_v167
  let main_v169 : FVec F S3 .f32 := Host.absf main_arg37
  let main_cst_66 : FVec F S_ .f32 := constant S_ .f32 0x7F800000#32
  let main_v170 : FVec F S3 .f32 := broadcastInDim S3 ![] bcast_S_S3 main_cst_66
  fn_part10 (F := F) main_v168 main_v169 main_v170

def fn_part8 {F : FTy → Type} [FloatOps F] (main_arg31 : FVec F S2x512 .f32) (main_arg32 : FVec F S2x512x128 .f32) (main_arg33 : FVec F S2x128 .f32) (main_arg34 : FVec F S128x128 .f32) (main_arg35 : FVec F S128 .f32) (main_arg36 : FVec F S128x3 .f32) (main_arg37 : FVec F S3 .f32) (main_v133 : IVec S_ 1) (main_v136 : IVec S2x512x512 1) : IVec S_ 1 :=
  let main_c_53 : IVec S_ 1 := constantI S_ 1 1#1
  let main_v137 : IVec S_ 1 := (fun x v => Host.reduce IntOp.andi x v reducesTo_S2x512x512_S_d0_1_2 h_S_) main_v136 main_c_53
  let main_v138 : IVec S_ 1 := andi main_v133 main_v137
  let main_v139 : FVec F S2x512 .f32 := Host.absf main_arg31
  let main_cst_54 : FVec F S_ .f32 := constant S_ .f32 0x7F800000#32
  let main_v140 : FVec F S2x512 .f32 := broadcastInDim S2x512 ![] bcast_S_S2x512 main_cst_54
  let main_v141 : IVec S2x512 1 := cmpf .olt main_v139 main_v140
  let main_c_55 : IVec S_ 1 := constantI S_ 1 1#1
  let main_v142 : IVec S_ 1 := (fun x v => Host.reduce IntOp.andi x v reducesTo_S2x512_S_d0_1 h_S_) main_v141 main_c_55
  let main_v143 : IVec S_ 1 := andi main_v138 main_v142
  let main_v144 : FVec F S2x512x128 .f32 := Host.absf main_arg32
  let main_cst_56 : FVec F S_ .f32 := constant S_ .f32 0x7F800000#32
  let main_v145 : FVec F S2x512x128 .f32 := broadcastInDim S2x512x128 ![] bcast_S_S2x512x128 main_cst_56
  let main_v146 : IVec S2x512x128 1 := cmpf .olt main_v144 main_v145
  let main_c_57 : IVec S_ 1 := constantI S_ 1 1#1
  let main_v147 : IVec S_ 1 := (fun x v => Host.reduce IntOp.andi x v reducesTo_S2x512x128_S_d0_1_2 h_S_) main_v146 main_c_57
  let main_v148 : IVec S_ 1 := andi main_v143 main_v147
  let main_v149 : FVec F S2x128 .f32 := Host.absf main_arg33
  let main_cst_58 : FVec F S_ .f32 := constant S_ .f32 0x7F800000#32
  let main_v150 : FVec F S2x128 .f32 := broadcastInDim S2x128 ![] bcast_S_S2x128 main_cst_58
  let main_v151 : IVec S2x128 1 := cmpf .olt main_v149 main_v150
  let main_c_59 : IVec S_ 1 := constantI S_ 1 1#1
  let main_v152 : IVec S_ 1 := (fun x v => Host.reduce IntOp.andi x v reducesTo_S2x128_S_d0_1 h_S_) main_v151 main_c_59
  let main_v153 : IVec S_ 1 := andi main_v148 main_v152
  fn_part9 (F := F) main_arg34 main_arg35 main_arg36 main_arg37 main_v153

def fn_part7 {F : FTy → Type} [FloatOps F] (main_arg28 : FVec F S2x384x512 .f32) (main_arg29 : FVec F S2x512 .f32) (main_arg30 : FVec F S2x512x512 .f32) (main_arg31 : FVec F S2x512 .f32) (main_arg32 : FVec F S2x512x128 .f32) (main_arg33 : FVec F S2x128 .f32) (main_arg34 : FVec F S128x128 .f32) (main_arg35 : FVec F S128 .f32) (main_arg36 : FVec F S128x3 .f32) (main_arg37 : FVec F S3 .f32) (main_v118 : IVec S_ 1) (main_v119 : FVec F S3x128 .f32) : IVec S_ 1 :=
  let main_cst_46 : FVec F S_ .f32 := constant S_ .f32 0x7F800000#32
  let main_v120 : FVec F S3x128 .f32 := broadcastInDim S3x128 ![] bcast_S_S3x128 main_cst_46
  let main_v121 : IVec S3x128 1 := cmpf .olt main_v119 main_v120
  let main_c_47 : IVec S_ 1 := constantI S_ 1 1#1
  let main_v122 : IVec S_ 1 := (fun x v => Host.reduce IntOp.andi x v reducesTo_S3x128_S_d0_1 h_S_) main_v121 main_c_47
  let main_v123 : IVec S_ 1 := andi main_v118 main_v122
  let main_v124 : FVec F S2x384x512 .f32 := Host.absf main_arg28
  let main_cst_48 : FVec F S_ .f32 := constant S_ .f32 0x7F800000#32
  let main_v125 : FVec F S2x384x512 .f32 := broadcastInDim S2x384x512 ![] bcast_S_S2x384x512 main_cst_48
  let main_v126 : IVec S2x384x512 1 := cmpf .olt main_v124 main_v125
  let main_c_49 : IVec S_ 1 := constantI S_ 1 1#1
  let main_v127 : IVec S_ 1 := (fun x v => Host.reduce IntOp.andi x v reducesTo_S2x384x512_S_d0_1_2 h_S_) main_v126 main_c_49
  let main_v128 : IVec S_ 1 := andi main_v123 main_v127
  let main_v129 : FVec F S2x512 .f32 := Host.absf main_arg29
  let main_cst_50 : FVec F S_ .f32 := constant S_ .f32 0x7F800000#32
  let main_v130 : FVec F S2x512 .f32 := broadcastInDim S2x512 ![] bcast_S_S2x512 main_cst_50
  let main_v131 : IVec S2x512 1 := cmpf .olt main_v129 main_v130
  let main_c_51 : IVec S_ 1 := constantI S_ 1 1#1
  let main_v132 : IVec S_ 1 := (fun x v => Host.reduce IntOp.andi x v reducesTo_S2x512_S_d0_1 h_S_) main_v131 main_c_51
  let main_v133 : IVec S_ 1 := andi main_v128 main_v132
  let main_v134 : FVec F S2x512x512 .f32 := Host.absf main_arg30
  let main_cst_52 : FVec F S_ .f32 := constant S_ .f32 0x7F800000#32
  let main_v135 : FVec F S2x512x512 .f32 := broadcastInDim S2x512x512 ![] bcast_S_S2x512x512 main_cst_52
  let main_v136 : IVec S2x512x512 1 := cmpf .olt main_v134 main_v135
  fn_part8 (F := F) main_arg31 main_arg32 main_arg33 main_arg34 main_arg35 main_arg36 main_arg37 main_v133 main_v136

def fn_part6 {F : FTy → Type} [FloatOps F] (main_arg24 : FVec F S3x512x512 .f32) (main_arg25 : FVec F S3x512 .f32) (main_arg26 : FVec F S3x512x128 .f32) (main_arg27 : FVec F S3x128 .f32) (main_arg28 : FVec F S2x384x512 .f32) (main_arg29 : FVec F S2x512 .f32) (main_arg30 : FVec F S2x512x512 .f32) (main_arg31 : FVec F S2x512 .f32) (main_arg32 : FVec F S2x512x128 .f32) (main_arg33 : FVec F S2x128 .f32) (main_arg34 : FVec F S128x128 .f32) (main_arg35 : FVec F S128 .f32) (main_arg36 : FVec F S128x3 .f32) (main_arg37 : FVec F S3 .f32) (main_v98 : IVec S_ 1) (main_v101 : IVec S3x512 1) (main_c_39 : IVec S_ 1) : IVec S_ 1 :=
  let main_v102 : IVec S_ 1 := (fun x v => Host.reduce IntOp.andi x v reducesTo_S3x512_S_d0_1 h_S_) main_v101 main_c_39
  let main_v103 : IVec S_ 1 := andi main_v98 main_v102
  let main_v104 : FVec F S3x512x512 .f32 := Host.absf main_arg24
  let main_cst_40 : FVec F S_ .f32 := constant S_ .f32 0x7F800000#32
  let main_v105 : FVec F S3x512x512 .f32 := broadcastInDim S3x512x512 ![] bcast_S_S3x512x512 main_cst_40
  let main_v106 : IVec S3x512x512 1 := cmpf .olt main_v104 main_v105
  let main_c_41 : IVec S_ 1 := constantI S_ 1 1#1
  let main_v107 : IVec S_ 1 := (fun x v => Host.reduce IntOp.andi x v reducesTo_S3x512x512_S_d0_1_2 h_S_) main_v106 main_c_41
  let main_v108 : IVec S_ 1 := andi main_v103 main_v107
  let main_v109 : FVec F S3x512 .f32 := Host.absf main_arg25
  let main_cst_42 : FVec F S_ .f32 := constant S_ .f32 0x7F800000#32
  let main_v110 : FVec F S3x512 .f32 := broadcastInDim S3x512 ![] bcast_S_S3x512 main_cst_42
  let main_v111 : IVec S3x512 1 := cmpf .olt main_v109 main_v110
  let main_c_43 : IVec S_ 1 := constantI S_ 1 1#1
  let main_v112 : IVec S_ 1 := (fun x v => Host.reduce IntOp.andi x v reducesTo_S3x512_S_d0_1 h_S_) main_v111 main_c_43
  let main_v113 : IVec S_ 1 := andi main_v108 main_v112
  let main_v114 : FVec F S3x512x128 .f32 := Host.absf main_arg26
  let main_cst_44 : FVec F S_ .f32 := constant S_ .f32 0x7F800000#32
  let main_v115 : FVec F S3x512x128 .f32 := broadcastInDim S3x512x128 ![] bcast_S_S3x512x128 main_cst_44
  let main_v116 : IVec S3x512x128 1 := cmpf .olt main_v114 main_v115
  let main_c_45 : IVec S_ 1 := constantI S_ 1 1#1
  let main_v117 : IVec S_ 1 := (fun x v => Host.reduce IntOp.andi x v reducesTo_S3x512x128_S_d0_1_2 h_S_) main_v116 main_c_45
  let main_v118 : IVec S_ 1 := andi main_v113 main_v117
  let main_v119 : FVec F S3x128 .f32 := Host.absf main_arg27
  fn_part7 (F := F) main_arg28 main_arg29 main_arg30 main_arg31 main_arg32 main_arg33 main_arg34 main_arg35 main_arg36 main_arg37 main_v118 main_v119

def fn_part5 {F : FTy → Type} [FloatOps F] (main_arg21 : FVec F S3x128 .f32) (main_arg22 : FVec F S3x512x512 .f32) (main_arg23 : FVec F S3x512 .f32) (main_arg24 : FVec F S3x512x512 .f32) (main_arg25 : FVec F S3x512 .f32) (main_arg26 : FVec F S3x512x128 .f32) (main_arg27 : FVec F S3x128 .f32) (main_arg28 : FVec F S2x384x512 .f32) (main_arg29 : FVec F S2x512 .f32) (main_arg30 : FVec F S2x512x512 .f32) (main_arg31 : FVec F S2x512 .f32) (main_arg32 : FVec F S2x512x128 .f32) (main_arg33 : FVec F S2x128 .f32) (main_arg34 : FVec F S128x128 .f32) (main_arg35 : FVec F S128 .f32) (main_arg36 : FVec F S128x3 .f32) (main_arg37 : FVec F S3 .f32) (main_v83 : IVec S_ 1) (main_v84 : FVec F S3x512x128 .f32) (main_cst_32 : FVec F S_ .f32) : IVec S_ 1 :=
  let main_v85 : FVec F S3x512x128 .f32 := broadcastInDim S3x512x128 ![] bcast_S_S3x512x128 main_cst_32
  let main_v86 : IVec S3x512x128 1 := cmpf .olt main_v84 main_v85
  let main_c_33 : IVec S_ 1 := constantI S_ 1 1#1
  let main_v87 : IVec S_ 1 := (fun x v => Host.reduce IntOp.andi x v reducesTo_S3x512x128_S_d0_1_2 h_S_) main_v86 main_c_33
  let main_v88 : IVec S_ 1 := andi main_v83 main_v87
  let main_v89 : FVec F S3x128 .f32 := Host.absf main_arg21
  let main_cst_34 : FVec F S_ .f32 := constant S_ .f32 0x7F800000#32
  let main_v90 : FVec F S3x128 .f32 := broadcastInDim S3x128 ![] bcast_S_S3x128 main_cst_34
  let main_v91 : IVec S3x128 1 := cmpf .olt main_v89 main_v90
  let main_c_35 : IVec S_ 1 := constantI S_ 1 1#1
  let main_v92 : IVec S_ 1 := (fun x v => Host.reduce IntOp.andi x v reducesTo_S3x128_S_d0_1 h_S_) main_v91 main_c_35
  let main_v93 : IVec S_ 1 := andi main_v88 main_v92
  let main_v94 : FVec F S3x512x512 .f32 := Host.absf main_arg22
  let main_cst_36 : FVec F S_ .f32 := constant S_ .f32 0x7F800000#32
  let main_v95 : FVec F S3x512x512 .f32 := broadcastInDim S3x512x512 ![] bcast_S_S3x512x512 main_cst_36
  let main_v96 : IVec S3x512x512 1 := cmpf .olt main_v94 main_v95
  let main_c_37 : IVec S_ 1 := constantI S_ 1 1#1
  let main_v97 : IVec S_ 1 := (fun x v => Host.reduce IntOp.andi x v reducesTo_S3x512x512_S_d0_1_2 h_S_) main_v96 main_c_37
  let main_v98 : IVec S_ 1 := andi main_v93 main_v97
  let main_v99 : FVec F S3x512 .f32 := Host.absf main_arg23
  let main_cst_38 : FVec F S_ .f32 := constant S_ .f32 0x7F800000#32
  let main_v100 : FVec F S3x512 .f32 := broadcastInDim S3x512 ![] bcast_S_S3x512 main_cst_38
  let main_v101 : IVec S3x512 1 := cmpf .olt main_v99 main_v100
  let main_c_39 : IVec S_ 1 := constantI S_ 1 1#1
  fn_part6 (F := F) main_arg24 main_arg25 main_arg26 main_arg27 main_arg28 main_arg29 main_arg30 main_arg31 main_arg32 main_arg33 main_arg34 main_arg35 main_arg36 main_arg37 main_v98 main_v101 main_c_39

def fn_part4 {F : FTy → Type} [FloatOps F] (main_arg17 : FVec F S3x512 .f32) (main_arg18 : FVec F S3x512x512 .f32) (main_arg19 : FVec F S3x512 .f32) (main_arg20 : FVec F S3x512x128 .f32) (main_arg21 : FVec F S3x128 .f32) (main_arg22 : FVec F S3x512x512 .f32) (main_arg23 : FVec F S3x512 .f32) (main_arg24 : FVec F S3x512x512 .f32) (main_arg25 : FVec F S3x512 .f32) (main_arg26 : FVec F S3x512x128 .f32) (main_arg27 : FVec F S3x128 .f32) (main_arg28 : FVec F S2x384x512 .f32) (main_arg29 : FVec F S2x512 .f32) (main_arg30 : FVec F S2x512x512 .f32) (main_arg31 : FVec F S2x512 .f32) (main_arg32 : FVec F S2x512x128 .f32) (main_arg33 : FVec F S2x128 .f32) (main_arg34 : FVec F S128x128 .f32) (main_arg35 : FVec F S128 .f32) (main_arg36 : FVec F S128x3 .f32) (main_arg37 : FVec F S3 .f32) (main_v63 : IVec S_ 1) (main_v67 : IVec S_ 1) : IVec S_ 1 :=
  let main_v68 : IVec S_ 1 := andi main_v63 main_v67
  let main_v69 : FVec F S3x512 .f32 := Host.absf main_arg17
  let main_cst_26 : FVec F S_ .f32 := constant S_ .f32 0x7F800000#32
  let main_v70 : FVec F S3x512 .f32 := broadcastInDim S3x512 ![] bcast_S_S3x512 main_cst_26
  let main_v71 : IVec S3x512 1 := cmpf .olt main_v69 main_v70
  let main_c_27 : IVec S_ 1 := constantI S_ 1 1#1
  let main_v72 : IVec S_ 1 := (fun x v => Host.reduce IntOp.andi x v reducesTo_S3x512_S_d0_1 h_S_) main_v71 main_c_27
  let main_v73 : IVec S_ 1 := andi main_v68 main_v72
  let main_v74 : FVec F S3x512x512 .f32 := Host.absf main_arg18
  let main_cst_28 : FVec F S_ .f32 := constant S_ .f32 0x7F800000#32
  let main_v75 : FVec F S3x512x512 .f32 := broadcastInDim S3x512x512 ![] bcast_S_S3x512x512 main_cst_28
  let main_v76 : IVec S3x512x512 1 := cmpf .olt main_v74 main_v75
  let main_c_29 : IVec S_ 1 := constantI S_ 1 1#1
  let main_v77 : IVec S_ 1 := (fun x v => Host.reduce IntOp.andi x v reducesTo_S3x512x512_S_d0_1_2 h_S_) main_v76 main_c_29
  let main_v78 : IVec S_ 1 := andi main_v73 main_v77
  let main_v79 : FVec F S3x512 .f32 := Host.absf main_arg19
  let main_cst_30 : FVec F S_ .f32 := constant S_ .f32 0x7F800000#32
  let main_v80 : FVec F S3x512 .f32 := broadcastInDim S3x512 ![] bcast_S_S3x512 main_cst_30
  let main_v81 : IVec S3x512 1 := cmpf .olt main_v79 main_v80
  let main_c_31 : IVec S_ 1 := constantI S_ 1 1#1
  let main_v82 : IVec S_ 1 := (fun x v => Host.reduce IntOp.andi x v reducesTo_S3x512_S_d0_1 h_S_) main_v81 main_c_31
  let main_v83 : IVec S_ 1 := andi main_v78 main_v82
  let main_v84 : FVec F S3x512x128 .f32 := Host.absf main_arg20
  let main_cst_32 : FVec F S_ .f32 := constant S_ .f32 0x7F800000#32
  fn_part5 (F := F) main_arg21 main_arg22 main_arg23 main_arg24 main_arg25 main_arg26 main_arg27 main_arg28 main_arg29 main_arg30 main_arg31 main_arg32 main_arg33 main_arg34 main_arg35 main_arg36 main_arg37 main_v83 main_v84 main_cst_32

def fn_part3 {F : FTy → Type} [FloatOps F] (main_arg14 : FVec F S128x128 .f32) (main_arg15 : FVec F S128 .f32) (main_arg16 : FVec F S3x512x512 .f32) (main_arg17 : FVec F S3x512 .f32) (main_arg18 : FVec F S3x512x512 .f32) (main_arg19 : FVec F S3x512 .f32) (main_arg20 : FVec F S3x512x128 .f32) (main_arg21 : FVec F S3x128 .f32) (main_arg22 : FVec F S3x512x512 .f32) (main_arg23 : FVec F S3x512 .f32) (main_arg24 : FVec F S3x512x512 .f32) (main_arg25 : FVec F S3x512 .f32) (main_arg26 : FVec F S3x512x128 .f32) (main_arg27 : FVec F S3x128 .f32) (main_arg28 : FVec F S2x384x512 .f32) (main_arg29 : FVec F S2x512 .f32) (main_arg30 : FVec F S2x512x512 .f32) (main_arg31 : FVec F S2x512 .f32) (main_arg32 : FVec F S2x512x128 .f32) (main_arg33 : FVec F S2x128 .f32) (main_arg34 : FVec F S128x128 .f32) (main_arg35 : FVec F S128 .f32) (main_arg36 : FVec F S128x3 .f32) (main_arg37 : FVec F S3 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S3x512x512 .f32 := Host.absf main_arg16
  let main_cst_24 : FVec F S_ .f32 := constant S_ .f32 0x7F800000#32
  let main_v65 : FVec F S3x512x512 .f32 := broadcastInDim S3x512x512 ![] bcast_S_S3x512x512 main_cst_24
  let main_v66 : IVec S3x512x512 1 := cmpf .olt main_v64 main_v65
  let main_c_25 : IVec S_ 1 := constantI S_ 1 1#1
  let main_v67 : IVec S_ 1 := (fun x v => Host.reduce IntOp.andi x v reducesTo_S3x512x512_S_d0_1_2 h_S_) main_v66 main_c_25
  fn_part4 (F := F) main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v63 main_v67

def fn_part2 {F : FTy → Type} [FloatOps F] (main_arg10 : FVec F S128x128 .f32) (main_arg11 : FVec F S128 .f32) (main_arg12 : FVec F S1x128 .f32) (main_arg13 : FVec F S128 .f32) (main_arg14 : FVec F S128x128 .f32) (main_arg15 : FVec F S128 .f32) (main_arg16 : FVec F S3x512x512 .f32) (main_arg17 : FVec F S3x512 .f32) (main_arg18 : FVec F S3x512x512 .f32) (main_arg19 : FVec F S3x512 .f32) (main_arg20 : FVec F S3x512x128 .f32) (main_arg21 : FVec F S3x128 .f32) (main_arg22 : FVec F S3x512x512 .f32) (main_arg23 : FVec F S3x512 .f32) (main_arg24 : FVec F S3x512x512 .f32) (main_arg25 : FVec F S3x512 .f32) (main_arg26 : FVec F S3x512x128 .f32) (main_arg27 : FVec F S3x128 .f32) (main_arg28 : FVec F S2x384x512 .f32) (main_arg29 : FVec F S2x512 .f32) (main_arg30 : FVec F S2x512x512 .f32) (main_arg31 : FVec F S2x512 .f32) (main_arg32 : FVec F S2x512x128 .f32) (main_arg33 : FVec F S2x128 .f32) (main_arg34 : FVec F S128x128 .f32) (main_arg35 : FVec F S128 .f32) (main_arg36 : FVec F S128x3 .f32) (main_arg37 : FVec F S3 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S1x128 .f32 := Host.absf main_arg12
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v48 main_v49 main_v50

def fn_part1 {F : FTy → Type} [FloatOps F] (main_arg7 : FVec F S5000x3 .f32) (main_arg8 : FVec F S3x128 .f32) (main_arg9 : FVec F S128 .f32) (main_arg10 : FVec F S128x128 .f32) (main_arg11 : FVec F S128 .f32) (main_arg12 : FVec F S1x128 .f32) (main_arg13 : FVec F S128 .f32) (main_arg14 : FVec F S128x128 .f32) (main_arg15 : FVec F S128 .f32) (main_arg16 : FVec F S3x512x512 .f32) (main_arg17 : FVec F S3x512 .f32) (main_arg18 : FVec F S3x512x512 .f32) (main_arg19 : FVec F S3x512 .f32) (main_arg20 : FVec F S3x512x128 .f32) (main_arg21 : FVec F S3x128 .f32) (main_arg22 : FVec F S3x512x512 .f32) (main_arg23 : FVec F S3x512 .f32) (main_arg24 : FVec F S3x512x512 .f32) (main_arg25 : FVec F S3x512 .f32) (main_arg26 : FVec F S3x512x128 .f32) (main_arg27 : FVec F S3x128 .f32) (main_arg28 : FVec F S2x384x512 .f32) (main_arg29 : FVec F S2x512 .f32) (main_arg30 : FVec F S2x512x512 .f32) (main_arg31 : FVec F S2x512 .f32) (main_arg32 : FVec F S2x512x128 .f32) (main_arg33 : FVec F S2x128 .f32) (main_arg34 : FVec F S128x128 .f32) (main_arg35 : FVec F S128 .f32) (main_arg36 : FVec F S128x3 .f32) (main_arg37 : FVec F S3 .f32) (main_v13 : IVec S_ 1) (main_v16 : IVec S5000x3 1) : IVec S_ 1 :=
  let main_c_5 : IVec S_ 1 := constantI S_ 1 1#1
  let main_v17 : IVec S_ 1 := (fun x v => Host.reduce IntOp.andi x v reducesTo_S5000x3_S_d0_1 h_S_) main_v16 main_c_5
  let main_v18 : IVec S_ 1 := andi main_v13 main_v17
  let main_v19 : FVec F S5000x3 .f32 := Host.absf main_arg7
  let main_cst_6 : FVec F S_ .f32 := constant S_ .f32 0x7F800000#32
  let main_v20 : FVec F S5000x3 .f32 := broadcastInDim S5000x3 ![] bcast_S_S5000x3 main_cst_6
  let main_v21 : IVec S5000x3 1 := cmpf .olt main_v19 main_v20
  let main_c_7 : IVec S_ 1 := constantI S_ 1 1#1
  let main_v22 : IVec S_ 1 := (fun x v => Host.reduce IntOp.andi x v reducesTo_S5000x3_S_d0_1 h_S_) main_v21 main_c_7
  let main_v23 : IVec S_ 1 := andi main_v18 main_v22
  let main_v24 : FVec F S3x128 .f32 := Host.absf main_arg8
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v33

def fn {F : FTy → Type} [FloatOps F] (main_arg0 : FVec F S5000x128 .f32) (main_arg1 : IVec S2x80000 32) (main_arg2 : FVec F S80000x128 .f32) (main_arg3 : FVec F S64x128 .f32) (main_arg4 : IVec S5000 32) (main_arg5 : IVec S80000 32) (main_arg6 : FVec F S5000x3 .f32) (main_arg7 : FVec F S5000x3 .f32) (main_arg8 : FVec F S3x128 .f32) (main_arg9 : FVec F S128 .f32) (main_arg10 : FVec F S128x128 .f32) (main_arg11 : FVec F S128 .f32) (main_arg12 : FVec F S1x128 .f32) (main_arg13 : FVec F S128 .f32) (main_arg14 : FVec F S128x128 .f32) (main_arg15 : FVec F S128 .f32) (main_arg16 : FVec F S3x512x512 .f32) (main_arg17 : FVec F S3x512 .f32) (main_arg18 : FVec F S3x512x512 .f32) (main_arg19 : FVec F S3x512 .f32) (main_arg20 : FVec F S3x512x128 .f32) (main_arg21 : FVec F S3x128 .f32) (main_arg22 : FVec F S3x512x512 .f32) (main_arg23 : FVec F S3x512 .f32) (main_arg24 : FVec F S3x512x512 .f32) (main_arg25 : FVec F S3x512 .f32) (main_arg26 : FVec F S3x512x128 .f32) (main_arg27 : FVec F S3x128 .f32) (main_arg28 : FVec F S2x384x512 .f32) (main_arg29 : FVec F S2x512 .f32) (main_arg30 : FVec F S2x512x512 .f32) (main_arg31 : FVec F S2x512 .f32) (main_arg32 : FVec F S2x512x128 .f32) (main_arg33 : FVec F S2x128 .f32) (main_arg34 : FVec F S128x128 .f32) (main_arg35 : FVec F S128 .f32) (main_arg36 : FVec F S128x3 .f32) (main_arg37 : FVec F S3 .f32) : IVec S_ 1 :=
  let main_v0 : FVec F S5000x128 .f32 := Host.absf main_arg0
  let main_cst : FVec F S_ .f32 := constant S_ .f32 0x7F800000#32
  let main_v1 : FVec F S5000x128 .f32 := broadcastInDim S5000x128 ![] bcast_S_S5000x128 main_cst
  let main_v2 : IVec S5000x128 1 := cmpf .olt main_v0 main_v1
  let main_c : IVec S_ 1 := constantI S_ 1 1#1
  let main_v3 : IVec S_ 1 := (fun x v => Host.reduce IntOp.andi x v reducesTo_S5000x128_S_d0_1 h_S_) main_v2 main_c
  let main_v4 : FVec F S80000x128 .f32 := Host.absf main_arg2
  let main_cst_0 : FVec F S_ .f32 := constant S_ .f32 0x7F800000#32
  let main_v5 : FVec F S80000x128 .f32 := broadcastInDim S80000x128 ![] bcast_S_S80000x128 main_cst_0
  let main_v6 : IVec S80000x128 1 := cmpf .olt main_v4 main_v5
  let main_c_1 : IVec S_ 1 := constantI S_ 1 1#1
  let main_v7 : IVec S_ 1 := (fun x v => Host.reduce IntOp.andi x v reducesTo_S80000x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S5000x3 .f32 := Host.absf main_arg6
  let main_cst_4 : FVec F S_ .f32 := constant S_ .f32 0x7F800000#32
  let main_v15 : FVec F S5000x3 .f32 := broadcastInDim S5000x3 ![] bcast_S_S5000x3 main_cst_4
  let main_v16 : IVec S5000x3 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v13 main_v16
-- ==== Kernel.lean ====
abbrev S5000x128 : Shape := ⟨2, ![5000, 128]⟩
abbrev S2x80000 : Shape := ⟨2, ![2, 80000]⟩
abbrev S80000x128 : Shape := ⟨2, ![80000, 128]⟩
abbrev S64x128 : Shape := ⟨2, ![64, 128]⟩
abbrev S5000 : Shape := ⟨1, ![5000]⟩
abbrev S80000 : Shape := ⟨1, ![80000]⟩
abbrev S5000x3 : Shape := ⟨2, ![5000, 3]⟩
abbrev S3x128 : Shape := ⟨2, ![3, 128]⟩
abbrev S128 : Shape := ⟨1, ![128]⟩
abbrev S128x128 : Shape := ⟨2, ![128, 128]⟩
abbrev S1x128 : Shape := ⟨2, ![1, 128]⟩
abbrev S3x512x512 : Shape := ⟨3, ![3, 512, 512]⟩
abbrev S3x512 : Shape := ⟨2, ![3, 512]⟩
abbrev S3x512x128 : Shape := ⟨3, ![3, 512, 128]⟩
abbrev S2x384x512 : Shape := ⟨3, ![2, 384, 512]⟩
abbrev S2x512 : Shape := ⟨2, ![2, 512]⟩
abbrev S2x512x512 : Shape := ⟨3, ![2, 512, 512]⟩
abbrev S2x512x128 : Shape := ⟨3, ![2, 512, 128]⟩
abbrev S2x128 : Shape := ⟨2, ![2, 128]⟩
abbrev S128x3 : Shape := ⟨2, ![128, 3]⟩
abbrev S3 : Shape := ⟨1, ![3]⟩
abbrev S1x80000 : Shape := ⟨2, ![1, 80000]⟩
abbrev S_ : Shape := ⟨0, ![]⟩
abbrev S5000x1 : Shape := ⟨2, ![5000, 1]⟩
abbrev S64x1 : Shape := ⟨2, ![64, 1]⟩
abbrev S1000x3 : Shape := ⟨2, ![1000, 3]⟩
abbrev S1000x128 : Shape := ⟨2, ![1000, 128]⟩
abbrev S80000x1 : Shape := ⟨2, ![80000, 1]⟩
abbrev S80000x3 : Shape := ⟨2, ![80000, 3]⟩
abbrev S4000x1 : Shape := ⟨2, ![4000, 1]⟩
abbrev S4000x128 : Shape := ⟨2, ![4000, 128]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1x512x128 : Shape := ⟨3, ![1, 512, 128]⟩
abbrev S512x128 : Shape := ⟨2, ![512, 128]⟩
abbrev S128x512 : Shape := ⟨2, ![128, 512]⟩
abbrev S2000x128 : Shape := ⟨2, ![2000, 128]⟩
abbrev S2000x512 : Shape := ⟨2, ![2000, 512]⟩
abbrev S5000x512 : Shape := ⟨2, ![5000, 512]⟩
abbrev S1000x512 : Shape := ⟨2, ![1000, 512]⟩
abbrev S64x384 : Shape := ⟨2, ![64, 384]⟩
abbrev S1x384x512 : Shape := ⟨3, ![1, 384, 512]⟩
abbrev S384x512 : Shape := ⟨2, ![384, 512]⟩
abbrev S64x512 : Shape := ⟨2, ![64, 512]⟩
abbrev S1x3 : Shape := ⟨2, ![1, 3]⟩
abbrev S64x3 : Shape := ⟨2, ![64, 3]⟩
abbrev S1x5000x3 : Shape := ⟨3, ![1, 5000, 3]⟩
abbrev S3x5000x3 : Shape := ⟨3, ![3, 5000, 3]⟩

abbrev nBuf : Space → Nat
  | .hbm => 575
  | .vmem => 205
  | .smem => 0
  | _ => 0

abbrev hbmTy0_0 (i : Nat) : BufTy := match i % 128 with
  | 0 => ⟨S5000x128, .f32⟩
  | 1 => ⟨S2x80000, .i32⟩
  | 2 => ⟨S80000x128, .f32⟩
  | 3 => ⟨S64x128, .f32⟩
  | 4 => ⟨S5000, .i32⟩
  | 5 => ⟨S80000, .i32⟩
  | 6 => ⟨S5000x3, .f32⟩
  | 7 => ⟨S5000x3, .f32⟩
  | 8 => ⟨S3x128, .f32⟩
  | 9 => ⟨S128, .f32⟩
  | 10 => ⟨S128x128, .f32⟩
  | 11 => ⟨S128, .f32⟩
  | 12 => ⟨S1x128, .f32⟩
  | 13 => ⟨S128, .f32⟩
  | 14 => ⟨S128x128, .f32⟩
  | 15 => ⟨S128, .f32⟩
  | 16 => ⟨S3x512x512, .f32⟩
  | 17 => ⟨S3x512, .f32⟩
  | 18 => ⟨S3x512x512, .f32⟩
  | 19 => ⟨S3x512, .f32⟩
  | 20 => ⟨S3x512x128, .f32⟩
  | 21 => ⟨S3x128, .f32⟩
  | 22 => ⟨S3x512x512, .f32⟩
  | 23 => ⟨S3x512, .f32⟩
  | 24 => ⟨S3x512x512, .f32⟩
  | 25 => ⟨S3x512, .f32⟩
  | 26 => ⟨S3x512x128, .f32⟩
  | 27 => ⟨S3x128, .f32⟩
  | 28 => ⟨S2x384x512, .f32⟩
  | 29 => ⟨S2x512, .f32⟩
  | 30 => ⟨S2x512x512, .f32⟩
  | 31 => ⟨S2x512, .f32⟩
  | 32 => ⟨S2x512x128, .f32⟩
  | 33 => ⟨S2x128, .f32⟩
  | 34 => ⟨S128x128, .f32⟩
  | 35 => ⟨S128, .f32⟩
  | 36 => ⟨S128x3, .f32⟩
  | 37 => ⟨S3, .f32⟩
  | 38 => ⟨S1x80000, .i32⟩
  | 39 => ⟨S80000, .i32⟩
  | 40 => ⟨S1x80000, .i32⟩
  | 41 => ⟨S80000, .i32⟩
  | 42 => ⟨S_, .f32⟩
  | 43 => ⟨S5000x1, .f32⟩
  | 44 => ⟨S_, .f32⟩
  | 45 => ⟨S64x1, .f32⟩
  | 46 => ⟨S5000x1, .i32⟩
  | 47 => ⟨S64x1, .f32⟩
  | 48 => ⟨S_, .f32⟩
  | 49 => ⟨S64x1, .f32⟩
  | 50 => ⟨S64x1, .f32⟩
  | 51 => ⟨S5000x3, .bf16⟩
  | 52 => ⟨S3x128, .bf16⟩
  | 53 => ⟨S128x128, .bf16⟩
  | 54 => ⟨S1x128, .f32⟩
  | 55 => ⟨S1x128, .f32⟩
  | 56 => ⟨S5000x128, .f32⟩
  | 57 => ⟨S_, .i32⟩
  | 58 => ⟨S80000, .i32⟩
  | 59 => ⟨S80000, .i1⟩
  | 60 => ⟨S_, .i32⟩
  | 61 => ⟨S80000, .i32⟩
  | 62 => ⟨S80000, .i32⟩
  | 63 => ⟨S80000, .i32⟩
  | 64 => ⟨S80000x1, .i32⟩
  | 65 => ⟨S80000x3, .f32⟩
  | 66 => ⟨S_, .i32⟩
  | 67 => ⟨S80000, .i32⟩
  | 68 => ⟨S80000, .i1⟩
  | 69 => ⟨S_, .i32⟩
  | 70 => ⟨S80000, .i32⟩
  | 71 => ⟨S80000, .i32⟩
  | 72 => ⟨S80000, .i32⟩
  | 73 => ⟨S80000x1, .i32⟩
  | 74 => ⟨S80000x3, .f32⟩
  | 75 => ⟨S80000x3, .f32⟩
  | 76 => ⟨S80000x3, .f32⟩
  | 77 => ⟨S_, .f32⟩
  | 78 => ⟨S80000, .f32⟩
  | 79 => ⟨S80000x1, .f32⟩
  | 80 => ⟨S80000x1, .f32⟩
  | 81 => ⟨S80000x1, .bf16⟩
  | 82 => ⟨S1x128, .bf16⟩
  | 83 => ⟨S128x128, .bf16⟩
  | 84 => ⟨S1x128, .f32⟩
  | 85 => ⟨S1x128, .f32⟩
  | 86 => ⟨S80000x128, .bf16⟩
  | 87 => ⟨S5000x128, .bf16⟩
  | 88 => ⟨S64x128, .bf16⟩
  | 89 => ⟨S_, .i32⟩
  | 90 => ⟨S80000, .i32⟩
  | 91 => ⟨S80000, .i1⟩
  | 92 => ⟨S_, .i32⟩
  | 93 => ⟨S80000, .i32⟩
  | 94 => ⟨S80000, .i32⟩
  | 95 => ⟨S80000, .i32⟩
  | 96 => ⟨S80000x1, .i32⟩
  | 97 => ⟨S80000x128, .bf16⟩
  | 98 => ⟨S_, .i32⟩
  | 99 => ⟨S80000, .i32⟩
  | 100 => ⟨S80000, .i1⟩
  | 101 => ⟨S_, .i32⟩
  | 102 => ⟨S80000, .i32⟩
  | 103 => ⟨S80000, .i32⟩
  | 104 => ⟨S80000, .i32⟩
  | 105 => ⟨S80000x1, .i32⟩
  | 106 => ⟨S80000x128, .bf16⟩
  | 107 => ⟨S_, .i32⟩
  | 108 => ⟨S80000, .i32⟩
  | 109 => ⟨S80000, .i1⟩
  | 110 => ⟨S_, .i32⟩
  | 111 => ⟨S80000, .i32⟩
  | 112 => ⟨S80000, .i32⟩
  | 113 => ⟨S80000, .i32⟩
  | 114 => ⟨S80000x1, .i32⟩
  | 115 => ⟨S80000x128, .bf16⟩
  | 116 => ⟨S1x512x512, .f32⟩
  | 117 => ⟨S512x512, .f32⟩
  | 118 => ⟨S1x512, .f32⟩
  | 119 => ⟨S512, .f32⟩
  | 120 => ⟨S1x512x512, .f32⟩
  | 121 => ⟨S512x512, .f32⟩
  | 122 => ⟨S1x512, .f32⟩
  | 123 => ⟨S512, .f32⟩
  | 124 => ⟨S1x512x128, .f32⟩
  | 125 => ⟨S512x128, .f32⟩
  | 126 => ⟨S1x128, .f32⟩
  | 127 => ⟨S128, .f32⟩
  | _ => ⟨S5000x128, .f32⟩

abbrev hbmTy0_1 (i : Nat) : BufTy := match i % 128 with
  | 0 => ⟨S128x512, .f32⟩
  | 1 => ⟨S128x512, .bf16⟩
  | 2 => ⟨S128x512, .f32⟩
  | 3 => ⟨S128x512, .bf16⟩
  | 4 => ⟨S128x512, .f32⟩
  | 5 => ⟨S128x512, .bf16⟩
  | 6 => ⟨S128x512, .f32⟩
  | 7 => ⟨S128x512, .bf16⟩
  | 8 => ⟨S512x512, .bf16⟩
  | 9 => ⟨S512x128, .bf16⟩
  | 10 => ⟨S1x512, .f32⟩
  | 11 => ⟨S1x512, .f32⟩
  | 12 => ⟨S1x128, .f32⟩
  | 13 => ⟨S80000x128, .f32⟩
  | 14 => ⟨S80000x128, .f32⟩
  | 15 => ⟨S_, .f32⟩
  | 16 => ⟨S5000x128, .f32⟩
  | 17 => ⟨S80000x1, .i32⟩
  | 18 => ⟨S5000x128, .f32⟩
  | 19 => ⟨S_, .f32⟩
  | 20 => ⟨S5000x128, .f32⟩
  | 21 => ⟨S80000x1, .i32⟩
  | 22 => ⟨S5000x128, .f32⟩
  | 23 => ⟨S_, .i32⟩
  | 24 => ⟨S5000, .i32⟩
  | 25 => ⟨S5000, .i1⟩
  | 26 => ⟨S_, .i32⟩
  | 27 => ⟨S5000, .i32⟩
  | 28 => ⟨S5000, .i32⟩
  | 29 => ⟨S5000, .i32⟩
  | 30 => ⟨S5000x1, .i32⟩
  | 31 => ⟨S5000x128, .f32⟩
  | 32 => ⟨S5000x512, .f32⟩
  | 33 => ⟨S1x512x512, .f32⟩
  | 34 => ⟨S512x512, .f32⟩
  | 35 => ⟨S1x512, .f32⟩
  | 36 => ⟨S512, .f32⟩
  | 37 => ⟨S1x512x512, .f32⟩
  | 38 => ⟨S512x512, .f32⟩
  | 39 => ⟨S1x512, .f32⟩
  | 40 => ⟨S512, .f32⟩
  | 41 => ⟨S1x512x128, .f32⟩
  | 42 => ⟨S512x128, .f32⟩
  | 43 => ⟨S1x128, .f32⟩
  | 44 => ⟨S128, .f32⟩
  | 45 => ⟨S5000x512, .bf16⟩
  | 46 => ⟨S512x512, .bf16⟩
  | 47 => ⟨S512x512, .bf16⟩
  | 48 => ⟨S512x128, .bf16⟩
  | 49 => ⟨S1x512, .f32⟩
  | 50 => ⟨S1x512, .f32⟩
  | 51 => ⟨S1x128, .f32⟩
  | 52 => ⟨S5000x128, .f32⟩
  | 53 => ⟨S_, .f32⟩
  | 54 => ⟨S64x128, .f32⟩
  | 55 => ⟨S5000x1, .i32⟩
  | 56 => ⟨S64x128, .f32⟩
  | 57 => ⟨S_, .f32⟩
  | 58 => ⟨S64x128, .f32⟩
  | 59 => ⟨S80000x1, .i32⟩
  | 60 => ⟨S64x128, .f32⟩
  | 61 => ⟨S64x384, .f32⟩
  | 62 => ⟨S1x384x512, .f32⟩
  | 63 => ⟨S384x512, .f32⟩
  | 64 => ⟨S1x512, .f32⟩
  | 65 => ⟨S512, .f32⟩
  | 66 => ⟨S1x512x512, .f32⟩
  | 67 => ⟨S512x512, .f32⟩
  | 68 => ⟨S1x512, .f32⟩
  | 69 => ⟨S512, .f32⟩
  | 70 => ⟨S1x512x128, .f32⟩
  | 71 => ⟨S512x128, .f32⟩
  | 72 => ⟨S1x128, .f32⟩
  | 73 => ⟨S128, .f32⟩
  | 74 => ⟨S64x384, .bf16⟩
  | 75 => ⟨S384x512, .bf16⟩
  | 76 => ⟨S512x512, .bf16⟩
  | 77 => ⟨S512x128, .bf16⟩
  | 78 => ⟨S1x512, .f32⟩
  | 79 => ⟨S1x512, .f32⟩
  | 80 => ⟨S1x128, .f32⟩
  | 81 => ⟨S64x128, .f32⟩
  | 82 => ⟨S5000x128, .f32⟩
  | 83 => ⟨S64x128, .f32⟩
  | 84 => ⟨S5000x128, .bf16⟩
  | 85 => ⟨S128x128, .bf16⟩
  | 86 => ⟨S128x3, .bf16⟩
  | 87 => ⟨S1x128, .f32⟩
  | 88 => ⟨S1x3, .f32⟩
  | 89 => ⟨S5000x3, .f32⟩
  | 90 => ⟨S_, .f32⟩
  | 91 => ⟨S64x3, .f32⟩
  | 92 => ⟨S5000x1, .i32⟩
  | 93 => ⟨S64x3, .f32⟩
  | 94 => ⟨S64x3, .f32⟩
  | 95 => ⟨S64x3, .f32⟩
  | 96 => ⟨S_, .i32⟩
  | 97 => ⟨S5000, .i32⟩
  | 98 => ⟨S5000, .i1⟩
  | 99 => ⟨S_, .i32⟩
  | 100 => ⟨S5000, .i32⟩
  | 101 => ⟨S5000, .i32⟩
  | 102 => ⟨S5000, .i32⟩
  | 103 => ⟨S5000x1, .i32⟩
  | 104 => ⟨S5000x3, .f32⟩
  | 105 => ⟨S5000x3, .f32⟩
  | 106 => ⟨S5000x3, .bf16⟩
  | 107 => ⟨S3x128, .bf16⟩
  | 108 => ⟨S128x128, .bf16⟩
  | 109 => ⟨S1x128, .f32⟩
  | 110 => ⟨S1x128, .f32⟩
  | 111 => ⟨S5000x128, .f32⟩
  | 112 => ⟨S_, .i32⟩
  | 113 => ⟨S80000, .i32⟩
  | 114 => ⟨S80000, .i1⟩
  | 115 => ⟨S_, .i32⟩
  | 116 => ⟨S80000, .i32⟩
  | 117 => ⟨S80000, .i32⟩
  | 118 => ⟨S80000, .i32⟩
  | 119 => ⟨S80000x1, .i32⟩
  | 120 => ⟨S80000x3, .f32⟩
  | 121 => ⟨S_, .i32⟩
  | 122 => ⟨S80000, .i32⟩
  | 123 => ⟨S80000, .i1⟩
  | 124 => ⟨S_, .i32⟩
  | 125 => ⟨S80000, .i32⟩
  | 126 => ⟨S80000, .i32⟩
  | 127 => ⟨S80000, .i32⟩
  | _ => ⟨S5000x128, .f32⟩

abbrev hbmTy0_2 (i : Nat) : BufTy := match i % 128 with
  | 0 => ⟨S80000x1, .i32⟩
  | 1 => ⟨S80000x3, .f32⟩
  | 2 => ⟨S80000x3, .f32⟩
  | 3 => ⟨S80000x3, .f32⟩
  | 4 => ⟨S_, .f32⟩
  | 5 => ⟨S80000, .f32⟩
  | 6 => ⟨S80000x1, .f32⟩
  | 7 => ⟨S80000x1, .f32⟩
  | 8 => ⟨S80000x1, .bf16⟩
  | 9 => ⟨S1x128, .bf16⟩
  | 10 => ⟨S128x128, .bf16⟩
  | 11 => ⟨S1x128, .f32⟩
  | 12 => ⟨S1x128, .f32⟩
  | 13 => ⟨S80000x128, .bf16⟩
  | 14 => ⟨S5000x128, .bf16⟩
  | 15 => ⟨S64x128, .bf16⟩
  | 16 => ⟨S_, .i32⟩
  | 17 => ⟨S80000, .i32⟩
  | 18 => ⟨S80000, .i1⟩
  | 19 => ⟨S_, .i32⟩
  | 20 => ⟨S80000, .i32⟩
  | 21 => ⟨S80000, .i32⟩
  | 22 => ⟨S80000, .i32⟩
  | 23 => ⟨S80000x1, .i32⟩
  | 24 => ⟨S80000x128, .bf16⟩
  | 25 => ⟨S_, .i32⟩
  | 26 => ⟨S80000, .i32⟩
  | 27 => ⟨S80000, .i1⟩
  | 28 => ⟨S_, .i32⟩
  | 29 => ⟨S80000, .i32⟩
  | 30 => ⟨S80000, .i32⟩
  | 31 => ⟨S80000, .i32⟩
  | 32 => ⟨S80000x1, .i32⟩
  | 33 => ⟨S80000x128, .bf16⟩
  | 34 => ⟨S_, .i32⟩
  | 35 => ⟨S80000, .i32⟩
  | 36 => ⟨S80000, .i1⟩
  | 37 => ⟨S_, .i32⟩
  | 38 => ⟨S80000, .i32⟩
  | 39 => ⟨S80000, .i32⟩
  | 40 => ⟨S80000, .i32⟩
  | 41 => ⟨S80000x1, .i32⟩
  | 42 => ⟨S80000x128, .bf16⟩
  | 43 => ⟨S1x512x512, .f32⟩
  | 44 => ⟨S512x512, .f32⟩
  | 45 => ⟨S1x512, .f32⟩
  | 46 => ⟨S512, .f32⟩
  | 47 => ⟨S1x512x512, .f32⟩
  | 48 => ⟨S512x512, .f32⟩
  | 49 => ⟨S1x512, .f32⟩
  | 50 => ⟨S512, .f32⟩
  | 51 => ⟨S1x512x128, .f32⟩
  | 52 => ⟨S512x128, .f32⟩
  | 53 => ⟨S1x128, .f32⟩
  | 54 => ⟨S128, .f32⟩
  | 55 => ⟨S128x512, .f32⟩
  | 56 => ⟨S128x512, .bf16⟩
  | 57 => ⟨S128x512, .f32⟩
  | 58 => ⟨S128x512, .bf16⟩
  | 59 => ⟨S128x512, .f32⟩
  | 60 => ⟨S128x512, .bf16⟩
  | 61 => ⟨S128x512, .f32⟩
  | 62 => ⟨S128x512, .bf16⟩
  | 63 => ⟨S512x512, .bf16⟩
  | 64 => ⟨S512x128, .bf16⟩
  | 65 => ⟨S1x512, .f32⟩
  | 66 => ⟨S1x512, .f32⟩
  | 67 => ⟨S1x128, .f32⟩
  | 68 => ⟨S80000x128, .f32⟩
  | 69 => ⟨S80000x128, .f32⟩
  | 70 => ⟨S_, .f32⟩
  | 71 => ⟨S5000x128, .f32⟩
  | 72 => ⟨S80000x1, .i32⟩
  | 73 => ⟨S5000x128, .f32⟩
  | 74 => ⟨S_, .f32⟩
  | 75 => ⟨S5000x128, .f32⟩
  | 76 => ⟨S80000x1, .i32⟩
  | 77 => ⟨S5000x128, .f32⟩
  | 78 => ⟨S_, .i32⟩
  | 79 => ⟨S5000, .i32⟩
  | 80 => ⟨S5000, .i1⟩
  | 81 => ⟨S_, .i32⟩
  | 82 => ⟨S5000, .i32⟩
  | 83 => ⟨S5000, .i32⟩
  | 84 => ⟨S5000, .i32⟩
  | 85 => ⟨S5000x1, .i32⟩
  | 86 => ⟨S5000x128, .f32⟩
  | 87 => ⟨S5000x512, .f32⟩
  | 88 => ⟨S1x512x512, .f32⟩
  | 89 => ⟨S512x512, .f32⟩
  | 90 => ⟨S1x512, .f32⟩
  | 91 => ⟨S512, .f32⟩
  | 92 => ⟨S1x512x512, .f32⟩
  | 93 => ⟨S512x512, .f32⟩
  | 94 => ⟨S1x512, .f32⟩
  | 95 => ⟨S512, .f32⟩
  | 96 => ⟨S1x512x128, .f32⟩
  | 97 => ⟨S512x128, .f32⟩
  | 98 => ⟨S1x128, .f32⟩
  | 99 => ⟨S128, .f32⟩
  | 100 => ⟨S5000x512, .bf16⟩
  | 101 => ⟨S512x512, .bf16⟩
  | 102 => ⟨S512x512, .bf16⟩
  | 103 => ⟨S512x128, .bf16⟩
  | 104 => ⟨S1x512, .f32⟩
  | 105 => ⟨S1x512, .f32⟩
  | 106 => ⟨S1x128, .f32⟩
  | 107 => ⟨S5000x128, .f32⟩
  | 108 => ⟨S_, .f32⟩
  | 109 => ⟨S64x128, .f32⟩
  | 110 => ⟨S5000x1, .i32⟩
  | 111 => ⟨S64x128, .f32⟩
  | 112 => ⟨S_, .f32⟩
  | 113 => ⟨S64x128, .f32⟩
  | 114 => ⟨S80000x1, .i32⟩
  | 115 => ⟨S64x128, .f32⟩
  | 116 => ⟨S64x384, .f32⟩
  | 117 => ⟨S1x384x512, .f32⟩
  | 118 => ⟨S384x512, .f32⟩
  | 119 => ⟨S1x512, .f32⟩
  | 120 => ⟨S512, .f32⟩
  | 121 => ⟨S1x512x512, .f32⟩
  | 122 => ⟨S512x512, .f32⟩
  | 123 => ⟨S1x512, .f32⟩
  | 124 => ⟨S512, .f32⟩
  | 125 => ⟨S1x512x128, .f32⟩
  | 126 => ⟨S512x128, .f32⟩
  | 127 => ⟨S1x128, .f32⟩
  | _ => ⟨S5000x128, .f32⟩

abbrev hbmTy0_3 (i : Nat) : BufTy := match i % 128 with
  | 0 => ⟨S128, .f32⟩
  | 1 => ⟨S64x384, .bf16⟩
  | 2 => ⟨S384x512, .bf16⟩
  | 3 => ⟨S512x512, .bf16⟩
  | 4 => ⟨S512x128, .bf16⟩
  | 5 => ⟨S1x512, .f32⟩
  | 6 => ⟨S1x512, .f32⟩
  | 7 => ⟨S1x128, .f32⟩
  | 8 => ⟨S64x128, .f32⟩
  | 9 => ⟨S5000x128, .f32⟩
  | 10 => ⟨S64x128, .f32⟩
  | 11 => ⟨S5000x128, .bf16⟩
  | 12 => ⟨S128x128, .bf16⟩
  | 13 => ⟨S128x3, .bf16⟩
  | 14 => ⟨S1x128, .f32⟩
  | 15 => ⟨S1x3, .f32⟩
  | 16 => ⟨S5000x3, .f32⟩
  | 17 => ⟨S_, .f32⟩
  | 18 => ⟨S64x3, .f32⟩
  | 19 => ⟨S5000x1, .i32⟩
  | 20 => ⟨S64x3, .f32⟩
  | 21 => ⟨S64x3, .f32⟩
  | 22 => ⟨S64x3, .f32⟩
  | 23 => ⟨S_, .i32⟩
  | 24 => ⟨S5000, .i32⟩
  | 25 => ⟨S5000, .i1⟩
  | 26 => ⟨S_, .i32⟩
  | 27 => ⟨S5000, .i32⟩
  | 28 => ⟨S5000, .i32⟩
  | 29 => ⟨S5000, .i32⟩
  | 30 => ⟨S5000x1, .i32⟩
  | 31 => ⟨S5000x3, .f32⟩
  | 32 => ⟨S5000x3, .f32⟩
  | 33 => ⟨S5000x3, .bf16⟩
  | 34 => ⟨S3x128, .bf16⟩
  | 35 => ⟨S128x128, .bf16⟩
  | 36 => ⟨S1x128, .f32⟩
  | 37 => ⟨S1x128, .f32⟩
  | 38 => ⟨S5000x128, .f32⟩
  | 39 => ⟨S_, .i32⟩
  | 40 => ⟨S80000, .i32⟩
  | 41 => ⟨S80000, .i1⟩
  | 42 => ⟨S_, .i32⟩
  | 43 => ⟨S80000, .i32⟩
  | 44 => ⟨S80000, .i32⟩
  | 45 => ⟨S80000, .i32⟩
  | 46 => ⟨S80000x1, .i32⟩
  | 47 => ⟨S80000x3, .f32⟩
  | 48 => ⟨S_, .i32⟩
  | 49 => ⟨S80000, .i32⟩
  | 50 => ⟨S80000, .i1⟩
  | 51 => ⟨S_, .i32⟩
  | 52 => ⟨S80000, .i32⟩
  | 53 => ⟨S80000, .i32⟩
  | 54 => ⟨S80000, .i32⟩
  | 55 => ⟨S80000x1, .i32⟩
  | 56 => ⟨S80000x3, .f32⟩
  | 57 => ⟨S80000x3, .f32⟩
  | 58 => ⟨S80000x3, .f32⟩
  | 59 => ⟨S_, .f32⟩
  | 60 => ⟨S80000, .f32⟩
  | 61 => ⟨S80000x1, .f32⟩
  | 62 => ⟨S80000x1, .f32⟩
  | 63 => ⟨S80000x1, .bf16⟩
  | 64 => ⟨S1x128, .bf16⟩
  | 65 => ⟨S128x128, .bf16⟩
  | 66 => ⟨S1x128, .f32⟩
  | 67 => ⟨S1x128, .f32⟩
  | 68 => ⟨S80000x128, .bf16⟩
  | 69 => ⟨S5000x128, .bf16⟩
  | 70 => ⟨S64x128, .bf16⟩
  | 71 => ⟨S_, .i32⟩
  | 72 => ⟨S80000, .i32⟩
  | 73 => ⟨S80000, .i1⟩
  | 74 => ⟨S_, .i32⟩
  | 75 => ⟨S80000, .i32⟩
  | 76 => ⟨S80000, .i32⟩
  | 77 => ⟨S80000, .i32⟩
  | 78 => ⟨S80000x1, .i32⟩
  | 79 => ⟨S80000x128, .bf16⟩
  | 80 => ⟨S_, .i32⟩
  | 81 => ⟨S80000, .i32⟩
  | 82 => ⟨S80000, .i1⟩
  | 83 => ⟨S_, .i32⟩
  | 84 => ⟨S80000, .i32⟩
  | 85 => ⟨S80000, .i32⟩
  | 86 => ⟨S80000, .i32⟩
  | 87 => ⟨S80000x1, .i32⟩
  | 88 => ⟨S80000x128, .bf16⟩
  | 89 => ⟨S_, .i32⟩
  | 90 => ⟨S80000, .i32⟩
  | 91 => ⟨S80000, .i1⟩
  | 92 => ⟨S_, .i32⟩
  | 93 => ⟨S80000, .i32⟩
  | 94 => ⟨S80000, .i32⟩
  | 95 => ⟨S80000, .i32⟩
  | 96 => ⟨S80000x1, .i32⟩
  | 97 => ⟨S80000x128, .bf16⟩
  | 98 => ⟨S1x512x512, .f32⟩
  | 99 => ⟨S512x512, .f32⟩
  | 100 => ⟨S1x512, .f32⟩
  | 101 => ⟨S512, .f32⟩
  | 102 => ⟨S1x512x512, .f32⟩
  | 103 => ⟨S512x512, .f32⟩
  | 104 => ⟨S1x512, .f32⟩
  | 105 => ⟨S512, .f32⟩
  | 106 => ⟨S1x512x128, .f32⟩
  | 107 => ⟨S512x128, .f32⟩
  | 108 => ⟨S1x128, .f32⟩
  | 109 => ⟨S128, .f32⟩
  | 110 => ⟨S128x512, .f32⟩
  | 111 => ⟨S128x512, .bf16⟩
  | 112 => ⟨S128x512, .f32⟩
  | 113 => ⟨S128x512, .bf16⟩
  | 114 => ⟨S128x512, .f32⟩
  | 115 => ⟨S128x512, .bf16⟩
  | 116 => ⟨S128x512, .f32⟩
  | 117 => ⟨S128x512, .bf16⟩
  | 118 => ⟨S512x512, .bf16⟩
  | 119 => ⟨S512x128, .bf16⟩
  | 120 => ⟨S1x512, .f32⟩
  | 121 => ⟨S1x512, .f32⟩
  | 122 => ⟨S1x128, .f32⟩
  | 123 => ⟨S80000x128, .f32⟩
  | 124 => ⟨S80000x128, .f32⟩
  | 125 => ⟨S_, .f32⟩
  | 126 => ⟨S5000x128, .f32⟩
  | 127 => ⟨S80000x1, .i32⟩
  | _ => ⟨S5000x128, .f32⟩

abbrev hbmTy0_4 (i : Nat) : BufTy := match i % 128 with
  | 0 => ⟨S5000x128, .f32⟩
  | 1 => ⟨S_, .f32⟩
  | 2 => ⟨S5000x128, .f32⟩
  | 3 => ⟨S80000x1, .i32⟩
  | 4 => ⟨S5000x128, .f32⟩
  | 5 => ⟨S_, .i32⟩
  | 6 => ⟨S5000, .i32⟩
  | 7 => ⟨S5000, .i1⟩
  | 8 => ⟨S_, .i32⟩
  | 9 => ⟨S5000, .i32⟩
  | 10 => ⟨S5000, .i32⟩
  | 11 => ⟨S5000, .i32⟩
  | 12 => ⟨S5000x1, .i32⟩
  | 13 => ⟨S5000x128, .f32⟩
  | 14 => ⟨S5000x512, .f32⟩
  | 15 => ⟨S1x512x512, .f32⟩
  | 16 => ⟨S512x512, .f32⟩
  | 17 => ⟨S1x512, .f32⟩
  | 18 => ⟨S512, .f32⟩
  | 19 => ⟨S1x512x512, .f32⟩
  | 20 => ⟨S512x512, .f32⟩
  | 21 => ⟨S1x512, .f32⟩
  | 22 => ⟨S512, .f32⟩
  | 23 => ⟨S1x512x128, .f32⟩
  | 24 => ⟨S512x128, .f32⟩
  | 25 => ⟨S1x128, .f32⟩
  | 26 => ⟨S128, .f32⟩
  | 27 => ⟨S5000x512, .bf16⟩
  | 28 => ⟨S512x512, .bf16⟩
  | 29 => ⟨S512x512, .bf16⟩
  | 30 => ⟨S512x128, .bf16⟩
  | 31 => ⟨S1x512, .f32⟩
  | 32 => ⟨S1x512, .f32⟩
  | 33 => ⟨S1x128, .f32⟩
  | 34 => ⟨S5000x128, .f32⟩
  | 35 => ⟨S5000x128, .f32⟩
  | 36 => ⟨S64x128, .f32⟩
  | 37 => ⟨S5000x128, .bf16⟩
  | 38 => ⟨S128x128, .bf16⟩
  | 39 => ⟨S128x3, .bf16⟩
  | 40 => ⟨S1x128, .f32⟩
  | 41 => ⟨S1x3, .f32⟩
  | 42 => ⟨S5000x3, .f32⟩
  | 43 => ⟨S_, .f32⟩
  | 44 => ⟨S64x3, .f32⟩
  | 45 => ⟨S5000x1, .i32⟩
  | 46 => ⟨S64x3, .f32⟩
  | 47 => ⟨S64x3, .f32⟩
  | 48 => ⟨S64x3, .f32⟩
  | 49 => ⟨S_, .i32⟩
  | 50 => ⟨S5000, .i32⟩
  | 51 => ⟨S5000, .i1⟩
  | 52 => ⟨S_, .i32⟩
  | 53 => ⟨S5000, .i32⟩
  | 54 => ⟨S5000, .i32⟩
  | 55 => ⟨S5000, .i32⟩
  | 56 => ⟨S5000x1, .i32⟩
  | 57 => ⟨S5000x3, .f32⟩
  | 58 => ⟨S5000x3, .f32⟩
  | 59 => ⟨S1x5000x3, .f32⟩
  | 60 => ⟨S1x5000x3, .f32⟩
  | 61 => ⟨S1x5000x3, .f32⟩
  | 62 => ⟨S3x5000x3, .f32⟩
  | _ => ⟨S5000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S5000x128, .f32⟩

abbrev vmemTy0_0 (i : Nat) : BufTy := match i % 128 with
  | 0 => ⟨S1000x3, .bf16⟩
  | 1 => ⟨S1000x3, .bf16⟩
  | 2 => ⟨S1000x128, .f32⟩
  | 3 => ⟨S1000x128, .f32⟩
  | 4 => ⟨S3x128, .bf16⟩
  | 5 => ⟨S1x128, .f32⟩
  | 6 => ⟨S128x128, .bf16⟩
  | 7 => ⟨S1x128, .f32⟩
  | 8 => ⟨S1000x128, .f32⟩
  | 9 => ⟨S1000x128, .f32⟩
  | 10 => ⟨S4000x1, .bf16⟩
  | 11 => ⟨S4000x1, .bf16⟩
  | 12 => ⟨S4000x128, .f32⟩
  | 13 => ⟨S4000x128, .f32⟩
  | 14 => ⟨S1x128, .bf16⟩
  | 15 => ⟨S1x128, .f32⟩
  | 16 => ⟨S128x128, .bf16⟩
  | 17 => ⟨S1x128, .f32⟩
  | 18 => ⟨S4000x128, .bf16⟩
  | 19 => ⟨S4000x128, .bf16⟩
  | 20 => ⟨S2000x128, .bf16⟩
  | 21 => ⟨S2000x128, .bf16⟩
  | 22 => ⟨S2000x128, .bf16⟩
  | 23 => ⟨S2000x128, .bf16⟩
  | 24 => ⟨S2000x128, .bf16⟩
  | 25 => ⟨S2000x128, .bf16⟩
  | 26 => ⟨S2000x128, .bf16⟩
  | 27 => ⟨S2000x128, .bf16⟩
  | 28 => ⟨S2000x128, .f32⟩
  | 29 => ⟨S2000x128, .f32⟩
  | 30 => ⟨S128x512, .bf16⟩
  | 31 => ⟨S128x512, .bf16⟩
  | 32 => ⟨S128x512, .bf16⟩
  | 33 => ⟨S128x512, .bf16⟩
  | 34 => ⟨S1x512, .f32⟩
  | 35 => ⟨S512x512, .bf16⟩
  | 36 => ⟨S1x512, .f32⟩
  | 37 => ⟨S512x128, .bf16⟩
  | 38 => ⟨S1x128, .f32⟩
  | 39 => ⟨S2000x128, .f32⟩
  | 40 => ⟨S2000x128, .f32⟩
  | 41 => ⟨S2000x128, .f32⟩
  | 42 => ⟨S2000x128, .f32⟩
  | 43 => ⟨S1000x512, .bf16⟩
  | 44 => ⟨S1000x512, .bf16⟩
  | 45 => ⟨S512x512, .bf16⟩
  | 46 => ⟨S1x512, .f32⟩
  | 47 => ⟨S512x512, .bf16⟩
  | 48 => ⟨S1x512, .f32⟩
  | 49 => ⟨S512x128, .bf16⟩
  | 50 => ⟨S1x128, .f32⟩
  | 51 => ⟨S1000x128, .f32⟩
  | 52 => ⟨S1000x128, .f32⟩
  | 53 => ⟨S64x384, .bf16⟩
  | 54 => ⟨S384x512, .bf16⟩
  | 55 => ⟨S1x512, .f32⟩
  | 56 => ⟨S512x512, .bf16⟩
  | 57 => ⟨S1x512, .f32⟩
  | 58 => ⟨S512x128, .bf16⟩
  | 59 => ⟨S1x128, .f32⟩
  | 60 => ⟨S64x128, .f32⟩
  | 61 => ⟨S1000x128, .bf16⟩
  | 62 => ⟨S1000x128, .bf16⟩
  | 63 => ⟨S1000x3, .f32⟩
  | 64 => ⟨S1000x3, .f32⟩
  | 65 => ⟨S128x128, .bf16⟩
  | 66 => ⟨S1x128, .f32⟩
  | 67 => ⟨S128x3, .bf16⟩
  | 68 => ⟨S1x3, .f32⟩
  | 69 => ⟨S1000x3, .f32⟩
  | 70 => ⟨S1000x3, .f32⟩
  | 71 => ⟨S1000x3, .bf16⟩
  | 72 => ⟨S1000x3, .bf16⟩
  | 73 => ⟨S1000x128, .f32⟩
  | 74 => ⟨S1000x128, .f32⟩
  | 75 => ⟨S3x128, .bf16⟩
  | 76 => ⟨S1x128, .f32⟩
  | 77 => ⟨S128x128, .bf16⟩
  | 78 => ⟨S1x128, .f32⟩
  | 79 => ⟨S1000x128, .f32⟩
  | 80 => ⟨S1000x128, .f32⟩
  | 81 => ⟨S4000x1, .bf16⟩
  | 82 => ⟨S4000x1, .bf16⟩
  | 83 => ⟨S4000x128, .f32⟩
  | 84 => ⟨S4000x128, .f32⟩
  | 85 => ⟨S1x128, .bf16⟩
  | 86 => ⟨S1x128, .f32⟩
  | 87 => ⟨S128x128, .bf16⟩
  | 88 => ⟨S1x128, .f32⟩
  | 89 => ⟨S4000x128, .bf16⟩
  | 90 => ⟨S4000x128, .bf16⟩
  | 91 => ⟨S2000x128, .bf16⟩
  | 92 => ⟨S2000x128, .bf16⟩
  | 93 => ⟨S2000x128, .bf16⟩
  | 94 => ⟨S2000x128, .bf16⟩
  | 95 => ⟨S2000x128, .bf16⟩
  | 96 => ⟨S2000x128, .bf16⟩
  | 97 => ⟨S2000x128, .bf16⟩
  | 98 => ⟨S2000x128, .bf16⟩
  | 99 => ⟨S2000x128, .f32⟩
  | 100 => ⟨S2000x128, .f32⟩
  | 101 => ⟨S128x512, .bf16⟩
  | 102 => ⟨S128x512, .bf16⟩
  | 103 => ⟨S128x512, .bf16⟩
  | 104 => ⟨S128x512, .bf16⟩
  | 105 => ⟨S1x512, .f32⟩
  | 106 => ⟨S512x512, .bf16⟩
  | 107 => ⟨S1x512, .f32⟩
  | 108 => ⟨S512x128, .bf16⟩
  | 109 => ⟨S1x128, .f32⟩
  | 110 => ⟨S2000x128, .f32⟩
  | 111 => ⟨S2000x128, .f32⟩
  | 112 => ⟨S2000x128, .f32⟩
  | 113 => ⟨S2000x128, .f32⟩
  | 114 => ⟨S1000x512, .bf16⟩
  | 115 => ⟨S1000x512, .bf16⟩
  | 116 => ⟨S512x512, .bf16⟩
  | 117 => ⟨S1x512, .f32⟩
  | 118 => ⟨S512x512, .bf16⟩
  | 119 => ⟨S1x512, .f32⟩
  | 120 => ⟨S512x128, .bf16⟩
  | 121 => ⟨S1x128, .f32⟩
  | 122 => ⟨S1000x128, .f32⟩
  | 123 => ⟨S1000x128, .f32⟩
  | 124 => ⟨S64x384, .bf16⟩
  | 125 => ⟨S384x512, .bf16⟩
  | 126 => ⟨S1x512, .f32⟩
  | 127 => ⟨S512x512, .bf16⟩
  | _ => ⟨S5000x128, .f32⟩

abbrev vmemTy0_1 (i : Nat) : BufTy := match i % 128 with
  | 0 => ⟨S1x512, .f32⟩
  | 1 => ⟨S512x128, .bf16⟩
  | 2 => ⟨S1x128, .f32⟩
  | 3 => ⟨S64x128, .f32⟩
  | 4 => ⟨S1000x128, .bf16⟩
  | 5 => ⟨S1000x128, .bf16⟩
  | 6 => ⟨S1000x3, .f32⟩
  | 7 => ⟨S1000x3, .f32⟩
  | 8 => ⟨S128x128, .bf16⟩
  | 9 => ⟨S1x128, .f32⟩
  | 10 => ⟨S128x3, .bf16⟩
  | 11 => ⟨S1x3, .f32⟩
  | 12 => ⟨S1000x3, .f32⟩
  | 13 => ⟨S1000x3, .f32⟩
  | 14 => ⟨S1000x3, .bf16⟩
  | 15 => ⟨S1000x3, .bf16⟩
  | 16 => ⟨S1000x128, .f32⟩
  | 17 => ⟨S1000x128, .f32⟩
  | 18 => ⟨S3x128, .bf16⟩
  | 19 => ⟨S1x128, .f32⟩
  | 20 => ⟨S128x128, .bf16⟩
  | 21 => ⟨S1x128, .f32⟩
  | 22 => ⟨S1000x128, .f32⟩
  | 23 => ⟨S1000x128, .f32⟩
  | 24 => ⟨S4000x1, .bf16⟩
  | 25 => ⟨S4000x1, .bf16⟩
  | 26 => ⟨S4000x128, .f32⟩
  | 27 => ⟨S4000x128, .f32⟩
  | 28 => ⟨S1x128, .bf16⟩
  | 29 => ⟨S1x128, .f32⟩
  | 30 => ⟨S128x128, .bf16⟩
  | 31 => ⟨S1x128, .f32⟩
  | 32 => ⟨S4000x128, .bf16⟩
  | 33 => ⟨S4000x128, .bf16⟩
  | 34 => ⟨S2000x128, .bf16⟩
  | 35 => ⟨S2000x128, .bf16⟩
  | 36 => ⟨S2000x128, .bf16⟩
  | 37 => ⟨S2000x128, .bf16⟩
  | 38 => ⟨S2000x128, .bf16⟩
  | 39 => ⟨S2000x128, .bf16⟩
  | 40 => ⟨S2000x128, .bf16⟩
  | 41 => ⟨S2000x128, .bf16⟩
  | 42 => ⟨S2000x128, .f32⟩
  | 43 => ⟨S2000x128, .f32⟩
  | 44 => ⟨S128x512, .bf16⟩
  | 45 => ⟨S128x512, .bf16⟩
  | 46 => ⟨S128x512, .bf16⟩
  | 47 => ⟨S128x512, .bf16⟩
  | 48 => ⟨S1x512, .f32⟩
  | 49 => ⟨S512x512, .bf16⟩
  | 50 => ⟨S1x512, .f32⟩
  | 51 => ⟨S512x128, .bf16⟩
  | 52 => ⟨S1x128, .f32⟩
  | 53 => ⟨S2000x128, .f32⟩
  | 54 => ⟨S2000x128, .f32⟩
  | 55 => ⟨S2000x128, .f32⟩
  | 56 => ⟨S2000x128, .f32⟩
  | 57 => ⟨S1000x512, .bf16⟩
  | 58 => ⟨S1000x512, .bf16⟩
  | 59 => ⟨S512x512, .bf16⟩
  | 60 => ⟨S1x512, .f32⟩
  | 61 => ⟨S512x512, .bf16⟩
  | 62 => ⟨S1x512, .f32⟩
  | 63 => ⟨S512x128, .bf16⟩
  | 64 => ⟨S1x128, .f32⟩
  | 65 => ⟨S1000x128, .f32⟩
  | 66 => ⟨S1000x128, .f32⟩
  | 67 => ⟨S1000x128, .bf16⟩
  | 68 => ⟨S1000x128, .bf16⟩
  | 69 => ⟨S1000x3, .f32⟩
  | 70 => ⟨S1000x3, .f32⟩
  | 71 => ⟨S128x128, .bf16⟩
  | 72 => ⟨S1x128, .f32⟩
  | 73 => ⟨S128x3, .bf16⟩
  | 74 => ⟨S1x3, .f32⟩
  | 75 => ⟨S1000x3, .f32⟩
  | 76 => ⟨S1000x3, .f32⟩
  | _ => ⟨S5000x128, .f32⟩

abbrev vmemTy (i : Nat) : BufTy := match i / 128 with
  | 0 => vmemTy0_0 i
  | 1 => vmemTy0_1 i
  | _ => ⟨S5000x128, .f32⟩

abbrev bufTy : (tb : Table) → Fin (tcTables nBuf tb) → BufTy
  | .hbm, ⟨i, _⟩ => hbmTy i
  | .local _ .vmem, ⟨i, _⟩ => vmemTy i
  | _, _ => ⟨S5000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 205 → Bool
  | ⟨i, _⟩ => dmaSemScopedAt i

abbrev sig : RefSig :=
  ofTc nBuf bufTy 0 205 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_cst : Ref sig .tc := ⟨.hbm, 42, rfl⟩
abbrev main_v4 : Ref sig .tc := ⟨.hbm, 43, rfl⟩
abbrev main_cst_0 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_cst_1 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_c : Ref sig .tc := ⟨.hbm, 57, rfl⟩
abbrev main_v16 : Ref sig .tc := ⟨.hbm, 58, rfl⟩
abbrev main_v17 : Ref sig .tc := ⟨.hbm, 59, rfl⟩
abbrev main_c_2 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_c_3 : Ref sig .tc := ⟨.hbm, 66, rfl⟩
abbrev main_v23 : Ref sig .tc := ⟨.hbm, 67, rfl⟩
abbrev main_v24 : Ref sig .tc := ⟨.hbm, 68, rfl⟩
abbrev main_c_4 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_call0_v0 : Ref sig .tc := ⟨.hbm, 76, rfl⟩
abbrev main_call0_cst : Ref sig .tc := ⟨.hbm, 77, rfl⟩
abbrev main_call0_v1 : Ref sig .tc := ⟨.hbm, 78, rfl⟩
abbrev main_call0_v2 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_c_5 : Ref sig .tc := ⟨.hbm, 89, rfl⟩
abbrev main_v40 : Ref sig .tc := ⟨.hbm, 90, rfl⟩
abbrev main_v41 : Ref sig .tc := ⟨.hbm, 91, rfl⟩
abbrev main_c_6 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_c_7 : Ref sig .tc := ⟨.hbm, 98, rfl⟩
abbrev main_v47 : Ref sig .tc := ⟨.hbm, 99, rfl⟩
abbrev main_v48 : Ref sig .tc := ⟨.hbm, 100, rfl⟩
abbrev main_c_8 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_c_9 : Ref sig .tc := ⟨.hbm, 107, rfl⟩
abbrev main_v54 : Ref sig .tc := ⟨.hbm, 108, rfl⟩
abbrev main_v55 : Ref sig .tc := ⟨.hbm, 109, rfl⟩
abbrev main_c_10 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86_0 : Ref sig .tc := ⟨.hbm, 141, rfl⟩
abbrev main_v86_1 : Ref sig .tc := ⟨.hbm, 142, rfl⟩
abbrev main_cst_11 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_cst_12 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_c_13 : Ref sig .tc := ⟨.hbm, 151, rfl⟩
abbrev main_v93 : Ref sig .tc := ⟨.hbm, 152, rfl⟩
abbrev main_v94 : Ref sig .tc := ⟨.hbm, 153, rfl⟩
abbrev main_c_14 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_cst_15 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_cst_16 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_cst_17 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_c_18 : Ref sig .tc := ⟨.hbm, 224, rfl⟩
abbrev main_v161 : Ref sig .tc := ⟨.hbm, 225, rfl⟩
abbrev main_v162 : Ref sig .tc := ⟨.hbm, 226, rfl⟩
abbrev main_c_19 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_c_20 : Ref sig .tc := ⟨.hbm, 240, rfl⟩
abbrev main_v175 : Ref sig .tc := ⟨.hbm, 241, rfl⟩
abbrev main_v176 : Ref sig .tc := ⟨.hbm, 242, rfl⟩
abbrev main_c_21 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_c_22 : Ref sig .tc := ⟨.hbm, 249, rfl⟩
abbrev main_v182 : Ref sig .tc := ⟨.hbm, 250, rfl⟩
abbrev main_v183 : Ref sig .tc := ⟨.hbm, 251, rfl⟩
abbrev main_c_23 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_call1_v0 : Ref sig .tc := ⟨.hbm, 259, rfl⟩
abbrev main_call1_cst : Ref sig .tc := ⟨.hbm, 260, rfl⟩
abbrev main_call1_v1 : Ref sig .tc := ⟨.hbm, 261, rfl⟩
abbrev main_call1_v2 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_c_24 : Ref sig .tc := ⟨.hbm, 272, rfl⟩
abbrev main_v199 : Ref sig .tc := ⟨.hbm, 273, rfl⟩
abbrev main_v200 : Ref sig .tc := ⟨.hbm, 274, rfl⟩
abbrev main_c_25 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_c_26 : Ref sig .tc := ⟨.hbm, 281, rfl⟩
abbrev main_v206 : Ref sig .tc := ⟨.hbm, 282, rfl⟩
abbrev main_v207 : Ref sig .tc := ⟨.hbm, 283, rfl⟩
abbrev main_c_27 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_c_28 : Ref sig .tc := ⟨.hbm, 290, rfl⟩
abbrev main_v213 : Ref sig .tc := ⟨.hbm, 291, rfl⟩
abbrev main_v214 : Ref sig .tc := ⟨.hbm, 292, rfl⟩
abbrev main_c_29 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_v231 : Ref sig .tc := ⟨.hbm, 310, rfl⟩
abbrev main_v232 : Ref sig .tc := ⟨.hbm, 311, rfl⟩
abbrev main_v233 : Ref sig .tc := ⟨.hbm, 312, rfl⟩
abbrev main_v234 : Ref sig .tc := ⟨.hbm, 313, rfl⟩
abbrev main_v235 : Ref sig .tc := ⟨.hbm, 314, rfl⟩
abbrev main_v236 : Ref sig .tc := ⟨.hbm, 315, rfl⟩
abbrev main_v237 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_v245_0 : Ref sig .tc := ⟨.hbm, 324, rfl⟩
abbrev main_v245_1 : Ref sig .tc := ⟨.hbm, 325, rfl⟩
abbrev main_cst_30 : Ref sig .tc := ⟨.hbm, 326, rfl⟩
abbrev main_v246 : Ref sig .tc := ⟨.hbm, 327, rfl⟩
abbrev main_v247 : Ref sig .tc := ⟨.hbm, 328, rfl⟩
abbrev main_v248 : Ref sig .tc := ⟨.hbm, 329, rfl⟩
abbrev main_cst_31 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_c_32 : Ref sig .tc := ⟨.hbm, 334, rfl⟩
abbrev main_v252 : Ref sig .tc := ⟨.hbm, 335, rfl⟩
abbrev main_v253 : Ref sig .tc := ⟨.hbm, 336, rfl⟩
abbrev main_c_33 : Ref sig .tc := ⟨.hbm, 337, rfl⟩
abbrev main_v254 : Ref sig .tc := ⟨.hbm, 338, rfl⟩
abbrev main_v255 : Ref sig .tc := ⟨.hbm, 339, rfl⟩
abbrev main_v256 : Ref sig .tc := ⟨.hbm, 340, rfl⟩
abbrev main_v257 : Ref sig .tc := ⟨.hbm, 341, rfl⟩
abbrev main_v258 : Ref sig .tc := ⟨.hbm, 342, rfl⟩
abbrev main_v259 : Ref sig .tc := ⟨.hbm, 343, rfl⟩
abbrev main_v260 : Ref sig .tc := ⟨.hbm, 344, rfl⟩
abbrev main_v261 : Ref sig .tc := ⟨.hbm, 345, rfl⟩
abbrev main_v262 : Ref sig .tc := ⟨.hbm, 346, rfl⟩
abbrev main_v263 : Ref sig .tc := ⟨.hbm, 347, rfl⟩
abbrev main_v264 : Ref sig .tc := ⟨.hbm, 348, rfl⟩
abbrev main_v265 : Ref sig .tc := ⟨.hbm, 349, rfl⟩
abbrev main_v266 : Ref sig .tc := ⟨.hbm, 350, rfl⟩
abbrev main_v267 : Ref sig .tc := ⟨.hbm, 351, rfl⟩
abbrev main_v268 : Ref sig .tc := ⟨.hbm, 352, rfl⟩
abbrev main_v269 : Ref sig .tc := ⟨.hbm, 353, rfl⟩
abbrev main_v270 : Ref sig .tc := ⟨.hbm, 354, rfl⟩
abbrev main_v271 : Ref sig .tc := ⟨.hbm, 355, rfl⟩
abbrev main_v272 : Ref sig .tc := ⟨.hbm, 356, rfl⟩
abbrev main_v273 : Ref sig .tc := ⟨.hbm, 357, rfl⟩
abbrev main_v274 : Ref sig .tc := ⟨.hbm, 358, rfl⟩
abbrev main_v275 : Ref sig .tc := ⟨.hbm, 359, rfl⟩
abbrev main_v276 : Ref sig .tc := ⟨.hbm, 360, rfl⟩
abbrev main_v277 : Ref sig .tc := ⟨.hbm, 361, rfl⟩
abbrev main_v278 : Ref sig .tc := ⟨.hbm, 362, rfl⟩
abbrev main_v279 : Ref sig .tc := ⟨.hbm, 363, rfl⟩
abbrev main_cst_34 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_cst_35 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_v287 : Ref sig .tc := ⟨.hbm, 373, rfl⟩
abbrev main_v288 : Ref sig .tc := ⟨.hbm, 374, rfl⟩
abbrev main_v289 : Ref sig .tc := ⟨.hbm, 375, rfl⟩
abbrev main_v290 : Ref sig .tc := ⟨.hbm, 376, rfl⟩
abbrev main_v291 : Ref sig .tc := ⟨.hbm, 377, rfl⟩
abbrev main_v292 : Ref sig .tc := ⟨.hbm, 378, rfl⟩
abbrev main_v293 : Ref sig .tc := ⟨.hbm, 379, rfl⟩
abbrev main_v294 : Ref sig .tc := ⟨.hbm, 380, rfl⟩
abbrev main_v295 : Ref sig .tc := ⟨.hbm, 381, rfl⟩
abbrev main_v296 : Ref sig .tc := ⟨.hbm, 382, rfl⟩
abbrev main_v297 : Ref sig .tc := ⟨.hbm, 383, rfl⟩
abbrev main_v298 : Ref sig .tc := ⟨.hbm, 384, rfl⟩
abbrev main_v299 : Ref sig .tc := ⟨.hbm, 385, rfl⟩
abbrev main_v300 : Ref sig .tc := ⟨.hbm, 386, rfl⟩
abbrev main_v301 : Ref sig .tc := ⟨.hbm, 387, rfl⟩
abbrev main_v302 : Ref sig .tc := ⟨.hbm, 388, rfl⟩
abbrev main_v303 : Ref sig .tc := ⟨.hbm, 389, rfl⟩
abbrev main_v304 : Ref sig .tc := ⟨.hbm, 390, rfl⟩
abbrev main_v305 : Ref sig .tc := ⟨.hbm, 391, rfl⟩
abbrev main_v306 : Ref sig .tc := ⟨.hbm, 392, rfl⟩
abbrev main_v307 : Ref sig .tc := ⟨.hbm, 393, rfl⟩
abbrev main_v308 : Ref sig .tc := ⟨.hbm, 394, rfl⟩
abbrev main_v309 : Ref sig .tc := ⟨.hbm, 395, rfl⟩
abbrev main_v310 : Ref sig .tc := ⟨.hbm, 396, rfl⟩
abbrev main_v311 : Ref sig .tc := ⟨.hbm, 397, rfl⟩
abbrev main_v312 : Ref sig .tc := ⟨.hbm, 398, rfl⟩
abbrev main_v313 : Ref sig .tc := ⟨.hbm, 399, rfl⟩
abbrev main_v314 : Ref sig .tc := ⟨.hbm, 400, rfl⟩
abbrev main_cst_36 : Ref sig .tc := ⟨.hbm, 401, rfl⟩
abbrev main_v315 : Ref sig .tc := ⟨.hbm, 402, rfl⟩
abbrev main_v316 : Ref sig .tc := ⟨.hbm, 403, rfl⟩
abbrev main_v317 : Ref sig .tc := ⟨.hbm, 404, rfl⟩
abbrev main_v318 : Ref sig .tc := ⟨.hbm, 405, rfl⟩
abbrev main_v319 : Ref sig .tc := ⟨.hbm, 406, rfl⟩
abbrev main_c_37 : Ref sig .tc := ⟨.hbm, 407, rfl⟩
abbrev main_v320 : Ref sig .tc := ⟨.hbm, 408, rfl⟩
abbrev main_v321 : Ref sig .tc := ⟨.hbm, 409, rfl⟩
abbrev main_c_38 : Ref sig .tc := ⟨.hbm, 410, rfl⟩
abbrev main_v322 : Ref sig .tc := ⟨.hbm, 411, rfl⟩
abbrev main_v323 : Ref sig .tc := ⟨.hbm, 412, rfl⟩
abbrev main_v324 : Ref sig .tc := ⟨.hbm, 413, rfl⟩
abbrev main_v325 : Ref sig .tc := ⟨.hbm, 414, rfl⟩
abbrev main_v326 : Ref sig .tc := ⟨.hbm, 415, rfl⟩
abbrev main_v327 : Ref sig .tc := ⟨.hbm, 416, rfl⟩
abbrev main_v328 : Ref sig .tc := ⟨.hbm, 417, rfl⟩
abbrev main_v329 : Ref sig .tc := ⟨.hbm, 418, rfl⟩
abbrev main_v330 : Ref sig .tc := ⟨.hbm, 419, rfl⟩
abbrev main_v331 : Ref sig .tc := ⟨.hbm, 420, rfl⟩
abbrev main_v332 : Ref sig .tc := ⟨.hbm, 421, rfl⟩
abbrev main_v333 : Ref sig .tc := ⟨.hbm, 422, rfl⟩
abbrev main_c_39 : Ref sig .tc := ⟨.hbm, 423, rfl⟩
abbrev main_v334 : Ref sig .tc := ⟨.hbm, 424, rfl⟩
abbrev main_v335 : Ref sig .tc := ⟨.hbm, 425, rfl⟩
abbrev main_c_40 : Ref sig .tc := ⟨.hbm, 426, rfl⟩
abbrev main_v336 : Ref sig .tc := ⟨.hbm, 427, rfl⟩
abbrev main_v337 : Ref sig .tc := ⟨.hbm, 428, rfl⟩
abbrev main_v338 : Ref sig .tc := ⟨.hbm, 429, rfl⟩
abbrev main_v339 : Ref sig .tc := ⟨.hbm, 430, rfl⟩
abbrev main_v340 : Ref sig .tc := ⟨.hbm, 431, rfl⟩
abbrev main_c_41 : Ref sig .tc := ⟨.hbm, 432, rfl⟩
abbrev main_v341 : Ref sig .tc := ⟨.hbm, 433, rfl⟩
abbrev main_v342 : Ref sig .tc := ⟨.hbm, 434, rfl⟩
abbrev main_c_42 : Ref sig .tc := ⟨.hbm, 435, rfl⟩
abbrev main_v343 : Ref sig .tc := ⟨.hbm, 436, rfl⟩
abbrev main_v344 : Ref sig .tc := ⟨.hbm, 437, rfl⟩
abbrev main_v345 : Ref sig .tc := ⟨.hbm, 438, rfl⟩
abbrev main_v346 : Ref sig .tc := ⟨.hbm, 439, rfl⟩
abbrev main_v347 : Ref sig .tc := ⟨.hbm, 440, rfl⟩
abbrev main_v348 : Ref sig .tc := ⟨.hbm, 441, rfl⟩
abbrev main_call2_v0 : Ref sig .tc := ⟨.hbm, 442, rfl⟩
abbrev main_call2_cst : Ref sig .tc := ⟨.hbm, 443, rfl⟩
abbrev main_call2_v1 : Ref sig .tc := ⟨.hbm, 444, rfl⟩
abbrev main_call2_v2 : Ref sig .tc := ⟨.hbm, 445, rfl⟩
abbrev main_v349 : Ref sig .tc := ⟨.hbm, 446, rfl⟩
abbrev main_v350 : Ref sig .tc := ⟨.hbm, 447, rfl⟩
abbrev main_v351 : Ref sig .tc := ⟨.hbm, 448, rfl⟩
abbrev main_v352 : Ref sig .tc := ⟨.hbm, 449, rfl⟩
abbrev main_v353 : Ref sig .tc := ⟨.hbm, 450, rfl⟩
abbrev main_v354 : Ref sig .tc := ⟨.hbm, 451, rfl⟩
abbrev main_v355 : Ref sig .tc := ⟨.hbm, 452, rfl⟩
abbrev main_v356 : Ref sig .tc := ⟨.hbm, 453, rfl⟩
abbrev main_v357 : Ref sig .tc := ⟨.hbm, 454, rfl⟩
abbrev main_c_43 : Ref sig .tc := ⟨.hbm, 455, rfl⟩
abbrev main_v358 : Ref sig .tc := ⟨.hbm, 456, rfl⟩
abbrev main_v359 : Ref sig .tc := ⟨.hbm, 457, rfl⟩
abbrev main_c_44 : Ref sig .tc := ⟨.hbm, 458, rfl⟩
abbrev main_v360 : Ref sig .tc := ⟨.hbm, 459, rfl⟩
abbrev main_v361 : Ref sig .tc := ⟨.hbm, 460, rfl⟩
abbrev main_v362 : Ref sig .tc := ⟨.hbm, 461, rfl⟩
abbrev main_v363 : Ref sig .tc := ⟨.hbm, 462, rfl⟩
abbrev main_v364 : Ref sig .tc := ⟨.hbm, 463, rfl⟩
abbrev main_c_45 : Ref sig .tc := ⟨.hbm, 464, rfl⟩
abbrev main_v365 : Ref sig .tc := ⟨.hbm, 465, rfl⟩
abbrev main_v366 : Ref sig .tc := ⟨.hbm, 466, rfl⟩
abbrev main_c_46 : Ref sig .tc := ⟨.hbm, 467, rfl⟩
abbrev main_v367 : Ref sig .tc := ⟨.hbm, 468, rfl⟩
abbrev main_v368 : Ref sig .tc := ⟨.hbm, 469, rfl⟩
abbrev main_v369 : Ref sig .tc := ⟨.hbm, 470, rfl⟩
abbrev main_v370 : Ref sig .tc := ⟨.hbm, 471, rfl⟩
abbrev main_v371 : Ref sig .tc := ⟨.hbm, 472, rfl⟩
abbrev main_c_47 : Ref sig .tc := ⟨.hbm, 473, rfl⟩
abbrev main_v372 : Ref sig .tc := ⟨.hbm, 474, rfl⟩
abbrev main_v373 : Ref sig .tc := ⟨.hbm, 475, rfl⟩
abbrev main_c_48 : Ref sig .tc := ⟨.hbm, 476, rfl⟩
abbrev main_v374 : Ref sig .tc := ⟨.hbm, 477, rfl⟩
abbrev main_v375 : Ref sig .tc := ⟨.hbm, 478, rfl⟩
abbrev main_v376 : Ref sig .tc := ⟨.hbm, 479, rfl⟩
abbrev main_v377 : Ref sig .tc := ⟨.hbm, 480, rfl⟩
abbrev main_v378 : Ref sig .tc := ⟨.hbm, 481, rfl⟩
abbrev main_v379 : Ref sig .tc := ⟨.hbm, 482, rfl⟩
abbrev main_v380 : Ref sig .tc := ⟨.hbm, 483, rfl⟩
abbrev main_v381 : Ref sig .tc := ⟨.hbm, 484, rfl⟩
abbrev main_v382 : Ref sig .tc := ⟨.hbm, 485, rfl⟩
abbrev main_v383 : Ref sig .tc := ⟨.hbm, 486, rfl⟩
abbrev main_v384 : Ref sig .tc := ⟨.hbm, 487, rfl⟩
abbrev main_v385 : Ref sig .tc := ⟨.hbm, 488, rfl⟩
abbrev main_v386 : Ref sig .tc := ⟨.hbm, 489, rfl⟩
abbrev main_v387 : Ref sig .tc := ⟨.hbm, 490, rfl⟩
abbrev main_v388 : Ref sig .tc := ⟨.hbm, 491, rfl⟩
abbrev main_v389 : Ref sig .tc := ⟨.hbm, 492, rfl⟩
abbrev main_v390 : Ref sig .tc := ⟨.hbm, 493, rfl⟩
abbrev main_v391 : Ref sig .tc := ⟨.hbm, 494, rfl⟩
abbrev main_v392 : Ref sig .tc := ⟨.hbm, 495, rfl⟩
abbrev main_v393 : Ref sig .tc := ⟨.hbm, 496, rfl⟩
abbrev main_v394 : Ref sig .tc := ⟨.hbm, 497, rfl⟩
abbrev main_v395 : Ref sig .tc := ⟨.hbm, 498, rfl⟩
abbrev main_v396 : Ref sig .tc := ⟨.hbm, 499, rfl⟩
abbrev main_v397 : Ref sig .tc := ⟨.hbm, 500, rfl⟩
abbrev main_v398 : Ref sig .tc := ⟨.hbm, 501, rfl⟩
abbrev main_v399 : Ref sig .tc := ⟨.hbm, 502, rfl⟩
abbrev main_v400 : Ref sig .tc := ⟨.hbm, 503, rfl⟩
abbrev main_v401 : Ref sig .tc := ⟨.hbm, 504, rfl⟩
abbrev main_v402 : Ref sig .tc := ⟨.hbm, 505, rfl⟩
abbrev main_v403 : Ref sig .tc := ⟨.hbm, 506, rfl⟩
abbrev main_v404_0 : Ref sig .tc := ⟨.hbm, 507, rfl⟩
abbrev main_v404_1 : Ref sig .tc := ⟨.hbm, 508, rfl⟩
abbrev main_cst_49 : Ref sig .tc := ⟨.hbm, 509, rfl⟩
abbrev main_v405 : Ref sig .tc := ⟨.hbm, 510, rfl⟩
abbrev main_v406 : Ref sig .tc := ⟨.hbm, 511, rfl⟩
abbrev main_v407 : Ref sig .tc := ⟨.hbm, 512, rfl⟩
abbrev main_cst_50 : Ref sig .tc := ⟨.hbm, 513, rfl⟩
abbrev main_v408 : Ref sig .tc := ⟨.hbm, 514, rfl⟩
abbrev main_v409 : Ref sig .tc := ⟨.hbm, 515, rfl⟩
abbrev main_v410 : Ref sig .tc := ⟨.hbm, 516, rfl⟩
abbrev main_c_51 : Ref sig .tc := ⟨.hbm, 517, rfl⟩
abbrev main_v411 : Ref sig .tc := ⟨.hbm, 518, rfl⟩
abbrev main_v412 : Ref sig .tc := ⟨.hbm, 519, rfl⟩
abbrev main_c_52 : Ref sig .tc := ⟨.hbm, 520, rfl⟩
abbrev main_v413 : Ref sig .tc := ⟨.hbm, 521, rfl⟩
abbrev main_v414 : Ref sig .tc := ⟨.hbm, 522, rfl⟩
abbrev main_v415 : Ref sig .tc := ⟨.hbm, 523, rfl⟩
abbrev main_v416 : Ref sig .tc := ⟨.hbm, 524, rfl⟩
abbrev main_v417 : Ref sig .tc := ⟨.hbm, 525, rfl⟩
abbrev main_v418 : Ref sig .tc := ⟨.hbm, 526, rfl⟩
abbrev main_v419 : Ref sig .tc := ⟨.hbm, 527, rfl⟩
abbrev main_v420 : Ref sig .tc := ⟨.hbm, 528, rfl⟩
abbrev main_v421 : Ref sig .tc := ⟨.hbm, 529, rfl⟩
abbrev main_v422 : Ref sig .tc := ⟨.hbm, 530, rfl⟩
abbrev main_v423 : Ref sig .tc := ⟨.hbm, 531, rfl⟩
abbrev main_v424 : Ref sig .tc := ⟨.hbm, 532, rfl⟩
abbrev main_v425 : Ref sig .tc := ⟨.hbm, 533, rfl⟩
abbrev main_v426 : Ref sig .tc := ⟨.hbm, 534, rfl⟩
abbrev main_v427 : Ref sig .tc := ⟨.hbm, 535, rfl⟩
abbrev main_v428 : Ref sig .tc := ⟨.hbm, 536, rfl⟩
abbrev main_v429 : Ref sig .tc := ⟨.hbm, 537, rfl⟩
abbrev main_v430 : Ref sig .tc := ⟨.hbm, 538, rfl⟩
abbrev main_v431 : Ref sig .tc := ⟨.hbm, 539, rfl⟩
abbrev main_v432 : Ref sig .tc := ⟨.hbm, 540, rfl⟩
abbrev main_v433 : Ref sig .tc := ⟨.hbm, 541, rfl⟩
abbrev main_v434 : Ref sig .tc := ⟨.hbm, 542, rfl⟩
abbrev main_v435 : Ref sig .tc := ⟨.hbm, 543, rfl⟩
abbrev main_v436 : Ref sig .tc := ⟨.hbm, 544, rfl⟩
abbrev main_v437 : Ref sig .tc := ⟨.hbm, 545, rfl⟩
abbrev main_v438 : Ref sig .tc := ⟨.hbm, 546, rfl⟩
abbrev main_v439 : Ref sig .tc := ⟨.hbm, 547, rfl⟩
abbrev main_v440 : Ref sig .tc := ⟨.hbm, 548, rfl⟩
abbrev main_v441 : Ref sig .tc := ⟨.hbm, 549, rfl⟩
abbrev main_v442 : Ref sig .tc := ⟨.hbm, 550, rfl⟩
abbrev main_v443 : Ref sig .tc := ⟨.hbm, 551, rfl⟩
abbrev main_v444 : Ref sig .tc := ⟨.hbm, 552, rfl⟩
abbrev main_v445 : Ref sig .tc := ⟨.hbm, 553, rfl⟩
abbrev main_v446 : Ref sig .tc := ⟨.hbm, 554, rfl⟩
abbrev main_cst_53 : Ref sig .tc := ⟨.hbm, 555, rfl⟩
abbrev main_v447 : Ref sig .tc := ⟨.hbm, 556, rfl⟩
abbrev main_v448 : Ref sig .tc := ⟨.hbm, 557, rfl⟩
abbrev main_v449 : Ref sig .tc := ⟨.hbm, 558, rfl⟩
abbrev main_v450 : Ref sig .tc := ⟨.hbm, 559, rfl⟩
abbrev main_v451 : Ref sig .tc := ⟨.hbm, 560, rfl⟩
abbrev main_c_54 : Ref sig .tc := ⟨.hbm, 561, rfl⟩
abbrev main_v452 : Ref sig .tc := ⟨.hbm, 562, rfl⟩
abbrev main_v453 : Ref sig .tc := ⟨.hbm, 563, rfl⟩
abbrev main_c_55 : Ref sig .tc := ⟨.hbm, 564, rfl⟩
abbrev main_v454 : Ref sig .tc := ⟨.hbm, 565, rfl⟩
abbrev main_v455 : Ref sig .tc := ⟨.hbm, 566, rfl⟩
abbrev main_v456 : Ref sig .tc := ⟨.hbm, 567, rfl⟩
abbrev main_v457 : Ref sig .tc := ⟨.hbm, 568, rfl⟩
abbrev main_v458 : Ref sig .tc := ⟨.hbm, 569, rfl⟩
abbrev main_v459 : Ref sig .tc := ⟨.hbm, 570, rfl⟩
abbrev main_v460 : Ref sig .tc := ⟨.hbm, 571, rfl⟩
abbrev main_v461 : Ref sig .tc := ⟨.hbm, 572, rfl⟩
abbrev main_v462 : Ref sig .tc := ⟨.hbm, 573, rfl⟩
abbrev main_v463 : Ref sig .tc := ⟨.hbm, 574, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg10_0 : Ref sig .tc := ⟨.vmem, 35, rfl⟩
abbrev cc2_stg11_0 : Ref sig .tc := ⟨.vmem, 36, rfl⟩
abbrev cc2_stg12_0 : Ref sig .tc := ⟨.vmem, 37, rfl⟩
abbrev cc2_stg13_0 : Ref sig .tc := ⟨.vmem, 38, rfl⟩
abbrev cc2_stg14_0 : Ref sig .tc := ⟨.vmem, 39, rfl⟩
abbrev cc2_stg14_1 : Ref sig .tc := ⟨.vmem, 40, rfl⟩
abbrev cc2_stg15_0 : Ref sig .tc := ⟨.vmem, 41, rfl⟩
abbrev cc2_stg15_1 : Ref sig .tc := ⟨.vmem, 42, rfl⟩
abbrev cc3_stg0_0 : Ref sig .tc := ⟨.vmem, 43, rfl⟩
abbrev cc3_stg0_1 : Ref sig .tc := ⟨.vmem, 44, rfl⟩
abbrev cc3_stg1_0 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg7_0 : Ref sig .tc := ⟨.vmem, 51, rfl⟩
abbrev cc3_stg7_1 : Ref sig .tc := ⟨.vmem, 52, rfl⟩
abbrev cc4_stg0_0 : Ref sig .tc := ⟨.vmem, 53, rfl⟩
abbrev cc4_stg1_0 : Ref sig .tc := ⟨.vmem, 54, rfl⟩
abbrev cc4_stg2_0 : Ref sig .tc := ⟨.vmem, 55, rfl⟩
abbrev cc4_stg3_0 : Ref sig .tc := ⟨.vmem, 56, rfl⟩
abbrev cc4_stg4_0 : Ref sig .tc := ⟨.vmem, 57, rfl⟩
abbrev cc4_stg5_0 : Ref sig .tc := ⟨.vmem, 58, rfl⟩
abbrev cc4_stg6_0 : Ref sig .tc := ⟨.vmem, 59, rfl⟩
abbrev cc4_stg7_0 : Ref sig .tc := ⟨.vmem, 60, rfl⟩
abbrev cc5_stg0_0 : Ref sig .tc := ⟨.vmem, 61, rfl⟩
abbrev cc5_stg0_1 : Ref sig .tc := ⟨.vmem, 62, rfl⟩
abbrev cc5_stg1_0 : Ref sig .tc := ⟨.vmem, 63, rfl⟩
abbrev cc5_stg1_1 : Ref sig .tc := ⟨.vmem, 64, rfl⟩
abbrev cc5_stg2_0 : Ref sig .tc := ⟨.vmem, 65, rfl⟩
abbrev cc5_stg3_0 : Ref sig .tc := ⟨.vmem, 66, rfl⟩
abbrev cc5_stg4_0 : Ref sig .tc := ⟨.vmem, 67, rfl⟩
abbrev cc5_stg5_0 : Ref sig .tc := ⟨.vmem, 68, rfl⟩
abbrev cc5_stg6_0 : Ref sig .tc := ⟨.vmem, 69, rfl⟩
abbrev cc5_stg6_1 : Ref sig .tc := ⟨.vmem, 70, rfl⟩
abbrev cc6_stg0_0 : Ref sig .tc := ⟨.vmem, 71, rfl⟩
abbrev cc6_stg0_1 : Ref sig .tc := ⟨.vmem, 72, rfl⟩
abbrev cc6_stg1_0 : Ref sig .tc := ⟨.vmem, 73, rfl⟩
abbrev cc6_stg1_1 : Ref sig .tc := ⟨.vmem, 74, rfl⟩
abbrev cc6_stg2_0 : Ref sig .tc := ⟨.vmem, 75, rfl⟩
abbrev cc6_stg3_0 : Ref sig .tc := ⟨.vmem, 76, rfl⟩
abbrev cc6_stg4_0 : Ref sig .tc := ⟨.vmem, 77, rfl⟩
abbrev cc6_stg5_0 : Ref sig .tc := ⟨.vmem, 78, rfl⟩
abbrev cc6_stg6_0 : Ref sig .tc := ⟨.vmem, 79, rfl⟩
abbrev cc6_stg6_1 : Ref sig .tc := ⟨.vmem, 80, rfl⟩
abbrev cc7_stg0_0 : Ref sig .tc := ⟨.vmem, 81, rfl⟩
abbrev cc7_stg0_1 : Ref sig .tc := ⟨.vmem, 82, rfl⟩
abbrev cc7_stg1_0 : Ref sig .tc := ⟨.vmem, 83, rfl⟩
abbrev cc7_stg1_1 : Ref sig .tc := ⟨.vmem, 84, rfl⟩
abbrev cc7_stg2_0 : Ref sig .tc := ⟨.vmem, 85, rfl⟩
abbrev cc7_stg3_0 : Ref sig .tc := ⟨.vmem, 86, rfl⟩
abbrev cc7_stg4_0 : Ref sig .tc := ⟨.vmem, 87, rfl⟩
abbrev cc7_stg5_0 : Ref sig .tc := ⟨.vmem, 88, rfl⟩
abbrev cc7_stg6_0 : Ref sig .tc := ⟨.vmem, 89, rfl⟩
abbrev cc7_stg6_1 : Ref sig .tc := ⟨.vmem, 90, rfl⟩
abbrev cc8_stg0_0 : Ref sig .tc := ⟨.vmem, 91, rfl⟩
abbrev cc8_stg0_1 : Ref sig .tc := ⟨.vmem, 92, rfl⟩
abbrev cc8_stg1_0 : Ref sig .tc := ⟨.vmem, 93, rfl⟩
abbrev cc8_stg1_1 : Ref sig .tc := ⟨.vmem, 94, rfl⟩
abbrev cc8_stg2_0 : Ref sig .tc := ⟨.vmem, 95, rfl⟩
abbrev cc8_stg2_1 : Ref sig .tc := ⟨.vmem, 96, rfl⟩
abbrev cc8_stg3_0 : Ref sig .tc := ⟨.vmem, 97, rfl⟩
abbrev cc8_stg3_1 : Ref sig .tc := ⟨.vmem, 98, rfl⟩
abbrev cc8_stg4_0 : Ref sig .tc := ⟨.vmem, 99, rfl⟩
abbrev cc8_stg4_1 : Ref sig .tc := ⟨.vmem, 100, rfl⟩
abbrev cc8_stg5_0 : Ref sig .tc := ⟨.vmem, 101, rfl⟩
abbrev cc8_stg6_0 : Ref sig .tc := ⟨.vmem, 102, rfl⟩
abbrev cc8_stg7_0 : Ref sig .tc := ⟨.vmem, 103, rfl⟩
abbrev cc8_stg8_0 : Ref sig .tc := ⟨.vmem, 104, rfl⟩
abbrev cc8_stg9_0 : Ref sig .tc := ⟨.vmem, 105, rfl⟩
abbrev cc8_stg10_0 : Ref sig .tc := ⟨.vmem, 106, rfl⟩
abbrev cc8_stg11_0 : Ref sig .tc := ⟨.vmem, 107, rfl⟩
abbrev cc8_stg12_0 : Ref sig .tc := ⟨.vmem, 108, rfl⟩
abbrev cc8_stg13_0 : Ref sig .tc := ⟨.vmem, 109, rfl⟩
abbrev cc8_stg14_0 : Ref sig .tc := ⟨.vmem, 110, rfl⟩
abbrev cc8_stg14_1 : Ref sig .tc := ⟨.vmem, 111, rfl⟩
abbrev cc8_stg15_0 : Ref sig .tc := ⟨.vmem, 112, rfl⟩
abbrev cc8_stg15_1 : Ref sig .tc := ⟨.vmem, 113, rfl⟩
abbrev cc9_stg0_0 : Ref sig .tc := ⟨.vmem, 114, rfl⟩
abbrev cc9_stg0_1 : Ref sig .tc := ⟨.vmem, 115, rfl⟩
abbrev cc9_stg1_0 : Ref sig .tc := ⟨.vmem, 116, rfl⟩
abbrev cc9_stg2_0 : Ref sig .tc := ⟨.vmem, 117, rfl⟩
abbrev cc9_stg3_0 : Ref sig .tc := ⟨.vmem, 118, rfl⟩
abbrev cc9_stg4_0 : Ref sig .tc := ⟨.vmem, 119, rfl⟩
abbrev cc9_stg5_0 : Ref sig .tc := ⟨.vmem, 120, rfl⟩
abbrev cc9_stg6_0 : Ref sig .tc := ⟨.vmem, 121, rfl⟩
abbrev cc9_stg7_0 : Ref sig .tc := ⟨.vmem, 122, rfl⟩
abbrev cc9_stg7_1 : Ref sig .tc := ⟨.vmem, 123, rfl⟩
abbrev cc10_stg0_0 : Ref sig .tc := ⟨.vmem, 124, rfl⟩
abbrev cc10_stg1_0 : Ref sig .tc := ⟨.vmem, 125, rfl⟩
abbrev cc10_stg2_0 : Ref sig .tc := ⟨.vmem, 126, rfl⟩
abbrev cc10_stg3_0 : Ref sig .tc := ⟨.vmem, 127, rfl⟩
abbrev cc10_stg4_0 : Ref sig .tc := ⟨.vmem, 128, rfl⟩
abbrev cc10_stg5_0 : Ref sig .tc := ⟨.vmem, 129, rfl⟩
abbrev cc10_stg6_0 : Ref sig .tc := ⟨.vmem, 130, rfl⟩
abbrev cc10_stg7_0 : Ref sig .tc := ⟨.vmem, 131, rfl⟩
abbrev cc11_stg0_0 : Ref sig .tc := ⟨.vmem, 132, rfl⟩
abbrev cc11_stg0_1 : Ref sig .tc := ⟨.vmem, 133, rfl⟩
abbrev cc11_stg1_0 : Ref sig .tc := ⟨.vmem, 134, rfl⟩
abbrev cc11_stg1_1 : Ref sig .tc := ⟨.vmem, 135, rfl⟩
abbrev cc11_stg2_0 : Ref sig .tc := ⟨.vmem, 136, rfl⟩
abbrev cc11_stg3_0 : Ref sig .tc := ⟨.vmem, 137, rfl⟩
abbrev cc11_stg4_0 : Ref sig .tc := ⟨.vmem, 138, rfl⟩
abbrev cc11_stg5_0 : Ref sig .tc := ⟨.vmem, 139, rfl⟩
abbrev cc11_stg6_0 : Ref sig .tc := ⟨.vmem, 140, rfl⟩
abbrev cc11_stg6_1 : Ref sig .tc := ⟨.vmem, 141, rfl⟩
abbrev cc12_stg0_0 : Ref sig .tc := ⟨.vmem, 142, rfl⟩
abbrev cc12_stg0_1 : Ref sig .tc := ⟨.vmem, 143, rfl⟩
abbrev cc12_stg1_0 : Ref sig .tc := ⟨.vmem, 144, rfl⟩
abbrev cc12_stg1_1 : Ref sig .tc := ⟨.vmem, 145, rfl⟩
abbrev cc12_stg2_0 : Ref sig .tc := ⟨.vmem, 146, rfl⟩
abbrev cc12_stg3_0 : Ref sig .tc := ⟨.vmem, 147, rfl⟩
abbrev cc12_stg4_0 : Ref sig .tc := ⟨.vmem, 148, rfl⟩
abbrev cc12_stg5_0 : Ref sig .tc := ⟨.vmem, 149, rfl⟩
abbrev cc12_stg6_0 : Ref sig .tc := ⟨.vmem, 150, rfl⟩
abbrev cc12_stg6_1 : Ref sig .tc := ⟨.vmem, 151, rfl⟩
abbrev cc13_stg0_0 : Ref sig .tc := ⟨.vmem, 152, rfl⟩
abbrev cc13_stg0_1 : Ref sig .tc := ⟨.vmem, 153, rfl⟩
abbrev cc13_stg1_0 : Ref sig .tc := ⟨.vmem, 154, rfl⟩
abbrev cc13_stg1_1 : Ref sig .tc := ⟨.vmem, 155, rfl⟩
abbrev cc13_stg2_0 : Ref sig .tc := ⟨.vmem, 156, rfl⟩
abbrev cc13_stg3_0 : Ref sig .tc := ⟨.vmem, 157, rfl⟩
abbrev cc13_stg4_0 : Ref sig .tc := ⟨.vmem, 158, rfl⟩
abbrev cc13_stg5_0 : Ref sig .tc := ⟨.vmem, 159, rfl⟩
abbrev cc13_stg6_0 : Ref sig .tc := ⟨.vmem, 160, rfl⟩
abbrev cc13_stg6_1 : Ref sig .tc := ⟨.vmem, 161, rfl⟩
abbrev cc14_stg0_0 : Ref sig .tc := ⟨.vmem, 162, rfl⟩
abbrev cc14_stg0_1 : Ref sig .tc := ⟨.vmem, 163, rfl⟩
abbrev cc14_stg1_0 : Ref sig .tc := ⟨.vmem, 164, rfl⟩
abbrev cc14_stg1_1 : Ref sig .tc := ⟨.vmem, 165, rfl⟩
abbrev cc14_stg2_0 : Ref sig .tc := ⟨.vmem, 166, rfl⟩
abbrev cc14_stg2_1 : Ref sig .tc := ⟨.vmem, 167, rfl⟩
abbrev cc14_stg3_0 : Ref sig .tc := ⟨.vmem, 168, rfl⟩
abbrev cc14_stg3_1 : Ref sig .tc := ⟨.vmem, 169, rfl⟩
abbrev cc14_stg4_0 : Ref sig .tc := ⟨.vmem, 170, rfl⟩
abbrev cc14_stg4_1 : Ref sig .tc := ⟨.vmem, 171, rfl⟩
abbrev cc14_stg5_0 : Ref sig .tc := ⟨.vmem, 172, rfl⟩
abbrev cc14_stg6_0 : Ref sig .tc := ⟨.vmem, 173, rfl⟩
abbrev cc14_stg7_0 : Ref sig .tc := ⟨.vmem, 174, rfl⟩
abbrev cc14_stg8_0 : Ref sig .tc := ⟨.vmem, 175, rfl⟩
abbrev cc14_stg9_0 : Ref sig .tc := ⟨.vmem, 176, rfl⟩
abbrev cc14_stg10_0 : Ref sig .tc := ⟨.vmem, 177, rfl⟩
abbrev cc14_stg11_0 : Ref sig .tc := ⟨.vmem, 178, rfl⟩
abbrev cc14_stg12_0 : Ref sig .tc := ⟨.vmem, 179, rfl⟩
abbrev cc14_stg13_0 : Ref sig .tc := ⟨.vmem, 180, rfl⟩
abbrev cc14_stg14_0 : Ref sig .tc := ⟨.vmem, 181, rfl⟩
abbrev cc14_stg14_1 : Ref sig .tc := ⟨.vmem, 182, rfl⟩
abbrev cc14_stg15_0 : Ref sig .tc := ⟨.vmem, 183, rfl⟩
abbrev cc14_stg15_1 : Ref sig .tc := ⟨.vmem, 184, rfl⟩
abbrev cc15_stg0_0 : Ref sig .tc := ⟨.vmem, 185, rfl⟩
abbrev cc15_stg0_1 : Ref sig .tc := ⟨.vmem, 186, rfl⟩
abbrev cc15_stg1_0 : Ref sig .tc := ⟨.vmem, 187, rfl⟩
abbrev cc15_stg2_0 : Ref sig .tc := ⟨.vmem, 188, rfl⟩
abbrev cc15_stg3_0 : Ref sig .tc := ⟨.vmem, 189, rfl⟩
abbrev cc15_stg4_0 : Ref sig .tc := ⟨.vmem, 190, rfl⟩
abbrev cc15_stg5_0 : Ref sig .tc := ⟨.vmem, 191, rfl⟩
abbrev cc15_stg6_0 : Ref sig .tc := ⟨.vmem, 192, rfl⟩
abbrev cc15_stg7_0 : Ref sig .tc := ⟨.vmem, 193, rfl⟩
abbrev cc15_stg7_1 : Ref sig .tc := ⟨.vmem, 194, rfl⟩
abbrev cc16_stg0_0 : Ref sig .tc := ⟨.vmem, 195, rfl⟩
abbrev cc16_stg0_1 : Ref sig .tc := ⟨.vmem, 196, rfl⟩
abbrev cc16_stg1_0 : Ref sig .tc := ⟨.vmem, 197, rfl⟩
abbrev cc16_stg1_1 : Ref sig .tc := ⟨.vmem, 198, rfl⟩
abbrev cc16_stg2_0 : Ref sig .tc := ⟨.vmem, 199, rfl⟩
abbrev cc16_stg3_0 : Ref sig .tc := ⟨.vmem, 200, rfl⟩
abbrev cc16_stg4_0 : Ref sig .tc := ⟨.vmem, 201, rfl⟩
abbrev cc16_stg5_0 : Ref sig .tc := ⟨.vmem, 202, rfl⟩
abbrev cc16_stg6_0 : Ref sig .tc := ⟨.vmem, 203, rfl⟩
abbrev cc16_stg6_1 : Ref sig .tc := ⟨.vmem, 204, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem10_0 : DmaSem sig := 35
abbrev cc2_sem11_0 : DmaSem sig := 36
abbrev cc2_sem12_0 : DmaSem sig := 37
abbrev cc2_sem13_0 : DmaSem sig := 38
abbrev cc2_sem14_0 : DmaSem sig := 39
abbrev cc2_sem14_1 : DmaSem sig := 40
abbrev cc2_sem15_0 : DmaSem sig := 41
abbrev cc2_sem15_1 : DmaSem sig := 42
abbrev cc3_sem0_0 : DmaSem sig := 43
abbrev cc3_sem0_1 : DmaSem sig := 44
abbrev cc3_sem1_0 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem7_0 : DmaSem sig := 51
abbrev cc3_sem7_1 : DmaSem sig := 52
abbrev cc4_sem0_0 : DmaSem sig := 53
abbrev cc4_sem1_0 : DmaSem sig := 54
abbrev cc4_sem2_0 : DmaSem sig := 55
abbrev cc4_sem3_0 : DmaSem sig := 56
abbrev cc4_sem4_0 : DmaSem sig := 57
abbrev cc4_sem5_0 : DmaSem sig := 58
abbrev cc4_sem6_0 : DmaSem sig := 59
abbrev cc4_sem7_0 : DmaSem sig := 60
abbrev cc5_sem0_0 : DmaSem sig := 61
abbrev cc5_sem0_1 : DmaSem sig := 62
abbrev cc5_sem1_0 : DmaSem sig := 63
abbrev cc5_sem1_1 : DmaSem sig := 64
abbrev cc5_sem2_0 : DmaSem sig := 65
abbrev cc5_sem3_0 : DmaSem sig := 66
abbrev cc5_sem4_0 : DmaSem sig := 67
abbrev cc5_sem5_0 : DmaSem sig := 68
abbrev cc5_sem6_0 : DmaSem sig := 69
abbrev cc5_sem6_1 : DmaSem sig := 70
abbrev cc6_sem0_0 : DmaSem sig := 71
abbrev cc6_sem0_1 : DmaSem sig := 72
abbrev cc6_sem1_0 : DmaSem sig := 73
abbrev cc6_sem1_1 : DmaSem sig := 74
abbrev cc6_sem2_0 : DmaSem sig := 75
abbrev cc6_sem3_0 : DmaSem sig := 76
abbrev cc6_sem4_0 : DmaSem sig := 77
abbrev cc6_sem5_0 : DmaSem sig := 78
abbrev cc6_sem6_0 : DmaSem sig := 79
abbrev cc6_sem6_1 : DmaSem sig := 80
abbrev cc7_sem0_0 : DmaSem sig := 81
abbrev cc7_sem0_1 : DmaSem sig := 82
abbrev cc7_sem1_0 : DmaSem sig := 83
abbrev cc7_sem1_1 : DmaSem sig := 84
abbrev cc7_sem2_0 : DmaSem sig := 85
abbrev cc7_sem3_0 : DmaSem sig := 86
abbrev cc7_sem4_0 : DmaSem sig := 87
abbrev cc7_sem5_0 : DmaSem sig := 88
abbrev cc7_sem6_0 : DmaSem sig := 89
abbrev cc7_sem6_1 : DmaSem sig := 90
abbrev cc8_sem0_0 : DmaSem sig := 91
abbrev cc8_sem0_1 : DmaSem sig := 92
abbrev cc8_sem1_0 : DmaSem sig := 93
abbrev cc8_sem1_1 : DmaSem sig := 94
abbrev cc8_sem2_0 : DmaSem sig := 95
abbrev cc8_sem2_1 : DmaSem sig := 96
abbrev cc8_sem3_0 : DmaSem sig := 97
abbrev cc8_sem3_1 : DmaSem sig := 98
abbrev cc8_sem4_0 : DmaSem sig := 99
abbrev cc8_sem4_1 : DmaSem sig := 100
abbrev cc8_sem5_0 : DmaSem sig := 101
abbrev cc8_sem6_0 : DmaSem sig := 102
abbrev cc8_sem7_0 : DmaSem sig := 103
abbrev cc8_sem8_0 : DmaSem sig := 104
abbrev cc8_sem9_0 : DmaSem sig := 105
abbrev cc8_sem10_0 : DmaSem sig := 106
abbrev cc8_sem11_0 : DmaSem sig := 107
abbrev cc8_sem12_0 : DmaSem sig := 108
abbrev cc8_sem13_0 : DmaSem sig := 109
abbrev cc8_sem14_0 : DmaSem sig := 110
abbrev cc8_sem14_1 : DmaSem sig := 111
abbrev cc8_sem15_0 : DmaSem sig := 112
abbrev cc8_sem15_1 : DmaSem sig := 113
abbrev cc9_sem0_0 : DmaSem sig := 114
abbrev cc9_sem0_1 : DmaSem sig := 115
abbrev cc9_sem1_0 : DmaSem sig := 116
abbrev cc9_sem2_0 : DmaSem sig := 117
abbrev cc9_sem3_0 : DmaSem sig := 118
abbrev cc9_sem4_0 : DmaSem sig := 119
abbrev cc9_sem5_0 : DmaSem sig := 120
abbrev cc9_sem6_0 : DmaSem sig := 121
abbrev cc9_sem7_0 : DmaSem sig := 122
abbrev cc9_sem7_1 : DmaSem sig := 123
abbrev cc10_sem0_0 : DmaSem sig := 124
abbrev cc10_sem1_0 : DmaSem sig := 125
abbrev cc10_sem2_0 : DmaSem sig := 126
abbrev cc10_sem3_0 : DmaSem sig := 127
abbrev cc10_sem4_0 : DmaSem sig := 128
abbrev cc10_sem5_0 : DmaSem sig := 129
abbrev cc10_sem6_0 : DmaSem sig := 130
abbrev cc10_sem7_0 : DmaSem sig := 131
abbrev cc11_sem0_0 : DmaSem sig := 132
abbrev cc11_sem0_1 : DmaSem sig := 133
abbrev cc11_sem1_0 : DmaSem sig := 134
abbrev cc11_sem1_1 : DmaSem sig := 135
abbrev cc11_sem2_0 : DmaSem sig := 136
abbrev cc11_sem3_0 : DmaSem sig := 137
abbrev cc11_sem4_0 : DmaSem sig := 138
abbrev cc11_sem5_0 : DmaSem sig := 139
abbrev cc11_sem6_0 : DmaSem sig := 140
abbrev cc11_sem6_1 : DmaSem sig := 141
abbrev cc12_sem0_0 : DmaSem sig := 142
abbrev cc12_sem0_1 : DmaSem sig := 143
abbrev cc12_sem1_0 : DmaSem sig := 144
abbrev cc12_sem1_1 : DmaSem sig := 145
abbrev cc12_sem2_0 : DmaSem sig := 146
abbrev cc12_sem3_0 : DmaSem sig := 147
abbrev cc12_sem4_0 : DmaSem sig := 148
abbrev cc12_sem5_0 : DmaSem sig := 149
abbrev cc12_sem6_0 : DmaSem sig := 150
abbrev cc12_sem6_1 : DmaSem sig := 151
abbrev cc13_sem0_0 : DmaSem sig := 152
abbrev cc13_sem0_1 : DmaSem sig := 153
abbrev cc13_sem1_0 : DmaSem sig := 154
abbrev cc13_sem1_1 : DmaSem sig := 155
abbrev cc13_sem2_0 : DmaSem sig := 156
abbrev cc13_sem3_0 : DmaSem sig := 157
abbrev cc13_sem4_0 : DmaSem sig := 158
abbrev cc13_sem5_0 : DmaSem sig := 159
abbrev cc13_sem6_0 : DmaSem sig := 160
abbrev cc13_sem6_1 : DmaSem sig := 161
abbrev cc14_sem0_0 : DmaSem sig := 162
abbrev cc14_sem0_1 : DmaSem sig := 163
abbrev cc14_sem1_0 : DmaSem sig := 164
abbrev cc14_sem1_1 : DmaSem sig := 165
abbrev cc14_sem2_0 : DmaSem sig := 166
abbrev cc14_sem2_1 : DmaSem sig := 167
abbrev cc14_sem3_0 : DmaSem sig := 168
abbrev cc14_sem3_1 : DmaSem sig := 169
abbrev cc14_sem4_0 : DmaSem sig := 170
abbrev cc14_sem4_1 : DmaSem sig := 171
abbrev cc14_sem5_0 : DmaSem sig := 172
abbrev cc14_sem6_0 : DmaSem sig := 173
abbrev cc14_sem7_0 : DmaSem sig := 174
abbrev cc14_sem8_0 : DmaSem sig := 175
abbrev cc14_sem9_0 : DmaSem sig := 176
abbrev cc14_sem10_0 : DmaSem sig := 177
abbrev cc14_sem11_0 : DmaSem sig := 178
abbrev cc14_sem12_0 : DmaSem sig := 179
abbrev cc14_sem13_0 : DmaSem sig := 180
abbrev cc14_sem14_0 : DmaSem sig := 181
abbrev cc14_sem14_1 : DmaSem sig := 182
abbrev cc14_sem15_0 : DmaSem sig := 183
abbrev cc14_sem15_1 : DmaSem sig := 184
abbrev cc15_sem0_0 : DmaSem sig := 185
abbrev cc15_sem0_1 : DmaSem sig := 186
abbrev cc15_sem1_0 : DmaSem sig := 187
abbrev cc15_sem2_0 : DmaSem sig := 188
abbrev cc15_sem3_0 : DmaSem sig := 189
abbrev cc15_sem4_0 : DmaSem sig := 190
abbrev cc15_sem5_0 : DmaSem sig := 191
abbrev cc15_sem6_0 : DmaSem sig := 192
abbrev cc15_sem7_0 : DmaSem sig := 193
abbrev cc15_sem7_1 : DmaSem sig := 194
abbrev cc16_sem0_0 : DmaSem sig := 195
abbrev cc16_sem0_1 : DmaSem sig := 196
abbrev cc16_sem1_0 : DmaSem sig := 197
abbrev cc16_sem1_1 : DmaSem sig := 198
abbrev cc16_sem2_0 : DmaSem sig := 199
abbrev cc16_sem3_0 : DmaSem sig := 200
abbrev cc16_sem4_0 : DmaSem sig := 201
abbrev cc16_sem5_0 : DmaSem sig := 202
abbrev cc16_sem6_0 : DmaSem sig := 203
abbrev cc16_sem6_1 : DmaSem sig := 204

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x3 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x1 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x512 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x512 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x512 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x512 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S512x512 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x512 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S512x128 .bf16 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S2000x128 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S2000x128 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S64x384 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S384x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x512 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x128 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x3 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x3 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x3 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S1000x3 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x3 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S3x128 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S1000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x1 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S4000x128 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![40], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_12 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_13 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_14 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_15 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x128 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S2000x128 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S2000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S128x512 .bf16 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S128x512 .bf16 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S128x512 .bf16 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S128x512 .bf16 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S1x512 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S512x512 .bf16 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 1 → Memref sig .tc .vmem S1x512 .f32 := fun | 0 => Memref.whole cc8_stg11_0 | ⟨_ + 1, h⟩ => absurd h (Nat.not_lt.2 (Nat.le_add_left _ _))
abbrev sem8_11 : Fin 1 → DmaSem sig := fun | 0 => cc8_sem11_0 | ⟨_ + 1, h⟩ => absurd h (Nat.not_lt.2 (Nat.le_add_left _ _))
abbrev reads8_11 : Fin grid8.rank → Bool := ![false]

abbrev stage8_12 : Fin 1 → Memref sig .tc .vmem S512x128 .bf16 := fun | 0 => Memref.whole cc8_stg12_0 | ⟨_ + 1, h⟩ => absurd h (Nat.not_lt.2 (Nat.le_add_left _ _))
abbrev sem8_12 : Fin 1 → DmaSem sig := fun | 0 => cc8_sem12_0 | ⟨_ + 1, h⟩ => absurd h (Nat.not_lt.2 (Nat.le_add_left _ _))
abbrev reads8_12 : Fin grid8.rank → Bool := ![false]

abbrev stage8_13 : Fin 1 → Memref sig .tc .vmem S1x128 .f32 := fun | 0 => Memref.whole cc8_stg13_0 | ⟨_ + 1, h⟩ => absurd h (Nat.not_lt.2 (Nat.le_add_left _ _))
abbrev sem8_13 : Fin 1 → DmaSem sig := fun | 0 => cc8_sem13_0 | ⟨_ + 1, h⟩ => absurd h (Nat.not_lt.2 (Nat.le_add_left _ _))
abbrev reads8_13 : Fin grid8.rank → Bool := ![false]

abbrev stage8_14 : Fin 2 → Memref sig .tc .vmem S2000x128 .f32 := fun | 0 => Memref.whole cc8_stg14_0 | 1 => Memref.whole cc8_stg14_1 | ⟨_ + 2, h⟩ => absurd h (Nat.not_lt.2 (Nat.le_add_left _ _))
abbrev sem8_14 : Fin 2 → DmaSem sig := fun | 0 => cc8_sem14_0 | 1 => cc8_sem14_1 | ⟨_ + 2, h⟩ => absurd h (Nat.not_lt.2 (Nat.le_add_left _ _))
abbrev reads8_14 : Fin grid8.rank → Bool := ![true]

abbrev stage8_15 : Fin 2 → Memref sig .tc .vmem S2000x128 .f32 := fun | 0 => Memref.whole cc8_stg15_0 | 1 => Memref.whole cc8_stg15_1 | ⟨_ + 2, h⟩ => absurd h (Nat.not_lt.2 (Nat.le_add_left _ _))
abbrev sem8_15 : Fin 2 → DmaSem sig := fun | 0 => cc8_sem15_0 | 1 => cc8_sem15_1 | ⟨_ + 2, h⟩ => absurd h (Nat.not_lt.2 (Nat.le_add_left _ _))
abbrev reads8_15 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1000x512 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S512x512 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x512 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S512x512 .bf16 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x512 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S512x128 .bf16 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S1000x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S64x384 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S384x512 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x512 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S512x512 .bf16 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x512 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S512x128 .bf16 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S64x128 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S1000x128 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1000x3 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S128x128 .bf16 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S128x3 .bf16 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x3 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S1000x3 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![5], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1000x3 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S1000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S3x128 .bf16 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S128x128 .bf16 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 2 → Memref sig .tc .vmem S1000x128 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4000x1 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S4000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x128 .bf16 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S128x128 .bf16 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x128 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 2 → Memref sig .tc .vmem S4000x128 .bf16 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨1, ![40], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_7 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_8 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_9 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_10 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_11 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_12 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_13 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_14 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_15 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x128 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S2000x128 .bf16 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S2000x128 .bf16 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 2 → Memref sig .tc .vmem S2000x128 .bf16 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev stage14_4 : Fin 2 → Memref sig .tc .vmem S2000x128 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev stage14_5 : Fin 1 → Memref sig .tc .vmem S128x512 .bf16 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 1 → Memref sig .tc .vmem S128x512 .bf16 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev stage14_7 : Fin 1 → Memref sig .tc .vmem S128x512 .bf16 := fun | 0 => Memref.whole cc14_stg7_0 | ⟨_ + 1, h⟩ => absurd h (Nat.not_lt.2 (Nat.le_add_left _ _))
abbrev sem14_7 : Fin 1 → DmaSem sig := fun | 0 => cc14_sem7_0 | ⟨_ + 1, h⟩ => absurd h (Nat.not_lt.2 (Nat.le_add_left _ _))
abbrev reads14_7 : Fin grid14.rank → Bool := ![false]

abbrev stage14_8 : Fin 1 → Memref sig .tc .vmem S128x512 .bf16 := fun | 0 => Memref.whole cc14_stg8_0 | ⟨_ + 1, h⟩ => absurd h (Nat.not_lt.2 (Nat.le_add_left _ _))
abbrev sem14_8 : Fin 1 → DmaSem sig := fun | 0 => cc14_sem8_0 | ⟨_ + 1, h⟩ => absurd h (Nat.not_lt.2 (Nat.le_add_left _ _))
abbrev reads14_8 : Fin grid14.rank → Bool := ![false]

abbrev stage14_9 : Fin 1 → Memref sig .tc .vmem S1x512 .f32 := fun | 0 => Memref.whole cc14_stg9_0 | ⟨_ + 1, h⟩ => absurd h (Nat.not_lt.2 (Nat.le_add_left _ _))
abbrev sem14_9 : Fin 1 → DmaSem sig := fun | 0 => cc14_sem9_0 | ⟨_ + 1, h⟩ => absurd h (Nat.not_lt.2 (Nat.le_add_left _ _))
abbrev reads14_9 : Fin grid14.rank → Bool := ![false]

abbrev stage14_10 : Fin 1 → Memref sig .tc .vmem S512x512 .bf16 := fun | 0 => Memref.whole cc14_stg10_0 | ⟨_ + 1, h⟩ => absurd h (Nat.not_lt.2 (Nat.le_add_left _ _))
abbrev sem14_10 : Fin 1 → DmaSem sig := fun | 0 => cc14_sem10_0 | ⟨_ + 1, h⟩ => absurd h (Nat.not_lt.2 (Nat.le_add_left _ _))
abbrev reads14_10 : Fin grid14.rank → Bool := ![false]

abbrev stage14_11 : Fin 1 → Memref sig .tc .vmem S1x512 .f32 := fun | 0 => Memref.whole cc14_stg11_0 | ⟨_ + 1, h⟩ => absurd h (Nat.not_lt.2 (Nat.le_add_left _ _))
abbrev sem14_11 : Fin 1 → DmaSem sig := fun | 0 => cc14_sem11_0 | ⟨_ + 1, h⟩ => absurd h (Nat.not_lt.2 (Nat.le_add_left _ _))
abbrev reads14_11 : Fin grid14.rank → Bool := ![false]

abbrev stage14_12 : Fin 1 → Memref sig .tc .vmem S512x128 .bf16 := fun | 0 => Memref.whole cc14_stg12_0 | ⟨_ + 1, h⟩ => absurd h (Nat.not_lt.2 (Nat.le_add_left _ _))
abbrev sem14_12 : Fin 1 → DmaSem sig := fun | 0 => cc14_sem12_0 | ⟨_ + 1, h⟩ => absurd h (Nat.not_lt.2 (Nat.le_add_left _ _))
abbrev reads14_12 : Fin grid14.rank → Bool := ![false]

abbrev stage14_13 : Fin 1 → Memref sig .tc .vmem S1x128 .f32 := fun | 0 => Memref.whole cc14_stg13_0 | ⟨_ + 1, h⟩ => absurd h (Nat.not_lt.2 (Nat.le_add_left _ _))
abbrev sem14_13 : Fin 1 → DmaSem sig := fun | 0 => cc14_sem13_0 | ⟨_ + 1, h⟩ => absurd h (Nat.not_lt.2 (Nat.le_add_left _ _))
abbrev reads14_13 : Fin grid14.rank → Bool := ![false]

abbrev stage14_14 : Fin 2 → Memref sig .tc .vmem S2000x128 .f32 := fun | 0 => Memref.whole cc14_stg14_0 | 1 => Memref.whole cc14_stg14_1 | ⟨_ + 2, h⟩ => absurd h (Nat.not_lt.2 (Nat.le_add_left _ _))
abbrev sem14_14 : Fin 2 → DmaSem sig := fun | 0 => cc14_sem14_0 | 1 => cc14_sem14_1 | ⟨_ + 2, h⟩ => absurd h (Nat.not_lt.2 (Nat.le_add_left _ _))
abbrev reads14_14 : Fin grid14.rank → Bool := ![true]

abbrev stage14_15 : Fin 2 → Memref sig .tc .vmem S2000x128 .f32 := fun | 0 => Memref.whole cc14_stg15_0 | 1 => Memref.whole cc14_stg15_1 | ⟨_ + 2, h⟩ => absurd h (Nat.not_lt.2 (Nat.le_add_left _ _))
abbrev sem14_15 : Fin 2 → DmaSem sig := fun | 0 => cc14_sem15_0 | 1 => cc14_sem15_1 | ⟨_ + 2, h⟩ => absurd h (Nat.not_lt.2 (Nat.le_add_left _ _))
abbrev reads14_15 : Fin grid14.rank → Bool := ![true]

abbrev grid15 : Pipeline.Grid := ⟨1, ![5], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_6 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_7 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S1000x512 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S512x512 .bf16 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x512 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S512x512 .bf16 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x512 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S512x128 .bf16 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 1 → Memref sig .tc .vmem S1x128 .f32 := fun | 0 => Memref.whole cc15_stg6_0 | ⟨_ + 1, h⟩ => absurd h (Nat.not_lt.2 (Nat.le_add_left _ _))
abbrev sem15_6 : Fin 1 → DmaSem sig := fun | 0 => cc15_sem6_0 | ⟨_ + 1, h⟩ => absurd h (Nat.not_lt.2 (Nat.le_add_left _ _))
abbrev reads15_6 : Fin grid15.rank → Bool := ![false]

abbrev stage15_7 : Fin 2 → Memref sig .tc .vmem S1000x128 .f32 := fun | 0 => Memref.whole cc15_stg7_0 | 1 => Memref.whole cc15_stg7_1 | ⟨_ + 2, h⟩ => absurd h (Nat.not_lt.2 (Nat.le_add_left _ _))
abbrev sem15_7 : Fin 2 → DmaSem sig := fun | 0 => cc15_sem7_0 | 1 => cc15_sem7_1 | ⟨_ + 2, h⟩ => absurd h (Nat.not_lt.2 (Nat.le_add_left _ _))
abbrev reads15_7 : Fin grid15.rank → Bool := ![true]

abbrev grid16 : Pipeline.Grid := ⟨1, ![5], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_6 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S1000x128 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S1000x3 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 1 → Memref sig .tc .vmem S128x128 .bf16 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S128x3 .bf16 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S1x3 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev stage16_6 : Fin 2 → Memref sig .tc .vmem S1000x3 .f32 := fun | 0 => Memref.whole cc16_stg6_0 | 1 => Memref.whole cc16_stg6_1 | ⟨_ + 2, h⟩ => absurd h (Nat.not_lt.2 (Nat.le_add_left _ _))
abbrev sem16_6 : Fin 2 → DmaSem sig := fun | 0 => cc16_sem6_0 | 1 => cc16_sem6_1 | ⟨_ + 2, h⟩ => absurd h (Nat.not_lt.2 (Nat.le_add_left _ _))
abbrev reads16_6 : Fin grid16.rank → Bool := ![true]

class Facts₀ : Prop where
  slices_S2x80000_S1x80000_0_0 : S2x80000.Slices ![0, 0] S1x80000
  shapeCasts_S1x80000_S80000 : S1x80000.ShapeCasts S80000
  slices_S2x80000_S1x80000_1_0 : S2x80000.Slices ![1, 0] S1x80000
  bcast_S_S5000x1 : S_.BroadcastsInDim S5000x1 (![] : Fin 0 → Fin S5000x1.rank)
  bcast_S_S64x1 : S_.BroadcastsInDim S64x1 (![] : Fin 0 → Fin S64x1.rank)
  bcast_S5000_S5000x1_0 : S5000.BroadcastsInDim S5000x1 (![0] : Fin 1 → Fin S5000x1.rank)
  bitsLt_bf16_f32 : FTy.bits .bf16 < FTy.bits .f32
  shapeCasts_S128_S1x128 : S128.ShapeCasts S1x128
  inb_S1000x3_S1000x3_0_0 : ∀ a, (![0, 0] : Fin 2 → Nat) a + S1000x3.size a ≤ S1000x3.size a
  h_S1000x3 : 0 < S1000x3.numel
  shapeCasts_S1000x3_S1000x3 : S1000x3.ShapeCasts S1000x3
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1000x128_S1000x128_0_0 : ∀ a, (![0, 0] : Fin 2 → Nat) a + S1000x128.size a ≤ S1000x128.size a
  h_S1000x128 : 0 < S1000x128.numel
  bcast_S_S80000 : S_.BroadcastsInDim S80000 (![] : Fin 0 → Fin S80000.rank)
  bcast_S80000_S80000x1_0 : S80000.BroadcastsInDim S80000x1 (![0] : Fin 1 → Fin S80000x1.rank)
  reducesTo_S80000x3_S80000_d1 : S80000x3.ReducesTo [1] S80000
  h_S_ : 0 < S_.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S1x512_S512 : S1x512.ShapeCasts S512
  slices_S3x512x128_S1x512x128_0_0_0 : S3x512x128.Slices ![0, 0, 0] S1x512x128
  shapeCasts_S1x512x128_S512x128 : S1x512x128.ShapeCasts S512x128
  slices_S3x128_S1x128_0_0 : S3x128.Slices ![0, 0] S1x128
  shapeCasts_S1x128_S128 : S1x128.ShapeCasts S128
  slices_S512x512_S128x512_0_0 : S512x512.Slices ![0, 0] S128x512
  slices_S512x512_S128x512_128_0 : S512x512.Slices ![128, 0] S128x512
  slices_S512x512_S128x512_256_0 : S512x512.Slices ![256, 0] S128x512
  slices_S512x512_S128x512_384_0 : S512x512.Slices ![384, 0] S128x512
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S2000x128 : S1x128.Broadcasts S2000x128
  bcast_S_S5000x128 : S_.BroadcastsInDim S5000x128 (![] : Fin 0 → Fin S5000x128.rank)
  bcast_S_S5000 : S_.BroadcastsInDim S5000 (![] : Fin 0 → Fin S5000.rank)
  concatenates_S5000x128_S5000x128_S5000x128_S5000x128_S5000x512_d1 : Shape.Concatenates [S5000x128, S5000x128, S5000x128, S5000x128] S5000x512 1
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  broadcasts_S1x512_S1000x512 : S1x512.Broadcasts S1000x512
  bcast_S_S64x128 : S_.BroadcastsInDim S64x128 (![] : Fin 0 → Fin S64x128.rank)
  concatenates_S64x128_S64x128_S64x128_S64x384_d1 : Shape.Concatenates [S64x128, S64x128, S64x128] S64x384 1
  slices_S2x384x512_S1x384x512_0_0_0 : S2x384x512.Slices ![0, 0, 0] S1x384x512
  shapeCasts_S1x384x512_S384x512 : S1x384x512.ShapeCasts S384x512
  slices_S2x512_S1x512_0_0 : S2x512.Slices ![0, 0] S1x512
  slices_S2x512x512_S1x512x512_0_0_0 : S2x512x512.Slices ![0, 0, 0] S1x512x512
  slices_S2x512x128_S1x512x128_0_0_0 : S2x512x128.Slices ![0, 0, 0] S1x512x128
  slices_S2x128_S1x128_0_0 : S2x128.Slices ![0, 0] S1x128
  inb_S64x384_S64x384_0_0 : ∀ a, (![0, 0] : Fin 2 → Nat) a + S64x384.size a ≤ S64x384.size a
  h_S64x384 : 0 < S64x384.numel
  shapeCasts_S64x384_S64x384 : S64x384.ShapeCasts S64x384
  inb_S384x512_S384x512_0_0 : ∀ a, (![0, 0] : Fin 2 → Nat) a + S384x512.size a ≤ S384x512.size a
  h_S384x512 : 0 < S384x512.numel
  shapeCasts_S384x512_S384x512 : S384x512.ShapeCasts S384x512
  broadcasts_S1x512_S64x512 : S1x512.Broadcasts S64x512
  broadcasts_S1x128_S64x128 : S1x128.Broadcasts S64x128
  inb_S64x128_S64x128_0_0 : ∀ a, (![0, 0] : Fin 2 → Nat) a + S64x128.size a ≤ S64x128.size a
  h_S64x128 : 0 < S64x128.numel
  shapeCasts_S3_S1x3 : S3.ShapeCasts S1x3
  shapeCasts_S1000x128_S1000x128 : S1000x128.ShapeCasts S1000x128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S1000x3 : S1x3.Broadcasts S1000x3
  bcast_S_S64x3 : S_.BroadcastsInDim S64x3 (![] : Fin 0 → Fin S64x3.rank)
  bcast_S64x1_S64x3_0_1 : S64x1.BroadcastsInDim S64x3 (![0, 1] : Fin 2 → Fin S64x3.rank)
  shapeCasts_S4000x128_S4000x128 : S4000x128.ShapeCasts S4000x128
  slices_S3x512x512_S1x512x512_1_0_0 : S3x512x512.Slices ![1, 0, 0] S1x512x512
  slices_S3x512_S1x512_1_0 : S3x512.Slices ![1, 0] S1x512
  slices_S3x512x128_S1x512x128_1_0_0 : S3x512x128.Slices ![1, 0, 0] S1x512x128
  slices_S3x128_S1x128_1_0 : S3x128.Slices ![1, 0] S1x128
  slices_S2x384x512_S1x384x512_1_0_0 : S2x384x512.Slices ![1, 0, 0] S1x384x512
  slices_S2x512_S1x512_1_0 : S2x512.Slices ![1, 0] S1x512
  slices_S2x512x512_S1x512x512_1_0_0 : S2x512x512.Slices ![1, 0, 0] S1x512x512
  slices_S2x512x128_S1x512x128_1_0_0 : S2x512x128.Slices ![1, 0, 0] S1x512x128
  slices_S2x128_S1x128_1_0 : S2x128.Slices ![1, 0] S1x128
  slices_S3x512x512_S1x512x512_2_0_0 : S3x512x512.Slices ![2, 0, 0] S1x512x512
  slices_S3x512_S1x512_2_0 : S3x512.Slices ![2, 0] S1x512
  slices_S3x512x128_S1x512x128_2_0_0 : S3x512x128.Slices ![2, 0, 0] S1x512x128
  slices_S3x128_S1x128_2_0 : S3x128.Slices ![2, 0] S1x128
  bcast_S5000x3_S1x5000x3_1_2 : S5000x3.BroadcastsInDim S1x5000x3 (![1, 2] : Fin 2 → Fin S1x5000x3.rank)
  concatenates_S1x5000x3_S1x5000x3_S1x5000x3_S3x5000x3_d0 : Shape.Concatenates [S1x5000x3, S1x5000x3, S1x5000x3] S3x5000x3 0
  scatter_S64x1_S5000x1_S5000x1_1_0_0_1_wf : ScatterDims.WF S64x1 S5000x1 S5000x1 [1] [0] [0] 1
  dot_S1000x3_S3x128_S1000x128_1_0_0_1_n_n_wf : DotDims.WF S1000x3 S3x128 S1000x128 [1] [0] [0] [1] [] []
  dot_S1000x128_S128x128_S1000x128_1_0_0_1_n_n_wf : DotDims.WF S1000x128 S128x128 S1000x128 [1] [0] [0] [1] [] []
  gather_S5000x3_S80000x1_S80000x3_1_0_n_n_0_1_13_wf : GatherDims.WF S5000x3 S80000x1 S80000x3 [1] [0] [] [0] [] 1 ![1, 3]
  dot_S4000x1_S1x128_S4000x128_1_0_0_1_n_n_wf : DotDims.WF S4000x1 S1x128 S4000x128 [1] [0] [0] [1] [] []
  dot_S4000x128_S128x128_S4000x128_1_0_0_1_n_n_wf : DotDims.WF S4000x128 S128x128 S4000x128 [1] [0] [0] [1] [] []
  gather_S5000x128_S80000x1_S80000x128_1_0_n_n_0_1_1128_wf : GatherDims.WF S5000x128 S80000x1 S80000x128 [1] [0] [] [0] [] 1 ![1, 128]
  gather_S64x128_S80000x1_S80000x128_1_0_n_n_0_1_1128_wf : GatherDims.WF S64x128 S80000x1 S80000x128 [1] [0] [] [0] [] 1 ![1, 128]
  dot_S2000x128_S128x512_S2000x512_1_0_0_1_n_n_wf : DotDims.WF S2000x128 S128x512 S2000x512 [1] [0] [0] [1] [] []
  dot_S2000x512_S512x512_S2000x512_1_0_0_1_n_n_wf : DotDims.WF S2000x512 S512x512 S2000x512 [1] [0] [0] [1] [] []
  dot_S2000x512_S512x128_S2000x128_1_0_0_1_n_n_wf : DotDims.WF S2000x512 S512x128 S2000x128 [1] [0] [0] [1] [] []
  scatter_S5000x128_S80000x1_S80000x128_1_0_0_1_wf : ScatterDims.WF S5000x128 S80000x1 S80000x128 [1] [0] [0] 1
  gather_S64x128_S5000x1_S5000x128_1_0_n_n_0_1_1128_wf : GatherDims.WF S64x128 S5000x1 S5000x128 [1] [0] [] [0] [] 1 ![1, 128]
  dot_S1000x512_S512x512_S1000x512_1_0_0_1_n_n_wf : DotDims.WF S1000x512 S512x512 S1000x512 [1] [0] [0] [1] [] []
  dot_S1000x512_S512x128_S1000x128_1_0_0_1_n_n_wf : DotDims.WF S1000x512 S512x128 S1000x128 [1] [0] [0] [1] [] []
  scatter_S64x128_S5000x1_S5000x128_1_0_0_1_wf : ScatterDims.WF S64x128 S5000x1 S5000x128 [1] [0] [0] 1
  scatter_S64x128_S80000x1_S80000x128_1_0_0_1_wf : ScatterDims.WF S64x128 S80000x1 S80000x128 [1] [0] [0] 1
  dot_S64x384_S384x512_S64x512_1_0_0_1_n_n_wf : DotDims.WF S64x384 S384x512 S64x512 [1] [0] [0] [1] [] []
  dot_S64x512_S512x512_S64x512_1_0_0_1_n_n_wf : DotDims.WF S64x512 S512x512 S64x512 [1] [0] [0] [1] [] []
  dot_S64x512_S512x128_S64x128_1_0_0_1_n_n_wf : DotDims.WF S64x512 S512x128 S64x128 [1] [0] [0] [1] [] []
  dot_S1000x128_S128x3_S1000x3_1_0_0_1_n_n_wf : DotDims.WF S1000x128 S128x3 S1000x3 [1] [0] [0] [1] [] []
  scatter_S64x3_S5000x1_S5000x3_1_0_0_1_wf : ScatterDims.WF S64x3 S5000x1 S5000x3 [1] [0] [0] 1
  gather_S64x3_S5000x1_S5000x3_1_0_n_n_0_1_13_wf : GatherDims.WF S64x3 S5000x1 S5000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x3.size a ≤ S5000x3.size a
  hwx0_0 : ∀ i : grid0.Coords, EltTy.bits .bf16 = 32 ∨ (Rect.block (s := S5000x3) S1000x3.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S5000x128.size a
  hwx0_1 : ∀ i : grid0.Coords, EltTy.bits .f32 = 32 ∨ (Rect.block (s := S5000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .bf16 = 32 ∨ (Rect.block (s := S3x128) S3x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x128.size a ≤ S5000x128.size a
  hwx0_6 : ∀ i : grid0.Coords, EltTy.bits .f32 = 32 ∨ (Rect.block (s := S5000x128) S1000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x1.size a ≤ S80000x1.size a
  hwx1_0 : ∀ i : grid1.Coords, EltTy.bits .bf16 = 32 ∨ (Rect.block (s := S80000x1) S4000x1.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S80000x128.size a
  hwx1_1 : ∀ i : grid1.Coords, EltTy.bits .f32 = 32 ∨ (Rect.block (s := S80000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .bf16 = 32 ∨ (Rect.block (s := S1x128) S1x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S80000x128.size a
  hwx1_6 : ∀ i : grid1.Coords, EltTy.bits .bf16 = 32 ∨ (Rect.block (s := S80000x128) S4000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S80000x128.size a
  hwx2_0 : ∀ i : grid2.Coords, EltTy.bits .bf16 = 32 ∨ (Rect.block (s := S80000x128) S2000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S80000x128.size a
  hwx2_1 : ∀ i : grid2.Coords, EltTy.bits .bf16 = 32 ∨ (Rect.block (s := S80000x128) S2000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S80000x128.size a
  hwx2_2 : ∀ i : grid2.Coords, EltTy.bits .bf16 = 32 ∨ (Rect.block (s := S80000x128) S2000x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S80000x128.size a
  hwx2_3 : ∀ i : grid2.Coords, EltTy.bits .bf16 = 32 ∨ (Rect.block (s := S80000x128) S2000x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S80000x128.size a
  hwx2_4 : ∀ i : grid2.Coords, EltTy.bits .f32 = 32 ∨ (Rect.block (s := S80000x128) S2000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x512.size a ≤ S128x512.size a
  hwx2_5 : ∀ i : grid2.Coords, EltTy.bits .bf16 = 32 ∨ (Rect.block (s := S128x512) S128x512.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x512.size a ≤ S128x512.size a
  hwx2_6 : ∀ i : grid2.Coords, EltTy.bits .bf16 = 32 ∨ (Rect.block (s := S128x512) S128x512.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x512.size a ≤ S128x512.size a
  hwx2_7 : ∀ i : grid2.Coords, EltTy.bits .bf16 = 32 ∨ (Rect.block (s := S128x512) S128x512.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x512.size a ≤ S128x512.size a
  hwx2_8 : ∀ i : grid2.Coords, EltTy.bits .bf16 = 32 ∨ (Rect.block (s := S128x512) S128x512.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x512.size a ≤ S1x512.size a
  hwx2_9 : ∀ i : grid2.Coords, EltTy.bits .f32 = 32 ∨ (Rect.block (s := S1x512) S1x512.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S512x512.size a ≤ S512x512.size a
  hwx2_10 : ∀ i : grid2.Coords, EltTy.bits .bf16 = 32 ∨ (Rect.block (s := S512x512) S512x512.size (cc2_transform_10 i) (hinb2_10 i)).WholeWords (EltTy.packing .bf16)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x512.size a ≤ S1x512.size a
  hwx2_11 : ∀ i : grid2.Coords, EltTy.bits .f32 = 32 ∨ (Rect.block (s := S1x512) S1x512.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S512x128.size a ≤ S512x128.size a
  hwx2_12 : ∀ i : grid2.Coords, EltTy.bits .bf16 = 32 ∨ (Rect.block (s := S512x128) S512x128.size (cc2_transform_12 i) (hinb2_12 i)).WholeWords (EltTy.packing .bf16)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x128.size a ≤ S1x128.size a
  hwx2_13 : ∀ i : grid2.Coords, EltTy.bits .f32 = 32 ∨ (Rect.block (s := S1x128) S1x128.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S2000x128.size a ≤ S80000x128.size a
  hwx2_14 : ∀ i : grid2.Coords, EltTy.bits .f32 = 32 ∨ (Rect.block (s := S80000x128) S2000x128.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S2000x128.size a ≤ S80000x128.size a
  hwx2_15 : ∀ i : grid2.Coords, EltTy.bits .f32 = 32 ∨ (Rect.block (s := S80000x128) S2000x128.size (cc2_transform_15 i) (hinb2_15 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S5000x512.size a
  hwx3_0 : ∀ i : grid3.Coords, EltTy.bits .bf16 = 32 ∨ (Rect.block (s := S5000x512) S1000x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .bf16 = 32 ∨ (Rect.block (s := S512x512) S512x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .bf16 = 32 ∨ (Rect.block (s := S512x512) S512x512.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x128.size a ≤ S512x128.size a
  hwx3_5 : ∀ i : grid3.Coords, EltTy.bits .bf16 = 32 ∨ (Rect.block (s := S512x128) S512x128.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1000x128.size a ≤ S5000x128.size a
  hwx3_7 : ∀ i : grid3.Coords, EltTy.bits .f32 = 32 ∨ (Rect.block (s := S5000x128) S1000x128.size (cc3_transform_7 i) (hinb3_7 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S64x384.size a ≤ S64x384.size a
  hwx4_0 : ∀ i : grid4.Coords, EltTy.bits .bf16 = 32 ∨ (Rect.block (s := S64x384) S64x384.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S384x512.size a ≤ S384x512.size a
  hwx4_1 : ∀ i : grid4.Coords, EltTy.bits .bf16 = 32 ∨ (Rect.block (s := S384x512) S384x512.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x512.size a ≤ S512x512.size a
  hwx4_3 : ∀ i : grid4.Coords, EltTy.bits .bf16 = 32 ∨ (Rect.block (s := S512x512) S512x512.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x512.size a ≤ S1x512.size a
  hwx4_4 : ∀ i : grid4.Coords, EltTy.bits .f32 = 32 ∨ (Rect.block (s := S1x512) S1x512.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x128.size a ≤ S512x128.size a
  hwx4_5 : ∀ i : grid4.Coords, EltTy.bits .bf16 = 32 ∨ (Rect.block (s := S512x128) S512x128.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 1
  hreads4_7 : ∀ i i' : grid4.Coords, (∀ a, reads4_7 a = true → i a = i' a) → cc4_transform_7 i = cc4_transform_7 i'
  hinb4_7 : ∀ (i : grid4.Coords) a, (cc4_transform_7 i a + 1) * S64x128.size a ≤ S64x128.size a
  hwx4_7 : ∀ i : grid4.Coords, EltTy.bits .f32 = 32 ∨ (Rect.block (s := S64x128) S64x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S5000x128.size a
  hwx5_0 : ∀ i : grid5.Coords, EltTy.bits .bf16 = 32 ∨ (Rect.block (s := S5000x128) S1000x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x3.size a ≤ S5000x3.size a
  hwx5_1 : ∀ i : grid5.Coords, EltTy.bits .f32 = 32 ∨ (Rect.block (s := S5000x3) S1000x3.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .bf16 = 32 ∨ (Rect.block (s := S128x128) S128x128.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x3.size a ≤ S128x3.size a
  hwx5_4 : ∀ i : grid5.Coords, EltTy.bits .bf16 = 32 ∨ (Rect.block (s := S128x3) S128x3.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x3.size a ≤ S1x3.size a
  hwx5_5 : ∀ i : grid5.Coords, EltTy.bits .f32 = 32 ∨ (Rect.block (s := S1x3) S1x3.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1000x3.size a ≤ S5000x3.size a
  hwx5_6 : ∀ i : grid5.Coords, EltTy.bits .f32 = 32 ∨ (Rect.block (s := S5000x3) S1000x3.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x3.size a ≤ S5000x3.size a
  hwx6_0 : ∀ i : grid6.Coords, EltTy.bits .bf16 = 32 ∨ (Rect.block (s := S5000x3) S1000x3.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1000x128.size a ≤ S5000x128.size a
  hwx6_1 : ∀ i : grid6.Coords, EltTy.bits .f32 = 32 ∨ (Rect.block (s := S5000x128) S1000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S3x128.size a ≤ S3x128.size a
  hwx6_2 : ∀ i : grid6.Coords, EltTy.bits .bf16 = 32 ∨ (Rect.block (s := S3x128) S3x128.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .bf16 = 32 ∨ (Rect.block (s := S128x128) S128x128.size (cc6_transform_4 i) (hinb6_4 i)).WholeWords (EltTy.packing .bf16)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S1000x128.size a ≤ S5000x128.size a
  hwx6_6 : ∀ i : grid6.Coords, EltTy.bits .f32 = 32 ∨ (Rect.block (s := S5000x128) S1000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x1.size a ≤ S80000x1.size a
  hwx7_0 : ∀ i : grid7.Coords, EltTy.bits .bf16 = 32 ∨ (Rect.block (s := S80000x1) S4000x1.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x128.size a ≤ S80000x128.size a
  hwx7_1 : ∀ i : grid7.Coords, EltTy.bits .f32 = 32 ∨ (Rect.block (s := S80000x128) S4000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .bf16 = 32 ∨ (Rect.block (s := S1x128) S1x128.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .bf16 = 32 ∨ (Rect.block (s := S128x128) S128x128.size (cc7_transform_4 i) (hinb7_4 i)).WholeWords (EltTy.packing .bf16)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S4000x128.size a ≤ S80000x128.size a
  hwx7_6 : ∀ i : grid7.Coords, EltTy.bits .bf16 = 32 ∨ (Rect.block (s := S80000x128) S4000x128.size (cc7_transform_6 i) (hinb7_6 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S80000x128.size a
  hwx8_0 : ∀ i : grid8.Coords, EltTy.bits .bf16 = 32 ∨ (Rect.block (s := S80000x128) S2000x128.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S80000x128.size a
  hwx8_1 : ∀ i : grid8.Coords, EltTy.bits .bf16 = 32 ∨ (Rect.block (s := S80000x128) S2000x128.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S80000x128.size a
  hwx8_2 : ∀ i : grid8.Coords, EltTy.bits .bf16 = 32 ∨ (Rect.block (s := S80000x128) S2000x128.size (cc8_transform_2 i) (hinb8_2 i)).WholeWords (EltTy.packing .bf16)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x128.size a ≤ S80000x128.size a
  hwx8_3 : ∀ i : grid8.Coords, EltTy.bits .bf16 = 32 ∨ (Rect.block (s := S80000x128) S2000x128.size (cc8_transform_3 i) (hinb8_3 i)).WholeWords (EltTy.packing .bf16)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2000x128.size a ≤ S80000x128.size a
  hwx8_4 : ∀ i : grid8.Coords, EltTy.bits .f32 = 32 ∨ (Rect.block (s := S80000x128) S2000x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x512.size a ≤ S128x512.size a
  hwx8_5 : ∀ i : grid8.Coords, EltTy.bits .bf16 = 32 ∨ (Rect.block (s := S128x512) S128x512.size (cc8_transform_5 i) (hinb8_5 i)).WholeWords (EltTy.packing .bf16)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S128x512.size a ≤ S128x512.size a
  hwx8_6 : ∀ i : grid8.Coords, EltTy.bits .bf16 = 32 ∨ (Rect.block (s := S128x512) S128x512.size (cc8_transform_6 i) (hinb8_6 i)).WholeWords (EltTy.packing .bf16)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S128x512.size a ≤ S128x512.size a
  hwx8_7 : ∀ i : grid8.Coords, EltTy.bits .bf16 = 32 ∨ (Rect.block (s := S128x512) S128x512.size (cc8_transform_7 i) (hinb8_7 i)).WholeWords (EltTy.packing .bf16)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S128x512.size a ≤ S128x512.size a
  hwx8_8 : ∀ i : grid8.Coords, EltTy.bits .bf16 = 32 ∨ (Rect.block (s := S128x512) S128x512.size (cc8_transform_8 i) (hinb8_8 i)).WholeWords (EltTy.packing .bf16)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S1x512.size a ≤ S1x512.size a
  hwx8_9 : ∀ i : grid8.Coords, EltTy.bits .f32 = 32 ∨ (Rect.block (s := S1x512) S1x512.size (cc8_transform_9 i) (hinb8_9 i)).WholeWords (EltTy.packing .f32)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S512x512.size a ≤ S512x512.size a
  hwx8_10 : ∀ i : grid8.Coords, EltTy.bits .bf16 = 32 ∨ (Rect.block (s := S512x512) S512x512.size (cc8_transform_10 i) (hinb8_10 i)).WholeWords (EltTy.packing .bf16)
  hstage8_11 : ∀ j, (stage8_11 j).IsWhole
  nbuf8_11 : grid8.bufCount reads8_11 true = 1
  hreads8_11 : ∀ i i' : grid8.Coords, (∀ a, reads8_11 a = true → i a = i' a) → cc8_transform_11 i = cc8_transform_11 i'
  hinb8_11 : ∀ (i : grid8.Coords) a, (cc8_transform_11 i a + 1) * S1x512.size a ≤ S1x512.size a
  hwx8_11 : ∀ i : grid8.Coords, EltTy.bits .f32 = 32 ∨ (Rect.block (s := S1x512) S1x512.size (cc8_transform_11 i) (hinb8_11 i)).WholeWords (EltTy.packing .f32)
  hstage8_12 : ∀ j, (stage8_12 j).IsWhole
  nbuf8_12 : grid8.bufCount reads8_12 true = 1
  hreads8_12 : ∀ i i' : grid8.Coords, (∀ a, reads8_12 a = true → i a = i' a) → cc8_transform_12 i = cc8_transform_12 i'
  hinb8_12 : ∀ (i : grid8.Coords) a, (cc8_transform_12 i a + 1) * S512x128.size a ≤ S512x128.size a
  hwx8_12 : ∀ i : grid8.Coords, EltTy.bits .bf16 = 32 ∨ (Rect.block (s := S512x128) S512x128.size (cc8_transform_12 i) (hinb8_12 i)).WholeWords (EltTy.packing .bf16)
  hstage8_13 : ∀ j, (stage8_13 j).IsWhole
  nbuf8_13 : grid8.bufCount reads8_13 true = 1
  hreads8_13 : ∀ i i' : grid8.Coords, (∀ a, reads8_13 a = true → i a = i' a) → cc8_transform_13 i = cc8_transform_13 i'
  hinb8_13 : ∀ (i : grid8.Coords) a, (cc8_transform_13 i a + 1) * S1x128.size a ≤ S1x128.size a
  hwx8_13 : ∀ i : grid8.Coords, EltTy.bits .f32 = 32 ∨ (Rect.block (s := S1x128) S1x128.size (cc8_transform_13 i) (hinb8_13 i)).WholeWords (EltTy.packing .f32)
  hstage8_14 : ∀ j, (stage8_14 j).IsWhole
  nbuf8_14 : grid8.bufCount reads8_14 false = 2
  hreads8_14 : ∀ i i' : grid8.Coords, (∀ a, reads8_14 a = true → i a = i' a) → cc8_transform_14 i = cc8_transform_14 i'
  hinb8_14 : ∀ (i : grid8.Coords) a, (cc8_transform_14 i a + 1) * S2000x128.size a ≤ S80000x128.size a
  hwx8_14 : ∀ i : grid8.Coords, EltTy.bits .f32 = 32 ∨ (Rect.block (s := S80000x128) S2000x128.size (cc8_transform_14 i) (hinb8_14 i)).WholeWords (EltTy.packing .f32)
  hstage8_15 : ∀ j, (stage8_15 j).IsWhole
  nbuf8_15 : grid8.bufCount reads8_15 false = 2
  hreads8_15 : ∀ i i' : grid8.Coords, (∀ a, reads8_15 a = true → i a = i' a) → cc8_transform_15 i = cc8_transform_15 i'
  hinb8_15 : ∀ (i : grid8.Coords) a, (cc8_transform_15 i a + 1) * S2000x128.size a ≤ S80000x128.size a
  hwx8_15 : ∀ i : grid8.Coords, EltTy.bits .f32 = 32 ∨ (Rect.block (s := S80000x128) S2000x128.size (cc8_transform_15 i) (hinb8_15 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1000x512.size a ≤ S5000x512.size a
  hwx9_0 : ∀ i : grid9.Coords, EltTy.bits .bf16 = 32 ∨ (Rect.block (s := S5000x512) S1000x512.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S512x512.size a ≤ S512x512.size a
  hwx9_1 : ∀ i : grid9.Coords, EltTy.bits .bf16 = 32 ∨ (Rect.block (s := S512x512) S512x512.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x512.size a ≤ S1x512.size a
  hwx9_2 : ∀ i : grid9.Coords, EltTy.bits .f32 = 32 ∨ (Rect.block (s := S1x512) S1x512.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S512x512.size a ≤ S512x512.size a
  hwx9_3 : ∀ i : grid9.Coords, EltTy.bits .bf16 = 32 ∨ (Rect.block (s := S512x512) S512x512.size (cc9_transform_3 i) (hinb9_3 i)).WholeWords (EltTy.packing .bf16)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x512.size a ≤ S1x512.size a
  hwx9_4 : ∀ i : grid9.Coords, EltTy.bits .f32 = 32 ∨ (Rect.block (s := S1x512) S1x512.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S512x128.size a ≤ S512x128.size a
  hwx9_5 : ∀ i : grid9.Coords, EltTy.bits .bf16 = 32 ∨ (Rect.block (s := S512x128) S512x128.size (cc9_transform_5 i) (hinb9_5 i)).WholeWords (EltTy.packing .bf16)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S1000x128.size a ≤ S5000x128.size a
  hwx9_7 : ∀ i : grid9.Coords, EltTy.bits .f32 = 32 ∨ (Rect.block (s := S5000x128) S1000x128.size (cc9_transform_7 i) (hinb9_7 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S64x384.size a ≤ S64x384.size a
  hwx10_0 : ∀ i : grid10.Coords, EltTy.bits .bf16 = 32 ∨ (Rect.block (s := S64x384) S64x384.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S384x512.size a ≤ S384x512.size a
  hwx10_1 : ∀ i : grid10.Coords, EltTy.bits .bf16 = 32 ∨ (Rect.block (s := S384x512) S384x512.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x512.size a ≤ S1x512.size a
  hwx10_2 : ∀ i : grid10.Coords, EltTy.bits .f32 = 32 ∨ (Rect.block (s := S1x512) S1x512.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S512x512.size a ≤ S512x512.size a
  hwx10_3 : ∀ i : grid10.Coords, EltTy.bits .bf16 = 32 ∨ (Rect.block (s := S512x512) S512x512.size (cc10_transform_3 i) (hinb10_3 i)).WholeWords (EltTy.packing .bf16)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x512.size a ≤ S1x512.size a
  hwx10_4 : ∀ i : grid10.Coords, EltTy.bits .f32 = 32 ∨ (Rect.block (s := S1x512) S1x512.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S512x128.size a ≤ S512x128.size a
  hwx10_5 : ∀ i : grid10.Coords, EltTy.bits .bf16 = 32 ∨ (Rect.block (s := S512x128) S512x128.size (cc10_transform_5 i) (hinb10_5 i)).WholeWords (EltTy.packing .bf16)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 false = 1
  hreads10_7 : ∀ i i' : grid10.Coords, (∀ a, reads10_7 a = true → i a = i' a) → cc10_transform_7 i = cc10_transform_7 i'
  hinb10_7 : ∀ (i : grid10.Coords) a, (cc10_transform_7 i a + 1) * S64x128.size a ≤ S64x128.size a
  hwx10_7 : ∀ i : grid10.Coords, EltTy.bits .f32 = 32 ∨ (Rect.block (s := S64x128) S64x128.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1000x128.size a ≤ S5000x128.size a
  hwx11_0 : ∀ i : grid11.Coords, EltTy.bits .bf16 = 32 ∨ (Rect.block (s := S5000x128) S1000x128.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1000x3.size a ≤ S5000x3.size a
  hwx11_1 : ∀ i : grid11.Coords, EltTy.bits .f32 = 32 ∨ (Rect.block (s := S5000x3) S1000x3.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128x128.size a ≤ S128x128.size a
  hwx11_2 : ∀ i : grid11.Coords, EltTy.bits .bf16 = 32 ∨ (Rect.block (s := S128x128) S128x128.size (cc11_transform_2 i) (hinb11_2 i)).WholeWords (EltTy.packing .bf16)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S128x3.size a ≤ S128x3.size a
  hwx11_4 : ∀ i : grid11.Coords, EltTy.bits .bf16 = 32 ∨ (Rect.block (s := S128x3) S128x3.size (cc11_transform_4 i) (hinb11_4 i)).WholeWords (EltTy.packing .bf16)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x3.size a ≤ S1x3.size a
  hwx11_5 : ∀ i : grid11.Coords, EltTy.bits .f32 = 32 ∨ (Rect.block (s := S1x3) S1x3.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S1000x3.size a ≤ S5000x3.size a
  hwx11_6 : ∀ i : grid11.Coords, EltTy.bits .f32 = 32 ∨ (Rect.block (s := S5000x3) S1000x3.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1000x3.size a ≤ S5000x3.size a
  hwx12_0 : ∀ i : grid12.Coords, EltTy.bits .bf16 = 32 ∨ (Rect.block (s := S5000x3) S1000x3.size (cc12_transform_0 i) (hinb12_0 i)).WholeWords (EltTy.packing .bf16)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S1000x128.size a ≤ S5000x128.size a
  hwx12_1 : ∀ i : grid12.Coords, EltTy.bits .f32 = 32 ∨ (Rect.block (s := S5000x128) S1000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S3x128.size a ≤ S3x128.size a
  hwx12_2 : ∀ i : grid12.Coords, EltTy.bits .bf16 = 32 ∨ (Rect.block (s := S3x128) S3x128.size (cc12_transform_2 i) (hinb12_2 i)).WholeWords (EltTy.packing .bf16)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S128x128.size a ≤ S128x128.size a
  hwx12_4 : ∀ i : grid12.Coords, EltTy.bits .bf16 = 32 ∨ (Rect.block (s := S128x128) S128x128.size (cc12_transform_4 i) (hinb12_4 i)).WholeWords (EltTy.packing .bf16)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x128.size a ≤ S1x128.size a
  hwx12_5 : ∀ i : grid12.Coords, EltTy.bits .f32 = 32 ∨ (Rect.block (s := S1x128) S1x128.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S1000x128.size a ≤ S5000x128.size a
  hwx12_6 : ∀ i : grid12.Coords, EltTy.bits .f32 = 32 ∨ (Rect.block (s := S5000x128) S1000x128.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4000x1.size a ≤ S80000x1.size a
  hwx13_0 : ∀ i : grid13.Coords, EltTy.bits .bf16 = 32 ∨ (Rect.block (s := S80000x1) S4000x1.size (cc13_transform_0 i) (hinb13_0 i)).WholeWords (EltTy.packing .bf16)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S4000x128.size a ≤ S80000x128.size a
  hwx13_1 : ∀ i : grid13.Coords, EltTy.bits .f32 = 32 ∨ (Rect.block (s := S80000x128) S4000x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .bf16 = 32 ∨ (Rect.block (s := S1x128) S1x128.size (cc13_transform_2 i) (hinb13_2 i)).WholeWords (EltTy.packing .bf16)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S128x128.size a ≤ S128x128.size a
  hwx13_4 : ∀ i : grid13.Coords, EltTy.bits .bf16 = 32 ∨ (Rect.block (s := S128x128) S128x128.size (cc13_transform_4 i) (hinb13_4 i)).WholeWords (EltTy.packing .bf16)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x128.size a ≤ S1x128.size a
  hwx13_5 : ∀ i : grid13.Coords, EltTy.bits .f32 = 32 ∨ (Rect.block (s := S1x128) S1x128.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S4000x128.size a ≤ S80000x128.size a
  hwx13_6 : ∀ i : grid13.Coords, EltTy.bits .bf16 = 32 ∨ (Rect.block (s := S80000x128) S4000x128.size (cc13_transform_6 i) (hinb13_6 i)).WholeWords (EltTy.packing .bf16)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x128.size a ≤ S80000x128.size a
  hwx14_0 : ∀ i : grid14.Coords, EltTy.bits .bf16 = 32 ∨ (Rect.block (s := S80000x128) S2000x128.size (cc14_transform_0 i) (hinb14_0 i)).WholeWords (EltTy.packing .bf16)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S2000x128.size a ≤ S80000x128.size a
  hwx14_1 : ∀ i : grid14.Coords, EltTy.bits .bf16 = 32 ∨ (Rect.block (s := S80000x128) S2000x128.size (cc14_transform_1 i) (hinb14_1 i)).WholeWords (EltTy.packing .bf16)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S2000x128.size a ≤ S80000x128.size a
  hwx14_2 : ∀ i : grid14.Coords, EltTy.bits .bf16 = 32 ∨ (Rect.block (s := S80000x128) S2000x128.size (cc14_transform_2 i) (hinb14_2 i)).WholeWords (EltTy.packing .bf16)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S2000x128.size a ≤ S80000x128.size a
  hwx14_3 : ∀ i : grid14.Coords, EltTy.bits .bf16 = 32 ∨ (Rect.block (s := S80000x128) S2000x128.size (cc14_transform_3 i) (hinb14_3 i)).WholeWords (EltTy.packing .bf16)
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S2000x128.size a ≤ S80000x128.size a
  hwx14_4 : ∀ i : grid14.Coords, EltTy.bits .f32 = 32 ∨ (Rect.block (s := S80000x128) S2000x128.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S128x512.size a ≤ S128x512.size a
  hwx14_5 : ∀ i : grid14.Coords, EltTy.bits .bf16 = 32 ∨ (Rect.block (s := S128x512) S128x512.size (cc14_transform_5 i) (hinb14_5 i)).WholeWords (EltTy.packing .bf16)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S128x512.size a ≤ S128x512.size a
  hwx14_6 : ∀ i : grid14.Coords, EltTy.bits .bf16 = 32 ∨ (Rect.block (s := S128x512) S128x512.size (cc14_transform_6 i) (hinb14_6 i)).WholeWords (EltTy.packing .bf16)
  hstage14_7 : ∀ j, (stage14_7 j).IsWhole
  nbuf14_7 : grid14.bufCount reads14_7 true = 1
  hreads14_7 : ∀ i i' : grid14.Coords, (∀ a, reads14_7 a = true → i a = i' a) → cc14_transform_7 i = cc14_transform_7 i'
  hinb14_7 : ∀ (i : grid14.Coords) a, (cc14_transform_7 i a + 1) * S128x512.size a ≤ S128x512.size a
  hwx14_7 : ∀ i : grid14.Coords, EltTy.bits .bf16 = 32 ∨ (Rect.block (s := S128x512) S128x512.size (cc14_transform_7 i) (hinb14_7 i)).WholeWords (EltTy.packing .bf16)
  hstage14_8 : ∀ j, (stage14_8 j).IsWhole
  nbuf14_8 : grid14.bufCount reads14_8 true = 1
  hreads14_8 : ∀ i i' : grid14.Coords, (∀ a, reads14_8 a = true → i a = i' a) → cc14_transform_8 i = cc14_transform_8 i'
  hinb14_8 : ∀ (i : grid14.Coords) a, (cc14_transform_8 i a + 1) * S128x512.size a ≤ S128x512.size a
  hwx14_8 : ∀ i : grid14.Coords, EltTy.bits .bf16 = 32 ∨ (Rect.block (s := S128x512) S128x512.size (cc14_transform_8 i) (hinb14_8 i)).WholeWords (EltTy.packing .bf16)
  hstage14_9 : ∀ j, (stage14_9 j).IsWhole
  nbuf14_9 : grid14.bufCount reads14_9 true = 1
  hreads14_9 : ∀ i i' : grid14.Coords, (∀ a, reads14_9 a = true → i a = i' a) → cc14_transform_9 i = cc14_transform_9 i'
  hinb14_9 : ∀ (i : grid14.Coords) a, (cc14_transform_9 i a + 1) * S1x512.size a ≤ S1x512.size a
  hwx14_9 : ∀ i : grid14.Coords, EltTy.bits .f32 = 32 ∨ (Rect.block (s := S1x512) S1x512.size (cc14_transform_9 i) (hinb14_9 i)).WholeWords (EltTy.packing .f32)
  hstage14_10 : ∀ j, (stage14_10 j).IsWhole
  nbuf14_10 : grid14.bufCount reads14_10 true = 1
  hreads14_10 : ∀ i i' : grid14.Coords, (∀ a, reads14_10 a = true → i a = i' a) → cc14_transform_10 i = cc14_transform_10 i'
  hinb14_10 : ∀ (i : grid14.Coords) a, (cc14_transform_10 i a + 1) * S512x512.size a ≤ S512x512.size a
  hwx14_10 : ∀ i : grid14.Coords, EltTy.bits .bf16 = 32 ∨ (Rect.block (s := S512x512) S512x512.size (cc14_transform_10 i) (hinb14_10 i)).WholeWords (EltTy.packing .bf16)
  hstage14_11 : ∀ j, (stage14_11 j).IsWhole
  nbuf14_11 : grid14.bufCount reads14_11 true = 1
  hreads14_11 : ∀ i i' : grid14.Coords, (∀ a, reads14_11 a = true → i a = i' a) → cc14_transform_11 i = cc14_transform_11 i'
  hinb14_11 : ∀ (i : grid14.Coords) a, (cc14_transform_11 i a + 1) * S1x512.size a ≤ S1x512.size a
  hwx14_11 : ∀ i : grid14.Coords, EltTy.bits .f32 = 32 ∨ (Rect.block (s := S1x512) S1x512.size (cc14_transform_11 i) (hinb14_11 i)).WholeWords (EltTy.packing .f32)
  hstage14_12 : ∀ j, (stage14_12 j).IsWhole
  nbuf14_12 : grid14.bufCount reads14_12 true = 1
  hreads14_12 : ∀ i i' : grid14.Coords, (∀ a, reads14_12 a = true → i a = i' a) → cc14_transform_12 i = cc14_transform_12 i'
  hinb14_12 : ∀ (i : grid14.Coords) a, (cc14_transform_12 i a + 1) * S512x128.size a ≤ S512x128.size a
  hwx14_12 : ∀ i : grid14.Coords, EltTy.bits .bf16 = 32 ∨ (Rect.block (s := S512x128) S512x128.size (cc14_transform_12 i) (hinb14_12 i)).WholeWords (EltTy.packing .bf16)
  hstage14_13 : ∀ j, (stage14_13 j).IsWhole
  nbuf14_13 : grid14.bufCount reads14_13 true = 1
  hreads14_13 : ∀ i i' : grid14.Coords, (∀ a, reads14_13 a = true → i a = i' a) → cc14_transform_13 i = cc14_transform_13 i'
  hinb14_13 : ∀ (i : grid14.Coords) a, (cc14_transform_13 i a + 1) * S1x128.size a ≤ S1x128.size a
  hwx14_13 : ∀ i : grid14.Coords, EltTy.bits .f32 = 32 ∨ (Rect.block (s := S1x128) S1x128.size (cc14_transform_13 i) (hinb14_13 i)).WholeWords (EltTy.packing .f32)
  hstage14_14 : ∀ j, (stage14_14 j).IsWhole
  nbuf14_14 : grid14.bufCount reads14_14 false = 2
  hreads14_14 : ∀ i i' : grid14.Coords, (∀ a, reads14_14 a = true → i a = i' a) → cc14_transform_14 i = cc14_transform_14 i'
  hinb14_14 : ∀ (i : grid14.Coords) a, (cc14_transform_14 i a + 1) * S2000x128.size a ≤ S80000x128.size a
  hwx14_14 : ∀ i : grid14.Coords, EltTy.bits .f32 = 32 ∨ (Rect.block (s := S80000x128) S2000x128.size (cc14_transform_14 i) (hinb14_14 i)).WholeWords (EltTy.packing .f32)
  hstage14_15 : ∀ j, (stage14_15 j).IsWhole
  nbuf14_15 : grid14.bufCount reads14_15 false = 2
  hreads14_15 : ∀ i i' : grid14.Coords, (∀ a, reads14_15 a = true → i a = i' a) → cc14_transform_15 i = cc14_transform_15 i'
  hinb14_15 : ∀ (i : grid14.Coords) a, (cc14_transform_15 i a + 1) * S2000x128.size a ≤ S80000x128.size a
  hwx14_15 : ∀ i : grid14.Coords, EltTy.bits .f32 = 32 ∨ (Rect.block (s := S80000x128) S2000x128.size (cc14_transform_15 i) (hinb14_15 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1000x512.size a ≤ S5000x512.size a
  hwx15_0 : ∀ i : grid15.Coords, EltTy.bits .bf16 = 32 ∨ (Rect.block (s := S5000x512) S1000x512.size (cc15_transform_0 i) (hinb15_0 i)).WholeWords (EltTy.packing .bf16)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S512x512.size a ≤ S512x512.size a
  hwx15_1 : ∀ i : grid15.Coords, EltTy.bits .bf16 = 32 ∨ (Rect.block (s := S512x512) S512x512.size (cc15_transform_1 i) (hinb15_1 i)).WholeWords (EltTy.packing .bf16)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x512.size a ≤ S1x512.size a
  hwx15_2 : ∀ i : grid15.Coords, EltTy.bits .f32 = 32 ∨ (Rect.block (s := S1x512) S1x512.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S512x512.size a ≤ S512x512.size a
  hwx15_3 : ∀ i : grid15.Coords, EltTy.bits .bf16 = 32 ∨ (Rect.block (s := S512x512) S512x512.size (cc15_transform_3 i) (hinb15_3 i)).WholeWords (EltTy.packing .bf16)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x512.size a ≤ S1x512.size a
  hwx15_4 : ∀ i : grid15.Coords, EltTy.bits .f32 = 32 ∨ (Rect.block (s := S1x512) S1x512.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S512x128.size a ≤ S512x128.size a
  hwx15_5 : ∀ i : grid15.Coords, EltTy.bits .bf16 = 32 ∨ (Rect.block (s := S512x128) S512x128.size (cc15_transform_5 i) (hinb15_5 i)).WholeWords (EltTy.packing .bf16)
  hstage15_6 : ∀ j, (stage15_6 j).IsWhole
  nbuf15_6 : grid15.bufCount reads15_6 true = 1
  hreads15_6 : ∀ i i' : grid15.Coords, (∀ a, reads15_6 a = true → i a = i' a) → cc15_transform_6 i = cc15_transform_6 i'
  hinb15_6 : ∀ (i : grid15.Coords) a, (cc15_transform_6 i a + 1) * S1x128.size a ≤ S1x128.size a
  hwx15_6 : ∀ i : grid15.Coords, EltTy.bits .f32 = 32 ∨ (Rect.block (s := S1x128) S1x128.size (cc15_transform_6 i) (hinb15_6 i)).WholeWords (EltTy.packing .f32)
  hstage15_7 : ∀ j, (stage15_7 j).IsWhole
  nbuf15_7 : grid15.bufCount reads15_7 false = 2
  hreads15_7 : ∀ i i' : grid15.Coords, (∀ a, reads15_7 a = true → i a = i' a) → cc15_transform_7 i = cc15_transform_7 i'
  hinb15_7 : ∀ (i : grid15.Coords) a, (cc15_transform_7 i a + 1) * S1000x128.size a ≤ S5000x128.size a
  hwx15_7 : ∀ i : grid15.Coords, EltTy.bits .f32 = 32 ∨ (Rect.block (s := S5000x128) S1000x128.size (cc15_transform_7 i) (hinb15_7 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S1000x128.size a ≤ S5000x128.size a
  hwx16_0 : ∀ i : grid16.Coords, EltTy.bits .bf16 = 32 ∨ (Rect.block (s := S5000x128) S1000x128.size (cc16_transform_0 i) (hinb16_0 i)).WholeWords (EltTy.packing .bf16)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S1000x3.size a ≤ S5000x3.size a
  hwx16_1 : ∀ i : grid16.Coords, EltTy.bits .f32 = 32 ∨ (Rect.block (s := S5000x3) S1000x3.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S128x128.size a ≤ S128x128.size a
  hwx16_2 : ∀ i : grid16.Coords, EltTy.bits .bf16 = 32 ∨ (Rect.block (s := S128x128) S128x128.size (cc16_transform_2 i) (hinb16_2 i)).WholeWords (EltTy.packing .bf16)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x128.size a ≤ S1x128.size a
  hwx16_3 : ∀ i : grid16.Coords, EltTy.bits .f32 = 32 ∨ (Rect.block (s := S1x128) S1x128.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S128x3.size a ≤ S128x3.size a
  hwx16_4 : ∀ i : grid16.Coords, EltTy.bits .bf16 = 32 ∨ (Rect.block (s := S128x3) S128x3.size (cc16_transform_4 i) (hinb16_4 i)).WholeWords (EltTy.packing .bf16)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S1x3.size a ≤ S1x3.size a
  hwx16_5 : ∀ i : grid16.Coords, EltTy.bits .f32 = 32 ∨ (Rect.block (s := S1x3) S1x3.size (cc16_transform_5 i) (hinb16_5 i)).WholeWords (EltTy.packing .f32)
  hstage16_6 : ∀ j, (stage16_6 j).IsWhole
  nbuf16_6 : grid16.bufCount reads16_6 false = 2
  hreads16_6 : ∀ i i' : grid16.Coords, (∀ a, reads16_6 a = true → i a = i' a) → cc16_transform_6 i = cc16_transform_6 i'
  hinb16_6 : ∀ (i : grid16.Coords) a, (cc16_transform_6 i a + 1) * S1000x3.size a ≤ S5000x3.size a
  hwx16_6 : ∀ i : grid16.Coords, EltTy.bits .f32 = 32 ∨ (Rect.block (s := S5000x3) S1000x3.size (cc16_transform_6 i) (hinb16_6 i)).WholeWords (EltTy.packing .f32)

variable [Facts₀]

def scatter_S64x1_S5000x1_S5000x1_1_0_0_1 : ScatterDims S64x1 S5000x1 S5000x1 where
  updateWindowDims := [1]
  insertedWindowDims := [0]
  scatterDimsToOperandDims := [0]
  indexVectorDim := 1
  wf := scatter_S64x1_S5000x1_S5000x1_1_0_0_1_wf
def dot_S1000x3_S3x128_S1000x128_1_0_0_1_n_n : DotDims S1000x3 S3x128 S1000x128 where
  lhsContracting := [1]
  rhsContracting := [0]
  lhsNonContracting := [0]
  rhsNonContracting := [1]
  lhsBatch := []
  rhsBatch := []
  wf := dot_S1000x3_S3x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S5000x3_S80000x1_S80000x3_1_0_n_n_0_1_13 : GatherDims S5000x3 S80000x1 S80000x3 where
  offsetDims := [1]
  collapsedSliceDims := [0]
  operandBatchingDims := []
  startIndicesBatchingDims := []
  startIndexMap := [0]
  indexVectorDim := 1
  sliceSizes := ![1, 3]
  wf := gather_S5000x3_S80000x1_S80000x3_1_0_n_n_0_1_13_wf
def dot_S4000x1_S1x128_S4000x128_1_0_0_1_n_n : DotDims S4000x1 S1x128 S4000x128 where
  lhsContracting := [1]
  rhsContracting := [0]
  lhsNonContracting := [0]
  rhsNonContracting := [1]
  lhsBatch := []
  rhsBatch := []
  wf := dot_S4000x1_S1x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S5000x128_S80000x1_S80000x128_1_0_n_n_0_1_1128 : GatherDims S5000x128 S80000x1 S80000x128 where
  offsetDims := [1]
  collapsedSliceDims := [0]
  operandBatchingDims := []
  startIndicesBatchingDims := []
  startIndexMap := [0]
  indexVectorDim := 1
  sliceSizes := ![1, 128]
  wf := gather_S5000x128_S80000x1_S80000x128_1_0_n_n_0_1_1128_wf
def gather_S64x128_S80000x1_S80000x128_1_0_n_n_0_1_1128 : GatherDims S64x128 S80000x1 S80000x128 where
  offsetDims := [1]
  collapsedSliceDims := [0]
  operandBatchingDims := []
  startIndicesBatchingDims := []
  startIndexMap := [0]
  indexVectorDim := 1
  sliceSizes := ![1, 128]
  wf := gather_S64x128_S80000x1_S80000x128_1_0_n_n_0_1_1128_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def scatter_S5000x128_S80000x1_S80000x128_1_0_0_1 : ScatterDims S5000x128 S80000x1 S80000x128 where
  updateWindowDims := [1]
  insertedWindowDims := [0]
  scatterDimsToOperandDims := [0]
  indexVectorDim := 1
  wf := scatter_S5000x128_S80000x1_S80000x128_1_0_0_1_wf
def gather_S64x128_S5000x1_S5000x128_1_0_n_n_0_1_1128 : GatherDims S64x128 S5000x1 S5000x128 where
  offsetDims := [1]
  collapsedSliceDims := [0]
  operandBatchingDims := []
  startIndicesBatchingDims := []
  startIndexMap := [0]
  indexVectorDim := 1
  sliceSizes := ![1, 128]
  wf := gather_S64x128_S5000x1_S5000x128_1_0_n_n_0_1_1128_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def scatter_S64x128_S5000x1_S5000x128_1_0_0_1 : ScatterDims S64x128 S5000x1 S5000x128 where
  updateWindowDims := [1]
  insertedWindowDims := [0]
  scatterDimsToOperandDims := [0]
  indexVectorDim := 1
  wf := scatter_S64x128_S5000x1_S5000x128_1_0_0_1_wf
def scatter_S64x128_S80000x1_S80000x128_1_0_0_1 : ScatterDims S64x128 S80000x1 S80000x128 where
  updateWindowDims := [1]
  insertedWindowDims := [0]
  scatterDimsToOperandDims := [0]
  indexVectorDim := 1
  wf := scatter_S64x128_S80000x1_S80000x128_1_0_0_1_wf
def dot_S64x384_S384x512_S64x512_1_0_0_1_n_n : DotDims S64x384 S384x512 S64x512 where
  lhsContracting := [1]
  rhsContracting := [0]
  lhsNonContracting := [0]
  rhsNonContracting := [1]
  lhsBatch := []
  rhsBatch := []
  wf := dot_S64x384_S384x512_S64x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf
def dot_S1000x128_S128x3_S1000x3_1_0_0_1_n_n : DotDims S1000x128 S128x3 S1000x3 where
  lhsContracting := [1]
  rhsContracting := [0]
  lhsNonContracting := [0]
  rhsNonContracting := [1]
  lhsBatch := []
  rhsBatch := []
  wf := dot_S1000x128_S128x3_S1000x3_1_0_0_1_n_n_wf
def scatter_S64x3_S5000x1_S5000x3_1_0_0_1 : ScatterDims S64x3 S5000x1 S5000x3 where
  updateWindowDims := [1]
  insertedWindowDims := [0]
  scatterDimsToOperandDims := [0]
  indexVectorDim := 1
  wf := scatter_S64x3_S5000x1_S5000x3_1_0_0_1_wf
def gather_S64x3_S5000x1_S5000x3_1_0_n_n_0_1_13 : GatherDims S64x3 S5000x1 S5000x3 where
  offsetDims := [1]
  collapsedSliceDims := [0]
  operandBatchingDims := []
  startIndicesBatchingDims := []
  startIndexMap := [0]
  indexVectorDim := 1
  sliceSizes := ![1, 3]
  wf := gather_S64x3_S5000x1_S5000x3_1_0_n_n_0_1_13_wf

abbrev win0_0 : Pipeline.Window sig grid0 :=
  Pipeline.Window.ofSpec (Memref.whole main_v10) S1000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S4000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg2) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v74) S128x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v76) S128x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v78) S128x512.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v80) S128x512.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v83) S1x512.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v81) S512x512.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v84) S1x512.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v82) S512x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v85) S1x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v86_0) S2000x128.size cc2_transform_14 reads2_14 true false 2 stage2_14 sem2_14
    hrank2 hreads2_14 hinb2_14 nbuf2_14 (Memref.isWhole_whole _) hwx2_14 hstage2_14

abbrev win2_15 : Pipeline.Window sig grid2 :=
  Pipeline.Window.ofSpec (Memref.whole main_v86_1) S2000x128.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

abbrev win3_0 : Pipeline.Window sig grid3 :=
  Pipeline.Window.ofSpec (Memref.whole main_v113) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v114) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v117) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v115) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v118) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v116) S512x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v119) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v120) S1000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v140) S64x384.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v141) S384x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v144) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v142) S512x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v145) S1x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v143) S512x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v146) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v147) S64x128.size cc4_transform_7 reads4_7 true false 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v150) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S1000x3.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v151) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v153) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v152) S128x3.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v154) S1x3.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v155) S1000x3.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v169) S1000x3.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v148) S1000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v170) S3x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v172) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v171) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v173) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v174) S1000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v191) S4000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v86_1) S4000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v192) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v194) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v193) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v195) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v196) S4000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v205) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v212) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v196) S2000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v219) S2000x128.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v86_1) S2000x128.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v233) S128x512.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v235) S128x512.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v237) S128x512.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v239) S128x512.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v242) S1x512.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v240) S512x512.size cc8_transform_10 reads8_10 false true 1 stage8_10 sem8_10
    hrank8 hreads8_10 hinb8_10 nbuf8_10 (Memref.isWhole_whole _) hwx8_10 hstage8_10

abbrev win8_11 : Pipeline.Window sig grid8 :=
  Pipeline.Window.ofSpec (Memref.whole main_v243) S1x512.size cc8_transform_11 reads8_11 false true 1 stage8_11 sem8_11
    hrank8 hreads8_11 hinb8_11 nbuf8_11 (Memref.isWhole_whole _) hwx8_11 hstage8_11

abbrev win8_12 : Pipeline.Window sig grid8 :=
  Pipeline.Window.ofSpec (Memref.whole main_v241) S512x128.size cc8_transform_12 reads8_12 false true 1 stage8_12 sem8_12
    hrank8 hreads8_12 hinb8_12 nbuf8_12 (Memref.isWhole_whole _) hwx8_12 hstage8_12

abbrev win8_13 : Pipeline.Window sig grid8 :=
  Pipeline.Window.ofSpec (Memref.whole main_v244) S1x128.size cc8_transform_13 reads8_13 false true 1 stage8_13 sem8_13
    hrank8 hreads8_13 hinb8_13 nbuf8_13 (Memref.isWhole_whole _) hwx8_13 hstage8_13

abbrev win8_14 : Pipeline.Window sig grid8 :=
  Pipeline.Window.ofSpec (Memref.whole main_v245_0) S2000x128.size cc8_transform_14 reads8_14 true false 2 stage8_14 sem8_14
    hrank8 hreads8_14 hinb8_14 nbuf8_14 (Memref.isWhole_whole _) hwx8_14 hstage8_14

abbrev win8_15 : Pipeline.Window sig grid8 :=
  Pipeline.Window.ofSpec (Memref.whole main_v245_1) S2000x128.size cc8_transform_15 reads8_15 true false 2 stage8_15 sem8_15
    hrank8 hreads8_15 hinb8_15 nbuf8_15 (Memref.isWhole_whole _) hwx8_15 hstage8_15

abbrev win8 : Fin 16 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | 12 => win8_12 | 13 => win8_13 | 14 => win8_14 | 15 => win8_15 | ⟨_ + 16, h⟩ => absurd h (Nat.not_lt.2 (Nat.le_add_left _ _))
abbrev spec8 : Fin 16 → Pipeline.WinSpec sig grid8.rank := fun w => (win8 w).toWinSpec

abbrev win9_0 : Pipeline.Window sig grid9 :=
  Pipeline.Window.ofSpec (Memref.whole main_v272) S1000x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v273) S512x512.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v276) S1x512.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v274) S512x512.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v277) S1x512.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v275) S512x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v278) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v279) S1000x128.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v299) S64x384.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_v300) S384x512.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v303) S1x512.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v301) S512x512.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v304) S1x512.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v302) S512x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v305) S1x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v306) S64x128.size cc10_transform_7 reads10_7 true false 1 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v309) S1000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v168) S1000x3.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v310) S128x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v312) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v311) S128x3.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v313) S1x3.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v314) S1000x3.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v328) S1000x3.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v307) S1000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v329) S3x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v331) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v330) S128x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v332) S1x128.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v333) S1000x128.size cc12_transform_6 reads12_6 true false 2 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v350) S4000x1.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v245_1) S4000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v351) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v353) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v352) S128x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v354) S1x128.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v355) S4000x128.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v364) S2000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v371) S2000x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v355) S2000x128.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v378) S2000x128.size cc14_transform_3 reads14_3 false false 2 stage14_3 sem14_3
    hrank14 hreads14_3 hinb14_3 nbuf14_3 (Memref.isWhole_whole _) hwx14_3 hstage14_3

abbrev win14_4 : Pipeline.Window sig grid14 :=
  Pipeline.Window.ofSpec (Memref.whole main_v245_1) S2000x128.size cc14_transform_4 reads14_4 false false 2 stage14_4 sem14_4
    hrank14 hreads14_4 hinb14_4 nbuf14_4 (Memref.isWhole_whole _) hwx14_4 hstage14_4

abbrev win14_5 : Pipeline.Window sig grid14 :=
  Pipeline.Window.ofSpec (Memref.whole main_v392) S128x512.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v394) S128x512.size cc14_transform_6 reads14_6 false true 1 stage14_6 sem14_6
    hrank14 hreads14_6 hinb14_6 nbuf14_6 (Memref.isWhole_whole _) hwx14_6 hstage14_6

abbrev win14_7 : Pipeline.Window sig grid14 :=
  Pipeline.Window.ofSpec (Memref.whole main_v396) S128x512.size cc14_transform_7 reads14_7 false true 1 stage14_7 sem14_7
    hrank14 hreads14_7 hinb14_7 nbuf14_7 (Memref.isWhole_whole _) hwx14_7 hstage14_7

abbrev win14_8 : Pipeline.Window sig grid14 :=
  Pipeline.Window.ofSpec (Memref.whole main_v398) S128x512.size cc14_transform_8 reads14_8 false true 1 stage14_8 sem14_8
    hrank14 hreads14_8 hinb14_8 nbuf14_8 (Memref.isWhole_whole _) hwx14_8 hstage14_8

abbrev win14_9 : Pipeline.Window sig grid14 :=
  Pipeline.Window.ofSpec (Memref.whole main_v401) S1x512.size cc14_transform_9 reads14_9 false true 1 stage14_9 sem14_9
    hrank14 hreads14_9 hinb14_9 nbuf14_9 (Memref.isWhole_whole _) hwx14_9 hstage14_9

abbrev win14_10 : Pipeline.Window sig grid14 :=
  Pipeline.Window.ofSpec (Memref.whole main_v399) S512x512.size cc14_transform_10 reads14_10 false true 1 stage14_10 sem14_10
    hrank14 hreads14_10 hinb14_10 nbuf14_10 (Memref.isWhole_whole _) hwx14_10 hstage14_10

abbrev win14_11 : Pipeline.Window sig grid14 :=
  Pipeline.Window.ofSpec (Memref.whole main_v402) S1x512.size cc14_transform_11 reads14_11 false true 1 stage14_11 sem14_11
    hrank14 hreads14_11 hinb14_11 nbuf14_11 (Memref.isWhole_whole _) hwx14_11 hstage14_11

abbrev win14_12 : Pipeline.Window sig grid14 :=
  Pipeline.Window.ofSpec (Memref.whole main_v400) S512x128.size cc14_transform_12 reads14_12 false true 1 stage14_12 sem14_12
    hrank14 hreads14_12 hinb14_12 nbuf14_12 (Memref.isWhole_whole _) hwx14_12 hstage14_12

abbrev win14_13 : Pipeline.Window sig grid14 :=
  Pipeline.Window.ofSpec (Memref.whole main_v403) S1x128.size cc14_transform_13 reads14_13 false true 1 stage14_13 sem14_13
    hrank14 hreads14_13 hinb14_13 nbuf14_13 (Memref.isWhole_whole _) hwx14_13 hstage14_13

abbrev win14_14 : Pipeline.Window sig grid14 :=
  Pipeline.Window.ofSpec (Memref.whole main_v404_0) S2000x128.size cc14_transform_14 reads14_14 true false 2 stage14_14 sem14_14
    hrank14 hreads14_14 hinb14_14 nbuf14_14 (Memref.isWhole_whole _) hwx14_14 hstage14_14

abbrev win14_15 : Pipeline.Window sig grid14 :=
  Pipeline.Window.ofSpec (Memref.whole main_v404_1) S2000x128.size cc14_transform_15 reads14_15 true false 2 stage14_15 sem14_15
    hrank14 hreads14_15 hinb14_15 nbuf14_15 (Memref.isWhole_whole _) hwx14_15 hstage14_15

abbrev win14 : Fin 16 → Pipeline.Window sig grid14 := fun | 0 => win14_0 | 1 => win14_1 | 2 => win14_2 | 3 => win14_3 | 4 => win14_4 | 5 => win14_5 | 6 => win14_6 | 7 => win14_7 | 8 => win14_8 | 9 => win14_9 | 10 => win14_10 | 11 => win14_11 | 12 => win14_12 | 13 => win14_13 | 14 => win14_14 | 15 => win14_15 | ⟨_ + 16, h⟩ => absurd h (Nat.not_lt.2 (Nat.le_add_left _ _))
abbrev spec14 : Fin 16 → Pipeline.WinSpec sig grid14.rank := fun w => (win14 w).toWinSpec

abbrev win15_0 : Pipeline.Window sig grid15 :=
  Pipeline.Window.ofSpec (Memref.whole main_v431) S1000x512.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v432) S512x512.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v435) S1x512.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v433) S512x512.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v436) S1x512.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v434) S512x128.size cc15_transform_5 reads15_5 false true 1 stage15_5 sem15_5
    hrank15 hreads15_5 hinb15_5 nbuf15_5 (Memref.isWhole_whole _) hwx15_5 hstage15_5

abbrev win15_6 : Pipeline.Window sig grid15 :=
  Pipeline.Window.ofSpec (Memref.whole main_v437) S1x128.size cc15_transform_6 reads15_6 false true 1 stage15_6 sem15_6
    hrank15 hreads15_6 hinb15_6 nbuf15_6 (Memref.isWhole_whole _) hwx15_6 hstage15_6

abbrev win15_7 : Pipeline.Window sig grid15 :=
  Pipeline.Window.ofSpec (Memref.whole main_v438) S1000x128.size cc15_transform_7 reads15_7 true false 2 stage15_7 sem15_7
    hrank15 hreads15_7 hinb15_7 nbuf15_7 (Memref.isWhole_whole _) hwx15_7 hstage15_7

abbrev win15 : Fin 8 → Pipeline.Window sig grid15 := fun | 0 => win15_0 | 1 => win15_1 | 2 => win15_2 | 3 => win15_3 | 4 => win15_4 | 5 => win15_5 | 6 => win15_6 | 7 => win15_7 | ⟨_ + 8, h⟩ => absurd h (Nat.not_lt.2 (Nat.le_add_left _ _))
abbrev spec15 : Fin 8 → Pipeline.WinSpec sig grid15.rank := fun w => (win15 w).toWinSpec

abbrev win16_0 : Pipeline.Window sig grid16 :=
  Pipeline.Window.ofSpec (Memref.whole main_v441) S1000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v327) S1000x3.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v442) S128x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v444) S1x128.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v443) S128x3.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v445) S1x3.size cc16_transform_5 reads16_5 false true 1 stage16_5 sem16_5
    hrank16 hreads16_5 hinb16_5 nbuf16_5 (Memref.isWhole_whole _) hwx16_5 hstage16_5

abbrev win16_6 : Pipeline.Window sig grid16 :=
  Pipeline.Window.ofSpec (Memref.whole main_v446) S1000x3.size cc16_transform_6 reads16_6 true false 2 stage16_6 sem16_6
    hrank16 hreads16_6 hinb16_6 nbuf16_6 (Memref.isWhole_whole _) hwx16_6 hstage16_6

abbrev win16 : Fin 7 → Pipeline.Window sig grid16 := fun | 0 => win16_0 | 1 => win16_1 | 2 => win16_2 | 3 => win16_3 | 4 => win16_4 | 5 => win16_5 | 6 => win16_6 | ⟨_ + 7, h⟩ => absurd h (Nat.not_lt.2 (Nat.le_add_left _ _))
abbrev spec16 : Fin 7 → Pipeline.WinSpec sig grid16.rank := fun w => (win16 w).toWinSpec

class Facts : Prop extends Facts₀ where

variable [Facts]
-- ==== ReferenceIdeal.lean ====
abbrev S5000x128 : Shape := ⟨2, ![5000, 128]⟩
abbrev S2x80000 : Shape := ⟨2, ![2, 80000]⟩
abbrev S80000x128 : Shape := ⟨2, ![80000, 128]⟩
abbrev S64x128 : Shape := ⟨2, ![64, 128]⟩
abbrev S5000 : Shape := ⟨1, ![5000]⟩
abbrev S80000 : Shape := ⟨1, ![80000]⟩
abbrev S5000x3 : Shape := ⟨2, ![5000, 3]⟩
abbrev S3x128 : Shape := ⟨2, ![3, 128]⟩
abbrev S128 : Shape := ⟨1, ![128]⟩
abbrev S128x128 : Shape := ⟨2, ![128, 128]⟩
abbrev S1x128 : Shape := ⟨2, ![1, 128]⟩
abbrev S3x512x512 : Shape := ⟨3, ![3, 512, 512]⟩
abbrev S3x512 : Shape := ⟨2, ![3, 512]⟩
abbrev S3x512x128 : Shape := ⟨3, ![3, 512, 128]⟩
abbrev S2x384x512 : Shape := ⟨3, ![2, 384, 512]⟩
abbrev S2x512 : Shape := ⟨2, ![2, 512]⟩
abbrev S2x512x512 : Shape := ⟨3, ![2, 512, 512]⟩
abbrev S2x512x128 : Shape := ⟨3, ![2, 512, 128]⟩
abbrev S2x128 : Shape := ⟨2, ![2, 128]⟩
abbrev S128x3 : Shape := ⟨2, ![128, 3]⟩
abbrev S3 : Shape := ⟨1, ![3]⟩
abbrev S1x80000 : Shape := ⟨2, ![1, 80000]⟩
abbrev S_ : Shape := ⟨0, ![]⟩
abbrev S5000x1 : Shape := ⟨2, ![5000, 1]⟩
abbrev S64x1 : Shape := ⟨2, ![64, 1]⟩
abbrev S80000x1 : Shape := ⟨2, ![80000, 1]⟩
abbrev S80000x3 : Shape := ⟨2, ![80000, 3]⟩
abbrev S80000x512 : Shape := ⟨2, ![80000, 512]⟩
abbrev S1x512x512 : Shape := ⟨3, ![1, 512, 512]⟩
abbrev S512x512 : Shape := ⟨2, ![512, 512]⟩
abbrev S1x512x128 : Shape := ⟨3, ![1, 512, 128]⟩
abbrev S512x128 : Shape := ⟨2, ![512, 128]⟩
abbrev S1x512 : Shape := ⟨2, ![1, 512]⟩
abbrev S512 : Shape := ⟨1, ![512]⟩
abbrev S5000x512 : Shape := ⟨2, ![5000, 512]⟩
abbrev S64x384 : Shape := ⟨2, ![64, 384]⟩
abbrev S1x384x512 : Shape := ⟨3, ![1, 384, 512]⟩
abbrev S384x512 : Shape := ⟨2, ![384, 512]⟩
abbrev S64x512 : Shape := ⟨2, ![64, 512]⟩
abbrev S1x3 : Shape := ⟨2, ![1, 3]⟩
abbrev S64x3 : Shape := ⟨2, ![64, 3]⟩
abbrev S1x5000x3 : Shape := ⟨3, ![1, 5000, 3]⟩
abbrev S3x5000x3 : Shape := ⟨3, ![3, 5000, 3]⟩

abbrev nBuf : Space → Nat
  | .hbm => 730
  | .vmem => 0
  | .smem => 0
  | _ => 0

abbrev hbmTy0_0 (i : Nat) : BufTy := match i % 128 with
  | 0 => ⟨S5000x128, .f32⟩
  | 1 => ⟨S2x80000, .i32⟩
  | 2 => ⟨S80000x128, .f32⟩
  | 3 => ⟨S64x128, .f32⟩
  | 4 => ⟨S5000, .i32⟩
  | 5 => ⟨S80000, .i32⟩
  | 6 => ⟨S5000x3, .f32⟩
  | 7 => ⟨S5000x3, .f32⟩
  | 8 => ⟨S3x128, .f32⟩
  | 9 => ⟨S128, .f32⟩
  | 10 => ⟨S128x128, .f32⟩
  | 11 => ⟨S128, .f32⟩
  | 12 => ⟨S1x128, .f32⟩
  | 13 => ⟨S128, .f32⟩
  | 14 => ⟨S128x128, .f32⟩
  | 15 => ⟨S128, .f32⟩
  | 16 => ⟨S3x512x512, .f32⟩
  | 17 => ⟨S3x512, .f32⟩
  | 18 => ⟨S3x512x512, .f32⟩
  | 19 => ⟨S3x512, .f32⟩
  | 20 => ⟨S3x512x128, .f32⟩
  | 21 => ⟨S3x128, .f32⟩
  | 22 => ⟨S3x512x512, .f32⟩
  | 23 => ⟨S3x512, .f32⟩
  | 24 => ⟨S3x512x512, .f32⟩
  | 25 => ⟨S3x512, .f32⟩
  | 26 => ⟨S3x512x128, .f32⟩
  | 27 => ⟨S3x128, .f32⟩
  | 28 => ⟨S2x384x512, .f32⟩
  | 29 => ⟨S2x512, .f32⟩
  | 30 => ⟨S2x512x512, .f32⟩
  | 31 => ⟨S2x512, .f32⟩
  | 32 => ⟨S2x512x128, .f32⟩
  | 33 => ⟨S2x128, .f32⟩
  | 34 => ⟨S128x128, .f32⟩
  | 35 => ⟨S128, .f32⟩
  | 36 => ⟨S128x3, .f32⟩
  | 37 => ⟨S3, .f32⟩
  | 38 => ⟨S1x80000, .i32⟩
  | 39 => ⟨S80000, .i32⟩
  | 40 => ⟨S1x80000, .i32⟩
  | 41 => ⟨S80000, .i32⟩
  | 42 => ⟨S_, .f32⟩
  | 43 => ⟨S5000x1, .f32⟩
  | 44 => ⟨S_, .f32⟩
  | 45 => ⟨S64x1, .f32⟩
  | 46 => ⟨S5000x1, .i32⟩
  | 47 => ⟨S64x1, .f32⟩
  | 48 => ⟨S_, .f32⟩
  | 49 => ⟨S64x1, .f32⟩
  | 50 => ⟨S64x1, .f32⟩
  | 51 => ⟨S5000x128, .f32⟩
  | 52 => ⟨S1x128, .f32⟩
  | 53 => ⟨S5000x128, .f32⟩
  | 54 => ⟨S5000x128, .f32⟩
  | 55 => ⟨S_, .f32⟩
  | 56 => ⟨S5000x128, .f32⟩
  | 57 => ⟨S5000x128, .f32⟩
  | 58 => ⟨S5000x128, .f32⟩
  | 59 => ⟨S1x128, .f32⟩
  | 60 => ⟨S5000x128, .f32⟩
  | 61 => ⟨S5000x128, .f32⟩
  | 62 => ⟨S_, .f32⟩
  | 63 => ⟨S5000x128, .f32⟩
  | 64 => ⟨S5000x128, .f32⟩
  | 65 => ⟨S5000x128, .f32⟩
  | 66 => ⟨S_, .i32⟩
  | 67 => ⟨S80000, .i32⟩
  | 68 => ⟨S80000, .i1⟩
  | 69 => ⟨S_, .i32⟩
  | 70 => ⟨S80000, .i32⟩
  | 71 => ⟨S80000, .i32⟩
  | 72 => ⟨S80000, .i32⟩
  | 73 => ⟨S80000x1, .i32⟩
  | 74 => ⟨S80000x3, .f32⟩
  | 75 => ⟨S_, .i32⟩
  | 76 => ⟨S80000, .i32⟩
  | 77 => ⟨S80000, .i1⟩
  | 78 => ⟨S_, .i32⟩
  | 79 => ⟨S80000, .i32⟩
  | 80 => ⟨S80000, .i32⟩
  | 81 => ⟨S80000, .i32⟩
  | 82 => ⟨S80000x1, .i32⟩
  | 83 => ⟨S80000x3, .f32⟩
  | 84 => ⟨S80000x3, .f32⟩
  | 85 => ⟨S80000x3, .f32⟩
  | 86 => ⟨S_, .f32⟩
  | 87 => ⟨S80000, .f32⟩
  | 88 => ⟨S80000x1, .f32⟩
  | 89 => ⟨S80000x1, .f32⟩
  | 90 => ⟨S80000x128, .f32⟩
  | 91 => ⟨S1x128, .f32⟩
  | 92 => ⟨S80000x128, .f32⟩
  | 93 => ⟨S80000x128, .f32⟩
  | 94 => ⟨S_, .f32⟩
  | 95 => ⟨S80000x128, .f32⟩
  | 96 => ⟨S80000x128, .f32⟩
  | 97 => ⟨S80000x128, .f32⟩
  | 98 => ⟨S1x128, .f32⟩
  | 99 => ⟨S80000x128, .f32⟩
  | 100 => ⟨S80000x128, .f32⟩
  | 101 => ⟨S_, .f32⟩
  | 102 => ⟨S80000x128, .f32⟩
  | 103 => ⟨S80000x128, .f32⟩
  | 104 => ⟨S80000x128, .f32⟩
  | 105 => ⟨S_, .i32⟩
  | 106 => ⟨S80000, .i32⟩
  | 107 => ⟨S80000, .i1⟩
  | 108 => ⟨S_, .i32⟩
  | 109 => ⟨S80000, .i32⟩
  | 110 => ⟨S80000, .i32⟩
  | 111 => ⟨S80000, .i32⟩
  | 112 => ⟨S80000x1, .i32⟩
  | 113 => ⟨S80000x128, .f32⟩
  | 114 => ⟨S_, .i32⟩
  | 115 => ⟨S80000, .i32⟩
  | 116 => ⟨S80000, .i1⟩
  | 117 => ⟨S_, .i32⟩
  | 118 => ⟨S80000, .i32⟩
  | 119 => ⟨S80000, .i32⟩
  | 120 => ⟨S80000, .i32⟩
  | 121 => ⟨S80000x1, .i32⟩
  | 122 => ⟨S80000x128, .f32⟩
  | 123 => ⟨S_, .i32⟩
  | 124 => ⟨S80000, .i32⟩
  | 125 => ⟨S80000, .i1⟩
  | 126 => ⟨S_, .i32⟩
  | 127 => ⟨S80000, .i32⟩
  | _ => ⟨S5000x128, .f32⟩

abbrev hbmTy0_1 (i : Nat) : BufTy := match i % 128 with
  | 0 => ⟨S80000, .i32⟩
  | 1 => ⟨S80000, .i32⟩
  | 2 => ⟨S80000x1, .i32⟩
  | 3 => ⟨S80000x128, .f32⟩
  | 4 => ⟨S80000x512, .f32⟩
  | 5 => ⟨S1x512x512, .f32⟩
  | 6 => ⟨S512x512, .f32⟩
  | 7 => ⟨S1x512x512, .f32⟩
  | 8 => ⟨S512x512, .f32⟩
  | 9 => ⟨S1x512x128, .f32⟩
  | 10 => ⟨S512x128, .f32⟩
  | 11 => ⟨S1x512, .f32⟩
  | 12 => ⟨S512, .f32⟩
  | 13 => ⟨S1x512, .f32⟩
  | 14 => ⟨S512, .f32⟩
  | 15 => ⟨S1x128, .f32⟩
  | 16 => ⟨S128, .f32⟩
  | 17 => ⟨S80000x512, .f32⟩
  | 18 => ⟨S1x512, .f32⟩
  | 19 => ⟨S80000x512, .f32⟩
  | 20 => ⟨S80000x512, .f32⟩
  | 21 => ⟨S_, .f32⟩
  | 22 => ⟨S80000x512, .f32⟩
  | 23 => ⟨S80000x512, .f32⟩
  | 24 => ⟨S80000x512, .f32⟩
  | 25 => ⟨S1x512, .f32⟩
  | 26 => ⟨S80000x512, .f32⟩
  | 27 => ⟨S80000x512, .f32⟩
  | 28 => ⟨S_, .f32⟩
  | 29 => ⟨S80000x512, .f32⟩
  | 30 => ⟨S80000x512, .f32⟩
  | 31 => ⟨S80000x128, .f32⟩
  | 32 => ⟨S1x128, .f32⟩
  | 33 => ⟨S80000x128, .f32⟩
  | 34 => ⟨S80000x128, .f32⟩
  | 35 => ⟨S_, .f32⟩
  | 36 => ⟨S80000x128, .f32⟩
  | 37 => ⟨S80000x128, .f32⟩
  | 38 => ⟨S_, .f32⟩
  | 39 => ⟨S5000x128, .f32⟩
  | 40 => ⟨S80000x1, .i32⟩
  | 41 => ⟨S5000x128, .f32⟩
  | 42 => ⟨S_, .f32⟩
  | 43 => ⟨S5000x128, .f32⟩
  | 44 => ⟨S80000x1, .i32⟩
  | 45 => ⟨S5000x128, .f32⟩
  | 46 => ⟨S_, .i32⟩
  | 47 => ⟨S5000, .i32⟩
  | 48 => ⟨S5000, .i1⟩
  | 49 => ⟨S_, .i32⟩
  | 50 => ⟨S5000, .i32⟩
  | 51 => ⟨S5000, .i32⟩
  | 52 => ⟨S5000, .i32⟩
  | 53 => ⟨S5000x1, .i32⟩
  | 54 => ⟨S5000x128, .f32⟩
  | 55 => ⟨S5000x512, .f32⟩
  | 56 => ⟨S1x512x512, .f32⟩
  | 57 => ⟨S512x512, .f32⟩
  | 58 => ⟨S1x512x512, .f32⟩
  | 59 => ⟨S512x512, .f32⟩
  | 60 => ⟨S1x512x128, .f32⟩
  | 61 => ⟨S512x128, .f32⟩
  | 62 => ⟨S1x512, .f32⟩
  | 63 => ⟨S512, .f32⟩
  | 64 => ⟨S1x512, .f32⟩
  | 65 => ⟨S512, .f32⟩
  | 66 => ⟨S1x128, .f32⟩
  | 67 => ⟨S128, .f32⟩
  | 68 => ⟨S5000x512, .f32⟩
  | 69 => ⟨S1x512, .f32⟩
  | 70 => ⟨S5000x512, .f32⟩
  | 71 => ⟨S5000x512, .f32⟩
  | 72 => ⟨S_, .f32⟩
  | 73 => ⟨S5000x512, .f32⟩
  | 74 => ⟨S5000x512, .f32⟩
  | 75 => ⟨S5000x512, .f32⟩
  | 76 => ⟨S1x512, .f32⟩
  | 77 => ⟨S5000x512, .f32⟩
  | 78 => ⟨S5000x512, .f32⟩
  | 79 => ⟨S_, .f32⟩
  | 80 => ⟨S5000x512, .f32⟩
  | 81 => ⟨S5000x512, .f32⟩
  | 82 => ⟨S5000x128, .f32⟩
  | 83 => ⟨S1x128, .f32⟩
  | 84 => ⟨S5000x128, .f32⟩
  | 85 => ⟨S5000x128, .f32⟩
  | 86 => ⟨S_, .f32⟩
  | 87 => ⟨S5000x128, .f32⟩
  | 88 => ⟨S5000x128, .f32⟩
  | 89 => ⟨S_, .f32⟩
  | 90 => ⟨S64x128, .f32⟩
  | 91 => ⟨S5000x1, .i32⟩
  | 92 => ⟨S64x128, .f32⟩
  | 93 => ⟨S_, .f32⟩
  | 94 => ⟨S64x128, .f32⟩
  | 95 => ⟨S80000x1, .i32⟩
  | 96 => ⟨S64x128, .f32⟩
  | 97 => ⟨S64x384, .f32⟩
  | 98 => ⟨S1x384x512, .f32⟩
  | 99 => ⟨S384x512, .f32⟩
  | 100 => ⟨S1x512x512, .f32⟩
  | 101 => ⟨S512x512, .f32⟩
  | 102 => ⟨S1x512x128, .f32⟩
  | 103 => ⟨S512x128, .f32⟩
  | 104 => ⟨S1x512, .f32⟩
  | 105 => ⟨S512, .f32⟩
  | 106 => ⟨S1x512, .f32⟩
  | 107 => ⟨S512, .f32⟩
  | 108 => ⟨S1x128, .f32⟩
  | 109 => ⟨S128, .f32⟩
  | 110 => ⟨S64x512, .f32⟩
  | 111 => ⟨S1x512, .f32⟩
  | 112 => ⟨S64x512, .f32⟩
  | 113 => ⟨S64x512, .f32⟩
  | 114 => ⟨S_, .f32⟩
  | 115 => ⟨S64x512, .f32⟩
  | 116 => ⟨S64x512, .f32⟩
  | 117 => ⟨S64x512, .f32⟩
  | 118 => ⟨S1x512, .f32⟩
  | 119 => ⟨S64x512, .f32⟩
  | 120 => ⟨S64x512, .f32⟩
  | 121 => ⟨S_, .f32⟩
  | 122 => ⟨S64x512, .f32⟩
  | 123 => ⟨S64x512, .f32⟩
  | 124 => ⟨S64x128, .f32⟩
  | 125 => ⟨S1x128, .f32⟩
  | 126 => ⟨S64x128, .f32⟩
  | 127 => ⟨S64x128, .f32⟩
  | _ => ⟨S5000x128, .f32⟩

abbrev hbmTy0_2 (i : Nat) : BufTy := match i % 128 with
  | 0 => ⟨S_, .f32⟩
  | 1 => ⟨S64x128, .f32⟩
  | 2 => ⟨S64x128, .f32⟩
  | 3 => ⟨S5000x128, .f32⟩
  | 4 => ⟨S80000x128, .f32⟩
  | 5 => ⟨S64x128, .f32⟩
  | 6 => ⟨S5000x128, .f32⟩
  | 7 => ⟨S1x128, .f32⟩
  | 8 => ⟨S5000x128, .f32⟩
  | 9 => ⟨S5000x128, .f32⟩
  | 10 => ⟨S_, .f32⟩
  | 11 => ⟨S5000x128, .f32⟩
  | 12 => ⟨S5000x128, .f32⟩
  | 13 => ⟨S5000x3, .f32⟩
  | 14 => ⟨S1x3, .f32⟩
  | 15 => ⟨S5000x3, .f32⟩
  | 16 => ⟨S5000x3, .f32⟩
  | 17 => ⟨S5000x3, .f32⟩
  | 18 => ⟨S_, .f32⟩
  | 19 => ⟨S64x3, .f32⟩
  | 20 => ⟨S5000x1, .i32⟩
  | 21 => ⟨S64x3, .f32⟩
  | 22 => ⟨S64x3, .f32⟩
  | 23 => ⟨S64x3, .f32⟩
  | 24 => ⟨S_, .i32⟩
  | 25 => ⟨S5000, .i32⟩
  | 26 => ⟨S5000, .i1⟩
  | 27 => ⟨S_, .i32⟩
  | 28 => ⟨S5000, .i32⟩
  | 29 => ⟨S5000, .i32⟩
  | 30 => ⟨S5000, .i32⟩
  | 31 => ⟨S5000x1, .i32⟩
  | 32 => ⟨S5000x3, .f32⟩
  | 33 => ⟨S5000x3, .f32⟩
  | 34 => ⟨S5000x128, .f32⟩
  | 35 => ⟨S1x128, .f32⟩
  | 36 => ⟨S5000x128, .f32⟩
  | 37 => ⟨S5000x128, .f32⟩
  | 38 => ⟨S_, .f32⟩
  | 39 => ⟨S5000x128, .f32⟩
  | 40 => ⟨S5000x128, .f32⟩
  | 41 => ⟨S5000x128, .f32⟩
  | 42 => ⟨S1x128, .f32⟩
  | 43 => ⟨S5000x128, .f32⟩
  | 44 => ⟨S5000x128, .f32⟩
  | 45 => ⟨S_, .f32⟩
  | 46 => ⟨S5000x128, .f32⟩
  | 47 => ⟨S5000x128, .f32⟩
  | 48 => ⟨S5000x128, .f32⟩
  | 49 => ⟨S_, .i32⟩
  | 50 => ⟨S80000, .i32⟩
  | 51 => ⟨S80000, .i1⟩
  | 52 => ⟨S_, .i32⟩
  | 53 => ⟨S80000, .i32⟩
  | 54 => ⟨S80000, .i32⟩
  | 55 => ⟨S80000, .i32⟩
  | 56 => ⟨S80000x1, .i32⟩
  | 57 => ⟨S80000x3, .f32⟩
  | 58 => ⟨S_, .i32⟩
  | 59 => ⟨S80000, .i32⟩
  | 60 => ⟨S80000, .i1⟩
  | 61 => ⟨S_, .i32⟩
  | 62 => ⟨S80000, .i32⟩
  | 63 => ⟨S80000, .i32⟩
  | 64 => ⟨S80000, .i32⟩
  | 65 => ⟨S80000x1, .i32⟩
  | 66 => ⟨S80000x3, .f32⟩
  | 67 => ⟨S80000x3, .f32⟩
  | 68 => ⟨S80000x3, .f32⟩
  | 69 => ⟨S_, .f32⟩
  | 70 => ⟨S80000, .f32⟩
  | 71 => ⟨S80000x1, .f32⟩
  | 72 => ⟨S80000x1, .f32⟩
  | 73 => ⟨S80000x128, .f32⟩
  | 74 => ⟨S1x128, .f32⟩
  | 75 => ⟨S80000x128, .f32⟩
  | 76 => ⟨S80000x128, .f32⟩
  | 77 => ⟨S_, .f32⟩
  | 78 => ⟨S80000x128, .f32⟩
  | 79 => ⟨S80000x128, .f32⟩
  | 80 => ⟨S80000x128, .f32⟩
  | 81 => ⟨S1x128, .f32⟩
  | 82 => ⟨S80000x128, .f32⟩
  | 83 => ⟨S80000x128, .f32⟩
  | 84 => ⟨S_, .f32⟩
  | 85 => ⟨S80000x128, .f32⟩
  | 86 => ⟨S80000x128, .f32⟩
  | 87 => ⟨S80000x128, .f32⟩
  | 88 => ⟨S_, .i32⟩
  | 89 => ⟨S80000, .i32⟩
  | 90 => ⟨S80000, .i1⟩
  | 91 => ⟨S_, .i32⟩
  | 92 => ⟨S80000, .i32⟩
  | 93 => ⟨S80000, .i32⟩
  | 94 => ⟨S80000, .i32⟩
  | 95 => ⟨S80000x1, .i32⟩
  | 96 => ⟨S80000x128, .f32⟩
  | 97 => ⟨S_, .i32⟩
  | 98 => ⟨S80000, .i32⟩
  | 99 => ⟨S80000, .i1⟩
  | 100 => ⟨S_, .i32⟩
  | 101 => ⟨S80000, .i32⟩
  | 102 => ⟨S80000, .i32⟩
  | 103 => ⟨S80000, .i32⟩
  | 104 => ⟨S80000x1, .i32⟩
  | 105 => ⟨S80000x128, .f32⟩
  | 106 => ⟨S_, .i32⟩
  | 107 => ⟨S80000, .i32⟩
  | 108 => ⟨S80000, .i1⟩
  | 109 => ⟨S_, .i32⟩
  | 110 => ⟨S80000, .i32⟩
  | 111 => ⟨S80000, .i32⟩
  | 112 => ⟨S80000, .i32⟩
  | 113 => ⟨S80000x1, .i32⟩
  | 114 => ⟨S80000x128, .f32⟩
  | 115 => ⟨S80000x512, .f32⟩
  | 116 => ⟨S1x512x512, .f32⟩
  | 117 => ⟨S512x512, .f32⟩
  | 118 => ⟨S1x512x512, .f32⟩
  | 119 => ⟨S512x512, .f32⟩
  | 120 => ⟨S1x512x128, .f32⟩
  | 121 => ⟨S512x128, .f32⟩
  | 122 => ⟨S1x512, .f32⟩
  | 123 => ⟨S512, .f32⟩
  | 124 => ⟨S1x512, .f32⟩
  | 125 => ⟨S512, .f32⟩
  | 126 => ⟨S1x128, .f32⟩
  | 127 => ⟨S128, .f32⟩
  | _ => ⟨S5000x128, .f32⟩

abbrev hbmTy0_3 (i : Nat) : BufTy := match i % 128 with
  | 0 => ⟨S80000x512, .f32⟩
  | 1 => ⟨S1x512, .f32⟩
  | 2 => ⟨S80000x512, .f32⟩
  | 3 => ⟨S80000x512, .f32⟩
  | 4 => ⟨S_, .f32⟩
  | 5 => ⟨S80000x512, .f32⟩
  | 6 => ⟨S80000x512, .f32⟩
  | 7 => ⟨S80000x512, .f32⟩
  | 8 => ⟨S1x512, .f32⟩
  | 9 => ⟨S80000x512, .f32⟩
  | 10 => ⟨S80000x512, .f32⟩
  | 11 => ⟨S_, .f32⟩
  | 12 => ⟨S80000x512, .f32⟩
  | 13 => ⟨S80000x512, .f32⟩
  | 14 => ⟨S80000x128, .f32⟩
  | 15 => ⟨S1x128, .f32⟩
  | 16 => ⟨S80000x128, .f32⟩
  | 17 => ⟨S80000x128, .f32⟩
  | 18 => ⟨S_, .f32⟩
  | 19 => ⟨S80000x128, .f32⟩
  | 20 => ⟨S80000x128, .f32⟩
  | 21 => ⟨S_, .f32⟩
  | 22 => ⟨S5000x128, .f32⟩
  | 23 => ⟨S80000x1, .i32⟩
  | 24 => ⟨S5000x128, .f32⟩
  | 25 => ⟨S_, .f32⟩
  | 26 => ⟨S5000x128, .f32⟩
  | 27 => ⟨S80000x1, .i32⟩
  | 28 => ⟨S5000x128, .f32⟩
  | 29 => ⟨S_, .i32⟩
  | 30 => ⟨S5000, .i32⟩
  | 31 => ⟨S5000, .i1⟩
  | 32 => ⟨S_, .i32⟩
  | 33 => ⟨S5000, .i32⟩
  | 34 => ⟨S5000, .i32⟩
  | 35 => ⟨S5000, .i32⟩
  | 36 => ⟨S5000x1, .i32⟩
  | 37 => ⟨S5000x128, .f32⟩
  | 38 => ⟨S5000x512, .f32⟩
  | 39 => ⟨S1x512x512, .f32⟩
  | 40 => ⟨S512x512, .f32⟩
  | 41 => ⟨S1x512x512, .f32⟩
  | 42 => ⟨S512x512, .f32⟩
  | 43 => ⟨S1x512x128, .f32⟩
  | 44 => ⟨S512x128, .f32⟩
  | 45 => ⟨S1x512, .f32⟩
  | 46 => ⟨S512, .f32⟩
  | 47 => ⟨S1x512, .f32⟩
  | 48 => ⟨S512, .f32⟩
  | 49 => ⟨S1x128, .f32⟩
  | 50 => ⟨S128, .f32⟩
  | 51 => ⟨S5000x512, .f32⟩
  | 52 => ⟨S1x512, .f32⟩
  | 53 => ⟨S5000x512, .f32⟩
  | 54 => ⟨S5000x512, .f32⟩
  | 55 => ⟨S_, .f32⟩
  | 56 => ⟨S5000x512, .f32⟩
  | 57 => ⟨S5000x512, .f32⟩
  | 58 => ⟨S5000x512, .f32⟩
  | 59 => ⟨S1x512, .f32⟩
  | 60 => ⟨S5000x512, .f32⟩
  | 61 => ⟨S5000x512, .f32⟩
  | 62 => ⟨S_, .f32⟩
  | 63 => ⟨S5000x512, .f32⟩
  | 64 => ⟨S5000x512, .f32⟩
  | 65 => ⟨S5000x128, .f32⟩
  | 66 => ⟨S1x128, .f32⟩
  | 67 => ⟨S5000x128, .f32⟩
  | 68 => ⟨S5000x128, .f32⟩
  | 69 => ⟨S_, .f32⟩
  | 70 => ⟨S5000x128, .f32⟩
  | 71 => ⟨S5000x128, .f32⟩
  | 72 => ⟨S_, .f32⟩
  | 73 => ⟨S64x128, .f32⟩
  | 74 => ⟨S5000x1, .i32⟩
  | 75 => ⟨S64x128, .f32⟩
  | 76 => ⟨S_, .f32⟩
  | 77 => ⟨S64x128, .f32⟩
  | 78 => ⟨S80000x1, .i32⟩
  | 79 => ⟨S64x128, .f32⟩
  | 80 => ⟨S64x384, .f32⟩
  | 81 => ⟨S1x384x512, .f32⟩
  | 82 => ⟨S384x512, .f32⟩
  | 83 => ⟨S1x512x512, .f32⟩
  | 84 => ⟨S512x512, .f32⟩
  | 85 => ⟨S1x512x128, .f32⟩
  | 86 => ⟨S512x128, .f32⟩
  | 87 => ⟨S1x512, .f32⟩
  | 88 => ⟨S512, .f32⟩
  | 89 => ⟨S1x512, .f32⟩
  | 90 => ⟨S512, .f32⟩
  | 91 => ⟨S1x128, .f32⟩
  | 92 => ⟨S128, .f32⟩
  | 93 => ⟨S64x512, .f32⟩
  | 94 => ⟨S1x512, .f32⟩
  | 95 => ⟨S64x512, .f32⟩
  | 96 => ⟨S64x512, .f32⟩
  | 97 => ⟨S_, .f32⟩
  | 98 => ⟨S64x512, .f32⟩
  | 99 => ⟨S64x512, .f32⟩
  | 100 => ⟨S64x512, .f32⟩
  | 101 => ⟨S1x512, .f32⟩
  | 102 => ⟨S64x512, .f32⟩
  | 103 => ⟨S64x512, .f32⟩
  | 104 => ⟨S_, .f32⟩
  | 105 => ⟨S64x512, .f32⟩
  | 106 => ⟨S64x512, .f32⟩
  | 107 => ⟨S64x128, .f32⟩
  | 108 => ⟨S1x128, .f32⟩
  | 109 => ⟨S64x128, .f32⟩
  | 110 => ⟨S64x128, .f32⟩
  | 111 => ⟨S_, .f32⟩
  | 112 => ⟨S64x128, .f32⟩
  | 113 => ⟨S64x128, .f32⟩
  | 114 => ⟨S5000x128, .f32⟩
  | 115 => ⟨S80000x128, .f32⟩
  | 116 => ⟨S64x128, .f32⟩
  | 117 => ⟨S5000x128, .f32⟩
  | 118 => ⟨S1x128, .f32⟩
  | 119 => ⟨S5000x128, .f32⟩
  | 120 => ⟨S5000x128, .f32⟩
  | 121 => ⟨S_, .f32⟩
  | 122 => ⟨S5000x128, .f32⟩
  | 123 => ⟨S5000x128, .f32⟩
  | 124 => ⟨S5000x3, .f32⟩
  | 125 => ⟨S1x3, .f32⟩
  | 126 => ⟨S5000x3, .f32⟩
  | 127 => ⟨S5000x3, .f32⟩
  | _ => ⟨S5000x128, .f32⟩

abbrev hbmTy0_4 (i : Nat) : BufTy := match i % 128 with
  | 0 => ⟨S5000x3, .f32⟩
  | 1 => ⟨S_, .f32⟩
  | 2 => ⟨S64x3, .f32⟩
  | 3 => ⟨S5000x1, .i32⟩
  | 4 => ⟨S64x3, .f32⟩
  | 5 => ⟨S64x3, .f32⟩
  | 6 => ⟨S64x3, .f32⟩
  | 7 => ⟨S_, .i32⟩
  | 8 => ⟨S5000, .i32⟩
  | 9 => ⟨S5000, .i1⟩
  | 10 => ⟨S_, .i32⟩
  | 11 => ⟨S5000, .i32⟩
  | 12 => ⟨S5000, .i32⟩
  | 13 => ⟨S5000, .i32⟩
  | 14 => ⟨S5000x1, .i32⟩
  | 15 => ⟨S5000x3, .f32⟩
  | 16 => ⟨S5000x3, .f32⟩
  | 17 => ⟨S5000x128, .f32⟩
  | 18 => ⟨S1x128, .f32⟩
  | 19 => ⟨S5000x128, .f32⟩
  | 20 => ⟨S5000x128, .f32⟩
  | 21 => ⟨S_, .f32⟩
  | 22 => ⟨S5000x128, .f32⟩
  | 23 => ⟨S5000x128, .f32⟩
  | 24 => ⟨S5000x128, .f32⟩
  | 25 => ⟨S1x128, .f32⟩
  | 26 => ⟨S5000x128, .f32⟩
  | 27 => ⟨S5000x128, .f32⟩
  | 28 => ⟨S_, .f32⟩
  | 29 => ⟨S5000x128, .f32⟩
  | 30 => ⟨S5000x128, .f32⟩
  | 31 => ⟨S5000x128, .f32⟩
  | 32 => ⟨S_, .i32⟩
  | 33 => ⟨S80000, .i32⟩
  | 34 => ⟨S80000, .i1⟩
  | 35 => ⟨S_, .i32⟩
  | 36 => ⟨S80000, .i32⟩
  | 37 => ⟨S80000, .i32⟩
  | 38 => ⟨S80000, .i32⟩
  | 39 => ⟨S80000x1, .i32⟩
  | 40 => ⟨S80000x3, .f32⟩
  | 41 => ⟨S_, .i32⟩
  | 42 => ⟨S80000, .i32⟩
  | 43 => ⟨S80000, .i1⟩
  | 44 => ⟨S_, .i32⟩
  | 45 => ⟨S80000, .i32⟩
  | 46 => ⟨S80000, .i32⟩
  | 47 => ⟨S80000, .i32⟩
  | 48 => ⟨S80000x1, .i32⟩
  | 49 => ⟨S80000x3, .f32⟩
  | 50 => ⟨S80000x3, .f32⟩
  | 51 => ⟨S80000x3, .f32⟩
  | 52 => ⟨S_, .f32⟩
  | 53 => ⟨S80000, .f32⟩
  | 54 => ⟨S80000x1, .f32⟩
  | 55 => ⟨S80000x1, .f32⟩
  | 56 => ⟨S80000x128, .f32⟩
  | 57 => ⟨S1x128, .f32⟩
  | 58 => ⟨S80000x128, .f32⟩
  | 59 => ⟨S80000x128, .f32⟩
  | 60 => ⟨S_, .f32⟩
  | 61 => ⟨S80000x128, .f32⟩
  | 62 => ⟨S80000x128, .f32⟩
  | 63 => ⟨S80000x128, .f32⟩
  | 64 => ⟨S1x128, .f32⟩
  | 65 => ⟨S80000x128, .f32⟩
  | 66 => ⟨S80000x128, .f32⟩
  | 67 => ⟨S_, .f32⟩
  | 68 => ⟨S80000x128, .f32⟩
  | 69 => ⟨S80000x128, .f32⟩
  | 70 => ⟨S80000x128, .f32⟩
  | 71 => ⟨S_, .i32⟩
  | 72 => ⟨S80000, .i32⟩
  | 73 => ⟨S80000, .i1⟩
  | 74 => ⟨S_, .i32⟩
  | 75 => ⟨S80000, .i32⟩
  | 76 => ⟨S80000, .i32⟩
  | 77 => ⟨S80000, .i32⟩
  | 78 => ⟨S80000x1, .i32⟩
  | 79 => ⟨S80000x128, .f32⟩
  | 80 => ⟨S_, .i32⟩
  | 81 => ⟨S80000, .i32⟩
  | 82 => ⟨S80000, .i1⟩
  | 83 => ⟨S_, .i32⟩
  | 84 => ⟨S80000, .i32⟩
  | 85 => ⟨S80000, .i32⟩
  | 86 => ⟨S80000, .i32⟩
  | 87 => ⟨S80000x1, .i32⟩
  | 88 => ⟨S80000x128, .f32⟩
  | 89 => ⟨S_, .i32⟩
  | 90 => ⟨S80000, .i32⟩
  | 91 => ⟨S80000, .i1⟩
  | 92 => ⟨S_, .i32⟩
  | 93 => ⟨S80000, .i32⟩
  | 94 => ⟨S80000, .i32⟩
  | 95 => ⟨S80000, .i32⟩
  | 96 => ⟨S80000x1, .i32⟩
  | 97 => ⟨S80000x128, .f32⟩
  | 98 => ⟨S80000x512, .f32⟩
  | 99 => ⟨S1x512x512, .f32⟩
  | 100 => ⟨S512x512, .f32⟩
  | 101 => ⟨S1x512x512, .f32⟩
  | 102 => ⟨S512x512, .f32⟩
  | 103 => ⟨S1x512x128, .f32⟩
  | 104 => ⟨S512x128, .f32⟩
  | 105 => ⟨S1x512, .f32⟩
  | 106 => ⟨S512, .f32⟩
  | 107 => ⟨S1x512, .f32⟩
  | 108 => ⟨S512, .f32⟩
  | 109 => ⟨S1x128, .f32⟩
  | 110 => ⟨S128, .f32⟩
  | 111 => ⟨S80000x512, .f32⟩
  | 112 => ⟨S1x512, .f32⟩
  | 113 => ⟨S80000x512, .f32⟩
  | 114 => ⟨S80000x512, .f32⟩
  | 115 => ⟨S_, .f32⟩
  | 116 => ⟨S80000x512, .f32⟩
  | 117 => ⟨S80000x512, .f32⟩
  | 118 => ⟨S80000x512, .f32⟩
  | 119 => ⟨S1x512, .f32⟩
  | 120 => ⟨S80000x512, .f32⟩
  | 121 => ⟨S80000x512, .f32⟩
  | 122 => ⟨S_, .f32⟩
  | 123 => ⟨S80000x512, .f32⟩
  | 124 => ⟨S80000x512, .f32⟩
  | 125 => ⟨S80000x128, .f32⟩
  | 126 => ⟨S1x128, .f32⟩
  | 127 => ⟨S80000x128, .f32⟩
  | _ => ⟨S5000x128, .f32⟩

abbrev hbmTy0_5 (i : Nat) : BufTy := match i % 128 with
  | 0 => ⟨S80000x128, .f32⟩
  | 1 => ⟨S_, .f32⟩
  | 2 => ⟨S80000x128, .f32⟩
  | 3 => ⟨S80000x128, .f32⟩
  | 4 => ⟨S_, .f32⟩
  | 5 => ⟨S5000x128, .f32⟩
  | 6 => ⟨S80000x1, .i32⟩
  | 7 => ⟨S5000x128, .f32⟩
  | 8 => ⟨S_, .f32⟩
  | 9 => ⟨S5000x128, .f32⟩
  | 10 => ⟨S80000x1, .i32⟩
  | 11 => ⟨S5000x128, .f32⟩
  | 12 => ⟨S_, .i32⟩
  | 13 => ⟨S5000, .i32⟩
  | 14 => ⟨S5000, .i1⟩
  | 15 => ⟨S_, .i32⟩
  | 16 => ⟨S5000, .i32⟩
  | 17 => ⟨S5000, .i32⟩
  | 18 => ⟨S5000, .i32⟩
  | 19 => ⟨S5000x1, .i32⟩
  | 20 => ⟨S5000x128, .f32⟩
  | 21 => ⟨S5000x512, .f32⟩
  | 22 => ⟨S1x512x512, .f32⟩
  | 23 => ⟨S512x512, .f32⟩
  | 24 => ⟨S1x512x512, .f32⟩
  | 25 => ⟨S512x512, .f32⟩
  | 26 => ⟨S1x512x128, .f32⟩
  | 27 => ⟨S512x128, .f32⟩
  | 28 => ⟨S1x512, .f32⟩
  | 29 => ⟨S512, .f32⟩
  | 30 => ⟨S1x512, .f32⟩
  | 31 => ⟨S512, .f32⟩
  | 32 => ⟨S1x128, .f32⟩
  | 33 => ⟨S128, .f32⟩
  | 34 => ⟨S5000x512, .f32⟩
  | 35 => ⟨S1x512, .f32⟩
  | 36 => ⟨S5000x512, .f32⟩
  | 37 => ⟨S5000x512, .f32⟩
  | 38 => ⟨S_, .f32⟩
  | 39 => ⟨S5000x512, .f32⟩
  | 40 => ⟨S5000x512, .f32⟩
  | 41 => ⟨S5000x512, .f32⟩
  | 42 => ⟨S1x512, .f32⟩
  | 43 => ⟨S5000x512, .f32⟩
  | 44 => ⟨S5000x512, .f32⟩
  | 45 => ⟨S_, .f32⟩
  | 46 => ⟨S5000x512, .f32⟩
  | 47 => ⟨S5000x512, .f32⟩
  | 48 => ⟨S5000x128, .f32⟩
  | 49 => ⟨S1x128, .f32⟩
  | 50 => ⟨S5000x128, .f32⟩
  | 51 => ⟨S5000x128, .f32⟩
  | 52 => ⟨S_, .f32⟩
  | 53 => ⟨S5000x128, .f32⟩
  | 54 => ⟨S5000x128, .f32⟩
  | 55 => ⟨S5000x128, .f32⟩
  | 56 => ⟨S80000x128, .f32⟩
  | 57 => ⟨S64x128, .f32⟩
  | 58 => ⟨S5000x128, .f32⟩
  | 59 => ⟨S1x128, .f32⟩
  | 60 => ⟨S5000x128, .f32⟩
  | 61 => ⟨S5000x128, .f32⟩
  | 62 => ⟨S_, .f32⟩
  | 63 => ⟨S5000x128, .f32⟩
  | 64 => ⟨S5000x128, .f32⟩
  | 65 => ⟨S5000x3, .f32⟩
  | 66 => ⟨S1x3, .f32⟩
  | 67 => ⟨S5000x3, .f32⟩
  | 68 => ⟨S5000x3, .f32⟩
  | 69 => ⟨S5000x3, .f32⟩
  | 70 => ⟨S_, .f32⟩
  | 71 => ⟨S64x3, .f32⟩
  | 72 => ⟨S5000x1, .i32⟩
  | 73 => ⟨S64x3, .f32⟩
  | 74 => ⟨S64x3, .f32⟩
  | 75 => ⟨S64x3, .f32⟩
  | 76 => ⟨S_, .i32⟩
  | 77 => ⟨S5000, .i32⟩
  | 78 => ⟨S5000, .i1⟩
  | 79 => ⟨S_, .i32⟩
  | 80 => ⟨S5000, .i32⟩
  | 81 => ⟨S5000, .i32⟩
  | 82 => ⟨S5000, .i32⟩
  | 83 => ⟨S5000x1, .i32⟩
  | 84 => ⟨S5000x3, .f32⟩
  | 85 => ⟨S5000x3, .f32⟩
  | 86 => ⟨S1x5000x3, .f32⟩
  | 87 => ⟨S1x5000x3, .f32⟩
  | 88 => ⟨S1x5000x3, .f32⟩
  | 89 => ⟨S3x5000x3, .f32⟩
  | _ => ⟨S5000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S5000x128, .f32⟩

abbrev bufTy : (tb : Table) → Fin (tcTables nBuf tb) → BufTy
  | .hbm, ⟨i, _⟩ => hbmTy i
  | _, _ => ⟨S5000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_cst : Ref sig .tc := ⟨.hbm, 42, rfl⟩
abbrev main_v4 : Ref sig .tc := ⟨.hbm, 43, rfl⟩
abbrev main_cst_0 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_cst_1 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_call0_cst : Ref sig .tc := ⟨.hbm, 55, rfl⟩
abbrev main_call0_v0 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_call1_cst : Ref sig .tc := ⟨.hbm, 62, rfl⟩
abbrev main_call1_v0 : Ref sig .tc := ⟨.hbm, 63, rfl⟩
abbrev main_v19 : Ref sig .tc := ⟨.hbm, 64, rfl⟩
abbrev main_v20 : Ref sig .tc := ⟨.hbm, 65, rfl⟩
abbrev main_c : Ref sig .tc := ⟨.hbm, 66, rfl⟩
abbrev main_v21 : Ref sig .tc := ⟨.hbm, 67, rfl⟩
abbrev main_v22 : Ref sig .tc := ⟨.hbm, 68, rfl⟩
abbrev main_c_2 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_c_3 : Ref sig .tc := ⟨.hbm, 75, rfl⟩
abbrev main_v28 : Ref sig .tc := ⟨.hbm, 76, rfl⟩
abbrev main_v29 : Ref sig .tc := ⟨.hbm, 77, rfl⟩
abbrev main_c_4 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_call2_v0 : Ref sig .tc := ⟨.hbm, 85, rfl⟩
abbrev main_call2_cst : Ref sig .tc := ⟨.hbm, 86, rfl⟩
abbrev main_call2_v1 : Ref sig .tc := ⟨.hbm, 87, rfl⟩
abbrev main_call2_v2 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_call3_cst : Ref sig .tc := ⟨.hbm, 94, rfl⟩
abbrev main_call3_v0 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_call4_cst : Ref sig .tc := ⟨.hbm, 101, rfl⟩
abbrev main_call4_v0 : Ref sig .tc := ⟨.hbm, 102, rfl⟩
abbrev main_v46 : Ref sig .tc := ⟨.hbm, 103, rfl⟩
abbrev main_v47 : Ref sig .tc := ⟨.hbm, 104, rfl⟩
abbrev main_c_5 : Ref sig .tc := ⟨.hbm, 105, rfl⟩
abbrev main_v48 : Ref sig .tc := ⟨.hbm, 106, rfl⟩
abbrev main_v49 : Ref sig .tc := ⟨.hbm, 107, rfl⟩
abbrev main_c_6 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_c_7 : Ref sig .tc := ⟨.hbm, 114, rfl⟩
abbrev main_v55 : Ref sig .tc := ⟨.hbm, 115, rfl⟩
abbrev main_v56 : Ref sig .tc := ⟨.hbm, 116, rfl⟩
abbrev main_c_8 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_c_9 : Ref sig .tc := ⟨.hbm, 123, rfl⟩
abbrev main_v62 : Ref sig .tc := ⟨.hbm, 124, rfl⟩
abbrev main_v63 : Ref sig .tc := ⟨.hbm, 125, rfl⟩
abbrev main_c_10 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_call5_cst : Ref sig .tc := ⟨.hbm, 149, rfl⟩
abbrev main_call5_v0 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_call6_cst : Ref sig .tc := ⟨.hbm, 156, rfl⟩
abbrev main_call6_v0 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_call7_cst : Ref sig .tc := ⟨.hbm, 163, rfl⟩
abbrev main_call7_v0 : Ref sig .tc := ⟨.hbm, 164, rfl⟩
abbrev main_v96 : Ref sig .tc := ⟨.hbm, 165, rfl⟩
abbrev main_cst_11 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_cst_12 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_c_13 : Ref sig .tc := ⟨.hbm, 174, rfl⟩
abbrev main_v103 : Ref sig .tc := ⟨.hbm, 175, rfl⟩
abbrev main_v104 : Ref sig .tc := ⟨.hbm, 176, rfl⟩
abbrev main_c_14 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_call8_cst : Ref sig .tc := ⟨.hbm, 200, rfl⟩
abbrev main_call8_v0 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_call9_cst : Ref sig .tc := ⟨.hbm, 207, rfl⟩
abbrev main_call9_v0 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_call10_cst : Ref sig .tc := ⟨.hbm, 214, rfl⟩
abbrev main_call10_v0 : Ref sig .tc := ⟨.hbm, 215, rfl⟩
abbrev main_v137 : Ref sig .tc := ⟨.hbm, 216, rfl⟩
abbrev main_cst_15 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_cst_16 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_call11_cst : Ref sig .tc := ⟨.hbm, 242, rfl⟩
abbrev main_call11_v0 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_call12_cst : Ref sig .tc := ⟨.hbm, 249, rfl⟩
abbrev main_call12_v0 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_call13_cst : Ref sig .tc := ⟨.hbm, 256, rfl⟩
abbrev main_call13_v0 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_call14_cst : Ref sig .tc := ⟨.hbm, 266, rfl⟩
abbrev main_call14_v0 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_cst_17 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_v188 : Ref sig .tc := ⟨.hbm, 278, rfl⟩
abbrev main_v189 : Ref sig .tc := ⟨.hbm, 279, rfl⟩
abbrev main_c_18 : Ref sig .tc := ⟨.hbm, 280, rfl⟩
abbrev main_v190 : Ref sig .tc := ⟨.hbm, 281, rfl⟩
abbrev main_v191 : Ref sig .tc := ⟨.hbm, 282, rfl⟩
abbrev main_c_19 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_call15_cst : Ref sig .tc := ⟨.hbm, 294, rfl⟩
abbrev main_call15_v0 : Ref sig .tc := ⟨.hbm, 295, rfl⟩
abbrev main_v202 : Ref sig .tc := ⟨.hbm, 296, rfl⟩
abbrev main_v203 : Ref sig .tc := ⟨.hbm, 297, rfl⟩
abbrev main_v204 : Ref sig .tc := ⟨.hbm, 298, rfl⟩
abbrev main_v205 : Ref sig .tc := ⟨.hbm, 299, rfl⟩
abbrev main_v206 : Ref sig .tc := ⟨.hbm, 300, rfl⟩
abbrev main_call16_cst : Ref sig .tc := ⟨.hbm, 301, rfl⟩
abbrev main_call16_v0 : Ref sig .tc := ⟨.hbm, 302, rfl⟩
abbrev main_v207 : Ref sig .tc := ⟨.hbm, 303, rfl⟩
abbrev main_v208 : Ref sig .tc := ⟨.hbm, 304, rfl⟩
abbrev main_c_20 : Ref sig .tc := ⟨.hbm, 305, rfl⟩
abbrev main_v209 : Ref sig .tc := ⟨.hbm, 306, rfl⟩
abbrev main_v210 : Ref sig .tc := ⟨.hbm, 307, rfl⟩
abbrev main_c_21 : Ref sig .tc := ⟨.hbm, 308, rfl⟩
abbrev main_v211 : Ref sig .tc := ⟨.hbm, 309, rfl⟩
abbrev main_v212 : Ref sig .tc := ⟨.hbm, 310, rfl⟩
abbrev main_v213 : Ref sig .tc := ⟨.hbm, 311, rfl⟩
abbrev main_v214 : Ref sig .tc := ⟨.hbm, 312, rfl⟩
abbrev main_v215 : Ref sig .tc := ⟨.hbm, 313, rfl⟩
abbrev main_c_22 : Ref sig .tc := ⟨.hbm, 314, rfl⟩
abbrev main_v216 : Ref sig .tc := ⟨.hbm, 315, rfl⟩
abbrev main_v217 : Ref sig .tc := ⟨.hbm, 316, rfl⟩
abbrev main_c_23 : Ref sig .tc := ⟨.hbm, 317, rfl⟩
abbrev main_v218 : Ref sig .tc := ⟨.hbm, 318, rfl⟩
abbrev main_v219 : Ref sig .tc := ⟨.hbm, 319, rfl⟩
abbrev main_v220 : Ref sig .tc := ⟨.hbm, 320, rfl⟩
abbrev main_v221 : Ref sig .tc := ⟨.hbm, 321, rfl⟩
abbrev main_v222 : Ref sig .tc := ⟨.hbm, 322, rfl⟩
abbrev main_v223 : Ref sig .tc := ⟨.hbm, 323, rfl⟩
abbrev main_call17_v0 : Ref sig .tc := ⟨.hbm, 324, rfl⟩
abbrev main_call17_cst : Ref sig .tc := ⟨.hbm, 325, rfl⟩
abbrev main_call17_v1 : Ref sig .tc := ⟨.hbm, 326, rfl⟩
abbrev main_call17_v2 : Ref sig .tc := ⟨.hbm, 327, rfl⟩
abbrev main_v224 : Ref sig .tc := ⟨.hbm, 328, rfl⟩
abbrev main_v225 : Ref sig .tc := ⟨.hbm, 329, rfl⟩
abbrev main_v226 : Ref sig .tc := ⟨.hbm, 330, rfl⟩
abbrev main_v227 : Ref sig .tc := ⟨.hbm, 331, rfl⟩
abbrev main_v228 : Ref sig .tc := ⟨.hbm, 332, rfl⟩
abbrev main_call18_cst : Ref sig .tc := ⟨.hbm, 333, rfl⟩
abbrev main_call18_v0 : Ref sig .tc := ⟨.hbm, 334, rfl⟩
abbrev main_v229 : Ref sig .tc := ⟨.hbm, 335, rfl⟩
abbrev main_v230 : Ref sig .tc := ⟨.hbm, 336, rfl⟩
abbrev main_v231 : Ref sig .tc := ⟨.hbm, 337, rfl⟩
abbrev main_v232 : Ref sig .tc := ⟨.hbm, 338, rfl⟩
abbrev main_v233 : Ref sig .tc := ⟨.hbm, 339, rfl⟩
abbrev main_call19_cst : Ref sig .tc := ⟨.hbm, 340, rfl⟩
abbrev main_call19_v0 : Ref sig .tc := ⟨.hbm, 341, rfl⟩
abbrev main_v234 : Ref sig .tc := ⟨.hbm, 342, rfl⟩
abbrev main_v235 : Ref sig .tc := ⟨.hbm, 343, rfl⟩
abbrev main_c_24 : Ref sig .tc := ⟨.hbm, 344, rfl⟩
abbrev main_v236 : Ref sig .tc := ⟨.hbm, 345, rfl⟩
abbrev main_v237 : Ref sig .tc := ⟨.hbm, 346, rfl⟩
abbrev main_c_25 : Ref sig .tc := ⟨.hbm, 347, rfl⟩
abbrev main_v238 : Ref sig .tc := ⟨.hbm, 348, rfl⟩
abbrev main_v239 : Ref sig .tc := ⟨.hbm, 349, rfl⟩
abbrev main_v240 : Ref sig .tc := ⟨.hbm, 350, rfl⟩
abbrev main_v241 : Ref sig .tc := ⟨.hbm, 351, rfl⟩
abbrev main_v242 : Ref sig .tc := ⟨.hbm, 352, rfl⟩
abbrev main_c_26 : Ref sig .tc := ⟨.hbm, 353, rfl⟩
abbrev main_v243 : Ref sig .tc := ⟨.hbm, 354, rfl⟩
abbrev main_v244 : Ref sig .tc := ⟨.hbm, 355, rfl⟩
abbrev main_c_27 : Ref sig .tc := ⟨.hbm, 356, rfl⟩
abbrev main_v245 : Ref sig .tc := ⟨.hbm, 357, rfl⟩
abbrev main_v246 : Ref sig .tc := ⟨.hbm, 358, rfl⟩
abbrev main_v247 : Ref sig .tc := ⟨.hbm, 359, rfl⟩
abbrev main_v248 : Ref sig .tc := ⟨.hbm, 360, rfl⟩
abbrev main_v249 : Ref sig .tc := ⟨.hbm, 361, rfl⟩
abbrev main_c_28 : Ref sig .tc := ⟨.hbm, 362, rfl⟩
abbrev main_v250 : Ref sig .tc := ⟨.hbm, 363, rfl⟩
abbrev main_v251 : Ref sig .tc := ⟨.hbm, 364, rfl⟩
abbrev main_c_29 : Ref sig .tc := ⟨.hbm, 365, rfl⟩
abbrev main_v252 : Ref sig .tc := ⟨.hbm, 366, rfl⟩
abbrev main_v253 : Ref sig .tc := ⟨.hbm, 367, rfl⟩
abbrev main_v254 : Ref sig .tc := ⟨.hbm, 368, rfl⟩
abbrev main_v255 : Ref sig .tc := ⟨.hbm, 369, rfl⟩
abbrev main_v256 : Ref sig .tc := ⟨.hbm, 370, rfl⟩
abbrev main_v257 : Ref sig .tc := ⟨.hbm, 371, rfl⟩
abbrev main_v258 : Ref sig .tc := ⟨.hbm, 372, rfl⟩
abbrev main_v259 : Ref sig .tc := ⟨.hbm, 373, rfl⟩
abbrev main_v260 : Ref sig .tc := ⟨.hbm, 374, rfl⟩
abbrev main_v261 : Ref sig .tc := ⟨.hbm, 375, rfl⟩
abbrev main_v262 : Ref sig .tc := ⟨.hbm, 376, rfl⟩
abbrev main_v263 : Ref sig .tc := ⟨.hbm, 377, rfl⟩
abbrev main_v264 : Ref sig .tc := ⟨.hbm, 378, rfl⟩
abbrev main_v265 : Ref sig .tc := ⟨.hbm, 379, rfl⟩
abbrev main_v266 : Ref sig .tc := ⟨.hbm, 380, rfl⟩
abbrev main_v267 : Ref sig .tc := ⟨.hbm, 381, rfl⟩
abbrev main_v268 : Ref sig .tc := ⟨.hbm, 382, rfl⟩
abbrev main_v269 : Ref sig .tc := ⟨.hbm, 383, rfl⟩
abbrev main_v270 : Ref sig .tc := ⟨.hbm, 384, rfl⟩
abbrev main_v271 : Ref sig .tc := ⟨.hbm, 385, rfl⟩
abbrev main_v272 : Ref sig .tc := ⟨.hbm, 386, rfl⟩
abbrev main_v273 : Ref sig .tc := ⟨.hbm, 387, rfl⟩
abbrev main_call20_cst : Ref sig .tc := ⟨.hbm, 388, rfl⟩
abbrev main_call20_v0 : Ref sig .tc := ⟨.hbm, 389, rfl⟩
abbrev main_v274 : Ref sig .tc := ⟨.hbm, 390, rfl⟩
abbrev main_v275 : Ref sig .tc := ⟨.hbm, 391, rfl⟩
abbrev main_v276 : Ref sig .tc := ⟨.hbm, 392, rfl⟩
abbrev main_v277 : Ref sig .tc := ⟨.hbm, 393, rfl⟩
abbrev main_v278 : Ref sig .tc := ⟨.hbm, 394, rfl⟩
abbrev main_call21_cst : Ref sig .tc := ⟨.hbm, 395, rfl⟩
abbrev main_call21_v0 : Ref sig .tc := ⟨.hbm, 396, rfl⟩
abbrev main_v279 : Ref sig .tc := ⟨.hbm, 397, rfl⟩
abbrev main_v280 : Ref sig .tc := ⟨.hbm, 398, rfl⟩
abbrev main_v281 : Ref sig .tc := ⟨.hbm, 399, rfl⟩
abbrev main_v282 : Ref sig .tc := ⟨.hbm, 400, rfl⟩
abbrev main_v283 : Ref sig .tc := ⟨.hbm, 401, rfl⟩
abbrev main_call22_cst : Ref sig .tc := ⟨.hbm, 402, rfl⟩
abbrev main_call22_v0 : Ref sig .tc := ⟨.hbm, 403, rfl⟩
abbrev main_v284 : Ref sig .tc := ⟨.hbm, 404, rfl⟩
abbrev main_cst_30 : Ref sig .tc := ⟨.hbm, 405, rfl⟩
abbrev main_v285 : Ref sig .tc := ⟨.hbm, 406, rfl⟩
abbrev main_v286 : Ref sig .tc := ⟨.hbm, 407, rfl⟩
abbrev main_v287 : Ref sig .tc := ⟨.hbm, 408, rfl⟩
abbrev main_cst_31 : Ref sig .tc := ⟨.hbm, 409, rfl⟩
abbrev main_v288 : Ref sig .tc := ⟨.hbm, 410, rfl⟩
abbrev main_v289 : Ref sig .tc := ⟨.hbm, 411, rfl⟩
abbrev main_v290 : Ref sig .tc := ⟨.hbm, 412, rfl⟩
abbrev main_c_32 : Ref sig .tc := ⟨.hbm, 413, rfl⟩
abbrev main_v291 : Ref sig .tc := ⟨.hbm, 414, rfl⟩
abbrev main_v292 : Ref sig .tc := ⟨.hbm, 415, rfl⟩
abbrev main_c_33 : Ref sig .tc := ⟨.hbm, 416, rfl⟩
abbrev main_v293 : Ref sig .tc := ⟨.hbm, 417, rfl⟩
abbrev main_v294 : Ref sig .tc := ⟨.hbm, 418, rfl⟩
abbrev main_v295 : Ref sig .tc := ⟨.hbm, 419, rfl⟩
abbrev main_v296 : Ref sig .tc := ⟨.hbm, 420, rfl⟩
abbrev main_v297 : Ref sig .tc := ⟨.hbm, 421, rfl⟩
abbrev main_v298 : Ref sig .tc := ⟨.hbm, 422, rfl⟩
abbrev main_v299 : Ref sig .tc := ⟨.hbm, 423, rfl⟩
abbrev main_v300 : Ref sig .tc := ⟨.hbm, 424, rfl⟩
abbrev main_v301 : Ref sig .tc := ⟨.hbm, 425, rfl⟩
abbrev main_v302 : Ref sig .tc := ⟨.hbm, 426, rfl⟩
abbrev main_v303 : Ref sig .tc := ⟨.hbm, 427, rfl⟩
abbrev main_v304 : Ref sig .tc := ⟨.hbm, 428, rfl⟩
abbrev main_v305 : Ref sig .tc := ⟨.hbm, 429, rfl⟩
abbrev main_v306 : Ref sig .tc := ⟨.hbm, 430, rfl⟩
abbrev main_v307 : Ref sig .tc := ⟨.hbm, 431, rfl⟩
abbrev main_v308 : Ref sig .tc := ⟨.hbm, 432, rfl⟩
abbrev main_v309 : Ref sig .tc := ⟨.hbm, 433, rfl⟩
abbrev main_v310 : Ref sig .tc := ⟨.hbm, 434, rfl⟩
abbrev main_v311 : Ref sig .tc := ⟨.hbm, 435, rfl⟩
abbrev main_v312 : Ref sig .tc := ⟨.hbm, 436, rfl⟩
abbrev main_v313 : Ref sig .tc := ⟨.hbm, 437, rfl⟩
abbrev main_v314 : Ref sig .tc := ⟨.hbm, 438, rfl⟩
abbrev main_call23_cst : Ref sig .tc := ⟨.hbm, 439, rfl⟩
abbrev main_call23_v0 : Ref sig .tc := ⟨.hbm, 440, rfl⟩
abbrev main_v315 : Ref sig .tc := ⟨.hbm, 441, rfl⟩
abbrev main_v316 : Ref sig .tc := ⟨.hbm, 442, rfl⟩
abbrev main_v317 : Ref sig .tc := ⟨.hbm, 443, rfl⟩
abbrev main_v318 : Ref sig .tc := ⟨.hbm, 444, rfl⟩
abbrev main_v319 : Ref sig .tc := ⟨.hbm, 445, rfl⟩
abbrev main_call24_cst : Ref sig .tc := ⟨.hbm, 446, rfl⟩
abbrev main_call24_v0 : Ref sig .tc := ⟨.hbm, 447, rfl⟩
abbrev main_v320 : Ref sig .tc := ⟨.hbm, 448, rfl⟩
abbrev main_v321 : Ref sig .tc := ⟨.hbm, 449, rfl⟩
abbrev main_v322 : Ref sig .tc := ⟨.hbm, 450, rfl⟩
abbrev main_v323 : Ref sig .tc := ⟨.hbm, 451, rfl⟩
abbrev main_v324 : Ref sig .tc := ⟨.hbm, 452, rfl⟩
abbrev main_call25_cst : Ref sig .tc := ⟨.hbm, 453, rfl⟩
abbrev main_call25_v0 : Ref sig .tc := ⟨.hbm, 454, rfl⟩
abbrev main_v325 : Ref sig .tc := ⟨.hbm, 455, rfl⟩
abbrev main_cst_34 : Ref sig .tc := ⟨.hbm, 456, rfl⟩
abbrev main_v326 : Ref sig .tc := ⟨.hbm, 457, rfl⟩
abbrev main_v327 : Ref sig .tc := ⟨.hbm, 458, rfl⟩
abbrev main_v328 : Ref sig .tc := ⟨.hbm, 459, rfl⟩
abbrev main_cst_35 : Ref sig .tc := ⟨.hbm, 460, rfl⟩
abbrev main_v329 : Ref sig .tc := ⟨.hbm, 461, rfl⟩
abbrev main_v330 : Ref sig .tc := ⟨.hbm, 462, rfl⟩
abbrev main_v331 : Ref sig .tc := ⟨.hbm, 463, rfl⟩
abbrev main_v332 : Ref sig .tc := ⟨.hbm, 464, rfl⟩
abbrev main_v333 : Ref sig .tc := ⟨.hbm, 465, rfl⟩
abbrev main_v334 : Ref sig .tc := ⟨.hbm, 466, rfl⟩
abbrev main_v335 : Ref sig .tc := ⟨.hbm, 467, rfl⟩
abbrev main_v336 : Ref sig .tc := ⟨.hbm, 468, rfl⟩
abbrev main_v337 : Ref sig .tc := ⟨.hbm, 469, rfl⟩
abbrev main_v338 : Ref sig .tc := ⟨.hbm, 470, rfl⟩
abbrev main_v339 : Ref sig .tc := ⟨.hbm, 471, rfl⟩
abbrev main_v340 : Ref sig .tc := ⟨.hbm, 472, rfl⟩
abbrev main_v341 : Ref sig .tc := ⟨.hbm, 473, rfl⟩
abbrev main_v342 : Ref sig .tc := ⟨.hbm, 474, rfl⟩
abbrev main_v343 : Ref sig .tc := ⟨.hbm, 475, rfl⟩
abbrev main_v344 : Ref sig .tc := ⟨.hbm, 476, rfl⟩
abbrev main_v345 : Ref sig .tc := ⟨.hbm, 477, rfl⟩
abbrev main_v346 : Ref sig .tc := ⟨.hbm, 478, rfl⟩
abbrev main_v347 : Ref sig .tc := ⟨.hbm, 479, rfl⟩
abbrev main_v348 : Ref sig .tc := ⟨.hbm, 480, rfl⟩
abbrev main_call26_cst : Ref sig .tc := ⟨.hbm, 481, rfl⟩
abbrev main_call26_v0 : Ref sig .tc := ⟨.hbm, 482, rfl⟩
abbrev main_v349 : Ref sig .tc := ⟨.hbm, 483, rfl⟩
abbrev main_v350 : Ref sig .tc := ⟨.hbm, 484, rfl⟩
abbrev main_v351 : Ref sig .tc := ⟨.hbm, 485, rfl⟩
abbrev main_v352 : Ref sig .tc := ⟨.hbm, 486, rfl⟩
abbrev main_v353 : Ref sig .tc := ⟨.hbm, 487, rfl⟩
abbrev main_call27_cst : Ref sig .tc := ⟨.hbm, 488, rfl⟩
abbrev main_call27_v0 : Ref sig .tc := ⟨.hbm, 489, rfl⟩
abbrev main_v354 : Ref sig .tc := ⟨.hbm, 490, rfl⟩
abbrev main_v355 : Ref sig .tc := ⟨.hbm, 491, rfl⟩
abbrev main_v356 : Ref sig .tc := ⟨.hbm, 492, rfl⟩
abbrev main_v357 : Ref sig .tc := ⟨.hbm, 493, rfl⟩
abbrev main_v358 : Ref sig .tc := ⟨.hbm, 494, rfl⟩
abbrev main_call28_cst : Ref sig .tc := ⟨.hbm, 495, rfl⟩
abbrev main_call28_v0 : Ref sig .tc := ⟨.hbm, 496, rfl⟩
abbrev main_v359 : Ref sig .tc := ⟨.hbm, 497, rfl⟩
abbrev main_v360 : Ref sig .tc := ⟨.hbm, 498, rfl⟩
abbrev main_v361 : Ref sig .tc := ⟨.hbm, 499, rfl⟩
abbrev main_v362 : Ref sig .tc := ⟨.hbm, 500, rfl⟩
abbrev main_v363 : Ref sig .tc := ⟨.hbm, 501, rfl⟩
abbrev main_v364 : Ref sig .tc := ⟨.hbm, 502, rfl⟩
abbrev main_v365 : Ref sig .tc := ⟨.hbm, 503, rfl⟩
abbrev main_v366 : Ref sig .tc := ⟨.hbm, 504, rfl⟩
abbrev main_call29_cst : Ref sig .tc := ⟨.hbm, 505, rfl⟩
abbrev main_call29_v0 : Ref sig .tc := ⟨.hbm, 506, rfl⟩
abbrev main_v367 : Ref sig .tc := ⟨.hbm, 507, rfl⟩
abbrev main_v368 : Ref sig .tc := ⟨.hbm, 508, rfl⟩
abbrev main_v369 : Ref sig .tc := ⟨.hbm, 509, rfl⟩
abbrev main_v370 : Ref sig .tc := ⟨.hbm, 510, rfl⟩
abbrev main_v371 : Ref sig .tc := ⟨.hbm, 511, rfl⟩
abbrev main_v372 : Ref sig .tc := ⟨.hbm, 512, rfl⟩
abbrev main_cst_36 : Ref sig .tc := ⟨.hbm, 513, rfl⟩
abbrev main_v373 : Ref sig .tc := ⟨.hbm, 514, rfl⟩
abbrev main_v374 : Ref sig .tc := ⟨.hbm, 515, rfl⟩
abbrev main_v375 : Ref sig .tc := ⟨.hbm, 516, rfl⟩
abbrev main_v376 : Ref sig .tc := ⟨.hbm, 517, rfl⟩
abbrev main_v377 : Ref sig .tc := ⟨.hbm, 518, rfl⟩
abbrev main_c_37 : Ref sig .tc := ⟨.hbm, 519, rfl⟩
abbrev main_v378 : Ref sig .tc := ⟨.hbm, 520, rfl⟩
abbrev main_v379 : Ref sig .tc := ⟨.hbm, 521, rfl⟩
abbrev main_c_38 : Ref sig .tc := ⟨.hbm, 522, rfl⟩
abbrev main_v380 : Ref sig .tc := ⟨.hbm, 523, rfl⟩
abbrev main_v381 : Ref sig .tc := ⟨.hbm, 524, rfl⟩
abbrev main_v382 : Ref sig .tc := ⟨.hbm, 525, rfl⟩
abbrev main_v383 : Ref sig .tc := ⟨.hbm, 526, rfl⟩
abbrev main_v384 : Ref sig .tc := ⟨.hbm, 527, rfl⟩
abbrev main_v385 : Ref sig .tc := ⟨.hbm, 528, rfl⟩
abbrev main_v386 : Ref sig .tc := ⟨.hbm, 529, rfl⟩
abbrev main_v387 : Ref sig .tc := ⟨.hbm, 530, rfl⟩
abbrev main_v388 : Ref sig .tc := ⟨.hbm, 531, rfl⟩
abbrev main_v389 : Ref sig .tc := ⟨.hbm, 532, rfl⟩
abbrev main_call30_cst : Ref sig .tc := ⟨.hbm, 533, rfl⟩
abbrev main_call30_v0 : Ref sig .tc := ⟨.hbm, 534, rfl⟩
abbrev main_v390 : Ref sig .tc := ⟨.hbm, 535, rfl⟩
abbrev main_v391 : Ref sig .tc := ⟨.hbm, 536, rfl⟩
abbrev main_v392 : Ref sig .tc := ⟨.hbm, 537, rfl⟩
abbrev main_v393 : Ref sig .tc := ⟨.hbm, 538, rfl⟩
abbrev main_v394 : Ref sig .tc := ⟨.hbm, 539, rfl⟩
abbrev main_call31_cst : Ref sig .tc := ⟨.hbm, 540, rfl⟩
abbrev main_call31_v0 : Ref sig .tc := ⟨.hbm, 541, rfl⟩
abbrev main_v395 : Ref sig .tc := ⟨.hbm, 542, rfl⟩
abbrev main_v396 : Ref sig .tc := ⟨.hbm, 543, rfl⟩
abbrev main_c_39 : Ref sig .tc := ⟨.hbm, 544, rfl⟩
abbrev main_v397 : Ref sig .tc := ⟨.hbm, 545, rfl⟩
abbrev main_v398 : Ref sig .tc := ⟨.hbm, 546, rfl⟩
abbrev main_c_40 : Ref sig .tc := ⟨.hbm, 547, rfl⟩
abbrev main_v399 : Ref sig .tc := ⟨.hbm, 548, rfl⟩
abbrev main_v400 : Ref sig .tc := ⟨.hbm, 549, rfl⟩
abbrev main_v401 : Ref sig .tc := ⟨.hbm, 550, rfl⟩
abbrev main_v402 : Ref sig .tc := ⟨.hbm, 551, rfl⟩
abbrev main_v403 : Ref sig .tc := ⟨.hbm, 552, rfl⟩
abbrev main_c_41 : Ref sig .tc := ⟨.hbm, 553, rfl⟩
abbrev main_v404 : Ref sig .tc := ⟨.hbm, 554, rfl⟩
abbrev main_v405 : Ref sig .tc := ⟨.hbm, 555, rfl⟩
abbrev main_c_42 : Ref sig .tc := ⟨.hbm, 556, rfl⟩
abbrev main_v406 : Ref sig .tc := ⟨.hbm, 557, rfl⟩
abbrev main_v407 : Ref sig .tc := ⟨.hbm, 558, rfl⟩
abbrev main_v408 : Ref sig .tc := ⟨.hbm, 559, rfl⟩
abbrev main_v409 : Ref sig .tc := ⟨.hbm, 560, rfl⟩
abbrev main_v410 : Ref sig .tc := ⟨.hbm, 561, rfl⟩
abbrev main_v411 : Ref sig .tc := ⟨.hbm, 562, rfl⟩
abbrev main_call32_v0 : Ref sig .tc := ⟨.hbm, 563, rfl⟩
abbrev main_call32_cst : Ref sig .tc := ⟨.hbm, 564, rfl⟩
abbrev main_call32_v1 : Ref sig .tc := ⟨.hbm, 565, rfl⟩
abbrev main_call32_v2 : Ref sig .tc := ⟨.hbm, 566, rfl⟩
abbrev main_v412 : Ref sig .tc := ⟨.hbm, 567, rfl⟩
abbrev main_v413 : Ref sig .tc := ⟨.hbm, 568, rfl⟩
abbrev main_v414 : Ref sig .tc := ⟨.hbm, 569, rfl⟩
abbrev main_v415 : Ref sig .tc := ⟨.hbm, 570, rfl⟩
abbrev main_v416 : Ref sig .tc := ⟨.hbm, 571, rfl⟩
abbrev main_call33_cst : Ref sig .tc := ⟨.hbm, 572, rfl⟩
abbrev main_call33_v0 : Ref sig .tc := ⟨.hbm, 573, rfl⟩
abbrev main_v417 : Ref sig .tc := ⟨.hbm, 574, rfl⟩
abbrev main_v418 : Ref sig .tc := ⟨.hbm, 575, rfl⟩
abbrev main_v419 : Ref sig .tc := ⟨.hbm, 576, rfl⟩
abbrev main_v420 : Ref sig .tc := ⟨.hbm, 577, rfl⟩
abbrev main_v421 : Ref sig .tc := ⟨.hbm, 578, rfl⟩
abbrev main_call34_cst : Ref sig .tc := ⟨.hbm, 579, rfl⟩
abbrev main_call34_v0 : Ref sig .tc := ⟨.hbm, 580, rfl⟩
abbrev main_v422 : Ref sig .tc := ⟨.hbm, 581, rfl⟩
abbrev main_v423 : Ref sig .tc := ⟨.hbm, 582, rfl⟩
abbrev main_c_43 : Ref sig .tc := ⟨.hbm, 583, rfl⟩
abbrev main_v424 : Ref sig .tc := ⟨.hbm, 584, rfl⟩
abbrev main_v425 : Ref sig .tc := ⟨.hbm, 585, rfl⟩
abbrev main_c_44 : Ref sig .tc := ⟨.hbm, 586, rfl⟩
abbrev main_v426 : Ref sig .tc := ⟨.hbm, 587, rfl⟩
abbrev main_v427 : Ref sig .tc := ⟨.hbm, 588, rfl⟩
abbrev main_v428 : Ref sig .tc := ⟨.hbm, 589, rfl⟩
abbrev main_v429 : Ref sig .tc := ⟨.hbm, 590, rfl⟩
abbrev main_v430 : Ref sig .tc := ⟨.hbm, 591, rfl⟩
abbrev main_c_45 : Ref sig .tc := ⟨.hbm, 592, rfl⟩
abbrev main_v431 : Ref sig .tc := ⟨.hbm, 593, rfl⟩
abbrev main_v432 : Ref sig .tc := ⟨.hbm, 594, rfl⟩
abbrev main_c_46 : Ref sig .tc := ⟨.hbm, 595, rfl⟩
abbrev main_v433 : Ref sig .tc := ⟨.hbm, 596, rfl⟩
abbrev main_v434 : Ref sig .tc := ⟨.hbm, 597, rfl⟩
abbrev main_v435 : Ref sig .tc := ⟨.hbm, 598, rfl⟩
abbrev main_v436 : Ref sig .tc := ⟨.hbm, 599, rfl⟩
abbrev main_v437 : Ref sig .tc := ⟨.hbm, 600, rfl⟩
abbrev main_c_47 : Ref sig .tc := ⟨.hbm, 601, rfl⟩
abbrev main_v438 : Ref sig .tc := ⟨.hbm, 602, rfl⟩
abbrev main_v439 : Ref sig .tc := ⟨.hbm, 603, rfl⟩
abbrev main_c_48 : Ref sig .tc := ⟨.hbm, 604, rfl⟩
abbrev main_v440 : Ref sig .tc := ⟨.hbm, 605, rfl⟩
abbrev main_v441 : Ref sig .tc := ⟨.hbm, 606, rfl⟩
abbrev main_v442 : Ref sig .tc := ⟨.hbm, 607, rfl⟩
abbrev main_v443 : Ref sig .tc := ⟨.hbm, 608, rfl⟩
abbrev main_v444 : Ref sig .tc := ⟨.hbm, 609, rfl⟩
abbrev main_v445 : Ref sig .tc := ⟨.hbm, 610, rfl⟩
abbrev main_v446 : Ref sig .tc := ⟨.hbm, 611, rfl⟩
abbrev main_v447 : Ref sig .tc := ⟨.hbm, 612, rfl⟩
abbrev main_v448 : Ref sig .tc := ⟨.hbm, 613, rfl⟩
abbrev main_v449 : Ref sig .tc := ⟨.hbm, 614, rfl⟩
abbrev main_v450 : Ref sig .tc := ⟨.hbm, 615, rfl⟩
abbrev main_v451 : Ref sig .tc := ⟨.hbm, 616, rfl⟩
abbrev main_v452 : Ref sig .tc := ⟨.hbm, 617, rfl⟩
abbrev main_v453 : Ref sig .tc := ⟨.hbm, 618, rfl⟩
abbrev main_v454 : Ref sig .tc := ⟨.hbm, 619, rfl⟩
abbrev main_v455 : Ref sig .tc := ⟨.hbm, 620, rfl⟩
abbrev main_v456 : Ref sig .tc := ⟨.hbm, 621, rfl⟩
abbrev main_v457 : Ref sig .tc := ⟨.hbm, 622, rfl⟩
abbrev main_v458 : Ref sig .tc := ⟨.hbm, 623, rfl⟩
abbrev main_v459 : Ref sig .tc := ⟨.hbm, 624, rfl⟩
abbrev main_v460 : Ref sig .tc := ⟨.hbm, 625, rfl⟩
abbrev main_v461 : Ref sig .tc := ⟨.hbm, 626, rfl⟩
abbrev main_call35_cst : Ref sig .tc := ⟨.hbm, 627, rfl⟩
abbrev main_call35_v0 : Ref sig .tc := ⟨.hbm, 628, rfl⟩
abbrev main_v462 : Ref sig .tc := ⟨.hbm, 629, rfl⟩
abbrev main_v463 : Ref sig .tc := ⟨.hbm, 630, rfl⟩
abbrev main_v464 : Ref sig .tc := ⟨.hbm, 631, rfl⟩
abbrev main_v465 : Ref sig .tc := ⟨.hbm, 632, rfl⟩
abbrev main_v466 : Ref sig .tc := ⟨.hbm, 633, rfl⟩
abbrev main_call36_cst : Ref sig .tc := ⟨.hbm, 634, rfl⟩
abbrev main_call36_v0 : Ref sig .tc := ⟨.hbm, 635, rfl⟩
abbrev main_v467 : Ref sig .tc := ⟨.hbm, 636, rfl⟩
abbrev main_v468 : Ref sig .tc := ⟨.hbm, 637, rfl⟩
abbrev main_v469 : Ref sig .tc := ⟨.hbm, 638, rfl⟩
abbrev main_v470 : Ref sig .tc := ⟨.hbm, 639, rfl⟩
abbrev main_v471 : Ref sig .tc := ⟨.hbm, 640, rfl⟩
abbrev main_call37_cst : Ref sig .tc := ⟨.hbm, 641, rfl⟩
abbrev main_call37_v0 : Ref sig .tc := ⟨.hbm, 642, rfl⟩
abbrev main_v472 : Ref sig .tc := ⟨.hbm, 643, rfl⟩
abbrev main_cst_49 : Ref sig .tc := ⟨.hbm, 644, rfl⟩
abbrev main_v473 : Ref sig .tc := ⟨.hbm, 645, rfl⟩
abbrev main_v474 : Ref sig .tc := ⟨.hbm, 646, rfl⟩
abbrev main_v475 : Ref sig .tc := ⟨.hbm, 647, rfl⟩
abbrev main_cst_50 : Ref sig .tc := ⟨.hbm, 648, rfl⟩
abbrev main_v476 : Ref sig .tc := ⟨.hbm, 649, rfl⟩
abbrev main_v477 : Ref sig .tc := ⟨.hbm, 650, rfl⟩
abbrev main_v478 : Ref sig .tc := ⟨.hbm, 651, rfl⟩
abbrev main_c_51 : Ref sig .tc := ⟨.hbm, 652, rfl⟩
abbrev main_v479 : Ref sig .tc := ⟨.hbm, 653, rfl⟩
abbrev main_v480 : Ref sig .tc := ⟨.hbm, 654, rfl⟩
abbrev main_c_52 : Ref sig .tc := ⟨.hbm, 655, rfl⟩
abbrev main_v481 : Ref sig .tc := ⟨.hbm, 656, rfl⟩
abbrev main_v482 : Ref sig .tc := ⟨.hbm, 657, rfl⟩
abbrev main_v483 : Ref sig .tc := ⟨.hbm, 658, rfl⟩
abbrev main_v484 : Ref sig .tc := ⟨.hbm, 659, rfl⟩
abbrev main_v485 : Ref sig .tc := ⟨.hbm, 660, rfl⟩
abbrev main_v486 : Ref sig .tc := ⟨.hbm, 661, rfl⟩
abbrev main_v487 : Ref sig .tc := ⟨.hbm, 662, rfl⟩
abbrev main_v488 : Ref sig .tc := ⟨.hbm, 663, rfl⟩
abbrev main_v489 : Ref sig .tc := ⟨.hbm, 664, rfl⟩
abbrev main_v490 : Ref sig .tc := ⟨.hbm, 665, rfl⟩
abbrev main_v491 : Ref sig .tc := ⟨.hbm, 666, rfl⟩
abbrev main_v492 : Ref sig .tc := ⟨.hbm, 667, rfl⟩
abbrev main_v493 : Ref sig .tc := ⟨.hbm, 668, rfl⟩
abbrev main_v494 : Ref sig .tc := ⟨.hbm, 669, rfl⟩
abbrev main_v495 : Ref sig .tc := ⟨.hbm, 670, rfl⟩
abbrev main_v496 : Ref sig .tc := ⟨.hbm, 671, rfl⟩
abbrev main_v497 : Ref sig .tc := ⟨.hbm, 672, rfl⟩
abbrev main_v498 : Ref sig .tc := ⟨.hbm, 673, rfl⟩
abbrev main_v499 : Ref sig .tc := ⟨.hbm, 674, rfl⟩
abbrev main_v500 : Ref sig .tc := ⟨.hbm, 675, rfl⟩
abbrev main_v501 : Ref sig .tc := ⟨.hbm, 676, rfl⟩
abbrev main_v502 : Ref sig .tc := ⟨.hbm, 677, rfl⟩
abbrev main_call38_cst : Ref sig .tc := ⟨.hbm, 678, rfl⟩
abbrev main_call38_v0 : Ref sig .tc := ⟨.hbm, 679, rfl⟩
abbrev main_v503 : Ref sig .tc := ⟨.hbm, 680, rfl⟩
abbrev main_v504 : Ref sig .tc := ⟨.hbm, 681, rfl⟩
abbrev main_v505 : Ref sig .tc := ⟨.hbm, 682, rfl⟩
abbrev main_v506 : Ref sig .tc := ⟨.hbm, 683, rfl⟩
abbrev main_v507 : Ref sig .tc := ⟨.hbm, 684, rfl⟩
abbrev main_call39_cst : Ref sig .tc := ⟨.hbm, 685, rfl⟩
abbrev main_call39_v0 : Ref sig .tc := ⟨.hbm, 686, rfl⟩
abbrev main_v508 : Ref sig .tc := ⟨.hbm, 687, rfl⟩
abbrev main_v509 : Ref sig .tc := ⟨.hbm, 688, rfl⟩
abbrev main_v510 : Ref sig .tc := ⟨.hbm, 689, rfl⟩
abbrev main_v511 : Ref sig .tc := ⟨.hbm, 690, rfl⟩
abbrev main_v512 : Ref sig .tc := ⟨.hbm, 691, rfl⟩
abbrev main_call40_cst : Ref sig .tc := ⟨.hbm, 692, rfl⟩
abbrev main_call40_v0 : Ref sig .tc := ⟨.hbm, 693, rfl⟩
abbrev main_v513 : Ref sig .tc := ⟨.hbm, 694, rfl⟩
abbrev main_v514 : Ref sig .tc := ⟨.hbm, 695, rfl⟩
abbrev main_v515 : Ref sig .tc := ⟨.hbm, 696, rfl⟩
abbrev main_v516 : Ref sig .tc := ⟨.hbm, 697, rfl⟩
abbrev main_v517 : Ref sig .tc := ⟨.hbm, 698, rfl⟩
abbrev main_v518 : Ref sig .tc := ⟨.hbm, 699, rfl⟩
abbrev main_v519 : Ref sig .tc := ⟨.hbm, 700, rfl⟩
abbrev main_v520 : Ref sig .tc := ⟨.hbm, 701, rfl⟩
abbrev main_call41_cst : Ref sig .tc := ⟨.hbm, 702, rfl⟩
abbrev main_call41_v0 : Ref sig .tc := ⟨.hbm, 703, rfl⟩
abbrev main_v521 : Ref sig .tc := ⟨.hbm, 704, rfl⟩
abbrev main_v522 : Ref sig .tc := ⟨.hbm, 705, rfl⟩
abbrev main_v523 : Ref sig .tc := ⟨.hbm, 706, rfl⟩
abbrev main_v524 : Ref sig .tc := ⟨.hbm, 707, rfl⟩
abbrev main_v525 : Ref sig .tc := ⟨.hbm, 708, rfl⟩
abbrev main_v526 : Ref sig .tc := ⟨.hbm, 709, rfl⟩
abbrev main_cst_53 : Ref sig .tc := ⟨.hbm, 710, rfl⟩
abbrev main_v527 : Ref sig .tc := ⟨.hbm, 711, rfl⟩
abbrev main_v528 : Ref sig .tc := ⟨.hbm, 712, rfl⟩
abbrev main_v529 : Ref sig .tc := ⟨.hbm, 713, rfl⟩
abbrev main_v530 : Ref sig .tc := ⟨.hbm, 714, rfl⟩
abbrev main_v531 : Ref sig .tc := ⟨.hbm, 715, rfl⟩
abbrev main_c_54 : Ref sig .tc := ⟨.hbm, 716, rfl⟩
abbrev main_v532 : Ref sig .tc := ⟨.hbm, 717, rfl⟩
abbrev main_v533 : Ref sig .tc := ⟨.hbm, 718, rfl⟩
abbrev main_c_55 : Ref sig .tc := ⟨.hbm, 719, rfl⟩
abbrev main_v534 : Ref sig .tc := ⟨.hbm, 720, rfl⟩
abbrev main_v535 : Ref sig .tc := ⟨.hbm, 721, rfl⟩
abbrev main_v536 : Ref sig .tc := ⟨.hbm, 722, rfl⟩
abbrev main_v537 : Ref sig .tc := ⟨.hbm, 723, rfl⟩
abbrev main_v538 : Ref sig .tc := ⟨.hbm, 724, rfl⟩
abbrev main_v539 : Ref sig .tc := ⟨.hbm, 725, rfl⟩
abbrev main_v540 : Ref sig .tc := ⟨.hbm, 726, rfl⟩
abbrev main_v541 : Ref sig .tc := ⟨.hbm, 727, rfl⟩
abbrev main_v542 : Ref sig .tc := ⟨.hbm, 728, rfl⟩
abbrev main_v543 : Ref sig .tc := ⟨.hbm, 729, rfl⟩

abbrev nD : Nat := 1
abbrev τ : Topo := Topo.v7x

variable {F : FTy → Type} [FloatOps F]

class Facts₀ : Prop where
  slices_S2x80000_S1x80000_0_0 : S2x80000.Slices ![0, 0] S1x80000
  shapeCasts_S1x80000_S80000 : S1x80000.ShapeCasts S80000
  slices_S2x80000_S1x80000_1_0 : S2x80000.Slices ![1, 0] S1x80000
  bcast_S_S5000x1 : S_.BroadcastsInDim S5000x1 (![] : Fin 0 → Fin S5000x1.rank)
  bcast_S_S64x1 : S_.BroadcastsInDim S64x1 (![] : Fin 0 → Fin S64x1.rank)
  bcast_S5000_S5000x1_0 : S5000.BroadcastsInDim S5000x1 (![0] : Fin 1 → Fin S5000x1.rank)
  bcast_S128_S1x128_1 : S128.BroadcastsInDim S1x128 (![1] : Fin 1 → Fin S1x128.rank)
  bcast_S1x128_S5000x128_0_1 : S1x128.BroadcastsInDim S5000x128 (![0, 1] : Fin 2 → Fin S5000x128.rank)
  bcast_S_S5000x128 : S_.BroadcastsInDim S5000x128 (![] : Fin 0 → Fin S5000x128.rank)
  bcast_S_S80000 : S_.BroadcastsInDim S80000 (![] : Fin 0 → Fin S80000.rank)
  bcast_S80000_S80000x1_0 : S80000.BroadcastsInDim S80000x1 (![0] : Fin 1 → Fin S80000x1.rank)
  reducesTo_S80000x3_S80000_d1 : S80000x3.ReducesTo [1] S80000
  h_S_ : 0 < S_.numel
  bcast_S1x128_S80000x128_0_1 : S1x128.BroadcastsInDim S80000x128 (![0, 1] : Fin 2 → Fin S80000x128.rank)
  bcast_S_S80000x128 : S_.BroadcastsInDim S80000x128 (![] : Fin 0 → Fin S80000x128.rank)
  concatenates_S80000x128_S80000x128_S80000x128_S80000x128_S80000x512_d1 : Shape.Concatenates [S80000x128, S80000x128, S80000x128, S80000x128] S80000x512 1
  slices_S3x512x512_S1x512x512_0_0_0 : S3x512x512.Slices ![0, 0, 0] S1x512x512
  shapeCasts_S1x512x512_S512x512 : S1x512x512.ShapeCasts S512x512
  slices_S3x512x128_S1x512x128_0_0_0 : S3x512x128.Slices ![0, 0, 0] S1x512x128
  shapeCasts_S1x512x128_S512x128 : S1x512x128.ShapeCasts S512x128
  slices_S3x512_S1x512_0_0 : S3x512.Slices ![0, 0] S1x512
  shapeCasts_S1x512_S512 : S1x512.ShapeCasts S512
  slices_S3x128_S1x128_0_0 : S3x128.Slices ![0, 0] S1x128
  shapeCasts_S1x128_S128 : S1x128.ShapeCasts S128
  bcast_S512_S1x512_1 : S512.BroadcastsInDim S1x512 (![1] : Fin 1 → Fin S1x512.rank)
  bcast_S1x512_S80000x512_0_1 : S1x512.BroadcastsInDim S80000x512 (![0, 1] : Fin 2 → Fin S80000x512.rank)
  bcast_S_S80000x512 : S_.BroadcastsInDim S80000x512 (![] : Fin 0 → Fin S80000x512.rank)
  bcast_S_S5000 : S_.BroadcastsInDim S5000 (![] : Fin 0 → Fin S5000.rank)
  concatenates_S5000x128_S5000x128_S5000x128_S5000x128_S5000x512_d1 : Shape.Concatenates [S5000x128, S5000x128, S5000x128, S5000x128] S5000x512 1
  bcast_S1x512_S5000x512_0_1 : S1x512.BroadcastsInDim S5000x512 (![0, 1] : Fin 2 → Fin S5000x512.rank)
  bcast_S_S5000x512 : S_.BroadcastsInDim S5000x512 (![] : Fin 0 → Fin S5000x512.rank)
  bcast_S_S64x128 : S_.BroadcastsInDim S64x128 (![] : Fin 0 → Fin S64x128.rank)
  concatenates_S64x128_S64x128_S64x128_S64x384_d1 : Shape.Concatenates [S64x128, S64x128, S64x128] S64x384 1
  slices_S2x384x512_S1x384x512_0_0_0 : S2x384x512.Slices ![0, 0, 0] S1x384x512
  shapeCasts_S1x384x512_S384x512 : S1x384x512.ShapeCasts S384x512
  slices_S2x512x512_S1x512x512_0_0_0 : S2x512x512.Slices ![0, 0, 0] S1x512x512
  slices_S2x512x128_S1x512x128_0_0_0 : S2x512x128.Slices ![0, 0, 0] S1x512x128
  slices_S2x512_S1x512_0_0 : S2x512.Slices ![0, 0] S1x512
  slices_S2x128_S1x128_0_0 : S2x128.Slices ![0, 0] S1x128
  bcast_S1x512_S64x512_0_1 : S1x512.BroadcastsInDim S64x512 (![0, 1] : Fin 2 → Fin S64x512.rank)
  bcast_S_S64x512 : S_.BroadcastsInDim S64x512 (![] : Fin 0 → Fin S64x512.rank)
  bcast_S1x128_S64x128_0_1 : S1x128.BroadcastsInDim S64x128 (![0, 1] : Fin 2 → Fin S64x128.rank)
  bcast_S3_S1x3_1 : S3.BroadcastsInDim S1x3 (![1] : Fin 1 → Fin S1x3.rank)
  bcast_S1x3_S5000x3_0_1 : S1x3.BroadcastsInDim S5000x3 (![0, 1] : Fin 2 → Fin S5000x3.rank)
  bcast_S_S64x3 : S_.BroadcastsInDim S64x3 (![] : Fin 0 → Fin S64x3.rank)
  bcast_S64x1_S64x3_0_1 : S64x1.BroadcastsInDim S64x3 (![0, 1] : Fin 2 → Fin S64x3.rank)
  slices_S3x512x512_S1x512x512_1_0_0 : S3x512x512.Slices ![1, 0, 0] S1x512x512
  slices_S3x512x128_S1x512x128_1_0_0 : S3x512x128.Slices ![1, 0, 0] S1x512x128
  slices_S3x512_S1x512_1_0 : S3x512.Slices ![1, 0] S1x512
  slices_S3x128_S1x128_1_0 : S3x128.Slices ![1, 0] S1x128
  slices_S2x384x512_S1x384x512_1_0_0 : S2x384x512.Slices ![1, 0, 0] S1x384x512
  slices_S2x512x512_S1x512x512_1_0_0 : S2x512x512.Slices ![1, 0, 0] S1x512x512
  slices_S2x512x128_S1x512x128_1_0_0 : S2x512x128.Slices ![1, 0, 0] S1x512x128
  slices_S2x512_S1x512_1_0 : S2x512.Slices ![1, 0] S1x512
  slices_S2x128_S1x128_1_0 : S2x128.Slices ![1, 0] S1x128
  slices_S3x512x512_S1x512x512_2_0_0 : S3x512x512.Slices ![2, 0, 0] S1x512x512
  slices_S3x512x128_S1x512x128_2_0_0 : S3x512x128.Slices ![2, 0, 0] S1x512x128
  slices_S3x512_S1x512_2_0 : S3x512.Slices ![2, 0] S1x512
  slices_S3x128_S1x128_2_0 : S3x128.Slices ![2, 0] S1x128
  bcast_S5000x3_S1x5000x3_1_2 : S5000x3.BroadcastsInDim S1x5000x3 (![1, 2] : Fin 2 → Fin S1x5000x3.rank)
  concatenates_S1x5000x3_S1x5000x3_S1x5000x3_S3x5000x3_d0 : Shape.Concatenates [S1x5000x3, S1x5000x3, S1x5000x3] S3x5000x3 0
  scatter_S64x1_S5000x1_S5000x1_1_0_0_1_wf : ScatterDims.WF S64x1 S5000x1 S5000x1 [1] [0] [0] 1
  dot_S5000x3_S3x128_S5000x128_1_0_0_1_n_n_wf : DotDims.WF S5000x3 S3x128 S5000x128 [1] [0] [0] [1] [] []
  dot_S5000x128_S128x128_S5000x128_1_0_0_1_n_n_wf : DotDims.WF S5000x128 S128x128 S5000x128 [1] [0] [0] [1] [] []
  gather_S5000x3_S80000x1_S80000x3_1_0_n_n_0_1_13_wf : GatherDims.WF S5000x3 S80000x1 S80000x3 [1] [0] [] [0] [] 1 ![1, 3]
  dot_S80000x1_S1x128_S80000x128_1_0_0_1_n_n_wf : DotDims.WF S80000x1 S1x128 S80000x128 [1] [0] [0] [1] [] []
  dot_S80000x128_S128x128_S80000x128_1_0_0_1_n_n_wf : DotDims.WF S80000x128 S128x128 S80000x128 [1] [0] [0] [1] [] []
  gather_S5000x128_S80000x1_S80000x128_1_0_n_n_0_1_1128_wf : GatherDims.WF S5000x128 S80000x1 S80000x128 [1] [0] [] [0] [] 1 ![1, 128]
  gather_S64x128_S80000x1_S80000x128_1_0_n_n_0_1_1128_wf : GatherDims.WF S64x128 S80000x1 S80000x128 [1] [0] [] [0] [] 1 ![1, 128]
  dot_S80000x512_S512x512_S80000x512_1_0_0_1_n_n_wf : DotDims.WF S80000x512 S512x512 S80000x512 [1] [0] [0] [1] [] []
  dot_S80000x512_S512x128_S80000x128_1_0_0_1_n_n_wf : DotDims.WF S80000x512 S512x128 S80000x128 [1] [0] [0] [1] [] []
  scatter_S5000x128_S80000x1_S80000x128_1_0_0_1_wf : ScatterDims.WF S5000x128 S80000x1 S80000x128 [1] [0] [0] 1
  gather_S64x128_S5000x1_S5000x128_1_0_n_n_0_1_1128_wf : GatherDims.WF S64x128 S5000x1 S5000x128 [1] [0] [] [0] [] 1 ![1, 128]
  dot_S5000x512_S512x512_S5000x512_1_0_0_1_n_n_wf : DotDims.WF S5000x512 S512x512 S5000x512 [1] [0] [0] [1] [] []
  dot_S5000x512_S512x128_S5000x128_1_0_0_1_n_n_wf : DotDims.WF S5000x512 S512x128 S5000x128 [1] [0] [0] [1] [] []
  scatter_S64x128_S5000x1_S5000x128_1_0_0_1_wf : ScatterDims.WF S64x128 S5000x1 S5000x128 [1] [0] [0] 1
  scatter_S64x128_S80000x1_S80000x128_1_0_0_1_wf : ScatterDims.WF S64x128 S80000x1 S80000x128 [1] [0] [0] 1
  dot_S64x384_S384x512_S64x512_1_0_0_1_n_n_wf : DotDims.WF S64x384 S384x512 S64x512 [1] [0] [0] [1] [] []
  dot_S64x512_S512x512_S64x512_1_0_0_1_n_n_wf : DotDims.WF S64x512 S512x512 S64x512 [1] [0] [0] [1] [] []
  dot_S64x512_S512x128_S64x128_1_0_0_1_n_n_wf : DotDims.WF S64x512 S512x128 S64x128 [1] [0] [0] [1] [] []
  dot_S5000x128_S128x3_S5000x3_1_0_0_1_n_n_wf : DotDims.WF S5000x128 S128x3 S5000x3 [1] [0] [0] [1] [] []
  scatter_S64x3_S5000x1_S5000x3_1_0_0_1_wf : ScatterDims.WF S64x3 S5000x1 S5000x3 [1] [0] [0] 1
  gather_S64x3_S5000x1_S5000x3_1_0_n_n_0_1_13_wf : GatherDims.WF S64x3 S5000x1 S5000x3 [1] [0] [] [0] [] 1 ![1, 3]

variable [Facts₀]

def scatter_S64x1_S5000x1_S5000x1_1_0_0_1 : ScatterDims S64x1 S5000x1 S5000x1 where
  updateWindowDims := [1]
  insertedWindowDims := [0]
  scatterDimsToOperandDims := [0]
  indexVectorDim := 1
  wf := scatter_S64x1_S5000x1_S5000x1_1_0_0_1_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S5000x3_S80000x1_S80000x3_1_0_n_n_0_1_13 : GatherDims S5000x3 S80000x1 S80000x3 where
  offsetDims := [1]
  collapsedSliceDims := [0]
  operandBatchingDims := []
  startIndicesBatchingDims := []
  startIndexMap := [0]
  indexVectorDim := 1
  sliceSizes := ![1, 3]
  wf := gather_S5000x3_S80000x1_S80000x3_1_0_n_n_0_1_13_wf
def dot_S80000x1_S1x128_S80000x128_1_0_0_1_n_n : DotDims S80000x1 S1x128 S80000x128 where
  lhsContracting := [1]
  rhsContracting := [0]
  lhsNonContracting := [0]
  rhsNonContracting := [1]
  lhsBatch := []
  rhsBatch := []
  wf := dot_S80000x1_S1x128_S80000x128_1_0_0_1_n_n_wf
def dot_S80000x128_S128x128_S80000x128_1_0_0_1_n_n : DotDims S80000x128 S128x128 S80000x128 where
  lhsContracting := [1]
  rhsContracting := [0]
  lhsNonContracting := [0]
  rhsNonContracting := [1]
  lhsBatch := []
  rhsBatch := []
  wf := dot_S80000x128_S128x128_S80000x128_1_0_0_1_n_n_wf
def gather_S5000x128_S80000x1_S80000x128_1_0_n_n_0_1_1128 : GatherDims S5000x128 S80000x1 S80000x128 where
  offsetDims := [1]
  collapsedSliceDims := [0]
  operandBatchingDims := []
  startIndicesBatchingDims := []
  startIndexMap := [0]
  indexVectorDim := 1
  sliceSizes := ![1, 128]
  wf := gather_S5000x128_S80000x1_S80000x128_1_0_n_n_0_1_1128_wf
def gather_S64x128_S80000x1_S80000x128_1_0_n_n_0_1_1128 : GatherDims S64x128 S80000x1 S80000x128 where
  offsetDims := [1]
  collapsedSliceDims := [0]
  operandBatchingDims := []
  startIndicesBatchingDims := []
  startIndexMap := [0]
  indexVectorDim := 1
  sliceSizes := ![1, 128]
  wf := gather_S64x128_S80000x1_S80000x128_1_0_n_n_0_1_1128_wf
def dot_S80000x512_S512x512_S80000x512_1_0_0_1_n_n : DotDims S80000x512 S512x512 S80000x512 where
  lhsContracting := [1]
  rhsContracting := [0]
  lhsNonContracting := [0]
  rhsNonContracting := [1]
  lhsBatch := []
  rhsBatch := []
  wf := dot_S80000x512_S512x512_S80000x512_1_0_0_1_n_n_wf
def dot_S80000x512_S512x128_S80000x128_1_0_0_1_n_n : DotDims S80000x512 S512x128 S80000x128 where
  lhsContracting := [1]
  rhsContracting := [0]
  lhsNonContracting := [0]
  rhsNonContracting := [1]
  lhsBatch := []
  rhsBatch := []
  wf := dot_S80000x512_S512x128_S80000x128_1_0_0_1_n_n_wf
def scatter_S5000x128_S80000x1_S80000x128_1_0_0_1 : ScatterDims S5000x128 S80000x1 S80000x128 where
  updateWindowDims := [1]
  insertedWindowDims := [0]
  scatterDimsToOperandDims := [0]
  indexVectorDim := 1
  wf := scatter_S5000x128_S80000x1_S80000x128_1_0_0_1_wf
def gather_S64x128_S5000x1_S5000x128_1_0_n_n_0_1_1128 : GatherDims S64x128 S5000x1 S5000x128 where
  offsetDims := [1]
  collapsedSliceDims := [0]
  operandBatchingDims := []
  startIndicesBatchingDims := []
  startIndexMap := [0]
  indexVectorDim := 1
  sliceSizes := ![1, 128]
  wf := gather_S64x128_S5000x1_S5000x128_1_0_n_n_0_1_1128_wf
def dot_S5000x512_S512x512_S5000x512_1_0_0_1_n_n : DotDims S5000x512 S512x512 S5000x512 where
  lhsContracting := [1]
  rhsContracting := [0]
  lhsNonContracting := [0]
  rhsNonContracting := [1]
  lhsBatch := []
  rhsBatch := []
  wf := dot_S5000x512_S512x512_S5000x512_1_0_0_1_n_n_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def scatter_S64x128_S5000x1_S5000x128_1_0_0_1 : ScatterDims S64x128 S5000x1 S5000x128 where
  updateWindowDims := [1]
  insertedWindowDims := [0]
  scatterDimsToOperandDims := [0]
  indexVectorDim := 1
  wf := scatter_S64x128_S5000x1_S5000x128_1_0_0_1_wf
def scatter_S64x128_S80000x1_S80000x128_1_0_0_1 : ScatterDims S64x128 S80000x1 S80000x128 where
  updateWindowDims := [1]
  insertedWindowDims := [0]
  scatterDimsToOperandDims := [0]
  indexVectorDim := 1
  wf := scatter_S64x128_S80000x1_S80000x128_1_0_0_1_wf
def dot_S64x384_S384x512_S64x512_1_0_0_1_n_n : DotDims S64x384 S384x512 S64x512 where
  lhsContracting := [1]
  rhsContracting := [0]
  lhsNonContracting := [0]
  rhsNonContracting := [1]
  lhsBatch := []
  rhsBatch := []
  wf := dot_S64x384_S384x512_S64x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf
def scatter_S64x3_S5000x1_S5000x3_1_0_0_1 : ScatterDims S64x3 S5000x1 S5000x3 where
  updateWindowDims := [1]
  insertedWindowDims := [0]
  scatterDimsToOperandDims := [0]
  indexVectorDim := 1
  wf := scatter_S64x3_S5000x1_S5000x3_1_0_0_1_wf
def gather_S64x3_S5000x1_S5000x3_1_0_n_n_0_1_13 : GatherDims S64x3 S5000x1 S5000x3 where
  offsetDims := [1]
  collapsedSliceDims := [0]
  operandBatchingDims := []
  startIndicesBatchingDims := []
  startIndexMap := [0]
  indexVectorDim := 1
  sliceSizes := ![1, 3]
  wf := gather_S64x3_S5000x1_S5000x3_1_0_n_n_0_1_13_wf

class Facts : Prop extends Facts₀ where

variable [Facts]
-- ==== Proof.KI.RunCond.lean ====
/- The run of @main on the TensorCores, read at EVERY unscoped buffer.

   Between two items of @main core c holds every unscoped buffer whole at a valuation V_J c: the launch contents, then
   each host stretch's operations applied, then what a region leaves in its output arrays (the unknowns `outs`).
   Given, per region, a segment record entered from the thread state before it and left at the one after it, every
   weakly fair execution of @main terminates, faults nowhere, and its final memory holds every unscoped buffer at the
   last valuation V41 c. The frame (each argument ends as launched) and the value of @main's results are both read
   off this one statement. -/
import proofs.«147763_j11003706212366_2_alg».proof.Proof.KI.RegionsP

set_option maxRecDepth 65536

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option maxHeartbeats 4000000 in
set_option backward.isDefEq.respectTransparency.types false in
/-- Every unscoped buffer of every core ends at the last valuation, given the regions' segment records. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 17) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 18 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE17 : ∀ c : Dev nD, E 17 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V13 m outs c) ∗ E 5 c) ⊢ R5.pre c)
    (hpost5 : ∀ c : Dev nD, R5.post c ⊢ iprop(StableHlo.held (c : Thread nD τ) (Pipeline.ucRefs τ sig) (V14 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V15 m outs c) ∗ E 6 c) ⊢ R6.pre c)
    (hpost6 : ∀ c : Dev nD, R6.post c ⊢ iprop(StableHlo.held (c : Thread nD τ) (Pipeline.ucRefs τ sig) (V16 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V21 m outs c) ∗ E 8 c) ⊢ R8.pre c)
    (hpost8 : ∀ c : Dev nD, R8.post c ⊢ iprop(StableHlo.held (c : Thread nD τ) (Pipeline.ucRefs τ sig) (V22 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V23 m outs c) ∗ E 9 c) ⊢ R9.pre c)
    (hpost9 : ∀ c : Dev nD, R9.post c ⊢ iprop(StableHlo.held (c : Thread nD τ) (Pipeline.ucRefs τ sig) (V24 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V25 m outs c) ∗ E 10 c) ⊢ R10.pre c)
    (hpost10 : ∀ c : Dev nD, R10.post c ⊢ iprop(StableHlo.held (c : Thread nD τ) (Pipeline.ucRefs τ sig) (V26 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V27 m outs c) ∗ E 11 c) ⊢ R11.pre c)
    (hpost11 : ∀ c : Dev nD, R11.post c ⊢ iprop(StableHlo.held (c : Thread nD τ) (Pipeline.ucRefs τ sig) (V28 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V29 m outs c) ∗ E 12 c) ⊢ R12.pre c)
    (hpost12 : ∀ c : Dev nD, R12.post c ⊢ iprop(StableHlo.held (c : Thread nD τ) (Pipeline.ucRefs τ sig) (V30 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V33 m outs c) ∗ E 13 c) ⊢ R13.pre c)
    (hpost13 : ∀ c : Dev nD, R13.post c ⊢ iprop(StableHlo.held (c : Thread nD τ) (Pipeline.ucRefs τ sig) (V34 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V35 m outs c) ∗ E 14 c) ⊢ R14.pre c)
    (hpost14 : ∀ c : Dev nD, R14.post c ⊢ iprop(StableHlo.held (c : Thread nD τ) (Pipeline.ucRefs τ sig) (V36 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V37 m outs c) ∗ E 15 c) ⊢ R15.pre c)
    (hpost15 : ∀ c : Dev nD, R15.post c ⊢ iprop(StableHlo.held (c : Thread nD τ) (Pipeline.ucRefs τ sig) (V38 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V39 m outs c) ∗ E 16 c) ⊢ R16.pre c)
    (hpost16 : ∀ c : Dev nD, R16.post c ⊢ iprop(StableHlo.held (c : Thread nD τ) (Pipeline.ucRefs τ sig) (V40 m outs c) ∗ E 17 c)) :
    θ_run defs (onTc (τ := τ) (main (F := F))) ⟨m, fun _ => 0, ρ⟩ (fun r => ∀ c : Dev nD,
      ∀ b ∈ Pipeline.ucRefs τ sig, r.2.mem ((c : Thread nD τ).1, b) = V41 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16)
    (fun c Q => by
      rw [show main (F := F) c = Seg.run (segs m outs 𝒱₀ L lv E ι pdats R0 R1 R2 R3 R4 R5 R6 R7 R8 R9 R10 R11 R12 R13 R14 R15 R16 c)
        from (main_chain c).trans (by chain_rfl)])
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V41 m outs c))
    (hch := fun c => ⟨.rfl, hpre0 c, hpost0 c, .rfl, .rfl, hpre1 c, hpost1 c, hpre2 c, hpost2 c, hpre3 c, hpost3 c, hpre4 c, hpost4 c, hpre5 c, hpost5 c, hpre6 c, hpost6 c, .rfl, .rfl, hpre7 c, hpost7 c, hpre8 c, hpost8 c, hpre9 c, hpost9 c, hpre10 c, hpost10 c, hpre11 c, hpost11 c, hpre12 c, hpost12 c, .rfl, .rfl, hpre13 c, hpost13 c, hpre14 c, hpost14 c, hpre15 c, hpost15 c, hpre16 c, hpost16 c, sep_mono .rfl (hE17 c)⟩)
    (hinit := ?_) (QY := fun c s => ∀ b ∈ Pipeline.ucRefs τ sig, s.mem ((c : Thread nD τ).1, b) = V41 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V41 m outs c) s') $$ [Hh HSI]
    · isplitl [Hh] <;> iassumption
    icases Hr with ⟨%h, HSI⟩
    imodintro
    isplitr
    · ipureintro
      exact h
    · iexact HSI

end Cert.KernelIdeal.Hand

end
-- ==== Proof.KI.Reg0.lean ====
/-
  Region 0 (position embedding, ex = relu(relu(p·W1 + b1)·W2 + b2) + xs on row blocks of 1000): the frame half of its
  pipeline at an arbitrary entry state V, for any float interpretation F.

  Six input windows (rows of p and of xs by block; W1, b1, W2, b2 whole, with a constant block index) and one output
  window (rows of the result by block). The body loads every input buffer whole, and stores one whole-buffer payload
  into the output buffer; so after the body each input buffer still reads its block, and the output buffer reads the
  payload of the input blocks. The proof data records exactly that, and the body obligation follows from the body's
  triple and from the fact that an input buffer reads its window's block at every point, fetched there or not.
-/
import proofs.«147763_j11003706212366_2_alg».proof.Proof.Gen.KernelIdeal.Launch
import proofs.«147763_j11003706212366_2_alg».proof.Proof.Gen.KernelIdeal.Skeleton
import proofs.«147763_j11003706212366_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`: the rows (or the whole array) its index map selects there, read off the
    window's array in the entry state `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: for any proof data whose array is `V`'s and whose body leaves the block in place, the current
    buffer reads the window's block at every point — where it is not fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: for any proof data whose array is `V`'s and whose body leaves the block in place, the current
    buffer reads the window's block at every point — where it is not fetched the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: for any proof data whose array is `V`'s and whose body leaves the block in place, the current
    buffer reads the window's block at every point — where it is not fetched the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: for any proof data whose array is `V`'s and whose body leaves the block in place, the current
    buffer reads the window's block at every point — where it is not fetched the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: for any proof data whose array is `V`'s and whose body leaves the block in place, the current
    buffer reads the window's block at every point — where it is not fetched the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5: for any proof data whose array is `V`'s and whose body leaves the block in place, the current
    buffer reads the window's block at every point — where it is not fetched the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/

abbrev r0_0 : Rect S1000x3 := Rect.unit (s := S1000x3) ![0, 0] S1000x3.size inb_S1000x3_S1000x3_0_0
abbrev r0_1 : Rect S3x128 := Rect.unit (s := S3x128) ![0, 0] S3x128.size inb_S3x128_S3x128_0_0
abbrev r0_2 : Rect S1x128 := Rect.unit (s := S1x128) ![0, 0] S1x128.size inb_S1x128_S1x128_0_0
abbrev r0_3 : Rect S128x128 := Rect.unit (s := S128x128) ![0, 0] S128x128.size inb_S128x128_S128x128_0_0
abbrev r0_4 : Rect S1000x128 := Rect.unit (s := S1000x128) ![0, 0] S1000x128.size inb_S1000x128_S1000x128_0_0

/-! ## What the body leaves in the output buffer -/

/-- The output buffer after the body, as a function of what the six input buffers read: the one store's payload
    laid over the whole buffer. -/
def out0_6 (x0 : Vec F S1000x3 .bf16) (x1 : Vec F S1000x128 .f32) (x2 : Vec F S3x128 .bf16) (x3 : Vec F S1x128 .f32) (x4 : Vec F S128x128 .bf16) (x5 : Vec F S1x128 .f32) : Vec F S1000x128 .f32 :=
  View.canon [⟨r0_4, k0_pay1 (View.ld x0 r0_0) (View.ld x2 r0_1) (View.ld x3 r0_2) (View.ld x4 r0_3) (View.ld x5 r0_2) (View.ld x1 r0_4)⟩]

/-- The one store covers the output buffer. -/
theorem cover0_6 (p0 : Vec F S1000x128 .f32) (y : S1000x128.Idx) :
    ∃ pc ∈ ([⟨r0_4, p0⟩] : List (View.Piece (Elt F) S1000x128 .f32)), y ∈ pc.1.set :=
  View.cover_of_tiled [⟨r0_4, p0⟩] S1000x128.size (by rfl) y

/-! ## The body's triple -/

set_option maxHeartbeats 1000000 in
/-- The body on whole buffers, the inputs' reading `x0 … x5` and the output's anything, runs to a state where the
    inputs' read what they read and the output's reads `out0_6 x0 … x5`. -/
theorem sound_kernel0 (c : Dev nD) (E : Set ℕ) (i : grid0.Coords) (arg1 : Memref sig .tc .vmem S1000x3 .bf16) (harg1 : arg1.IsWhole) (arg2 : Memref sig .tc .vmem S1000x128 .f32) (harg2 : arg2.IsWhole) (arg3 : Memref sig .tc .vmem S3x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1000x128 .f32) (harg7 : arg7.IsWhole)
    (x0 : Vec F S1000x3 .bf16) (x1 : Vec F S1000x128 .f32) (x2 : Vec F S3x128 .bf16) (x3 : Vec F S1x128 .f32) (x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0_kernel i arg1 harg1 arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as `V` has them; after the body at point `t` each input
    buffer reads its block and the output buffer reads `out0_6` of the input blocks; the invariant is the rest of
    the core's scoped state and its generator register, untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are `V`'s. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current buffer reads its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the input buffers read their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand
-- ==== Proof.KI.Reg1.lean ====
/-
  The frame half of region 1: the distance embedding  ee = bf16(relu(relu(len · W₁ + b₁) · W₂ + b₂) + es)  run
  as a pipeline over 20 row blocks of 4000 rows. Stated for any scalar model `F` and at a PARAMETER `V`, the buffer
  contents the region is entered with.

  Six windows are read (the lengths' rows and the edge states' rows, one block per point; the two layers' weights and
  bias rows, the same block at every point) and one is written (the embedded rows, one block per point). The body
  loads each input whole, computes, and stores the output whole, so what it leaves in the output's staging buffer is
  a function of the six input blocks alone, and every input's buffer is left as found.
-/
import proofs.«147763_j11003706212366_2_alg».proof.Proof.Gen.KernelIdeal.Launch
import proofs.«147763_j11003706212366_2_alg».proof.Proof.Gen.KernelIdeal.Skeleton
import proofs.«147763_j11003706212366_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle 4000 rows long is looked at once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents the region is entered with
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the lengths' rows): its current staging buffer holds its block at every point, whether or not a fetch
    lands there, for ANY proof data whose array is `V`'s (`hA`) and whose body leaves the block in place (`hafter`).
    Where no fetch lands the block index has not moved, so the block kept from the point before is this point's; the
    window is uncut and has no idle point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the edge states' rows): its current staging buffer holds its block at every point, whether or not a fetch
    lands there, for ANY proof data whose array is `V`'s (`hA`) and whose body leaves the block in place (`hafter`).
    Where no fetch lands the block index has not moved, so the block kept from the point before is this point's; the
    window is uncut and has no idle point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the first layer's weight row): its current staging buffer holds its block at every point, whether or not a fetch
    lands there, for ANY proof data whose array is `V`'s (`hA`) and whose body leaves the block in place (`hafter`).
    Where no fetch lands the block index has not moved, so the block kept from the point before is this point's; the
    window is uncut and has no idle point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 (the first layer's bias row): its current staging buffer holds its block at every point, whether or not a fetch
    lands there, for ANY proof data whose array is `V`'s (`hA`) and whose body leaves the block in place (`hafter`).
    Where no fetch lands the block index has not moved, so the block kept from the point before is this point's; the
    window is uncut and has no idle point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 (the second layer's weight matrix): its current staging buffer holds its block at every point, whether or not a fetch
    lands there, for ANY proof data whose array is `V`'s (`hA`) and whose body leaves the block in place (`hafter`).
    Where no fetch lands the block index has not moved, so the block kept from the point before is this point's; the
    window is uncut and has no idle point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5 (the second layer's bias row): its current staging buffer holds its block at every point, whether or not a fetch
    lands there, for ANY proof data whose array is `V`'s (`hA`) and whose body leaves the block in place (`hafter`).
    Where no fetch lands the block index has not moved, so the block kept from the point before is this point's; the
    window is uncut and has no idle point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer read or written whole -/

abbrev r1_0 : Rect S4000x1 := Rect.unit (s := S4000x1) ![0, 0] S4000x1.size inb_S4000x1_S4000x1_0_0
abbrev r1_1 : Rect S1x128 := Rect.unit (s := S1x128) ![0, 0] S1x128.size inb_S1x128_S1x128_0_0
abbrev r1_2 : Rect S128x128 := Rect.unit (s := S128x128) ![0, 0] S128x128.size inb_S128x128_S128x128_0_0
abbrev r1_3 : Rect S4000x128 := Rect.unit (s := S4000x128) ![0, 0] S4000x128.size inb_S4000x128_S4000x128_0_0

/-! ## What the body leaves in the output window's buffer -/

/-- Window 6's staging buffer after the body, from the six input blocks (in window order: lengths, edge states,
    first weight row, first bias row, second weight matrix, second bias row): its one store, whose payload reads
    every input whole. -/
def out1_6 (x0 : Vec F S4000x1 .bf16) (x1 : Vec F S4000x128 .f32) (x2 : Vec F S1x128 .bf16) (x3 : Vec F S1x128 .f32) (x4 : Vec F S128x128 .bf16) (x5 : Vec F S1x128 .f32) : Vec F S4000x128 .bf16 :=
  View.canon [⟨r1_3, k1_pay1 (View.ld x0 r1_0) (View.ld x2 r1_1) (View.ld x3 r1_1) (View.ld x4 r1_2) (View.ld x5 r1_1) (View.ld x1 r1_3)⟩]

/-- The one store is the whole buffer, so it covers it. -/
theorem cover1_6 (p0 : Vec F S4000x128 .bf16) (y : S4000x128.Idx) :
    ∃ pc ∈ ([⟨r1_3, p0⟩] : List (View.Piece (Elt F) S4000x128 .bf16)), y ∈ pc.1.set :=
  View.cover_of_tiled [⟨r1_3, p0⟩] S4000x128.size (by rfl) y

/-! ## The body's triple -/

set_option maxHeartbeats 1000000 in
/-- The body on whole staging memrefs, the six inputs' at read contents `x0 … x5` and the output's at anything, runs to
    a continuation holding the inputs' as they were and the output's at `out1_6` of the inputs'. -/
theorem sound_kernel1 (c : Dev nD) (E : Set ℕ) (i : grid1.Coords)
    (arg1 : Memref sig .tc .vmem S4000x1 .bf16) (harg1 : arg1.IsWhole)
    (arg2 : Memref sig .tc .vmem S4000x128 .f32) (harg2 : arg2.IsWhole)
    (arg3 : Memref sig .tc .vmem S1x128 .bf16) (harg3 : arg3.IsWhole)
    (arg4 : Memref sig .tc .vmem S1x128 .f32) (harg4 : arg4.IsWhole)
    (arg5 : Memref sig .tc .vmem S128x128 .bf16) (harg5 : arg5.IsWhole)
    (arg6 : Memref sig .tc .vmem S1x128 .f32) (harg6 : arg6.IsWhole)
    (arg7 : Memref sig .tc .vmem S4000x128 .bf16) (harg7 : arg7.IsWhole)
    (x0 : Vec F S4000x1 .bf16) (x1 : Vec F S4000x128 .f32) (x2 : Vec F S1x128 .bf16) (x3 : Vec F S1x128 .f32) (x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at point
    `t` each input's buffer at its block and the output's at `out1_6` of the six input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, whether or not a fetch lands there. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand
-- ==== Proof.KI.Reg2.lean ====
/-
  The edge-update region 2 at a parameter `V`, the TensorCore's buffer contents when the region is entered, for any
  float algebra `F`: each window's block at a grid point; what the body leaves in its two output buffers, as a function of
  the fourteen input blocks (the stores' payloads laid over the buffer); the body's triple; the proof data with the inputs
  kept at their blocks and the outputs at those functions; the body obligation at every grid point.

  The nine weight and bias windows have a constant block index: they are transferred at the first point only, and at every
  later point the buffer still holds the block, which is the same block.
-/
import proofs.«147763_j11003706212366_2_alg».proof.Proof.Gen.KernelIdeal.Launch
import proofs.«147763_j11003706212366_2_alg».proof.Proof.Gen.KernelIdeal.Skeleton
import proofs.«147763_j11003706212366_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window `w`'s block at point `t`, read off its array at the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, transferred there or not, for any proof data whose
    array is `V`'s and whose body leaves the block in place: where no transfer happened the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, transferred there or not, for any proof data whose
    array is `V`'s and whose body leaves the block in place: where no transfer happened the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, transferred there or not, for any proof data whose
    array is `V`'s and whose body leaves the block in place: where no transfer happened the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, transferred there or not, for any proof data whose
    array is `V`'s and whose body leaves the block in place: where no transfer happened the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, transferred there or not, for any proof data whose
    array is `V`'s and whose body leaves the block in place: where no transfer happened the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current buffer holds its block at every point, transferred there or not, for any proof data whose
    array is `V`'s and whose body leaves the block in place: where no transfer happened the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current buffer holds its block at every point, transferred there or not, for any proof data whose
    array is `V`'s and whose body leaves the block in place: where no transfer happened the block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current buffer holds its block at every point, transferred there or not, for any proof data whose
    array is `V`'s and whose body leaves the block in place: where no transfer happened the block index has not moved. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current buffer holds its block at every point, transferred there or not, for any proof data whose
    array is `V`'s and whose body leaves the block in place: where no transfer happened the block index has not moved. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current buffer holds its block at every point, transferred there or not, for any proof data whose
    array is `V`'s and whose body leaves the block in place: where no transfer happened the block index has not moved. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Input window 10's current buffer holds its block at every point, transferred there or not, for any proof data whose
    array is `V`'s and whose body leaves the block in place: where no transfer happened the block index has not moved. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-- Input window 11's current buffer holds its block at every point, transferred there or not, for any proof data whose
    array is `V`'s and whose body leaves the block in place: where no transfer happened the block index has not moved. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-- Input window 12's current buffer holds its block at every point, transferred there or not, for any proof data whose
    array is `V`'s and whose body leaves the block in place: where no transfer happened the block index has not moved. -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

/-- Input window 13's current buffer holds its block at every point, transferred there or not, for any proof data whose
    array is `V`'s and whose body leaves the block in place: where no transfer happened the block index has not moved. -/
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev r2_0 : Rect S2000x128 := Rect.unit (s := S2000x128) ![0, 0] S2000x128.size inb_S2000x128_S2000x128_0_0
abbrev r2_1 : Rect S128x512 := Rect.unit (s := S128x512) ![0, 0] S128x512.size inb_S128x512_S128x512_0_0
abbrev r2_2 : Rect S1x512 := Rect.unit (s := S1x512) ![0, 0] S1x512.size inb_S1x512_S1x512_0_0
abbrev r2_3 : Rect S512x512 := Rect.unit (s := S512x512) ![0, 0] S512x512.size inb_S512x512_S512x512_0_0
abbrev r2_4 : Rect S512x128 := Rect.unit (s := S512x128) ![0, 0] S512x128.size inb_S512x128_S512x128_0_0
abbrev r2_5 : Rect S1x128 := Rect.unit (s := S1x128) ![0, 0] S1x128.size inb_S1x128_S1x128_0_0

/-! ## What the body leaves in each output window's buffer -/

/-- Window 14's buffer after the body, from the input windows' blocks: its one store, of the whole buffer. -/
def out2_14 (x0 : Vec F S2000x128 .bf16) (x1 : Vec F S2000x128 .bf16) (x2 : Vec F S2000x128 .bf16) (x3 : Vec F S2000x128 .bf16) (x4 : Vec F S2000x128 .f32) (x5 : Vec F S128x512 .bf16) (x6 : Vec F S128x512 .bf16) (x7 : Vec F S128x512 .bf16) (x8 : Vec F S128x512 .bf16) (x9 : Vec F S1x512 .f32) (x10 : Vec F S512x512 .bf16) (x11 : Vec F S1x512 .f32) (x12 : Vec F S512x128 .bf16) (x13 : Vec F S1x128 .f32) : Vec F S2000x128 .f32 :=
  View.canon [⟨r2_0, k2_pay1 (k2_pay3 (View.ld x0 r2_0) (View.ld x5 r2_1) (View.ld x1 r2_0) (View.ld x6 r2_1) (View.ld x2 r2_0) (View.ld x7 r2_1) (View.ld x3 r2_0) (View.ld x8 r2_1) (View.ld x9 r2_2) (View.ld x10 r2_3)) (View.ld x11 r2_2) (View.ld x12 r2_4) (View.ld x13 r2_5)⟩]

/-- The one store covers the buffer. -/
theorem cover2_14 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-- Window 15's buffer after the body, from the input windows' blocks: its one store, of the whole buffer. -/
def out2_15 (x0 : Vec F S2000x128 .bf16) (x1 : Vec F S2000x128 .bf16) (x2 : Vec F S2000x128 .bf16) (x3 : Vec F S2000x128 .bf16) (x4 : Vec F S2000x128 .f32) (x5 : Vec F S128x512 .bf16) (x6 : Vec F S128x512 .bf16) (x7 : Vec F S128x512 .bf16) (x8 : Vec F S128x512 .bf16) (x9 : Vec F S1x512 .f32) (x10 : Vec F S512x512 .bf16) (x11 : Vec F S1x512 .f32) (x12 : Vec F S512x128 .bf16) (x13 : Vec F S1x128 .f32) : Vec F S2000x128 .f32 :=
  View.canon [⟨r2_0, k2_pay2 (k2_pay3 (View.ld x0 r2_0) (View.ld x5 r2_1) (View.ld x1 r2_0) (View.ld x6 r2_1) (View.ld x2 r2_0) (View.ld x7 r2_1) (View.ld x3 r2_0) (View.ld x8 r2_1) (View.ld x9 r2_2) (View.ld x10 r2_3)) (View.ld x11 r2_2) (View.ld x12 r2_4) (View.ld x13 r2_5) (View.ld x4 r2_0)⟩]

/-- The one store covers the buffer. -/
theorem cover2_15 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The body's triple -/

set_option maxHeartbeats 4000000 in
/-- The body on whole buffers, the inputs' reading `xW` and the outputs' holding anything, runs to the continuation with the
    inputs' as they were and each output's at `out2_W` of the inputs'. -/
theorem sound_kernel2 (c : Dev nD) (E : Set ℕ) (i : grid2.Coords) (arg1 : Memref sig .tc .vmem S2000x128 .bf16) (harg1 : arg1.IsWhole) (arg2 : Memref sig .tc .vmem S2000x128 .bf16) (harg2 : arg2.IsWhole) (arg3 : Memref sig .tc .vmem S2000x128 .bf16) (harg3 : arg3.IsWhole) (arg4 : Memref sig .tc .vmem S2000x128 .bf16) (harg4 : arg4.IsWhole) (arg5 : Memref sig .tc .vmem S2000x128 .f32) (harg5 : arg5.IsWhole) (arg6 : Memref sig .tc .vmem S128x512 .bf16) (harg6 : arg6.IsWhole) (arg7 : Memref sig .tc .vmem S128x512 .bf16) (harg7 : arg7.IsWhole) (arg8 : Memref sig .tc .vmem S128x512 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S512x128 .bf16) (harg13 : arg13.IsWhole) (arg14 : Memref sig .tc .vmem S1x128 .f32) (harg14 : arg14.IsWhole) (arg15 : Memref sig .tc .vmem S2000x128 .f32) (harg15 : arg15.IsWhole) (arg16 : Memref sig .tc .vmem S2000x128 .f32) (harg16 : arg16.IsWhole)
    (x0 : Vec F S2000x128 .bf16) (x1 : Vec F S2000x128 .bf16) (x2 : Vec F S2000x128 .bf16) (x3 : Vec F S2000x128 .bf16) (x4 : Vec F S2000x128 .f32) (x5 : Vec F S128x512 .bf16) (x6 : Vec F S128x512 .bf16) (x7 : Vec F S128x512 .bf16) (x8 : Vec F S128x512 .bf16) (x9 : Vec F S1x512 .f32) (x10 : Vec F S512x512 .bf16) (x11 : Vec F S1x512 .f32) (x12 : Vec F S512x128 .bf16) (x13 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out2_14 x0 x1 x2 x3 x4 x5 x6 x7 x8 x9 x10 x11 x12 x13) ∗ owns (c : Thread nD τ) arg16 fullShare (out2_15 x0 x1 x2 x3 x4 x5 x6 x7 x8 x9 x10 x11 x12 x13)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    try dsimp only
    exact View.read_writes_eq_canon _ _ _ (cover2_14 _)
  iexists _; isplitr
  swap; · iexact H15
  ipureintro
  try dsimp only
  exact View.read_writes_eq_canon _ _ _ (cover2_15 _)

/-! ## The pipeline's proof data -/

/-- The proof data of this pipeline on core `c`: the arrays at `V`; after the body at point `t` each input's buffer at its
    block and each output's at `out2_W` of the input blocks; the class's invariant (the scoped rest and the generator
    register untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)
    | ⟨15, _⟩ => out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)
    | ⟨_ + 16, h⟩ => absurd h (Nat.not_lt.2 (Nat.le_add_left _ _))
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) := by dsimp only [dat2]
theorem after2_15 (c : Dev nD) (t : Fin cfg2.N) : (dat2 V c).after 15 t = out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) := by dsimp only [dat2]

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t))

set_option maxHeartbeats 1000000 in
/-- The body at any point: the inputs' buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel2 c Set.univ (grid2.coords t) _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand
-- ==== Proof.KI.Reg3.lean ====
/- The frame half of region 3: a three-layer perceptron on one block of rows, each layer a product with a
   weight matrix into a zero accumulator, a bias row added to every row, and the positive part. Seven input
   windows (the rows, then weight and bias of each layer) and one output window holding the rows of the result. -/
import proofs.«147763_j11003706212366_2_alg».proof.Proof.Gen.KernelIdeal.Launch
import proofs.«147763_j11003706212366_2_alg».proof.Proof.Gen.KernelIdeal.Skeleton
import proofs.«147763_j11003706212366_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array at the contents `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 holds its block at every point, fetched there or not: where it is not fetched its block
    index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 holds its block at every point, fetched there or not: where it is not fetched its block
    index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 holds its block at every point, fetched there or not: where it is not fetched its block
    index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3 holds its block at every point, fetched there or not: where it is not fetched its block
    index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4 holds its block at every point, fetched there or not: where it is not fetched its block
    index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5 holds its block at every point, fetched there or not: where it is not fetched its block
    index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6 holds its block at every point, fetched there or not: where it is not fetched its block
    index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read and written whole -/

abbrev r3_0 : Rect S1000x512 := Rect.unit (s := S1000x512) ![0, 0] S1000x512.size inb_S1000x512_S1000x512_0_0
abbrev r3_1 : Rect S512x512 := Rect.unit (s := S512x512) ![0, 0] S512x512.size inb_S512x512_S512x512_0_0
abbrev r3_2 : Rect S1x512 := Rect.unit (s := S1x512) ![0, 0] S1x512.size inb_S1x512_S1x512_0_0
abbrev r3_3 : Rect S512x128 := Rect.unit (s := S512x128) ![0, 0] S512x128.size inb_S512x128_S512x128_0_0
abbrev r3_4 : Rect S1x128 := Rect.unit (s := S1x128) ![0, 0] S1x128.size inb_S1x128_S1x128_0_0
abbrev r3_5 : Rect S1000x128 := Rect.unit (s := S1000x128) ![0, 0] S1000x128.size inb_S1000x128_S1000x128_0_0

/-! ## What the body leaves in the output window's buffer -/

/-- The output buffer after the body, from the input blocks: its one store, of the third layer's positive part. -/
def out3_7 (x0 : Vec F S1000x512 .bf16) (x1 : Vec F S512x512 .bf16) (x2 : Vec F S1x512 .f32) (x3 : Vec F S512x512 .bf16) (x4 : Vec F S1x512 .f32) (x5 : Vec F S512x128 .bf16) (x6 : Vec F S1x128 .f32) : Vec F S1000x128 .f32 :=
  View.canon [⟨r3_5, k3_pay1 (View.ld x0 r3_0) (View.ld x1 r3_1) (View.ld x2 r3_2) (View.ld x3 r3_1) (View.ld x4 r3_2) (View.ld x5 r3_3) (View.ld x6 r3_4)⟩]

/-- The one store is of the whole buffer. -/
theorem cover3_7 (p0 : Vec F S1000x128 .f32) (y : S1000x128.Idx) :
    ∃ pc ∈ ([⟨r3_5, p0⟩] : List (View.Piece (Elt F) S1000x128 .f32)), y ∈ pc.1.set :=
  View.cover_of_tiled [⟨r3_5, p0⟩] S1000x128.size (by rfl) y

/-! ## The body's triple -/

set_option maxHeartbeats 1000000 in
/-- The body on whole staging buffers, the inputs' at contents `x0 … x6` and the output's at anything, returns the
    inputs' as they were and the output's at `out3_7` of them. -/
theorem sound_kernel3 (c : Dev nD) (E : Set ℕ) (i : grid3.Coords) (arg1 : Memref sig .tc .vmem S1000x512 .bf16) (harg1 : arg1.IsWhole) (arg2 : Memref sig .tc .vmem S512x512 .bf16) (harg2 : arg2.IsWhole) (arg3 : Memref sig .tc .vmem S1x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S1000x128 .f32) (harg8 : arg8.IsWhole)
    (x0 : Vec F S1000x512 .bf16) (x1 : Vec F S512x512 .bf16) (x2 : Vec F S1x512 .f32) (x3 : Vec F S512x512 .bf16) (x4 : Vec F S1x512 .f32) (x5 : Vec F S512x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3_kernel i arg1 harg1 arg2 harg2 arg3 harg3 arg4 harg4 arg5 harg5 arg6 harg6 arg7 harg7 arg8 harg8) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays at `V`; after the body at point `t` each input's buffer at
    its block and the output's at `out3_7` of the input blocks; the invariant the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so `sound_kernel3` applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation3 (c : Dev nD) : BodyObligation (dat3 (F := F) V c) (defs₀ (F := F)) Variants.none () Set.univ := fun t => by
  rw [bigSep_W3, bigSep_W3]
  exact sound_body3 V c t

end

end Cert.KernelIdeal.Hand

end
-- ==== Proof.KI.Reg4.lean ====
/- The frame half of region 4: a three-layer perceptron on one block of rows, each layer a product with a
   weight matrix into a zero accumulator, a bias row added to every row, and the positive part. Seven input
   windows (the rows, then weight and bias of each layer) and one output window holding the rows of the result. -/
import proofs.«147763_j11003706212366_2_alg».proof.Proof.Gen.KernelIdeal.Launch
import proofs.«147763_j11003706212366_2_alg».proof.Proof.Gen.KernelIdeal.Skeleton
import proofs.«147763_j11003706212366_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array at the contents `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 holds its block at every point, fetched there or not: where it is not fetched its block
    index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 holds its block at every point, fetched there or not: where it is not fetched its block
    index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2 holds its block at every point, fetched there or not: where it is not fetched its block
    index has not moved. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3 holds its block at every point, fetched there or not: where it is not fetched its block
    index has not moved. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4 holds its block at every point, fetched there or not: where it is not fetched its block
    index has not moved. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5 holds its block at every point, fetched there or not: where it is not fetched its block
    index has not moved. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Input window 6 holds its block at every point, fetched there or not: where it is not fetched its block
    index has not moved. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer is read and written whole -/

abbrev r4_0 : Rect S64x384 := Rect.unit (s := S64x384) ![0, 0] S64x384.size inb_S64x384_S64x384_0_0
abbrev r4_1 : Rect S384x512 := Rect.unit (s := S384x512) ![0, 0] S384x512.size inb_S384x512_S384x512_0_0
abbrev r4_2 : Rect S1x512 := Rect.unit (s := S1x512) ![0, 0] S1x512.size inb_S1x512_S1x512_0_0
abbrev r4_3 : Rect S512x512 := Rect.unit (s := S512x512) ![0, 0] S512x512.size inb_S512x512_S512x512_0_0
abbrev r4_4 : Rect S512x128 := Rect.unit (s := S512x128) ![0, 0] S512x128.size inb_S512x128_S512x128_0_0
abbrev r4_5 : Rect S1x128 := Rect.unit (s := S1x128) ![0, 0] S1x128.size inb_S1x128_S1x128_0_0
abbrev r4_6 : Rect S64x128 := Rect.unit (s := S64x128) ![0, 0] S64x128.size inb_S64x128_S64x128_0_0

/-! ## What the body leaves in the output window's buffer -/

/-- The output buffer after the body, from the input blocks: its one store, of the third layer's positive part. -/
def out4_7 (x0 : Vec F S64x384 .bf16) (x1 : Vec F S384x512 .bf16) (x2 : Vec F S1x512 .f32) (x3 : Vec F S512x512 .bf16) (x4 : Vec F S1x512 .f32) (x5 : Vec F S512x128 .bf16) (x6 : Vec F S1x128 .f32) : Vec F S64x128 .f32 :=
  View.canon [⟨r4_6, k4_pay1 (View.ld x0 r4_0) (View.ld x1 r4_1) (View.ld x2 r4_2) (View.ld x3 r4_3) (View.ld x4 r4_2) (View.ld x5 r4_4) (View.ld x6 r4_5)⟩]

/-- The one store is of the whole buffer. -/
theorem cover4_7 (p0 : Vec F S64x128 .f32) (y : S64x128.Idx) :
    ∃ pc ∈ ([⟨r4_6, p0⟩] : List (View.Piece (Elt F) S64x128 .f32)), y ∈ pc.1.set :=
  View.cover_of_tiled [⟨r4_6, p0⟩] S64x128.size (by rfl) y

/-! ## The body's triple -/

set_option maxHeartbeats 1000000 in
/-- The body on whole staging buffers, the inputs' at contents `x0 … x6` and the output's at anything, returns the
    inputs' as they were and the output's at `out4_7` of them. -/
theorem sound_kernel4 (c : Dev nD) (E : Set ℕ) (i : grid4.Coords) (arg1 : Memref sig .tc .vmem S64x384 .bf16) (harg1 : arg1.IsWhole) (arg2 : Memref sig .tc .vmem S384x512 .bf16) (harg2 : arg2.IsWhole) (arg3 : Memref sig .tc .vmem S1x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S64x128 .f32) (harg8 : arg8.IsWhole)
    (x0 : Vec F S64x384 .bf16) (x1 : Vec F S384x512 .bf16) (x2 : Vec F S1x512 .f32) (x3 : Vec F S512x512 .bf16) (x4 : Vec F S1x512 .f32) (x5 : Vec F S512x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4_kernel i arg1 harg1 arg2 harg2 arg3 harg3 arg4 harg4 arg5 harg5 arg6 harg6 arg7 harg7 arg8 harg8) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The pipeline's proof data -/

/-- The proof data of pipeline 4 on core `c`: the arrays at `V`; after the body at point `t` each input's buffer at
    its block and the output's at `out4_7` of the input blocks; the invariant the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at any point: the inputs' buffers hold their blocks, so `sound_kernel4` applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ (grid4.coords t) _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation4 (c : Dev nD) : BodyObligation (dat4 (F := F) V c) (defs₀ (F := F)) Variants.none () Set.univ := fun t => by
  rw [bigSep_W4, bigSep_W4]
  exact sound_body4 V c t

end

end Cert.KernelIdeal.Hand

end
-- ==== Proof.KI.Reg5.lean ====
/- Region 5 of @main, the decoder  out = (relu(xs·W1 + b1)·W2 + b2) + lp  on blocks of 1000 rows, at ANY contents `V` of the
   TensorCore's buffers when the region is entered and any float carrier `F`.

   Window `w`'s block at point `t` is read off `V` (`iblk5`). The body loads its six input blocks whole, forms one
   payload from them and stores it over the whole output block; so after the body every input buffer still holds its
   block and the output buffer holds that payload of the six blocks (`out5_6`). An input buffer holds its block at
   EVERY point, fetched there or not: the two weight matrices and the two bias rows are fetched at point 0 only, and
   their block index never moves afterwards. With these the proof data `dat5` meet the pipeline's body obligation
   at every point (`body_obligation5`). -/
import proofs.«147763_j11003706212366_2_alg».proof.Proof.Gen.KernelIdeal.Launch
import proofs.«147763_j11003706212366_2_alg».proof.Proof.Gen.KernelIdeal.Skeleton
import proofs.«147763_j11003706212366_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle 1000 long recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the TensorCore's buffer contents when the region is entered
variable (V : (c : Dev nD) → (b : Ref sig .tc) → Buf (Elt F) ((c : Thread nD τ).loc b))

/-! ## The windows' blocks -/

/-- Window `w`'s block at point `t`: the part of its array, as `V` holds it, that the transfer at `t` moves. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the node states' block): its current staging buffer holds its block at every point, fetched there or not, for
    any proof data whose array is `V`'s (`hA`) and whose body leaves the block in place (`hafter`). Where the point
    does not fetch, the block index is the previous point's, and so is the block; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1 (the positions' block): its current staging buffer holds its block at every point, fetched there or not, for
    any proof data whose array is `V`'s (`hA`) and whose body leaves the block in place (`hafter`). Where the point
    does not fetch, the block index is the previous point's, and so is the block; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2 (the first layer's weights): its current staging buffer holds its block at every point, fetched there or not, for
    any proof data whose array is `V`'s (`hA`) and whose body leaves the block in place (`hafter`). Where the point
    does not fetch, the block index is the previous point's, and so is the block; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3 (the first layer's bias row): its current staging buffer holds its block at every point, fetched there or not, for
    any proof data whose array is `V`'s (`hA`) and whose body leaves the block in place (`hafter`). Where the point
    does not fetch, the block index is the previous point's, and so is the block; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4 (the second layer's weights): its current staging buffer holds its block at every point, fetched there or not, for
    any proof data whose array is `V`'s (`hA`) and whose body leaves the block in place (`hafter`). Where the point
    does not fetch, the block index is the previous point's, and so is the block; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5 (the second layer's bias row): its current staging buffer holds its block at every point, fetched there or not, for
    any proof data whose array is `V`'s (`hA`) and whose body leaves the block in place (`hafter`). Where the point
    does not fetch, the block index is the previous point's, and so is the block; the window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is read, and the output written, whole -/

abbrev r5_0 : Rect S1000x128 := Rect.unit (s := S1000x128) ![0, 0] S1000x128.size inb_S1000x128_S1000x128_0_0
abbrev r5_1 : Rect S128x128 := Rect.unit (s := S128x128) ![0, 0] S128x128.size inb_S128x128_S128x128_0_0
abbrev r5_2 : Rect S1x128 := Rect.unit (s := S1x128) ![0, 0] S1x128.size inb_S1x128_S1x128_0_0
abbrev r5_3 : Rect S128x3 := Rect.unit (s := S128x3) ![0, 0] S128x3.size inb_S128x3_S128x3_0_0
abbrev r5_4 : Rect S1x3 := Rect.unit (s := S1x3) ![0, 0] S1x3.size inb_S1x3_S1x3_0_0
abbrev r5_5 : Rect S1000x3 := Rect.unit (s := S1000x3) ![0, 0] S1000x3.size inb_S1000x3_S1000x3_0_0

/-! ## What the body leaves in the output window's buffer -/

/-- Window 6's staging buffer after the body, from the six input blocks: its one store, of the payload of the blocks
    as loaded. -/
def out5_6 (x0 : Vec F S1000x128 .bf16) (x1 : Vec F S1000x3 .f32) (x2 : Vec F S128x128 .bf16) (x3 : Vec F S1x128 .f32) (x4 : Vec F S128x3 .bf16) (x5 : Vec F S1x3 .f32) : Vec F S1000x3 .f32 :=
  View.canon [⟨r5_5, k5_pay1 (View.ld x0 r5_0) (View.ld x2 r5_1) (View.ld x3 r5_2) (View.ld x4 r5_3) (View.ld x5 r5_4) (View.ld x1 r5_5)⟩]

/-- The one store is of the whole block, so it covers it. -/
theorem cover5_6 (p0 : Vec F S1000x3 .f32) (y : S1000x3.Idx) :
    ∃ pc ∈ ([⟨r5_5, p0⟩] : List (View.Piece (Elt F) S1000x3 .f32)), y ∈ pc.1.set :=
  View.cover_of_tiled [⟨r5_5, p0⟩] S1000x3.size (by rfl) y

/-! ## The body's triple -/

set_option maxHeartbeats 1000000 in
/-- The body on whole staging memrefs, the inputs' at contents `x0 … x5` and the output's at anything, runs to the
    continuation with the inputs' as they were and the output's at `out5_6` of the inputs'. -/
theorem sound_kernel5 (c : Dev nD) (E : Set ℕ) (i : grid5.Coords)
    (arg1 : Memref sig .tc .vmem S1000x128 .bf16) (harg1 : arg1.IsWhole)
    (arg2 : Memref sig .tc .vmem S1000x3 .f32) (harg2 : arg2.IsWhole)
    (arg3 : Memref sig .tc .vmem S128x128 .bf16) (harg3 : arg3.IsWhole)
    (arg4 : Memref sig .tc .vmem S1x128 .f32) (harg4 : arg4.IsWhole)
    (arg5 : Memref sig .tc .vmem S128x3 .bf16) (harg5 : arg5.IsWhole)
    (arg6 : Memref sig .tc .vmem S1x3 .f32) (harg6 : arg6.IsWhole)
    (arg7 : Memref sig .tc .vmem S1000x3 .f32) (harg7 : arg7.IsWhole)
    (x0 : Vec F S1000x128 .bf16) (x1 : Vec F S1000x3 .f32) (x2 : Vec F S128x128 .bf16) (x3 : Vec F S1x128 .f32) (x4 : Vec F S128x3 .bf16) (x5 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E (cc5_kernel i arg1 harg1 arg2 harg2 arg3 harg3 arg4 harg4 arg5 harg5 arg6 harg6 arg7 harg7) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of the region's pipeline on core `c`: the arrays as `V` holds them; after the body at point `t`
    each input's buffer at its block and the output's at `out5_6` of the six blocks; the invariant that the scoped
    rest and the generator register are untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are `V`'s. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so the body's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.KernelIdeal.Hand

end
-- ==== Proof.KI.Reg6.lean ====
/-
  Region 6 (position embedding, ex = relu(relu(p·W1 + b1)·W2 + b2) + xs on row blocks of 1000): the frame half of its
  pipeline at an arbitrary entry state V, for any float interpretation F.

  Six input windows (rows of p and of xs by block; W1, b1, W2, b2 whole, with a constant block index) and one output
  window (rows of the result by block). The body loads every input buffer whole, and stores one whole-buffer payload
  into the output buffer; so after the body each input buffer still reads its block, and the output buffer reads the
  payload of the input blocks. The proof data records exactly that, and the body obligation follows from the body's
  triple and from the fact that an input buffer reads its window's block at every point, fetched there or not.
-/
import proofs.«147763_j11003706212366_2_alg».proof.Proof.Gen.KernelIdeal.Launch
import proofs.«147763_j11003706212366_2_alg».proof.Proof.Gen.KernelIdeal.Skeleton
import proofs.«147763_j11003706212366_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))

/-! ## The windows' blocks -/

/-- Window `w`'s block at point `t`: the rows (or the whole array) its index map selects there, read off the
    window's array in the entry state `V`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0: for any proof data whose array is `V`'s and whose body leaves the block in place, the current
    buffer reads the window's block at every point — where it is not fetched the block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1: for any proof data whose array is `V`'s and whose body leaves the block in place, the current
    buffer reads the window's block at every point — where it is not fetched the block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2: for any proof data whose array is `V`'s and whose body leaves the block in place, the current
    buffer reads the window's block at every point — where it is not fetched the block index has not moved. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3: for any proof data whose array is `V`'s and whose body leaves the block in place, the current
    buffer reads the window's block at every point — where it is not fetched the block index has not moved. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4: for any proof data whose array is `V`'s and whose body leaves the block in place, the current
    buffer reads the window's block at every point — where it is not fetched the block index has not moved. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5: for any proof data whose array is `V`'s and whose body leaves the block in place, the current
    buffer reads the window's block at every point — where it is not fetched the block index has not moved. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the store take a whole buffer -/

abbrev r6_0 : Rect S1000x3 := Rect.unit (s := S1000x3) ![0, 0] S1000x3.size inb_S1000x3_S1000x3_0_0
abbrev r6_1 : Rect S3x128 := Rect.unit (s := S3x128) ![0, 0] S3x128.size inb_S3x128_S3x128_0_0
abbrev r6_2 : Rect S1x128 := Rect.unit (s := S1x128) ![0, 0] S1x128.size inb_S1x128_S1x128_0_0
abbrev r6_3 : Rect S128x128 := Rect.unit (s := S128x128) ![0, 0] S128x128.size inb_S128x128_S128x128_0_0
abbrev r6_4 : Rect S1000x128 := Rect.unit (s := S1000x128) ![0, 0] S1000x128.size inb_S1000x128_S1000x128_0_0

/-! ## What the body leaves in the output buffer -/

/-- The output buffer after the body, as a function of what the six input buffers read: the one store's payload
    laid over the whole buffer. -/
def out6_6 (x0 : Vec F S1000x3 .bf16) (x1 : Vec F S1000x128 .f32) (x2 : Vec F S3x128 .bf16) (x3 : Vec F S1x128 .f32) (x4 : Vec F S128x128 .bf16) (x5 : Vec F S1x128 .f32) : Vec F S1000x128 .f32 :=
  View.canon [⟨r6_4, k6_pay1 (View.ld x0 r6_0) (View.ld x2 r6_1) (View.ld x3 r6_2) (View.ld x4 r6_3) (View.ld x5 r6_2) (View.ld x1 r6_4)⟩]

/-- The one store covers the output buffer. -/
theorem cover6_6 (p0 : Vec F S1000x128 .f32) (y : S1000x128.Idx) :
    ∃ pc ∈ ([⟨r6_4, p0⟩] : List (View.Piece (Elt F) S1000x128 .f32)), y ∈ pc.1.set :=
  View.cover_of_tiled [⟨r6_4, p0⟩] S1000x128.size (by rfl) y

/-! ## The body's triple -/

set_option maxHeartbeats 1000000 in
/-- The body on whole buffers, the inputs' reading `x0 … x5` and the output's anything, runs to a state where the
    inputs' read what they read and the output's reads `out6_6 x0 … x5`. -/
theorem sound_kernel6 (c : Dev nD) (E : Set ℕ) (i : grid6.Coords) (arg1 : Memref sig .tc .vmem S1000x3 .bf16) (harg1 : arg1.IsWhole) (arg2 : Memref sig .tc .vmem S1000x128 .f32) (harg2 : arg2.IsWhole) (arg3 : Memref sig .tc .vmem S3x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1000x128 .f32) (harg7 : arg7.IsWhole)
    (x0 : Vec F S1000x3 .bf16) (x1 : Vec F S1000x128 .f32) (x2 : Vec F S3x128 .bf16) (x3 : Vec F S1x128 .f32) (x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-! ## The pipeline's proof data -/

/-- The proof data of pipeline 6 on core `c`: the arrays as `V` has them; after the body at point `t` each input
    buffer reads its block and the output buffer reads `out6_6` of the input blocks; the invariant is the rest of
    the core's scoped state and its generator register, untouched; full shares; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

/-- The proof data's arrays are `V`'s. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

/-- Each input's current buffer reads its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the input buffers read their blocks, so the body's triple applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ (grid6.coords t) _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point. -/
theorem body_obligation6 (c : Dev nD) : BodyObligation (dat6 (F := F) V c) (defs₀ (F := F)) Variants.none () Set.univ := fun t => by
  rw [bigSep_W6, bigSep_W6]
  exact sound_body6 V c t

end Region6

end Cert.KernelIdeal.Hand
-- ==== Proof.KI.Reg7.lean ====
/-
  The frame half of region 7: the distance embedding  ee = bf16(relu(relu(len · W₁ + b₁) · W₂ + b₂) + es)  run
  as a pipeline over 20 row blocks of 4000 rows. Stated for any scalar model `F` and at a PARAMETER `V`, the buffer
  contents the region is entered with.

  Six windows are read (the lengths' rows and the edge states' rows, one block per point; the two layers' weights and
  bias rows, the same block at every point) and one is written (the embedded rows, one block per point). The body
  loads each input whole, computes, and stores the output whole, so what it leaves in the output's staging buffer is
  a function of the six input blocks alone, and every input's buffer is left as found.
-/
import proofs.«147763_j11003706212366_2_alg».proof.Proof.Gen.KernelIdeal.Launch
import proofs.«147763_j11003706212366_2_alg».proof.Proof.Gen.KernelIdeal.Skeleton
import proofs.«147763_j11003706212366_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle 4000 rows long is looked at once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
-- the buffer contents the region is entered with
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 (the lengths' rows): its current staging buffer holds its block at every point, whether or not a fetch
    lands there, for ANY proof data whose array is `V`'s (`hA`) and whose body leaves the block in place (`hafter`).
    Where no fetch lands the block index has not moved, so the block kept from the point before is this point's; the
    window is uncut and has no idle point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1 (the edge states' rows): its current staging buffer holds its block at every point, whether or not a fetch
    lands there, for ANY proof data whose array is `V`'s (`hA`) and whose body leaves the block in place (`hafter`).
    Where no fetch lands the block index has not moved, so the block kept from the point before is this point's; the
    window is uncut and has no idle point. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2 (the first layer's weight row): its current staging buffer holds its block at every point, whether or not a fetch
    lands there, for ANY proof data whose array is `V`'s (`hA`) and whose body leaves the block in place (`hafter`).
    Where no fetch lands the block index has not moved, so the block kept from the point before is this point's; the
    window is uncut and has no idle point. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3 (the first layer's bias row): its current staging buffer holds its block at every point, whether or not a fetch
    lands there, for ANY proof data whose array is `V`'s (`hA`) and whose body leaves the block in place (`hafter`).
    Where no fetch lands the block index has not moved, so the block kept from the point before is this point's; the
    window is uncut and has no idle point. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4 (the second layer's weight matrix): its current staging buffer holds its block at every point, whether or not a fetch
    lands there, for ANY proof data whose array is `V`'s (`hA`) and whose body leaves the block in place (`hafter`).
    Where no fetch lands the block index has not moved, so the block kept from the point before is this point's; the
    window is uncut and has no idle point. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
/-- Input window 5 (the second layer's bias row): its current staging buffer holds its block at every point, whether or not a fetch
    lands there, for ANY proof data whose array is `V`'s (`hA`) and whose body leaves the block in place (`hafter`).
    Where no fetch lands the block index has not moved, so the block kept from the point before is this point's; the
    window is uncut and has no idle point. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer read or written whole -/

abbrev r7_0 : Rect S4000x1 := Rect.unit (s := S4000x1) ![0, 0] S4000x1.size inb_S4000x1_S4000x1_0_0
abbrev r7_1 : Rect S1x128 := Rect.unit (s := S1x128) ![0, 0] S1x128.size inb_S1x128_S1x128_0_0
abbrev r7_2 : Rect S128x128 := Rect.unit (s := S128x128) ![0, 0] S128x128.size inb_S128x128_S128x128_0_0
abbrev r7_3 : Rect S4000x128 := Rect.unit (s := S4000x128) ![0, 0] S4000x128.size inb_S4000x128_S4000x128_0_0

/-! ## What the body leaves in the output window's buffer -/

/-- Window 6's staging buffer after the body, from the six input blocks (in window order: lengths, edge states,
    first weight row, first bias row, second weight matrix, second bias row): its one store, whose payload reads
    every input whole. -/
def out7_6 (x0 : Vec F S4000x1 .bf16) (x1 : Vec F S4000x128 .f32) (x2 : Vec F S1x128 .bf16) (x3 : Vec F S1x128 .f32) (x4 : Vec F S128x128 .bf16) (x5 : Vec F S1x128 .f32) : Vec F S4000x128 .bf16 :=
  View.canon [⟨r7_3, k7_pay1 (View.ld x0 r7_0) (View.ld x2 r7_1) (View.ld x3 r7_1) (View.ld x4 r7_2) (View.ld x5 r7_1) (View.ld x1 r7_3)⟩]

/-- The one store is the whole buffer, so it covers it. -/
theorem cover7_6 (p0 : Vec F S4000x128 .bf16) (y : S4000x128.Idx) :
    ∃ pc ∈ ([⟨r7_3, p0⟩] : List (View.Piece (Elt F) S4000x128 .bf16)), y ∈ pc.1.set :=
  View.cover_of_tiled [⟨r7_3, p0⟩] S4000x128.size (by rfl) y

/-! ## The body's triple -/

set_option maxHeartbeats 1000000 in
/-- The body on whole staging memrefs, the six inputs' at read contents `x0 … x5` and the output's at anything, runs to
    a continuation holding the inputs' as they were and the output's at `out7_6` of the inputs'. -/
theorem sound_kernel7 (c : Dev nD) (E : Set ℕ) (i : grid7.Coords)
    (arg1 : Memref sig .tc .vmem S4000x1 .bf16) (harg1 : arg1.IsWhole)
    (arg2 : Memref sig .tc .vmem S4000x128 .f32) (harg2 : arg2.IsWhole)
    (arg3 : Memref sig .tc .vmem S1x128 .bf16) (harg3 : arg3.IsWhole)
    (arg4 : Memref sig .tc .vmem S1x128 .f32) (harg4 : arg4.IsWhole)
    (arg5 : Memref sig .tc .vmem S128x128 .bf16) (harg5 : arg5.IsWhole)
    (arg6 : Memref sig .tc .vmem S1x128 .f32) (harg6 : arg6.IsWhole)
    (arg7 : Memref sig .tc .vmem S4000x128 .bf16) (harg7 : arg7.IsWhole)
    (x0 : Vec F S4000x1 .bf16) (x1 : Vec F S4000x128 .f32) (x2 : Vec F S1x128 .bf16) (x3 : Vec F S1x128 .f32) (x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out7_6 x0 x1 x2 x3 x4 x5)) -∗ K ⟨⟩))
      ⊢ wp frame (wpE (defs₀ (F := F)) Variants.none c none) E (cc7_kernel i arg1 harg1 arg2 harg2 arg3 harg3 arg4 harg4 arg5 harg5 arg6 harg6 arg7 harg7) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-! ## The pipeline's proof data -/

/-- The proof data of pipeline 7 on core `c`: the arrays as the region finds them (`V`); after the body at point
    `t` each input's buffer at its block and the output's at `out7_6` of the six input blocks; the invariant
    the scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

/-- Each input's current staging buffer holds its block at every point, whether or not a fetch lands there. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- The body at any point: the inputs' memrefs hold their blocks (`before7_W`), so `sound_kernel7` applies; the
    invariant and what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ (grid7.coords t) _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation7 (c : Dev nD) : BodyObligation (dat7 (F := F) V c) (defs₀ (F := F)) Variants.none () Set.univ := fun t => by
  rw [bigSep_W7, bigSep_W7]
  exact sound_body7 V c t

end Region7

end Cert.KernelIdeal.Hand
-- ==== Proof.KI.Reg8.lean ====
/-
  The edge-update region 8 at a parameter `V`, the TensorCore's buffer contents when the region is entered, for any
  float algebra `F`: each window's block at a grid point; what the body leaves in its two output buffers, as a function of
  the fourteen input blocks (the stores' payloads laid over the buffer); the body's triple; the proof data with the inputs
  kept at their blocks and the outputs at those functions; the body obligation at every grid point.

  The nine weight and bias windows have a constant block index: they are transferred at the first point only, and at every
  later point the buffer still holds the block, which is the same block.
-/
import proofs.«147763_j11003706212366_2_alg».proof.Proof.Gen.KernelIdeal.Launch
import proofs.«147763_j11003706212366_2_alg».proof.Proof.Gen.KernelIdeal.Skeleton
import proofs.«147763_j11003706212366_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8
variable (V : (c : Dev nD) → (b : Ref sig .tc) → Buf (Elt F) ((c : Thread nD τ).loc b))

/-! ## The windows' blocks -/

/-- Window `w`'s block at point `t`, read off its array at the entry contents `V`. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current buffer holds its block at every point, transferred there or not, for any proof data whose
    array is `V`'s and whose body leaves the block in place: where no transfer happened the block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current buffer holds its block at every point, transferred there or not, for any proof data whose
    array is `V`'s and whose body leaves the block in place: where no transfer happened the block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current buffer holds its block at every point, transferred there or not, for any proof data whose
    array is `V`'s and whose body leaves the block in place: where no transfer happened the block index has not moved. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current buffer holds its block at every point, transferred there or not, for any proof data whose
    array is `V`'s and whose body leaves the block in place: where no transfer happened the block index has not moved. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current buffer holds its block at every point, transferred there or not, for any proof data whose
    array is `V`'s and whose body leaves the block in place: where no transfer happened the block index has not moved. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current buffer holds its block at every point, transferred there or not, for any proof data whose
    array is `V`'s and whose body leaves the block in place: where no transfer happened the block index has not moved. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's current buffer holds its block at every point, transferred there or not, for any proof data whose
    array is `V`'s and whose body leaves the block in place: where no transfer happened the block index has not moved. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- Input window 7's current buffer holds its block at every point, transferred there or not, for any proof data whose
    array is `V`'s and whose body leaves the block in place: where no transfer happened the block index has not moved. -/
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-- Input window 8's current buffer holds its block at every point, transferred there or not, for any proof data whose
    array is `V`'s and whose body leaves the block in place: where no transfer happened the block index has not moved. -/
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-- Input window 9's current buffer holds its block at every point, transferred there or not, for any proof data whose
    array is `V`'s and whose body leaves the block in place: where no transfer happened the block index has not moved. -/
theorem before8_9_of {c : Dev nD} (dat : Dat τ (Elt F) Unit ℕ (UR sig nD τ) ℕ cfg8 c) (hA : dat.A 9 = V c (Pipeline.arrRef spec8 9))
    (hafter : ∀ t, dat.after 9 t = iblk8 V c 9 t) (t : Fin cfg8.N) (d) : dat.before 9 t d = iblk8 V c 9 t :=
  (dat.before_in_eq_fetched 9 rfl (fun _ => rfl) (fun _ _ _ => rfl) (fun t => by rw [hafter]; unfold Dat.blockOf iblk8; rw [hA]; try rfl) t d).trans
    (by unfold Dat.fetched Dat.blockOf iblk8; rw [hA]; try rfl)

/-- Input window 10's current buffer holds its block at every point, transferred there or not, for any proof data whose
    array is `V`'s and whose body leaves the block in place: where no transfer happened the block index has not moved. -/
theorem before8_10_of {c : Dev nD} (dat : Dat τ (Elt F) Unit ℕ (UR sig nD τ) ℕ cfg8 c) (hA : dat.A 10 = V c (Pipeline.arrRef spec8 10))
    (hafter : ∀ t, dat.after 10 t = iblk8 V c 10 t) (t : Fin cfg8.N) (d) : dat.before 10 t d = iblk8 V c 10 t :=
  (dat.before_in_eq_fetched 10 rfl (fun _ => rfl) (fun _ _ _ => rfl) (fun t => by rw [hafter]; unfold Dat.blockOf iblk8; rw [hA]; try rfl) t d).trans
    (by unfold Dat.fetched Dat.blockOf iblk8; rw [hA]; try rfl)

/-- Input window 11's current buffer holds its block at every point, transferred there or not, for any proof data whose
    array is `V`'s and whose body leaves the block in place: where no transfer happened the block index has not moved. -/
theorem before8_11_of {c : Dev nD} (dat : Dat τ (Elt F) Unit ℕ (UR sig nD τ) ℕ cfg8 c) (hA : dat.A 11 = V c (Pipeline.arrRef spec8 11))
    (hafter : ∀ t, dat.after 11 t = iblk8 V c 11 t) (t : Fin cfg8.N) (d) : dat.before 11 t d = iblk8 V c 11 t :=
  (dat.before_in_eq_fetched 11 rfl (fun _ => rfl) (fun _ _ _ => rfl) (fun t => by rw [hafter]; unfold Dat.blockOf iblk8; rw [hA]; try rfl) t d).trans
    (by unfold Dat.fetched Dat.blockOf iblk8; rw [hA]; try rfl)

/-- Input window 12's current buffer holds its block at every point, transferred there or not, for any proof data whose
    array is `V`'s and whose body leaves the block in place: where no transfer happened the block index has not moved. -/
theorem before8_12_of {c : Dev nD} (dat : Dat τ (Elt F) Unit ℕ (UR sig nD τ) ℕ cfg8 c) (hA : dat.A 12 = V c (Pipeline.arrRef spec8 12))
    (hafter : ∀ t, dat.after 12 t = iblk8 V c 12 t) (t : Fin cfg8.N) (d) : dat.before 12 t d = iblk8 V c 12 t :=
  (dat.before_in_eq_fetched 12 rfl (fun _ => rfl) (fun _ _ _ => rfl) (fun t => by rw [hafter]; unfold Dat.blockOf iblk8; rw [hA]; try rfl) t d).trans
    (by unfold Dat.fetched Dat.blockOf iblk8; rw [hA]; try rfl)

/-- Input window 13's current buffer holds its block at every point, transferred there or not, for any proof data whose
    array is `V`'s and whose body leaves the block in place: where no transfer happened the block index has not moved. -/
theorem before8_13_of {c : Dev nD} (dat : Dat τ (Elt F) Unit ℕ (UR sig nD τ) ℕ cfg8 c) (hA : dat.A 13 = V c (Pipeline.arrRef spec8 13))
    (hafter : ∀ t, dat.after 13 t = iblk8 V c 13 t) (t : Fin cfg8.N) (d) : dat.before 13 t d = iblk8 V c 13 t :=
  (dat.before_in_eq_fetched 13 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer is read and written whole -/

abbrev r8_0 : Rect S2000x128 := Rect.unit (s := S2000x128) ![0, 0] S2000x128.size inb_S2000x128_S2000x128_0_0
abbrev r8_1 : Rect S128x512 := Rect.unit (s := S128x512) ![0, 0] S128x512.size inb_S128x512_S128x512_0_0
abbrev r8_2 : Rect S1x512 := Rect.unit (s := S1x512) ![0, 0] S1x512.size inb_S1x512_S1x512_0_0
abbrev r8_3 : Rect S512x512 := Rect.unit (s := S512x512) ![0, 0] S512x512.size inb_S512x512_S512x512_0_0
abbrev r8_4 : Rect S512x128 := Rect.unit (s := S512x128) ![0, 0] S512x128.size inb_S512x128_S512x128_0_0
abbrev r8_5 : Rect S1x128 := Rect.unit (s := S1x128) ![0, 0] S1x128.size inb_S1x128_S1x128_0_0

/-! ## What the body leaves in each output window's buffer -/

/-- Window 14's buffer after the body, from the input windows' blocks: its one store, of the whole buffer. -/
def out8_14 (x0 : Vec F S2000x128 .bf16) (x1 : Vec F S2000x128 .bf16) (x2 : Vec F S2000x128 .bf16) (x3 : Vec F S2000x128 .bf16) (x4 : Vec F S2000x128 .f32) (x5 : Vec F S128x512 .bf16) (x6 : Vec F S128x512 .bf16) (x7 : Vec F S128x512 .bf16) (x8 : Vec F S128x512 .bf16) (x9 : Vec F S1x512 .f32) (x10 : Vec F S512x512 .bf16) (x11 : Vec F S1x512 .f32) (x12 : Vec F S512x128 .bf16) (x13 : Vec F S1x128 .f32) : Vec F S2000x128 .f32 :=
  View.canon [⟨r8_0, k8_pay1 (k8_pay3 (View.ld x0 r8_0) (View.ld x5 r8_1) (View.ld x1 r8_0) (View.ld x6 r8_1) (View.ld x2 r8_0) (View.ld x7 r8_1) (View.ld x3 r8_0) (View.ld x8 r8_1) (View.ld x9 r8_2) (View.ld x10 r8_3)) (View.ld x11 r8_2) (View.ld x12 r8_4) (View.ld x13 r8_5)⟩]

/-- The one store covers the buffer. -/
theorem cover8_14 (p0 : Vec F S2000x128 .f32) (y : S2000x128.Idx) :
    ∃ pc ∈ ([⟨r8_0, p0⟩] : List (View.Piece (Elt F) S2000x128 .f32)), y ∈ pc.1.set :=
  View.cover_of_tiled [⟨r8_0, p0⟩] S2000x128.size (by rfl) y

/-- Window 15's buffer after the body, from the input windows' blocks: its one store, of the whole buffer. -/
def out8_15 (x0 : Vec F S2000x128 .bf16) (x1 : Vec F S2000x128 .bf16) (x2 : Vec F S2000x128 .bf16) (x3 : Vec F S2000x128 .bf16) (x4 : Vec F S2000x128 .f32) (x5 : Vec F S128x512 .bf16) (x6 : Vec F S128x512 .bf16) (x7 : Vec F S128x512 .bf16) (x8 : Vec F S128x512 .bf16) (x9 : Vec F S1x512 .f32) (x10 : Vec F S512x512 .bf16) (x11 : Vec F S1x512 .f32) (x12 : Vec F S512x128 .bf16) (x13 : Vec F S1x128 .f32) : Vec F S2000x128 .f32 :=
  View.canon [⟨r8_0, k8_pay2 (k8_pay3 (View.ld x0 r8_0) (View.ld x5 r8_1) (View.ld x1 r8_0) (View.ld x6 r8_1) (View.ld x2 r8_0) (View.ld x7 r8_1) (View.ld x3 r8_0) (View.ld x8 r8_1) (View.ld x9 r8_2) (View.ld x10 r8_3)) (View.ld x11 r8_2) (View.ld x12 r8_4) (View.ld x13 r8_5) (View.ld x4 r8_0)⟩]

/-- The one store covers the buffer. -/
theorem cover8_15 (p0 : Vec F S2000x128 .f32) (y : S2000x128.Idx) :
    ∃ pc ∈ ([⟨r8_0, p0⟩] : List (View.Piece (Elt F) S2000x128 .f32)), y ∈ pc.1.set :=
  View.cover_of_tiled [⟨r8_0, p0⟩] S2000x128.size (by rfl) y

/-! ## The body's triple -/

set_option maxHeartbeats 4000000 in
/-- The body on whole buffers, the inputs' reading `xW` and the outputs' holding anything, runs to the continuation with the
    inputs' as they were and each output's at `out8_W` of the inputs'. -/
theorem sound_kernel8 (c : Dev nD) (E : Set ℕ) (i : grid8.Coords) (arg1 : Memref sig .tc .vmem S2000x128 .bf16) (harg1 : arg1.IsWhole) (arg2 : Memref sig .tc .vmem S2000x128 .bf16) (harg2 : arg2.IsWhole) (arg3 : Memref sig .tc .vmem S2000x128 .bf16) (harg3 : arg3.IsWhole) (arg4 : Memref sig .tc .vmem S2000x128 .bf16) (harg4 : arg4.IsWhole) (arg5 : Memref sig .tc .vmem S2000x128 .f32) (harg5 : arg5.IsWhole) (arg6 : Memref sig .tc .vmem S128x512 .bf16) (harg6 : arg6.IsWhole) (arg7 : Memref sig .tc .vmem S128x512 .bf16) (harg7 : arg7.IsWhole) (arg8 : Memref sig .tc .vmem S128x512 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S512x128 .bf16) (harg13 : arg13.IsWhole) (arg14 : Memref sig .tc .vmem S1x128 .f32) (harg14 : arg14.IsWhole) (arg15 : Memref sig .tc .vmem S2000x128 .f32) (harg15 : arg15.IsWhole) (arg16 : Memref sig .tc .vmem S2000x128 .f32) (harg16 : arg16.IsWhole)
    (x0 : Vec F S2000x128 .bf16) (x1 : Vec F S2000x128 .bf16) (x2 : Vec F S2000x128 .bf16) (x3 : Vec F S2000x128 .bf16) (x4 : Vec F S2000x128 .f32) (x5 : Vec F S128x512 .bf16) (x6 : Vec F S128x512 .bf16) (x7 : Vec F S128x512 .bf16) (x8 : Vec F S128x512 .bf16) (x9 : Vec F S1x512 .f32) (x10 : Vec F S512x512 .bf16) (x11 : Vec F S1x512 .f32) (x12 : Vec F S512x128 .bf16) (x13 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out8_14 x0 x1 x2 x3 x4 x5 x6 x7 x8 x9 x10 x11 x12 x13) ∗ owns (c : Thread nD τ) arg16 fullShare (out8_15 x0 x1 x2 x3 x4 x5 x6 x7 x8 x9 x10 x11 x12 x13)) -∗ K ⟨⟩))
      ⊢ wp frame (wpE (defs₀ (F := F)) Variants.none c none) E (cc8_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc8_kernel_eq_skeleton]; unfold cc8_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    try dsimp only
    exact View.read_writes_eq_canon _ _ _ (cover8_14 _)
  iexists _; isplitr
  swap; · iexact H15
  ipureintro
  try dsimp only
  exact View.read_writes_eq_canon _ _ _ (cover8_15 _)

/-! ## The pipeline's proof data -/

/-- The proof data of this pipeline on core `c`: the arrays at `V`; after the body at point `t` each input's buffer at its
    block and each output's at `out8_W` of the input blocks; the class's invariant (the scoped rest and the generator
    register untouched); nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => iblk8 V c 9 t
    | ⟨10, _⟩ => iblk8 V c 10 t
    | ⟨11, _⟩ => iblk8 V c 11 t
    | ⟨12, _⟩ => iblk8 V c 12 t
    | ⟨13, _⟩ => iblk8 V c 13 t
    | ⟨14, _⟩ => out8_14 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t)
    | ⟨15, _⟩ => out8_15 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t)
    | ⟨_ + 16, h⟩ => absurd h (Nat.not_lt.2 (Nat.le_add_left _ _))
  Φ _ := Pipeline.ΦA spec8 c
  q _ := fullShare
  owed _ := 0

/-- The proof data's arrays are the entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = iblk8 V c 9 t := by dsimp only [dat8]
theorem after8_10 (c : Dev nD) (t : Fin cfg8.N) : (dat8 V c).after 10 t = iblk8 V c 10 t := by dsimp only [dat8]
theorem after8_11 (c : Dev nD) (t : Fin cfg8.N) : (dat8 V c).after 11 t = iblk8 V c 11 t := by dsimp only [dat8]
theorem after8_12 (c : Dev nD) (t : Fin cfg8.N) : (dat8 V c).after 12 t = iblk8 V c 12 t := by dsimp only [dat8]
theorem after8_13 (c : Dev nD) (t : Fin cfg8.N) : (dat8 V c).after 13 t = iblk8 V c 13 t := by dsimp only [dat8]
theorem after8_14 (c : Dev nD) (t : Fin cfg8.N) : (dat8 V c).after 14 t = out8_14 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) := by dsimp only [dat8]
theorem after8_15 (c : Dev nD) (t : Fin cfg8.N) : (dat8 V c).after 15 t = out8_15 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) := by dsimp only [dat8]

/-- Each input's current buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d
theorem before8_9 (c : Dev nD) (t : Fin cfg8.N) (d) : (dat8 V c).before 9 t d = iblk8 V c 9 t :=
  before8_9_of V (dat8 V c) (A_eq8 V c 9) (after8_9 V c) t d
theorem before8_10 (c : Dev nD) (t : Fin cfg8.N) (d) : (dat8 V c).before 10 t d = iblk8 V c 10 t :=
  before8_10_of V (dat8 V c) (A_eq8 V c 10) (after8_10 V c) t d
theorem before8_11 (c : Dev nD) (t : Fin cfg8.N) (d) : (dat8 V c).before 11 t d = iblk8 V c 11 t :=
  before8_11_of V (dat8 V c) (A_eq8 V c 11) (after8_11 V c) t d
theorem before8_12 (c : Dev nD) (t : Fin cfg8.N) (d) : (dat8 V c).before 12 t d = iblk8 V c 12 t :=
  before8_12_of V (dat8 V c) (A_eq8 V c 12) (after8_12 V c) t d
theorem before8_13 (c : Dev nD) (t : Fin cfg8.N) (d) : (dat8 V c).before 13 t d = iblk8 V c 13 t :=
  before8_13_of V (dat8 V c) (A_eq8 V c 13) (after8_13 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d))
    ∗ (∃ d, owns (c : Thread nD τ) (st8_10 t) fullShare ((dat8 V c).before 10 t d))
    ∗ (∃ d, owns (c : Thread nD τ) (st8_11 t) fullShare ((dat8 V c).before 11 t d))
    ∗ (∃ d, owns (c : Thread nD τ) (st8_12 t) fullShare ((dat8 V c).before 12 t d))
    ∗ (∃ d, owns (c : Thread nD τ) (st8_13 t) fullShare ((dat8 V c).before 13 t d))
    ∗ (∃ d, owns (c : Thread nD τ) (st8_14 t) fullShare ((dat8 V c).before 14 t d))
    ∗ (∃ d, owns (c : Thread nD τ) (st8_15 t) fullShare ((dat8 V c).before 15 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t)
    ∗ owns (c : Thread nD τ) (st8_10 t) fullShare ((dat8 V c).after 10 t)
    ∗ owns (c : Thread nD τ) (st8_11 t) fullShare ((dat8 V c).after 11 t)
    ∗ owns (c : Thread nD τ) (st8_12 t) fullShare ((dat8 V c).after 12 t)
    ∗ owns (c : Thread nD τ) (st8_13 t) fullShare ((dat8 V c).after 13 t)
    ∗ owns (c : Thread nD τ) (st8_14 t) fullShare ((dat8 V c).after 14 t)
    ∗ owns (c : Thread nD τ) (st8_15 t) fullShare ((dat8 V c).after 15 t))

set_option maxHeartbeats 1000000 in
/-- The body at any point: the inputs' buffers hold their blocks, so the body's triple applies; the invariant and what the
    core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8, before8_9, before8_10, before8_11, before8_12, before8_13]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9, after8_10, after8_11, after8_12, after8_13, after8_14, after8_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel8 c Set.univ (grid8.coords t) _ _ _ _ _ _ _ _ _ _ _ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body obligation, at every point. -/
theorem body_obligation8 (c : Dev nD) : BodyObligation (dat8 (F := F) V c) (defs₀ (F := F)) Variants.none () Set.univ := fun t => by
  rw [bigSep_W8, bigSep_W8]
  exact sound_body8 V c t

end Region8

end Cert.KernelIdeal.Hand
-- ==== Proof.KI.Reg9.lean ====
/- The frame half of region 9: a three-layer perceptron on one block of rows, each layer a product with a
   weight matrix into a zero accumulator, a bias row added to every row, and the positive part. Seven input
   windows (the rows, then weight and bias of each layer) and one output window holding the rows of the result. -/
import proofs.«147763_j11003706212366_2_alg».proof.Proof.Gen.KernelIdeal.Launch
import proofs.«147763_j11003706212366_2_alg».proof.Proof.Gen.KernelIdeal.Skeleton
import proofs.«147763_j11003706212366_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array at the contents `V`. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0 holds its block at every point, fetched there or not: where it is not fetched its block
    index has not moved. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1 holds its block at every point, fetched there or not: where it is not fetched its block
    index has not moved. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2 holds its block at every point, fetched there or not: where it is not fetched its block
    index has not moved. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- Input window 3 holds its block at every point, fetched there or not: where it is not fetched its block
    index has not moved. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
/-- Input window 4 holds its block at every point, fetched there or not: where it is not fetched its block
    index has not moved. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
/-- Input window 5 holds its block at every point, fetched there or not: where it is not fetched its block
    index has not moved. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)
/-- Input window 6 holds its block at every point, fetched there or not: where it is not fetched its block
    index has not moved. -/
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer is read and written whole -/

abbrev r9_0 : Rect S1000x512 := Rect.unit (s := S1000x512) ![0, 0] S1000x512.size inb_S1000x512_S1000x512_0_0
abbrev r9_1 : Rect S512x512 := Rect.unit (s := S512x512) ![0, 0] S512x512.size inb_S512x512_S512x512_0_0
abbrev r9_2 : Rect S1x512 := Rect.unit (s := S1x512) ![0, 0] S1x512.size inb_S1x512_S1x512_0_0
abbrev r9_3 : Rect S512x128 := Rect.unit (s := S512x128) ![0, 0] S512x128.size inb_S512x128_S512x128_0_0
abbrev r9_4 : Rect S1x128 := Rect.unit (s := S1x128) ![0, 0] S1x128.size inb_S1x128_S1x128_0_0
abbrev r9_5 : Rect S1000x128 := Rect.unit (s := S1000x128) ![0, 0] S1000x128.size inb_S1000x128_S1000x128_0_0

/-! ## What the body leaves in the output window's buffer -/

/-- The output buffer after the body, from the input blocks: its one store, of the third layer's positive part. -/
def out9_7 (x0 : Vec F S1000x512 .bf16) (x1 : Vec F S512x512 .bf16) (x2 : Vec F S1x512 .f32) (x3 : Vec F S512x512 .bf16) (x4 : Vec F S1x512 .f32) (x5 : Vec F S512x128 .bf16) (x6 : Vec F S1x128 .f32) : Vec F S1000x128 .f32 :=
  View.canon [⟨r9_5, k9_pay1 (View.ld x0 r9_0) (View.ld x1 r9_1) (View.ld x2 r9_2) (View.ld x3 r9_1) (View.ld x4 r9_2) (View.ld x5 r9_3) (View.ld x6 r9_4)⟩]

/-- The one store is of the whole buffer. -/
theorem cover9_7 (p0 : Vec F S1000x128 .f32) (y : S1000x128.Idx) :
    ∃ pc ∈ ([⟨r9_5, p0⟩] : List (View.Piece (Elt F) S1000x128 .f32)), y ∈ pc.1.set :=
  View.cover_of_tiled [⟨r9_5, p0⟩] S1000x128.size (by rfl) y

/-! ## The body's triple -/

set_option maxHeartbeats 1000000 in
/-- The body on whole staging buffers, the inputs' at contents `x0 … x6` and the output's at anything, returns the
    inputs' as they were and the output's at `out9_7` of them. -/
theorem sound_kernel9 (c : Dev nD) (E : Set ℕ) (i : grid9.Coords) (arg1 : Memref sig .tc .vmem S1000x512 .bf16) (harg1 : arg1.IsWhole) (arg2 : Memref sig .tc .vmem S512x512 .bf16) (harg2 : arg2.IsWhole) (arg3 : Memref sig .tc .vmem S1x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S1000x128 .f32) (harg8 : arg8.IsWhole)
    (x0 : Vec F S1000x512 .bf16) (x1 : Vec F S512x512 .bf16) (x2 : Vec F S1x512 .f32) (x3 : Vec F S512x512 .bf16) (x4 : Vec F S1x512 .f32) (x5 : Vec F S512x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out9_7 x0 x1 x2 x3 x4 x5 x6)) -∗ K ⟨⟩))
      ⊢ wp frame (wpE (defs₀ (F := F)) Variants.none c none) E (cc9_kernel i arg1 harg1 arg2 harg2 arg3 harg3 arg4 harg4 arg5 harg5 arg6 harg6 arg7 harg7 arg8 harg8) K := by
  simp only [cc9_kernel_eq_skeleton]; unfold cc9_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover9_7 _)

/-! ## The pipeline's proof data -/

/-- The proof data of pipeline 9 on core `c`: the arrays at `V`; after the body at point `t` each input's buffer at
    its block and the output's at `out9_7` of the input blocks; the invariant the scoped rest and the generator
    register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 2 t) (iblk9 V c 3 t) (iblk9 V c 4 t) (iblk9 V c 5 t) (iblk9 V c 6 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = out9_7 (iblk9 V c 0 t) (iblk9 V c 1 t) (iblk9 V c 2 t) (iblk9 V c 3 t) (iblk9 V c 4 t) (iblk9 V c 5 t) (iblk9 V c 6 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t))

/-- The body at any point: the inputs' buffers hold their blocks, so `sound_kernel9` applies; the invariant and
    what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel9 c Set.univ (grid9.coords t) _ _ _ _ _ _ _ _ _ _ _ _ _ _ _ _ (iblk9 V c 0 t) (iblk9 V c 1 t) (iblk9 V c 2 t) (iblk9 V c 3 t) (iblk9 V c 4 t) (iblk9 V c 5 t) (iblk9 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation9 (c : Dev nD) : BodyObligation (dat9 (F := F) V c) (defs₀ (F := F)) Variants.none () Set.univ := fun t => by
  rw [bigSep_W9, bigSep_W9]
  exact sound_body9 V c t

end

end Cert.KernelIdeal.Hand

end
-- ==== Proof.KI.Reg10.lean ====
/- The frame half of region 10: a three-layer perceptron on one block of rows, each layer a product with a
   weight matrix into a zero accumulator, a bias row added to every row, and the positive part. Seven input
   windows (the rows, then weight and bias of each layer) and one output window holding the rows of the result. -/
import proofs.«147763_j11003706212366_2_alg».proof.Proof.Gen.KernelIdeal.Launch
import proofs.«147763_j11003706212366_2_alg».proof.Proof.Gen.KernelIdeal.Skeleton
import proofs.«147763_j11003706212366_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array at the contents `V`. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0 holds its block at every point, fetched there or not: where it is not fetched its block
    index has not moved. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- Input window 1 holds its block at every point, fetched there or not: where it is not fetched its block
    index has not moved. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- Input window 2 holds its block at every point, fetched there or not: where it is not fetched its block
    index has not moved. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
/-- Input window 3 holds its block at every point, fetched there or not: where it is not fetched its block
    index has not moved. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
/-- Input window 4 holds its block at every point, fetched there or not: where it is not fetched its block
    index has not moved. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)
/-- Input window 5 holds its block at every point, fetched there or not: where it is not fetched its block
    index has not moved. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)
/-- Input window 6 holds its block at every point, fetched there or not: where it is not fetched its block
    index has not moved. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each buffer is read and written whole -/

abbrev r10_0 : Rect S64x384 := Rect.unit (s := S64x384) ![0, 0] S64x384.size inb_S64x384_S64x384_0_0
abbrev r10_1 : Rect S384x512 := Rect.unit (s := S384x512) ![0, 0] S384x512.size inb_S384x512_S384x512_0_0
abbrev r10_2 : Rect S1x512 := Rect.unit (s := S1x512) ![0, 0] S1x512.size inb_S1x512_S1x512_0_0
abbrev r10_3 : Rect S512x512 := Rect.unit (s := S512x512) ![0, 0] S512x512.size inb_S512x512_S512x512_0_0
abbrev r10_4 : Rect S512x128 := Rect.unit (s := S512x128) ![0, 0] S512x128.size inb_S512x128_S512x128_0_0
abbrev r10_5 : Rect S1x128 := Rect.unit (s := S1x128) ![0, 0] S1x128.size inb_S1x128_S1x128_0_0
abbrev r10_6 : Rect S64x128 := Rect.unit (s := S64x128) ![0, 0] S64x128.size inb_S64x128_S64x128_0_0

/-! ## What the body leaves in the output window's buffer -/

/-- The output buffer after the body, from the input blocks: its one store, of the third layer's positive part. -/
def out10_7 (x0 : Vec F S64x384 .bf16) (x1 : Vec F S384x512 .bf16) (x2 : Vec F S1x512 .f32) (x3 : Vec F S512x512 .bf16) (x4 : Vec F S1x512 .f32) (x5 : Vec F S512x128 .bf16) (x6 : Vec F S1x128 .f32) : Vec F S64x128 .f32 :=
  View.canon [⟨r10_6, k10_pay1 (View.ld x0 r10_0) (View.ld x1 r10_1) (View.ld x2 r10_2) (View.ld x3 r10_3) (View.ld x4 r10_2) (View.ld x5 r10_4) (View.ld x6 r10_5)⟩]

/-- The one store is of the whole buffer. -/
theorem cover10_7 (p0 : Vec F S64x128 .f32) (y : S64x128.Idx) :
    ∃ pc ∈ ([⟨r10_6, p0⟩] : List (View.Piece (Elt F) S64x128 .f32)), y ∈ pc.1.set :=
  View.cover_of_tiled [⟨r10_6, p0⟩] S64x128.size (by rfl) y

/-! ## The body's triple -/

set_option maxHeartbeats 1000000 in
/-- The body on whole staging buffers, the inputs' at contents `x0 … x6` and the output's at anything, returns the
    inputs' as they were and the output's at `out10_7` of them. -/
theorem sound_kernel10 (c : Dev nD) (E : Set ℕ) (i : grid10.Coords) (arg1 : Memref sig .tc .vmem S64x384 .bf16) (harg1 : arg1.IsWhole) (arg2 : Memref sig .tc .vmem S384x512 .bf16) (harg2 : arg2.IsWhole) (arg3 : Memref sig .tc .vmem S1x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S64x128 .f32) (harg8 : arg8.IsWhole)
    (x0 : Vec F S64x384 .bf16) (x1 : Vec F S384x512 .bf16) (x2 : Vec F S1x512 .f32) (x3 : Vec F S512x512 .bf16) (x4 : Vec F S1x512 .f32) (x5 : Vec F S512x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out10_7 x0 x1 x2 x3 x4 x5 x6)) -∗ K ⟨⟩))
      ⊢ wp frame (wpE (defs₀ (F := F)) Variants.none c none) E (cc10_kernel i arg1 harg1 arg2 harg2 arg3 harg3 arg4 harg4 arg5 harg5 arg6 harg6 arg7 harg7 arg8 harg8) K := by
  simp only [cc10_kernel_eq_skeleton]; unfold cc10_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover10_7 _)

/-! ## The pipeline's proof data -/

/-- The proof data of pipeline 10 on core `c`: the arrays at `V`; after the body at point `t` each input's buffer at
    its block and the output's at `out10_7` of the input blocks; the invariant the scoped rest and the generator
    register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => out10_7 (iblk10 V c 0 t) (iblk10 V c 1 t) (iblk10 V c 2 t) (iblk10 V c 3 t) (iblk10 V c 4 t) (iblk10 V c 5 t) (iblk10 V c 6 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = out10_7 (iblk10 V c 0 t) (iblk10 V c 1 t) (iblk10 V c 2 t) (iblk10 V c 3 t) (iblk10 V c 4 t) (iblk10 V c 5 t) (iblk10 V c 6 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t))

/-- The body at any point: the inputs' buffers hold their blocks, so `sound_kernel10` applies; the invariant and
    what the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel10 c Set.univ (grid10.coords t) _ _ _ _ _ _ _ _ _ _ _ _ _ _ _ _ (iblk10 V c 0 t) (iblk10 V c 1 t) (iblk10 V c 2 t) (iblk10 V c 3 t) (iblk10 V c 4 t) (iblk10 V c 5 t) (iblk10 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation10 (c : Dev nD) : BodyObligation (dat10 (F := F) V c) (defs₀ (F := F)) Variants.none () Set.univ := fun t => by
  rw [bigSep_W10, bigSep_W10]
  exact sound_body10 V c t

end

end Cert.KernelIdeal.Hand

end
-- ==== Proof.KI.Reg11.lean ====
/- Region 11 of @main, the decoder  out = (relu(xs·W1 + b1)·W2 + b2) + lp  on blocks of 1000 rows, at ANY contents `V` of the
   TensorCore's buffers when the region is entered and any float carrier `F`.

   Window `w`'s block at point `t` is read off `V` (`iblk11`). The body loads its six input blocks whole, forms one
   payload from them and stores it over the whole output block; so after the body every input buffer still holds its
   block and the output buffer holds that payload of the six blocks (`out11_6`). An input buffer holds its block at
   EVERY point, fetched there or not: the two weight matrices and the two bias rows are fetched at point 0 only, and
   their block index never moves afterwards. With these the proof data `dat11` meet the pipeline's body obligation
   at every point (`body_obligation11`). -/
import proofs.«147763_j11003706212366_2_alg».proof.Proof.Gen.KernelIdeal.Launch
import proofs.«147763_j11003706212366_2_alg».proof.Proof.Gen.KernelIdeal.Skeleton
import proofs.«147763_j11003706212366_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle 1000 long recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region11
-- the TensorCore's buffer contents when the region is entered
variable (V : (c : Dev nD) → (b : Ref sig .tc) → Buf (Elt F) ((c : Thread nD τ).loc b))

/-! ## The windows' blocks -/

/-- Window `w`'s block at point `t`: the part of its array, as `V` holds it, that the transfer at `t` moves. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0 (the node states' block): its current staging buffer holds its block at every point, fetched there or not, for
    any proof data whose array is `V`'s (`hA`) and whose body leaves the block in place (`hafter`). Where the point
    does not fetch, the block index is the previous point's, and so is the block; the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1 (the positions' block): its current staging buffer holds its block at every point, fetched there or not, for
    any proof data whose array is `V`'s (`hA`) and whose body leaves the block in place (`hafter`). Where the point
    does not fetch, the block index is the previous point's, and so is the block; the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2 (the first layer's weights): its current staging buffer holds its block at every point, fetched there or not, for
    any proof data whose array is `V`'s (`hA`) and whose body leaves the block in place (`hafter`). Where the point
    does not fetch, the block index is the previous point's, and so is the block; the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3 (the first layer's bias row): its current staging buffer holds its block at every point, fetched there or not, for
    any proof data whose array is `V`'s (`hA`) and whose body leaves the block in place (`hafter`). Where the point
    does not fetch, the block index is the previous point's, and so is the block; the window is uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4 (the second layer's weights): its current staging buffer holds its block at every point, fetched there or not, for
    any proof data whose array is `V`'s (`hA`) and whose body leaves the block in place (`hafter`). Where the point
    does not fetch, the block index is the previous point's, and so is the block; the window is uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
/-- Input window 5 (the second layer's bias row): its current staging buffer holds its block at every point, fetched there or not, for
    any proof data whose array is `V`'s (`hA`) and whose body leaves the block in place (`hafter`). Where the point
    does not fetch, the block index is the previous point's, and so is the block; the window is uncut and never idle. -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each buffer is read, and the output written, whole -/

abbrev r11_0 : Rect S1000x128 := Rect.unit (s := S1000x128) ![0, 0] S1000x128.size inb_S1000x128_S1000x128_0_0
abbrev r11_1 : Rect S128x128 := Rect.unit (s := S128x128) ![0, 0] S128x128.size inb_S128x128_S128x128_0_0
abbrev r11_2 : Rect S1x128 := Rect.unit (s := S1x128) ![0, 0] S1x128.size inb_S1x128_S1x128_0_0
abbrev r11_3 : Rect S128x3 := Rect.unit (s := S128x3) ![0, 0] S128x3.size inb_S128x3_S128x3_0_0
abbrev r11_4 : Rect S1x3 := Rect.unit (s := S1x3) ![0, 0] S1x3.size inb_S1x3_S1x3_0_0
abbrev r11_5 : Rect S1000x3 := Rect.unit (s := S1000x3) ![0, 0] S1000x3.size inb_S1000x3_S1000x3_0_0

/-! ## What the body leaves in the output window's buffer -/

/-- Window 6's staging buffer after the body, from the six input blocks: its one store, of the payload of the blocks
    as loaded. -/
def out11_6 (x0 : Vec F S1000x128 .bf16) (x1 : Vec F S1000x3 .f32) (x2 : Vec F S128x128 .bf16) (x3 : Vec F S1x128 .f32) (x4 : Vec F S128x3 .bf16) (x5 : Vec F S1x3 .f32) : Vec F S1000x3 .f32 :=
  View.canon [⟨r11_5, k11_pay1 (View.ld x0 r11_0) (View.ld x2 r11_1) (View.ld x3 r11_2) (View.ld x4 r11_3) (View.ld x5 r11_4) (View.ld x1 r11_5)⟩]

/-- The one store is of the whole block, so it covers it. -/
theorem cover11_6 (p0 : Vec F S1000x3 .f32) (y : S1000x3.Idx) :
    ∃ pc ∈ ([⟨r11_5, p0⟩] : List (View.Piece (Elt F) S1000x3 .f32)), y ∈ pc.1.set :=
  View.cover_of_tiled [⟨r11_5, p0⟩] S1000x3.size (by rfl) y

/-! ## The body's triple -/

set_option maxHeartbeats 1000000 in
/-- The body on whole staging memrefs, the inputs' at contents `x0 … x5` and the output's at anything, runs to the
    continuation with the inputs' as they were and the output's at `out11_6` of the inputs'. -/
theorem sound_kernel11 (c : Dev nD) (E : Set ℕ) (i : grid11.Coords)
    (arg1 : Memref sig .tc .vmem S1000x128 .bf16) (harg1 : arg1.IsWhole)
    (arg2 : Memref sig .tc .vmem S1000x3 .f32) (harg2 : arg2.IsWhole)
    (arg3 : Memref sig .tc .vmem S128x128 .bf16) (harg3 : arg3.IsWhole)
    (arg4 : Memref sig .tc .vmem S1x128 .f32) (harg4 : arg4.IsWhole)
    (arg5 : Memref sig .tc .vmem S128x3 .bf16) (harg5 : arg5.IsWhole)
    (arg6 : Memref sig .tc .vmem S1x3 .f32) (harg6 : arg6.IsWhole)
    (arg7 : Memref sig .tc .vmem S1000x3 .f32) (harg7 : arg7.IsWhole)
    (x0 : Vec F S1000x128 .bf16) (x1 : Vec F S1000x3 .f32) (x2 : Vec F S128x128 .bf16) (x3 : Vec F S1x128 .f32) (x4 : Vec F S128x3 .bf16) (x5 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out11_6 x0 x1 x2 x3 x4 x5)) -∗ K ⟨⟩))
      ⊢ wp frame (wpE (defs₀ (F := F)) Variants.none c none) E (cc11_kernel i arg1 harg1 arg2 harg2 arg3 harg3 arg4 harg4 arg5 harg5 arg6 harg6 arg7 harg7) K := by
  simp only [cc11_kernel_eq_skeleton]; unfold cc11_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_6 _)

/-! ## The pipeline's proof data -/

/-- The proof data of the region's pipeline on core `c`: the arrays as `V` holds them; after the body at point `t`
    each input's buffer at its block and the output's at `out11_6` of the six blocks; the invariant that the scoped
    rest and the generator register are untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
  Φ _ := Pipeline.ΦA spec11 c
  q _ := fullShare
  owed _ := 0

/-- The proof data's arrays are `V`'s. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) (iblk11 V c 5 t) := by dsimp only [dat11]

/-- Each input's current staging buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

/-- The body at any point: the inputs' memrefs hold their blocks, so the body's triple applies; the invariant and the
    core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel11 c Set.univ (grid11.coords t) _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation11 (c : Dev nD) : BodyObligation (dat11 (F := F) V c) (defs₀ (F := F)) Variants.none () Set.univ := fun t => by
  rw [bigSep_W11, bigSep_W11]
  exact sound_body11 V c t

end Region11

end Cert.KernelIdeal.Hand

end
-- ==== Proof.KI.Reg12.lean ====
/-
  Region 12 (position embedding, ex = relu(relu(p·W1 + b1)·W2 + b2) + xs on row blocks of 1000): the frame half of its
  pipeline at an arbitrary entry state V, for any float interpretation F.

  Six input windows (rows of p and of xs by block; W1, b1, W2, b2 whole, with a constant block index) and one output
  window (rows of the result by block). The body loads every input buffer whole, and stores one whole-buffer payload
  into the output buffer; so after the body each input buffer still reads its block, and the output buffer reads the
  payload of the input blocks. The proof data records exactly that, and the body obligation follows from the body's
  triple and from the fact that an input buffer reads its window's block at every point, fetched there or not.
-/
import proofs.«147763_j11003706212366_2_alg».proof.Proof.Gen.KernelIdeal.Launch
import proofs.«147763_j11003706212366_2_alg».proof.Proof.Gen.KernelIdeal.Skeleton
import proofs.«147763_j11003706212366_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region12
variable (V : (c : Dev nD) → (b : Ref sig .tc) → Buf (Elt F) ((c : Thread nD τ).loc b))

/-! ## The windows' blocks -/

/-- Window `w`'s block at point `t`: the rows (or the whole array) its index map selects there, read off the
    window's array in the entry state `V`. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0: for any proof data whose array is `V`'s and whose body leaves the block in place, the current
    buffer reads the window's block at every point — where it is not fetched the block index has not moved. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1: for any proof data whose array is `V`'s and whose body leaves the block in place, the current
    buffer reads the window's block at every point — where it is not fetched the block index has not moved. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2: for any proof data whose array is `V`'s and whose body leaves the block in place, the current
    buffer reads the window's block at every point — where it is not fetched the block index has not moved. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3: for any proof data whose array is `V`'s and whose body leaves the block in place, the current
    buffer reads the window's block at every point — where it is not fetched the block index has not moved. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4: for any proof data whose array is `V`'s and whose body leaves the block in place, the current
    buffer reads the window's block at every point — where it is not fetched the block index has not moved. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-- Input window 5: for any proof data whose array is `V`'s and whose body leaves the block in place, the current
    buffer reads the window's block at every point — where it is not fetched the block index has not moved. -/
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: every load and the store take a whole buffer -/

abbrev r12_0 : Rect S1000x3 := Rect.unit (s := S1000x3) ![0, 0] S1000x3.size inb_S1000x3_S1000x3_0_0
abbrev r12_1 : Rect S3x128 := Rect.unit (s := S3x128) ![0, 0] S3x128.size inb_S3x128_S3x128_0_0
abbrev r12_2 : Rect S1x128 := Rect.unit (s := S1x128) ![0, 0] S1x128.size inb_S1x128_S1x128_0_0
abbrev r12_3 : Rect S128x128 := Rect.unit (s := S128x128) ![0, 0] S128x128.size inb_S128x128_S128x128_0_0
abbrev r12_4 : Rect S1000x128 := Rect.unit (s := S1000x128) ![0, 0] S1000x128.size inb_S1000x128_S1000x128_0_0

/-! ## What the body leaves in the output buffer -/

/-- The output buffer after the body, as a function of what the six input buffers read: the one store's payload
    laid over the whole buffer. -/
def out12_6 (x0 : Vec F S1000x3 .bf16) (x1 : Vec F S1000x128 .f32) (x2 : Vec F S3x128 .bf16) (x3 : Vec F S1x128 .f32) (x4 : Vec F S128x128 .bf16) (x5 : Vec F S1x128 .f32) : Vec F S1000x128 .f32 :=
  View.canon [⟨r12_4, k12_pay1 (View.ld x0 r12_0) (View.ld x2 r12_1) (View.ld x3 r12_2) (View.ld x4 r12_3) (View.ld x5 r12_2) (View.ld x1 r12_4)⟩]

/-- The one store covers the output buffer. -/
theorem cover12_6 (p0 : Vec F S1000x128 .f32) (y : S1000x128.Idx) :
    ∃ pc ∈ ([⟨r12_4, p0⟩] : List (View.Piece (Elt F) S1000x128 .f32)), y ∈ pc.1.set :=
  View.cover_of_tiled [⟨r12_4, p0⟩] S1000x128.size (by rfl) y

/-! ## The body's triple -/

set_option maxHeartbeats 1000000 in
/-- The body on whole buffers, the inputs' reading `x0 … x5` and the output's anything, runs to a state where the
    inputs' read what they read and the output's reads `out12_6 x0 … x5`. -/
theorem sound_kernel12 (c : Dev nD) (E : Set ℕ) (i : grid12.Coords) (arg1 : Memref sig .tc .vmem S1000x3 .bf16) (harg1 : arg1.IsWhole) (arg2 : Memref sig .tc .vmem S1000x128 .f32) (harg2 : arg2.IsWhole) (arg3 : Memref sig .tc .vmem S3x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1000x128 .f32) (harg7 : arg7.IsWhole)
    (x0 : Vec F S1000x3 .bf16) (x1 : Vec F S1000x128 .f32) (x2 : Vec F S3x128 .bf16) (x3 : Vec F S1x128 .f32) (x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out12_6 x0 x1 x2 x3 x4 x5)) -∗ K ⟨⟩))
      ⊢ wp frame (wpE (defs₀ (F := F)) Variants.none c none) E (cc12_kernel i arg1 harg1 arg2 harg2 arg3 harg3 arg4 harg4 arg5 harg5 arg6 harg6 arg7 harg7) K := by
  simp only [cc12_kernel_eq_skeleton]; unfold cc12_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover12_6 _)

/-! ## The pipeline's proof data -/

/-- The proof data of pipeline 12 on core `c`: the arrays as `V` has them; after the body at point `t` each input
    buffer reads its block and the output buffer reads `out12_6` of the input blocks; the invariant is the rest of
    the core's scoped state and its generator register, untouched; full shares; nothing owed. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => out12_6 (iblk12 V c 0 t) (iblk12 V c 1 t) (iblk12 V c 2 t) (iblk12 V c 3 t) (iblk12 V c 4 t) (iblk12 V c 5 t)
  Φ _ := Pipeline.ΦA spec12 c
  q _ := fullShare
  owed _ := 0

/-- The proof data's arrays are `V`'s. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = out12_6 (iblk12 V c 0 t) (iblk12 V c 1 t) (iblk12 V c 2 t) (iblk12 V c 3 t) (iblk12 V c 4 t) (iblk12 V c 5 t) := by dsimp only [dat12]

/-- Each input's current buffer reads its block at every point. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t))

/-- The body at any point: the input buffers read their blocks, so the body's triple applies; the invariant and what
    the core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel12 c Set.univ (grid12.coords t) _ _ _ _ _ _ _ _ _ _ _ _ _ _ (iblk12 V c 0 t) (iblk12 V c 1 t) (iblk12 V c 2 t) (iblk12 V c 3 t) (iblk12 V c 4 t) (iblk12 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point. -/
theorem body_obligation12 (c : Dev nD) : BodyObligation (dat12 (F := F) V c) (defs₀ (F := F)) Variants.none () Set.univ := fun t => by
  rw [bigSep_W12, bigSep_W12]
  exact sound_body12 V c t

end Region12

end Cert.KernelIdeal.Hand
-- ==== Proof.KI.Reg13.lean ====
/-
  The frame half of region 13: the distance embedding  ee = bf16(relu(relu(len · W₁ + b₁) · W₂ + b₂) + es)  run
  as a pipeline over 20 row blocks of 4000 rows. Stated for any scalar model `F` and at a PARAMETER `V`, the buffer
  contents the region is entered with.

  Six windows are read (the lengths' rows and the edge states' rows, one block per point; the two layers' weights and
  bias rows, the same block at every point) and one is written (the embedded rows, one block per point). The body
  loads each input whole, computes, and stores the output whole, so what it leaves in the output's staging buffer is
  a function of the six input blocks alone, and every input's buffer is left as found.
-/
import proofs.«147763_j11003706212366_2_alg».proof.Proof.Gen.KernelIdeal.Launch
import proofs.«147763_j11003706212366_2_alg».proof.Proof.Gen.KernelIdeal.Skeleton
import proofs.«147763_j11003706212366_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle 4000 rows long is looked at once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region13
-- the buffer contents the region is entered with
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0 (the lengths' rows): its current staging buffer holds its block at every point, whether or not a fetch
    lands there, for ANY proof data whose array is `V`'s (`hA`) and whose body leaves the block in place (`hafter`).
    Where no fetch lands the block index has not moved, so the block kept from the point before is this point's; the
    window is uncut and has no idle point. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
/-- Input window 1 (the edge states' rows): its current staging buffer holds its block at every point, whether or not a fetch
    lands there, for ANY proof data whose array is `V`'s (`hA`) and whose body leaves the block in place (`hafter`).
    Where no fetch lands the block index has not moved, so the block kept from the point before is this point's; the
    window is uncut and has no idle point. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
/-- Input window 2 (the first layer's weight row): its current staging buffer holds its block at every point, whether or not a fetch
    lands there, for ANY proof data whose array is `V`'s (`hA`) and whose body leaves the block in place (`hafter`).
    Where no fetch lands the block index has not moved, so the block kept from the point before is this point's; the
    window is uncut and has no idle point. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)
/-- Input window 3 (the first layer's bias row): its current staging buffer holds its block at every point, whether or not a fetch
    lands there, for ANY proof data whose array is `V`'s (`hA`) and whose body leaves the block in place (`hafter`).
    Where no fetch lands the block index has not moved, so the block kept from the point before is this point's; the
    window is uncut and has no idle point. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)
/-- Input window 4 (the second layer's weight matrix): its current staging buffer holds its block at every point, whether or not a fetch
    lands there, for ANY proof data whose array is `V`'s (`hA`) and whose body leaves the block in place (`hafter`).
    Where no fetch lands the block index has not moved, so the block kept from the point before is this point's; the
    window is uncut and has no idle point. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)
/-- Input window 5 (the second layer's bias row): its current staging buffer holds its block at every point, whether or not a fetch
    lands there, for ANY proof data whose array is `V`'s (`hA`) and whose body leaves the block in place (`hafter`).
    Where no fetch lands the block index has not moved, so the block kept from the point before is this point's; the
    window is uncut and has no idle point. -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: each buffer read or written whole -/

abbrev r13_0 : Rect S4000x1 := Rect.unit (s := S4000x1) ![0, 0] S4000x1.size inb_S4000x1_S4000x1_0_0
abbrev r13_1 : Rect S1x128 := Rect.unit (s := S1x128) ![0, 0] S1x128.size inb_S1x128_S1x128_0_0
abbrev r13_2 : Rect S128x128 := Rect.unit (s := S128x128) ![0, 0] S128x128.size inb_S128x128_S128x128_0_0
abbrev r13_3 : Rect S4000x128 := Rect.unit (s := S4000x128) ![0, 0] S4000x128.size inb_S4000x128_S4000x128_0_0

/-! ## What the body leaves in the output window's buffer -/

/-- Window 6's staging buffer after the body, from the six input blocks (in window order: lengths, edge states,
    first weight row, first bias row, second weight matrix, second bias row): its one store, whose payload reads
    every input whole. -/
def out13_6 (x0 : Vec F S4000x1 .bf16) (x1 : Vec F S4000x128 .f32) (x2 : Vec F S1x128 .bf16) (x3 : Vec F S1x128 .f32) (x4 : Vec F S128x128 .bf16) (x5 : Vec F S1x128 .f32) : Vec F S4000x128 .bf16 :=
  View.canon [⟨r13_3, k13_pay1 (View.ld x0 r13_0) (View.ld x2 r13_1) (View.ld x3 r13_1) (View.ld x4 r13_2) (View.ld x5 r13_1) (View.ld x1 r13_3)⟩]

/-- The one store is the whole buffer, so it covers it. -/
theorem cover13_6 (p0 : Vec F S4000x128 .bf16) (y : S4000x128.Idx) :
    ∃ pc ∈ ([⟨r13_3, p0⟩] : List (View.Piece (Elt F) S4000x128 .bf16)), y ∈ pc.1.set :=
  View.cover_of_tiled [⟨r13_3, p0⟩] S4000x128.size (by rfl) y

/-! ## The body's triple -/

set_option maxHeartbeats 1000000 in
/-- The body on whole staging memrefs, the six inputs' at read contents `x0 … x5` and the output's at anything, runs to
    a continuation holding the inputs' as they were and the output's at `out13_6` of the inputs'. -/
theorem sound_kernel13 (c : Dev nD) (E : Set ℕ) (i : grid13.Coords)
    (arg1 : Memref sig .tc .vmem S4000x1 .bf16) (harg1 : arg1.IsWhole)
    (arg2 : Memref sig .tc .vmem S4000x128 .f32) (harg2 : arg2.IsWhole)
    (arg3 : Memref sig .tc .vmem S1x128 .bf16) (harg3 : arg3.IsWhole)
    (arg4 : Memref sig .tc .vmem S1x128 .f32) (harg4 : arg4.IsWhole)
    (arg5 : Memref sig .tc .vmem S128x128 .bf16) (harg5 : arg5.IsWhole)
    (arg6 : Memref sig .tc .vmem S1x128 .f32) (harg6 : arg6.IsWhole)
    (arg7 : Memref sig .tc .vmem S4000x128 .bf16) (harg7 : arg7.IsWhole)
    (x0 : Vec F S4000x1 .bf16) (x1 : Vec F S4000x128 .f32) (x2 : Vec F S1x128 .bf16) (x3 : Vec F S1x128 .f32) (x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out13_6 x0 x1 x2 x3 x4 x5)) -∗ K ⟨⟩))
      ⊢ wp frame (wpE (defs₀ (F := F)) Variants.none c none) E (cc13_kernel i arg1 harg1 arg2 harg2 arg3 harg3 arg4 harg4 arg5 harg5 arg6 harg6 arg7 harg7) K := by
  simp only [cc13_kernel_eq_skeleton]; unfold cc13_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover13_6 _)

/-! ## The pipeline's proof data -/

/-- The proof data of pipeline 13 on core `c`: the arrays as the region finds them (`V`); after the body at point
    `t` each input's buffer at its block and the output's at `out13_6` of the six input blocks; the invariant
    the scoped rest and the generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => out13_6 (iblk13 V c 0 t) (iblk13 V c 1 t) (iblk13 V c 2 t) (iblk13 V c 3 t) (iblk13 V c 4 t) (iblk13 V c 5 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = out13_6 (iblk13 V c 0 t) (iblk13 V c 1 t) (iblk13 V c 2 t) (iblk13 V c 3 t) (iblk13 V c 4 t) (iblk13 V c 5 t) := by dsimp only [dat13]

/-- Each input's current staging buffer holds its block at every point, whether or not a fetch lands there. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t))

/-- The body at any point: the inputs' memrefs hold their blocks (`before13_W`), so `sound_kernel13` applies; the
    invariant and what the core owes pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel13 c Set.univ (grid13.coords t) _ _ _ _ _ _ _ _ _ _ _ _ _ _ (iblk13 V c 0 t) (iblk13 V c 1 t) (iblk13 V c 2 t) (iblk13 V c 3 t) (iblk13 V c 4 t) (iblk13 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation13 (c : Dev nD) : BodyObligation (dat13 (F := F) V c) (defs₀ (F := F)) Variants.none () Set.univ := fun t => by
  rw [bigSep_W13, bigSep_W13]
  exact sound_body13 V c t

end Region13

end Cert.KernelIdeal.Hand
-- ==== Proof.KI.Reg14.lean ====
/-
  The edge-update region 14 at a parameter `V`, the TensorCore's buffer contents when the region is entered, for any
  float algebra `F`: each window's block at a grid point; what the body leaves in its two output buffers, as a function of
  the fourteen input blocks (the stores' payloads laid over the buffer); the body's triple; the proof data with the inputs
  kept at their blocks and the outputs at those functions; the body obligation at every grid point.

  The nine weight and bias windows have a constant block index: they are transferred at the first point only, and at every
  later point the buffer still holds the block, which is the same block.
-/
import proofs.«147763_j11003706212366_2_alg».proof.Proof.Gen.KernelIdeal.Launch
import proofs.«147763_j11003706212366_2_alg».proof.Proof.Gen.KernelIdeal.Skeleton
import proofs.«147763_j11003706212366_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region14
variable (V : (c : Dev nD) → (b : Ref sig .tc) → Buf (Elt F) ((c : Thread nD τ).loc b))

/-! ## The windows' blocks -/

/-- Window `w`'s block at point `t`, read off its array at the entry contents `V`. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current buffer holds its block at every point, transferred there or not, for any proof data whose
    array is `V`'s and whose body leaves the block in place: where no transfer happened the block index has not moved. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's current buffer holds its block at every point, transferred there or not, for any proof data whose
    array is `V`'s and whose body leaves the block in place: where no transfer happened the block index has not moved. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's current buffer holds its block at every point, transferred there or not, for any proof data whose
    array is `V`'s and whose body leaves the block in place: where no transfer happened the block index has not moved. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- Input window 3's current buffer holds its block at every point, transferred there or not, for any proof data whose
    array is `V`'s and whose body leaves the block in place: where no transfer happened the block index has not moved. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-- Input window 4's current buffer holds its block at every point, transferred there or not, for any proof data whose
    array is `V`'s and whose body leaves the block in place: where no transfer happened the block index has not moved. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-- Input window 5's current buffer holds its block at every point, transferred there or not, for any proof data whose
    array is `V`'s and whose body leaves the block in place: where no transfer happened the block index has not moved. -/
theorem before14_5_of {c : Dev nD} (dat : Dat τ (Elt F) Unit ℕ (UR sig nD τ) ℕ cfg14 c) (hA : dat.A 5 = V c (Pipeline.arrRef spec14 5))
    (hafter : ∀ t, dat.after 5 t = iblk14 V c 5 t) (t : Fin cfg14.N) (d) : dat.before 5 t d = iblk14 V c 5 t :=
  (dat.before_in_eq_fetched 5 rfl (fun _ => rfl) (fun _ _ _ => rfl) (fun t => by rw [hafter]; unfold Dat.blockOf iblk14; rw [hA]; try rfl) t d).trans
    (by unfold Dat.fetched Dat.blockOf iblk14; rw [hA]; try rfl)

/-- Input window 6's current buffer holds its block at every point, transferred there or not, for any proof data whose
    array is `V`'s and whose body leaves the block in place: where no transfer happened the block index has not moved. -/
theorem before14_6_of {c : Dev nD} (dat : Dat τ (Elt F) Unit ℕ (UR sig nD τ) ℕ cfg14 c) (hA : dat.A 6 = V c (Pipeline.arrRef spec14 6))
    (hafter : ∀ t, dat.after 6 t = iblk14 V c 6 t) (t : Fin cfg14.N) (d) : dat.before 6 t d = iblk14 V c 6 t :=
  (dat.before_in_eq_fetched 6 rfl (fun _ => rfl) (fun _ _ _ => rfl) (fun t => by rw [hafter]; unfold Dat.blockOf iblk14; rw [hA]; try rfl) t d).trans
    (by unfold Dat.fetched Dat.blockOf iblk14; rw [hA]; try rfl)

/-- Input window 7's current buffer holds its block at every point, transferred there or not, for any proof data whose
    array is `V`'s and whose body leaves the block in place: where no transfer happened the block index has not moved. -/
theorem before14_7_of {c : Dev nD} (dat : Dat τ (Elt F) Unit ℕ (UR sig nD τ) ℕ cfg14 c) (hA : dat.A 7 = V c (Pipeline.arrRef spec14 7))
    (hafter : ∀ t, dat.after 7 t = iblk14 V c 7 t) (t : Fin cfg14.N) (d) : dat.before 7 t d = iblk14 V c 7 t :=
  (dat.before_in_eq_fetched 7 rfl (fun _ => rfl) (fun _ _ _ => rfl) (fun t => by rw [hafter]; unfold Dat.blockOf iblk14; rw [hA]; try rfl) t d).trans
    (by unfold Dat.fetched Dat.blockOf iblk14; rw [hA]; try rfl)

/-- Input window 8's current buffer holds its block at every point, transferred there or not, for any proof data whose
    array is `V`'s and whose body leaves the block in place: where no transfer happened the block index has not moved. -/
theorem before14_8_of {c : Dev nD} (dat : Dat τ (Elt F) Unit ℕ (UR sig nD τ) ℕ cfg14 c) (hA : dat.A 8 = V c (Pipeline.arrRef spec14 8))
    (hafter : ∀ t, dat.after 8 t = iblk14 V c 8 t) (t : Fin cfg14.N) (d) : dat.before 8 t d = iblk14 V c 8 t :=
  (dat.before_in_eq_fetched 8 rfl (fun _ => rfl) (fun _ _ _ => rfl) (fun t => by rw [hafter]; unfold Dat.blockOf iblk14; rw [hA]; try rfl) t d).trans
    (by unfold Dat.fetched Dat.blockOf iblk14; rw [hA]; try rfl)

/-- Input window 9's current buffer holds its block at every point, transferred there or not, for any proof data whose
    array is `V`'s and whose body leaves the block in place: where no transfer happened the block index has not moved. -/
theorem before14_9_of {c : Dev nD} (dat : Dat τ (Elt F) Unit ℕ (UR sig nD τ) ℕ cfg14 c) (hA : dat.A 9 = V c (Pipeline.arrRef spec14 9))
    (hafter : ∀ t, dat.after 9 t = iblk14 V c 9 t) (t : Fin cfg14.N) (d) : dat.before 9 t d = iblk14 V c 9 t :=
  (dat.before_in_eq_fetched 9 rfl (fun _ => rfl) (fun _ _ _ => rfl) (fun t => by rw [hafter]; unfold Dat.blockOf iblk14; rw [hA]; try rfl) t d).trans
    (by unfold Dat.fetched Dat.blockOf iblk14; rw [hA]; try rfl)

/-- Input window 10's current buffer holds its block at every point, transferred there or not, for any proof data whose
    array is `V`'s and whose body leaves the block in place: where no transfer happened the block index has not moved. -/
theorem before14_10_of {c : Dev nD} (dat : Dat τ (Elt F) Unit ℕ (UR sig nD τ) ℕ cfg14 c) (hA : dat.A 10 = V c (Pipeline.arrRef spec14 10))
    (hafter : ∀ t, dat.after 10 t = iblk14 V c 10 t) (t : Fin cfg14.N) (d) : dat.before 10 t d = iblk14 V c 10 t :=
  (dat.before_in_eq_fetched 10 rfl (fun _ => rfl) (fun _ _ _ => rfl) (fun t => by rw [hafter]; unfold Dat.blockOf iblk14; rw [hA]; try rfl) t d).trans
    (by unfold Dat.fetched Dat.blockOf iblk14; rw [hA]; try rfl)

/-- Input window 11's current buffer holds its block at every point, transferred there or not, for any proof data whose
    array is `V`'s and whose body leaves the block in place: where no transfer happened the block index has not moved. -/
theorem before14_11_of {c : Dev nD} (dat : Dat τ (Elt F) Unit ℕ (UR sig nD τ) ℕ cfg14 c) (hA : dat.A 11 = V c (Pipeline.arrRef spec14 11))
    (hafter : ∀ t, dat.after 11 t = iblk14 V c 11 t) (t : Fin cfg14.N) (d) : dat.before 11 t d = iblk14 V c 11 t :=
  (dat.before_in_eq_fetched 11 rfl (fun _ => rfl) (fun _ _ _ => rfl) (fun t => by rw [hafter]; unfold Dat.blockOf iblk14; rw [hA]; try rfl) t d).trans
    (by unfold Dat.fetched Dat.blockOf iblk14; rw [hA]; try rfl)

/-- Input window 12's current buffer holds its block at every point, transferred there or not, for any proof data whose
    array is `V`'s and whose body leaves the block in place: where no transfer happened the block index has not moved. -/
theorem before14_12_of {c : Dev nD} (dat : Dat τ (Elt F) Unit ℕ (UR sig nD τ) ℕ cfg14 c) (hA : dat.A 12 = V c (Pipeline.arrRef spec14 12))
    (hafter : ∀ t, dat.after 12 t = iblk14 V c 12 t) (t : Fin cfg14.N) (d) : dat.before 12 t d = iblk14 V c 12 t :=
  (dat.before_in_eq_fetched 12 rfl (fun _ => rfl) (fun _ _ _ => rfl) (fun t => by rw [hafter]; unfold Dat.blockOf iblk14; rw [hA]; try rfl) t d).trans
    (by unfold Dat.fetched Dat.blockOf iblk14; rw [hA]; try rfl)

/-- Input window 13's current buffer holds its block at every point, transferred there or not, for any proof data whose
    array is `V`'s and whose body leaves the block in place: where no transfer happened the block index has not moved. -/
theorem before14_13_of {c : Dev nD} (dat : Dat τ (Elt F) Unit ℕ (UR sig nD τ) ℕ cfg14 c) (hA : dat.A 13 = V c (Pipeline.arrRef spec14 13))
    (hafter : ∀ t, dat.after 13 t = iblk14 V c 13 t) (t : Fin cfg14.N) (d) : dat.before 13 t d = iblk14 V c 13 t :=
  (dat.before_in_eq_fetched 13 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses: each buffer is read and written whole -/

abbrev r14_0 : Rect S2000x128 := Rect.unit (s := S2000x128) ![0, 0] S2000x128.size inb_S2000x128_S2000x128_0_0
abbrev r14_1 : Rect S128x512 := Rect.unit (s := S128x512) ![0, 0] S128x512.size inb_S128x512_S128x512_0_0
abbrev r14_2 : Rect S1x512 := Rect.unit (s := S1x512) ![0, 0] S1x512.size inb_S1x512_S1x512_0_0
abbrev r14_3 : Rect S512x512 := Rect.unit (s := S512x512) ![0, 0] S512x512.size inb_S512x512_S512x512_0_0
abbrev r14_4 : Rect S512x128 := Rect.unit (s := S512x128) ![0, 0] S512x128.size inb_S512x128_S512x128_0_0
abbrev r14_5 : Rect S1x128 := Rect.unit (s := S1x128) ![0, 0] S1x128.size inb_S1x128_S1x128_0_0

/-! ## What the body leaves in each output window's buffer -/

/-- Window 14's buffer after the body, from the input windows' blocks: its one store, of the whole buffer. -/
def out14_14 (x0 : Vec F S2000x128 .bf16) (x1 : Vec F S2000x128 .bf16) (x2 : Vec F S2000x128 .bf16) (x3 : Vec F S2000x128 .bf16) (x4 : Vec F S2000x128 .f32) (x5 : Vec F S128x512 .bf16) (x6 : Vec F S128x512 .bf16) (x7 : Vec F S128x512 .bf16) (x8 : Vec F S128x512 .bf16) (x9 : Vec F S1x512 .f32) (x10 : Vec F S512x512 .bf16) (x11 : Vec F S1x512 .f32) (x12 : Vec F S512x128 .bf16) (x13 : Vec F S1x128 .f32) : Vec F S2000x128 .f32 :=
  View.canon [⟨r14_0, k14_pay1 (k14_pay3 (View.ld x0 r14_0) (View.ld x5 r14_1) (View.ld x1 r14_0) (View.ld x6 r14_1) (View.ld x2 r14_0) (View.ld x7 r14_1) (View.ld x3 r14_0) (View.ld x8 r14_1) (View.ld x9 r14_2) (View.ld x10 r14_3)) (View.ld x11 r14_2) (View.ld x12 r14_4) (View.ld x13 r14_5)⟩]

/-- The one store covers the buffer. -/
theorem cover14_14 (p0 : Vec F S2000x128 .f32) (y : S2000x128.Idx) :
    ∃ pc ∈ ([⟨r14_0, p0⟩] : List (View.Piece (Elt F) S2000x128 .f32)), y ∈ pc.1.set :=
  View.cover_of_tiled [⟨r14_0, p0⟩] S2000x128.size (by rfl) y

/-- Window 15's buffer after the body, from the input windows' blocks: its one store, of the whole buffer. -/
def out14_15 (x0 : Vec F S2000x128 .bf16) (x1 : Vec F S2000x128 .bf16) (x2 : Vec F S2000x128 .bf16) (x3 : Vec F S2000x128 .bf16) (x4 : Vec F S2000x128 .f32) (x5 : Vec F S128x512 .bf16) (x6 : Vec F S128x512 .bf16) (x7 : Vec F S128x512 .bf16) (x8 : Vec F S128x512 .bf16) (x9 : Vec F S1x512 .f32) (x10 : Vec F S512x512 .bf16) (x11 : Vec F S1x512 .f32) (x12 : Vec F S512x128 .bf16) (x13 : Vec F S1x128 .f32) : Vec F S2000x128 .f32 :=
  View.canon [⟨r14_0, k14_pay2 (k14_pay3 (View.ld x0 r14_0) (View.ld x5 r14_1) (View.ld x1 r14_0) (View.ld x6 r14_1) (View.ld x2 r14_0) (View.ld x7 r14_1) (View.ld x3 r14_0) (View.ld x8 r14_1) (View.ld x9 r14_2) (View.ld x10 r14_3)) (View.ld x11 r14_2) (View.ld x12 r14_4) (View.ld x13 r14_5) (View.ld x4 r14_0)⟩]

/-- The one store covers the buffer. -/
theorem cover14_15 (p0 : Vec F S2000x128 .f32) (y : S2000x128.Idx) :
    ∃ pc ∈ ([⟨r14_0, p0⟩] : List (View.Piece (Elt F) S2000x128 .f32)), y ∈ pc.1.set :=
  View.cover_of_tiled [⟨r14_0, p0⟩] S2000x128.size (by rfl) y

/-! ## The body's triple -/

set_option maxHeartbeats 4000000 in
/-- The body on whole buffers, the inputs' reading `xW` and the outputs' holding anything, runs to the continuation with the
    inputs' as they were and each output's at `out14_W` of the inputs'. -/
theorem sound_kernel14 (c : Dev nD) (E : Set ℕ) (i : grid14.Coords) (arg1 : Memref sig .tc .vmem S2000x128 .bf16) (harg1 : arg1.IsWhole) (arg2 : Memref sig .tc .vmem S2000x128 .bf16) (harg2 : arg2.IsWhole) (arg3 : Memref sig .tc .vmem S2000x128 .bf16) (harg3 : arg3.IsWhole) (arg4 : Memref sig .tc .vmem S2000x128 .bf16) (harg4 : arg4.IsWhole) (arg5 : Memref sig .tc .vmem S2000x128 .f32) (harg5 : arg5.IsWhole) (arg6 : Memref sig .tc .vmem S128x512 .bf16) (harg6 : arg6.IsWhole) (arg7 : Memref sig .tc .vmem S128x512 .bf16) (harg7 : arg7.IsWhole) (arg8 : Memref sig .tc .vmem S128x512 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S512x128 .bf16) (harg13 : arg13.IsWhole) (arg14 : Memref sig .tc .vmem S1x128 .f32) (harg14 : arg14.IsWhole) (arg15 : Memref sig .tc .vmem S2000x128 .f32) (harg15 : arg15.IsWhole) (arg16 : Memref sig .tc .vmem S2000x128 .f32) (harg16 : arg16.IsWhole)
    (x0 : Vec F S2000x128 .bf16) (x1 : Vec F S2000x128 .bf16) (x2 : Vec F S2000x128 .bf16) (x3 : Vec F S2000x128 .bf16) (x4 : Vec F S2000x128 .f32) (x5 : Vec F S128x512 .bf16) (x6 : Vec F S128x512 .bf16) (x7 : Vec F S128x512 .bf16) (x8 : Vec F S128x512 .bf16) (x9 : Vec F S1x512 .f32) (x10 : Vec F S512x512 .bf16) (x11 : Vec F S1x512 .f32) (x12 : Vec F S512x128 .bf16) (x13 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out14_14 x0 x1 x2 x3 x4 x5 x6 x7 x8 x9 x10 x11 x12 x13) ∗ owns (c : Thread nD τ) arg16 fullShare (out14_15 x0 x1 x2 x3 x4 x5 x6 x7 x8 x9 x10 x11 x12 x13)) -∗ K ⟨⟩))
      ⊢ wp frame (wpE (defs₀ (F := F)) Variants.none c none) E (cc14_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc14_kernel_eq_skeleton]; unfold cc14_kernel_skel
  simp only [k14_part1_eq_skeleton]; unfold k14_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    try dsimp only
    exact View.read_writes_eq_canon _ _ _ (cover14_14 _)
  iexists _; isplitr
  swap; · iexact H15
  ipureintro
  try dsimp only
  exact View.read_writes_eq_canon _ _ _ (cover14_15 _)

/-! ## The pipeline's proof data -/

/-- The proof data of this pipeline on core `c`: the arrays at `V`; after the body at point `t` each input's buffer at its
    block and each output's at `out14_W` of the input blocks; the class's invariant (the scoped rest and the generator
    register untouched); nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => iblk14 V c 5 t
    | ⟨6, _⟩ => iblk14 V c 6 t
    | ⟨7, _⟩ => iblk14 V c 7 t
    | ⟨8, _⟩ => iblk14 V c 8 t
    | ⟨9, _⟩ => iblk14 V c 9 t
    | ⟨10, _⟩ => iblk14 V c 10 t
    | ⟨11, _⟩ => iblk14 V c 11 t
    | ⟨12, _⟩ => iblk14 V c 12 t
    | ⟨13, _⟩ => iblk14 V c 13 t
    | ⟨14, _⟩ => out14_14 (iblk14 V c 0 t) (iblk14 V c 1 t) (iblk14 V c 2 t) (iblk14 V c 3 t) (iblk14 V c 4 t) (iblk14 V c 5 t) (iblk14 V c 6 t) (iblk14 V c 7 t) (iblk14 V c 8 t) (iblk14 V c 9 t) (iblk14 V c 10 t) (iblk14 V c 11 t) (iblk14 V c 12 t) (iblk14 V c 13 t)
    | ⟨15, _⟩ => out14_15 (iblk14 V c 0 t) (iblk14 V c 1 t) (iblk14 V c 2 t) (iblk14 V c 3 t) (iblk14 V c 4 t) (iblk14 V c 5 t) (iblk14 V c 6 t) (iblk14 V c 7 t) (iblk14 V c 8 t) (iblk14 V c 9 t) (iblk14 V c 10 t) (iblk14 V c 11 t) (iblk14 V c 12 t) (iblk14 V c 13 t)
    | ⟨_ + 16, h⟩ => absurd h (Nat.not_lt.2 (Nat.le_add_left _ _))
  Φ _ := Pipeline.ΦA spec14 c
  q _ := fullShare
  owed _ := 0

/-- The proof data's arrays are the entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = iblk14 V c 5 t := by dsimp only [dat14]
theorem after14_6 (c : Dev nD) (t : Fin cfg14.N) : (dat14 V c).after 6 t = iblk14 V c 6 t := by dsimp only [dat14]
theorem after14_7 (c : Dev nD) (t : Fin cfg14.N) : (dat14 V c).after 7 t = iblk14 V c 7 t := by dsimp only [dat14]
theorem after14_8 (c : Dev nD) (t : Fin cfg14.N) : (dat14 V c).after 8 t = iblk14 V c 8 t := by dsimp only [dat14]
theorem after14_9 (c : Dev nD) (t : Fin cfg14.N) : (dat14 V c).after 9 t = iblk14 V c 9 t := by dsimp only [dat14]
theorem after14_10 (c : Dev nD) (t : Fin cfg14.N) : (dat14 V c).after 10 t = iblk14 V c 10 t := by dsimp only [dat14]
theorem after14_11 (c : Dev nD) (t : Fin cfg14.N) : (dat14 V c).after 11 t = iblk14 V c 11 t := by dsimp only [dat14]
theorem after14_12 (c : Dev nD) (t : Fin cfg14.N) : (dat14 V c).after 12 t = iblk14 V c 12 t := by dsimp only [dat14]
theorem after14_13 (c : Dev nD) (t : Fin cfg14.N) : (dat14 V c).after 13 t = iblk14 V c 13 t := by dsimp only [dat14]
theorem after14_14 (c : Dev nD) (t : Fin cfg14.N) : (dat14 V c).after 14 t = out14_14 (iblk14 V c 0 t) (iblk14 V c 1 t) (iblk14 V c 2 t) (iblk14 V c 3 t) (iblk14 V c 4 t) (iblk14 V c 5 t) (iblk14 V c 6 t) (iblk14 V c 7 t) (iblk14 V c 8 t) (iblk14 V c 9 t) (iblk14 V c 10 t) (iblk14 V c 11 t) (iblk14 V c 12 t) (iblk14 V c 13 t) := by dsimp only [dat14]
theorem after14_15 (c : Dev nD) (t : Fin cfg14.N) : (dat14 V c).after 15 t = out14_15 (iblk14 V c 0 t) (iblk14 V c 1 t) (iblk14 V c 2 t) (iblk14 V c 3 t) (iblk14 V c 4 t) (iblk14 V c 5 t) (iblk14 V c 6 t) (iblk14 V c 7 t) (iblk14 V c 8 t) (iblk14 V c 9 t) (iblk14 V c 10 t) (iblk14 V c 11 t) (iblk14 V c 12 t) (iblk14 V c 13 t) := by dsimp only [dat14]

/-- Each input's current buffer holds its block at every point. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d
theorem before14_5 (c : Dev nD) (t : Fin cfg14.N) (d) : (dat14 V c).before 5 t d = iblk14 V c 5 t :=
  before14_5_of V (dat14 V c) (A_eq14 V c 5) (after14_5 V c) t d
theorem before14_6 (c : Dev nD) (t : Fin cfg14.N) (d) : (dat14 V c).before 6 t d = iblk14 V c 6 t :=
  before14_6_of V (dat14 V c) (A_eq14 V c 6) (after14_6 V c) t d
theorem before14_7 (c : Dev nD) (t : Fin cfg14.N) (d) : (dat14 V c).before 7 t d = iblk14 V c 7 t :=
  before14_7_of V (dat14 V c) (A_eq14 V c 7) (after14_7 V c) t d
theorem before14_8 (c : Dev nD) (t : Fin cfg14.N) (d) : (dat14 V c).before 8 t d = iblk14 V c 8 t :=
  before14_8_of V (dat14 V c) (A_eq14 V c 8) (after14_8 V c) t d
theorem before14_9 (c : Dev nD) (t : Fin cfg14.N) (d) : (dat14 V c).before 9 t d = iblk14 V c 9 t :=
  before14_9_of V (dat14 V c) (A_eq14 V c 9) (after14_9 V c) t d
theorem before14_10 (c : Dev nD) (t : Fin cfg14.N) (d) : (dat14 V c).before 10 t d = iblk14 V c 10 t :=
  before14_10_of V (dat14 V c) (A_eq14 V c 10) (after14_10 V c) t d
theorem before14_11 (c : Dev nD) (t : Fin cfg14.N) (d) : (dat14 V c).before 11 t d = iblk14 V c 11 t :=
  before14_11_of V (dat14 V c) (A_eq14 V c 11) (after14_11 V c) t d
theorem before14_12 (c : Dev nD) (t : Fin cfg14.N) (d) : (dat14 V c).before 12 t d = iblk14 V c 12 t :=
  before14_12_of V (dat14 V c) (A_eq14 V c 12) (after14_12 V c) t d
theorem before14_13 (c : Dev nD) (t : Fin cfg14.N) (d) : (dat14 V c).before 13 t d = iblk14 V c 13 t :=
  before14_13_of V (dat14 V c) (A_eq14 V c 13) (after14_13 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d))
    ∗ (∃ d, owns (c : Thread nD τ) (st14_7 t) fullShare ((dat14 V c).before 7 t d))
    ∗ (∃ d, owns (c : Thread nD τ) (st14_8 t) fullShare ((dat14 V c).before 8 t d))
    ∗ (∃ d, owns (c : Thread nD τ) (st14_9 t) fullShare ((dat14 V c).before 9 t d))
    ∗ (∃ d, owns (c : Thread nD τ) (st14_10 t) fullShare ((dat14 V c).before 10 t d))
    ∗ (∃ d, owns (c : Thread nD τ) (st14_11 t) fullShare ((dat14 V c).before 11 t d))
    ∗ (∃ d, owns (c : Thread nD τ) (st14_12 t) fullShare ((dat14 V c).before 12 t d))
    ∗ (∃ d, owns (c : Thread nD τ) (st14_13 t) fullShare ((dat14 V c).before 13 t d))
    ∗ (∃ d, owns (c : Thread nD τ) (st14_14 t) fullShare ((dat14 V c).before 14 t d))
    ∗ (∃ d, owns (c : Thread nD τ) (st14_15 t) fullShare ((dat14 V c).before 15 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t)
    ∗ owns (c : Thread nD τ) (st14_7 t) fullShare ((dat14 V c).after 7 t)
    ∗ owns (c : Thread nD τ) (st14_8 t) fullShare ((dat14 V c).after 8 t)
    ∗ owns (c : Thread nD τ) (st14_9 t) fullShare ((dat14 V c).after 9 t)
    ∗ owns (c : Thread nD τ) (st14_10 t) fullShare ((dat14 V c).after 10 t)
    ∗ owns (c : Thread nD τ) (st14_11 t) fullShare ((dat14 V c).after 11 t)
    ∗ owns (c : Thread nD τ) (st14_12 t) fullShare ((dat14 V c).after 12 t)
    ∗ owns (c : Thread nD τ) (st14_13 t) fullShare ((dat14 V c).after 13 t)
    ∗ owns (c : Thread nD τ) (st14_14 t) fullShare ((dat14 V c).after 14 t)
    ∗ owns (c : Thread nD τ) (st14_15 t) fullShare ((dat14 V c).after 15 t))

set_option maxHeartbeats 1000000 in
/-- The body at any point: the inputs' buffers hold their blocks, so the body's triple applies; the invariant and what the
    core owes pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4, before14_5, before14_6, before14_7, before14_8, before14_9, before14_10, before14_11, before14_12, before14_13]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6, after14_7, after14_8, after14_9, after14_10, after14_11, after14_12, after14_13, after14_14, after14_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel14 c Set.univ (grid14.coords t) _ _ _ _ _ _ _ _ _ _ _ _ _ _ _ _ _ _ _ _ _ _ _ _ _ _ _ _ _ _ _ _ (iblk14 V c 0 t) (iblk14 V c 1 t) (iblk14 V c 2 t) (iblk14 V c 3 t) (iblk14 V c 4 t) (iblk14 V c 5 t) (iblk14 V c 6 t) (iblk14 V c 7 t) (iblk14 V c 8 t) (iblk14 V c 9 t) (iblk14 V c 10 t) (iblk14 V c 11 t) (iblk14 V c 12 t) (iblk14 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body obligation, at every point. -/
theorem body_obligation14 (c : Dev nD) : BodyObligation (dat14 (F := F) V c) (defs₀ (F := F)) Variants.none () Set.univ := fun t => by
  rw [bigSep_W14, bigSep_W14]
  exact sound_body14 V c t

end Region14

end Cert.KernelIdeal.Hand
-- ==== Proof.KI.Reg15.lean ====
/- The frame half of region 15: a three-layer perceptron on one block of rows, each layer a product with a
   weight matrix into a zero accumulator, a bias row added to every row, and the positive part. Seven input
   windows (the rows, then weight and bias of each layer) and one output window holding the rows of the result. -/
import proofs.«147763_j11003706212366_2_alg».proof.Proof.Gen.KernelIdeal.Launch
import proofs.«147763_j11003706212366_2_alg».proof.Proof.Gen.KernelIdeal.Skeleton
import proofs.«147763_j11003706212366_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array at the contents `V`. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0 holds its block at every point, fetched there or not: where it is not fetched its block
    index has not moved. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
/-- Input window 1 holds its block at every point, fetched there or not: where it is not fetched its block
    index has not moved. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
/-- Input window 2 holds its block at every point, fetched there or not: where it is not fetched its block
    index has not moved. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)
/-- Input window 3 holds its block at every point, fetched there or not: where it is not fetched its block
    index has not moved. -/
theorem before15_3_of {c : Dev nD} (dat : Dat τ (Elt F) Unit ℕ (UR sig nD τ) ℕ cfg15 c) (hA : dat.A 3 = V c (Pipeline.arrRef spec15 3))
    (hafter : ∀ t, dat.after 3 t = iblk15 V c 3 t) (t : Fin cfg15.N) (d) : dat.before 3 t d = iblk15 V c 3 t :=
  (dat.before_in_eq_fetched 3 rfl (fun _ => rfl) (fun _ _ _ => rfl) (fun t => by rw [hafter]; unfold Dat.blockOf iblk15; rw [hA]; try rfl) t d).trans
    (by unfold Dat.fetched Dat.blockOf iblk15; rw [hA]; try rfl)
/-- Input window 4 holds its block at every point, fetched there or not: where it is not fetched its block
    index has not moved. -/
theorem before15_4_of {c : Dev nD} (dat : Dat τ (Elt F) Unit ℕ (UR sig nD τ) ℕ cfg15 c) (hA : dat.A 4 = V c (Pipeline.arrRef spec15 4))
    (hafter : ∀ t, dat.after 4 t = iblk15 V c 4 t) (t : Fin cfg15.N) (d) : dat.before 4 t d = iblk15 V c 4 t :=
  (dat.before_in_eq_fetched 4 rfl (fun _ => rfl) (fun _ _ _ => rfl) (fun t => by rw [hafter]; unfold Dat.blockOf iblk15; rw [hA]; try rfl) t d).trans
    (by unfold Dat.fetched Dat.blockOf iblk15; rw [hA]; try rfl)
/-- Input window 5 holds its block at every point, fetched there or not: where it is not fetched its block
    index has not moved. -/
theorem before15_5_of {c : Dev nD} (dat : Dat τ (Elt F) Unit ℕ (UR sig nD τ) ℕ cfg15 c) (hA : dat.A 5 = V c (Pipeline.arrRef spec15 5))
    (hafter : ∀ t, dat.after 5 t = iblk15 V c 5 t) (t : Fin cfg15.N) (d) : dat.before 5 t d = iblk15 V c 5 t :=
  (dat.before_in_eq_fetched 5 rfl (fun _ => rfl) (fun _ _ _ => rfl) (fun t => by rw [hafter]; unfold Dat.blockOf iblk15; rw [hA]; try rfl) t d).trans
    (by unfold Dat.fetched Dat.blockOf iblk15; rw [hA]; try rfl)
/-- Input window 6 holds its block at every point, fetched there or not: where it is not fetched its block
    index has not moved. -/
theorem before15_6_of {c : Dev nD} (dat : Dat τ (Elt F) Unit ℕ (UR sig nD τ) ℕ cfg15 c) (hA : dat.A 6 = V c (Pipeline.arrRef spec15 6))
    (hafter : ∀ t, dat.after 6 t = iblk15 V c 6 t) (t : Fin cfg15.N) (d) : dat.before 6 t d = iblk15 V c 6 t :=
  (dat.before_in_eq_fetched 6 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses: each buffer is read and written whole -/

abbrev r15_0 : Rect S1000x512 := Rect.unit (s := S1000x512) ![0, 0] S1000x512.size inb_S1000x512_S1000x512_0_0
abbrev r15_1 : Rect S512x512 := Rect.unit (s := S512x512) ![0, 0] S512x512.size inb_S512x512_S512x512_0_0
abbrev r15_2 : Rect S1x512 := Rect.unit (s := S1x512) ![0, 0] S1x512.size inb_S1x512_S1x512_0_0
abbrev r15_3 : Rect S512x128 := Rect.unit (s := S512x128) ![0, 0] S512x128.size inb_S512x128_S512x128_0_0
abbrev r15_4 : Rect S1x128 := Rect.unit (s := S1x128) ![0, 0] S1x128.size inb_S1x128_S1x128_0_0
abbrev r15_5 : Rect S1000x128 := Rect.unit (s := S1000x128) ![0, 0] S1000x128.size inb_S1000x128_S1000x128_0_0

/-! ## What the body leaves in the output window's buffer -/

/-- The output buffer after the body, from the input blocks: its one store, of the third layer's positive part. -/
def out15_7 (x0 : Vec F S1000x512 .bf16) (x1 : Vec F S512x512 .bf16) (x2 : Vec F S1x512 .f32) (x3 : Vec F S512x512 .bf16) (x4 : Vec F S1x512 .f32) (x5 : Vec F S512x128 .bf16) (x6 : Vec F S1x128 .f32) : Vec F S1000x128 .f32 :=
  View.canon [⟨r15_5, k15_pay1 (View.ld x0 r15_0) (View.ld x1 r15_1) (View.ld x2 r15_2) (View.ld x3 r15_1) (View.ld x4 r15_2) (View.ld x5 r15_3) (View.ld x6 r15_4)⟩]

/-- The one store is of the whole buffer. -/
theorem cover15_7 (p0 : Vec F S1000x128 .f32) (y : S1000x128.Idx) :
    ∃ pc ∈ ([⟨r15_5, p0⟩] : List (View.Piece (Elt F) S1000x128 .f32)), y ∈ pc.1.set :=
  View.cover_of_tiled [⟨r15_5, p0⟩] S1000x128.size (by rfl) y

/-! ## The body's triple -/

set_option maxHeartbeats 1000000 in
/-- The body on whole staging buffers, the inputs' at contents `x0 … x6` and the output's at anything, returns the
    inputs' as they were and the output's at `out15_7` of them. -/
theorem sound_kernel15 (c : Dev nD) (E : Set ℕ) (i : grid15.Coords) (arg1 : Memref sig .tc .vmem S1000x512 .bf16) (harg1 : arg1.IsWhole) (arg2 : Memref sig .tc .vmem S512x512 .bf16) (harg2 : arg2.IsWhole) (arg3 : Memref sig .tc .vmem S1x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S1000x128 .f32) (harg8 : arg8.IsWhole)
    (x0 : Vec F S1000x512 .bf16) (x1 : Vec F S512x512 .bf16) (x2 : Vec F S1x512 .f32) (x3 : Vec F S512x512 .bf16) (x4 : Vec F S1x512 .f32) (x5 : Vec F S512x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out15_7 x0 x1 x2 x3 x4 x5 x6)) -∗ K ⟨⟩))
      ⊢ wp frame (wpE (defs₀ (F := F)) Variants.none c none) E (cc15_kernel i arg1 harg1 arg2 harg2 arg3 harg3 arg4 harg4 arg5 harg5 arg6 harg6 arg7 harg7 arg8 harg8) K := by
  simp only [cc15_kernel_eq_skeleton]; unfold cc15_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover15_7 _)

/-! ## The pipeline's proof data -/

/-- The proof data of pipeline 15 on core `c`: the arrays at `V`; after the body at point `t` each input's buffer at
    its block and the output's at `out15_7` of the input blocks; the invariant the scoped rest and the generator
    register, untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => iblk15 V c 4 t
    | ⟨5, _⟩ => iblk15 V c 5 t
    | ⟨6, _⟩ => iblk15 V c 6 t
    | ⟨7, _⟩ => out15_7 (iblk15 V c 0 t) (iblk15 V c 1 t) (iblk15 V c 2 t) (iblk15 V c 3 t) (iblk15 V c 4 t) (iblk15 V c 5 t) (iblk15 V c 6 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) : (dat15 V c).after 4 t = iblk15 V c 4 t := by dsimp only [dat15]
theorem after15_5 (c : Dev nD) (t : Fin cfg15.N) : (dat15 V c).after 5 t = iblk15 V c 5 t := by dsimp only [dat15]
theorem after15_6 (c : Dev nD) (t : Fin cfg15.N) : (dat15 V c).after 6 t = iblk15 V c 6 t := by dsimp only [dat15]
theorem after15_7 (c : Dev nD) (t : Fin cfg15.N) : (dat15 V c).after 7 t = out15_7 (iblk15 V c 0 t) (iblk15 V c 1 t) (iblk15 V c 2 t) (iblk15 V c 3 t) (iblk15 V c 4 t) (iblk15 V c 5 t) (iblk15 V c 6 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d
theorem before15_3 (c : Dev nD) (t : Fin cfg15.N) (d) : (dat15 V c).before 3 t d = iblk15 V c 3 t :=
  before15_3_of V (dat15 V c) (A_eq15 V c 3) (after15_3 V c) t d
theorem before15_4 (c : Dev nD) (t : Fin cfg15.N) (d) : (dat15 V c).before 4 t d = iblk15 V c 4 t :=
  before15_4_of V (dat15 V c) (A_eq15 V c 4) (after15_4 V c) t d
theorem before15_5 (c : Dev nD) (t : Fin cfg15.N) (d) : (dat15 V c).before 5 t d = iblk15 V c 5 t :=
  before15_5_of V (dat15 V c) (A_eq15 V c 5) (after15_5 V c) t d
theorem before15_6 (c : Dev nD) (t : Fin cfg15.N) (d) : (dat15 V c).before 6 t d = iblk15 V c 6 t :=
  before15_6_of V (dat15 V c) (A_eq15 V c 6) (after15_6 V c) t d

/-! ## The body obligation, at a generic point -/

/-- What the body is called with at point `t`, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d))
    ∗ (∃ d, owns (c : Thread nD τ) (st15_5 t) fullShare ((dat15 V c).before 5 t d))
    ∗ (∃ d, owns (c : Thread nD τ) (st15_6 t) fullShare ((dat15 V c).before 6 t d))
    ∗ (∃ d, owns (c : Thread nD τ) (st15_7 t) fullShare ((dat15 V c).before 7 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t)
    ∗ owns (c : Thread nD τ) (st15_5 t) fullShare ((dat15 V c).after 5 t)
    ∗ owns (c : Thread nD τ) (st15_6 t) fullShare ((dat15 V c).after 6 t)
    ∗ owns (c : Thread nD τ) (st15_7 t) fullShare ((dat15 V c).after 7 t))

/-- The body at any point: the inputs' buffers hold their blocks, so `sound_kernel15` applies; the invariant and
    what the core owes pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2, before15_3, before15_4, before15_5, before15_6]
  rw [show (dat15 V c).Φ t.succ = (dat15 V c).Φ t.castSucc from rfl,
    show (dat15 V c).owesAt () t.succ = (dat15 V c).owesAt () t.castSucc from rfl,
    after15_0, after15_1, after15_2, after15_3, after15_4, after15_5, after15_6, after15_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel15 c Set.univ (grid15.coords t) _ _ _ _ _ _ _ _ _ _ _ _ _ _ _ _ (iblk15 V c 0 t) (iblk15 V c 1 t) (iblk15 V c 2 t) (iblk15 V c 3 t) (iblk15 V c 4 t) (iblk15 V c 5 t) (iblk15 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation15 (c : Dev nD) : BodyObligation (dat15 (F := F) V c) (defs₀ (F := F)) Variants.none () Set.univ := fun t => by
  rw [bigSep_W15, bigSep_W15]
  exact sound_body15 V c t

end

end Cert.KernelIdeal.Hand

end
-- ==== Proof.KI.Reg16.lean ====
/- Region 16 of @main, the decoder  out = (relu(xs·W1 + b1)·W2 + b2) + lp  on blocks of 1000 rows, at ANY contents `V` of the
   TensorCore's buffers when the region is entered and any float carrier `F`.

   Window `w`'s block at point `t` is read off `V` (`iblk16`). The body loads its six input blocks whole, forms one
   payload from them and stores it over the whole output block; so after the body every input buffer still holds its
   block and the output buffer holds that payload of the six blocks (`out16_6`). An input buffer holds its block at
   EVERY point, fetched there or not: the two weight matrices and the two bias rows are fetched at point 0 only, and
   their block index never moves afterwards. With these the proof data `dat16` meet the pipeline's body obligation
   at every point (`body_obligation16`). -/
import proofs.«147763_j11003706212366_2_alg».proof.Proof.Gen.KernelIdeal.Launch
import proofs.«147763_j11003706212366_2_alg».proof.Proof.Gen.KernelIdeal.Skeleton
import proofs.«147763_j11003706212366_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle 1000 long recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region16
-- the TensorCore's buffer contents when the region is entered
variable (V : (c : Dev nD) → (b : Ref sig .tc) → Buf (Elt F) ((c : Thread nD τ).loc b))

/-! ## The windows' blocks -/

/-- Window `w`'s block at point `t`: the part of its array, as `V` holds it, that the transfer at `t` moves. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0 (the node states' block): its current staging buffer holds its block at every point, fetched there or not, for
    any proof data whose array is `V`'s (`hA`) and whose body leaves the block in place (`hafter`). Where the point
    does not fetch, the block index is the previous point's, and so is the block; the window is uncut and never idle. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
/-- Input window 1 (the positions' block): its current staging buffer holds its block at every point, fetched there or not, for
    any proof data whose array is `V`'s (`hA`) and whose body leaves the block in place (`hafter`). Where the point
    does not fetch, the block index is the previous point's, and so is the block; the window is uncut and never idle. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
/-- Input window 2 (the first layer's weights): its current staging buffer holds its block at every point, fetched there or not, for
    any proof data whose array is `V`'s (`hA`) and whose body leaves the block in place (`hafter`). Where the point
    does not fetch, the block index is the previous point's, and so is the block; the window is uncut and never idle. -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)
/-- Input window 3 (the first layer's bias row): its current staging buffer holds its block at every point, fetched there or not, for
    any proof data whose array is `V`'s (`hA`) and whose body leaves the block in place (`hafter`). Where the point
    does not fetch, the block index is the previous point's, and so is the block; the window is uncut and never idle. -/
theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)
/-- Input window 4 (the second layer's weights): its current staging buffer holds its block at every point, fetched there or not, for
    any proof data whose array is `V`'s (`hA`) and whose body leaves the block in place (`hafter`). Where the point
    does not fetch, the block index is the previous point's, and so is the block; the window is uncut and never idle. -/
theorem before16_4_of {c : Dev nD} (dat : Dat τ (Elt F) Unit ℕ (UR sig nD τ) ℕ cfg16 c) (hA : dat.A 4 = V c (Pipeline.arrRef spec16 4))
    (hafter : ∀ t, dat.after 4 t = iblk16 V c 4 t) (t : Fin cfg16.N) (d) : dat.before 4 t d = iblk16 V c 4 t :=
  (dat.before_in_eq_fetched 4 rfl (fun _ => rfl) (fun _ _ _ => rfl) (fun t => by rw [hafter]; unfold Dat.blockOf iblk16; rw [hA]; try rfl) t d).trans
    (by unfold Dat.fetched Dat.blockOf iblk16; rw [hA]; try rfl)
/-- Input window 5 (the second layer's bias row): its current staging buffer holds its block at every point, fetched there or not, for
    any proof data whose array is `V`'s (`hA`) and whose body leaves the block in place (`hafter`). Where the point
    does not fetch, the block index is the previous point's, and so is the block; the window is uncut and never idle. -/
theorem before16_5_of {c : Dev nD} (dat : Dat τ (Elt F) Unit ℕ (UR sig nD τ) ℕ cfg16 c) (hA : dat.A 5 = V c (Pipeline.arrRef spec16 5))
    (hafter : ∀ t, dat.after 5 t = iblk16 V c 5 t) (t : Fin cfg16.N) (d) : dat.before 5 t d = iblk16 V c 5 t :=
  (dat.before_in_eq_fetched 5 rfl (fun _ => rfl) (fun _ _ _ => rfl) (fun t => by rw [hafter]; unfold Dat.blockOf iblk16; rw [hA]; try rfl) t d).trans
    (by unfold Dat.fetched Dat.blockOf iblk16; rw [hA]; try rfl)

/-! ## The body's accesses: each buffer is read, and the output written, whole -/

abbrev r16_0 : Rect S1000x128 := Rect.unit (s := S1000x128) ![0, 0] S1000x128.size inb_S1000x128_S1000x128_0_0
abbrev r16_1 : Rect S128x128 := Rect.unit (s := S128x128) ![0, 0] S128x128.size inb_S128x128_S128x128_0_0
abbrev r16_2 : Rect S1x128 := Rect.unit (s := S1x128) ![0, 0] S1x128.size inb_S1x128_S1x128_0_0
abbrev r16_3 : Rect S128x3 := Rect.unit (s := S128x3) ![0, 0] S128x3.size inb_S128x3_S128x3_0_0
abbrev r16_4 : Rect S1x3 := Rect.unit (s := S1x3) ![0, 0] S1x3.size inb_S1x3_S1x3_0_0
abbrev r16_5 : Rect S1000x3 := Rect.unit (s := S1000x3) ![0, 0] S1000x3.size inb_S1000x3_S1000x3_0_0

/-! ## What the body leaves in the output window's buffer -/

/-- Window 6's staging buffer after the body, from the six input blocks: its one store, of the payload of the blocks
    as loaded. -/
def out16_6 (x0 : Vec F S1000x128 .bf16) (x1 : Vec F S1000x3 .f32) (x2 : Vec F S128x128 .bf16) (x3 : Vec F S1x128 .f32) (x4 : Vec F S128x3 .bf16) (x5 : Vec F S1x3 .f32) : Vec F S1000x3 .f32 :=
  View.canon [⟨r16_5, k16_pay1 (View.ld x0 r16_0) (View.ld x2 r16_1) (View.ld x3 r16_2) (View.ld x4 r16_3) (View.ld x5 r16_4) (View.ld x1 r16_5)⟩]

/-- The one store is of the whole block, so it covers it. -/
theorem cover16_6 (p0 : Vec F S1000x3 .f32) (y : S1000x3.Idx) :
    ∃ pc ∈ ([⟨r16_5, p0⟩] : List (View.Piece (Elt F) S1000x3 .f32)), y ∈ pc.1.set :=
  View.cover_of_tiled [⟨r16_5, p0⟩] S1000x3.size (by rfl) y

/-! ## The body's triple -/

set_option maxHeartbeats 1000000 in
/-- The body on whole staging memrefs, the inputs' at contents `x0 … x5` and the output's at anything, runs to the
    continuation with the inputs' as they were and the output's at `out16_6` of the inputs'. -/
theorem sound_kernel16 (c : Dev nD) (E : Set ℕ) (i : grid16.Coords)
    (arg1 : Memref sig .tc .vmem S1000x128 .bf16) (harg1 : arg1.IsWhole)
    (arg2 : Memref sig .tc .vmem S1000x3 .f32) (harg2 : arg2.IsWhole)
    (arg3 : Memref sig .tc .vmem S128x128 .bf16) (harg3 : arg3.IsWhole)
    (arg4 : Memref sig .tc .vmem S1x128 .f32) (harg4 : arg4.IsWhole)
    (arg5 : Memref sig .tc .vmem S128x3 .bf16) (harg5 : arg5.IsWhole)
    (arg6 : Memref sig .tc .vmem S1x3 .f32) (harg6 : arg6.IsWhole)
    (arg7 : Memref sig .tc .vmem S1000x3 .f32) (harg7 : arg7.IsWhole)
    (x0 : Vec F S1000x128 .bf16) (x1 : Vec F S1000x3 .f32) (x2 : Vec F S128x128 .bf16) (x3 : Vec F S1x128 .f32) (x4 : Vec F S128x3 .bf16) (x5 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out16_6 x0 x1 x2 x3 x4 x5)) -∗ K ⟨⟩))
      ⊢ wp frame (wpE (defs₀ (F := F)) Variants.none c none) E (cc16_kernel i arg1 harg1 arg2 harg2 arg3 harg3 arg4 harg4 arg5 harg5 arg6 harg6 arg7 harg7) K := by
  simp only [cc16_kernel_eq_skeleton]; unfold cc16_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover16_6 _)

/-! ## The pipeline's proof data -/

/-- The proof data of the region's pipeline on core `c`: the arrays as `V` holds them; after the body at point `t`
    each input's buffer at its block and the output's at `out16_6` of the six blocks; the invariant that the scoped
    rest and the generator register are untouched; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => iblk16 V c 5 t
    | ⟨6, _⟩ => out16_6 (iblk16 V c 0 t) (iblk16 V c 1 t) (iblk16 V c 2 t) (iblk16 V c 3 t) (iblk16 V c 4 t) (iblk16 V c 5 t)
  Φ _ := Pipeline.ΦA spec16 c
  q _ := fullShare
  owed _ := 0

/-- The proof data's arrays are `V`'s. -/
theorem A_eq16 (c : Dev nD) (w : Fin cfg16.W) : (dat16 V c).A w = V c (Pipeline.arrRef spec16 w) := by
  dsimp only [dat16]

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) : (dat16 V c).after 5 t = iblk16 V c 5 t := by dsimp only [dat16]
theorem after16_6 (c : Dev nD) (t : Fin cfg16.N) : (dat16 V c).after 6 t = out16_6 (iblk16 V c 0 t) (iblk16 V c 1 t) (iblk16 V c 2 t) (iblk16 V c 3 t) (iblk16 V c 4 t) (iblk16 V c 5 t) := by dsimp only [dat16]

/-- Each input's current staging buffer holds its block at every point. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d
theorem before16_5 (c : Dev nD) (t : Fin cfg16.N) (d) : (dat16 V c).before 5 t d = iblk16 V c 5 t :=
  before16_5_of V (dat16 V c) (A_eq16 V c 5) (after16_5 V c) t d

/-! ## The body obligation, at a generic point -/

/-- What the body is called with at point `t`, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d))
    ∗ (∃ d, owns (c : Thread nD τ) (st16_6 t) fullShare ((dat16 V c).before 6 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t)
    ∗ owns (c : Thread nD τ) (st16_6 t) fullShare ((dat16 V c).after 6 t))

/-- The body at any point: the inputs' memrefs hold their blocks, so the body's triple applies; the invariant and the
    core's debts pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4, before16_5]
  rw [show (dat16 V c).Φ t.succ = (dat16 V c).Φ t.castSucc from rfl,
    show (dat16 V c).owesAt () t.succ = (dat16 V c).owesAt () t.castSucc from rfl,
    after16_0, after16_1, after16_2, after16_3, after16_4, after16_5, after16_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel16 c Set.univ (grid16.coords t) _ _ _ _ _ _ _ _ _ _ _ _ _ _ (iblk16 V c 0 t) (iblk16 V c 1 t) (iblk16 V c 2 t) (iblk16 V c 3 t) (iblk16 V c 4 t) (iblk16 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation16 (c : Dev nD) : BodyObligation (dat16 (F := F) V c) (defs₀ (F := F)) Variants.none () Set.univ := fun t => by
  rw [bigSep_W16, bigSep_W16]
  exact sound_body16 V c t

end Region16

end Cert.KernelIdeal.Hand

end
-- ==== Proof.KI.Regs.lean ====
/- The kernel's run, assembled: what every buffer of a core holds between two items of @main (the launch contents,
   each host stretch's operations applied in order, each region's output arrays at what its write-backs leave and
   every other buffer untouched by it), the seventeen regions as segments between those contents, and the run itself:
   every weakly fair execution of @main terminates, faults nowhere, and ends with every unscoped buffer at the last
   of these contents. -/
import proofs.«147763_j11003706212366_2_alg».proof.Proof.KI.RunCond
import proofs.«147763_j11003706212366_2_alg».proof.Proof.KI.Reg0
import proofs.«147763_j11003706212366_2_alg».proof.Proof.KI.Reg1
import proofs.«147763_j11003706212366_2_alg».proof.Proof.KI.Reg2
import proofs.«147763_j11003706212366_2_alg».proof.Proof.KI.Reg3
import proofs.«147763_j11003706212366_2_alg».proof.Proof.KI.Reg4
import proofs.«147763_j11003706212366_2_alg».proof.Proof.KI.Reg5
import proofs.«147763_j11003706212366_2_alg».proof.Proof.KI.Reg6
import proofs.«147763_j11003706212366_2_alg».proof.Proof.KI.Reg7
import proofs.«147763_j11003706212366_2_alg».proof.Proof.KI.Reg8
import proofs.«147763_j11003706212366_2_alg».proof.Proof.KI.Reg9
import proofs.«147763_j11003706212366_2_alg».proof.Proof.KI.Reg10
import proofs.«147763_j11003706212366_2_alg».proof.Proof.KI.Reg11
import proofs.«147763_j11003706212366_2_alg».proof.Proof.KI.Reg12
import proofs.«147763_j11003706212366_2_alg».proof.Proof.KI.Reg13
import proofs.«147763_j11003706212366_2_alg».proof.Proof.KI.Reg14
import proofs.«147763_j11003706212366_2_alg».proof.Proof.KI.Reg15
import proofs.«147763_j11003706212366_2_alg».proof.Proof.KI.Reg16
import Idealize.ShloMosaic.Lib.Pipeline.FrameBody
import Idealize.ShloMosaic.Lib.Pipeline.RegionsLoop
import Idealize.ShloMosaic.Lib.Pipeline.FrameSuffix
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- Core `c`'s buffers at launch. -/
def U0 (c : Dev nD) : Valuation τ sig (Elt F) := fun b => m (c, b)
/-- The same read at the TensorCore's references. -/
abbrev T0 : (c : Dev nD) → (b : Ref sig .tc) → Buf (Elt F) ((c : Thread nD τ).loc b) := fun c b => U0 m c b
/-- After the host stretch `hostOps0`. -/
def U1 (c : Dev nD) : Valuation τ sig (Elt F) := StableHlo.after hostOps0 (U0 m c)
abbrev T1 : (c : Dev nD) → (b : Ref sig .tc) → Buf (Elt F) ((c : Thread nD τ).loc b) := fun c b => U1 m c b
/-- After region 0: its output array at what the write-backs leave, every other buffer as the region found it. -/
def U2 (c : Dev nD) : Valuation τ sig (Elt F) := Function.update (U1 m c) main_v15 ((dat0 (T1 m) c).arrAt 6 cfg0.N)
abbrev T2 : (c : Dev nD) → (b : Ref sig .tc) → Buf (Elt F) ((c : Thread nD τ).loc b) := fun c b => U2 m c b
/-- After the host stretch `hostOps1`. -/
def U3 (c : Dev nD) : Valuation τ sig (Elt F) := StableHlo.after hostOps1 (U2 m c)
abbrev T3 : (c : Dev nD) → (b : Ref sig .tc) → Buf (Elt F) ((c : Thread nD τ).loc b) := fun c b => U3 m c b
/-- After the host stretch `hostOps1_1`. -/
def U4 (c : Dev nD) : Valuation τ sig (Elt F) := StableHlo.after hostOps1_1 (U3 m c)
abbrev T4 : (c : Dev nD) → (b : Ref sig .tc) → Buf (Elt F) ((c : Thread nD τ).loc b) := fun c b => U4 m c b
/-- After the host stretch `hostOps1_2`. -/
def U5 (c : Dev nD) : Valuation τ sig (Elt F) := StableHlo.after hostOps1_2 (U4 m c)
abbrev T5 : (c : Dev nD) → (b : Ref sig .tc) → Buf (Elt F) ((c : Thread nD τ).loc b) := fun c b => U5 m c b
/-- After region 1: its output array at what the write-backs leave, every other buffer as the region found it. -/
def U6 (c : Dev nD) : Valuation τ sig (Elt F) := Function.update (U5 m c) main_v37 ((dat1 (T5 m) c).arrAt 6 cfg1.N)
abbrev T6 : (c : Dev nD) → (b : Ref sig .tc) → Buf (Elt F) ((c : Thread nD τ).loc b) := fun c b => U6 m c b
/-- After the host stretch `hostOps2`. -/
def U7 (c : Dev nD) : Valuation τ sig (Elt F) := StableHlo.after hostOps2 (U6 m c)
abbrev T7 : (c : Dev nD) → (b : Ref sig .tc) → Buf (Elt F) ((c : Thread nD τ).loc b) := fun c b => U7 m c b
/-- After region 2: its output arrays at what the write-backs leave, every other buffer as the region found it. -/
def U8 (c : Dev nD) : Valuation τ sig (Elt F) := Function.update (Function.update (U7 m c) main_v86_0 ((dat2 (T7 m) c).arrAt 14 cfg2.N)) main_v86_1 ((dat2 (T7 m) c).arrAt 15 cfg2.N)
abbrev T8 : (c : Dev nD) → (b : Ref sig .tc) → Buf (Elt F) ((c : Thread nD τ).loc b) := fun c b => U8 m c b
/-- After the host stretch `hostOps3`. -/
def U9 (c : Dev nD) : Valuation τ sig (Elt F) := StableHlo.after hostOps3 (U8 m c)
abbrev T9 : (c : Dev nD) → (b : Ref sig .tc) → Buf (Elt F) ((c : Thread nD τ).loc b) := fun c b => U9 m c b
/-- After region 3: its output array at what the write-backs leave, every other buffer as the region found it. -/
def U10 (c : Dev nD) : Valuation τ sig (Elt F) := Function.update (U9 m c) main_v120 ((dat3 (T9 m) c).arrAt 7 cfg3.N)
abbrev T10 : (c : Dev nD) → (b : Ref sig .tc) → Buf (Elt F) ((c : Thread nD τ).loc b) := fun c b => U10 m c b
/-- After the host stretch `hostOps4`. -/
def U11 (c : Dev nD) : Valuation τ sig (Elt F) := StableHlo.after hostOps4 (U10 m c)
abbrev T11 : (c : Dev nD) → (b : Ref sig .tc) → Buf (Elt F) ((c : Thread nD τ).loc b) := fun c b => U11 m c b
/-- After region 4: its output array at what the write-backs leave, every other buffer as the region found it. -/
def U12 (c : Dev nD) : Valuation τ sig (Elt F) := Function.update (U11 m c) main_v147 ((dat4 (T11 m) c).arrAt 7 cfg4.N)
abbrev T12 : (c : Dev nD) → (b : Ref sig .tc) → Buf (Elt F) ((c : Thread nD τ).loc b) := fun c b => U12 m c b
/-- After the host stretch `hostOps5`. -/
def U13 (c : Dev nD) : Valuation τ sig (Elt F) := StableHlo.after hostOps5 (U12 m c)
abbrev T13 : (c : Dev nD) → (b : Ref sig .tc) → Buf (Elt F) ((c : Thread nD τ).loc b) := fun c b => U13 m c b
/-- After region 5: its output array at what the write-backs leave, every other buffer as the region found it. -/
def U14 (c : Dev nD) : Valuation τ sig (Elt F) := Function.update (U13 m c) main_v155 ((dat5 (T13 m) c).arrAt 6 cfg5.N)
abbrev T14 : (c : Dev nD) → (b : Ref sig .tc) → Buf (Elt F) ((c : Thread nD τ).loc b) := fun c b => U14 m c b
/-- After the host stretch `hostOps6`. -/
def U15 (c : Dev nD) : Valuation τ sig (Elt F) := StableHlo.after hostOps6 (U14 m c)
abbrev T15 : (c : Dev nD) → (b : Ref sig .tc) → Buf (Elt F) ((c : Thread nD τ).loc b) := fun c b => U15 m c b
/-- After region 6: its output array at what the write-backs leave, every other buffer as the region found it. -/
def U16 (c : Dev nD) : Valuation τ sig (Elt F) := Function.update (U15 m c) main_v174 ((dat6 (T15 m) c).arrAt 6 cfg6.N)
abbrev T16 : (c : Dev nD) → (b : Ref sig .tc) → Buf (Elt F) ((c : Thread nD τ).loc b) := fun c b => U16 m c b
/-- After the host stretch `hostOps7`. -/
def U17 (c : Dev nD) : Valuation τ sig (Elt F) := StableHlo.after hostOps7 (U16 m c)
abbrev T17 : (c : Dev nD) → (b : Ref sig .tc) → Buf (Elt F) ((c : Thread nD τ).loc b) := fun c b => U17 m c b
/-- After the host stretch `hostOps7_1`. -/
def U18 (c : Dev nD) : Valuation τ sig (Elt F) := StableHlo.after hostOps7_1 (U17 m c)
abbrev T18 : (c : Dev nD) → (b : Ref sig .tc) → Buf (Elt F) ((c : Thread nD τ).loc b) := fun c b => U18 m c b
/-- After the host stretch `hostOps7_2`. -/
def U19 (c : Dev nD) : Valuation τ sig (Elt F) := StableHlo.after hostOps7_2 (U18 m c)
abbrev T19 : (c : Dev nD) → (b : Ref sig .tc) → Buf (Elt F) ((c : Thread nD τ).loc b) := fun c b => U19 m c b
/-- After region 7: its output array at what the write-backs leave, every other buffer as the region found it. -/
def U20 (c : Dev nD) : Valuation τ sig (Elt F) := Function.update (U19 m c) main_v196 ((dat7 (T19 m) c).arrAt 6 cfg7.N)
abbrev T20 : (c : Dev nD) → (b : Ref sig .tc) → Buf (Elt F) ((c : Thread nD τ).loc b) := fun c b => U20 m c b
/-- After the host stretch `hostOps8`. -/
def U21 (c : Dev nD) : Valuation τ sig (Elt F) := StableHlo.after hostOps8 (U20 m c)
abbrev T21 : (c : Dev nD) → (b : Ref sig .tc) → Buf (Elt F) ((c : Thread nD τ).loc b) := fun c b => U21 m c b
/-- After region 8: its output arrays at what the write-backs leave, every other buffer as the region found it. -/
def U22 (c : Dev nD) : Valuation τ sig (Elt F) := Function.update (Function.update (U21 m c) main_v245_0 ((dat8 (T21 m) c).arrAt 14 cfg8.N)) main_v245_1 ((dat8 (T21 m) c).arrAt 15 cfg8.N)
abbrev T22 : (c : Dev nD) → (b : Ref sig .tc) → Buf (Elt F) ((c : Thread nD τ).loc b) := fun c b => U22 m c b
/-- After the host stretch `hostOps9`. -/
def U23 (c : Dev nD) : Valuation τ sig (Elt F) := StableHlo.after hostOps9 (U22 m c)
abbrev T23 : (c : Dev nD) → (b : Ref sig .tc) → Buf (Elt F) ((c : Thread nD τ).loc b) := fun c b => U23 m c b
/-- After region 9: its output array at what the write-backs leave, every other buffer as the region found it. -/
def U24 (c : Dev nD) : Valuation τ sig (Elt F) := Function.update (U23 m c) main_v279 ((dat9 (T23 m) c).arrAt 7 cfg9.N)
abbrev T24 : (c : Dev nD) → (b : Ref sig .tc) → Buf (Elt F) ((c : Thread nD τ).loc b) := fun c b => U24 m c b
/-- After the host stretch `hostOps10`. -/
def U25 (c : Dev nD) : Valuation τ sig (Elt F) := StableHlo.after hostOps10 (U24 m c)
abbrev T25 : (c : Dev nD) → (b : Ref sig .tc) → Buf (Elt F) ((c : Thread nD τ).loc b) := fun c b => U25 m c b
/-- After region 10: its output array at what the write-backs leave, every other buffer as the region found it. -/
def U26 (c : Dev nD) : Valuation τ sig (Elt F) := Function.update (U25 m c) main_v306 ((dat10 (T25 m) c).arrAt 7 cfg10.N)
abbrev T26 : (c : Dev nD) → (b : Ref sig .tc) → Buf (Elt F) ((c : Thread nD τ).loc b) := fun c b => U26 m c b
/-- After the host stretch `hostOps11`. -/
def U27 (c : Dev nD) : Valuation τ sig (Elt F) := StableHlo.after hostOps11 (U26 m c)
abbrev T27 : (c : Dev nD) → (b : Ref sig .tc) → Buf (Elt F) ((c : Thread nD τ).loc b) := fun c b => U27 m c b
/-- After region 11: its output array at what the write-backs leave, every other buffer as the region found it. -/
def U28 (c : Dev nD) : Valuation τ sig (Elt F) := Function.update (U27 m c) main_v314 ((dat11 (T27 m) c).arrAt 6 cfg11.N)
abbrev T28 : (c : Dev nD) → (b : Ref sig .tc) → Buf (Elt F) ((c : Thread nD τ).loc b) := fun c b => U28 m c b
/-- After the host stretch `hostOps12`. -/
def U29 (c : Dev nD) : Valuation τ sig (Elt F) := StableHlo.after hostOps12 (U28 m c)
abbrev T29 : (c : Dev nD) → (b : Ref sig .tc) → Buf (Elt F) ((c : Thread nD τ).loc b) := fun c b => U29 m c b
/-- After region 12: its output array at what the write-backs leave, every other buffer as the region found it. -/
def U30 (c : Dev nD) : Valuation τ sig (Elt F) := Function.update (U29 m c) main_v333 ((dat12 (T29 m) c).arrAt 6 cfg12.N)
abbrev T30 : (c : Dev nD) → (b : Ref sig .tc) → Buf (Elt F) ((c : Thread nD τ).loc b) := fun c b => U30 m c b
/-- After the host stretch `hostOps13`. -/
def U31 (c : Dev nD) : Valuation τ sig (Elt F) := StableHlo.after hostOps13 (U30 m c)
abbrev T31 : (c : Dev nD) → (b : Ref sig .tc) → Buf (Elt F) ((c : Thread nD τ).loc b) := fun c b => U31 m c b
/-- After the host stretch `hostOps13_1`. -/
def U32 (c : Dev nD) : Valuation τ sig (Elt F) := StableHlo.after hostOps13_1 (U31 m c)
abbrev T32 : (c : Dev nD) → (b : Ref sig .tc) → Buf (Elt F) ((c : Thread nD τ).loc b) := fun c b => U32 m c b
/-- After the host stretch `hostOps13_2`. -/
def U33 (c : Dev nD) : Valuation τ sig (Elt F) := StableHlo.after hostOps13_2 (U32 m c)
abbrev T33 : (c : Dev nD) → (b : Ref sig .tc) → Buf (Elt F) ((c : Thread nD τ).loc b) := fun c b => U33 m c b
/-- After region 13: its output array at what the write-backs leave, every other buffer as the region found it. -/
def U34 (c : Dev nD) : Valuation τ sig (Elt F) := Function.update (U33 m c) main_v355 ((dat13 (T33 m) c).arrAt 6 cfg13.N)
abbrev T34 : (c : Dev nD) → (b : Ref sig .tc) → Buf (Elt F) ((c : Thread nD τ).loc b) := fun c b => U34 m c b
/-- After the host stretch `hostOps14`. -/
def U35 (c : Dev nD) : Valuation τ sig (Elt F) := StableHlo.after hostOps14 (U34 m c)
abbrev T35 : (c : Dev nD) → (b : Ref sig .tc) → Buf (Elt F) ((c : Thread nD τ).loc b) := fun c b => U35 m c b
/-- After region 14: its output arrays at what the write-backs leave, every other buffer as the region found it. -/
def U36 (c : Dev nD) : Valuation τ sig (Elt F) := Function.update (Function.update (U35 m c) main_v404_0 ((dat14 (T35 m) c).arrAt 14 cfg14.N)) main_v404_1 ((dat14 (T35 m) c).arrAt 15 cfg14.N)
abbrev T36 : (c : Dev nD) → (b : Ref sig .tc) → Buf (Elt F) ((c : Thread nD τ).loc b) := fun c b => U36 m c b
/-- After the host stretch `hostOps15`. -/
def U37 (c : Dev nD) : Valuation τ sig (Elt F) := StableHlo.after hostOps15 (U36 m c)
abbrev T37 : (c : Dev nD) → (b : Ref sig .tc) → Buf (Elt F) ((c : Thread nD τ).loc b) := fun c b => U37 m c b
/-- After region 15: its output array at what the write-backs leave, every other buffer as the region found it. -/
def U38 (c : Dev nD) : Valuation τ sig (Elt F) := Function.update (U37 m c) main_v438 ((dat15 (T37 m) c).arrAt 7 cfg15.N)
abbrev T38 : (c : Dev nD) → (b : Ref sig .tc) → Buf (Elt F) ((c : Thread nD τ).loc b) := fun c b => U38 m c b
/-- After the host stretch `hostOps16`. -/
def U39 (c : Dev nD) : Valuation τ sig (Elt F) := StableHlo.after hostOps16 (U38 m c)
abbrev T39 : (c : Dev nD) → (b : Ref sig .tc) → Buf (Elt F) ((c : Thread nD τ).loc b) := fun c b => U39 m c b
/-- After region 16: its output array at what the write-backs leave, every other buffer as the region found it. -/
def U40 (c : Dev nD) : Valuation τ sig (Elt F) := Function.update (U39 m c) main_v446 ((dat16 (T39 m) c).arrAt 6 cfg16.N)
abbrev T40 : (c : Dev nD) → (b : Ref sig .tc) → Buf (Elt F) ((c : Thread nD τ).loc b) := fun c b => U40 m c b
/-- After the host stretch `hostOps17`. -/
def U41 (c : Dev nD) : Valuation τ sig (Elt F) := StableHlo.after hostOps17 (U40 m c)
abbrev T41 : (c : Dev nD) → (b : Ref sig .tc) → Buf (Elt F) ((c : Thread nD τ).loc b) := fun c b => U41 m c b

/-- What the regions leave, as the conditional run asks for it: after item J−1 the contents of that moment. -/
def outs : Outs (F := F) := fun J r c => match J with
  | 2 => U2 m c r
  | 6 => U6 m c r
  | 8 => U8 m c r
  | 10 => U10 m c r
  | 12 => U12 m c r
  | 14 => U14 m c r
  | 16 => U16 m c r
  | 20 => U20 m c r
  | 22 => U22 m c r
  | 24 => U24 m c r
  | 26 => U26 m c r
  | 28 => U28 m c r
  | 30 => U30 m c r
  | 34 => U34 m c r
  | 36 => U36 m c r
  | 38 => U38 m c r
  | 40 => U40 m c r
  | _ => U0 m c r

/-! ## The conditional run's valuations are these contents -/

theorem V0_eq (c : Dev nD) : V0 m c = U0 m c := rfl
theorem V1_eq (c : Dev nD) : V1 m c = U1 m c := by
  show StableHlo.after hostOps0 (V0 m c) = StableHlo.after hostOps0 (U0 m c)
  rw [V0_eq]
theorem V2_eq (c : Dev nD) : V2 m (outs m) c = U2 m c := by
  show Function.update (V1 m c) main_v15 (U2 m c main_v15) = U2 m c
  rw [V1_eq]; unfold U2; rw [Function.update_self]
theorem V3_eq (c : Dev nD) : V3 m (outs m) c = U3 m c := by
  show StableHlo.after hostOps1 (V2 m (outs m) c) = StableHlo.after hostOps1 (U2 m c)
  rw [V2_eq]
theorem V4_eq (c : Dev nD) : V4 m (outs m) c = U4 m c := by
  show StableHlo.after hostOps1_1 (V3 m (outs m) c) = StableHlo.after hostOps1_1 (U3 m c)
  rw [V3_eq]
theorem V5_eq (c : Dev nD) : V5 m (outs m) c = U5 m c := by
  show StableHlo.after hostOps1_2 (V4 m (outs m) c) = StableHlo.after hostOps1_2 (U4 m c)
  rw [V4_eq]
theorem V6_eq (c : Dev nD) : V6 m (outs m) c = U6 m c := by
  show Function.update (V5 m (outs m) c) main_v37 (U6 m c main_v37) = U6 m c
  rw [V5_eq]; unfold U6; rw [Function.update_self]
theorem V7_eq (c : Dev nD) : V7 m (outs m) c = U7 m c := by
  show StableHlo.after hostOps2 (V6 m (outs m) c) = StableHlo.after hostOps2 (U6 m c)
  rw [V6_eq]
theorem V8_eq (c : Dev nD) : V8 m (outs m) c = U8 m c := by
  show Function.update (Function.update (V7 m (outs m) c) main_v86_0 (U8 m c main_v86_0)) main_v86_1 (U8 m c main_v86_1) = U8 m c
  rw [V7_eq]; unfold U8
  rw [Function.update_self, Function.update_of_ne (StableHlo.devRef_ne_of_ne (by decide : (main_v86_0 : Ref sig .tc) ≠ main_v86_1)), Function.update_self]
theorem V9_eq (c : Dev nD) : V9 m (outs m) c = U9 m c := by
  show StableHlo.after hostOps3 (V8 m (outs m) c) = StableHlo.after hostOps3 (U8 m c)
  rw [V8_eq]
theorem V10_eq (c : Dev nD) : V10 m (outs m) c = U10 m c := by
  show Function.update (V9 m (outs m) c) main_v120 (U10 m c main_v120) = U10 m c
  rw [V9_eq]; unfold U10; rw [Function.update_self]
theorem V11_eq (c : Dev nD) : V11 m (outs m) c = U11 m c := by
  show StableHlo.after hostOps4 (V10 m (outs m) c) = StableHlo.after hostOps4 (U10 m c)
  rw [V10_eq]
theorem V12_eq (c : Dev nD) : V12 m (outs m) c = U12 m c := by
  show Function.update (V11 m (outs m) c) main_v147 (U12 m c main_v147) = U12 m c
  rw [V11_eq]; unfold U12; rw [Function.update_self]
theorem V13_eq (c : Dev nD) : V13 m (outs m) c = U13 m c := by
  show StableHlo.after hostOps5 (V12 m (outs m) c) = StableHlo.after hostOps5 (U12 m c)
  rw [V12_eq]
theorem V14_eq (c : Dev nD) : V14 m (outs m) c = U14 m c := by
  show Function.update (V13 m (outs m) c) main_v155 (U14 m c main_v155) = U14 m c
  rw [V13_eq]; unfold U14; rw [Function.update_self]
theorem V15_eq (c : Dev nD) : V15 m (outs m) c = U15 m c := by
  show StableHlo.after hostOps6 (V14 m (outs m) c) = StableHlo.after hostOps6 (U14 m c)
  rw [V14_eq]
theorem V16_eq (c : Dev nD) : V16 m (outs m) c = U16 m c := by
  show Function.update (V15 m (outs m) c) main_v174 (U16 m c main_v174) = U16 m c
  rw [V15_eq]; unfold U16; rw [Function.update_self]
theorem V17_eq (c : Dev nD) : V17 m (outs m) c = U17 m c := by
  show StableHlo.after hostOps7 (V16 m (outs m) c) = StableHlo.after hostOps7 (U16 m c)
  rw [V16_eq]
theorem V18_eq (c : Dev nD) : V18 m (outs m) c = U18 m c := by
  show StableHlo.after hostOps7_1 (V17 m (outs m) c) = StableHlo.after hostOps7_1 (U17 m c)
  rw [V17_eq]
theorem V19_eq (c : Dev nD) : V19 m (outs m) c = U19 m c := by
  show StableHlo.after hostOps7_2 (V18 m (outs m) c) = StableHlo.after hostOps7_2 (U18 m c)
  rw [V18_eq]
theorem V20_eq (c : Dev nD) : V20 m (outs m) c = U20 m c := by
  show Function.update (V19 m (outs m) c) main_v196 (U20 m c main_v196) = U20 m c
  rw [V19_eq]; unfold U20; rw [Function.update_self]
theorem V21_eq (c : Dev nD) : V21 m (outs m) c = U21 m c := by
  show StableHlo.after hostOps8 (V20 m (outs m) c) = StableHlo.after hostOps8 (U20 m c)
  rw [V20_eq]
theorem V22_eq (c : Dev nD) : V22 m (outs m) c = U22 m c := by
  show Function.update (Function.update (V21 m (outs m) c) main_v245_0 (U22 m c main_v245_0)) main_v245_1 (U22 m c main_v245_1) = U22 m c
  rw [V21_eq]; unfold U22
  rw [Function.update_self, Function.update_of_ne (StableHlo.devRef_ne_of_ne (by decide : (main_v245_0 : Ref sig .tc) ≠ main_v245_1)), Function.update_self]
theorem V23_eq (c : Dev nD) : V23 m (outs m) c = U23 m c := by
  show StableHlo.after hostOps9 (V22 m (outs m) c) = StableHlo.after hostOps9 (U22 m c)
  rw [V22_eq]
theorem V24_eq (c : Dev nD) : V24 m (outs m) c = U24 m c := by
  show Function.update (V23 m (outs m) c) main_v279 (U24 m c main_v279) = U24 m c
  rw [V23_eq]; unfold U24; rw [Function.update_self]
theorem V25_eq (c : Dev nD) : V25 m (outs m) c = U25 m c := by
  show StableHlo.after hostOps10 (V24 m (outs m) c) = StableHlo.after hostOps10 (U24 m c)
  rw [V24_eq]
theorem V26_eq (c : Dev nD) : V26 m (outs m) c = U26 m c := by
  show Function.update (V25 m (outs m) c) main_v306 (U26 m c main_v306) = U26 m c
  rw [V25_eq]; unfold U26; rw [Function.update_self]
theorem V27_eq (c : Dev nD) : V27 m (outs m) c = U27 m c := by
  show StableHlo.after hostOps11 (V26 m (outs m) c) = StableHlo.after hostOps11 (U26 m c)
  rw [V26_eq]
theorem V28_eq (c : Dev nD) : V28 m (outs m) c = U28 m c := by
  show Function.update (V27 m (outs m) c) main_v314 (U28 m c main_v314) = U28 m c
  rw [V27_eq]; unfold U28; rw [Function.update_self]
theorem V29_eq (c : Dev nD) : V29 m (outs m) c = U29 m c := by
  show StableHlo.after hostOps12 (V28 m (outs m) c) = StableHlo.after hostOps12 (U28 m c)
  rw [V28_eq]
theorem V30_eq (c : Dev nD) : V30 m (outs m) c = U30 m c := by
  show Function.update (V29 m (outs m) c) main_v333 (U30 m c main_v333) = U30 m c
  rw [V29_eq]; unfold U30; rw [Function.update_self]
theorem V31_eq (c : Dev nD) : V31 m (outs m) c = U31 m c := by
  show StableHlo.after hostOps13 (V30 m (outs m) c) = StableHlo.after hostOps13 (U30 m c)
  rw [V30_eq]
theorem V32_eq (c : Dev nD) : V32 m (outs m) c = U32 m c := by
  show StableHlo.after hostOps13_1 (V31 m (outs m) c) = StableHlo.after hostOps13_1 (U31 m c)
  rw [V31_eq]
theorem V33_eq (c : Dev nD) : V33 m (outs m) c = U33 m c := by
  show StableHlo.after hostOps13_2 (V32 m (outs m) c) = StableHlo.after hostOps13_2 (U32 m c)
  rw [V32_eq]
theorem V34_eq (c : Dev nD) : V34 m (outs m) c = U34 m c := by
  show Function.update (V33 m (outs m) c) main_v355 (U34 m c main_v355) = U34 m c
  rw [V33_eq]; unfold U34; rw [Function.update_self]
theorem V35_eq (c : Dev nD) : V35 m (outs m) c = U35 m c := by
  show StableHlo.after hostOps14 (V34 m (outs m) c) = StableHlo.after hostOps14 (U34 m c)
  rw [V34_eq]
theorem V36_eq (c : Dev nD) : V36 m (outs m) c = U36 m c := by
  show Function.update (Function.update (V35 m (outs m) c) main_v404_0 (U36 m c main_v404_0)) main_v404_1 (U36 m c main_v404_1) = U36 m c
  rw [V35_eq]; unfold U36
  rw [Function.update_self, Function.update_of_ne (StableHlo.devRef_ne_of_ne (by decide : (main_v404_0 : Ref sig .tc) ≠ main_v404_1)), Function.update_self]
theorem V37_eq (c : Dev nD) : V37 m (outs m) c = U37 m c := by
  show StableHlo.after hostOps15 (V36 m (outs m) c) = StableHlo.after hostOps15 (U36 m c)
  rw [V36_eq]
theorem V38_eq (c : Dev nD) : V38 m (outs m) c = U38 m c := by
  show Function.update (V37 m (outs m) c) main_v438 (U38 m c main_v438) = U38 m c
  rw [V37_eq]; unfold U38; rw [Function.update_self]
theorem V39_eq (c : Dev nD) : V39 m (outs m) c = U39 m c := by
  show StableHlo.after hostOps16 (V38 m (outs m) c) = StableHlo.after hostOps16 (U38 m c)
  rw [V38_eq]
theorem V40_eq (c : Dev nD) : V40 m (outs m) c = U40 m c := by
  show Function.update (V39 m (outs m) c) main_v446 (U40 m c main_v446) = U40 m c
  rw [V39_eq]; unfold U40; rw [Function.update_self]
theorem V41_eq (c : Dev nD) : V41 m (outs m) c = U41 m c := by
  show StableHlo.after hostOps17 (V40 m (outs m) c) = StableHlo.after hostOps17 (U40 m c)
  rw [V40_eq]

/-! ## What a region leaves: its arrays at the exit contents, every other buffer as entered -/

theorem in_notOut0 : ∀ w : Fin 7, w ≠ 6 → (cfg0.win w).isOut = false := by decide
theorem in_ne0 : ∀ w : Fin 7, w ≠ 6 → Pipeline.arrRef spec0 w ≠ main_v15 := by decide
theorem out_mem0 : (main_v15 : Ref sig .tc) ∈ Finset.univ.image (Pipeline.arrRef spec0) := by decide
theorem hF0 (c : Dev nD) (w : Fin cfg0.W) : (dat0 (T1 m) c).arrAt w cfg0.N = T2 m c (Pipeline.arrRef spec0 w) := by
  by_cases hw : w = 6
  · subst hw
    show _ = Function.update (U1 m c) main_v15 _ main_v15
    rw [Function.update_self]
  · have hne := in_ne0 w hw
    show _ = Function.update (U1 m c) main_v15 _ (Pipeline.arrRef spec0 w)
    rw [Function.update_of_ne (StableHlo.devRef_ne_of_ne hne)]
    exact ((dat0 (T1 m) c).arrAt_in w (in_notOut0 w hw) _).trans (A_eq0 (T1 m) c w)
theorem hrest0 (c : Dev nD) : ∀ b, b ∉ Finset.univ.image (Pipeline.arrRef spec0) → T2 m c b = T1 m c b := fun b hb => by
  have hne : b ≠ main_v15 := fun e => hb (e ▸ out_mem0)
  show Function.update (U1 m c) main_v15 _ b = U1 m c b
  rw [Function.update_of_ne (StableHlo.devRef_ne_of_ne hne)]
theorem in_notOut1 : ∀ w : Fin 7, w ≠ 6 → (cfg1.win w).isOut = false := by decide
theorem in_ne1 : ∀ w : Fin 7, w ≠ 6 → Pipeline.arrRef spec1 w ≠ main_v37 := by decide
theorem out_mem1 : (main_v37 : Ref sig .tc) ∈ Finset.univ.image (Pipeline.arrRef spec1) := by decide
theorem hF1 (c : Dev nD) (w : Fin cfg1.W) : (dat1 (T5 m) c).arrAt w cfg1.N = T6 m c (Pipeline.arrRef spec1 w) := by
  by_cases hw : w = 6
  · subst hw
    show _ = Function.update (U5 m c) main_v37 _ main_v37
    rw [Function.update_self]
  · have hne := in_ne1 w hw
    show _ = Function.update (U5 m c) main_v37 _ (Pipeline.arrRef spec1 w)
    rw [Function.update_of_ne (StableHlo.devRef_ne_of_ne hne)]
    exact ((dat1 (T5 m) c).arrAt_in w (in_notOut1 w hw) _).trans (A_eq1 (T5 m) c w)
theorem hrest1 (c : Dev nD) : ∀ b, b ∉ Finset.univ.image (Pipeline.arrRef spec1) → T6 m c b = T5 m c b := fun b hb => by
  have hne : b ≠ main_v37 := fun e => hb (e ▸ out_mem1)
  show Function.update (U5 m c) main_v37 _ b = U5 m c b
  rw [Function.update_of_ne (StableHlo.devRef_ne_of_ne hne)]
theorem in_notOut2 : ∀ w : Fin 16, w ≠ 14 → w ≠ 15 → (cfg2.win w).isOut = false := by decide
theorem in_ne2 : ∀ w : Fin 16, w ≠ 14 → w ≠ 15 → Pipeline.arrRef spec2 w ≠ main_v86_0 ∧ Pipeline.arrRef spec2 w ≠ main_v86_1 := by decide
theorem out_mem2 : (main_v86_0 : Ref sig .tc) ∈ Finset.univ.image (Pipeline.arrRef spec2) ∧ (main_v86_1 : Ref sig .tc) ∈ Finset.univ.image (Pipeline.arrRef spec2) := by decide
theorem hF2 (c : Dev nD) (w : Fin cfg2.W) : (dat2 (T7 m) c).arrAt w cfg2.N = T8 m c (Pipeline.arrRef spec2 w) := by
  by_cases hw0 : w = 14
  · subst hw0
    show _ = Function.update (Function.update (U7 m c) main_v86_0 _) main_v86_1 _ main_v86_0
    rw [Function.update_of_ne (StableHlo.devRef_ne_of_ne (by decide : (main_v86_0 : Ref sig .tc) ≠ main_v86_1)), Function.update_self]
  by_cases hw1 : w = 15
  · subst hw1
    show _ = Function.update (Function.update (U7 m c) main_v86_0 _) main_v86_1 _ main_v86_1
    rw [Function.update_self]
  · have hne := in_ne2 w hw0 hw1
    show _ = Function.update (Function.update (U7 m c) main_v86_0 _) main_v86_1 _ (Pipeline.arrRef spec2 w)
    rw [Function.update_of_ne (StableHlo.devRef_ne_of_ne hne.2), Function.update_of_ne (StableHlo.devRef_ne_of_ne hne.1)]
    exact ((dat2 (T7 m) c).arrAt_in w (in_notOut2 w hw0 hw1) _).trans (A_eq2 (T7 m) c w)
theorem hrest2 (c : Dev nD) : ∀ b, b ∉ Finset.univ.image (Pipeline.arrRef spec2) → T8 m c b = T7 m c b := fun b hb => by
  have hne0 : b ≠ main_v86_0 := fun e => hb (e ▸ out_mem2.1)
  have hne1 : b ≠ main_v86_1 := fun e => hb (e ▸ out_mem2.2)
  show Function.update (Function.update (U7 m c) main_v86_0 _) main_v86_1 _ b = U7 m c b
  rw [Function.update_of_ne (StableHlo.devRef_ne_of_ne hne1), Function.update_of_ne (StableHlo.devRef_ne_of_ne hne0)]
theorem in_notOut3 : ∀ w : Fin 8, w ≠ 7 → (cfg3.win w).isOut = false := by decide
theorem in_ne3 : ∀ w : Fin 8, w ≠ 7 → Pipeline.arrRef spec3 w ≠ main_v120 := by decide
theorem out_mem3 : (main_v120 : Ref sig .tc) ∈ Finset.univ.image (Pipeline.arrRef spec3) := by decide
theorem hF3 (c : Dev nD) (w : Fin cfg3.W) : (dat3 (T9 m) c).arrAt w cfg3.N = T10 m c (Pipeline.arrRef spec3 w) := by
  by_cases hw : w = 7
  · subst hw
    show _ = Function.update (U9 m c) main_v120 _ main_v120
    rw [Function.update_self]
  · have hne := in_ne3 w hw
    show _ = Function.update (U9 m c) main_v120 _ (Pipeline.arrRef spec3 w)
    rw [Function.update_of_ne (StableHlo.devRef_ne_of_ne hne)]
    exact ((dat3 (T9 m) c).arrAt_in w (in_notOut3 w hw) _).trans (A_eq3 (T9 m) c w)
theorem hrest3 (c : Dev nD) : ∀ b, b ∉ Finset.univ.image (Pipeline.arrRef spec3) → T10 m c b = T9 m c b := fun b hb => by
  have hne : b ≠ main_v120 := fun e => hb (e ▸ out_mem3)
  show Function.update (U9 m c) main_v120 _ b = U9 m c b
  rw [Function.update_of_ne (StableHlo.devRef_ne_of_ne hne)]
theorem in_notOut4 : ∀ w : Fin 8, w ≠ 7 → (cfg4.win w).isOut = false := by decide
theorem in_ne4 : ∀ w : Fin 8, w ≠ 7 → Pipeline.arrRef spec4 w ≠ main_v147 := by decide
theorem out_mem4 : (main_v147 : Ref sig .tc) ∈ Finset.univ.image (Pipeline.arrRef spec4) := by decide
theorem hF4 (c : Dev nD) (w : Fin cfg4.W) : (dat4 (T11 m) c).arrAt w cfg4.N = T12 m c (Pipeline.arrRef spec4 w) := by
  by_cases hw : w = 7
  · subst hw
    show _ = Function.update (U11 m c) main_v147 _ main_v147
    rw [Function.update_self]
  · have hne := in_ne4 w hw
    show _ = Function.update (U11 m c) main_v147 _ (Pipeline.arrRef spec4 w)
    rw [Function.update_of_ne (StableHlo.devRef_ne_of_ne hne)]
    exact ((dat4 (T11 m) c).arrAt_in w (in_notOut4 w hw) _).trans (A_eq4 (T11 m) c w)
theorem hrest4 (c : Dev nD) : ∀ b, b ∉ Finset.univ.image (Pipeline.arrRef spec4) → T12 m c b = T11 m c b := fun b hb => by
  have hne : b ≠ main_v147 := fun e => hb (e ▸ out_mem4)
  show Function.update (U11 m c) main_v147 _ b = U11 m c b
  rw [Function.update_of_ne (StableHlo.devRef_ne_of_ne hne)]
theorem in_notOut5 : ∀ w : Fin 7, w ≠ 6 → (cfg5.win w).isOut = false := by decide
theorem in_ne5 : ∀ w : Fin 7, w ≠ 6 → Pipeline.arrRef spec5 w ≠ main_v155 := by decide
theorem out_mem5 : (main_v155 : Ref sig .tc) ∈ Finset.univ.image (Pipeline.arrRef spec5) := by decide
theorem hF5 (c : Dev nD) (w : Fin cfg5.W) : (dat5 (T13 m) c).arrAt w cfg5.N = T14 m c (Pipeline.arrRef spec5 w) := by
  by_cases hw : w = 6
  · subst hw
    show _ = Function.update (U13 m c) main_v155 _ main_v155
    rw [Function.update_self]
  · have hne := in_ne5 w hw
    show _ = Function.update (U13 m c) main_v155 _ (Pipeline.arrRef spec5 w)
    rw [Function.update_of_ne (StableHlo.devRef_ne_of_ne hne)]
    exact ((dat5 (T13 m) c).arrAt_in w (in_notOut5 w hw) _).trans (A_eq5 (T13 m) c w)
theorem hrest5 (c : Dev nD) : ∀ b, b ∉ Finset.univ.image (Pipeline.arrRef spec5) → T14 m c b = T13 m c b := fun b hb => by
  have hne : b ≠ main_v155 := fun e => hb (e ▸ out_mem5)
  show Function.update (U13 m c) main_v155 _ b = U13 m c b
  rw [Function.update_of_ne (StableHlo.devRef_ne_of_ne hne)]
theorem in_notOut6 : ∀ w : Fin 7, w ≠ 6 → (cfg6.win w).isOut = false := by decide
theorem in_ne6 : ∀ w : Fin 7, w ≠ 6 → Pipeline.arrRef spec6 w ≠ main_v174 := by decide
theorem out_mem6 : (main_v174 : Ref sig .tc) ∈ Finset.univ.image (Pipeline.arrRef spec6) := by decide
theorem hF6 (c : Dev nD) (w : Fin cfg6.W) : (dat6 (T15 m) c).arrAt w cfg6.N = T16 m c (Pipeline.arrRef spec6 w) := by
  by_cases hw : w = 6
  · subst hw
    show _ = Function.update (U15 m c) main_v174 _ main_v174
    rw [Function.update_self]
  · have hne := in_ne6 w hw
    show _ = Function.update (U15 m c) main_v174 _ (Pipeline.arrRef spec6 w)
    rw [Function.update_of_ne (StableHlo.devRef_ne_of_ne hne)]
    exact ((dat6 (T15 m) c).arrAt_in w (in_notOut6 w hw) _).trans (A_eq6 (T15 m) c w)
theorem hrest6 (c : Dev nD) : ∀ b, b ∉ Finset.univ.image (Pipeline.arrRef spec6) → T16 m c b = T15 m c b := fun b hb => by
  have hne : b ≠ main_v174 := fun e => hb (e ▸ out_mem6)
  show Function.update (U15 m c) main_v174 _ b = U15 m c b
  rw [Function.update_of_ne (StableHlo.devRef_ne_of_ne hne)]
theorem in_notOut7 : ∀ w : Fin 7, w ≠ 6 → (cfg7.win w).isOut = false := by decide
theorem in_ne7 : ∀ w : Fin 7, w ≠ 6 → Pipeline.arrRef spec7 w ≠ main_v196 := by decide
theorem out_mem7 : (main_v196 : Ref sig .tc) ∈ Finset.univ.image (Pipeline.arrRef spec7) := by decide
theorem hF7 (c : Dev nD) (w : Fin cfg7.W) : (dat7 (T19 m) c).arrAt w cfg7.N = T20 m c (Pipeline.arrRef spec7 w) := by
  by_cases hw : w = 6
  · subst hw
    show _ = Function.update (U19 m c) main_v196 _ main_v196
    rw [Function.update_self]
  · have hne := in_ne7 w hw
    show _ = Function.update (U19 m c) main_v196 _ (Pipeline.arrRef spec7 w)
    rw [Function.update_of_ne (StableHlo.devRef_ne_of_ne hne)]
    exact ((dat7 (T19 m) c).arrAt_in w (in_notOut7 w hw) _).trans (A_eq7 (T19 m) c w)
theorem hrest7 (c : Dev nD) : ∀ b, b ∉ Finset.univ.image (Pipeline.arrRef spec7) → T20 m c b = T19 m c b := fun b hb => by
  have hne : b ≠ main_v196 := fun e => hb (e ▸ out_mem7)
  show Function.update (U19 m c) main_v196 _ b = U19 m c b
  rw [Function.update_of_ne (StableHlo.devRef_ne_of_ne hne)]
theorem in_notOut8 : ∀ w : Fin 16, w ≠ 14 → w ≠ 15 → (cfg8.win w).isOut = false := by decide
theorem in_ne8 : ∀ w : Fin 16, w ≠ 14 → w ≠ 15 → Pipeline.arrRef spec8 w ≠ main_v245_0 ∧ Pipeline.arrRef spec8 w ≠ main_v245_1 := by decide
theorem out_mem8 : (main_v245_0 : Ref sig .tc) ∈ Finset.univ.image (Pipeline.arrRef spec8) ∧ (main_v245_1 : Ref sig .tc) ∈ Finset.univ.image (Pipeline.arrRef spec8) := by decide
theorem hF8 (c : Dev nD) (w : Fin cfg8.W) : (dat8 (T21 m) c).arrAt w cfg8.N = T22 m c (Pipeline.arrRef spec8 w) := by
  by_cases hw0 : w = 14
  · subst hw0
    show _ = Function.update (Function.update (U21 m c) main_v245_0 _) main_v245_1 _ main_v245_0
    rw [Function.update_of_ne (StableHlo.devRef_ne_of_ne (by decide : (main_v245_0 : Ref sig .tc) ≠ main_v245_1)), Function.update_self]
  by_cases hw1 : w = 15
  · subst hw1
    show _ = Function.update (Function.update (U21 m c) main_v245_0 _) main_v245_1 _ main_v245_1
    rw [Function.update_self]
  · have hne := in_ne8 w hw0 hw1
    show _ = Function.update (Function.update (U21 m c) main_v245_0 _) main_v245_1 _ (Pipeline.arrRef spec8 w)
    rw [Function.update_of_ne (StableHlo.devRef_ne_of_ne hne.2), Function.update_of_ne (StableHlo.devRef_ne_of_ne hne.1)]
    exact ((dat8 (T21 m) c).arrAt_in w (in_notOut8 w hw0 hw1) _).trans (A_eq8 (T21 m) c w)
theorem hrest8 (c : Dev nD) : ∀ b, b ∉ Finset.univ.image (Pipeline.arrRef spec8) → T22 m c b = T21 m c b := fun b hb => by
  have hne0 : b ≠ main_v245_0 := fun e => hb (e ▸ out_mem8.1)
  have hne1 : b ≠ main_v245_1 := fun e => hb (e ▸ out_mem8.2)
  show Function.update (Function.update (U21 m c) main_v245_0 _) main_v245_1 _ b = U21 m c b
  rw [Function.update_of_ne (StableHlo.devRef_ne_of_ne hne1), Function.update_of_ne (StableHlo.devRef_ne_of_ne hne0)]
theorem in_notOut9 : ∀ w : Fin 8, w ≠ 7 → (cfg9.win w).isOut = false := by decide
theorem in_ne9 : ∀ w : Fin 8, w ≠ 7 → Pipeline.arrRef spec9 w ≠ main_v279 := by decide
theorem out_mem9 : (main_v279 : Ref sig .tc) ∈ Finset.univ.image (Pipeline.arrRef spec9) := by decide
theorem hF9 (c : Dev nD) (w : Fin cfg9.W) : (dat9 (T23 m) c).arrAt w cfg9.N = T24 m c (Pipeline.arrRef spec9 w) := by
  by_cases hw : w = 7
  · subst hw
    show _ = Function.update (U23 m c) main_v279 _ main_v279
    rw [Function.update_self]
  · have hne := in_ne9 w hw
    show _ = Function.update (U23 m c) main_v279 _ (Pipeline.arrRef spec9 w)
    rw [Function.update_of_ne (StableHlo.devRef_ne_of_ne hne)]
    exact ((dat9 (T23 m) c).arrAt_in w (in_notOut9 w hw) _).trans (A_eq9 (T23 m) c w)
theorem hrest9 (c : Dev nD) : ∀ b, b ∉ Finset.univ.image (Pipeline.arrRef spec9) → T24 m c b = T23 m c b := fun b hb => by
  have hne : b ≠ main_v279 := fun e => hb (e ▸ out_mem9)
  show Function.update (U23 m c) main_v279 _ b = U23 m c b
  rw [Function.update_of_ne (StableHlo.devRef_ne_of_ne hne)]
theorem in_notOut10 : ∀ w : Fin 8, w ≠ 7 → (cfg10.win w).isOut = false := by decide
theorem in_ne10 : ∀ w : Fin 8, w ≠ 7 → Pipeline.arrRef spec10 w ≠ main_v306 := by decide
theorem out_mem10 : (main_v306 : Ref sig .tc) ∈ Finset.univ.image (Pipeline.arrRef spec10) := by decide
theorem hF10 (c : Dev nD) (w : Fin cfg10.W) : (dat10 (T25 m) c).arrAt w cfg10.N = T26 m c (Pipeline.arrRef spec10 w) := by
  by_cases hw : w = 7
  · subst hw
    show _ = Function.update (U25 m c) main_v306 _ main_v306
    rw [Function.update_self]
  · have hne := in_ne10 w hw
    show _ = Function.update (U25 m c) main_v306 _ (Pipeline.arrRef spec10 w)
    rw [Function.update_of_ne (StableHlo.devRef_ne_of_ne hne)]
    exact ((dat10 (T25 m) c).arrAt_in w (in_notOut10 w hw) _).trans (A_eq10 (T25 m) c w)
theorem hrest10 (c : Dev nD) : ∀ b, b ∉ Finset.univ.image (Pipeline.arrRef spec10) → T26 m c b = T25 m c b := fun b hb => by
  have hne : b ≠ main_v306 := fun e => hb (e ▸ out_mem10)
  show Function.update (U25 m c) main_v306 _ b = U25 m c b
  rw [Function.update_of_ne (StableHlo.devRef_ne_of_ne hne)]
theorem in_notOut11 : ∀ w : Fin 7, w ≠ 6 → (cfg11.win w).isOut = false := by decide
theorem in_ne11 : ∀ w : Fin 7, w ≠ 6 → Pipeline.arrRef spec11 w ≠ main_v314 := by decide
theorem out_mem11 : (main_v314 : Ref sig .tc) ∈ Finset.univ.image (Pipeline.arrRef spec11) := by decide
theorem hF11 (c : Dev nD) (w : Fin cfg11.W) : (dat11 (T27 m) c).arrAt w cfg11.N = T28 m c (Pipeline.arrRef spec11 w) := by
  by_cases hw : w = 6
  · subst hw
    show _ = Function.update (U27 m c) main_v314 _ main_v314
    rw [Function.update_self]
  · have hne := in_ne11 w hw
    show _ = Function.update (U27 m c) main_v314 _ (Pipeline.arrRef spec11 w)
    rw [Function.update_of_ne (StableHlo.devRef_ne_of_ne hne)]
    exact ((dat11 (T27 m) c).arrAt_in w (in_notOut11 w hw) _).trans (A_eq11 (T27 m) c w)
theorem hrest11 (c : Dev nD) : ∀ b, b ∉ Finset.univ.image (Pipeline.arrRef spec11) → T28 m c b = T27 m c b := fun b hb => by
  have hne : b ≠ main_v314 := fun e => hb (e ▸ out_mem11)
  show Function.update (U27 m c) main_v314 _ b = U27 m c b
  rw [Function.update_of_ne (StableHlo.devRef_ne_of_ne hne)]
theorem in_notOut12 : ∀ w : Fin 7, w ≠ 6 → (cfg12.win w).isOut = false := by decide
theorem in_ne12 : ∀ w : Fin 7, w ≠ 6 → Pipeline.arrRef spec12 w ≠ main_v333 := by decide
theorem out_mem12 : (main_v333 : Ref sig .tc) ∈ Finset.univ.image (Pipeline.arrRef spec12) := by decide
theorem hF12 (c : Dev nD) (w : Fin cfg12.W) : (dat12 (T29 m) c).arrAt w cfg12.N = T30 m c (Pipeline.arrRef spec12 w) := by
  by_cases hw : w = 6
  · subst hw
    show _ = Function.update (U29 m c) main_v333 _ main_v333
    rw [Function.update_self]
  · have hne := in_ne12 w hw
    show _ = Function.update (U29 m c) main_v333 _ (Pipeline.arrRef spec12 w)
    rw [Function.update_of_ne (StableHlo.devRef_ne_of_ne hne)]
    exact ((dat12 (T29 m) c).arrAt_in w (in_notOut12 w hw) _).trans (A_eq12 (T29 m) c w)
theorem hrest12 (c : Dev nD) : ∀ b, b ∉ Finset.univ.image (Pipeline.arrRef spec12) → T30 m c b = T29 m c b := fun b hb => by
  have hne : b ≠ main_v333 := fun e => hb (e ▸ out_mem12)
  show Function.update (U29 m c) main_v333 _ b = U29 m c b
  rw [Function.update_of_ne (StableHlo.devRef_ne_of_ne hne)]
theorem in_notOut13 : ∀ w : Fin 7, w ≠ 6 → (cfg13.win w).isOut = false := by decide
theorem in_ne13 : ∀ w : Fin 7, w ≠ 6 → Pipeline.arrRef spec13 w ≠ main_v355 := by decide
theorem out_mem13 : (main_v355 : Ref sig .tc) ∈ Finset.univ.image (Pipeline.arrRef spec13) := by decide
theorem hF13 (c : Dev nD) (w : Fin cfg13.W) : (dat13 (T33 m) c).arrAt w cfg13.N = T34 m c (Pipeline.arrRef spec13 w) := by
  by_cases hw : w = 6
  · subst hw
    show _ = Function.update (U33 m c) main_v355 _ main_v355
    rw [Function.update_self]
  · have hne := in_ne13 w hw
    show _ = Function.update (U33 m c) main_v355 _ (Pipeline.arrRef spec13 w)
    rw [Function.update_of_ne (StableHlo.devRef_ne_of_ne hne)]
    exact ((dat13 (T33 m) c).arrAt_in w (in_notOut13 w hw) _).trans (A_eq13 (T33 m) c w)
theorem hrest13 (c : Dev nD) : ∀ b, b ∉ Finset.univ.image (Pipeline.arrRef spec13) → T34 m c b = T33 m c b := fun b hb => by
  have hne : b ≠ main_v355 := fun e => hb (e ▸ out_mem13)
  show Function.update (U33 m c) main_v355 _ b = U33 m c b
  rw [Function.update_of_ne (StableHlo.devRef_ne_of_ne hne)]
theorem in_notOut14 : ∀ w : Fin 16, w ≠ 14 → w ≠ 15 → (cfg14.win w).isOut = false := by decide
theorem in_ne14 : ∀ w : Fin 16, w ≠ 14 → w ≠ 15 → Pipeline.arrRef spec14 w ≠ main_v404_0 ∧ Pipeline.arrRef spec14 w ≠ main_v404_1 := by decide
theorem out_mem14 : (main_v404_0 : Ref sig .tc) ∈ Finset.univ.image (Pipeline.arrRef spec14) ∧ (main_v404_1 : Ref sig .tc) ∈ Finset.univ.image (Pipeline.arrRef spec14) := by decide
theorem hF14 (c : Dev nD) (w : Fin cfg14.W) : (dat14 (T35 m) c).arrAt w cfg14.N = T36 m c (Pipeline.arrRef spec14 w) := by
  by_cases hw0 : w = 14
  · subst hw0
    show _ = Function.update (Function.update (U35 m c) main_v404_0 _) main_v404_1 _ main_v404_0
    rw [Function.update_of_ne (StableHlo.devRef_ne_of_ne (by decide : (main_v404_0 : Ref sig .tc) ≠ main_v404_1)), Function.update_self]
  by_cases hw1 : w = 15
  · subst hw1
    show _ = Function.update (Function.update (U35 m c) main_v404_0 _) main_v404_1 _ main_v404_1
    rw [Function.update_self]
  · have hne := in_ne14 w hw0 hw1
    show _ = Function.update (Function.update (U35 m c) main_v404_0 _) main_v404_1 _ (Pipeline.arrRef spec14 w)
    rw [Function.update_of_ne (StableHlo.devRef_ne_of_ne hne.2), Function.update_of_ne (StableHlo.devRef_ne_of_ne hne.1)]
    exact ((dat14 (T35 m) c).arrAt_in w (in_notOut14 w hw0 hw1) _).trans (A_eq14 (T35 m) c w)
theorem hrest14 (c : Dev nD) : ∀ b, b ∉ Finset.univ.image (Pipeline.arrRef spec14) → T36 m c b = T35 m c b := fun b hb => by
  have hne0 : b ≠ main_v404_0 := fun e => hb (e ▸ out_mem14.1)
  have hne1 : b ≠ main_v404_1 := fun e => hb (e ▸ out_mem14.2)
  show Function.update (Function.update (U35 m c) main_v404_0 _) main_v404_1 _ b = U35 m c b
  rw [Function.update_of_ne (StableHlo.devRef_ne_of_ne hne1), Function.update_of_ne (StableHlo.devRef_ne_of_ne hne0)]
theorem in_notOut15 : ∀ w : Fin 8, w ≠ 7 → (cfg15.win w).isOut = false := by decide
theorem in_ne15 : ∀ w : Fin 8, w ≠ 7 → Pipeline.arrRef spec15 w ≠ main_v438 := by decide
theorem out_mem15 : (main_v438 : Ref sig .tc) ∈ Finset.univ.image (Pipeline.arrRef spec15) := by decide
theorem hF15 (c : Dev nD) (w : Fin cfg15.W) : (dat15 (T37 m) c).arrAt w cfg15.N = T38 m c (Pipeline.arrRef spec15 w) := by
  by_cases hw : w = 7
  · subst hw
    show _ = Function.update (U37 m c) main_v438 _ main_v438
    rw [Function.update_self]
  · have hne := in_ne15 w hw
    show _ = Function.update (U37 m c) main_v438 _ (Pipeline.arrRef spec15 w)
    rw [Function.update_of_ne (StableHlo.devRef_ne_of_ne hne)]
    exact ((dat15 (T37 m) c).arrAt_in w (in_notOut15 w hw) _).trans (A_eq15 (T37 m) c w)
theorem hrest15 (c : Dev nD) : ∀ b, b ∉ Finset.univ.image (Pipeline.arrRef spec15) → T38 m c b = T37 m c b := fun b hb => by
  have hne : b ≠ main_v438 := fun e => hb (e ▸ out_mem15)
  show Function.update (U37 m c) main_v438 _ b = U37 m c b
  rw [Function.update_of_ne (StableHlo.devRef_ne_of_ne hne)]
theorem in_notOut16 : ∀ w : Fin 7, w ≠ 6 → (cfg16.win w).isOut = false := by decide
theorem in_ne16 : ∀ w : Fin 7, w ≠ 6 → Pipeline.arrRef spec16 w ≠ main_v446 := by decide
theorem out_mem16 : (main_v446 : Ref sig .tc) ∈ Finset.univ.image (Pipeline.arrRef spec16) := by decide
theorem hF16 (c : Dev nD) (w : Fin cfg16.W) : (dat16 (T39 m) c).arrAt w cfg16.N = T40 m c (Pipeline.arrRef spec16 w) := by
  by_cases hw : w = 6
  · subst hw
    show _ = Function.update (U39 m c) main_v446 _ main_v446
    rw [Function.update_self]
  · have hne := in_ne16 w hw
    show _ = Function.update (U39 m c) main_v446 _ (Pipeline.arrRef spec16 w)
    rw [Function.update_of_ne (StableHlo.devRef_ne_of_ne hne)]
    exact ((dat16 (T39 m) c).arrAt_in w (in_notOut16 w hw) _).trans (A_eq16 (T39 m) c w)
theorem hrest16 (c : Dev nD) : ∀ b, b ∉ Finset.univ.image (Pipeline.arrRef spec16) → T40 m c b = T39 m c b := fun b hb => by
  have hne : b ≠ main_v446 := fun e => hb (e ▸ out_mem16)
  show Function.update (U39 m c) main_v446 _ b = U39 m c b
  rw [Function.update_of_ne (StableHlo.devRef_ne_of_ne hne)]

/-! ## The proof data family and what rides beside the buffers -/

/-- Every pipeline's proof data, each at its region's entry contents. -/
def pdats : (p : Fin 17) → (c : Dev nD) → Dat τ (Elt F) Unit ℕ (UR sig nD τ) ℕ (cfgs p) c
  | ⟨0, _⟩ => fun c => dat0 (T1 m) c
  | ⟨1, _⟩ => fun c => dat1 (T5 m) c
  | ⟨2, _⟩ => fun c => dat2 (T7 m) c
  | ⟨3, _⟩ => fun c => dat3 (T9 m) c
  | ⟨4, _⟩ => fun c => dat4 (T11 m) c
  | ⟨5, _⟩ => fun c => dat5 (T13 m) c
  | ⟨6, _⟩ => fun c => dat6 (T15 m) c
  | ⟨7, _⟩ => fun c => dat7 (T19 m) c
  | ⟨8, _⟩ => fun c => dat8 (T21 m) c
  | ⟨9, _⟩ => fun c => dat9 (T23 m) c
  | ⟨10, _⟩ => fun c => dat10 (T25 m) c
  | ⟨11, _⟩ => fun c => dat11 (T27 m) c
  | ⟨12, _⟩ => fun c => dat12 (T29 m) c
  | ⟨13, _⟩ => fun c => dat13 (T33 m) c
  | ⟨14, _⟩ => fun c => dat14 (T35 m) c
  | ⟨15, _⟩ => fun c => dat15 (T37 m) c
  | ⟨16, _⟩ => fun c => dat16 (T39 m) c
  | ⟨_ + 17, h⟩ => absurd h (Nat.not_lt.2 (Nat.le_add_left _ _))
abbrev 𝒱ₙ : Variants := Variants.none
/-- No core owes another anything: no level is assigned. -/
abbrev Lₙ : GSem nD τ sig → Finset Unit := fun _ => ∅
abbrev lvₙ : GSem nD τ sig → Unit → ℕ := fun _ _ => 0
/-- What rides beside the buffers through every item: the core's generator register at some state and its dues, at nothing. -/
abbrev Rest (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 between the contents before it and after it: its arrays split out of the unscoped buffers and put back at
    the exit contents; the generator register into the region's invariant and out; nothing owed. -/
def reg0 : RegionSeg (pcfgs (F := F)) adm (pdats m) () defs₀ 𝒱ₙ Lₙ lvₙ 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ Lₙ lvₙ 0 fun _ _ => rfl
  pre c := iprop(StableHlo.held (c : Thread nD τ) (Pipeline.ucRefs τ sig) (U1 m c) ∗ Rest c)
  post c := iprop(StableHlo.held (c : Thread nD τ) (Pipeline.ucRefs τ sig) (U2 m c) ∗ Rest c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the contents before it and after it: its arrays split out of the unscoped buffers and put back at
    the exit contents; the generator register into the region's invariant and out; nothing owed. -/
def reg1 : RegionSeg (pcfgs (F := F)) adm (pdats m) () defs₀ 𝒱ₙ Lₙ lvₙ 1 where
  win := launch1.win.to₀
  block_pos := launch1.block_pos
  stage_whole := launch1.stage_whole
  K := PEmpty
  osem k := k.elim
  ho := Pipeline.OwnSemFacts.none _
  hbody c := (body_obligation1 (T5 m) c).loose
  hwaits := Pipeline.hwaits_of_owed_zero _ _ _ _ Lₙ lvₙ 1 fun _ _ => rfl
  pre c := iprop(StableHlo.held (c : Thread nD τ) (Pipeline.ucRefs τ sig) (U5 m c) ∗ Rest c)
  post c := iprop(StableHlo.held (c : Thread nD τ) (Pipeline.ucRefs τ sig) (U6 m c) ∗ Rest c)
  X c := iprop(∃ r, prngReg c r)
  Y c := iprop(∃ r, prngReg c r)
  Z c := Pipeline.unscopedRest (Ix := Unit) (Name := ℕ) (U := UR sig nD τ) (Lvl := ℕ) spec1 c (T5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T5 m c) (T6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the contents before it and after it: its arrays split out of the unscoped buffers and put back at
    the exit contents; the generator register into the region's invariant and out; nothing owed. -/
def reg2 : RegionSeg (pcfgs (F := F)) adm (pdats m) () defs₀ 𝒱ₙ Lₙ lvₙ 2 where
  win := launch2.win.to₀
  block_pos := launch2.block_pos
  stage_whole := launch2.stage_whole
  K := PEmpty
  osem k := k.elim
  ho := Pipeline.OwnSemFacts.none _
  hbody c := (body_obligation2 (T7 m) c).loose
  hwaits := Pipeline.hwaits_of_owed_zero _ _ _ _ Lₙ lvₙ 2 fun _ _ => rfl
  pre c := iprop(StableHlo.held (c : Thread nD τ) (Pipeline.ucRefs τ sig) (U7 m c) ∗ Rest c)
  post c := iprop(StableHlo.held (c : Thread nD τ) (Pipeline.ucRefs τ sig) (U8 m c) ∗ Rest c)
  X c := iprop(∃ r, prngReg c r)
  Y c := iprop(∃ r, prngReg c r)
  Z c := Pipeline.unscopedRest (Ix := Unit) (Name := ℕ) (U := UR sig nD τ) (Lvl := ℕ) spec2 c (T7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T7 m c) (T8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 between the contents before it and after it: its arrays split out of the unscoped buffers and put back at
    the exit contents; the generator register into the region's invariant and out; nothing owed. -/
def reg3 : RegionSeg (pcfgs (F := F)) adm (pdats m) () defs₀ 𝒱ₙ Lₙ lvₙ 3 where
  win := launch3.win.to₀
  block_pos := launch3.block_pos
  stage_whole := launch3.stage_whole
  K := PEmpty
  osem k := k.elim
  ho := Pipeline.OwnSemFacts.none _
  hbody c := (body_obligation3 (T9 m) c).loose
  hwaits := Pipeline.hwaits_of_owed_zero _ _ _ _ Lₙ lvₙ 3 fun _ _ => rfl
  pre c := iprop(StableHlo.held (c : Thread nD τ) (Pipeline.ucRefs τ sig) (U9 m c) ∗ Rest c)
  post c := iprop(StableHlo.held (c : Thread nD τ) (Pipeline.ucRefs τ sig) (U10 m c) ∗ Rest c)
  X c := iprop(∃ r, prngReg c r)
  Y c := iprop(∃ r, prngReg c r)
  Z c := Pipeline.unscopedRest (Ix := Unit) (Name := ℕ) (U := UR sig nD τ) (Lvl := ℕ) spec3 c (T9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T9 m c) (T10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 between the contents before it and after it: its arrays split out of the unscoped buffers and put back at
    the exit contents; the generator register into the region's invariant and out; nothing owed. -/
def reg4 : RegionSeg (pcfgs (F := F)) adm (pdats m) () defs₀ 𝒱ₙ Lₙ lvₙ 4 where
  win := launch4.win.to₀
  block_pos := launch4.block_pos
  stage_whole := launch4.stage_whole
  K := PEmpty
  osem k := k.elim
  ho := Pipeline.OwnSemFacts.none _
  hbody c := (body_obligation4 (T11 m) c).loose
  hwaits := Pipeline.hwaits_of_owed_zero _ _ _ _ Lₙ lvₙ 4 fun _ _ => rfl
  pre c := iprop(StableHlo.held (c : Thread nD τ) (Pipeline.ucRefs τ sig) (U11 m c) ∗ Rest c)
  post c := iprop(StableHlo.held (c : Thread nD τ) (Pipeline.ucRefs τ sig) (U12 m c) ∗ Rest c)
  X c := iprop(∃ r, prngReg c r)
  Y c := iprop(∃ r, prngReg c r)
  Z c := Pipeline.unscopedRest (Ix := Unit) (Name := ℕ) (U := UR sig nD τ) (Lvl := ℕ) spec4 c (T11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T11 m c) (T12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 between the contents before it and after it: its arrays split out of the unscoped buffers and put back at
    the exit contents; the generator register into the region's invariant and out; nothing owed. -/
def reg5 : RegionSeg (pcfgs (F := F)) adm (pdats m) () defs₀ 𝒱ₙ Lₙ lvₙ 5 where
  win := launch5.win.to₀
  block_pos := launch5.block_pos
  stage_whole := launch5.stage_whole
  K := PEmpty
  osem k := k.elim
  ho := Pipeline.OwnSemFacts.none _
  hbody c := (body_obligation5 (T13 m) c).loose
  hwaits := Pipeline.hwaits_of_owed_zero _ _ _ _ Lₙ lvₙ 5 fun _ _ => rfl
  pre c := iprop(StableHlo.held (c : Thread nD τ) (Pipeline.ucRefs τ sig) (U13 m c) ∗ Rest c)
  post c := iprop(StableHlo.held (c : Thread nD τ) (Pipeline.ucRefs τ sig) (U14 m c) ∗ Rest c)
  X c := iprop(∃ r, prngReg c r)
  Y c := iprop(∃ r, prngReg c r)
  Z c := Pipeline.unscopedRest (Ix := Unit) (Name := ℕ) (U := UR sig nD τ) (Lvl := ℕ) spec5 c (T13 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (T13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (T13 m c) (T14 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 between the contents before it and after it: its arrays split out of the unscoped buffers and put back at
    the exit contents; the generator register into the region's invariant and out; nothing owed. -/
def reg6 : RegionSeg (pcfgs (F := F)) adm (pdats m) () defs₀ 𝒱ₙ Lₙ lvₙ 6 where
  win := launch6.win.to₀
  block_pos := launch6.block_pos
  stage_whole := launch6.stage_whole
  K := PEmpty
  osem k := k.elim
  ho := Pipeline.OwnSemFacts.none _
  hbody c := (body_obligation6 (T15 m) c).loose
  hwaits := Pipeline.hwaits_of_owed_zero _ _ _ _ Lₙ lvₙ 6 fun _ _ => rfl
  pre c := iprop(StableHlo.held (c : Thread nD τ) (Pipeline.ucRefs τ sig) (U15 m c) ∗ Rest c)
  post c := iprop(StableHlo.held (c : Thread nD τ) (Pipeline.ucRefs τ sig) (U16 m c) ∗ Rest c)
  X c := iprop(∃ r, prngReg c r)
  Y c := iprop(∃ r, prngReg c r)
  Z c := Pipeline.unscopedRest (Ix := Unit) (Name := ℕ) (U := UR sig nD τ) (Lvl := ℕ) spec6 c (T15 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (T15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (T15 m c) (T16 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 between the contents before it and after it: its arrays split out of the unscoped buffers and put back at
    the exit contents; the generator register into the region's invariant and out; nothing owed. -/
def reg7 : RegionSeg (pcfgs (F := F)) adm (pdats m) () defs₀ 𝒱ₙ Lₙ lvₙ 7 where
  win := launch7.win.to₀
  block_pos := launch7.block_pos
  stage_whole := launch7.stage_whole
  K := PEmpty
  osem k := k.elim
  ho := Pipeline.OwnSemFacts.none _
  hbody c := (body_obligation7 (T19 m) c).loose
  hwaits := Pipeline.hwaits_of_owed_zero _ _ _ _ Lₙ lvₙ 7 fun _ _ => rfl
  pre c := iprop(StableHlo.held (c : Thread nD τ) (Pipeline.ucRefs τ sig) (U19 m c) ∗ Rest c)
  post c := iprop(StableHlo.held (c : Thread nD τ) (Pipeline.ucRefs τ sig) (U20 m c) ∗ Rest c)
  X c := iprop(∃ r, prngReg c r)
  Y c := iprop(∃ r, prngReg c r)
  Z c := Pipeline.unscopedRest (Ix := Unit) (Name := ℕ) (U := UR sig nD τ) (Lvl := ℕ) spec7 c (T19 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (T19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (T19 m c) (T20 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 between the contents before it and after it: its arrays split out of the unscoped buffers and put back at
    the exit contents; the generator register into the region's invariant and out; nothing owed. -/
def reg8 : RegionSeg (pcfgs (F := F)) adm (pdats m) () defs₀ 𝒱ₙ Lₙ lvₙ 8 where
  win := launch8.win.to₀
  block_pos := launch8.block_pos
  stage_whole := launch8.stage_whole
  K := PEmpty
  osem k := k.elim
  ho := Pipeline.OwnSemFacts.none _
  hbody c := (body_obligation8 (T21 m) c).loose
  hwaits := Pipeline.hwaits_of_owed_zero _ _ _ _ Lₙ lvₙ 8 fun _ _ => rfl
  pre c := iprop(StableHlo.held (c : Thread nD τ) (Pipeline.ucRefs τ sig) (U21 m c) ∗ Rest c)
  post c := iprop(StableHlo.held (c : Thread nD τ) (Pipeline.ucRefs τ sig) (U22 m c) ∗ Rest c)
  X c := iprop(∃ r, prngReg c r)
  Y c := iprop(∃ r, prngReg c r)
  Z c := Pipeline.unscopedRest (Ix := Unit) (Name := ℕ) (U := UR sig nD τ) (Lvl := ℕ) spec8 c (T21 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (T21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (T21 m c) (T22 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 between the contents before it and after it: its arrays split out of the unscoped buffers and put back at
    the exit contents; the generator register into the region's invariant and out; nothing owed. -/
def reg9 : RegionSeg (pcfgs (F := F)) adm (pdats m) () defs₀ 𝒱ₙ Lₙ lvₙ 9 where
  win := launch9.win.to₀
  block_pos := launch9.block_pos
  stage_whole := launch9.stage_whole
  K := PEmpty
  osem k := k.elim
  ho := Pipeline.OwnSemFacts.none _
  hbody c := (body_obligation9 (T23 m) c).loose
  hwaits := Pipeline.hwaits_of_owed_zero _ _ _ _ Lₙ lvₙ 9 fun _ _ => rfl
  pre c := iprop(StableHlo.held (c : Thread nD τ) (Pipeline.ucRefs τ sig) (U23 m c) ∗ Rest c)
  post c := iprop(StableHlo.held (c : Thread nD τ) (Pipeline.ucRefs τ sig) (U24 m c) ∗ Rest c)
  X c := iprop(∃ r, prngReg c r)
  Y c := iprop(∃ r, prngReg c r)
  Z c := Pipeline.unscopedRest (Ix := Unit) (Name := ℕ) (U := UR sig nD τ) (Lvl := ℕ) spec9 c (T23 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (T23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (T23 m c) (T24 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 between the contents before it and after it: its arrays split out of the unscoped buffers and put back at
    the exit contents; the generator register into the region's invariant and out; nothing owed. -/
def reg10 : RegionSeg (pcfgs (F := F)) adm (pdats m) () defs₀ 𝒱ₙ Lₙ lvₙ 10 where
  win := launch10.win.to₀
  block_pos := launch10.block_pos
  stage_whole := launch10.stage_whole
  K := PEmpty
  osem k := k.elim
  ho := Pipeline.OwnSemFacts.none _
  hbody c := (body_obligation10 (T25 m) c).loose
  hwaits := Pipeline.hwaits_of_owed_zero _ _ _ _ Lₙ lvₙ 10 fun _ _ => rfl
  pre c := iprop(StableHlo.held (c : Thread nD τ) (Pipeline.ucRefs τ sig) (U25 m c) ∗ Rest c)
  post c := iprop(StableHlo.held (c : Thread nD τ) (Pipeline.ucRefs τ sig) (U26 m c) ∗ Rest c)
  X c := iprop(∃ r, prngReg c r)
  Y c := iprop(∃ r, prngReg c r)
  Z c := Pipeline.unscopedRest (Ix := Unit) (Name := ℕ) (U := UR sig nD τ) (Lvl := ℕ) spec10 c (T25 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (T25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (T25 m c) (T26 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 between the contents before it and after it: its arrays split out of the unscoped buffers and put back at
    the exit contents; the generator register into the region's invariant and out; nothing owed. -/
def reg11 : RegionSeg (pcfgs (F := F)) adm (pdats m) () defs₀ 𝒱ₙ Lₙ lvₙ 11 where
  win := launch11.win.to₀
  block_pos := launch11.block_pos
  stage_whole := launch11.stage_whole
  K := PEmpty
  osem k := k.elim
  ho := Pipeline.OwnSemFacts.none _
  hbody c := (body_obligation11 (T27 m) c).loose
  hwaits := Pipeline.hwaits_of_owed_zero _ _ _ _ Lₙ lvₙ 11 fun _ _ => rfl
  pre c := iprop(StableHlo.held (c : Thread nD τ) (Pipeline.ucRefs τ sig) (U27 m c) ∗ Rest c)
  post c := iprop(StableHlo.held (c : Thread nD τ) (Pipeline.ucRefs τ sig) (U28 m c) ∗ Rest c)
  X c := iprop(∃ r, prngReg c r)
  Y c := iprop(∃ r, prngReg c r)
  Z c := Pipeline.unscopedRest (Ix := Unit) (Name := ℕ) (U := UR sig nD τ) (Lvl := ℕ) spec11 c (T27 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (T27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (T27 m c) (T28 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 between the contents before it and after it: its arrays split out of the unscoped buffers and put back at
    the exit contents; the generator register into the region's invariant and out; nothing owed. -/
def reg12 : RegionSeg (pcfgs (F := F)) adm (pdats m) () defs₀ 𝒱ₙ Lₙ lvₙ 12 where
  win := launch12.win.to₀
  block_pos := launch12.block_pos
  stage_whole := launch12.stage_whole
  K := PEmpty
  osem k := k.elim
  ho := Pipeline.OwnSemFacts.none _
  hbody c := (body_obligation12 (T29 m) c).loose
  hwaits := Pipeline.hwaits_of_owed_zero _ _ _ _ Lₙ lvₙ 12 fun _ _ => rfl
  pre c := iprop(StableHlo.held (c : Thread nD τ) (Pipeline.ucRefs τ sig) (U29 m c) ∗ Rest c)
  post c := iprop(StableHlo.held (c : Thread nD τ) (Pipeline.ucRefs τ sig) (U30 m c) ∗ Rest c)
  X c := iprop(∃ r, prngReg c r)
  Y c := iprop(∃ r, prngReg c r)
  Z c := Pipeline.unscopedRest (Ix := Unit) (Name := ℕ) (U := UR sig nD τ) (Lvl := ℕ) spec12 c (T29 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (T29 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (T29 m c) (T30 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 13 between the contents before it and after it: its arrays split out of the unscoped buffers and put back at
    the exit contents; the generator register into the region's invariant and out; nothing owed. -/
def reg13 : RegionSeg (pcfgs (F := F)) adm (pdats m) () defs₀ 𝒱ₙ Lₙ lvₙ 13 where
  win := launch13.win.to₀
  block_pos := launch13.block_pos
  stage_whole := launch13.stage_whole
  K := PEmpty
  osem k := k.elim
  ho := Pipeline.OwnSemFacts.none _
  hbody c := (body_obligation13 (T33 m) c).loose
  hwaits := Pipeline.hwaits_of_owed_zero _ _ _ _ Lₙ lvₙ 13 fun _ _ => rfl
  pre c := iprop(StableHlo.held (c : Thread nD τ) (Pipeline.ucRefs τ sig) (U33 m c) ∗ Rest c)
  post c := iprop(StableHlo.held (c : Thread nD τ) (Pipeline.ucRefs τ sig) (U34 m c) ∗ Rest c)
  X c := iprop(∃ r, prngReg c r)
  Y c := iprop(∃ r, prngReg c r)
  Z c := Pipeline.unscopedRest (Ix := Unit) (Name := ℕ) (U := UR sig nD τ) (Lvl := ℕ) spec13 c (T33 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (T33 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (T33 m c) (T34 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 14 between the contents before it and after it: its arrays split out of the unscoped buffers and put back at
    the exit contents; the generator register into the region's invariant and out; nothing owed. -/
def reg14 : RegionSeg (pcfgs (F := F)) adm (pdats m) () defs₀ 𝒱ₙ Lₙ lvₙ 14 where
  win := launch14.win.to₀
  block_pos := launch14.block_pos
  stage_whole := launch14.stage_whole
  K := PEmpty
  osem k := k.elim
  ho := Pipeline.OwnSemFacts.none _
  hbody c := (body_obligation14 (T35 m) c).loose
  hwaits := Pipeline.hwaits_of_owed_zero _ _ _ _ Lₙ lvₙ 14 fun _ _ => rfl
  pre c := iprop(StableHlo.held (c : Thread nD τ) (Pipeline.ucRefs τ sig) (U35 m c) ∗ Rest c)
  post c := iprop(StableHlo.held (c : Thread nD τ) (Pipeline.ucRefs τ sig) (U36 m c) ∗ Rest c)
  X c := iprop(∃ r, prngReg c r)
  Y c := iprop(∃ r, prngReg c r)
  Z c := Pipeline.unscopedRest (Ix := Unit) (Name := ℕ) (U := UR sig nD τ) (Lvl := ℕ) spec14 c (T35 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (T35 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (T35 m c) (T36 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 15 between the contents before it and after it: its arrays split out of the unscoped buffers and put back at
    the exit contents; the generator register into the region's invariant and out; nothing owed. -/
def reg15 : RegionSeg (pcfgs (F := F)) adm (pdats m) () defs₀ 𝒱ₙ Lₙ lvₙ 15 where
  win := launch15.win.to₀
  block_pos := launch15.block_pos
  stage_whole := launch15.stage_whole
  K := PEmpty
  osem k := k.elim
  ho := Pipeline.OwnSemFacts.none _
  hbody c := (body_obligation15 (T37 m) c).loose
  hwaits := Pipeline.hwaits_of_owed_zero _ _ _ _ Lₙ lvₙ 15 fun _ _ => rfl
  pre c := iprop(StableHlo.held (c : Thread nD τ) (Pipeline.ucRefs τ sig) (U37 m c) ∗ Rest c)
  post c := iprop(StableHlo.held (c : Thread nD τ) (Pipeline.ucRefs τ sig) (U38 m c) ∗ Rest c)
  X c := iprop(∃ r, prngReg c r)
  Y c := iprop(∃ r, prngReg c r)
  Z c := Pipeline.unscopedRest (Ix := Unit) (Name := ℕ) (U := UR sig nD τ) (Lvl := ℕ) spec15 c (T37 m c)
  hentry c := by
    rw [Pipeline.ownSems0_none]
    have hsplit := Pipeline.arrays_of_unscopedBufs (p := 15) (pcfgs (F := F)) adm (pdats m) launch15.win launch15.arr_whole c
      ((pdats m 15 c).share_full fun _ => rfl) (T37 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m) ((pdats m 15 c).share_full fun _ => rfl)
      (T37 m c) (T38 m c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 16 between the contents before it and after it: its arrays split out of the unscoped buffers and put back at
    the exit contents; the generator register into the region's invariant and out; nothing owed. -/
def reg16 : RegionSeg (pcfgs (F := F)) adm (pdats m) () defs₀ 𝒱ₙ Lₙ lvₙ 16 where
  win := launch16.win.to₀
  block_pos := launch16.block_pos
  stage_whole := launch16.stage_whole
  K := PEmpty
  osem k := k.elim
  ho := Pipeline.OwnSemFacts.none _
  hbody c := (body_obligation16 (T39 m) c).loose
  hwaits := Pipeline.hwaits_of_owed_zero _ _ _ _ Lₙ lvₙ 16 fun _ _ => rfl
  pre c := iprop(StableHlo.held (c : Thread nD τ) (Pipeline.ucRefs τ sig) (U39 m c) ∗ Rest c)
  post c := iprop(StableHlo.held (c : Thread nD τ) (Pipeline.ucRefs τ sig) (U40 m c) ∗ Rest c)
  X c := iprop(∃ r, prngReg c r)
  Y c := iprop(∃ r, prngReg c r)
  Z c := Pipeline.unscopedRest (Ix := Unit) (Name := ℕ) (U := UR sig nD τ) (Lvl := ℕ) spec16 c (T39 m c)
  hentry c := by
    rw [Pipeline.ownSems0_none]
    have hsplit := Pipeline.arrays_of_unscopedBufs (p := 16) (pcfgs (F := F)) adm (pdats m) launch16.win launch16.arr_whole c
      ((pdats m 16 c).share_full fun _ => rfl) (T39 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m) ((pdats m 16 c).share_full fun _ => rfl)
      (T39 m c) (T40 m c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side: the ghost state, the first rest state, the last -/

theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lₙ lvₙ)
    ⊢ (|={Set.univ}=> bigSep Finset.univ (fun c : Dev nD => Rest (F := F) c) : sProp 𝕄) := by
  refine Pipeline.initEach Lₙ lvₙ fun c => ?_
  iintro ⟨⟨-, HO, -, Hp, -⟩, -⟩
  imodintro
  isplitl [Hp]; · iexists _; iexact Hp
  iexists ∅; iexact HO

theorem hE17 (c : Dev nD) : Rest (F := F) c ⊢ (iprop(∃ W, owes (c : Thread nD τ) (0 : CellTallies nD τ sig Unit) W) : sProp 𝕄) := by
  iintro ⟨-, H⟩; iexact H

theorem hpre0 (c : Dev nD) : iprop(StableHlo.held (c : Thread nD τ) (Pipeline.ucRefs τ sig) (V1 m c) ∗ Rest (F := F) c) ⊢ (reg0 m).pre c := by
  rw [V1_eq]; exact .rfl
theorem hpost0 (c : Dev nD) : (reg0 m).post c ⊢ iprop(StableHlo.held (c : Thread nD τ) (Pipeline.ucRefs τ sig) (V2 m (outs m) c) ∗ Rest (F := F) c) := by
  rw [V2_eq]; exact .rfl
theorem hpre1 (c : Dev nD) : iprop(StableHlo.held (c : Thread nD τ) (Pipeline.ucRefs τ sig) (V5 m (outs m) c) ∗ Rest (F := F) c) ⊢ (reg1 m).pre c := by
  rw [V5_eq]; exact .rfl
theorem hpost1 (c : Dev nD) : (reg1 m).post c ⊢ iprop(StableHlo.held (c : Thread nD τ) (Pipeline.ucRefs τ sig) (V6 m (outs m) c) ∗ Rest (F := F) c) := by
  rw [V6_eq]; exact .rfl
theorem hpre2 (c : Dev nD) : iprop(StableHlo.held (c : Thread nD τ) (Pipeline.ucRefs τ sig) (V7 m (outs m) c) ∗ Rest (F := F) c) ⊢ (reg2 m).pre c := by
  rw [V7_eq]; exact .rfl
theorem hpost2 (c : Dev nD) : (reg2 m).post c ⊢ iprop(StableHlo.held (c : Thread nD τ) (Pipeline.ucRefs τ sig) (V8 m (outs m) c) ∗ Rest (F := F) c) := by
  rw [V8_eq]; exact .rfl
theorem hpre3 (c : Dev nD) : iprop(StableHlo.held (c : Thread nD τ) (Pipeline.ucRefs τ sig) (V9 m (outs m) c) ∗ Rest (F := F) c) ⊢ (reg3 m).pre c := by
  rw [V9_eq]; exact .rfl
theorem hpost3 (c : Dev nD) : (reg3 m).post c ⊢ iprop(StableHlo.held (c : Thread nD τ) (Pipeline.ucRefs τ sig) (V10 m (outs m) c) ∗ Rest (F := F) c) := by
  rw [V10_eq]; exact .rfl
theorem hpre4 (c : Dev nD) : iprop(StableHlo.held (c : Thread nD τ) (Pipeline.ucRefs τ sig) (V11 m (outs m) c) ∗ Rest (F := F) c) ⊢ (reg4 m).pre c := by
  rw [V11_eq]; exact .rfl
theorem hpost4 (c : Dev nD) : (reg4 m).post c ⊢ iprop(StableHlo.held (c : Thread nD τ) (Pipeline.ucRefs τ sig) (V12 m (outs m) c) ∗ Rest (F := F) c) := by
  rw [V12_eq]; exact .rfl
theorem hpre5 (c : Dev nD) : iprop(StableHlo.held (c : Thread nD τ) (Pipeline.ucRefs τ sig) (V13 m (outs m) c) ∗ Rest (F := F) c) ⊢ (reg5 m).pre c := by
  rw [V13_eq]; exact .rfl
theorem hpost5 (c : Dev nD) : (reg5 m).post c ⊢ iprop(StableHlo.held (c : Thread nD τ) (Pipeline.ucRefs τ sig) (V14 m (outs m) c) ∗ Rest (F := F) c) := by
  rw [V14_eq]; exact .rfl
theorem hpre6 (c : Dev nD) : iprop(StableHlo.held (c : Thread nD τ) (Pipeline.ucRefs τ sig) (V15 m (outs m) c) ∗ Rest (F := F) c) ⊢ (reg6 m).pre c := by
  rw [V15_eq]; exact .rfl
theorem hpost6 (c : Dev nD) : (reg6 m).post c ⊢ iprop(StableHlo.held (c : Thread nD τ) (Pipeline.ucRefs τ sig) (V16 m (outs m) c) ∗ Rest (F := F) c) := by
  rw [V16_eq]; exact .rfl
theorem hpre7 (c : Dev nD) : iprop(StableHlo.held (c : Thread nD τ) (Pipeline.ucRefs τ sig) (V19 m (outs m) c) ∗ Rest (F := F) c) ⊢ (reg7 m).pre c := by
  rw [V19_eq]; exact .rfl
theorem hpost7 (c : Dev nD) : (reg7 m).post c ⊢ iprop(StableHlo.held (c : Thread nD τ) (Pipeline.ucRefs τ sig) (V20 m (outs m) c) ∗ Rest (F := F) c) := by
  rw [V20_eq]; exact .rfl
theorem hpre8 (c : Dev nD) : iprop(StableHlo.held (c : Thread nD τ) (Pipeline.ucRefs τ sig) (V21 m (outs m) c) ∗ Rest (F := F) c) ⊢ (reg8 m).pre c := by
  rw [V21_eq]; exact .rfl
theorem hpost8 (c : Dev nD) : (reg8 m).post c ⊢ iprop(StableHlo.held (c : Thread nD τ) (Pipeline.ucRefs τ sig) (V22 m (outs m) c) ∗ Rest (F := F) c) := by
  rw [V22_eq]; exact .rfl
theorem hpre9 (c : Dev nD) : iprop(StableHlo.held (c : Thread nD τ) (Pipeline.ucRefs τ sig) (V23 m (outs m) c) ∗ Rest (F := F) c) ⊢ (reg9 m).pre c := by
  rw [V23_eq]; exact .rfl
theorem hpost9 (c : Dev nD) : (reg9 m).post c ⊢ iprop(StableHlo.held (c : Thread nD τ) (Pipeline.ucRefs τ sig) (V24 m (outs m) c) ∗ Rest (F := F) c) := by
  rw [V24_eq]; exact .rfl
theorem hpre10 (c : Dev nD) : iprop(StableHlo.held (c : Thread nD τ) (Pipeline.ucRefs τ sig) (V25 m (outs m) c) ∗ Rest (F := F) c) ⊢ (reg10 m).pre c := by
  rw [V25_eq]; exact .rfl
theorem hpost10 (c : Dev nD) : (reg10 m).post c ⊢ iprop(StableHlo.held (c : Thread nD τ) (Pipeline.ucRefs τ sig) (V26 m (outs m) c) ∗ Rest (F := F) c) := by
  rw [V26_eq]; exact .rfl
theorem hpre11 (c : Dev nD) : iprop(StableHlo.held (c : Thread nD τ) (Pipeline.ucRefs τ sig) (V27 m (outs m) c) ∗ Rest (F := F) c) ⊢ (reg11 m).pre c := by
  rw [V27_eq]; exact .rfl
theorem hpost11 (c : Dev nD) : (reg11 m).post c ⊢ iprop(StableHlo.held (c : Thread nD τ) (Pipeline.ucRefs τ sig) (V28 m (outs m) c) ∗ Rest (F := F) c) := by
  rw [V28_eq]; exact .rfl
theorem hpre12 (c : Dev nD) : iprop(StableHlo.held (c : Thread nD τ) (Pipeline.ucRefs τ sig) (V29 m (outs m) c) ∗ Rest (F := F) c) ⊢ (reg12 m).pre c := by
  rw [V29_eq]; exact .rfl
theorem hpost12 (c : Dev nD) : (reg12 m).post c ⊢ iprop(StableHlo.held (c : Thread nD τ) (Pipeline.ucRefs τ sig) (V30 m (outs m) c) ∗ Rest (F := F) c) := by
  rw [V30_eq]; exact .rfl
theorem hpre13 (c : Dev nD) : iprop(StableHlo.held (c : Thread nD τ) (Pipeline.ucRefs τ sig) (V33 m (outs m) c) ∗ Rest (F := F) c) ⊢ (reg13 m).pre c := by
  rw [V33_eq]; exact .rfl
theorem hpost13 (c : Dev nD) : (reg13 m).post c ⊢ iprop(StableHlo.held (c : Thread nD τ) (Pipeline.ucRefs τ sig) (V34 m (outs m) c) ∗ Rest (F := F) c) := by
  rw [V34_eq]; exact .rfl
theorem hpre14 (c : Dev nD) : iprop(StableHlo.held (c : Thread nD τ) (Pipeline.ucRefs τ sig) (V35 m (outs m) c) ∗ Rest (F := F) c) ⊢ (reg14 m).pre c := by
  rw [V35_eq]; exact .rfl
theorem hpost14 (c : Dev nD) : (reg14 m).post c ⊢ iprop(StableHlo.held (c : Thread nD τ) (Pipeline.ucRefs τ sig) (V36 m (outs m) c) ∗ Rest (F := F) c) := by
  rw [V36_eq]; exact .rfl
theorem hpre15 (c : Dev nD) : iprop(StableHlo.held (c : Thread nD τ) (Pipeline.ucRefs τ sig) (V37 m (outs m) c) ∗ Rest (F := F) c) ⊢ (reg15 m).pre c := by
  rw [V37_eq]; exact .rfl
theorem hpost15 (c : Dev nD) : (reg15 m).post c ⊢ iprop(StableHlo.held (c : Thread nD τ) (Pipeline.ucRefs τ sig) (V38 m (outs m) c) ∗ Rest (F := F) c) := by
  rw [V38_eq]; exact .rfl
theorem hpre16 (c : Dev nD) : iprop(StableHlo.held (c : Thread nD τ) (Pipeline.ucRefs τ sig) (V39 m (outs m) c) ∗ Rest (F := F) c) ⊢ (reg16 m).pre c := by
  rw [V39_eq]; exact .rfl
theorem hpost16 (c : Dev nD) : (reg16 m).post c ⊢ iprop(StableHlo.held (c : Thread nD τ) (Pipeline.ucRefs τ sig) (V40 m (outs m) c) ∗ Rest (F := F) c) := by
  rw [V40_eq]; exact .rfl

/-! ## The run and the frame -/

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The conditional run at this certificate's records: every unscoped buffer ends at the last valuation. -/
theorem runV : θ_run defs (onTc (τ := τ) (main (F := F))) ⟨m, fun _ => 0, ρ⟩ (fun r => ∀ c : Dev nD,
      ∀ b ∈ Pipeline.ucRefs τ sig, r.2.mem ((c : Thread nD τ).1, b) = V41 m (outs m) c b) :=
  run_cond (F := F) m emb₁ () 𝒱ₙ Lₙ lvₙ (fun _ _ => rfl) ρ (outs m) (pdats m) 0 (fun _ => (BI.emp : sProp 𝕄))
    (initOf (Pipeline.cells cfgs cellOf_inj) (Pipeline.launchToks cfgs cellOf_inj)) hu0 (fun _ c => Rest c) (hE0 ρ) hE17
    (reg0 m) (hpre0 m) (hpost0 m) (reg1 m) (hpre1 m) (hpost1 m) (reg2 m) (hpre2 m) (hpost2 m) (reg3 m) (hpre3 m) (hpost3 m) (reg4 m) (hpre4 m) (hpost4 m) (reg5 m) (hpre5 m) (hpost5 m) (reg6 m) (hpre6 m) (hpost6 m) (reg7 m) (hpre7 m) (hpost7 m) (reg8 m) (hpre8 m) (hpost8 m) (reg9 m) (hpre9 m) (hpost9 m) (reg10 m) (hpre10 m) (hpost10 m) (reg11 m) (hpre11 m) (hpost11 m) (reg12 m) (hpre12 m) (hpost12 m) (reg13 m) (hpre13 m) (hpost13 m) (reg14 m) (hpre14 m) (hpost14 m) (reg15 m) (hpre15 m) (hpost15 m) (reg16 m) (hpre16 m) (hpost16 m)

/-- Every weakly fair execution of @main from memory `m` with zero counters terminates, faults nowhere, and ends with
    every unscoped buffer of every core at the last contents `U41`. -/
theorem run : θ_run defs (onTc (τ := τ) (main (F := F))) ⟨m, fun _ => 0, ρ⟩ (fun r => ∀ c : Dev nD,
      ∀ b ∈ Pipeline.ucRefs τ sig, r.2.mem ((c : Thread nD τ).1, b) = U41 m c b) :=
  (θ_run defs _ _).mono (fun r h c b hb => (h c b hb).trans (by rw [V41_eq])) (runV m ρ)

/-- The frame: every argument array ends holding its launch contents (no item of @main writes an argument). -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)) :=
  (θ_run defs _ _).mono (fun r h c =>
    ⟨(h c _ (mem_uc main_arg0 (by decide))).trans (V41_main_arg0 m (outs m) c),
      (h c _ (mem_uc main_arg1 (by decide))).trans (V41_main_arg1 m (outs m) c),
      (h c _ (mem_uc main_arg2 (by decide))).trans (V41_main_arg2 m (outs m) c),
      (h c _ (mem_uc main_arg3 (by decide))).trans (V41_main_arg3 m (outs m) c),
      (h c _ (mem_uc main_arg4 (by decide))).trans (V41_main_arg4 m (outs m) c),
      (h c _ (mem_uc main_arg5 (by decide))).trans (V41_main_arg5 m (outs m) c),
      (h c _ (mem_uc main_arg6 (by decide))).trans (V41_main_arg6 m (outs m) c),
      (h c _ (mem_uc main_arg7 (by decide))).trans (V41_main_arg7 m (outs m) c),
      (h c _ (mem_uc main_arg8 (by decide))).trans (V41_main_arg8 m (outs m) c),
      (h c _ (mem_uc main_arg9 (by decide))).trans (V41_main_arg9 m (outs m) c),
      (h c _ (mem_uc main_arg10 (by decide))).trans (V41_main_arg10 m (outs m) c),
      (h c _ (mem_uc main_arg11 (by decide))).trans (V41_main_arg11 m (outs m) c),
      (h c _ (mem_uc main_arg12 (by decide))).trans (V41_main_arg12 m (outs m) c),
      (h c _ (mem_uc main_arg13 (by decide))).trans (V41_main_arg13 m (outs m) c),
      (h c _ (mem_uc main_arg14 (by decide))).trans (V41_main_arg14 m (outs m) c),
      (h c _ (mem_uc main_arg15 (by decide))).trans (V41_main_arg15 m (outs m) c),
      (h c _ (mem_uc main_arg16 (by decide))).trans (V41_main_arg16 m (outs m) c),
      (h c _ (mem_uc main_arg17 (by decide))).trans (V41_main_arg17 m (outs m) c),
      (h c _ (mem_uc main_arg18 (by decide))).trans (V41_main_arg18 m (outs m) c),
      (h c _ (mem_uc main_arg19 (by decide))).trans (V41_main_arg19 m (outs m) c),
      (h c _ (mem_uc main_arg20 (by decide))).trans (V41_main_arg20 m (outs m) c),
      (h c _ (mem_uc main_arg21 (by decide))).trans (V41_main_arg21 m (outs m) c),
      (h c _ (mem_uc main_arg22 (by decide))).trans (V41_main_arg22 m (outs m) c),
      (h c _ (mem_uc main_arg23 (by decide))).trans (V41_main_arg23 m (outs m) c),
      (h c _ (mem_uc main_arg24 (by decide))).trans (V41_main_arg24 m (outs m) c),
      (h c _ (mem_uc main_arg25 (by decide))).trans (V41_main_arg25 m (outs m) c),
      (h c _ (mem_uc main_arg26 (by decide))).trans (V41_main_arg26 m (outs m) c),
      (h c _ (mem_uc main_arg27 (by decide))).trans (V41_main_arg27 m (outs m) c),
      (h c _ (mem_uc main_arg28 (by decide))).trans (V41_main_arg28 m (outs m) c),
      (h c _ (mem_uc main_arg29 (by decide))).trans (V41_main_arg29 m (outs m) c),
      (h c _ (mem_uc main_arg30 (by decide))).trans (V41_main_arg30 m (outs m) c),
      (h c _ (mem_uc main_arg31 (by decide))).trans (V41_main_arg31 m (outs m) c),
      (h c _ (mem_uc main_arg32 (by decide))).trans (V41_main_arg32 m (outs m) c),
      (h c _ (mem_uc main_arg33 (by decide))).trans (V41_main_arg33 m (outs m) c),
      (h c _ (mem_uc main_arg34 (by decide))).trans (V41_main_arg34 m (outs m) c),
      (h c _ (mem_uc main_arg35 (by decide))).trans (V41_main_arg35 m (outs m) c),
      (h c _ (mem_uc main_arg36 (by decide))).trans (V41_main_arg36 m (outs m) c),
      (h c _ (mem_uc main_arg37 (by decide))).trans (V41_main_arg37 m (outs m) c)⟩) (runV m ρ)

end Cert.KernelIdeal.Hand

end
-- ==== Proof.LibNaryMore.lean ====
/-
  General lemmas about straight lines of host operations (Lib/StableHlo/Run.lean's `seq` / `after`):
    * `after_append`: the contents after two lines run one after the other;
    * `forall_append`: a property of every operation of two lists holds of their concatenation;
    * `writes_sub_of_mem`: an operation that writes one buffer writes inside any list of references holding it;
    * `nary8_result`, `nary9_result`, `nary16_result` (and their `simp` forms): what an n-ary operation over a
      LITERAL family of 8, 9 or 16 references leaves at its result buffer, each operand's contents at its own
      reference (the analogues of Run.lean's `nary4_result`);
    * `nary_congr_simp_realized`: the congruence lemmas `simp` states for `nary` and `TRef.of`, stated once.
-/
import Idealize.ShloMosaic.Lib.StableHlo.Run

noncomputable section

namespace Idealize.ShloMosaic.StableHlo

variable {τ : Topo} {sig : RefSig} {Val : EltTy → Type}

/-- The contents after two lines run one after the other: the second line's, from the first line's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- What holds of every element of two lists holds of every element of their concatenation. -/
theorem forall_append {α : Type*} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- An operation whose one written buffer is the reference `y` writes inside any list of references holding `y`. -/
theorem writes_sub_of_mem {op : HloOp τ sig Val} {y : Ref sig .tc} {W : List (Ref sig .tc)}
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- `nary` over a literal family of 8 references: the result with each operand's contents at its own reference
    (`Fin.cons (F ↑x0) …` in place of `fun k => F ↑(![x0, …] k)`), so that the rewriting of the operands' contents goes
    on under it. -/
theorem nary8_result {x0 x1 x2 x3 x4 x5 x6 x7 y : Ref sig .tc}
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (fun i => i.elim0))))))))) := by
  rw [nary_result]; congr 1; funext k; fin_cases k <;> rfl
/-- The same, stated for `simp` (the result reference un-indexed). -/
theorem nary8_result' {x0 x1 x2 x3 x4 x5 x6 x7 y : Ref sig .tc}
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (fun i => i.elim0))))))))) :=
  nary8_result f hxs hy F

/-- `nary` over a literal family of 9 references: the result with each operand's contents at its own reference
    (`Fin.cons (F ↑x0) …` in place of `fun k => F ↑(![x0, …] k)`), so that the rewriting of the operands' contents goes
    on under it. -/
theorem nary9_result {x0 x1 x2 x3 x4 x5 x6 x7 x8 y : Ref sig .tc}
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [nary_result]; congr 1; funext k; fin_cases k <;> rfl
/-- The same, stated for `simp` (the result reference un-indexed). -/
theorem nary9_result' {x0 x1 x2 x3 x4 x5 x6 x7 x8 y : Ref sig .tc}
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) :=
  nary9_result f hxs hy F

/-- `nary` over a literal family of 16 references: the result with each operand's contents at its own reference
    (`Fin.cons (F ↑x0) …` in place of `fun k => F ↑(![x0, …] k)`), so that the rewriting of the operands' contents goes
    on under it. -/
theorem nary16_result {x0 x1 x2 x3 x4 x5 x6 x7 x8 x9 x10 x11 x12 x13 x14 x15 y : Ref sig .tc}
    (f : ((k : Fin 16) → ((![x0, x1, x2, x3, x4, x5, x6, x7, x8, x9, x10, x11, x12, x13, x14, x15] : Fin 16 → Ref sig .tc) k).ty.Contents Val) → y.ty.Contents Val) (hxs hy)
    (F : Valuation τ sig Val) :
    (nary (τ := τ) ![x0, x1, x2, x3, x4, x5, x6, x7, x8, x9, x10, x11, x12, x13, x14, x15] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (Fin.cons (F (Proc.devRef .tc x13)) (Fin.cons (F (Proc.devRef .tc x14)) (Fin.cons (F (Proc.devRef .tc x15)) (fun i => i.elim0))))))))))))))))) := by
  rw [nary_result]; congr 1; funext k; fin_cases k <;> rfl
/-- The same, stated for `simp` (the result reference un-indexed). -/
theorem nary16_result' {x0 x1 x2 x3 x4 x5 x6 x7 x8 x9 x10 x11 x12 x13 x14 x15 y : Ref sig .tc}
    (f : ((k : Fin 16) → ((![x0, x1, x2, x3, x4, x5, x6, x7, x8, x9, x10, x11, x12, x13, x14, x15] : Fin 16 → Ref sig .tc) k).ty.Contents Val) → y.ty.Contents Val) (hxs hy)
    (F : Valuation τ sig Val) :
    (nary (τ := τ) ![x0, x1, x2, x3, x4, x5, x6, x7, x8, x9, x10, x11, x12, x13, x14, x15] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (Fin.cons (F (Proc.devRef .tc x13)) (Fin.cons (F (Proc.devRef .tc x14)) (Fin.cons (F (Proc.devRef .tc x15)) (fun i => i.elim0))))))))))))))))) :=
  nary16_result f hxs hy F

/-- The congruence lemma `simp` states for `nary` when it rewrites under one (`nary.congr_simp`), stated here once so
    that every module downstream finds the one copy (as Lib/StableHlo/Run.lean's `congr_simp_realized` does for the other
    builders). -/
theorem nary_congr_simp_realized : True := by
  have := @nary.congr_simp; have := @TRef.of.congr_simp
  trivial

end Idealize.ShloMosaic.StableHlo

end
-- ==== Proof.LibHostCut.lean ====
/-
  Straight lines of host operations cut into consecutive pieces: two pieces that write inside two lists of references write,
  run one after the other, inside the lists' concatenation; a lower bound on the buffer indices of two lists of references is one
  on their concatenation; and a reference whose buffer index is below a list's bound is not in the list.
-/
import Idealize.ShloMosaic.Lib.StableHlo.Run

noncomputable section

namespace Idealize.ShloMosaic.StableHlo

variable {τ : Topo} {sig : RefSig} {Val : EltTy → Type}

/-- Two lines that write inside two lists of references: their concatenation writes inside the lists' concatenation. -/
theorem writes_append {l₁ l₂ : List (HloOp τ sig Val)} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset := by
  have mono : ∀ {A B : List (Ref sig .tc)}, (∀ r ∈ A, r ∈ B) →
      (A.map (Proc.devRef (τ := τ) .tc)).toFinset ⊆ (B.map (Proc.devRef (τ := τ) .tc)).toFinset := by
    intro A B h d hd
    rw [List.mem_toFinset] at hd ⊢
    obtain ⟨r, hr, rfl⟩ := List.mem_map.mp hd
    exact List.mem_map_of_mem (h r hr)
  refine List.forall_iff_forall_mem.mpr fun op hop => ?_
  rcases List.mem_append.mp hop with h | h
  · exact (List.forall_iff_forall_mem.mp h₁ op h).trans (mono fun r hr => List.mem_append_left _ hr)
  · exact (List.forall_iff_forall_mem.mp h₂ op h).trans (mono fun r hr => List.mem_append_right _ hr)

/-- A lower bound on the buffer indices of two lists of references, the first list's no larger than the second's, bounds their
    concatenation. -/
theorem idx_lb_append {κ : Kind} {A B : List (Ref sig κ)} {a b : ℕ} (hab : a ≤ b)
    (hA : ∀ r ∈ A, a ≤ r.idx.val) (hB : ∀ r ∈ B, b ≤ r.idx.val) : ∀ r ∈ A ++ B, a ≤ r.idx.val :=
  fun r h => (List.mem_append.mp h).elim (hA r) fun h' => hab.trans (hB r h')

/-- A reference whose buffer index is below every index of a list of references is not in the list. -/
theorem not_mem_of_idx_lt {κ : Kind} {A : List (Ref sig κ)} {a : ℕ} (hA : ∀ r ∈ A, a ≤ r.idx.val)
    {r : Ref sig κ} (h : r.idx.val < a) : r ∉ A :=
  fun hr => absurd (hA r hr) (Nat.not_le.mpr h)

end Idealize.ShloMosaic.StableHlo

end
-- ==== Proof.Ref.Run.lean ====
/-
  The reference's run. @main is one straight line of 692 host operations, the called functions' operations standing in their calls'
  places (Ref/Ops.lean: `ops`, in 36 pieces); every weakly fair execution terminates, and each TensorCore buffer ends at `R m c`, the
  operations' fold over the launch contents. No operation writes an argument, so the arguments end as launched. A buffer that no
  piece from JJ on writes holds, when piece JJ starts, what it holds at the end.
-/
import proofs.«147763_j11003706212366_2_alg».proof.Proof.Ref.Ops
import proofs.«147763_j11003706212366_2_alg».proof.Proof.LibHostCut
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192
set_option Elab.async false

/-- @main is that straight line: the windows, the called functions' bodies and the records' fields unfolded, both sides are one chain
    of the same `hlo` steps. -/
theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

/-! ## The pieces from one on: what they touch, write and allocate -/

theorem tail_35_sub : (tail_35 : List (HloOp τ sig (Elt F))).Forall fun op => op.bufs ⊆ tcRefs τ sig := ops_35_sub
theorem tail_35_writes : (tail_35 : List (HloOp τ sig (Elt F))).Forall fun op => op.writes ⊆ (tailW_35.map (Proc.devRef (τ := τ) .tc)).toFinset := ops_35_writes
theorem tail_35_fresh : (tail_35 : List (HloOp τ sig (Elt F))).Forall fun op => op.fresh = ∅ := ops_35_fresh

theorem tail_34_sub : (tail_34 : List (HloOp τ sig (Elt F))).Forall fun op => op.bufs ⊆ tcRefs τ sig := forall_append ops_34_sub tail_35_sub
theorem tail_34_writes : (tail_34 : List (HloOp τ sig (Elt F))).Forall fun op => op.writes ⊆ (tailW_34.map (Proc.devRef (τ := τ) .tc)).toFinset := writes_append ops_34_writes tail_35_writes
theorem tail_34_fresh : (tail_34 : List (HloOp τ sig (Elt F))).Forall fun op => op.fresh = ∅ := forall_append ops_34_fresh tail_35_fresh
/-- What no piece from 34 on writes, no piece from 35 on writes. -/
theorem later_35 {r : Ref sig .tc} (h : r ∉ tailW_34) : r ∉ tailW_35 := fun hr => h (List.mem_append_right _ hr)

theorem tail_33_sub : (tail_33 : List (HloOp τ sig (Elt F))).Forall fun op => op.bufs ⊆ tcRefs τ sig := forall_append ops_33_sub tail_34_sub
theorem tail_33_writes : (tail_33 : List (HloOp τ sig (Elt F))).Forall fun op => op.writes ⊆ (tailW_33.map (Proc.devRef (τ := τ) .tc)).toFinset := writes_append ops_33_writes tail_34_writes
theorem tail_33_fresh : (tail_33 : List (HloOp τ sig (Elt F))).Forall fun op => op.fresh = ∅ := forall_append ops_33_fresh tail_34_fresh
/-- What no piece from 33 on writes, no piece from 34 on writes. -/
theorem later_34 {r : Ref sig .tc} (h : r ∉ tailW_33) : r ∉ tailW_34 := fun hr => h (List.mem_append_right _ hr)

theorem tail_32_sub : (tail_32 : List (HloOp τ sig (Elt F))).Forall fun op => op.bufs ⊆ tcRefs τ sig := forall_append ops_32_sub tail_33_sub
theorem tail_32_writes : (tail_32 : List (HloOp τ sig (Elt F))).Forall fun op => op.writes ⊆ (tailW_32.map (Proc.devRef (τ := τ) .tc)).toFinset := writes_append ops_32_writes tail_33_writes
theorem tail_32_fresh : (tail_32 : List (HloOp τ sig (Elt F))).Forall fun op => op.fresh = ∅ := forall_append ops_32_fresh tail_33_fresh
/-- What no piece from 32 on writes, no piece from 33 on writes. -/
theorem later_33 {r : Ref sig .tc} (h : r ∉ tailW_32) : r ∉ tailW_33 := fun hr => h (List.mem_append_right _ hr)

theorem tail_31_sub : (tail_31 : List (HloOp τ sig (Elt F))).Forall fun op => op.bufs ⊆ tcRefs τ sig := forall_append ops_31_sub tail_32_sub
theorem tail_31_writes : (tail_31 : List (HloOp τ sig (Elt F))).Forall fun op => op.writes ⊆ (tailW_31.map (Proc.devRef (τ := τ) .tc)).toFinset := writes_append ops_31_writes tail_32_writes
theorem tail_31_fresh : (tail_31 : List (HloOp τ sig (Elt F))).Forall fun op => op.fresh = ∅ := forall_append ops_31_fresh tail_32_fresh
/-- What no piece from 31 on writes, no piece from 32 on writes. -/
theorem later_32 {r : Ref sig .tc} (h : r ∉ tailW_31) : r ∉ tailW_32 := fun hr => h (List.mem_append_right _ hr)

theorem tail_30_sub : (tail_30 : List (HloOp τ sig (Elt F))).Forall fun op => op.bufs ⊆ tcRefs τ sig := forall_append ops_30_sub tail_31_sub
theorem tail_30_writes : (tail_30 : List (HloOp τ sig (Elt F))).Forall fun op => op.writes ⊆ (tailW_30.map (Proc.devRef (τ := τ) .tc)).toFinset := writes_append ops_30_writes tail_31_writes
theorem tail_30_fresh : (tail_30 : List (HloOp τ sig (Elt F))).Forall fun op => op.fresh = ∅ := forall_append ops_30_fresh tail_31_fresh
/-- What no piece from 30 on writes, no piece from 31 on writes. -/
theorem later_31 {r : Ref sig .tc} (h : r ∉ tailW_30) : r ∉ tailW_31 := fun hr => h (List.mem_append_right _ hr)

theorem tail_29_sub : (tail_29 : List (HloOp τ sig (Elt F))).Forall fun op => op.bufs ⊆ tcRefs τ sig := forall_append ops_29_sub tail_30_sub
theorem tail_29_writes : (tail_29 : List (HloOp τ sig (Elt F))).Forall fun op => op.writes ⊆ (tailW_29.map (Proc.devRef (τ := τ) .tc)).toFinset := writes_append ops_29_writes tail_30_writes
theorem tail_29_fresh : (tail_29 : List (HloOp τ sig (Elt F))).Forall fun op => op.fresh = ∅ := forall_append ops_29_fresh tail_30_fresh
/-- What no piece from 29 on writes, no piece from 30 on writes. -/
theorem later_30 {r : Ref sig .tc} (h : r ∉ tailW_29) : r ∉ tailW_30 := fun hr => h (List.mem_append_right _ hr)

theorem tail_28_sub : (tail_28 : List (HloOp τ sig (Elt F))).Forall fun op => op.bufs ⊆ tcRefs τ sig := forall_append ops_28_sub tail_29_sub
theorem tail_28_writes : (tail_28 : List (HloOp τ sig (Elt F))).Forall fun op => op.writes ⊆ (tailW_28.map (Proc.devRef (τ := τ) .tc)).toFinset := writes_append ops_28_writes tail_29_writes
theorem tail_28_fresh : (tail_28 : List (HloOp τ sig (Elt F))).Forall fun op => op.fresh = ∅ := forall_append ops_28_fresh tail_29_fresh
/-- What no piece from 28 on writes, no piece from 29 on writes. -/
theorem later_29 {r : Ref sig .tc} (h : r ∉ tailW_28) : r ∉ tailW_29 := fun hr => h (List.mem_append_right _ hr)

theorem tail_27_sub : (tail_27 : List (HloOp τ sig (Elt F))).Forall fun op => op.bufs ⊆ tcRefs τ sig := forall_append ops_27_sub tail_28_sub
theorem tail_27_writes : (tail_27 : List (HloOp τ sig (Elt F))).Forall fun op => op.writes ⊆ (tailW_27.map (Proc.devRef (τ := τ) .tc)).toFinset := writes_append ops_27_writes tail_28_writes
theorem tail_27_fresh : (tail_27 : List (HloOp τ sig (Elt F))).Forall fun op => op.fresh = ∅ := forall_append ops_27_fresh tail_28_fresh
/-- What no piece from 27 on writes, no piece from 28 on writes. -/
theorem later_28 {r : Ref sig .tc} (h : r ∉ tailW_27) : r ∉ tailW_28 := fun hr => h (List.mem_append_right _ hr)

theorem tail_26_sub : (tail_26 : List (HloOp τ sig (Elt F))).Forall fun op => op.bufs ⊆ tcRefs τ sig := forall_append ops_26_sub tail_27_sub
theorem tail_26_writes : (tail_26 : List (HloOp τ sig (Elt F))).Forall fun op => op.writes ⊆ (tailW_26.map (Proc.devRef (τ := τ) .tc)).toFinset := writes_append ops_26_writes tail_27_writes
theorem tail_26_fresh : (tail_26 : List (HloOp τ sig (Elt F))).Forall fun op => op.fresh = ∅ := forall_append ops_26_fresh tail_27_fresh
/-- What no piece from 26 on writes, no piece from 27 on writes. -/
theorem later_27 {r : Ref sig .tc} (h : r ∉ tailW_26) : r ∉ tailW_27 := fun hr => h (List.mem_append_right _ hr)

theorem tail_25_sub : (tail_25 : List (HloOp τ sig (Elt F))).Forall fun op => op.bufs ⊆ tcRefs τ sig := forall_append ops_25_sub tail_26_sub
theorem tail_25_writes : (tail_25 : List (HloOp τ sig (Elt F))).Forall fun op => op.writes ⊆ (tailW_25.map (Proc.devRef (τ := τ) .tc)).toFinset := writes_append ops_25_writes tail_26_writes
theorem tail_25_fresh : (tail_25 : List (HloOp τ sig (Elt F))).Forall fun op => op.fresh = ∅ := forall_append ops_25_fresh tail_26_fresh
/-- What no piece from 25 on writes, no piece from 26 on writes. -/
theorem later_26 {r : Ref sig .tc} (h : r ∉ tailW_25) : r ∉ tailW_26 := fun hr => h (List.mem_append_right _ hr)

theorem tail_24_sub : (tail_24 : List (HloOp τ sig (Elt F))).Forall fun op => op.bufs ⊆ tcRefs τ sig := forall_append ops_24_sub tail_25_sub
theorem tail_24_writes : (tail_24 : List (HloOp τ sig (Elt F))).Forall fun op => op.writes ⊆ (tailW_24.map (Proc.devRef (τ := τ) .tc)).toFinset := writes_append ops_24_writes tail_25_writes
theorem tail_24_fresh : (tail_24 : List (HloOp τ sig (Elt F))).Forall fun op => op.fresh = ∅ := forall_append ops_24_fresh tail_25_fresh
/-- What no piece from 24 on writes, no piece from 25 on writes. -/
theorem later_25 {r : Ref sig .tc} (h : r ∉ tailW_24) : r ∉ tailW_25 := fun hr => h (List.mem_append_right _ hr)

theorem tail_23_sub : (tail_23 : List (HloOp τ sig (Elt F))).Forall fun op => op.bufs ⊆ tcRefs τ sig := forall_append ops_23_sub tail_24_sub
theorem tail_23_writes : (tail_23 : List (HloOp τ sig (Elt F))).Forall fun op => op.writes ⊆ (tailW_23.map (Proc.devRef (τ := τ) .tc)).toFinset := writes_append ops_23_writes tail_24_writes
theorem tail_23_fresh : (tail_23 : List (HloOp τ sig (Elt F))).Forall fun op => op.fresh = ∅ := forall_append ops_23_fresh tail_24_fresh
/-- What no piece from 23 on writes, no piece from 24 on writes. -/
theorem later_24 {r : Ref sig .tc} (h : r ∉ tailW_23) : r ∉ tailW_24 := fun hr => h (List.mem_append_right _ hr)

theorem tail_22_sub : (tail_22 : List (HloOp τ sig (Elt F))).Forall fun op => op.bufs ⊆ tcRefs τ sig := forall_append ops_22_sub tail_23_sub
theorem tail_22_writes : (tail_22 : List (HloOp τ sig (Elt F))).Forall fun op => op.writes ⊆ (tailW_22.map (Proc.devRef (τ := τ) .tc)).toFinset := writes_append ops_22_writes tail_23_writes
theorem tail_22_fresh : (tail_22 : List (HloOp τ sig (Elt F))).Forall fun op => op.fresh = ∅ := forall_append ops_22_fresh tail_23_fresh
/-- What no piece from 22 on writes, no piece from 23 on writes. -/
theorem later_23 {r : Ref sig .tc} (h : r ∉ tailW_22) : r ∉ tailW_23 := fun hr => h (List.mem_append_right _ hr)

theorem tail_21_sub : (tail_21 : List (HloOp τ sig (Elt F))).Forall fun op => op.bufs ⊆ tcRefs τ sig := forall_append ops_21_sub tail_22_sub
theorem tail_21_writes : (tail_21 : List (HloOp τ sig (Elt F))).Forall fun op => op.writes ⊆ (tailW_21.map (Proc.devRef (τ := τ) .tc)).toFinset := writes_append ops_21_writes tail_22_writes
theorem tail_21_fresh : (tail_21 : List (HloOp τ sig (Elt F))).Forall fun op => op.fresh = ∅ := forall_append ops_21_fresh tail_22_fresh
/-- What no piece from 21 on writes, no piece from 22 on writes. -/
theorem later_22 {r : Ref sig .tc} (h : r ∉ tailW_21) : r ∉ tailW_22 := fun hr => h (List.mem_append_right _ hr)

theorem tail_20_sub : (tail_20 : List (HloOp τ sig (Elt F))).Forall fun op => op.bufs ⊆ tcRefs τ sig := forall_append ops_20_sub tail_21_sub
theorem tail_20_writes : (tail_20 : List (HloOp τ sig (Elt F))).Forall fun op => op.writes ⊆ (tailW_20.map (Proc.devRef (τ := τ) .tc)).toFinset := writes_append ops_20_writes tail_21_writes
theorem tail_20_fresh : (tail_20 : List (HloOp τ sig (Elt F))).Forall fun op => op.fresh = ∅ := forall_append ops_20_fresh tail_21_fresh
/-- What no piece from 20 on writes, no piece from 21 on writes. -/
theorem later_21 {r : Ref sig .tc} (h : r ∉ tailW_20) : r ∉ tailW_21 := fun hr => h (List.mem_append_right _ hr)

theorem tail_19_sub : (tail_19 : List (HloOp τ sig (Elt F))).Forall fun op => op.bufs ⊆ tcRefs τ sig := forall_append ops_19_sub tail_20_sub
theorem tail_19_writes : (tail_19 : List (HloOp τ sig (Elt F))).Forall fun op => op.writes ⊆ (tailW_19.map (Proc.devRef (τ := τ) .tc)).toFinset := writes_append ops_19_writes tail_20_writes
theorem tail_19_fresh : (tail_19 : List (HloOp τ sig (Elt F))).Forall fun op => op.fresh = ∅ := forall_append ops_19_fresh tail_20_fresh
/-- What no piece from 19 on writes, no piece from 20 on writes. -/
theorem later_20 {r : Ref sig .tc} (h : r ∉ tailW_19) : r ∉ tailW_20 := fun hr => h (List.mem_append_right _ hr)

theorem tail_18_sub : (tail_18 : List (HloOp τ sig (Elt F))).Forall fun op => op.bufs ⊆ tcRefs τ sig := forall_append ops_18_sub tail_19_sub
theorem tail_18_writes : (tail_18 : List (HloOp τ sig (Elt F))).Forall fun op => op.writes ⊆ (tailW_18.map (Proc.devRef (τ := τ) .tc)).toFinset := writes_append ops_18_writes tail_19_writes
theorem tail_18_fresh : (tail_18 : List (HloOp τ sig (Elt F))).Forall fun op => op.fresh = ∅ := forall_append ops_18_fresh tail_19_fresh
/-- What no piece from 18 on writes, no piece from 19 on writes. -/
theorem later_19 {r : Ref sig .tc} (h : r ∉ tailW_18) : r ∉ tailW_19 := fun hr => h (List.mem_append_right _ hr)

theorem tail_17_sub : (tail_17 : List (HloOp τ sig (Elt F))).Forall fun op => op.bufs ⊆ tcRefs τ sig := forall_append ops_17_sub tail_18_sub
theorem tail_17_writes : (tail_17 : List (HloOp τ sig (Elt F))).Forall fun op => op.writes ⊆ (tailW_17.map (Proc.devRef (τ := τ) .tc)).toFinset := writes_append ops_17_writes tail_18_writes
theorem tail_17_fresh : (tail_17 : List (HloOp τ sig (Elt F))).Forall fun op => op.fresh = ∅ := forall_append ops_17_fresh tail_18_fresh
/-- What no piece from 17 on writes, no piece from 18 on writes. -/
theorem later_18 {r : Ref sig .tc} (h : r ∉ tailW_17) : r ∉ tailW_18 := fun hr => h (List.mem_append_right _ hr)

theorem tail_16_sub : (tail_16 : List (HloOp τ sig (Elt F))).Forall fun op => op.bufs ⊆ tcRefs τ sig := forall_append ops_16_sub tail_17_sub
theorem tail_16_writes : (tail_16 : List (HloOp τ sig (Elt F))).Forall fun op => op.writes ⊆ (tailW_16.map (Proc.devRef (τ := τ) .tc)).toFinset := writes_append ops_16_writes tail_17_writes
theorem tail_16_fresh : (tail_16 : List (HloOp τ sig (Elt F))).Forall fun op => op.fresh = ∅ := forall_append ops_16_fresh tail_17_fresh
/-- What no piece from 16 on writes, no piece from 17 on writes. -/
theorem later_17 {r : Ref sig .tc} (h : r ∉ tailW_16) : r ∉ tailW_17 := fun hr => h (List.mem_append_right _ hr)

theorem tail_15_sub : (tail_15 : List (HloOp τ sig (Elt F))).Forall fun op => op.bufs ⊆ tcRefs τ sig := forall_append ops_15_sub tail_16_sub
theorem tail_15_writes : (tail_15 : List (HloOp τ sig (Elt F))).Forall fun op => op.writes ⊆ (tailW_15.map (Proc.devRef (τ := τ) .tc)).toFinset := writes_append ops_15_writes tail_16_writes
theorem tail_15_fresh : (tail_15 : List (HloOp τ sig (Elt F))).Forall fun op => op.fresh = ∅ := forall_append ops_15_fresh tail_16_fresh
/-- What no piece from 15 on writes, no piece from 16 on writes. -/
theorem later_16 {r : Ref sig .tc} (h : r ∉ tailW_15) : r ∉ tailW_16 := fun hr => h (List.mem_append_right _ hr)

theorem tail_14_sub : (tail_14 : List (HloOp τ sig (Elt F))).Forall fun op => op.bufs ⊆ tcRefs τ sig := forall_append ops_14_sub tail_15_sub
theorem tail_14_writes : (tail_14 : List (HloOp τ sig (Elt F))).Forall fun op => op.writes ⊆ (tailW_14.map (Proc.devRef (τ := τ) .tc)).toFinset := writes_append ops_14_writes tail_15_writes
theorem tail_14_fresh : (tail_14 : List (HloOp τ sig (Elt F))).Forall fun op => op.fresh = ∅ := forall_append ops_14_fresh tail_15_fresh
/-- What no piece from 14 on writes, no piece from 15 on writes. -/
theorem later_15 {r : Ref sig .tc} (h : r ∉ tailW_14) : r ∉ tailW_15 := fun hr => h (List.mem_append_right _ hr)

theorem tail_13_sub : (tail_13 : List (HloOp τ sig (Elt F))).Forall fun op => op.bufs ⊆ tcRefs τ sig := forall_append ops_13_sub tail_14_sub
theorem tail_13_writes : (tail_13 : List (HloOp τ sig (Elt F))).Forall fun op => op.writes ⊆ (tailW_13.map (Proc.devRef (τ := τ) .tc)).toFinset := writes_append ops_13_writes tail_14_writes
theorem tail_13_fresh : (tail_13 : List (HloOp τ sig (Elt F))).Forall fun op => op.fresh = ∅ := forall_append ops_13_fresh tail_14_fresh
/-- What no piece from 13 on writes, no piece from 14 on writes. -/
theorem later_14 {r : Ref sig .tc} (h : r ∉ tailW_13) : r ∉ tailW_14 := fun hr => h (List.mem_append_right _ hr)

theorem tail_12_sub : (tail_12 : List (HloOp τ sig (Elt F))).Forall fun op => op.bufs ⊆ tcRefs τ sig := forall_append ops_12_sub tail_13_sub
theorem tail_12_writes : (tail_12 : List (HloOp τ sig (Elt F))).Forall fun op => op.writes ⊆ (tailW_12.map (Proc.devRef (τ := τ) .tc)).toFinset := writes_append ops_12_writes tail_13_writes
theorem tail_12_fresh : (tail_12 : List (HloOp τ sig (Elt F))).Forall fun op => op.fresh = ∅ := forall_append ops_12_fresh tail_13_fresh
/-- What no piece from 12 on writes, no piece from 13 on writes. -/
theorem later_13 {r : Ref sig .tc} (h : r ∉ tailW_12) : r ∉ tailW_13 := fun hr => h (List.mem_append_right _ hr)

theorem tail_11_sub : (tail_11 : List (HloOp τ sig (Elt F))).Forall fun op => op.bufs ⊆ tcRefs τ sig := forall_append ops_11_sub tail_12_sub
theorem tail_11_writes : (tail_11 : List (HloOp τ sig (Elt F))).Forall fun op => op.writes ⊆ (tailW_11.map (Proc.devRef (τ := τ) .tc)).toFinset := writes_append ops_11_writes tail_12_writes
theorem tail_11_fresh : (tail_11 : List (HloOp τ sig (Elt F))).Forall fun op => op.fresh = ∅ := forall_append ops_11_fresh tail_12_fresh
/-- What no piece from 11 on writes, no piece from 12 on writes. -/
theorem later_12 {r : Ref sig .tc} (h : r ∉ tailW_11) : r ∉ tailW_12 := fun hr => h (List.mem_append_right _ hr)

theorem tail_10_sub : (tail_10 : List (HloOp τ sig (Elt F))).Forall fun op => op.bufs ⊆ tcRefs τ sig := forall_append ops_10_sub tail_11_sub
theorem tail_10_writes : (tail_10 : List (HloOp τ sig (Elt F))).Forall fun op => op.writes ⊆ (tailW_10.map (Proc.devRef (τ := τ) .tc)).toFinset := writes_append ops_10_writes tail_11_writes
theorem tail_10_fresh : (tail_10 : List (HloOp τ sig (Elt F))).Forall fun op => op.fresh = ∅ := forall_append ops_10_fresh tail_11_fresh
/-- What no piece from 10 on writes, no piece from 11 on writes. -/
theorem later_11 {r : Ref sig .tc} (h : r ∉ tailW_10) : r ∉ tailW_11 := fun hr => h (List.mem_append_right _ hr)

theorem tail_09_sub : (tail_09 : List (HloOp τ sig (Elt F))).Forall fun op => op.bufs ⊆ tcRefs τ sig := forall_append ops_09_sub tail_10_sub
theorem tail_09_writes : (tail_09 : List (HloOp τ sig (Elt F))).Forall fun op => op.writes ⊆ (tailW_09.map (Proc.devRef (τ := τ) .tc)).toFinset := writes_append ops_09_writes tail_10_writes
theorem tail_09_fresh : (tail_09 : List (HloOp τ sig (Elt F))).Forall fun op => op.fresh = ∅ := forall_append ops_09_fresh tail_10_fresh
/-- What no piece from 09 on writes, no piece from 10 on writes. -/
theorem later_10 {r : Ref sig .tc} (h : r ∉ tailW_09) : r ∉ tailW_10 := fun hr => h (List.mem_append_right _ hr)

theorem tail_08_sub : (tail_08 : List (HloOp τ sig (Elt F))).Forall fun op => op.bufs ⊆ tcRefs τ sig := forall_append ops_08_sub tail_09_sub
theorem tail_08_writes : (tail_08 : List (HloOp τ sig (Elt F))).Forall fun op => op.writes ⊆ (tailW_08.map (Proc.devRef (τ := τ) .tc)).toFinset := writes_append ops_08_writes tail_09_writes
theorem tail_08_fresh : (tail_08 : List (HloOp τ sig (Elt F))).Forall fun op => op.fresh = ∅ := forall_append ops_08_fresh tail_09_fresh
/-- What no piece from 08 on writes, no piece from 09 on writes. -/
theorem later_09 {r : Ref sig .tc} (h : r ∉ tailW_08) : r ∉ tailW_09 := fun hr => h (List.mem_append_right _ hr)

theorem tail_07_sub : (tail_07 : List (HloOp τ sig (Elt F))).Forall fun op => op.bufs ⊆ tcRefs τ sig := forall_append ops_07_sub tail_08_sub
theorem tail_07_writes : (tail_07 : List (HloOp τ sig (Elt F))).Forall fun op => op.writes ⊆ (tailW_07.map (Proc.devRef (τ := τ) .tc)).toFinset := writes_append ops_07_writes tail_08_writes
theorem tail_07_fresh : (tail_07 : List (HloOp τ sig (Elt F))).Forall fun op => op.fresh = ∅ := forall_append ops_07_fresh tail_08_fresh
/-- What no piece from 07 on writes, no piece from 08 on writes. -/
theorem later_08 {r : Ref sig .tc} (h : r ∉ tailW_07) : r ∉ tailW_08 := fun hr => h (List.mem_append_right _ hr)

theorem tail_06_sub : (tail_06 : List (HloOp τ sig (Elt F))).Forall fun op => op.bufs ⊆ tcRefs τ sig := forall_append ops_06_sub tail_07_sub
theorem tail_06_writes : (tail_06 : List (HloOp τ sig (Elt F))).Forall fun op => op.writes ⊆ (tailW_06.map (Proc.devRef (τ := τ) .tc)).toFinset := writes_append ops_06_writes tail_07_writes
theorem tail_06_fresh : (tail_06 : List (HloOp τ sig (Elt F))).Forall fun op => op.fresh = ∅ := forall_append ops_06_fresh tail_07_fresh
/-- What no piece from 06 on writes, no piece from 07 on writes. -/
theorem later_07 {r : Ref sig .tc} (h : r ∉ tailW_06) : r ∉ tailW_07 := fun hr => h (List.mem_append_right _ hr)

theorem tail_05_sub : (tail_05 : List (HloOp τ sig (Elt F))).Forall fun op => op.bufs ⊆ tcRefs τ sig := forall_append ops_05_sub tail_06_sub
theorem tail_05_writes : (tail_05 : List (HloOp τ sig (Elt F))).Forall fun op => op.writes ⊆ (tailW_05.map (Proc.devRef (τ := τ) .tc)).toFinset := writes_append ops_05_writes tail_06_writes
theorem tail_05_fresh : (tail_05 : List (HloOp τ sig (Elt F))).Forall fun op => op.fresh = ∅ := forall_append ops_05_fresh tail_06_fresh
/-- What no piece from 05 on writes, no piece from 06 on writes. -/
theorem later_06 {r : Ref sig .tc} (h : r ∉ tailW_05) : r ∉ tailW_06 := fun hr => h (List.mem_append_right _ hr)

theorem tail_04_sub : (tail_04 : List (HloOp τ sig (Elt F))).Forall fun op => op.bufs ⊆ tcRefs τ sig := forall_append ops_04_sub tail_05_sub
theorem tail_04_writes : (tail_04 : List (HloOp τ sig (Elt F))).Forall fun op => op.writes ⊆ (tailW_04.map (Proc.devRef (τ := τ) .tc)).toFinset := writes_append ops_04_writes tail_05_writes
theorem tail_04_fresh : (tail_04 : List (HloOp τ sig (Elt F))).Forall fun op => op.fresh = ∅ := forall_append ops_04_fresh tail_05_fresh
/-- What no piece from 04 on writes, no piece from 05 on writes. -/
theorem later_05 {r : Ref sig .tc} (h : r ∉ tailW_04) : r ∉ tailW_05 := fun hr => h (List.mem_append_right _ hr)

theorem tail_03_sub : (tail_03 : List (HloOp τ sig (Elt F))).Forall fun op => op.bufs ⊆ tcRefs τ sig := forall_append ops_03_sub tail_04_sub
theorem tail_03_writes : (tail_03 : List (HloOp τ sig (Elt F))).Forall fun op => op.writes ⊆ (tailW_03.map (Proc.devRef (τ := τ) .tc)).toFinset := writes_append ops_03_writes tail_04_writes
theorem tail_03_fresh : (tail_03 : List (HloOp τ sig (Elt F))).Forall fun op => op.fresh = ∅ := forall_append ops_03_fresh tail_04_fresh
/-- What no piece from 03 on writes, no piece from 04 on writes. -/
theorem later_04 {r : Ref sig .tc} (h : r ∉ tailW_03) : r ∉ tailW_04 := fun hr => h (List.mem_append_right _ hr)

theorem tail_02_sub : (tail_02 : List (HloOp τ sig (Elt F))).Forall fun op => op.bufs ⊆ tcRefs τ sig := forall_append ops_02_sub tail_03_sub
theorem tail_02_writes : (tail_02 : List (HloOp τ sig (Elt F))).Forall fun op => op.writes ⊆ (tailW_02.map (Proc.devRef (τ := τ) .tc)).toFinset := writes_append ops_02_writes tail_03_writes
theorem tail_02_fresh : (tail_02 : List (HloOp τ sig (Elt F))).Forall fun op => op.fresh = ∅ := forall_append ops_02_fresh tail_03_fresh
/-- What no piece from 02 on writes, no piece from 03 on writes. -/
theorem later_03 {r : Ref sig .tc} (h : r ∉ tailW_02) : r ∉ tailW_03 := fun hr => h (List.mem_append_right _ hr)

theorem tail_01_sub : (tail_01 : List (HloOp τ sig (Elt F))).Forall fun op => op.bufs ⊆ tcRefs τ sig := forall_append ops_01_sub tail_02_sub
theorem tail_01_writes : (tail_01 : List (HloOp τ sig (Elt F))).Forall fun op => op.writes ⊆ (tailW_01.map (Proc.devRef (τ := τ) .tc)).toFinset := writes_append ops_01_writes tail_02_writes
theorem tail_01_fresh : (tail_01 : List (HloOp τ sig (Elt F))).Forall fun op => op.fresh = ∅ := forall_append ops_01_fresh tail_02_fresh
/-- What no piece from 01 on writes, no piece from 02 on writes. -/
theorem later_02 {r : Ref sig .tc} (h : r ∉ tailW_01) : r ∉ tailW_02 := fun hr => h (List.mem_append_right _ hr)

theorem tail_00_sub : (tail_00 : List (HloOp τ sig (Elt F))).Forall fun op => op.bufs ⊆ tcRefs τ sig := forall_append ops_00_sub tail_01_sub
theorem tail_00_writes : (tail_00 : List (HloOp τ sig (Elt F))).Forall fun op => op.writes ⊆ (tailW_00.map (Proc.devRef (τ := τ) .tc)).toFinset := writes_append ops_00_writes tail_01_writes
theorem tail_00_fresh : (tail_00 : List (HloOp τ sig (Elt F))).Forall fun op => op.fresh = ∅ := forall_append ops_00_fresh tail_01_fresh
/-- What no piece from 00 on writes, no piece from 01 on writes. -/
theorem later_01 {r : Ref sig .tc} (h : r ∉ tailW_00) : r ∉ tailW_01 := fun hr => h (List.mem_append_right _ hr)

/-! ## The contents at the end, and when each piece starts -/

/-- What core `c`'s buffers hold after @main: the 692 operations' fold over what the launch dealt. -/
def R (m : (ℓ : Loc nD τ sig) → Buf (Elt F) ℓ) (c : Dev nD) : Valuation τ sig (Elt F) := after ops (launchContents m c)

/-- What they hold when piece 00 starts: the launch contents. -/
def A_00 (m : (ℓ : Loc nD τ sig) → Buf (Elt F) ℓ) (c : Dev nD) : Valuation τ sig (Elt F) := launchContents m c
/-- What they hold when piece 00 has run and piece 01 starts. -/
def A_01 (m : (ℓ : Loc nD τ sig) → Buf (Elt F) ℓ) (c : Dev nD) : Valuation τ sig (Elt F) := after ops_00 (A_00 m c)
/-- What they hold when piece 01 has run and piece 02 starts. -/
def A_02 (m : (ℓ : Loc nD τ sig) → Buf (Elt F) ℓ) (c : Dev nD) : Valuation τ sig (Elt F) := after ops_01 (A_01 m c)
/-- What they hold when piece 02 has run and piece 03 starts. -/
def A_03 (m : (ℓ : Loc nD τ sig) → Buf (Elt F) ℓ) (c : Dev nD) : Valuation τ sig (Elt F) := after ops_02 (A_02 m c)
/-- What they hold when piece 03 has run and piece 04 starts. -/
def A_04 (m : (ℓ : Loc nD τ sig) → Buf (Elt F) ℓ) (c : Dev nD) : Valuation τ sig (Elt F) := after ops_03 (A_03 m c)
/-- What they hold when piece 04 has run and piece 05 starts. -/
def A_05 (m : (ℓ : Loc nD τ sig) → Buf (Elt F) ℓ) (c : Dev nD) : Valuation τ sig (Elt F) := after ops_04 (A_04 m c)
/-- What they hold when piece 05 has run and piece 06 starts. -/
def A_06 (m : (ℓ : Loc nD τ sig) → Buf (Elt F) ℓ) (c : Dev nD) : Valuation τ sig (Elt F) := after ops_05 (A_05 m c)
/-- What they hold when piece 06 has run and piece 07 starts. -/
def A_07 (m : (ℓ : Loc nD τ sig) → Buf (Elt F) ℓ) (c : Dev nD) : Valuation τ sig (Elt F) := after ops_06 (A_06 m c)
/-- What they hold when piece 07 has run and piece 08 starts. -/
def A_08 (m : (ℓ : Loc nD τ sig) → Buf (Elt F) ℓ) (c : Dev nD) : Valuation τ sig (Elt F) := after ops_07 (A_07 m c)
/-- What they hold when piece 08 has run and piece 09 starts. -/
def A_09 (m : (ℓ : Loc nD τ sig) → Buf (Elt F) ℓ) (c : Dev nD) : Valuation τ sig (Elt F) := after ops_08 (A_08 m c)
/-- What they hold when piece 09 has run and piece 10 starts. -/
def A_10 (m : (ℓ : Loc nD τ sig) → Buf (Elt F) ℓ) (c : Dev nD) : Valuation τ sig (Elt F) := after ops_09 (A_09 m c)
/-- What they hold when piece 10 has run and piece 11 starts. -/
def A_11 (m : (ℓ : Loc nD τ sig) → Buf (Elt F) ℓ) (c : Dev nD) : Valuation τ sig (Elt F) := after ops_10 (A_10 m c)
/-- What they hold when piece 11 has run and piece 12 starts. -/
def A_12 (m : (ℓ : Loc nD τ sig) → Buf (Elt F) ℓ) (c : Dev nD) : Valuation τ sig (Elt F) := after ops_11 (A_11 m c)
/-- What they hold when piece 12 has run and piece 13 starts. -/
def A_13 (m : (ℓ : Loc nD τ sig) → Buf (Elt F) ℓ) (c : Dev nD) : Valuation τ sig (Elt F) := after ops_12 (A_12 m c)
/-- What they hold when piece 13 has run and piece 14 starts. -/
def A_14 (m : (ℓ : Loc nD τ sig) → Buf (Elt F) ℓ) (c : Dev nD) : Valuation τ sig (Elt F) := after ops_13 (A_13 m c)
/-- What they hold when piece 14 has run and piece 15 starts. -/
def A_15 (m : (ℓ : Loc nD τ sig) → Buf (Elt F) ℓ) (c : Dev nD) : Valuation τ sig (Elt F) := after ops_14 (A_14 m c)
/-- What they hold when piece 15 has run and piece 16 starts. -/
def A_16 (m : (ℓ : Loc nD τ sig) → Buf (Elt F) ℓ) (c : Dev nD) : Valuation τ sig (Elt F) := after ops_15 (A_15 m c)
/-- What they hold when piece 16 has run and piece 17 starts. -/
def A_17 (m : (ℓ : Loc nD τ sig) → Buf (Elt F) ℓ) (c : Dev nD) : Valuation τ sig (Elt F) := after ops_16 (A_16 m c)
/-- What they hold when piece 17 has run and piece 18 starts. -/
def A_18 (m : (ℓ : Loc nD τ sig) → Buf (Elt F) ℓ) (c : Dev nD) : Valuation τ sig (Elt F) := after ops_17 (A_17 m c)
/-- What they hold when piece 18 has run and piece 19 starts. -/
def A_19 (m : (ℓ : Loc nD τ sig) → Buf (Elt F) ℓ) (c : Dev nD) : Valuation τ sig (Elt F) := after ops_18 (A_18 m c)
/-- What they hold when piece 19 has run and piece 20 starts. -/
def A_20 (m : (ℓ : Loc nD τ sig) → Buf (Elt F) ℓ) (c : Dev nD) : Valuation τ sig (Elt F) := after ops_19 (A_19 m c)
/-- What they hold when piece 20 has run and piece 21 starts. -/
def A_21 (m : (ℓ : Loc nD τ sig) → Buf (Elt F) ℓ) (c : Dev nD) : Valuation τ sig (Elt F) := after ops_20 (A_20 m c)
/-- What they hold when piece 21 has run and piece 22 starts. -/
def A_22 (m : (ℓ : Loc nD τ sig) → Buf (Elt F) ℓ) (c : Dev nD) : Valuation τ sig (Elt F) := after ops_21 (A_21 m c)
/-- What they hold when piece 22 has run and piece 23 starts. -/
def A_23 (m : (ℓ : Loc nD τ sig) → Buf (Elt F) ℓ) (c : Dev nD) : Valuation τ sig (Elt F) := after ops_22 (A_22 m c)
/-- What they hold when piece 23 has run and piece 24 starts. -/
def A_24 (m : (ℓ : Loc nD τ sig) → Buf (Elt F) ℓ) (c : Dev nD) : Valuation τ sig (Elt F) := after ops_23 (A_23 m c)
/-- What they hold when piece 24 has run and piece 25 starts. -/
def A_25 (m : (ℓ : Loc nD τ sig) → Buf (Elt F) ℓ) (c : Dev nD) : Valuation τ sig (Elt F) := after ops_24 (A_24 m c)
/-- What they hold when piece 25 has run and piece 26 starts. -/
def A_26 (m : (ℓ : Loc nD τ sig) → Buf (Elt F) ℓ) (c : Dev nD) : Valuation τ sig (Elt F) := after ops_25 (A_25 m c)
/-- What they hold when piece 26 has run and piece 27 starts. -/
def A_27 (m : (ℓ : Loc nD τ sig) → Buf (Elt F) ℓ) (c : Dev nD) : Valuation τ sig (Elt F) := after ops_26 (A_26 m c)
/-- What they hold when piece 27 has run and piece 28 starts. -/
def A_28 (m : (ℓ : Loc nD τ sig) → Buf (Elt F) ℓ) (c : Dev nD) : Valuation τ sig (Elt F) := after ops_27 (A_27 m c)
/-- What they hold when piece 28 has run and piece 29 starts. -/
def A_29 (m : (ℓ : Loc nD τ sig) → Buf (Elt F) ℓ) (c : Dev nD) : Valuation τ sig (Elt F) := after ops_28 (A_28 m c)
/-- What they hold when piece 29 has run and piece 30 starts. -/
def A_30 (m : (ℓ : Loc nD τ sig) → Buf (Elt F) ℓ) (c : Dev nD) : Valuation τ sig (Elt F) := after ops_29 (A_29 m c)
/-- What they hold when piece 30 has run and piece 31 starts. -/
def A_31 (m : (ℓ : Loc nD τ sig) → Buf (Elt F) ℓ) (c : Dev nD) : Valuation τ sig (Elt F) := after ops_30 (A_30 m c)
/-- What they hold when piece 31 has run and piece 32 starts. -/
def A_32 (m : (ℓ : Loc nD τ sig) → Buf (Elt F) ℓ) (c : Dev nD) : Valuation τ sig (Elt F) := after ops_31 (A_31 m c)
/-- What they hold when piece 32 has run and piece 33 starts. -/
def A_33 (m : (ℓ : Loc nD τ sig) → Buf (Elt F) ℓ) (c : Dev nD) : Valuation τ sig (Elt F) := after ops_32 (A_32 m c)
/-- What they hold when piece 33 has run and piece 34 starts. -/
def A_34 (m : (ℓ : Loc nD τ sig) → Buf (Elt F) ℓ) (c : Dev nD) : Valuation τ sig (Elt F) := after ops_33 (A_33 m c)
/-- What they hold when piece 34 has run and piece 35 starts. -/
def A_35 (m : (ℓ : Loc nD τ sig) → Buf (Elt F) ℓ) (c : Dev nD) : Valuation τ sig (Elt F) := after ops_34 (A_34 m c)
/-- What they hold when piece 35 has run: the end. -/
def A_36 (m : (ℓ : Loc nD τ sig) → Buf (Elt F) ℓ) (c : Dev nD) : Valuation τ sig (Elt F) := after ops_35 (A_35 m c)

theorem R_eq_00 (m : (ℓ : Loc nD τ sig) → Buf (Elt F) ℓ) (c : Dev nD) : R m c = after tail_00 (A_00 m c) := rfl
theorem R_eq_01 (m : (ℓ : Loc nD τ sig) → Buf (Elt F) ℓ) (c : Dev nD) : R m c = after tail_01 (A_01 m c) :=
  (R_eq_00 m c).trans (after_append ops_00 tail_01 (A_00 m c))
theorem R_eq_02 (m : (ℓ : Loc nD τ sig) → Buf (Elt F) ℓ) (c : Dev nD) : R m c = after tail_02 (A_02 m c) :=
  (R_eq_01 m c).trans (after_append ops_01 tail_02 (A_01 m c))
theorem R_eq_03 (m : (ℓ : Loc nD τ sig) → Buf (Elt F) ℓ) (c : Dev nD) : R m c = after tail_03 (A_03 m c) :=
  (R_eq_02 m c).trans (after_append ops_02 tail_03 (A_02 m c))
theorem R_eq_04 (m : (ℓ : Loc nD τ sig) → Buf (Elt F) ℓ) (c : Dev nD) : R m c = after tail_04 (A_04 m c) :=
  (R_eq_03 m c).trans (after_append ops_03 tail_04 (A_03 m c))
theorem R_eq_05 (m : (ℓ : Loc nD τ sig) → Buf (Elt F) ℓ) (c : Dev nD) : R m c = after tail_05 (A_05 m c) :=
  (R_eq_04 m c).trans (after_append ops_04 tail_05 (A_04 m c))
theorem R_eq_06 (m : (ℓ : Loc nD τ sig) → Buf (Elt F) ℓ) (c : Dev nD) : R m c = after tail_06 (A_06 m c) :=
  (R_eq_05 m c).trans (after_append ops_05 tail_06 (A_05 m c))
theorem R_eq_07 (m : (ℓ : Loc nD τ sig) → Buf (Elt F) ℓ) (c : Dev nD) : R m c = after tail_07 (A_07 m c) :=
  (R_eq_06 m c).trans (after_append ops_06 tail_07 (A_06 m c))
theorem R_eq_08 (m : (ℓ : Loc nD τ sig) → Buf (Elt F) ℓ) (c : Dev nD) : R m c = after tail_08 (A_08 m c) :=
  (R_eq_07 m c).trans (after_append ops_07 tail_08 (A_07 m c))
theorem R_eq_09 (m : (ℓ : Loc nD τ sig) → Buf (Elt F) ℓ) (c : Dev nD) : R m c = after tail_09 (A_09 m c) :=
  (R_eq_08 m c).trans (after_append ops_08 tail_09 (A_08 m c))
theorem R_eq_10 (m : (ℓ : Loc nD τ sig) → Buf (Elt F) ℓ) (c : Dev nD) : R m c = after tail_10 (A_10 m c) :=
  (R_eq_09 m c).trans (after_append ops_09 tail_10 (A_09 m c))
theorem R_eq_11 (m : (ℓ : Loc nD τ sig) → Buf (Elt F) ℓ) (c : Dev nD) : R m c = after tail_11 (A_11 m c) :=
  (R_eq_10 m c).trans (after_append ops_10 tail_11 (A_10 m c))
theorem R_eq_12 (m : (ℓ : Loc nD τ sig) → Buf (Elt F) ℓ) (c : Dev nD) : R m c = after tail_12 (A_12 m c) :=
  (R_eq_11 m c).trans (after_append ops_11 tail_12 (A_11 m c))
theorem R_eq_13 (m : (ℓ : Loc nD τ sig) → Buf (Elt F) ℓ) (c : Dev nD) : R m c = after tail_13 (A_13 m c) :=
  (R_eq_12 m c).trans (after_append ops_12 tail_13 (A_12 m c))
theorem R_eq_14 (m : (ℓ : Loc nD τ sig) → Buf (Elt F) ℓ) (c : Dev nD) : R m c = after tail_14 (A_14 m c) :=
  (R_eq_13 m c).trans (after_append ops_13 tail_14 (A_13 m c))
theorem R_eq_15 (m : (ℓ : Loc nD τ sig) → Buf (Elt F) ℓ) (c : Dev nD) : R m c = after tail_15 (A_15 m c) :=
  (R_eq_14 m c).trans (after_append ops_14 tail_15 (A_14 m c))
theorem R_eq_16 (m : (ℓ : Loc nD τ sig) → Buf (Elt F) ℓ) (c : Dev nD) : R m c = after tail_16 (A_16 m c) :=
  (R_eq_15 m c).trans (after_append ops_15 tail_16 (A_15 m c))
theorem R_eq_17 (m : (ℓ : Loc nD τ sig) → Buf (Elt F) ℓ) (c : Dev nD) : R m c = after tail_17 (A_17 m c) :=
  (R_eq_16 m c).trans (after_append ops_16 tail_17 (A_16 m c))
theorem R_eq_18 (m : (ℓ : Loc nD τ sig) → Buf (Elt F) ℓ) (c : Dev nD) : R m c = after tail_18 (A_18 m c) :=
  (R_eq_17 m c).trans (after_append ops_17 tail_18 (A_17 m c))
theorem R_eq_19 (m : (ℓ : Loc nD τ sig) → Buf (Elt F) ℓ) (c : Dev nD) : R m c = after tail_19 (A_19 m c) :=
  (R_eq_18 m c).trans (after_append ops_18 tail_19 (A_18 m c))
theorem R_eq_20 (m : (ℓ : Loc nD τ sig) → Buf (Elt F) ℓ) (c : Dev nD) : R m c = after tail_20 (A_20 m c) :=
  (R_eq_19 m c).trans (after_append ops_19 tail_20 (A_19 m c))
theorem R_eq_21 (m : (ℓ : Loc nD τ sig) → Buf (Elt F) ℓ) (c : Dev nD) : R m c = after tail_21 (A_21 m c) :=
  (R_eq_20 m c).trans (after_append ops_20 tail_21 (A_20 m c))
theorem R_eq_22 (m : (ℓ : Loc nD τ sig) → Buf (Elt F) ℓ) (c : Dev nD) : R m c = after tail_22 (A_22 m c) :=
  (R_eq_21 m c).trans (after_append ops_21 tail_22 (A_21 m c))
theorem R_eq_23 (m : (ℓ : Loc nD τ sig) → Buf (Elt F) ℓ) (c : Dev nD) : R m c = after tail_23 (A_23 m c) :=
  (R_eq_22 m c).trans (after_append ops_22 tail_23 (A_22 m c))
theorem R_eq_24 (m : (ℓ : Loc nD τ sig) → Buf (Elt F) ℓ) (c : Dev nD) : R m c = after tail_24 (A_24 m c) :=
  (R_eq_23 m c).trans (after_append ops_23 tail_24 (A_23 m c))
theorem R_eq_25 (m : (ℓ : Loc nD τ sig) → Buf (Elt F) ℓ) (c : Dev nD) : R m c = after tail_25 (A_25 m c) :=
  (R_eq_24 m c).trans (after_append ops_24 tail_25 (A_24 m c))
theorem R_eq_26 (m : (ℓ : Loc nD τ sig) → Buf (Elt F) ℓ) (c : Dev nD) : R m c = after tail_26 (A_26 m c) :=
  (R_eq_25 m c).trans (after_append ops_25 tail_26 (A_25 m c))
theorem R_eq_27 (m : (ℓ : Loc nD τ sig) → Buf (Elt F) ℓ) (c : Dev nD) : R m c = after tail_27 (A_27 m c) :=
  (R_eq_26 m c).trans (after_append ops_26 tail_27 (A_26 m c))
theorem R_eq_28 (m : (ℓ : Loc nD τ sig) → Buf (Elt F) ℓ) (c : Dev nD) : R m c = after tail_28 (A_28 m c) :=
  (R_eq_27 m c).trans (after_append ops_27 tail_28 (A_27 m c))
theorem R_eq_29 (m : (ℓ : Loc nD τ sig) → Buf (Elt F) ℓ) (c : Dev nD) : R m c = after tail_29 (A_29 m c) :=
  (R_eq_28 m c).trans (after_append ops_28 tail_29 (A_28 m c))
theorem R_eq_30 (m : (ℓ : Loc nD τ sig) → Buf (Elt F) ℓ) (c : Dev nD) : R m c = after tail_30 (A_30 m c) :=
  (R_eq_29 m c).trans (after_append ops_29 tail_30 (A_29 m c))
theorem R_eq_31 (m : (ℓ : Loc nD τ sig) → Buf (Elt F) ℓ) (c : Dev nD) : R m c = after tail_31 (A_31 m c) :=
  (R_eq_30 m c).trans (after_append ops_30 tail_31 (A_30 m c))
theorem R_eq_32 (m : (ℓ : Loc nD τ sig) → Buf (Elt F) ℓ) (c : Dev nD) : R m c = after tail_32 (A_32 m c) :=
  (R_eq_31 m c).trans (after_append ops_31 tail_32 (A_31 m c))
theorem R_eq_33 (m : (ℓ : Loc nD τ sig) → Buf (Elt F) ℓ) (c : Dev nD) : R m c = after tail_33 (A_33 m c) :=
  (R_eq_32 m c).trans (after_append ops_32 tail_33 (A_32 m c))
theorem R_eq_34 (m : (ℓ : Loc nD τ sig) → Buf (Elt F) ℓ) (c : Dev nD) : R m c = after tail_34 (A_34 m c) :=
  (R_eq_33 m c).trans (after_append ops_33 tail_34 (A_33 m c))
theorem R_eq_35 (m : (ℓ : Loc nD τ sig) → Buf (Elt F) ℓ) (c : Dev nD) : R m c = after tail_35 (A_35 m c) :=
  (R_eq_34 m c).trans (after_append ops_34 tail_35 (A_34 m c))
theorem R_eq_36 (m : (ℓ : Loc nD τ sig) → Buf (Elt F) ℓ) (c : Dev nD) : R m c = A_36 m c := R_eq_35 m c

/-! A buffer no piece from JJ on writes: at the end what it was when piece JJ started. -/

theorem R_of_00 (m : (ℓ : Loc nD τ sig) → Buf (Elt F) ℓ) (c : Dev nD) {r : Ref sig .tc} (h : r ∉ tailW_00) :
    R m c (Proc.devRef .tc r) = A_00 m c (Proc.devRef .tc r) :=
  (congrFun (R_eq_00 m c) _).trans (after_of_writes_sub tail_00 _ tail_00_writes h)
theorem A_00_eq (m : (ℓ : Loc nD τ sig) → Buf (Elt F) ℓ) (c : Dev nD) {r : Ref sig .tc} (h : r ∉ tailW_00) :
    A_00 m c (Proc.devRef .tc r) = R m c (Proc.devRef .tc r) := (R_of_00 m c h).symm

theorem R_of_01 (m : (ℓ : Loc nD τ sig) → Buf (Elt F) ℓ) (c : Dev nD) {r : Ref sig .tc} (h : r ∉ tailW_01) :
    R m c (Proc.devRef .tc r) = A_01 m c (Proc.devRef .tc r) :=
  (congrFun (R_eq_01 m c) _).trans (after_of_writes_sub tail_01 _ tail_01_writes h)
theorem A_01_eq (m : (ℓ : Loc nD τ sig) → Buf (Elt F) ℓ) (c : Dev nD) {r : Ref sig .tc} (h : r ∉ tailW_01) :
    A_01 m c (Proc.devRef .tc r) = R m c (Proc.devRef .tc r) := (R_of_01 m c h).symm

theorem R_of_02 (m : (ℓ : Loc nD τ sig) → Buf (Elt F) ℓ) (c : Dev nD) {r : Ref sig .tc} (h : r ∉ tailW_02) :
    R m c (Proc.devRef .tc r) = A_02 m c (Proc.devRef .tc r) :=
  (congrFun (R_eq_02 m c) _).trans (after_of_writes_sub tail_02 _ tail_02_writes h)
theorem A_02_eq (m : (ℓ : Loc nD τ sig) → Buf (Elt F) ℓ) (c : Dev nD) {r : Ref sig .tc} (h : r ∉ tailW_02) :
    A_02 m c (Proc.devRef .tc r) = R m c (Proc.devRef .tc r) := (R_of_02 m c h).symm

theorem R_of_03 (m : (ℓ : Loc nD τ sig) → Buf (Elt F) ℓ) (c : Dev nD) {r : Ref sig .tc} (h : r ∉ tailW_03) :
    R m c (Proc.devRef .tc r) = A_03 m c (Proc.devRef .tc r) :=
  (congrFun (R_eq_03 m c) _).trans (after_of_writes_sub tail_03 _ tail_03_writes h)
theorem A_03_eq (m : (ℓ : Loc nD τ sig) → Buf (Elt F) ℓ) (c : Dev nD) {r : Ref sig .tc} (h : r ∉ tailW_03) :
    A_03 m c (Proc.devRef .tc r) = R m c (Proc.devRef .tc r) := (R_of_03 m c h).symm

theorem R_of_04 (m : (ℓ : Loc nD τ sig) → Buf (Elt F) ℓ) (c : Dev nD) {r : Ref sig .tc} (h : r ∉ tailW_04) :
    R m c (Proc.devRef .tc r) = A_04 m c (Proc.devRef .tc r) :=
  (congrFun (R_eq_04 m c) _).trans (after_of_writes_sub tail_04 _ tail_04_writes h)
theorem A_04_eq (m : (ℓ : Loc nD τ sig) → Buf (Elt F) ℓ) (c : Dev nD) {r : Ref sig .tc} (h : r ∉ tailW_04) :
    A_04 m c (Proc.devRef .tc r) = R m c (Proc.devRef .tc r) := (R_of_04 m c h).symm

theorem R_of_05 (m : (ℓ : Loc nD τ sig) → Buf (Elt F) ℓ) (c : Dev nD) {r : Ref sig .tc} (h : r ∉ tailW_05) :
    R m c (Proc.devRef .tc r) = A_05 m c (Proc.devRef .tc r) :=
  (congrFun (R_eq_05 m c) _).trans (after_of_writes_sub tail_05 _ tail_05_writes h)
theorem A_05_eq (m : (ℓ : Loc nD τ sig) → Buf (Elt F) ℓ) (c : Dev nD) {r : Ref sig .tc} (h : r ∉ tailW_05) :
    A_05 m c (Proc.devRef .tc r) = R m c (Proc.devRef .tc r) := (R_of_05 m c h).symm

theorem R_of_06 (m : (ℓ : Loc nD τ sig) → Buf (Elt F) ℓ) (c : Dev nD) {r : Ref sig .tc} (h : r ∉ tailW_06) :
    R m c (Proc.devRef .tc r) = A_06 m c (Proc.devRef .tc r) :=
  (congrFun (R_eq_06 m c) _).trans (after_of_writes_sub tail_06 _ tail_06_writes h)
theorem A_06_eq (m : (ℓ : Loc nD τ sig) → Buf (Elt F) ℓ) (c : Dev nD) {r : Ref sig .tc} (h : r ∉ tailW_06) :
    A_06 m c (Proc.devRef .tc r) = R m c (Proc.devRef .tc r) := (R_of_06 m c h).symm

theorem R_of_07 (m : (ℓ : Loc nD τ sig) → Buf (Elt F) ℓ) (c : Dev nD) {r : Ref sig .tc} (h : r ∉ tailW_07) :
    R m c (Proc.devRef .tc r) = A_07 m c (Proc.devRef .tc r) :=
  (congrFun (R_eq_07 m c) _).trans (after_of_writes_sub tail_07 _ tail_07_writes h)
theorem A_07_eq (m : (ℓ : Loc nD τ sig) → Buf (Elt F) ℓ) (c : Dev nD) {r : Ref sig .tc} (h : r ∉ tailW_07) :
    A_07 m c (Proc.devRef .tc r) = R m c (Proc.devRef .tc r) := (R_of_07 m c h).symm

theorem R_of_08 (m : (ℓ : Loc nD τ sig) → Buf (Elt F) ℓ) (c : Dev nD) {r : Ref sig .tc} (h : r ∉ tailW_08) :
    R m c (Proc.devRef .tc r) = A_08 m c (Proc.devRef .tc r) :=
  (congrFun (R_eq_08 m c) _).trans (after_of_writes_sub tail_08 _ tail_08_writes h)
theorem A_08_eq (m : (ℓ : Loc nD τ sig) → Buf (Elt F) ℓ) (c : Dev nD) {r : Ref sig .tc} (h : r ∉ tailW_08) :
    A_08 m c (Proc.devRef .tc r) = R m c (Proc.devRef .tc r) := (R_of_08 m c h).symm

theorem R_of_09 (m : (ℓ : Loc nD τ sig) → Buf (Elt F) ℓ) (c : Dev nD) {r : Ref sig .tc} (h : r ∉ tailW_09) :
    R m c (Proc.devRef .tc r) = A_09 m c (Proc.devRef .tc r) :=
  (congrFun (R_eq_09 m c) _).trans (after_of_writes_sub tail_09 _ tail_09_writes h)
theorem A_09_eq (m : (ℓ : Loc nD τ sig) → Buf (Elt F) ℓ) (c : Dev nD) {r : Ref sig .tc} (h : r ∉ tailW_09) :
    A_09 m c (Proc.devRef .tc r) = R m c (Proc.devRef .tc r) := (R_of_09 m c h).symm

theorem R_of_10 (m : (ℓ : Loc nD τ sig) → Buf (Elt F) ℓ) (c : Dev nD) {r : Ref sig .tc} (h : r ∉ tailW_10) :
    R m c (Proc.devRef .tc r) = A_10 m c (Proc.devRef .tc r) :=
  (congrFun (R_eq_10 m c) _).trans (after_of_writes_sub tail_10 _ tail_10_writes h)
theorem A_10_eq (m : (ℓ : Loc nD τ sig) → Buf (Elt F) ℓ) (c : Dev nD) {r : Ref sig .tc} (h : r ∉ tailW_10) :
    A_10 m c (Proc.devRef .tc r) = R m c (Proc.devRef .tc r) := (R_of_10 m c h).symm

theorem R_of_11 (m : (ℓ : Loc nD τ sig) → Buf (Elt F) ℓ) (c : Dev nD) {r : Ref sig .tc} (h : r ∉ tailW_11) :
    R m c (Proc.devRef .tc r) = A_11 m c (Proc.devRef .tc r) :=
  (congrFun (R_eq_11 m c) _).trans (after_of_writes_sub tail_11 _ tail_11_writes h)
theorem A_11_eq (m : (ℓ : Loc nD τ sig) → Buf (Elt F) ℓ) (c : Dev nD) {r : Ref sig .tc} (h : r ∉ tailW_11) :
    A_11 m c (Proc.devRef .tc r) = R m c (Proc.devRef .tc r) := (R_of_11 m c h).symm

theorem R_of_12 (m : (ℓ : Loc nD τ sig) → Buf (Elt F) ℓ) (c : Dev nD) {r : Ref sig .tc} (h : r ∉ tailW_12) :
    R m c (Proc.devRef .tc r) = A_12 m c (Proc.devRef .tc r) :=
  (congrFun (R_eq_12 m c) _).trans (after_of_writes_sub tail_12 _ tail_12_writes h)
theorem A_12_eq (m : (ℓ : Loc nD τ sig) → Buf (Elt F) ℓ) (c : Dev nD) {r : Ref sig .tc} (h : r ∉ tailW_12) :
    A_12 m c (Proc.devRef .tc r) = R m c (Proc.devRef .tc r) := (R_of_12 m c h).symm

theorem R_of_13 (m : (ℓ : Loc nD τ sig) → Buf (Elt F) ℓ) (c : Dev nD) {r : Ref sig .tc} (h : r ∉ tailW_13) :
    R m c (Proc.devRef .tc r) = A_13 m c (Proc.devRef .tc r) :=
  (congrFun (R_eq_13 m c) _).trans (after_of_writes_sub tail_13 _ tail_13_writes h)
theorem A_13_eq (m : (ℓ : Loc nD τ sig) → Buf (Elt F) ℓ) (c : Dev nD) {r : Ref sig .tc} (h : r ∉ tailW_13) :
    A_13 m c (Proc.devRef .tc r) = R m c (Proc.devRef .tc r) := (R_of_13 m c h).symm

theorem R_of_14 (m : (ℓ : Loc nD τ sig) → Buf (Elt F) ℓ) (c : Dev nD) {r : Ref sig .tc} (h : r ∉ tailW_14) :
    R m c (Proc.devRef .tc r) = A_14 m c (Proc.devRef .tc r) :=
  (congrFun (R_eq_14 m c) _).trans (after_of_writes_sub tail_14 _ tail_14_writes h)
theorem A_14_eq (m : (ℓ : Loc nD τ sig) → Buf (Elt F) ℓ) (c : Dev nD) {r : Ref sig .tc} (h : r ∉ tailW_14) :
    A_14 m c (Proc.devRef .tc r) = R m c (Proc.devRef .tc r) := (R_of_14 m c h).symm

theorem R_of_15 (m : (ℓ : Loc nD τ sig) → Buf (Elt F) ℓ) (c : Dev nD) {r : Ref sig .tc} (h : r ∉ tailW_15) :
    R m c (Proc.devRef .tc r) = A_15 m c (Proc.devRef .tc r) :=
  (congrFun (R_eq_15 m c) _).trans (after_of_writes_sub tail_15 _ tail_15_writes h)
theorem A_15_eq (m : (ℓ : Loc nD τ sig) → Buf (Elt F) ℓ) (c : Dev nD) {r : Ref sig .tc} (h : r ∉ tailW_15) :
    A_15 m c (Proc.devRef .tc r) = R m c (Proc.devRef .tc r) := (R_of_15 m c h).symm

theorem R_of_16 (m : (ℓ : Loc nD τ sig) → Buf (Elt F) ℓ) (c : Dev nD) {r : Ref sig .tc} (h : r ∉ tailW_16) :
    R m c (Proc.devRef .tc r) = A_16 m c (Proc.devRef .tc r) :=
  (congrFun (R_eq_16 m c) _).trans (after_of_writes_sub tail_16 _ tail_16_writes h)
theorem A_16_eq (m : (ℓ : Loc nD τ sig) → Buf (Elt F) ℓ) (c : Dev nD) {r : Ref sig .tc} (h : r ∉ tailW_16) :
    A_16 m c (Proc.devRef .tc r) = R m c (Proc.devRef .tc r) := (R_of_16 m c h).symm

theorem R_of_17 (m : (ℓ : Loc nD τ sig) → Buf (Elt F) ℓ) (c : Dev nD) {r : Ref sig .tc} (h : r ∉ tailW_17) :
    R m c (Proc.devRef .tc r) = A_17 m c (Proc.devRef .tc r) :=
  (congrFun (R_eq_17 m c) _).trans (after_of_writes_sub tail_17 _ tail_17_writes h)
theorem A_17_eq (m : (ℓ : Loc nD τ sig) → Buf (Elt F) ℓ) (c : Dev nD) {r : Ref sig .tc} (h : r ∉ tailW_17) :
    A_17 m c (Proc.devRef .tc r) = R m c (Proc.devRef .tc r) := (R_of_17 m c h).symm

theorem R_of_18 (m : (ℓ : Loc nD τ sig) → Buf (Elt F) ℓ) (c : Dev nD) {r : Ref sig .tc} (h : r ∉ tailW_18) :
    R m c (Proc.devRef .tc r) = A_18 m c (Proc.devRef .tc r) :=
  (congrFun (R_eq_18 m c) _).trans (after_of_writes_sub tail_18 _ tail_18_writes h)
theorem A_18_eq (m : (ℓ : Loc nD τ sig) → Buf (Elt F) ℓ) (c : Dev nD) {r : Ref sig .tc} (h : r ∉ tailW_18) :
    A_18 m c (Proc.devRef .tc r) = R m c (Proc.devRef .tc r) := (R_of_18 m c h).symm

theorem R_of_19 (m : (ℓ : Loc nD τ sig) → Buf (Elt F) ℓ) (c : Dev nD) {r : Ref sig .tc} (h : r ∉ tailW_19) :
    R m c (Proc.devRef .tc r) = A_19 m c (Proc.devRef .tc r) :=
  (congrFun (R_eq_19 m c) _).trans (after_of_writes_sub tail_19 _ tail_19_writes h)
theorem A_19_eq (m : (ℓ : Loc nD τ sig) → Buf (Elt F) ℓ) (c : Dev nD) {r : Ref sig .tc} (h : r ∉ tailW_19) :
    A_19 m c (Proc.devRef .tc r) = R m c (Proc.devRef .tc r) := (R_of_19 m c h).symm

theorem R_of_20 (m : (ℓ : Loc nD τ sig) → Buf (Elt F) ℓ) (c : Dev nD) {r : Ref sig .tc} (h : r ∉ tailW_20) :
    R m c (Proc.devRef .tc r) = A_20 m c (Proc.devRef .tc r) :=
  (congrFun (R_eq_20 m c) _).trans (after_of_writes_sub tail_20 _ tail_20_writes h)
theorem A_20_eq (m : (ℓ : Loc nD τ sig) → Buf (Elt F) ℓ) (c : Dev nD) {r : Ref sig .tc} (h : r ∉ tailW_20) :
    A_20 m c (Proc.devRef .tc r) = R m c (Proc.devRef .tc r) := (R_of_20 m c h).symm

theorem R_of_21 (m : (ℓ : Loc nD τ sig) → Buf (Elt F) ℓ) (c : Dev nD) {r : Ref sig .tc} (h : r ∉ tailW_21) :
    R m c (Proc.devRef .tc r) = A_21 m c (Proc.devRef .tc r) :=
  (congrFun (R_eq_21 m c) _).trans (after_of_writes_sub tail_21 _ tail_21_writes h)
theorem A_21_eq (m : (ℓ : Loc nD τ sig) → Buf (Elt F) ℓ) (c : Dev nD) {r : Ref sig .tc} (h : r ∉ tailW_21) :
    A_21 m c (Proc.devRef .tc r) = R m c (Proc.devRef .tc r) := (R_of_21 m c h).symm

theorem R_of_22 (m : (ℓ : Loc nD τ sig) → Buf (Elt F) ℓ) (c : Dev nD) {r : Ref sig .tc} (h : r ∉ tailW_22) :
    R m c (Proc.devRef .tc r) = A_22 m c (Proc.devRef .tc r) :=
  (congrFun (R_eq_22 m c) _).trans (after_of_writes_sub tail_22 _ tail_22_writes h)
theorem A_22_eq (m : (ℓ : Loc nD τ sig) → Buf (Elt F) ℓ) (c : Dev nD) {r : Ref sig .tc} (h : r ∉ tailW_22) :
    A_22 m c (Proc.devRef .tc r) = R m c (Proc.devRef .tc r) := (R_of_22 m c h).symm

theorem R_of_23 (m : (ℓ : Loc nD τ sig) → Buf (Elt F) ℓ) (c : Dev nD) {r : Ref sig .tc} (h : r ∉ tailW_23) :
    R m c (Proc.devRef .tc r) = A_23 m c (Proc.devRef .tc r) :=
  (congrFun (R_eq_23 m c) _).trans (after_of_writes_sub tail_23 _ tail_23_writes h)
theorem A_23_eq (m : (ℓ : Loc nD τ sig) → Buf (Elt F) ℓ) (c : Dev nD) {r : Ref sig .tc} (h : r ∉ tailW_23) :
    A_23 m c (Proc.devRef .tc r) = R m c (Proc.devRef .tc r) := (R_of_23 m c h).symm

theorem R_of_24 (m : (ℓ : Loc nD τ sig) → Buf (Elt F) ℓ) (c : Dev nD) {r : Ref sig .tc} (h : r ∉ tailW_24) :
    R m c (Proc.devRef .tc r) = A_24 m c (Proc.devRef .tc r) :=
  (congrFun (R_eq_24 m c) _).trans (after_of_writes_sub tail_24 _ tail_24_writes h)
theorem A_24_eq (m : (ℓ : Loc nD τ sig) → Buf (Elt F) ℓ) (c : Dev nD) {r : Ref sig .tc} (h : r ∉ tailW_24) :
    A_24 m c (Proc.devRef .tc r) = R m c (Proc.devRef .tc r) := (R_of_24 m c h).symm

theorem R_of_25 (m : (ℓ : Loc nD τ sig) → Buf (Elt F) ℓ) (c : Dev nD) {r : Ref sig .tc} (h : r ∉ tailW_25) :
    R m c (Proc.devRef .tc r) = A_25 m c (Proc.devRef .tc r) :=
  (congrFun (R_eq_25 m c) _).trans (after_of_writes_sub tail_25 _ tail_25_writes h)
theorem A_25_eq (m : (ℓ : Loc nD τ sig) → Buf (Elt F) ℓ) (c : Dev nD) {r : Ref sig .tc} (h : r ∉ tailW_25) :
    A_25 m c (Proc.devRef .tc r) = R m c (Proc.devRef .tc r) := (R_of_25 m c h).symm

theorem R_of_26 (m : (ℓ : Loc nD τ sig) → Buf (Elt F) ℓ) (c : Dev nD) {r : Ref sig .tc} (h : r ∉ tailW_26) :
    R m c (Proc.devRef .tc r) = A_26 m c (Proc.devRef .tc r) :=
  (congrFun (R_eq_26 m c) _).trans (after_of_writes_sub tail_26 _ tail_26_writes h)
theorem A_26_eq (m : (ℓ : Loc nD τ sig) → Buf (Elt F) ℓ) (c : Dev nD) {r : Ref sig .tc} (h : r ∉ tailW_26) :
    A_26 m c (Proc.devRef .tc r) = R m c (Proc.devRef .tc r) := (R_of_26 m c h).symm

theorem R_of_27 (m : (ℓ : Loc nD τ sig) → Buf (Elt F) ℓ) (c : Dev nD) {r : Ref sig .tc} (h : r ∉ tailW_27) :
    R m c (Proc.devRef .tc r) = A_27 m c (Proc.devRef .tc r) :=
  (congrFun (R_eq_27 m c) _).trans (after_of_writes_sub tail_27 _ tail_27_writes h)
theorem A_27_eq (m : (ℓ : Loc nD τ sig) → Buf (Elt F) ℓ) (c : Dev nD) {r : Ref sig .tc} (h : r ∉ tailW_27) :
    A_27 m c (Proc.devRef .tc r) = R m c (Proc.devRef .tc r) := (R_of_27 m c h).symm

theorem R_of_28 (m : (ℓ : Loc nD τ sig) → Buf (Elt F) ℓ) (c : Dev nD) {r : Ref sig .tc} (h : r ∉ tailW_28) :
    R m c (Proc.devRef .tc r) = A_28 m c (Proc.devRef .tc r) :=
  (congrFun (R_eq_28 m c) _).trans (after_of_writes_sub tail_28 _ tail_28_writes h)
theorem A_28_eq (m : (ℓ : Loc nD τ sig) → Buf (Elt F) ℓ) (c : Dev nD) {r : Ref sig .tc} (h : r ∉ tailW_28) :
    A_28 m c (Proc.devRef .tc r) = R m c (Proc.devRef .tc r) := (R_of_28 m c h).symm

theorem R_of_29 (m : (ℓ : Loc nD τ sig) → Buf (Elt F) ℓ) (c : Dev nD) {r : Ref sig .tc} (h : r ∉ tailW_29) :
    R m c (Proc.devRef .tc r) = A_29 m c (Proc.devRef .tc r) :=
  (congrFun (R_eq_29 m c) _).trans (after_of_writes_sub tail_29 _ tail_29_writes h)
theorem A_29_eq (m : (ℓ : Loc nD τ sig) → Buf (Elt F) ℓ) (c : Dev nD) {r : Ref sig .tc} (h : r ∉ tailW_29) :
    A_29 m c (Proc.devRef .tc r) = R m c (Proc.devRef .tc r) := (R_of_29 m c h).symm

theorem R_of_30 (m : (ℓ : Loc nD τ sig) → Buf (Elt F) ℓ) (c : Dev nD) {r : Ref sig .tc} (h : r ∉ tailW_30) :
    R m c (Proc.devRef .tc r) = A_30 m c (Proc.devRef .tc r) :=
  (congrFun (R_eq_30 m c) _).trans (after_of_writes_sub tail_30 _ tail_30_writes h)
theorem A_30_eq (m : (ℓ : Loc nD τ sig) → Buf (Elt F) ℓ) (c : Dev nD) {r : Ref sig .tc} (h : r ∉ tailW_30) :
    A_30 m c (Proc.devRef .tc r) = R m c (Proc.devRef .tc r) := (R_of_30 m c h).symm

theorem R_of_31 (m : (ℓ : Loc nD τ sig) → Buf (Elt F) ℓ) (c : Dev nD) {r : Ref sig .tc} (h : r ∉ tailW_31) :
    R m c (Proc.devRef .tc r) = A_31 m c (Proc.devRef .tc r) :=
  (congrFun (R_eq_31 m c) _).trans (after_of_writes_sub tail_31 _ tail_31_writes h)
theorem A_31_eq (m : (ℓ : Loc nD τ sig) → Buf (Elt F) ℓ) (c : Dev nD) {r : Ref sig .tc} (h : r ∉ tailW_31) :
    A_31 m c (Proc.devRef .tc r) = R m c (Proc.devRef .tc r) := (R_of_31 m c h).symm

theorem R_of_32 (m : (ℓ : Loc nD τ sig) → Buf (Elt F) ℓ) (c : Dev nD) {r : Ref sig .tc} (h : r ∉ tailW_32) :
    R m c (Proc.devRef .tc r) = A_32 m c (Proc.devRef .tc r) :=
  (congrFun (R_eq_32 m c) _).trans (after_of_writes_sub tail_32 _ tail_32_writes h)
theorem A_32_eq (m : (ℓ : Loc nD τ sig) → Buf (Elt F) ℓ) (c : Dev nD) {r : Ref sig .tc} (h : r ∉ tailW_32) :
    A_32 m c (Proc.devRef .tc r) = R m c (Proc.devRef .tc r) := (R_of_32 m c h).symm

theorem R_of_33 (m : (ℓ : Loc nD τ sig) → Buf (Elt F) ℓ) (c : Dev nD) {r : Ref sig .tc} (h : r ∉ tailW_33) :
    R m c (Proc.devRef .tc r) = A_33 m c (Proc.devRef .tc r) :=
  (congrFun (R_eq_33 m c) _).trans (after_of_writes_sub tail_33 _ tail_33_writes h)
theorem A_33_eq (m : (ℓ : Loc nD τ sig) → Buf (Elt F) ℓ) (c : Dev nD) {r : Ref sig .tc} (h : r ∉ tailW_33) :
    A_33 m c (Proc.devRef .tc r) = R m c (Proc.devRef .tc r) := (R_of_33 m c h).symm

theorem R_of_34 (m : (ℓ : Loc nD τ sig) → Buf (Elt F) ℓ) (c : Dev nD) {r : Ref sig .tc} (h : r ∉ tailW_34) :
    R m c (Proc.devRef .tc r) = A_34 m c (Proc.devRef .tc r) :=
  (congrFun (R_eq_34 m c) _).trans (after_of_writes_sub tail_34 _ tail_34_writes h)
theorem A_34_eq (m : (ℓ : Loc nD τ sig) → Buf (Elt F) ℓ) (c : Dev nD) {r : Ref sig .tc} (h : r ∉ tailW_34) :
    A_34 m c (Proc.devRef .tc r) = R m c (Proc.devRef .tc r) := (R_of_34 m c h).symm

theorem R_of_35 (m : (ℓ : Loc nD τ sig) → Buf (Elt F) ℓ) (c : Dev nD) {r : Ref sig .tc} (h : r ∉ tailW_35) :
    R m c (Proc.devRef .tc r) = A_35 m c (Proc.devRef .tc r) :=
  (congrFun (R_eq_35 m c) _).trans (after_of_writes_sub tail_35 _ tail_35_writes h)
theorem A_35_eq (m : (ℓ : Loc nD τ sig) → Buf (Elt F) ℓ) (c : Dev nD) {r : Ref sig .tc} (h : r ∉ tailW_35) :
    A_35 m c (Proc.devRef .tc r) = R m c (Proc.devRef .tc r) := (R_of_35 m c h).symm

theorem R_of_36 (m : (ℓ : Loc nD τ sig) → Buf (Elt F) ℓ) (c : Dev nD) (r : Ref sig .tc) : R m c (Proc.devRef .tc r) = A_36 m c (Proc.devRef .tc r) := congrFun (R_eq_36 m c) _

/-! ## The run -/

/-- At the compiled mesh, for any float values, from any memory with zero counters: every weakly fair execution of @main terminates,
    and every final state has each TensorCore buffer at `R m c`. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = R m c (Proc.devRef .tc b) :=
  run_seq scopedRefs_eq scopedSems_eq defs main (fun _ => ops) main_eq (fun _ => tail_00_sub) m ρ
    (fun _ => List.forall_iff_forall_mem.mp tail_00_fresh)

end Cert.ReferenceIdeal.Hand

end
-- ==== Proof.Ref.Kept.lean ====
/-
  No operation writes an argument, and every other buffer is written by one operation only: an argument is in no piece's written
  list, and a value computed in piece JJ is in none from the next piece on. One such fact per buffer the stage equations read or
  define (`nw_b`), each decided over the literal list; and with them the arguments at the end, as launched.
-/
import proofs.«147763_j11003706212366_2_alg».proof.Proof.Ref.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384
set_option Elab.async false

/-- No piece writes the argument `arg0`. -/
theorem nw_arg0 : main_arg0 ∉ tailW_00 := by decide

/-- No piece writes the argument `arg1`. -/
theorem nw_arg1 : main_arg1 ∉ tailW_00 := by decide

/-- No piece writes the argument `arg2`. -/
theorem nw_arg2 : main_arg2 ∉ tailW_00 := by decide

/-- No piece writes the argument `arg3`. -/
theorem nw_arg3 : main_arg3 ∉ tailW_00 := by decide

/-- No piece writes the argument `arg4`. -/
theorem nw_arg4 : main_arg4 ∉ tailW_00 := by decide

/-- No piece writes the argument `arg5`. -/
theorem nw_arg5 : main_arg5 ∉ tailW_00 := by decide

/-- No piece writes the argument `arg6`. -/
theorem nw_arg6 : main_arg6 ∉ tailW_00 := by decide

/-- No piece writes the argument `arg7`. -/
theorem nw_arg7 : main_arg7 ∉ tailW_00 := by decide

/-- No piece writes the argument `arg8`. -/
theorem nw_arg8 : main_arg8 ∉ tailW_00 := by decide

/-- No piece writes the argument `arg9`. -/
theorem nw_arg9 : main_arg9 ∉ tailW_00 := by decide

/-- No piece writes the argument `arg10`. -/
theorem nw_arg10 : main_arg10 ∉ tailW_00 := by decide

/-- No piece writes the argument `arg11`. -/
theorem nw_arg11 : main_arg11 ∉ tailW_00 := by decide

/-- No piece writes the argument `arg12`. -/
theorem nw_arg12 : main_arg12 ∉ tailW_00 := by decide

/-- No piece writes the argument `arg13`. -/
theorem nw_arg13 : main_arg13 ∉ tailW_00 := by decide

/-- No piece writes the argument `arg14`. -/
theorem nw_arg14 : main_arg14 ∉ tailW_00 := by decide

/-- No piece writes the argument `arg15`. -/
theorem nw_arg15 : main_arg15 ∉ tailW_00 := by decide

/-- No piece writes the argument `arg16`. -/
theorem nw_arg16 : main_arg16 ∉ tailW_00 := by decide

/-- No piece writes the argument `arg17`. -/
theorem nw_arg17 : main_arg17 ∉ tailW_00 := by decide

/-- No piece writes the argument `arg18`. -/
theorem nw_arg18 : main_arg18 ∉ tailW_00 := by decide

/-- No piece writes the argument `arg19`. -/
theorem nw_arg19 : main_arg19 ∉ tailW_00 := by decide

/-- No piece writes the argument `arg20`. -/
theorem nw_arg20 : main_arg20 ∉ tailW_00 := by decide

/-- No piece writes the argument `arg21`. -/
theorem nw_arg21 : main_arg21 ∉ tailW_00 := by decide

/-- No piece writes the argument `arg22`. -/
theorem nw_arg22 : main_arg22 ∉ tailW_00 := by decide

/-- No piece writes the argument `arg23`. -/
theorem nw_arg23 : main_arg23 ∉ tailW_00 := by decide

/-- No piece writes the argument `arg24`. -/
theorem nw_arg24 : main_arg24 ∉ tailW_00 := by decide

/-- No piece writes the argument `arg25`. -/
theorem nw_arg25 : main_arg25 ∉ tailW_00 := by decide

/-- No piece writes the argument `arg26`. -/
theorem nw_arg26 : main_arg26 ∉ tailW_00 := by decide

/-- No piece writes the argument `arg27`. -/
theorem nw_arg27 : main_arg27 ∉ tailW_00 := by decide

/-- No piece writes the argument `arg28`. -/
theorem nw_arg28 : main_arg28 ∉ tailW_00 := by decide

/-- No piece writes the argument `arg29`. -/
theorem nw_arg29 : main_arg29 ∉ tailW_00 := by decide

/-- No piece writes the argument `arg30`. -/
theorem nw_arg30 : main_arg30 ∉ tailW_00 := by decide

/-- No piece writes the argument `arg31`. -/
theorem nw_arg31 : main_arg31 ∉ tailW_00 := by decide

/-- No piece writes the argument `arg32`. -/
theorem nw_arg32 : main_arg32 ∉ tailW_00 := by decide

/-- No piece writes the argument `arg33`. -/
theorem nw_arg33 : main_arg33 ∉ tailW_00 := by decide

/-- No piece writes the argument `arg34`. -/
theorem nw_arg34 : main_arg34 ∉ tailW_00 := by decide

/-- No piece writes the argument `arg35`. -/
theorem nw_arg35 : main_arg35 ∉ tailW_00 := by decide

/-- No piece writes the argument `arg36`. -/
theorem nw_arg36 : main_arg36 ∉ tailW_00 := by decide

/-- No piece writes the argument `arg37`. -/
theorem nw_arg37 : main_arg37 ∉ tailW_00 := by decide

/-- `v1` is written in piece 00 and by no later piece. -/
theorem nw_v1 : main_v1 ∉ tailW_01 := by decide

/-- `v3` is written in piece 00 and by no later piece. -/
theorem nw_v3 : main_v3 ∉ tailW_01 := by decide

/-- `v9` is written in piece 00 and by no later piece. -/
theorem nw_v9 : main_v9 ∉ tailW_01 := by decide

/-- `v20` is written in piece 01 and by no later piece. -/
theorem nw_v20 : main_v20 ∉ tailW_02 := by decide

/-- `v36` is written in piece 02 and by no later piece. -/
theorem nw_v36 : main_v36 ∉ tailW_03 := by decide

/-- `v47` is written in piece 03 and by no later piece. -/
theorem nw_v47 : main_v47 ∉ tailW_04 := by decide

/-- `v54` is written in piece 04 and by no later piece. -/
theorem nw_v54 : main_v54 ∉ tailW_05 := by decide

/-- `v61` is written in piece 04 and by no later piece. -/
theorem nw_v61 : main_v61 ∉ tailW_05 := by decide

/-- `v68` is written in piece 04 and by no later piece. -/
theorem nw_v68 : main_v68 ∉ tailW_05 := by decide

/-- `v69` is written in piece 04 and by no later piece. -/
theorem nw_v69 : main_v69 ∉ tailW_05 := by decide

/-- `v96` is written in piece 05 and by no later piece. -/
theorem nw_v96 : main_v96 ∉ tailW_06 := by decide

/-- `v99` is written in piece 06 and by no later piece. -/
theorem nw_v99 : main_v99 ∉ tailW_07 := by decide

/-- `v102` is written in piece 06 and by no later piece. -/
theorem nw_v102 : main_v102 ∉ tailW_07 := by decide

/-- `v109` is written in piece 06 and by no later piece. -/
theorem nw_v109 : main_v109 ∉ tailW_07 := by decide

/-- `v110` is written in piece 06 and by no later piece. -/
theorem nw_v110 : main_v110 ∉ tailW_07 := by decide

/-- `v137` is written in piece 07 and by no later piece. -/
theorem nw_v137 : main_v137 ∉ tailW_08 := by decide

/-- `v140` is written in piece 08 and by no later piece. -/
theorem nw_v140 : main_v140 ∉ tailW_09 := by decide

/-- `v143` is written in piece 08 and by no later piece. -/
theorem nw_v143 : main_v143 ∉ tailW_09 := by decide

/-- `v144` is written in piece 08 and by no later piece. -/
theorem nw_v144 : main_v144 ∉ tailW_09 := by decide

/-- `v171` is written in piece 09 and by no later piece. -/
theorem nw_v171 : main_v171 ∉ tailW_10 := by decide

/-- `v172` is written in piece 10 and by no later piece. -/
theorem nw_v172 : main_v172 ∉ tailW_11 := by decide

/-- `v173` is written in piece 10 and by no later piece. -/
theorem nw_v173 : main_v173 ∉ tailW_11 := by decide

/-- `v174` is written in piece 10 and by no later piece. -/
theorem nw_v174 : main_v174 ∉ tailW_11 := by decide

/-- `v183` is written in piece 11 and by no later piece. -/
theorem nw_v183 : main_v183 ∉ tailW_12 := by decide

/-- `v184` is written in piece 11 and by no later piece. -/
theorem nw_v184 : main_v184 ∉ tailW_12 := by decide

/-- `v197` is written in piece 12 and by no later piece. -/
theorem nw_v197 : main_v197 ∉ tailW_13 := by decide

/-- `v208` is written in piece 13 and by no later piece. -/
theorem nw_v208 : main_v208 ∉ tailW_14 := by decide

/-- `v224` is written in piece 14 and by no later piece. -/
theorem nw_v224 : main_v224 ∉ tailW_15 := by decide

/-- `v235` is written in piece 15 and by no later piece. -/
theorem nw_v235 : main_v235 ∉ tailW_16 := by decide

/-- `v242` is written in piece 16 and by no later piece. -/
theorem nw_v242 : main_v242 ∉ tailW_17 := by decide

/-- `v249` is written in piece 16 and by no later piece. -/
theorem nw_v249 : main_v249 ∉ tailW_17 := by decide

/-- `v256` is written in piece 16 and by no later piece. -/
theorem nw_v256 : main_v256 ∉ tailW_17 := by decide

/-- `v257` is written in piece 16 and by no later piece. -/
theorem nw_v257 : main_v257 ∉ tailW_17 := by decide

/-- `v284` is written in piece 17 and by no later piece. -/
theorem nw_v284 : main_v284 ∉ tailW_18 := by decide

/-- `v287` is written in piece 18 and by no later piece. -/
theorem nw_v287 : main_v287 ∉ tailW_19 := by decide

/-- `v290` is written in piece 18 and by no later piece. -/
theorem nw_v290 : main_v290 ∉ tailW_19 := by decide

/-- `v297` is written in piece 18 and by no later piece. -/
theorem nw_v297 : main_v297 ∉ tailW_19 := by decide

/-- `v298` is written in piece 18 and by no later piece. -/
theorem nw_v298 : main_v298 ∉ tailW_19 := by decide

/-- `v325` is written in piece 19 and by no later piece. -/
theorem nw_v325 : main_v325 ∉ tailW_20 := by decide

/-- `v328` is written in piece 20 and by no later piece. -/
theorem nw_v328 : main_v328 ∉ tailW_21 := by decide

/-- `v331` is written in piece 20 and by no later piece. -/
theorem nw_v331 : main_v331 ∉ tailW_21 := by decide

/-- `v332` is written in piece 20 and by no later piece. -/
theorem nw_v332 : main_v332 ∉ tailW_21 := by decide

/-- `v359` is written in piece 21 and by no later piece. -/
theorem nw_v359 : main_v359 ∉ tailW_22 := by decide

/-- `v360` is written in piece 22 and by no later piece. -/
theorem nw_v360 : main_v360 ∉ tailW_23 := by decide

/-- `v361` is written in piece 22 and by no later piece. -/
theorem nw_v361 : main_v361 ∉ tailW_23 := by decide

/-- `v362` is written in piece 22 and by no later piece. -/
theorem nw_v362 : main_v362 ∉ tailW_23 := by decide

/-- `v371` is written in piece 23 and by no later piece. -/
theorem nw_v371 : main_v371 ∉ tailW_24 := by decide

/-- `v372` is written in piece 23 and by no later piece. -/
theorem nw_v372 : main_v372 ∉ tailW_24 := by decide

/-- `v385` is written in piece 24 and by no later piece. -/
theorem nw_v385 : main_v385 ∉ tailW_25 := by decide

/-- `v396` is written in piece 25 and by no later piece. -/
theorem nw_v396 : main_v396 ∉ tailW_26 := by decide

/-- `v412` is written in piece 26 and by no later piece. -/
theorem nw_v412 : main_v412 ∉ tailW_27 := by decide

/-- `v423` is written in piece 27 and by no later piece. -/
theorem nw_v423 : main_v423 ∉ tailW_28 := by decide

/-- `v430` is written in piece 28 and by no later piece. -/
theorem nw_v430 : main_v430 ∉ tailW_29 := by decide

/-- `v437` is written in piece 28 and by no later piece. -/
theorem nw_v437 : main_v437 ∉ tailW_29 := by decide

/-- `v444` is written in piece 28 and by no later piece. -/
theorem nw_v444 : main_v444 ∉ tailW_29 := by decide

/-- `v445` is written in piece 28 and by no later piece. -/
theorem nw_v445 : main_v445 ∉ tailW_29 := by decide

/-- `v472` is written in piece 29 and by no later piece. -/
theorem nw_v472 : main_v472 ∉ tailW_30 := by decide

/-- `v475` is written in piece 30 and by no later piece. -/
theorem nw_v475 : main_v475 ∉ tailW_31 := by decide

/-- `v478` is written in piece 30 and by no later piece. -/
theorem nw_v478 : main_v478 ∉ tailW_31 := by decide

/-- `v485` is written in piece 30 and by no later piece. -/
theorem nw_v485 : main_v485 ∉ tailW_31 := by decide

/-- `v486` is written in piece 30 and by no later piece. -/
theorem nw_v486 : main_v486 ∉ tailW_31 := by decide

/-- `v513` is written in piece 31 and by no later piece. -/
theorem nw_v513 : main_v513 ∉ tailW_32 := by decide

/-- `v514` is written in piece 32 and by no later piece. -/
theorem nw_v514 : main_v514 ∉ tailW_33 := by decide

/-- `v515` is written in piece 32 and by no later piece. -/
theorem nw_v515 : main_v515 ∉ tailW_33 := by decide

/-- `v516` is written in piece 32 and by no later piece. -/
theorem nw_v516 : main_v516 ∉ tailW_33 := by decide

/-- `v525` is written in piece 33 and by no later piece. -/
theorem nw_v525 : main_v525 ∉ tailW_34 := by decide

/-- `v526` is written in piece 33 and by no later piece. -/
theorem nw_v526 : main_v526 ∉ tailW_34 := by decide

/-- `v539` is written in piece 34 and by no later piece. -/
theorem nw_v539 : main_v539 ∉ tailW_35 := by decide

/-! ## The arguments end as launched -/

theorem R_main_arg0 (m : (ℓ : Loc nD τ sig) → Buf (Elt F) ℓ) (c : Dev nD) :
    R m c (Proc.devRef .tc main_arg0) = m ((c.tc : Thread nD τ).loc main_arg0) := R_of_00 m c nw_arg0

theorem R_main_arg1 (m : (ℓ : Loc nD τ sig) → Buf (Elt F) ℓ) (c : Dev nD) :
    R m c (Proc.devRef .tc main_arg1) = m ((c.tc : Thread nD τ).loc main_arg1) := R_of_00 m c nw_arg1

theorem R_main_arg2 (m : (ℓ : Loc nD τ sig) → Buf (Elt F) ℓ) (c : Dev nD) :
    R m c (Proc.devRef .tc main_arg2) = m ((c.tc : Thread nD τ).loc main_arg2) := R_of_00 m c nw_arg2

theorem R_main_arg3 (m : (ℓ : Loc nD τ sig) → Buf (Elt F) ℓ) (c : Dev nD) :
    R m c (Proc.devRef .tc main_arg3) = m ((c.tc : Thread nD τ).loc main_arg3) := R_of_00 m c nw_arg3

theorem R_main_arg4 (m : (ℓ : Loc nD τ sig) → Buf (Elt F) ℓ) (c : Dev nD) :
    R m c (Proc.devRef .tc main_arg4) = m ((c.tc : Thread nD τ).loc main_arg4) := R_of_00 m c nw_arg4

theorem R_main_arg5 (m : (ℓ : Loc nD τ sig) → Buf (Elt F) ℓ) (c : Dev nD) :
    R m c (Proc.devRef .tc main_arg5) = m ((c.tc : Thread nD τ).loc main_arg5) := R_of_00 m c nw_arg5

theorem R_main_arg6 (m : (ℓ : Loc nD τ sig) → Buf (Elt F) ℓ) (c : Dev nD) :
    R m c (Proc.devRef .tc main_arg6) = m ((c.tc : Thread nD τ).loc main_arg6) := R_of_00 m c nw_arg6

theorem R_main_arg7 (m : (ℓ : Loc nD τ sig) → Buf (Elt F) ℓ) (c : Dev nD) :
    R m c (Proc.devRef .tc main_arg7) = m ((c.tc : Thread nD τ).loc main_arg7) := R_of_00 m c nw_arg7

theorem R_main_arg8 (m : (ℓ : Loc nD τ sig) → Buf (Elt F) ℓ) (c : Dev nD) :
    R m c (Proc.devRef .tc main_arg8) = m ((c.tc : Thread nD τ).loc main_arg8) := R_of_00 m c nw_arg8

theorem R_main_arg9 (m : (ℓ : Loc nD τ sig) → Buf (Elt F) ℓ) (c : Dev nD) :
    R m c (Proc.devRef .tc main_arg9) = m ((c.tc : Thread nD τ).loc main_arg9) := R_of_00 m c nw_arg9

theorem R_main_arg10 (m : (ℓ : Loc nD τ sig) → Buf (Elt F) ℓ) (c : Dev nD) :
    R m c (Proc.devRef .tc main_arg10) = m ((c.tc : Thread nD τ).loc main_arg10) := R_of_00 m c nw_arg10

theorem R_main_arg11 (m : (ℓ : Loc nD τ sig) → Buf (Elt F) ℓ) (c : Dev nD) :
    R m c (Proc.devRef .tc main_arg11) = m ((c.tc : Thread nD τ).loc main_arg11) := R_of_00 m c nw_arg11

theorem R_main_arg12 (m : (ℓ : Loc nD τ sig) → Buf (Elt F) ℓ) (c : Dev nD) :
    R m c (Proc.devRef .tc main_arg12) = m ((c.tc : Thread nD τ).loc main_arg12) := R_of_00 m c nw_arg12

theorem R_main_arg13 (m : (ℓ : Loc nD τ sig) → Buf (Elt F) ℓ) (c : Dev nD) :
    R m c (Proc.devRef .tc main_arg13) = m ((c.tc : Thread nD τ).loc main_arg13) := R_of_00 m c nw_arg13

theorem R_main_arg14 (m : (ℓ : Loc nD τ sig) → Buf (Elt F) ℓ) (c : Dev nD) :
    R m c (Proc.devRef .tc main_arg14) = m ((c.tc : Thread nD τ).loc main_arg14) := R_of_00 m c nw_arg14

theorem R_main_arg15 (m : (ℓ : Loc nD τ sig) → Buf (Elt F) ℓ) (c : Dev nD) :
    R m c (Proc.devRef .tc main_arg15) = m ((c.tc : Thread nD τ).loc main_arg15) := R_of_00 m c nw_arg15

theorem R_main_arg16 (m : (ℓ : Loc nD τ sig) → Buf (Elt F) ℓ) (c : Dev nD) :
    R m c (Proc.devRef .tc main_arg16) = m ((c.tc : Thread nD τ).loc main_arg16) := R_of_00 m c nw_arg16

theorem R_main_arg17 (m : (ℓ : Loc nD τ sig) → Buf (Elt F) ℓ) (c : Dev nD) :
    R m c (Proc.devRef .tc main_arg17) = m ((c.tc : Thread nD τ).loc main_arg17) := R_of_00 m c nw_arg17

theorem R_main_arg18 (m : (ℓ : Loc nD τ sig) → Buf (Elt F) ℓ) (c : Dev nD) :
    R m c (Proc.devRef .tc main_arg18) = m ((c.tc : Thread nD τ).loc main_arg18) := R_of_00 m c nw_arg18

theorem R_main_arg19 (m : (ℓ : Loc nD τ sig) → Buf (Elt F) ℓ) (c : Dev nD) :
    R m c (Proc.devRef .tc main_arg19) = m ((c.tc : Thread nD τ).loc main_arg19) := R_of_00 m c nw_arg19

theorem R_main_arg20 (m : (ℓ : Loc nD τ sig) → Buf (Elt F) ℓ) (c : Dev nD) :
    R m c (Proc.devRef .tc main_arg20) = m ((c.tc : Thread nD τ).loc main_arg20) := R_of_00 m c nw_arg20

theorem R_main_arg21 (m : (ℓ : Loc nD τ sig) → Buf (Elt F) ℓ) (c : Dev nD) :
    R m c (Proc.devRef .tc main_arg21) = m ((c.tc : Thread nD τ).loc main_arg21) := R_of_00 m c nw_arg21

theorem R_main_arg22 (m : (ℓ : Loc nD τ sig) → Buf (Elt F) ℓ) (c : Dev nD) :
    R m c (Proc.devRef .tc main_arg22) = m ((c.tc : Thread nD τ).loc main_arg22) := R_of_00 m c nw_arg22

theorem R_main_arg23 (m : (ℓ : Loc nD τ sig) → Buf (Elt F) ℓ) (c : Dev nD) :
    R m c (Proc.devRef .tc main_arg23) = m ((c.tc : Thread nD τ).loc main_arg23) := R_of_00 m c nw_arg23

theorem R_main_arg24 (m : (ℓ : Loc nD τ sig) → Buf (Elt F) ℓ) (c : Dev nD) :
    R m c (Proc.devRef .tc main_arg24) = m ((c.tc : Thread nD τ).loc main_arg24) := R_of_00 m c nw_arg24

theorem R_main_arg25 (m : (ℓ : Loc nD τ sig) → Buf (Elt F) ℓ) (c : Dev nD) :
    R m c (Proc.devRef .tc main_arg25) = m ((c.tc : Thread nD τ).loc main_arg25) := R_of_00 m c nw_arg25

theorem R_main_arg26 (m : (ℓ : Loc nD τ sig) → Buf (Elt F) ℓ) (c : Dev nD) :
    R m c (Proc.devRef .tc main_arg26) = m ((c.tc : Thread nD τ).loc main_arg26) := R_of_00 m c nw_arg26

theorem R_main_arg27 (m : (ℓ : Loc nD τ sig) → Buf (Elt F) ℓ) (c : Dev nD) :
    R m c (Proc.devRef .tc main_arg27) = m ((c.tc : Thread nD τ).loc main_arg27) := R_of_00 m c nw_arg27

theorem R_main_arg28 (m : (ℓ : Loc nD τ sig) → Buf (Elt F) ℓ) (c : Dev nD) :
    R m c (Proc.devRef .tc main_arg28) = m ((c.tc : Thread nD τ).loc main_arg28) := R_of_00 m c nw_arg28

theorem R_main_arg29 (m : (ℓ : Loc nD τ sig) → Buf (Elt F) ℓ) (c : Dev nD) :
    R m c (Proc.devRef .tc main_arg29) = m ((c.tc : Thread nD τ).loc main_arg29) := R_of_00 m c nw_arg29

theorem R_main_arg30 (m : (ℓ : Loc nD τ sig) → Buf (Elt F) ℓ) (c : Dev nD) :
    R m c (Proc.devRef .tc main_arg30) = m ((c.tc : Thread nD τ).loc main_arg30) := R_of_00 m c nw_arg30

theorem R_main_arg31 (m : (ℓ : Loc nD τ sig) → Buf (Elt F) ℓ) (c : Dev nD) :
    R m c (Proc.devRef .tc main_arg31) = m ((c.tc : Thread nD τ).loc main_arg31) := R_of_00 m c nw_arg31

theorem R_main_arg32 (m : (ℓ : Loc nD τ sig) → Buf (Elt F) ℓ) (c : Dev nD) :
    R m c (Proc.devRef .tc main_arg32) = m ((c.tc : Thread nD τ).loc main_arg32) := R_of_00 m c nw_arg32

theorem R_main_arg33 (m : (ℓ : Loc nD τ sig) → Buf (Elt F) ℓ) (c : Dev nD) :
    R m c (Proc.devRef .tc main_arg33) = m ((c.tc : Thread nD τ).loc main_arg33) := R_of_00 m c nw_arg33

theorem R_main_arg34 (m : (ℓ : Loc nD τ sig) → Buf (Elt F) ℓ) (c : Dev nD) :
    R m c (Proc.devRef .tc main_arg34) = m ((c.tc : Thread nD τ).loc main_arg34) := R_of_00 m c nw_arg34

theorem R_main_arg35 (m : (ℓ : Loc nD τ sig) → Buf (Elt F) ℓ) (c : Dev nD) :
    R m c (Proc.devRef .tc main_arg35) = m ((c.tc : Thread nD τ).loc main_arg35) := R_of_00 m c nw_arg35

theorem R_main_arg36 (m : (ℓ : Loc nD τ sig) → Buf (Elt F) ℓ) (c : Dev nD) :
    R m c (Proc.devRef .tc main_arg36) = m ((c.tc : Thread nD τ).loc main_arg36) := R_of_00 m c nw_arg36

theorem R_main_arg37 (m : (ℓ : Loc nD τ sig) → Buf (Elt F) ℓ) (c : Dev nD) :
    R m c (Proc.devRef .tc main_arg37) = m ((c.tc : Thread nD τ).loc main_arg37) := R_of_00 m c nw_arg37

end Cert.ReferenceIdeal.Hand

end
-- ==== Proof.K.RunCond.lean ====
/- The run of @main on the TensorCores, read at EVERY unscoped buffer.

   Between two items of @main core c holds every unscoped buffer whole at a valuation V_J c: the launch contents, then
   each host stretch's operations applied, then what a region leaves in its output arrays (the unknowns `outs`).
   Given, per region, a segment record entered from the thread state before it and left at the one after it, every
   weakly fair execution of @main terminates, faults nowhere, and its final memory holds every unscoped buffer at the
   last valuation V41 c. The frame (each argument ends as launched) and the value of @main's results are both read
   off this one statement. -/
import proofs.«147763_j11003706212366_2_alg».proof.Proof.K.RegionsP

set_option maxRecDepth 65536

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option maxHeartbeats 4000000 in
set_option backward.isDefEq.respectTransparency.types false in
/-- Every unscoped buffer of every core ends at the last valuation, given the regions' segment records. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 17) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 18 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE17 : ∀ c : Dev nD, E 17 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V13 m outs c) ∗ E 5 c) ⊢ R5.pre c)
    (hpost5 : ∀ c : Dev nD, R5.post c ⊢ iprop(StableHlo.held (c : Thread nD τ) (Pipeline.ucRefs τ sig) (V14 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V15 m outs c) ∗ E 6 c) ⊢ R6.pre c)
    (hpost6 : ∀ c : Dev nD, R6.post c ⊢ iprop(StableHlo.held (c : Thread nD τ) (Pipeline.ucRefs τ sig) (V16 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V21 m outs c) ∗ E 8 c) ⊢ R8.pre c)
    (hpost8 : ∀ c : Dev nD, R8.post c ⊢ iprop(StableHlo.held (c : Thread nD τ) (Pipeline.ucRefs τ sig) (V22 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V23 m outs c) ∗ E 9 c) ⊢ R9.pre c)
    (hpost9 : ∀ c : Dev nD, R9.post c ⊢ iprop(StableHlo.held (c : Thread nD τ) (Pipeline.ucRefs τ sig) (V24 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V25 m outs c) ∗ E 10 c) ⊢ R10.pre c)
    (hpost10 : ∀ c : Dev nD, R10.post c ⊢ iprop(StableHlo.held (c : Thread nD τ) (Pipeline.ucRefs τ sig) (V26 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V27 m outs c) ∗ E 11 c) ⊢ R11.pre c)
    (hpost11 : ∀ c : Dev nD, R11.post c ⊢ iprop(StableHlo.held (c : Thread nD τ) (Pipeline.ucRefs τ sig) (V28 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V29 m outs c) ∗ E 12 c) ⊢ R12.pre c)
    (hpost12 : ∀ c : Dev nD, R12.post c ⊢ iprop(StableHlo.held (c : Thread nD τ) (Pipeline.ucRefs τ sig) (V30 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V33 m outs c) ∗ E 13 c) ⊢ R13.pre c)
    (hpost13 : ∀ c : Dev nD, R13.post c ⊢ iprop(StableHlo.held (c : Thread nD τ) (Pipeline.ucRefs τ sig) (V34 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V35 m outs c) ∗ E 14 c) ⊢ R14.pre c)
    (hpost14 : ∀ c : Dev nD, R14.post c ⊢ iprop(StableHlo.held (c : Thread nD τ) (Pipeline.ucRefs τ sig) (V36 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V37 m outs c) ∗ E 15 c) ⊢ R15.pre c)
    (hpost15 : ∀ c : Dev nD, R15.post c ⊢ iprop(StableHlo.held (c : Thread nD τ) (Pipeline.ucRefs τ sig) (V38 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V39 m outs c) ∗ E 16 c) ⊢ R16.pre c)
    (hpost16 : ∀ c : Dev nD, R16.post c ⊢ iprop(StableHlo.held (c : Thread nD τ) (Pipeline.ucRefs τ sig) (V40 m outs c) ∗ E 17 c)) :
    θ_run defs (onTc (τ := τ) (main (F := F))) ⟨m, fun _ => 0, ρ⟩ (fun r => ∀ c : Dev nD,
      ∀ b ∈ Pipeline.ucRefs τ sig, r.2.mem ((c : Thread nD τ).1, b) = V41 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16)
    (fun c Q => by
      rw [show main (F := F) c = Seg.run (segs m outs 𝒱₀ L lv E ι pdats R0 R1 R2 R3 R4 R5 R6 R7 R8 R9 R10 R11 R12 R13 R14 R15 R16 c)
        from (main_chain c).trans (by chain_rfl)])
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V41 m outs c))
    (hch := fun c => ⟨.rfl, hpre0 c, hpost0 c, .rfl, .rfl, hpre1 c, hpost1 c, hpre2 c, hpost2 c, hpre3 c, hpost3 c, hpre4 c, hpost4 c, hpre5 c, hpost5 c, hpre6 c, hpost6 c, .rfl, .rfl, hpre7 c, hpost7 c, hpre8 c, hpost8 c, hpre9 c, hpost9 c, hpre10 c, hpost10 c, hpre11 c, hpost11 c, hpre12 c, hpost12 c, .rfl, .rfl, hpre13 c, hpost13 c, hpre14 c, hpost14 c, hpre15 c, hpost15 c, hpre16 c, hpost16 c, sep_mono .rfl (hE17 c)⟩)
    (hinit := ?_) (QY := fun c s => ∀ b ∈ Pipeline.ucRefs τ sig, s.mem ((c : Thread nD τ).1, b) = V41 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V41 m outs c) s') $$ [Hh HSI]
    · isplitl [Hh] <;> iassumption
    icases Hr with ⟨%h, HSI⟩
    imodintro
    isplitr
    · ipureintro
      exact h
    · iexact HSI

end Cert.Kernel.Hand

end
-- ==== Proof.K.Reg0.lean ====
/-
  Region 0 (position embedding, ex = relu(relu(p·W1 + b1)·W2 + b2) + xs on row blocks of 1000): the frame half of its
  pipeline at an arbitrary entry state V, for any float interpretation F.

  Six input windows (rows of p and of xs by block; W1, b1, W2, b2 whole, with a constant block index) and one output
  window (rows of the result by block). The body loads every input buffer whole, and stores one whole-buffer payload
  into the output buffer; so after the body each input buffer still reads its block, and the output buffer reads the
  payload of the input blocks. The proof data records exactly that, and the body obligation follows from the body's
  triple and from the fact that an input buffer reads its window's block at every point, fetched there or not.
-/
import proofs.«147763_j11003706212366_2_alg».proof.Proof.Gen.Kernel.Launch
import proofs.«147763_j11003706212366_2_alg».proof.Proof.Gen.Kernel.Skeleton
import proofs.«147763_j11003706212366_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`: the rows (or the whole array) its index map selects there, read off the
    window's array in the entry state `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: for any proof data whose array is `V`'s and whose body leaves the block in place, the current
    buffer reads the window's block at every point — where it is not fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: for any proof data whose array is `V`'s and whose body leaves the block in place, the current
    buffer reads the window's block at every point — where it is not fetched the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: for any proof data whose array is `V`'s and whose body leaves the block in place, the current
    buffer reads the window's block at every point — where it is not fetched the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: for any proof data whose array is `V`'s and whose body leaves the block in place, the current
    buffer reads the window's block at every point — where it is not fetched the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: for any proof data whose array is `V`'s and whose body leaves the block in place, the current
    buffer reads the window's block at every point — where it is not fetched the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5: for any proof data whose array is `V`'s and whose body leaves the block in place, the current
    buffer reads the window's block at every point — where it is not fetched the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/

abbrev r0_0 : Rect S1000x3 := Rect.unit (s := S1000x3) ![0, 0] S1000x3.size inb_S1000x3_S1000x3_0_0
abbrev r0_1 : Rect S3x128 := Rect.unit (s := S3x128) ![0, 0] S3x128.size inb_S3x128_S3x128_0_0
abbrev r0_2 : Rect S1x128 := Rect.unit (s := S1x128) ![0, 0] S1x128.size inb_S1x128_S1x128_0_0
abbrev r0_3 : Rect S128x128 := Rect.unit (s := S128x128) ![0, 0] S128x128.size inb_S128x128_S128x128_0_0
abbrev r0_4 : Rect S1000x128 := Rect.unit (s := S1000x128) ![0, 0] S1000x128.size inb_S1000x128_S1000x128_0_0

/-! ## What the body leaves in the output buffer -/

/-- The output buffer after the body, as a function of what the six input buffers read: the one store's payload
    laid over the whole buffer. -/
def out0_6 (x0 : Vec F S1000x3 .bf16) (x1 : Vec F S1000x128 .f32) (x2 : Vec F S3x128 .bf16) (x3 : Vec F S1x128 .f32) (x4 : Vec F S128x128 .bf16) (x5 : Vec F S1x128 .f32) : Vec F S1000x128 .f32 :=
  View.canon [⟨r0_4, k0_pay1 (View.ld x0 r0_0) (View.ld x2 r0_1) (View.ld x3 r0_2) (View.ld x4 r0_3) (View.ld x5 r0_2) (View.ld x1 r0_4)⟩]

/-- The one store covers the output buffer. -/
theorem cover0_6 (p0 : Vec F S1000x128 .f32) (y : S1000x128.Idx) :
    ∃ pc ∈ ([⟨r0_4, p0⟩] : List (View.Piece (Elt F) S1000x128 .f32)), y ∈ pc.1.set :=
  View.cover_of_tiled [⟨r0_4, p0⟩] S1000x128.size (by rfl) y

/-! ## The body's triple -/

set_option maxHeartbeats 1000000 in
/-- The body on whole buffers, the inputs' reading `x0 … x5` and the output's anything, runs to a state where the
    inputs' read what they read and the output's reads `out0_6 x0 … x5`. -/
theorem sound_kernel0 (c : Dev nD) (E : Set ℕ) (i : grid0.Coords) (arg1 : Memref sig .tc .vmem S1000x3 .bf16) (harg1 : arg1.IsWhole) (arg2 : Memref sig .tc .vmem S1000x128 .f32) (harg2 : arg2.IsWhole) (arg3 : Memref sig .tc .vmem S3x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1000x128 .f32) (harg7 : arg7.IsWhole)
    (x0 : Vec F S1000x3 .bf16) (x1 : Vec F S1000x128 .f32) (x2 : Vec F S3x128 .bf16) (x3 : Vec F S1x128 .f32) (x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0_kernel i arg1 harg1 arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as `V` has them; after the body at point `t` each input
    buffer reads its block and the output buffer reads `out0_6` of the input blocks; the invariant is the rest of
    the core's scoped state and its generator register, untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are `V`'s. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current buffer reads its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the input buffers read their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand
-- ==== Proof.K.Reg1.lean ====
/-
  The frame half of region 1: the distance embedding  ee = bf16(relu(relu(len · W₁ + b₁) · W₂ + b₂) + es)  run
  as a pipeline over 20 row blocks of 4000 rows. Stated for any scalar model `F` and at a PARAMETER `V`, the buffer
  contents the region is entered with.

  Six windows are read (the lengths' rows and the edge states' rows, one block per point; the two layers' weights and
  bias rows, the same block at every point) and one is written (the embedded rows, one block per point). The body
  loads each input whole, computes, and stores the output whole, so what it leaves in the output's staging buffer is
  a function of the six input blocks alone, and every input's buffer is left as found.
-/
import proofs.«147763_j11003706212366_2_alg».proof.Proof.Gen.Kernel.Launch
import proofs.«147763_j11003706212366_2_alg».proof.Proof.Gen.Kernel.Skeleton
import proofs.«147763_j11003706212366_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle 4000 rows long is looked at once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents the region is entered with
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the lengths' rows): its current staging buffer holds its block at every point, whether or not a fetch
    lands there, for ANY proof data whose array is `V`'s (`hA`) and whose body leaves the block in place (`hafter`).
    Where no fetch lands the block index has not moved, so the block kept from the point before is this point's; the
    window is uncut and has no idle point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the edge states' rows): its current staging buffer holds its block at every point, whether or not a fetch
    lands there, for ANY proof data whose array is `V`'s (`hA`) and whose body leaves the block in place (`hafter`).
    Where no fetch lands the block index has not moved, so the block kept from the point before is this point's; the
    window is uncut and has no idle point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the first layer's weight row): its current staging buffer holds its block at every point, whether or not a fetch
    lands there, for ANY proof data whose array is `V`'s (`hA`) and whose body leaves the block in place (`hafter`).
    Where no fetch lands the block index has not moved, so the block kept from the point before is this point's; the
    window is uncut and has no idle point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 (the first layer's bias row): its current staging buffer holds its block at every point, whether or not a fetch
    lands there, for ANY proof data whose array is `V`'s (`hA`) and whose body leaves the block in place (`hafter`).
    Where no fetch lands the block index has not moved, so the block kept from the point before is this point's; the
    window is uncut and has no idle point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 (the second layer's weight matrix): its current staging buffer holds its block at every point, whether or not a fetch
    lands there, for ANY proof data whose array is `V`'s (`hA`) and whose body leaves the block in place (`hafter`).
    Where no fetch lands the block index has not moved, so the block kept from the point before is this point's; the
    window is uncut and has no idle point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5 (the second layer's bias row): its current staging buffer holds its block at every point, whether or not a fetch
    lands there, for ANY proof data whose array is `V`'s (`hA`) and whose body leaves the block in place (`hafter`).
    Where no fetch lands the block index has not moved, so the block kept from the point before is this point's; the
    window is uncut and has no idle point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer read or written whole -/

abbrev r1_0 : Rect S4000x1 := Rect.unit (s := S4000x1) ![0, 0] S4000x1.size inb_S4000x1_S4000x1_0_0
abbrev r1_1 : Rect S1x128 := Rect.unit (s := S1x128) ![0, 0] S1x128.size inb_S1x128_S1x128_0_0
abbrev r1_2 : Rect S128x128 := Rect.unit (s := S128x128) ![0, 0] S128x128.size inb_S128x128_S128x128_0_0
abbrev r1_3 : Rect S4000x128 := Rect.unit (s := S4000x128) ![0, 0] S4000x128.size inb_S4000x128_S4000x128_0_0

/-! ## What the body leaves in the output window's buffer -/

/-- Window 6's staging buffer after the body, from the six input blocks (in window order: lengths, edge states,
    first weight row, first bias row, second weight matrix, second bias row): its one store, whose payload reads
    every input whole. -/
def out1_6 (x0 : Vec F S4000x1 .bf16) (x1 : Vec F S4000x128 .f32) (x2 : Vec F S1x128 .bf16) (x3 : Vec F S1x128 .f32) (x4 : Vec F S128x128 .bf16) (x5 : Vec F S1x128 .f32) : Vec F S4000x128 .bf16 :=
  View.canon [⟨r1_3, k1_pay1 (View.ld x0 r1_0) (View.ld x2 r1_1) (View.ld x3 r1_1) (View.ld x4 r1_2) (View.ld x5 r1_1) (View.ld x1 r1_3)⟩]

/-- The one store is the whole buffer, so it covers it. -/
theorem cover1_6 (p0 : Vec F S4000x128 .bf16) (y : S4000x128.Idx) :
    ∃ pc ∈ ([⟨r1_3, p0⟩] : List (View.Piece (Elt F) S4000x128 .bf16)), y ∈ pc.1.set :=
  View.cover_of_tiled [⟨r1_3, p0⟩] S4000x128.size (by rfl) y

/-! ## The body's triple -/

set_option maxHeartbeats 1000000 in
/-- The body on whole staging memrefs, the six inputs' at read contents `x0 … x5` and the output's at anything, runs to
    a continuation holding the inputs' as they were and the output's at `out1_6` of the inputs'. -/
theorem sound_kernel1 (c : Dev nD) (E : Set ℕ) (i : grid1.Coords)
    (arg1 : Memref sig .tc .vmem S4000x1 .bf16) (harg1 : arg1.IsWhole)
    (arg2 : Memref sig .tc .vmem S4000x128 .f32) (harg2 : arg2.IsWhole)
    (arg3 : Memref sig .tc .vmem S1x128 .bf16) (harg3 : arg3.IsWhole)
    (arg4 : Memref sig .tc .vmem S1x128 .f32) (harg4 : arg4.IsWhole)
    (arg5 : Memref sig .tc .vmem S128x128 .bf16) (harg5 : arg5.IsWhole)
    (arg6 : Memref sig .tc .vmem S1x128 .f32) (harg6 : arg6.IsWhole)
    (arg7 : Memref sig .tc .vmem S4000x128 .bf16) (harg7 : arg7.IsWhole)
    (x0 : Vec F S4000x1 .bf16) (x1 : Vec F S4000x128 .f32) (x2 : Vec F S1x128 .bf16) (x3 : Vec F S1x128 .f32) (x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at point
    `t` each input's buffer at its block and the output's at `out1_6` of the six input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, whether or not a fetch lands there. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand
-- ==== Proof.K.Reg2.lean ====
/-
  The edge-update region 2 at a parameter `V`, the TensorCore's buffer contents when the region is entered, for any
  float algebra `F`: each window's block at a grid point; what the body leaves in its two output buffers, as a function of
  the fourteen input blocks (the stores' payloads laid over the buffer); the body's triple; the proof data with the inputs
  kept at their blocks and the outputs at those functions; the body obligation at every grid point.

  The nine weight and bias windows have a constant block index: they are transferred at the first point only, and at every
  later point the buffer still holds the block, which is the same block.
-/
import proofs.«147763_j11003706212366_2_alg».proof.Proof.Gen.Kernel.Launch
import proofs.«147763_j11003706212366_2_alg».proof.Proof.Gen.Kernel.Skeleton
import proofs.«147763_j11003706212366_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window `w`'s block at point `t`, read off its array at the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, transferred there or not, for any proof data whose
    array is `V`'s and whose body leaves the block in place: where no transfer happened the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, transferred there or not, for any proof data whose
    array is `V`'s and whose body leaves the block in place: where no transfer happened the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, transferred there or not, for any proof data whose
    array is `V`'s and whose body leaves the block in place: where no transfer happened the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, transferred there or not, for any proof data whose
    array is `V`'s and whose body leaves the block in place: where no transfer happened the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, transferred there or not, for any proof data whose
    array is `V`'s and whose body leaves the block in place: where no transfer happened the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current buffer holds its block at every point, transferred there or not, for any proof data whose
    array is `V`'s and whose body leaves the block in place: where no transfer happened the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current buffer holds its block at every point, transferred there or not, for any proof data whose
    array is `V`'s and whose body leaves the block in place: where no transfer happened the block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current buffer holds its block at every point, transferred there or not, for any proof data whose
    array is `V`'s and whose body leaves the block in place: where no transfer happened the block index has not moved. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current buffer holds its block at every point, transferred there or not, for any proof data whose
    array is `V`'s and whose body leaves the block in place: where no transfer happened the block index has not moved. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current buffer holds its block at every point, transferred there or not, for any proof data whose
    array is `V`'s and whose body leaves the block in place: where no transfer happened the block index has not moved. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Input window 10's current buffer holds its block at every point, transferred there or not, for any proof data whose
    array is `V`'s and whose body leaves the block in place: where no transfer happened the block index has not moved. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-- Input window 11's current buffer holds its block at every point, transferred there or not, for any proof data whose
    array is `V`'s and whose body leaves the block in place: where no transfer happened the block index has not moved. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-- Input window 12's current buffer holds its block at every point, transferred there or not, for any proof data whose
    array is `V`'s and whose body leaves the block in place: where no transfer happened the block index has not moved. -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

/-- Input window 13's current buffer holds its block at every point, transferred there or not, for any proof data whose
    array is `V`'s and whose body leaves the block in place: where no transfer happened the block index has not moved. -/
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev r2_0 : Rect S2000x128 := Rect.unit (s := S2000x128) ![0, 0] S2000x128.size inb_S2000x128_S2000x128_0_0
abbrev r2_1 : Rect S128x512 := Rect.unit (s := S128x512) ![0, 0] S128x512.size inb_S128x512_S128x512_0_0
abbrev r2_2 : Rect S1x512 := Rect.unit (s := S1x512) ![0, 0] S1x512.size inb_S1x512_S1x512_0_0
abbrev r2_3 : Rect S512x512 := Rect.unit (s := S512x512) ![0, 0] S512x512.size inb_S512x512_S512x512_0_0
abbrev r2_4 : Rect S512x128 := Rect.unit (s := S512x128) ![0, 0] S512x128.size inb_S512x128_S512x128_0_0
abbrev r2_5 : Rect S1x128 := Rect.unit (s := S1x128) ![0, 0] S1x128.size inb_S1x128_S1x128_0_0

/-! ## What the body leaves in each output window's buffer -/

/-- Window 14's buffer after the body, from the input windows' blocks: its one store, of the whole buffer. -/
def out2_14 (x0 : Vec F S2000x128 .bf16) (x1 : Vec F S2000x128 .bf16) (x2 : Vec F S2000x128 .bf16) (x3 : Vec F S2000x128 .bf16) (x4 : Vec F S2000x128 .f32) (x5 : Vec F S128x512 .bf16) (x6 : Vec F S128x512 .bf16) (x7 : Vec F S128x512 .bf16) (x8 : Vec F S128x512 .bf16) (x9 : Vec F S1x512 .f32) (x10 : Vec F S512x512 .bf16) (x11 : Vec F S1x512 .f32) (x12 : Vec F S512x128 .bf16) (x13 : Vec F S1x128 .f32) : Vec F S2000x128 .f32 :=
  View.canon [⟨r2_0, k2_pay1 (k2_pay3 (View.ld x0 r2_0) (View.ld x5 r2_1) (View.ld x1 r2_0) (View.ld x6 r2_1) (View.ld x2 r2_0) (View.ld x7 r2_1) (View.ld x3 r2_0) (View.ld x8 r2_1) (View.ld x9 r2_2) (View.ld x10 r2_3)) (View.ld x11 r2_2) (View.ld x12 r2_4) (View.ld x13 r2_5)⟩]

/-- The one store covers the buffer. -/
theorem cover2_14 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-- Window 15's buffer after the body, from the input windows' blocks: its one store, of the whole buffer. -/
def out2_15 (x0 : Vec F S2000x128 .bf16) (x1 : Vec F S2000x128 .bf16) (x2 : Vec F S2000x128 .bf16) (x3 : Vec F S2000x128 .bf16) (x4 : Vec F S2000x128 .f32) (x5 : Vec F S128x512 .bf16) (x6 : Vec F S128x512 .bf16) (x7 : Vec F S128x512 .bf16) (x8 : Vec F S128x512 .bf16) (x9 : Vec F S1x512 .f32) (x10 : Vec F S512x512 .bf16) (x11 : Vec F S1x512 .f32) (x12 : Vec F S512x128 .bf16) (x13 : Vec F S1x128 .f32) : Vec F S2000x128 .f32 :=
  View.canon [⟨r2_0, k2_pay2 (k2_pay3 (View.ld x0 r2_0) (View.ld x5 r2_1) (View.ld x1 r2_0) (View.ld x6 r2_1) (View.ld x2 r2_0) (View.ld x7 r2_1) (View.ld x3 r2_0) (View.ld x8 r2_1) (View.ld x9 r2_2) (View.ld x10 r2_3)) (View.ld x11 r2_2) (View.ld x12 r2_4) (View.ld x13 r2_5) (View.ld x4 r2_0)⟩]

/-- The one store covers the buffer. -/
theorem cover2_15 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The body's triple -/

set_option maxHeartbeats 4000000 in
/-- The body on whole buffers, the inputs' reading `xW` and the outputs' holding anything, runs to the continuation with the
    inputs' as they were and each output's at `out2_W` of the inputs'. -/
theorem sound_kernel2 (c : Dev nD) (E : Set ℕ) (i : grid2.Coords) (arg1 : Memref sig .tc .vmem S2000x128 .bf16) (harg1 : arg1.IsWhole) (arg2 : Memref sig .tc .vmem S2000x128 .bf16) (harg2 : arg2.IsWhole) (arg3 : Memref sig .tc .vmem S2000x128 .bf16) (harg3 : arg3.IsWhole) (arg4 : Memref sig .tc .vmem S2000x128 .bf16) (harg4 : arg4.IsWhole) (arg5 : Memref sig .tc .vmem S2000x128 .f32) (harg5 : arg5.IsWhole) (arg6 : Memref sig .tc .vmem S128x512 .bf16) (harg6 : arg6.IsWhole) (arg7 : Memref sig .tc .vmem S128x512 .bf16) (harg7 : arg7.IsWhole) (arg8 : Memref sig .tc .vmem S128x512 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S512x128 .bf16) (harg13 : arg13.IsWhole) (arg14 : Memref sig .tc .vmem S1x128 .f32) (harg14 : arg14.IsWhole) (arg15 : Memref sig .tc .vmem S2000x128 .f32) (harg15 : arg15.IsWhole) (arg16 : Memref sig .tc .vmem S2000x128 .f32) (harg16 : arg16.IsWhole)
    (x0 : Vec F S2000x128 .bf16) (x1 : Vec F S2000x128 .bf16) (x2 : Vec F S2000x128 .bf16) (x3 : Vec F S2000x128 .bf16) (x4 : Vec F S2000x128 .f32) (x5 : Vec F S128x512 .bf16) (x6 : Vec F S128x512 .bf16) (x7 : Vec F S128x512 .bf16) (x8 : Vec F S128x512 .bf16) (x9 : Vec F S1x512 .f32) (x10 : Vec F S512x512 .bf16) (x11 : Vec F S1x512 .f32) (x12 : Vec F S512x128 .bf16) (x13 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out2_14 x0 x1 x2 x3 x4 x5 x6 x7 x8 x9 x10 x11 x12 x13) ∗ owns (c : Thread nD τ) arg16 fullShare (out2_15 x0 x1 x2 x3 x4 x5 x6 x7 x8 x9 x10 x11 x12 x13)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    try dsimp only
    exact View.read_writes_eq_canon _ _ _ (cover2_14 _)
  iexists _; isplitr
  swap; · iexact H15
  ipureintro
  try dsimp only
  exact View.read_writes_eq_canon _ _ _ (cover2_15 _)

/-! ## The pipeline's proof data -/

/-- The proof data of this pipeline on core `c`: the arrays at `V`; after the body at point `t` each input's buffer at its
    block and each output's at `out2_W` of the input blocks; the class's invariant (the scoped rest and the generator
    register untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)
    | ⟨15, _⟩ => out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)
    | ⟨_ + 16, h⟩ => absurd h (Nat.not_lt.2 (Nat.le_add_left _ _))
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) := by dsimp only [dat2]
theorem after2_15 (c : Dev nD) (t : Fin cfg2.N) : (dat2 V c).after 15 t = out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) := by dsimp only [dat2]

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t))

set_option maxHeartbeats 1000000 in
/-- The body at any point: the inputs' buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel2 c Set.univ (grid2.coords t) _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand
-- ==== Proof.K.Reg3.lean ====
/- The frame half of region 3: a three-layer perceptron on one block of rows, each layer a product with a
   weight matrix into a zero accumulator, a bias row added to every row, and the positive part. Seven input
   windows (the rows, then weight and bias of each layer) and one output window holding the rows of the result. -/
import proofs.«147763_j11003706212366_2_alg».proof.Proof.Gen.Kernel.Launch
import proofs.«147763_j11003706212366_2_alg».proof.Proof.Gen.Kernel.Skeleton
import proofs.«147763_j11003706212366_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array at the contents `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 holds its block at every point, fetched there or not: where it is not fetched its block
    index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 holds its block at every point, fetched there or not: where it is not fetched its block
    index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 holds its block at every point, fetched there or not: where it is not fetched its block
    index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3 holds its block at every point, fetched there or not: where it is not fetched its block
    index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4 holds its block at every point, fetched there or not: where it is not fetched its block
    index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5 holds its block at every point, fetched there or not: where it is not fetched its block
    index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6 holds its block at every point, fetched there or not: where it is not fetched its block
    index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read and written whole -/

abbrev r3_0 : Rect S1000x512 := Rect.unit (s := S1000x512) ![0, 0] S1000x512.size inb_S1000x512_S1000x512_0_0
abbrev r3_1 : Rect S512x512 := Rect.unit (s := S512x512) ![0, 0] S512x512.size inb_S512x512_S512x512_0_0
abbrev r3_2 : Rect S1x512 := Rect.unit (s := S1x512) ![0, 0] S1x512.size inb_S1x512_S1x512_0_0
abbrev r3_3 : Rect S512x128 := Rect.unit (s := S512x128) ![0, 0] S512x128.size inb_S512x128_S512x128_0_0
abbrev r3_4 : Rect S1x128 := Rect.unit (s := S1x128) ![0, 0] S1x128.size inb_S1x128_S1x128_0_0
abbrev r3_5 : Rect S1000x128 := Rect.unit (s := S1000x128) ![0, 0] S1000x128.size inb_S1000x128_S1000x128_0_0

/-! ## What the body leaves in the output window's buffer -/

/-- The output buffer after the body, from the input blocks: its one store, of the third layer's positive part. -/
def out3_7 (x0 : Vec F S1000x512 .bf16) (x1 : Vec F S512x512 .bf16) (x2 : Vec F S1x512 .f32) (x3 : Vec F S512x512 .bf16) (x4 : Vec F S1x512 .f32) (x5 : Vec F S512x128 .bf16) (x6 : Vec F S1x128 .f32) : Vec F S1000x128 .f32 :=
  View.canon [⟨r3_5, k3_pay1 (View.ld x0 r3_0) (View.ld x1 r3_1) (View.ld x2 r3_2) (View.ld x3 r3_1) (View.ld x4 r3_2) (View.ld x5 r3_3) (View.ld x6 r3_4)⟩]

/-- The one store is of the whole buffer. -/
theorem cover3_7 (p0 : Vec F S1000x128 .f32) (y : S1000x128.Idx) :
    ∃ pc ∈ ([⟨r3_5, p0⟩] : List (View.Piece (Elt F) S1000x128 .f32)), y ∈ pc.1.set :=
  View.cover_of_tiled [⟨r3_5, p0⟩] S1000x128.size (by rfl) y

/-! ## The body's triple -/

set_option maxHeartbeats 1000000 in
/-- The body on whole staging buffers, the inputs' at contents `x0 … x6` and the output's at anything, returns the
    inputs' as they were and the output's at `out3_7` of them. -/
theorem sound_kernel3 (c : Dev nD) (E : Set ℕ) (i : grid3.Coords) (arg1 : Memref sig .tc .vmem S1000x512 .bf16) (harg1 : arg1.IsWhole) (arg2 : Memref sig .tc .vmem S512x512 .bf16) (harg2 : arg2.IsWhole) (arg3 : Memref sig .tc .vmem S1x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S1000x128 .f32) (harg8 : arg8.IsWhole)
    (x0 : Vec F S1000x512 .bf16) (x1 : Vec F S512x512 .bf16) (x2 : Vec F S1x512 .f32) (x3 : Vec F S512x512 .bf16) (x4 : Vec F S1x512 .f32) (x5 : Vec F S512x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3_kernel i arg1 harg1 arg2 harg2 arg3 harg3 arg4 harg4 arg5 harg5 arg6 harg6 arg7 harg7 arg8 harg8) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays at `V`; after the body at point `t` each input's buffer at
    its block and the output's at `out3_7` of the input blocks; the invariant the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so `sound_kernel3` applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation3 (c : Dev nD) : BodyObligation (dat3 (F := F) V c) (defs₀ (F := F)) Variants.none () Set.univ := fun t => by
  rw [bigSep_W3, bigSep_W3]
  exact sound_body3 V c t

end

end Cert.Kernel.Hand

end
-- ==== Proof.K.Reg4.lean ====
/- The frame half of region 4: a three-layer perceptron on one block of rows, each layer a product with a
   weight matrix into a zero accumulator, a bias row added to every row, and the positive part. Seven input
   windows (the rows, then weight and bias of each layer) and one output window holding the rows of the result. -/
import proofs.«147763_j11003706212366_2_alg».proof.Proof.Gen.Kernel.Launch
import proofs.«147763_j11003706212366_2_alg».proof.Proof.Gen.Kernel.Skeleton
import proofs.«147763_j11003706212366_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array at the contents `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 holds its block at every point, fetched there or not: where it is not fetched its block
    index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 holds its block at every point, fetched there or not: where it is not fetched its block
    index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2 holds its block at every point, fetched there or not: where it is not fetched its block
    index has not moved. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3 holds its block at every point, fetched there or not: where it is not fetched its block
    index has not moved. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4 holds its block at every point, fetched there or not: where it is not fetched its block
    index has not moved. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5 holds its block at every point, fetched there or not: where it is not fetched its block
    index has not moved. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Input window 6 holds its block at every point, fetched there or not: where it is not fetched its block
    index has not moved. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer is read and written whole -/

abbrev r4_0 : Rect S64x384 := Rect.unit (s := S64x384) ![0, 0] S64x384.size inb_S64x384_S64x384_0_0
abbrev r4_1 : Rect S384x512 := Rect.unit (s := S384x512) ![0, 0] S384x512.size inb_S384x512_S384x512_0_0
abbrev r4_2 : Rect S1x512 := Rect.unit (s := S1x512) ![0, 0] S1x512.size inb_S1x512_S1x512_0_0
abbrev r4_3 : Rect S512x512 := Rect.unit (s := S512x512) ![0, 0] S512x512.size inb_S512x512_S512x512_0_0
abbrev r4_4 : Rect S512x128 := Rect.unit (s := S512x128) ![0, 0] S512x128.size inb_S512x128_S512x128_0_0
abbrev r4_5 : Rect S1x128 := Rect.unit (s := S1x128) ![0, 0] S1x128.size inb_S1x128_S1x128_0_0
abbrev r4_6 : Rect S64x128 := Rect.unit (s := S64x128) ![0, 0] S64x128.size inb_S64x128_S64x128_0_0

/-! ## What the body leaves in the output window's buffer -/

/-- The output buffer after the body, from the input blocks: its one store, of the third layer's positive part. -/
def out4_7 (x0 : Vec F S64x384 .bf16) (x1 : Vec F S384x512 .bf16) (x2 : Vec F S1x512 .f32) (x3 : Vec F S512x512 .bf16) (x4 : Vec F S1x512 .f32) (x5 : Vec F S512x128 .bf16) (x6 : Vec F S1x128 .f32) : Vec F S64x128 .f32 :=
  View.canon [⟨r4_6, k4_pay1 (View.ld x0 r4_0) (View.ld x1 r4_1) (View.ld x2 r4_2) (View.ld x3 r4_3) (View.ld x4 r4_2) (View.ld x5 r4_4) (View.ld x6 r4_5)⟩]

/-- The one store is of the whole buffer. -/
theorem cover4_7 (p0 : Vec F S64x128 .f32) (y : S64x128.Idx) :
    ∃ pc ∈ ([⟨r4_6, p0⟩] : List (View.Piece (Elt F) S64x128 .f32)), y ∈ pc.1.set :=
  View.cover_of_tiled [⟨r4_6, p0⟩] S64x128.size (by rfl) y

/-! ## The body's triple -/

set_option maxHeartbeats 1000000 in
/-- The body on whole staging buffers, the inputs' at contents `x0 … x6` and the output's at anything, returns the
    inputs' as they were and the output's at `out4_7` of them. -/
theorem sound_kernel4 (c : Dev nD) (E : Set ℕ) (i : grid4.Coords) (arg1 : Memref sig .tc .vmem S64x384 .bf16) (harg1 : arg1.IsWhole) (arg2 : Memref sig .tc .vmem S384x512 .bf16) (harg2 : arg2.IsWhole) (arg3 : Memref sig .tc .vmem S1x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S64x128 .f32) (harg8 : arg8.IsWhole)
    (x0 : Vec F S64x384 .bf16) (x1 : Vec F S384x512 .bf16) (x2 : Vec F S1x512 .f32) (x3 : Vec F S512x512 .bf16) (x4 : Vec F S1x512 .f32) (x5 : Vec F S512x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4_kernel i arg1 harg1 arg2 harg2 arg3 harg3 arg4 harg4 arg5 harg5 arg6 harg6 arg7 harg7 arg8 harg8) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The pipeline's proof data -/

/-- The proof data of pipeline 4 on core `c`: the arrays at `V`; after the body at point `t` each input's buffer at
    its block and the output's at `out4_7` of the input blocks; the invariant the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at any point: the inputs' buffers hold their blocks, so `sound_kernel4` applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ (grid4.coords t) _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation4 (c : Dev nD) : BodyObligation (dat4 (F := F) V c) (defs₀ (F := F)) Variants.none () Set.univ := fun t => by
  rw [bigSep_W4, bigSep_W4]
  exact sound_body4 V c t

end

end Cert.Kernel.Hand

end
-- ==== Proof.K.Reg5.lean ====
/- Region 5 of @main, the decoder  out = (relu(xs·W1 + b1)·W2 + b2) + lp  on blocks of 1000 rows, at ANY contents `V` of the
   TensorCore's buffers when the region is entered and any float carrier `F`.

   Window `w`'s block at point `t` is read off `V` (`iblk5`). The body loads its six input blocks whole, forms one
   payload from them and stores it over the whole output block; so after the body every input buffer still holds its
   block and the output buffer holds that payload of the six blocks (`out5_6`). An input buffer holds its block at
   EVERY point, fetched there or not: the two weight matrices and the two bias rows are fetched at point 0 only, and
   their block index never moves afterwards. With these the proof data `dat5` meet the pipeline's body obligation
   at every point (`body_obligation5`). -/
import proofs.«147763_j11003706212366_2_alg».proof.Proof.Gen.Kernel.Launch
import proofs.«147763_j11003706212366_2_alg».proof.Proof.Gen.Kernel.Skeleton
import proofs.«147763_j11003706212366_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle 1000 long recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the TensorCore's buffer contents when the region is entered
variable (V : (c : Dev nD) → (b : Ref sig .tc) → Buf (Elt F) ((c : Thread nD τ).loc b))

/-! ## The windows' blocks -/

/-- Window `w`'s block at point `t`: the part of its array, as `V` holds it, that the transfer at `t` moves. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the node states' block): its current staging buffer holds its block at every point, fetched there or not, for
    any proof data whose array is `V`'s (`hA`) and whose body leaves the block in place (`hafter`). Where the point
    does not fetch, the block index is the previous point's, and so is the block; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1 (the positions' block): its current staging buffer holds its block at every point, fetched there or not, for
    any proof data whose array is `V`'s (`hA`) and whose body leaves the block in place (`hafter`). Where the point
    does not fetch, the block index is the previous point's, and so is the block; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2 (the first layer's weights): its current staging buffer holds its block at every point, fetched there or not, for
    any proof data whose array is `V`'s (`hA`) and whose body leaves the block in place (`hafter`). Where the point
    does not fetch, the block index is the previous point's, and so is the block; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3 (the first layer's bias row): its current staging buffer holds its block at every point, fetched there or not, for
    any proof data whose array is `V`'s (`hA`) and whose body leaves the block in place (`hafter`). Where the point
    does not fetch, the block index is the previous point's, and so is the block; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4 (the second layer's weights): its current staging buffer holds its block at every point, fetched there or not, for
    any proof data whose array is `V`'s (`hA`) and whose body leaves the block in place (`hafter`). Where the point
    does not fetch, the block index is the previous point's, and so is the block; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5 (the second layer's bias row): its current staging buffer holds its block at every point, fetched there or not, for
    any proof data whose array is `V`'s (`hA`) and whose body leaves the block in place (`hafter`). Where the point
    does not fetch, the block index is the previous point's, and so is the block; the window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is read, and the output written, whole -/

abbrev r5_0 : Rect S1000x128 := Rect.unit (s := S1000x128) ![0, 0] S1000x128.size inb_S1000x128_S1000x128_0_0
abbrev r5_1 : Rect S128x128 := Rect.unit (s := S128x128) ![0, 0] S128x128.size inb_S128x128_S128x128_0_0
abbrev r5_2 : Rect S1x128 := Rect.unit (s := S1x128) ![0, 0] S1x128.size inb_S1x128_S1x128_0_0
abbrev r5_3 : Rect S128x3 := Rect.unit (s := S128x3) ![0, 0] S128x3.size inb_S128x3_S128x3_0_0
abbrev r5_4 : Rect S1x3 := Rect.unit (s := S1x3) ![0, 0] S1x3.size inb_S1x3_S1x3_0_0
abbrev r5_5 : Rect S1000x3 := Rect.unit (s := S1000x3) ![0, 0] S1000x3.size inb_S1000x3_S1000x3_0_0

/-! ## What the body leaves in the output window's buffer -/

/-- Window 6's staging buffer after the body, from the six input blocks: its one store, of the payload of the blocks
    as loaded. -/
def out5_6 (x0 : Vec F S1000x128 .bf16) (x1 : Vec F S1000x3 .f32) (x2 : Vec F S128x128 .bf16) (x3 : Vec F S1x128 .f32) (x4 : Vec F S128x3 .bf16) (x5 : Vec F S1x3 .f32) : Vec F S1000x3 .f32 :=
  View.canon [⟨r5_5, k5_pay1 (View.ld x0 r5_0) (View.ld x2 r5_1) (View.ld x3 r5_2) (View.ld x4 r5_3) (View.ld x5 r5_4) (View.ld x1 r5_5)⟩]

/-- The one store is of the whole block, so it covers it. -/
theorem cover5_6 (p0 : Vec F S1000x3 .f32) (y : S1000x3.Idx) :
    ∃ pc ∈ ([⟨r5_5, p0⟩] : List (View.Piece (Elt F) S1000x3 .f32)), y ∈ pc.1.set :=
  View.cover_of_tiled [⟨r5_5, p0⟩] S1000x3.size (by rfl) y

/-! ## The body's triple -/

set_option maxHeartbeats 1000000 in
/-- The body on whole staging memrefs, the inputs' at contents `x0 … x5` and the output's at anything, runs to the
    continuation with the inputs' as they were and the output's at `out5_6` of the inputs'. -/
theorem sound_kernel5 (c : Dev nD) (E : Set ℕ) (i : grid5.Coords)
    (arg1 : Memref sig .tc .vmem S1000x128 .bf16) (harg1 : arg1.IsWhole)
    (arg2 : Memref sig .tc .vmem S1000x3 .f32) (harg2 : arg2.IsWhole)
    (arg3 : Memref sig .tc .vmem S128x128 .bf16) (harg3 : arg3.IsWhole)
    (arg4 : Memref sig .tc .vmem S1x128 .f32) (harg4 : arg4.IsWhole)
    (arg5 : Memref sig .tc .vmem S128x3 .bf16) (harg5 : arg5.IsWhole)
    (arg6 : Memref sig .tc .vmem S1x3 .f32) (harg6 : arg6.IsWhole)
    (arg7 : Memref sig .tc .vmem S1000x3 .f32) (harg7 : arg7.IsWhole)
    (x0 : Vec F S1000x128 .bf16) (x1 : Vec F S1000x3 .f32) (x2 : Vec F S128x128 .bf16) (x3 : Vec F S1x128 .f32) (x4 : Vec F S128x3 .bf16) (x5 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E (cc5_kernel i arg1 harg1 arg2 harg2 arg3 harg3 arg4 harg4 arg5 harg5 arg6 harg6 arg7 harg7) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of the region's pipeline on core `c`: the arrays as `V` holds them; after the body at point `t`
    each input's buffer at its block and the output's at `out5_6` of the six blocks; the invariant that the scoped
    rest and the generator register are untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are `V`'s. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so the body's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.Kernel.Hand

end
-- ==== Proof.K.Reg6.lean ====
/-
  Region 6 (position embedding, ex = relu(relu(p·W1 + b1)·W2 + b2) + xs on row blocks of 1000): the frame half of its
  pipeline at an arbitrary entry state V, for any float interpretation F.

  Six input windows (rows of p and of xs by block; W1, b1, W2, b2 whole, with a constant block index) and one output
  window (rows of the result by block). The body loads every input buffer whole, and stores one whole-buffer payload
  into the output buffer; so after the body each input buffer still reads its block, and the output buffer reads the
  payload of the input blocks. The proof data records exactly that, and the body obligation follows from the body's
  triple and from the fact that an input buffer reads its window's block at every point, fetched there or not.
-/
import proofs.«147763_j11003706212366_2_alg».proof.Proof.Gen.Kernel.Launch
import proofs.«147763_j11003706212366_2_alg».proof.Proof.Gen.Kernel.Skeleton
import proofs.«147763_j11003706212366_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))

/-! ## The windows' blocks -/

/-- Window `w`'s block at point `t`: the rows (or the whole array) its index map selects there, read off the
    window's array in the entry state `V`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0: for any proof data whose array is `V`'s and whose body leaves the block in place, the current
    buffer reads the window's block at every point — where it is not fetched the block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1: for any proof data whose array is `V`'s and whose body leaves the block in place, the current
    buffer reads the window's block at every point — where it is not fetched the block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2: for any proof data whose array is `V`'s and whose body leaves the block in place, the current
    buffer reads the window's block at every point — where it is not fetched the block index has not moved. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3: for any proof data whose array is `V`'s and whose body leaves the block in place, the current
    buffer reads the window's block at every point — where it is not fetched the block index has not moved. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4: for any proof data whose array is `V`'s and whose body leaves the block in place, the current
    buffer reads the window's block at every point — where it is not fetched the block index has not moved. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5: for any proof data whose array is `V`'s and whose body leaves the block in place, the current
    buffer reads the window's block at every point — where it is not fetched the block index has not moved. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the store take a whole buffer -/

abbrev r6_0 : Rect S1000x3 := Rect.unit (s := S1000x3) ![0, 0] S1000x3.size inb_S1000x3_S1000x3_0_0
abbrev r6_1 : Rect S3x128 := Rect.unit (s := S3x128) ![0, 0] S3x128.size inb_S3x128_S3x128_0_0
abbrev r6_2 : Rect S1x128 := Rect.unit (s := S1x128) ![0, 0] S1x128.size inb_S1x128_S1x128_0_0
abbrev r6_3 : Rect S128x128 := Rect.unit (s := S128x128) ![0, 0] S128x128.size inb_S128x128_S128x128_0_0
abbrev r6_4 : Rect S1000x128 := Rect.unit (s := S1000x128) ![0, 0] S1000x128.size inb_S1000x128_S1000x128_0_0

/-! ## What the body leaves in the output buffer -/

/-- The output buffer after the body, as a function of what the six input buffers read: the one store's payload
    laid over the whole buffer. -/
def out6_6 (x0 : Vec F S1000x3 .bf16) (x1 : Vec F S1000x128 .f32) (x2 : Vec F S3x128 .bf16) (x3 : Vec F S1x128 .f32) (x4 : Vec F S128x128 .bf16) (x5 : Vec F S1x128 .f32) : Vec F S1000x128 .f32 :=
  View.canon [⟨r6_4, k6_pay1 (View.ld x0 r6_0) (View.ld x2 r6_1) (View.ld x3 r6_2) (View.ld x4 r6_3) (View.ld x5 r6_2) (View.ld x1 r6_4)⟩]

/-- The one store covers the output buffer. -/
theorem cover6_6 (p0 : Vec F S1000x128 .f32) (y : S1000x128.Idx) :
    ∃ pc ∈ ([⟨r6_4, p0⟩] : List (View.Piece (Elt F) S1000x128 .f32)), y ∈ pc.1.set :=
  View.cover_of_tiled [⟨r6_4, p0⟩] S1000x128.size (by rfl) y

/-! ## The body's triple -/

set_option maxHeartbeats 1000000 in
/-- The body on whole buffers, the inputs' reading `x0 … x5` and the output's anything, runs to a state where the
    inputs' read what they read and the output's reads `out6_6 x0 … x5`. -/
theorem sound_kernel6 (c : Dev nD) (E : Set ℕ) (i : grid6.Coords) (arg1 : Memref sig .tc .vmem S1000x3 .bf16) (harg1 : arg1.IsWhole) (arg2 : Memref sig .tc .vmem S1000x128 .f32) (harg2 : arg2.IsWhole) (arg3 : Memref sig .tc .vmem S3x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1000x128 .f32) (harg7 : arg7.IsWhole)
    (x0 : Vec F S1000x3 .bf16) (x1 : Vec F S1000x128 .f32) (x2 : Vec F S3x128 .bf16) (x3 : Vec F S1x128 .f32) (x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-! ## The pipeline's proof data -/

/-- The proof data of pipeline 6 on core `c`: the arrays as `V` has them; after the body at point `t` each input
    buffer reads its block and the output buffer reads `out6_6` of the input blocks; the invariant is the rest of
    the core's scoped state and its generator register, untouched; full shares; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

/-- The proof data's arrays are `V`'s. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

/-- Each input's current buffer reads its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the input buffers read their blocks, so the body's triple applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ (grid6.coords t) _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point. -/
theorem body_obligation6 (c : Dev nD) : BodyObligation (dat6 (F := F) V c) (defs₀ (F := F)) Variants.none () Set.univ := fun t => by
  rw [bigSep_W6, bigSep_W6]
  exact sound_body6 V c t

end Region6

end Cert.Kernel.Hand
-- ==== Proof.K.Reg7.lean ====
/-
  The frame half of region 7: the distance embedding  ee = bf16(relu(relu(len · W₁ + b₁) · W₂ + b₂) + es)  run
  as a pipeline over 20 row blocks of 4000 rows. Stated for any scalar model `F` and at a PARAMETER `V`, the buffer
  contents the region is entered with.

  Six windows are read (the lengths' rows and the edge states' rows, one block per point; the two layers' weights and
  bias rows, the same block at every point) and one is written (the embedded rows, one block per point). The body
  loads each input whole, computes, and stores the output whole, so what it leaves in the output's staging buffer is
  a function of the six input blocks alone, and every input's buffer is left as found.
-/
import proofs.«147763_j11003706212366_2_alg».proof.Proof.Gen.Kernel.Launch
import proofs.«147763_j11003706212366_2_alg».proof.Proof.Gen.Kernel.Skeleton
import proofs.«147763_j11003706212366_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle 4000 rows long is looked at once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
-- the buffer contents the region is entered with
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 (the lengths' rows): its current staging buffer holds its block at every point, whether or not a fetch
    lands there, for ANY proof data whose array is `V`'s (`hA`) and whose body leaves the block in place (`hafter`).
    Where no fetch lands the block index has not moved, so the block kept from the point before is this point's; the
    window is uncut and has no idle point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1 (the edge states' rows): its current staging buffer holds its block at every point, whether or not a fetch
    lands there, for ANY proof data whose array is `V`'s (`hA`) and whose body leaves the block in place (`hafter`).
    Where no fetch lands the block index has not moved, so the block kept from the point before is this point's; the
    window is uncut and has no idle point. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2 (the first layer's weight row): its current staging buffer holds its block at every point, whether or not a fetch
    lands there, for ANY proof data whose array is `V`'s (`hA`) and whose body leaves the block in place (`hafter`).
    Where no fetch lands the block index has not moved, so the block kept from the point before is this point's; the
    window is uncut and has no idle point. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3 (the first layer's bias row): its current staging buffer holds its block at every point, whether or not a fetch
    lands there, for ANY proof data whose array is `V`'s (`hA`) and whose body leaves the block in place (`hafter`).
    Where no fetch lands the block index has not moved, so the block kept from the point before is this point's; the
    window is uncut and has no idle point. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4 (the second layer's weight matrix): its current staging buffer holds its block at every point, whether or not a fetch
    lands there, for ANY proof data whose array is `V`'s (`hA`) and whose body leaves the block in place (`hafter`).
    Where no fetch lands the block index has not moved, so the block kept from the point before is this point's; the
    window is uncut and has no idle point. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
/-- Input window 5 (the second layer's bias row): its current staging buffer holds its block at every point, whether or not a fetch
    lands there, for ANY proof data whose array is `V`'s (`hA`) and whose body leaves the block in place (`hafter`).
    Where no fetch lands the block index has not moved, so the block kept from the point before is this point's; the
    window is uncut and has no idle point. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer read or written whole -/

abbrev r7_0 : Rect S4000x1 := Rect.unit (s := S4000x1) ![0, 0] S4000x1.size inb_S4000x1_S4000x1_0_0
abbrev r7_1 : Rect S1x128 := Rect.unit (s := S1x128) ![0, 0] S1x128.size inb_S1x128_S1x128_0_0
abbrev r7_2 : Rect S128x128 := Rect.unit (s := S128x128) ![0, 0] S128x128.size inb_S128x128_S128x128_0_0
abbrev r7_3 : Rect S4000x128 := Rect.unit (s := S4000x128) ![0, 0] S4000x128.size inb_S4000x128_S4000x128_0_0

/-! ## What the body leaves in the output window's buffer -/

/-- Window 6's staging buffer after the body, from the six input blocks (in window order: lengths, edge states,
    first weight row, first bias row, second weight matrix, second bias row): its one store, whose payload reads
    every input whole. -/
def out7_6 (x0 : Vec F S4000x1 .bf16) (x1 : Vec F S4000x128 .f32) (x2 : Vec F S1x128 .bf16) (x3 : Vec F S1x128 .f32) (x4 : Vec F S128x128 .bf16) (x5 : Vec F S1x128 .f32) : Vec F S4000x128 .bf16 :=
  View.canon [⟨r7_3, k7_pay1 (View.ld x0 r7_0) (View.ld x2 r7_1) (View.ld x3 r7_1) (View.ld x4 r7_2) (View.ld x5 r7_1) (View.ld x1 r7_3)⟩]

/-- The one store is the whole buffer, so it covers it. -/
theorem cover7_6 (p0 : Vec F S4000x128 .bf16) (y : S4000x128.Idx) :
    ∃ pc ∈ ([⟨r7_3, p0⟩] : List (View.Piece (Elt F) S4000x128 .bf16)), y ∈ pc.1.set :=
  View.cover_of_tiled [⟨r7_3, p0⟩] S4000x128.size (by rfl) y

/-! ## The body's triple -/

set_option maxHeartbeats 1000000 in
/-- The body on whole staging memrefs, the six inputs' at read contents `x0 … x5` and the output's at anything, runs to
    a continuation holding the inputs' as they were and the output's at `out7_6` of the inputs'. -/
theorem sound_kernel7 (c : Dev nD) (E : Set ℕ) (i : grid7.Coords)
    (arg1 : Memref sig .tc .vmem S4000x1 .bf16) (harg1 : arg1.IsWhole)
    (arg2 : Memref sig .tc .vmem S4000x128 .f32) (harg2 : arg2.IsWhole)
    (arg3 : Memref sig .tc .vmem S1x128 .bf16) (harg3 : arg3.IsWhole)
    (arg4 : Memref sig .tc .vmem S1x128 .f32) (harg4 : arg4.IsWhole)
    (arg5 : Memref sig .tc .vmem S128x128 .bf16) (harg5 : arg5.IsWhole)
    (arg6 : Memref sig .tc .vmem S1x128 .f32) (harg6 : arg6.IsWhole)
    (arg7 : Memref sig .tc .vmem S4000x128 .bf16) (harg7 : arg7.IsWhole)
    (x0 : Vec F S4000x1 .bf16) (x1 : Vec F S4000x128 .f32) (x2 : Vec F S1x128 .bf16) (x3 : Vec F S1x128 .f32) (x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out7_6 x0 x1 x2 x3 x4 x5)) -∗ K ⟨⟩))
      ⊢ wp frame (wpE (defs₀ (F := F)) Variants.none c none) E (cc7_kernel i arg1 harg1 arg2 harg2 arg3 harg3 arg4 harg4 arg5 harg5 arg6 harg6 arg7 harg7) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-! ## The pipeline's proof data -/

/-- The proof data of pipeline 7 on core `c`: the arrays as the region finds them (`V`); after the body at point
    `t` each input's buffer at its block and the output's at `out7_6` of the six input blocks; the invariant
    the scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

/-- Each input's current staging buffer holds its block at every point, whether or not a fetch lands there. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- The body at any point: the inputs' memrefs hold their blocks (`before7_W`), so `sound_kernel7` applies; the
    invariant and what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ (grid7.coords t) _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation7 (c : Dev nD) : BodyObligation (dat7 (F := F) V c) (defs₀ (F := F)) Variants.none () Set.univ := fun t => by
  rw [bigSep_W7, bigSep_W7]
  exact sound_body7 V c t

end Region7

end Cert.Kernel.Hand
-- ==== Proof.K.Reg8.lean ====
/-
  The edge-update region 8 at a parameter `V`, the TensorCore's buffer contents when the region is entered, for any
  float algebra `F`: each window's block at a grid point; what the body leaves in its two output buffers, as a function of
  the fourteen input blocks (the stores' payloads laid over the buffer); the body's triple; the proof data with the inputs
  kept at their blocks and the outputs at those functions; the body obligation at every grid point.

  The nine weight and bias windows have a constant block index: they are transferred at the first point only, and at every
  later point the buffer still holds the block, which is the same block.
-/
import proofs.«147763_j11003706212366_2_alg».proof.Proof.Gen.Kernel.Launch
import proofs.«147763_j11003706212366_2_alg».proof.Proof.Gen.Kernel.Skeleton
import proofs.«147763_j11003706212366_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8
variable (V : (c : Dev nD) → (b : Ref sig .tc) → Buf (Elt F) ((c : Thread nD τ).loc b))

/-! ## The windows' blocks -/

/-- Window `w`'s block at point `t`, read off its array at the entry contents `V`. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current buffer holds its block at every point, transferred there or not, for any proof data whose
    array is `V`'s and whose body leaves the block in place: where no transfer happened the block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current buffer holds its block at every point, transferred there or not, for any proof data whose
    array is `V`'s and whose body leaves the block in place: where no transfer happened the block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current buffer holds its block at every point, transferred there or not, for any proof data whose
    array is `V`'s and whose body leaves the block in place: where no transfer happened the block index has not moved. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current buffer holds its block at every point, transferred there or not, for any proof data whose
    array is `V`'s and whose body leaves the block in place: where no transfer happened the block index has not moved. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current buffer holds its block at every point, transferred there or not, for any proof data whose
    array is `V`'s and whose body leaves the block in place: where no transfer happened the block index has not moved. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current buffer holds its block at every point, transferred there or not, for any proof data whose
    array is `V`'s and whose body leaves the block in place: where no transfer happened the block index has not moved. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's current buffer holds its block at every point, transferred there or not, for any proof data whose
    array is `V`'s and whose body leaves the block in place: where no transfer happened the block index has not moved. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- Input window 7's current buffer holds its block at every point, transferred there or not, for any proof data whose
    array is `V`'s and whose body leaves the block in place: where no transfer happened the block index has not moved. -/
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-- Input window 8's current buffer holds its block at every point, transferred there or not, for any proof data whose
    array is `V`'s and whose body leaves the block in place: where no transfer happened the block index has not moved. -/
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-- Input window 9's current buffer holds its block at every point, transferred there or not, for any proof data whose
    array is `V`'s and whose body leaves the block in place: where no transfer happened the block index has not moved. -/
theorem before8_9_of {c : Dev nD} (dat : Dat τ (Elt F) Unit ℕ (UR sig nD τ) ℕ cfg8 c) (hA : dat.A 9 = V c (Pipeline.arrRef spec8 9))
    (hafter : ∀ t, dat.after 9 t = iblk8 V c 9 t) (t : Fin cfg8.N) (d) : dat.before 9 t d = iblk8 V c 9 t :=
  (dat.before_in_eq_fetched 9 rfl (fun _ => rfl) (fun _ _ _ => rfl) (fun t => by rw [hafter]; unfold Dat.blockOf iblk8; rw [hA]; try rfl) t d).trans
    (by unfold Dat.fetched Dat.blockOf iblk8; rw [hA]; try rfl)

/-- Input window 10's current buffer holds its block at every point, transferred there or not, for any proof data whose
    array is `V`'s and whose body leaves the block in place: where no transfer happened the block index has not moved. -/
theorem before8_10_of {c : Dev nD} (dat : Dat τ (Elt F) Unit ℕ (UR sig nD τ) ℕ cfg8 c) (hA : dat.A 10 = V c (Pipeline.arrRef spec8 10))
    (hafter : ∀ t, dat.after 10 t = iblk8 V c 10 t) (t : Fin cfg8.N) (d) : dat.before 10 t d = iblk8 V c 10 t :=
  (dat.before_in_eq_fetched 10 rfl (fun _ => rfl) (fun _ _ _ => rfl) (fun t => by rw [hafter]; unfold Dat.blockOf iblk8; rw [hA]; try rfl) t d).trans
    (by unfold Dat.fetched Dat.blockOf iblk8; rw [hA]; try rfl)

/-- Input window 11's current buffer holds its block at every point, transferred there or not, for any proof data whose
    array is `V`'s and whose body leaves the block in place: where no transfer happened the block index has not moved. -/
theorem before8_11_of {c : Dev nD} (dat : Dat τ (Elt F) Unit ℕ (UR sig nD τ) ℕ cfg8 c) (hA : dat.A 11 = V c (Pipeline.arrRef spec8 11))
    (hafter : ∀ t, dat.after 11 t = iblk8 V c 11 t) (t : Fin cfg8.N) (d) : dat.before 11 t d = iblk8 V c 11 t :=
  (dat.before_in_eq_fetched 11 rfl (fun _ => rfl) (fun _ _ _ => rfl) (fun t => by rw [hafter]; unfold Dat.blockOf iblk8; rw [hA]; try rfl) t d).trans
    (by unfold Dat.fetched Dat.blockOf iblk8; rw [hA]; try rfl)

/-- Input window 12's current buffer holds its block at every point, transferred there or not, for any proof data whose
    array is `V`'s and whose body leaves the block in place: where no transfer happened the block index has not moved. -/
theorem before8_12_of {c : Dev nD} (dat : Dat τ (Elt F) Unit ℕ (UR sig nD τ) ℕ cfg8 c) (hA : dat.A 12 = V c (Pipeline.arrRef spec8 12))
    (hafter : ∀ t, dat.after 12 t = iblk8 V c 12 t) (t : Fin cfg8.N) (d) : dat.before 12 t d = iblk8 V c 12 t :=
  (dat.before_in_eq_fetched 12 rfl (fun _ => rfl) (fun _ _ _ => rfl) (fun t => by rw [hafter]; unfold Dat.blockOf iblk8; rw [hA]; try rfl) t d).trans
    (by unfold Dat.fetched Dat.blockOf iblk8; rw [hA]; try rfl)

/-- Input window 13's current buffer holds its block at every point, transferred there or not, for any proof data whose
    array is `V`'s and whose body leaves the block in place: where no transfer happened the block index has not moved. -/
theorem before8_13_of {c : Dev nD} (dat : Dat τ (Elt F) Unit ℕ (UR sig nD τ) ℕ cfg8 c) (hA : dat.A 13 = V c (Pipeline.arrRef spec8 13))
    (hafter : ∀ t, dat.after 13 t = iblk8 V c 13 t) (t : Fin cfg8.N) (d) : dat.before 13 t d = iblk8 V c 13 t :=
  (dat.before_in_eq_fetched 13 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer is read and written whole -/

abbrev r8_0 : Rect S2000x128 := Rect.unit (s := S2000x128) ![0, 0] S2000x128.size inb_S2000x128_S2000x128_0_0
abbrev r8_1 : Rect S128x512 := Rect.unit (s := S128x512) ![0, 0] S128x512.size inb_S128x512_S128x512_0_0
abbrev r8_2 : Rect S1x512 := Rect.unit (s := S1x512) ![0, 0] S1x512.size inb_S1x512_S1x512_0_0
abbrev r8_3 : Rect S512x512 := Rect.unit (s := S512x512) ![0, 0] S512x512.size inb_S512x512_S512x512_0_0
abbrev r8_4 : Rect S512x128 := Rect.unit (s := S512x128) ![0, 0] S512x128.size inb_S512x128_S512x128_0_0
abbrev r8_5 : Rect S1x128 := Rect.unit (s := S1x128) ![0, 0] S1x128.size inb_S1x128_S1x128_0_0

/-! ## What the body leaves in each output window's buffer -/

/-- Window 14's buffer after the body, from the input windows' blocks: its one store, of the whole buffer. -/
def out8_14 (x0 : Vec F S2000x128 .bf16) (x1 : Vec F S2000x128 .bf16) (x2 : Vec F S2000x128 .bf16) (x3 : Vec F S2000x128 .bf16) (x4 : Vec F S2000x128 .f32) (x5 : Vec F S128x512 .bf16) (x6 : Vec F S128x512 .bf16) (x7 : Vec F S128x512 .bf16) (x8 : Vec F S128x512 .bf16) (x9 : Vec F S1x512 .f32) (x10 : Vec F S512x512 .bf16) (x11 : Vec F S1x512 .f32) (x12 : Vec F S512x128 .bf16) (x13 : Vec F S1x128 .f32) : Vec F S2000x128 .f32 :=
  View.canon [⟨r8_0, k8_pay1 (k8_pay3 (View.ld x0 r8_0) (View.ld x5 r8_1) (View.ld x1 r8_0) (View.ld x6 r8_1) (View.ld x2 r8_0) (View.ld x7 r8_1) (View.ld x3 r8_0) (View.ld x8 r8_1) (View.ld x9 r8_2) (View.ld x10 r8_3)) (View.ld x11 r8_2) (View.ld x12 r8_4) (View.ld x13 r8_5)⟩]

/-- The one store covers the buffer. -/
theorem cover8_14 (p0 : Vec F S2000x128 .f32) (y : S2000x128.Idx) :
    ∃ pc ∈ ([⟨r8_0, p0⟩] : List (View.Piece (Elt F) S2000x128 .f32)), y ∈ pc.1.set :=
  View.cover_of_tiled [⟨r8_0, p0⟩] S2000x128.size (by rfl) y

/-- Window 15's buffer after the body, from the input windows' blocks: its one store, of the whole buffer. -/
def out8_15 (x0 : Vec F S2000x128 .bf16) (x1 : Vec F S2000x128 .bf16) (x2 : Vec F S2000x128 .bf16) (x3 : Vec F S2000x128 .bf16) (x4 : Vec F S2000x128 .f32) (x5 : Vec F S128x512 .bf16) (x6 : Vec F S128x512 .bf16) (x7 : Vec F S128x512 .bf16) (x8 : Vec F S128x512 .bf16) (x9 : Vec F S1x512 .f32) (x10 : Vec F S512x512 .bf16) (x11 : Vec F S1x512 .f32) (x12 : Vec F S512x128 .bf16) (x13 : Vec F S1x128 .f32) : Vec F S2000x128 .f32 :=
  View.canon [⟨r8_0, k8_pay2 (k8_pay3 (View.ld x0 r8_0) (View.ld x5 r8_1) (View.ld x1 r8_0) (View.ld x6 r8_1) (View.ld x2 r8_0) (View.ld x7 r8_1) (View.ld x3 r8_0) (View.ld x8 r8_1) (View.ld x9 r8_2) (View.ld x10 r8_3)) (View.ld x11 r8_2) (View.ld x12 r8_4) (View.ld x13 r8_5) (View.ld x4 r8_0)⟩]

/-- The one store covers the buffer. -/
theorem cover8_15 (p0 : Vec F S2000x128 .f32) (y : S2000x128.Idx) :
    ∃ pc ∈ ([⟨r8_0, p0⟩] : List (View.Piece (Elt F) S2000x128 .f32)), y ∈ pc.1.set :=
  View.cover_of_tiled [⟨r8_0, p0⟩] S2000x128.size (by rfl) y

/-! ## The body's triple -/

set_option maxHeartbeats 4000000 in
/-- The body on whole buffers, the inputs' reading `xW` and the outputs' holding anything, runs to the continuation with the
    inputs' as they were and each output's at `out8_W` of the inputs'. -/
theorem sound_kernel8 (c : Dev nD) (E : Set ℕ) (i : grid8.Coords) (arg1 : Memref sig .tc .vmem S2000x128 .bf16) (harg1 : arg1.IsWhole) (arg2 : Memref sig .tc .vmem S2000x128 .bf16) (harg2 : arg2.IsWhole) (arg3 : Memref sig .tc .vmem S2000x128 .bf16) (harg3 : arg3.IsWhole) (arg4 : Memref sig .tc .vmem S2000x128 .bf16) (harg4 : arg4.IsWhole) (arg5 : Memref sig .tc .vmem S2000x128 .f32) (harg5 : arg5.IsWhole) (arg6 : Memref sig .tc .vmem S128x512 .bf16) (harg6 : arg6.IsWhole) (arg7 : Memref sig .tc .vmem S128x512 .bf16) (harg7 : arg7.IsWhole) (arg8 : Memref sig .tc .vmem S128x512 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S512x128 .bf16) (harg13 : arg13.IsWhole) (arg14 : Memref sig .tc .vmem S1x128 .f32) (harg14 : arg14.IsWhole) (arg15 : Memref sig .tc .vmem S2000x128 .f32) (harg15 : arg15.IsWhole) (arg16 : Memref sig .tc .vmem S2000x128 .f32) (harg16 : arg16.IsWhole)
    (x0 : Vec F S2000x128 .bf16) (x1 : Vec F S2000x128 .bf16) (x2 : Vec F S2000x128 .bf16) (x3 : Vec F S2000x128 .bf16) (x4 : Vec F S2000x128 .f32) (x5 : Vec F S128x512 .bf16) (x6 : Vec F S128x512 .bf16) (x7 : Vec F S128x512 .bf16) (x8 : Vec F S128x512 .bf16) (x9 : Vec F S1x512 .f32) (x10 : Vec F S512x512 .bf16) (x11 : Vec F S1x512 .f32) (x12 : Vec F S512x128 .bf16) (x13 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out8_14 x0 x1 x2 x3 x4 x5 x6 x7 x8 x9 x10 x11 x12 x13) ∗ owns (c : Thread nD τ) arg16 fullShare (out8_15 x0 x1 x2 x3 x4 x5 x6 x7 x8 x9 x10 x11 x12 x13)) -∗ K ⟨⟩))
      ⊢ wp frame (wpE (defs₀ (F := F)) Variants.none c none) E (cc8_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc8_kernel_eq_skeleton]; unfold cc8_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    try dsimp only
    exact View.read_writes_eq_canon _ _ _ (cover8_14 _)
  iexists _; isplitr
  swap; · iexact H15
  ipureintro
  try dsimp only
  exact View.read_writes_eq_canon _ _ _ (cover8_15 _)

/-! ## The pipeline's proof data -/

/-- The proof data of this pipeline on core `c`: the arrays at `V`; after the body at point `t` each input's buffer at its
    block and each output's at `out8_W` of the input blocks; the class's invariant (the scoped rest and the generator
    register untouched); nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => iblk8 V c 9 t
    | ⟨10, _⟩ => iblk8 V c 10 t
    | ⟨11, _⟩ => iblk8 V c 11 t
    | ⟨12, _⟩ => iblk8 V c 12 t
    | ⟨13, _⟩ => iblk8 V c 13 t
    | ⟨14, _⟩ => out8_14 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t)
    | ⟨15, _⟩ => out8_15 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t)
    | ⟨_ + 16, h⟩ => absurd h (Nat.not_lt.2 (Nat.le_add_left _ _))
  Φ _ := Pipeline.ΦA spec8 c
  q _ := fullShare
  owed _ := 0

/-- The proof data's arrays are the entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = iblk8 V c 9 t := by dsimp only [dat8]
theorem after8_10 (c : Dev nD) (t : Fin cfg8.N) : (dat8 V c).after 10 t = iblk8 V c 10 t := by dsimp only [dat8]
theorem after8_11 (c : Dev nD) (t : Fin cfg8.N) : (dat8 V c).after 11 t = iblk8 V c 11 t := by dsimp only [dat8]
theorem after8_12 (c : Dev nD) (t : Fin cfg8.N) : (dat8 V c).after 12 t = iblk8 V c 12 t := by dsimp only [dat8]
theorem after8_13 (c : Dev nD) (t : Fin cfg8.N) : (dat8 V c).after 13 t = iblk8 V c 13 t := by dsimp only [dat8]
theorem after8_14 (c : Dev nD) (t : Fin cfg8.N) : (dat8 V c).after 14 t = out8_14 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) := by dsimp only [dat8]
theorem after8_15 (c : Dev nD) (t : Fin cfg8.N) : (dat8 V c).after 15 t = out8_15 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) := by dsimp only [dat8]

/-- Each input's current buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d
theorem before8_9 (c : Dev nD) (t : Fin cfg8.N) (d) : (dat8 V c).before 9 t d = iblk8 V c 9 t :=
  before8_9_of V (dat8 V c) (A_eq8 V c 9) (after8_9 V c) t d
theorem before8_10 (c : Dev nD) (t : Fin cfg8.N) (d) : (dat8 V c).before 10 t d = iblk8 V c 10 t :=
  before8_10_of V (dat8 V c) (A_eq8 V c 10) (after8_10 V c) t d
theorem before8_11 (c : Dev nD) (t : Fin cfg8.N) (d) : (dat8 V c).before 11 t d = iblk8 V c 11 t :=
  before8_11_of V (dat8 V c) (A_eq8 V c 11) (after8_11 V c) t d
theorem before8_12 (c : Dev nD) (t : Fin cfg8.N) (d) : (dat8 V c).before 12 t d = iblk8 V c 12 t :=
  before8_12_of V (dat8 V c) (A_eq8 V c 12) (after8_12 V c) t d
theorem before8_13 (c : Dev nD) (t : Fin cfg8.N) (d) : (dat8 V c).before 13 t d = iblk8 V c 13 t :=
  before8_13_of V (dat8 V c) (A_eq8 V c 13) (after8_13 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d))
    ∗ (∃ d, owns (c : Thread nD τ) (st8_10 t) fullShare ((dat8 V c).before 10 t d))
    ∗ (∃ d, owns (c : Thread nD τ) (st8_11 t) fullShare ((dat8 V c).before 11 t d))
    ∗ (∃ d, owns (c : Thread nD τ) (st8_12 t) fullShare ((dat8 V c).before 12 t d))
    ∗ (∃ d, owns (c : Thread nD τ) (st8_13 t) fullShare ((dat8 V c).before 13 t d))
    ∗ (∃ d, owns (c : Thread nD τ) (st8_14 t) fullShare ((dat8 V c).before 14 t d))
    ∗ (∃ d, owns (c : Thread nD τ) (st8_15 t) fullShare ((dat8 V c).before 15 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t)
    ∗ owns (c : Thread nD τ) (st8_10 t) fullShare ((dat8 V c).after 10 t)
    ∗ owns (c : Thread nD τ) (st8_11 t) fullShare ((dat8 V c).after 11 t)
    ∗ owns (c : Thread nD τ) (st8_12 t) fullShare ((dat8 V c).after 12 t)
    ∗ owns (c : Thread nD τ) (st8_13 t) fullShare ((dat8 V c).after 13 t)
    ∗ owns (c : Thread nD τ) (st8_14 t) fullShare ((dat8 V c).after 14 t)
    ∗ owns (c : Thread nD τ) (st8_15 t) fullShare ((dat8 V c).after 15 t))

set_option maxHeartbeats 1000000 in
/-- The body at any point: the inputs' buffers hold their blocks, so the body's triple applies; the invariant and what the
    core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8, before8_9, before8_10, before8_11, before8_12, before8_13]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9, after8_10, after8_11, after8_12, after8_13, after8_14, after8_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel8 c Set.univ (grid8.coords t) _ _ _ _ _ _ _ _ _ _ _ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body obligation, at every point. -/
theorem body_obligation8 (c : Dev nD) : BodyObligation (dat8 (F := F) V c) (defs₀ (F := F)) Variants.none () Set.univ := fun t => by
  rw [bigSep_W8, bigSep_W8]
  exact sound_body8 V c t

end Region8

end Cert.Kernel.Hand
-- ==== Proof.K.Reg9.lean ====
/- The frame half of region 9: a three-layer perceptron on one block of rows, each layer a product with a
   weight matrix into a zero accumulator, a bias row added to every row, and the positive part. Seven input
   windows (the rows, then weight and bias of each layer) and one output window holding the rows of the result. -/
import proofs.«147763_j11003706212366_2_alg».proof.Proof.Gen.Kernel.Launch
import proofs.«147763_j11003706212366_2_alg».proof.Proof.Gen.Kernel.Skeleton
import proofs.«147763_j11003706212366_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array at the contents `V`. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0 holds its block at every point, fetched there or not: where it is not fetched its block
    index has not moved. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1 holds its block at every point, fetched there or not: where it is not fetched its block
    index has not moved. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2 holds its block at every point, fetched there or not: where it is not fetched its block
    index has not moved. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- Input window 3 holds its block at every point, fetched there or not: where it is not fetched its block
    index has not moved. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
/-- Input window 4 holds its block at every point, fetched there or not: where it is not fetched its block
    index has not moved. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
/-- Input window 5 holds its block at every point, fetched there or not: where it is not fetched its block
    index has not moved. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)
/-- Input window 6 holds its block at every point, fetched there or not: where it is not fetched its block
    index has not moved. -/
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer is read and written whole -/

abbrev r9_0 : Rect S1000x512 := Rect.unit (s := S1000x512) ![0, 0] S1000x512.size inb_S1000x512_S1000x512_0_0
abbrev r9_1 : Rect S512x512 := Rect.unit (s := S512x512) ![0, 0] S512x512.size inb_S512x512_S512x512_0_0
abbrev r9_2 : Rect S1x512 := Rect.unit (s := S1x512) ![0, 0] S1x512.size inb_S1x512_S1x512_0_0
abbrev r9_3 : Rect S512x128 := Rect.unit (s := S512x128) ![0, 0] S512x128.size inb_S512x128_S512x128_0_0
abbrev r9_4 : Rect S1x128 := Rect.unit (s := S1x128) ![0, 0] S1x128.size inb_S1x128_S1x128_0_0
abbrev r9_5 : Rect S1000x128 := Rect.unit (s := S1000x128) ![0, 0] S1000x128.size inb_S1000x128_S1000x128_0_0

/-! ## What the body leaves in the output window's buffer -/

/-- The output buffer after the body, from the input blocks: its one store, of the third layer's positive part. -/
def out9_7 (x0 : Vec F S1000x512 .bf16) (x1 : Vec F S512x512 .bf16) (x2 : Vec F S1x512 .f32) (x3 : Vec F S512x512 .bf16) (x4 : Vec F S1x512 .f32) (x5 : Vec F S512x128 .bf16) (x6 : Vec F S1x128 .f32) : Vec F S1000x128 .f32 :=
  View.canon [⟨r9_5, k9_pay1 (View.ld x0 r9_0) (View.ld x1 r9_1) (View.ld x2 r9_2) (View.ld x3 r9_1) (View.ld x4 r9_2) (View.ld x5 r9_3) (View.ld x6 r9_4)⟩]

/-- The one store is of the whole buffer. -/
theorem cover9_7 (p0 : Vec F S1000x128 .f32) (y : S1000x128.Idx) :
    ∃ pc ∈ ([⟨r9_5, p0⟩] : List (View.Piece (Elt F) S1000x128 .f32)), y ∈ pc.1.set :=
  View.cover_of_tiled [⟨r9_5, p0⟩] S1000x128.size (by rfl) y

/-! ## The body's triple -/

set_option maxHeartbeats 1000000 in
/-- The body on whole staging buffers, the inputs' at contents `x0 … x6` and the output's at anything, returns the
    inputs' as they were and the output's at `out9_7` of them. -/
theorem sound_kernel9 (c : Dev nD) (E : Set ℕ) (i : grid9.Coords) (arg1 : Memref sig .tc .vmem S1000x512 .bf16) (harg1 : arg1.IsWhole) (arg2 : Memref sig .tc .vmem S512x512 .bf16) (harg2 : arg2.IsWhole) (arg3 : Memref sig .tc .vmem S1x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S1000x128 .f32) (harg8 : arg8.IsWhole)
    (x0 : Vec F S1000x512 .bf16) (x1 : Vec F S512x512 .bf16) (x2 : Vec F S1x512 .f32) (x3 : Vec F S512x512 .bf16) (x4 : Vec F S1x512 .f32) (x5 : Vec F S512x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out9_7 x0 x1 x2 x3 x4 x5 x6)) -∗ K ⟨⟩))
      ⊢ wp frame (wpE (defs₀ (F := F)) Variants.none c none) E (cc9_kernel i arg1 harg1 arg2 harg2 arg3 harg3 arg4 harg4 arg5 harg5 arg6 harg6 arg7 harg7 arg8 harg8) K := by
  simp only [cc9_kernel_eq_skeleton]; unfold cc9_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover9_7 _)

/-! ## The pipeline's proof data -/

/-- The proof data of pipeline 9 on core `c`: the arrays at `V`; after the body at point `t` each input's buffer at
    its block and the output's at `out9_7` of the input blocks; the invariant the scoped rest and the generator
    register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 2 t) (iblk9 V c 3 t) (iblk9 V c 4 t) (iblk9 V c 5 t) (iblk9 V c 6 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = out9_7 (iblk9 V c 0 t) (iblk9 V c 1 t) (iblk9 V c 2 t) (iblk9 V c 3 t) (iblk9 V c 4 t) (iblk9 V c 5 t) (iblk9 V c 6 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t))

/-- The body at any point: the inputs' buffers hold their blocks, so `sound_kernel9` applies; the invariant and
    what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel9 c Set.univ (grid9.coords t) _ _ _ _ _ _ _ _ _ _ _ _ _ _ _ _ (iblk9 V c 0 t) (iblk9 V c 1 t) (iblk9 V c 2 t) (iblk9 V c 3 t) (iblk9 V c 4 t) (iblk9 V c 5 t) (iblk9 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation9 (c : Dev nD) : BodyObligation (dat9 (F := F) V c) (defs₀ (F := F)) Variants.none () Set.univ := fun t => by
  rw [bigSep_W9, bigSep_W9]
  exact sound_body9 V c t

end

end Cert.Kernel.Hand

end
-- ==== Proof.K.Reg10.lean ====
/- The frame half of region 10: a three-layer perceptron on one block of rows, each layer a product with a
   weight matrix into a zero accumulator, a bias row added to every row, and the positive part. Seven input
   windows (the rows, then weight and bias of each layer) and one output window holding the rows of the result. -/
import proofs.«147763_j11003706212366_2_alg».proof.Proof.Gen.Kernel.Launch
import proofs.«147763_j11003706212366_2_alg».proof.Proof.Gen.Kernel.Skeleton
import proofs.«147763_j11003706212366_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array at the contents `V`. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0 holds its block at every point, fetched there or not: where it is not fetched its block
    index has not moved. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- Input window 1 holds its block at every point, fetched there or not: where it is not fetched its block
    index has not moved. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- Input window 2 holds its block at every point, fetched there or not: where it is not fetched its block
    index has not moved. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
/-- Input window 3 holds its block at every point, fetched there or not: where it is not fetched its block
    index has not moved. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
/-- Input window 4 holds its block at every point, fetched there or not: where it is not fetched its block
    index has not moved. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)
/-- Input window 5 holds its block at every point, fetched there or not: where it is not fetched its block
    index has not moved. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)
/-- Input window 6 holds its block at every point, fetched there or not: where it is not fetched its block
    index has not moved. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each buffer is read and written whole -/

abbrev r10_0 : Rect S64x384 := Rect.unit (s := S64x384) ![0, 0] S64x384.size inb_S64x384_S64x384_0_0
abbrev r10_1 : Rect S384x512 := Rect.unit (s := S384x512) ![0, 0] S384x512.size inb_S384x512_S384x512_0_0
abbrev r10_2 : Rect S1x512 := Rect.unit (s := S1x512) ![0, 0] S1x512.size inb_S1x512_S1x512_0_0
abbrev r10_3 : Rect S512x512 := Rect.unit (s := S512x512) ![0, 0] S512x512.size inb_S512x512_S512x512_0_0
abbrev r10_4 : Rect S512x128 := Rect.unit (s := S512x128) ![0, 0] S512x128.size inb_S512x128_S512x128_0_0
abbrev r10_5 : Rect S1x128 := Rect.unit (s := S1x128) ![0, 0] S1x128.size inb_S1x128_S1x128_0_0
abbrev r10_6 : Rect S64x128 := Rect.unit (s := S64x128) ![0, 0] S64x128.size inb_S64x128_S64x128_0_0

/-! ## What the body leaves in the output window's buffer -/

/-- The output buffer after the body, from the input blocks: its one store, of the third layer's positive part. -/
def out10_7 (x0 : Vec F S64x384 .bf16) (x1 : Vec F S384x512 .bf16) (x2 : Vec F S1x512 .f32) (x3 : Vec F S512x512 .bf16) (x4 : Vec F S1x512 .f32) (x5 : Vec F S512x128 .bf16) (x6 : Vec F S1x128 .f32) : Vec F S64x128 .f32 :=
  View.canon [⟨r10_6, k10_pay1 (View.ld x0 r10_0) (View.ld x1 r10_1) (View.ld x2 r10_2) (View.ld x3 r10_3) (View.ld x4 r10_2) (View.ld x5 r10_4) (View.ld x6 r10_5)⟩]

/-- The one store is of the whole buffer. -/
theorem cover10_7 (p0 : Vec F S64x128 .f32) (y : S64x128.Idx) :
    ∃ pc ∈ ([⟨r10_6, p0⟩] : List (View.Piece (Elt F) S64x128 .f32)), y ∈ pc.1.set :=
  View.cover_of_tiled [⟨r10_6, p0⟩] S64x128.size (by rfl) y

/-! ## The body's triple -/

set_option maxHeartbeats 1000000 in
/-- The body on whole staging buffers, the inputs' at contents `x0 … x6` and the output's at anything, returns the
    inputs' as they were and the output's at `out10_7` of them. -/
theorem sound_kernel10 (c : Dev nD) (E : Set ℕ) (i : grid10.Coords) (arg1 : Memref sig .tc .vmem S64x384 .bf16) (harg1 : arg1.IsWhole) (arg2 : Memref sig .tc .vmem S384x512 .bf16) (harg2 : arg2.IsWhole) (arg3 : Memref sig .tc .vmem S1x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S64x128 .f32) (harg8 : arg8.IsWhole)
    (x0 : Vec F S64x384 .bf16) (x1 : Vec F S384x512 .bf16) (x2 : Vec F S1x512 .f32) (x3 : Vec F S512x512 .bf16) (x4 : Vec F S1x512 .f32) (x5 : Vec F S512x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out10_7 x0 x1 x2 x3 x4 x5 x6)) -∗ K ⟨⟩))
      ⊢ wp frame (wpE (defs₀ (F := F)) Variants.none c none) E (cc10_kernel i arg1 harg1 arg2 harg2 arg3 harg3 arg4 harg4 arg5 harg5 arg6 harg6 arg7 harg7 arg8 harg8) K := by
  simp only [cc10_kernel_eq_skeleton]; unfold cc10_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover10_7 _)

/-! ## The pipeline's proof data -/

/-- The proof data of pipeline 10 on core `c`: the arrays at `V`; after the body at point `t` each input's buffer at
    its block and the output's at `out10_7` of the input blocks; the invariant the scoped rest and the generator
    register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => out10_7 (iblk10 V c 0 t) (iblk10 V c 1 t) (iblk10 V c 2 t) (iblk10 V c 3 t) (iblk10 V c 4 t) (iblk10 V c 5 t) (iblk10 V c 6 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = out10_7 (iblk10 V c 0 t) (iblk10 V c 1 t) (iblk10 V c 2 t) (iblk10 V c 3 t) (iblk10 V c 4 t) (iblk10 V c 5 t) (iblk10 V c 6 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t))

/-- The body at any point: the inputs' buffers hold their blocks, so `sound_kernel10` applies; the invariant and
    what the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel10 c Set.univ (grid10.coords t) _ _ _ _ _ _ _ _ _ _ _ _ _ _ _ _ (iblk10 V c 0 t) (iblk10 V c 1 t) (iblk10 V c 2 t) (iblk10 V c 3 t) (iblk10 V c 4 t) (iblk10 V c 5 t) (iblk10 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation10 (c : Dev nD) : BodyObligation (dat10 (F := F) V c) (defs₀ (F := F)) Variants.none () Set.univ := fun t => by
  rw [bigSep_W10, bigSep_W10]
  exact sound_body10 V c t

end

end Cert.Kernel.Hand

end
-- ==== Proof.K.Reg11.lean ====
/- Region 11 of @main, the decoder  out = (relu(xs·W1 + b1)·W2 + b2) + lp  on blocks of 1000 rows, at ANY contents `V` of the
   TensorCore's buffers when the region is entered and any float carrier `F`.

   Window `w`'s block at point `t` is read off `V` (`iblk11`). The body loads its six input blocks whole, forms one
   payload from them and stores it over the whole output block; so after the body every input buffer still holds its
   block and the output buffer holds that payload of the six blocks (`out11_6`). An input buffer holds its block at
   EVERY point, fetched there or not: the two weight matrices and the two bias rows are fetched at point 0 only, and
   their block index never moves afterwards. With these the proof data `dat11` meet the pipeline's body obligation
   at every point (`body_obligation11`). -/
import proofs.«147763_j11003706212366_2_alg».proof.Proof.Gen.Kernel.Launch
import proofs.«147763_j11003706212366_2_alg».proof.Proof.Gen.Kernel.Skeleton
import proofs.«147763_j11003706212366_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle 1000 long recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region11
-- the TensorCore's buffer contents when the region is entered
variable (V : (c : Dev nD) → (b : Ref sig .tc) → Buf (Elt F) ((c : Thread nD τ).loc b))

/-! ## The windows' blocks -/

/-- Window `w`'s block at point `t`: the part of its array, as `V` holds it, that the transfer at `t` moves. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0 (the node states' block): its current staging buffer holds its block at every point, fetched there or not, for
    any proof data whose array is `V`'s (`hA`) and whose body leaves the block in place (`hafter`). Where the point
    does not fetch, the block index is the previous point's, and so is the block; the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1 (the positions' block): its current staging buffer holds its block at every point, fetched there or not, for
    any proof data whose array is `V`'s (`hA`) and whose body leaves the block in place (`hafter`). Where the point
    does not fetch, the block index is the previous point's, and so is the block; the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2 (the first layer's weights): its current staging buffer holds its block at every point, fetched there or not, for
    any proof data whose array is `V`'s (`hA`) and whose body leaves the block in place (`hafter`). Where the point
    does not fetch, the block index is the previous point's, and so is the block; the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3 (the first layer's bias row): its current staging buffer holds its block at every point, fetched there or not, for
    any proof data whose array is `V`'s (`hA`) and whose body leaves the block in place (`hafter`). Where the point
    does not fetch, the block index is the previous point's, and so is the block; the window is uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4 (the second layer's weights): its current staging buffer holds its block at every point, fetched there or not, for
    any proof data whose array is `V`'s (`hA`) and whose body leaves the block in place (`hafter`). Where the point
    does not fetch, the block index is the previous point's, and so is the block; the window is uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
/-- Input window 5 (the second layer's bias row): its current staging buffer holds its block at every point, fetched there or not, for
    any proof data whose array is `V`'s (`hA`) and whose body leaves the block in place (`hafter`). Where the point
    does not fetch, the block index is the previous point's, and so is the block; the window is uncut and never idle. -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each buffer is read, and the output written, whole -/

abbrev r11_0 : Rect S1000x128 := Rect.unit (s := S1000x128) ![0, 0] S1000x128.size inb_S1000x128_S1000x128_0_0
abbrev r11_1 : Rect S128x128 := Rect.unit (s := S128x128) ![0, 0] S128x128.size inb_S128x128_S128x128_0_0
abbrev r11_2 : Rect S1x128 := Rect.unit (s := S1x128) ![0, 0] S1x128.size inb_S1x128_S1x128_0_0
abbrev r11_3 : Rect S128x3 := Rect.unit (s := S128x3) ![0, 0] S128x3.size inb_S128x3_S128x3_0_0
abbrev r11_4 : Rect S1x3 := Rect.unit (s := S1x3) ![0, 0] S1x3.size inb_S1x3_S1x3_0_0
abbrev r11_5 : Rect S1000x3 := Rect.unit (s := S1000x3) ![0, 0] S1000x3.size inb_S1000x3_S1000x3_0_0

/-! ## What the body leaves in the output window's buffer -/

/-- Window 6's staging buffer after the body, from the six input blocks: its one store, of the payload of the blocks
    as loaded. -/
def out11_6 (x0 : Vec F S1000x128 .bf16) (x1 : Vec F S1000x3 .f32) (x2 : Vec F S128x128 .bf16) (x3 : Vec F S1x128 .f32) (x4 : Vec F S128x3 .bf16) (x5 : Vec F S1x3 .f32) : Vec F S1000x3 .f32 :=
  View.canon [⟨r11_5, k11_pay1 (View.ld x0 r11_0) (View.ld x2 r11_1) (View.ld x3 r11_2) (View.ld x4 r11_3) (View.ld x5 r11_4) (View.ld x1 r11_5)⟩]

/-- The one store is of the whole block, so it covers it. -/
theorem cover11_6 (p0 : Vec F S1000x3 .f32) (y : S1000x3.Idx) :
    ∃ pc ∈ ([⟨r11_5, p0⟩] : List (View.Piece (Elt F) S1000x3 .f32)), y ∈ pc.1.set :=
  View.cover_of_tiled [⟨r11_5, p0⟩] S1000x3.size (by rfl) y

/-! ## The body's triple -/

set_option maxHeartbeats 1000000 in
/-- The body on whole staging memrefs, the inputs' at contents `x0 … x5` and the output's at anything, runs to the
    continuation with the inputs' as they were and the output's at `out11_6` of the inputs'. -/
theorem sound_kernel11 (c : Dev nD) (E : Set ℕ) (i : grid11.Coords)
    (arg1 : Memref sig .tc .vmem S1000x128 .bf16) (harg1 : arg1.IsWhole)
    (arg2 : Memref sig .tc .vmem S1000x3 .f32) (harg2 : arg2.IsWhole)
    (arg3 : Memref sig .tc .vmem S128x128 .bf16) (harg3 : arg3.IsWhole)
    (arg4 : Memref sig .tc .vmem S1x128 .f32) (harg4 : arg4.IsWhole)
    (arg5 : Memref sig .tc .vmem S128x3 .bf16) (harg5 : arg5.IsWhole)
    (arg6 : Memref sig .tc .vmem S1x3 .f32) (harg6 : arg6.IsWhole)
    (arg7 : Memref sig .tc .vmem S1000x3 .f32) (harg7 : arg7.IsWhole)
    (x0 : Vec F S1000x128 .bf16) (x1 : Vec F S1000x3 .f32) (x2 : Vec F S128x128 .bf16) (x3 : Vec F S1x128 .f32) (x4 : Vec F S128x3 .bf16) (x5 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out11_6 x0 x1 x2 x3 x4 x5)) -∗ K ⟨⟩))
      ⊢ wp frame (wpE (defs₀ (F := F)) Variants.none c none) E (cc11_kernel i arg1 harg1 arg2 harg2 arg3 harg3 arg4 harg4 arg5 harg5 arg6 harg6 arg7 harg7) K := by
  simp only [cc11_kernel_eq_skeleton]; unfold cc11_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_6 _)

/-! ## The pipeline's proof data -/

/-- The proof data of the region's pipeline on core `c`: the arrays as `V` holds them; after the body at point `t`
    each input's buffer at its block and the output's at `out11_6` of the six blocks; the invariant that the scoped
    rest and the generator register are untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
  Φ _ := Pipeline.ΦA spec11 c
  q _ := fullShare
  owed _ := 0

/-- The proof data's arrays are `V`'s. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) (iblk11 V c 5 t) := by dsimp only [dat11]

/-- Each input's current staging buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

/-- The body at any point: the inputs' memrefs hold their blocks, so the body's triple applies; the invariant and the
    core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel11 c Set.univ (grid11.coords t) _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation11 (c : Dev nD) : BodyObligation (dat11 (F := F) V c) (defs₀ (F := F)) Variants.none () Set.univ := fun t => by
  rw [bigSep_W11, bigSep_W11]
  exact sound_body11 V c t

end Region11

end Cert.Kernel.Hand

end
-- ==== Proof.K.Reg12.lean ====
/-
  Region 12 (position embedding, ex = relu(relu(p·W1 + b1)·W2 + b2) + xs on row blocks of 1000): the frame half of its
  pipeline at an arbitrary entry state V, for any float interpretation F.

  Six input windows (rows of p and of xs by block; W1, b1, W2, b2 whole, with a constant block index) and one output
  window (rows of the result by block). The body loads every input buffer whole, and stores one whole-buffer payload
  into the output buffer; so after the body each input buffer still reads its block, and the output buffer reads the
  payload of the input blocks. The proof data records exactly that, and the body obligation follows from the body's
  triple and from the fact that an input buffer reads its window's block at every point, fetched there or not.
-/
import proofs.«147763_j11003706212366_2_alg».proof.Proof.Gen.Kernel.Launch
import proofs.«147763_j11003706212366_2_alg».proof.Proof.Gen.Kernel.Skeleton
import proofs.«147763_j11003706212366_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region12
variable (V : (c : Dev nD) → (b : Ref sig .tc) → Buf (Elt F) ((c : Thread nD τ).loc b))

/-! ## The windows' blocks -/

/-- Window `w`'s block at point `t`: the rows (or the whole array) its index map selects there, read off the
    window's array in the entry state `V`. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0: for any proof data whose array is `V`'s and whose body leaves the block in place, the current
    buffer reads the window's block at every point — where it is not fetched the block index has not moved. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1: for any proof data whose array is `V`'s and whose body leaves the block in place, the current
    buffer reads the window's block at every point — where it is not fetched the block index has not moved. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2: for any proof data whose array is `V`'s and whose body leaves the block in place, the current
    buffer reads the window's block at every point — where it is not fetched the block index has not moved. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3: for any proof data whose array is `V`'s and whose body leaves the block in place, the current
    buffer reads the window's block at every point — where it is not fetched the block index has not moved. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4: for any proof data whose array is `V`'s and whose body leaves the block in place, the current
    buffer reads the window's block at every point — where it is not fetched the block index has not moved. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-- Input window 5: for any proof data whose array is `V`'s and whose body leaves the block in place, the current
    buffer reads the window's block at every point — where it is not fetched the block index has not moved. -/
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: every load and the store take a whole buffer -/

abbrev r12_0 : Rect S1000x3 := Rect.unit (s := S1000x3) ![0, 0] S1000x3.size inb_S1000x3_S1000x3_0_0
abbrev r12_1 : Rect S3x128 := Rect.unit (s := S3x128) ![0, 0] S3x128.size inb_S3x128_S3x128_0_0
abbrev r12_2 : Rect S1x128 := Rect.unit (s := S1x128) ![0, 0] S1x128.size inb_S1x128_S1x128_0_0
abbrev r12_3 : Rect S128x128 := Rect.unit (s := S128x128) ![0, 0] S128x128.size inb_S128x128_S128x128_0_0
abbrev r12_4 : Rect S1000x128 := Rect.unit (s := S1000x128) ![0, 0] S1000x128.size inb_S1000x128_S1000x128_0_0

/-! ## What the body leaves in the output buffer -/

/-- The output buffer after the body, as a function of what the six input buffers read: the one store's payload
    laid over the whole buffer. -/
def out12_6 (x0 : Vec F S1000x3 .bf16) (x1 : Vec F S1000x128 .f32) (x2 : Vec F S3x128 .bf16) (x3 : Vec F S1x128 .f32) (x4 : Vec F S128x128 .bf16) (x5 : Vec F S1x128 .f32) : Vec F S1000x128 .f32 :=
  View.canon [⟨r12_4, k12_pay1 (View.ld x0 r12_0) (View.ld x2 r12_1) (View.ld x3 r12_2) (View.ld x4 r12_3) (View.ld x5 r12_2) (View.ld x1 r12_4)⟩]

/-- The one store covers the output buffer. -/
theorem cover12_6 (p0 : Vec F S1000x128 .f32) (y : S1000x128.Idx) :
    ∃ pc ∈ ([⟨r12_4, p0⟩] : List (View.Piece (Elt F) S1000x128 .f32)), y ∈ pc.1.set :=
  View.cover_of_tiled [⟨r12_4, p0⟩] S1000x128.size (by rfl) y

/-! ## The body's triple -/

set_option maxHeartbeats 1000000 in
/-- The body on whole buffers, the inputs' reading `x0 … x5` and the output's anything, runs to a state where the
    inputs' read what they read and the output's reads `out12_6 x0 … x5`. -/
theorem sound_kernel12 (c : Dev nD) (E : Set ℕ) (i : grid12.Coords) (arg1 : Memref sig .tc .vmem S1000x3 .bf16) (harg1 : arg1.IsWhole) (arg2 : Memref sig .tc .vmem S1000x128 .f32) (harg2 : arg2.IsWhole) (arg3 : Memref sig .tc .vmem S3x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S1000x128 .f32) (harg7 : arg7.IsWhole)
    (x0 : Vec F S1000x3 .bf16) (x1 : Vec F S1000x128 .f32) (x2 : Vec F S3x128 .bf16) (x3 : Vec F S1x128 .f32) (x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out12_6 x0 x1 x2 x3 x4 x5)) -∗ K ⟨⟩))
      ⊢ wp frame (wpE (defs₀ (F := F)) Variants.none c none) E (cc12_kernel i arg1 harg1 arg2 harg2 arg3 harg3 arg4 harg4 arg5 harg5 arg6 harg6 arg7 harg7) K := by
  simp only [cc12_kernel_eq_skeleton]; unfold cc12_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover12_6 _)

/-! ## The pipeline's proof data -/

/-- The proof data of pipeline 12 on core `c`: the arrays as `V` has them; after the body at point `t` each input
    buffer reads its block and the output buffer reads `out12_6` of the input blocks; the invariant is the rest of
    the core's scoped state and its generator register, untouched; full shares; nothing owed. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => out12_6 (iblk12 V c 0 t) (iblk12 V c 1 t) (iblk12 V c 2 t) (iblk12 V c 3 t) (iblk12 V c 4 t) (iblk12 V c 5 t)
  Φ _ := Pipeline.ΦA spec12 c
  q _ := fullShare
  owed _ := 0

/-- The proof data's arrays are `V`'s. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = out12_6 (iblk12 V c 0 t) (iblk12 V c 1 t) (iblk12 V c 2 t) (iblk12 V c 3 t) (iblk12 V c 4 t) (iblk12 V c 5 t) := by dsimp only [dat12]

/-- Each input's current buffer reads its block at every point. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t))

/-- The body at any point: the input buffers read their blocks, so the body's triple applies; the invariant and what
    the core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel12 c Set.univ (grid12.coords t) _ _ _ _ _ _ _ _ _ _ _ _ _ _ (iblk12 V c 0 t) (iblk12 V c 1 t) (iblk12 V c 2 t) (iblk12 V c 3 t) (iblk12 V c 4 t) (iblk12 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point. -/
theorem body_obligation12 (c : Dev nD) : BodyObligation (dat12 (F := F) V c) (defs₀ (F := F)) Variants.none () Set.univ := fun t => by
  rw [bigSep_W12, bigSep_W12]
  exact sound_body12 V c t

end Region12

end Cert.Kernel.Hand
-- ==== Proof.K.Reg13.lean ====
/-
  The frame half of region 13: the distance embedding  ee = bf16(relu(relu(len · W₁ + b₁) · W₂ + b₂) + es)  run
  as a pipeline over 20 row blocks of 4000 rows. Stated for any scalar model `F` and at a PARAMETER `V`, the buffer
  contents the region is entered with.

  Six windows are read (the lengths' rows and the edge states' rows, one block per point; the two layers' weights and
  bias rows, the same block at every point) and one is written (the embedded rows, one block per point). The body
  loads each input whole, computes, and stores the output whole, so what it leaves in the output's staging buffer is
  a function of the six input blocks alone, and every input's buffer is left as found.
-/
import proofs.«147763_j11003706212366_2_alg».proof.Proof.Gen.Kernel.Launch
import proofs.«147763_j11003706212366_2_alg».proof.Proof.Gen.Kernel.Skeleton
import proofs.«147763_j11003706212366_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle 4000 rows long is looked at once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region13
-- the buffer contents the region is entered with
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0 (the lengths' rows): its current staging buffer holds its block at every point, whether or not a fetch
    lands there, for ANY proof data whose array is `V`'s (`hA`) and whose body leaves the block in place (`hafter`).
    Where no fetch lands the block index has not moved, so the block kept from the point before is this point's; the
    window is uncut and has no idle point. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
/-- Input window 1 (the edge states' rows): its current staging buffer holds its block at every point, whether or not a fetch
    lands there, for ANY proof data whose array is `V`'s (`hA`) and whose body leaves the block in place (`hafter`).
    Where no fetch lands the block index has not moved, so the block kept from the point before is this point's; the
    window is uncut and has no idle point. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
/-- Input window 2 (the first layer's weight row): its current staging buffer holds its block at every point, whether or not a fetch
    lands there, for ANY proof data whose array is `V`'s (`hA`) and whose body leaves the block in place (`hafter`).
    Where no fetch lands the block index has not moved, so the block kept from the point before is this point's; the
    window is uncut and has no idle point. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)
/-- Input window 3 (the first layer's bias row): its current staging buffer holds its block at every point, whether or not a fetch
    lands there, for ANY proof data whose array is `V`'s (`hA`) and whose body leaves the block in place (`hafter`).
    Where no fetch lands the block index has not moved, so the block kept from the point before is this point's; the
    window is uncut and has no idle point. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)
/-- Input window 4 (the second layer's weight matrix): its current staging buffer holds its block at every point, whether or not a fetch
    lands there, for ANY proof data whose array is `V`'s (`hA`) and whose body leaves the block in place (`hafter`).
    Where no fetch lands the block index has not moved, so the block kept from the point before is this point's; the
    window is uncut and has no idle point. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)
/-- Input window 5 (the second layer's bias row): its current staging buffer holds its block at every point, whether or not a fetch
    lands there, for ANY proof data whose array is `V`'s (`hA`) and whose body leaves the block in place (`hafter`).
    Where no fetch lands the block index has not moved, so the block kept from the point before is this point's; the
    window is uncut and has no idle point. -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: each buffer read or written whole -/

abbrev r13_0 : Rect S4000x1 := Rect.unit (s := S4000x1) ![0, 0] S4000x1.size inb_S4000x1_S4000x1_0_0
abbrev r13_1 : Rect S1x128 := Rect.unit (s := S1x128) ![0, 0] S1x128.size inb_S1x128_S1x128_0_0
abbrev r13_2 : Rect S128x128 := Rect.unit (s := S128x128) ![0, 0] S128x128.size inb_S128x128_S128x128_0_0
abbrev r13_3 : Rect S4000x128 := Rect.unit (s := S4000x128) ![0, 0] S4000x128.size inb_S4000x128_S4000x128_0_0

/-! ## What the body leaves in the output window's buffer -/

/-- Window 6's staging buffer after the body, from the six input blocks (in window order: lengths, edge states,
    first weight row, first bias row, second weight matrix, second bias row): its one store, whose payload reads
    every input whole. -/
def out13_6 (x0 : Vec F S4000x1 .bf16) (x1 : Vec F S4000x128 .f32) (x2 : Vec F S1x128 .bf16) (x3 : Vec F S1x128 .f32) (x4 : Vec F S128x128 .bf16) (x5 : Vec F S1x128 .f32) : Vec F S4000x128 .bf16 :=
  View.canon [⟨r13_3, k13_pay1 (View.ld x0 r13_0) (View.ld x2 r13_1) (View.ld x3 r13_1) (View.ld x4 r13_2) (View.ld x5 r13_1) (View.ld x1 r13_3)⟩]

/-- The one store is the whole buffer, so it covers it. -/
theorem cover13_6 (p0 : Vec F S4000x128 .bf16) (y : S4000x128.Idx) :
    ∃ pc ∈ ([⟨r13_3, p0⟩] : List (View.Piece (Elt F) S4000x128 .bf16)), y ∈ pc.1.set :=
  View.cover_of_tiled [⟨r13_3, p0⟩] S4000x128.size (by rfl) y

/-! ## The body's triple -/

set_option maxHeartbeats 1000000 in
/-- The body on whole staging memrefs, the six inputs' at read contents `x0 … x5` and the output's at anything, runs to
    a continuation holding the inputs' as they were and the output's at `out13_6` of the inputs'. -/
theorem sound_kernel13 (c : Dev nD) (E : Set ℕ) (i : grid13.Coords)
    (arg1 : Memref sig .tc .vmem S4000x1 .bf16) (harg1 : arg1.IsWhole)
    (arg2 : Memref sig .tc .vmem S4000x128 .f32) (harg2 : arg2.IsWhole)
    (arg3 : Memref sig .tc .vmem S1x128 .bf16) (harg3 : arg3.IsWhole)
    (arg4 : Memref sig .tc .vmem S1x128 .f32) (harg4 : arg4.IsWhole)
    (arg5 : Memref sig .tc .vmem S128x128 .bf16) (harg5 : arg5.IsWhole)
    (arg6 : Memref sig .tc .vmem S1x128 .f32) (harg6 : arg6.IsWhole)
    (arg7 : Memref sig .tc .vmem S4000x128 .bf16) (harg7 : arg7.IsWhole)
    (x0 : Vec F S4000x1 .bf16) (x1 : Vec F S4000x128 .f32) (x2 : Vec F S1x128 .bf16) (x3 : Vec F S1x128 .f32) (x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out13_6 x0 x1 x2 x3 x4 x5)) -∗ K ⟨⟩))
      ⊢ wp frame (wpE (defs₀ (F := F)) Variants.none c none) E (cc13_kernel i arg1 harg1 arg2 harg2 arg3 harg3 arg4 harg4 arg5 harg5 arg6 harg6 arg7 harg7) K := by
  simp only [cc13_kernel_eq_skeleton]; unfold cc13_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover13_6 _)

/-! ## The pipeline's proof data -/

/-- The proof data of pipeline 13 on core `c`: the arrays as the region finds them (`V`); after the body at point
    `t` each input's buffer at its block and the output's at `out13_6` of the six input blocks; the invariant
    the scoped rest and the generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => out13_6 (iblk13 V c 0 t) (iblk13 V c 1 t) (iblk13 V c 2 t) (iblk13 V c 3 t) (iblk13 V c 4 t) (iblk13 V c 5 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = out13_6 (iblk13 V c 0 t) (iblk13 V c 1 t) (iblk13 V c 2 t) (iblk13 V c 3 t) (iblk13 V c 4 t) (iblk13 V c 5 t) := by dsimp only [dat13]

/-- Each input's current staging buffer holds its block at every point, whether or not a fetch lands there. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t))

/-- The body at any point: the inputs' memrefs hold their blocks (`before13_W`), so `sound_kernel13` applies; the
    invariant and what the core owes pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel13 c Set.univ (grid13.coords t) _ _ _ _ _ _ _ _ _ _ _ _ _ _ (iblk13 V c 0 t) (iblk13 V c 1 t) (iblk13 V c 2 t) (iblk13 V c 3 t) (iblk13 V c 4 t) (iblk13 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation13 (c : Dev nD) : BodyObligation (dat13 (F := F) V c) (defs₀ (F := F)) Variants.none () Set.univ := fun t => by
  rw [bigSep_W13, bigSep_W13]
  exact sound_body13 V c t

end Region13

end Cert.Kernel.Hand
-- ==== Proof.K.Reg14.lean ====
/-
  The edge-update region 14 at a parameter `V`, the TensorCore's buffer contents when the region is entered, for any
  float algebra `F`: each window's block at a grid point; what the body leaves in its two output buffers, as a function of
  the fourteen input blocks (the stores' payloads laid over the buffer); the body's triple; the proof data with the inputs
  kept at their blocks and the outputs at those functions; the body obligation at every grid point.

  The nine weight and bias windows have a constant block index: they are transferred at the first point only, and at every
  later point the buffer still holds the block, which is the same block.
-/
import proofs.«147763_j11003706212366_2_alg».proof.Proof.Gen.Kernel.Launch
import proofs.«147763_j11003706212366_2_alg».proof.Proof.Gen.Kernel.Skeleton
import proofs.«147763_j11003706212366_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region14
variable (V : (c : Dev nD) → (b : Ref sig .tc) → Buf (Elt F) ((c : Thread nD τ).loc b))

/-! ## The windows' blocks -/

/-- Window `w`'s block at point `t`, read off its array at the entry contents `V`. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current buffer holds its block at every point, transferred there or not, for any proof data whose
    array is `V`'s and whose body leaves the block in place: where no transfer happened the block index has not moved. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's current buffer holds its block at every point, transferred there or not, for any proof data whose
    array is `V`'s and whose body leaves the block in place: where no transfer happened the block index has not moved. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's current buffer holds its block at every point, transferred there or not, for any proof data whose
    array is `V`'s and whose body leaves the block in place: where no transfer happened the block index has not moved. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- Input window 3's current buffer holds its block at every point, transferred there or not, for any proof data whose
    array is `V`'s and whose body leaves the block in place: where no transfer happened the block index has not moved. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-- Input window 4's current buffer holds its block at every point, transferred there or not, for any proof data whose
    array is `V`'s and whose body leaves the block in place: where no transfer happened the block index has not moved. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-- Input window 5's current buffer holds its block at every point, transferred there or not, for any proof data whose
    array is `V`'s and whose body leaves the block in place: where no transfer happened the block index has not moved. -/
theorem before14_5_of {c : Dev nD} (dat : Dat τ (Elt F) Unit ℕ (UR sig nD τ) ℕ cfg14 c) (hA : dat.A 5 = V c (Pipeline.arrRef spec14 5))
    (hafter : ∀ t, dat.after 5 t = iblk14 V c 5 t) (t : Fin cfg14.N) (d) : dat.before 5 t d = iblk14 V c 5 t :=
  (dat.before_in_eq_fetched 5 rfl (fun _ => rfl) (fun _ _ _ => rfl) (fun t => by rw [hafter]; unfold Dat.blockOf iblk14; rw [hA]; try rfl) t d).trans
    (by unfold Dat.fetched Dat.blockOf iblk14; rw [hA]; try rfl)

/-- Input window 6's current buffer holds its block at every point, transferred there or not, for any proof data whose
    array is `V`'s and whose body leaves the block in place: where no transfer happened the block index has not moved. -/
theorem before14_6_of {c : Dev nD} (dat : Dat τ (Elt F) Unit ℕ (UR sig nD τ) ℕ cfg14 c) (hA : dat.A 6 = V c (Pipeline.arrRef spec14 6))
    (hafter : ∀ t, dat.after 6 t = iblk14 V c 6 t) (t : Fin cfg14.N) (d) : dat.before 6 t d = iblk14 V c 6 t :=
  (dat.before_in_eq_fetched 6 rfl (fun _ => rfl) (fun _ _ _ => rfl) (fun t => by rw [hafter]; unfold Dat.blockOf iblk14; rw [hA]; try rfl) t d).trans
    (by unfold Dat.fetched Dat.blockOf iblk14; rw [hA]; try rfl)

/-- Input window 7's current buffer holds its block at every point, transferred there or not, for any proof data whose
    array is `V`'s and whose body leaves the block in place: where no transfer happened the block index has not moved. -/
theorem before14_7_of {c : Dev nD} (dat : Dat τ (Elt F) Unit ℕ (UR sig nD τ) ℕ cfg14 c) (hA : dat.A 7 = V c (Pipeline.arrRef spec14 7))
    (hafter : ∀ t, dat.after 7 t = iblk14 V c 7 t) (t : Fin cfg14.N) (d) : dat.before 7 t d = iblk14 V c 7 t :=
  (dat.before_in_eq_fetched 7 rfl (fun _ => rfl) (fun _ _ _ => rfl) (fun t => by rw [hafter]; unfold Dat.blockOf iblk14; rw [hA]; try rfl) t d).trans
    (by unfold Dat.fetched Dat.blockOf iblk14; rw [hA]; try rfl)

/-- Input window 8's current buffer holds its block at every point, transferred there or not, for any proof data whose
    array is `V`'s and whose body leaves the block in place: where no transfer happened the block index has not moved. -/
theorem before14_8_of {c : Dev nD} (dat : Dat τ (Elt F) Unit ℕ (UR sig nD τ) ℕ cfg14 c) (hA : dat.A 8 = V c (Pipeline.arrRef spec14 8))
    (hafter : ∀ t, dat.after 8 t = iblk14 V c 8 t) (t : Fin cfg14.N) (d) : dat.before 8 t d = iblk14 V c 8 t :=
  (dat.before_in_eq_fetched 8 rfl (fun _ => rfl) (fun _ _ _ => rfl) (fun t => by rw [hafter]; unfold Dat.blockOf iblk14; rw [hA]; try rfl) t d).trans
    (by unfold Dat.fetched Dat.blockOf iblk14; rw [hA]; try rfl)

/-- Input window 9's current buffer holds its block at every point, transferred there or not, for any proof data whose
    array is `V`'s and whose body leaves the block in place: where no transfer happened the block index has not moved. -/
theorem before14_9_of {c : Dev nD} (dat : Dat τ (Elt F) Unit ℕ (UR sig nD τ) ℕ cfg14 c) (hA : dat.A 9 = V c (Pipeline.arrRef spec14 9))
    (hafter : ∀ t, dat.after 9 t = iblk14 V c 9 t) (t : Fin cfg14.N) (d) : dat.before 9 t d = iblk14 V c 9 t :=
  (dat.before_in_eq_fetched 9 rfl (fun _ => rfl) (fun _ _ _ => rfl) (fun t => by rw [hafter]; unfold Dat.blockOf iblk14; rw [hA]; try rfl) t d).trans
    (by unfold Dat.fetched Dat.blockOf iblk14; rw [hA]; try rfl)

/-- Input window 10's current buffer holds its block at every point, transferred there or not, for any proof data whose
    array is `V`'s and whose body leaves the block in place: where no transfer happened the block index has not moved. -/
theorem before14_10_of {c : Dev nD} (dat : Dat τ (Elt F) Unit ℕ (UR sig nD τ) ℕ cfg14 c) (hA : dat.A 10 = V c (Pipeline.arrRef spec14 10))
    (hafter : ∀ t, dat.after 10 t = iblk14 V c 10 t) (t : Fin cfg14.N) (d) : dat.before 10 t d = iblk14 V c 10 t :=
  (dat.before_in_eq_fetched 10 rfl (fun _ => rfl) (fun _ _ _ => rfl) (fun t => by rw [hafter]; unfold Dat.blockOf iblk14; rw [hA]; try rfl) t d).trans
    (by unfold Dat.fetched Dat.blockOf iblk14; rw [hA]; try rfl)

/-- Input window 11's current buffer holds its block at every point, transferred there or not, for any proof data whose
    array is `V`'s and whose body leaves the block in place: where no transfer happened the block index has not moved. -/
theorem before14_11_of {c : Dev nD} (dat : Dat τ (Elt F) Unit ℕ (UR sig nD τ) ℕ cfg14 c) (hA : dat.A 11 = V c (Pipeline.arrRef spec14 11))
    (hafter : ∀ t, dat.after 11 t = iblk14 V c 11 t) (t : Fin cfg14.N) (d) : dat.before 11 t d = iblk14 V c 11 t :=
  (dat.before_in_eq_fetched 11 rfl (fun _ => rfl) (fun _ _ _ => rfl) (fun t => by rw [hafter]; unfold Dat.blockOf iblk14; rw [hA]; try rfl) t d).trans
    (by unfold Dat.fetched Dat.blockOf iblk14; rw [hA]; try rfl)

/-- Input window 12's current buffer holds its block at every point, transferred there or not, for any proof data whose
    array is `V`'s and whose body leaves the block in place: where no transfer happened the block index has not moved. -/
theorem before14_12_of {c : Dev nD} (dat : Dat τ (Elt F) Unit ℕ (UR sig nD τ) ℕ cfg14 c) (hA : dat.A 12 = V c (Pipeline.arrRef spec14 12))
    (hafter : ∀ t, dat.after 12 t = iblk14 V c 12 t) (t : Fin cfg14.N) (d) : dat.before 12 t d = iblk14 V c 12 t :=
  (dat.before_in_eq_fetched 12 rfl (fun _ => rfl) (fun _ _ _ => rfl) (fun t => by rw [hafter]; unfold Dat.blockOf iblk14; rw [hA]; try rfl) t d).trans
    (by unfold Dat.fetched Dat.blockOf iblk14; rw [hA]; try rfl)

/-- Input window 13's current buffer holds its block at every point, transferred there or not, for any proof data whose
    array is `V`'s and whose body leaves the block in place: where no transfer happened the block index has not moved. -/
theorem before14_13_of {c : Dev nD} (dat : Dat τ (Elt F) Unit ℕ (UR sig nD τ) ℕ cfg14 c) (hA : dat.A 13 = V c (Pipeline.arrRef spec14 13))
    (hafter : ∀ t, dat.after 13 t = iblk14 V c 13 t) (t : Fin cfg14.N) (d) : dat.before 13 t d = iblk14 V c 13 t :=
  (dat.before_in_eq_fetched 13 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses: each buffer is read and written whole -/

abbrev r14_0 : Rect S2000x128 := Rect.unit (s := S2000x128) ![0, 0] S2000x128.size inb_S2000x128_S2000x128_0_0
abbrev r14_1 : Rect S128x512 := Rect.unit (s := S128x512) ![0, 0] S128x512.size inb_S128x512_S128x512_0_0
abbrev r14_2 : Rect S1x512 := Rect.unit (s := S1x512) ![0, 0] S1x512.size inb_S1x512_S1x512_0_0
abbrev r14_3 : Rect S512x512 := Rect.unit (s := S512x512) ![0, 0] S512x512.size inb_S512x512_S512x512_0_0
abbrev r14_4 : Rect S512x128 := Rect.unit (s := S512x128) ![0, 0] S512x128.size inb_S512x128_S512x128_0_0
abbrev r14_5 : Rect S1x128 := Rect.unit (s := S1x128) ![0, 0] S1x128.size inb_S1x128_S1x128_0_0

/-! ## What the body leaves in each output window's buffer -/

/-- Window 14's buffer after the body, from the input windows' blocks: its one store, of the whole buffer. -/
def out14_14 (x0 : Vec F S2000x128 .bf16) (x1 : Vec F S2000x128 .bf16) (x2 : Vec F S2000x128 .bf16) (x3 : Vec F S2000x128 .bf16) (x4 : Vec F S2000x128 .f32) (x5 : Vec F S128x512 .bf16) (x6 : Vec F S128x512 .bf16) (x7 : Vec F S128x512 .bf16) (x8 : Vec F S128x512 .bf16) (x9 : Vec F S1x512 .f32) (x10 : Vec F S512x512 .bf16) (x11 : Vec F S1x512 .f32) (x12 : Vec F S512x128 .bf16) (x13 : Vec F S1x128 .f32) : Vec F S2000x128 .f32 :=
  View.canon [⟨r14_0, k14_pay1 (k14_pay3 (View.ld x0 r14_0) (View.ld x5 r14_1) (View.ld x1 r14_0) (View.ld x6 r14_1) (View.ld x2 r14_0) (View.ld x7 r14_1) (View.ld x3 r14_0) (View.ld x8 r14_1) (View.ld x9 r14_2) (View.ld x10 r14_3)) (View.ld x11 r14_2) (View.ld x12 r14_4) (View.ld x13 r14_5)⟩]

/-- The one store covers the buffer. -/
theorem cover14_14 (p0 : Vec F S2000x128 .f32) (y : S2000x128.Idx) :
    ∃ pc ∈ ([⟨r14_0, p0⟩] : List (View.Piece (Elt F) S2000x128 .f32)), y ∈ pc.1.set :=
  View.cover_of_tiled [⟨r14_0, p0⟩] S2000x128.size (by rfl) y

/-- Window 15's buffer after the body, from the input windows' blocks: its one store, of the whole buffer. -/
def out14_15 (x0 : Vec F S2000x128 .bf16) (x1 : Vec F S2000x128 .bf16) (x2 : Vec F S2000x128 .bf16) (x3 : Vec F S2000x128 .bf16) (x4 : Vec F S2000x128 .f32) (x5 : Vec F S128x512 .bf16) (x6 : Vec F S128x512 .bf16) (x7 : Vec F S128x512 .bf16) (x8 : Vec F S128x512 .bf16) (x9 : Vec F S1x512 .f32) (x10 : Vec F S512x512 .bf16) (x11 : Vec F S1x512 .f32) (x12 : Vec F S512x128 .bf16) (x13 : Vec F S1x128 .f32) : Vec F S2000x128 .f32 :=
  View.canon [⟨r14_0, k14_pay2 (k14_pay3 (View.ld x0 r14_0) (View.ld x5 r14_1) (View.ld x1 r14_0) (View.ld x6 r14_1) (View.ld x2 r14_0) (View.ld x7 r14_1) (View.ld x3 r14_0) (View.ld x8 r14_1) (View.ld x9 r14_2) (View.ld x10 r14_3)) (View.ld x11 r14_2) (View.ld x12 r14_4) (View.ld x13 r14_5) (View.ld x4 r14_0)⟩]

/-- The one store covers the buffer. -/
theorem cover14_15 (p0 : Vec F S2000x128 .f32) (y : S2000x128.Idx) :
    ∃ pc ∈ ([⟨r14_0, p0⟩] : List (View.Piece (Elt F) S2000x128 .f32)), y ∈ pc.1.set :=
  View.cover_of_tiled [⟨r14_0, p0⟩] S2000x128.size (by rfl) y

/-! ## The body's triple -/

set_option maxHeartbeats 4000000 in
/-- The body on whole buffers, the inputs' reading `xW` and the outputs' holding anything, runs to the continuation with the
    inputs' as they were and each output's at `out14_W` of the inputs'. -/
theorem sound_kernel14 (c : Dev nD) (E : Set ℕ) (i : grid14.Coords) (arg1 : Memref sig .tc .vmem S2000x128 .bf16) (harg1 : arg1.IsWhole) (arg2 : Memref sig .tc .vmem S2000x128 .bf16) (harg2 : arg2.IsWhole) (arg3 : Memref sig .tc .vmem S2000x128 .bf16) (harg3 : arg3.IsWhole) (arg4 : Memref sig .tc .vmem S2000x128 .bf16) (harg4 : arg4.IsWhole) (arg5 : Memref sig .tc .vmem S2000x128 .f32) (harg5 : arg5.IsWhole) (arg6 : Memref sig .tc .vmem S128x512 .bf16) (harg6 : arg6.IsWhole) (arg7 : Memref sig .tc .vmem S128x512 .bf16) (harg7 : arg7.IsWhole) (arg8 : Memref sig .tc .vmem S128x512 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S512x128 .bf16) (harg13 : arg13.IsWhole) (arg14 : Memref sig .tc .vmem S1x128 .f32) (harg14 : arg14.IsWhole) (arg15 : Memref sig .tc .vmem S2000x128 .f32) (harg15 : arg15.IsWhole) (arg16 : Memref sig .tc .vmem S2000x128 .f32) (harg16 : arg16.IsWhole)
    (x0 : Vec F S2000x128 .bf16) (x1 : Vec F S2000x128 .bf16) (x2 : Vec F S2000x128 .bf16) (x3 : Vec F S2000x128 .bf16) (x4 : Vec F S2000x128 .f32) (x5 : Vec F S128x512 .bf16) (x6 : Vec F S128x512 .bf16) (x7 : Vec F S128x512 .bf16) (x8 : Vec F S128x512 .bf16) (x9 : Vec F S1x512 .f32) (x10 : Vec F S512x512 .bf16) (x11 : Vec F S1x512 .f32) (x12 : Vec F S512x128 .bf16) (x13 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out14_14 x0 x1 x2 x3 x4 x5 x6 x7 x8 x9 x10 x11 x12 x13) ∗ owns (c : Thread nD τ) arg16 fullShare (out14_15 x0 x1 x2 x3 x4 x5 x6 x7 x8 x9 x10 x11 x12 x13)) -∗ K ⟨⟩))
      ⊢ wp frame (wpE (defs₀ (F := F)) Variants.none c none) E (cc14_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc14_kernel_eq_skeleton]; unfold cc14_kernel_skel
  simp only [k14_part1_eq_skeleton]; unfold k14_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    try dsimp only
    exact View.read_writes_eq_canon _ _ _ (cover14_14 _)
  iexists _; isplitr
  swap; · iexact H15
  ipureintro
  try dsimp only
  exact View.read_writes_eq_canon _ _ _ (cover14_15 _)

/-! ## The pipeline's proof data -/

/-- The proof data of this pipeline on core `c`: the arrays at `V`; after the body at point `t` each input's buffer at its
    block and each output's at `out14_W` of the input blocks; the class's invariant (the scoped rest and the generator
    register untouched); nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => iblk14 V c 5 t
    | ⟨6, _⟩ => iblk14 V c 6 t
    | ⟨7, _⟩ => iblk14 V c 7 t
    | ⟨8, _⟩ => iblk14 V c 8 t
    | ⟨9, _⟩ => iblk14 V c 9 t
    | ⟨10, _⟩ => iblk14 V c 10 t
    | ⟨11, _⟩ => iblk14 V c 11 t
    | ⟨12, _⟩ => iblk14 V c 12 t
    | ⟨13, _⟩ => iblk14 V c 13 t
    | ⟨14, _⟩ => out14_14 (iblk14 V c 0 t) (iblk14 V c 1 t) (iblk14 V c 2 t) (iblk14 V c 3 t) (iblk14 V c 4 t) (iblk14 V c 5 t) (iblk14 V c 6 t) (iblk14 V c 7 t) (iblk14 V c 8 t) (iblk14 V c 9 t) (iblk14 V c 10 t) (iblk14 V c 11 t) (iblk14 V c 12 t) (iblk14 V c 13 t)
    | ⟨15, _⟩ => out14_15 (iblk14 V c 0 t) (iblk14 V c 1 t) (iblk14 V c 2 t) (iblk14 V c 3 t) (iblk14 V c 4 t) (iblk14 V c 5 t) (iblk14 V c 6 t) (iblk14 V c 7 t) (iblk14 V c 8 t) (iblk14 V c 9 t) (iblk14 V c 10 t) (iblk14 V c 11 t) (iblk14 V c 12 t) (iblk14 V c 13 t)
    | ⟨_ + 16, h⟩ => absurd h (Nat.not_lt.2 (Nat.le_add_left _ _))
  Φ _ := Pipeline.ΦA spec14 c
  q _ := fullShare
  owed _ := 0

/-- The proof data's arrays are the entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = iblk14 V c 5 t := by dsimp only [dat14]
theorem after14_6 (c : Dev nD) (t : Fin cfg14.N) : (dat14 V c).after 6 t = iblk14 V c 6 t := by dsimp only [dat14]
theorem after14_7 (c : Dev nD) (t : Fin cfg14.N) : (dat14 V c).after 7 t = iblk14 V c 7 t := by dsimp only [dat14]
theorem after14_8 (c : Dev nD) (t : Fin cfg14.N) : (dat14 V c).after 8 t = iblk14 V c 8 t := by dsimp only [dat14]
theorem after14_9 (c : Dev nD) (t : Fin cfg14.N) : (dat14 V c).after 9 t = iblk14 V c 9 t := by dsimp only [dat14]
theorem after14_10 (c : Dev nD) (t : Fin cfg14.N) : (dat14 V c).after 10 t = iblk14 V c 10 t := by dsimp only [dat14]
theorem after14_11 (c : Dev nD) (t : Fin cfg14.N) : (dat14 V c).after 11 t = iblk14 V c 11 t := by dsimp only [dat14]
theorem after14_12 (c : Dev nD) (t : Fin cfg14.N) : (dat14 V c).after 12 t = iblk14 V c 12 t := by dsimp only [dat14]
theorem after14_13 (c : Dev nD) (t : Fin cfg14.N) : (dat14 V c).after 13 t = iblk14 V c 13 t := by dsimp only [dat14]
theorem after14_14 (c : Dev nD) (t : Fin cfg14.N) : (dat14 V c).after 14 t = out14_14 (iblk14 V c 0 t) (iblk14 V c 1 t) (iblk14 V c 2 t) (iblk14 V c 3 t) (iblk14 V c 4 t) (iblk14 V c 5 t) (iblk14 V c 6 t) (iblk14 V c 7 t) (iblk14 V c 8 t) (iblk14 V c 9 t) (iblk14 V c 10 t) (iblk14 V c 11 t) (iblk14 V c 12 t) (iblk14 V c 13 t) := by dsimp only [dat14]
theorem after14_15 (c : Dev nD) (t : Fin cfg14.N) : (dat14 V c).after 15 t = out14_15 (iblk14 V c 0 t) (iblk14 V c 1 t) (iblk14 V c 2 t) (iblk14 V c 3 t) (iblk14 V c 4 t) (iblk14 V c 5 t) (iblk14 V c 6 t) (iblk14 V c 7 t) (iblk14 V c 8 t) (iblk14 V c 9 t) (iblk14 V c 10 t) (iblk14 V c 11 t) (iblk14 V c 12 t) (iblk14 V c 13 t) := by dsimp only [dat14]

/-- Each input's current buffer holds its block at every point. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d
theorem before14_5 (c : Dev nD) (t : Fin cfg14.N) (d) : (dat14 V c).before 5 t d = iblk14 V c 5 t :=
  before14_5_of V (dat14 V c) (A_eq14 V c 5) (after14_5 V c) t d
theorem before14_6 (c : Dev nD) (t : Fin cfg14.N) (d) : (dat14 V c).before 6 t d = iblk14 V c 6 t :=
  before14_6_of V (dat14 V c) (A_eq14 V c 6) (after14_6 V c) t d
theorem before14_7 (c : Dev nD) (t : Fin cfg14.N) (d) : (dat14 V c).before 7 t d = iblk14 V c 7 t :=
  before14_7_of V (dat14 V c) (A_eq14 V c 7) (after14_7 V c) t d
theorem before14_8 (c : Dev nD) (t : Fin cfg14.N) (d) : (dat14 V c).before 8 t d = iblk14 V c 8 t :=
  before14_8_of V (dat14 V c) (A_eq14 V c 8) (after14_8 V c) t d
theorem before14_9 (c : Dev nD) (t : Fin cfg14.N) (d) : (dat14 V c).before 9 t d = iblk14 V c 9 t :=
  before14_9_of V (dat14 V c) (A_eq14 V c 9) (after14_9 V c) t d
theorem before14_10 (c : Dev nD) (t : Fin cfg14.N) (d) : (dat14 V c).before 10 t d = iblk14 V c 10 t :=
  before14_10_of V (dat14 V c) (A_eq14 V c 10) (after14_10 V c) t d
theorem before14_11 (c : Dev nD) (t : Fin cfg14.N) (d) : (dat14 V c).before 11 t d = iblk14 V c 11 t :=
  before14_11_of V (dat14 V c) (A_eq14 V c 11) (after14_11 V c) t d
theorem before14_12 (c : Dev nD) (t : Fin cfg14.N) (d) : (dat14 V c).before 12 t d = iblk14 V c 12 t :=
  before14_12_of V (dat14 V c) (A_eq14 V c 12) (after14_12 V c) t d
theorem before14_13 (c : Dev nD) (t : Fin cfg14.N) (d) : (dat14 V c).before 13 t d = iblk14 V c 13 t :=
  before14_13_of V (dat14 V c) (A_eq14 V c 13) (after14_13 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d))
    ∗ (∃ d, owns (c : Thread nD τ) (st14_7 t) fullShare ((dat14 V c).before 7 t d))
    ∗ (∃ d, owns (c : Thread nD τ) (st14_8 t) fullShare ((dat14 V c).before 8 t d))
    ∗ (∃ d, owns (c : Thread nD τ) (st14_9 t) fullShare ((dat14 V c).before 9 t d))
    ∗ (∃ d, owns (c : Thread nD τ) (st14_10 t) fullShare ((dat14 V c).before 10 t d))
    ∗ (∃ d, owns (c : Thread nD τ) (st14_11 t) fullShare ((dat14 V c).before 11 t d))
    ∗ (∃ d, owns (c : Thread nD τ) (st14_12 t) fullShare ((dat14 V c).before 12 t d))
    ∗ (∃ d, owns (c : Thread nD τ) (st14_13 t) fullShare ((dat14 V c).before 13 t d))
    ∗ (∃ d, owns (c : Thread nD τ) (st14_14 t) fullShare ((dat14 V c).before 14 t d))
    ∗ (∃ d, owns (c : Thread nD τ) (st14_15 t) fullShare ((dat14 V c).before 15 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t)
    ∗ owns (c : Thread nD τ) (st14_7 t) fullShare ((dat14 V c).after 7 t)
    ∗ owns (c : Thread nD τ) (st14_8 t) fullShare ((dat14 V c).after 8 t)
    ∗ owns (c : Thread nD τ) (st14_9 t) fullShare ((dat14 V c).after 9 t)
    ∗ owns (c : Thread nD τ) (st14_10 t) fullShare ((dat14 V c).after 10 t)
    ∗ owns (c : Thread nD τ) (st14_11 t) fullShare ((dat14 V c).after 11 t)
    ∗ owns (c : Thread nD τ) (st14_12 t) fullShare ((dat14 V c).after 12 t)
    ∗ owns (c : Thread nD τ) (st14_13 t) fullShare ((dat14 V c).after 13 t)
    ∗ owns (c : Thread nD τ) (st14_14 t) fullShare ((dat14 V c).after 14 t)
    ∗ owns (c : Thread nD τ) (st14_15 t) fullShare ((dat14 V c).after 15 t))

set_option maxHeartbeats 1000000 in
/-- The body at any point: the inputs' buffers hold their blocks, so the body's triple applies; the invariant and what the
    core owes pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4, before14_5, before14_6, before14_7, before14_8, before14_9, before14_10, before14_11, before14_12, before14_13]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6, after14_7, after14_8, after14_9, after14_10, after14_11, after14_12, after14_13, after14_14, after14_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel14 c Set.univ (grid14.coords t) _ _ _ _ _ _ _ _ _ _ _ _ _ _ _ _ _ _ _ _ _ _ _ _ _ _ _ _ _ _ _ _ (iblk14 V c 0 t) (iblk14 V c 1 t) (iblk14 V c 2 t) (iblk14 V c 3 t) (iblk14 V c 4 t) (iblk14 V c 5 t) (iblk14 V c 6 t) (iblk14 V c 7 t) (iblk14 V c 8 t) (iblk14 V c 9 t) (iblk14 V c 10 t) (iblk14 V c 11 t) (iblk14 V c 12 t) (iblk14 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body obligation, at every point. -/
theorem body_obligation14 (c : Dev nD) : BodyObligation (dat14 (F := F) V c) (defs₀ (F := F)) Variants.none () Set.univ := fun t => by
  rw [bigSep_W14, bigSep_W14]
  exact sound_body14 V c t

end Region14

end Cert.Kernel.Hand
-- ==== Proof.K.Reg15.lean ====
/- The frame half of region 15: a three-layer perceptron on one block of rows, each layer a product with a
   weight matrix into a zero accumulator, a bias row added to every row, and the positive part. Seven input
   windows (the rows, then weight and bias of each layer) and one output window holding the rows of the result. -/
import proofs.«147763_j11003706212366_2_alg».proof.Proof.Gen.Kernel.Launch
import proofs.«147763_j11003706212366_2_alg».proof.Proof.Gen.Kernel.Skeleton
import proofs.«147763_j11003706212366_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array at the contents `V`. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0 holds its block at every point, fetched there or not: where it is not fetched its block
    index has not moved. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
/-- Input window 1 holds its block at every point, fetched there or not: where it is not fetched its block
    index has not moved. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
/-- Input window 2 holds its block at every point, fetched there or not: where it is not fetched its block
    index has not moved. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)
/-- Input window 3 holds its block at every point, fetched there or not: where it is not fetched its block
    index has not moved. -/
theorem before15_3_of {c : Dev nD} (dat : Dat τ (Elt F) Unit ℕ (UR sig nD τ) ℕ cfg15 c) (hA : dat.A 3 = V c (Pipeline.arrRef spec15 3))
    (hafter : ∀ t, dat.after 3 t = iblk15 V c 3 t) (t : Fin cfg15.N) (d) : dat.before 3 t d = iblk15 V c 3 t :=
  (dat.before_in_eq_fetched 3 rfl (fun _ => rfl) (fun _ _ _ => rfl) (fun t => by rw [hafter]; unfold Dat.blockOf iblk15; rw [hA]; try rfl) t d).trans
    (by unfold Dat.fetched Dat.blockOf iblk15; rw [hA]; try rfl)
/-- Input window 4 holds its block at every point, fetched there or not: where it is not fetched its block
    index has not moved. -/
theorem before15_4_of {c : Dev nD} (dat : Dat τ (Elt F) Unit ℕ (UR sig nD τ) ℕ cfg15 c) (hA : dat.A 4 = V c (Pipeline.arrRef spec15 4))
    (hafter : ∀ t, dat.after 4 t = iblk15 V c 4 t) (t : Fin cfg15.N) (d) : dat.before 4 t d = iblk15 V c 4 t :=
  (dat.before_in_eq_fetched 4 rfl (fun _ => rfl) (fun _ _ _ => rfl) (fun t => by rw [hafter]; unfold Dat.blockOf iblk15; rw [hA]; try rfl) t d).trans
    (by unfold Dat.fetched Dat.blockOf iblk15; rw [hA]; try rfl)
/-- Input window 5 holds its block at every point, fetched there or not: where it is not fetched its block
    index has not moved. -/
theorem before15_5_of {c : Dev nD} (dat : Dat τ (Elt F) Unit ℕ (UR sig nD τ) ℕ cfg15 c) (hA : dat.A 5 = V c (Pipeline.arrRef spec15 5))
    (hafter : ∀ t, dat.after 5 t = iblk15 V c 5 t) (t : Fin cfg15.N) (d) : dat.before 5 t d = iblk15 V c 5 t :=
  (dat.before_in_eq_fetched 5 rfl (fun _ => rfl) (fun _ _ _ => rfl) (fun t => by rw [hafter]; unfold Dat.blockOf iblk15; rw [hA]; try rfl) t d).trans
    (by unfold Dat.fetched Dat.blockOf iblk15; rw [hA]; try rfl)
/-- Input window 6 holds its block at every point, fetched there or not: where it is not fetched its block
    index has not moved. -/
theorem before15_6_of {c : Dev nD} (dat : Dat τ (Elt F) Unit ℕ (UR sig nD τ) ℕ cfg15 c) (hA : dat.A 6 = V c (Pipeline.arrRef spec15 6))
    (hafter : ∀ t, dat.after 6 t = iblk15 V c 6 t) (t : Fin cfg15.N) (d) : dat.before 6 t d = iblk15 V c 6 t :=
  (dat.before_in_eq_fetched 6 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses: each buffer is read and written whole -/

abbrev r15_0 : Rect S1000x512 := Rect.unit (s := S1000x512) ![0, 0] S1000x512.size inb_S1000x512_S1000x512_0_0
abbrev r15_1 : Rect S512x512 := Rect.unit (s := S512x512) ![0, 0] S512x512.size inb_S512x512_S512x512_0_0
abbrev r15_2 : Rect S1x512 := Rect.unit (s := S1x512) ![0, 0] S1x512.size inb_S1x512_S1x512_0_0
abbrev r15_3 : Rect S512x128 := Rect.unit (s := S512x128) ![0, 0] S512x128.size inb_S512x128_S512x128_0_0
abbrev r15_4 : Rect S1x128 := Rect.unit (s := S1x128) ![0, 0] S1x128.size inb_S1x128_S1x128_0_0
abbrev r15_5 : Rect S1000x128 := Rect.unit (s := S1000x128) ![0, 0] S1000x128.size inb_S1000x128_S1000x128_0_0

/-! ## What the body leaves in the output window's buffer -/

/-- The output buffer after the body, from the input blocks: its one store, of the third layer's positive part. -/
def out15_7 (x0 : Vec F S1000x512 .bf16) (x1 : Vec F S512x512 .bf16) (x2 : Vec F S1x512 .f32) (x3 : Vec F S512x512 .bf16) (x4 : Vec F S1x512 .f32) (x5 : Vec F S512x128 .bf16) (x6 : Vec F S1x128 .f32) : Vec F S1000x128 .f32 :=
  View.canon [⟨r15_5, k15_pay1 (View.ld x0 r15_0) (View.ld x1 r15_1) (View.ld x2 r15_2) (View.ld x3 r15_1) (View.ld x4 r15_2) (View.ld x5 r15_3) (View.ld x6 r15_4)⟩]

/-- The one store is of the whole buffer. -/
theorem cover15_7 (p0 : Vec F S1000x128 .f32) (y : S1000x128.Idx) :
    ∃ pc ∈ ([⟨r15_5, p0⟩] : List (View.Piece (Elt F) S1000x128 .f32)), y ∈ pc.1.set :=
  View.cover_of_tiled [⟨r15_5, p0⟩] S1000x128.size (by rfl) y

/-! ## The body's triple -/

set_option maxHeartbeats 1000000 in
/-- The body on whole staging buffers, the inputs' at contents `x0 … x6` and the output's at anything, returns the
    inputs' as they were and the output's at `out15_7` of them. -/
theorem sound_kernel15 (c : Dev nD) (E : Set ℕ) (i : grid15.Coords) (arg1 : Memref sig .tc .vmem S1000x512 .bf16) (harg1 : arg1.IsWhole) (arg2 : Memref sig .tc .vmem S512x512 .bf16) (harg2 : arg2.IsWhole) (arg3 : Memref sig .tc .vmem S1x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S1000x128 .f32) (harg8 : arg8.IsWhole)
    (x0 : Vec F S1000x512 .bf16) (x1 : Vec F S512x512 .bf16) (x2 : Vec F S1x512 .f32) (x3 : Vec F S512x512 .bf16) (x4 : Vec F S1x512 .f32) (x5 : Vec F S512x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out15_7 x0 x1 x2 x3 x4 x5 x6)) -∗ K ⟨⟩))
      ⊢ wp frame (wpE (defs₀ (F := F)) Variants.none c none) E (cc15_kernel i arg1 harg1 arg2 harg2 arg3 harg3 arg4 harg4 arg5 harg5 arg6 harg6 arg7 harg7 arg8 harg8) K := by
  simp only [cc15_kernel_eq_skeleton]; unfold cc15_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover15_7 _)

/-! ## The pipeline's proof data -/

/-- The proof data of pipeline 15 on core `c`: the arrays at `V`; after the body at point `t` each input's buffer at
    its block and the output's at `out15_7` of the input blocks; the invariant the scoped rest and the generator
    register, untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => iblk15 V c 4 t
    | ⟨5, _⟩ => iblk15 V c 5 t
    | ⟨6, _⟩ => iblk15 V c 6 t
    | ⟨7, _⟩ => out15_7 (iblk15 V c 0 t) (iblk15 V c 1 t) (iblk15 V c 2 t) (iblk15 V c 3 t) (iblk15 V c 4 t) (iblk15 V c 5 t) (iblk15 V c 6 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) : (dat15 V c).after 4 t = iblk15 V c 4 t := by dsimp only [dat15]
theorem after15_5 (c : Dev nD) (t : Fin cfg15.N) : (dat15 V c).after 5 t = iblk15 V c 5 t := by dsimp only [dat15]
theorem after15_6 (c : Dev nD) (t : Fin cfg15.N) : (dat15 V c).after 6 t = iblk15 V c 6 t := by dsimp only [dat15]
theorem after15_7 (c : Dev nD) (t : Fin cfg15.N) : (dat15 V c).after 7 t = out15_7 (iblk15 V c 0 t) (iblk15 V c 1 t) (iblk15 V c 2 t) (iblk15 V c 3 t) (iblk15 V c 4 t) (iblk15 V c 5 t) (iblk15 V c 6 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d
theorem before15_3 (c : Dev nD) (t : Fin cfg15.N) (d) : (dat15 V c).before 3 t d = iblk15 V c 3 t :=
  before15_3_of V (dat15 V c) (A_eq15 V c 3) (after15_3 V c) t d
theorem before15_4 (c : Dev nD) (t : Fin cfg15.N) (d) : (dat15 V c).before 4 t d = iblk15 V c 4 t :=
  before15_4_of V (dat15 V c) (A_eq15 V c 4) (after15_4 V c) t d
theorem before15_5 (c : Dev nD) (t : Fin cfg15.N) (d) : (dat15 V c).before 5 t d = iblk15 V c 5 t :=
  before15_5_of V (dat15 V c) (A_eq15 V c 5) (after15_5 V c) t d
theorem before15_6 (c : Dev nD) (t : Fin cfg15.N) (d) : (dat15 V c).before 6 t d = iblk15 V c 6 t :=
  before15_6_of V (dat15 V c) (A_eq15 V c 6) (after15_6 V c) t d

/-! ## The body obligation, at a generic point -/

/-- What the body is called with at point `t`, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d))
    ∗ (∃ d, owns (c : Thread nD τ) (st15_5 t) fullShare ((dat15 V c).before 5 t d))
    ∗ (∃ d, owns (c : Thread nD τ) (st15_6 t) fullShare ((dat15 V c).before 6 t d))
    ∗ (∃ d, owns (c : Thread nD τ) (st15_7 t) fullShare ((dat15 V c).before 7 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t)
    ∗ owns (c : Thread nD τ) (st15_5 t) fullShare ((dat15 V c).after 5 t)
    ∗ owns (c : Thread nD τ) (st15_6 t) fullShare ((dat15 V c).after 6 t)
    ∗ owns (c : Thread nD τ) (st15_7 t) fullShare ((dat15 V c).after 7 t))

/-- The body at any point: the inputs' buffers hold their blocks, so `sound_kernel15` applies; the invariant and
    what the core owes pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2, before15_3, before15_4, before15_5, before15_6]
  rw [show (dat15 V c).Φ t.succ = (dat15 V c).Φ t.castSucc from rfl,
    show (dat15 V c).owesAt () t.succ = (dat15 V c).owesAt () t.castSucc from rfl,
    after15_0, after15_1, after15_2, after15_3, after15_4, after15_5, after15_6, after15_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel15 c Set.univ (grid15.coords t) _ _ _ _ _ _ _ _ _ _ _ _ _ _ _ _ (iblk15 V c 0 t) (iblk15 V c 1 t) (iblk15 V c 2 t) (iblk15 V c 3 t) (iblk15 V c 4 t) (iblk15 V c 5 t) (iblk15 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation15 (c : Dev nD) : BodyObligation (dat15 (F := F) V c) (defs₀ (F := F)) Variants.none () Set.univ := fun t => by
  rw [bigSep_W15, bigSep_W15]
  exact sound_body15 V c t

end

end Cert.Kernel.Hand

end
-- ==== Proof.K.Reg16.lean ====
/- Region 16 of @main, the decoder  out = (relu(xs·W1 + b1)·W2 + b2) + lp  on blocks of 1000 rows, at ANY contents `V` of the
   TensorCore's buffers when the region is entered and any float carrier `F`.

   Window `w`'s block at point `t` is read off `V` (`iblk16`). The body loads its six input blocks whole, forms one
   payload from them and stores it over the whole output block; so after the body every input buffer still holds its
   block and the output buffer holds that payload of the six blocks (`out16_6`). An input buffer holds its block at
   EVERY point, fetched there or not: the two weight matrices and the two bias rows are fetched at point 0 only, and
   their block index never moves afterwards. With these the proof data `dat16` meet the pipeline's body obligation
   at every point (`body_obligation16`). -/
import proofs.«147763_j11003706212366_2_alg».proof.Proof.Gen.Kernel.Launch
import proofs.«147763_j11003706212366_2_alg».proof.Proof.Gen.Kernel.Skeleton
import proofs.«147763_j11003706212366_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle 1000 long recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region16
-- the TensorCore's buffer contents when the region is entered
variable (V : (c : Dev nD) → (b : Ref sig .tc) → Buf (Elt F) ((c : Thread nD τ).loc b))

/-! ## The windows' blocks -/

/-- Window `w`'s block at point `t`: the part of its array, as `V` holds it, that the transfer at `t` moves. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0 (the node states' block): its current staging buffer holds its block at every point, fetched there or not, for
    any proof data whose array is `V`'s (`hA`) and whose body leaves the block in place (`hafter`). Where the point
    does not fetch, the block index is the previous point's, and so is the block; the window is uncut and never idle. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
/-- Input window 1 (the positions' block): its current staging buffer holds its block at every point, fetched there or not, for
    any proof data whose array is `V`'s (`hA`) and whose body leaves the block in place (`hafter`). Where the point
    does not fetch, the block index is the previous point's, and so is the block; the window is uncut and never idle. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
/-- Input window 2 (the first layer's weights): its current staging buffer holds its block at every point, fetched there or not, for
    any proof data whose array is `V`'s (`hA`) and whose body leaves the block in place (`hafter`). Where the point
    does not fetch, the block index is the previous point's, and so is the block; the window is uncut and never idle. -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)
/-- Input window 3 (the first layer's bias row): its current staging buffer holds its block at every point, fetched there or not, for
    any proof data whose array is `V`'s (`hA`) and whose body leaves the block in place (`hafter`). Where the point
    does not fetch, the block index is the previous point's, and so is the block; the window is uncut and never idle. -/
theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)
/-- Input window 4 (the second layer's weights): its current staging buffer holds its block at every point, fetched there or not, for
    any proof data whose array is `V`'s (`hA`) and whose body leaves the block in place (`hafter`). Where the point
    does not fetch, the block index is the previous point's, and so is the block; the window is uncut and never idle. -/
theorem before16_4_of {c : Dev nD} (dat : Dat τ (Elt F) Unit ℕ (UR sig nD τ) ℕ cfg16 c) (hA : dat.A 4 = V c (Pipeline.arrRef spec16 4))
    (hafter : ∀ t, dat.after 4 t = iblk16 V c 4 t) (t : Fin cfg16.N) (d) : dat.before 4 t d = iblk16 V c 4 t :=
  (dat.before_in_eq_fetched 4 rfl (fun _ => rfl) (fun _ _ _ => rfl) (fun t => by rw [hafter]; unfold Dat.blockOf iblk16; rw [hA]; try rfl) t d).trans
    (by unfold Dat.fetched Dat.blockOf iblk16; rw [hA]; try rfl)
/-- Input window 5 (the second layer's bias row): its current staging buffer holds its block at every point, fetched there or not, for
    any proof data whose array is `V`'s (`hA`) and whose body leaves the block in place (`hafter`). Where the point
    does not fetch, the block index is the previous point's, and so is the block; the window is uncut and never idle. -/
theorem before16_5_of {c : Dev nD} (dat : Dat τ (Elt F) Unit ℕ (UR sig nD τ) ℕ cfg16 c) (hA : dat.A 5 = V c (Pipeline.arrRef spec16 5))
    (hafter : ∀ t, dat.after 5 t = iblk16 V c 5 t) (t : Fin cfg16.N) (d) : dat.before 5 t d = iblk16 V c 5 t :=
  (dat.before_in_eq_fetched 5 rfl (fun _ => rfl) (fun _ _ _ => rfl) (fun t => by rw [hafter]; unfold Dat.blockOf iblk16; rw [hA]; try rfl) t d).trans
    (by unfold Dat.fetched Dat.blockOf iblk16; rw [hA]; try rfl)

/-! ## The body's accesses: each buffer is read, and the output written, whole -/

abbrev r16_0 : Rect S1000x128 := Rect.unit (s := S1000x128) ![0, 0] S1000x128.size inb_S1000x128_S1000x128_0_0
abbrev r16_1 : Rect S128x128 := Rect.unit (s := S128x128) ![0, 0] S128x128.size inb_S128x128_S128x128_0_0
abbrev r16_2 : Rect S1x128 := Rect.unit (s := S1x128) ![0, 0] S1x128.size inb_S1x128_S1x128_0_0
abbrev r16_3 : Rect S128x3 := Rect.unit (s := S128x3) ![0, 0] S128x3.size inb_S128x3_S128x3_0_0
abbrev r16_4 : Rect S1x3 := Rect.unit (s := S1x3) ![0, 0] S1x3.size inb_S1x3_S1x3_0_0
abbrev r16_5 : Rect S1000x3 := Rect.unit (s := S1000x3) ![0, 0] S1000x3.size inb_S1000x3_S1000x3_0_0

/-! ## What the body leaves in the output window's buffer -/

/-- Window 6's staging buffer after the body, from the six input blocks: its one store, of the payload of the blocks
    as loaded. -/
def out16_6 (x0 : Vec F S1000x128 .bf16) (x1 : Vec F S1000x3 .f32) (x2 : Vec F S128x128 .bf16) (x3 : Vec F S1x128 .f32) (x4 : Vec F S128x3 .bf16) (x5 : Vec F S1x3 .f32) : Vec F S1000x3 .f32 :=
  View.canon [⟨r16_5, k16_pay1 (View.ld x0 r16_0) (View.ld x2 r16_1) (View.ld x3 r16_2) (View.ld x4 r16_3) (View.ld x5 r16_4) (View.ld x1 r16_5)⟩]

/-- The one store is of the whole block, so it covers it. -/
theorem cover16_6 (p0 : Vec F S1000x3 .f32) (y : S1000x3.Idx) :
    ∃ pc ∈ ([⟨r16_5, p0⟩] : List (View.Piece (Elt F) S1000x3 .f32)), y ∈ pc.1.set :=
  View.cover_of_tiled [⟨r16_5, p0⟩] S1000x3.size (by rfl) y

/-! ## The body's triple -/

set_option maxHeartbeats 1000000 in
/-- The body on whole staging memrefs, the inputs' at contents `x0 … x5` and the output's at anything, runs to the
    continuation with the inputs' as they were and the output's at `out16_6` of the inputs'. -/
theorem sound_kernel16 (c : Dev nD) (E : Set ℕ) (i : grid16.Coords)
    (arg1 : Memref sig .tc .vmem S1000x128 .bf16) (harg1 : arg1.IsWhole)
    (arg2 : Memref sig .tc .vmem S1000x3 .f32) (harg2 : arg2.IsWhole)
    (arg3 : Memref sig .tc .vmem S128x128 .bf16) (harg3 : arg3.IsWhole)
    (arg4 : Memref sig .tc .vmem S1x128 .f32) (harg4 : arg4.IsWhole)
    (arg5 : Memref sig .tc .vmem S128x3 .bf16) (harg5 : arg5.IsWhole)
    (arg6 : Memref sig .tc .vmem S1x3 .f32) (harg6 : arg6.IsWhole)
    (arg7 : Memref sig .tc .vmem S1000x3 .f32) (harg7 : arg7.IsWhole)
    (x0 : Vec F S1000x128 .bf16) (x1 : Vec F S1000x3 .f32) (x2 : Vec F S128x128 .bf16) (x3 : Vec F S1x128 .f32) (x4 : Vec F S128x3 .bf16) (x5 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out16_6 x0 x1 x2 x3 x4 x5)) -∗ K ⟨⟩))
      ⊢ wp frame (wpE (defs₀ (F := F)) Variants.none c none) E (cc16_kernel i arg1 harg1 arg2 harg2 arg3 harg3 arg4 harg4 arg5 harg5 arg6 harg6 arg7 harg7) K := by
  simp only [cc16_kernel_eq_skeleton]; unfold cc16_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover16_6 _)

/-! ## The pipeline's proof data -/

/-- The proof data of the region's pipeline on core `c`: the arrays as `V` holds them; after the body at point `t`
    each input's buffer at its block and the output's at `out16_6` of the six blocks; the invariant that the scoped
    rest and the generator register are untouched; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => iblk16 V c 5 t
    | ⟨6, _⟩ => out16_6 (iblk16 V c 0 t) (iblk16 V c 1 t) (iblk16 V c 2 t) (iblk16 V c 3 t) (iblk16 V c 4 t) (iblk16 V c 5 t)
  Φ _ := Pipeline.ΦA spec16 c
  q _ := fullShare
  owed _ := 0

/-- The proof data's arrays are `V`'s. -/
theorem A_eq16 (c : Dev nD) (w : Fin cfg16.W) : (dat16 V c).A w = V c (Pipeline.arrRef spec16 w) := by
  dsimp only [dat16]

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) : (dat16 V c).after 5 t = iblk16 V c 5 t := by dsimp only [dat16]
theorem after16_6 (c : Dev nD) (t : Fin cfg16.N) : (dat16 V c).after 6 t = out16_6 (iblk16 V c 0 t) (iblk16 V c 1 t) (iblk16 V c 2 t) (iblk16 V c 3 t) (iblk16 V c 4 t) (iblk16 V c 5 t) := by dsimp only [dat16]

/-- Each input's current staging buffer holds its block at every point. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d
theorem before16_5 (c : Dev nD) (t : Fin cfg16.N) (d) : (dat16 V c).before 5 t d = iblk16 V c 5 t :=
  before16_5_of V (dat16 V c) (A_eq16 V c 5) (after16_5 V c) t d

/-! ## The body obligation, at a generic point -/

/-- What the body is called with at point `t`, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d))
    ∗ (∃ d, owns (c : Thread nD τ) (st16_6 t) fullShare ((dat16 V c).before 6 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t)
    ∗ owns (c : Thread nD τ) (st16_6 t) fullShare ((dat16 V c).after 6 t))

/-- The body at any point: the inputs' memrefs hold their blocks, so the body's triple applies; the invariant and the
    core's debts pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4, before16_5]
  rw [show (dat16 V c).Φ t.succ = (dat16 V c).Φ t.castSucc from rfl,
    show (dat16 V c).owesAt () t.succ = (dat16 V c).owesAt () t.castSucc from rfl,
    after16_0, after16_1, after16_2, after16_3, after16_4, after16_5, after16_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel16 c Set.univ (grid16.coords t) _ _ _ _ _ _ _ _ _ _ _ _ _ _ (iblk16 V c 0 t) (iblk16 V c 1 t) (iblk16 V c 2 t) (iblk16 V c 3 t) (iblk16 V c 4 t) (iblk16 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation16 (c : Dev nD) : BodyObligation (dat16 (F := F) V c) (defs₀ (F := F)) Variants.none () Set.univ := fun t => by
  rw [bigSep_W16, bigSep_W16]
  exact sound_body16 V c t

end Region16

end Cert.Kernel.Hand

end
-- ==== Proof.K.Regs.lean ====
/- The kernel's run, assembled: what every buffer of a core holds between two items of @main (the launch contents,
   each host stretch's operations applied in order, each region's output arrays at what its write-backs leave and
   every other buffer untouched by it), the seventeen regions as segments between those contents, and the run itself:
   every weakly fair execution of @main terminates, faults nowhere, and ends with every unscoped buffer at the last
   of these contents. -/
import proofs.«147763_j11003706212366_2_alg».proof.Proof.K.RunCond
import proofs.«147763_j11003706212366_2_alg».proof.Proof.K.Reg0
import proofs.«147763_j11003706212366_2_alg».proof.Proof.K.Reg1
import proofs.«147763_j11003706212366_2_alg».proof.Proof.K.Reg2
import proofs.«147763_j11003706212366_2_alg».proof.Proof.K.Reg3
import proofs.«147763_j11003706212366_2_alg».proof.Proof.K.Reg4
import proofs.«147763_j11003706212366_2_alg».proof.Proof.K.Reg5
import proofs.«147763_j11003706212366_2_alg».proof.Proof.K.Reg6
import proofs.«147763_j11003706212366_2_alg».proof.Proof.K.Reg7
import proofs.«147763_j11003706212366_2_alg».proof.Proof.K.Reg8
import proofs.«147763_j11003706212366_2_alg».proof.Proof.K.Reg9
import proofs.«147763_j11003706212366_2_alg».proof.Proof.K.Reg10
import proofs.«147763_j11003706212366_2_alg».proof.Proof.K.Reg11
import proofs.«147763_j11003706212366_2_alg».proof.Proof.K.Reg12
import proofs.«147763_j11003706212366_2_alg».proof.Proof.K.Reg13
import proofs.«147763_j11003706212366_2_alg».proof.Proof.K.Reg14
import proofs.«147763_j11003706212366_2_alg».proof.Proof.K.Reg15
import proofs.«147763_j11003706212366_2_alg».proof.Proof.K.Reg16
import Idealize.ShloMosaic.Lib.Pipeline.FrameBody
import Idealize.ShloMosaic.Lib.Pipeline.RegionsLoop
import Idealize.ShloMosaic.Lib.Pipeline.FrameSuffix
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- Core `c`'s buffers at launch. -/
def U0 (c : Dev nD) : Valuation τ sig (Elt F) := fun b => m (c, b)
/-- The same read at the TensorCore's references. -/
abbrev T0 : (c : Dev nD) → (b : Ref sig .tc) → Buf (Elt F) ((c : Thread nD τ).loc b) := fun c b => U0 m c b
/-- After the host stretch `hostOps0`. -/
def U1 (c : Dev nD) : Valuation τ sig (Elt F) := StableHlo.after hostOps0 (U0 m c)
abbrev T1 : (c : Dev nD) → (b : Ref sig .tc) → Buf (Elt F) ((c : Thread nD τ).loc b) := fun c b => U1 m c b
/-- After region 0: its output array at what the write-backs leave, every other buffer as the region found it. -/
def U2 (c : Dev nD) : Valuation τ sig (Elt F) := Function.update (U1 m c) main_v15 ((dat0 (T1 m) c).arrAt 6 cfg0.N)
abbrev T2 : (c : Dev nD) → (b : Ref sig .tc) → Buf (Elt F) ((c : Thread nD τ).loc b) := fun c b => U2 m c b
/-- After the host stretch `hostOps1`. -/
def U3 (c : Dev nD) : Valuation τ sig (Elt F) := StableHlo.after hostOps1 (U2 m c)
abbrev T3 : (c : Dev nD) → (b : Ref sig .tc) → Buf (Elt F) ((c : Thread nD τ).loc b) := fun c b => U3 m c b
/-- After the host stretch `hostOps1_1`. -/
def U4 (c : Dev nD) : Valuation τ sig (Elt F) := StableHlo.after hostOps1_1 (U3 m c)
abbrev T4 : (c : Dev nD) → (b : Ref sig .tc) → Buf (Elt F) ((c : Thread nD τ).loc b) := fun c b => U4 m c b
/-- After the host stretch `hostOps1_2`. -/
def U5 (c : Dev nD) : Valuation τ sig (Elt F) := StableHlo.after hostOps1_2 (U4 m c)
abbrev T5 : (c : Dev nD) → (b : Ref sig .tc) → Buf (Elt F) ((c : Thread nD τ).loc b) := fun c b => U5 m c b
/-- After region 1: its output array at what the write-backs leave, every other buffer as the region found it. -/
def U6 (c : Dev nD) : Valuation τ sig (Elt F) := Function.update (U5 m c) main_v37 ((dat1 (T5 m) c).arrAt 6 cfg1.N)
abbrev T6 : (c : Dev nD) → (b : Ref sig .tc) → Buf (Elt F) ((c : Thread nD τ).loc b) := fun c b => U6 m c b
/-- After the host stretch `hostOps2`. -/
def U7 (c : Dev nD) : Valuation τ sig (Elt F) := StableHlo.after hostOps2 (U6 m c)
abbrev T7 : (c : Dev nD) → (b : Ref sig .tc) → Buf (Elt F) ((c : Thread nD τ).loc b) := fun c b => U7 m c b
/-- After region 2: its output arrays at what the write-backs leave, every other buffer as the region found it. -/
def U8 (c : Dev nD) : Valuation τ sig (Elt F) := Function.update (Function.update (U7 m c) main_v86_0 ((dat2 (T7 m) c).arrAt 14 cfg2.N)) main_v86_1 ((dat2 (T7 m) c).arrAt 15 cfg2.N)
abbrev T8 : (c : Dev nD) → (b : Ref sig .tc) → Buf (Elt F) ((c : Thread nD τ).loc b) := fun c b => U8 m c b
/-- After the host stretch `hostOps3`. -/
def U9 (c : Dev nD) : Valuation τ sig (Elt F) := StableHlo.after hostOps3 (U8 m c)
abbrev T9 : (c : Dev nD) → (b : Ref sig .tc) → Buf (Elt F) ((c : Thread nD τ).loc b) := fun c b => U9 m c b
/-- After region 3: its output array at what the write-backs leave, every other buffer as the region found it. -/
def U10 (c : Dev nD) : Valuation τ sig (Elt F) := Function.update (U9 m c) main_v120 ((dat3 (T9 m) c).arrAt 7 cfg3.N)
abbrev T10 : (c : Dev nD) → (b : Ref sig .tc) → Buf (Elt F) ((c : Thread nD τ).loc b) := fun c b => U10 m c b
/-- After the host stretch `hostOps4`. -/
def U11 (c : Dev nD) : Valuation τ sig (Elt F) := StableHlo.after hostOps4 (U10 m c)
abbrev T11 : (c : Dev nD) → (b : Ref sig .tc) → Buf (Elt F) ((c : Thread nD τ).loc b) := fun c b => U11 m c b
/-- After region 4: its output array at what the write-backs leave, every other buffer as the region found it. -/
def U12 (c : Dev nD) : Valuation τ sig (Elt F) := Function.update (U11 m c) main_v147 ((dat4 (T11 m) c).arrAt 7 cfg4.N)
abbrev T12 : (c : Dev nD) → (b : Ref sig .tc) → Buf (Elt F) ((c : Thread nD τ).loc b) := fun c b => U12 m c b
/-- After the host stretch `hostOps5`. -/
def U13 (c : Dev nD) : Valuation τ sig (Elt F) := StableHlo.after hostOps5 (U12 m c)
abbrev T13 : (c : Dev nD) → (b : Ref sig .tc) → Buf (Elt F) ((c : Thread nD τ).loc b) := fun c b => U13 m c b
/-- After region 5: its output array at what the write-backs leave, every other buffer as the region found it. -/
def U14 (c : Dev nD) : Valuation τ sig (Elt F) := Function.update (U13 m c) main_v155 ((dat5 (T13 m) c).arrAt 6 cfg5.N)
abbrev T14 : (c : Dev nD) → (b : Ref sig .tc) → Buf (Elt F) ((c : Thread nD τ).loc b) := fun c b => U14 m c b
/-- After the host stretch `hostOps6`. -/
def U15 (c : Dev nD) : Valuation τ sig (Elt F) := StableHlo.after hostOps6 (U14 m c)
abbrev T15 : (c : Dev nD) → (b : Ref sig .tc) → Buf (Elt F) ((c : Thread nD τ).loc b) := fun c b => U15 m c b
/-- After region 6: its output array at what the write-backs leave, every other buffer as the region found it. -/
def U16 (c : Dev nD) : Valuation τ sig (Elt F) := Function.update (U15 m c) main_v174 ((dat6 (T15 m) c).arrAt 6 cfg6.N)
abbrev T16 : (c : Dev nD) → (b : Ref sig .tc) → Buf (Elt F) ((c : Thread nD τ).loc b) := fun c b => U16 m c b
/-- After the host stretch `hostOps7`. -/
def U17 (c : Dev nD) : Valuation τ sig (Elt F) := StableHlo.after hostOps7 (U16 m c)
abbrev T17 : (c : Dev nD) → (b : Ref sig .tc) → Buf (Elt F) ((c : Thread nD τ).loc b) := fun c b => U17 m c b
/-- After the host stretch `hostOps7_1`. -/
def U18 (c : Dev nD) : Valuation τ sig (Elt F) := StableHlo.after hostOps7_1 (U17 m c)
abbrev T18 : (c : Dev nD) → (b : Ref sig .tc) → Buf (Elt F) ((c : Thread nD τ).loc b) := fun c b => U18 m c b
/-- After the host stretch `hostOps7_2`. -/
def U19 (c : Dev nD) : Valuation τ sig (Elt F) := StableHlo.after hostOps7_2 (U18 m c)
abbrev T19 : (c : Dev nD) → (b : Ref sig .tc) → Buf (Elt F) ((c : Thread nD τ).loc b) := fun c b => U19 m c b
/-- After region 7: its output array at what the write-backs leave, every other buffer as the region found it. -/
def U20 (c : Dev nD) : Valuation τ sig (Elt F) := Function.update (U19 m c) main_v196 ((dat7 (T19 m) c).arrAt 6 cfg7.N)
abbrev T20 : (c : Dev nD) → (b : Ref sig .tc) → Buf (Elt F) ((c : Thread nD τ).loc b) := fun c b => U20 m c b
/-- After the host stretch `hostOps8`. -/
def U21 (c : Dev nD) : Valuation τ sig (Elt F) := StableHlo.after hostOps8 (U20 m c)
abbrev T21 : (c : Dev nD) → (b : Ref sig .tc) → Buf (Elt F) ((c : Thread nD τ).loc b) := fun c b => U21 m c b
/-- After region 8: its output arrays at what the write-backs leave, every other buffer as the region found it. -/
def U22 (c : Dev nD) : Valuation τ sig (Elt F) := Function.update (Function.update (U21 m c) main_v245_0 ((dat8 (T21 m) c).arrAt 14 cfg8.N)) main_v245_1 ((dat8 (T21 m) c).arrAt 15 cfg8.N)
abbrev T22 : (c : Dev nD) → (b : Ref sig .tc) → Buf (Elt F) ((c : Thread nD τ).loc b) := fun c b => U22 m c b
/-- After the host stretch `hostOps9`. -/
def U23 (c : Dev nD) : Valuation τ sig (Elt F) := StableHlo.after hostOps9 (U22 m c)
abbrev T23 : (c : Dev nD) → (b : Ref sig .tc) → Buf (Elt F) ((c : Thread nD τ).loc b) := fun c b => U23 m c b
/-- After region 9: its output array at what the write-backs leave, every other buffer as the region found it. -/
def U24 (c : Dev nD) : Valuation τ sig (Elt F) := Function.update (U23 m c) main_v279 ((dat9 (T23 m) c).arrAt 7 cfg9.N)
abbrev T24 : (c : Dev nD) → (b : Ref sig .tc) → Buf (Elt F) ((c : Thread nD τ).loc b) := fun c b => U24 m c b
/-- After the host stretch `hostOps10`. -/
def U25 (c : Dev nD) : Valuation τ sig (Elt F) := StableHlo.after hostOps10 (U24 m c)
abbrev T25 : (c : Dev nD) → (b : Ref sig .tc) → Buf (Elt F) ((c : Thread nD τ).loc b) := fun c b => U25 m c b
/-- After region 10: its output array at what the write-backs leave, every other buffer as the region found it. -/
def U26 (c : Dev nD) : Valuation τ sig (Elt F) := Function.update (U25 m c) main_v306 ((dat10 (T25 m) c).arrAt 7 cfg10.N)
abbrev T26 : (c : Dev nD) → (b : Ref sig .tc) → Buf (Elt F) ((c : Thread nD τ).loc b) := fun c b => U26 m c b
/-- After the host stretch `hostOps11`. -/
def U27 (c : Dev nD) : Valuation τ sig (Elt F) := StableHlo.after hostOps11 (U26 m c)
abbrev T27 : (c : Dev nD) → (b : Ref sig .tc) → Buf (Elt F) ((c : Thread nD τ).loc b) := fun c b => U27 m c b
/-- After region 11: its output array at what the write-backs leave, every other buffer as the region found it. -/
def U28 (c : Dev nD) : Valuation τ sig (Elt F) := Function.update (U27 m c) main_v314 ((dat11 (T27 m) c).arrAt 6 cfg11.N)
abbrev T28 : (c : Dev nD) → (b : Ref sig .tc) → Buf (Elt F) ((c : Thread nD τ).loc b) := fun c b => U28 m c b
/-- After the host stretch `hostOps12`. -/
def U29 (c : Dev nD) : Valuation τ sig (Elt F) := StableHlo.after hostOps12 (U28 m c)
abbrev T29 : (c : Dev nD) → (b : Ref sig .tc) → Buf (Elt F) ((c : Thread nD τ).loc b) := fun c b => U29 m c b
/-- After region 12: its output array at what the write-backs leave, every other buffer as the region found it. -/
def U30 (c : Dev nD) : Valuation τ sig (Elt F) := Function.update (U29 m c) main_v333 ((dat12 (T29 m) c).arrAt 6 cfg12.N)
abbrev T30 : (c : Dev nD) → (b : Ref sig .tc) → Buf (Elt F) ((c : Thread nD τ).loc b) := fun c b => U30 m c b
/-- After the host stretch `hostOps13`. -/
def U31 (c : Dev nD) : Valuation τ sig (Elt F) := StableHlo.after hostOps13 (U30 m c)
abbrev T31 : (c : Dev nD) → (b : Ref sig .tc) → Buf (Elt F) ((c : Thread nD τ).loc b) := fun c b => U31 m c b
/-- After the host stretch `hostOps13_1`. -/
def U32 (c : Dev nD) : Valuation τ sig (Elt F) := StableHlo.after hostOps13_1 (U31 m c)
abbrev T32 : (c : Dev nD) → (b : Ref sig .tc) → Buf (Elt F) ((c : Thread nD τ).loc b) := fun c b => U32 m c b
/-- After the host stretch `hostOps13_2`. -/
def U33 (c : Dev nD) : Valuation τ sig (Elt F) := StableHlo.after hostOps13_2 (U32 m c)
abbrev T33 : (c : Dev nD) → (b : Ref sig .tc) → Buf (Elt F) ((c : Thread nD τ).loc b) := fun c b => U33 m c b
/-- After region 13: its output array at what the write-backs leave, every other buffer as the region found it. -/
def U34 (c : Dev nD) : Valuation τ sig (Elt F) := Function.update (U33 m c) main_v355 ((dat13 (T33 m) c).arrAt 6 cfg13.N)
abbrev T34 : (c : Dev nD) → (b : Ref sig .tc) → Buf (Elt F) ((c : Thread nD τ).loc b) := fun c b => U34 m c b
/-- After the host stretch `hostOps14`. -/
def U35 (c : Dev nD) : Valuation τ sig (Elt F) := StableHlo.after hostOps14 (U34 m c)
abbrev T35 : (c : Dev nD) → (b : Ref sig .tc) → Buf (Elt F) ((c : Thread nD τ).loc b) := fun c b => U35 m c b
/-- After region 14: its output arrays at what the write-backs leave, every other buffer as the region found it. -/
def U36 (c : Dev nD) : Valuation τ sig (Elt F) := Function.update (Function.update (U35 m c) main_v404_0 ((dat14 (T35 m) c).arrAt 14 cfg14.N)) main_v404_1 ((dat14 (T35 m) c).arrAt 15 cfg14.N)
abbrev T36 : (c : Dev nD) → (b : Ref sig .tc) → Buf (Elt F) ((c : Thread nD τ).loc b) := fun c b => U36 m c b
/-- After the host stretch `hostOps15`. -/
def U37 (c : Dev nD) : Valuation τ sig (Elt F) := StableHlo.after hostOps15 (U36 m c)
abbrev T37 : (c : Dev nD) → (b : Ref sig .tc) → Buf (Elt F) ((c : Thread nD τ).loc b) := fun c b => U37 m c b
/-- After region 15: its output array at what the write-backs leave, every other buffer as the region found it. -/
def U38 (c : Dev nD) : Valuation τ sig (Elt F) := Function.update (U37 m c) main_v438 ((dat15 (T37 m) c).arrAt 7 cfg15.N)
abbrev T38 : (c : Dev nD) → (b : Ref sig .tc) → Buf (Elt F) ((c : Thread nD τ).loc b) := fun c b => U38 m c b
/-- After the host stretch `hostOps16`. -/
def U39 (c : Dev nD) : Valuation τ sig (Elt F) := StableHlo.after hostOps16 (U38 m c)
abbrev T39 : (c : Dev nD) → (b : Ref sig .tc) → Buf (Elt F) ((c : Thread nD τ).loc b) := fun c b => U39 m c b
/-- After region 16: its output array at what the write-backs leave, every other buffer as the region found it. -/
def U40 (c : Dev nD) : Valuation τ sig (Elt F) := Function.update (U39 m c) main_v446 ((dat16 (T39 m) c).arrAt 6 cfg16.N)
abbrev T40 : (c : Dev nD) → (b : Ref sig .tc) → Buf (Elt F) ((c : Thread nD τ).loc b) := fun c b => U40 m c b
/-- After the host stretch `hostOps17`. -/
def U41 (c : Dev nD) : Valuation τ sig (Elt F) := StableHlo.after hostOps17 (U40 m c)
abbrev T41 : (c : Dev nD) → (b : Ref sig .tc) → Buf (Elt F) ((c : Thread nD τ).loc b) := fun c b => U41 m c b

/-- What the regions leave, as the conditional run asks for it: after item J−1 the contents of that moment. -/
def outs : Outs (F := F) := fun J r c => match J with
  | 2 => U2 m c r
  | 6 => U6 m c r
  | 8 => U8 m c r
  | 10 => U10 m c r
  | 12 => U12 m c r
  | 14 => U14 m c r
  | 16 => U16 m c r
  | 20 => U20 m c r
  | 22 => U22 m c r
  | 24 => U24 m c r
  | 26 => U26 m c r
  | 28 => U28 m c r
  | 30 => U30 m c r
  | 34 => U34 m c r
  | 36 => U36 m c r
  | 38 => U38 m c r
  | 40 => U40 m c r
  | _ => U0 m c r

/-! ## The conditional run's valuations are these contents -/

theorem V0_eq (c : Dev nD) : V0 m c = U0 m c := rfl
theorem V1_eq (c : Dev nD) : V1 m c = U1 m c := by
  show StableHlo.after hostOps0 (V0 m c) = StableHlo.after hostOps0 (U0 m c)
  rw [V0_eq]
theorem V2_eq (c : Dev nD) : V2 m (outs m) c = U2 m c := by
  show Function.update (V1 m c) main_v15 (U2 m c main_v15) = U2 m c
  rw [V1_eq]; unfold U2; rw [Function.update_self]
theorem V3_eq (c : Dev nD) : V3 m (outs m) c = U3 m c := by
  show StableHlo.after hostOps1 (V2 m (outs m) c) = StableHlo.after hostOps1 (U2 m c)
  rw [V2_eq]
theorem V4_eq (c : Dev nD) : V4 m (outs m) c = U4 m c := by
  show StableHlo.after hostOps1_1 (V3 m (outs m) c) = StableHlo.after hostOps1_1 (U3 m c)
  rw [V3_eq]
theorem V5_eq (c : Dev nD) : V5 m (outs m) c = U5 m c := by
  show StableHlo.after hostOps1_2 (V4 m (outs m) c) = StableHlo.after hostOps1_2 (U4 m c)
  rw [V4_eq]
theorem V6_eq (c : Dev nD) : V6 m (outs m) c = U6 m c := by
  show Function.update (V5 m (outs m) c) main_v37 (U6 m c main_v37) = U6 m c
  rw [V5_eq]; unfold U6; rw [Function.update_self]
theorem V7_eq (c : Dev nD) : V7 m (outs m) c = U7 m c := by
  show StableHlo.after hostOps2 (V6 m (outs m) c) = StableHlo.after hostOps2 (U6 m c)
  rw [V6_eq]
theorem V8_eq (c : Dev nD) : V8 m (outs m) c = U8 m c := by
  show Function.update (Function.update (V7 m (outs m) c) main_v86_0 (U8 m c main_v86_0)) main_v86_1 (U8 m c main_v86_1) = U8 m c
  rw [V7_eq]; unfold U8
  rw [Function.update_self, Function.update_of_ne (StableHlo.devRef_ne_of_ne (by decide : (main_v86_0 : Ref sig .tc) ≠ main_v86_1)), Function.update_self]
theorem V9_eq (c : Dev nD) : V9 m (outs m) c = U9 m c := by
  show StableHlo.after hostOps3 (V8 m (outs m) c) = StableHlo.after hostOps3 (U8 m c)
  rw [V8_eq]
theorem V10_eq (c : Dev nD) : V10 m (outs m) c = U10 m c := by
  show Function.update (V9 m (outs m) c) main_v120 (U10 m c main_v120) = U10 m c
  rw [V9_eq]; unfold U10; rw [Function.update_self]
theorem V11_eq (c : Dev nD) : V11 m (outs m) c = U11 m c := by
  show StableHlo.after hostOps4 (V10 m (outs m) c) = StableHlo.after hostOps4 (U10 m c)
  rw [V10_eq]
theorem V12_eq (c : Dev nD) : V12 m (outs m) c = U12 m c := by
  show Function.update (V11 m (outs m) c) main_v147 (U12 m c main_v147) = U12 m c
  rw [V11_eq]; unfold U12; rw [Function.update_self]
theorem V13_eq (c : Dev nD) : V13 m (outs m) c = U13 m c := by
  show StableHlo.after hostOps5 (V12 m (outs m) c) = StableHlo.after hostOps5 (U12 m c)
  rw [V12_eq]
theorem V14_eq (c : Dev nD) : V14 m (outs m) c = U14 m c := by
  show Function.update (V13 m (outs m) c) main_v155 (U14 m c main_v155) = U14 m c
  rw [V13_eq]; unfold U14; rw [Function.update_self]
theorem V15_eq (c : Dev nD) : V15 m (outs m) c = U15 m c := by
  show StableHlo.after hostOps6 (V14 m (outs m) c) = StableHlo.after hostOps6 (U14 m c)
  rw [V14_eq]
theorem V16_eq (c : Dev nD) : V16 m (outs m) c = U16 m c := by
  show Function.update (V15 m (outs m) c) main_v174 (U16 m c main_v174) = U16 m c
  rw [V15_eq]; unfold U16; rw [Function.update_self]
theorem V17_eq (c : Dev nD) : V17 m (outs m) c = U17 m c := by
  show StableHlo.after hostOps7 (V16 m (outs m) c) = StableHlo.after hostOps7 (U16 m c)
  rw [V16_eq]
theorem V18_eq (c : Dev nD) : V18 m (outs m) c = U18 m c := by
  show StableHlo.after hostOps7_1 (V17 m (outs m) c) = StableHlo.after hostOps7_1 (U17 m c)
  rw [V17_eq]
theorem V19_eq (c : Dev nD) : V19 m (outs m) c = U19 m c := by
  show StableHlo.after hostOps7_2 (V18 m (outs m) c) = StableHlo.after hostOps7_2 (U18 m c)
  rw [V18_eq]
theorem V20_eq (c : Dev nD) : V20 m (outs m) c = U20 m c := by
  show Function.update (V19 m (outs m) c) main_v196 (U20 m c main_v196) = U20 m c
  rw [V19_eq]; unfold U20; rw [Function.update_self]
theorem V21_eq (c : Dev nD) : V21 m (outs m) c = U21 m c := by
  show StableHlo.after hostOps8 (V20 m (outs m) c) = StableHlo.after hostOps8 (U20 m c)
  rw [V20_eq]
theorem V22_eq (c : Dev nD) : V22 m (outs m) c = U22 m c := by
  show Function.update (Function.update (V21 m (outs m) c) main_v245_0 (U22 m c main_v245_0)) main_v245_1 (U22 m c main_v245_1) = U22 m c
  rw [V21_eq]; unfold U22
  rw [Function.update_self, Function.update_of_ne (StableHlo.devRef_ne_of_ne (by decide : (main_v245_0 : Ref sig .tc) ≠ main_v245_1)), Function.update_self]
theorem V23_eq (c : Dev nD) : V23 m (outs m) c = U23 m c := by
  show StableHlo.after hostOps9 (V22 m (outs m) c) = StableHlo.after hostOps9 (U22 m c)
  rw [V22_eq]
theorem V24_eq (c : Dev nD) : V24 m (outs m) c = U24 m c := by
  show Function.update (V23 m (outs m) c) main_v279 (U24 m c main_v279) = U24 m c
  rw [V23_eq]; unfold U24; rw [Function.update_self]
theorem V25_eq (c : Dev nD) : V25 m (outs m) c = U25 m c := by
  show StableHlo.after hostOps10 (V24 m (outs m) c) = StableHlo.after hostOps10 (U24 m c)
  rw [V24_eq]
theorem V26_eq (c : Dev nD) : V26 m (outs m) c = U26 m c := by
  show Function.update (V25 m (outs m) c) main_v306 (U26 m c main_v306) = U26 m c
  rw [V25_eq]; unfold U26; rw [Function.update_self]
theorem V27_eq (c : Dev nD) : V27 m (outs m) c = U27 m c := by
  show StableHlo.after hostOps11 (V26 m (outs m) c) = StableHlo.after hostOps11 (U26 m c)
  rw [V26_eq]
theorem V28_eq (c : Dev nD) : V28 m (outs m) c = U28 m c := by
  show Function.update (V27 m (outs m) c) main_v314 (U28 m c main_v314) = U28 m c
  rw [V27_eq]; unfold U28; rw [Function.update_self]
theorem V29_eq (c : Dev nD) : V29 m (outs m) c = U29 m c := by
  show StableHlo.after hostOps12 (V28 m (outs m) c) = StableHlo.after hostOps12 (U28 m c)
  rw [V28_eq]
theorem V30_eq (c : Dev nD) : V30 m (outs m) c = U30 m c := by
  show Function.update (V29 m (outs m) c) main_v333 (U30 m c main_v333) = U30 m c
  rw [V29_eq]; unfold U30; rw [Function.update_self]
theorem V31_eq (c : Dev nD) : V31 m (outs m) c = U31 m c := by
  show StableHlo.after hostOps13 (V30 m (outs m) c) = StableHlo.after hostOps13 (U30 m c)
  rw [V30_eq]
theorem V32_eq (c : Dev nD) : V32 m (outs m) c = U32 m c := by
  show StableHlo.after hostOps13_1 (V31 m (outs m) c) = StableHlo.after hostOps13_1 (U31 m c)
  rw [V31_eq]
theorem V33_eq (c : Dev nD) : V33 m (outs m) c = U33 m c := by
  show StableHlo.after hostOps13_2 (V32 m (outs m) c) = StableHlo.after hostOps13_2 (U32 m c)
  rw [V32_eq]
theorem V34_eq (c : Dev nD) : V34 m (outs m) c = U34 m c := by
  show Function.update (V33 m (outs m) c) main_v355 (U34 m c main_v355) = U34 m c
  rw [V33_eq]; unfold U34; rw [Function.update_self]
theorem V35_eq (c : Dev nD) : V35 m (outs m) c = U35 m c := by
  show StableHlo.after hostOps14 (V34 m (outs m) c) = StableHlo.after hostOps14 (U34 m c)
  rw [V34_eq]
theorem V36_eq (c : Dev nD) : V36 m (outs m) c = U36 m c := by
  show Function.update (Function.update (V35 m (outs m) c) main_v404_0 (U36 m c main_v404_0)) main_v404_1 (U36 m c main_v404_1) = U36 m c
  rw [V35_eq]; unfold U36
  rw [Function.update_self, Function.update_of_ne (StableHlo.devRef_ne_of_ne (by decide : (main_v404_0 : Ref sig .tc) ≠ main_v404_1)), Function.update_self]
theorem V37_eq (c : Dev nD) : V37 m (outs m) c = U37 m c := by
  show StableHlo.after hostOps15 (V36 m (outs m) c) = StableHlo.after hostOps15 (U36 m c)
  rw [V36_eq]
theorem V38_eq (c : Dev nD) : V38 m (outs m) c = U38 m c := by
  show Function.update (V37 m (outs m) c) main_v438 (U38 m c main_v438) = U38 m c
  rw [V37_eq]; unfold U38; rw [Function.update_self]
theorem V39_eq (c : Dev nD) : V39 m (outs m) c = U39 m c := by
  show StableHlo.after hostOps16 (V38 m (outs m) c) = StableHlo.after hostOps16 (U38 m c)
  rw [V38_eq]
theorem V40_eq (c : Dev nD) : V40 m (outs m) c = U40 m c := by
  show Function.update (V39 m (outs m) c) main_v446 (U40 m c main_v446) = U40 m c
  rw [V39_eq]; unfold U40; rw [Function.update_self]
theorem V41_eq (c : Dev nD) : V41 m (outs m) c = U41 m c := by
  show StableHlo.after hostOps17 (V40 m (outs m) c) = StableHlo.after hostOps17 (U40 m c)
  rw [V40_eq]

/-! ## What a region leaves: its arrays at the exit contents, every other buffer as entered -/

theorem in_notOut0 : ∀ w : Fin 7, w ≠ 6 → (cfg0.win w).isOut = false := by decide
theorem in_ne0 : ∀ w : Fin 7, w ≠ 6 → Pipeline.arrRef spec0 w ≠ main_v15 := by decide
theorem out_mem0 : (main_v15 : Ref sig .tc) ∈ Finset.univ.image (Pipeline.arrRef spec0) := by decide
theorem hF0 (c : Dev nD) (w : Fin cfg0.W) : (dat0 (T1 m) c).arrAt w cfg0.N = T2 m c (Pipeline.arrRef spec0 w) := by
  by_cases hw : w = 6
  · subst hw
    show _ = Function.update (U1 m c) main_v15 _ main_v15
    rw [Function.update_self]
  · have hne := in_ne0 w hw
    show _ = Function.update (U1 m c) main_v15 _ (Pipeline.arrRef spec0 w)
    rw [Function.update_of_ne (StableHlo.devRef_ne_of_ne hne)]
    exact ((dat0 (T1 m) c).arrAt_in w (in_notOut0 w hw) _).trans (A_eq0 (T1 m) c w)
theorem hrest0 (c : Dev nD) : ∀ b, b ∉ Finset.univ.image (Pipeline.arrRef spec0) → T2 m c b = T1 m c b := fun b hb => by
  have hne : b ≠ main_v15 := fun e => hb (e ▸ out_mem0)
  show Function.update (U1 m c) main_v15 _ b = U1 m c b
  rw [Function.update_of_ne (StableHlo.devRef_ne_of_ne hne)]
theorem in_notOut1 : ∀ w : Fin 7, w ≠ 6 → (cfg1.win w).isOut = false := by decide
theorem in_ne1 : ∀ w : Fin 7, w ≠ 6 → Pipeline.arrRef spec1 w ≠ main_v37 := by decide
theorem out_mem1 : (main_v37 : Ref sig .tc) ∈ Finset.univ.image (Pipeline.arrRef spec1) := by decide
theorem hF1 (c : Dev nD) (w : Fin cfg1.W) : (dat1 (T5 m) c).arrAt w cfg1.N = T6 m c (Pipeline.arrRef spec1 w) := by
  by_cases hw : w = 6
  · subst hw
    show _ = Function.update (U5 m c) main_v37 _ main_v37
    rw [Function.update_self]
  · have hne := in_ne1 w hw
    show _ = Function.update (U5 m c) main_v37 _ (Pipeline.arrRef spec1 w)
    rw [Function.update_of_ne (StableHlo.devRef_ne_of_ne hne)]
    exact ((dat1 (T5 m) c).arrAt_in w (in_notOut1 w hw) _).trans (A_eq1 (T5 m) c w)
theorem hrest1 (c : Dev nD) : ∀ b, b ∉ Finset.univ.image (Pipeline.arrRef spec1) → T6 m c b = T5 m c b := fun b hb => by
  have hne : b ≠ main_v37 := fun e => hb (e ▸ out_mem1)
  show Function.update (U5 m c) main_v37 _ b = U5 m c b
  rw [Function.update_of_ne (StableHlo.devRef_ne_of_ne hne)]
theorem in_notOut2 : ∀ w : Fin 16, w ≠ 14 → w ≠ 15 → (cfg2.win w).isOut = false := by decide
theorem in_ne2 : ∀ w : Fin 16, w ≠ 14 → w ≠ 15 → Pipeline.arrRef spec2 w ≠ main_v86_0 ∧ Pipeline.arrRef spec2 w ≠ main_v86_1 := by decide
theorem out_mem2 : (main_v86_0 : Ref sig .tc) ∈ Finset.univ.image (Pipeline.arrRef spec2) ∧ (main_v86_1 : Ref sig .tc) ∈ Finset.univ.image (Pipeline.arrRef spec2) := by decide
theorem hF2 (c : Dev nD) (w : Fin cfg2.W) : (dat2 (T7 m) c).arrAt w cfg2.N = T8 m c (Pipeline.arrRef spec2 w) := by
  by_cases hw0 : w = 14
  · subst hw0
    show _ = Function.update (Function.update (U7 m c) main_v86_0 _) main_v86_1 _ main_v86_0
    rw [Function.update_of_ne (StableHlo.devRef_ne_of_ne (by decide : (main_v86_0 : Ref sig .tc) ≠ main_v86_1)), Function.update_self]
  by_cases hw1 : w = 15
  · subst hw1
    show _ = Function.update (Function.update (U7 m c) main_v86_0 _) main_v86_1 _ main_v86_1
    rw [Function.update_self]
  · have hne := in_ne2 w hw0 hw1
    show _ = Function.update (Function.update (U7 m c) main_v86_0 _) main_v86_1 _ (Pipeline.arrRef spec2 w)
    rw [Function.update_of_ne (StableHlo.devRef_ne_of_ne hne.2), Function.update_of_ne (StableHlo.devRef_ne_of_ne hne.1)]
    exact ((dat2 (T7 m) c).arrAt_in w (in_notOut2 w hw0 hw1) _).trans (A_eq2 (T7 m) c w)
theorem hrest2 (c : Dev nD) : ∀ b, b ∉ Finset.univ.image (Pipeline.arrRef spec2) → T8 m c b = T7 m c b := fun b hb => by
  have hne0 : b ≠ main_v86_0 := fun e => hb (e ▸ out_mem2.1)
  have hne1 : b ≠ main_v86_1 := fun e => hb (e ▸ out_mem2.2)
  show Function.update (Function.update (U7 m c) main_v86_0 _) main_v86_1 _ b = U7 m c b
  rw [Function.update_of_ne (StableHlo.devRef_ne_of_ne hne1), Function.update_of_ne (StableHlo.devRef_ne_of_ne hne0)]
theorem in_notOut3 : ∀ w : Fin 8, w ≠ 7 → (cfg3.win w).isOut = false := by decide
theorem in_ne3 : ∀ w : Fin 8, w ≠ 7 → Pipeline.arrRef spec3 w ≠ main_v120 := by decide
theorem out_mem3 : (main_v120 : Ref sig .tc) ∈ Finset.univ.image (Pipeline.arrRef spec3) := by decide
theorem hF3 (c : Dev nD) (w : Fin cfg3.W) : (dat3 (T9 m) c).arrAt w cfg3.N = T10 m c (Pipeline.arrRef spec3 w) := by
  by_cases hw : w = 7
  · subst hw
    show _ = Function.update (U9 m c) main_v120 _ main_v120
    rw [Function.update_self]
  · have hne := in_ne3 w hw
    show _ = Function.update (U9 m c) main_v120 _ (Pipeline.arrRef spec3 w)
    rw [Function.update_of_ne (StableHlo.devRef_ne_of_ne hne)]
    exact ((dat3 (T9 m) c).arrAt_in w (in_notOut3 w hw) _).trans (A_eq3 (T9 m) c w)
theorem hrest3 (c : Dev nD) : ∀ b, b ∉ Finset.univ.image (Pipeline.arrRef spec3) → T10 m c b = T9 m c b := fun b hb => by
  have hne : b ≠ main_v120 := fun e => hb (e ▸ out_mem3)
  show Function.update (U9 m c) main_v120 _ b = U9 m c b
  rw [Function.update_of_ne (StableHlo.devRef_ne_of_ne hne)]
theorem in_notOut4 : ∀ w : Fin 8, w ≠ 7 → (cfg4.win w).isOut = false := by decide
theorem in_ne4 : ∀ w : Fin 8, w ≠ 7 → Pipeline.arrRef spec4 w ≠ main_v147 := by decide
theorem out_mem4 : (main_v147 : Ref sig .tc) ∈ Finset.univ.image (Pipeline.arrRef spec4) := by decide
theorem hF4 (c : Dev nD) (w : Fin cfg4.W) : (dat4 (T11 m) c).arrAt w cfg4.N = T12 m c (Pipeline.arrRef spec4 w) := by
  by_cases hw : w = 7
  · subst hw
    show _ = Function.update (U11 m c) main_v147 _ main_v147
    rw [Function.update_self]
  · have hne := in_ne4 w hw
    show _ = Function.update (U11 m c) main_v147 _ (Pipeline.arrRef spec4 w)
    rw [Function.update_of_ne (StableHlo.devRef_ne_of_ne hne)]
    exact ((dat4 (T11 m) c).arrAt_in w (in_notOut4 w hw) _).trans (A_eq4 (T11 m) c w)
theorem hrest4 (c : Dev nD) : ∀ b, b ∉ Finset.univ.image (Pipeline.arrRef spec4) → T12 m c b = T11 m c b := fun b hb => by
  have hne : b ≠ main_v147 := fun e => hb (e ▸ out_mem4)
  show Function.update (U11 m c) main_v147 _ b = U11 m c b
  rw [Function.update_of_ne (StableHlo.devRef_ne_of_ne hne)]
theorem in_notOut5 : ∀ w : Fin 7, w ≠ 6 → (cfg5.win w).isOut = false := by decide
theorem in_ne5 : ∀ w : Fin 7, w ≠ 6 → Pipeline.arrRef spec5 w ≠ main_v155 := by decide
theorem out_mem5 : (main_v155 : Ref sig .tc) ∈ Finset.univ.image (Pipeline.arrRef spec5) := by decide
theorem hF5 (c : Dev nD) (w : Fin cfg5.W) : (dat5 (T13 m) c).arrAt w cfg5.N = T14 m c (Pipeline.arrRef spec5 w) := by
  by_cases hw : w = 6
  · subst hw
    show _ = Function.update (U13 m c) main_v155 _ main_v155
    rw [Function.update_self]
  · have hne := in_ne5 w hw
    show _ = Function.update (U13 m c) main_v155 _ (Pipeline.arrRef spec5 w)
    rw [Function.update_of_ne (StableHlo.devRef_ne_of_ne hne)]
    exact ((dat5 (T13 m) c).arrAt_in w (in_notOut5 w hw) _).trans (A_eq5 (T13 m) c w)
theorem hrest5 (c : Dev nD) : ∀ b, b ∉ Finset.univ.image (Pipeline.arrRef spec5) → T14 m c b = T13 m c b := fun b hb => by
  have hne : b ≠ main_v155 := fun e => hb (e ▸ out_mem5)
  show Function.update (U13 m c) main_v155 _ b = U13 m c b
  rw [Function.update_of_ne (StableHlo.devRef_ne_of_ne hne)]
theorem in_notOut6 : ∀ w : Fin 7, w ≠ 6 → (cfg6.win w).isOut = false := by decide
theorem in_ne6 : ∀ w : Fin 7, w ≠ 6 → Pipeline.arrRef spec6 w ≠ main_v174 := by decide
theorem out_mem6 : (main_v174 : Ref sig .tc) ∈ Finset.univ.image (Pipeline.arrRef spec6) := by decide
theorem hF6 (c : Dev nD) (w : Fin cfg6.W) : (dat6 (T15 m) c).arrAt w cfg6.N = T16 m c (Pipeline.arrRef spec6 w) := by
  by_cases hw : w = 6
  · subst hw
    show _ = Function.update (U15 m c) main_v174 _ main_v174
    rw [Function.update_self]
  · have hne := in_ne6 w hw
    show _ = Function.update (U15 m c) main_v174 _ (Pipeline.arrRef spec6 w)
    rw [Function.update_of_ne (StableHlo.devRef_ne_of_ne hne)]
    exact ((dat6 (T15 m) c).arrAt_in w (in_notOut6 w hw) _).trans (A_eq6 (T15 m) c w)
theorem hrest6 (c : Dev nD) : ∀ b, b ∉ Finset.univ.image (Pipeline.arrRef spec6) → T16 m c b = T15 m c b := fun b hb => by
  have hne : b ≠ main_v174 := fun e => hb (e ▸ out_mem6)
  show Function.update (U15 m c) main_v174 _ b = U15 m c b
  rw [Function.update_of_ne (StableHlo.devRef_ne_of_ne hne)]
theorem in_notOut7 : ∀ w : Fin 7, w ≠ 6 → (cfg7.win w).isOut = false := by decide
theorem in_ne7 : ∀ w : Fin 7, w ≠ 6 → Pipeline.arrRef spec7 w ≠ main_v196 := by decide
theorem out_mem7 : (main_v196 : Ref sig .tc) ∈ Finset.univ.image (Pipeline.arrRef spec7) := by decide
theorem hF7 (c : Dev nD) (w : Fin cfg7.W) : (dat7 (T19 m) c).arrAt w cfg7.N = T20 m c (Pipeline.arrRef spec7 w) := by
  by_cases hw : w = 6
  · subst hw
    show _ = Function.update (U19 m c) main_v196 _ main_v196
    rw [Function.update_self]
  · have hne := in_ne7 w hw
    show _ = Function.update (U19 m c) main_v196 _ (Pipeline.arrRef spec7 w)
    rw [Function.update_of_ne (StableHlo.devRef_ne_of_ne hne)]
    exact ((dat7 (T19 m) c).arrAt_in w (in_notOut7 w hw) _).trans (A_eq7 (T19 m) c w)
theorem hrest7 (c : Dev nD) : ∀ b, b ∉ Finset.univ.image (Pipeline.arrRef spec7) → T20 m c b = T19 m c b := fun b hb => by
  have hne : b ≠ main_v196 := fun e => hb (e ▸ out_mem7)
  show Function.update (U19 m c) main_v196 _ b = U19 m c b
  rw [Function.update_of_ne (StableHlo.devRef_ne_of_ne hne)]
theorem in_notOut8 : ∀ w : Fin 16, w ≠ 14 → w ≠ 15 → (cfg8.win w).isOut = false := by decide
theorem in_ne8 : ∀ w : Fin 16, w ≠ 14 → w ≠ 15 → Pipeline.arrRef spec8 w ≠ main_v245_0 ∧ Pipeline.arrRef spec8 w ≠ main_v245_1 := by decide
theorem out_mem8 : (main_v245_0 : Ref sig .tc) ∈ Finset.univ.image (Pipeline.arrRef spec8) ∧ (main_v245_1 : Ref sig .tc) ∈ Finset.univ.image (Pipeline.arrRef spec8) := by decide
theorem hF8 (c : Dev nD) (w : Fin cfg8.W) : (dat8 (T21 m) c).arrAt w cfg8.N = T22 m c (Pipeline.arrRef spec8 w) := by
  by_cases hw0 : w = 14
  · subst hw0
    show _ = Function.update (Function.update (U21 m c) main_v245_0 _) main_v245_1 _ main_v245_0
    rw [Function.update_of_ne (StableHlo.devRef_ne_of_ne (by decide : (main_v245_0 : Ref sig .tc) ≠ main_v245_1)), Function.update_self]
  by_cases hw1 : w = 15
  · subst hw1
    show _ = Function.update (Function.update (U21 m c) main_v245_0 _) main_v245_1 _ main_v245_1
    rw [Function.update_self]
  · have hne := in_ne8 w hw0 hw1
    show _ = Function.update (Function.update (U21 m c) main_v245_0 _) main_v245_1 _ (Pipeline.arrRef spec8 w)
    rw [Function.update_of_ne (StableHlo.devRef_ne_of_ne hne.2), Function.update_of_ne (StableHlo.devRef_ne_of_ne hne.1)]
    exact ((dat8 (T21 m) c).arrAt_in w (in_notOut8 w hw0 hw1) _).trans (A_eq8 (T21 m) c w)
theorem hrest8 (c : Dev nD) : ∀ b, b ∉ Finset.univ.image (Pipeline.arrRef spec8) → T22 m c b = T21 m c b := fun b hb => by
  have hne0 : b ≠ main_v245_0 := fun e => hb (e ▸ out_mem8.1)
  have hne1 : b ≠ main_v245_1 := fun e => hb (e ▸ out_mem8.2)
  show Function.update (Function.update (U21 m c) main_v245_0 _) main_v245_1 _ b = U21 m c b
  rw [Function.update_of_ne (StableHlo.devRef_ne_of_ne hne1), Function.update_of_ne (StableHlo.devRef_ne_of_ne hne0)]
theorem in_notOut9 : ∀ w : Fin 8, w ≠ 7 → (cfg9.win w).isOut = false := by decide
theorem in_ne9 : ∀ w : Fin 8, w ≠ 7 → Pipeline.arrRef spec9 w ≠ main_v279 := by decide
theorem out_mem9 : (main_v279 : Ref sig .tc) ∈ Finset.univ.image (Pipeline.arrRef spec9) := by decide
theorem hF9 (c : Dev nD) (w : Fin cfg9.W) : (dat9 (T23 m) c).arrAt w cfg9.N = T24 m c (Pipeline.arrRef spec9 w) := by
  by_cases hw : w = 7
  · subst hw
    show _ = Function.update (U23 m c) main_v279 _ main_v279
    rw [Function.update_self]
  · have hne := in_ne9 w hw
    show _ = Function.update (U23 m c) main_v279 _ (Pipeline.arrRef spec9 w)
    rw [Function.update_of_ne (StableHlo.devRef_ne_of_ne hne)]
    exact ((dat9 (T23 m) c).arrAt_in w (in_notOut9 w hw) _).trans (A_eq9 (T23 m) c w)
theorem hrest9 (c : Dev nD) : ∀ b, b ∉ Finset.univ.image (Pipeline.arrRef spec9) → T24 m c b = T23 m c b := fun b hb => by
  have hne : b ≠ main_v279 := fun e => hb (e ▸ out_mem9)
  show Function.update (U23 m c) main_v279 _ b = U23 m c b
  rw [Function.update_of_ne (StableHlo.devRef_ne_of_ne hne)]
theorem in_notOut10 : ∀ w : Fin 8, w ≠ 7 → (cfg10.win w).isOut = false := by decide
theorem in_ne10 : ∀ w : Fin 8, w ≠ 7 → Pipeline.arrRef spec10 w ≠ main_v306 := by decide
theorem out_mem10 : (main_v306 : Ref sig .tc) ∈ Finset.univ.image (Pipeline.arrRef spec10) := by decide
theorem hF10 (c : Dev nD) (w : Fin cfg10.W) : (dat10 (T25 m) c).arrAt w cfg10.N = T26 m c (Pipeline.arrRef spec10 w) := by
  by_cases hw : w = 7
  · subst hw
    show _ = Function.update (U25 m c) main_v306 _ main_v306
    rw [Function.update_self]
  · have hne := in_ne10 w hw
    show _ = Function.update (U25 m c) main_v306 _ (Pipeline.arrRef spec10 w)
    rw [Function.update_of_ne (StableHlo.devRef_ne_of_ne hne)]
    exact ((dat10 (T25 m) c).arrAt_in w (in_notOut10 w hw) _).trans (A_eq10 (T25 m) c w)
theorem hrest10 (c : Dev nD) : ∀ b, b ∉ Finset.univ.image (Pipeline.arrRef spec10) → T26 m c b = T25 m c b := fun b hb => by
  have hne : b ≠ main_v306 := fun e => hb (e ▸ out_mem10)
  show Function.update (U25 m c) main_v306 _ b = U25 m c b
  rw [Function.update_of_ne (StableHlo.devRef_ne_of_ne hne)]
theorem in_notOut11 : ∀ w : Fin 7, w ≠ 6 → (cfg11.win w).isOut = false := by decide
theorem in_ne11 : ∀ w : Fin 7, w ≠ 6 → Pipeline.arrRef spec11 w ≠ main_v314 := by decide
theorem out_mem11 : (main_v314 : Ref sig .tc) ∈ Finset.univ.image (Pipeline.arrRef spec11) := by decide
theorem hF11 (c : Dev nD) (w : Fin cfg11.W) : (dat11 (T27 m) c).arrAt w cfg11.N = T28 m c (Pipeline.arrRef spec11 w) := by
  by_cases hw : w = 6
  · subst hw
    show _ = Function.update (U27 m c) main_v314 _ main_v314
    rw [Function.update_self]
  · have hne := in_ne11 w hw
    show _ = Function.update (U27 m c) main_v314 _ (Pipeline.arrRef spec11 w)
    rw [Function.update_of_ne (StableHlo.devRef_ne_of_ne hne)]
    exact ((dat11 (T27 m) c).arrAt_in w (in_notOut11 w hw) _).trans (A_eq11 (T27 m) c w)
theorem hrest11 (c : Dev nD) : ∀ b, b ∉ Finset.univ.image (Pipeline.arrRef spec11) → T28 m c b = T27 m c b := fun b hb => by
  have hne : b ≠ main_v314 := fun e => hb (e ▸ out_mem11)
  show Function.update (U27 m c) main_v314 _ b = U27 m c b
  rw [Function.update_of_ne (StableHlo.devRef_ne_of_ne hne)]
theorem in_notOut12 : ∀ w : Fin 7, w ≠ 6 → (cfg12.win w).isOut = false := by decide
theorem in_ne12 : ∀ w : Fin 7, w ≠ 6 → Pipeline.arrRef spec12 w ≠ main_v333 := by decide
theorem out_mem12 : (main_v333 : Ref sig .tc) ∈ Finset.univ.image (Pipeline.arrRef spec12) := by decide
theorem hF12 (c : Dev nD) (w : Fin cfg12.W) : (dat12 (T29 m) c).arrAt w cfg12.N = T30 m c (Pipeline.arrRef spec12 w) := by
  by_cases hw : w = 6
  · subst hw
    show _ = Function.update (U29 m c) main_v333 _ main_v333
    rw [Function.update_self]
  · have hne := in_ne12 w hw
    show _ = Function.update (U29 m c) main_v333 _ (Pipeline.arrRef spec12 w)
    rw [Function.update_of_ne (StableHlo.devRef_ne_of_ne hne)]
    exact ((dat12 (T29 m) c).arrAt_in w (in_notOut12 w hw) _).trans (A_eq12 (T29 m) c w)
theorem hrest12 (c : Dev nD) : ∀ b, b ∉ Finset.univ.image (Pipeline.arrRef spec12) → T30 m c b = T29 m c b := fun b hb => by
  have hne : b ≠ main_v333 := fun e => hb (e ▸ out_mem12)
  show Function.update (U29 m c) main_v333 _ b = U29 m c b
  rw [Function.update_of_ne (StableHlo.devRef_ne_of_ne hne)]
theorem in_notOut13 : ∀ w : Fin 7, w ≠ 6 → (cfg13.win w).isOut = false := by decide
theorem in_ne13 : ∀ w : Fin 7, w ≠ 6 → Pipeline.arrRef spec13 w ≠ main_v355 := by decide
theorem out_mem13 : (main_v355 : Ref sig .tc) ∈ Finset.univ.image (Pipeline.arrRef spec13) := by decide
theorem hF13 (c : Dev nD) (w : Fin cfg13.W) : (dat13 (T33 m) c).arrAt w cfg13.N = T34 m c (Pipeline.arrRef spec13 w) := by
  by_cases hw : w = 6
  · subst hw
    show _ = Function.update (U33 m c) main_v355 _ main_v355
    rw [Function.update_self]
  · have hne := in_ne13 w hw
    show _ = Function.update (U33 m c) main_v355 _ (Pipeline.arrRef spec13 w)
    rw [Function.update_of_ne (StableHlo.devRef_ne_of_ne hne)]
    exact ((dat13 (T33 m) c).arrAt_in w (in_notOut13 w hw) _).trans (A_eq13 (T33 m) c w)
theorem hrest13 (c : Dev nD) : ∀ b, b ∉ Finset.univ.image (Pipeline.arrRef spec13) → T34 m c b = T33 m c b := fun b hb => by
  have hne : b ≠ main_v355 := fun e => hb (e ▸ out_mem13)
  show Function.update (U33 m c) main_v355 _ b = U33 m c b
  rw [Function.update_of_ne (StableHlo.devRef_ne_of_ne hne)]
theorem in_notOut14 : ∀ w : Fin 16, w ≠ 14 → w ≠ 15 → (cfg14.win w).isOut = false := by decide
theorem in_ne14 : ∀ w : Fin 16, w ≠ 14 → w ≠ 15 → Pipeline.arrRef spec14 w ≠ main_v404_0 ∧ Pipeline.arrRef spec14 w ≠ main_v404_1 := by decide
theorem out_mem14 : (main_v404_0 : Ref sig .tc) ∈ Finset.univ.image (Pipeline.arrRef spec14) ∧ (main_v404_1 : Ref sig .tc) ∈ Finset.univ.image (Pipeline.arrRef spec14) := by decide
theorem hF14 (c : Dev nD) (w : Fin cfg14.W) : (dat14 (T35 m) c).arrAt w cfg14.N = T36 m c (Pipeline.arrRef spec14 w) := by
  by_cases hw0 : w = 14
  · subst hw0
    show _ = Function.update (Function.update (U35 m c) main_v404_0 _) main_v404_1 _ main_v404_0
    rw [Function.update_of_ne (StableHlo.devRef_ne_of_ne (by decide : (main_v404_0 : Ref sig .tc) ≠ main_v404_1)), Function.update_self]
  by_cases hw1 : w = 15
  · subst hw1
    show _ = Function.update (Function.update (U35 m c) main_v404_0 _) main_v404_1 _ main_v404_1
    rw [Function.update_self]
  · have hne := in_ne14 w hw0 hw1
    show _ = Function.update (Function.update (U35 m c) main_v404_0 _) main_v404_1 _ (Pipeline.arrRef spec14 w)
    rw [Function.update_of_ne (StableHlo.devRef_ne_of_ne hne.2), Function.update_of_ne (StableHlo.devRef_ne_of_ne hne.1)]
    exact ((dat14 (T35 m) c).arrAt_in w (in_notOut14 w hw0 hw1) _).trans (A_eq14 (T35 m) c w)
theorem hrest14 (c : Dev nD) : ∀ b, b ∉ Finset.univ.image (Pipeline.arrRef spec14) → T36 m c b = T35 m c b := fun b hb => by
  have hne0 : b ≠ main_v404_0 := fun e => hb (e ▸ out_mem14.1)
  have hne1 : b ≠ main_v404_1 := fun e => hb (e ▸ out_mem14.2)
  show Function.update (Function.update (U35 m c) main_v404_0 _) main_v404_1 _ b = U35 m c b
  rw [Function.update_of_ne (StableHlo.devRef_ne_of_ne hne1), Function.update_of_ne (StableHlo.devRef_ne_of_ne hne0)]
theorem in_notOut15 : ∀ w : Fin 8, w ≠ 7 → (cfg15.win w).isOut = false := by decide
theorem in_ne15 : ∀ w : Fin 8, w ≠ 7 → Pipeline.arrRef spec15 w ≠ main_v438 := by decide
theorem out_mem15 : (main_v438 : Ref sig .tc) ∈ Finset.univ.image (Pipeline.arrRef spec15) := by decide
theorem hF15 (c : Dev nD) (w : Fin cfg15.W) : (dat15 (T37 m) c).arrAt w cfg15.N = T38 m c (Pipeline.arrRef spec15 w) := by
  by_cases hw : w = 7
  · subst hw
    show _ = Function.update (U37 m c) main_v438 _ main_v438
    rw [Function.update_self]
  · have hne := in_ne15 w hw
    show _ = Function.update (U37 m c) main_v438 _ (Pipeline.arrRef spec15 w)
    rw [Function.update_of_ne (StableHlo.devRef_ne_of_ne hne)]
    exact ((dat15 (T37 m) c).arrAt_in w (in_notOut15 w hw) _).trans (A_eq15 (T37 m) c w)
theorem hrest15 (c : Dev nD) : ∀ b, b ∉ Finset.univ.image (Pipeline.arrRef spec15) → T38 m c b = T37 m c b := fun b hb => by
  have hne : b ≠ main_v438 := fun e => hb (e ▸ out_mem15)
  show Function.update (U37 m c) main_v438 _ b = U37 m c b
  rw [Function.update_of_ne (StableHlo.devRef_ne_of_ne hne)]
theorem in_notOut16 : ∀ w : Fin 7, w ≠ 6 → (cfg16.win w).isOut = false := by decide
theorem in_ne16 : ∀ w : Fin 7, w ≠ 6 → Pipeline.arrRef spec16 w ≠ main_v446 := by decide
theorem out_mem16 : (main_v446 : Ref sig .tc) ∈ Finset.univ.image (Pipeline.arrRef spec16) := by decide
theorem hF16 (c : Dev nD) (w : Fin cfg16.W) : (dat16 (T39 m) c).arrAt w cfg16.N = T40 m c (Pipeline.arrRef spec16 w) := by
  by_cases hw : w = 6
  · subst hw
    show _ = Function.update (U39 m c) main_v446 _ main_v446
    rw [Function.update_self]
  · have hne := in_ne16 w hw
    show _ = Function.update (U39 m c) main_v446 _ (Pipeline.arrRef spec16 w)
    rw [Function.update_of_ne (StableHlo.devRef_ne_of_ne hne)]
    exact ((dat16 (T39 m) c).arrAt_in w (in_notOut16 w hw) _).trans (A_eq16 (T39 m) c w)
theorem hrest16 (c : Dev nD) : ∀ b, b ∉ Finset.univ.image (Pipeline.arrRef spec16) → T40 m c b = T39 m c b := fun b hb => by
  have hne : b ≠ main_v446 := fun e => hb (e ▸ out_mem16)
  show Function.update (U39 m c) main_v446 _ b = U39 m c b
  rw [Function.update_of_ne (StableHlo.devRef_ne_of_ne hne)]

/-! ## The proof data family and what rides beside the buffers -/

/-- Every pipeline's proof data, each at its region's entry contents. -/
def pdats : (p : Fin 17) → (c : Dev nD) → Dat τ (Elt F) Unit ℕ (UR sig nD τ) ℕ (cfgs p) c
  | ⟨0, _⟩ => fun c => dat0 (T1 m) c
  | ⟨1, _⟩ => fun c => dat1 (T5 m) c
  | ⟨2, _⟩ => fun c => dat2 (T7 m) c
  | ⟨3, _⟩ => fun c => dat3 (T9 m) c
  | ⟨4, _⟩ => fun c => dat4 (T11 m) c
  | ⟨5, _⟩ => fun c => dat5 (T13 m) c
  | ⟨6, _⟩ => fun c => dat6 (T15 m) c
  | ⟨7, _⟩ => fun c => dat7 (T19 m) c
  | ⟨8, _⟩ => fun c => dat8 (T21 m) c
  | ⟨9, _⟩ => fun c => dat9 (T23 m) c
  | ⟨10, _⟩ => fun c => dat10 (T25 m) c
  | ⟨11, _⟩ => fun c => dat11 (T27 m) c
  | ⟨12, _⟩ => fun c => dat12 (T29 m) c
  | ⟨13, _⟩ => fun c => dat13 (T33 m) c
  | ⟨14, _⟩ => fun c => dat14 (T35 m) c
  | ⟨15, _⟩ => fun c => dat15 (T37 m) c
  | ⟨16, _⟩ => fun c => dat16 (T39 m) c
  | ⟨_ + 17, h⟩ => absurd h (Nat.not_lt.2 (Nat.le_add_left _ _))
abbrev 𝒱ₙ : Variants := Variants.none
/-- No core owes another anything: no level is assigned. -/
abbrev Lₙ : GSem nD τ sig → Finset Unit := fun _ => ∅
abbrev lvₙ : GSem nD τ sig → Unit → ℕ := fun _ _ => 0
/-- What rides beside the buffers through every item: the core's generator register at some state and its dues, at nothing. -/
abbrev Rest (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 between the contents before it and after it: its arrays split out of the unscoped buffers and put back at
    the exit contents; the generator register into the region's invariant and out; nothing owed. -/
def reg0 : RegionSeg (pcfgs (F := F)) adm (pdats m) () defs₀ 𝒱ₙ Lₙ lvₙ 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ Lₙ lvₙ 0 fun _ _ => rfl
  pre c := iprop(StableHlo.held (c : Thread nD τ) (Pipeline.ucRefs τ sig) (U1 m c) ∗ Rest c)
  post c := iprop(StableHlo.held (c : Thread nD τ) (Pipeline.ucRefs τ sig) (U2 m c) ∗ Rest c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the contents before it and after it: its arrays split out of the unscoped buffers and put back at
    the exit contents; the generator register into the region's invariant and out; nothing owed. -/
def reg1 : RegionSeg (pcfgs (F := F)) adm (pdats m) () defs₀ 𝒱ₙ Lₙ lvₙ 1 where
  win := launch1.win.to₀
  block_pos := launch1.block_pos
  stage_whole := launch1.stage_whole
  K := PEmpty
  osem k := k.elim
  ho := Pipeline.OwnSemFacts.none _
  hbody c := (body_obligation1 (T5 m) c).loose
  hwaits := Pipeline.hwaits_of_owed_zero _ _ _ _ Lₙ lvₙ 1 fun _ _ => rfl
  pre c := iprop(StableHlo.held (c : Thread nD τ) (Pipeline.ucRefs τ sig) (U5 m c) ∗ Rest c)
  post c := iprop(StableHlo.held (c : Thread nD τ) (Pipeline.ucRefs τ sig) (U6 m c) ∗ Rest c)
  X c := iprop(∃ r, prngReg c r)
  Y c := iprop(∃ r, prngReg c r)
  Z c := Pipeline.unscopedRest (Ix := Unit) (Name := ℕ) (U := UR sig nD τ) (Lvl := ℕ) spec1 c (T5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T5 m c) (T6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the contents before it and after it: its arrays split out of the unscoped buffers and put back at
    the exit contents; the generator register into the region's invariant and out; nothing owed. -/
def reg2 : RegionSeg (pcfgs (F := F)) adm (pdats m) () defs₀ 𝒱ₙ Lₙ lvₙ 2 where
  win := launch2.win.to₀
  block_pos := launch2.block_pos
  stage_whole := launch2.stage_whole
  K := PEmpty
  osem k := k.elim
  ho := Pipeline.OwnSemFacts.none _
  hbody c := (body_obligation2 (T7 m) c).loose
  hwaits := Pipeline.hwaits_of_owed_zero _ _ _ _ Lₙ lvₙ 2 fun _ _ => rfl
  pre c := iprop(StableHlo.held (c : Thread nD τ) (Pipeline.ucRefs τ sig) (U7 m c) ∗ Rest c)
  post c := iprop(StableHlo.held (c : Thread nD τ) (Pipeline.ucRefs τ sig) (U8 m c) ∗ Rest c)
  X c := iprop(∃ r, prngReg c r)
  Y c := iprop(∃ r, prngReg c r)
  Z c := Pipeline.unscopedRest (Ix := Unit) (Name := ℕ) (U := UR sig nD τ) (Lvl := ℕ) spec2 c (T7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T7 m c) (T8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 between the contents before it and after it: its arrays split out of the unscoped buffers and put back at
    the exit contents; the generator register into the region's invariant and out; nothing owed. -/
def reg3 : RegionSeg (pcfgs (F := F)) adm (pdats m) () defs₀ 𝒱ₙ Lₙ lvₙ 3 where
  win := launch3.win.to₀
  block_pos := launch3.block_pos
  stage_whole := launch3.stage_whole
  K := PEmpty
  osem k := k.elim
  ho := Pipeline.OwnSemFacts.none _
  hbody c := (body_obligation3 (T9 m) c).loose
  hwaits := Pipeline.hwaits_of_owed_zero _ _ _ _ Lₙ lvₙ 3 fun _ _ => rfl
  pre c := iprop(StableHlo.held (c : Thread nD τ) (Pipeline.ucRefs τ sig) (U9 m c) ∗ Rest c)
  post c := iprop(StableHlo.held (c : Thread nD τ) (Pipeline.ucRefs τ sig) (U10 m c) ∗ Rest c)
  X c := iprop(∃ r, prngReg c r)
  Y c := iprop(∃ r, prngReg c r)
  Z c := Pipeline.unscopedRest (Ix := Unit) (Name := ℕ) (U := UR sig nD τ) (Lvl := ℕ) spec3 c (T9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T9 m c) (T10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 between the contents before it and after it: its arrays split out of the unscoped buffers and put back at
    the exit contents; the generator register into the region's invariant and out; nothing owed. -/
def reg4 : RegionSeg (pcfgs (F := F)) adm (pdats m) () defs₀ 𝒱ₙ Lₙ lvₙ 4 where
  win := launch4.win.to₀
  block_pos := launch4.block_pos
  stage_whole := launch4.stage_whole
  K := PEmpty
  osem k := k.elim
  ho := Pipeline.OwnSemFacts.none _
  hbody c := (body_obligation4 (T11 m) c).loose
  hwaits := Pipeline.hwaits_of_owed_zero _ _ _ _ Lₙ lvₙ 4 fun _ _ => rfl
  pre c := iprop(StableHlo.held (c : Thread nD τ) (Pipeline.ucRefs τ sig) (U11 m c) ∗ Rest c)
  post c := iprop(StableHlo.held (c : Thread nD τ) (Pipeline.ucRefs τ sig) (U12 m c) ∗ Rest c)
  X c := iprop(∃ r, prngReg c r)
  Y c := iprop(∃ r, prngReg c r)
  Z c := Pipeline.unscopedRest (Ix := Unit) (Name := ℕ) (U := UR sig nD τ) (Lvl := ℕ) spec4 c (T11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T11 m c) (T12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 between the contents before it and after it: its arrays split out of the unscoped buffers and put back at
    the exit contents; the generator register into the region's invariant and out; nothing owed. -/
def reg5 : RegionSeg (pcfgs (F := F)) adm (pdats m) () defs₀ 𝒱ₙ Lₙ lvₙ 5 where
  win := launch5.win.to₀
  block_pos := launch5.block_pos
  stage_whole := launch5.stage_whole
  K := PEmpty
  osem k := k.elim
  ho := Pipeline.OwnSemFacts.none _
  hbody c := (body_obligation5 (T13 m) c).loose
  hwaits := Pipeline.hwaits_of_owed_zero _ _ _ _ Lₙ lvₙ 5 fun _ _ => rfl
  pre c := iprop(StableHlo.held (c : Thread nD τ) (Pipeline.ucRefs τ sig) (U13 m c) ∗ Rest c)
  post c := iprop(StableHlo.held (c : Thread nD τ) (Pipeline.ucRefs τ sig) (U14 m c) ∗ Rest c)
  X c := iprop(∃ r, prngReg c r)
  Y c := iprop(∃ r, prngReg c r)
  Z c := Pipeline.unscopedRest (Ix := Unit) (Name := ℕ) (U := UR sig nD τ) (Lvl := ℕ) spec5 c (T13 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (T13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (T13 m c) (T14 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 between the contents before it and after it: its arrays split out of the unscoped buffers and put back at
    the exit contents; the generator register into the region's invariant and out; nothing owed. -/
def reg6 : RegionSeg (pcfgs (F := F)) adm (pdats m) () defs₀ 𝒱ₙ Lₙ lvₙ 6 where
  win := launch6.win.to₀
  block_pos := launch6.block_pos
  stage_whole := launch6.stage_whole
  K := PEmpty
  osem k := k.elim
  ho := Pipeline.OwnSemFacts.none _
  hbody c := (body_obligation6 (T15 m) c).loose
  hwaits := Pipeline.hwaits_of_owed_zero _ _ _ _ Lₙ lvₙ 6 fun _ _ => rfl
  pre c := iprop(StableHlo.held (c : Thread nD τ) (Pipeline.ucRefs τ sig) (U15 m c) ∗ Rest c)
  post c := iprop(StableHlo.held (c : Thread nD τ) (Pipeline.ucRefs τ sig) (U16 m c) ∗ Rest c)
  X c := iprop(∃ r, prngReg c r)
  Y c := iprop(∃ r, prngReg c r)
  Z c := Pipeline.unscopedRest (Ix := Unit) (Name := ℕ) (U := UR sig nD τ) (Lvl := ℕ) spec6 c (T15 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (T15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (T15 m c) (T16 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 between the contents before it and after it: its arrays split out of the unscoped buffers and put back at
    the exit contents; the generator register into the region's invariant and out; nothing owed. -/
def reg7 : RegionSeg (pcfgs (F := F)) adm (pdats m) () defs₀ 𝒱ₙ Lₙ lvₙ 7 where
  win := launch7.win.to₀
  block_pos := launch7.block_pos
  stage_whole := launch7.stage_whole
  K := PEmpty
  osem k := k.elim
  ho := Pipeline.OwnSemFacts.none _
  hbody c := (body_obligation7 (T19 m) c).loose
  hwaits := Pipeline.hwaits_of_owed_zero _ _ _ _ Lₙ lvₙ 7 fun _ _ => rfl
  pre c := iprop(StableHlo.held (c : Thread nD τ) (Pipeline.ucRefs τ sig) (U19 m c) ∗ Rest c)
  post c := iprop(StableHlo.held (c : Thread nD τ) (Pipeline.ucRefs τ sig) (U20 m c) ∗ Rest c)
  X c := iprop(∃ r, prngReg c r)
  Y c := iprop(∃ r, prngReg c r)
  Z c := Pipeline.unscopedRest (Ix := Unit) (Name := ℕ) (U := UR sig nD τ) (Lvl := ℕ) spec7 c (T19 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (T19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (T19 m c) (T20 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 between the contents before it and after it: its arrays split out of the unscoped buffers and put back at
    the exit contents; the generator register into the region's invariant and out; nothing owed. -/
def reg8 : RegionSeg (pcfgs (F := F)) adm (pdats m) () defs₀ 𝒱ₙ Lₙ lvₙ 8 where
  win := launch8.win.to₀
  block_pos := launch8.block_pos
  stage_whole := launch8.stage_whole
  K := PEmpty
  osem k := k.elim
  ho := Pipeline.OwnSemFacts.none _
  hbody c := (body_obligation8 (T21 m) c).loose
  hwaits := Pipeline.hwaits_of_owed_zero _ _ _ _ Lₙ lvₙ 8 fun _ _ => rfl
  pre c := iprop(StableHlo.held (c : Thread nD τ) (Pipeline.ucRefs τ sig) (U21 m c) ∗ Rest c)
  post c := iprop(StableHlo.held (c : Thread nD τ) (Pipeline.ucRefs τ sig) (U22 m c) ∗ Rest c)
  X c := iprop(∃ r, prngReg c r)
  Y c := iprop(∃ r, prngReg c r)
  Z c := Pipeline.unscopedRest (Ix := Unit) (Name := ℕ) (U := UR sig nD τ) (Lvl := ℕ) spec8 c (T21 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (T21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (T21 m c) (T22 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 between the contents before it and after it: its arrays split out of the unscoped buffers and put back at
    the exit contents; the generator register into the region's invariant and out; nothing owed. -/
def reg9 : RegionSeg (pcfgs (F := F)) adm (pdats m) () defs₀ 𝒱ₙ Lₙ lvₙ 9 where
  win := launch9.win.to₀
  block_pos := launch9.block_pos
  stage_whole := launch9.stage_whole
  K := PEmpty
  osem k := k.elim
  ho := Pipeline.OwnSemFacts.none _
  hbody c := (body_obligation9 (T23 m) c).loose
  hwaits := Pipeline.hwaits_of_owed_zero _ _ _ _ Lₙ lvₙ 9 fun _ _ => rfl
  pre c := iprop(StableHlo.held (c : Thread nD τ) (Pipeline.ucRefs τ sig) (U23 m c) ∗ Rest c)
  post c := iprop(StableHlo.held (c : Thread nD τ) (Pipeline.ucRefs τ sig) (U24 m c) ∗ Rest c)
  X c := iprop(∃ r, prngReg c r)
  Y c := iprop(∃ r, prngReg c r)
  Z c := Pipeline.unscopedRest (Ix := Unit) (Name := ℕ) (U := UR sig nD τ) (Lvl := ℕ) spec9 c (T23 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (T23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (T23 m c) (T24 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 between the contents before it and after it: its arrays split out of the unscoped buffers and put back at
    the exit contents; the generator register into the region's invariant and out; nothing owed. -/
def reg10 : RegionSeg (pcfgs (F := F)) adm (pdats m) () defs₀ 𝒱ₙ Lₙ lvₙ 10 where
  win := launch10.win.to₀
  block_pos := launch10.block_pos
  stage_whole := launch10.stage_whole
  K := PEmpty
  osem k := k.elim
  ho := Pipeline.OwnSemFacts.none _
  hbody c := (body_obligation10 (T25 m) c).loose
  hwaits := Pipeline.hwaits_of_owed_zero _ _ _ _ Lₙ lvₙ 10 fun _ _ => rfl
  pre c := iprop(StableHlo.held (c : Thread nD τ) (Pipeline.ucRefs τ sig) (U25 m c) ∗ Rest c)
  post c := iprop(StableHlo.held (c : Thread nD τ) (Pipeline.ucRefs τ sig) (U26 m c) ∗ Rest c)
  X c := iprop(∃ r, prngReg c r)
  Y c := iprop(∃ r, prngReg c r)
  Z c := Pipeline.unscopedRest (Ix := Unit) (Name := ℕ) (U := UR sig nD τ) (Lvl := ℕ) spec10 c (T25 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (T25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (T25 m c) (T26 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 between the contents before it and after it: its arrays split out of the unscoped buffers and put back at
    the exit contents; the generator register into the region's invariant and out; nothing owed. -/
def reg11 : RegionSeg (pcfgs (F := F)) adm (pdats m) () defs₀ 𝒱ₙ Lₙ lvₙ 11 where
  win := launch11.win.to₀
  block_pos := launch11.block_pos
  stage_whole := launch11.stage_whole
  K := PEmpty
  osem k := k.elim
  ho := Pipeline.OwnSemFacts.none _
  hbody c := (body_obligation11 (T27 m) c).loose
  hwaits := Pipeline.hwaits_of_owed_zero _ _ _ _ Lₙ lvₙ 11 fun _ _ => rfl
  pre c := iprop(StableHlo.held (c : Thread nD τ) (Pipeline.ucRefs τ sig) (U27 m c) ∗ Rest c)
  post c := iprop(StableHlo.held (c : Thread nD τ) (Pipeline.ucRefs τ sig) (U28 m c) ∗ Rest c)
  X c := iprop(∃ r, prngReg c r)
  Y c := iprop(∃ r, prngReg c r)
  Z c := Pipeline.unscopedRest (Ix := Unit) (Name := ℕ) (U := UR sig nD τ) (Lvl := ℕ) spec11 c (T27 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (T27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (T27 m c) (T28 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 between the contents before it and after it: its arrays split out of the unscoped buffers and put back at
    the exit contents; the generator register into the region's invariant and out; nothing owed. -/
def reg12 : RegionSeg (pcfgs (F := F)) adm (pdats m) () defs₀ 𝒱ₙ Lₙ lvₙ 12 where
  win := launch12.win.to₀
  block_pos := launch12.block_pos
  stage_whole := launch12.stage_whole
  K := PEmpty
  osem k := k.elim
  ho := Pipeline.OwnSemFacts.none _
  hbody c := (body_obligation12 (T29 m) c).loose
  hwaits := Pipeline.hwaits_of_owed_zero _ _ _ _ Lₙ lvₙ 12 fun _ _ => rfl
  pre c := iprop(StableHlo.held (c : Thread nD τ) (Pipeline.ucRefs τ sig) (U29 m c) ∗ Rest c)
  post c := iprop(StableHlo.held (c : Thread nD τ) (Pipeline.ucRefs τ sig) (U30 m c) ∗ Rest c)
  X c := iprop(∃ r, prngReg c r)
  Y c := iprop(∃ r, prngReg c r)
  Z c := Pipeline.unscopedRest (Ix := Unit) (Name := ℕ) (U := UR sig nD τ) (Lvl := ℕ) spec12 c (T29 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (T29 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (T29 m c) (T30 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 13 between the contents before it and after it: its arrays split out of the unscoped buffers and put back at
    the exit contents; the generator register into the region's invariant and out; nothing owed. -/
def reg13 : RegionSeg (pcfgs (F := F)) adm (pdats m) () defs₀ 𝒱ₙ Lₙ lvₙ 13 where
  win := launch13.win.to₀
  block_pos := launch13.block_pos
  stage_whole := launch13.stage_whole
  K := PEmpty
  osem k := k.elim
  ho := Pipeline.OwnSemFacts.none _
  hbody c := (body_obligation13 (T33 m) c).loose
  hwaits := Pipeline.hwaits_of_owed_zero _ _ _ _ Lₙ lvₙ 13 fun _ _ => rfl
  pre c := iprop(StableHlo.held (c : Thread nD τ) (Pipeline.ucRefs τ sig) (U33 m c) ∗ Rest c)
  post c := iprop(StableHlo.held (c : Thread nD τ) (Pipeline.ucRefs τ sig) (U34 m c) ∗ Rest c)
  X c := iprop(∃ r, prngReg c r)
  Y c := iprop(∃ r, prngReg c r)
  Z c := Pipeline.unscopedRest (Ix := Unit) (Name := ℕ) (U := UR sig nD τ) (Lvl := ℕ) spec13 c (T33 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (T33 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (T33 m c) (T34 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 14 between the contents before it and after it: its arrays split out of the unscoped buffers and put back at
    the exit contents; the generator register into the region's invariant and out; nothing owed. -/
def reg14 : RegionSeg (pcfgs (F := F)) adm (pdats m) () defs₀ 𝒱ₙ Lₙ lvₙ 14 where
  win := launch14.win.to₀
  block_pos := launch14.block_pos
  stage_whole := launch14.stage_whole
  K := PEmpty
  osem k := k.elim
  ho := Pipeline.OwnSemFacts.none _
  hbody c := (body_obligation14 (T35 m) c).loose
  hwaits := Pipeline.hwaits_of_owed_zero _ _ _ _ Lₙ lvₙ 14 fun _ _ => rfl
  pre c := iprop(StableHlo.held (c : Thread nD τ) (Pipeline.ucRefs τ sig) (U35 m c) ∗ Rest c)
  post c := iprop(StableHlo.held (c : Thread nD τ) (Pipeline.ucRefs τ sig) (U36 m c) ∗ Rest c)
  X c := iprop(∃ r, prngReg c r)
  Y c := iprop(∃ r, prngReg c r)
  Z c := Pipeline.unscopedRest (Ix := Unit) (Name := ℕ) (U := UR sig nD τ) (Lvl := ℕ) spec14 c (T35 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (T35 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (T35 m c) (T36 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 15 between the contents before it and after it: its arrays split out of the unscoped buffers and put back at
    the exit contents; the generator register into the region's invariant and out; nothing owed. -/
def reg15 : RegionSeg (pcfgs (F := F)) adm (pdats m) () defs₀ 𝒱ₙ Lₙ lvₙ 15 where
  win := launch15.win.to₀
  block_pos := launch15.block_pos
  stage_whole := launch15.stage_whole
  K := PEmpty
  osem k := k.elim
  ho := Pipeline.OwnSemFacts.none _
  hbody c := (body_obligation15 (T37 m) c).loose
  hwaits := Pipeline.hwaits_of_owed_zero _ _ _ _ Lₙ lvₙ 15 fun _ _ => rfl
  pre c := iprop(StableHlo.held (c : Thread nD τ) (Pipeline.ucRefs τ sig) (U37 m c) ∗ Rest c)
  post c := iprop(StableHlo.held (c : Thread nD τ) (Pipeline.ucRefs τ sig) (U38 m c) ∗ Rest c)
  X c := iprop(∃ r, prngReg c r)
  Y c := iprop(∃ r, prngReg c r)
  Z c := Pipeline.unscopedRest (Ix := Unit) (Name := ℕ) (U := UR sig nD τ) (Lvl := ℕ) spec15 c (T37 m c)
  hentry c := by
    rw [Pipeline.ownSems0_none]
    have hsplit := Pipeline.arrays_of_unscopedBufs (p := 15) (pcfgs (F := F)) adm (pdats m) launch15.win launch15.arr_whole c
      ((pdats m 15 c).share_full fun _ => rfl) (T37 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m) ((pdats m 15 c).share_full fun _ => rfl)
      (T37 m c) (T38 m c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 16 between the contents before it and after it: its arrays split out of the unscoped buffers and put back at
    the exit contents; the generator register into the region's invariant and out; nothing owed. -/
def reg16 : RegionSeg (pcfgs (F := F)) adm (pdats m) () defs₀ 𝒱ₙ Lₙ lvₙ 16 where
  win := launch16.win.to₀
  block_pos := launch16.block_pos
  stage_whole := launch16.stage_whole
  K := PEmpty
  osem k := k.elim
  ho := Pipeline.OwnSemFacts.none _
  hbody c := (body_obligation16 (T39 m) c).loose
  hwaits := Pipeline.hwaits_of_owed_zero _ _ _ _ Lₙ lvₙ 16 fun _ _ => rfl
  pre c := iprop(StableHlo.held (c : Thread nD τ) (Pipeline.ucRefs τ sig) (U39 m c) ∗ Rest c)
  post c := iprop(StableHlo.held (c : Thread nD τ) (Pipeline.ucRefs τ sig) (U40 m c) ∗ Rest c)
  X c := iprop(∃ r, prngReg c r)
  Y c := iprop(∃ r, prngReg c r)
  Z c := Pipeline.unscopedRest (Ix := Unit) (Name := ℕ) (U := UR sig nD τ) (Lvl := ℕ) spec16 c (T39 m c)
  hentry c := by
    rw [Pipeline.ownSems0_none]
    have hsplit := Pipeline.arrays_of_unscopedBufs (p := 16) (pcfgs (F := F)) adm (pdats m) launch16.win launch16.arr_whole c
      ((pdats m 16 c).share_full fun _ => rfl) (T39 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m) ((pdats m 16 c).share_full fun _ => rfl)
      (T39 m c) (T40 m c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side: the ghost state, the first rest state, the last -/

theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lₙ lvₙ)
    ⊢ (|={Set.univ}=> bigSep Finset.univ (fun c : Dev nD => Rest (F := F) c) : sProp 𝕄) := by
  refine Pipeline.initEach Lₙ lvₙ fun c => ?_
  iintro ⟨⟨-, HO, -, Hp, -⟩, -⟩
  imodintro
  isplitl [Hp]; · iexists _; iexact Hp
  iexists ∅; iexact HO

theorem hE17 (c : Dev nD) : Rest (F := F) c ⊢ (iprop(∃ W, owes (c : Thread nD τ) (0 : CellTallies nD τ sig Unit) W) : sProp 𝕄) := by
  iintro ⟨-, H⟩; iexact H

theorem hpre0 (c : Dev nD) : iprop(StableHlo.held (c : Thread nD τ) (Pipeline.ucRefs τ sig) (V1 m c) ∗ Rest (F := F) c) ⊢ (reg0 m).pre c := by
  rw [V1_eq]; exact .rfl
theorem hpost0 (c : Dev nD) : (reg0 m).post c ⊢ iprop(StableHlo.held (c : Thread nD τ) (Pipeline.ucRefs τ sig) (V2 m (outs m) c) ∗ Rest (F := F) c) := by
  rw [V2_eq]; exact .rfl
theorem hpre1 (c : Dev nD) : iprop(StableHlo.held (c : Thread nD τ) (Pipeline.ucRefs τ sig) (V5 m (outs m) c) ∗ Rest (F := F) c) ⊢ (reg1 m).pre c := by
  rw [V5_eq]; exact .rfl
theorem hpost1 (c : Dev nD) : (reg1 m).post c ⊢ iprop(StableHlo.held (c : Thread nD τ) (Pipeline.ucRefs τ sig) (V6 m (outs m) c) ∗ Rest (F := F) c) := by
  rw [V6_eq]; exact .rfl
theorem hpre2 (c : Dev nD) : iprop(StableHlo.held (c : Thread nD τ) (Pipeline.ucRefs τ sig) (V7 m (outs m) c) ∗ Rest (F := F) c) ⊢ (reg2 m).pre c := by
  rw [V7_eq]; exact .rfl
theorem hpost2 (c : Dev nD) : (reg2 m).post c ⊢ iprop(StableHlo.held (c : Thread nD τ) (Pipeline.ucRefs τ sig) (V8 m (outs m) c) ∗ Rest (F := F) c) := by
  rw [V8_eq]; exact .rfl
theorem hpre3 (c : Dev nD) : iprop(StableHlo.held (c : Thread nD τ) (Pipeline.ucRefs τ sig) (V9 m (outs m) c) ∗ Rest (F := F) c) ⊢ (reg3 m).pre c := by
  rw [V9_eq]; exact .rfl
theorem hpost3 (c : Dev nD) : (reg3 m).post c ⊢ iprop(StableHlo.held (c : Thread nD τ) (Pipeline.ucRefs τ sig) (V10 m (outs m) c) ∗ Rest (F := F) c) := by
  rw [V10_eq]; exact .rfl
theorem hpre4 (c : Dev nD) : iprop(StableHlo.held (c : Thread nD τ) (Pipeline.ucRefs τ sig) (V11 m (outs m) c) ∗ Rest (F := F) c) ⊢ (reg4 m).pre c := by
  rw [V11_eq]; exact .rfl
theorem hpost4 (c : Dev nD) : (reg4 m).post c ⊢ iprop(StableHlo.held (c : Thread nD τ) (Pipeline.ucRefs τ sig) (V12 m (outs m) c) ∗ Rest (F := F) c) := by
  rw [V12_eq]; exact .rfl
theorem hpre5 (c : Dev nD) : iprop(StableHlo.held (c : Thread nD τ) (Pipeline.ucRefs τ sig) (V13 m (outs m) c) ∗ Rest (F := F) c) ⊢ (reg5 m).pre c := by
  rw [V13_eq]; exact .rfl
theorem hpost5 (c : Dev nD) : (reg5 m).post c ⊢ iprop(StableHlo.held (c : Thread nD τ) (Pipeline.ucRefs τ sig) (V14 m (outs m) c) ∗ Rest (F := F) c) := by
  rw [V14_eq]; exact .rfl
theorem hpre6 (c : Dev nD) : iprop(StableHlo.held (c : Thread nD τ) (Pipeline.ucRefs τ sig) (V15 m (outs m) c) ∗ Rest (F := F) c) ⊢ (reg6 m).pre c := by
  rw [V15_eq]; exact .rfl
theorem hpost6 (c : Dev nD) : (reg6 m).post c ⊢ iprop(StableHlo.held (c : Thread nD τ) (Pipeline.ucRefs τ sig) (V16 m (outs m) c) ∗ Rest (F := F) c) := by
  rw [V16_eq]; exact .rfl
theorem hpre7 (c : Dev nD) : iprop(StableHlo.held (c : Thread nD τ) (Pipeline.ucRefs τ sig) (V19 m (outs m) c) ∗ Rest (F := F) c) ⊢ (reg7 m).pre c := by
  rw [V19_eq]; exact .rfl
theorem hpost7 (c : Dev nD) : (reg7 m).post c ⊢ iprop(StableHlo.held (c : Thread nD τ) (Pipeline.ucRefs τ sig) (V20 m (outs m) c) ∗ Rest (F := F) c) := by
  rw [V20_eq]; exact .rfl
theorem hpre8 (c : Dev nD) : iprop(StableHlo.held (c : Thread nD τ) (Pipeline.ucRefs τ sig) (V21 m (outs m) c) ∗ Rest (F := F) c) ⊢ (reg8 m).pre c := by
  rw [V21_eq]; exact .rfl
theorem hpost8 (c : Dev nD) : (reg8 m).post c ⊢ iprop(StableHlo.held (c : Thread nD τ) (Pipeline.ucRefs τ sig) (V22 m (outs m) c) ∗ Rest (F := F) c) := by
  rw [V22_eq]; exact .rfl
theorem hpre9 (c : Dev nD) : iprop(StableHlo.held (c : Thread nD τ) (Pipeline.ucRefs τ sig) (V23 m (outs m) c) ∗ Rest (F := F) c) ⊢ (reg9 m).pre c := by
  rw [V23_eq]; exact .rfl
theorem hpost9 (c : Dev nD) : (reg9 m).post c ⊢ iprop(StableHlo.held (c : Thread nD τ) (Pipeline.ucRefs τ sig) (V24 m (outs m) c) ∗ Rest (F := F) c) := by
  rw [V24_eq]; exact .rfl
theorem hpre10 (c : Dev nD) : iprop(StableHlo.held (c : Thread nD τ) (Pipeline.ucRefs τ sig) (V25 m (outs m) c) ∗ Rest (F := F) c) ⊢ (reg10 m).pre c := by
  rw [V25_eq]; exact .rfl
theorem hpost10 (c : Dev nD) : (reg10 m).post c ⊢ iprop(StableHlo.held (c : Thread nD τ) (Pipeline.ucRefs τ sig) (V26 m (outs m) c) ∗ Rest (F := F) c) := by
  rw [V26_eq]; exact .rfl
theorem hpre11 (c : Dev nD) : iprop(StableHlo.held (c : Thread nD τ) (Pipeline.ucRefs τ sig) (V27 m (outs m) c) ∗ Rest (F := F) c) ⊢ (reg11 m).pre c := by
  rw [V27_eq]; exact .rfl
theorem hpost11 (c : Dev nD) : (reg11 m).post c ⊢ iprop(StableHlo.held (c : Thread nD τ) (Pipeline.ucRefs τ sig) (V28 m (outs m) c) ∗ Rest (F := F) c) := by
  rw [V28_eq]; exact .rfl
theorem hpre12 (c : Dev nD) : iprop(StableHlo.held (c : Thread nD τ) (Pipeline.ucRefs τ sig) (V29 m (outs m) c) ∗ Rest (F := F) c) ⊢ (reg12 m).pre c := by
  rw [V29_eq]; exact .rfl
theorem hpost12 (c : Dev nD) : (reg12 m).post c ⊢ iprop(StableHlo.held (c : Thread nD τ) (Pipeline.ucRefs τ sig) (V30 m (outs m) c) ∗ Rest (F := F) c) := by
  rw [V30_eq]; exact .rfl
theorem hpre13 (c : Dev nD) : iprop(StableHlo.held (c : Thread nD τ) (Pipeline.ucRefs τ sig) (V33 m (outs m) c) ∗ Rest (F := F) c) ⊢ (reg13 m).pre c := by
  rw [V33_eq]; exact .rfl
theorem hpost13 (c : Dev nD) : (reg13 m).post c ⊢ iprop(StableHlo.held (c : Thread nD τ) (Pipeline.ucRefs τ sig) (V34 m (outs m) c) ∗ Rest (F := F) c) := by
  rw [V34_eq]; exact .rfl
theorem hpre14 (c : Dev nD) : iprop(StableHlo.held (c : Thread nD τ) (Pipeline.ucRefs τ sig) (V35 m (outs m) c) ∗ Rest (F := F) c) ⊢ (reg14 m).pre c := by
  rw [V35_eq]; exact .rfl
theorem hpost14 (c : Dev nD) : (reg14 m).post c ⊢ iprop(StableHlo.held (c : Thread nD τ) (Pipeline.ucRefs τ sig) (V36 m (outs m) c) ∗ Rest (F := F) c) := by
  rw [V36_eq]; exact .rfl
theorem hpre15 (c : Dev nD) : iprop(StableHlo.held (c : Thread nD τ) (Pipeline.ucRefs τ sig) (V37 m (outs m) c) ∗ Rest (F := F) c) ⊢ (reg15 m).pre c := by
  rw [V37_eq]; exact .rfl
theorem hpost15 (c : Dev nD) : (reg15 m).post c ⊢ iprop(StableHlo.held (c : Thread nD τ) (Pipeline.ucRefs τ sig) (V38 m (outs m) c) ∗ Rest (F := F) c) := by
  rw [V38_eq]; exact .rfl
theorem hpre16 (c : Dev nD) : iprop(StableHlo.held (c : Thread nD τ) (Pipeline.ucRefs τ sig) (V39 m (outs m) c) ∗ Rest (F := F) c) ⊢ (reg16 m).pre c := by
  rw [V39_eq]; exact .rfl
theorem hpost16 (c : Dev nD) : (reg16 m).post c ⊢ iprop(StableHlo.held (c : Thread nD τ) (Pipeline.ucRefs τ sig) (V40 m (outs m) c) ∗ Rest (F := F) c) := by
  rw [V40_eq]; exact .rfl

/-! ## The run and the frame -/

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The conditional run at this certificate's records: every unscoped buffer ends at the last valuation. -/
theorem runV : θ_run defs (onTc (τ := τ) (main (F := F))) ⟨m, fun _ => 0, ρ⟩ (fun r => ∀ c : Dev nD,
      ∀ b ∈ Pipeline.ucRefs τ sig, r.2.mem ((c : Thread nD τ).1, b) = V41 m (outs m) c b) :=
  run_cond (F := F) m emb₁ () 𝒱ₙ Lₙ lvₙ (fun _ _ => rfl) ρ (outs m) (pdats m) 0 (fun _ => (BI.emp : sProp 𝕄))
    (initOf (Pipeline.cells cfgs cellOf_inj) (Pipeline.launchToks cfgs cellOf_inj)) hu0 (fun _ c => Rest c) (hE0 ρ) hE17
    (reg0 m) (hpre0 m) (hpost0 m) (reg1 m) (hpre1 m) (hpost1 m) (reg2 m) (hpre2 m) (hpost2 m) (reg3 m) (hpre3 m) (hpost3 m) (reg4 m) (hpre4 m) (hpost4 m) (reg5 m) (hpre5 m) (hpost5 m) (reg6 m) (hpre6 m) (hpost6 m) (reg7 m) (hpre7 m) (hpost7 m) (reg8 m) (hpre8 m) (hpost8 m) (reg9 m) (hpre9 m) (hpost9 m) (reg10 m) (hpre10 m) (hpost10 m) (reg11 m) (hpre11 m) (hpost11 m) (reg12 m) (hpre12 m) (hpost12 m) (reg13 m) (hpre13 m) (hpost13 m) (reg14 m) (hpre14 m) (hpost14 m) (reg15 m) (hpre15 m) (hpost15 m) (reg16 m) (hpre16 m) (hpost16 m)

/-- Every weakly fair execution of @main from memory `m` with zero counters terminates, faults nowhere, and ends with
    every unscoped buffer of every core at the last contents `U41`. -/
theorem run : θ_run defs (onTc (τ := τ) (main (F := F))) ⟨m, fun _ => 0, ρ⟩ (fun r => ∀ c : Dev nD,
      ∀ b ∈ Pipeline.ucRefs τ sig, r.2.mem ((c : Thread nD τ).1, b) = U41 m c b) :=
  (θ_run defs _ _).mono (fun r h c b hb => (h c b hb).trans (by rw [V41_eq])) (runV m ρ)

/-- The frame: every argument array ends holding its launch contents (no item of @main writes an argument). -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)) :=
  (θ_run defs _ _).mono (fun r h c =>
    ⟨(h c _ (mem_uc main_arg0 (by decide))).trans (V41_main_arg0 m (outs m) c),
      (h c _ (mem_uc main_arg1 (by decide))).trans (V41_main_arg1 m (outs m) c),
      (h c _ (mem_uc main_arg2 (by decide))).trans (V41_main_arg2 m (outs m) c),
      (h c _ (mem_uc main_arg3 (by decide))).trans (V41_main_arg3 m (outs m) c),
      (h c _ (mem_uc main_arg4 (by decide))).trans (V41_main_arg4 m (outs m) c),
      (h c _ (mem_uc main_arg5 (by decide))).trans (V41_main_arg5 m (outs m) c),
      (h c _ (mem_uc main_arg6 (by decide))).trans (V41_main_arg6 m (outs m) c),
      (h c _ (mem_uc main_arg7 (by decide))).trans (V41_main_arg7 m (outs m) c),
      (h c _ (mem_uc main_arg8 (by decide))).trans (V41_main_arg8 m (outs m) c),
      (h c _ (mem_uc main_arg9 (by decide))).trans (V41_main_arg9 m (outs m) c),
      (h c _ (mem_uc main_arg10 (by decide))).trans (V41_main_arg10 m (outs m) c),
      (h c _ (mem_uc main_arg11 (by decide))).trans (V41_main_arg11 m (outs m) c),
      (h c _ (mem_uc main_arg12 (by decide))).trans (V41_main_arg12 m (outs m) c),
      (h c _ (mem_uc main_arg13 (by decide))).trans (V41_main_arg13 m (outs m) c),
      (h c _ (mem_uc main_arg14 (by decide))).trans (V41_main_arg14 m (outs m) c),
      (h c _ (mem_uc main_arg15 (by decide))).trans (V41_main_arg15 m (outs m) c),
      (h c _ (mem_uc main_arg16 (by decide))).trans (V41_main_arg16 m (outs m) c),
      (h c _ (mem_uc main_arg17 (by decide))).trans (V41_main_arg17 m (outs m) c),
      (h c _ (mem_uc main_arg18 (by decide))).trans (V41_main_arg18 m (outs m) c),
      (h c _ (mem_uc main_arg19 (by decide))).trans (V41_main_arg19 m (outs m) c),
      (h c _ (mem_uc main_arg20 (by decide))).trans (V41_main_arg20 m (outs m) c),
      (h c _ (mem_uc main_arg21 (by decide))).trans (V41_main_arg21 m (outs m) c),
      (h c _ (mem_uc main_arg22 (by decide))).trans (V41_main_arg22 m (outs m) c),
      (h c _ (mem_uc main_arg23 (by decide))).trans (V41_main_arg23 m (outs m) c),
      (h c _ (mem_uc main_arg24 (by decide))).trans (V41_main_arg24 m (outs m) c),
      (h c _ (mem_uc main_arg25 (by decide))).trans (V41_main_arg25 m (outs m) c),
      (h c _ (mem_uc main_arg26 (by decide))).trans (V41_main_arg26 m (outs m) c),
      (h c _ (mem_uc main_arg27 (by decide))).trans (V41_main_arg27 m (outs m) c),
      (h c _ (mem_uc main_arg28 (by decide))).trans (V41_main_arg28 m (outs m) c),
      (h c _ (mem_uc main_arg29 (by decide))).trans (V41_main_arg29 m (outs m) c),
      (h c _ (mem_uc main_arg30 (by decide))).trans (V41_main_arg30 m (outs m) c),
      (h c _ (mem_uc main_arg31 (by decide))).trans (V41_main_arg31 m (outs m) c),
      (h c _ (mem_uc main_arg32 (by decide))).trans (V41_main_arg32 m (outs m) c),
      (h c _ (mem_uc main_arg33 (by decide))).trans (V41_main_arg33 m (outs m) c),
      (h c _ (mem_uc main_arg34 (by decide))).trans (V41_main_arg34 m (outs m) c),
      (h c _ (mem_uc main_arg35 (by decide))).trans (V41_main_arg35 m (outs m) c),
      (h c _ (mem_uc main_arg36 (by decide))).trans (V41_main_arg36 m (outs m) c),
      (h c _ (mem_uc main_arg37 (by decide))).trans (V41_main_arg37 m (outs m) c)⟩) (runV m ρ)

end Cert.Kernel.Hand

end
-- ==== Proof.KI.Keep.lean ====
/- Which item of @main writes which buffer, and what follows: a buffer that no item after item J writes holds, at the end of
   the run, what it held right after item J. A host stretch writes the results of its operations; a region writes its
   output arrays. -/
import proofs.«147763_j11003706212366_2_alg».proof.Proof.KI.Regs

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-! ## One item -/

theorem step0 (c : Dev nD) (r : Ref sig .tc) (h : r ∉ hostOps0_W) : U1 m c r = U0 m c r :=
  StableHlo.after_of_writes_sub hostOps0 _ hostOps0_writes h
theorem step1 (c : Dev nD) (r : Ref sig .tc) (h : r ∉ ([main_v15] : List (Ref sig .tc))) : U2 m c r = U1 m c r := by
  unfold U2
  rw [Function.update_of_ne (StableHlo.devRef_ne_of_ne (List.ne_of_not_mem_cons h) : (Proc.devRef .tc r : DevRef τ sig) ≠ Proc.devRef .tc main_v15)]
theorem step2 (c : Dev nD) (r : Ref sig .tc) (h : r ∉ hostOps1_W) : U3 m c r = U2 m c r :=
  StableHlo.after_of_writes_sub hostOps1 _ hostOps1_writes h
theorem step3 (c : Dev nD) (r : Ref sig .tc) (h : r ∉ hostOps1_1_W) : U4 m c r = U3 m c r :=
  StableHlo.after_of_writes_sub hostOps1_1 _ hostOps1_1_writes h
theorem step4 (c : Dev nD) (r : Ref sig .tc) (h : r ∉ hostOps1_2_W) : U5 m c r = U4 m c r :=
  StableHlo.after_of_writes_sub hostOps1_2 _ hostOps1_2_writes h
theorem step5 (c : Dev nD) (r : Ref sig .tc) (h : r ∉ ([main_v37] : List (Ref sig .tc))) : U6 m c r = U5 m c r := by
  unfold U6
  rw [Function.update_of_ne (StableHlo.devRef_ne_of_ne (List.ne_of_not_mem_cons h) : (Proc.devRef .tc r : DevRef τ sig) ≠ Proc.devRef .tc main_v37)]
theorem step6 (c : Dev nD) (r : Ref sig .tc) (h : r ∉ hostOps2_W) : U7 m c r = U6 m c r :=
  StableHlo.after_of_writes_sub hostOps2 _ hostOps2_writes h
theorem step7 (c : Dev nD) (r : Ref sig .tc) (h : r ∉ ([main_v86_0, main_v86_1] : List (Ref sig .tc))) : U8 m c r = U7 m c r := by
  unfold U8
  rw [Function.update_of_ne (StableHlo.devRef_ne_of_ne (List.ne_of_not_mem_cons (List.not_mem_of_not_mem_cons h)) : (Proc.devRef .tc r : DevRef τ sig) ≠ Proc.devRef .tc main_v86_1),
    Function.update_of_ne (StableHlo.devRef_ne_of_ne (List.ne_of_not_mem_cons h) : (Proc.devRef .tc r : DevRef τ sig) ≠ Proc.devRef .tc main_v86_0)]
theorem step8 (c : Dev nD) (r : Ref sig .tc) (h : r ∉ hostOps3_W) : U9 m c r = U8 m c r :=
  StableHlo.after_of_writes_sub hostOps3 _ hostOps3_writes h
theorem step9 (c : Dev nD) (r : Ref sig .tc) (h : r ∉ ([main_v120] : List (Ref sig .tc))) : U10 m c r = U9 m c r := by
  unfold U10
  rw [Function.update_of_ne (StableHlo.devRef_ne_of_ne (List.ne_of_not_mem_cons h) : (Proc.devRef .tc r : DevRef τ sig) ≠ Proc.devRef .tc main_v120)]
theorem step10 (c : Dev nD) (r : Ref sig .tc) (h : r ∉ hostOps4_W) : U11 m c r = U10 m c r :=
  StableHlo.after_of_writes_sub hostOps4 _ hostOps4_writes h
theorem step11 (c : Dev nD) (r : Ref sig .tc) (h : r ∉ ([main_v147] : List (Ref sig .tc))) : U12 m c r = U11 m c r := by
  unfold U12
  rw [Function.update_of_ne (StableHlo.devRef_ne_of_ne (List.ne_of_not_mem_cons h) : (Proc.devRef .tc r : DevRef τ sig) ≠ Proc.devRef .tc main_v147)]
theorem step12 (c : Dev nD) (r : Ref sig .tc) (h : r ∉ hostOps5_W) : U13 m c r = U12 m c r :=
  StableHlo.after_of_writes_sub hostOps5 _ hostOps5_writes h
theorem step13 (c : Dev nD) (r : Ref sig .tc) (h : r ∉ ([main_v155] : List (Ref sig .tc))) : U14 m c r = U13 m c r := by
  unfold U14
  rw [Function.update_of_ne (StableHlo.devRef_ne_of_ne (List.ne_of_not_mem_cons h) : (Proc.devRef .tc r : DevRef τ sig) ≠ Proc.devRef .tc main_v155)]
theorem step14 (c : Dev nD) (r : Ref sig .tc) (h : r ∉ hostOps6_W) : U15 m c r = U14 m c r :=
  StableHlo.after_of_writes_sub hostOps6 _ hostOps6_writes h
theorem step15 (c : Dev nD) (r : Ref sig .tc) (h : r ∉ ([main_v174] : List (Ref sig .tc))) : U16 m c r = U15 m c r := by
  unfold U16
  rw [Function.update_of_ne (StableHlo.devRef_ne_of_ne (List.ne_of_not_mem_cons h) : (Proc.devRef .tc r : DevRef τ sig) ≠ Proc.devRef .tc main_v174)]
theorem step16 (c : Dev nD) (r : Ref sig .tc) (h : r ∉ hostOps7_W) : U17 m c r = U16 m c r :=
  StableHlo.after_of_writes_sub hostOps7 _ hostOps7_writes h
theorem step17 (c : Dev nD) (r : Ref sig .tc) (h : r ∉ hostOps7_1_W) : U18 m c r = U17 m c r :=
  StableHlo.after_of_writes_sub hostOps7_1 _ hostOps7_1_writes h
theorem step18 (c : Dev nD) (r : Ref sig .tc) (h : r ∉ hostOps7_2_W) : U19 m c r = U18 m c r :=
  StableHlo.after_of_writes_sub hostOps7_2 _ hostOps7_2_writes h
theorem step19 (c : Dev nD) (r : Ref sig .tc) (h : r ∉ ([main_v196] : List (Ref sig .tc))) : U20 m c r = U19 m c r := by
  unfold U20
  rw [Function.update_of_ne (StableHlo.devRef_ne_of_ne (List.ne_of_not_mem_cons h) : (Proc.devRef .tc r : DevRef τ sig) ≠ Proc.devRef .tc main_v196)]
theorem step20 (c : Dev nD) (r : Ref sig .tc) (h : r ∉ hostOps8_W) : U21 m c r = U20 m c r :=
  StableHlo.after_of_writes_sub hostOps8 _ hostOps8_writes h
theorem step21 (c : Dev nD) (r : Ref sig .tc) (h : r ∉ ([main_v245_0, main_v245_1] : List (Ref sig .tc))) : U22 m c r = U21 m c r := by
  unfold U22
  rw [Function.update_of_ne (StableHlo.devRef_ne_of_ne (List.ne_of_not_mem_cons (List.not_mem_of_not_mem_cons h)) : (Proc.devRef .tc r : DevRef τ sig) ≠ Proc.devRef .tc main_v245_1),
    Function.update_of_ne (StableHlo.devRef_ne_of_ne (List.ne_of_not_mem_cons h) : (Proc.devRef .tc r : DevRef τ sig) ≠ Proc.devRef .tc main_v245_0)]
theorem step22 (c : Dev nD) (r : Ref sig .tc) (h : r ∉ hostOps9_W) : U23 m c r = U22 m c r :=
  StableHlo.after_of_writes_sub hostOps9 _ hostOps9_writes h
theorem step23 (c : Dev nD) (r : Ref sig .tc) (h : r ∉ ([main_v279] : List (Ref sig .tc))) : U24 m c r = U23 m c r := by
  unfold U24
  rw [Function.update_of_ne (StableHlo.devRef_ne_of_ne (List.ne_of_not_mem_cons h) : (Proc.devRef .tc r : DevRef τ sig) ≠ Proc.devRef .tc main_v279)]
theorem step24 (c : Dev nD) (r : Ref sig .tc) (h : r ∉ hostOps10_W) : U25 m c r = U24 m c r :=
  StableHlo.after_of_writes_sub hostOps10 _ hostOps10_writes h
theorem step25 (c : Dev nD) (r : Ref sig .tc) (h : r ∉ ([main_v306] : List (Ref sig .tc))) : U26 m c r = U25 m c r := by
  unfold U26
  rw [Function.update_of_ne (StableHlo.devRef_ne_of_ne (List.ne_of_not_mem_cons h) : (Proc.devRef .tc r : DevRef τ sig) ≠ Proc.devRef .tc main_v306)]
theorem step26 (c : Dev nD) (r : Ref sig .tc) (h : r ∉ hostOps11_W) : U27 m c r = U26 m c r :=
  StableHlo.after_of_writes_sub hostOps11 _ hostOps11_writes h
theorem step27 (c : Dev nD) (r : Ref sig .tc) (h : r ∉ ([main_v314] : List (Ref sig .tc))) : U28 m c r = U27 m c r := by
  unfold U28
  rw [Function.update_of_ne (StableHlo.devRef_ne_of_ne (List.ne_of_not_mem_cons h) : (Proc.devRef .tc r : DevRef τ sig) ≠ Proc.devRef .tc main_v314)]
theorem step28 (c : Dev nD) (r : Ref sig .tc) (h : r ∉ hostOps12_W) : U29 m c r = U28 m c r :=
  StableHlo.after_of_writes_sub hostOps12 _ hostOps12_writes h
theorem step29 (c : Dev nD) (r : Ref sig .tc) (h : r ∉ ([main_v333] : List (Ref sig .tc))) : U30 m c r = U29 m c r := by
  unfold U30
  rw [Function.update_of_ne (StableHlo.devRef_ne_of_ne (List.ne_of_not_mem_cons h) : (Proc.devRef .tc r : DevRef τ sig) ≠ Proc.devRef .tc main_v333)]
theorem step30 (c : Dev nD) (r : Ref sig .tc) (h : r ∉ hostOps13_W) : U31 m c r = U30 m c r :=
  StableHlo.after_of_writes_sub hostOps13 _ hostOps13_writes h
theorem step31 (c : Dev nD) (r : Ref sig .tc) (h : r ∉ hostOps13_1_W) : U32 m c r = U31 m c r :=
  StableHlo.after_of_writes_sub hostOps13_1 _ hostOps13_1_writes h
theorem step32 (c : Dev nD) (r : Ref sig .tc) (h : r ∉ hostOps13_2_W) : U33 m c r = U32 m c r :=
  StableHlo.after_of_writes_sub hostOps13_2 _ hostOps13_2_writes h
theorem step33 (c : Dev nD) (r : Ref sig .tc) (h : r ∉ ([main_v355] : List (Ref sig .tc))) : U34 m c r = U33 m c r := by
  unfold U34
  rw [Function.update_of_ne (StableHlo.devRef_ne_of_ne (List.ne_of_not_mem_cons h) : (Proc.devRef .tc r : DevRef τ sig) ≠ Proc.devRef .tc main_v355)]
theorem step34 (c : Dev nD) (r : Ref sig .tc) (h : r ∉ hostOps14_W) : U35 m c r = U34 m c r :=
  StableHlo.after_of_writes_sub hostOps14 _ hostOps14_writes h
theorem step35 (c : Dev nD) (r : Ref sig .tc) (h : r ∉ ([main_v404_0, main_v404_1] : List (Ref sig .tc))) : U36 m c r = U35 m c r := by
  unfold U36
  rw [Function.update_of_ne (StableHlo.devRef_ne_of_ne (List.ne_of_not_mem_cons (List.not_mem_of_not_mem_cons h)) : (Proc.devRef .tc r : DevRef τ sig) ≠ Proc.devRef .tc main_v404_1),
    Function.update_of_ne (StableHlo.devRef_ne_of_ne (List.ne_of_not_mem_cons h) : (Proc.devRef .tc r : DevRef τ sig) ≠ Proc.devRef .tc main_v404_0)]
theorem step36 (c : Dev nD) (r : Ref sig .tc) (h : r ∉ hostOps15_W) : U37 m c r = U36 m c r :=
  StableHlo.after_of_writes_sub hostOps15 _ hostOps15_writes h
theorem step37 (c : Dev nD) (r : Ref sig .tc) (h : r ∉ ([main_v438] : List (Ref sig .tc))) : U38 m c r = U37 m c r := by
  unfold U38
  rw [Function.update_of_ne (StableHlo.devRef_ne_of_ne (List.ne_of_not_mem_cons h) : (Proc.devRef .tc r : DevRef τ sig) ≠ Proc.devRef .tc main_v438)]
theorem step38 (c : Dev nD) (r : Ref sig .tc) (h : r ∉ hostOps16_W) : U39 m c r = U38 m c r :=
  StableHlo.after_of_writes_sub hostOps16 _ hostOps16_writes h
theorem step39 (c : Dev nD) (r : Ref sig .tc) (h : r ∉ ([main_v446] : List (Ref sig .tc))) : U40 m c r = U39 m c r := by
  unfold U40
  rw [Function.update_of_ne (StableHlo.devRef_ne_of_ne (List.ne_of_not_mem_cons h) : (Proc.devRef .tc r : DevRef τ sig) ≠ Proc.devRef .tc main_v446)]
theorem step40 (c : Dev nD) (r : Ref sig .tc) (h : r ∉ hostOps17_W) : U41 m c r = U40 m c r :=
  StableHlo.after_of_writes_sub hostOps17 _ hostOps17_writes h

/-! ## From an item to the end -/

/-- What the items after item 40 write: nothing. -/
abbrev later40 : List (Ref sig .tc) := []
theorem keep40 (c : Dev nD) (r : Ref sig .tc) (_h : r ∉ later40) : U41 m c r = U41 m c r := rfl
/-- What the items after item 39 write. -/
abbrev later39 : List (Ref sig .tc) := hostOps17_W ++ later40
theorem keep39 (c : Dev nD) (r : Ref sig .tc) (h : r ∉ later39) : U41 m c r = U40 m c r :=
  have h2 := not_or.mp (List.mem_append.not.mp h)
  (keep40 m c r h2.2).trans (step40 m c r h2.1)
/-- What the items after item 38 write. -/
abbrev later38 : List (Ref sig .tc) := ([main_v446] : List (Ref sig .tc)) ++ later39
theorem keep38 (c : Dev nD) (r : Ref sig .tc) (h : r ∉ later38) : U41 m c r = U39 m c r :=
  have h2 := not_or.mp (List.mem_append.not.mp h)
  (keep39 m c r h2.2).trans (step39 m c r h2.1)
/-- What the items after item 37 write. -/
abbrev later37 : List (Ref sig .tc) := hostOps16_W ++ later38
theorem keep37 (c : Dev nD) (r : Ref sig .tc) (h : r ∉ later37) : U41 m c r = U38 m c r :=
  have h2 := not_or.mp (List.mem_append.not.mp h)
  (keep38 m c r h2.2).trans (step38 m c r h2.1)
/-- What the items after item 36 write. -/
abbrev later36 : List (Ref sig .tc) := ([main_v438] : List (Ref sig .tc)) ++ later37
theorem keep36 (c : Dev nD) (r : Ref sig .tc) (h : r ∉ later36) : U41 m c r = U37 m c r :=
  have h2 := not_or.mp (List.mem_append.not.mp h)
  (keep37 m c r h2.2).trans (step37 m c r h2.1)
/-- What the items after item 35 write. -/
abbrev later35 : List (Ref sig .tc) := hostOps15_W ++ later36
theorem keep35 (c : Dev nD) (r : Ref sig .tc) (h : r ∉ later35) : U41 m c r = U36 m c r :=
  have h2 := not_or.mp (List.mem_append.not.mp h)
  (keep36 m c r h2.2).trans (step36 m c r h2.1)
/-- What the items after item 34 write. -/
abbrev later34 : List (Ref sig .tc) := ([main_v404_0, main_v404_1] : List (Ref sig .tc)) ++ later35
theorem keep34 (c : Dev nD) (r : Ref sig .tc) (h : r ∉ later34) : U41 m c r = U35 m c r :=
  have h2 := not_or.mp (List.mem_append.not.mp h)
  (keep35 m c r h2.2).trans (step35 m c r h2.1)
/-- What the items after item 33 write. -/
abbrev later33 : List (Ref sig .tc) := hostOps14_W ++ later34
theorem keep33 (c : Dev nD) (r : Ref sig .tc) (h : r ∉ later33) : U41 m c r = U34 m c r :=
  have h2 := not_or.mp (List.mem_append.not.mp h)
  (keep34 m c r h2.2).trans (step34 m c r h2.1)
/-- What the items after item 32 write. -/
abbrev later32 : List (Ref sig .tc) := ([main_v355] : List (Ref sig .tc)) ++ later33
theorem keep32 (c : Dev nD) (r : Ref sig .tc) (h : r ∉ later32) : U41 m c r = U33 m c r :=
  have h2 := not_or.mp (List.mem_append.not.mp h)
  (keep33 m c r h2.2).trans (step33 m c r h2.1)
/-- What the items after item 31 write. -/
abbrev later31 : List (Ref sig .tc) := hostOps13_2_W ++ later32
theorem keep31 (c : Dev nD) (r : Ref sig .tc) (h : r ∉ later31) : U41 m c r = U32 m c r :=
  have h2 := not_or.mp (List.mem_append.not.mp h)
  (keep32 m c r h2.2).trans (step32 m c r h2.1)
/-- What the items after item 30 write. -/
abbrev later30 : List (Ref sig .tc) := hostOps13_1_W ++ later31
theorem keep30 (c : Dev nD) (r : Ref sig .tc) (h : r ∉ later30) : U41 m c r = U31 m c r :=
  have h2 := not_or.mp (List.mem_append.not.mp h)
  (keep31 m c r h2.2).trans (step31 m c r h2.1)
/-- What the items after item 29 write. -/
abbrev later29 : List (Ref sig .tc) := hostOps13_W ++ later30
theorem keep29 (c : Dev nD) (r : Ref sig .tc) (h : r ∉ later29) : U41 m c r = U30 m c r :=
  have h2 := not_or.mp (List.mem_append.not.mp h)
  (keep30 m c r h2.2).trans (step30 m c r h2.1)
/-- What the items after item 28 write. -/
abbrev later28 : List (Ref sig .tc) := ([main_v333] : List (Ref sig .tc)) ++ later29
theorem keep28 (c : Dev nD) (r : Ref sig .tc) (h : r ∉ later28) : U41 m c r = U29 m c r :=
  have h2 := not_or.mp (List.mem_append.not.mp h)
  (keep29 m c r h2.2).trans (step29 m c r h2.1)
/-- What the items after item 27 write. -/
abbrev later27 : List (Ref sig .tc) := hostOps12_W ++ later28
theorem keep27 (c : Dev nD) (r : Ref sig .tc) (h : r ∉ later27) : U41 m c r = U28 m c r :=
  have h2 := not_or.mp (List.mem_append.not.mp h)
  (keep28 m c r h2.2).trans (step28 m c r h2.1)
/-- What the items after item 26 write. -/
abbrev later26 : List (Ref sig .tc) := ([main_v314] : List (Ref sig .tc)) ++ later27
theorem keep26 (c : Dev nD) (r : Ref sig .tc) (h : r ∉ later26) : U41 m c r = U27 m c r :=
  have h2 := not_or.mp (List.mem_append.not.mp h)
  (keep27 m c r h2.2).trans (step27 m c r h2.1)
/-- What the items after item 25 write. -/
abbrev later25 : List (Ref sig .tc) := hostOps11_W ++ later26
theorem keep25 (c : Dev nD) (r : Ref sig .tc) (h : r ∉ later25) : U41 m c r = U26 m c r :=
  have h2 := not_or.mp (List.mem_append.not.mp h)
  (keep26 m c r h2.2).trans (step26 m c r h2.1)
/-- What the items after item 24 write. -/
abbrev later24 : List (Ref sig .tc) := ([main_v306] : List (Ref sig .tc)) ++ later25
theorem keep24 (c : Dev nD) (r : Ref sig .tc) (h : r ∉ later24) : U41 m c r = U25 m c r :=
  have h2 := not_or.mp (List.mem_append.not.mp h)
  (keep25 m c r h2.2).trans (step25 m c r h2.1)
/-- What the items after item 23 write. -/
abbrev later23 : List (Ref sig .tc) := hostOps10_W ++ later24
theorem keep23 (c : Dev nD) (r : Ref sig .tc) (h : r ∉ later23) : U41 m c r = U24 m c r :=
  have h2 := not_or.mp (List.mem_append.not.mp h)
  (keep24 m c r h2.2).trans (step24 m c r h2.1)
/-- What the items after item 22 write. -/
abbrev later22 : List (Ref sig .tc) := ([main_v279] : List (Ref sig .tc)) ++ later23
theorem keep22 (c : Dev nD) (r : Ref sig .tc) (h : r ∉ later22) : U41 m c r = U23 m c r :=
  have h2 := not_or.mp (List.mem_append.not.mp h)
  (keep23 m c r h2.2).trans (step23 m c r h2.1)
/-- What the items after item 21 write. -/
abbrev later21 : List (Ref sig .tc) := hostOps9_W ++ later22
theorem keep21 (c : Dev nD) (r : Ref sig .tc) (h : r ∉ later21) : U41 m c r = U22 m c r :=
  have h2 := not_or.mp (List.mem_append.not.mp h)
  (keep22 m c r h2.2).trans (step22 m c r h2.1)
/-- What the items after item 20 write. -/
abbrev later20 : List (Ref sig .tc) := ([main_v245_0, main_v245_1] : List (Ref sig .tc)) ++ later21
theorem keep20 (c : Dev nD) (r : Ref sig .tc) (h : r ∉ later20) : U41 m c r = U21 m c r :=
  have h2 := not_or.mp (List.mem_append.not.mp h)
  (keep21 m c r h2.2).trans (step21 m c r h2.1)
/-- What the items after item 19 write. -/
abbrev later19 : List (Ref sig .tc) := hostOps8_W ++ later20
theorem keep19 (c : Dev nD) (r : Ref sig .tc) (h : r ∉ later19) : U41 m c r = U20 m c r :=
  have h2 := not_or.mp (List.mem_append.not.mp h)
  (keep20 m c r h2.2).trans (step20 m c r h2.1)
/-- What the items after item 18 write. -/
abbrev later18 : List (Ref sig .tc) := ([main_v196] : List (Ref sig .tc)) ++ later19
theorem keep18 (c : Dev nD) (r : Ref sig .tc) (h : r ∉ later18) : U41 m c r = U19 m c r :=
  have h2 := not_or.mp (List.mem_append.not.mp h)
  (keep19 m c r h2.2).trans (step19 m c r h2.1)
/-- What the items after item 17 write. -/
abbrev later17 : List (Ref sig .tc) := hostOps7_2_W ++ later18
theorem keep17 (c : Dev nD) (r : Ref sig .tc) (h : r ∉ later17) : U41 m c r = U18 m c r :=
  have h2 := not_or.mp (List.mem_append.not.mp h)
  (keep18 m c r h2.2).trans (step18 m c r h2.1)
/-- What the items after item 16 write. -/
abbrev later16 : List (Ref sig .tc) := hostOps7_1_W ++ later17
theorem keep16 (c : Dev nD) (r : Ref sig .tc) (h : r ∉ later16) : U41 m c r = U17 m c r :=
  have h2 := not_or.mp (List.mem_append.not.mp h)
  (keep17 m c r h2.2).trans (step17 m c r h2.1)
/-- What the items after item 15 write. -/
abbrev later15 : List (Ref sig .tc) := hostOps7_W ++ later16
theorem keep15 (c : Dev nD) (r : Ref sig .tc) (h : r ∉ later15) : U41 m c r = U16 m c r :=
  have h2 := not_or.mp (List.mem_append.not.mp h)
  (keep16 m c r h2.2).trans (step16 m c r h2.1)
/-- What the items after item 14 write. -/
abbrev later14 : List (Ref sig .tc) := ([main_v174] : List (Ref sig .tc)) ++ later15
theorem keep14 (c : Dev nD) (r : Ref sig .tc) (h : r ∉ later14) : U41 m c r = U15 m c r :=
  have h2 := not_or.mp (List.mem_append.not.mp h)
  (keep15 m c r h2.2).trans (step15 m c r h2.1)
/-- What the items after item 13 write. -/
abbrev later13 : List (Ref sig .tc) := hostOps6_W ++ later14
theorem keep13 (c : Dev nD) (r : Ref sig .tc) (h : r ∉ later13) : U41 m c r = U14 m c r :=
  have h2 := not_or.mp (List.mem_append.not.mp h)
  (keep14 m c r h2.2).trans (step14 m c r h2.1)
/-- What the items after item 12 write. -/
abbrev later12 : List (Ref sig .tc) := ([main_v155] : List (Ref sig .tc)) ++ later13
theorem keep12 (c : Dev nD) (r : Ref sig .tc) (h : r ∉ later12) : U41 m c r = U13 m c r :=
  have h2 := not_or.mp (List.mem_append.not.mp h)
  (keep13 m c r h2.2).trans (step13 m c r h2.1)
/-- What the items after item 11 write. -/
abbrev later11 : List (Ref sig .tc) := hostOps5_W ++ later12
theorem keep11 (c : Dev nD) (r : Ref sig .tc) (h : r ∉ later11) : U41 m c r = U12 m c r :=
  have h2 := not_or.mp (List.mem_append.not.mp h)
  (keep12 m c r h2.2).trans (step12 m c r h2.1)
/-- What the items after item 10 write. -/
abbrev later10 : List (Ref sig .tc) := ([main_v147] : List (Ref sig .tc)) ++ later11
theorem keep10 (c : Dev nD) (r : Ref sig .tc) (h : r ∉ later10) : U41 m c r = U11 m c r :=
  have h2 := not_or.mp (List.mem_append.not.mp h)
  (keep11 m c r h2.2).trans (step11 m c r h2.1)
/-- What the items after item 9 write. -/
abbrev later9 : List (Ref sig .tc) := hostOps4_W ++ later10
theorem keep9 (c : Dev nD) (r : Ref sig .tc) (h : r ∉ later9) : U41 m c r = U10 m c r :=
  have h2 := not_or.mp (List.mem_append.not.mp h)
  (keep10 m c r h2.2).trans (step10 m c r h2.1)
/-- What the items after item 8 write. -/
abbrev later8 : List (Ref sig .tc) := ([main_v120] : List (Ref sig .tc)) ++ later9
theorem keep8 (c : Dev nD) (r : Ref sig .tc) (h : r ∉ later8) : U41 m c r = U9 m c r :=
  have h2 := not_or.mp (List.mem_append.not.mp h)
  (keep9 m c r h2.2).trans (step9 m c r h2.1)
/-- What the items after item 7 write. -/
abbrev later7 : List (Ref sig .tc) := hostOps3_W ++ later8
theorem keep7 (c : Dev nD) (r : Ref sig .tc) (h : r ∉ later7) : U41 m c r = U8 m c r :=
  have h2 := not_or.mp (List.mem_append.not.mp h)
  (keep8 m c r h2.2).trans (step8 m c r h2.1)
/-- What the items after item 6 write. -/
abbrev later6 : List (Ref sig .tc) := ([main_v86_0, main_v86_1] : List (Ref sig .tc)) ++ later7
theorem keep6 (c : Dev nD) (r : Ref sig .tc) (h : r ∉ later6) : U41 m c r = U7 m c r :=
  have h2 := not_or.mp (List.mem_append.not.mp h)
  (keep7 m c r h2.2).trans (step7 m c r h2.1)
/-- What the items after item 5 write. -/
abbrev later5 : List (Ref sig .tc) := hostOps2_W ++ later6
theorem keep5 (c : Dev nD) (r : Ref sig .tc) (h : r ∉ later5) : U41 m c r = U6 m c r :=
  have h2 := not_or.mp (List.mem_append.not.mp h)
  (keep6 m c r h2.2).trans (step6 m c r h2.1)
/-- What the items after item 4 write. -/
abbrev later4 : List (Ref sig .tc) := ([main_v37] : List (Ref sig .tc)) ++ later5
theorem keep4 (c : Dev nD) (r : Ref sig .tc) (h : r ∉ later4) : U41 m c r = U5 m c r :=
  have h2 := not_or.mp (List.mem_append.not.mp h)
  (keep5 m c r h2.2).trans (step5 m c r h2.1)
/-- What the items after item 3 write. -/
abbrev later3 : List (Ref sig .tc) := hostOps1_2_W ++ later4
theorem keep3 (c : Dev nD) (r : Ref sig .tc) (h : r ∉ later3) : U41 m c r = U4 m c r :=
  have h2 := not_or.mp (List.mem_append.not.mp h)
  (keep4 m c r h2.2).trans (step4 m c r h2.1)
/-- What the items after item 2 write. -/
abbrev later2 : List (Ref sig .tc) := hostOps1_1_W ++ later3
theorem keep2 (c : Dev nD) (r : Ref sig .tc) (h : r ∉ later2) : U41 m c r = U3 m c r :=
  have h2 := not_or.mp (List.mem_append.not.mp h)
  (keep3 m c r h2.2).trans (step3 m c r h2.1)
/-- What the items after item 1 write. -/
abbrev later1 : List (Ref sig .tc) := hostOps1_W ++ later2
theorem keep1 (c : Dev nD) (r : Ref sig .tc) (h : r ∉ later1) : U41 m c r = U2 m c r :=
  have h2 := not_or.mp (List.mem_append.not.mp h)
  (keep2 m c r h2.2).trans (step2 m c r h2.1)
/-- What the items after item 0 write. -/
abbrev later0 : List (Ref sig .tc) := ([main_v15] : List (Ref sig .tc)) ++ later1
theorem keep0 (c : Dev nD) (r : Ref sig .tc) (h : r ∉ later0) : U41 m c r = U1 m c r :=
  have h2 := not_or.mp (List.mem_append.not.mp h)
  (keep1 m c r h2.2).trans (step1 m c r h2.1)
/-- What the items after item -1 write. -/
abbrev laterLaunch : List (Ref sig .tc) := hostOps0_W ++ later0
theorem keepLaunch (c : Dev nD) (r : Ref sig .tc) (h : r ∉ laterLaunch) : U41 m c r = U0 m c r :=
  have h2 := not_or.mp (List.mem_append.not.mp h)
  (keep0 m c r h2.2).trans (step0 m c r h2.1)

end Cert.KernelIdeal.Hand

end
-- ==== Proof.Bridge.ChainArgs.lean ====
/-
  The arguments at the end of the two runs. No item of either program writes an argument, so each ends holding what its
  launch memory held; from launch memories that agree on an argument, the two runs therefore end with the same array in
  it (`arg_of_K`, one argument at a time). `ArgEqK` is the equality for argument `K`, each stated on its own, and `ArgsEq` collects the thirty-eight, core by core: what the
  comparison of the two programs' values starts from.
-/
import proofs.«147763_j11003706212366_2_alg».proof.Proof.KI.Keep
import proofs.«147763_j11003706212366_2_alg».proof.Proof.Ref.Kept
import Idealize.ShloMosaic.PureOps.Ideal

set_option maxRecDepth 16384
-- one declaration at a time: a launch memory read at an argument is a heavy term, and side by side they do not fit
set_option Elab.async false

noncomputable section

namespace Cert.Bridge.Chain

open Idealize.ShloMosaic Idealize.ShloMosaic.TcCoe Idealize.SL.Sem

/-- The two runs end with the same array in argument 0. -/
def ArgEq0 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg0) = Cert.ReferenceIdeal.Hand.R m' c (Proc.devRef .tc Cert.ReferenceIdeal.main_arg0)
/-- The two runs end with the same array in argument 1. -/
def ArgEq1 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg1) = Cert.ReferenceIdeal.Hand.R m' c (Proc.devRef .tc Cert.ReferenceIdeal.main_arg1)
/-- The two runs end with the same array in argument 2. -/
def ArgEq2 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg2) = Cert.ReferenceIdeal.Hand.R m' c (Proc.devRef .tc Cert.ReferenceIdeal.main_arg2)
/-- The two runs end with the same array in argument 3. -/
def ArgEq3 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg3) = Cert.ReferenceIdeal.Hand.R m' c (Proc.devRef .tc Cert.ReferenceIdeal.main_arg3)
/-- The two runs end with the same array in argument 4. -/
def ArgEq4 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg4) = Cert.ReferenceIdeal.Hand.R m' c (Proc.devRef .tc Cert.ReferenceIdeal.main_arg4)
/-- The two runs end with the same array in argument 5. -/
def ArgEq5 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg5) = Cert.ReferenceIdeal.Hand.R m' c (Proc.devRef .tc Cert.ReferenceIdeal.main_arg5)
/-- The two runs end with the same array in argument 6. -/
def ArgEq6 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg6) = Cert.ReferenceIdeal.Hand.R m' c (Proc.devRef .tc Cert.ReferenceIdeal.main_arg6)
/-- The two runs end with the same array in argument 7. -/
def ArgEq7 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg7) = Cert.ReferenceIdeal.Hand.R m' c (Proc.devRef .tc Cert.ReferenceIdeal.main_arg7)
/-- The two runs end with the same array in argument 8. -/
def ArgEq8 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg8) = Cert.ReferenceIdeal.Hand.R m' c (Proc.devRef .tc Cert.ReferenceIdeal.main_arg8)
/-- The two runs end with the same array in argument 9. -/
def ArgEq9 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg9) = Cert.ReferenceIdeal.Hand.R m' c (Proc.devRef .tc Cert.ReferenceIdeal.main_arg9)
/-- The two runs end with the same array in argument 10. -/
def ArgEq10 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg10) = Cert.ReferenceIdeal.Hand.R m' c (Proc.devRef .tc Cert.ReferenceIdeal.main_arg10)
/-- The two runs end with the same array in argument 11. -/
def ArgEq11 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg11) = Cert.ReferenceIdeal.Hand.R m' c (Proc.devRef .tc Cert.ReferenceIdeal.main_arg11)
/-- The two runs end with the same array in argument 12. -/
def ArgEq12 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg12) = Cert.ReferenceIdeal.Hand.R m' c (Proc.devRef .tc Cert.ReferenceIdeal.main_arg12)
/-- The two runs end with the same array in argument 13. -/
def ArgEq13 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg13) = Cert.ReferenceIdeal.Hand.R m' c (Proc.devRef .tc Cert.ReferenceIdeal.main_arg13)
/-- The two runs end with the same array in argument 14. -/
def ArgEq14 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg14) = Cert.ReferenceIdeal.Hand.R m' c (Proc.devRef .tc Cert.ReferenceIdeal.main_arg14)
/-- The two runs end with the same array in argument 15. -/
def ArgEq15 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg15) = Cert.ReferenceIdeal.Hand.R m' c (Proc.devRef .tc Cert.ReferenceIdeal.main_arg15)
/-- The two runs end with the same array in argument 16. -/
def ArgEq16 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg16) = Cert.ReferenceIdeal.Hand.R m' c (Proc.devRef .tc Cert.ReferenceIdeal.main_arg16)
/-- The two runs end with the same array in argument 17. -/
def ArgEq17 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg17) = Cert.ReferenceIdeal.Hand.R m' c (Proc.devRef .tc Cert.ReferenceIdeal.main_arg17)
/-- The two runs end with the same array in argument 18. -/
def ArgEq18 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg18) = Cert.ReferenceIdeal.Hand.R m' c (Proc.devRef .tc Cert.ReferenceIdeal.main_arg18)
/-- The two runs end with the same array in argument 19. -/
def ArgEq19 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg19) = Cert.ReferenceIdeal.Hand.R m' c (Proc.devRef .tc Cert.ReferenceIdeal.main_arg19)
/-- The two runs end with the same array in argument 20. -/
def ArgEq20 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg20) = Cert.ReferenceIdeal.Hand.R m' c (Proc.devRef .tc Cert.ReferenceIdeal.main_arg20)
/-- The two runs end with the same array in argument 21. -/
def ArgEq21 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg21) = Cert.ReferenceIdeal.Hand.R m' c (Proc.devRef .tc Cert.ReferenceIdeal.main_arg21)
/-- The two runs end with the same array in argument 22. -/
def ArgEq22 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg22) = Cert.ReferenceIdeal.Hand.R m' c (Proc.devRef .tc Cert.ReferenceIdeal.main_arg22)
/-- The two runs end with the same array in argument 23. -/
def ArgEq23 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg23) = Cert.ReferenceIdeal.Hand.R m' c (Proc.devRef .tc Cert.ReferenceIdeal.main_arg23)
/-- The two runs end with the same array in argument 24. -/
def ArgEq24 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg24) = Cert.ReferenceIdeal.Hand.R m' c (Proc.devRef .tc Cert.ReferenceIdeal.main_arg24)
/-- The two runs end with the same array in argument 25. -/
def ArgEq25 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg25) = Cert.ReferenceIdeal.Hand.R m' c (Proc.devRef .tc Cert.ReferenceIdeal.main_arg25)
/-- The two runs end with the same array in argument 26. -/
def ArgEq26 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg26) = Cert.ReferenceIdeal.Hand.R m' c (Proc.devRef .tc Cert.ReferenceIdeal.main_arg26)
/-- The two runs end with the same array in argument 27. -/
def ArgEq27 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg27) = Cert.ReferenceIdeal.Hand.R m' c (Proc.devRef .tc Cert.ReferenceIdeal.main_arg27)
/-- The two runs end with the same array in argument 28. -/
def ArgEq28 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg28) = Cert.ReferenceIdeal.Hand.R m' c (Proc.devRef .tc Cert.ReferenceIdeal.main_arg28)
/-- The two runs end with the same array in argument 29. -/
def ArgEq29 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg29) = Cert.ReferenceIdeal.Hand.R m' c (Proc.devRef .tc Cert.ReferenceIdeal.main_arg29)
/-- The two runs end with the same array in argument 30. -/
def ArgEq30 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg30) = Cert.ReferenceIdeal.Hand.R m' c (Proc.devRef .tc Cert.ReferenceIdeal.main_arg30)
/-- The two runs end with the same array in argument 31. -/
def ArgEq31 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg31) = Cert.ReferenceIdeal.Hand.R m' c (Proc.devRef .tc Cert.ReferenceIdeal.main_arg31)
/-- The two runs end with the same array in argument 32. -/
def ArgEq32 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg32) = Cert.ReferenceIdeal.Hand.R m' c (Proc.devRef .tc Cert.ReferenceIdeal.main_arg32)
/-- The two runs end with the same array in argument 33. -/
def ArgEq33 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg33) = Cert.ReferenceIdeal.Hand.R m' c (Proc.devRef .tc Cert.ReferenceIdeal.main_arg33)
/-- The two runs end with the same array in argument 34. -/
def ArgEq34 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg34) = Cert.ReferenceIdeal.Hand.R m' c (Proc.devRef .tc Cert.ReferenceIdeal.main_arg34)
/-- The two runs end with the same array in argument 35. -/
def ArgEq35 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg35) = Cert.ReferenceIdeal.Hand.R m' c (Proc.devRef .tc Cert.ReferenceIdeal.main_arg35)
/-- The two runs end with the same array in argument 36. -/
def ArgEq36 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg36) = Cert.ReferenceIdeal.Hand.R m' c (Proc.devRef .tc Cert.ReferenceIdeal.main_arg36)
/-- The two runs end with the same array in argument 37. -/
def ArgEq37 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.KernelIdeal.Hand.U41 m c (Proc.devRef .tc Cert.KernelIdeal.main_arg37) = Cert.ReferenceIdeal.Hand.R m' c (Proc.devRef .tc Cert.ReferenceIdeal.main_arg37)

/-- The two runs end with the same arrays in the thirty-eight arguments, core by core. -/
def ArgsEq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      ArgEq0 m m' c ∧ ArgEq1 m m' c ∧ ArgEq2 m m' c ∧ ArgEq3 m m' c ∧ ArgEq4 m m' c ∧ ArgEq5 m m' c ∧ ArgEq6 m m' c ∧ ArgEq7 m m' c ∧ ArgEq8 m m' c ∧ ArgEq9 m m' c ∧ ArgEq10 m m' c ∧ ArgEq11 m m' c ∧ ArgEq12 m m' c ∧ ArgEq13 m m' c ∧ ArgEq14 m m' c ∧ ArgEq15 m m' c ∧ ArgEq16 m m' c ∧ ArgEq17 m m' c ∧ ArgEq18 m m' c ∧ ArgEq19 m m' c ∧ ArgEq20 m m' c ∧ ArgEq21 m m' c ∧ ArgEq22 m m' c ∧ ArgEq23 m m' c ∧ ArgEq24 m m' c ∧ ArgEq25 m m' c ∧ ArgEq26 m m' c ∧ ArgEq27 m m' c ∧ ArgEq28 m m' c ∧ ArgEq29 m m' c ∧ ArgEq30 m m' c ∧ ArgEq31 m m' c ∧ ArgEq32 m m' c ∧ ArgEq33 m m' c ∧ ArgEq34 m m' c ∧ ArgEq35 m m' c ∧ ArgEq36 m m' c ∧ ArgEq37 m m' c

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem arg_of_0 (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    ArgEq0 m m' c :=
  (Cert.KernelIdeal.Hand.keepLaunch m c Cert.KernelIdeal.main_arg0 (by decide +kernel)).trans
    (e.symm.trans (Cert.ReferenceIdeal.Hand.R_main_arg0 m' c).symm)

theorem arg_of_1 (c : Dev Cert.KernelIdeal.nD)
    (e : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    ArgEq1 m m' c :=
  (Cert.KernelIdeal.Hand.keepLaunch m c Cert.KernelIdeal.main_arg1 (by decide +kernel)).trans
    (e.symm.trans (Cert.ReferenceIdeal.Hand.R_main_arg1 m' c).symm)

theorem arg_of_2 (c : Dev Cert.KernelIdeal.nD)
    (e : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    ArgEq2 m m' c :=
  (Cert.KernelIdeal.Hand.keepLaunch m c Cert.KernelIdeal.main_arg2 (by decide +kernel)).trans
    (e.symm.trans (Cert.ReferenceIdeal.Hand.R_main_arg2 m' c).symm)

theorem arg_of_3 (c : Dev Cert.KernelIdeal.nD)
    (e : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    ArgEq3 m m' c :=
  (Cert.KernelIdeal.Hand.keepLaunch m c Cert.KernelIdeal.main_arg3 (by decide +kernel)).trans
    (e.symm.trans (Cert.ReferenceIdeal.Hand.R_main_arg3 m' c).symm)

theorem arg_of_4 (c : Dev Cert.KernelIdeal.nD)
    (e : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    ArgEq4 m m' c :=
  (Cert.KernelIdeal.Hand.keepLaunch m c Cert.KernelIdeal.main_arg4 (by decide +kernel)).trans
    (e.symm.trans (Cert.ReferenceIdeal.Hand.R_main_arg4 m' c).symm)

theorem arg_of_5 (c : Dev Cert.KernelIdeal.nD)
    (e : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    ArgEq5 m m' c :=
  (Cert.KernelIdeal.Hand.keepLaunch m c Cert.KernelIdeal.main_arg5 (by decide +kernel)).trans
    (e.symm.trans (Cert.ReferenceIdeal.Hand.R_main_arg5 m' c).symm)

theorem arg_of_6 (c : Dev Cert.KernelIdeal.nD)
    (e : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    ArgEq6 m m' c :=
  (Cert.KernelIdeal.Hand.keepLaunch m c Cert.KernelIdeal.main_arg6 (by decide +kernel)).trans
    (e.symm.trans (Cert.ReferenceIdeal.Hand.R_main_arg6 m' c).symm)

theorem arg_of_7 (c : Dev Cert.KernelIdeal.nD)
    (e : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    ArgEq7 m m' c :=
  (Cert.KernelIdeal.Hand.keepLaunch m c Cert.KernelIdeal.main_arg7 (by decide +kernel)).trans
    (e.symm.trans (Cert.ReferenceIdeal.Hand.R_main_arg7 m' c).symm)

theorem arg_of_8 (c : Dev Cert.KernelIdeal.nD)
    (e : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    ArgEq8 m m' c :=
  (Cert.KernelIdeal.Hand.keepLaunch m c Cert.KernelIdeal.main_arg8 (by decide +kernel)).trans
    (e.symm.trans (Cert.ReferenceIdeal.Hand.R_main_arg8 m' c).symm)

theorem arg_of_9 (c : Dev Cert.KernelIdeal.nD)
    (e : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    ArgEq9 m m' c :=
  (Cert.KernelIdeal.Hand.keepLaunch m c Cert.KernelIdeal.main_arg9 (by decide +kernel)).trans
    (e.symm.trans (Cert.ReferenceIdeal.Hand.R_main_arg9 m' c).symm)

theorem arg_of_10 (c : Dev Cert.KernelIdeal.nD)
    (e : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    ArgEq10 m m' c :=
  (Cert.KernelIdeal.Hand.keepLaunch m c Cert.KernelIdeal.main_arg10 (by decide +kernel)).trans
    (e.symm.trans (Cert.ReferenceIdeal.Hand.R_main_arg10 m' c).symm)

theorem arg_of_11 (c : Dev Cert.KernelIdeal.nD)
    (e : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    ArgEq11 m m' c :=
  (Cert.KernelIdeal.Hand.keepLaunch m c Cert.KernelIdeal.main_arg11 (by decide +kernel)).trans
    (e.symm.trans (Cert.ReferenceIdeal.Hand.R_main_arg11 m' c).symm)

theorem arg_of_12 (c : Dev Cert.KernelIdeal.nD)
    (e : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    ArgEq12 m m' c :=
  (Cert.KernelIdeal.Hand.keepLaunch m c Cert.KernelIdeal.main_arg12 (by decide +kernel)).trans
    (e.symm.trans (Cert.ReferenceIdeal.Hand.R_main_arg12 m' c).symm)

theorem arg_of_13 (c : Dev Cert.KernelIdeal.nD)
    (e : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    ArgEq13 m m' c :=
  (Cert.KernelIdeal.Hand.keepLaunch m c Cert.KernelIdeal.main_arg13 (by decide +kernel)).trans
    (e.symm.trans (Cert.ReferenceIdeal.Hand.R_main_arg13 m' c).symm)

theorem arg_of_14 (c : Dev Cert.KernelIdeal.nD)
    (e : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    ArgEq14 m m' c :=
  (Cert.KernelIdeal.Hand.keepLaunch m c Cert.KernelIdeal.main_arg14 (by decide +kernel)).trans
    (e.symm.trans (Cert.ReferenceIdeal.Hand.R_main_arg14 m' c).symm)

theorem arg_of_15 (c : Dev Cert.KernelIdeal.nD)
    (e : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    ArgEq15 m m' c :=
  (Cert.KernelIdeal.Hand.keepLaunch m c Cert.KernelIdeal.main_arg15 (by decide +kernel)).trans
    (e.symm.trans (Cert.ReferenceIdeal.Hand.R_main_arg15 m' c).symm)

theorem arg_of_16 (c : Dev Cert.KernelIdeal.nD)
    (e : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    ArgEq16 m m' c :=
  (Cert.KernelIdeal.Hand.keepLaunch m c Cert.KernelIdeal.main_arg16 (by decide +kernel)).trans
    (e.symm.trans (Cert.ReferenceIdeal.Hand.R_main_arg16 m' c).symm)

theorem arg_of_17 (c : Dev Cert.KernelIdeal.nD)
    (e : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    ArgEq17 m m' c :=
  (Cert.KernelIdeal.Hand.keepLaunch m c Cert.KernelIdeal.main_arg17 (by decide +kernel)).trans
    (e.symm.trans (Cert.ReferenceIdeal.Hand.R_main_arg17 m' c).symm)

theorem arg_of_18 (c : Dev Cert.KernelIdeal.nD)
    (e : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    ArgEq18 m m' c :=
  (Cert.KernelIdeal.Hand.keepLaunch m c Cert.KernelIdeal.main_arg18 (by decide +kernel)).trans
    (e.symm.trans (Cert.ReferenceIdeal.Hand.R_main_arg18 m' c).symm)

theorem arg_of_19 (c : Dev Cert.KernelIdeal.nD)
    (e : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    ArgEq19 m m' c :=
  (Cert.KernelIdeal.Hand.keepLaunch m c Cert.KernelIdeal.main_arg19 (by decide +kernel)).trans
    (e.symm.trans (Cert.ReferenceIdeal.Hand.R_main_arg19 m' c).symm)

theorem arg_of_20 (c : Dev Cert.KernelIdeal.nD)
    (e : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    ArgEq20 m m' c :=
  (Cert.KernelIdeal.Hand.keepLaunch m c Cert.KernelIdeal.main_arg20 (by decide +kernel)).trans
    (e.symm.trans (Cert.ReferenceIdeal.Hand.R_main_arg20 m' c).symm)

theorem arg_of_21 (c : Dev Cert.KernelIdeal.nD)
    (e : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    ArgEq21 m m' c :=
  (Cert.KernelIdeal.Hand.keepLaunch m c Cert.KernelIdeal.main_arg21 (by decide +kernel)).trans
    (e.symm.trans (Cert.ReferenceIdeal.Hand.R_main_arg21 m' c).symm)

theorem arg_of_22 (c : Dev Cert.KernelIdeal.nD)
    (e : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    ArgEq22 m m' c :=
  (Cert.KernelIdeal.Hand.keepLaunch m c Cert.KernelIdeal.main_arg22 (by decide +kernel)).trans
    (e.symm.trans (Cert.ReferenceIdeal.Hand.R_main_arg22 m' c).symm)

theorem arg_of_23 (c : Dev Cert.KernelIdeal.nD)
    (e : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    ArgEq23 m m' c :=
  (Cert.KernelIdeal.Hand.keepLaunch m c Cert.KernelIdeal.main_arg23 (by decide +kernel)).trans
    (e.symm.trans (Cert.ReferenceIdeal.Hand.R_main_arg23 m' c).symm)

theorem arg_of_24 (c : Dev Cert.KernelIdeal.nD)
    (e : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    ArgEq24 m m' c :=
  (Cert.KernelIdeal.Hand.keepLaunch m c Cert.KernelIdeal.main_arg24 (by decide +kernel)).trans
    (e.symm.trans (Cert.ReferenceIdeal.Hand.R_main_arg24 m' c).symm)

theorem arg_of_25 (c : Dev Cert.KernelIdeal.nD)
    (e : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    ArgEq25 m m' c :=
  (Cert.KernelIdeal.Hand.keepLaunch m c Cert.KernelIdeal.main_arg25 (by decide +kernel)).trans
    (e.symm.trans (Cert.ReferenceIdeal.Hand.R_main_arg25 m' c).symm)

theorem arg_of_26 (c : Dev Cert.KernelIdeal.nD)
    (e : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    ArgEq26 m m' c :=
  (Cert.KernelIdeal.Hand.keepLaunch m c Cert.KernelIdeal.main_arg26 (by decide +kernel)).trans
    (e.symm.trans (Cert.ReferenceIdeal.Hand.R_main_arg26 m' c).symm)

theorem arg_of_27 (c : Dev Cert.KernelIdeal.nD)
    (e : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) :
    ArgEq27 m m' c :=
  (Cert.KernelIdeal.Hand.keepLaunch m c Cert.KernelIdeal.main_arg27 (by decide +kernel)).trans
    (e.symm.trans (Cert.ReferenceIdeal.Hand.R_main_arg27 m' c).symm)

theorem arg_of_28 (c : Dev Cert.KernelIdeal.nD)
    (e : m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) :
    ArgEq28 m m' c :=
  (Cert.KernelIdeal.Hand.keepLaunch m c Cert.KernelIdeal.main_arg28 (by decide +kernel)).trans
    (e.symm.trans (Cert.ReferenceIdeal.Hand.R_main_arg28 m' c).symm)

theorem arg_of_29 (c : Dev Cert.KernelIdeal.nD)
    (e : m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) :
    ArgEq29 m m' c :=
  (Cert.KernelIdeal.Hand.keepLaunch m c Cert.KernelIdeal.main_arg29 (by decide +kernel)).trans
    (e.symm.trans (Cert.ReferenceIdeal.Hand.R_main_arg29 m' c).symm)

theorem arg_of_30 (c : Dev Cert.KernelIdeal.nD)
    (e : m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) :
    ArgEq30 m m' c :=
  (Cert.KernelIdeal.Hand.keepLaunch m c Cert.KernelIdeal.main_arg30 (by decide +kernel)).trans
    (e.symm.trans (Cert.ReferenceIdeal.Hand.R_main_arg30 m' c).symm)

theorem arg_of_31 (c : Dev Cert.KernelIdeal.nD)
    (e : m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) :
    ArgEq31 m m' c :=
  (Cert.KernelIdeal.Hand.keepLaunch m c Cert.KernelIdeal.main_arg31 (by decide +kernel)).trans
    (e.symm.trans (Cert.ReferenceIdeal.Hand.R_main_arg31 m' c).symm)

theorem arg_of_32 (c : Dev Cert.KernelIdeal.nD)
    (e : m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) :
    ArgEq32 m m' c :=
  (Cert.KernelIdeal.Hand.keepLaunch m c Cert.KernelIdeal.main_arg32 (by decide +kernel)).trans
    (e.symm.trans (Cert.ReferenceIdeal.Hand.R_main_arg32 m' c).symm)

theorem arg_of_33 (c : Dev Cert.KernelIdeal.nD)
    (e : m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) :
    ArgEq33 m m' c :=
  (Cert.KernelIdeal.Hand.keepLaunch m c Cert.KernelIdeal.main_arg33 (by decide +kernel)).trans
    (e.symm.trans (Cert.ReferenceIdeal.Hand.R_main_arg33 m' c).symm)

theorem arg_of_34 (c : Dev Cert.KernelIdeal.nD)
    (e : m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)) :
    ArgEq34 m m' c :=
  (Cert.KernelIdeal.Hand.keepLaunch m c Cert.KernelIdeal.main_arg34 (by decide +kernel)).trans
    (e.symm.trans (Cert.ReferenceIdeal.Hand.R_main_arg34 m' c).symm)

theorem arg_of_35 (c : Dev Cert.KernelIdeal.nD)
    (e : m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)) :
    ArgEq35 m m' c :=
  (Cert.KernelIdeal.Hand.keepLaunch m c Cert.KernelIdeal.main_arg35 (by decide +kernel)).trans
    (e.symm.trans (Cert.ReferenceIdeal.Hand.R_main_arg35 m' c).symm)

theorem arg_of_36 (c : Dev Cert.KernelIdeal.nD)
    (e : m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)) :
    ArgEq36 m m' c :=
  (Cert.KernelIdeal.Hand.keepLaunch m c Cert.KernelIdeal.main_arg36 (by decide +kernel)).trans
    (e.symm.trans (Cert.ReferenceIdeal.Hand.R_main_arg36 m' c).symm)

theorem arg_of_37 (c : Dev Cert.KernelIdeal.nD)
    (e : m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)) :
    ArgEq37 m m' c :=
  (Cert.KernelIdeal.Hand.keepLaunch m c Cert.KernelIdeal.main_arg37 (by decide +kernel)).trans
    (e.symm.trans (Cert.ReferenceIdeal.Hand.R_main_arg37 m' c).symm)

end Cert.Bridge.Chain

end
-- ==== Proof.KI.HostDefs.lean ====
/-
  The values the host lines between the kernel calls compute, each a function of the arrays it reads: the two rows of
  the edge list, the node count of each graph, the difference and the length of the position vectors along each edge,
  the rows gathered per edge and per node, one layer of a stack of weights and its row blocks, the sums over the edges
  at a node and over the nodes and the edges of a graph, the inputs of the node and of the graph networks, the
  recentring of the positions about each graph's mean, and the stack of the three positions.
  No change of float format is inside any of them: a cast stays a factor of its own wherever a value is used.
-/
import proofs.«147763_j11003706212366_2_alg».proof.Proof.Gen.KernelIdeal

noncomputable section

namespace Cert.KernelIdeal.Hand

open Idealize.ShloMosaic Idealize.SL.Sem
open Cert.KernelIdeal Cert.KernelIdeal.Gen

variable {F : FTy → Type} [FloatOps F]

/-! ## The edge list -/

/-- Row 0 of the edge list: each edge's source node. -/
def srcOf (ei : IVec S2x80000 32) : IVec S80000 32 :=
  shapeCast S80000 (extractStridedSlice (s := S2x80000) S1x80000 ![0, 0] ei slices_S2x80000_S1x80000_0_0) shapeCasts_S1x80000_S80000

/-- Row 1 of the edge list: each edge's target node. -/
def dstOf (ei : IVec S2x80000 32) : IVec S80000 32 :=
  shapeCast S80000 (extractStridedSlice (s := S2x80000) S1x80000 ![1, 0] ei slices_S2x80000_S1x80000_1_0) shapeCasts_S1x80000_S80000

/-! ## Indices -/

/-- An index below zero counts from the end of `n` entries: `i + n` where `i < 0`, `i` elsewhere. -/
def wrapIdx (s : Shape) (h : S_.BroadcastsInDim s (![] : Fin 0 → Fin s.rank)) (n : BitVec 32) (i : IVec s 32) : IVec s 32 :=
  select (cmpi .slt i (broadcastInDim (s := S_) s ![] h (constantI S_ 32 0#32)))
    (addi i (broadcastInDim (s := S_) s ![] h (constantI S_ 32 n))) i

/-- One index per edge, as a column. -/
def col80000 (i : IVec S80000 32) : IVec S80000x1 32 := broadcastInDim (s := S80000) S80000x1 ![0] bcast_S80000_S80000x1_0 i

/-- One index per node, as a column. -/
def col5000 (i : IVec S5000 32) : IVec S5000x1 32 := broadcastInDim (s := S5000) S5000x1 ![0] bcast_S5000_S5000x1_0 i

/-! ## The graphs' sizes -/

/-- How many nodes each graph has, and at least one: the sum of a one per node at the node's graph, then the larger of
    that and one. -/
def countsOf (nb : IVec S5000 32) : FVec F S64x1 .f32 :=
  maximumf
    (Host.scatterAdd scatter_S64x1_S5000x1_S5000x1_1_0_0_1
      (broadcastInDim (s := S_) S64x1 ![] bcast_S_S64x1 (constant (F := F) S_ .f32 0x00000000#32))
      (col5000 nb)
      (broadcastInDim (s := S_) S5000x1 ![] bcast_S_S5000x1 (constant (F := F) S_ .f32 0x3F800000#32)))
    (broadcastInDim (s := S_) S64x1 ![] bcast_S_S64x1 (constant (F := F) S_ .f32 0x3F800000#32))

/-! ## A vector as a one-row matrix -/

/-- `b` as the one row of a `1 × 128` matrix. -/
def rowOf128 (b : FVec F S128 .f32) : FVec F S1x128 .f32 := shapeCast S1x128 b shapeCasts_S128_S1x128

/-- `b` as the one row of a `1 × 512` matrix. -/
def rowOf512 (b : FVec F S512 .f32) : FVec F S1x512 .f32 := shapeCast S1x512 b shapeCasts_S512_S1x512

/-- `b` as the one row of a `1 × 3` matrix. -/
def rowOf3 (b : FVec F S3 .f32) : FVec F S1x3 .f32 := shapeCast S1x3 b shapeCasts_S3_S1x3

/-! ## Along the edges -/

/-- The position of the node `i` names, per edge: `p[i]`. -/
def posAt (p : FVec F S5000x3 .f32) (i : IVec S80000 32) : FVec F S80000x3 .f32 :=
  Host.gather gather_S5000x3_S80000x1_S80000x3_1_0_n_n_0_1_13 p (col80000 (wrapIdx S80000 bcast_S_S80000 5000#32 i))

/-- The vector from each edge's target to its source: `p[src] − p[dst]`. -/
def relPos (p : FVec F S5000x3 .f32) (src dst : IVec S80000 32) : FVec F S80000x3 .f32 :=
  subf (posAt p src) (posAt p dst)

/-- The Euclidean length of each row, as a column: the square root of the sum of the squares. -/
def lenOf (d : FVec F S80000x3 .f32) : FVec F S80000x1 .f32 :=
  Host.sqrt (broadcastInDim (s := S80000) S80000x1 ![0] bcast_S80000_S80000x1_0
    (Host.reduceAdd (mulf d d) (constant (F := F) S_ .f32 0x00000000#32) reducesTo_S80000x3_S80000_d1 h_S_))

/-- The row of `x` at the node `i` names, per edge: `x[i]`. -/
def nodeRowsAt (x : FVec F S5000x128 .bf16) (i : IVec S80000 32) : FVec F S80000x128 .bf16 :=
  Host.gather gather_S5000x128_S80000x1_S80000x128_1_0_n_n_0_1_1128 x (col80000 (wrapIdx S80000 bcast_S_S80000 5000#32 i))

/-- The row of `u` at each edge's graph: `u[edge_batch]`. -/
def graphRowsAtEdges (u : FVec F S64x128 .bf16) (eb : IVec S80000 32) : FVec F S80000x128 .bf16 :=
  Host.gather gather_S64x128_S80000x1_S80000x128_1_0_n_n_0_1_1128 u (col80000 (wrapIdx S80000 bcast_S_S80000 64#32 eb))

/-! ## Weights -/

/-- The layer at offset `off` of a stack of arrays, the leading axis of length one dropped: `W[l]`. -/
def layerOf (s t u : Shape) (off : Fin s.rank → Nat) (x : FVec F s .f32) (h : s.Slices off t) (hc : t.ShapeCasts u) :
    FVec F u .f32 :=
  shapeCast u (extractStridedSlice (s := s) t off x h) hc

/-- The `128` rows of a `512 × 512` matrix from the offset `off`: the block of the first layer's weights that meets one
    of the four `128`-column parts of the edge network's input. -/
def rowBlock128 (off : Fin S512x512.rank → Nat) (w : FVec F S512x512 .f32) (h : S512x512.Slices off S128x512) :
    FVec F S128x512 .f32 :=
  extractStridedSlice (s := S512x512) S128x512 off w h

/-! ## At the nodes -/

/-- Per node, the sum of the rows of `e` over the edges that `i` sends to it. -/
def sumAtNodes (e : FVec F S80000x128 .f32) (i : IVec S80000 32) : FVec F S5000x128 .f32 :=
  Host.scatterAdd scatter_S5000x128_S80000x1_S80000x128_1_0_0_1
    (broadcastInDim (s := S_) S5000x128 ![] bcast_S_S5000x128 (constant (F := F) S_ .f32 0x00000000#32)) (col80000 i) e

/-- The row of `u` at each node's graph: `u[node_batch]`. -/
def graphRowsAtNodes (u : FVec F S64x128 .f32) (nb : IVec S5000 32) : FVec F S5000x128 .f32 :=
  Host.gather gather_S64x128_S5000x1_S5000x128_1_0_n_n_0_1_1128 u (col5000 (wrapIdx S5000 bcast_S_S5000 64#32 nb))

/-- The node network's input: the node's features, what it sent, what it received and its graph's features, side by
    side. -/
def nodeIn (ex sent recv un : FVec F S5000x128 .f32) : FVec F S5000x512 .f32 :=
  concatenate S5000x512 1 [⟨S5000x128, ex⟩, ⟨S5000x128, sent⟩, ⟨S5000x128, recv⟩, ⟨S5000x128, un⟩]
    concatenates_S5000x128_S5000x128_S5000x128_S5000x128_S5000x512_d1

/-! ## At the graphs -/

/-- Per graph, the sum of the rows of `x` over its nodes. -/
def sumNodesAtGraphs (x : FVec F S5000x128 .f32) (nb : IVec S5000 32) : FVec F S64x128 .f32 :=
  Host.scatterAdd scatter_S64x128_S5000x1_S5000x128_1_0_0_1
    (broadcastInDim (s := S_) S64x128 ![] bcast_S_S64x128 (constant (F := F) S_ .f32 0x00000000#32)) (col5000 nb) x

/-- Per graph, the sum of the rows of `e` over its edges. -/
def sumEdgesAtGraphs (e : FVec F S80000x128 .f32) (eb : IVec S80000 32) : FVec F S64x128 .f32 :=
  Host.scatterAdd scatter_S64x128_S80000x1_S80000x128_1_0_0_1
    (broadcastInDim (s := S_) S64x128 ![] bcast_S_S64x128 (constant (F := F) S_ .f32 0x00000000#32)) (col80000 eb) e

/-- The graph network's input: the graph's features, the sum over its nodes and the sum over its edges, side by side. -/
def globIn (us a b : FVec F S64x128 .f32) : FVec F S64x384 .f32 :=
  concatenate S64x384 1 [⟨S64x128, us⟩, ⟨S64x128, a⟩, ⟨S64x128, b⟩] concatenates_S64x128_S64x128_S64x128_S64x384_d1

/-! ## Positions -/

/-- The positions with each graph's mean taken off: `p − mean[node_batch]`, the mean of a graph the sum of its nodes'
    positions over its node count. -/
def move2origin (p : FVec F S5000x3 .f32) (nb : IVec S5000 32) (counts : FVec F S64x1 .f32) : FVec F S5000x3 .f32 :=
  subf p
    (Host.gather gather_S64x3_S5000x1_S5000x3_1_0_n_n_0_1_13
      (Host.divf
        (Host.scatterAdd scatter_S64x3_S5000x1_S5000x3_1_0_0_1
          (broadcastInDim (s := S_) S64x3 ![] bcast_S_S64x3 (constant (F := F) S_ .f32 0x00000000#32)) (col5000 nb) p)
        (broadcastInDim (s := S64x1) S64x3 ![0, 1] bcast_S64x1_S64x3_0_1 counts))
      (col5000 (wrapIdx S5000 bcast_S_S5000 64#32 nb)))

/-- Three position arrays stacked along a new leading axis. -/
def stack3 (a b c : FVec F S5000x3 .f32) : FVec F S3x5000x3 .f32 :=
  concatenate S3x5000x3 0
    [⟨S1x5000x3, broadcastInDim (s := S5000x3) S1x5000x3 ![1, 2] bcast_S5000x3_S1x5000x3_1_2 a⟩,
     ⟨S1x5000x3, broadcastInDim (s := S5000x3) S1x5000x3 ![1, 2] bcast_S5000x3_S1x5000x3_1_2 b⟩,
     ⟨S1x5000x3, broadcastInDim (s := S5000x3) S1x5000x3 ![1, 2] bcast_S5000x3_S1x5000x3_1_2 c⟩]
    concatenates_S1x5000x3_S1x5000x3_S1x5000x3_S3x5000x3_d0

end Cert.KernelIdeal.Hand

end
-- ==== Proof.KI.HostA.lean ====
/-
  What the host lines `hostOps0`, `hostOps1`, `hostOps1_1`, `hostOps1_2` leave in each buffer that is read after them, as a value of
  the contents `W` the device's buffers hold when the lines start, read only at the buffers the lines themselves read:
    * `hostOps0`: before the first kernel call: the two rows of the edge list, the graphs' node counts, and the position network's operands;
    * `hostOps1`: the vector along each edge between the current positions of its two nodes;
    * `hostOps1_1`: the length of each edge's vector;
    * `hostOps1_2`: the distance network's operands;
  each value one of the named functions of KI/HostDefs.lean applied to those contents, a change of float format a factor
  of its own outside them. Stated over arbitrary contents `W`.
-/
import proofs.«147763_j11003706212366_2_alg».proof.Proof.Gen.KernelIdeal.Launch
import proofs.«147763_j11003706212366_2_alg».proof.Proof.KI.HostDefs
import Idealize.ShloMosaic.Lib.StableHlo.Run

noncomputable section

namespace Cert.KernelIdeal.Hand

open Idealize.ShloMosaic Idealize.ShloMosaic.TcCoe
open Idealize.SL.Sem
open Cert.KernelIdeal Cert.KernelIdeal.Gen

variable {F : FTy → Type} [FloatOps F]

/-! ## `hostOps0` -/

theorem host_0_main_v1 (W : Valuation τ sig (Elt F)) :
    StableHlo.after hostOps0 W (Proc.devRef .tc main_v1)
      = srcOf (W (Proc.devRef .tc main_arg1)) := by
  show StableHlo.after hostOps0 _ (Proc.devRef .tc main_v1) = _
  after_results_simp <;> rfl

theorem host_0_main_v3 (W : Valuation τ sig (Elt F)) :
    StableHlo.after hostOps0 W (Proc.devRef .tc main_v3)
      = dstOf (W (Proc.devRef .tc main_arg1)) := by
  show StableHlo.after hostOps0 _ (Proc.devRef .tc main_v3) = _
  after_results_simp <;> rfl

theorem host_0_main_v9 (W : Valuation τ sig (Elt F)) :
    StableHlo.after hostOps0 W (Proc.devRef .tc main_v9)
      = countsOf (W (Proc.devRef .tc main_arg4)) := by
  show StableHlo.after hostOps0 _ (Proc.devRef .tc main_v9) = _
  after_results_simp <;> rfl

theorem host_0_main_v10 (W : Valuation τ sig (Elt F)) :
    StableHlo.after hostOps0 W (Proc.devRef .tc main_v10)
      = (truncf .bf16 (W (Proc.devRef .tc main_arg7)) bitsLt_bf16_f32) := by
  show StableHlo.after hostOps0 _ (Proc.devRef .tc main_v10) = _
  after_results_simp <;> rfl

theorem host_0_main_v11 (W : Valuation τ sig (Elt F)) :
    StableHlo.after hostOps0 W (Proc.devRef .tc main_v11)
      = (truncf .bf16 (W (Proc.devRef .tc main_arg8)) bitsLt_bf16_f32) := by
  show StableHlo.after hostOps0 _ (Proc.devRef .tc main_v11) = _
  after_results_simp <;> rfl

theorem host_0_main_v12 (W : Valuation τ sig (Elt F)) :
    StableHlo.after hostOps0 W (Proc.devRef .tc main_v12)
      = (truncf .bf16 (W (Proc.devRef .tc main_arg10)) bitsLt_bf16_f32) := by
  show StableHlo.after hostOps0 _ (Proc.devRef .tc main_v12) = _
  after_results_simp <;> rfl

theorem host_0_main_v13 (W : Valuation τ sig (Elt F)) :
    StableHlo.after hostOps0 W (Proc.devRef .tc main_v13)
      = rowOf128 (W (Proc.devRef .tc main_arg9)) := by
  show StableHlo.after hostOps0 _ (Proc.devRef .tc main_v13) = _
  after_results_simp <;> rfl

theorem host_0_main_v14 (W : Valuation τ sig (Elt F)) :
    StableHlo.after hostOps0 W (Proc.devRef .tc main_v14)
      = rowOf128 (W (Proc.devRef .tc main_arg11)) := by
  show StableHlo.after hostOps0 _ (Proc.devRef .tc main_v14) = _
  after_results_simp <;> rfl

/-! ## `hostOps1` -/

theorem host_1_main_v30 (W : Valuation τ sig (Elt F)) :
    StableHlo.after hostOps1 W (Proc.devRef .tc main_v30)
      = relPos (W (Proc.devRef .tc main_arg7)) (W (Proc.devRef .tc main_v1)) (W (Proc.devRef .tc main_v3)) := by
  show StableHlo.after hostOps1 _ (Proc.devRef .tc main_v30) = _
  after_results_simp <;> rfl

/-! ## `hostOps1_1` -/

theorem host_1_1_main_v31 (W : Valuation τ sig (Elt F)) :
    StableHlo.after hostOps1_1 W (Proc.devRef .tc main_v31)
      = lenOf (W (Proc.devRef .tc main_v30)) := by
  show StableHlo.after hostOps1_1 _ (Proc.devRef .tc main_v31) = _
  after_results_simp <;> rfl

/-! ## `hostOps1_2` -/

theorem host_1_2_main_v32 (W : Valuation τ sig (Elt F)) :
    StableHlo.after hostOps1_2 W (Proc.devRef .tc main_v32)
      = (truncf .bf16 (W (Proc.devRef .tc main_v31)) bitsLt_bf16_f32) := by
  show StableHlo.after hostOps1_2 _ (Proc.devRef .tc main_v32) = _
  after_results_simp <;> rfl

theorem host_1_2_main_v33 (W : Valuation τ sig (Elt F)) :
    StableHlo.after hostOps1_2 W (Proc.devRef .tc main_v33)
      = (truncf .bf16 (W (Proc.devRef .tc main_arg12)) bitsLt_bf16_f32) := by
  show StableHlo.after hostOps1_2 _ (Proc.devRef .tc main_v33) = _
  after_results_simp <;> rfl

theorem host_1_2_main_v34 (W : Valuation τ sig (Elt F)) :
    StableHlo.after hostOps1_2 W (Proc.devRef .tc main_v34)
      = (truncf .bf16 (W (Proc.devRef .tc main_arg14)) bitsLt_bf16_f32) := by
  show StableHlo.after hostOps1_2 _ (Proc.devRef .tc main_v34) = _
  after_results_simp <;> rfl

theorem host_1_2_main_v35 (W : Valuation τ sig (Elt F)) :
    StableHlo.after hostOps1_2 W (Proc.devRef .tc main_v35)
      = rowOf128 (W (Proc.devRef .tc main_arg13)) := by
  show StableHlo.after hostOps1_2 _ (Proc.devRef .tc main_v35) = _
  after_results_simp <;> rfl

theorem host_1_2_main_v36 (W : Valuation τ sig (Elt F)) :
    StableHlo.after hostOps1_2 W (Proc.devRef .tc main_v36)
      = rowOf128 (W (Proc.devRef .tc main_arg15)) := by
  show StableHlo.after hostOps1_2 _ (Proc.devRef .tc main_v36) = _
  after_results_simp <;> rfl

end Cert.KernelIdeal.Hand

end
-- ==== Proof.KI.HostB.lean ====
/-
  What the host lines `hostOps2` leave in each buffer that is read after them, as a value of
  the contents `W` the device's buffers hold when the lines start, read only at the buffers the lines themselves read:
    * `hostOps2`: the edge network's operands: the rows gathered at each edge's two nodes and at its graph, and this step's layer of the weights, the first matrix in its four row blocks;
  each value one of the named functions of KI/HostDefs.lean applied to those contents, a change of float format a factor
  of its own outside them. Stated over arbitrary contents `W`.
-/
import proofs.«147763_j11003706212366_2_alg».proof.Proof.Gen.KernelIdeal.Launch
import proofs.«147763_j11003706212366_2_alg».proof.Proof.KI.HostDefs
import Idealize.ShloMosaic.Lib.StableHlo.Run

noncomputable section

namespace Cert.KernelIdeal.Hand

open Idealize.ShloMosaic Idealize.ShloMosaic.TcCoe
open Idealize.SL.Sem
open Cert.KernelIdeal Cert.KernelIdeal.Gen

variable {F : FTy → Type} [FloatOps F]

/-! ## `hostOps2` -/

theorem host_2_main_v46 (W : Valuation τ sig (Elt F)) :
    StableHlo.after hostOps2 W (Proc.devRef .tc main_v46)
      = nodeRowsAt (truncf .bf16 (W (Proc.devRef .tc main_v15)) bitsLt_bf16_f32) (W (Proc.devRef .tc main_v1)) := by
  show StableHlo.after hostOps2 _ (Proc.devRef .tc main_v46) = _
  after_results_simp <;> rfl

theorem host_2_main_v53 (W : Valuation τ sig (Elt F)) :
    StableHlo.after hostOps2 W (Proc.devRef .tc main_v53)
      = nodeRowsAt (truncf .bf16 (W (Proc.devRef .tc main_v15)) bitsLt_bf16_f32) (W (Proc.devRef .tc main_v3)) := by
  show StableHlo.after hostOps2 _ (Proc.devRef .tc main_v53) = _
  after_results_simp <;> rfl

theorem host_2_main_v60 (W : Valuation τ sig (Elt F)) :
    StableHlo.after hostOps2 W (Proc.devRef .tc main_v60)
      = graphRowsAtEdges (truncf .bf16 (W (Proc.devRef .tc main_arg3)) bitsLt_bf16_f32) (W (Proc.devRef .tc main_arg5)) := by
  show StableHlo.after hostOps2 _ (Proc.devRef .tc main_v60) = _
  after_results_simp <;> rfl

theorem host_2_main_v74 (W : Valuation τ sig (Elt F)) :
    StableHlo.after hostOps2 W (Proc.devRef .tc main_v74)
      = (truncf .bf16 (rowBlock128 ![0, 0] (layerOf S3x512x512 S1x512x512 S512x512 ![0, 0, 0] (W (Proc.devRef .tc main_arg16)) slices_S3x512x512_S1x512x512_0_0_0 shapeCasts_S1x512x512_S512x512) slices_S512x512_S128x512_0_0) bitsLt_bf16_f32) := by
  show StableHlo.after hostOps2 _ (Proc.devRef .tc main_v74) = _
  after_results_simp <;> rfl

theorem host_2_main_v76 (W : Valuation τ sig (Elt F)) :
    StableHlo.after hostOps2 W (Proc.devRef .tc main_v76)
      = (truncf .bf16 (rowBlock128 ![128, 0] (layerOf S3x512x512 S1x512x512 S512x512 ![0, 0, 0] (W (Proc.devRef .tc main_arg16)) slices_S3x512x512_S1x512x512_0_0_0 shapeCasts_S1x512x512_S512x512) slices_S512x512_S128x512_128_0) bitsLt_bf16_f32) := by
  show StableHlo.after hostOps2 _ (Proc.devRef .tc main_v76) = _
  after_results_simp <;> rfl

theorem host_2_main_v78 (W : Valuation τ sig (Elt F)) :
    StableHlo.after hostOps2 W (Proc.devRef .tc main_v78)
      = (truncf .bf16 (rowBlock128 ![256, 0] (layerOf S3x512x512 S1x512x512 S512x512 ![0, 0, 0] (W (Proc.devRef .tc main_arg16)) slices_S3x512x512_S1x512x512_0_0_0 shapeCasts_S1x512x512_S512x512) slices_S512x512_S128x512_256_0) bitsLt_bf16_f32) := by
  show StableHlo.after hostOps2 _ (Proc.devRef .tc main_v78) = _
  after_results_simp <;> rfl

theorem host_2_main_v80 (W : Valuation τ sig (Elt F)) :
    StableHlo.after hostOps2 W (Proc.devRef .tc main_v80)
      = (truncf .bf16 (rowBlock128 ![384, 0] (layerOf S3x512x512 S1x512x512 S512x512 ![0, 0, 0] (W (Proc.devRef .tc main_arg16)) slices_S3x512x512_S1x512x512_0_0_0 shapeCasts_S1x512x512_S512x512) slices_S512x512_S128x512_384_0) bitsLt_bf16_f32) := by
  show StableHlo.after hostOps2 _ (Proc.devRef .tc main_v80) = _
  after_results_simp <;> rfl

theorem host_2_main_v81 (W : Valuation τ sig (Elt F)) :
    StableHlo.after hostOps2 W (Proc.devRef .tc main_v81)
      = (truncf .bf16 (layerOf S3x512x512 S1x512x512 S512x512 ![0, 0, 0] (W (Proc.devRef .tc main_arg18)) slices_S3x512x512_S1x512x512_0_0_0 shapeCasts_S1x512x512_S512x512) bitsLt_bf16_f32) := by
  show StableHlo.after hostOps2 _ (Proc.devRef .tc main_v81) = _
  after_results_simp <;> rfl

theorem host_2_main_v82 (W : Valuation τ sig (Elt F)) :
    StableHlo.after hostOps2 W (Proc.devRef .tc main_v82)
      = (truncf .bf16 (layerOf S3x512x128 S1x512x128 S512x128 ![0, 0, 0] (W (Proc.devRef .tc main_arg20)) slices_S3x512x128_S1x512x128_0_0_0 shapeCasts_S1x512x128_S512x128) bitsLt_bf16_f32) := by
  show StableHlo.after hostOps2 _ (Proc.devRef .tc main_v82) = _
  after_results_simp <;> rfl

theorem host_2_main_v83 (W : Valuation τ sig (Elt F)) :
    StableHlo.after hostOps2 W (Proc.devRef .tc main_v83)
      = rowOf512 (layerOf S3x512 S1x512 S512 ![0, 0] (W (Proc.devRef .tc main_arg17)) slices_S3x512_S1x512_0_0 shapeCasts_S1x512_S512) := by
  show StableHlo.after hostOps2 _ (Proc.devRef .tc main_v83) = _
  after_results_simp <;> rfl

theorem host_2_main_v84 (W : Valuation τ sig (Elt F)) :
    StableHlo.after hostOps2 W (Proc.devRef .tc main_v84)
      = rowOf512 (layerOf S3x512 S1x512 S512 ![0, 0] (W (Proc.devRef .tc main_arg19)) slices_S3x512_S1x512_0_0 shapeCasts_S1x512_S512) := by
  show StableHlo.after hostOps2 _ (Proc.devRef .tc main_v84) = _
  after_results_simp <;> rfl

theorem host_2_main_v85 (W : Valuation τ sig (Elt F)) :
    StableHlo.after hostOps2 W (Proc.devRef .tc main_v85)
      = rowOf128 (layerOf S3x128 S1x128 S128 ![0, 0] (W (Proc.devRef .tc main_arg21)) slices_S3x128_S1x128_0_0 shapeCasts_S1x128_S128) := by
  show StableHlo.after hostOps2 _ (Proc.devRef .tc main_v85) = _
  after_results_simp <;> rfl

end Cert.KernelIdeal.Hand

end
-- ==== Proof.LibNary3.lean ====
/-
  An n-ary host operation over a LITERAL family of three references (a concatenate of three operands):
    * `nary3_result`: what it leaves at its result buffer, each operand's contents at its own reference
      (`Fin.cons (F ↑x0) …` in place of `fun k => F ↑(![x0, x1, x2] k)`) — the analogue, for three operands, of
      Lib/StableHlo/Run.lean's `nary4_result`;
    * `nary3_result'`: the same stated for `simp` (the result reference un-indexed);
    * `after_results_simp3`: the contents one buffer holds after a line of operations, computed in one `simp` pass as
      Run.lean's `after_results_simp` does, with the literal-family forms for three and for four operands and without
      the general n-ary form (under whose binder no operand's contents can be rewritten further).
-/
import Idealize.ShloMosaic.Lib.StableHlo.Run

noncomputable section

namespace Idealize.ShloMosaic.StableHlo

variable {τ : Topo} {sig : RefSig} {Val : EltTy → Type}

/-- `nary` over a literal family of 3 references: the result with each operand's contents at its own reference, so that
    the rewriting of the operands' contents goes on under it. -/
theorem nary3_result {x0 x1 x2 y : Ref sig .tc}
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (Proc.devRef .tc y)
      = f (Fin.cons (F (Proc.devRef .tc x0)) (Fin.cons (F (Proc.devRef .tc x1)) (Fin.cons (F (Proc.devRef .tc x2)) (fun i => i.elim0)))) := by
  rw [nary_result]; congr 1; funext k; fin_cases k <;> rfl
/-- The same, stated for `simp` (the result reference un-indexed). -/
theorem nary3_result' {x0 x1 x2 y : Ref sig .tc}
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (no_index (Proc.devRef .tc y))
      = f (Fin.cons (F (Proc.devRef .tc x0)) (Fin.cons (F (Proc.devRef .tc x1)) (Fin.cons (F (Proc.devRef .tc x2)) (fun i => i.elim0)))) :=
  nary3_result f hxs hy F

/-- `after_results_simp` for a line whose n-ary operations have three or four operands: one `simp` pass over the result
    lemmas, each n-ary result read with its operands' contents at their own references. -/
macro "after_results_simp3" : tactic =>
  `(tactic| (simp (disch := decide) only [after_cons, after_nil,
      nullary_result', unary_result', binary_result', ternary_result', quaternary_result', reshape_result',
      nary3_result', nary4_result', unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.KI.HostC.lean ====
/-
  What the host lines `hostOps3` leave in each buffer that is read after them, as a value of
  the contents `W` the device's buffers hold when the lines start, read only at the buffers the lines themselves read:
    * `hostOps3`: the node network's operands: its input, assembled from the sums over each node's outgoing and incoming edges, and this step's layer of the weights;
  each value one of the named functions of KI/HostDefs.lean applied to those contents, a change of float format a factor
  of its own outside them. Stated over arbitrary contents `W`.
-/
import proofs.«147763_j11003706212366_2_alg».proof.Proof.Gen.KernelIdeal.Launch
import proofs.«147763_j11003706212366_2_alg».proof.Proof.KI.HostDefs
import Idealize.ShloMosaic.Lib.StableHlo.Run
import proofs.«147763_j11003706212366_2_alg».proof.Proof.LibNary3

noncomputable section

namespace Cert.KernelIdeal.Hand

open Idealize.ShloMosaic Idealize.ShloMosaic.TcCoe
open Idealize.SL.Sem
open Cert.KernelIdeal Cert.KernelIdeal.Gen

variable {F : FTy → Type} [FloatOps F]

/-! ## `hostOps3` -/

theorem host_3_main_v113 (W : Valuation τ sig (Elt F)) :
    StableHlo.after hostOps3 W (Proc.devRef .tc main_v113)
      = (truncf .bf16 (nodeIn (W (Proc.devRef .tc main_v15)) (sumAtNodes (W (Proc.devRef .tc main_v86_0)) (W (Proc.devRef .tc main_v1))) (sumAtNodes (W (Proc.devRef .tc main_v86_0)) (W (Proc.devRef .tc main_v3))) (graphRowsAtNodes (W (Proc.devRef .tc main_arg3)) (W (Proc.devRef .tc main_arg4)))) bitsLt_bf16_f32) := by
  show StableHlo.after hostOps3 _ (Proc.devRef .tc main_v113) = _
  after_results_simp3 <;> rfl

theorem host_3_main_v114 (W : Valuation τ sig (Elt F)) :
    StableHlo.after hostOps3 W (Proc.devRef .tc main_v114)
      = (truncf .bf16 (layerOf S3x512x512 S1x512x512 S512x512 ![0, 0, 0] (W (Proc.devRef .tc main_arg22)) slices_S3x512x512_S1x512x512_0_0_0 shapeCasts_S1x512x512_S512x512) bitsLt_bf16_f32) := by
  show StableHlo.after hostOps3 _ (Proc.devRef .tc main_v114) = _
  after_results_simp3 <;> rfl

theorem host_3_main_v115 (W : Valuation τ sig (Elt F)) :
    StableHlo.after hostOps3 W (Proc.devRef .tc main_v115)
      = (truncf .bf16 (layerOf S3x512x512 S1x512x512 S512x512 ![0, 0, 0] (W (Proc.devRef .tc main_arg24)) slices_S3x512x512_S1x512x512_0_0_0 shapeCasts_S1x512x512_S512x512) bitsLt_bf16_f32) := by
  show StableHlo.after hostOps3 _ (Proc.devRef .tc main_v115) = _
  after_results_simp3 <;> rfl

theorem host_3_main_v116 (W : Valuation τ sig (Elt F)) :
    StableHlo.after hostOps3 W (Proc.devRef .tc main_v116)
      = (truncf .bf16 (layerOf S3x512x128 S1x512x128 S512x128 ![0, 0, 0] (W (Proc.devRef .tc main_arg26)) slices_S3x512x128_S1x512x128_0_0_0 shapeCasts_S1x512x128_S512x128) bitsLt_bf16_f32) := by
  show StableHlo.after hostOps3 _ (Proc.devRef .tc main_v116) = _
  after_results_simp3 <;> rfl

theorem host_3_main_v117 (W : Valuation τ sig (Elt F)) :
    StableHlo.after hostOps3 W (Proc.devRef .tc main_v117)
      = rowOf512 (layerOf S3x512 S1x512 S512 ![0, 0] (W (Proc.devRef .tc main_arg23)) slices_S3x512_S1x512_0_0 shapeCasts_S1x512_S512) := by
  show StableHlo.after hostOps3 _ (Proc.devRef .tc main_v117) = _
  after_results_simp3 <;> rfl

theorem host_3_main_v118 (W : Valuation τ sig (Elt F)) :
    StableHlo.after hostOps3 W (Proc.devRef .tc main_v118)
      = rowOf512 (layerOf S3x512 S1x512 S512 ![0, 0] (W (Proc.devRef .tc main_arg25)) slices_S3x512_S1x512_0_0 shapeCasts_S1x512_S512) := by
  show StableHlo.after hostOps3 _ (Proc.devRef .tc main_v118) = _
  after_results_simp3 <;> rfl

theorem host_3_main_v119 (W : Valuation τ sig (Elt F)) :
    StableHlo.after hostOps3 W (Proc.devRef .tc main_v119)
      = rowOf128 (layerOf S3x128 S1x128 S128 ![0, 0] (W (Proc.devRef .tc main_arg27)) slices_S3x128_S1x128_0_0 shapeCasts_S1x128_S128) := by
  show StableHlo.after hostOps3 _ (Proc.devRef .tc main_v119) = _
  after_results_simp3 <;> rfl

end Cert.KernelIdeal.Hand

end
-- ==== Proof.KI.HostD.lean ====
/-
  What the host lines `hostOps4`, `hostOps5`, `hostOps6` leave in each buffer that is read after them, as a value of
  the contents `W` the device's buffers hold when the lines start, read only at the buffers the lines themselves read:
    * `hostOps4`: the graph network's operands: its input, assembled from the sums over each graph's nodes and edges, and this step's layer of the weights;
    * `hostOps5`: the node and graph features with the step's update added, and the decoder's operands;
    * `hostOps6`: the decoded positions recentred about each graph's mean, and the next step's position network operands;
  each value one of the named functions of KI/HostDefs.lean applied to those contents, a change of float format a factor
  of its own outside them. Stated over arbitrary contents `W`.
-/
import proofs.«147763_j11003706212366_2_alg».proof.Proof.Gen.KernelIdeal.Launch
import proofs.«147763_j11003706212366_2_alg».proof.Proof.KI.HostDefs
import Idealize.ShloMosaic.Lib.StableHlo.Run
import proofs.«147763_j11003706212366_2_alg».proof.Proof.LibNary3

noncomputable section

namespace Cert.KernelIdeal.Hand

open Idealize.ShloMosaic Idealize.ShloMosaic.TcCoe
open Idealize.SL.Sem
open Cert.KernelIdeal Cert.KernelIdeal.Gen

variable {F : FTy → Type} [FloatOps F]

/-! ## `hostOps4` -/

theorem host_4_main_v140 (W : Valuation τ sig (Elt F)) :
    StableHlo.after hostOps4 W (Proc.devRef .tc main_v140)
      = (truncf .bf16 (globIn (W (Proc.devRef .tc main_arg3)) (sumNodesAtGraphs (W (Proc.devRef .tc main_v120)) (W (Proc.devRef .tc main_arg4))) (sumEdgesAtGraphs (W (Proc.devRef .tc main_v86_0)) (W (Proc.devRef .tc main_arg5)))) bitsLt_bf16_f32) := by
  show StableHlo.after hostOps4 _ (Proc.devRef .tc main_v140) = _
  after_results_simp3 <;> rfl

theorem host_4_main_v141 (W : Valuation τ sig (Elt F)) :
    StableHlo.after hostOps4 W (Proc.devRef .tc main_v141)
      = (truncf .bf16 (layerOf S2x384x512 S1x384x512 S384x512 ![0, 0, 0] (W (Proc.devRef .tc main_arg28)) slices_S2x384x512_S1x384x512_0_0_0 shapeCasts_S1x384x512_S384x512) bitsLt_bf16_f32) := by
  show StableHlo.after hostOps4 _ (Proc.devRef .tc main_v141) = _
  after_results_simp3 <;> rfl

theorem host_4_main_v142 (W : Valuation τ sig (Elt F)) :
    StableHlo.after hostOps4 W (Proc.devRef .tc main_v142)
      = (truncf .bf16 (layerOf S2x512x512 S1x512x512 S512x512 ![0, 0, 0] (W (Proc.devRef .tc main_arg30)) slices_S2x512x512_S1x512x512_0_0_0 shapeCasts_S1x512x512_S512x512) bitsLt_bf16_f32) := by
  show StableHlo.after hostOps4 _ (Proc.devRef .tc main_v142) = _
  after_results_simp3 <;> rfl

theorem host_4_main_v143 (W : Valuation τ sig (Elt F)) :
    StableHlo.after hostOps4 W (Proc.devRef .tc main_v143)
      = (truncf .bf16 (layerOf S2x512x128 S1x512x128 S512x128 ![0, 0, 0] (W (Proc.devRef .tc main_arg32)) slices_S2x512x128_S1x512x128_0_0_0 shapeCasts_S1x512x128_S512x128) bitsLt_bf16_f32) := by
  show StableHlo.after hostOps4 _ (Proc.devRef .tc main_v143) = _
  after_results_simp3 <;> rfl

theorem host_4_main_v144 (W : Valuation τ sig (Elt F)) :
    StableHlo.after hostOps4 W (Proc.devRef .tc main_v144)
      = rowOf512 (layerOf S2x512 S1x512 S512 ![0, 0] (W (Proc.devRef .tc main_arg29)) slices_S2x512_S1x512_0_0 shapeCasts_S1x512_S512) := by
  show StableHlo.after hostOps4 _ (Proc.devRef .tc main_v144) = _
  after_results_simp3 <;> rfl

theorem host_4_main_v145 (W : Valuation τ sig (Elt F)) :
    StableHlo.after hostOps4 W (Proc.devRef .tc main_v145)
      = rowOf512 (layerOf S2x512 S1x512 S512 ![0, 0] (W (Proc.devRef .tc main_arg31)) slices_S2x512_S1x512_0_0 shapeCasts_S1x512_S512) := by
  show StableHlo.after hostOps4 _ (Proc.devRef .tc main_v145) = _
  after_results_simp3 <;> rfl

theorem host_4_main_v146 (W : Valuation τ sig (Elt F)) :
    StableHlo.after hostOps4 W (Proc.devRef .tc main_v146)
      = rowOf128 (layerOf S2x128 S1x128 S128 ![0, 0] (W (Proc.devRef .tc main_arg33)) slices_S2x128_S1x128_0_0 shapeCasts_S1x128_S128) := by
  show StableHlo.after hostOps4 _ (Proc.devRef .tc main_v146) = _
  after_results_simp3 <;> rfl

/-! ## `hostOps5` -/

theorem host_5_main_v148 (W : Valuation τ sig (Elt F)) :
    StableHlo.after hostOps5 W (Proc.devRef .tc main_v148)
      = addf (W (Proc.devRef .tc main_v120)) (W (Proc.devRef .tc main_arg0)) := by
  show StableHlo.after hostOps5 _ (Proc.devRef .tc main_v148) = _
  after_results_simp <;> rfl

theorem host_5_main_v149 (W : Valuation τ sig (Elt F)) :
    StableHlo.after hostOps5 W (Proc.devRef .tc main_v149)
      = addf (W (Proc.devRef .tc main_v147)) (W (Proc.devRef .tc main_arg3)) := by
  show StableHlo.after hostOps5 _ (Proc.devRef .tc main_v149) = _
  after_results_simp <;> rfl

theorem host_5_main_v150 (W : Valuation τ sig (Elt F)) :
    StableHlo.after hostOps5 W (Proc.devRef .tc main_v150)
      = (truncf .bf16 (addf (W (Proc.devRef .tc main_v120)) (W (Proc.devRef .tc main_arg0))) bitsLt_bf16_f32) := by
  show StableHlo.after hostOps5 _ (Proc.devRef .tc main_v150) = _
  after_results_simp <;> rfl

theorem host_5_main_v151 (W : Valuation τ sig (Elt F)) :
    StableHlo.after hostOps5 W (Proc.devRef .tc main_v151)
      = (truncf .bf16 (W (Proc.devRef .tc main_arg34)) bitsLt_bf16_f32) := by
  show StableHlo.after hostOps5 _ (Proc.devRef .tc main_v151) = _
  after_results_simp <;> rfl

theorem host_5_main_v152 (W : Valuation τ sig (Elt F)) :
    StableHlo.after hostOps5 W (Proc.devRef .tc main_v152)
      = (truncf .bf16 (W (Proc.devRef .tc main_arg36)) bitsLt_bf16_f32) := by
  show StableHlo.after hostOps5 _ (Proc.devRef .tc main_v152) = _
  after_results_simp <;> rfl

theorem host_5_main_v153 (W : Valuation τ sig (Elt F)) :
    StableHlo.after hostOps5 W (Proc.devRef .tc main_v153)
      = rowOf128 (W (Proc.devRef .tc main_arg35)) := by
  show StableHlo.after hostOps5 _ (Proc.devRef .tc main_v153) = _
  after_results_simp <;> rfl

theorem host_5_main_v154 (W : Valuation τ sig (Elt F)) :
    StableHlo.after hostOps5 W (Proc.devRef .tc main_v154)
      = rowOf3 (W (Proc.devRef .tc main_arg37)) := by
  show StableHlo.after hostOps5 _ (Proc.devRef .tc main_v154) = _
  after_results_simp <;> rfl

/-! ## `hostOps6` -/

theorem host_6_main_v168 (W : Valuation τ sig (Elt F)) :
    StableHlo.after hostOps6 W (Proc.devRef .tc main_v168)
      = move2origin (W (Proc.devRef .tc main_v155)) (W (Proc.devRef .tc main_arg4)) (W (Proc.devRef .tc main_v9)) := by
  show StableHlo.after hostOps6 _ (Proc.devRef .tc main_v168) = _
  after_results_simp <;> rfl

theorem host_6_main_v169 (W : Valuation τ sig (Elt F)) :
    StableHlo.after hostOps6 W (Proc.devRef .tc main_v169)
      = (truncf .bf16 (move2origin (W (Proc.devRef .tc main_v155)) (W (Proc.devRef .tc main_arg4)) (W (Proc.devRef .tc main_v9))) bitsLt_bf16_f32) := by
  show StableHlo.after hostOps6 _ (Proc.devRef .tc main_v169) = _
  after_results_simp <;> rfl

theorem host_6_main_v170 (W : Valuation τ sig (Elt F)) :
    StableHlo.after hostOps6 W (Proc.devRef .tc main_v170)
      = (truncf .bf16 (W (Proc.devRef .tc main_arg8)) bitsLt_bf16_f32) := by
  show StableHlo.after hostOps6 _ (Proc.devRef .tc main_v170) = _
  after_results_simp <;> rfl

theorem host_6_main_v171 (W : Valuation τ sig (Elt F)) :
    StableHlo.after hostOps6 W (Proc.devRef .tc main_v171)
      = (truncf .bf16 (W (Proc.devRef .tc main_arg10)) bitsLt_bf16_f32) := by
  show StableHlo.after hostOps6 _ (Proc.devRef .tc main_v171) = _
  after_results_simp <;> rfl

theorem host_6_main_v172 (W : Valuation τ sig (Elt F)) :
    StableHlo.after hostOps6 W (Proc.devRef .tc main_v172)
      = rowOf128 (W (Proc.devRef .tc main_arg9)) := by
  show StableHlo.after hostOps6 _ (Proc.devRef .tc main_v172) = _
  after_results_simp <;> rfl

theorem host_6_main_v173 (W : Valuation τ sig (Elt F)) :
    StableHlo.after hostOps6 W (Proc.devRef .tc main_v173)
      = rowOf128 (W (Proc.devRef .tc main_arg11)) := by
  show StableHlo.after hostOps6 _ (Proc.devRef .tc main_v173) = _
  after_results_simp <;> rfl

end Cert.KernelIdeal.Hand

end
-- ==== Proof.KI.HostE.lean ====
/-
  What the host lines `hostOps7`, `hostOps7_1`, `hostOps7_2` leave in each buffer that is read after them, as a value of
  the contents `W` the device's buffers hold when the lines start, read only at the buffers the lines themselves read:
    * `hostOps7`: the vector along each edge between the current positions of its two nodes;
    * `hostOps7_1`: the length of each edge's vector;
    * `hostOps7_2`: the distance network's operands;
  each value one of the named functions of KI/HostDefs.lean applied to those contents, a change of float format a factor
  of its own outside them. Stated over arbitrary contents `W`.
-/
import proofs.«147763_j11003706212366_2_alg».proof.Proof.Gen.KernelIdeal.Launch
import proofs.«147763_j11003706212366_2_alg».proof.Proof.KI.HostDefs
import Idealize.ShloMosaic.Lib.StableHlo.Run

noncomputable section

namespace Cert.KernelIdeal.Hand

open Idealize.ShloMosaic Idealize.ShloMosaic.TcCoe
open Idealize.SL.Sem
open Cert.KernelIdeal Cert.KernelIdeal.Gen

variable {F : FTy → Type} [FloatOps F]

/-! ## `hostOps7` -/

theorem host_7_main_v189 (W : Valuation τ sig (Elt F)) :
    StableHlo.after hostOps7 W (Proc.devRef .tc main_v189)
      = relPos (W (Proc.devRef .tc main_v168)) (W (Proc.devRef .tc main_v1)) (W (Proc.devRef .tc main_v3)) := by
  show StableHlo.after hostOps7 _ (Proc.devRef .tc main_v189) = _
  after_results_simp <;> rfl

/-! ## `hostOps7_1` -/

theorem host_7_1_main_v190 (W : Valuation τ sig (Elt F)) :
    StableHlo.after hostOps7_1 W (Proc.devRef .tc main_v190)
      = lenOf (W (Proc.devRef .tc main_v189)) := by
  show StableHlo.after hostOps7_1 _ (Proc.devRef .tc main_v190) = _
  after_results_simp <;> rfl

/-! ## `hostOps7_2` -/

theorem host_7_2_main_v191 (W : Valuation τ sig (Elt F)) :
    StableHlo.after hostOps7_2 W (Proc.devRef .tc main_v191)
      = (truncf .bf16 (W (Proc.devRef .tc main_v190)) bitsLt_bf16_f32) := by
  show StableHlo.after hostOps7_2 _ (Proc.devRef .tc main_v191) = _
  after_results_simp <;> rfl

theorem host_7_2_main_v192 (W : Valuation τ sig (Elt F)) :
    StableHlo.after hostOps7_2 W (Proc.devRef .tc main_v192)
      = (truncf .bf16 (W (Proc.devRef .tc main_arg12)) bitsLt_bf16_f32) := by
  show StableHlo.after hostOps7_2 _ (Proc.devRef .tc main_v192) = _
  after_results_simp <;> rfl

theorem host_7_2_main_v193 (W : Valuation τ sig (Elt F)) :
    StableHlo.after hostOps7_2 W (Proc.devRef .tc main_v193)
      = (truncf .bf16 (W (Proc.devRef .tc main_arg14)) bitsLt_bf16_f32) := by
  show StableHlo.after hostOps7_2 _ (Proc.devRef .tc main_v193) = _
  after_results_simp <;> rfl

theorem host_7_2_main_v194 (W : Valuation τ sig (Elt F)) :
    StableHlo.after hostOps7_2 W (Proc.devRef .tc main_v194)
      = rowOf128 (W (Proc.devRef .tc main_arg13)) := by
  show StableHlo.after hostOps7_2 _ (Proc.devRef .tc main_v194) = _
  after_results_simp <;> rfl

theorem host_7_2_main_v195 (W : Valuation τ sig (Elt F)) :
    StableHlo.after hostOps7_2 W (Proc.devRef .tc main_v195)
      = rowOf128 (W (Proc.devRef .tc main_arg15)) := by
  show StableHlo.after hostOps7_2 _ (Proc.devRef .tc main_v195) = _
  after_results_simp <;> rfl

end Cert.KernelIdeal.Hand

end
-- ==== Proof.KI.HostF.lean ====
/-
  What the host lines `hostOps8` leave in each buffer that is read after them, as a value of
  the contents `W` the device's buffers hold when the lines start, read only at the buffers the lines themselves read:
    * `hostOps8`: the edge network's operands: the rows gathered at each edge's two nodes and at its graph, and this step's layer of the weights, the first matrix in its four row blocks;
  each value one of the named functions of KI/HostDefs.lean applied to those contents, a change of float format a factor
  of its own outside them. Stated over arbitrary contents `W`.
-/
import proofs.«147763_j11003706212366_2_alg».proof.Proof.Gen.KernelIdeal.Launch
import proofs.«147763_j11003706212366_2_alg».proof.Proof.KI.HostDefs
import Idealize.ShloMosaic.Lib.StableHlo.Run

noncomputable section

namespace Cert.KernelIdeal.Hand

open Idealize.ShloMosaic Idealize.ShloMosaic.TcCoe
open Idealize.SL.Sem
open Cert.KernelIdeal Cert.KernelIdeal.Gen

variable {F : FTy → Type} [FloatOps F]

/-! ## `hostOps8` -/

theorem host_8_main_v205 (W : Valuation τ sig (Elt F)) :
    StableHlo.after hostOps8 W (Proc.devRef .tc main_v205)
      = nodeRowsAt (truncf .bf16 (W (Proc.devRef .tc main_v174)) bitsLt_bf16_f32) (W (Proc.devRef .tc main_v1)) := by
  show StableHlo.after hostOps8 _ (Proc.devRef .tc main_v205) = _
  after_results_simp <;> rfl

theorem host_8_main_v212 (W : Valuation τ sig (Elt F)) :
    StableHlo.after hostOps8 W (Proc.devRef .tc main_v212)
      = nodeRowsAt (truncf .bf16 (W (Proc.devRef .tc main_v174)) bitsLt_bf16_f32) (W (Proc.devRef .tc main_v3)) := by
  show StableHlo.after hostOps8 _ (Proc.devRef .tc main_v212) = _
  after_results_simp <;> rfl

theorem host_8_main_v219 (W : Valuation τ sig (Elt F)) :
    StableHlo.after hostOps8 W (Proc.devRef .tc main_v219)
      = graphRowsAtEdges (truncf .bf16 (W (Proc.devRef .tc main_v149)) bitsLt_bf16_f32) (W (Proc.devRef .tc main_arg5)) := by
  show StableHlo.after hostOps8 _ (Proc.devRef .tc main_v219) = _
  after_results_simp <;> rfl

theorem host_8_main_v233 (W : Valuation τ sig (Elt F)) :
    StableHlo.after hostOps8 W (Proc.devRef .tc main_v233)
      = (truncf .bf16 (rowBlock128 ![0, 0] (layerOf S3x512x512 S1x512x512 S512x512 ![1, 0, 0] (W (Proc.devRef .tc main_arg16)) slices_S3x512x512_S1x512x512_1_0_0 shapeCasts_S1x512x512_S512x512) slices_S512x512_S128x512_0_0) bitsLt_bf16_f32) := by
  show StableHlo.after hostOps8 _ (Proc.devRef .tc main_v233) = _
  after_results_simp <;> rfl

theorem host_8_main_v235 (W : Valuation τ sig (Elt F)) :
    StableHlo.after hostOps8 W (Proc.devRef .tc main_v235)
      = (truncf .bf16 (rowBlock128 ![128, 0] (layerOf S3x512x512 S1x512x512 S512x512 ![1, 0, 0] (W (Proc.devRef .tc main_arg16)) slices_S3x512x512_S1x512x512_1_0_0 shapeCasts_S1x512x512_S512x512) slices_S512x512_S128x512_128_0) bitsLt_bf16_f32) := by
  show StableHlo.after hostOps8 _ (Proc.devRef .tc main_v235) = _
  after_results_simp <;> rfl

theorem host_8_main_v237 (W : Valuation τ sig (Elt F)) :
    StableHlo.after hostOps8 W (Proc.devRef .tc main_v237)
      = (truncf .bf16 (rowBlock128 ![256, 0] (layerOf S3x512x512 S1x512x512 S512x512 ![1, 0, 0] (W (Proc.devRef .tc main_arg16)) slices_S3x512x512_S1x512x512_1_0_0 shapeCasts_S1x512x512_S512x512) slices_S512x512_S128x512_256_0) bitsLt_bf16_f32) := by
  show StableHlo.after hostOps8 _ (Proc.devRef .tc main_v237) = _
  after_results_simp <;> rfl

theorem host_8_main_v239 (W : Valuation τ sig (Elt F)) :
    StableHlo.after hostOps8 W (Proc.devRef .tc main_v239)
      = (truncf .bf16 (rowBlock128 ![384, 0] (layerOf S3x512x512 S1x512x512 S512x512 ![1, 0, 0] (W (Proc.devRef .tc main_arg16)) slices_S3x512x512_S1x512x512_1_0_0 shapeCasts_S1x512x512_S512x512) slices_S512x512_S128x512_384_0) bitsLt_bf16_f32) := by
  show StableHlo.after hostOps8 _ (Proc.devRef .tc main_v239) = _
  after_results_simp <;> rfl

theorem host_8_main_v240 (W : Valuation τ sig (Elt F)) :
    StableHlo.after hostOps8 W (Proc.devRef .tc main_v240)
      = (truncf .bf16 (layerOf S3x512x512 S1x512x512 S512x512 ![1, 0, 0] (W (Proc.devRef .tc main_arg18)) slices_S3x512x512_S1x512x512_1_0_0 shapeCasts_S1x512x512_S512x512) bitsLt_bf16_f32) := by
  show StableHlo.after hostOps8 _ (Proc.devRef .tc main_v240) = _
  after_results_simp <;> rfl

theorem host_8_main_v241 (W : Valuation τ sig (Elt F)) :
    StableHlo.after hostOps8 W (Proc.devRef .tc main_v241)
      = (truncf .bf16 (layerOf S3x512x128 S1x512x128 S512x128 ![1, 0, 0] (W (Proc.devRef .tc main_arg20)) slices_S3x512x128_S1x512x128_1_0_0 shapeCasts_S1x512x128_S512x128) bitsLt_bf16_f32) := by
  show StableHlo.after hostOps8 _ (Proc.devRef .tc main_v241) = _
  after_results_simp <;> rfl

theorem host_8_main_v242 (W : Valuation τ sig (Elt F)) :
    StableHlo.after hostOps8 W (Proc.devRef .tc main_v242)
      = rowOf512 (layerOf S3x512 S1x512 S512 ![1, 0] (W (Proc.devRef .tc main_arg17)) slices_S3x512_S1x512_1_0 shapeCasts_S1x512_S512) := by
  show StableHlo.after hostOps8 _ (Proc.devRef .tc main_v242) = _
  after_results_simp <;> rfl

theorem host_8_main_v243 (W : Valuation τ sig (Elt F)) :
    StableHlo.after hostOps8 W (Proc.devRef .tc main_v243)
      = rowOf512 (layerOf S3x512 S1x512 S512 ![1, 0] (W (Proc.devRef .tc main_arg19)) slices_S3x512_S1x512_1_0 shapeCasts_S1x512_S512) := by
  show StableHlo.after hostOps8 _ (Proc.devRef .tc main_v243) = _
  after_results_simp <;> rfl

theorem host_8_main_v244 (W : Valuation τ sig (Elt F)) :
    StableHlo.after hostOps8 W (Proc.devRef .tc main_v244)
      = rowOf128 (layerOf S3x128 S1x128 S128 ![1, 0] (W (Proc.devRef .tc main_arg21)) slices_S3x128_S1x128_1_0 shapeCasts_S1x128_S128) := by
  show StableHlo.after hostOps8 _ (Proc.devRef .tc main_v244) = _
  after_results_simp <;> rfl

end Cert.KernelIdeal.Hand

end
-- ==== Proof.KI.HostG.lean ====
/-
  What the host lines `hostOps9` leave in each buffer that is read after them, as a value of
  the contents `W` the device's buffers hold when the lines start, read only at the buffers the lines themselves read:
    * `hostOps9`: the node network's operands: its input, assembled from the sums over each node's outgoing and incoming edges, and this step's layer of the weights;
  each value one of the named functions of KI/HostDefs.lean applied to those contents, a change of float format a factor
  of its own outside them. Stated over arbitrary contents `W`.
-/
import proofs.«147763_j11003706212366_2_alg».proof.Proof.Gen.KernelIdeal.Launch
import proofs.«147763_j11003706212366_2_alg».proof.Proof.KI.HostDefs
import Idealize.ShloMosaic.Lib.StableHlo.Run
import proofs.«147763_j11003706212366_2_alg».proof.Proof.LibNary3

noncomputable section

namespace Cert.KernelIdeal.Hand

open Idealize.ShloMosaic Idealize.ShloMosaic.TcCoe
open Idealize.SL.Sem
open Cert.KernelIdeal Cert.KernelIdeal.Gen

variable {F : FTy → Type} [FloatOps F]

/-! ## `hostOps9` -/

theorem host_9_main_v272 (W : Valuation τ sig (Elt F)) :
    StableHlo.after hostOps9 W (Proc.devRef .tc main_v272)
      = (truncf .bf16 (nodeIn (W (Proc.devRef .tc main_v174)) (sumAtNodes (W (Proc.devRef .tc main_v245_0)) (W (Proc.devRef .tc main_v1))) (sumAtNodes (W (Proc.devRef .tc main_v245_0)) (W (Proc.devRef .tc main_v3))) (graphRowsAtNodes (W (Proc.devRef .tc main_v149)) (W (Proc.devRef .tc main_arg4)))) bitsLt_bf16_f32) := by
  show StableHlo.after hostOps9 _ (Proc.devRef .tc main_v272) = _
  after_results_simp3 <;> rfl

theorem host_9_main_v273 (W : Valuation τ sig (Elt F)) :
    StableHlo.after hostOps9 W (Proc.devRef .tc main_v273)
      = (truncf .bf16 (layerOf S3x512x512 S1x512x512 S512x512 ![1, 0, 0] (W (Proc.devRef .tc main_arg22)) slices_S3x512x512_S1x512x512_1_0_0 shapeCasts_S1x512x512_S512x512) bitsLt_bf16_f32) := by
  show StableHlo.after hostOps9 _ (Proc.devRef .tc main_v273) = _
  after_results_simp3 <;> rfl

theorem host_9_main_v274 (W : Valuation τ sig (Elt F)) :
    StableHlo.after hostOps9 W (Proc.devRef .tc main_v274)
      = (truncf .bf16 (layerOf S3x512x512 S1x512x512 S512x512 ![1, 0, 0] (W (Proc.devRef .tc main_arg24)) slices_S3x512x512_S1x512x512_1_0_0 shapeCasts_S1x512x512_S512x512) bitsLt_bf16_f32) := by
  show StableHlo.after hostOps9 _ (Proc.devRef .tc main_v274) = _
  after_results_simp3 <;> rfl

theorem host_9_main_v275 (W : Valuation τ sig (Elt F)) :
    StableHlo.after hostOps9 W (Proc.devRef .tc main_v275)
      = (truncf .bf16 (layerOf S3x512x128 S1x512x128 S512x128 ![1, 0, 0] (W (Proc.devRef .tc main_arg26)) slices_S3x512x128_S1x512x128_1_0_0 shapeCasts_S1x512x128_S512x128) bitsLt_bf16_f32) := by
  show StableHlo.after hostOps9 _ (Proc.devRef .tc main_v275) = _
  after_results_simp3 <;> rfl

theorem host_9_main_v276 (W : Valuation τ sig (Elt F)) :
    StableHlo.after hostOps9 W (Proc.devRef .tc main_v276)
      = rowOf512 (layerOf S3x512 S1x512 S512 ![1, 0] (W (Proc.devRef .tc main_arg23)) slices_S3x512_S1x512_1_0 shapeCasts_S1x512_S512) := by
  show StableHlo.after hostOps9 _ (Proc.devRef .tc main_v276) = _
  after_results_simp3 <;> rfl

theorem host_9_main_v277 (W : Valuation τ sig (Elt F)) :
    StableHlo.after hostOps9 W (Proc.devRef .tc main_v277)
      = rowOf512 (layerOf S3x512 S1x512 S512 ![1, 0] (W (Proc.devRef .tc main_arg25)) slices_S3x512_S1x512_1_0 shapeCasts_S1x512_S512) := by
  show StableHlo.after hostOps9 _ (Proc.devRef .tc main_v277) = _
  after_results_simp3 <;> rfl

theorem host_9_main_v278 (W : Valuation τ sig (Elt F)) :
    StableHlo.after hostOps9 W (Proc.devRef .tc main_v278)
      = rowOf128 (layerOf S3x128 S1x128 S128 ![1, 0] (W (Proc.devRef .tc main_arg27)) slices_S3x128_S1x128_1_0 shapeCasts_S1x128_S128) := by
  show StableHlo.after hostOps9 _ (Proc.devRef .tc main_v278) = _
  after_results_simp3 <;> rfl

end Cert.KernelIdeal.Hand

end
-- ==== Proof.KI.HostH.lean ====
/-
  What the host lines `hostOps10`, `hostOps11`, `hostOps12` leave in each buffer that is read after them, as a value of
  the contents `W` the device's buffers hold when the lines start, read only at the buffers the lines themselves read:
    * `hostOps10`: the graph network's operands: its input, assembled from the sums over each graph's nodes and edges, and this step's layer of the weights;
    * `hostOps11`: the node and graph features with the step's update added, and the decoder's operands;
    * `hostOps12`: the decoded positions recentred about each graph's mean, and the next step's position network operands;
  each value one of the named functions of KI/HostDefs.lean applied to those contents, a change of float format a factor
  of its own outside them. Stated over arbitrary contents `W`.
-/
import proofs.«147763_j11003706212366_2_alg».proof.Proof.Gen.KernelIdeal.Launch
import proofs.«147763_j11003706212366_2_alg».proof.Proof.KI.HostDefs
import Idealize.ShloMosaic.Lib.StableHlo.Run
import proofs.«147763_j11003706212366_2_alg».proof.Proof.LibNary3

noncomputable section

namespace Cert.KernelIdeal.Hand

open Idealize.ShloMosaic Idealize.ShloMosaic.TcCoe
open Idealize.SL.Sem
open Cert.KernelIdeal Cert.KernelIdeal.Gen

variable {F : FTy → Type} [FloatOps F]

/-! ## `hostOps10` -/

theorem host_10_main_v299 (W : Valuation τ sig (Elt F)) :
    StableHlo.after hostOps10 W (Proc.devRef .tc main_v299)
      = (truncf .bf16 (globIn (W (Proc.devRef .tc main_v149)) (sumNodesAtGraphs (W (Proc.devRef .tc main_v279)) (W (Proc.devRef .tc main_arg4))) (sumEdgesAtGraphs (W (Proc.devRef .tc main_v245_0)) (W (Proc.devRef .tc main_arg5)))) bitsLt_bf16_f32) := by
  show StableHlo.after hostOps10 _ (Proc.devRef .tc main_v299) = _
  after_results_simp3 <;> rfl

theorem host_10_main_v300 (W : Valuation τ sig (Elt F)) :
    StableHlo.after hostOps10 W (Proc.devRef .tc main_v300)
      = (truncf .bf16 (layerOf S2x384x512 S1x384x512 S384x512 ![1, 0, 0] (W (Proc.devRef .tc main_arg28)) slices_S2x384x512_S1x384x512_1_0_0 shapeCasts_S1x384x512_S384x512) bitsLt_bf16_f32) := by
  show StableHlo.after hostOps10 _ (Proc.devRef .tc main_v300) = _
  after_results_simp3 <;> rfl

theorem host_10_main_v301 (W : Valuation τ sig (Elt F)) :
    StableHlo.after hostOps10 W (Proc.devRef .tc main_v301)
      = (truncf .bf16 (layerOf S2x512x512 S1x512x512 S512x512 ![1, 0, 0] (W (Proc.devRef .tc main_arg30)) slices_S2x512x512_S1x512x512_1_0_0 shapeCasts_S1x512x512_S512x512) bitsLt_bf16_f32) := by
  show StableHlo.after hostOps10 _ (Proc.devRef .tc main_v301) = _
  after_results_simp3 <;> rfl

theorem host_10_main_v302 (W : Valuation τ sig (Elt F)) :
    StableHlo.after hostOps10 W (Proc.devRef .tc main_v302)
      = (truncf .bf16 (layerOf S2x512x128 S1x512x128 S512x128 ![1, 0, 0] (W (Proc.devRef .tc main_arg32)) slices_S2x512x128_S1x512x128_1_0_0 shapeCasts_S1x512x128_S512x128) bitsLt_bf16_f32) := by
  show StableHlo.after hostOps10 _ (Proc.devRef .tc main_v302) = _
  after_results_simp3 <;> rfl

theorem host_10_main_v303 (W : Valuation τ sig (Elt F)) :
    StableHlo.after hostOps10 W (Proc.devRef .tc main_v303)
      = rowOf512 (layerOf S2x512 S1x512 S512 ![1, 0] (W (Proc.devRef .tc main_arg29)) slices_S2x512_S1x512_1_0 shapeCasts_S1x512_S512) := by
  show StableHlo.after hostOps10 _ (Proc.devRef .tc main_v303) = _
  after_results_simp3 <;> rfl

theorem host_10_main_v304 (W : Valuation τ sig (Elt F)) :
    StableHlo.after hostOps10 W (Proc.devRef .tc main_v304)
      = rowOf512 (layerOf S2x512 S1x512 S512 ![1, 0] (W (Proc.devRef .tc main_arg31)) slices_S2x512_S1x512_1_0 shapeCasts_S1x512_S512) := by
  show StableHlo.after hostOps10 _ (Proc.devRef .tc main_v304) = _
  after_results_simp3 <;> rfl

theorem host_10_main_v305 (W : Valuation τ sig (Elt F)) :
    StableHlo.after hostOps10 W (Proc.devRef .tc main_v305)
      = rowOf128 (layerOf S2x128 S1x128 S128 ![1, 0] (W (Proc.devRef .tc main_arg33)) slices_S2x128_S1x128_1_0 shapeCasts_S1x128_S128) := by
  show StableHlo.after hostOps10 _ (Proc.devRef .tc main_v305) = _
  after_results_simp3 <;> rfl

/-! ## `hostOps11` -/

theorem host_11_main_v307 (W : Valuation τ sig (Elt F)) :
    StableHlo.after hostOps11 W (Proc.devRef .tc main_v307)
      = addf (W (Proc.devRef .tc main_v279)) (W (Proc.devRef .tc main_v148)) := by
  show StableHlo.after hostOps11 _ (Proc.devRef .tc main_v307) = _
  after_results_simp <;> rfl

theorem host_11_main_v308 (W : Valuation τ sig (Elt F)) :
    StableHlo.after hostOps11 W (Proc.devRef .tc main_v308)
      = addf (W (Proc.devRef .tc main_v306)) (W (Proc.devRef .tc main_v149)) := by
  show StableHlo.after hostOps11 _ (Proc.devRef .tc main_v308) = _
  after_results_simp <;> rfl

theorem host_11_main_v309 (W : Valuation τ sig (Elt F)) :
    StableHlo.after hostOps11 W (Proc.devRef .tc main_v309)
      = (truncf .bf16 (addf (W (Proc.devRef .tc main_v279)) (W (Proc.devRef .tc main_v148))) bitsLt_bf16_f32) := by
  show StableHlo.after hostOps11 _ (Proc.devRef .tc main_v309) = _
  after_results_simp <;> rfl

theorem host_11_main_v310 (W : Valuation τ sig (Elt F)) :
    StableHlo.after hostOps11 W (Proc.devRef .tc main_v310)
      = (truncf .bf16 (W (Proc.devRef .tc main_arg34)) bitsLt_bf16_f32) := by
  show StableHlo.after hostOps11 _ (Proc.devRef .tc main_v310) = _
  after_results_simp <;> rfl

theorem host_11_main_v311 (W : Valuation τ sig (Elt F)) :
    StableHlo.after hostOps11 W (Proc.devRef .tc main_v311)
      = (truncf .bf16 (W (Proc.devRef .tc main_arg36)) bitsLt_bf16_f32) := by
  show StableHlo.after hostOps11 _ (Proc.devRef .tc main_v311) = _
  after_results_simp <;> rfl

theorem host_11_main_v312 (W : Valuation τ sig (Elt F)) :
    StableHlo.after hostOps11 W (Proc.devRef .tc main_v312)
      = rowOf128 (W (Proc.devRef .tc main_arg35)) := by
  show StableHlo.after hostOps11 _ (Proc.devRef .tc main_v312) = _
  after_results_simp <;> rfl

theorem host_11_main_v313 (W : Valuation τ sig (Elt F)) :
    StableHlo.after hostOps11 W (Proc.devRef .tc main_v313)
      = rowOf3 (W (Proc.devRef .tc main_arg37)) := by
  show StableHlo.after hostOps11 _ (Proc.devRef .tc main_v313) = _
  after_results_simp <;> rfl

/-! ## `hostOps12` -/

theorem host_12_main_v327 (W : Valuation τ sig (Elt F)) :
    StableHlo.after hostOps12 W (Proc.devRef .tc main_v327)
      = move2origin (W (Proc.devRef .tc main_v314)) (W (Proc.devRef .tc main_arg4)) (W (Proc.devRef .tc main_v9)) := by
  show StableHlo.after hostOps12 _ (Proc.devRef .tc main_v327) = _
  after_results_simp <;> rfl

theorem host_12_main_v328 (W : Valuation τ sig (Elt F)) :
    StableHlo.after hostOps12 W (Proc.devRef .tc main_v328)
      = (truncf .bf16 (move2origin (W (Proc.devRef .tc main_v314)) (W (Proc.devRef .tc main_arg4)) (W (Proc.devRef .tc main_v9))) bitsLt_bf16_f32) := by
  show StableHlo.after hostOps12 _ (Proc.devRef .tc main_v328) = _
  after_results_simp <;> rfl

theorem host_12_main_v329 (W : Valuation τ sig (Elt F)) :
    StableHlo.after hostOps12 W (Proc.devRef .tc main_v329)
      = (truncf .bf16 (W (Proc.devRef .tc main_arg8)) bitsLt_bf16_f32) := by
  show StableHlo.after hostOps12 _ (Proc.devRef .tc main_v329) = _
  after_results_simp <;> rfl

theorem host_12_main_v330 (W : Valuation τ sig (Elt F)) :
    StableHlo.after hostOps12 W (Proc.devRef .tc main_v330)
      = (truncf .bf16 (W (Proc.devRef .tc main_arg10)) bitsLt_bf16_f32) := by
  show StableHlo.after hostOps12 _ (Proc.devRef .tc main_v330) = _
  after_results_simp <;> rfl

theorem host_12_main_v331 (W : Valuation τ sig (Elt F)) :
    StableHlo.after hostOps12 W (Proc.devRef .tc main_v331)
      = rowOf128 (W (Proc.devRef .tc main_arg9)) := by
  show StableHlo.after hostOps12 _ (Proc.devRef .tc main_v331) = _
  after_results_simp <;> rfl

theorem host_12_main_v332 (W : Valuation τ sig (Elt F)) :
    StableHlo.after hostOps12 W (Proc.devRef .tc main_v332)
      = rowOf128 (W (Proc.devRef .tc main_arg11)) := by
  show StableHlo.after hostOps12 _ (Proc.devRef .tc main_v332) = _
  after_results_simp <;> rfl

end Cert.KernelIdeal.Hand

end
-- ==== Proof.KI.HostI.lean ====
/-
  What the host lines `hostOps13`, `hostOps13_1`, `hostOps13_2` leave in each buffer that is read after them, as a value of
  the contents `W` the device's buffers hold when the lines start, read only at the buffers the lines themselves read:
    * `hostOps13`: the vector along each edge between the current positions of its two nodes;
    * `hostOps13_1`: the length of each edge's vector;
    * `hostOps13_2`: the distance network's operands;
  each value one of the named functions of KI/HostDefs.lean applied to those contents, a change of float format a factor
  of its own outside them. Stated over arbitrary contents `W`.
-/
import proofs.«147763_j11003706212366_2_alg».proof.Proof.Gen.KernelIdeal.Launch
import proofs.«147763_j11003706212366_2_alg».proof.Proof.KI.HostDefs
import Idealize.ShloMosaic.Lib.StableHlo.Run

noncomputable section

namespace Cert.KernelIdeal.Hand

open Idealize.ShloMosaic Idealize.ShloMosaic.TcCoe
open Idealize.SL.Sem
open Cert.KernelIdeal Cert.KernelIdeal.Gen

variable {F : FTy → Type} [FloatOps F]

/-! ## `hostOps13` -/

theorem host_13_main_v348 (W : Valuation τ sig (Elt F)) :
    StableHlo.after hostOps13 W (Proc.devRef .tc main_v348)
      = relPos (W (Proc.devRef .tc main_v327)) (W (Proc.devRef .tc main_v1)) (W (Proc.devRef .tc main_v3)) := by
  show StableHlo.after hostOps13 _ (Proc.devRef .tc main_v348) = _
  after_results_simp <;> rfl

/-! ## `hostOps13_1` -/

theorem host_13_1_main_v349 (W : Valuation τ sig (Elt F)) :
    StableHlo.after hostOps13_1 W (Proc.devRef .tc main_v349)
      = lenOf (W (Proc.devRef .tc main_v348)) := by
  show StableHlo.after hostOps13_1 _ (Proc.devRef .tc main_v349) = _
  after_results_simp <;> rfl

/-! ## `hostOps13_2` -/

theorem host_13_2_main_v350 (W : Valuation τ sig (Elt F)) :
    StableHlo.after hostOps13_2 W (Proc.devRef .tc main_v350)
      = (truncf .bf16 (W (Proc.devRef .tc main_v349)) bitsLt_bf16_f32) := by
  show StableHlo.after hostOps13_2 _ (Proc.devRef .tc main_v350) = _
  after_results_simp <;> rfl

theorem host_13_2_main_v351 (W : Valuation τ sig (Elt F)) :
    StableHlo.after hostOps13_2 W (Proc.devRef .tc main_v351)
      = (truncf .bf16 (W (Proc.devRef .tc main_arg12)) bitsLt_bf16_f32) := by
  show StableHlo.after hostOps13_2 _ (Proc.devRef .tc main_v351) = _
  after_results_simp <;> rfl

theorem host_13_2_main_v352 (W : Valuation τ sig (Elt F)) :
    StableHlo.after hostOps13_2 W (Proc.devRef .tc main_v352)
      = (truncf .bf16 (W (Proc.devRef .tc main_arg14)) bitsLt_bf16_f32) := by
  show StableHlo.after hostOps13_2 _ (Proc.devRef .tc main_v352) = _
  after_results_simp <;> rfl

theorem host_13_2_main_v353 (W : Valuation τ sig (Elt F)) :
    StableHlo.after hostOps13_2 W (Proc.devRef .tc main_v353)
      = rowOf128 (W (Proc.devRef .tc main_arg13)) := by
  show StableHlo.after hostOps13_2 _ (Proc.devRef .tc main_v353) = _
  after_results_simp <;> rfl

theorem host_13_2_main_v354 (W : Valuation τ sig (Elt F)) :
    StableHlo.after hostOps13_2 W (Proc.devRef .tc main_v354)
      = rowOf128 (W (Proc.devRef .tc main_arg15)) := by
  show StableHlo.after hostOps13_2 _ (Proc.devRef .tc main_v354) = _
  after_results_simp <;> rfl

end Cert.KernelIdeal.Hand

end
-- ==== Proof.KI.HostJ.lean ====
/-
  What the host lines `hostOps14` leave in each buffer that is read after them, as a value of
  the contents `W` the device's buffers hold when the lines start, read only at the buffers the lines themselves read:
    * `hostOps14`: the edge network's operands: the rows gathered at each edge's two nodes and at its graph, and this step's layer of the weights, the first matrix in its four row blocks;
  each value one of the named functions of KI/HostDefs.lean applied to those contents, a change of float format a factor
  of its own outside them. Stated over arbitrary contents `W`.
-/
import proofs.«147763_j11003706212366_2_alg».proof.Proof.Gen.KernelIdeal.Launch
import proofs.«147763_j11003706212366_2_alg».proof.Proof.KI.HostDefs
import Idealize.ShloMosaic.Lib.StableHlo.Run

noncomputable section

namespace Cert.KernelIdeal.Hand

open Idealize.ShloMosaic Idealize.ShloMosaic.TcCoe
open Idealize.SL.Sem
open Cert.KernelIdeal Cert.KernelIdeal.Gen

variable {F : FTy → Type} [FloatOps F]

/-! ## `hostOps14` -/

theorem host_14_main_v364 (W : Valuation τ sig (Elt F)) :
    StableHlo.after hostOps14 W (Proc.devRef .tc main_v364)
      = nodeRowsAt (truncf .bf16 (W (Proc.devRef .tc main_v333)) bitsLt_bf16_f32) (W (Proc.devRef .tc main_v1)) := by
  show StableHlo.after hostOps14 _ (Proc.devRef .tc main_v364) = _
  after_results_simp <;> rfl

theorem host_14_main_v371 (W : Valuation τ sig (Elt F)) :
    StableHlo.after hostOps14 W (Proc.devRef .tc main_v371)
      = nodeRowsAt (truncf .bf16 (W (Proc.devRef .tc main_v333)) bitsLt_bf16_f32) (W (Proc.devRef .tc main_v3)) := by
  show StableHlo.after hostOps14 _ (Proc.devRef .tc main_v371) = _
  after_results_simp <;> rfl

theorem host_14_main_v378 (W : Valuation τ sig (Elt F)) :
    StableHlo.after hostOps14 W (Proc.devRef .tc main_v378)
      = graphRowsAtEdges (truncf .bf16 (W (Proc.devRef .tc main_v308)) bitsLt_bf16_f32) (W (Proc.devRef .tc main_arg5)) := by
  show StableHlo.after hostOps14 _ (Proc.devRef .tc main_v378) = _
  after_results_simp <;> rfl

theorem host_14_main_v392 (W : Valuation τ sig (Elt F)) :
    StableHlo.after hostOps14 W (Proc.devRef .tc main_v392)
      = (truncf .bf16 (rowBlock128 ![0, 0] (layerOf S3x512x512 S1x512x512 S512x512 ![2, 0, 0] (W (Proc.devRef .tc main_arg16)) slices_S3x512x512_S1x512x512_2_0_0 shapeCasts_S1x512x512_S512x512) slices_S512x512_S128x512_0_0) bitsLt_bf16_f32) := by
  show StableHlo.after hostOps14 _ (Proc.devRef .tc main_v392) = _
  after_results_simp <;> rfl

theorem host_14_main_v394 (W : Valuation τ sig (Elt F)) :
    StableHlo.after hostOps14 W (Proc.devRef .tc main_v394)
      = (truncf .bf16 (rowBlock128 ![128, 0] (layerOf S3x512x512 S1x512x512 S512x512 ![2, 0, 0] (W (Proc.devRef .tc main_arg16)) slices_S3x512x512_S1x512x512_2_0_0 shapeCasts_S1x512x512_S512x512) slices_S512x512_S128x512_128_0) bitsLt_bf16_f32) := by
  show StableHlo.after hostOps14 _ (Proc.devRef .tc main_v394) = _
  after_results_simp <;> rfl

theorem host_14_main_v396 (W : Valuation τ sig (Elt F)) :
    StableHlo.after hostOps14 W (Proc.devRef .tc main_v396)
      = (truncf .bf16 (rowBlock128 ![256, 0] (layerOf S3x512x512 S1x512x512 S512x512 ![2, 0, 0] (W (Proc.devRef .tc main_arg16)) slices_S3x512x512_S1x512x512_2_0_0 shapeCasts_S1x512x512_S512x512) slices_S512x512_S128x512_256_0) bitsLt_bf16_f32) := by
  show StableHlo.after hostOps14 _ (Proc.devRef .tc main_v396) = _
  after_results_simp <;> rfl

theorem host_14_main_v398 (W : Valuation τ sig (Elt F)) :
    StableHlo.after hostOps14 W (Proc.devRef .tc main_v398)
      = (truncf .bf16 (rowBlock128 ![384, 0] (layerOf S3x512x512 S1x512x512 S512x512 ![2, 0, 0] (W (Proc.devRef .tc main_arg16)) slices_S3x512x512_S1x512x512_2_0_0 shapeCasts_S1x512x512_S512x512) slices_S512x512_S128x512_384_0) bitsLt_bf16_f32) := by
  show StableHlo.after hostOps14 _ (Proc.devRef .tc main_v398) = _
  after_results_simp <;> rfl

theorem host_14_main_v399 (W : Valuation τ sig (Elt F)) :
    StableHlo.after hostOps14 W (Proc.devRef .tc main_v399)
      = (truncf .bf16 (layerOf S3x512x512 S1x512x512 S512x512 ![2, 0, 0] (W (Proc.devRef .tc main_arg18)) slices_S3x512x512_S1x512x512_2_0_0 shapeCasts_S1x512x512_S512x512) bitsLt_bf16_f32) := by
  show StableHlo.after hostOps14 _ (Proc.devRef .tc main_v399) = _
  after_results_simp <;> rfl

theorem host_14_main_v400 (W : Valuation τ sig (Elt F)) :
    StableHlo.after hostOps14 W (Proc.devRef .tc main_v400)
      = (truncf .bf16 (layerOf S3x512x128 S1x512x128 S512x128 ![2, 0, 0] (W (Proc.devRef .tc main_arg20)) slices_S3x512x128_S1x512x128_2_0_0 shapeCasts_S1x512x128_S512x128) bitsLt_bf16_f32) := by
  show StableHlo.after hostOps14 _ (Proc.devRef .tc main_v400) = _
  after_results_simp <;> rfl

theorem host_14_main_v401 (W : Valuation τ sig (Elt F)) :
    StableHlo.after hostOps14 W (Proc.devRef .tc main_v401)
      = rowOf512 (layerOf S3x512 S1x512 S512 ![2, 0] (W (Proc.devRef .tc main_arg17)) slices_S3x512_S1x512_2_0 shapeCasts_S1x512_S512) := by
  show StableHlo.after hostOps14 _ (Proc.devRef .tc main_v401) = _
  after_results_simp <;> rfl

theorem host_14_main_v402 (W : Valuation τ sig (Elt F)) :
    StableHlo.after hostOps14 W (Proc.devRef .tc main_v402)
      = rowOf512 (layerOf S3x512 S1x512 S512 ![2, 0] (W (Proc.devRef .tc main_arg19)) slices_S3x512_S1x512_2_0 shapeCasts_S1x512_S512) := by
  show StableHlo.after hostOps14 _ (Proc.devRef .tc main_v402) = _
  after_results_simp <;> rfl

theorem host_14_main_v403 (W : Valuation τ sig (Elt F)) :
    StableHlo.after hostOps14 W (Proc.devRef .tc main_v403)
      = rowOf128 (layerOf S3x128 S1x128 S128 ![2, 0] (W (Proc.devRef .tc main_arg21)) slices_S3x128_S1x128_2_0 shapeCasts_S1x128_S128) := by
  show StableHlo.after hostOps14 _ (Proc.devRef .tc main_v403) = _
  after_results_simp <;> rfl

end Cert.KernelIdeal.Hand

end
-- ==== Proof.KI.HostK.lean ====
/-
  What the host lines `hostOps15` leave in each buffer that is read after them, as a value of
  the contents `W` the device's buffers hold when the lines start, read only at the buffers the lines themselves read:
    * `hostOps15`: the node network's operands: its input, assembled from the sums over each node's outgoing and incoming edges, and this step's layer of the weights;
  each value one of the named functions of KI/HostDefs.lean applied to those contents, a change of float format a factor
  of its own outside them. Stated over arbitrary contents `W`.
-/
import proofs.«147763_j11003706212366_2_alg».proof.Proof.Gen.KernelIdeal.Launch
import proofs.«147763_j11003706212366_2_alg».proof.Proof.KI.HostDefs
import Idealize.ShloMosaic.Lib.StableHlo.Run
import proofs.«147763_j11003706212366_2_alg».proof.Proof.LibNary3

noncomputable section

namespace Cert.KernelIdeal.Hand

open Idealize.ShloMosaic Idealize.ShloMosaic.TcCoe
open Idealize.SL.Sem
open Cert.KernelIdeal Cert.KernelIdeal.Gen

variable {F : FTy → Type} [FloatOps F]

/-! ## `hostOps15` -/

theorem host_15_main_v431 (W : Valuation τ sig (Elt F)) :
    StableHlo.after hostOps15 W (Proc.devRef .tc main_v431)
      = (truncf .bf16 (nodeIn (W (Proc.devRef .tc main_v333)) (sumAtNodes (W (Proc.devRef .tc main_v404_0)) (W (Proc.devRef .tc main_v1))) (sumAtNodes (W (Proc.devRef .tc main_v404_0)) (W (Proc.devRef .tc main_v3))) (graphRowsAtNodes (W (Proc.devRef .tc main_v308)) (W (Proc.devRef .tc main_arg4)))) bitsLt_bf16_f32) := by
  show StableHlo.after hostOps15 _ (Proc.devRef .tc main_v431) = _
  after_results_simp3 <;> rfl

theorem host_15_main_v432 (W : Valuation τ sig (Elt F)) :
    StableHlo.after hostOps15 W (Proc.devRef .tc main_v432)
      = (truncf .bf16 (layerOf S3x512x512 S1x512x512 S512x512 ![2, 0, 0] (W (Proc.devRef .tc main_arg22)) slices_S3x512x512_S1x512x512_2_0_0 shapeCasts_S1x512x512_S512x512) bitsLt_bf16_f32) := by
  show StableHlo.after hostOps15 _ (Proc.devRef .tc main_v432) = _
  after_results_simp3 <;> rfl

theorem host_15_main_v433 (W : Valuation τ sig (Elt F)) :
    StableHlo.after hostOps15 W (Proc.devRef .tc main_v433)
      = (truncf .bf16 (layerOf S3x512x512 S1x512x512 S512x512 ![2, 0, 0] (W (Proc.devRef .tc main_arg24)) slices_S3x512x512_S1x512x512_2_0_0 shapeCasts_S1x512x512_S512x512) bitsLt_bf16_f32) := by
  show StableHlo.after hostOps15 _ (Proc.devRef .tc main_v433) = _
  after_results_simp3 <;> rfl

theorem host_15_main_v434 (W : Valuation τ sig (Elt F)) :
    StableHlo.after hostOps15 W (Proc.devRef .tc main_v434)
      = (truncf .bf16 (layerOf S3x512x128 S1x512x128 S512x128 ![2, 0, 0] (W (Proc.devRef .tc main_arg26)) slices_S3x512x128_S1x512x128_2_0_0 shapeCasts_S1x512x128_S512x128) bitsLt_bf16_f32) := by
  show StableHlo.after hostOps15 _ (Proc.devRef .tc main_v434) = _
  after_results_simp3 <;> rfl

theorem host_15_main_v435 (W : Valuation τ sig (Elt F)) :
    StableHlo.after hostOps15 W (Proc.devRef .tc main_v435)
      = rowOf512 (layerOf S3x512 S1x512 S512 ![2, 0] (W (Proc.devRef .tc main_arg23)) slices_S3x512_S1x512_2_0 shapeCasts_S1x512_S512) := by
  show StableHlo.after hostOps15 _ (Proc.devRef .tc main_v435) = _
  after_results_simp3 <;> rfl

theorem host_15_main_v436 (W : Valuation τ sig (Elt F)) :
    StableHlo.after hostOps15 W (Proc.devRef .tc main_v436)
      = rowOf512 (layerOf S3x512 S1x512 S512 ![2, 0] (W (Proc.devRef .tc main_arg25)) slices_S3x512_S1x512_2_0 shapeCasts_S1x512_S512) := by
  show StableHlo.after hostOps15 _ (Proc.devRef .tc main_v436) = _
  after_results_simp3 <;> rfl

theorem host_15_main_v437 (W : Valuation τ sig (Elt F)) :
    StableHlo.after hostOps15 W (Proc.devRef .tc main_v437)
      = rowOf128 (layerOf S3x128 S1x128 S128 ![2, 0] (W (Proc.devRef .tc main_arg27)) slices_S3x128_S1x128_2_0 shapeCasts_S1x128_S128) := by
  show StableHlo.after hostOps15 _ (Proc.devRef .tc main_v437) = _
  after_results_simp3 <;> rfl

end Cert.KernelIdeal.Hand

end
-- ==== Proof.KI.HostL.lean ====
/-
  What the host lines `hostOps16`, `hostOps17` leave in each buffer that is read after them, as a value of
  the contents `W` the device's buffers hold when the lines start, read only at the buffers the lines themselves read:
    * `hostOps16`: the node and graph features with the step's update added, and the decoder's operands;
    * `hostOps17`: the last positions recentred, and the three steps' positions stacked;
  each value one of the named functions of KI/HostDefs.lean applied to those contents, a change of float format a factor
  of its own outside them. Stated over arbitrary contents `W`.
-/
import proofs.«147763_j11003706212366_2_alg».proof.Proof.Gen.KernelIdeal.Launch
import proofs.«147763_j11003706212366_2_alg».proof.Proof.KI.HostDefs
import Idealize.ShloMosaic.Lib.StableHlo.Run
import proofs.«147763_j11003706212366_2_alg».proof.Proof.LibNary3

noncomputable section

namespace Cert.KernelIdeal.Hand

open Idealize.ShloMosaic Idealize.ShloMosaic.TcCoe
open Idealize.SL.Sem
open Cert.KernelIdeal Cert.KernelIdeal.Gen

variable {F : FTy → Type} [FloatOps F]

/-! ## `hostOps16` -/

theorem host_16_main_v439 (W : Valuation τ sig (Elt F)) :
    StableHlo.after hostOps16 W (Proc.devRef .tc main_v439)
      = addf (W (Proc.devRef .tc main_v438)) (W (Proc.devRef .tc main_v307)) := by
  show StableHlo.after hostOps16 _ (Proc.devRef .tc main_v439) = _
  after_results_simp <;> rfl

theorem host_16_main_v440 (W : Valuation τ sig (Elt F)) :
    StableHlo.after hostOps16 W (Proc.devRef .tc main_v440)
      = addf (W (Proc.devRef .tc main_v308)) (W (Proc.devRef .tc main_v308)) := by
  show StableHlo.after hostOps16 _ (Proc.devRef .tc main_v440) = _
  after_results_simp <;> rfl

theorem host_16_main_v441 (W : Valuation τ sig (Elt F)) :
    StableHlo.after hostOps16 W (Proc.devRef .tc main_v441)
      = (truncf .bf16 (addf (W (Proc.devRef .tc main_v438)) (W (Proc.devRef .tc main_v307))) bitsLt_bf16_f32) := by
  show StableHlo.after hostOps16 _ (Proc.devRef .tc main_v441) = _
  after_results_simp <;> rfl

theorem host_16_main_v442 (W : Valuation τ sig (Elt F)) :
    StableHlo.after hostOps16 W (Proc.devRef .tc main_v442)
      = (truncf .bf16 (W (Proc.devRef .tc main_arg34)) bitsLt_bf16_f32) := by
  show StableHlo.after hostOps16 _ (Proc.devRef .tc main_v442) = _
  after_results_simp <;> rfl

theorem host_16_main_v443 (W : Valuation τ sig (Elt F)) :
    StableHlo.after hostOps16 W (Proc.devRef .tc main_v443)
      = (truncf .bf16 (W (Proc.devRef .tc main_arg36)) bitsLt_bf16_f32) := by
  show StableHlo.after hostOps16 _ (Proc.devRef .tc main_v443) = _
  after_results_simp <;> rfl

theorem host_16_main_v444 (W : Valuation τ sig (Elt F)) :
    StableHlo.after hostOps16 W (Proc.devRef .tc main_v444)
      = rowOf128 (W (Proc.devRef .tc main_arg35)) := by
  show StableHlo.after hostOps16 _ (Proc.devRef .tc main_v444) = _
  after_results_simp <;> rfl

theorem host_16_main_v445 (W : Valuation τ sig (Elt F)) :
    StableHlo.after hostOps16 W (Proc.devRef .tc main_v445)
      = rowOf3 (W (Proc.devRef .tc main_arg37)) := by
  show StableHlo.after hostOps16 _ (Proc.devRef .tc main_v445) = _
  after_results_simp <;> rfl

/-! ## `hostOps17` -/

theorem host_17_main_v463 (W : Valuation τ sig (Elt F)) :
    StableHlo.after hostOps17 W (Proc.devRef .tc main_v463)
      = stack3 (W (Proc.devRef .tc main_v168)) (W (Proc.devRef .tc main_v327)) (move2origin (W (Proc.devRef .tc main_v446)) (W (Proc.devRef .tc main_arg4)) (W (Proc.devRef .tc main_v9))) := by
  show StableHlo.after hostOps17 _ (Proc.devRef .tc main_v463) = _
  after_results_simp3 <;> rfl

end Cert.KernelIdeal.Hand

end
-- ==== Proof.KI.KFin.lean ====
/- Each host stretch's values, read at the END of the run: every buffer is written by exactly one item of @main, so the
   final contents of a buffer a host stretch writes are the stretch's function of the FINAL contents of the buffers it
   reads (none of which is written again). -/
import proofs.«147763_j11003706212366_2_alg».proof.Proof.KI.HostA
import proofs.«147763_j11003706212366_2_alg».proof.Proof.KI.HostB
import proofs.«147763_j11003706212366_2_alg».proof.Proof.KI.HostC
import proofs.«147763_j11003706212366_2_alg».proof.Proof.KI.HostD
import proofs.«147763_j11003706212366_2_alg».proof.Proof.KI.HostE
import proofs.«147763_j11003706212366_2_alg».proof.Proof.KI.HostF
import proofs.«147763_j11003706212366_2_alg».proof.Proof.KI.HostG
import proofs.«147763_j11003706212366_2_alg».proof.Proof.KI.HostH
import proofs.«147763_j11003706212366_2_alg».proof.Proof.KI.HostI
import proofs.«147763_j11003706212366_2_alg».proof.Proof.KI.HostJ
import proofs.«147763_j11003706212366_2_alg».proof.Proof.KI.HostK
import proofs.«147763_j11003706212366_2_alg».proof.Proof.KI.HostL
import proofs.«147763_j11003706212366_2_alg».proof.Proof.KI.Keep

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem kfin_main_v1 (c : Dev nD) :
    U41 m c (Proc.devRef .tc main_v1)
      = srcOf (U41 m c (Proc.devRef .tc main_arg1)) := by
  rw [keep0 m c main_v1 (by decide +kernel), U1, host_0_main_v1,
    ← keepLaunch m c main_arg1 (by decide +kernel)]

theorem kfin_main_v3 (c : Dev nD) :
    U41 m c (Proc.devRef .tc main_v3)
      = dstOf (U41 m c (Proc.devRef .tc main_arg1)) := by
  rw [keep0 m c main_v3 (by decide +kernel), U1, host_0_main_v3,
    ← keepLaunch m c main_arg1 (by decide +kernel)]

theorem kfin_main_v9 (c : Dev nD) :
    U41 m c (Proc.devRef .tc main_v9)
      = countsOf (U41 m c (Proc.devRef .tc main_arg4)) := by
  rw [keep0 m c main_v9 (by decide +kernel), U1, host_0_main_v9,
    ← keepLaunch m c main_arg4 (by decide +kernel)]

theorem kfin_main_v10 (c : Dev nD) :
    U41 m c (Proc.devRef .tc main_v10)
      = (truncf .bf16 (U41 m c (Proc.devRef .tc main_arg7)) bitsLt_bf16_f32) := by
  rw [keep0 m c main_v10 (by decide +kernel), U1, host_0_main_v10,
    ← keepLaunch m c main_arg7 (by decide +kernel)]

theorem kfin_main_v11 (c : Dev nD) :
    U41 m c (Proc.devRef .tc main_v11)
      = (truncf .bf16 (U41 m c (Proc.devRef .tc main_arg8)) bitsLt_bf16_f32) := by
  rw [keep0 m c main_v11 (by decide +kernel), U1, host_0_main_v11,
    ← keepLaunch m c main_arg8 (by decide +kernel)]

theorem kfin_main_v12 (c : Dev nD) :
    U41 m c (Proc.devRef .tc main_v12)
      = (truncf .bf16 (U41 m c (Proc.devRef .tc main_arg10)) bitsLt_bf16_f32) := by
  rw [keep0 m c main_v12 (by decide +kernel), U1, host_0_main_v12,
    ← keepLaunch m c main_arg10 (by decide +kernel)]

theorem kfin_main_v13 (c : Dev nD) :
    U41 m c (Proc.devRef .tc main_v13)
      = rowOf128 (U41 m c (Proc.devRef .tc main_arg9)) := by
  rw [keep0 m c main_v13 (by decide +kernel), U1, host_0_main_v13,
    ← keepLaunch m c main_arg9 (by decide +kernel)]

theorem kfin_main_v14 (c : Dev nD) :
    U41 m c (Proc.devRef .tc main_v14)
      = rowOf128 (U41 m c (Proc.devRef .tc main_arg11)) := by
  rw [keep0 m c main_v14 (by decide +kernel), U1, host_0_main_v14,
    ← keepLaunch m c main_arg11 (by decide +kernel)]

theorem kfin_main_v30 (c : Dev nD) :
    U41 m c (Proc.devRef .tc main_v30)
      = relPos (U41 m c (Proc.devRef .tc main_arg7)) (U41 m c (Proc.devRef .tc main_v1)) (U41 m c (Proc.devRef .tc main_v3)) := by
  rw [keep2 m c main_v30 (by decide +kernel), U3, host_1_main_v30,
    ← keep1 m c main_arg7 (by decide +kernel),
    ← keep1 m c main_v1 (by decide +kernel),
    ← keep1 m c main_v3 (by decide +kernel)]

theorem kfin_main_v31 (c : Dev nD) :
    U41 m c (Proc.devRef .tc main_v31)
      = lenOf (U41 m c (Proc.devRef .tc main_v30)) := by
  rw [keep3 m c main_v31 (by decide +kernel), U4, host_1_1_main_v31,
    ← keep2 m c main_v30 (by decide +kernel)]

theorem kfin_main_v32 (c : Dev nD) :
    U41 m c (Proc.devRef .tc main_v32)
      = (truncf .bf16 (U41 m c (Proc.devRef .tc main_v31)) bitsLt_bf16_f32) := by
  rw [keep4 m c main_v32 (by decide +kernel), U5, host_1_2_main_v32,
    ← keep3 m c main_v31 (by decide +kernel)]

theorem kfin_main_v33 (c : Dev nD) :
    U41 m c (Proc.devRef .tc main_v33)
      = (truncf .bf16 (U41 m c (Proc.devRef .tc main_arg12)) bitsLt_bf16_f32) := by
  rw [keep4 m c main_v33 (by decide +kernel), U5, host_1_2_main_v33,
    ← keep3 m c main_arg12 (by decide +kernel)]

theorem kfin_main_v34 (c : Dev nD) :
    U41 m c (Proc.devRef .tc main_v34)
      = (truncf .bf16 (U41 m c (Proc.devRef .tc main_arg14)) bitsLt_bf16_f32) := by
  rw [keep4 m c main_v34 (by decide +kernel), U5, host_1_2_main_v34,
    ← keep3 m c main_arg14 (by decide +kernel)]

theorem kfin_main_v35 (c : Dev nD) :
    U41 m c (Proc.devRef .tc main_v35)
      = rowOf128 (U41 m c (Proc.devRef .tc main_arg13)) := by
  rw [keep4 m c main_v35 (by decide +kernel), U5, host_1_2_main_v35,
    ← keep3 m c main_arg13 (by decide +kernel)]

theorem kfin_main_v36 (c : Dev nD) :
    U41 m c (Proc.devRef .tc main_v36)
      = rowOf128 (U41 m c (Proc.devRef .tc main_arg15)) := by
  rw [keep4 m c main_v36 (by decide +kernel), U5, host_1_2_main_v36,
    ← keep3 m c main_arg15 (by decide +kernel)]

theorem kfin_main_v46 (c : Dev nD) :
    U41 m c (Proc.devRef .tc main_v46)
      = nodeRowsAt (truncf .bf16 (U41 m c (Proc.devRef .tc main_v15)) bitsLt_bf16_f32) (U41 m c (Proc.devRef .tc main_v1)) := by
  rw [keep6 m c main_v46 (by decide +kernel), U7, host_2_main_v46,
    ← keep5 m c main_v15 (by decide +kernel),
    ← keep5 m c main_v1 (by decide +kernel)]

theorem kfin_main_v53 (c : Dev nD) :
    U41 m c (Proc.devRef .tc main_v53)
      = nodeRowsAt (truncf .bf16 (U41 m c (Proc.devRef .tc main_v15)) bitsLt_bf16_f32) (U41 m c (Proc.devRef .tc main_v3)) := by
  rw [keep6 m c main_v53 (by decide +kernel), U7, host_2_main_v53,
    ← keep5 m c main_v15 (by decide +kernel),
    ← keep5 m c main_v3 (by decide +kernel)]

theorem kfin_main_v60 (c : Dev nD) :
    U41 m c (Proc.devRef .tc main_v60)
      = graphRowsAtEdges (truncf .bf16 (U41 m c (Proc.devRef .tc main_arg3)) bitsLt_bf16_f32) (U41 m c (Proc.devRef .tc main_arg5)) := by
  rw [keep6 m c main_v60 (by decide +kernel), U7, host_2_main_v60,
    ← keep5 m c main_arg3 (by decide +kernel),
    ← keep5 m c main_arg5 (by decide +kernel)]

theorem kfin_main_v74 (c : Dev nD) :
    U41 m c (Proc.devRef .tc main_v74)
      = (truncf .bf16 (rowBlock128 ![0, 0] (layerOf S3x512x512 S1x512x512 S512x512 ![0, 0, 0] (U41 m c (Proc.devRef .tc main_arg16)) slices_S3x512x512_S1x512x512_0_0_0 shapeCasts_S1x512x512_S512x512) slices_S512x512_S128x512_0_0) bitsLt_bf16_f32) := by
  rw [keep6 m c main_v74 (by decide +kernel), U7, host_2_main_v74,
    ← keep5 m c main_arg16 (by decide +kernel)]

theorem kfin_main_v76 (c : Dev nD) :
    U41 m c (Proc.devRef .tc main_v76)
      = (truncf .bf16 (rowBlock128 ![128, 0] (layerOf S3x512x512 S1x512x512 S512x512 ![0, 0, 0] (U41 m c (Proc.devRef .tc main_arg16)) slices_S3x512x512_S1x512x512_0_0_0 shapeCasts_S1x512x512_S512x512) slices_S512x512_S128x512_128_0) bitsLt_bf16_f32) := by
  rw [keep6 m c main_v76 (by decide +kernel), U7, host_2_main_v76,
    ← keep5 m c main_arg16 (by decide +kernel)]

theorem kfin_main_v78 (c : Dev nD) :
    U41 m c (Proc.devRef .tc main_v78)
      = (truncf .bf16 (rowBlock128 ![256, 0] (layerOf S3x512x512 S1x512x512 S512x512 ![0, 0, 0] (U41 m c (Proc.devRef .tc main_arg16)) slices_S3x512x512_S1x512x512_0_0_0 shapeCasts_S1x512x512_S512x512) slices_S512x512_S128x512_256_0) bitsLt_bf16_f32) := by
  rw [keep6 m c main_v78 (by decide +kernel), U7, host_2_main_v78,
    ← keep5 m c main_arg16 (by decide +kernel)]

theorem kfin_main_v80 (c : Dev nD) :
    U41 m c (Proc.devRef .tc main_v80)
      = (truncf .bf16 (rowBlock128 ![384, 0] (layerOf S3x512x512 S1x512x512 S512x512 ![0, 0, 0] (U41 m c (Proc.devRef .tc main_arg16)) slices_S3x512x512_S1x512x512_0_0_0 shapeCasts_S1x512x512_S512x512) slices_S512x512_S128x512_384_0) bitsLt_bf16_f32) := by
  rw [keep6 m c main_v80 (by decide +kernel), U7, host_2_main_v80,
    ← keep5 m c main_arg16 (by decide +kernel)]

theorem kfin_main_v81 (c : Dev nD) :
    U41 m c (Proc.devRef .tc main_v81)
      = (truncf .bf16 (layerOf S3x512x512 S1x512x512 S512x512 ![0, 0, 0] (U41 m c (Proc.devRef .tc main_arg18)) slices_S3x512x512_S1x512x512_0_0_0 shapeCasts_S1x512x512_S512x512) bitsLt_bf16_f32) := by
  rw [keep6 m c main_v81 (by decide +kernel), U7, host_2_main_v81,
    ← keep5 m c main_arg18 (by decide +kernel)]

theorem kfin_main_v82 (c : Dev nD) :
    U41 m c (Proc.devRef .tc main_v82)
      = (truncf .bf16 (layerOf S3x512x128 S1x512x128 S512x128 ![0, 0, 0] (U41 m c (Proc.devRef .tc main_arg20)) slices_S3x512x128_S1x512x128_0_0_0 shapeCasts_S1x512x128_S512x128) bitsLt_bf16_f32) := by
  rw [keep6 m c main_v82 (by decide +kernel), U7, host_2_main_v82,
    ← keep5 m c main_arg20 (by decide +kernel)]

theorem kfin_main_v83 (c : Dev nD) :
    U41 m c (Proc.devRef .tc main_v83)
      = rowOf512 (layerOf S3x512 S1x512 S512 ![0, 0] (U41 m c (Proc.devRef .tc main_arg17)) slices_S3x512_S1x512_0_0 shapeCasts_S1x512_S512) := by
  rw [keep6 m c main_v83 (by decide +kernel), U7, host_2_main_v83,
    ← keep5 m c main_arg17 (by decide +kernel)]

theorem kfin_main_v84 (c : Dev nD) :
    U41 m c (Proc.devRef .tc main_v84)
      = rowOf512 (layerOf S3x512 S1x512 S512 ![0, 0] (U41 m c (Proc.devRef .tc main_arg19)) slices_S3x512_S1x512_0_0 shapeCasts_S1x512_S512) := by
  rw [keep6 m c main_v84 (by decide +kernel), U7, host_2_main_v84,
    ← keep5 m c main_arg19 (by decide +kernel)]

theorem kfin_main_v85 (c : Dev nD) :
    U41 m c (Proc.devRef .tc main_v85)
      = rowOf128 (layerOf S3x128 S1x128 S128 ![0, 0] (U41 m c (Proc.devRef .tc main_arg21)) slices_S3x128_S1x128_0_0 shapeCasts_S1x128_S128) := by
  rw [keep6 m c main_v85 (by decide +kernel), U7, host_2_main_v85,
    ← keep5 m c main_arg21 (by decide +kernel)]

theorem kfin_main_v113 (c : Dev nD) :
    U41 m c (Proc.devRef .tc main_v113)
      = (truncf .bf16 (nodeIn (U41 m c (Proc.devRef .tc main_v15)) (sumAtNodes (U41 m c (Proc.devRef .tc main_v86_0)) (U41 m c (Proc.devRef .tc main_v1))) (sumAtNodes (U41 m c (Proc.devRef .tc main_v86_0)) (U41 m c (Proc.devRef .tc main_v3))) (graphRowsAtNodes (U41 m c (Proc.devRef .tc main_arg3)) (U41 m c (Proc.devRef .tc main_arg4)))) bitsLt_bf16_f32) := by
  rw [keep8 m c main_v113 (by decide +kernel), U9, host_3_main_v113,
    ← keep7 m c main_v15 (by decide +kernel),
    ← keep7 m c main_v86_0 (by decide +kernel),
    ← keep7 m c main_v1 (by decide +kernel),
    ← keep7 m c main_v3 (by decide +kernel),
    ← keep7 m c main_arg3 (by decide +kernel),
    ← keep7 m c main_arg4 (by decide +kernel)]

theorem kfin_main_v114 (c : Dev nD) :
    U41 m c (Proc.devRef .tc main_v114)
      = (truncf .bf16 (layerOf S3x512x512 S1x512x512 S512x512 ![0, 0, 0] (U41 m c (Proc.devRef .tc main_arg22)) slices_S3x512x512_S1x512x512_0_0_0 shapeCasts_S1x512x512_S512x512) bitsLt_bf16_f32) := by
  rw [keep8 m c main_v114 (by decide +kernel), U9, host_3_main_v114,
    ← keep7 m c main_arg22 (by decide +kernel)]

theorem kfin_main_v115 (c : Dev nD) :
    U41 m c (Proc.devRef .tc main_v115)
      = (truncf .bf16 (layerOf S3x512x512 S1x512x512 S512x512 ![0, 0, 0] (U41 m c (Proc.devRef .tc main_arg24)) slices_S3x512x512_S1x512x512_0_0_0 shapeCasts_S1x512x512_S512x512) bitsLt_bf16_f32) := by
  rw [keep8 m c main_v115 (by decide +kernel), U9, host_3_main_v115,
    ← keep7 m c main_arg24 (by decide +kernel)]

theorem kfin_main_v116 (c : Dev nD) :
    U41 m c (Proc.devRef .tc main_v116)
      = (truncf .bf16 (layerOf S3x512x128 S1x512x128 S512x128 ![0, 0, 0] (U41 m c (Proc.devRef .tc main_arg26)) slices_S3x512x128_S1x512x128_0_0_0 shapeCasts_S1x512x128_S512x128) bitsLt_bf16_f32) := by
  rw [keep8 m c main_v116 (by decide +kernel), U9, host_3_main_v116,
    ← keep7 m c main_arg26 (by decide +kernel)]

theorem kfin_main_v117 (c : Dev nD) :
    U41 m c (Proc.devRef .tc main_v117)
      = rowOf512 (layerOf S3x512 S1x512 S512 ![0, 0] (U41 m c (Proc.devRef .tc main_arg23)) slices_S3x512_S1x512_0_0 shapeCasts_S1x512_S512) := by
  rw [keep8 m c main_v117 (by decide +kernel), U9, host_3_main_v117,
    ← keep7 m c main_arg23 (by decide +kernel)]

theorem kfin_main_v118 (c : Dev nD) :
    U41 m c (Proc.devRef .tc main_v118)
      = rowOf512 (layerOf S3x512 S1x512 S512 ![0, 0] (U41 m c (Proc.devRef .tc main_arg25)) slices_S3x512_S1x512_0_0 shapeCasts_S1x512_S512) := by
  rw [keep8 m c main_v118 (by decide +kernel), U9, host_3_main_v118,
    ← keep7 m c main_arg25 (by decide +kernel)]

theorem kfin_main_v119 (c : Dev nD) :
    U41 m c (Proc.devRef .tc main_v119)
      = rowOf128 (layerOf S3x128 S1x128 S128 ![0, 0] (U41 m c (Proc.devRef .tc main_arg27)) slices_S3x128_S1x128_0_0 shapeCasts_S1x128_S128) := by
  rw [keep8 m c main_v119 (by decide +kernel), U9, host_3_main_v119,
    ← keep7 m c main_arg27 (by decide +kernel)]

theorem kfin_main_v140 (c : Dev nD) :
    U41 m c (Proc.devRef .tc main_v140)
      = (truncf .bf16 (globIn (U41 m c (Proc.devRef .tc main_arg3)) (sumNodesAtGraphs (U41 m c (Proc.devRef .tc main_v120)) (U41 m c (Proc.devRef .tc main_arg4))) (sumEdgesAtGraphs (U41 m c (Proc.devRef .tc main_v86_0)) (U41 m c (Proc.devRef .tc main_arg5)))) bitsLt_bf16_f32) := by
  rw [keep10 m c main_v140 (by decide +kernel), U11, host_4_main_v140,
    ← keep9 m c main_arg3 (by decide +kernel),
    ← keep9 m c main_v120 (by decide +kernel),
    ← keep9 m c main_arg4 (by decide +kernel),
    ← keep9 m c main_v86_0 (by decide +kernel),
    ← keep9 m c main_arg5 (by decide +kernel)]

theorem kfin_main_v141 (c : Dev nD) :
    U41 m c (Proc.devRef .tc main_v141)
      = (truncf .bf16 (layerOf S2x384x512 S1x384x512 S384x512 ![0, 0, 0] (U41 m c (Proc.devRef .tc main_arg28)) slices_S2x384x512_S1x384x512_0_0_0 shapeCasts_S1x384x512_S384x512) bitsLt_bf16_f32) := by
  rw [keep10 m c main_v141 (by decide +kernel), U11, host_4_main_v141,
    ← keep9 m c main_arg28 (by decide +kernel)]

theorem kfin_main_v142 (c : Dev nD) :
    U41 m c (Proc.devRef .tc main_v142)
      = (truncf .bf16 (layerOf S2x512x512 S1x512x512 S512x512 ![0, 0, 0] (U41 m c (Proc.devRef .tc main_arg30)) slices_S2x512x512_S1x512x512_0_0_0 shapeCasts_S1x512x512_S512x512) bitsLt_bf16_f32) := by
  rw [keep10 m c main_v142 (by decide +kernel), U11, host_4_main_v142,
    ← keep9 m c main_arg30 (by decide +kernel)]

theorem kfin_main_v143 (c : Dev nD) :
    U41 m c (Proc.devRef .tc main_v143)
      = (truncf .bf16 (layerOf S2x512x128 S1x512x128 S512x128 ![0, 0, 0] (U41 m c (Proc.devRef .tc main_arg32)) slices_S2x512x128_S1x512x128_0_0_0 shapeCasts_S1x512x128_S512x128) bitsLt_bf16_f32) := by
  rw [keep10 m c main_v143 (by decide +kernel), U11, host_4_main_v143,
    ← keep9 m c main_arg32 (by decide +kernel)]

theorem kfin_main_v144 (c : Dev nD) :
    U41 m c (Proc.devRef .tc main_v144)
      = rowOf512 (layerOf S2x512 S1x512 S512 ![0, 0] (U41 m c (Proc.devRef .tc main_arg29)) slices_S2x512_S1x512_0_0 shapeCasts_S1x512_S512) := by
  rw [keep10 m c main_v144 (by decide +kernel), U11, host_4_main_v144,
    ← keep9 m c main_arg29 (by decide +kernel)]

theorem kfin_main_v145 (c : Dev nD) :
    U41 m c (Proc.devRef .tc main_v145)
      = rowOf512 (layerOf S2x512 S1x512 S512 ![0, 0] (U41 m c (Proc.devRef .tc main_arg31)) slices_S2x512_S1x512_0_0 shapeCasts_S1x512_S512) := by
  rw [keep10 m c main_v145 (by decide +kernel), U11, host_4_main_v145,
    ← keep9 m c main_arg31 (by decide +kernel)]

theorem kfin_main_v146 (c : Dev nD) :
    U41 m c (Proc.devRef .tc main_v146)
      = rowOf128 (layerOf S2x128 S1x128 S128 ![0, 0] (U41 m c (Proc.devRef .tc main_arg33)) slices_S2x128_S1x128_0_0 shapeCasts_S1x128_S128) := by
  rw [keep10 m c main_v146 (by decide +kernel), U11, host_4_main_v146,
    ← keep9 m c main_arg33 (by decide +kernel)]

theorem kfin_main_v148 (c : Dev nD) :
    U41 m c (Proc.devRef .tc main_v148)
      = addf (U41 m c (Proc.devRef .tc main_v120)) (U41 m c (Proc.devRef .tc main_arg0)) := by
  rw [keep12 m c main_v148 (by decide +kernel), U13, host_5_main_v148,
    ← keep11 m c main_v120 (by decide +kernel),
    ← keep11 m c main_arg0 (by decide +kernel)]

theorem kfin_main_v149 (c : Dev nD) :
    U41 m c (Proc.devRef .tc main_v149)
      = addf (U41 m c (Proc.devRef .tc main_v147)) (U41 m c (Proc.devRef .tc main_arg3)) := by
  rw [keep12 m c main_v149 (by decide +kernel), U13, host_5_main_v149,
    ← keep11 m c main_v147 (by decide +kernel),
    ← keep11 m c main_arg3 (by decide +kernel)]

theorem kfin_main_v150 (c : Dev nD) :
    U41 m c (Proc.devRef .tc main_v150)
      = (truncf .bf16 (addf (U41 m c (Proc.devRef .tc main_v120)) (U41 m c (Proc.devRef .tc main_arg0))) bitsLt_bf16_f32) := by
  rw [keep12 m c main_v150 (by decide +kernel), U13, host_5_main_v150,
    ← keep11 m c main_v120 (by decide +kernel),
    ← keep11 m c main_arg0 (by decide +kernel)]

theorem kfin_main_v151 (c : Dev nD) :
    U41 m c (Proc.devRef .tc main_v151)
      = (truncf .bf16 (U41 m c (Proc.devRef .tc main_arg34)) bitsLt_bf16_f32) := by
  rw [keep12 m c main_v151 (by decide +kernel), U13, host_5_main_v151,
    ← keep11 m c main_arg34 (by decide +kernel)]

theorem kfin_main_v152 (c : Dev nD) :
    U41 m c (Proc.devRef .tc main_v152)
      = (truncf .bf16 (U41 m c (Proc.devRef .tc main_arg36)) bitsLt_bf16_f32) := by
  rw [keep12 m c main_v152 (by decide +kernel), U13, host_5_main_v152,
    ← keep11 m c main_arg36 (by decide +kernel)]

theorem kfin_main_v153 (c : Dev nD) :
    U41 m c (Proc.devRef .tc main_v153)
      = rowOf128 (U41 m c (Proc.devRef .tc main_arg35)) := by
  rw [keep12 m c main_v153 (by decide +kernel), U13, host_5_main_v153,
    ← keep11 m c main_arg35 (by decide +kernel)]

theorem kfin_main_v154 (c : Dev nD) :
    U41 m c (Proc.devRef .tc main_v154)
      = rowOf3 (U41 m c (Proc.devRef .tc main_arg37)) := by
  rw [keep12 m c main_v154 (by decide +kernel), U13, host_5_main_v154,
    ← keep11 m c main_arg37 (by decide +kernel)]

theorem kfin_main_v168 (c : Dev nD) :
    U41 m c (Proc.devRef .tc main_v168)
      = move2origin (U41 m c (Proc.devRef .tc main_v155)) (U41 m c (Proc.devRef .tc main_arg4)) (U41 m c (Proc.devRef .tc main_v9)) := by
  rw [keep14 m c main_v168 (by decide +kernel), U15, host_6_main_v168,
    ← keep13 m c main_v155 (by decide +kernel),
    ← keep13 m c main_arg4 (by decide +kernel),
    ← keep13 m c main_v9 (by decide +kernel)]

theorem kfin_main_v169 (c : Dev nD) :
    U41 m c (Proc.devRef .tc main_v169)
      = (truncf .bf16 (move2origin (U41 m c (Proc.devRef .tc main_v155)) (U41 m c (Proc.devRef .tc main_arg4)) (U41 m c (Proc.devRef .tc main_v9))) bitsLt_bf16_f32) := by
  rw [keep14 m c main_v169 (by decide +kernel), U15, host_6_main_v169,
    ← keep13 m c main_v155 (by decide +kernel),
    ← keep13 m c main_arg4 (by decide +kernel),
    ← keep13 m c main_v9 (by decide +kernel)]

theorem kfin_main_v170 (c : Dev nD) :
    U41 m c (Proc.devRef .tc main_v170)
      = (truncf .bf16 (U41 m c (Proc.devRef .tc main_arg8)) bitsLt_bf16_f32) := by
  rw [keep14 m c main_v170 (by decide +kernel), U15, host_6_main_v170,
    ← keep13 m c main_arg8 (by decide +kernel)]

theorem kfin_main_v171 (c : Dev nD) :
    U41 m c (Proc.devRef .tc main_v171)
      = (truncf .bf16 (U41 m c (Proc.devRef .tc main_arg10)) bitsLt_bf16_f32) := by
  rw [keep14 m c main_v171 (by decide +kernel), U15, host_6_main_v171,
    ← keep13 m c main_arg10 (by decide +kernel)]

theorem kfin_main_v172 (c : Dev nD) :
    U41 m c (Proc.devRef .tc main_v172)
      = rowOf128 (U41 m c (Proc.devRef .tc main_arg9)) := by
  rw [keep14 m c main_v172 (by decide +kernel), U15, host_6_main_v172,
    ← keep13 m c main_arg9 (by decide +kernel)]

theorem kfin_main_v173 (c : Dev nD) :
    U41 m c (Proc.devRef .tc main_v173)
      = rowOf128 (U41 m c (Proc.devRef .tc main_arg11)) := by
  rw [keep14 m c main_v173 (by decide +kernel), U15, host_6_main_v173,
    ← keep13 m c main_arg11 (by decide +kernel)]

theorem kfin_main_v189 (c : Dev nD) :
    U41 m c (Proc.devRef .tc main_v189)
      = relPos (U41 m c (Proc.devRef .tc main_v168)) (U41 m c (Proc.devRef .tc main_v1)) (U41 m c (Proc.devRef .tc main_v3)) := by
  rw [keep16 m c main_v189 (by decide +kernel), U17, host_7_main_v189,
    ← keep15 m c main_v168 (by decide +kernel),
    ← keep15 m c main_v1 (by decide +kernel),
    ← keep15 m c main_v3 (by decide +kernel)]

theorem kfin_main_v190 (c : Dev nD) :
    U41 m c (Proc.devRef .tc main_v190)
      = lenOf (U41 m c (Proc.devRef .tc main_v189)) := by
  rw [keep17 m c main_v190 (by decide +kernel), U18, host_7_1_main_v190,
    ← keep16 m c main_v189 (by decide +kernel)]

theorem kfin_main_v191 (c : Dev nD) :
    U41 m c (Proc.devRef .tc main_v191)
      = (truncf .bf16 (U41 m c (Proc.devRef .tc main_v190)) bitsLt_bf16_f32) := by
  rw [keep18 m c main_v191 (by decide +kernel), U19, host_7_2_main_v191,
    ← keep17 m c main_v190 (by decide +kernel)]

theorem kfin_main_v192 (c : Dev nD) :
    U41 m c (Proc.devRef .tc main_v192)
      = (truncf .bf16 (U41 m c (Proc.devRef .tc main_arg12)) bitsLt_bf16_f32) := by
  rw [keep18 m c main_v192 (by decide +kernel), U19, host_7_2_main_v192,
    ← keep17 m c main_arg12 (by decide +kernel)]

theorem kfin_main_v193 (c : Dev nD) :
    U41 m c (Proc.devRef .tc main_v193)
      = (truncf .bf16 (U41 m c (Proc.devRef .tc main_arg14)) bitsLt_bf16_f32) := by
  rw [keep18 m c main_v193 (by decide +kernel), U19, host_7_2_main_v193,
    ← keep17 m c main_arg14 (by decide +kernel)]

theorem kfin_main_v194 (c : Dev nD) :
    U41 m c (Proc.devRef .tc main_v194)
      = rowOf128 (U41 m c (Proc.devRef .tc main_arg13)) := by
  rw [keep18 m c main_v194 (by decide +kernel), U19, host_7_2_main_v194,
    ← keep17 m c main_arg13 (by decide +kernel)]

theorem kfin_main_v195 (c : Dev nD) :
    U41 m c (Proc.devRef .tc main_v195)
      = rowOf128 (U41 m c (Proc.devRef .tc main_arg15)) := by
  rw [keep18 m c main_v195 (by decide +kernel), U19, host_7_2_main_v195,
    ← keep17 m c main_arg15 (by decide +kernel)]

theorem kfin_main_v205 (c : Dev nD) :
    U41 m c (Proc.devRef .tc main_v205)
      = nodeRowsAt (truncf .bf16 (U41 m c (Proc.devRef .tc main_v174)) bitsLt_bf16_f32) (U41 m c (Proc.devRef .tc main_v1)) := by
  rw [keep20 m c main_v205 (by decide +kernel), U21, host_8_main_v205,
    ← keep19 m c main_v174 (by decide +kernel),
    ← keep19 m c main_v1 (by decide +kernel)]

theorem kfin_main_v212 (c : Dev nD) :
    U41 m c (Proc.devRef .tc main_v212)
      = nodeRowsAt (truncf .bf16 (U41 m c (Proc.devRef .tc main_v174)) bitsLt_bf16_f32) (U41 m c (Proc.devRef .tc main_v3)) := by
  rw [keep20 m c main_v212 (by decide +kernel), U21, host_8_main_v212,
    ← keep19 m c main_v174 (by decide +kernel),
    ← keep19 m c main_v3 (by decide +kernel)]

theorem kfin_main_v219 (c : Dev nD) :
    U41 m c (Proc.devRef .tc main_v219)
      = graphRowsAtEdges (truncf .bf16 (U41 m c (Proc.devRef .tc main_v149)) bitsLt_bf16_f32) (U41 m c (Proc.devRef .tc main_arg5)) := by
  rw [keep20 m c main_v219 (by decide +kernel), U21, host_8_main_v219,
    ← keep19 m c main_v149 (by decide +kernel),
    ← keep19 m c main_arg5 (by decide +kernel)]

theorem kfin_main_v233 (c : Dev nD) :
    U41 m c (Proc.devRef .tc main_v233)
      = (truncf .bf16 (rowBlock128 ![0, 0] (layerOf S3x512x512 S1x512x512 S512x512 ![1, 0, 0] (U41 m c (Proc.devRef .tc main_arg16)) slices_S3x512x512_S1x512x512_1_0_0 shapeCasts_S1x512x512_S512x512) slices_S512x512_S128x512_0_0) bitsLt_bf16_f32) := by
  rw [keep20 m c main_v233 (by decide +kernel), U21, host_8_main_v233,
    ← keep19 m c main_arg16 (by decide +kernel)]

theorem kfin_main_v235 (c : Dev nD) :
    U41 m c (Proc.devRef .tc main_v235)
      = (truncf .bf16 (rowBlock128 ![128, 0] (layerOf S3x512x512 S1x512x512 S512x512 ![1, 0, 0] (U41 m c (Proc.devRef .tc main_arg16)) slices_S3x512x512_S1x512x512_1_0_0 shapeCasts_S1x512x512_S512x512) slices_S512x512_S128x512_128_0) bitsLt_bf16_f32) := by
  rw [keep20 m c main_v235 (by decide +kernel), U21, host_8_main_v235,
    ← keep19 m c main_arg16 (by decide +kernel)]

theorem kfin_main_v237 (c : Dev nD) :
    U41 m c (Proc.devRef .tc main_v237)
      = (truncf .bf16 (rowBlock128 ![256, 0] (layerOf S3x512x512 S1x512x512 S512x512 ![1, 0, 0] (U41 m c (Proc.devRef .tc main_arg16)) slices_S3x512x512_S1x512x512_1_0_0 shapeCasts_S1x512x512_S512x512) slices_S512x512_S128x512_256_0) bitsLt_bf16_f32) := by
  rw [keep20 m c main_v237 (by decide +kernel), U21, host_8_main_v237,
    ← keep19 m c main_arg16 (by decide +kernel)]

theorem kfin_main_v239 (c : Dev nD) :
    U41 m c (Proc.devRef .tc main_v239)
      = (truncf .bf16 (rowBlock128 ![384, 0] (layerOf S3x512x512 S1x512x512 S512x512 ![1, 0, 0] (U41 m c (Proc.devRef .tc main_arg16)) slices_S3x512x512_S1x512x512_1_0_0 shapeCasts_S1x512x512_S512x512) slices_S512x512_S128x512_384_0) bitsLt_bf16_f32) := by
  rw [keep20 m c main_v239 (by decide +kernel), U21, host_8_main_v239,
    ← keep19 m c main_arg16 (by decide +kernel)]

theorem kfin_main_v240 (c : Dev nD) :
    U41 m c (Proc.devRef .tc main_v240)
      = (truncf .bf16 (layerOf S3x512x512 S1x512x512 S512x512 ![1, 0, 0] (U41 m c (Proc.devRef .tc main_arg18)) slices_S3x512x512_S1x512x512_1_0_0 shapeCasts_S1x512x512_S512x512) bitsLt_bf16_f32) := by
  rw [keep20 m c main_v240 (by decide +kernel), U21, host_8_main_v240,
    ← keep19 m c main_arg18 (by decide +kernel)]

theorem kfin_main_v241 (c : Dev nD) :
    U41 m c (Proc.devRef .tc main_v241)
      = (truncf .bf16 (layerOf S3x512x128 S1x512x128 S512x128 ![1, 0, 0] (U41 m c (Proc.devRef .tc main_arg20)) slices_S3x512x128_S1x512x128_1_0_0 shapeCasts_S1x512x128_S512x128) bitsLt_bf16_f32) := by
  rw [keep20 m c main_v241 (by decide +kernel), U21, host_8_main_v241,
    ← keep19 m c main_arg20 (by decide +kernel)]

theorem kfin_main_v242 (c : Dev nD) :
    U41 m c (Proc.devRef .tc main_v242)
      = rowOf512 (layerOf S3x512 S1x512 S512 ![1, 0] (U41 m c (Proc.devRef .tc main_arg17)) slices_S3x512_S1x512_1_0 shapeCasts_S1x512_S512) := by
  rw [keep20 m c main_v242 (by decide +kernel), U21, host_8_main_v242,
    ← keep19 m c main_arg17 (by decide +kernel)]

theorem kfin_main_v243 (c : Dev nD) :
    U41 m c (Proc.devRef .tc main_v243)
      = rowOf512 (layerOf S3x512 S1x512 S512 ![1, 0] (U41 m c (Proc.devRef .tc main_arg19)) slices_S3x512_S1x512_1_0 shapeCasts_S1x512_S512) := by
  rw [keep20 m c main_v243 (by decide +kernel), U21, host_8_main_v243,
    ← keep19 m c main_arg19 (by decide +kernel)]

theorem kfin_main_v244 (c : Dev nD) :
    U41 m c (Proc.devRef .tc main_v244)
      = rowOf128 (layerOf S3x128 S1x128 S128 ![1, 0] (U41 m c (Proc.devRef .tc main_arg21)) slices_S3x128_S1x128_1_0 shapeCasts_S1x128_S128) := by
  rw [keep20 m c main_v244 (by decide +kernel), U21, host_8_main_v244,
    ← keep19 m c main_arg21 (by decide +kernel)]

theorem kfin_main_v272 (c : Dev nD) :
    U41 m c (Proc.devRef .tc main_v272)
      = (truncf .bf16 (nodeIn (U41 m c (Proc.devRef .tc main_v174)) (sumAtNodes (U41 m c (Proc.devRef .tc main_v245_0)) (U41 m c (Proc.devRef .tc main_v1))) (sumAtNodes (U41 m c (Proc.devRef .tc main_v245_0)) (U41 m c (Proc.devRef .tc main_v3))) (graphRowsAtNodes (U41 m c (Proc.devRef .tc main_v149)) (U41 m c (Proc.devRef .tc main_arg4)))) bitsLt_bf16_f32) := by
  rw [keep22 m c main_v272 (by decide +kernel), U23, host_9_main_v272,
    ← keep21 m c main_v174 (by decide +kernel),
    ← keep21 m c main_v245_0 (by decide +kernel),
    ← keep21 m c main_v1 (by decide +kernel),
    ← keep21 m c main_v3 (by decide +kernel),
    ← keep21 m c main_v149 (by decide +kernel),
    ← keep21 m c main_arg4 (by decide +kernel)]

theorem kfin_main_v273 (c : Dev nD) :
    U41 m c (Proc.devRef .tc main_v273)
      = (truncf .bf16 (layerOf S3x512x512 S1x512x512 S512x512 ![1, 0, 0] (U41 m c (Proc.devRef .tc main_arg22)) slices_S3x512x512_S1x512x512_1_0_0 shapeCasts_S1x512x512_S512x512) bitsLt_bf16_f32) := by
  rw [keep22 m c main_v273 (by decide +kernel), U23, host_9_main_v273,
    ← keep21 m c main_arg22 (by decide +kernel)]

theorem kfin_main_v274 (c : Dev nD) :
    U41 m c (Proc.devRef .tc main_v274)
      = (truncf .bf16 (layerOf S3x512x512 S1x512x512 S512x512 ![1, 0, 0] (U41 m c (Proc.devRef .tc main_arg24)) slices_S3x512x512_S1x512x512_1_0_0 shapeCasts_S1x512x512_S512x512) bitsLt_bf16_f32) := by
  rw [keep22 m c main_v274 (by decide +kernel), U23, host_9_main_v274,
    ← keep21 m c main_arg24 (by decide +kernel)]

theorem kfin_main_v275 (c : Dev nD) :
    U41 m c (Proc.devRef .tc main_v275)
      = (truncf .bf16 (layerOf S3x512x128 S1x512x128 S512x128 ![1, 0, 0] (U41 m c (Proc.devRef .tc main_arg26)) slices_S3x512x128_S1x512x128_1_0_0 shapeCasts_S1x512x128_S512x128) bitsLt_bf16_f32) := by
  rw [keep22 m c main_v275 (by decide +kernel), U23, host_9_main_v275,
    ← keep21 m c main_arg26 (by decide +kernel)]

theorem kfin_main_v276 (c : Dev nD) :
    U41 m c (Proc.devRef .tc main_v276)
      = rowOf512 (layerOf S3x512 S1x512 S512 ![1, 0] (U41 m c (Proc.devRef .tc main_arg23)) slices_S3x512_S1x512_1_0 shapeCasts_S1x512_S512) := by
  rw [keep22 m c main_v276 (by decide +kernel), U23, host_9_main_v276,
    ← keep21 m c main_arg23 (by decide +kernel)]

theorem kfin_main_v277 (c : Dev nD) :
    U41 m c (Proc.devRef .tc main_v277)
      = rowOf512 (layerOf S3x512 S1x512 S512 ![1, 0] (U41 m c (Proc.devRef .tc main_arg25)) slices_S3x512_S1x512_1_0 shapeCasts_S1x512_S512) := by
  rw [keep22 m c main_v277 (by decide +kernel), U23, host_9_main_v277,
    ← keep21 m c main_arg25 (by decide +kernel)]

theorem kfin_main_v278 (c : Dev nD) :
    U41 m c (Proc.devRef .tc main_v278)
      = rowOf128 (layerOf S3x128 S1x128 S128 ![1, 0] (U41 m c (Proc.devRef .tc main_arg27)) slices_S3x128_S1x128_1_0 shapeCasts_S1x128_S128) := by
  rw [keep22 m c main_v278 (by decide +kernel), U23, host_9_main_v278,
    ← keep21 m c main_arg27 (by decide +kernel)]

theorem kfin_main_v299 (c : Dev nD) :
    U41 m c (Proc.devRef .tc main_v299)
      = (truncf .bf16 (globIn (U41 m c (Proc.devRef .tc main_v149)) (sumNodesAtGraphs (U41 m c (Proc.devRef .tc main_v279)) (U41 m c (Proc.devRef .tc main_arg4))) (sumEdgesAtGraphs (U41 m c (Proc.devRef .tc main_v245_0)) (U41 m c (Proc.devRef .tc main_arg5)))) bitsLt_bf16_f32) := by
  rw [keep24 m c main_v299 (by decide +kernel), U25, host_10_main_v299,
    ← keep23 m c main_v149 (by decide +kernel),
    ← keep23 m c main_v279 (by decide +kernel),
    ← keep23 m c main_arg4 (by decide +kernel),
    ← keep23 m c main_v245_0 (by decide +kernel),
    ← keep23 m c main_arg5 (by decide +kernel)]

theorem kfin_main_v300 (c : Dev nD) :
    U41 m c (Proc.devRef .tc main_v300)
      = (truncf .bf16 (layerOf S2x384x512 S1x384x512 S384x512 ![1, 0, 0] (U41 m c (Proc.devRef .tc main_arg28)) slices_S2x384x512_S1x384x512_1_0_0 shapeCasts_S1x384x512_S384x512) bitsLt_bf16_f32) := by
  rw [keep24 m c main_v300 (by decide +kernel), U25, host_10_main_v300,
    ← keep23 m c main_arg28 (by decide +kernel)]

theorem kfin_main_v301 (c : Dev nD) :
    U41 m c (Proc.devRef .tc main_v301)
      = (truncf .bf16 (layerOf S2x512x512 S1x512x512 S512x512 ![1, 0, 0] (U41 m c (Proc.devRef .tc main_arg30)) slices_S2x512x512_S1x512x512_1_0_0 shapeCasts_S1x512x512_S512x512) bitsLt_bf16_f32) := by
  rw [keep24 m c main_v301 (by decide +kernel), U25, host_10_main_v301,
    ← keep23 m c main_arg30 (by decide +kernel)]

theorem kfin_main_v302 (c : Dev nD) :
    U41 m c (Proc.devRef .tc main_v302)
      = (truncf .bf16 (layerOf S2x512x128 S1x512x128 S512x128 ![1, 0, 0] (U41 m c (Proc.devRef .tc main_arg32)) slices_S2x512x128_S1x512x128_1_0_0 shapeCasts_S1x512x128_S512x128) bitsLt_bf16_f32) := by
  rw [keep24 m c main_v302 (by decide +kernel), U25, host_10_main_v302,
    ← keep23 m c main_arg32 (by decide +kernel)]

theorem kfin_main_v303 (c : Dev nD) :
    U41 m c (Proc.devRef .tc main_v303)
      = rowOf512 (layerOf S2x512 S1x512 S512 ![1, 0] (U41 m c (Proc.devRef .tc main_arg29)) slices_S2x512_S1x512_1_0 shapeCasts_S1x512_S512) := by
  rw [keep24 m c main_v303 (by decide +kernel), U25, host_10_main_v303,
    ← keep23 m c main_arg29 (by decide +kernel)]

theorem kfin_main_v304 (c : Dev nD) :
    U41 m c (Proc.devRef .tc main_v304)
      = rowOf512 (layerOf S2x512 S1x512 S512 ![1, 0] (U41 m c (Proc.devRef .tc main_arg31)) slices_S2x512_S1x512_1_0 shapeCasts_S1x512_S512) := by
  rw [keep24 m c main_v304 (by decide +kernel), U25, host_10_main_v304,
    ← keep23 m c main_arg31 (by decide +kernel)]

theorem kfin_main_v305 (c : Dev nD) :
    U41 m c (Proc.devRef .tc main_v305)
      = rowOf128 (layerOf S2x128 S1x128 S128 ![1, 0] (U41 m c (Proc.devRef .tc main_arg33)) slices_S2x128_S1x128_1_0 shapeCasts_S1x128_S128) := by
  rw [keep24 m c main_v305 (by decide +kernel), U25, host_10_main_v305,
    ← keep23 m c main_arg33 (by decide +kernel)]

theorem kfin_main_v307 (c : Dev nD) :
    U41 m c (Proc.devRef .tc main_v307)
      = addf (U41 m c (Proc.devRef .tc main_v279)) (U41 m c (Proc.devRef .tc main_v148)) := by
  rw [keep26 m c main_v307 (by decide +kernel), U27, host_11_main_v307,
    ← keep25 m c main_v279 (by decide +kernel),
    ← keep25 m c main_v148 (by decide +kernel)]

theorem kfin_main_v308 (c : Dev nD) :
    U41 m c (Proc.devRef .tc main_v308)
      = addf (U41 m c (Proc.devRef .tc main_v306)) (U41 m c (Proc.devRef .tc main_v149)) := by
  rw [keep26 m c main_v308 (by decide +kernel), U27, host_11_main_v308,
    ← keep25 m c main_v306 (by decide +kernel),
    ← keep25 m c main_v149 (by decide +kernel)]

theorem kfin_main_v309 (c : Dev nD) :
    U41 m c (Proc.devRef .tc main_v309)
      = (truncf .bf16 (addf (U41 m c (Proc.devRef .tc main_v279)) (U41 m c (Proc.devRef .tc main_v148))) bitsLt_bf16_f32) := by
  rw [keep26 m c main_v309 (by decide +kernel), U27, host_11_main_v309,
    ← keep25 m c main_v279 (by decide +kernel),
    ← keep25 m c main_v148 (by decide +kernel)]

theorem kfin_main_v310 (c : Dev nD) :
    U41 m c (Proc.devRef .tc main_v310)
      = (truncf .bf16 (U41 m c (Proc.devRef .tc main_arg34)) bitsLt_bf16_f32) := by
  rw [keep26 m c main_v310 (by decide +kernel), U27, host_11_main_v310,
    ← keep25 m c main_arg34 (by decide +kernel)]

theorem kfin_main_v311 (c : Dev nD) :
    U41 m c (Proc.devRef .tc main_v311)
      = (truncf .bf16 (U41 m c (Proc.devRef .tc main_arg36)) bitsLt_bf16_f32) := by
  rw [keep26 m c main_v311 (by decide +kernel), U27, host_11_main_v311,
    ← keep25 m c main_arg36 (by decide +kernel)]

theorem kfin_main_v312 (c : Dev nD) :
    U41 m c (Proc.devRef .tc main_v312)
      = rowOf128 (U41 m c (Proc.devRef .tc main_arg35)) := by
  rw [keep26 m c main_v312 (by decide +kernel), U27, host_11_main_v312,
    ← keep25 m c main_arg35 (by decide +kernel)]

theorem kfin_main_v313 (c : Dev nD) :
    U41 m c (Proc.devRef .tc main_v313)
      = rowOf3 (U41 m c (Proc.devRef .tc main_arg37)) := by
  rw [keep26 m c main_v313 (by decide +kernel), U27, host_11_main_v313,
    ← keep25 m c main_arg37 (by decide +kernel)]

theorem kfin_main_v327 (c : Dev nD) :
    U41 m c (Proc.devRef .tc main_v327)
      = move2origin (U41 m c (Proc.devRef .tc main_v314)) (U41 m c (Proc.devRef .tc main_arg4)) (U41 m c (Proc.devRef .tc main_v9)) := by
  rw [keep28 m c main_v327 (by decide +kernel), U29, host_12_main_v327,
    ← keep27 m c main_v314 (by decide +kernel),
    ← keep27 m c main_arg4 (by decide +kernel),
    ← keep27 m c main_v9 (by decide +kernel)]

theorem kfin_main_v328 (c : Dev nD) :
    U41 m c (Proc.devRef .tc main_v328)
      = (truncf .bf16 (move2origin (U41 m c (Proc.devRef .tc main_v314)) (U41 m c (Proc.devRef .tc main_arg4)) (U41 m c (Proc.devRef .tc main_v9))) bitsLt_bf16_f32) := by
  rw [keep28 m c main_v328 (by decide +kernel), U29, host_12_main_v328,
    ← keep27 m c main_v314 (by decide +kernel),
    ← keep27 m c main_arg4 (by decide +kernel),
    ← keep27 m c main_v9 (by decide +kernel)]

theorem kfin_main_v329 (c : Dev nD) :
    U41 m c (Proc.devRef .tc main_v329)
      = (truncf .bf16 (U41 m c (Proc.devRef .tc main_arg8)) bitsLt_bf16_f32) := by
  rw [keep28 m c main_v329 (by decide +kernel), U29, host_12_main_v329,
    ← keep27 m c main_arg8 (by decide +kernel)]

theorem kfin_main_v330 (c : Dev nD) :
    U41 m c (Proc.devRef .tc main_v330)
      = (truncf .bf16 (U41 m c (Proc.devRef .tc main_arg10)) bitsLt_bf16_f32) := by
  rw [keep28 m c main_v330 (by decide +kernel), U29, host_12_main_v330,
    ← keep27 m c main_arg10 (by decide +kernel)]

theorem kfin_main_v331 (c : Dev nD) :
    U41 m c (Proc.devRef .tc main_v331)
      = rowOf128 (U41 m c (Proc.devRef .tc main_arg9)) := by
  rw [keep28 m c main_v331 (by decide +kernel), U29, host_12_main_v331,
    ← keep27 m c main_arg9 (by decide +kernel)]

theorem kfin_main_v332 (c : Dev nD) :
    U41 m c (Proc.devRef .tc main_v332)
      = rowOf128 (U41 m c (Proc.devRef .tc main_arg11)) := by
  rw [keep28 m c main_v332 (by decide +kernel), U29, host_12_main_v332,
    ← keep27 m c main_arg11 (by decide +kernel)]

theorem kfin_main_v348 (c : Dev nD) :
    U41 m c (Proc.devRef .tc main_v348)
      = relPos (U41 m c (Proc.devRef .tc main_v327)) (U41 m c (Proc.devRef .tc main_v1)) (U41 m c (Proc.devRef .tc main_v3)) := by
  rw [keep30 m c main_v348 (by decide +kernel), U31, host_13_main_v348,
    ← keep29 m c main_v327 (by decide +kernel),
    ← keep29 m c main_v1 (by decide +kernel),
    ← keep29 m c main_v3 (by decide +kernel)]

theorem kfin_main_v349 (c : Dev nD) :
    U41 m c (Proc.devRef .tc main_v349)
      = lenOf (U41 m c (Proc.devRef .tc main_v348)) := by
  rw [keep31 m c main_v349 (by decide +kernel), U32, host_13_1_main_v349,
    ← keep30 m c main_v348 (by decide +kernel)]

theorem kfin_main_v350 (c : Dev nD) :
    U41 m c (Proc.devRef .tc main_v350)
      = (truncf .bf16 (U41 m c (Proc.devRef .tc main_v349)) bitsLt_bf16_f32) := by
  rw [keep32 m c main_v350 (by decide +kernel), U33, host_13_2_main_v350,
    ← keep31 m c main_v349 (by decide +kernel)]

theorem kfin_main_v351 (c : Dev nD) :
    U41 m c (Proc.devRef .tc main_v351)
      = (truncf .bf16 (U41 m c (Proc.devRef .tc main_arg12)) bitsLt_bf16_f32) := by
  rw [keep32 m c main_v351 (by decide +kernel), U33, host_13_2_main_v351,
    ← keep31 m c main_arg12 (by decide +kernel)]

theorem kfin_main_v352 (c : Dev nD) :
    U41 m c (Proc.devRef .tc main_v352)
      = (truncf .bf16 (U41 m c (Proc.devRef .tc main_arg14)) bitsLt_bf16_f32) := by
  rw [keep32 m c main_v352 (by decide +kernel), U33, host_13_2_main_v352,
    ← keep31 m c main_arg14 (by decide +kernel)]

theorem kfin_main_v353 (c : Dev nD) :
    U41 m c (Proc.devRef .tc main_v353)
      = rowOf128 (U41 m c (Proc.devRef .tc main_arg13)) := by
  rw [keep32 m c main_v353 (by decide +kernel), U33, host_13_2_main_v353,
    ← keep31 m c main_arg13 (by decide +kernel)]

theorem kfin_main_v354 (c : Dev nD) :
    U41 m c (Proc.devRef .tc main_v354)
      = rowOf128 (U41 m c (Proc.devRef .tc main_arg15)) := by
  rw [keep32 m c main_v354 (by decide +kernel), U33, host_13_2_main_v354,
    ← keep31 m c main_arg15 (by decide +kernel)]

theorem kfin_main_v364 (c : Dev nD) :
    U41 m c (Proc.devRef .tc main_v364)
      = nodeRowsAt (truncf .bf16 (U41 m c (Proc.devRef .tc main_v333)) bitsLt_bf16_f32) (U41 m c (Proc.devRef .tc main_v1)) := by
  rw [keep34 m c main_v364 (by decide +kernel), U35, host_14_main_v364,
    ← keep33 m c main_v333 (by decide +kernel),
    ← keep33 m c main_v1 (by decide +kernel)]

theorem kfin_main_v371 (c : Dev nD) :
    U41 m c (Proc.devRef .tc main_v371)
      = nodeRowsAt (truncf .bf16 (U41 m c (Proc.devRef .tc main_v333)) bitsLt_bf16_f32) (U41 m c (Proc.devRef .tc main_v3)) := by
  rw [keep34 m c main_v371 (by decide +kernel), U35, host_14_main_v371,
    ← keep33 m c main_v333 (by decide +kernel),
    ← keep33 m c main_v3 (by decide +kernel)]

theorem kfin_main_v378 (c : Dev nD) :
    U41 m c (Proc.devRef .tc main_v378)
      = graphRowsAtEdges (truncf .bf16 (U41 m c (Proc.devRef .tc main_v308)) bitsLt_bf16_f32) (U41 m c (Proc.devRef .tc main_arg5)) := by
  rw [keep34 m c main_v378 (by decide +kernel), U35, host_14_main_v378,
    ← keep33 m c main_v308 (by decide +kernel),
    ← keep33 m c main_arg5 (by decide +kernel)]

theorem kfin_main_v392 (c : Dev nD) :
    U41 m c (Proc.devRef .tc main_v392)
      = (truncf .bf16 (rowBlock128 ![0, 0] (layerOf S3x512x512 S1x512x512 S512x512 ![2, 0, 0] (U41 m c (Proc.devRef .tc main_arg16)) slices_S3x512x512_S1x512x512_2_0_0 shapeCasts_S1x512x512_S512x512) slices_S512x512_S128x512_0_0) bitsLt_bf16_f32) := by
  rw [keep34 m c main_v392 (by decide +kernel), U35, host_14_main_v392,
    ← keep33 m c main_arg16 (by decide +kernel)]

theorem kfin_main_v394 (c : Dev nD) :
    U41 m c (Proc.devRef .tc main_v394)
      = (truncf .bf16 (rowBlock128 ![128, 0] (layerOf S3x512x512 S1x512x512 S512x512 ![2, 0, 0] (U41 m c (Proc.devRef .tc main_arg16)) slices_S3x512x512_S1x512x512_2_0_0 shapeCasts_S1x512x512_S512x512) slices_S512x512_S128x512_128_0) bitsLt_bf16_f32) := by
  rw [keep34 m c main_v394 (by decide +kernel), U35, host_14_main_v394,
    ← keep33 m c main_arg16 (by decide +kernel)]

theorem kfin_main_v396 (c : Dev nD) :
    U41 m c (Proc.devRef .tc main_v396)
      = (truncf .bf16 (rowBlock128 ![256, 0] (layerOf S3x512x512 S1x512x512 S512x512 ![2, 0, 0] (U41 m c (Proc.devRef .tc main_arg16)) slices_S3x512x512_S1x512x512_2_0_0 shapeCasts_S1x512x512_S512x512) slices_S512x512_S128x512_256_0) bitsLt_bf16_f32) := by
  rw [keep34 m c main_v396 (by decide +kernel), U35, host_14_main_v396,
    ← keep33 m c main_arg16 (by decide +kernel)]

theorem kfin_main_v398 (c : Dev nD) :
    U41 m c (Proc.devRef .tc main_v398)
      = (truncf .bf16 (rowBlock128 ![384, 0] (layerOf S3x512x512 S1x512x512 S512x512 ![2, 0, 0] (U41 m c (Proc.devRef .tc main_arg16)) slices_S3x512x512_S1x512x512_2_0_0 shapeCasts_S1x512x512_S512x512) slices_S512x512_S128x512_384_0) bitsLt_bf16_f32) := by
  rw [keep34 m c main_v398 (by decide +kernel), U35, host_14_main_v398,
    ← keep33 m c main_arg16 (by decide +kernel)]

theorem kfin_main_v399 (c : Dev nD) :
    U41 m c (Proc.devRef .tc main_v399)
      = (truncf .bf16 (layerOf S3x512x512 S1x512x512 S512x512 ![2, 0, 0] (U41 m c (Proc.devRef .tc main_arg18)) slices_S3x512x512_S1x512x512_2_0_0 shapeCasts_S1x512x512_S512x512) bitsLt_bf16_f32) := by
  rw [keep34 m c main_v399 (by decide +kernel), U35, host_14_main_v399,
    ← keep33 m c main_arg18 (by decide +kernel)]

theorem kfin_main_v400 (c : Dev nD) :
    U41 m c (Proc.devRef .tc main_v400)
      = (truncf .bf16 (layerOf S3x512x128 S1x512x128 S512x128 ![2, 0, 0] (U41 m c (Proc.devRef .tc main_arg20)) slices_S3x512x128_S1x512x128_2_0_0 shapeCasts_S1x512x128_S512x128) bitsLt_bf16_f32) := by
  rw [keep34 m c main_v400 (by decide +kernel), U35, host_14_main_v400,
    ← keep33 m c main_arg20 (by decide +kernel)]

theorem kfin_main_v401 (c : Dev nD) :
    U41 m c (Proc.devRef .tc main_v401)
      = rowOf512 (layerOf S3x512 S1x512 S512 ![2, 0] (U41 m c (Proc.devRef .tc main_arg17)) slices_S3x512_S1x512_2_0 shapeCasts_S1x512_S512) := by
  rw [keep34 m c main_v401 (by decide +kernel), U35, host_14_main_v401,
    ← keep33 m c main_arg17 (by decide +kernel)]

theorem kfin_main_v402 (c : Dev nD) :
    U41 m c (Proc.devRef .tc main_v402)
      = rowOf512 (layerOf S3x512 S1x512 S512 ![2, 0] (U41 m c (Proc.devRef .tc main_arg19)) slices_S3x512_S1x512_2_0 shapeCasts_S1x512_S512) := by
  rw [keep34 m c main_v402 (by decide +kernel), U35, host_14_main_v402,
    ← keep33 m c main_arg19 (by decide +kernel)]

theorem kfin_main_v403 (c : Dev nD) :
    U41 m c (Proc.devRef .tc main_v403)
      = rowOf128 (layerOf S3x128 S1x128 S128 ![2, 0] (U41 m c (Proc.devRef .tc main_arg21)) slices_S3x128_S1x128_2_0 shapeCasts_S1x128_S128) := by
  rw [keep34 m c main_v403 (by decide +kernel), U35, host_14_main_v403,
    ← keep33 m c main_arg21 (by decide +kernel)]

theorem kfin_main_v431 (c : Dev nD) :
    U41 m c (Proc.devRef .tc main_v431)
      = (truncf .bf16 (nodeIn (U41 m c (Proc.devRef .tc main_v333)) (sumAtNodes (U41 m c (Proc.devRef .tc main_v404_0)) (U41 m c (Proc.devRef .tc main_v1))) (sumAtNodes (U41 m c (Proc.devRef .tc main_v404_0)) (U41 m c (Proc.devRef .tc main_v3))) (graphRowsAtNodes (U41 m c (Proc.devRef .tc main_v308)) (U41 m c (Proc.devRef .tc main_arg4)))) bitsLt_bf16_f32) := by
  rw [keep36 m c main_v431 (by decide +kernel), U37, host_15_main_v431,
    ← keep35 m c main_v333 (by decide +kernel),
    ← keep35 m c main_v404_0 (by decide +kernel),
    ← keep35 m c main_v1 (by decide +kernel),
    ← keep35 m c main_v3 (by decide +kernel),
    ← keep35 m c main_v308 (by decide +kernel),
    ← keep35 m c main_arg4 (by decide +kernel)]

theorem kfin_main_v432 (c : Dev nD) :
    U41 m c (Proc.devRef .tc main_v432)
      = (truncf .bf16 (layerOf S3x512x512 S1x512x512 S512x512 ![2, 0, 0] (U41 m c (Proc.devRef .tc main_arg22)) slices_S3x512x512_S1x512x512_2_0_0 shapeCasts_S1x512x512_S512x512) bitsLt_bf16_f32) := by
  rw [keep36 m c main_v432 (by decide +kernel), U37, host_15_main_v432,
    ← keep35 m c main_arg22 (by decide +kernel)]

theorem kfin_main_v433 (c : Dev nD) :
    U41 m c (Proc.devRef .tc main_v433)
      = (truncf .bf16 (layerOf S3x512x512 S1x512x512 S512x512 ![2, 0, 0] (U41 m c (Proc.devRef .tc main_arg24)) slices_S3x512x512_S1x512x512_2_0_0 shapeCasts_S1x512x512_S512x512) bitsLt_bf16_f32) := by
  rw [keep36 m c main_v433 (by decide +kernel), U37, host_15_main_v433,
    ← keep35 m c main_arg24 (by decide +kernel)]

theorem kfin_main_v434 (c : Dev nD) :
    U41 m c (Proc.devRef .tc main_v434)
      = (truncf .bf16 (layerOf S3x512x128 S1x512x128 S512x128 ![2, 0, 0] (U41 m c (Proc.devRef .tc main_arg26)) slices_S3x512x128_S1x512x128_2_0_0 shapeCasts_S1x512x128_S512x128) bitsLt_bf16_f32) := by
  rw [keep36 m c main_v434 (by decide +kernel), U37, host_15_main_v434,
    ← keep35 m c main_arg26 (by decide +kernel)]

theorem kfin_main_v435 (c : Dev nD) :
    U41 m c (Proc.devRef .tc main_v435)
      = rowOf512 (layerOf S3x512 S1x512 S512 ![2, 0] (U41 m c (Proc.devRef .tc main_arg23)) slices_S3x512_S1x512_2_0 shapeCasts_S1x512_S512) := by
  rw [keep36 m c main_v435 (by decide +kernel), U37, host_15_main_v435,
    ← keep35 m c main_arg23 (by decide +kernel)]

theorem kfin_main_v436 (c : Dev nD) :
    U41 m c (Proc.devRef .tc main_v436)
      = rowOf512 (layerOf S3x512 S1x512 S512 ![2, 0] (U41 m c (Proc.devRef .tc main_arg25)) slices_S3x512_S1x512_2_0 shapeCasts_S1x512_S512) := by
  rw [keep36 m c main_v436 (by decide +kernel), U37, host_15_main_v436,
    ← keep35 m c main_arg25 (by decide +kernel)]

theorem kfin_main_v437 (c : Dev nD) :
    U41 m c (Proc.devRef .tc main_v437)
      = rowOf128 (layerOf S3x128 S1x128 S128 ![2, 0] (U41 m c (Proc.devRef .tc main_arg27)) slices_S3x128_S1x128_2_0 shapeCasts_S1x128_S128) := by
  rw [keep36 m c main_v437 (by decide +kernel), U37, host_15_main_v437,
    ← keep35 m c main_arg27 (by decide +kernel)]

theorem kfin_main_v439 (c : Dev nD) :
    U41 m c (Proc.devRef .tc main_v439)
      = addf (U41 m c (Proc.devRef .tc main_v438)) (U41 m c (Proc.devRef .tc main_v307)) := by
  rw [keep38 m c main_v439 (by decide +kernel), U39, host_16_main_v439,
    ← keep37 m c main_v438 (by decide +kernel),
    ← keep37 m c main_v307 (by decide +kernel)]

theorem kfin_main_v440 (c : Dev nD) :
    U41 m c (Proc.devRef .tc main_v440)
      = addf (U41 m c (Proc.devRef .tc main_v308)) (U41 m c (Proc.devRef .tc main_v308)) := by
  rw [keep38 m c main_v440 (by decide +kernel), U39, host_16_main_v440,
    ← keep37 m c main_v308 (by decide +kernel)]

theorem kfin_main_v441 (c : Dev nD) :
    U41 m c (Proc.devRef .tc main_v441)
      = (truncf .bf16 (addf (U41 m c (Proc.devRef .tc main_v438)) (U41 m c (Proc.devRef .tc main_v307))) bitsLt_bf16_f32) := by
  rw [keep38 m c main_v441 (by decide +kernel), U39, host_16_main_v441,
    ← keep37 m c main_v438 (by decide +kernel),
    ← keep37 m c main_v307 (by decide +kernel)]

theorem kfin_main_v442 (c : Dev nD) :
    U41 m c (Proc.devRef .tc main_v442)
      = (truncf .bf16 (U41 m c (Proc.devRef .tc main_arg34)) bitsLt_bf16_f32) := by
  rw [keep38 m c main_v442 (by decide +kernel), U39, host_16_main_v442,
    ← keep37 m c main_arg34 (by decide +kernel)]

theorem kfin_main_v443 (c : Dev nD) :
    U41 m c (Proc.devRef .tc main_v443)
      = (truncf .bf16 (U41 m c (Proc.devRef .tc main_arg36)) bitsLt_bf16_f32) := by
  rw [keep38 m c main_v443 (by decide +kernel), U39, host_16_main_v443,
    ← keep37 m c main_arg36 (by decide +kernel)]

theorem kfin_main_v444 (c : Dev nD) :
    U41 m c (Proc.devRef .tc main_v444)
      = rowOf128 (U41 m c (Proc.devRef .tc main_arg35)) := by
  rw [keep38 m c main_v444 (by decide +kernel), U39, host_16_main_v444,
    ← keep37 m c main_arg35 (by decide +kernel)]

theorem kfin_main_v445 (c : Dev nD) :
    U41 m c (Proc.devRef .tc main_v445)
      = rowOf3 (U41 m c (Proc.devRef .tc main_arg37)) := by
  rw [keep38 m c main_v445 (by decide +kernel), U39, host_16_main_v445,
    ← keep37 m c main_arg37 (by decide +kernel)]

theorem kfin_main_v463 (c : Dev nD) :
    U41 m c (Proc.devRef .tc main_v463)
      = stack3 (U41 m c (Proc.devRef .tc main_v168)) (U41 m c (Proc.devRef .tc main_v327)) (move2origin (U41 m c (Proc.devRef .tc main_v446)) (U41 m c (Proc.devRef .tc main_arg4)) (U41 m c (Proc.devRef .tc main_v9))) := by
  have e := host_17_main_v463 (U40 m c)
  rw [← keep39 m c main_v168 (by decide +kernel),
    ← keep39 m c main_v327 (by decide +kernel),
    ← keep39 m c main_v446 (by decide +kernel),
    ← keep39 m c main_arg4 (by decide +kernel),
    ← keep39 m c main_v9 (by decide +kernel)] at e
  exact e

end Cert.KernelIdeal.Hand

end
-- ==== Proof.LibMatmulRows.lean ====
/-
  A matrix product accumulated into zero, read one entry at a time.

  For the plain dimension numbers "rows by contraction, times contraction by columns" (`DotDims.plain M K N`: the left
  operand is [M, K], the right one [K, N], the result [M, N], no batch axis) the entry (p, q) of a `tpu.matmul` whose
  accumulator is the zero splat is, at the ideal values, the sum over the contraction position k of left (p, k) times
  right (k, q). So entry (p, q) depends on row p of the left operand and on column q of the right operand and on nothing
  else: a product computed on a block of rows is the block of rows of the product. The host's `dot_general` with the same
  dimension numbers reads the same way (it has no accumulator). Nothing of real arithmetic is used beyond 0 + x = x, so
  the statements hold at the infinities too.
-/
import Idealize.ShloMosaic.Lib.ValueIdx
import Idealize.ShloMosaic.PureOps.Ideal.Laws

noncomputable section

open scoped BigOperators

namespace Cert.Bridge

open Idealize.ShloMosaic Idealize.ShloMosaic.ValueIdx

/-- The left operand's row coordinate at output index `j` is `j`'s row, whatever the contraction position. -/
theorem plain_lhsIdx_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate at output index `j` is `j`'s column, whatever the contraction position. -/
theorem plain_rhsIdx_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index of a plain product, re-indexed by the contraction coordinate:
    the left factor is read at (p, k), the right one at (k, q). -/
theorem plain_contr_sum (M K N : Nat) (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhsIdx_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact plain_rhsIdx_col M K N _ _)
  rw [el, er]

/-- A plain `tpu.matmul` into the zero splat, read at (p, q): row p of the left operand against column q of the right. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contr_sum M K N lhs rhs p q)

/-- The host's plain `dot_general`, read at (p, q): the same sum. -/
theorem dotGeneral_plain_apply {φ₁ φ₂ : FTy} (M K N : Nat) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) :=
  (Ideal.dotGeneral_apply (DotDims.plain M K N) prec sched lhs rhs (ix2 p q)).trans (plain_contr_sum M K N lhs rhs p q)

end Cert.Bridge

end
-- ==== Proof.LibRowReads.lean ====
/-
  Layout operations on parameter tables and weight matrices, read at an index, over literal shapes.

  * row `l` of an [R, C] table taken as a [C] vector (a one-row slice, then a reshape) at `j` is the table at (l, j);
  * slab `l` of an [R, K, C] stack taken as a [K, C] matrix at (k, j) is the stack at (l, k, j);
  * a [C] vector laid as a [1, C] row and broadcast down N rows reads, at (n, j), the vector at j; the same vector
    reshaped to a [1, C] row reads, at (0, j), the vector at j;
  * a scalar constant broadcast to any shape reads the constant's value everywhere;
  * two [K, C] matrices laid side by side as [K, C + C] read the left one at columns below C and the right one above;
  * a column band [0, C) or [C, C + C) of an [N, C + C] array read at (n, j).
  The side conditions of the operations are hypotheses, so the lemmas apply under any proofs of them.
-/
import Idealize.ShloMosaic.Lib.Pipeline.Value
import Idealize.ShloMosaic.Lib.ValueIdx
import Idealize.ShloMosaic.PureOps.Ideal

noncomputable section

namespace Cert.LibRowReads

open Idealize.ShloMosaic Idealize.ShloMosaic.ValueIdx

variable {α : Type}

/-- Row `l` of an [R, C] table, as a [C] vector, at `j`. -/
theorem row_read {R C : Nat} (l : Nat) (hl : l < R) (h : (⟨2, ![R, C]⟩ : Shape).Slices ![l, 0] ⟨2, ![1, C]⟩)
    (hc : (⟨2, ![1, C]⟩ : Shape).ShapeCasts ⟨1, ![C]⟩) (a : (⟨2, ![R, C]⟩ : Shape).Idx → α) (j : Fin C) :
    shapeCast ⟨1, ![C]⟩ (extractStridedSlice ⟨2, ![1, C]⟩ ![l, 0] a h) hc (ix1 j) = a (ix2 ⟨l, hl⟩ j) := by
  refine (shapeCast_apply _ hc (ix1 j) (ix2 (0 : Fin 1) j) ?_).trans ?_
  · rw [Shape.rowMajor_val_two, Shape.rowMajor_val_one]
    show 0 * C + j.val = j.val
    omega
  · refine extractStridedSlice_apply ![l, 0] a h (ix2 (0 : Fin 1) j) (ix2 ⟨l, hl⟩ j) (fun ax => ?_)
    match ax with
    | ⟨0, _⟩ => show l = l + 0; omega
    | ⟨1, _⟩ => show j.val = 0 + j.val; omega

/-- Slab `l` of an [R, K, C] stack, as a [K, C] matrix, at (k, j). -/
theorem slab_read {R K C : Nat} (l : Nat) (hl : l < R) (h : (⟨3, ![R, K, C]⟩ : Shape).Slices ![l, 0, 0] ⟨3, ![1, K, C]⟩)
    (hc : (⟨3, ![1, K, C]⟩ : Shape).ShapeCasts ⟨2, ![K, C]⟩) (a : (⟨3, ![R, K, C]⟩ : Shape).Idx → α) (k : Fin K) (j : Fin C) :
    shapeCast ⟨2, ![K, C]⟩ (extractStridedSlice ⟨3, ![1, K, C]⟩ ![l, 0, 0] a h) hc (ix2 k j) = a (ix3 ⟨l, hl⟩ k j) := by
  refine (shapeCast_apply _ hc (ix2 k j) (ix3 (0 : Fin 1) k j) ?_).trans ?_
  · rw [Shape.rowMajor_val_three, Shape.rowMajor_val_two]
    show (0 * K + k.val) * C + j.val = k.val * C + j.val
    simp
  · refine extractStridedSlice_apply ![l, 0, 0] a h (ix3 (0 : Fin 1) k j) (ix3 ⟨l, hl⟩ k j) (fun ax => ?_)
    match ax with
    | ⟨0, _⟩ => show l = l + 0; omega
    | ⟨1, _⟩ => show k.val = 0 + k.val; omega
    | ⟨2, _⟩ => show j.val = 0 + j.val; omega

/-- A [C] vector reshaped to a [1, C] row, at (0, j). -/
theorem asRow_read {C : Nat} (hc : (⟨1, ![C]⟩ : Shape).ShapeCasts ⟨2, ![1, C]⟩) (v : (⟨1, ![C]⟩ : Shape).Idx → α) (j : Fin C) :
    shapeCast ⟨2, ![1, C]⟩ v hc (ix2 (0 : Fin 1) j) = v (ix1 j) := by
  refine shapeCast_apply v hc (ix2 (0 : Fin 1) j) (ix1 j) ?_
  rw [Shape.rowMajor_val_two, Shape.rowMajor_val_one]
  show j.val = 0 * C + j.val
  omega

/-- A [C] vector broadcast down N rows (through a [1, C] row), at (n, j). -/
theorem down_read {N C : Nat} (hC : C ≠ 1) (h1 : (⟨1, ![C]⟩ : Shape).BroadcastsInDim ⟨2, ![1, C]⟩ ![1])
    (h2 : (⟨2, ![1, C]⟩ : Shape).BroadcastsInDim ⟨2, ![N, C]⟩ ![0, 1]) (v : (⟨1, ![C]⟩ : Shape).Idx → α) (n : Fin N) (j : Fin C) :
    broadcastInDim ⟨2, ![N, C]⟩ ![0, 1] h2 (broadcastInDim ⟨2, ![1, C]⟩ ![1] h1 v) (ix2 n j) = v (ix1 j) := by
  refine (broadcastInDim_apply ![0, 1] h2 _ (ix2 n j) (ix2 (0 : Fin 1) j) (fun ax => ?_)).trans ?_
  · match ax with
    | ⟨0, _⟩ => show (0 : Nat) = if (1 : Nat) = 1 then 0 else n.val; simp
    | ⟨1, _⟩ => show j.val = if C = 1 then 0 else j.val; rw [if_neg hC]
  · refine broadcastInDim_apply ![1] h1 v (ix2 (0 : Fin 1) j) (ix1 j) (fun ax => ?_)
    match ax with
    | ⟨0, _⟩ => show j.val = if C = 1 then 0 else j.val; rw [if_neg hC]

/-- A scalar broadcast to a shape reads the scalar everywhere. -/
theorem splat_read {t : Shape} (h : (⟨0, ![]⟩ : Shape).BroadcastsInDim t ![]) (v : (⟨0, ![]⟩ : Shape).Idx → α) (i : t.Idx) :
    broadcastInDim t ![] h v i = v ix0 :=
  broadcastInDim_apply ![] h v i ix0 (fun ax => ax.elim0)

/-- Two [K, C] matrices side by side, at a column of the left one. -/
theorem pair_left_read {K C : Nat} (h : Shape.Concatenates [(⟨2, ![K, C]⟩ : Shape), ⟨2, ![K, C]⟩] ⟨2, ![K, C + C]⟩ 1)
    (a b : (⟨2, ![K, C]⟩ : Shape).Idx → α) (k : Fin K) (j : Fin C) (hj : j.val < C + C) :
    concatenate ⟨2, ![K, C + C]⟩ 1 [⟨⟨2, ![K, C]⟩, a⟩, ⟨⟨2, ![K, C]⟩, b⟩] h (ix2 k ⟨j.val, hj⟩) = a (ix2 k j) := by
  refine concatenate_pair_apply_left 1 a b h (ix2 k ⟨j.val, hj⟩) rfl (ix2 k j) (fun ax => ?_)
  match ax with
  | ⟨0, _⟩ => rfl
  | ⟨1, _⟩ => rfl

/-- Two [K, C] matrices side by side, at a column of the right one. -/
theorem pair_right_read {K C : Nat} (h : Shape.Concatenates [(⟨2, ![K, C]⟩ : Shape), ⟨2, ![K, C]⟩] ⟨2, ![K, C + C]⟩ 1)
    (a b : (⟨2, ![K, C]⟩ : Shape).Idx → α) (k : Fin K) (j : Fin C) (hj : j.val + C < C + C) :
    concatenate ⟨2, ![K, C + C]⟩ 1 [⟨⟨2, ![K, C]⟩, a⟩, ⟨⟨2, ![K, C]⟩, b⟩] h (ix2 k ⟨j.val + C, hj⟩) = b (ix2 k j) := by
  refine concatenate_pair_apply_right 1 a b h (ix2 k ⟨j.val + C, hj⟩) rfl rfl (ix2 k j) (fun ax hne => ?_) ?_
  · match ax with
    | ⟨0, _⟩ => rfl
    | ⟨1, _⟩ => exact absurd rfl hne
  · rfl

/-- The left column band of an [N, C + C] array, at (n, j). -/
theorem band_left_read {N C : Nat} (h : (⟨2, ![N, C + C]⟩ : Shape).Slices ![0, 0] ⟨2, ![N, C]⟩)
    (x : (⟨2, ![N, C + C]⟩ : Shape).Idx → α) (n : Fin N) (j : Fin C) (hj : j.val < C + C) :
    extractStridedSlice ⟨2, ![N, C]⟩ ![0, 0] x h (ix2 n j) = x (ix2 n ⟨j.val, hj⟩) := by
  refine extractStridedSlice_apply ![0, 0] x h (ix2 n j) (ix2 n ⟨j.val, hj⟩) (fun ax => ?_)
  match ax with
  | ⟨0, _⟩ => show n.val = 0 + n.val; omega
  | ⟨1, _⟩ => show j.val = 0 + j.val; omega

/-- The right column band of an [N, C + C] array, at (n, j). -/
theorem band_right_read {N C : Nat} (h : (⟨2, ![N, C + C]⟩ : Shape).Slices ![0, C] ⟨2, ![N, C]⟩)
    (x : (⟨2, ![N, C + C]⟩ : Shape).Idx → α) (n : Fin N) (j : Fin C) (hj : j.val + C < C + C) :
    extractStridedSlice ⟨2, ![N, C]⟩ ![0, C] x h (ix2 n j) = x (ix2 n ⟨j.val + C, hj⟩) := by
  refine extractStridedSlice_apply ![0, C] x h (ix2 n j) (ix2 n ⟨j.val + C, hj⟩) (fun ax => ?_)
  match ax with
  | ⟨0, _⟩ => show n.val = 0 + n.val; omega
  | ⟨1, _⟩ => show j.val + C = C + j.val; omega

end Cert.LibRowReads

end
-- ==== Proof.LibDense.lean ====
/-
  A dense layer x · W + b, read one entry at a time, at the ideal values.

  Entry (p, q) of the layer is the sum over the contraction position k of x (p, k) · W (k, q), plus b (q). Two
  spellings of the layer are read here at (p, q) and shown to give that expression:
  * the on-chip one: both operands narrowed to bf16 (a change of format, so nothing at the ideal values), a plain
    matrix product accumulated into the zero splat, the bias vector reshaped to one row, laid over every row, and added;
  * the host one: a plain `dot_general`, the bias vector broadcast to one row and then down all the rows, and added.
  Entry (p, q) reads row p of x, column q of W and entry q of b and nothing else, so the layer computed on a block of
  rows of x is the same block of rows of the layer (`denseAt_congr`). Nothing of real arithmetic is used, so the
  statements hold at the infinities too.
-/
import proofs.«147763_j11003706212366_2_alg».proof.Proof.LibMatmulRows
import proofs.«147763_j11003706212366_2_alg».proof.Proof.LibRowReads

noncomputable section

open scoped BigOperators

namespace Cert.LibDense

open Idealize.ShloMosaic Idealize.ShloMosaic.ValueIdx

/-- Entry (p, q) of x · W + b: row p of x against column q of W, plus entry q of b. -/
def denseAt {M K N : Nat} (x : (⟨2, ![M, K]⟩ : Shape).Idx → EReal) (w : (⟨2, ![K, N]⟩ : Shape).Idx → EReal)
    (b : (⟨1, ![N]⟩ : Shape).Idx → EReal) (p : Fin M) (q : Fin N) : EReal :=
  (∑ k : Fin K, x (ix2 p k) * w (ix2 k q)) + b (ix1 q)

/-- The entry depends only on the row of x, the column of W and the entry of b it names: two triples of operands
    (the left ones possibly of different heights) that agree there give the same entry. -/
theorem denseAt_congr {M M' K N : Nat} {x : (⟨2, ![M, K]⟩ : Shape).Idx → EReal} {x' : (⟨2, ![M', K]⟩ : Shape).Idx → EReal}
    {w w' : (⟨2, ![K, N]⟩ : Shape).Idx → EReal} {b b' : (⟨1, ![N]⟩ : Shape).Idx → EReal} {p : Fin M} {p' : Fin M'} {q q' : Fin N}
    (hx : ∀ k : Fin K, x (ix2 p k) = x' (ix2 p' k)) (hw : ∀ k : Fin K, w (ix2 k q) = w' (ix2 k q'))
    (hb : b (ix1 q) = b' (ix1 q')) : denseAt x w b p q = denseAt x' w' b' p' q' := by
  unfold denseAt
  rw [hb]
  exact congrArg (· + b' (ix1 q')) (Finset.sum_congr rfl fun k _ => by rw [hx k, hw k])

/-- A [N] vector reshaped to one row and laid over M rows, at (p, q), is the vector at q. -/
theorem rowOver_read {M N : Nat} (hN : N ≠ 1) (hc : (⟨1, ![N]⟩ : Shape).ShapeCasts ⟨2, ![1, N]⟩)
    (hb : (⟨2, ![1, N]⟩ : Shape).Broadcasts ⟨2, ![M, N]⟩) (v : (⟨1, ![N]⟩ : Shape).Idx → EReal) (p : Fin M) (q : Fin N) :
    broadcastTo ⟨2, ![M, N]⟩ (shapeCast ⟨2, ![1, N]⟩ v hc) hb (ix2 p q) = v (ix1 q) := by
  refine (broadcastTo_apply _ hb (ix2 p q) (ix2 (0 : Fin 1) q) (fun a => ?_)).trans (Cert.LibRowReads.asRow_read hc v q)
  match a with
  | ⟨0, _⟩ => show (0 : Nat) = if (1 : Nat) = 1 then 0 else _; simp
  | ⟨1, _⟩ => show q.val = if N = 1 then 0 else q.val; rw [if_neg hN]

/-- The on-chip spelling of the layer, at (p, q). -/
theorem chip_dense_apply (M K N : Nat) (hN : N ≠ 1) (hlt : FTy.bits .bf16 < FTy.bits .f32)
    (hc : (⟨1, ![N]⟩ : Shape).ShapeCasts ⟨2, ![1, N]⟩) (hb : (⟨2, ![1, N]⟩ : Shape).Broadcasts ⟨2, ![M, N]⟩)
    (x : FVec Ideal ⟨2, ![M, K]⟩ .f32) (w : FVec Ideal ⟨2, ![K, N]⟩ .f32) (b : FVec Ideal ⟨1, ![N]⟩ .f32) (p : Fin M) (q : Fin N) :
    addf (matmul (DotDims.plain M K N) none (truncf .bf16 x hlt) (truncf .bf16 w hlt) (constant ⟨2, ![M, N]⟩ .f32 0x00000000#32))
        (broadcastTo ⟨2, ![M, N]⟩ (shapeCast ⟨2, ![1, N]⟩ b hc) hb) (ix2 p q)
      = denseAt x w b p q := by
  rw [addf_apply]
  unfold denseAt
  rw [rowOver_read hN hc hb b p q]
  exact congrArg (· + b (ix1 q)) (Cert.Bridge.matmul_plain_zero_apply M K N none (truncf .bf16 x hlt) (truncf .bf16 w hlt) p q)

/-- The host spelling of the layer, at (p, q). -/
theorem host_dense_apply (M K N : Nat) (hN : N ≠ 1) (h1 : (⟨1, ![N]⟩ : Shape).BroadcastsInDim ⟨2, ![1, N]⟩ ![1])
    (h2 : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨1, ![N]⟩ .f32) (p : Fin M) (q : Fin N) :
    addf (Host.dotGeneral (DotDims.plain M K N) none x w)
        (broadcastInDim ⟨2, ![M, N]⟩ ![0, 1] h2 (broadcastInDim ⟨2, ![1, N]⟩ ![1] h1 b)) (ix2 p q)
      = denseAt x w b p q := by
  rw [addf_apply]
  unfold denseAt
  rw [Cert.LibRowReads.down_read hN h1 h2 b p q]
  exact congrArg (· + b (ix1 q)) (Cert.Bridge.dotGeneral_plain_apply M K N none .single x w p q)

end Cert.LibDense

end
-- ==== Proof.LibChipRow.lean ====
/-
  A dense layer whose bias is kept as a one-row matrix, read one entry at a time, at the ideal values.

  An on-chip layer x · W + b often holds its bias as a [1, N] row and lays that row over every row of the product
  before adding. Entry (p, q) of the result is the sum over the contraction position k of x (p, k) · W (k, q), plus
  the row's entry (0, q): the same expression as for a bias vector, once the row is read as the vector of its entries
  (`rowVec`). The operands may be in any float formats (the ideal values of a format are all the extended reals), and
  the layer may be followed by a positive part, max · 0, taken entry by entry against the zero constant. Nothing of
  real arithmetic is used, so the statements hold at the infinities too.
-/
import proofs.«147763_j11003706212366_2_alg».proof.Proof.LibDense

noncomputable section

open scoped BigOperators

namespace Cert.LibChipRow

open Idealize.ShloMosaic Idealize.ShloMosaic.ValueIdx Cert.LibDense

/-- A [1, N] row as the [N] vector of its entries. -/
def rowVec {N : Nat} (b : (⟨2, ![1, N]⟩ : Shape).Idx → EReal) : (⟨1, ![N]⟩ : Shape).Idx → EReal :=
  fun i => b (ix2 (0 : Fin 1) (i 0))

/-- Entry q of that vector is entry (0, q) of the row. -/
theorem rowVec_read {N : Nat} (b : (⟨2, ![1, N]⟩ : Shape).Idx → EReal) (q : Fin N) : rowVec b (ix1 q) = b (ix2 (0 : Fin 1) q) := rfl

/-- A [1, N] row laid over M rows, at (p, q), is the row at (0, q). -/
theorem rowBroadcast_read {α : Type} {M N : Nat} (hN : N ≠ 1) (hb : (⟨2, ![1, N]⟩ : Shape).Broadcasts ⟨2, ![M, N]⟩)
    (v : (⟨2, ![1, N]⟩ : Shape).Idx → α) (p : Fin M) (q : Fin N) :
    broadcastTo ⟨2, ![M, N]⟩ v hb (ix2 p q) = v (ix2 (0 : Fin 1) q) := by
  refine broadcastTo_apply v hb (ix2 p q) (ix2 (0 : Fin 1) q) (fun a => ?_)
  match a with
  | ⟨0, _⟩ => show (0 : Nat) = if (1 : Nat) = 1 then 0 else _; simp
  | ⟨1, _⟩ => show q.val = if N = 1 then 0 else q.val; rw [if_neg hN]

/-- The on-chip layer with a row bias, at (p, q): a plain matrix product accumulated into the zero splat, plus the
    row laid over every row. -/
theorem chip_dense_row_apply {φ₁ φ₂ : FTy} (M K N : Nat) (hN : N ≠ 1) (hb : (⟨2, ![1, N]⟩ : Shape).Broadcasts ⟨2, ![M, N]⟩)
    (x : FVec Ideal ⟨2, ![M, K]⟩ φ₁) (w : FVec Ideal ⟨2, ![K, N]⟩ φ₂) (b : FVec Ideal ⟨2, ![1, N]⟩ .f32) (p : Fin M) (q : Fin N) :
    addf (matmul (DotDims.plain M K N) none x w (constant ⟨2, ![M, N]⟩ .f32 0x00000000#32))
        (broadcastTo ⟨2, ![M, N]⟩ b hb) (ix2 p q)
      = denseAt x w (rowVec b) p q := by
  rw [addf_apply]
  unfold denseAt
  rw [rowBroadcast_read hN hb b p q, rowVec_read]
  exact congrArg (· + b (ix2 (0 : Fin 1) q)) (Cert.Bridge.matmul_plain_zero_apply (φ₁ := φ₁) (φ₂ := φ₂) M K N none x w p q)

/-- The zero constant of the f32 format is the extended real 0. -/
theorem zero_f32 : (Scalar.ofBits (F := Ideal) .f32 0x00000000#32 : Ideal .f32) = (0 : EReal) := Ideal.ofBits_zero_f32

/-- The positive part of the on-chip layer with a row bias, at (p, q). -/
theorem chip_dense_row_relu_apply {φ₁ φ₂ : FTy} (M K N : Nat) (hN : N ≠ 1) (hb : (⟨2, ![1, N]⟩ : Shape).Broadcasts ⟨2, ![M, N]⟩)
    (x : FVec Ideal ⟨2, ![M, K]⟩ φ₁) (w : FVec Ideal ⟨2, ![K, N]⟩ φ₂) (b : FVec Ideal ⟨2, ![1, N]⟩ .f32) (p : Fin M) (q : Fin N) :
    maximumf (addf (matmul (DotDims.plain M K N) none x w (constant ⟨2, ![M, N]⟩ .f32 0x00000000#32))
        (broadcastTo ⟨2, ![M, N]⟩ b hb)) (broadcast ⟨2, ![M, N]⟩ (Scalar.ofBits (F := Ideal) .f32 0x00000000#32)) (ix2 p q)
      = max (denseAt x w (rowVec b) p q) 0 := by
  rw [maximumf_apply, broadcast_apply, zero_f32, chip_dense_row_apply M K N hN hb x w b p q]

end Cert.LibChipRow

end
-- ==== Proof.KI.Val0.lean ====
/-
  Region 0 (position embedding): the value of its output array after the pipeline, at the ideal values.

  The output array has 5000 rows of 128 entries, written back in 5 blocks of 1000 rows. Row r of the result is
  relu(relu(p_r · W1 + b1) · W2 + b2) + xs_r: it reads row r of p and of xs and the whole of W1, b1, W2, b2. The body's
  payload on a block of rows is therefore the same block of rows of that function of the whole arrays; each point
  writes back its block of it, the blocks cover the array, and so the array ends holding it.
-/
import proofs.«147763_j11003706212366_2_alg».proof.Proof.KI.Reg0
import proofs.«147763_j11003706212366_2_alg».proof.Proof.LibChipRow
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.LibDense Cert.LibChipRow

/-! ## The function of the whole arrays -/

/-- Entry (r, q) of relu(relu(p · W1 + b1) · W2 + b2) + xs, from the arrays p, xs, W1, b1, W2, b2 (in window order;
    the biases are one-row matrices, read as vectors by `rowVec`; relu is max · 0). -/
def G0_6 (a0 : S5000x3.Idx → EReal) (a1 : S5000x128.Idx → EReal) (a2 : S3x128.Idx → EReal) (a3 : S1x128.Idx → EReal)
    (a4 : S128x128.Idx → EReal) (a5 : S1x128.Idx → EReal) : S5000x128.Idx → EReal :=
  fun i => max (denseAt (M := 5000) (K := 128) (N := 128)
      (fun j => max (denseAt (M := 5000) (K := 3) (N := 128) a0 a2 (rowVec a3) (j 0) (j 1)) 0) a4 (rowVec a5) (i 0) (i 1)) 0 + a1 i

/-- `G0_6` at (r, q), spelled out. -/
theorem G0_6_apply (a0 : S5000x3.Idx → EReal) (a1 : S5000x128.Idx → EReal) (a2 : S3x128.Idx → EReal) (a3 : S1x128.Idx → EReal)
    (a4 : S128x128.Idx → EReal) (a5 : S1x128.Idx → EReal) (r : Fin 5000) (q : Fin 128) :
    G0_6 a0 a1 a2 a3 a4 a5 (ix2 r q) = max (denseAt (M := 5000) (K := 128) (N := 128)
      (fun j => max (denseAt (M := 5000) (K := 3) (N := 128) a0 a2 (rowVec a3) (j 0) (j 1)) 0) a4 (rowVec a5) r q) 0 + a1 (ix2 r q) := rfl

/-- Row locality: the same expression computed from a block of rows of p and xs (local row `p` being array row `r`)
    and from operands that agree with W1, b1, W2, b2 is the function's entry (r, q). -/
theorem G0_6_block (a0 : S5000x3.Idx → EReal) (a1 : S5000x128.Idx → EReal) (a2 : S3x128.Idx → EReal) (a3 : S1x128.Idx → EReal)
    (a4 : S128x128.Idx → EReal) (a5 : S1x128.Idx → EReal)
    (b0 : S1000x3.Idx → EReal) (b1 : S1000x128.Idx → EReal) (b2 : S3x128.Idx → EReal) (b3 : S1x128.Idx → EReal)
    (b4 : S128x128.Idx → EReal) (b5 : S1x128.Idx → EReal) (r : Fin 5000) (p : Fin 1000) (q : Fin 128)
    (h0 : ∀ k : Fin 3, b0 (ix2 p k) = a0 (ix2 r k)) (h1 : b1 (ix2 p q) = a1 (ix2 r q))
    (h2 : ∀ y, b2 y = a2 y) (h3 : ∀ y, b3 y = a3 y) (h4 : ∀ y, b4 y = a4 y) (h5 : ∀ y, b5 y = a5 y) :
    max (denseAt (M := 1000) (K := 128) (N := 128)
      (fun j => max (denseAt (M := 1000) (K := 3) (N := 128) b0 b2 (rowVec b3) (j 0) (j 1)) 0) b4 (rowVec b5) p q) 0 + b1 (ix2 p q)
      = G0_6 a0 a1 a2 a3 a4 a5 (ix2 r q) := by
  obtain rfl : b2 = a2 := funext h2
  obtain rfl : b3 = a3 := funext h3
  obtain rfl : b4 = a4 := funext h4
  obtain rfl : b5 = a5 := funext h5
  rw [G0_6_apply, h1]
  refine congrArg (fun z => max z 0 + a1 (ix2 r q)) ?_
  refine denseAt_congr (fun k => ?_) (fun _ => rfl) rfl
  exact congrArg (fun z => max z 0) (denseAt_congr h0 (fun _ => rfl) rfl)

/-! ## The payload, read at an entry -/

/-- The body's payload at (p, q): two on-chip dense layers with row biases, each followed by the positive part (the
    narrowing between them changes nothing at the ideal values), plus the xs block. -/
theorem pay0_read (v0 : Vec Ideal S1000x3 .bf16) (v2 : Vec Ideal S3x128 .bf16) (v5 : Vec Ideal S1x128 .f32)
    (v12 : Vec Ideal S128x128 .bf16) (v15 : Vec Ideal S1x128 .f32) (v21 : Vec Ideal S1000x128 .f32) (p : Fin 1000) (q : Fin 128) :
    k0_pay1 v0 v2 v5 v12 v15 v21 (ix2 p q)
      = max (denseAt (M := 1000) (K := 128) (N := 128)
      (fun j => max (denseAt (M := 1000) (K := 3) (N := 128) v0 v2 (rowVec v5) (j 0) (j 1)) 0) v12 (rowVec v15) p q) 0 + v21 (ix2 p q) := by
  unfold k0_pay1
  simp only [shapeCast_self]
  refine (addf_apply _ _ _).trans (congrArg (· + v21 (ix2 p q)) ?_)
  refine (chip_dense_row_relu_apply (φ₁ := .bf16) (φ₂ := .bf16) 1000 128 128 (by decide) _ _ v12 v15 p q).trans ?_
  refine congrArg (fun z => max z 0) (denseAt_congr (fun k => ?_) (fun _ => rfl) rfl)
  exact chip_dense_row_relu_apply (φ₁ := .bf16) (φ₂ := .bf16) 1000 3 128 (by decide) _ v0 v2 v5 p k

section Value0
variable (V : (c : Dev nD) → (b : Ref sig .tc) → Buf (Elt Ideal) ((c : Thread nD τ).loc b))

/-! ## The index maps, decided over the grid -/

theorem hz0 : (![0, 0] : Fin 2 → Nat) = fun _ => 0 := funext fun a => by fin_cases a <;> rfl

/-- The row windows (p, xs) move with the output's row block and stay at column block 0; the output's row block is
    at most 4. -/
theorem idx0_rows : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_6.index t (0 : Fin 2) ≤ 4 ∧ win0_6.index t (1 : Fin 2) = 0 :=
  (by decide +kernel : ∀ t : Fin grid0.N, _)

/-- The weight and bias windows stay at block (0, 0). -/
theorem idx0_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- Every row block of the output is some point's. -/
theorem idx0_onto : ∀ q0 : Fin 5, ∃ t : Fin cfg0.N, win0_6.index t = ![q0.val, 0] :=
  (by decide +kernel : ∀ q0 : Fin 5, ∃ t : Fin grid0.N, win0_6.index t = ![q0.val, 0])

/-- The array row of local row `p` of the block at point `t`. -/
def row0 (t : Fin cfg0.N) (p : Fin 1000) : Fin 5000 :=
  ⟨win0_6.index t (0 : Fin 2) * 1000 + p.val, by have := (idx0_rows t).2.2.2.2.1; have := p.isLt; omega⟩

/-! ## The blocks, read at an entry -/

/-- Entry (p, q) of the output's block at `t` sits in the array at (row0 t p, q). -/
theorem emb0_6 (t : Fin cfg0.N) (p : Fin 1000) (q : Fin 128) :
    ((cfg0.win 6).blk t).view.emb (ix2 p q : S1000x128.Idx) = (ix2 (row0 t p) q : S5000x128.Idx) := by
  obtain ⟨-, -, -, -, -, e1⟩ := idx0_rows t
  funext a; apply Fin.ext
  match a with
  | ⟨0, _⟩ => show win0_6.index t (0 : Fin 2) * 1000 + 1 * p.val = win0_6.index t (0 : Fin 2) * 1000 + p.val; omega
  | ⟨1, _⟩ => show win0_6.index t (1 : Fin 2) * 128 + 1 * q.val = q.val; omega

/-- The p block at `t`, at (p, k), is the array at (row0 t p, k). -/
theorem iblk0_0_apply (c : Dev nD) (t : Fin cfg0.N) (p : Fin 1000) (k : Fin 3) :
    iblk0 V c 0 t (ix2 p k : S1000x3.Idx) = V c (Pipeline.arrRef spec0 0) (ix2 (row0 t p) k : S5000x3.Idx) := by
  obtain ⟨e0, e1, -⟩ := idx0_rows t
  show V c (Pipeline.arrRef spec0 0) (((cfg0.win 0).blk t).view.emb (ix2 p k : S1000x3.Idx)) = _
  refine congrArg _ (funext fun a => Fin.ext ?_)
  match a with
  | ⟨0, _⟩ => show win0_0.index t (0 : Fin 2) * 1000 + 1 * p.val = win0_6.index t (0 : Fin 2) * 1000 + p.val; omega
  | ⟨1, _⟩ => show win0_0.index t (1 : Fin 2) * 3 + 1 * k.val = k.val; omega

/-- The xs block at `t`, at (p, q), is the array at (row0 t p, q). -/
theorem iblk0_1_apply (c : Dev nD) (t : Fin cfg0.N) (p : Fin 1000) (q : Fin 128) :
    iblk0 V c 1 t (ix2 p q : S1000x128.Idx) = V c (Pipeline.arrRef spec0 1) (ix2 (row0 t p) q : S5000x128.Idx) := by
  obtain ⟨-, -, e0, e1, -⟩ := idx0_rows t
  show V c (Pipeline.arrRef spec0 1) (((cfg0.win 1).blk t).view.emb (ix2 p q : S1000x128.Idx)) = _
  refine congrArg _ (funext fun a => Fin.ext ?_)
  match a with
  | ⟨0, _⟩ => show win0_1.index t (0 : Fin 2) * 1000 + 1 * p.val = win0_6.index t (0 : Fin 2) * 1000 + p.val; omega
  | ⟨1, _⟩ => show win0_1.index t (1 : Fin 2) * 128 + 1 * q.val = q.val; omega

/-- Window 2 is its whole array at every point: its block reads the array. -/
theorem iblk0_2_apply (c : Dev nD) (t : Fin cfg0.N) (y : S3x128.Idx) :
    iblk0 V c 2 t y = V c (Pipeline.arrRef spec0 2) y := by
  obtain ⟨e0, e1⟩ := (idx0_whole t).1
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 3 + 1 * (y 0).val = (y 0).val; omega
  | ⟨1, _⟩ => show win0_2.index t (1 : Fin 2) * 128 + 1 * (y 1).val = (y 1).val; omega

/-- Window 3 is its whole array at every point: its block reads the array. -/
theorem iblk0_3_apply (c : Dev nD) (t : Fin cfg0.N) (y : S1x128.Idx) :
    iblk0 V c 3 t y = V c (Pipeline.arrRef spec0 3) y := by
  obtain ⟨e0, e1⟩ := (idx0_whole t).2.1
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Window 4 is its whole array at every point: its block reads the array. -/
theorem iblk0_4_apply (c : Dev nD) (t : Fin cfg0.N) (y : S128x128.Idx) :
    iblk0 V c 4 t y = V c (Pipeline.arrRef spec0 4) y := by
  obtain ⟨e0, e1⟩ := (idx0_whole t).2.2.1
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5 is its whole array at every point: its block reads the array. -/
theorem iblk0_5_apply (c : Dev nD) (t : Fin cfg0.N) (y : S1x128.Idx) :
    iblk0 V c 5 t y = V c (Pipeline.arrRef spec0 5) y := by
  obtain ⟨e0, e1⟩ := (idx0_whole t).2.2.2
  show V c (Pipeline.arrRef spec0 5) (((cfg0.win 5).blk t).view.emb y) = V c (Pipeline.arrRef spec0 5) y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-! ## What a point writes back -/

/-- Point `t` writes back its block of `G0_6` of the arrays as the region finds them. -/
theorem flushed0_6_eq (c : Dev nD) (t : Fin cfg0.N) :
    (dat0 (F := Ideal) V c).flushed 6 t
      = ((cfg0.win 6).blk t).view.read (Elt Ideal) (G0_6 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero hz0]
  simp only [View.ld_unit_zero (S := S1000x3) hz0, View.ld_unit_zero (S := S3x128) hz0, View.ld_unit_zero (S := S1x128) hz0,
    View.ld_unit_zero (S := S128x128) hz0, View.ld_unit_zero (S := S1000x128) hz0]
  refine funext fun (j : S1000x128.Idx) => ?_
  obtain ⟨p, q, rfl⟩ : ∃ (p : Fin 1000) (q : Fin 128), j = ix2 p q := ⟨j 0, j 1, eq_ix2 j⟩
  refine Eq.trans ?_ (show G0_6 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (ix2 (row0 t p) q)
      = ((cfg0.win 6).blk t).view.read (Elt Ideal) (G0_6 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) (ix2 p q)
    from (congrArg (G0_6 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) (emb0_6 t p q)).symm)
  show k0_pay1 (iblk0 V c 0 t) (iblk0 V c 2 t) (iblk0 V c 3 t) (iblk0 V c 4 t) (iblk0 V c 5 t) (iblk0 V c 1 t) (ix2 p q) = _
  refine (pay0_read _ _ _ _ _ _ p q).trans ?_
  exact G0_6_block _ _ _ _ _ _ _ _ _ _ _ _ (row0 t p) p q (fun k => iblk0_0_apply V c t p k) (iblk0_1_apply V c t p q)
    (iblk0_2_apply V c t) (iblk0_3_apply V c t) (iblk0_4_apply V c t) (iblk0_5_apply V c t)

/-! ## The blocks cover the array -/

/-- An index of the array is in point `t`'s block iff each coordinate is in the block's range on its axis. -/
theorem mem_blk0_6 (t : Fin cfg0.N) (i : S5000x128.Idx) :
    i ∈ ((cfg0.win 6).blk t).view.set ↔ ∀ a : Fin 2, win0_6.index t a * S1000x128.size a ≤ (i a).val ∧ (i a).val < win0_6.index t a * S1000x128.size a + S1000x128.size a := by
  show i ∈ ((View.whole main_v15).slice (win0_6.rect t)).set ↔ _
  rw [View.set_slice_whole, Rect.mem_set_unit]
  exact Iff.rfl

/-- Row r lies in the block of point r / 1000. -/
theorem blocks_cover0_6 (i : S5000x128.Idx) :
    ∃ t : Fin cfg0.N, (cfg0.win 6).flush t = true ∧ i ∈ ((cfg0.win 6).blk t).view.set := by
  have hi0 : (i 0).val < 5000 := (i 0).isLt
  have hi1 : (i 1).val < 128 := (i 1).isLt
  obtain ⟨t, ht⟩ := idx0_onto ⟨(i 0).val / 1000, by omega⟩
  have q0 : win0_6.index t (0 : Fin 2) = (i 0).val / 1000 := congrFun ht 0
  have q1 : win0_6.index t (1 : Fin 2) = 0 := congrFun ht 1
  refine ⟨t, flush0_6 t, ?_⟩
  rw [mem_blk0_6]
  intro a
  match a with
  | ⟨0, _⟩ => show win0_6.index t (0 : Fin 2) * 1000 ≤ (i 0).val ∧ (i 0).val < win0_6.index t (0 : Fin 2) * 1000 + 1000; omega
  | ⟨1, _⟩ => show win0_6.index t (1 : Fin 2) * 128 ≤ (i 1).val ∧ (i 1).val < win0_6.index t (1 : Fin 2) * 128 + 128; omega

/-! ## The array after the pipeline -/

/-- The output array after the pipeline is `G0_6` of the arrays as the region finds them. -/
theorem final0_6 (c : Dev nD) :
    (dat0 (F := Ideal) V c).arrAt 6 cfg0.N = G0_6 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 (F := Ideal) V c).arrAt_eq_of_cover 6 _ (fun t _ => flushed0_6_eq V c t) (blocks_cover0_6)

end Value0

end Cert.KernelIdeal.Hand
-- ==== Proof.SpecDis.lean ====
/-
  A two-layer perceptron with a residual term, relu(relu(x · W₁ + b₁) · W₂ + b₂) + r, read one entry at a time at the
  ideal values; the biases are one-row matrices.

  Entry (p, q) is  max(Σₖ h(p, k) · W₂(k, q) + b₂(0, q), 0) + r(p, q)  with the hidden entry
  h(p, k) = max(Σⱼ x(p, j) · W₁(j, k) + b₁(0, k), 0).  It reads row p of x, entry (p, q) of r and the weights, and
  nothing else, so the perceptron computed on a block of rows of x and r is the same block of rows of the perceptron
  (`disAt_congr`). The on-chip spelling — each layer a plain matrix product accumulated into the zero splat, the bias row
  laid over every row and added, the positive part taken against the zero splat, the hidden layer and the result
  narrowed (a change of format, so nothing at the ideal values) — is read at (p, q) and gives that expression
  (`dis_chip_apply`). Nothing of real arithmetic is used, so the statements hold at the infinities too.
-/
import proofs.«147763_j11003706212366_2_alg».proof.Proof.LibDense

noncomputable section

open scoped BigOperators

namespace Cert.Spec

open Idealize.ShloMosaic Idealize.ShloMosaic.ValueIdx Cert.LibDense

/-- A [1, N] row read as the [N] vector of its entries. -/
def disRowVec {N : Nat} (b : (⟨2, ![1, N]⟩ : Shape).Idx → EReal) : (⟨1, ![N]⟩ : Shape).Idx → EReal :=
  fun j => b (ix2 (0 : Fin 1) (j 0))

theorem disRowVec_apply {N : Nat} (b : (⟨2, ![1, N]⟩ : Shape).Idx → EReal) (q : Fin N) :
    disRowVec b (ix1 q) = b (ix2 (0 : Fin 1) q) := rfl

/-- Entry (p, q) of relu(relu(x · W₁ + b₁) · W₂ + b₂) + r. -/
def disAt {M K H N : Nat} (x : (⟨2, ![M, K]⟩ : Shape).Idx → EReal) (w1 : (⟨2, ![K, H]⟩ : Shape).Idx → EReal)
    (b1 : (⟨2, ![1, H]⟩ : Shape).Idx → EReal) (w2 : (⟨2, ![H, N]⟩ : Shape).Idx → EReal)
    (b2 : (⟨2, ![1, N]⟩ : Shape).Idx → EReal) (r : (⟨2, ![M, N]⟩ : Shape).Idx → EReal) (p : Fin M) (q : Fin N) : EReal :=
  max (denseAt (fun i : (⟨2, ![M, H]⟩ : Shape).Idx => max (denseAt x w1 (disRowVec b1) (i 0) (i 1)) 0) w2 (disRowVec b2) p q) 0
    + r (ix2 p q)

/-- The entry reads row p of x and entry (p, q) of r: two pairs (x, r), possibly of different heights, that agree there
    give the same entry under the same weights. -/
theorem disAt_congr {M M' K H N : Nat} {x : (⟨2, ![M, K]⟩ : Shape).Idx → EReal} {x' : (⟨2, ![M', K]⟩ : Shape).Idx → EReal}
    {w1 : (⟨2, ![K, H]⟩ : Shape).Idx → EReal} {b1 : (⟨2, ![1, H]⟩ : Shape).Idx → EReal}
    {w2 : (⟨2, ![H, N]⟩ : Shape).Idx → EReal} {b2 : (⟨2, ![1, N]⟩ : Shape).Idx → EReal}
    {r : (⟨2, ![M, N]⟩ : Shape).Idx → EReal} {r' : (⟨2, ![M', N]⟩ : Shape).Idx → EReal} {p : Fin M} {p' : Fin M'} {q : Fin N}
    (hx : ∀ k : Fin K, x (ix2 p k) = x' (ix2 p' k)) (hr : r (ix2 p q) = r' (ix2 p' q)) :
    disAt x w1 b1 w2 b2 r p q = disAt x' w1 b1 w2 b2 r' p' q := by
  unfold disAt
  rw [hr]
  refine congrArg (fun z => max z 0 + r' (ix2 p' q)) ?_
  refine denseAt_congr (fun k => ?_) (fun _ => rfl) rfl
  show max (denseAt x w1 (disRowVec b1) p k) 0 = max (denseAt x' w1 (disRowVec b1) p' k) 0
  exact congrArg (fun z => max z 0) (denseAt_congr hx (fun _ => rfl) rfl)

/-- A [1, N] row laid over M rows, at (p, q), is the row at (0, q). -/
theorem dis_rowDown_read {α : Type} {M N : Nat} (hN : N ≠ 1) (hb : (⟨2, ![1, N]⟩ : Shape).Broadcasts ⟨2, ![M, N]⟩)
    (b : (⟨2, ![1, N]⟩ : Shape).Idx → α) (p : Fin M) (q : Fin N) :
    broadcastTo ⟨2, ![M, N]⟩ b hb (ix2 p q) = b (ix2 (0 : Fin 1) q) := by
  refine broadcastTo_apply _ hb (ix2 p q) (ix2 (0 : Fin 1) q) (fun a => ?_)
  match a with
  | ⟨0, _⟩ => show (0 : Nat) = if (1 : Nat) = 1 then 0 else _; simp
  | ⟨1, _⟩ => show q.val = if N = 1 then 0 else q.val; rw [if_neg hN]

/-- One layer x · W + b, the bias a one-row matrix, in the on-chip spelling (a plain product of the operands as they are
    into the zero splat, the bias row laid over every row, added), at (p, q). -/
theorem dis_chip_rowDense_apply {φ₁ φ₂ : FTy} (M K N : Nat) (hN : N ≠ 1)
    (hb : (⟨2, ![1, N]⟩ : Shape).Broadcasts ⟨2, ![M, N]⟩)
    (x : FVec Ideal ⟨2, ![M, K]⟩ φ₁) (w : FVec Ideal ⟨2, ![K, N]⟩ φ₂) (b : FVec Ideal ⟨2, ![1, N]⟩ .f32) (p : Fin M) (q : Fin N) :
    addf (matmul (DotDims.plain M K N) none x w (constant ⟨2, ![M, N]⟩ .f32 0x00000000#32)) (broadcastTo ⟨2, ![M, N]⟩ b hb) (ix2 p q)
      = denseAt x w (disRowVec b) p q := by
  rw [addf_apply]
  unfold denseAt
  rw [dis_rowDown_read hN hb b p q, disRowVec_apply]
  exact congrArg (· + b (ix2 (0 : Fin 1) q)) (Cert.Bridge.matmul_plain_zero_apply (φ₁ := φ₁) (φ₂ := φ₂) M K N none x w p q)

/-- The zero scalar is the extended real 0. -/
theorem dis_zero_f32 : (Scalar.ofBits (F := Ideal) .f32 0x00000000#32 : EReal) = 0 := Ideal.ofBits_zero_f32

/-- The on-chip spelling of the perceptron, at (p, q). -/
theorem dis_chip_apply {φ₁ φ₂ φ₃ : FTy} (M K H N : Nat) (hH : H ≠ 1) (hN : N ≠ 1) (hlt : FTy.bits .bf16 < FTy.bits .f32)
    (hb1 : (⟨2, ![1, H]⟩ : Shape).Broadcasts ⟨2, ![M, H]⟩) (hb2 : (⟨2, ![1, N]⟩ : Shape).Broadcasts ⟨2, ![M, N]⟩)
    (x : FVec Ideal ⟨2, ![M, K]⟩ φ₁) (w1 : FVec Ideal ⟨2, ![K, H]⟩ φ₂) (b1 : FVec Ideal ⟨2, ![1, H]⟩ .f32)
    (w2 : FVec Ideal ⟨2, ![H, N]⟩ φ₃) (b2 : FVec Ideal ⟨2, ![1, N]⟩ .f32) (r : FVec Ideal ⟨2, ![M, N]⟩ .f32) (p : Fin M) (q : Fin N) :
    truncf .bf16 (addf (maximumf (addf (matmul (DotDims.plain M H N) none
            (truncf .bf16 (maximumf (addf (matmul (DotDims.plain M K H) none x w1 (constant ⟨2, ![M, H]⟩ .f32 0x00000000#32))
                (broadcastTo ⟨2, ![M, H]⟩ b1 hb1)) (broadcast ⟨2, ![M, H]⟩ (Scalar.ofBits .f32 0x00000000#32))) hlt)
            w2 (constant ⟨2, ![M, N]⟩ .f32 0x00000000#32)) (broadcastTo ⟨2, ![M, N]⟩ b2 hb2))
          (broadcast ⟨2, ![M, N]⟩ (Scalar.ofBits .f32 0x00000000#32))) r) hlt (ix2 p q)
      = disAt x w1 b1 w2 b2 r p q := by
  rw [truncf_apply, addf_apply, maximumf_apply, broadcast_apply, dis_zero_f32]
  unfold disAt
  refine congrArg (fun z => max z 0 + r (ix2 p q)) ?_
  rw [dis_chip_rowDense_apply (φ₁ := .bf16) (φ₂ := φ₃) M H N hN hb2 _ w2 b2 p q]
  refine denseAt_congr (fun k => ?_) (fun _ => rfl) rfl
  show _ = max (denseAt x w1 (disRowVec b1) p k) 0
  rw [truncf_apply, maximumf_apply, broadcast_apply,
    dis_chip_rowDense_apply (φ₁ := φ₁) (φ₂ := φ₂) M K H hH hb1 x w1 b1 p k]

end Cert.Spec

end
-- ==== Proof.KI.Val1.lean ====
/-
  The value of region 1's output array at the ideal values.

  The region embeds 80000 lengths, 4000 rows per point over 20 points:  ee = relu(relu(len · W₁ + b₁) · W₂ + b₂) + es,
  narrowed to bf16 (nothing at the ideal values). Here the array the pipeline leaves is shown to be ONE function of
  the six arrays the region is entered with, index by index: entry (P, q) is the perceptron's entry (P, q) of the
  whole arrays (`Cert.Spec.disAt`). The payload of the body's store, read at an entry of a block, is the perceptron's
  entry of the loaded blocks; a block's rows of the lengths and of the edge states are the arrays' rows at the block's
  place, and the weights are loaded whole, so that entry is the whole arrays' entry there; and the 20 blocks tile the
  array.
-/
import proofs.«147763_j11003706212366_2_alg».proof.Proof.KI.Reg1
import proofs.«147763_j11003706212366_2_alg».proof.Proof.SpecDis
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.Spec

section Value1
-- the buffer contents the region is entered with, at the ideal values
variable (V : (c : Dev nD) → (b : Ref sig .tc) → Buf (Elt Ideal) ((c : Thread nD τ).loc b))

theorem hz1 : (![0, 0] : Fin 2 → Nat) = fun _ => 0 := funext fun a => by fin_cases a <;> rfl

/-! ## The closed form -/

/-- The embedded rows as ONE function of the region's six entry arrays, in window order (lengths, edge states, first
    weight row, first bias row, second weight matrix, second bias row): entry (P, q) is the perceptron's. -/
def G1_6 (a0 : S80000x1.Idx → Elt Ideal .bf16) (a1 : S80000x128.Idx → Elt Ideal .f32) (a2 : S1x128.Idx → Elt Ideal .bf16)
    (a3 : S1x128.Idx → Elt Ideal .f32) (a4 : S128x128.Idx → Elt Ideal .bf16) (a5 : S1x128.Idx → Elt Ideal .f32) :
    S80000x128.Idx → Elt Ideal .bf16 :=
  fun i => disAt (M := 80000) (K := 1) (H := 128) (N := 128) a0 a2 a3 a4 a5 a1 (i 0) (i 1)

/-- The payload of the body's store, at entry (p, q) of the block, is the perceptron's entry (p, q) of the loaded
    blocks: the reshapes to the same shape are the identity, the rest is the on-chip spelling. -/
theorem pay1_apply (x0 : Vec Ideal S4000x1 .bf16) (x2 : Vec Ideal S1x128 .bf16) (x3 : Vec Ideal S1x128 .f32)
    (x4 : Vec Ideal S128x128 .bf16) (x5 : Vec Ideal S1x128 .f32) (x1 : Vec Ideal S4000x128 .f32) (p : Fin 4000) (q : Fin 128) :
    k1_pay1 x0 x2 x3 x4 x5 x1 (ix2 p q) = disAt (M := 4000) (K := 1) (H := 128) (N := 128) x0 x2 x3 x4 x5 x1 p q :=
  (dis_chip_apply (φ₁ := .bf16) (φ₂ := .bf16) (φ₃ := .bf16) 4000 1 128 128 (by decide) (by decide) bitsLt_bf16_f32
      broadcasts_S1x128_S4000x128 broadcasts_S1x128_S4000x128
      (shapeCast S4000x1 x0 shapeCasts_S4000x1_S4000x1) (shapeCast S1x128 x2 shapeCasts_S1x128_S1x128)
      (shapeCast S1x128 x3 shapeCasts_S1x128_S1x128) (shapeCast S128x128 x4 shapeCasts_S128x128_S128x128)
      (shapeCast S1x128 x5 shapeCasts_S1x128_S1x128) x1 p q).trans
    (by simp only [shapeCast_self])

/-! ## The printed index maps -/

/-- Decided over the 20 points: the two row windows and the output sit at block row `t`, block column 0; the four
    weight windows stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 2's block is its whole array at every point: its block index stays (0, 0). -/
theorem wblk1_2 (c : Dev nD) (t : Fin cfg1.N) :
    (iblk1 V c 2 t : S1x128.Idx → Elt Ideal .bf16) = V c (Pipeline.arrRef spec1 2) := by
  obtain ⟨e00, e01, e10, e11, e20, e21, e30, e31, e40, e41, e50, e51, e60, e61⟩ := idx_facts1 t
  funext j
  show V c (Pipeline.arrRef spec1 2) (((cfg1.win 2).blk t).view.emb j) = V c (Pipeline.arrRef spec1 2) j
  refine congrArg (V c (Pipeline.arrRef spec1 2)) (funext fun a => Fin.ext ?_)
  match a with
  | ⟨0, _⟩ => show win1_2.index t (0 : Fin 2) * 1 + 1 * (j 0).val = (j 0).val; omega
  | ⟨1, _⟩ => show win1_2.index t (1 : Fin 2) * 128 + 1 * (j 1).val = (j 1).val; omega

/-- Window 3's block is its whole array at every point: its block index stays (0, 0). -/
theorem wblk1_3 (c : Dev nD) (t : Fin cfg1.N) :
    (iblk1 V c 3 t : S1x128.Idx → Elt Ideal .f32) = V c (Pipeline.arrRef spec1 3) := by
  obtain ⟨e00, e01, e10, e11, e20, e21, e30, e31, e40, e41, e50, e51, e60, e61⟩ := idx_facts1 t
  funext j
  show V c (Pipeline.arrRef spec1 3) (((cfg1.win 3).blk t).view.emb j) = V c (Pipeline.arrRef spec1 3) j
  refine congrArg (V c (Pipeline.arrRef spec1 3)) (funext fun a => Fin.ext ?_)
  match a with
  | ⟨0, _⟩ => show win1_3.index t (0 : Fin 2) * 1 + 1 * (j 0).val = (j 0).val; omega
  | ⟨1, _⟩ => show win1_3.index t (1 : Fin 2) * 128 + 1 * (j 1).val = (j 1).val; omega

/-- Window 4's block is its whole array at every point: its block index stays (0, 0). -/
theorem wblk1_4 (c : Dev nD) (t : Fin cfg1.N) :
    (iblk1 V c 4 t : S128x128.Idx → Elt Ideal .bf16) = V c (Pipeline.arrRef spec1 4) := by
  obtain ⟨e00, e01, e10, e11, e20, e21, e30, e31, e40, e41, e50, e51, e60, e61⟩ := idx_facts1 t
  funext j
  show V c (Pipeline.arrRef spec1 4) (((cfg1.win 4).blk t).view.emb j) = V c (Pipeline.arrRef spec1 4) j
  refine congrArg (V c (Pipeline.arrRef spec1 4)) (funext fun a => Fin.ext ?_)
  match a with
  | ⟨0, _⟩ => show win1_4.index t (0 : Fin 2) * 128 + 1 * (j 0).val = (j 0).val; omega
  | ⟨1, _⟩ => show win1_4.index t (1 : Fin 2) * 128 + 1 * (j 1).val = (j 1).val; omega

/-- Window 5's block is its whole array at every point: its block index stays (0, 0). -/
theorem wblk1_5 (c : Dev nD) (t : Fin cfg1.N) :
    (iblk1 V c 5 t : S1x128.Idx → Elt Ideal .f32) = V c (Pipeline.arrRef spec1 5) := by
  obtain ⟨e00, e01, e10, e11, e20, e21, e30, e31, e40, e41, e50, e51, e60, e61⟩ := idx_facts1 t
  funext j
  show V c (Pipeline.arrRef spec1 5) (((cfg1.win 5).blk t).view.emb j) = V c (Pipeline.arrRef spec1 5) j
  refine congrArg (V c (Pipeline.arrRef spec1 5)) (funext fun a => Fin.ext ?_)
  match a with
  | ⟨0, _⟩ => show win1_5.index t (0 : Fin 2) * 1 + 1 * (j 0).val = (j 0).val; omega
  | ⟨1, _⟩ => show win1_5.index t (1 : Fin 2) * 128 + 1 * (j 1).val = (j 1).val; omega

/-! ## One entry of one block -/

/-- Entry (p, q) of a block of the payload is entry (P, q) of `G1_6` when row p of the lengths' block is row P of
    the lengths, entry (p, q) of the edge states' block is entry (P, q) of the edge states, and the weight blocks are
    the weight arrays. -/
theorem point1_6 (A0 : S80000x1.Idx → Elt Ideal .bf16) (A1 : S80000x128.Idx → Elt Ideal .f32) (A2 : S1x128.Idx → Elt Ideal .bf16)
    (A3 : S1x128.Idx → Elt Ideal .f32) (A4 : S128x128.Idx → Elt Ideal .bf16) (A5 : S1x128.Idx → Elt Ideal .f32)
    (X0 : Vec Ideal S4000x1 .bf16) (X1 : Vec Ideal S4000x128 .f32) (X2 : Vec Ideal S1x128 .bf16) (X3 : Vec Ideal S1x128 .f32)
    (X4 : Vec Ideal S128x128 .bf16) (X5 : Vec Ideal S1x128 .f32) (p : Fin 4000) (q : Fin 128) (P : Fin 80000)
    (h0 : ∀ k : Fin 1, X0 (ix2 p k) = A0 (ix2 P k)) (h1 : X1 (ix2 p q) = A1 (ix2 P q))
    (h2 : X2 = A2) (h3 : X3 = A3) (h4 : X4 = A4) (h5 : X5 = A5) :
    k1_pay1 X0 X2 X3 X4 X5 X1 (ix2 p q) = G1_6 A0 A1 A2 A3 A4 A5 (ix2 P q) := by
  subst h2 h3 h4 h5
  exact (pay1_apply X0 X2 X3 X4 X5 X1 p q).trans (disAt_congr h0 h1)

/-- An index of a block is its two coordinates. -/
theorem split1_6 (j : S4000x128.Idx) : ∃ (p : Fin 4000) (q : Fin 128), j = ix2 p q := ⟨j 0, j 1, eq_ix2 j⟩

/-! ## A block's place in its array -/

/-- Entry (p, k) of point `t`'s block of window 0 (the lengths) sits at row t · 4000 + p of the array. -/
theorem emb1_0 (t : Fin cfg1.N) (p : Fin 4000) (k : Fin 1) (hP : t.val * 4000 + p.val < 80000) :
    ((cfg1.win 0).blk t).view.emb (ix2 p k) = (ix2 (⟨t.val * 4000 + p.val, hP⟩ : Fin 80000) k : S80000x1.Idx) := by
  obtain ⟨e00, e01, e10, e11, e20, e21, e30, e31, e40, e41, e50, e51, e60, e61⟩ := idx_facts1 t
  funext a; apply Fin.ext
  match a with
  | ⟨0, _⟩ => show win1_0.index t (0 : Fin 2) * 4000 + 1 * p.val = t.val * 4000 + p.val; omega
  | ⟨1, _⟩ => show win1_0.index t (1 : Fin 2) * 1 + 1 * k.val = k.val; omega

/-- Entry (p, q) of point `t`'s block of window 1 (the edge states) sits at row t · 4000 + p of the array. -/
theorem emb1_1 (t : Fin cfg1.N) (p : Fin 4000) (q : Fin 128) (hP : t.val * 4000 + p.val < 80000) :
    ((cfg1.win 1).blk t).view.emb (ix2 p q) = (ix2 (⟨t.val * 4000 + p.val, hP⟩ : Fin 80000) q : S80000x128.Idx) := by
  obtain ⟨e00, e01, e10, e11, e20, e21, e30, e31, e40, e41, e50, e51, e60, e61⟩ := idx_facts1 t
  funext a; apply Fin.ext
  match a with
  | ⟨0, _⟩ => show win1_1.index t (0 : Fin 2) * 4000 + 1 * p.val = t.val * 4000 + p.val; omega
  | ⟨1, _⟩ => show win1_1.index t (1 : Fin 2) * 128 + 1 * q.val = q.val; omega

/-- Entry (p, q) of point `t`'s block of window 6 (the output) sits at row t · 4000 + p of the array. -/
theorem emb1_6 (t : Fin cfg1.N) (p : Fin 4000) (q : Fin 128) (hP : t.val * 4000 + p.val < 80000) :
    ((cfg1.win 6).blk t).view.emb (ix2 p q) = (ix2 (⟨t.val * 4000 + p.val, hP⟩ : Fin 80000) q : S80000x128.Idx) := by
  obtain ⟨e00, e01, e10, e11, e20, e21, e30, e31, e40, e41, e50, e51, e60, e61⟩ := idx_facts1 t
  funext a; apply Fin.ext
  match a with
  | ⟨0, _⟩ => show win1_6.index t (0 : Fin 2) * 4000 + 1 * p.val = t.val * 4000 + p.val; omega
  | ⟨1, _⟩ => show win1_6.index t (1 : Fin 2) * 128 + 1 * q.val = q.val; omega

/-- so the block's entry is the array's entry there. -/
theorem rows1_0 (c : Dev nD) (t : Fin cfg1.N) (p : Fin 4000) (k : Fin 1) (hP : t.val * 4000 + p.val < 80000) :
    iblk1 V c 0 t (ix2 p k) = V c (Pipeline.arrRef spec1 0) (ix2 (⟨t.val * 4000 + p.val, hP⟩ : Fin 80000) k : S80000x1.Idx) := by
  show V c (Pipeline.arrRef spec1 0) (((cfg1.win 0).blk t).view.emb (ix2 p k)) = _
  rw [emb1_0 t p k hP]

/-- so the block's entry is the array's entry there. -/
theorem rows1_1 (c : Dev nD) (t : Fin cfg1.N) (p : Fin 4000) (q : Fin 128) (hP : t.val * 4000 + p.val < 80000) :
    iblk1 V c 1 t (ix2 p q) = V c (Pipeline.arrRef spec1 1) (ix2 (⟨t.val * 4000 + p.val, hP⟩ : Fin 80000) q : S80000x128.Idx) := by
  show V c (Pipeline.arrRef spec1 1) (((cfg1.win 1).blk t).view.emb (ix2 p q)) = _
  rw [emb1_1 t p q hP]

/-! ## What a point writes back -/

/-- WHAT POINT `t` WRITES BACK is block `t` of `G1_6` of the arrays the region is entered with. -/
theorem flushed1_6_eq (c : Dev nD) (t : Fin cfg1.N) :
    (dat1 (F := Ideal) V c).flushed 6 t = ((cfg1.win 6).blk t).view.read (Elt Ideal)
      (G1_6 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz1]
  simp only [View.ld_unit_zero (S := S4000x1) hz1, View.ld_unit_zero (S := S1x128) hz1,
    View.ld_unit_zero (S := S128x128) hz1, View.ld_unit_zero (S := S4000x128) hz1]
  have ht : t.val < 20 := lt_of_lt_of_eq t.isLt N_1
  funext j
  obtain ⟨p, q, rfl⟩ := split1_6 j
  have hp : p.val < 4000 := p.isLt
  have hP : t.val * 4000 + p.val < 80000 := by omega
  show k1_pay1 (iblk1 V c 0 t) (iblk1 V c 2 t) (iblk1 V c 3 t) (iblk1 V c 4 t) (iblk1 V c 5 t) (iblk1 V c 1 t) (ix2 p q)
    = G1_6 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (((cfg1.win 6).blk t).view.emb (ix2 p q))
  rw [emb1_6 t p q hP]
  exact point1_6 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))
    (iblk1 V c 0 t) (iblk1 V c 1 t) (iblk1 V c 2 t) (iblk1 V c 3 t) (iblk1 V c 4 t) (iblk1 V c 5 t) p q ⟨t.val * 4000 + p.val, hP⟩
    (fun k => rows1_0 V c t p k hP) (rows1_1 V c t p q hP)
    (wblk1_2 V c t) (wblk1_3 V c t) (wblk1_4 V c t) (wblk1_5 V c t)

/-! ## The blocks tile the array -/

/-- An index of the array is in point `t`'s block iff each coordinate is in the block's range on its axis. -/
theorem mem_blk1_6 (t : Fin cfg1.N) (i : S80000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v37).slice (win1_6.rect t)).set ↔ _
  rw [View.set_slice_whole, Rect.mem_set_unit]
  exact Iff.rfl

/-- Every index of the array is in some point's block: row P lies in block P / 4000. -/
theorem cover_blk1_6 (i : S80000x128.Idx) :
    ∃ t : Fin cfg1.N, (cfg1.win 6).flush t = true ∧ i ∈ ((cfg1.win 6).blk t).view.set := by
  have hi0 : (i 0).val < 80000 := (i 0).isLt
  have hi1 : (i 1).val < 128 := (i 1).isLt
  have hlt : (i 0).val / 4000 < cfg1.N := lt_of_lt_of_eq (by omega : (i 0).val / 4000 < 20) N_1.symm
  refine ⟨⟨(i 0).val / 4000, hlt⟩, flush1_6 _, ?_⟩
  obtain ⟨e00, e01, e10, e11, e20, e21, e30, e31, e40, e41, e50, e51, e60, e61⟩ := idx_facts1 ⟨(i 0).val / 4000, hlt⟩
  have e60' : win1_6.index ⟨(i 0).val / 4000, hlt⟩ (0 : Fin 2) = (i 0).val / 4000 := e60
  rw [mem_blk1_6]
  intro a
  match a with
  | ⟨0, _⟩ => show win1_6.index ⟨(i 0).val / 4000, hlt⟩ (0 : Fin 2) * 4000 ≤ (i 0).val ∧ (i 0).val < win1_6.index ⟨(i 0).val / 4000, hlt⟩ (0 : Fin 2) * 4000 + 4000; omega
  | ⟨1, _⟩ => show win1_6.index ⟨(i 0).val / 4000, hlt⟩ (1 : Fin 2) * 128 ≤ (i 1).val ∧ (i 1).val < win1_6.index ⟨(i 0).val / 4000, hlt⟩ (1 : Fin 2) * 128 + 128; omega

/-! ## The array after the run -/

/-- THE ARRAY the pipeline leaves: `G1_6` of the arrays the region is entered with. -/
theorem final1_6 (c : Dev nD) : (dat1 (F := Ideal) V c).arrAt 6 cfg1.N
    = G1_6 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 V c).arrAt_eq_of_cover 6 _ (fun t _ => flushed1_6_eq V c t) cover_blk1_6

end Value1

end Cert.KernelIdeal.Hand
-- ==== Proof.LibReluDense.lean ====
/-
  A dense layer followed by the positive part, x ↦ max (x · W + b) 0, as one function of whole arrays, the bias a
  one-row matrix; and stacks of such layers over blocks of rows.

  Entry (p, q) of the layer is the larger of 0 and the sum over the contraction position k of x (p, k) · W (k, q) plus
  b (0, q). The on-chip spelling of the layer (a plain matrix product accumulated into the zero splat, the bias row
  reshaped to itself, laid over every row and added, then the maximum with the zero splat) computes this function at
  the ideal values. Entry (p, q) reads row p of x and nothing else of x, so the layer of a block of rows of x is the
  same block of rows of the layer (`reluDense_rows`); a stack of layers inherits this one layer at a time. Nothing of
  real arithmetic is used, so the statements hold at the infinities too.
-/
import proofs.«147763_j11003706212366_2_alg».proof.Proof.LibDense

noncomputable section

open scoped BigOperators

namespace Cert.LibReluDense

open Idealize.ShloMosaic Idealize.ShloMosaic.ValueIdx Cert.LibDense

/-- The one row of a [1, N] matrix, as a [N] vector. -/
def rowOf {N : Nat} (b : (⟨2, ![1, N]⟩ : Shape).Idx → EReal) : (⟨1, ![N]⟩ : Shape).Idx → EReal :=
  fun j => b (ix2 (0 : Fin 1) (j 0))

theorem rowOf_apply {N : Nat} (b : (⟨2, ![1, N]⟩ : Shape).Idx → EReal) (q : Fin N) : rowOf b (ix1 q) = b (ix2 (0 : Fin 1) q) := rfl

/-- max (x · W + b) 0: entry (p, q) is the larger of 0 and row p of x against column q of W plus entry (0, q) of b. -/
def reluDense {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => max (denseAt x w (rowOf b) (i 0) (i 1)) 0

theorem reluDense_apply {M K N : Nat} (x : (⟨2, ![M, K]⟩ : Shape).Idx → EReal) (w : (⟨2, ![K, N]⟩ : Shape).Idx → EReal)
    (b : (⟨2, ![1, N]⟩ : Shape).Idx → EReal) (p : Fin M) (q : Fin N) :
    reluDense x w b (ix2 p q) = max (denseAt x w (rowOf b) p q) 0 := rfl

/-- The layer's entry (p, q) reads row p of x only: two left operands (possibly of different heights) whose rows p and
    p' agree give the same entry in those rows. -/
theorem reluDense_rows {M M' K N : Nat} {x : (⟨2, ![M, K]⟩ : Shape).Idx → EReal} {x' : (⟨2, ![M', K]⟩ : Shape).Idx → EReal}
    (w : (⟨2, ![K, N]⟩ : Shape).Idx → EReal) (b : (⟨2, ![1, N]⟩ : Shape).Idx → EReal) {p : Fin M} {p' : Fin M'}
    (hx : ∀ k : Fin K, x (ix2 p k) = x' (ix2 p' k)) (q : Fin N) :
    reluDense x w b (ix2 p q) = reluDense x' w b (ix2 p' q) :=
  congrArg (fun v => max v 0) (denseAt_congr hx (fun _ => rfl) rfl)

/-- At the ideal values a narrowing of format changes nothing. -/
theorem truncf_id {s : Shape} {φ ψ : FTy} (x : FVec Ideal s φ) (h : ψ.bits < φ.bits) :
    (truncf ψ x h : s.Idx → EReal) = x := rfl

/-- A [1, N] row reshaped to itself and laid over M rows, at (p, q), is the row at (0, q). -/
theorem rowOver_read {M N : Nat} (hN : N ≠ 1) (hc : (⟨2, ![1, N]⟩ : Shape).ShapeCasts ⟨2, ![1, N]⟩)
    (hb : (⟨2, ![1, N]⟩ : Shape).Broadcasts ⟨2, ![M, N]⟩) (v : (⟨2, ![1, N]⟩ : Shape).Idx → EReal) (p : Fin M) (q : Fin N) :
    broadcastTo ⟨2, ![M, N]⟩ (shapeCast ⟨2, ![1, N]⟩ v hc) hb (ix2 p q) = v (ix2 (0 : Fin 1) q) := by
  rw [shapeCast_self]
  refine broadcastTo_apply v hb (ix2 p q) (ix2 (0 : Fin 1) q) (fun a => ?_)
  match a with
  | ⟨0, _⟩ => show (0 : Nat) = if (1 : Nat) = 1 then 0 else _; simp
  | ⟨1, _⟩ => show q.val = if N = 1 then 0 else q.val; rw [if_neg hN]

/-- The on-chip spelling of the layer, as a whole: any plain dimension numbers `d`, the right operand reshaped to
    itself, the accumulator the zero splat, the bias row reshaped to itself and laid over the rows, the positive part as
    the maximum with the zero splat. -/
theorem chip_reluDense {φ₁ φ₂ : FTy} (M K N : Nat) (hN : N ≠ 1)
    (d : DotDims ⟨2, ![M, K]⟩ ⟨2, ![K, N]⟩ ⟨2, ![M, N]⟩) (hd : d = DotDims.plain M K N)
    (hw : (⟨2, ![K, N]⟩ : Shape).ShapeCasts ⟨2, ![K, N]⟩)
    (hc : (⟨2, ![1, N]⟩ : Shape).ShapeCasts ⟨2, ![1, N]⟩) (hb : (⟨2, ![1, N]⟩ : Shape).Broadcasts ⟨2, ![M, N]⟩)
    (x : FVec Ideal ⟨2, ![M, K]⟩ φ₁) (w : FVec Ideal ⟨2, ![K, N]⟩ φ₂) (b : FVec Ideal ⟨2, ![1, N]⟩ .f32) :
    maximumf (addf (matmul d none x (shapeCast ⟨2, ![K, N]⟩ w hw) (constant ⟨2, ![M, N]⟩ .f32 0x00000000#32))
        (broadcastTo ⟨2, ![M, N]⟩ (shapeCast ⟨2, ![1, N]⟩ b hc) hb))
      (broadcast ⟨2, ![M, N]⟩ (Scalar.ofBits .f32 0x00000000#32 : Ideal .f32))
      = reluDense x w b := by
  subst hd
  funext i
  obtain ⟨p, q, rfl⟩ : ∃ p q, i = ix2 p q := ⟨_, _, eq_ix2 i⟩
  rw [maximumf_apply, addf_apply, broadcast_apply, shapeCast_self w hw, rowOver_read hN hc hb b p q, reluDense_apply]
  unfold denseAt
  rw [rowOf_apply]
  refine congrArg₂ max (congrArg (· + b (ix2 (0 : Fin 1) q)) (Cert.Bridge.matmul_plain_zero_apply M K N none x w p q)) ?_
  exact Ideal.ofBits_zero_f32

/-- The host spelling of the layer, as a whole: a plain `dot_general`, the bias vector broadcast to one row and then
    down all the rows and added, the positive part as the maximum with the zero scalar broadcast to the shape. It is the
    layer of the same operands with the bias vector reshaped to one row. -/
theorem host_reluDense (M K N : Nat) (hN : N ≠ 1)
    (d : DotDims ⟨2, ![M, K]⟩ ⟨2, ![K, N]⟩ ⟨2, ![M, N]⟩) (hd : d = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩)
    (x : FVec Ideal ⟨2, ![M, K]⟩ .f32) (w : FVec Ideal ⟨2, ![K, N]⟩ .f32) (b : FVec Ideal ⟨1, ![N]⟩ .f32) :
    maximumf (addf (Host.dotGeneral d none x w)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32))
      = reluDense x w (shapeCast ⟨2, ![1, N]⟩ b hc) := by
  subst hd
  funext i
  obtain ⟨p, q, rfl⟩ : ∃ p q, i = ix2 p q := ⟨_, _, eq_ix2 i⟩
  rw [maximumf_apply, host_dense_apply M K N hN h1 h2 x w b p q, Cert.LibRowReads.splat_read h0, constant_apply,
    reluDense_apply]
  refine congrArg₂ max (denseAt_congr (fun _ => rfl) (fun _ => rfl) ?_) Ideal.ofBits_zero_f32
  exact (Cert.LibRowReads.asRow_read hc b q).symm

end Cert.LibReluDense

end
-- ==== Proof.LibDenseRows.lean ====
/-
  Dense layers over row blocks, as whole-array functions on the extended reals.

  A node-feature matrix `x` has one row per node. A dense layer sends it to `x · w`, possibly plus one
  bias row added to every row, possibly followed by the positive part entry by entry. Each of these is
  stated here as ONE function of the whole arrays, index by index: entry `(r, q)` of `x · w` is the sum
  over `j` of `x (r, j) * w (j, q)`; entry `(r, q)` of `a` plus the row `b` is `a (r, q) + b (0, q)`.
  Nothing here depends on how the rows are tiled into blocks, nor on the order in which the products of
  one entry are added: on the extended reals addition is commutative and associative, so a sum over a
  finite index type is one value. The shapes are parameters; a use instantiates them at literals.
-/
import Idealize.ShloMosaic.PureOps.Ideal
import Idealize.ShloMosaic.Lib.ValueIdx

noncomputable section

namespace Cert.DenseRows

open Idealize.ShloMosaic Idealize.ShloMosaic.ValueIdx

/-- The matrix product `x · w`: entry `(r, q)` is the sum over `j` of `x (r, j) * w (j, q)`. -/
def mul {n k c : Nat} (x : (⟨2, ![n, k]⟩ : Shape).Idx → EReal) (w : (⟨2, ![k, c]⟩ : Shape).Idx → EReal) :
    (⟨2, ![n, c]⟩ : Shape).Idx → EReal :=
  fun i => ∑ j : Fin k, x (ix2 (i 0) j) * w (ix2 j (i 1))

/-- The one row `b` added to every row of `a`: entry `(r, q)` is `a (r, q) + b (0, q)`. -/
def addRow {n c : Nat} (a : (⟨2, ![n, c]⟩ : Shape).Idx → EReal) (b : (⟨2, ![1, c]⟩ : Shape).Idx → EReal) :
    (⟨2, ![n, c]⟩ : Shape).Idx → EReal :=
  fun i => a i + b (ix2 0 (i 1))

/-- The positive part, entry by entry: `max (a (r, q)) 0`. -/
def pos {n c : Nat} (a : (⟨2, ![n, c]⟩ : Shape).Idx → EReal) : (⟨2, ![n, c]⟩ : Shape).Idx → EReal :=
  fun i => max (a i) 0

theorem mul_apply {n k c : Nat} (x : (⟨2, ![n, k]⟩ : Shape).Idx → EReal) (w : (⟨2, ![k, c]⟩ : Shape).Idx → EReal)
    (i : (⟨2, ![n, c]⟩ : Shape).Idx) : mul x w i = ∑ j : Fin k, x (ix2 (i 0) j) * w (ix2 j (i 1)) := rfl

theorem addRow_apply {n c : Nat} (a : (⟨2, ![n, c]⟩ : Shape).Idx → EReal) (b : (⟨2, ![1, c]⟩ : Shape).Idx → EReal)
    (i : (⟨2, ![n, c]⟩ : Shape).Idx) : addRow a b i = a i + b (ix2 0 (i 1)) := rfl

theorem pos_apply {n c : Nat} (a : (⟨2, ![n, c]⟩ : Shape).Idx → EReal) (i : (⟨2, ![n, c]⟩ : Shape).Idx) :
    pos a i = max (a i) 0 := rfl

end Cert.DenseRows

end
-- ==== Proof.SpecEdge.lean ====
/-
  The edge update of the network, as functions of whole arrays at the ideal values, for any extents.

  An edge's row is updated by a three-layer perceptron whose input is the concatenation of four row vectors of width L.
  The first layer is spelt through its four bands: with the first weight matrix cut into the four row bands Wa, Wb, Wc, Wd
  that meet the four inputs, entry (p, k) of the first hidden array is

      max (Σ_j a(p,j)·Wa(j,k) + Σ_j b(p,j)·Wb(j,k) + Σ_j c(p,j)·Wc(j,k) + Σ_j d(p,j)·Wd(j,k) + b1(0,k)) 0,

  the four sums added from the left (`edgeHid4`). The second and third layers are rectified dense layers with a one-row
  bias (`LibReluDense.reluDense`), so that the new edge array is

      edgeE1 = reluDense (reluDense (edgeHid4 a b c d Wa Wb Wc Wd b1) W2 b2) W3 b3

  and the residual output is `edgeEs = edgeE1 + es`, entry by entry. Entry (p, q) of each reads row p of a, b, c, d (and
  entry (p, q) of es) and nothing else of them, so the functions computed on a block of rows are the same block of rows
  of the functions on the whole arrays (`edgeE1_rows`, `edgeEs_rows`). The on-chip spellings of the pieces (a product
  accumulated into the zero splat with the right operand reshaped to itself; a row reshaped to itself, laid over the rows,
  added, and the maximum with the zero splat, possibly narrowed afterwards) compute these functions at the ideal values.
  Nothing of real arithmetic is used, so the statements hold at the infinities too.
-/
import proofs.«147763_j11003706212366_2_alg».proof.Proof.LibReluDense
import proofs.«147763_j11003706212366_2_alg».proof.Proof.LibDenseRows
import Idealize.ShloMosaic.Lib.Pipeline.Value

noncomputable section

open scoped BigOperators

namespace Cert.Spec

open Idealize.ShloMosaic Idealize.ShloMosaic.ValueIdx Cert.LibDense Cert.LibReluDense Cert.DenseRows

/-! ## The functions -/

/-- The first hidden array: four band products added from the left, the bias row, the positive part. -/
def edgeHid4 {M L H : Nat} (a b c d : (⟨2, ![M, L]⟩ : Shape).Idx → EReal) (wa wb wc wd : (⟨2, ![L, H]⟩ : Shape).Idx → EReal)
    (b1 : (⟨2, ![1, H]⟩ : Shape).Idx → EReal) : (⟨2, ![M, H]⟩ : Shape).Idx → EReal :=
  pos (addRow (fun i => mul a wa i + mul b wb i + mul c wc i + mul d wd i) b1)

/-- The new edge array. -/
def edgeE1 {M L H H' O : Nat} (a b c d : (⟨2, ![M, L]⟩ : Shape).Idx → EReal) (wa wb wc wd : (⟨2, ![L, H]⟩ : Shape).Idx → EReal)
    (b1 : (⟨2, ![1, H]⟩ : Shape).Idx → EReal) (w2 : (⟨2, ![H, H']⟩ : Shape).Idx → EReal) (b2 : (⟨2, ![1, H']⟩ : Shape).Idx → EReal)
    (w3 : (⟨2, ![H', O]⟩ : Shape).Idx → EReal) (b3 : (⟨2, ![1, O]⟩ : Shape).Idx → EReal) : (⟨2, ![M, O]⟩ : Shape).Idx → EReal :=
  reluDense (reluDense (edgeHid4 a b c d wa wb wc wd b1) w2 b2) w3 b3

/-- The residual output: the new edge array plus the old one. -/
def edgeEs {M L H H' O : Nat} (a b c d : (⟨2, ![M, L]⟩ : Shape).Idx → EReal) (es : (⟨2, ![M, O]⟩ : Shape).Idx → EReal)
    (wa wb wc wd : (⟨2, ![L, H]⟩ : Shape).Idx → EReal)
    (b1 : (⟨2, ![1, H]⟩ : Shape).Idx → EReal) (w2 : (⟨2, ![H, H']⟩ : Shape).Idx → EReal) (b2 : (⟨2, ![1, H']⟩ : Shape).Idx → EReal)
    (w3 : (⟨2, ![H', O]⟩ : Shape).Idx → EReal) (b3 : (⟨2, ![1, O]⟩ : Shape).Idx → EReal) : (⟨2, ![M, O]⟩ : Shape).Idx → EReal :=
  fun i => edgeE1 a b c d wa wb wc wd b1 w2 b2 w3 b3 i + es i

/-! ## Rows -/

/-- Entry (p, k) of the first hidden array reads row p of the four inputs only. -/
theorem edgeHid4_rows {M M' L H : Nat} {a b c d : (⟨2, ![M, L]⟩ : Shape).Idx → EReal} {a' b' c' d' : (⟨2, ![M', L]⟩ : Shape).Idx → EReal}
    (wa wb wc wd : (⟨2, ![L, H]⟩ : Shape).Idx → EReal) (b1 : (⟨2, ![1, H]⟩ : Shape).Idx → EReal) {p : Fin M} {p' : Fin M'}
    (ha : ∀ j : Fin L, a (ix2 p j) = a' (ix2 p' j)) (hb : ∀ j : Fin L, b (ix2 p j) = b' (ix2 p' j))
    (hc : ∀ j : Fin L, c (ix2 p j) = c' (ix2 p' j)) (hd : ∀ j : Fin L, d (ix2 p j) = d' (ix2 p' j)) (k : Fin H) :
    edgeHid4 a b c d wa wb wc wd b1 (ix2 p k) = edgeHid4 a' b' c' d' wa wb wc wd b1 (ix2 p' k) := by
  show max ((∑ j : Fin L, a (ix2 p j) * wa (ix2 j k)) + (∑ j : Fin L, b (ix2 p j) * wb (ix2 j k))
      + (∑ j : Fin L, c (ix2 p j) * wc (ix2 j k)) + (∑ j : Fin L, d (ix2 p j) * wd (ix2 j k)) + b1 (ix2 (0 : Fin 1) k)) 0
    = max ((∑ j : Fin L, a' (ix2 p' j) * wa (ix2 j k)) + (∑ j : Fin L, b' (ix2 p' j) * wb (ix2 j k))
      + (∑ j : Fin L, c' (ix2 p' j) * wc (ix2 j k)) + (∑ j : Fin L, d' (ix2 p' j) * wd (ix2 j k)) + b1 (ix2 (0 : Fin 1) k)) 0
  rw [Finset.sum_congr rfl fun j _ => congrArg (· * wa (ix2 j k)) (ha j), Finset.sum_congr rfl fun j _ => congrArg (· * wb (ix2 j k)) (hb j),
    Finset.sum_congr rfl fun j _ => congrArg (· * wc (ix2 j k)) (hc j), Finset.sum_congr rfl fun j _ => congrArg (· * wd (ix2 j k)) (hd j)]

/-- Entry (p, q) of the new edge array reads row p of the four inputs only. -/
theorem edgeE1_rows {M M' L H H' O : Nat} {a b c d : (⟨2, ![M, L]⟩ : Shape).Idx → EReal} {a' b' c' d' : (⟨2, ![M', L]⟩ : Shape).Idx → EReal}
    (wa wb wc wd : (⟨2, ![L, H]⟩ : Shape).Idx → EReal)
    (b1 : (⟨2, ![1, H]⟩ : Shape).Idx → EReal) (w2 : (⟨2, ![H, H']⟩ : Shape).Idx → EReal) (b2 : (⟨2, ![1, H']⟩ : Shape).Idx → EReal)
    (w3 : (⟨2, ![H', O]⟩ : Shape).Idx → EReal) (b3 : (⟨2, ![1, O]⟩ : Shape).Idx → EReal) {p : Fin M} {p' : Fin M'}
    (ha : ∀ j : Fin L, a (ix2 p j) = a' (ix2 p' j)) (hb : ∀ j : Fin L, b (ix2 p j) = b' (ix2 p' j))
    (hc : ∀ j : Fin L, c (ix2 p j) = c' (ix2 p' j)) (hd : ∀ j : Fin L, d (ix2 p j) = d' (ix2 p' j)) (q : Fin O) :
    edgeE1 a b c d wa wb wc wd b1 w2 b2 w3 b3 (ix2 p q) = edgeE1 a' b' c' d' wa wb wc wd b1 w2 b2 w3 b3 (ix2 p' q) :=
  reluDense_rows w3 b3 (fun k' => reluDense_rows w2 b2 (fun k => edgeHid4_rows wa wb wc wd b1 ha hb hc hd k) k') q

/-- Entry (p, q) of the residual output reads row p of the four inputs and entry (p, q) of the old edge array only. -/
theorem edgeEs_rows {M M' L H H' O : Nat} {a b c d : (⟨2, ![M, L]⟩ : Shape).Idx → EReal} {a' b' c' d' : (⟨2, ![M', L]⟩ : Shape).Idx → EReal}
    {es : (⟨2, ![M, O]⟩ : Shape).Idx → EReal} {es' : (⟨2, ![M', O]⟩ : Shape).Idx → EReal}
    (wa wb wc wd : (⟨2, ![L, H]⟩ : Shape).Idx → EReal)
    (b1 : (⟨2, ![1, H]⟩ : Shape).Idx → EReal) (w2 : (⟨2, ![H, H']⟩ : Shape).Idx → EReal) (b2 : (⟨2, ![1, H']⟩ : Shape).Idx → EReal)
    (w3 : (⟨2, ![H', O]⟩ : Shape).Idx → EReal) (b3 : (⟨2, ![1, O]⟩ : Shape).Idx → EReal) {p : Fin M} {p' : Fin M'}
    (ha : ∀ j : Fin L, a (ix2 p j) = a' (ix2 p' j)) (hb : ∀ j : Fin L, b (ix2 p j) = b' (ix2 p' j))
    (hc : ∀ j : Fin L, c (ix2 p j) = c' (ix2 p' j)) (hd : ∀ j : Fin L, d (ix2 p j) = d' (ix2 p' j)) (q : Fin O)
    (he : es (ix2 p q) = es' (ix2 p' q)) :
    edgeEs a b c d es wa wb wc wd b1 w2 b2 w3 b3 (ix2 p q) = edgeEs a' b' c' d' es' wa wb wc wd b1 w2 b2 w3 b3 (ix2 p' q) := by
  show edgeE1 a b c d wa wb wc wd b1 w2 b2 w3 b3 (ix2 p q) + es (ix2 p q)
    = edgeE1 a' b' c' d' wa wb wc wd b1 w2 b2 w3 b3 (ix2 p' q) + es' (ix2 p' q)
  rw [edgeE1_rows wa wb wc wd b1 w2 b2 w3 b3 ha hb hc hd q, he]

/-! ## The on-chip spellings -/

/-- A plain product accumulated into the zero splat, the right operand reshaped to itself, is the product. -/
theorem edge_chip_mul {φ₁ φ₂ : FTy} (M K N : Nat) (d : DotDims ⟨2, ![M, K]⟩ ⟨2, ![K, N]⟩ ⟨2, ![M, N]⟩) (hd : d = DotDims.plain M K N)
    (hw : (⟨2, ![K, N]⟩ : Shape).ShapeCasts ⟨2, ![K, N]⟩) (x : FVec Ideal ⟨2, ![M, K]⟩ φ₁) (w : FVec Ideal ⟨2, ![K, N]⟩ φ₂) :
    matmul d none x (shapeCast ⟨2, ![K, N]⟩ w hw) (constant ⟨2, ![M, N]⟩ .f32 0x00000000#32) = mul x w := by
  subst hd
  funext i
  obtain ⟨p, q, rfl⟩ : ∃ p q, i = ix2 p q := ⟨_, _, eq_ix2 i⟩
  rw [shapeCast_self w hw]
  exact Cert.Bridge.matmul_plain_zero_apply M K N none x w p q

/-- The same with the left operand reshaped to itself too. -/
theorem edge_chip_mul' {φ₁ φ₂ : FTy} (M K N : Nat) (d : DotDims ⟨2, ![M, K]⟩ ⟨2, ![K, N]⟩ ⟨2, ![M, N]⟩) (hd : d = DotDims.plain M K N)
    (hx : (⟨2, ![M, K]⟩ : Shape).ShapeCasts ⟨2, ![M, K]⟩) (hw : (⟨2, ![K, N]⟩ : Shape).ShapeCasts ⟨2, ![K, N]⟩)
    (x : FVec Ideal ⟨2, ![M, K]⟩ φ₁) (w : FVec Ideal ⟨2, ![K, N]⟩ φ₂) :
    matmul d none (shapeCast ⟨2, ![M, K]⟩ x hx) (shapeCast ⟨2, ![K, N]⟩ w hw) (constant ⟨2, ![M, N]⟩ .f32 0x00000000#32) = mul x w := by
  rw [shapeCast_self x hx]
  exact edge_chip_mul M K N d hd hw x w

/-- A row reshaped to itself, laid over the rows and added, then the maximum with the zero splat: x ↦ max (x + row) 0. -/
theorem edge_chip_posAddRow {M N : Nat} (hN : N ≠ 1) (hc : (⟨2, ![1, N]⟩ : Shape).ShapeCasts ⟨2, ![1, N]⟩)
    (hb : (⟨2, ![1, N]⟩ : Shape).Broadcasts ⟨2, ![M, N]⟩) (x : FVec Ideal ⟨2, ![M, N]⟩ .f32) (b : FVec Ideal ⟨2, ![1, N]⟩ .f32) :
    maximumf (addf x (broadcastTo ⟨2, ![M, N]⟩ (shapeCast ⟨2, ![1, N]⟩ b hc) hb))
        (broadcast ⟨2, ![M, N]⟩ (Scalar.ofBits .f32 0x00000000#32 : Ideal .f32)) = pos (addRow x b) := by
  funext i
  obtain ⟨p, q, rfl⟩ : ∃ p q, i = ix2 p q := ⟨_, _, eq_ix2 i⟩
  rw [maximumf_apply, addf_apply, broadcast_apply, rowOver_read hN hc hb b p q]
  exact congrArg (max (x (ix2 p q) + b (ix2 (0 : Fin 1) q))) Ideal.ofBits_zero_f32

/-- The same, narrowed afterwards: a change of format, nothing at the ideal values. -/
theorem edge_chip_truncPosAddRow {M N : Nat} {ψ : FTy} (hN : N ≠ 1) (hlt : ψ.bits < FTy.bits .f32)
    (hc : (⟨2, ![1, N]⟩ : Shape).ShapeCasts ⟨2, ![1, N]⟩)
    (hb : (⟨2, ![1, N]⟩ : Shape).Broadcasts ⟨2, ![M, N]⟩) (x : FVec Ideal ⟨2, ![M, N]⟩ .f32) (b : FVec Ideal ⟨2, ![1, N]⟩ .f32) :
    (truncf ψ (maximumf (addf x (broadcastTo ⟨2, ![M, N]⟩ (shapeCast ⟨2, ![1, N]⟩ b hc) hb))
        (broadcast ⟨2, ![M, N]⟩ (Scalar.ofBits .f32 0x00000000#32 : Ideal .f32))) hlt : (⟨2, ![M, N]⟩ : Shape).Idx → EReal)
      = pos (addRow x b) :=
  edge_chip_posAddRow hN hc hb x b

/-- The positive part of a product plus a row is the rectified dense layer. -/
theorem edge_posAddRow_mul {M K N : Nat} (x : (⟨2, ![M, K]⟩ : Shape).Idx → EReal) (w : (⟨2, ![K, N]⟩ : Shape).Idx → EReal)
    (b : (⟨2, ![1, N]⟩ : Shape).Idx → EReal) : pos (addRow (mul x w) b) = reluDense x w b := rfl

end Cert.Spec

end
-- ==== Proof.KI.Val2.lean ====
/-
  The edge-update region 2 at the ideal values: what its two output arrays hold after the region, as functions of the
  arrays the region reads.

  Every grid point t computes 2000 rows. Row p of the first output block is
      max (max (max (a·Wa + b·Wb + c·Wc + d·Wd + b1) 0 · W2 + b2) 0 · W3 + b3) 0
  at row p of the blocks of a, b, c, d, and the second output block adds the block of the old edge array: the functions
  `Spec.edgeE1` and `Spec.edgeEs` at height 2000. Block t of a row-tiled array is its rows 2000 t … 2000 t + 1999, and
  the block of a weight or bias array is the whole array, so what point t writes back is block t of the same functions of
  the whole arrays (their entries read one row of the inputs). The 40 blocks cover the 80000 rows: row r lies in block
  r / 2000. So each output array ends holding the function of the whole arrays.
-/
import proofs.«147763_j11003706212366_2_alg».proof.Proof.KI.Reg2
import proofs.«147763_j11003706212366_2_alg».proof.Proof.SpecEdge
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.LibDense Cert.LibReluDense Cert.DenseRows Cert.Spec

/-! ## The payloads, as functions of the blocks -/

theorem dot2_a : dot_S2000x128_S128x512_S2000x512_1_0_0_1_n_n = DotDims.plain 2000 128 512 := rfl
theorem dot2_b : dot_S2000x512_S512x512_S2000x512_1_0_0_1_n_n = DotDims.plain 2000 512 512 := rfl
theorem dot2_c : dot_S2000x512_S512x128_S2000x128_1_0_0_1_n_n = DotDims.plain 2000 512 128 := rfl

/-- The part's payload: the first hidden array of the blocks, against the second weight matrix. -/
theorem pay2_3_eq (v0 : Vec Ideal S2000x128 .bf16) (v2 : Vec Ideal S128x512 .bf16) (v5 : Vec Ideal S2000x128 .bf16) (v7 : Vec Ideal S128x512 .bf16)
    (v11 : Vec Ideal S2000x128 .bf16) (v13 : Vec Ideal S128x512 .bf16) (v17 : Vec Ideal S2000x128 .bf16) (v19 : Vec Ideal S128x512 .bf16)
    (v23 : Vec Ideal S1x512 .f32) (v30 : Vec Ideal S512x512 .bf16) :
    k2_pay3 v0 v2 v5 v7 v11 v13 v17 v19 v23 v30 = mul (edgeHid4 v0 v5 v11 v17 v2 v7 v13 v19 v23) v30 := by
  unfold k2_pay3
  refine (edge_chip_mul (φ₁ := .bf16) (φ₂ := .bf16) 2000 512 512 _ dot2_b shapeCasts_S512x512_S512x512 _ v30).trans ?_
  refine congrArg (mul · v30) ?_
  refine (edge_chip_truncPosAddRow (ψ := .bf16) (by decide) bitsLt_bf16_f32 shapeCasts_S1x512_S1x512 broadcasts_S1x512_S2000x512 _ v23).trans ?_
  unfold edgeHid4
  refine congrArg (fun z => pos (addRow z v23)) ?_
  exact congrArg₂ addf (congrArg₂ addf (congrArg₂ addf
      (edge_chip_mul' (φ₁ := .bf16) (φ₂ := .bf16) 2000 128 512 _ dot2_a shapeCasts_S2000x128_S2000x128 shapeCasts_S128x512_S128x512 v0 v2)
      (edge_chip_mul' (φ₁ := .bf16) (φ₂ := .bf16) 2000 128 512 _ dot2_a shapeCasts_S2000x128_S2000x128 shapeCasts_S128x512_S128x512 v5 v7))
      (edge_chip_mul' (φ₁ := .bf16) (φ₂ := .bf16) 2000 128 512 _ dot2_a shapeCasts_S2000x128_S2000x128 shapeCasts_S128x512_S128x512 v11 v13))
      (edge_chip_mul' (φ₁ := .bf16) (φ₂ := .bf16) 2000 128 512 _ dot2_a shapeCasts_S2000x128_S2000x128 shapeCasts_S128x512_S128x512 v17 v19)

/-- The first store's payload: the last two layers. -/
theorem pay2_1_eq (v32 : FVec Ideal S2000x512 .f32) (v33 : Vec Ideal S1x512 .f32) (v40 : Vec Ideal S512x128 .bf16) (v43 : Vec Ideal S1x128 .f32) :
    k2_pay1 v32 v33 v40 v43 = reluDense (pos (addRow v32 v33)) v40 v43 := by
  unfold k2_pay1
  refine (chip_reluDense (φ₁ := .bf16) (φ₂ := .bf16) 2000 512 128 (by decide) _ dot2_c shapeCasts_S512x128_S512x128 shapeCasts_S1x128_S1x128
    broadcasts_S1x128_S2000x128 _ v40 v43).trans ?_
  exact congrArg (reluDense · v40 v43)
    (edge_chip_truncPosAddRow (ψ := .bf16) (by decide) bitsLt_bf16_f32 shapeCasts_S1x512_S1x512 broadcasts_S1x512_S2000x512 v32 v33)

/-- The first store's payload over the loaded blocks: the new edge block. -/
theorem pay2_14_eq (v0 : Vec Ideal S2000x128 .bf16) (v2 : Vec Ideal S128x512 .bf16) (v5 : Vec Ideal S2000x128 .bf16) (v7 : Vec Ideal S128x512 .bf16)
    (v11 : Vec Ideal S2000x128 .bf16) (v13 : Vec Ideal S128x512 .bf16) (v17 : Vec Ideal S2000x128 .bf16) (v19 : Vec Ideal S128x512 .bf16)
    (v23 : Vec Ideal S1x512 .f32) (v30 : Vec Ideal S512x512 .bf16) (v33 : Vec Ideal S1x512 .f32) (v40 : Vec Ideal S512x128 .bf16) (v43 : Vec Ideal S1x128 .f32) :
    k2_pay1 (k2_pay3 v0 v2 v5 v7 v11 v13 v17 v19 v23 v30) v33 v40 v43 = edgeE1 v0 v5 v11 v17 v2 v7 v13 v19 v23 v30 v33 v40 v43 := by
  rw [pay2_1_eq, pay2_3_eq, edge_posAddRow_mul]
  rfl

/-- The second store's payload over the loaded blocks: the new edge block plus the old one. -/
theorem pay2_15_eq (v0 : Vec Ideal S2000x128 .bf16) (v2 : Vec Ideal S128x512 .bf16) (v5 : Vec Ideal S2000x128 .bf16) (v7 : Vec Ideal S128x512 .bf16)
    (v11 : Vec Ideal S2000x128 .bf16) (v13 : Vec Ideal S128x512 .bf16) (v17 : Vec Ideal S2000x128 .bf16) (v19 : Vec Ideal S128x512 .bf16)
    (v23 : Vec Ideal S1x512 .f32) (v30 : Vec Ideal S512x512 .bf16) (v33 : Vec Ideal S1x512 .f32) (v40 : Vec Ideal S512x128 .bf16) (v43 : Vec Ideal S1x128 .f32)
    (v50 : Vec Ideal S2000x128 .f32) :
    k2_pay2 (k2_pay3 v0 v2 v5 v7 v11 v13 v17 v19 v23 v30) v33 v40 v43 v50 = edgeEs v0 v5 v11 v17 v50 v2 v7 v13 v19 v23 v30 v33 v40 v43 := by
  unfold k2_pay2 edgeEs
  rw [pay2_14_eq]
  rfl

/-! ## The index maps, decided over the grid -/

/-- The row-tiled windows have block index (t, 0) at point t; the weight and bias windows (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_14.index t (0 : Fin 2) = t.val ∧ win2_14.index t (1 : Fin 2) = 0
    ∧ win2_15.index t (0 : Fin 2) = t.val ∧ win2_15.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = 0 ∧ win2_12.index t (1 : Fin 2) = 0
    ∧ win2_13.index t (0 : Fin 2) = 0 ∧ win2_13.index t (1 : Fin 2) = 0 :=
  (by decide +kernel : ∀ t : Fin grid2.N, _)

theorem lt2 (t : Fin cfg2.N) : t.val < 40 := Nat.lt_of_lt_of_eq t.isLt N_2

/-- Row p of block t of a row-tiled array is row 2000 t + p of the array. -/
def row2 (t : Fin cfg2.N) (p : Fin 2000) : Fin 80000 := ⟨t.val * 2000 + p.val, by have := lt2 t; have := p.isLt; omega⟩

theorem hz2 : (![0, 0] : Fin 2 → Nat) = fun _ => 0 := funext fun a => by fin_cases a <;> rfl

section Blocks
variable {F : FTy → Type} [FloatOps F]
variable (V : (c : Dev nD) → (b : Ref sig .tc) → Buf (Elt F) ((c : Thread nD τ).loc b))

/-- Entry (p, k) of window 0's block at point t is entry (2000 t + p, k) of its array. -/
theorem iblk2_0_at (c : Dev nD) (t : Fin cfg2.N) (p : Fin 2000) (k : Fin 128) :
    (iblk2 V c 0 t : S2000x128.Idx → Elt F .bf16) (ix2 p k) = V c (Pipeline.arrRef spec2 0) (ix2 (row2 t p) k) := by
  show V c (Pipeline.arrRef spec2 0) (((cfg2.win 0).blk t).view.emb (ix2 p k)) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx2 t
  match a with
  | ⟨0, _⟩ => show win2_0.index t (0 : Fin 2) * 2000 + 1 * p.val = t.val * 2000 + p.val; omega
  | ⟨1, _⟩ => show win2_0.index t (1 : Fin 2) * 128 + 1 * k.val = k.val; omega

/-- Entry (p, k) of window 1's block at point t is entry (2000 t + p, k) of its array. -/
theorem iblk2_1_at (c : Dev nD) (t : Fin cfg2.N) (p : Fin 2000) (k : Fin 128) :
    (iblk2 V c 1 t : S2000x128.Idx → Elt F .bf16) (ix2 p k) = V c (Pipeline.arrRef spec2 1) (ix2 (row2 t p) k) := by
  show V c (Pipeline.arrRef spec2 1) (((cfg2.win 1).blk t).view.emb (ix2 p k)) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx2 t
  match a with
  | ⟨0, _⟩ => show win2_1.index t (0 : Fin 2) * 2000 + 1 * p.val = t.val * 2000 + p.val; omega
  | ⟨1, _⟩ => show win2_1.index t (1 : Fin 2) * 128 + 1 * k.val = k.val; omega

/-- Entry (p, k) of window 2's block at point t is entry (2000 t + p, k) of its array. -/
theorem iblk2_2_at (c : Dev nD) (t : Fin cfg2.N) (p : Fin 2000) (k : Fin 128) :
    (iblk2 V c 2 t : S2000x128.Idx → Elt F .bf16) (ix2 p k) = V c (Pipeline.arrRef spec2 2) (ix2 (row2 t p) k) := by
  show V c (Pipeline.arrRef spec2 2) (((cfg2.win 2).blk t).view.emb (ix2 p k)) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx2 t
  match a with
  | ⟨0, _⟩ => show win2_2.index t (0 : Fin 2) * 2000 + 1 * p.val = t.val * 2000 + p.val; omega
  | ⟨1, _⟩ => show win2_2.index t (1 : Fin 2) * 128 + 1 * k.val = k.val; omega

/-- Entry (p, k) of window 3's block at point t is entry (2000 t + p, k) of its array. -/
theorem iblk2_3_at (c : Dev nD) (t : Fin cfg2.N) (p : Fin 2000) (k : Fin 128) :
    (iblk2 V c 3 t : S2000x128.Idx → Elt F .bf16) (ix2 p k) = V c (Pipeline.arrRef spec2 3) (ix2 (row2 t p) k) := by
  show V c (Pipeline.arrRef spec2 3) (((cfg2.win 3).blk t).view.emb (ix2 p k)) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx2 t
  match a with
  | ⟨0, _⟩ => show win2_3.index t (0 : Fin 2) * 2000 + 1 * p.val = t.val * 2000 + p.val; omega
  | ⟨1, _⟩ => show win2_3.index t (1 : Fin 2) * 128 + 1 * k.val = k.val; omega

/-- Entry (p, k) of window 4's block at point t is entry (2000 t + p, k) of its array. -/
theorem iblk2_4_at (c : Dev nD) (t : Fin cfg2.N) (p : Fin 2000) (k : Fin 128) :
    (iblk2 V c 4 t : S2000x128.Idx → Elt F .f32) (ix2 p k) = V c (Pipeline.arrRef spec2 4) (ix2 (row2 t p) k) := by
  show V c (Pipeline.arrRef spec2 4) (((cfg2.win 4).blk t).view.emb (ix2 p k)) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx2 t
  match a with
  | ⟨0, _⟩ => show win2_4.index t (0 : Fin 2) * 2000 + 1 * p.val = t.val * 2000 + p.val; omega
  | ⟨1, _⟩ => show win2_4.index t (1 : Fin 2) * 128 + 1 * k.val = k.val; omega

/-- Window 5's block at every point is its whole array. -/
theorem iblk2_5_eq (c : Dev nD) (t : Fin cfg2.N) :
    (iblk2 V c 5 t : S128x512.Idx → Elt F .bf16) = V c (Pipeline.arrRef spec2 5) := by
  funext y
  show V c (Pipeline.arrRef spec2 5) (((cfg2.win 5).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx2 t
  match a with
  | ⟨0, _⟩ => show win2_5.index t (0 : Fin 2) * 128 + 1 * (y 0).val = (y 0).val; omega
  | ⟨1, _⟩ => show win2_5.index t (1 : Fin 2) * 512 + 1 * (y 1).val = (y 1).val; omega

/-- Window 6's block at every point is its whole array. -/
theorem iblk2_6_eq (c : Dev nD) (t : Fin cfg2.N) :
    (iblk2 V c 6 t : S128x512.Idx → Elt F .bf16) = V c (Pipeline.arrRef spec2 6) := by
  funext y
  show V c (Pipeline.arrRef spec2 6) (((cfg2.win 6).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx2 t
  match a with
  | ⟨0, _⟩ => show win2_6.index t (0 : Fin 2) * 128 + 1 * (y 0).val = (y 0).val; omega
  | ⟨1, _⟩ => show win2_6.index t (1 : Fin 2) * 512 + 1 * (y 1).val = (y 1).val; omega

/-- Window 7's block at every point is its whole array. -/
theorem iblk2_7_eq (c : Dev nD) (t : Fin cfg2.N) :
    (iblk2 V c 7 t : S128x512.Idx → Elt F .bf16) = V c (Pipeline.arrRef spec2 7) := by
  funext y
  show V c (Pipeline.arrRef spec2 7) (((cfg2.win 7).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx2 t
  match a with
  | ⟨0, _⟩ => show win2_7.index t (0 : Fin 2) * 128 + 1 * (y 0).val = (y 0).val; omega
  | ⟨1, _⟩ => show win2_7.index t (1 : Fin 2) * 512 + 1 * (y 1).val = (y 1).val; omega

/-- Window 8's block at every point is its whole array. -/
theorem iblk2_8_eq (c : Dev nD) (t : Fin cfg2.N) :
    (iblk2 V c 8 t : S128x512.Idx → Elt F .bf16) = V c (Pipeline.arrRef spec2 8) := by
  funext y
  show V c (Pipeline.arrRef spec2 8) (((cfg2.win 8).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx2 t
  match a with
  | ⟨0, _⟩ => show win2_8.index t (0 : Fin 2) * 128 + 1 * (y 0).val = (y 0).val; omega
  | ⟨1, _⟩ => show win2_8.index t (1 : Fin 2) * 512 + 1 * (y 1).val = (y 1).val; omega

/-- Window 9's block at every point is its whole array. -/
theorem iblk2_9_eq (c : Dev nD) (t : Fin cfg2.N) :
    (iblk2 V c 9 t : S1x512.Idx → Elt F .f32) = V c (Pipeline.arrRef spec2 9) := by
  funext y
  show V c (Pipeline.arrRef spec2 9) (((cfg2.win 9).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx2 t
  match a with
  | ⟨0, _⟩ => show win2_9.index t (0 : Fin 2) * 1 + 1 * (y 0).val = (y 0).val; omega
  | ⟨1, _⟩ => show win2_9.index t (1 : Fin 2) * 512 + 1 * (y 1).val = (y 1).val; omega

/-- Window 10's block at every point is its whole array. -/
theorem iblk2_10_eq (c : Dev nD) (t : Fin cfg2.N) :
    (iblk2 V c 10 t : S512x512.Idx → Elt F .bf16) = V c (Pipeline.arrRef spec2 10) := by
  funext y
  show V c (Pipeline.arrRef spec2 10) (((cfg2.win 10).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx2 t
  match a with
  | ⟨0, _⟩ => show win2_10.index t (0 : Fin 2) * 512 + 1 * (y 0).val = (y 0).val; omega
  | ⟨1, _⟩ => show win2_10.index t (1 : Fin 2) * 512 + 1 * (y 1).val = (y 1).val; omega

/-- Window 11's block at every point is its whole array. -/
theorem iblk2_11_eq (c : Dev nD) (t : Fin cfg2.N) :
    (iblk2 V c 11 t : S1x512.Idx → Elt F .f32) = V c (Pipeline.arrRef spec2 11) := by
  funext y
  show V c (Pipeline.arrRef spec2 11) (((cfg2.win 11).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx2 t
  match a with
  | ⟨0, _⟩ => show win2_11.index t (0 : Fin 2) * 1 + 1 * (y 0).val = (y 0).val; omega
  | ⟨1, _⟩ => show win2_11.index t (1 : Fin 2) * 512 + 1 * (y 1).val = (y 1).val; omega

/-- Window 12's block at every point is its whole array. -/
theorem iblk2_12_eq (c : Dev nD) (t : Fin cfg2.N) :
    (iblk2 V c 12 t : S512x128.Idx → Elt F .bf16) = V c (Pipeline.arrRef spec2 12) := by
  funext y
  show V c (Pipeline.arrRef spec2 12) (((cfg2.win 12).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx2 t
  match a with
  | ⟨0, _⟩ => show win2_12.index t (0 : Fin 2) * 512 + 1 * (y 0).val = (y 0).val; omega
  | ⟨1, _⟩ => show win2_12.index t (1 : Fin 2) * 128 + 1 * (y 1).val = (y 1).val; omega

/-- Window 13's block at every point is its whole array. -/
theorem iblk2_13_eq (c : Dev nD) (t : Fin cfg2.N) :
    (iblk2 V c 13 t : S1x128.Idx → Elt F .f32) = V c (Pipeline.arrRef spec2 13) := by
  funext y
  show V c (Pipeline.arrRef spec2 13) (((cfg2.win 13).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx2 t
  match a with
  | ⟨0, _⟩ => show win2_13.index t (0 : Fin 2) * 1 + 1 * (y 0).val = (y 0).val; omega
  | ⟨1, _⟩ => show win2_13.index t (1 : Fin 2) * 128 + 1 * (y 1).val = (y 1).val; omega

end Blocks

/-- Index j of output window 14's block at point t is index (2000 t + j 0, j 1) of its array. -/
theorem emb2_14 (t : Fin cfg2.N) (j : S2000x128.Idx) : ((cfg2.win 14).blk t).view.emb j = ix2 (row2 t (j 0)) (j 1) := by
  funext a; apply Fin.ext
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx2 t
  match a with
  | ⟨0, _⟩ => show win2_14.index t (0 : Fin 2) * 2000 + 1 * (j 0).val = t.val * 2000 + (j 0).val; omega
  | ⟨1, _⟩ => show win2_14.index t (1 : Fin 2) * 128 + 1 * (j 1).val = (j 1).val; omega

/-- An index of the array is in point t's block iff each coordinate is in the block's range on its axis. -/
theorem mem_blk2_14 (t : Fin cfg2.N) (i : S80000x128.Idx) :
    i ∈ ((cfg2.win 14).blk t).view.set ↔ ∀ a : Fin 2, win2_14.index t a * S2000x128.size a ≤ (i a).val ∧ (i a).val < win2_14.index t a * S2000x128.size a + S2000x128.size a := by
  show i ∈ ((View.whole main_v86_0).slice (win2_14.rect t)).set ↔ _
  rw [View.set_slice_whole, Rect.mem_set_unit]
  exact Iff.rfl

/-- Row r lies in block r / 2000: the 40 blocks cover the array. -/
theorem covered2_14 (i : S80000x128.Idx) : ∃ t : Fin cfg2.N, (cfg2.win 14).flush t = true ∧ i ∈ ((cfg2.win 14).blk t).view.set := by
  have hi0 : (i 0).val < 80000 := (i 0).isLt
  have hi1 : (i 1).val < 128 := (i 1).isLt
  have hlt : (i 0).val / 2000 < cfg2.N := Nat.lt_of_lt_of_eq (show (i 0).val / 2000 < 40 by omega) N_2.symm
  refine ⟨⟨(i 0).val / 2000, hlt⟩, flush2_14 _, ?_⟩
  rw [mem_blk2_14]
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx2 ⟨(i 0).val / 2000, hlt⟩
  intro a
  match a with
  | ⟨0, _⟩ =>
    show win2_14.index ⟨(i 0).val / 2000, hlt⟩ (0 : Fin 2) * 2000 ≤ (i 0).val ∧ (i 0).val < win2_14.index ⟨(i 0).val / 2000, hlt⟩ (0 : Fin 2) * 2000 + 2000
    rw [h14a]; show (i 0).val / 2000 * 2000 ≤ (i 0).val ∧ (i 0).val < (i 0).val / 2000 * 2000 + 2000; omega
  | ⟨1, _⟩ =>
    show win2_14.index ⟨(i 0).val / 2000, hlt⟩ (1 : Fin 2) * 128 ≤ (i 1).val ∧ (i 1).val < win2_14.index ⟨(i 0).val / 2000, hlt⟩ (1 : Fin 2) * 128 + 128
    rw [h14b]; omega

/-- Index j of output window 15's block at point t is index (2000 t + j 0, j 1) of its array. -/
theorem emb2_15 (t : Fin cfg2.N) (j : S2000x128.Idx) : ((cfg2.win 15).blk t).view.emb j = ix2 (row2 t (j 0)) (j 1) := by
  funext a; apply Fin.ext
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx2 t
  match a with
  | ⟨0, _⟩ => show win2_15.index t (0 : Fin 2) * 2000 + 1 * (j 0).val = t.val * 2000 + (j 0).val; omega
  | ⟨1, _⟩ => show win2_15.index t (1 : Fin 2) * 128 + 1 * (j 1).val = (j 1).val; omega

/-- An index of the array is in point t's block iff each coordinate is in the block's range on its axis. -/
theorem mem_blk2_15 (t : Fin cfg2.N) (i : S80000x128.Idx) :
    i ∈ ((cfg2.win 15).blk t).view.set ↔ ∀ a : Fin 2, win2_15.index t a * S2000x128.size a ≤ (i a).val ∧ (i a).val < win2_15.index t a * S2000x128.size a + S2000x128.size a := by
  show i ∈ ((View.whole main_v86_1).slice (win2_15.rect t)).set ↔ _
  rw [View.set_slice_whole, Rect.mem_set_unit]
  exact Iff.rfl

/-- Row r lies in block r / 2000: the 40 blocks cover the array. -/
theorem covered2_15 (i : S80000x128.Idx) : ∃ t : Fin cfg2.N, (cfg2.win 15).flush t = true ∧ i ∈ ((cfg2.win 15).blk t).view.set := by
  have hi0 : (i 0).val < 80000 := (i 0).isLt
  have hi1 : (i 1).val < 128 := (i 1).isLt
  have hlt : (i 0).val / 2000 < cfg2.N := Nat.lt_of_lt_of_eq (show (i 0).val / 2000 < 40 by omega) N_2.symm
  refine ⟨⟨(i 0).val / 2000, hlt⟩, flush2_15 _, ?_⟩
  rw [mem_blk2_15]
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx2 ⟨(i 0).val / 2000, hlt⟩
  intro a
  match a with
  | ⟨0, _⟩ =>
    show win2_15.index ⟨(i 0).val / 2000, hlt⟩ (0 : Fin 2) * 2000 ≤ (i 0).val ∧ (i 0).val < win2_15.index ⟨(i 0).val / 2000, hlt⟩ (0 : Fin 2) * 2000 + 2000
    rw [h15a]; show (i 0).val / 2000 * 2000 ≤ (i 0).val ∧ (i 0).val < (i 0).val / 2000 * 2000 + 2000; omega
  | ⟨1, _⟩ =>
    show win2_15.index ⟨(i 0).val / 2000, hlt⟩ (1 : Fin 2) * 128 ≤ (i 1).val ∧ (i 1).val < win2_15.index ⟨(i 0).val / 2000, hlt⟩ (1 : Fin 2) * 128 + 128
    rw [h15b]; omega

/-- What window 14's write-back reads of the buffer's contents X at index j is X at (j 0, j 1). -/
theorem cut2_14_apply (t : Fin cfg2.N) (X : S2000x128.Idx → EReal) (j : ((cfg2.win 14).xblock (grid2.coords t)).Idx) :
    (cfg2.win 14).cut (grid2.coords t) X j = X (ix2 (j 0) (j 1)) :=
  congrArg X (funext fun a => match a with | ⟨0, _⟩ => rfl | ⟨1, _⟩ => rfl)

/-- What window 15's write-back reads of the buffer's contents X at index j is X at (j 0, j 1). -/
theorem cut2_15_apply (t : Fin cfg2.N) (X : S2000x128.Idx → EReal) (j : ((cfg2.win 15).xblock (grid2.coords t)).Idx) :
    (cfg2.win 15).cut (grid2.coords t) X j = X (ix2 (j 0) (j 1)) :=
  congrArg X (funext fun a => match a with | ⟨0, _⟩ => rfl | ⟨1, _⟩ => rfl)

/-! ## Closed form: each output array as one function of the arrays the region reads -/

/-- The new edge array: window 14's array after the region, from the arrays of windows 0–3 and 5–13. -/
def G2_14 (a b c d : S80000x128.Idx → Elt Ideal .bf16) (wa wb wc wd : S128x512.Idx → Elt Ideal .bf16) (b1 : S1x512.Idx → Elt Ideal .f32)
    (w2 : S512x512.Idx → Elt Ideal .bf16) (b2 : S1x512.Idx → Elt Ideal .f32) (w3 : S512x128.Idx → Elt Ideal .bf16) (b3 : S1x128.Idx → Elt Ideal .f32) : S80000x128.Idx → Elt Ideal .f32 :=
  edgeE1 a b c d wa wb wc wd b1 w2 b2 w3 b3

/-- The residual output: window 15's array after the region, from the arrays of windows 0–13. -/
def G2_15 (a b c d : S80000x128.Idx → Elt Ideal .bf16) (es : S80000x128.Idx → Elt Ideal .f32) (wa wb wc wd : S128x512.Idx → Elt Ideal .bf16) (b1 : S1x512.Idx → Elt Ideal .f32)
    (w2 : S512x512.Idx → Elt Ideal .bf16) (b2 : S1x512.Idx → Elt Ideal .f32) (w3 : S512x128.Idx → Elt Ideal .bf16) (b3 : S1x128.Idx → Elt Ideal .f32) : S80000x128.Idx → Elt Ideal .f32 :=
  edgeEs a b c d es wa wb wc wd b1 w2 b2 w3 b3

section Final
variable (V : (c : Dev nD) → (b : Ref sig .tc) → Buf (Elt Ideal) ((c : Thread nD τ).loc b))

set_option maxHeartbeats 4000000 in
/-- The new edge block of the loaded blocks: the weight and bias blocks are their arrays. -/
theorem blocks2_14 (c : Dev nD) (t : Fin cfg2.N) :
    edgeE1 (M := 2000) (L := 128) (H := 512) (H' := 512) (O := 128) (iblk2 V c 0 t) (iblk2 V c 1 t) (iblk2 V c 2 t) (iblk2 V c 3 t) (iblk2 V c 5 t) (iblk2 V c 6 t) (iblk2 V c 7 t) (iblk2 V c 8 t) (iblk2 V c 9 t) (iblk2 V c 10 t) (iblk2 V c 11 t) (iblk2 V c 12 t) (iblk2 V c 13 t)
      = edgeE1 (M := 2000) (L := 128) (H := 512) (H' := 512) (O := 128) (iblk2 V c 0 t) (iblk2 V c 1 t) (iblk2 V c 2 t) (iblk2 V c 3 t) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) := by
  rw [iblk2_5_eq V c t, iblk2_6_eq V c t, iblk2_7_eq V c t, iblk2_8_eq V c t, iblk2_9_eq V c t, iblk2_10_eq V c t, iblk2_11_eq V c t, iblk2_12_eq V c t, iblk2_13_eq V c t]

set_option maxHeartbeats 4000000 in
/-- The residual block of the loaded blocks likewise. -/
theorem blocks2_15 (c : Dev nD) (t : Fin cfg2.N) :
    edgeEs (M := 2000) (L := 128) (H := 512) (H' := 512) (O := 128) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)
      = edgeEs (M := 2000) (L := 128) (H := 512) (H' := 512) (O := 128) (iblk2 V c 0 t) (iblk2 V c 1 t) (iblk2 V c 2 t) (iblk2 V c 3 t) (iblk2 V c 4 t) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) := by
  rw [iblk2_5_eq V c t, iblk2_6_eq V c t, iblk2_7_eq V c t, iblk2_8_eq V c t, iblk2_9_eq V c t, iblk2_10_eq V c t, iblk2_11_eq V c t, iblk2_12_eq V c t, iblk2_13_eq V c t]

set_option maxHeartbeats 4000000 in
/-- What point t writes back to window 14's array is block t of `G2_14` of the arrays as the region finds them. -/
theorem flushed2_14_eq (c : Dev nD) (t : Fin cfg2.N) :
    (dat2 (F := Ideal) V c).flushed 14 t = ((cfg2.win 14).blk t).view.read (Elt Ideal) (G2_14 (V c (Pipeline.arrRef spec2 0)) (V c (Pipeline.arrRef spec2 1)) (V c (Pipeline.arrRef spec2 2)) (V c (Pipeline.arrRef spec2 3)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13))) := by
  show (cfg2.win 14).cut (grid2.coords t) ((dat2 (F := Ideal) V c).after 14 t) = _
  rw [after2_14]
  unfold out2_14
  rw [View.canon_unit_zero hz2]
  simp only [View.ld_unit_zero (S := S2000x128) hz2, View.ld_unit_zero (S := S128x512) hz2, View.ld_unit_zero (S := S1x512) hz2, View.ld_unit_zero (S := S512x512) hz2, View.ld_unit_zero (S := S512x128) hz2, View.ld_unit_zero (S := S1x128) hz2]
  refine (congrArg ((cfg2.win 14).cut (grid2.coords t)) ((pay2_14_eq _ _ _ _ _ _ _ _ _ _ _ _ _).trans (blocks2_14 V c t))).trans ?_
  funext j
  refine (cut2_14_apply t _ j).trans ?_
  show _ = G2_14 (V c (Pipeline.arrRef spec2 0)) (V c (Pipeline.arrRef spec2 1)) (V c (Pipeline.arrRef spec2 2)) (V c (Pipeline.arrRef spec2 3)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) (((cfg2.win 14).blk t).view.emb j)
  rw [emb2_14 t j]
  exact edgeE1_rows _ _ _ _ _ _ _ _ _ (fun k => iblk2_0_at V c t (j 0) k) (fun k => iblk2_1_at V c t (j 0) k)
    (fun k => iblk2_2_at V c t (j 0) k) (fun k => iblk2_3_at V c t (j 0) k) (j 1)

set_option maxHeartbeats 4000000 in
/-- What point t writes back to window 15's array is block t of `G2_15` of the arrays as the region finds them. -/
theorem flushed2_15_eq (c : Dev nD) (t : Fin cfg2.N) :
    (dat2 (F := Ideal) V c).flushed 15 t = ((cfg2.win 15).blk t).view.read (Elt Ideal) (G2_15 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13))) := by
  show (cfg2.win 15).cut (grid2.coords t) ((dat2 (F := Ideal) V c).after 15 t) = _
  rw [after2_15]
  unfold out2_15
  rw [View.canon_unit_zero hz2]
  simp only [View.ld_unit_zero (S := S2000x128) hz2, View.ld_unit_zero (S := S128x512) hz2, View.ld_unit_zero (S := S1x512) hz2, View.ld_unit_zero (S := S512x512) hz2, View.ld_unit_zero (S := S512x128) hz2, View.ld_unit_zero (S := S1x128) hz2]
  refine (congrArg ((cfg2.win 15).cut (grid2.coords t)) ((pay2_15_eq _ _ _ _ _ _ _ _ _ _ _ _ _ _).trans (blocks2_15 V c t))).trans ?_
  funext j
  refine (cut2_15_apply t _ j).trans ?_
  show _ = G2_15 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) (((cfg2.win 15).blk t).view.emb j)
  rw [emb2_15 t j]
  exact edgeEs_rows _ _ _ _ _ _ _ _ _ (fun k => iblk2_0_at V c t (j 0) k) (fun k => iblk2_1_at V c t (j 0) k)
    (fun k => iblk2_2_at V c t (j 0) k) (fun k => iblk2_3_at V c t (j 0) k) (j 1) (iblk2_4_at V c t (j 0) (j 1))

/-- Window 14's array after the region. -/
theorem final2_14 (c : Dev nD) :
    (dat2 (F := Ideal) V c).arrAt 14 cfg2.N = G2_14 (V c (Pipeline.arrRef spec2 0)) (V c (Pipeline.arrRef spec2 1)) (V c (Pipeline.arrRef spec2 2)) (V c (Pipeline.arrRef spec2 3)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) :=
  (dat2 (F := Ideal) V c).arrAt_eq_of_cover 14 _ (fun t _ => flushed2_14_eq V c t) covered2_14

/-- Window 15's array after the region. -/
theorem final2_15 (c : Dev nD) :
    (dat2 (F := Ideal) V c).arrAt 15 cfg2.N = G2_15 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) :=
  (dat2 (F := Ideal) V c).arrAt_eq_of_cover 15 _ (fun t _ => flushed2_15_eq V c t) covered2_15

end Final

end Cert.KernelIdeal.Hand

end
-- ==== Proof.KI.Val3.lean ====
/- The value of region 3 at the ideal values: its output array after the run is three dense layers with positive
   part, stacked, of its seven input arrays as the region finds them, entry by entry. -/
import proofs.«147763_j11003706212366_2_alg».proof.Proof.KI.Reg3
import proofs.«147763_j11003706212366_2_alg».proof.Proof.LibReluDense
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.LibDense Cert.LibReluDense

section
variable (V : (c : Dev nD) → (b : Ref sig .tc) → Buf (Elt Ideal) ((c : Thread nD τ).loc b))

theorem hz3 : (![0, 0] : Fin 2 → Nat) = fun _ => 0 := funext fun a => by fin_cases a <;> rfl

/-! ## The closed form -/

/-- What the output array ends holding: max (max (max (x · W1 + b1) 0 · W2 + b2) 0 · W3 + b3) 0, entry by entry, of
    the rows array `a0`, the weights `a1`, `a3`, `a5` and the one-row biases `a2`, `a4`, `a6`. -/
def G3_7 (a0 : S5000x512.Idx → EReal) (a1 : S512x512.Idx → EReal) (a2 : S1x512.Idx → EReal) (a3 : S512x512.Idx → EReal)
    (a4 : S1x512.Idx → EReal) (a5 : S512x128.Idx → EReal) (a6 : S1x128.Idx → EReal) : S5000x128.Idx → EReal :=
  reluDense (reluDense (reluDense a0 a1 a2) a3 a4) a5 a6

/-- The same, spelled with the dense layer's entries. -/
theorem G3_7_apply (a0 : S5000x512.Idx → EReal) (a1 : S512x512.Idx → EReal) (a2 : S1x512.Idx → EReal) (a3 : S512x512.Idx → EReal)
    (a4 : S1x512.Idx → EReal) (a5 : S512x128.Idx → EReal) (a6 : S1x128.Idx → EReal) (p : Fin 5000) (q : Fin 128) :
    G3_7 a0 a1 a2 a3 a4 a5 a6 (ix2 p q)
      = max (denseAt (fun j : (⟨2, ![5000, 512]⟩ : Shape).Idx => max (denseAt (fun j' : (⟨2, ![5000, 512]⟩ : Shape).Idx => max (denseAt a0 a1 (rowOf a2) (j' 0) (j' 1)) 0) a3 (rowOf a4) (j 0) (j 1)) 0) a5 (rowOf a6) p q) 0 := rfl

/-- The body's payload on blocks is the same stack of layers of the blocks. -/
theorem pay3_eq (x0 : Vec Ideal S1000x512 .bf16) (x1 : Vec Ideal S512x512 .bf16) (x2 : Vec Ideal S1x512 .f32) (x3 : Vec Ideal S512x512 .bf16)
    (x4 : Vec Ideal S1x512 .f32) (x5 : Vec Ideal S512x128 .bf16) (x6 : Vec Ideal S1x128 .f32) :
    k3_pay1 (F := Ideal) x0 x1 x2 x3 x4 x5 x6 = reluDense (reluDense (reluDense x0 x1 x2) x3 x4) x5 x6 := by
  unfold k3_pay1
  refine (chip_reluDense (φ₁ := .bf16) (φ₂ := .bf16) 1000 512 128 (by decide) dot_S1000x512_S512x128_S1000x128_1_0_0_1_n_n rfl _ _ _ _ x5 x6).trans ?_
  refine congrArg (fun h => reluDense h x5 x6) ?_
  refine (truncf_id (ψ := .bf16) _ bitsLt_bf16_f32).trans ?_
  refine (chip_reluDense (φ₁ := .bf16) (φ₂ := .bf16) 1000 512 512 (by decide) dot_S1000x512_S512x512_S1000x512_1_0_0_1_n_n rfl _ _ _ _ x3 x4).trans ?_
  refine congrArg (fun h => reluDense h x3 x4) ?_
  refine (truncf_id (ψ := .bf16) _ bitsLt_bf16_f32).trans ?_
  refine (chip_reluDense (φ₁ := .bf16) (φ₂ := .bf16) 1000 512 512 (by decide) dot_S1000x512_S512x512_S1000x512_1_0_0_1_n_n rfl _ _ _ _ x1 x2).trans ?_
  exact congrArg (fun h => reluDense h x1 x2) (shapeCast_self x0 _)

/-! ## The index maps, decided over the grid -/

/-- The rows window and the output window sit at block (t, 0) at point `t`; the weights' and biases' windows at block
    (0, 0) at every point. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-! ## The input blocks as parts of their arrays -/

/-- The rows window's block at point `t` is rows 1000·t … 1000·t + 999 of its array. -/
theorem iblk3_0_apply (c : Dev nD) (t : Fin cfg3.N) (x : S1000x512.Idx) (k : S5000x512.Idx)
    (hk0 : (k 0).val = 1000 * t.val + (x 0).val) (hk1 : (k 1).val = (x 1).val) :
    (iblk3 V c 0 t : Vec Ideal S1000x512 .bf16) x = (V c (Pipeline.arrRef spec3 0) : S5000x512.Idx → Elt Ideal .bf16) k := by
  have hi := idx_facts3 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 1000 + 1 * (x 0).val = (k 0).val; rw [hi.1, hk0]; omega
  | ⟨1, _⟩ => show win3_0.index t (1 : Fin 2) * 512 + 1 * (x 1).val = (k 1).val; rw [hi.2.1, hk1]; omega

/-- Window 1's block at every point is its whole array. -/
theorem iblk3_1_eq (c : Dev nD) (t : Fin cfg3.N) :
    (iblk3 V c 1 t : Vec Ideal S512x512 .bf16) = (V c (Pipeline.arrRef spec3 1) : S512x512.Idx → Elt Ideal .bf16) := by
  have hi := idx_facts3 t
  funext x
  unfold iblk3
  rw [View.read_apply]
  show V c (Pipeline.arrRef spec3 1) _ = V c (Pipeline.arrRef spec3 1) x
  congr 1
  funext a
  apply Fin.ext
  match a with
  | ⟨0, _⟩ => show win3_1.index t (0 : Fin 2) * 512 + 1 * (x 0).val = (x 0).val; rw [hi.2.2.1]; omega
  | ⟨1, _⟩ => show win3_1.index t (1 : Fin 2) * 512 + 1 * (x 1).val = (x 1).val; rw [hi.2.2.2.1]; omega

/-- Window 2's block at every point is its whole array. -/
theorem iblk3_2_eq (c : Dev nD) (t : Fin cfg3.N) :
    (iblk3 V c 2 t : Vec Ideal S1x512 .f32) = (V c (Pipeline.arrRef spec3 2) : S1x512.Idx → Elt Ideal .f32) := by
  have hi := idx_facts3 t
  funext x
  unfold iblk3
  rw [View.read_apply]
  show V c (Pipeline.arrRef spec3 2) _ = V c (Pipeline.arrRef spec3 2) x
  congr 1
  funext a
  apply Fin.ext
  match a with
  | ⟨0, _⟩ => show win3_2.index t (0 : Fin 2) * 1 + 1 * (x 0).val = (x 0).val; rw [hi.2.2.2.2.1]; omega
  | ⟨1, _⟩ => show win3_2.index t (1 : Fin 2) * 512 + 1 * (x 1).val = (x 1).val; rw [hi.2.2.2.2.2.1]; omega

/-- Window 3's block at every point is its whole array. -/
theorem iblk3_3_eq (c : Dev nD) (t : Fin cfg3.N) :
    (iblk3 V c 3 t : Vec Ideal S512x512 .bf16) = (V c (Pipeline.arrRef spec3 3) : S512x512.Idx → Elt Ideal .bf16) := by
  have hi := idx_facts3 t
  funext x
  unfold iblk3
  rw [View.read_apply]
  show V c (Pipeline.arrRef spec3 3) _ = V c (Pipeline.arrRef spec3 3) x
  congr 1
  funext a
  apply Fin.ext
  match a with
  | ⟨0, _⟩ => show win3_3.index t (0 : Fin 2) * 512 + 1 * (x 0).val = (x 0).val; rw [hi.2.2.2.2.2.2.1]; omega
  | ⟨1, _⟩ => show win3_3.index t (1 : Fin 2) * 512 + 1 * (x 1).val = (x 1).val; rw [hi.2.2.2.2.2.2.2.1]; omega

/-- Window 4's block at every point is its whole array. -/
theorem iblk3_4_eq (c : Dev nD) (t : Fin cfg3.N) :
    (iblk3 V c 4 t : Vec Ideal S1x512 .f32) = (V c (Pipeline.arrRef spec3 4) : S1x512.Idx → Elt Ideal .f32) := by
  have hi := idx_facts3 t
  funext x
  unfold iblk3
  rw [View.read_apply]
  show V c (Pipeline.arrRef spec3 4) _ = V c (Pipeline.arrRef spec3 4) x
  congr 1
  funext a
  apply Fin.ext
  match a with
  | ⟨0, _⟩ => show win3_4.index t (0 : Fin 2) * 1 + 1 * (x 0).val = (x 0).val; rw [hi.2.2.2.2.2.2.2.2.1]; omega
  | ⟨1, _⟩ => show win3_4.index t (1 : Fin 2) * 512 + 1 * (x 1).val = (x 1).val; rw [hi.2.2.2.2.2.2.2.2.2.1]; omega

/-- Window 5's block at every point is its whole array. -/
theorem iblk3_5_eq (c : Dev nD) (t : Fin cfg3.N) :
    (iblk3 V c 5 t : Vec Ideal S512x128 .bf16) = (V c (Pipeline.arrRef spec3 5) : S512x128.Idx → Elt Ideal .bf16) := by
  have hi := idx_facts3 t
  funext x
  unfold iblk3
  rw [View.read_apply]
  show V c (Pipeline.arrRef spec3 5) _ = V c (Pipeline.arrRef spec3 5) x
  congr 1
  funext a
  apply Fin.ext
  match a with
  | ⟨0, _⟩ => show win3_5.index t (0 : Fin 2) * 512 + 1 * (x 0).val = (x 0).val; rw [hi.2.2.2.2.2.2.2.2.2.2.1]; omega
  | ⟨1, _⟩ => show win3_5.index t (1 : Fin 2) * 128 + 1 * (x 1).val = (x 1).val; rw [hi.2.2.2.2.2.2.2.2.2.2.2.1]; omega

/-- Window 6's block at every point is its whole array. -/
theorem iblk3_6_eq (c : Dev nD) (t : Fin cfg3.N) :
    (iblk3 V c 6 t : Vec Ideal S1x128 .f32) = (V c (Pipeline.arrRef spec3 6) : S1x128.Idx → Elt Ideal .f32) := by
  have hi := idx_facts3 t
  funext x
  unfold iblk3
  rw [View.read_apply]
  show V c (Pipeline.arrRef spec3 6) _ = V c (Pipeline.arrRef spec3 6) x
  congr 1
  funext a
  apply Fin.ext
  match a with
  | ⟨0, _⟩ => show win3_6.index t (0 : Fin 2) * 1 + 1 * (x 0).val = (x 0).val; rw [hi.2.2.2.2.2.2.2.2.2.2.2.2.1]; omega
  | ⟨1, _⟩ => show win3_6.index t (1 : Fin 2) * 128 + 1 * (x 1).val = (x 1).val; rw [hi.2.2.2.2.2.2.2.2.2.2.2.2.2.1]; omega

/-! ## What a point writes back -/

/-- Blocks `X0 … X6` of which `X0` is rows 1000·t … of the rows array `A0` and the others are the whole arrays
    `A1 … A6` give, at local index `j`, the stack of layers of the whole arrays at the array index `i` in row
    1000·t + (row of j), same column: each layer's entry reads its own row of the layer below. -/
theorem out_point3 (X0 : S1000x512.Idx → EReal) (X1 : S512x512.Idx → EReal) (X2 : S1x512.Idx → EReal) (X3 : S512x512.Idx → EReal)
    (X4 : S1x512.Idx → EReal) (X5 : S512x128.Idx → EReal) (X6 : S1x128.Idx → EReal)
    (A0 : S5000x512.Idx → EReal) (A1 : S512x512.Idx → EReal) (A2 : S1x512.Idx → EReal)
    (A3 : S512x512.Idx → EReal) (A4 : S1x512.Idx → EReal) (A5 : S512x128.Idx → EReal) (A6 : S1x128.Idx → EReal) (t : ℕ)
    (hX : ∀ (x : S1000x512.Idx) (k : S5000x512.Idx), (k 0).val = 1000 * t + (x 0).val → (k 1).val = (x 1).val → X0 x = A0 k)
    (h1 : X1 = A1) (h2 : X2 = A2) (h3 : X3 = A3) (h4 : X4 = A4) (h5 : X5 = A5) (h6 : X6 = A6)
    (j : S1000x128.Idx) (i : S5000x128.Idx) (hi0 : (i 0).val = 1000 * t + (j 0).val) (hi1 : (i 1).val = (j 1).val) :
    reluDense (reluDense (reluDense X0 X1 X2) X3 X4) X5 X6 j = G3_7 A0 A1 A2 A3 A4 A5 A6 i := by
  subst h1 h2 h3 h4 h5 h6
  obtain ⟨p, q, rfl⟩ : ∃ p q, j = ix2 p q := ⟨_, _, eq_ix2 j⟩
  obtain ⟨r, q', rfl⟩ : ∃ r q', i = ix2 r q' := ⟨_, _, eq_ix2 i⟩
  obtain rfl : q = q' := Fin.ext hi1.symm
  unfold G3_7
  exact reluDense_rows _ _ (fun k => reluDense_rows _ _ (fun k' => reluDense_rows _ _
    (fun k'' => hX (ix2 p k'') (ix2 r k'') hi0 rfl) k') k) q

set_option maxHeartbeats 1000000 in
/-- What point `t` writes back is block `t` of `G3_7` of the arrays as the region finds them. -/
theorem flushed3_7_eq (c : Dev nD) (t : Fin cfg3.N) :
    (dat3 (F := Ideal) V c).flushed 7 t = ((cfg3.win 7).blk t).view.read (Elt Ideal) (G3_7 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))) := by
  show (cfg3.win 7).cut (grid3.coords t) ((dat3 V c).after 7 t) = _
  rw [after3_7]
  unfold out3_7
  rw [View.canon_unit_zero hz3]
  simp only [View.ld_unit_zero (S := S1000x512) hz3, View.ld_unit_zero (S := S512x512) hz3, View.ld_unit_zero (S := S1x512) hz3, View.ld_unit_zero (S := S512x128) hz3, View.ld_unit_zero (S := S1x128) hz3]
  rw [pay3_eq]
  have hi := idx_facts3 t
  funext j
  rw [View.read_apply]
  refine out_point3 _ _ _ _ _ _ _ _ _ _ _ _ _ _ t.val (fun x k h0 h1 => iblk3_0_apply V c t x k h0 h1)
    (iblk3_1_eq V c t) (iblk3_2_eq V c t) (iblk3_3_eq V c t) (iblk3_4_eq V c t) (iblk3_5_eq V c t) (iblk3_6_eq V c t) _ _ ?_ ?_
  · show win3_7.index t (0 : Fin 2) * 1000 + 1 * (j 0).val = 1000 * t.val + (j 0).val
    rw [hi.2.2.2.2.2.2.2.2.2.2.2.2.2.2.1]; omega
  · show win3_7.index t (1 : Fin 2) * 128 + 1 * (j 1).val = (j 1).val
    rw [hi.2.2.2.2.2.2.2.2.2.2.2.2.2.2.2]; omega

/-! ## The blocks cover the array -/

/-- An index of the output array is in point `t`'s block iff each coordinate is in the block's range on its axis. -/
theorem mem_blk3_7 (t : Fin cfg3.N) (i : S5000x128.Idx) :
    i ∈ ((cfg3.win 7).blk t).view.set ↔ ∀ a : Fin 2, win3_7.index t a * S1000x128.size a ≤ (i a).val ∧ (i a).val < win3_7.index t a * S1000x128.size a + S1000x128.size a := by
  show i ∈ ((View.whole main_v120).slice (win3_7.rect t)).set ↔ _
  rw [View.set_slice_whole, Rect.mem_set_unit]
  exact Iff.rfl

/-- Row r of the output array lies in the block of point r / 1000. -/
theorem blocks_cover3_7 (i : S5000x128.Idx) :
    ∃ t : Fin cfg3.N, (cfg3.win 7).flush t = true ∧ i ∈ ((cfg3.win 7).blk t).view.set := by
  have hi0 : (i 0).val < 5000 := (i 0).isLt
  have hi1 : (i 1).val < 128 := (i 1).isLt
  have hN : (i 0).val / 1000 < cfg3.N := by show _ < grid3.N; rw [N_3]; omega
  have hi := idx_facts3 ⟨(i 0).val / 1000, hN⟩
  refine ⟨⟨(i 0).val / 1000, hN⟩, flush3_7 _, ?_⟩
  rw [mem_blk3_7]
  intro a
  match a with
  | ⟨0, _⟩ =>
    show win3_7.index ⟨(i 0).val / 1000, hN⟩ (0 : Fin 2) * 1000 ≤ (i 0).val ∧ (i 0).val < win3_7.index ⟨(i 0).val / 1000, hN⟩ (0 : Fin 2) * 1000 + 1000
    rw [hi.2.2.2.2.2.2.2.2.2.2.2.2.2.2.1]; show (i 0).val / 1000 * 1000 ≤ (i 0).val ∧ (i 0).val < (i 0).val / 1000 * 1000 + 1000; omega
  | ⟨1, _⟩ =>
    show win3_7.index ⟨(i 0).val / 1000, hN⟩ (1 : Fin 2) * 128 ≤ (i 1).val ∧ (i 1).val < win3_7.index ⟨(i 0).val / 1000, hN⟩ (1 : Fin 2) * 128 + 128
    rw [hi.2.2.2.2.2.2.2.2.2.2.2.2.2.2.2]; omega

/-! ## The output array after the run -/

/-- The output array after the region's last point is `G3_7` of the seven input arrays as the region finds them. -/
theorem final3_7 (c : Dev nD) :
    (dat3 (F := Ideal) V c).arrAt 7 cfg3.N = G3_7 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) :=
  (dat3 (F := Ideal) V c).arrAt_eq_of_cover 7 (G3_7 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)))
    (fun t _ => flushed3_7_eq V c t) (blocks_cover3_7)

end

end Cert.KernelIdeal.Hand

end
-- ==== Proof.KI.Val4.lean ====
/- The value of region 4 at the ideal values: its output array after the run is three dense layers with positive
   part, stacked, of its seven input arrays as the region finds them, entry by entry. -/
import proofs.«147763_j11003706212366_2_alg».proof.Proof.KI.Reg4
import proofs.«147763_j11003706212366_2_alg».proof.Proof.LibReluDense
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.LibDense Cert.LibReluDense

section
variable (V : (c : Dev nD) → (b : Ref sig .tc) → Buf (Elt Ideal) ((c : Thread nD τ).loc b))

theorem hz4 : (![0, 0] : Fin 2 → Nat) = fun _ => 0 := funext fun a => by fin_cases a <;> rfl

/-! ## The closed form -/

/-- What the output array ends holding: max (max (max (x · W1 + b1) 0 · W2 + b2) 0 · W3 + b3) 0, entry by entry, of
    the rows array `a0`, the weights `a1`, `a3`, `a5` and the one-row biases `a2`, `a4`, `a6`. -/
def G4_7 (a0 : S64x384.Idx → EReal) (a1 : S384x512.Idx → EReal) (a2 : S1x512.Idx → EReal) (a3 : S512x512.Idx → EReal)
    (a4 : S1x512.Idx → EReal) (a5 : S512x128.Idx → EReal) (a6 : S1x128.Idx → EReal) : S64x128.Idx → EReal :=
  reluDense (reluDense (reluDense a0 a1 a2) a3 a4) a5 a6

/-- The same, spelled with the dense layer's entries. -/
theorem G4_7_apply (a0 : S64x384.Idx → EReal) (a1 : S384x512.Idx → EReal) (a2 : S1x512.Idx → EReal) (a3 : S512x512.Idx → EReal)
    (a4 : S1x512.Idx → EReal) (a5 : S512x128.Idx → EReal) (a6 : S1x128.Idx → EReal) (p : Fin 64) (q : Fin 128) :
    G4_7 a0 a1 a2 a3 a4 a5 a6 (ix2 p q)
      = max (denseAt (fun j : (⟨2, ![64, 512]⟩ : Shape).Idx => max (denseAt (fun j' : (⟨2, ![64, 512]⟩ : Shape).Idx => max (denseAt a0 a1 (rowOf a2) (j' 0) (j' 1)) 0) a3 (rowOf a4) (j 0) (j 1)) 0) a5 (rowOf a6) p q) 0 := rfl

/-- The body's payload on blocks is the same stack of layers of the blocks. -/
theorem pay4_eq (x0 : Vec Ideal S64x384 .bf16) (x1 : Vec Ideal S384x512 .bf16) (x2 : Vec Ideal S1x512 .f32) (x3 : Vec Ideal S512x512 .bf16)
    (x4 : Vec Ideal S1x512 .f32) (x5 : Vec Ideal S512x128 .bf16) (x6 : Vec Ideal S1x128 .f32) :
    k4_pay1 (F := Ideal) x0 x1 x2 x3 x4 x5 x6 = reluDense (reluDense (reluDense x0 x1 x2) x3 x4) x5 x6 := by
  unfold k4_pay1
  refine (chip_reluDense (φ₁ := .bf16) (φ₂ := .bf16) 64 512 128 (by decide) dot_S64x512_S512x128_S64x128_1_0_0_1_n_n rfl _ _ _ _ x5 x6).trans ?_
  refine congrArg (fun h => reluDense h x5 x6) ?_
  refine (truncf_id (ψ := .bf16) _ bitsLt_bf16_f32).trans ?_
  refine (chip_reluDense (φ₁ := .bf16) (φ₂ := .bf16) 64 512 512 (by decide) dot_S64x512_S512x512_S64x512_1_0_0_1_n_n rfl _ _ _ _ x3 x4).trans ?_
  refine congrArg (fun h => reluDense h x3 x4) ?_
  refine (truncf_id (ψ := .bf16) _ bitsLt_bf16_f32).trans ?_
  refine (chip_reluDense (φ₁ := .bf16) (φ₂ := .bf16) 64 384 512 (by decide) dot_S64x384_S384x512_S64x512_1_0_0_1_n_n rfl _ _ _ _ x1 x2).trans ?_
  exact congrArg (fun h => reluDense h x1 x2) (shapeCast_self x0 _)

/-! ## The index maps, decided over the grid -/

/-- The rows window and the output window sit at block (t, 0) at point `t`; the weights' and biases' windows at block
    (0, 0) at every point. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-! ## The input blocks as parts of their arrays -/

/-- The rows window's block at point `t` is rows 64·t … 64·t + 63 of its array. -/
theorem iblk4_0_apply (c : Dev nD) (t : Fin cfg4.N) (x : S64x384.Idx) (k : S64x384.Idx)
    (hk0 : (k 0).val = 64 * t.val + (x 0).val) (hk1 : (k 1).val = (x 1).val) :
    (iblk4 V c 0 t : Vec Ideal S64x384 .bf16) x = (V c (Pipeline.arrRef spec4 0) : S64x384.Idx → Elt Ideal .bf16) k := by
  have hi := idx_facts4 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 64 + 1 * (x 0).val = (k 0).val; rw [hi.1, hk0]; omega
  | ⟨1, _⟩ => show win4_0.index t (1 : Fin 2) * 384 + 1 * (x 1).val = (k 1).val; rw [hi.2.1, hk1]; omega

/-- Window 1's block at every point is its whole array. -/
theorem iblk4_1_eq (c : Dev nD) (t : Fin cfg4.N) :
    (iblk4 V c 1 t : Vec Ideal S384x512 .bf16) = (V c (Pipeline.arrRef spec4 1) : S384x512.Idx → Elt Ideal .bf16) := by
  have hi := idx_facts4 t
  funext x
  unfold iblk4
  rw [View.read_apply]
  show V c (Pipeline.arrRef spec4 1) _ = V c (Pipeline.arrRef spec4 1) x
  congr 1
  funext a
  apply Fin.ext
  match a with
  | ⟨0, _⟩ => show win4_1.index t (0 : Fin 2) * 384 + 1 * (x 0).val = (x 0).val; rw [hi.2.2.1]; omega
  | ⟨1, _⟩ => show win4_1.index t (1 : Fin 2) * 512 + 1 * (x 1).val = (x 1).val; rw [hi.2.2.2.1]; omega

/-- Window 2's block at every point is its whole array. -/
theorem iblk4_2_eq (c : Dev nD) (t : Fin cfg4.N) :
    (iblk4 V c 2 t : Vec Ideal S1x512 .f32) = (V c (Pipeline.arrRef spec4 2) : S1x512.Idx → Elt Ideal .f32) := by
  have hi := idx_facts4 t
  funext x
  unfold iblk4
  rw [View.read_apply]
  show V c (Pipeline.arrRef spec4 2) _ = V c (Pipeline.arrRef spec4 2) x
  congr 1
  funext a
  apply Fin.ext
  match a with
  | ⟨0, _⟩ => show win4_2.index t (0 : Fin 2) * 1 + 1 * (x 0).val = (x 0).val; rw [hi.2.2.2.2.1]; omega
  | ⟨1, _⟩ => show win4_2.index t (1 : Fin 2) * 512 + 1 * (x 1).val = (x 1).val; rw [hi.2.2.2.2.2.1]; omega

/-- Window 3's block at every point is its whole array. -/
theorem iblk4_3_eq (c : Dev nD) (t : Fin cfg4.N) :
    (iblk4 V c 3 t : Vec Ideal S512x512 .bf16) = (V c (Pipeline.arrRef spec4 3) : S512x512.Idx → Elt Ideal .bf16) := by
  have hi := idx_facts4 t
  funext x
  unfold iblk4
  rw [View.read_apply]
  show V c (Pipeline.arrRef spec4 3) _ = V c (Pipeline.arrRef spec4 3) x
  congr 1
  funext a
  apply Fin.ext
  match a with
  | ⟨0, _⟩ => show win4_3.index t (0 : Fin 2) * 512 + 1 * (x 0).val = (x 0).val; rw [hi.2.2.2.2.2.2.1]; omega
  | ⟨1, _⟩ => show win4_3.index t (1 : Fin 2) * 512 + 1 * (x 1).val = (x 1).val; rw [hi.2.2.2.2.2.2.2.1]; omega

/-- Window 4's block at every point is its whole array. -/
theorem iblk4_4_eq (c : Dev nD) (t : Fin cfg4.N) :
    (iblk4 V c 4 t : Vec Ideal S1x512 .f32) = (V c (Pipeline.arrRef spec4 4) : S1x512.Idx → Elt Ideal .f32) := by
  have hi := idx_facts4 t
  funext x
  unfold iblk4
  rw [View.read_apply]
  show V c (Pipeline.arrRef spec4 4) _ = V c (Pipeline.arrRef spec4 4) x
  congr 1
  funext a
  apply Fin.ext
  match a with
  | ⟨0, _⟩ => show win4_4.index t (0 : Fin 2) * 1 + 1 * (x 0).val = (x 0).val; rw [hi.2.2.2.2.2.2.2.2.1]; omega
  | ⟨1, _⟩ => show win4_4.index t (1 : Fin 2) * 512 + 1 * (x 1).val = (x 1).val; rw [hi.2.2.2.2.2.2.2.2.2.1]; omega

/-- Window 5's block at every point is its whole array. -/
theorem iblk4_5_eq (c : Dev nD) (t : Fin cfg4.N) :
    (iblk4 V c 5 t : Vec Ideal S512x128 .bf16) = (V c (Pipeline.arrRef spec4 5) : S512x128.Idx → Elt Ideal .bf16) := by
  have hi := idx_facts4 t
  funext x
  unfold iblk4
  rw [View.read_apply]
  show V c (Pipeline.arrRef spec4 5) _ = V c (Pipeline.arrRef spec4 5) x
  congr 1
  funext a
  apply Fin.ext
  match a with
  | ⟨0, _⟩ => show win4_5.index t (0 : Fin 2) * 512 + 1 * (x 0).val = (x 0).val; rw [hi.2.2.2.2.2.2.2.2.2.2.1]; omega
  | ⟨1, _⟩ => show win4_5.index t (1 : Fin 2) * 128 + 1 * (x 1).val = (x 1).val; rw [hi.2.2.2.2.2.2.2.2.2.2.2.1]; omega

/-- Window 6's block at every point is its whole array. -/
theorem iblk4_6_eq (c : Dev nD) (t : Fin cfg4.N) :
    (iblk4 V c 6 t : Vec Ideal S1x128 .f32) = (V c (Pipeline.arrRef spec4 6) : S1x128.Idx → Elt Ideal .f32) := by
  have hi := idx_facts4 t
  funext x
  unfold iblk4
  rw [View.read_apply]
  show V c (Pipeline.arrRef spec4 6) _ = V c (Pipeline.arrRef spec4 6) x
  congr 1
  funext a
  apply Fin.ext
  match a with
  | ⟨0, _⟩ => show win4_6.index t (0 : Fin 2) * 1 + 1 * (x 0).val = (x 0).val; rw [hi.2.2.2.2.2.2.2.2.2.2.2.2.1]; omega
  | ⟨1, _⟩ => show win4_6.index t (1 : Fin 2) * 128 + 1 * (x 1).val = (x 1).val; rw [hi.2.2.2.2.2.2.2.2.2.2.2.2.2.1]; omega

/-! ## What a point writes back -/

/-- Blocks `X0 … X6` of which `X0` is rows 64·t … of the rows array `A0` and the others are the whole arrays
    `A1 … A6` give, at local index `j`, the stack of layers of the whole arrays at the array index `i` in row
    64·t + (row of j), same column: each layer's entry reads its own row of the layer below. -/
theorem out_point4 (X0 : S64x384.Idx → EReal) (X1 : S384x512.Idx → EReal) (X2 : S1x512.Idx → EReal) (X3 : S512x512.Idx → EReal)
    (X4 : S1x512.Idx → EReal) (X5 : S512x128.Idx → EReal) (X6 : S1x128.Idx → EReal)
    (A0 : S64x384.Idx → EReal) (A1 : S384x512.Idx → EReal) (A2 : S1x512.Idx → EReal)
    (A3 : S512x512.Idx → EReal) (A4 : S1x512.Idx → EReal) (A5 : S512x128.Idx → EReal) (A6 : S1x128.Idx → EReal) (t : ℕ)
    (hX : ∀ (x : S64x384.Idx) (k : S64x384.Idx), (k 0).val = 64 * t + (x 0).val → (k 1).val = (x 1).val → X0 x = A0 k)
    (h1 : X1 = A1) (h2 : X2 = A2) (h3 : X3 = A3) (h4 : X4 = A4) (h5 : X5 = A5) (h6 : X6 = A6)
    (j : S64x128.Idx) (i : S64x128.Idx) (hi0 : (i 0).val = 64 * t + (j 0).val) (hi1 : (i 1).val = (j 1).val) :
    reluDense (reluDense (reluDense X0 X1 X2) X3 X4) X5 X6 j = G4_7 A0 A1 A2 A3 A4 A5 A6 i := by
  subst h1 h2 h3 h4 h5 h6
  obtain ⟨p, q, rfl⟩ : ∃ p q, j = ix2 p q := ⟨_, _, eq_ix2 j⟩
  obtain ⟨r, q', rfl⟩ : ∃ r q', i = ix2 r q' := ⟨_, _, eq_ix2 i⟩
  obtain rfl : q = q' := Fin.ext hi1.symm
  unfold G4_7
  exact reluDense_rows _ _ (fun k => reluDense_rows _ _ (fun k' => reluDense_rows _ _
    (fun k'' => hX (ix2 p k'') (ix2 r k'') hi0 rfl) k') k) q

set_option maxHeartbeats 1000000 in
/-- What point `t` writes back is block `t` of `G4_7` of the arrays as the region finds them. -/
theorem flushed4_7_eq (c : Dev nD) (t : Fin cfg4.N) :
    (dat4 (F := Ideal) V c).flushed 7 t = ((cfg4.win 7).blk t).view.read (Elt Ideal) (G4_7 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))) := by
  show (cfg4.win 7).cut (grid4.coords t) ((dat4 V c).after 7 t) = _
  rw [after4_7]
  unfold out4_7
  rw [View.canon_unit_zero hz4]
  simp only [View.ld_unit_zero (S := S64x384) hz4, View.ld_unit_zero (S := S384x512) hz4, View.ld_unit_zero (S := S1x512) hz4, View.ld_unit_zero (S := S512x512) hz4, View.ld_unit_zero (S := S512x128) hz4, View.ld_unit_zero (S := S1x128) hz4]
  rw [pay4_eq]
  have hi := idx_facts4 t
  funext j
  rw [View.read_apply]
  refine out_point4 _ _ _ _ _ _ _ _ _ _ _ _ _ _ t.val (fun x k h0 h1 => iblk4_0_apply V c t x k h0 h1)
    (iblk4_1_eq V c t) (iblk4_2_eq V c t) (iblk4_3_eq V c t) (iblk4_4_eq V c t) (iblk4_5_eq V c t) (iblk4_6_eq V c t) _ _ ?_ ?_
  · show win4_7.index t (0 : Fin 2) * 64 + 1 * (j 0).val = 64 * t.val + (j 0).val
    rw [hi.2.2.2.2.2.2.2.2.2.2.2.2.2.2.1]; omega
  · show win4_7.index t (1 : Fin 2) * 128 + 1 * (j 1).val = (j 1).val
    rw [hi.2.2.2.2.2.2.2.2.2.2.2.2.2.2.2]; omega

/-! ## The blocks cover the array -/

/-- An index of the output array is in point `t`'s block iff each coordinate is in the block's range on its axis. -/
theorem mem_blk4_7 (t : Fin cfg4.N) (i : S64x128.Idx) :
    i ∈ ((cfg4.win 7).blk t).view.set ↔ ∀ a : Fin 2, win4_7.index t a * S64x128.size a ≤ (i a).val ∧ (i a).val < win4_7.index t a * S64x128.size a + S64x128.size a := by
  show i ∈ ((View.whole main_v147).slice (win4_7.rect t)).set ↔ _
  rw [View.set_slice_whole, Rect.mem_set_unit]
  exact Iff.rfl

/-- Row r of the output array lies in the block of point r / 64. -/
theorem blocks_cover4_7 (i : S64x128.Idx) :
    ∃ t : Fin cfg4.N, (cfg4.win 7).flush t = true ∧ i ∈ ((cfg4.win 7).blk t).view.set := by
  have hi0 : (i 0).val < 64 := (i 0).isLt
  have hi1 : (i 1).val < 128 := (i 1).isLt
  have hN : (i 0).val / 64 < cfg4.N := by show _ < grid4.N; rw [N_4]; omega
  have hi := idx_facts4 ⟨(i 0).val / 64, hN⟩
  refine ⟨⟨(i 0).val / 64, hN⟩, flush4_7 _, ?_⟩
  rw [mem_blk4_7]
  intro a
  match a with
  | ⟨0, _⟩ =>
    show win4_7.index ⟨(i 0).val / 64, hN⟩ (0 : Fin 2) * 64 ≤ (i 0).val ∧ (i 0).val < win4_7.index ⟨(i 0).val / 64, hN⟩ (0 : Fin 2) * 64 + 64
    rw [hi.2.2.2.2.2.2.2.2.2.2.2.2.2.2.1]; show (i 0).val / 64 * 64 ≤ (i 0).val ∧ (i 0).val < (i 0).val / 64 * 64 + 64; omega
  | ⟨1, _⟩ =>
    show win4_7.index ⟨(i 0).val / 64, hN⟩ (1 : Fin 2) * 128 ≤ (i 1).val ∧ (i 1).val < win4_7.index ⟨(i 0).val / 64, hN⟩ (1 : Fin 2) * 128 + 128
    rw [hi.2.2.2.2.2.2.2.2.2.2.2.2.2.2.2]; omega

/-! ## The output array after the run -/

/-- The output array after the region's last point is `G4_7` of the seven input arrays as the region finds them. -/
theorem final4_7 (c : Dev nD) :
    (dat4 (F := Ideal) V c).arrAt 7 cfg4.N = G4_7 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) :=
  (dat4 (F := Ideal) V c).arrAt_eq_of_cover 7 (G4_7 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)))
    (fun t _ => flushed4_7_eq V c t) (blocks_cover4_7)

end

end Cert.KernelIdeal.Hand

end
-- ==== Proof.KI.Val5.lean ====
/- Region 5's output array after the region, at the ideal values, as ONE function of the six arrays the region reads.

   The region's body computes, on a block of 1000 rows,  (relu (xs · W1 + b1) · W2 + b2) + lp . Entry (p, q) of a dense
   layer reads row p of its left operand and nothing else of it, so the body's result on block t is block t of the same
   expression over the whole arrays (`G5_6`); the five blocks tile the 5000 rows, each is written back once, and so
   the array ends holding `G5_6` of the arrays as the region found them (`final5_6`). -/
import proofs.«147763_j11003706212366_2_alg».proof.Proof.KI.Reg5
import proofs.«147763_j11003706212366_2_alg».proof.Proof.LibChipRow
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open Cert.LibDense Cert.LibChipRow

/-! ## The closed form -/

/-- What the output array ends holding, entry by entry: the second dense layer of the rectified first one, plus lp. -/
def G5_6 (xs : S5000x128.Idx → EReal) (lp : S5000x3.Idx → EReal) (W1 : S128x128.Idx → EReal) (b1 : S1x128.Idx → EReal)
    (W2 : S128x3.Idx → EReal) (b2 : S1x3.Idx → EReal) : S5000x3.Idx → EReal :=
  fun i => denseAt (M := 5000) (K := 128) (N := 3)
      (fun j : S5000x128.Idx => max (denseAt (M := 5000) (K := 128) (N := 128) xs W1 (rowVec b1) (j 0) (j 1)) 0) W2 (rowVec b2) (i 0) (i 1)
    + lp i

/-! ## The payload, read at an entry -/

/-- The two products' dimension numbers are the plain ones: rows by contraction, times contraction by columns. -/
theorem dot5_1_eq : dot_S1000x128_S128x128_S1000x128_1_0_0_1_n_n = DotDims.plain 1000 128 128 := rfl
theorem dot5_2_eq : dot_S1000x128_S128x3_S1000x3_1_0_0_1_n_n = DotDims.plain 1000 128 3 := rfl

/-- The first layer and the rectifier on a block, at (p, k): the narrowing to bf16 changes no value. -/
theorem hid5_apply (x0 : FVec Ideal S1000x128 .bf16) (w1 : FVec Ideal S128x128 .bf16) (b1 : FVec Ideal S1x128 .f32)
    (hx : S1000x128.ShapeCasts S1000x128) (hw : S128x128.ShapeCasts S128x128) (hc : S1x128.ShapeCasts S1x128)
    (hb : S1x128.Broadcasts S1000x128) (hlt : FTy.bits .bf16 < FTy.bits .f32) (p : Fin 1000) (k : Fin 128) :
    (truncf .bf16 (maximumf (addf (matmul dot_S1000x128_S128x128_S1000x128_1_0_0_1_n_n none (shapeCast S1000x128 x0 hx)
            (shapeCast S128x128 w1 hw) (constant (F := Ideal) S1000x128 .f32 0x00000000#32))
          (broadcastTo S1000x128 (shapeCast S1x128 b1 hc) hb))
        (broadcast S1000x128 (Scalar.ofBits (F := Ideal) .f32 0x00000000#32))) hlt : FVec Ideal S1000x128 .bf16) (ix2 p k)
      = max (denseAt x0 w1 (rowVec b1) p k) 0 := by
  rw [truncf_apply, shapeCast_self x0 hx, shapeCast_self w1 hw, shapeCast_self b1 hc, dot5_1_eq]
  exact chip_dense_row_relu_apply 1000 128 128 (by decide) hb x0 w1 b1 p k

/-- The second layer on a block, at (p, q), whatever its left operand. -/
theorem lay5_apply (h : FVec Ideal S1000x128 .bf16) (w2 : FVec Ideal S128x3 .bf16) (b2 : FVec Ideal S1x3 .f32)
    (hw : S128x3.ShapeCasts S128x3) (hc : S1x3.ShapeCasts S1x3) (hb : S1x3.Broadcasts S1000x3) (p : Fin 1000) (q : Fin 3) :
    addf (matmul dot_S1000x128_S128x3_S1000x3_1_0_0_1_n_n none h (shapeCast S128x3 w2 hw) (constant (F := Ideal) S1000x3 .f32 0x00000000#32))
        (broadcastTo S1000x3 (shapeCast S1x3 b2 hc) hb) (ix2 p q)
      = denseAt h w2 (rowVec b2) p q := by
  rw [shapeCast_self w2 hw, shapeCast_self b2 hc, dot5_2_eq]
  exact chip_dense_row_apply 1000 128 3 (by decide) hb h w2 b2 p q

/-- The payload on a block, at (p, q). -/
theorem pay5_apply (x0 : FVec Ideal S1000x128 .bf16) (w1 : FVec Ideal S128x128 .bf16) (b1 : FVec Ideal S1x128 .f32)
    (w2 : FVec Ideal S128x3 .bf16) (b2 : FVec Ideal S1x3 .f32) (l0 : FVec Ideal S1000x3 .f32) (p : Fin 1000) (q : Fin 3) :
    k5_pay1 (F := Ideal) x0 w1 b1 w2 b2 l0 (ix2 p q)
      = denseAt (M := 1000) (K := 128) (N := 3)
          (fun j : S1000x128.Idx => max (denseAt (M := 1000) (K := 128) (N := 128) x0 w1 (rowVec b1) (j 0) (j 1)) 0) w2 (rowVec b2) p q
        + l0 (ix2 p q) := by
  unfold k5_pay1
  refine (addf_apply _ _ _).trans ?_
  refine congrArg (· + l0 (ix2 p q)) ?_
  refine (lay5_apply _ w2 b2 _ _ _ p q).trans ?_
  exact denseAt_congr (fun k => hid5_apply x0 w1 b1 _ _ _ _ _ p k) (fun _ => rfl) rfl

/-- The payload on a block of rows, at (p, q), is G at (r, q) when row p of the block is row r of the arrays. -/
theorem pay5_block (xs : S5000x128.Idx → EReal) (lp : S5000x3.Idx → EReal) (W1 : S128x128.Idx → EReal) (b1 : S1x128.Idx → EReal)
    (W2 : S128x3.Idx → EReal) (b2 : S1x3.Idx → EReal)
    (x0 : FVec Ideal S1000x128 .bf16) (w1 : FVec Ideal S128x128 .bf16) (c1 : FVec Ideal S1x128 .f32)
    (w2 : FVec Ideal S128x3 .bf16) (c2 : FVec Ideal S1x3 .f32) (l0 : FVec Ideal S1000x3 .f32)
    (p : Fin 1000) (q : Fin 3) (r : Fin 5000)
    (hx : ∀ k : Fin 128, x0 (ix2 p k) = xs (ix2 r k)) (hl : l0 (ix2 p q) = lp (ix2 r q))
    (hw1 : ∀ a, w1 a = W1 a) (hb1 : ∀ a, c1 a = b1 a) (hw2 : ∀ a, w2 a = W2 a) (hb2 : ∀ a, c2 a = b2 a) :
    k5_pay1 (F := Ideal) x0 w1 c1 w2 c2 l0 (ix2 p q) = G5_6 xs lp W1 b1 W2 b2 (ix2 r q) := by
  rw [pay5_apply, hl]
  unfold G5_6
  refine congrArg (· + lp (ix2 r q)) ?_
  refine denseAt_congr (fun k => congrArg (max · 0) ?_) (fun k => hw2 _) (hb2 _)
  exact denseAt_congr (fun j => hx j) (fun j => hw1 _) (hb1 _)

/-- The same with the two entries given as indices: entry j of the block against entry i of the arrays, in the same
    column, row (j 0) of the block being row (i 0) of the arrays. -/
theorem pay5_at (xs : S5000x128.Idx → EReal) (lp : S5000x3.Idx → EReal) (W1 : S128x128.Idx → EReal) (b1 : S1x128.Idx → EReal)
    (W2 : S128x3.Idx → EReal) (b2 : S1x3.Idx → EReal)
    (x0 : FVec Ideal S1000x128 .bf16) (w1 : FVec Ideal S128x128 .bf16) (c1 : FVec Ideal S1x128 .f32)
    (w2 : FVec Ideal S128x3 .bf16) (c2 : FVec Ideal S1x3 .f32) (l0 : FVec Ideal S1000x3 .f32)
    (j : S1000x3.Idx) (i : S5000x3.Idx) (hq : (i 1).val = (j 1).val)
    (hx : ∀ k : Fin 128, x0 (ix2 (j 0) k) = xs (ix2 (i 0) k)) (hl : l0 j = lp i)
    (hw1 : ∀ a, w1 a = W1 a) (hb1 : ∀ a, c1 a = b1 a) (hw2 : ∀ a, w2 a = W2 a) (hb2 : ∀ a, c2 a = b2 a) :
    k5_pay1 (F := Ideal) x0 w1 c1 w2 c2 l0 j = G5_6 xs lp W1 b1 W2 b2 i := by
  obtain ⟨p, q, rfl⟩ : ∃ (p : Fin 1000) (q : Fin 3), j = ix2 p q := ⟨j 0, j 1, eq_ix2 j⟩
  obtain ⟨r, q', rfl⟩ : ∃ (r : Fin 5000) (q' : Fin 3), i = ix2 r q' := ⟨i 0, i 1, eq_ix2 i⟩
  obtain rfl : q' = q := Fin.ext hq
  exact pay5_block xs lp W1 b1 W2 b2 x0 w1 c1 w2 c2 l0 p q' r hx hl hw1 hb1 hw2 hb2

/-! ## The windows' block indices, decided over the grid -/

/-- The two row-blocked inputs move with the output; the weights' and biases' blocks stay at block 0; the output's
    block index is the point's number, below 5. -/
theorem idx_facts5 : ∀ t : Fin cfg5.N,
    win5_0.index t (0 : Fin 2) = win5_6.index t (0 : Fin 2) ∧ win5_0.index t (1 : Fin 2) = 0
    ∧ win5_1.index t (0 : Fin 2) = win5_6.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) ≤ 4 ∧ win5_6.index t (1 : Fin 2) = 0 :=
  (by decide +kernel : ∀ t : Fin grid5.N, _)

/-- Every block of rows is some point's. -/
theorem idx_onto5 : ∀ q0 : Fin 5, ∃ t : Fin cfg5.N, win5_6.index t = ![q0.val, 0] :=
  (by decide +kernel : ∀ q0 : Fin 5, ∃ t : Fin grid5.N, win5_6.index t = ![q0.val, 0])

theorem hz5 : (![0, 0] : Fin 2 → Nat) = fun _ => 0 := funext fun a => by fin_cases a <;> rfl

/-! ## Where a block's entries sit in its array -/

/-- Entry j of the output block at point `t` sits at row  index · 1000 + (j 0)  of the array, in its own column. -/
theorem emb5_6 (t : Fin cfg5.N) (j : S1000x3.Idx) (hr : win5_6.index t (0 : Fin 2) * 1000 + (j 0).val < 5000) :
    ((cfg5.win 6).blk t).view.emb j = (ix2 (n0 := 5000) (n1 := 3) ⟨win5_6.index t (0 : Fin 2) * 1000 + (j 0).val, hr⟩ (j 1) : S5000x3.Idx) := by
  obtain ⟨e00, e01, e10, e11, e20, e21, e30, e31, e40, e41, e50, e51, e60, e61⟩ := idx_facts5 t
  funext a; apply Fin.ext
  match a with
  | ⟨0, _⟩ => show win5_6.index t (0 : Fin 2) * 1000 + 1 * (j 0).val = win5_6.index t (0 : Fin 2) * 1000 + (j 0).val; omega
  | ⟨1, _⟩ => show win5_6.index t (1 : Fin 2) * 3 + 1 * (j 1).val = (j 1).val; omega

/-- Row p of the xs block at point `t` is row  index · 1000 + p  of xs (the index the output's). -/
theorem read5_0 (V : (c : Dev nD) → (b : Ref sig .tc) → Buf (Elt Ideal) ((c : Thread nD τ).loc b)) (c : Dev nD) (t : Fin cfg5.N)
    (p : Fin 1000) (k : Fin 128) (hr : win5_6.index t (0 : Fin 2) * 1000 + p.val < 5000) :
    iblk5 V c 0 t (ix2 (n0 := 1000) (n1 := 128) p k) = (V c (Pipeline.arrRef spec5 0)) (ix2 (n0 := 5000) (n1 := 128) ⟨win5_6.index t (0 : Fin 2) * 1000 + p.val, hr⟩ k) := by
  have h0 : ((cfg5.win 0).blk t).view.emb (ix2 (n0 := 1000) (n1 := 128) p k) = (ix2 (n0 := 5000) (n1 := 128) ⟨win5_6.index t (0 : Fin 2) * 1000 + p.val, hr⟩ k : S5000x128.Idx) := by
    obtain ⟨e00, e01, e10, e11, e20, e21, e30, e31, e40, e41, e50, e51, e60, e61⟩ := idx_facts5 t
    funext a; apply Fin.ext
    match a with
    | ⟨0, _⟩ => show win5_0.index t (0 : Fin 2) * 1000 + 1 * p.val = win5_6.index t (0 : Fin 2) * 1000 + p.val; omega
    | ⟨1, _⟩ => show win5_0.index t (1 : Fin 2) * 128 + 1 * k.val = k.val; omega
  show (V c (Pipeline.arrRef spec5 0)) (((cfg5.win 0).blk t).view.emb (ix2 (n0 := 1000) (n1 := 128) p k)) = (V c (Pipeline.arrRef spec5 0)) (ix2 (n0 := 5000) (n1 := 128) ⟨win5_6.index t (0 : Fin 2) * 1000 + p.val, hr⟩ k)
  rw [h0]

/-- Entry j of the lp block at point `t` is the entry of lp at row  index · 1000 + (j 0)  in the same column. -/
theorem read5_1 (V : (c : Dev nD) → (b : Ref sig .tc) → Buf (Elt Ideal) ((c : Thread nD τ).loc b)) (c : Dev nD) (t : Fin cfg5.N)
    (j : S1000x3.Idx) (hr : win5_6.index t (0 : Fin 2) * 1000 + (j 0).val < 5000) :
    iblk5 V c 1 t j = (V c (Pipeline.arrRef spec5 1)) (ix2 (n0 := 5000) (n1 := 3) ⟨win5_6.index t (0 : Fin 2) * 1000 + (j 0).val, hr⟩ (j 1)) := by
  have h1 : ((cfg5.win 1).blk t).view.emb j = (ix2 (n0 := 5000) (n1 := 3) ⟨win5_6.index t (0 : Fin 2) * 1000 + (j 0).val, hr⟩ (j 1) : S5000x3.Idx) := by
    obtain ⟨e00, e01, e10, e11, e20, e21, e30, e31, e40, e41, e50, e51, e60, e61⟩ := idx_facts5 t
    funext a; apply Fin.ext
    match a with
    | ⟨0, _⟩ => show win5_1.index t (0 : Fin 2) * 1000 + 1 * (j 0).val = win5_6.index t (0 : Fin 2) * 1000 + (j 0).val; omega
    | ⟨1, _⟩ => show win5_1.index t (1 : Fin 2) * 3 + 1 * (j 1).val = (j 1).val; omega
  show (V c (Pipeline.arrRef spec5 1)) (((cfg5.win 1).blk t).view.emb j) = (V c (Pipeline.arrRef spec5 1)) (ix2 (n0 := 5000) (n1 := 3) ⟨win5_6.index t (0 : Fin 2) * 1000 + (j 0).val, hr⟩ (j 1))
  rw [h1]

/-- Window 2's block (the first layer's weights) is its whole array, at every point. -/
theorem read5_2 (V : (c : Dev nD) → (b : Ref sig .tc) → Buf (Elt Ideal) ((c : Thread nD τ).loc b)) (c : Dev nD) (t : Fin cfg5.N) (a : S128x128.Idx) :
    iblk5 V c 2 t a = (V c (Pipeline.arrRef spec5 2)) a := by
  have h : ((cfg5.win 2).blk t).view.emb a = (a : S128x128.Idx) := by
    obtain ⟨e00, e01, e10, e11, e20, e21, e30, e31, e40, e41, e50, e51, e60, e61⟩ := idx_facts5 t
    funext b; apply Fin.ext
    match b with
    | ⟨0, _⟩ => show win5_2.index t (0 : Fin 2) * 128 + 1 * (a 0).val = (a 0).val; omega
    | ⟨1, _⟩ => show win5_2.index t (1 : Fin 2) * 128 + 1 * (a 1).val = (a 1).val; omega
  show (V c (Pipeline.arrRef spec5 2)) (((cfg5.win 2).blk t).view.emb a) = (V c (Pipeline.arrRef spec5 2)) a
  rw [h]

/-- Window 3's block (the first layer's bias row) is its whole array, at every point. -/
theorem read5_3 (V : (c : Dev nD) → (b : Ref sig .tc) → Buf (Elt Ideal) ((c : Thread nD τ).loc b)) (c : Dev nD) (t : Fin cfg5.N) (a : S1x128.Idx) :
    iblk5 V c 3 t a = (V c (Pipeline.arrRef spec5 3)) a := by
  have h : ((cfg5.win 3).blk t).view.emb a = (a : S1x128.Idx) := by
    obtain ⟨e00, e01, e10, e11, e20, e21, e30, e31, e40, e41, e50, e51, e60, e61⟩ := idx_facts5 t
    funext b; apply Fin.ext
    match b with
    | ⟨0, _⟩ => show win5_3.index t (0 : Fin 2) * 1 + 1 * (a 0).val = (a 0).val; omega
    | ⟨1, _⟩ => show win5_3.index t (1 : Fin 2) * 128 + 1 * (a 1).val = (a 1).val; omega
  show (V c (Pipeline.arrRef spec5 3)) (((cfg5.win 3).blk t).view.emb a) = (V c (Pipeline.arrRef spec5 3)) a
  rw [h]

/-- Window 4's block (the second layer's weights) is its whole array, at every point. -/
theorem read5_4 (V : (c : Dev nD) → (b : Ref sig .tc) → Buf (Elt Ideal) ((c : Thread nD τ).loc b)) (c : Dev nD) (t : Fin cfg5.N) (a : S128x3.Idx) :
    iblk5 V c 4 t a = (V c (Pipeline.arrRef spec5 4)) a := by
  have h : ((cfg5.win 4).blk t).view.emb a = (a : S128x3.Idx) := by
    obtain ⟨e00, e01, e10, e11, e20, e21, e30, e31, e40, e41, e50, e51, e60, e61⟩ := idx_facts5 t
    funext b; apply Fin.ext
    match b with
    | ⟨0, _⟩ => show win5_4.index t (0 : Fin 2) * 128 + 1 * (a 0).val = (a 0).val; omega
    | ⟨1, _⟩ => show win5_4.index t (1 : Fin 2) * 3 + 1 * (a 1).val = (a 1).val; omega
  show (V c (Pipeline.arrRef spec5 4)) (((cfg5.win 4).blk t).view.emb a) = (V c (Pipeline.arrRef spec5 4)) a
  rw [h]

/-- Window 5's block (the second layer's bias row) is its whole array, at every point. -/
theorem read5_5 (V : (c : Dev nD) → (b : Ref sig .tc) → Buf (Elt Ideal) ((c : Thread nD τ).loc b)) (c : Dev nD) (t : Fin cfg5.N) (a : S1x3.Idx) :
    iblk5 V c 5 t a = (V c (Pipeline.arrRef spec5 5)) a := by
  have h : ((cfg5.win 5).blk t).view.emb a = (a : S1x3.Idx) := by
    obtain ⟨e00, e01, e10, e11, e20, e21, e30, e31, e40, e41, e50, e51, e60, e61⟩ := idx_facts5 t
    funext b; apply Fin.ext
    match b with
    | ⟨0, _⟩ => show win5_5.index t (0 : Fin 2) * 1 + 1 * (a 0).val = (a 0).val; omega
    | ⟨1, _⟩ => show win5_5.index t (1 : Fin 2) * 3 + 1 * (a 1).val = (a 1).val; omega
  show (V c (Pipeline.arrRef spec5 5)) (((cfg5.win 5).blk t).view.emb a) = (V c (Pipeline.arrRef spec5 5)) a
  rw [h]

/-! ## What a point writes back -/

/-- Point `t` writes back the payload of the six blocks at `t`: the body loads each buffer whole and stores once, over
    the whole output block. -/
theorem flushed5_6_pay (V : (c : Dev nD) → (b : Ref sig .tc) → Buf (Elt Ideal) ((c : Thread nD τ).loc b)) (c : Dev nD) (t : Fin cfg5.N) :
    (dat5 (F := Ideal) V c).flushed 6 t
      = (cfg5.win 6).cut (grid5.coords t) (k5_pay1 (F := Ideal) (iblk5 V c 0 t) (iblk5 V c 2 t) (iblk5 V c 3 t) (iblk5 V c 4 t) (iblk5 V c 5 t) (iblk5 V c 1 t)) := by
  show (cfg5.win 6).cut (grid5.coords t) ((dat5 V c).after 6 t) = _
  rw [after5_6]
  unfold out5_6
  rw [View.canon_unit_zero hz5]
  simp only [View.ld_unit_zero (S := S1000x128) hz5, View.ld_unit_zero (S := S128x128) hz5, View.ld_unit_zero (S := S1x128) hz5,
    View.ld_unit_zero (S := S128x3) hz5, View.ld_unit_zero (S := S1x3) hz5, View.ld_unit_zero (S := S1000x3) hz5]

/-- Point `t` writes back block `t` of `G5_6` of the arrays as the region finds them. -/
theorem flushed5_6_eq (V : (c : Dev nD) → (b : Ref sig .tc) → Buf (Elt Ideal) ((c : Thread nD τ).loc b)) (c : Dev nD) (t : Fin cfg5.N) :
    (dat5 (F := Ideal) V c).flushed 6 t
      = ((cfg5.win 6).blk t).view.read (Elt Ideal) (G5_6 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  rw [flushed5_6_pay]
  obtain ⟨e00, e01, e10, e11, e20, e21, e30, e31, e40, e41, e50, e51, e60, e61⟩ := idx_facts5 t
  funext j
  have hj0 : (j 0).val < 1000 := (j 0).isLt
  have hr : win5_6.index t (0 : Fin 2) * 1000 + (j 0).val < 5000 := by omega
  show k5_pay1 (F := Ideal) (iblk5 V c 0 t) (iblk5 V c 2 t) (iblk5 V c 3 t) (iblk5 V c 4 t) (iblk5 V c 5 t) (iblk5 V c 1 t) j = G5_6 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (((cfg5.win 6).blk t).view.emb j)
  rw [emb5_6 t j hr]
  exact pay5_at (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (iblk5 V c 0 t) (iblk5 V c 2 t) (iblk5 V c 3 t) (iblk5 V c 4 t) (iblk5 V c 5 t) (iblk5 V c 1 t) j _ rfl
    (fun k => read5_0 V c t (j 0) k hr) (read5_1 V c t j hr) (read5_2 V c t) (read5_3 V c t) (read5_4 V c t) (read5_5 V c t)

/-! ## The blocks tile the array -/

/-- An index of the array is in point `t`'s block iff each coordinate is in the block's range on its axis. -/
theorem mem_blk5_6 (t : Fin cfg5.N) (i : S5000x3.Idx) :
    i ∈ ((cfg5.win 6).blk t).view.set ↔ ∀ a : Fin 2, win5_6.index t a * S1000x3.size a ≤ (i a).val ∧ (i a).val < win5_6.index t a * S1000x3.size a + S1000x3.size a := by
  show i ∈ ((View.whole main_v155).slice (win5_6.rect t)).set ↔ _
  rw [View.set_slice_whole, Rect.mem_set_unit]
  exact Iff.rfl

/-- Row r of the array lies in block r / 1000, and every block is written back. -/
theorem covered5_6 (i : S5000x3.Idx) : ∃ t : Fin cfg5.N, (cfg5.win 6).flush t = true ∧ i ∈ ((cfg5.win 6).blk t).view.set := by
  have hi0 : (i 0).val < 5000 := (i 0).isLt
  have hi1 : (i 1).val < 3 := (i 1).isLt
  obtain ⟨t, ht⟩ := idx_onto5 ⟨(i 0).val / 1000, by omega⟩
  have q0 : win5_6.index t (0 : Fin 2) = (i 0).val / 1000 := congrFun ht 0
  have q1 : win5_6.index t (1 : Fin 2) = 0 := congrFun ht 1
  refine ⟨t, flush5_6 t, ?_⟩
  rw [mem_blk5_6]
  intro a
  match a with
  | ⟨0, _⟩ => show win5_6.index t (0 : Fin 2) * 1000 ≤ (i 0).val ∧ (i 0).val < win5_6.index t (0 : Fin 2) * 1000 + 1000; omega
  | ⟨1, _⟩ => show win5_6.index t (1 : Fin 2) * 3 ≤ (i 1).val ∧ (i 1).val < win5_6.index t (1 : Fin 2) * 3 + 3; omega

/-! ## The array after the region -/

/-- The output array after the region is `G5_6` of the six arrays as the region found them. -/
theorem final5_6 (V : (c : Dev nD) → (b : Ref sig .tc) → Buf (Elt Ideal) ((c : Thread nD τ).loc b)) (c : Dev nD) :
    (dat5 (F := Ideal) V c).arrAt 6 cfg5.N = G5_6 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 (F := Ideal) V c).arrAt_eq_of_cover 6 _ (fun t _ => flushed5_6_eq V c t) covered5_6

end Cert.KernelIdeal.Hand

end
-- ==== Proof.KI.Val6.lean ====
/-
  Region 6 (position embedding): the value of its output array after the pipeline, at the ideal values.

  The output array has 5000 rows of 128 entries, written back in 5 blocks of 1000 rows. Row r of the result is
  relu(relu(p_r · W1 + b1) · W2 + b2) + xs_r: it reads row r of p and of xs and the whole of W1, b1, W2, b2. The body's
  payload on a block of rows is therefore the same block of rows of that function of the whole arrays; each point
  writes back its block of it, the blocks cover the array, and so the array ends holding it.
-/
import proofs.«147763_j11003706212366_2_alg».proof.Proof.KI.Reg6
import proofs.«147763_j11003706212366_2_alg».proof.Proof.LibChipRow
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.LibDense Cert.LibChipRow

/-! ## The function of the whole arrays -/

/-- Entry (r, q) of relu(relu(p · W1 + b1) · W2 + b2) + xs, from the arrays p, xs, W1, b1, W2, b2 (in window order;
    the biases are one-row matrices, read as vectors by `rowVec`; relu is max · 0). -/
def G6_6 (a0 : S5000x3.Idx → EReal) (a1 : S5000x128.Idx → EReal) (a2 : S3x128.Idx → EReal) (a3 : S1x128.Idx → EReal)
    (a4 : S128x128.Idx → EReal) (a5 : S1x128.Idx → EReal) : S5000x128.Idx → EReal :=
  fun i => max (denseAt (M := 5000) (K := 128) (N := 128)
      (fun j => max (denseAt (M := 5000) (K := 3) (N := 128) a0 a2 (rowVec a3) (j 0) (j 1)) 0) a4 (rowVec a5) (i 0) (i 1)) 0 + a1 i

/-- `G6_6` at (r, q), spelled out. -/
theorem G6_6_apply (a0 : S5000x3.Idx → EReal) (a1 : S5000x128.Idx → EReal) (a2 : S3x128.Idx → EReal) (a3 : S1x128.Idx → EReal)
    (a4 : S128x128.Idx → EReal) (a5 : S1x128.Idx → EReal) (r : Fin 5000) (q : Fin 128) :
    G6_6 a0 a1 a2 a3 a4 a5 (ix2 r q) = max (denseAt (M := 5000) (K := 128) (N := 128)
      (fun j => max (denseAt (M := 5000) (K := 3) (N := 128) a0 a2 (rowVec a3) (j 0) (j 1)) 0) a4 (rowVec a5) r q) 0 + a1 (ix2 r q) := rfl

/-- Row locality: the same expression computed from a block of rows of p and xs (local row `p` being array row `r`)
    and from operands that agree with W1, b1, W2, b2 is the function's entry (r, q). -/
theorem G6_6_block (a0 : S5000x3.Idx → EReal) (a1 : S5000x128.Idx → EReal) (a2 : S3x128.Idx → EReal) (a3 : S1x128.Idx → EReal)
    (a4 : S128x128.Idx → EReal) (a5 : S1x128.Idx → EReal)
    (b0 : S1000x3.Idx → EReal) (b1 : S1000x128.Idx → EReal) (b2 : S3x128.Idx → EReal) (b3 : S1x128.Idx → EReal)
    (b4 : S128x128.Idx → EReal) (b5 : S1x128.Idx → EReal) (r : Fin 5000) (p : Fin 1000) (q : Fin 128)
    (h0 : ∀ k : Fin 3, b0 (ix2 p k) = a0 (ix2 r k)) (h1 : b1 (ix2 p q) = a1 (ix2 r q))
    (h2 : ∀ y, b2 y = a2 y) (h3 : ∀ y, b3 y = a3 y) (h4 : ∀ y, b4 y = a4 y) (h5 : ∀ y, b5 y = a5 y) :
    max (denseAt (M := 1000) (K := 128) (N := 128)
      (fun j => max (denseAt (M := 1000) (K := 3) (N := 128) b0 b2 (rowVec b3) (j 0) (j 1)) 0) b4 (rowVec b5) p q) 0 + b1 (ix2 p q)
      = G6_6 a0 a1 a2 a3 a4 a5 (ix2 r q) := by
  obtain rfl : b2 = a2 := funext h2
  obtain rfl : b3 = a3 := funext h3
  obtain rfl : b4 = a4 := funext h4
  obtain rfl : b5 = a5 := funext h5
  rw [G6_6_apply, h1]
  refine congrArg (fun z => max z 0 + a1 (ix2 r q)) ?_
  refine denseAt_congr (fun k => ?_) (fun _ => rfl) rfl
  exact congrArg (fun z => max z 0) (denseAt_congr h0 (fun _ => rfl) rfl)

/-! ## The payload, read at an entry -/

/-- The body's payload at (p, q): two on-chip dense layers with row biases, each followed by the positive part (the
    narrowing between them changes nothing at the ideal values), plus the xs block. -/
theorem pay6_read (v0 : Vec Ideal S1000x3 .bf16) (v2 : Vec Ideal S3x128 .bf16) (v5 : Vec Ideal S1x128 .f32)
    (v12 : Vec Ideal S128x128 .bf16) (v15 : Vec Ideal S1x128 .f32) (v21 : Vec Ideal S1000x128 .f32) (p : Fin 1000) (q : Fin 128) :
    k6_pay1 v0 v2 v5 v12 v15 v21 (ix2 p q)
      = max (denseAt (M := 1000) (K := 128) (N := 128)
      (fun j => max (denseAt (M := 1000) (K := 3) (N := 128) v0 v2 (rowVec v5) (j 0) (j 1)) 0) v12 (rowVec v15) p q) 0 + v21 (ix2 p q) := by
  unfold k6_pay1
  simp only [shapeCast_self]
  refine (addf_apply _ _ _).trans (congrArg (· + v21 (ix2 p q)) ?_)
  refine (chip_dense_row_relu_apply (φ₁ := .bf16) (φ₂ := .bf16) 1000 128 128 (by decide) _ _ v12 v15 p q).trans ?_
  refine congrArg (fun z => max z 0) (denseAt_congr (fun k => ?_) (fun _ => rfl) rfl)
  exact chip_dense_row_relu_apply (φ₁ := .bf16) (φ₂ := .bf16) 1000 3 128 (by decide) _ v0 v2 v5 p k

section Value6
variable (V : (c : Dev nD) → (b : Ref sig .tc) → Buf (Elt Ideal) ((c : Thread nD τ).loc b))

/-! ## The index maps, decided over the grid -/

theorem hz6 : (![0, 0] : Fin 2 → Nat) = fun _ => 0 := funext fun a => by fin_cases a <;> rfl

/-- The row windows (p, xs) move with the output's row block and stay at column block 0; the output's row block is
    at most 4. -/
theorem idx6_rows : ∀ t : Fin cfg6.N,
    win6_0.index t (0 : Fin 2) = win6_6.index t (0 : Fin 2) ∧ win6_0.index t (1 : Fin 2) = 0
    ∧ win6_1.index t (0 : Fin 2) = win6_6.index t (0 : Fin 2) ∧ win6_1.index t (1 : Fin 2) = 0
    ∧ win6_6.index t (0 : Fin 2) ≤ 4 ∧ win6_6.index t (1 : Fin 2) = 0 :=
  (by decide +kernel : ∀ t : Fin grid6.N, _)

/-- The weight and bias windows stay at block (0, 0). -/
theorem idx6_whole : ∀ t : Fin cfg6.N,
    (win6_2.index t (0 : Fin 2) = 0 ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = 0 ∧ win6_5.index t (1 : Fin 2) = 0) :=
  (by decide +kernel : ∀ t : Fin grid6.N, _)

/-- Every row block of the output is some point's. -/
theorem idx6_onto : ∀ q0 : Fin 5, ∃ t : Fin cfg6.N, win6_6.index t = ![q0.val, 0] :=
  (by decide +kernel : ∀ q0 : Fin 5, ∃ t : Fin grid6.N, win6_6.index t = ![q0.val, 0])

/-- The array row of local row `p` of the block at point `t`. -/
def row6 (t : Fin cfg6.N) (p : Fin 1000) : Fin 5000 :=
  ⟨win6_6.index t (0 : Fin 2) * 1000 + p.val, by have := (idx6_rows t).2.2.2.2.1; have := p.isLt; omega⟩

/-! ## The blocks, read at an entry -/

/-- Entry (p, q) of the output's block at `t` sits in the array at (row6 t p, q). -/
theorem emb6_6 (t : Fin cfg6.N) (p : Fin 1000) (q : Fin 128) :
    ((cfg6.win 6).blk t).view.emb (ix2 p q : S1000x128.Idx) = (ix2 (row6 t p) q : S5000x128.Idx) := by
  obtain ⟨-, -, -, -, -, e1⟩ := idx6_rows t
  funext a; apply Fin.ext
  match a with
  | ⟨0, _⟩ => show win6_6.index t (0 : Fin 2) * 1000 + 1 * p.val = win6_6.index t (0 : Fin 2) * 1000 + p.val; omega
  | ⟨1, _⟩ => show win6_6.index t (1 : Fin 2) * 128 + 1 * q.val = q.val; omega

/-- The p block at `t`, at (p, k), is the array at (row6 t p, k). -/
theorem iblk6_0_apply (c : Dev nD) (t : Fin cfg6.N) (p : Fin 1000) (k : Fin 3) :
    iblk6 V c 0 t (ix2 p k : S1000x3.Idx) = V c (Pipeline.arrRef spec6 0) (ix2 (row6 t p) k : S5000x3.Idx) := by
  obtain ⟨e0, e1, -⟩ := idx6_rows t
  show V c (Pipeline.arrRef spec6 0) (((cfg6.win 0).blk t).view.emb (ix2 p k : S1000x3.Idx)) = _
  refine congrArg _ (funext fun a => Fin.ext ?_)
  match a with
  | ⟨0, _⟩ => show win6_0.index t (0 : Fin 2) * 1000 + 1 * p.val = win6_6.index t (0 : Fin 2) * 1000 + p.val; omega
  | ⟨1, _⟩ => show win6_0.index t (1 : Fin 2) * 3 + 1 * k.val = k.val; omega

/-- The xs block at `t`, at (p, q), is the array at (row6 t p, q). -/
theorem iblk6_1_apply (c : Dev nD) (t : Fin cfg6.N) (p : Fin 1000) (q : Fin 128) :
    iblk6 V c 1 t (ix2 p q : S1000x128.Idx) = V c (Pipeline.arrRef spec6 1) (ix2 (row6 t p) q : S5000x128.Idx) := by
  obtain ⟨-, -, e0, e1, -⟩ := idx6_rows t
  show V c (Pipeline.arrRef spec6 1) (((cfg6.win 1).blk t).view.emb (ix2 p q : S1000x128.Idx)) = _
  refine congrArg _ (funext fun a => Fin.ext ?_)
  match a with
  | ⟨0, _⟩ => show win6_1.index t (0 : Fin 2) * 1000 + 1 * p.val = win6_6.index t (0 : Fin 2) * 1000 + p.val; omega
  | ⟨1, _⟩ => show win6_1.index t (1 : Fin 2) * 128 + 1 * q.val = q.val; omega

/-- Window 2 is its whole array at every point: its block reads the array. -/
theorem iblk6_2_apply (c : Dev nD) (t : Fin cfg6.N) (y : S3x128.Idx) :
    iblk6 V c 2 t y = V c (Pipeline.arrRef spec6 2) y := by
  obtain ⟨e0, e1⟩ := (idx6_whole t).1
  show V c (Pipeline.arrRef spec6 2) (((cfg6.win 2).blk t).view.emb y) = V c (Pipeline.arrRef spec6 2) y
  refine congrArg _ (funext fun a => Fin.ext ?_)
  match a with
  | ⟨0, _⟩ => show win6_2.index t (0 : Fin 2) * 3 + 1 * (y 0).val = (y 0).val; omega
  | ⟨1, _⟩ => show win6_2.index t (1 : Fin 2) * 128 + 1 * (y 1).val = (y 1).val; omega

/-- Window 3 is its whole array at every point: its block reads the array. -/
theorem iblk6_3_apply (c : Dev nD) (t : Fin cfg6.N) (y : S1x128.Idx) :
    iblk6 V c 3 t y = V c (Pipeline.arrRef spec6 3) y := by
  obtain ⟨e0, e1⟩ := (idx6_whole t).2.1
  show V c (Pipeline.arrRef spec6 3) (((cfg6.win 3).blk t).view.emb y) = V c (Pipeline.arrRef spec6 3) y
  refine congrArg _ (funext fun a => Fin.ext ?_)
  match a with
  | ⟨0, _⟩ => show win6_3.index t (0 : Fin 2) * 1 + 1 * (y 0).val = (y 0).val; omega
  | ⟨1, _⟩ => show win6_3.index t (1 : Fin 2) * 128 + 1 * (y 1).val = (y 1).val; omega

/-- Window 4 is its whole array at every point: its block reads the array. -/
theorem iblk6_4_apply (c : Dev nD) (t : Fin cfg6.N) (y : S128x128.Idx) :
    iblk6 V c 4 t y = V c (Pipeline.arrRef spec6 4) y := by
  obtain ⟨e0, e1⟩ := (idx6_whole t).2.2.1
  show V c (Pipeline.arrRef spec6 4) (((cfg6.win 4).blk t).view.emb y) = V c (Pipeline.arrRef spec6 4) y
  refine congrArg _ (funext fun a => Fin.ext ?_)
  match a with
  | ⟨0, _⟩ => show win6_4.index t (0 : Fin 2) * 128 + 1 * (y 0).val = (y 0).val; omega
  | ⟨1, _⟩ => show win6_4.index t (1 : Fin 2) * 128 + 1 * (y 1).val = (y 1).val; omega

/-- Window 5 is its whole array at every point: its block reads the array. -/
theorem iblk6_5_apply (c : Dev nD) (t : Fin cfg6.N) (y : S1x128.Idx) :
    iblk6 V c 5 t y = V c (Pipeline.arrRef spec6 5) y := by
  obtain ⟨e0, e1⟩ := (idx6_whole t).2.2.2
  show V c (Pipeline.arrRef spec6 5) (((cfg6.win 5).blk t).view.emb y) = V c (Pipeline.arrRef spec6 5) y
  refine congrArg _ (funext fun a => Fin.ext ?_)
  match a with
  | ⟨0, _⟩ => show win6_5.index t (0 : Fin 2) * 1 + 1 * (y 0).val = (y 0).val; omega
  | ⟨1, _⟩ => show win6_5.index t (1 : Fin 2) * 128 + 1 * (y 1).val = (y 1).val; omega

/-! ## What a point writes back -/

/-- The payload of the blocks at point `t`, at an entry of the block, is `G6_6` of the arrays at the entry's place in
    the output array. -/
theorem flushed6_6_pt (c : Dev nD) (t : Fin cfg6.N) (j : S1000x128.Idx) :
    k6_pay1 (iblk6 V c 0 t) (iblk6 V c 2 t) (iblk6 V c 3 t) (iblk6 V c 4 t) (iblk6 V c 5 t) (iblk6 V c 1 t) j
      = G6_6 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (((cfg6.win 6).blk t).view.emb j) := by
  obtain ⟨p, q, rfl⟩ : ∃ (p : Fin 1000) (q : Fin 128), j = ix2 p q := ⟨j 0, j 1, eq_ix2 j⟩
  refine ((pay6_read _ _ _ _ _ _ p q).trans ?_).trans
    (congrArg (G6_6 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))) (emb6_6 t p q)).symm
  exact G6_6_block _ _ _ _ _ _ _ _ _ _ _ _ (row6 t p) p q (fun k => iblk6_0_apply V c t p k) (iblk6_1_apply V c t p q)
    (iblk6_2_apply V c t) (iblk6_3_apply V c t) (iblk6_4_apply V c t) (iblk6_5_apply V c t)

set_option maxHeartbeats 1000000 in
/-- Point `t` writes back its block of `G6_6` of the arrays as the region finds them. -/
theorem flushed6_6_eq (c : Dev nD) (t : Fin cfg6.N) :
    (dat6 (F := Ideal) V c).flushed 6 t
      = ((cfg6.win 6).blk t).view.read (Elt Ideal) (G6_6 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))) := by
  show (cfg6.win 6).cut (grid6.coords t) ((dat6 V c).after 6 t) = _
  rw [after6_6]
  unfold out6_6
  rw [View.canon_unit_zero hz6]
  simp only [View.ld_unit_zero (S := S1000x3) hz6, View.ld_unit_zero (S := S3x128) hz6, View.ld_unit_zero (S := S1x128) hz6,
    View.ld_unit_zero (S := S128x128) hz6, View.ld_unit_zero (S := S1000x128) hz6]
  exact funext fun (j : S1000x128.Idx) => flushed6_6_pt V c t j

/-! ## The blocks cover the array -/

/-- An index of the array is in point `t`'s block iff each coordinate is in the block's range on its axis. -/
theorem mem_blk6_6 (t : Fin cfg6.N) (i : S5000x128.Idx) :
    i ∈ ((cfg6.win 6).blk t).view.set ↔ ∀ a : Fin 2, win6_6.index t a * S1000x128.size a ≤ (i a).val ∧ (i a).val < win6_6.index t a * S1000x128.size a + S1000x128.size a := by
  show i ∈ ((View.whole main_v174).slice (win6_6.rect t)).set ↔ _
  rw [View.set_slice_whole, Rect.mem_set_unit]
  exact Iff.rfl

/-- Row r lies in the block of point r / 1000. -/
theorem blocks_cover6_6 (i : S5000x128.Idx) :
    ∃ t : Fin cfg6.N, (cfg6.win 6).flush t = true ∧ i ∈ ((cfg6.win 6).blk t).view.set := by
  have hi0 : (i 0).val < 5000 := (i 0).isLt
  have hi1 : (i 1).val < 128 := (i 1).isLt
  obtain ⟨t, ht⟩ := idx6_onto ⟨(i 0).val / 1000, by omega⟩
  have q0 : win6_6.index t (0 : Fin 2) = (i 0).val / 1000 := congrFun ht 0
  have q1 : win6_6.index t (1 : Fin 2) = 0 := congrFun ht 1
  refine ⟨t, flush6_6 t, ?_⟩
  rw [mem_blk6_6]
  intro a
  match a with
  | ⟨0, _⟩ => show win6_6.index t (0 : Fin 2) * 1000 ≤ (i 0).val ∧ (i 0).val < win6_6.index t (0 : Fin 2) * 1000 + 1000; omega
  | ⟨1, _⟩ => show win6_6.index t (1 : Fin 2) * 128 ≤ (i 1).val ∧ (i 1).val < win6_6.index t (1 : Fin 2) * 128 + 128; omega

/-! ## The array after the pipeline -/

/-- The output array after the pipeline is `G6_6` of the arrays as the region finds them. -/
theorem final6_6 (c : Dev nD) :
    (dat6 (F := Ideal) V c).arrAt 6 cfg6.N = G6_6 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) :=
  (dat6 (F := Ideal) V c).arrAt_eq_of_cover 6 _ (fun t _ => flushed6_6_eq V c t) (blocks_cover6_6)

end Value6

end Cert.KernelIdeal.Hand
-- ==== Proof.KI.Val7.lean ====
/-
  The value of region 7's output array at the ideal values.

  The region embeds 80000 lengths, 4000 rows per point over 20 points:  ee = relu(relu(len · W₁ + b₁) · W₂ + b₂) + es,
  narrowed to bf16 (nothing at the ideal values). Here the array the pipeline leaves is shown to be ONE function of
  the six arrays the region is entered with, index by index: entry (P, q) is the perceptron's entry (P, q) of the
  whole arrays (`Cert.Spec.disAt`). The payload of the body's store, read at an entry of a block, is the perceptron's
  entry of the loaded blocks; a block's rows of the lengths and of the edge states are the arrays' rows at the block's
  place, and the weights are loaded whole, so that entry is the whole arrays' entry there; and the 20 blocks tile the
  array.
-/
import proofs.«147763_j11003706212366_2_alg».proof.Proof.KI.Reg7
import proofs.«147763_j11003706212366_2_alg».proof.Proof.SpecDis
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.Spec

section Value7
-- the buffer contents the region is entered with, at the ideal values
variable (V : (c : Dev nD) → (b : Ref sig .tc) → Buf (Elt Ideal) ((c : Thread nD τ).loc b))

theorem hz7 : (![0, 0] : Fin 2 → Nat) = fun _ => 0 := funext fun a => by fin_cases a <;> rfl

/-! ## The closed form -/

/-- The embedded rows as ONE function of the region's six entry arrays, in window order (lengths, edge states, first
    weight row, first bias row, second weight matrix, second bias row): entry (P, q) is the perceptron's. -/
def G7_6 (a0 : S80000x1.Idx → Elt Ideal .bf16) (a1 : S80000x128.Idx → Elt Ideal .f32) (a2 : S1x128.Idx → Elt Ideal .bf16)
    (a3 : S1x128.Idx → Elt Ideal .f32) (a4 : S128x128.Idx → Elt Ideal .bf16) (a5 : S1x128.Idx → Elt Ideal .f32) :
    S80000x128.Idx → Elt Ideal .bf16 :=
  fun i => disAt (M := 80000) (K := 1) (H := 128) (N := 128) a0 a2 a3 a4 a5 a1 (i 0) (i 1)

/-- The payload of the body's store, at entry (p, q) of the block, is the perceptron's entry (p, q) of the loaded
    blocks: the reshapes to the same shape are the identity, the rest is the on-chip spelling. -/
theorem pay7_apply (x0 : Vec Ideal S4000x1 .bf16) (x2 : Vec Ideal S1x128 .bf16) (x3 : Vec Ideal S1x128 .f32)
    (x4 : Vec Ideal S128x128 .bf16) (x5 : Vec Ideal S1x128 .f32) (x1 : Vec Ideal S4000x128 .f32) (p : Fin 4000) (q : Fin 128) :
    k7_pay1 x0 x2 x3 x4 x5 x1 (ix2 p q) = disAt (M := 4000) (K := 1) (H := 128) (N := 128) x0 x2 x3 x4 x5 x1 p q :=
  (dis_chip_apply (φ₁ := .bf16) (φ₂ := .bf16) (φ₃ := .bf16) 4000 1 128 128 (by decide) (by decide) bitsLt_bf16_f32
      broadcasts_S1x128_S4000x128 broadcasts_S1x128_S4000x128
      (shapeCast S4000x1 x0 shapeCasts_S4000x1_S4000x1) (shapeCast S1x128 x2 shapeCasts_S1x128_S1x128)
      (shapeCast S1x128 x3 shapeCasts_S1x128_S1x128) (shapeCast S128x128 x4 shapeCasts_S128x128_S128x128)
      (shapeCast S1x128 x5 shapeCasts_S1x128_S1x128) (shapeCast S4000x128 x1 shapeCasts_S4000x128_S4000x128) p q).trans
    (by simp only [shapeCast_self])

/-! ## The printed index maps -/

/-- Decided over the 20 points: the two row windows and the output sit at block row `t`, block column 0; the four
    weight windows stay at block (0, 0). -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- Window 2's block is its whole array at every point: its block index stays (0, 0). -/
theorem wblk7_2 (c : Dev nD) (t : Fin cfg7.N) :
    (iblk7 V c 2 t : S1x128.Idx → Elt Ideal .bf16) = V c (Pipeline.arrRef spec7 2) := by
  obtain ⟨e00, e01, e10, e11, e20, e21, e30, e31, e40, e41, e50, e51, e60, e61⟩ := idx_facts7 t
  funext j
  show V c (Pipeline.arrRef spec7 2) (((cfg7.win 2).blk t).view.emb j) = V c (Pipeline.arrRef spec7 2) j
  refine congrArg (V c (Pipeline.arrRef spec7 2)) (funext fun a => Fin.ext ?_)
  match a with
  | ⟨0, _⟩ => show win7_2.index t (0 : Fin 2) * 1 + 1 * (j 0).val = (j 0).val; omega
  | ⟨1, _⟩ => show win7_2.index t (1 : Fin 2) * 128 + 1 * (j 1).val = (j 1).val; omega

/-- Window 3's block is its whole array at every point: its block index stays (0, 0). -/
theorem wblk7_3 (c : Dev nD) (t : Fin cfg7.N) :
    (iblk7 V c 3 t : S1x128.Idx → Elt Ideal .f32) = V c (Pipeline.arrRef spec7 3) := by
  obtain ⟨e00, e01, e10, e11, e20, e21, e30, e31, e40, e41, e50, e51, e60, e61⟩ := idx_facts7 t
  funext j
  show V c (Pipeline.arrRef spec7 3) (((cfg7.win 3).blk t).view.emb j) = V c (Pipeline.arrRef spec7 3) j
  refine congrArg (V c (Pipeline.arrRef spec7 3)) (funext fun a => Fin.ext ?_)
  match a with
  | ⟨0, _⟩ => show win7_3.index t (0 : Fin 2) * 1 + 1 * (j 0).val = (j 0).val; omega
  | ⟨1, _⟩ => show win7_3.index t (1 : Fin 2) * 128 + 1 * (j 1).val = (j 1).val; omega

/-- Window 4's block is its whole array at every point: its block index stays (0, 0). -/
theorem wblk7_4 (c : Dev nD) (t : Fin cfg7.N) :
    (iblk7 V c 4 t : S128x128.Idx → Elt Ideal .bf16) = V c (Pipeline.arrRef spec7 4) := by
  obtain ⟨e00, e01, e10, e11, e20, e21, e30, e31, e40, e41, e50, e51, e60, e61⟩ := idx_facts7 t
  funext j
  show V c (Pipeline.arrRef spec7 4) (((cfg7.win 4).blk t).view.emb j) = V c (Pipeline.arrRef spec7 4) j
  refine congrArg (V c (Pipeline.arrRef spec7 4)) (funext fun a => Fin.ext ?_)
  match a with
  | ⟨0, _⟩ => show win7_4.index t (0 : Fin 2) * 128 + 1 * (j 0).val = (j 0).val; omega
  | ⟨1, _⟩ => show win7_4.index t (1 : Fin 2) * 128 + 1 * (j 1).val = (j 1).val; omega

/-- Window 5's block is its whole array at every point: its block index stays (0, 0). -/
theorem wblk7_5 (c : Dev nD) (t : Fin cfg7.N) :
    (iblk7 V c 5 t : S1x128.Idx → Elt Ideal .f32) = V c (Pipeline.arrRef spec7 5) := by
  obtain ⟨e00, e01, e10, e11, e20, e21, e30, e31, e40, e41, e50, e51, e60, e61⟩ := idx_facts7 t
  funext j
  show V c (Pipeline.arrRef spec7 5) (((cfg7.win 5).blk t).view.emb j) = V c (Pipeline.arrRef spec7 5) j
  refine congrArg (V c (Pipeline.arrRef spec7 5)) (funext fun a => Fin.ext ?_)
  match a with
  | ⟨0, _⟩ => show win7_5.index t (0 : Fin 2) * 1 + 1 * (j 0).val = (j 0).val; omega
  | ⟨1, _⟩ => show win7_5.index t (1 : Fin 2) * 128 + 1 * (j 1).val = (j 1).val; omega

/-! ## One entry of one block -/

/-- Entry (p, q) of a block of the payload is entry (P, q) of `G7_6` when row p of the lengths' block is row P of
    the lengths, entry (p, q) of the edge states' block is entry (P, q) of the edge states, and the weight blocks are
    the weight arrays. -/
theorem point7_6 (A0 : S80000x1.Idx → Elt Ideal .bf16) (A1 : S80000x128.Idx → Elt Ideal .f32) (A2 : S1x128.Idx → Elt Ideal .bf16)
    (A3 : S1x128.Idx → Elt Ideal .f32) (A4 : S128x128.Idx → Elt Ideal .bf16) (A5 : S1x128.Idx → Elt Ideal .f32)
    (X0 : Vec Ideal S4000x1 .bf16) (X1 : Vec Ideal S4000x128 .f32) (X2 : Vec Ideal S1x128 .bf16) (X3 : Vec Ideal S1x128 .f32)
    (X4 : Vec Ideal S128x128 .bf16) (X5 : Vec Ideal S1x128 .f32) (p : Fin 4000) (q : Fin 128) (P : Fin 80000)
    (h0 : ∀ k : Fin 1, X0 (ix2 p k) = A0 (ix2 P k)) (h1 : X1 (ix2 p q) = A1 (ix2 P q))
    (h2 : X2 = A2) (h3 : X3 = A3) (h4 : X4 = A4) (h5 : X5 = A5) :
    k7_pay1 X0 X2 X3 X4 X5 X1 (ix2 p q) = G7_6 A0 A1 A2 A3 A4 A5 (ix2 P q) := by
  subst h2 h3 h4 h5
  exact (pay7_apply X0 X2 X3 X4 X5 X1 p q).trans (disAt_congr h0 h1)

/-- An index of a block is its two coordinates. -/
theorem split7_6 (j : S4000x128.Idx) : ∃ (p : Fin 4000) (q : Fin 128), j = ix2 p q := ⟨j 0, j 1, eq_ix2 j⟩

/-! ## A block's place in its array -/

/-- Entry (p, k) of point `t`'s block of window 0 (the lengths) sits at row t · 4000 + p of the array. -/
theorem emb7_0 (t : Fin cfg7.N) (p : Fin 4000) (k : Fin 1) (hP : t.val * 4000 + p.val < 80000) :
    ((cfg7.win 0).blk t).view.emb (ix2 p k) = (ix2 (⟨t.val * 4000 + p.val, hP⟩ : Fin 80000) k : S80000x1.Idx) := by
  obtain ⟨e00, e01, e10, e11, e20, e21, e30, e31, e40, e41, e50, e51, e60, e61⟩ := idx_facts7 t
  funext a; apply Fin.ext
  match a with
  | ⟨0, _⟩ => show win7_0.index t (0 : Fin 2) * 4000 + 1 * p.val = t.val * 4000 + p.val; omega
  | ⟨1, _⟩ => show win7_0.index t (1 : Fin 2) * 1 + 1 * k.val = k.val; omega

/-- Entry (p, q) of point `t`'s block of window 1 (the edge states) sits at row t · 4000 + p of the array. -/
theorem emb7_1 (t : Fin cfg7.N) (p : Fin 4000) (q : Fin 128) (hP : t.val * 4000 + p.val < 80000) :
    ((cfg7.win 1).blk t).view.emb (ix2 p q) = (ix2 (⟨t.val * 4000 + p.val, hP⟩ : Fin 80000) q : S80000x128.Idx) := by
  obtain ⟨e00, e01, e10, e11, e20, e21, e30, e31, e40, e41, e50, e51, e60, e61⟩ := idx_facts7 t
  funext a; apply Fin.ext
  match a with
  | ⟨0, _⟩ => show win7_1.index t (0 : Fin 2) * 4000 + 1 * p.val = t.val * 4000 + p.val; omega
  | ⟨1, _⟩ => show win7_1.index t (1 : Fin 2) * 128 + 1 * q.val = q.val; omega

/-- Entry (p, q) of point `t`'s block of window 6 (the output) sits at row t · 4000 + p of the array. -/
theorem emb7_6 (t : Fin cfg7.N) (p : Fin 4000) (q : Fin 128) (hP : t.val * 4000 + p.val < 80000) :
    ((cfg7.win 6).blk t).view.emb (ix2 p q) = (ix2 (⟨t.val * 4000 + p.val, hP⟩ : Fin 80000) q : S80000x128.Idx) := by
  obtain ⟨e00, e01, e10, e11, e20, e21, e30, e31, e40, e41, e50, e51, e60, e61⟩ := idx_facts7 t
  funext a; apply Fin.ext
  match a with
  | ⟨0, _⟩ => show win7_6.index t (0 : Fin 2) * 4000 + 1 * p.val = t.val * 4000 + p.val; omega
  | ⟨1, _⟩ => show win7_6.index t (1 : Fin 2) * 128 + 1 * q.val = q.val; omega

/-- so the block's entry is the array's entry there. -/
theorem rows7_0 (c : Dev nD) (t : Fin cfg7.N) (p : Fin 4000) (k : Fin 1) (hP : t.val * 4000 + p.val < 80000) :
    iblk7 V c 0 t (ix2 p k) = V c (Pipeline.arrRef spec7 0) (ix2 (⟨t.val * 4000 + p.val, hP⟩ : Fin 80000) k : S80000x1.Idx) := by
  show V c (Pipeline.arrRef spec7 0) (((cfg7.win 0).blk t).view.emb (ix2 p k)) = _
  rw [emb7_0 t p k hP]

/-- so the block's entry is the array's entry there. -/
theorem rows7_1 (c : Dev nD) (t : Fin cfg7.N) (p : Fin 4000) (q : Fin 128) (hP : t.val * 4000 + p.val < 80000) :
    iblk7 V c 1 t (ix2 p q) = V c (Pipeline.arrRef spec7 1) (ix2 (⟨t.val * 4000 + p.val, hP⟩ : Fin 80000) q : S80000x128.Idx) := by
  show V c (Pipeline.arrRef spec7 1) (((cfg7.win 1).blk t).view.emb (ix2 p q)) = _
  rw [emb7_1 t p q hP]

/-! ## What a point writes back -/

/-- WHAT POINT `t` WRITES BACK is block `t` of `G7_6` of the arrays the region is entered with. -/
theorem flushed7_6_eq (c : Dev nD) (t : Fin cfg7.N) :
    (dat7 (F := Ideal) V c).flushed 6 t = ((cfg7.win 6).blk t).view.read (Elt Ideal)
      (G7_6 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5))) := by
  show (cfg7.win 6).cut (grid7.coords t) ((dat7 V c).after 6 t) = _
  rw [after7_6]
  unfold out7_6
  rw [View.canon_unit_zero hz7]
  simp only [View.ld_unit_zero (S := S4000x1) hz7, View.ld_unit_zero (S := S1x128) hz7,
    View.ld_unit_zero (S := S128x128) hz7, View.ld_unit_zero (S := S4000x128) hz7]
  have ht : t.val < 20 := lt_of_lt_of_eq t.isLt N_7
  funext j
  obtain ⟨p, q, rfl⟩ := split7_6 j
  have hp : p.val < 4000 := p.isLt
  have hP : t.val * 4000 + p.val < 80000 := by omega
  show k7_pay1 (iblk7 V c 0 t) (iblk7 V c 2 t) (iblk7 V c 3 t) (iblk7 V c 4 t) (iblk7 V c 5 t) (iblk7 V c 1 t) (ix2 p q)
    = G7_6 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (((cfg7.win 6).blk t).view.emb (ix2 p q))
  rw [emb7_6 t p q hP]
  exact point7_6 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5))
    (iblk7 V c 0 t) (iblk7 V c 1 t) (iblk7 V c 2 t) (iblk7 V c 3 t) (iblk7 V c 4 t) (iblk7 V c 5 t) p q ⟨t.val * 4000 + p.val, hP⟩
    (fun k => rows7_0 V c t p k hP) (rows7_1 V c t p q hP)
    (wblk7_2 V c t) (wblk7_3 V c t) (wblk7_4 V c t) (wblk7_5 V c t)

/-! ## The blocks tile the array -/

/-- An index of the array is in point `t`'s block iff each coordinate is in the block's range on its axis. -/
theorem mem_blk7_6 (t : Fin cfg7.N) (i : S80000x128.Idx) :
    i ∈ ((cfg7.win 6).blk t).view.set ↔ ∀ a : Fin 2, win7_6.index t a * S4000x128.size a ≤ (i a).val ∧ (i a).val < win7_6.index t a * S4000x128.size a + S4000x128.size a := by
  show i ∈ ((View.whole main_v196).slice (win7_6.rect t)).set ↔ _
  rw [View.set_slice_whole, Rect.mem_set_unit]
  exact Iff.rfl

/-- Every index of the array is in some point's block: row P lies in block P / 4000. -/
theorem cover_blk7_6 (i : S80000x128.Idx) :
    ∃ t : Fin cfg7.N, (cfg7.win 6).flush t = true ∧ i ∈ ((cfg7.win 6).blk t).view.set := by
  have hi0 : (i 0).val < 80000 := (i 0).isLt
  have hi1 : (i 1).val < 128 := (i 1).isLt
  have hlt : (i 0).val / 4000 < cfg7.N := lt_of_lt_of_eq (by omega : (i 0).val / 4000 < 20) N_7.symm
  refine ⟨⟨(i 0).val / 4000, hlt⟩, flush7_6 _, ?_⟩
  obtain ⟨e00, e01, e10, e11, e20, e21, e30, e31, e40, e41, e50, e51, e60, e61⟩ := idx_facts7 ⟨(i 0).val / 4000, hlt⟩
  have e60' : win7_6.index ⟨(i 0).val / 4000, hlt⟩ (0 : Fin 2) = (i 0).val / 4000 := e60
  rw [mem_blk7_6]
  intro a
  match a with
  | ⟨0, _⟩ => show win7_6.index ⟨(i 0).val / 4000, hlt⟩ (0 : Fin 2) * 4000 ≤ (i 0).val ∧ (i 0).val < win7_6.index ⟨(i 0).val / 4000, hlt⟩ (0 : Fin 2) * 4000 + 4000; omega
  | ⟨1, _⟩ => show win7_6.index ⟨(i 0).val / 4000, hlt⟩ (1 : Fin 2) * 128 ≤ (i 1).val ∧ (i 1).val < win7_6.index ⟨(i 0).val / 4000, hlt⟩ (1 : Fin 2) * 128 + 128; omega

/-! ## The array after the run -/

/-- THE ARRAY the pipeline leaves: `G7_6` of the arrays the region is entered with. -/
theorem final7_6 (c : Dev nD) : (dat7 (F := Ideal) V c).arrAt 6 cfg7.N
    = G7_6 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) :=
  (dat7 V c).arrAt_eq_of_cover 6 _ (fun t _ => flushed7_6_eq V c t) cover_blk7_6

end Value7

end Cert.KernelIdeal.Hand
-- ==== Proof.KI.Val8.lean ====
/-
  The edge-update region 8 at the ideal values: what its two output arrays hold after the region, as functions of the
  arrays the region reads.

  Every grid point t computes 2000 rows. Row p of the first output block is
      max (max (max (a·Wa + b·Wb + c·Wc + d·Wd + b1) 0 · W2 + b2) 0 · W3 + b3) 0
  at row p of the blocks of a, b, c, d, and the second output block adds the block of the old edge array: the functions
  `Spec.edgeE1` and `Spec.edgeEs` at height 2000. Block t of a row-tiled array is its rows 2000 t … 2000 t + 1999, and
  the block of a weight or bias array is the whole array, so what point t writes back is block t of the same functions of
  the whole arrays (their entries read one row of the inputs). The 40 blocks cover the 80000 rows: row r lies in block
  r / 2000. So each output array ends holding the function of the whole arrays.
-/
import proofs.«147763_j11003706212366_2_alg».proof.Proof.KI.Reg8
import proofs.«147763_j11003706212366_2_alg».proof.Proof.SpecEdge
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.LibDense Cert.LibReluDense Cert.DenseRows Cert.Spec

/-! ## The payloads, as functions of the blocks -/

theorem dot8_a : dot_S2000x128_S128x512_S2000x512_1_0_0_1_n_n = DotDims.plain 2000 128 512 := rfl
theorem dot8_b : dot_S2000x512_S512x512_S2000x512_1_0_0_1_n_n = DotDims.plain 2000 512 512 := rfl
theorem dot8_c : dot_S2000x512_S512x128_S2000x128_1_0_0_1_n_n = DotDims.plain 2000 512 128 := rfl

/-- The part's payload: the first hidden array of the blocks, against the second weight matrix. -/
theorem pay8_3_eq (v0 : Vec Ideal S2000x128 .bf16) (v2 : Vec Ideal S128x512 .bf16) (v5 : Vec Ideal S2000x128 .bf16) (v7 : Vec Ideal S128x512 .bf16)
    (v11 : Vec Ideal S2000x128 .bf16) (v13 : Vec Ideal S128x512 .bf16) (v17 : Vec Ideal S2000x128 .bf16) (v19 : Vec Ideal S128x512 .bf16)
    (v23 : Vec Ideal S1x512 .f32) (v30 : Vec Ideal S512x512 .bf16) :
    k8_pay3 v0 v2 v5 v7 v11 v13 v17 v19 v23 v30 = mul (edgeHid4 v0 v5 v11 v17 v2 v7 v13 v19 v23) v30 := by
  unfold k8_pay3
  refine (edge_chip_mul (φ₁ := .bf16) (φ₂ := .bf16) 2000 512 512 _ dot8_b shapeCasts_S512x512_S512x512 _ v30).trans ?_
  refine congrArg (mul · v30) ?_
  refine (edge_chip_truncPosAddRow (ψ := .bf16) (by decide) bitsLt_bf16_f32 shapeCasts_S1x512_S1x512 broadcasts_S1x512_S2000x512 _ v23).trans ?_
  unfold edgeHid4
  refine congrArg (fun z => pos (addRow z v23)) ?_
  exact congrArg₂ addf (congrArg₂ addf (congrArg₂ addf
      (edge_chip_mul' (φ₁ := .bf16) (φ₂ := .bf16) 2000 128 512 _ dot8_a shapeCasts_S2000x128_S2000x128 shapeCasts_S128x512_S128x512 v0 v2)
      (edge_chip_mul' (φ₁ := .bf16) (φ₂ := .bf16) 2000 128 512 _ dot8_a shapeCasts_S2000x128_S2000x128 shapeCasts_S128x512_S128x512 v5 v7))
      (edge_chip_mul' (φ₁ := .bf16) (φ₂ := .bf16) 2000 128 512 _ dot8_a shapeCasts_S2000x128_S2000x128 shapeCasts_S128x512_S128x512 v11 v13))
      (edge_chip_mul' (φ₁ := .bf16) (φ₂ := .bf16) 2000 128 512 _ dot8_a shapeCasts_S2000x128_S2000x128 shapeCasts_S128x512_S128x512 v17 v19)

/-- The first store's payload: the last two layers. -/
theorem pay8_1_eq (v32 : FVec Ideal S2000x512 .f32) (v33 : Vec Ideal S1x512 .f32) (v40 : Vec Ideal S512x128 .bf16) (v43 : Vec Ideal S1x128 .f32) :
    k8_pay1 v32 v33 v40 v43 = reluDense (pos (addRow v32 v33)) v40 v43 := by
  unfold k8_pay1
  refine (chip_reluDense (φ₁ := .bf16) (φ₂ := .bf16) 2000 512 128 (by decide) _ dot8_c shapeCasts_S512x128_S512x128 shapeCasts_S1x128_S1x128
    broadcasts_S1x128_S2000x128 _ v40 v43).trans ?_
  exact congrArg (reluDense · v40 v43)
    (edge_chip_truncPosAddRow (ψ := .bf16) (by decide) bitsLt_bf16_f32 shapeCasts_S1x512_S1x512 broadcasts_S1x512_S2000x512 v32 v33)

/-- The first store's payload over the loaded blocks: the new edge block. -/
theorem pay8_14_eq (v0 : Vec Ideal S2000x128 .bf16) (v2 : Vec Ideal S128x512 .bf16) (v5 : Vec Ideal S2000x128 .bf16) (v7 : Vec Ideal S128x512 .bf16)
    (v11 : Vec Ideal S2000x128 .bf16) (v13 : Vec Ideal S128x512 .bf16) (v17 : Vec Ideal S2000x128 .bf16) (v19 : Vec Ideal S128x512 .bf16)
    (v23 : Vec Ideal S1x512 .f32) (v30 : Vec Ideal S512x512 .bf16) (v33 : Vec Ideal S1x512 .f32) (v40 : Vec Ideal S512x128 .bf16) (v43 : Vec Ideal S1x128 .f32) :
    k8_pay1 (k8_pay3 v0 v2 v5 v7 v11 v13 v17 v19 v23 v30) v33 v40 v43 = edgeE1 v0 v5 v11 v17 v2 v7 v13 v19 v23 v30 v33 v40 v43 := by
  rw [pay8_1_eq, pay8_3_eq, edge_posAddRow_mul]
  rfl

/-- The second store's payload over the loaded blocks: the new edge block plus the old one. -/
theorem pay8_15_eq (v0 : Vec Ideal S2000x128 .bf16) (v2 : Vec Ideal S128x512 .bf16) (v5 : Vec Ideal S2000x128 .bf16) (v7 : Vec Ideal S128x512 .bf16)
    (v11 : Vec Ideal S2000x128 .bf16) (v13 : Vec Ideal S128x512 .bf16) (v17 : Vec Ideal S2000x128 .bf16) (v19 : Vec Ideal S128x512 .bf16)
    (v23 : Vec Ideal S1x512 .f32) (v30 : Vec Ideal S512x512 .bf16) (v33 : Vec Ideal S1x512 .f32) (v40 : Vec Ideal S512x128 .bf16) (v43 : Vec Ideal S1x128 .f32)
    (v50 : Vec Ideal S2000x128 .f32) :
    k8_pay2 (k8_pay3 v0 v2 v5 v7 v11 v13 v17 v19 v23 v30) v33 v40 v43 v50 = edgeEs v0 v5 v11 v17 v50 v2 v7 v13 v19 v23 v30 v33 v40 v43 := by
  unfold k8_pay2 edgeEs
  rw [pay8_14_eq, shapeCast_self v50 shapeCasts_S2000x128_S2000x128]
  rfl

/-! ## The index maps, decided over the grid -/

/-- The row-tiled windows have block index (t, 0) at point t; the weight and bias windows (0, 0). -/
theorem idx8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0
    ∧ win8_14.index t (0 : Fin 2) = t.val ∧ win8_14.index t (1 : Fin 2) = 0
    ∧ win8_15.index t (0 : Fin 2) = t.val ∧ win8_15.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = 0 ∧ win8_7.index t (1 : Fin 2) = 0
    ∧ win8_8.index t (0 : Fin 2) = 0 ∧ win8_8.index t (1 : Fin 2) = 0
    ∧ win8_9.index t (0 : Fin 2) = 0 ∧ win8_9.index t (1 : Fin 2) = 0
    ∧ win8_10.index t (0 : Fin 2) = 0 ∧ win8_10.index t (1 : Fin 2) = 0
    ∧ win8_11.index t (0 : Fin 2) = 0 ∧ win8_11.index t (1 : Fin 2) = 0
    ∧ win8_12.index t (0 : Fin 2) = 0 ∧ win8_12.index t (1 : Fin 2) = 0
    ∧ win8_13.index t (0 : Fin 2) = 0 ∧ win8_13.index t (1 : Fin 2) = 0 :=
  (by decide +kernel : ∀ t : Fin grid8.N, _)

theorem lt8 (t : Fin cfg8.N) : t.val < 40 := Nat.lt_of_lt_of_eq t.isLt N_8

/-- Row p of block t of a row-tiled array is row 2000 t + p of the array. -/
def row8 (t : Fin cfg8.N) (p : Fin 2000) : Fin 80000 := ⟨t.val * 2000 + p.val, by have := lt8 t; have := p.isLt; omega⟩

theorem hz8 : (![0, 0] : Fin 2 → Nat) = fun _ => 0 := funext fun a => by fin_cases a <;> rfl

section Blocks
variable {F : FTy → Type} [FloatOps F]
variable (V : (c : Dev nD) → (b : Ref sig .tc) → Buf (Elt F) ((c : Thread nD τ).loc b))

/-- Entry (p, k) of window 0's block at point t is entry (2000 t + p, k) of its array. -/
theorem iblk8_0_at (c : Dev nD) (t : Fin cfg8.N) (p : Fin 2000) (k : Fin 128) :
    (iblk8 V c 0 t : S2000x128.Idx → Elt F .bf16) (ix2 p k) = V c (Pipeline.arrRef spec8 0) (ix2 (row8 t p) k) := by
  show V c (Pipeline.arrRef spec8 0) (((cfg8.win 0).blk t).view.emb (ix2 p k)) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx8 t
  match a with
  | ⟨0, _⟩ => show win8_0.index t (0 : Fin 2) * 2000 + 1 * p.val = t.val * 2000 + p.val; omega
  | ⟨1, _⟩ => show win8_0.index t (1 : Fin 2) * 128 + 1 * k.val = k.val; omega

/-- Entry (p, k) of window 1's block at point t is entry (2000 t + p, k) of its array. -/
theorem iblk8_1_at (c : Dev nD) (t : Fin cfg8.N) (p : Fin 2000) (k : Fin 128) :
    (iblk8 V c 1 t : S2000x128.Idx → Elt F .bf16) (ix2 p k) = V c (Pipeline.arrRef spec8 1) (ix2 (row8 t p) k) := by
  show V c (Pipeline.arrRef spec8 1) (((cfg8.win 1).blk t).view.emb (ix2 p k)) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx8 t
  match a with
  | ⟨0, _⟩ => show win8_1.index t (0 : Fin 2) * 2000 + 1 * p.val = t.val * 2000 + p.val; omega
  | ⟨1, _⟩ => show win8_1.index t (1 : Fin 2) * 128 + 1 * k.val = k.val; omega

/-- Entry (p, k) of window 2's block at point t is entry (2000 t + p, k) of its array. -/
theorem iblk8_2_at (c : Dev nD) (t : Fin cfg8.N) (p : Fin 2000) (k : Fin 128) :
    (iblk8 V c 2 t : S2000x128.Idx → Elt F .bf16) (ix2 p k) = V c (Pipeline.arrRef spec8 2) (ix2 (row8 t p) k) := by
  show V c (Pipeline.arrRef spec8 2) (((cfg8.win 2).blk t).view.emb (ix2 p k)) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx8 t
  match a with
  | ⟨0, _⟩ => show win8_2.index t (0 : Fin 2) * 2000 + 1 * p.val = t.val * 2000 + p.val; omega
  | ⟨1, _⟩ => show win8_2.index t (1 : Fin 2) * 128 + 1 * k.val = k.val; omega

/-- Entry (p, k) of window 3's block at point t is entry (2000 t + p, k) of its array. -/
theorem iblk8_3_at (c : Dev nD) (t : Fin cfg8.N) (p : Fin 2000) (k : Fin 128) :
    (iblk8 V c 3 t : S2000x128.Idx → Elt F .bf16) (ix2 p k) = V c (Pipeline.arrRef spec8 3) (ix2 (row8 t p) k) := by
  show V c (Pipeline.arrRef spec8 3) (((cfg8.win 3).blk t).view.emb (ix2 p k)) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx8 t
  match a with
  | ⟨0, _⟩ => show win8_3.index t (0 : Fin 2) * 2000 + 1 * p.val = t.val * 2000 + p.val; omega
  | ⟨1, _⟩ => show win8_3.index t (1 : Fin 2) * 128 + 1 * k.val = k.val; omega

/-- Entry (p, k) of window 4's block at point t is entry (2000 t + p, k) of its array. -/
theorem iblk8_4_at (c : Dev nD) (t : Fin cfg8.N) (p : Fin 2000) (k : Fin 128) :
    (iblk8 V c 4 t : S2000x128.Idx → Elt F .f32) (ix2 p k) = V c (Pipeline.arrRef spec8 4) (ix2 (row8 t p) k) := by
  show V c (Pipeline.arrRef spec8 4) (((cfg8.win 4).blk t).view.emb (ix2 p k)) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx8 t
  match a with
  | ⟨0, _⟩ => show win8_4.index t (0 : Fin 2) * 2000 + 1 * p.val = t.val * 2000 + p.val; omega
  | ⟨1, _⟩ => show win8_4.index t (1 : Fin 2) * 128 + 1 * k.val = k.val; omega

/-- Window 5's block at every point is its whole array. -/
theorem iblk8_5_eq (c : Dev nD) (t : Fin cfg8.N) :
    (iblk8 V c 5 t : S128x512.Idx → Elt F .bf16) = V c (Pipeline.arrRef spec8 5) := by
  funext y
  show V c (Pipeline.arrRef spec8 5) (((cfg8.win 5).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx8 t
  match a with
  | ⟨0, _⟩ => show win8_5.index t (0 : Fin 2) * 128 + 1 * (y 0).val = (y 0).val; omega
  | ⟨1, _⟩ => show win8_5.index t (1 : Fin 2) * 512 + 1 * (y 1).val = (y 1).val; omega

/-- Window 6's block at every point is its whole array. -/
theorem iblk8_6_eq (c : Dev nD) (t : Fin cfg8.N) :
    (iblk8 V c 6 t : S128x512.Idx → Elt F .bf16) = V c (Pipeline.arrRef spec8 6) := by
  funext y
  show V c (Pipeline.arrRef spec8 6) (((cfg8.win 6).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx8 t
  match a with
  | ⟨0, _⟩ => show win8_6.index t (0 : Fin 2) * 128 + 1 * (y 0).val = (y 0).val; omega
  | ⟨1, _⟩ => show win8_6.index t (1 : Fin 2) * 512 + 1 * (y 1).val = (y 1).val; omega

/-- Window 7's block at every point is its whole array. -/
theorem iblk8_7_eq (c : Dev nD) (t : Fin cfg8.N) :
    (iblk8 V c 7 t : S128x512.Idx → Elt F .bf16) = V c (Pipeline.arrRef spec8 7) := by
  funext y
  show V c (Pipeline.arrRef spec8 7) (((cfg8.win 7).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx8 t
  match a with
  | ⟨0, _⟩ => show win8_7.index t (0 : Fin 2) * 128 + 1 * (y 0).val = (y 0).val; omega
  | ⟨1, _⟩ => show win8_7.index t (1 : Fin 2) * 512 + 1 * (y 1).val = (y 1).val; omega

/-- Window 8's block at every point is its whole array. -/
theorem iblk8_8_eq (c : Dev nD) (t : Fin cfg8.N) :
    (iblk8 V c 8 t : S128x512.Idx → Elt F .bf16) = V c (Pipeline.arrRef spec8 8) := by
  funext y
  show V c (Pipeline.arrRef spec8 8) (((cfg8.win 8).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx8 t
  match a with
  | ⟨0, _⟩ => show win8_8.index t (0 : Fin 2) * 128 + 1 * (y 0).val = (y 0).val; omega
  | ⟨1, _⟩ => show win8_8.index t (1 : Fin 2) * 512 + 1 * (y 1).val = (y 1).val; omega

/-- Window 9's block at every point is its whole array. -/
theorem iblk8_9_eq (c : Dev nD) (t : Fin cfg8.N) :
    (iblk8 V c 9 t : S1x512.Idx → Elt F .f32) = V c (Pipeline.arrRef spec8 9) := by
  funext y
  show V c (Pipeline.arrRef spec8 9) (((cfg8.win 9).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx8 t
  match a with
  | ⟨0, _⟩ => show win8_9.index t (0 : Fin 2) * 1 + 1 * (y 0).val = (y 0).val; omega
  | ⟨1, _⟩ => show win8_9.index t (1 : Fin 2) * 512 + 1 * (y 1).val = (y 1).val; omega

/-- Window 10's block at every point is its whole array. -/
theorem iblk8_10_eq (c : Dev nD) (t : Fin cfg8.N) :
    (iblk8 V c 10 t : S512x512.Idx → Elt F .bf16) = V c (Pipeline.arrRef spec8 10) := by
  funext y
  show V c (Pipeline.arrRef spec8 10) (((cfg8.win 10).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx8 t
  match a with
  | ⟨0, _⟩ => show win8_10.index t (0 : Fin 2) * 512 + 1 * (y 0).val = (y 0).val; omega
  | ⟨1, _⟩ => show win8_10.index t (1 : Fin 2) * 512 + 1 * (y 1).val = (y 1).val; omega

/-- Window 11's block at every point is its whole array. -/
theorem iblk8_11_eq (c : Dev nD) (t : Fin cfg8.N) :
    (iblk8 V c 11 t : S1x512.Idx → Elt F .f32) = V c (Pipeline.arrRef spec8 11) := by
  funext y
  show V c (Pipeline.arrRef spec8 11) (((cfg8.win 11).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx8 t
  match a with
  | ⟨0, _⟩ => show win8_11.index t (0 : Fin 2) * 1 + 1 * (y 0).val = (y 0).val; omega
  | ⟨1, _⟩ => show win8_11.index t (1 : Fin 2) * 512 + 1 * (y 1).val = (y 1).val; omega

/-- Window 12's block at every point is its whole array. -/
theorem iblk8_12_eq (c : Dev nD) (t : Fin cfg8.N) :
    (iblk8 V c 12 t : S512x128.Idx → Elt F .bf16) = V c (Pipeline.arrRef spec8 12) := by
  funext y
  show V c (Pipeline.arrRef spec8 12) (((cfg8.win 12).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx8 t
  match a with
  | ⟨0, _⟩ => show win8_12.index t (0 : Fin 2) * 512 + 1 * (y 0).val = (y 0).val; omega
  | ⟨1, _⟩ => show win8_12.index t (1 : Fin 2) * 128 + 1 * (y 1).val = (y 1).val; omega

/-- Window 13's block at every point is its whole array. -/
theorem iblk8_13_eq (c : Dev nD) (t : Fin cfg8.N) :
    (iblk8 V c 13 t : S1x128.Idx → Elt F .f32) = V c (Pipeline.arrRef spec8 13) := by
  funext y
  show V c (Pipeline.arrRef spec8 13) (((cfg8.win 13).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx8 t
  match a with
  | ⟨0, _⟩ => show win8_13.index t (0 : Fin 2) * 1 + 1 * (y 0).val = (y 0).val; omega
  | ⟨1, _⟩ => show win8_13.index t (1 : Fin 2) * 128 + 1 * (y 1).val = (y 1).val; omega

end Blocks

/-- Index j of output window 14's block at point t is index (2000 t + j 0, j 1) of its array. -/
theorem emb8_14 (t : Fin cfg8.N) (j : S2000x128.Idx) : ((cfg8.win 14).blk t).view.emb j = ix2 (row8 t (j 0)) (j 1) := by
  funext a; apply Fin.ext
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx8 t
  match a with
  | ⟨0, _⟩ => show win8_14.index t (0 : Fin 2) * 2000 + 1 * (j 0).val = t.val * 2000 + (j 0).val; omega
  | ⟨1, _⟩ => show win8_14.index t (1 : Fin 2) * 128 + 1 * (j 1).val = (j 1).val; omega

/-- An index of the array is in point t's block iff each coordinate is in the block's range on its axis. -/
theorem mem_blk8_14 (t : Fin cfg8.N) (i : S80000x128.Idx) :
    i ∈ ((cfg8.win 14).blk t).view.set ↔ ∀ a : Fin 2, win8_14.index t a * S2000x128.size a ≤ (i a).val ∧ (i a).val < win8_14.index t a * S2000x128.size a + S2000x128.size a := by
  show i ∈ ((View.whole main_v245_0).slice (win8_14.rect t)).set ↔ _
  rw [View.set_slice_whole, Rect.mem_set_unit]
  exact Iff.rfl

/-- Row r lies in block r / 2000: the 40 blocks cover the array. -/
theorem covered8_14 (i : S80000x128.Idx) : ∃ t : Fin cfg8.N, (cfg8.win 14).flush t = true ∧ i ∈ ((cfg8.win 14).blk t).view.set := by
  have hi0 : (i 0).val < 80000 := (i 0).isLt
  have hi1 : (i 1).val < 128 := (i 1).isLt
  have hlt : (i 0).val / 2000 < cfg8.N := Nat.lt_of_lt_of_eq (show (i 0).val / 2000 < 40 by omega) N_8.symm
  refine ⟨⟨(i 0).val / 2000, hlt⟩, flush8_14 _, ?_⟩
  rw [mem_blk8_14]
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx8 ⟨(i 0).val / 2000, hlt⟩
  intro a
  match a with
  | ⟨0, _⟩ =>
    show win8_14.index ⟨(i 0).val / 2000, hlt⟩ (0 : Fin 2) * 2000 ≤ (i 0).val ∧ (i 0).val < win8_14.index ⟨(i 0).val / 2000, hlt⟩ (0 : Fin 2) * 2000 + 2000
    rw [h14a]; show (i 0).val / 2000 * 2000 ≤ (i 0).val ∧ (i 0).val < (i 0).val / 2000 * 2000 + 2000; omega
  | ⟨1, _⟩ =>
    show win8_14.index ⟨(i 0).val / 2000, hlt⟩ (1 : Fin 2) * 128 ≤ (i 1).val ∧ (i 1).val < win8_14.index ⟨(i 0).val / 2000, hlt⟩ (1 : Fin 2) * 128 + 128
    rw [h14b]; omega

/-- Index j of output window 15's block at point t is index (2000 t + j 0, j 1) of its array. -/
theorem emb8_15 (t : Fin cfg8.N) (j : S2000x128.Idx) : ((cfg8.win 15).blk t).view.emb j = ix2 (row8 t (j 0)) (j 1) := by
  funext a; apply Fin.ext
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx8 t
  match a with
  | ⟨0, _⟩ => show win8_15.index t (0 : Fin 2) * 2000 + 1 * (j 0).val = t.val * 2000 + (j 0).val; omega
  | ⟨1, _⟩ => show win8_15.index t (1 : Fin 2) * 128 + 1 * (j 1).val = (j 1).val; omega

/-- An index of the array is in point t's block iff each coordinate is in the block's range on its axis. -/
theorem mem_blk8_15 (t : Fin cfg8.N) (i : S80000x128.Idx) :
    i ∈ ((cfg8.win 15).blk t).view.set ↔ ∀ a : Fin 2, win8_15.index t a * S2000x128.size a ≤ (i a).val ∧ (i a).val < win8_15.index t a * S2000x128.size a + S2000x128.size a := by
  show i ∈ ((View.whole main_v245_1).slice (win8_15.rect t)).set ↔ _
  rw [View.set_slice_whole, Rect.mem_set_unit]
  exact Iff.rfl

/-- Row r lies in block r / 2000: the 40 blocks cover the array. -/
theorem covered8_15 (i : S80000x128.Idx) : ∃ t : Fin cfg8.N, (cfg8.win 15).flush t = true ∧ i ∈ ((cfg8.win 15).blk t).view.set := by
  have hi0 : (i 0).val < 80000 := (i 0).isLt
  have hi1 : (i 1).val < 128 := (i 1).isLt
  have hlt : (i 0).val / 2000 < cfg8.N := Nat.lt_of_lt_of_eq (show (i 0).val / 2000 < 40 by omega) N_8.symm
  refine ⟨⟨(i 0).val / 2000, hlt⟩, flush8_15 _, ?_⟩
  rw [mem_blk8_15]
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx8 ⟨(i 0).val / 2000, hlt⟩
  intro a
  match a with
  | ⟨0, _⟩ =>
    show win8_15.index ⟨(i 0).val / 2000, hlt⟩ (0 : Fin 2) * 2000 ≤ (i 0).val ∧ (i 0).val < win8_15.index ⟨(i 0).val / 2000, hlt⟩ (0 : Fin 2) * 2000 + 2000
    rw [h15a]; show (i 0).val / 2000 * 2000 ≤ (i 0).val ∧ (i 0).val < (i 0).val / 2000 * 2000 + 2000; omega
  | ⟨1, _⟩ =>
    show win8_15.index ⟨(i 0).val / 2000, hlt⟩ (1 : Fin 2) * 128 ≤ (i 1).val ∧ (i 1).val < win8_15.index ⟨(i 0).val / 2000, hlt⟩ (1 : Fin 2) * 128 + 128
    rw [h15b]; omega

/-- What window 14's write-back reads of the buffer's contents X at index j is X at (j 0, j 1). -/
theorem cut8_14_apply (t : Fin cfg8.N) (X : S2000x128.Idx → EReal) (j : ((cfg8.win 14).xblock (grid8.coords t)).Idx) :
    (cfg8.win 14).cut (grid8.coords t) X j = X (ix2 (j 0) (j 1)) :=
  congrArg X (funext fun a => match a with | ⟨0, _⟩ => rfl | ⟨1, _⟩ => rfl)

/-- What window 15's write-back reads of the buffer's contents X at index j is X at (j 0, j 1). -/
theorem cut8_15_apply (t : Fin cfg8.N) (X : S2000x128.Idx → EReal) (j : ((cfg8.win 15).xblock (grid8.coords t)).Idx) :
    (cfg8.win 15).cut (grid8.coords t) X j = X (ix2 (j 0) (j 1)) :=
  congrArg X (funext fun a => match a with | ⟨0, _⟩ => rfl | ⟨1, _⟩ => rfl)

/-! ## Closed form: each output array as one function of the arrays the region reads -/

/-- The new edge array: window 14's array after the region, from the arrays of windows 0–3 and 5–13. -/
def G8_14 (a b c d : S80000x128.Idx → Elt Ideal .bf16) (wa wb wc wd : S128x512.Idx → Elt Ideal .bf16) (b1 : S1x512.Idx → Elt Ideal .f32)
    (w2 : S512x512.Idx → Elt Ideal .bf16) (b2 : S1x512.Idx → Elt Ideal .f32) (w3 : S512x128.Idx → Elt Ideal .bf16) (b3 : S1x128.Idx → Elt Ideal .f32) : S80000x128.Idx → Elt Ideal .f32 :=
  edgeE1 a b c d wa wb wc wd b1 w2 b2 w3 b3

/-- The residual output: window 15's array after the region, from the arrays of windows 0–13. -/
def G8_15 (a b c d : S80000x128.Idx → Elt Ideal .bf16) (es : S80000x128.Idx → Elt Ideal .f32) (wa wb wc wd : S128x512.Idx → Elt Ideal .bf16) (b1 : S1x512.Idx → Elt Ideal .f32)
    (w2 : S512x512.Idx → Elt Ideal .bf16) (b2 : S1x512.Idx → Elt Ideal .f32) (w3 : S512x128.Idx → Elt Ideal .bf16) (b3 : S1x128.Idx → Elt Ideal .f32) : S80000x128.Idx → Elt Ideal .f32 :=
  edgeEs a b c d es wa wb wc wd b1 w2 b2 w3 b3

section Final
variable (V : (c : Dev nD) → (b : Ref sig .tc) → Buf (Elt Ideal) ((c : Thread nD τ).loc b))

set_option maxHeartbeats 1000000 in
/-- The new edge block of the loaded blocks: the weight and bias blocks are their arrays. -/
theorem blocks8_14 (c : Dev nD) (t : Fin cfg8.N) :
    edgeE1 (M := 2000) (L := 128) (H := 512) (H' := 512) (O := 128) (iblk8 V c 0 t) (iblk8 V c 1 t) (iblk8 V c 2 t) (iblk8 V c 3 t) (iblk8 V c 5 t) (iblk8 V c 6 t) (iblk8 V c 7 t) (iblk8 V c 8 t) (iblk8 V c 9 t) (iblk8 V c 10 t) (iblk8 V c 11 t) (iblk8 V c 12 t) (iblk8 V c 13 t)
      = edgeE1 (M := 2000) (L := 128) (H := 512) (H' := 512) (O := 128) (iblk8 V c 0 t) (iblk8 V c 1 t) (iblk8 V c 2 t) (iblk8 V c 3 t) (V c (Pipeline.arrRef spec8 5)) (V c (Pipeline.arrRef spec8 6)) (V c (Pipeline.arrRef spec8 7)) (V c (Pipeline.arrRef spec8 8)) (V c (Pipeline.arrRef spec8 9)) (V c (Pipeline.arrRef spec8 10)) (V c (Pipeline.arrRef spec8 11)) (V c (Pipeline.arrRef spec8 12)) (V c (Pipeline.arrRef spec8 13)) := by
  rw [iblk8_5_eq V c t, iblk8_6_eq V c t, iblk8_7_eq V c t, iblk8_8_eq V c t, iblk8_9_eq V c t, iblk8_10_eq V c t, iblk8_11_eq V c t, iblk8_12_eq V c t, iblk8_13_eq V c t]

set_option maxHeartbeats 1000000 in
/-- The residual block of the loaded blocks likewise. -/
theorem blocks8_15 (c : Dev nD) (t : Fin cfg8.N) :
    edgeEs (M := 2000) (L := 128) (H := 512) (H' := 512) (O := 128) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) (iblk8 V c 13 t)
      = edgeEs (M := 2000) (L := 128) (H := 512) (H' := 512) (O := 128) (iblk8 V c 0 t) (iblk8 V c 1 t) (iblk8 V c 2 t) (iblk8 V c 3 t) (iblk8 V c 4 t) (V c (Pipeline.arrRef spec8 5)) (V c (Pipeline.arrRef spec8 6)) (V c (Pipeline.arrRef spec8 7)) (V c (Pipeline.arrRef spec8 8)) (V c (Pipeline.arrRef spec8 9)) (V c (Pipeline.arrRef spec8 10)) (V c (Pipeline.arrRef spec8 11)) (V c (Pipeline.arrRef spec8 12)) (V c (Pipeline.arrRef spec8 13)) := by
  rw [iblk8_5_eq V c t, iblk8_6_eq V c t, iblk8_7_eq V c t, iblk8_8_eq V c t, iblk8_9_eq V c t, iblk8_10_eq V c t, iblk8_11_eq V c t, iblk8_12_eq V c t, iblk8_13_eq V c t]

set_option maxHeartbeats 2000000 in
/-- What point t writes back to window 14's array is block t of `G8_14` of the arrays as the region finds them. -/
theorem flushed8_14_eq (c : Dev nD) (t : Fin cfg8.N) :
    (dat8 (F := Ideal) V c).flushed 14 t = ((cfg8.win 14).blk t).view.read (Elt Ideal) (G8_14 (V c (Pipeline.arrRef spec8 0)) (V c (Pipeline.arrRef spec8 1)) (V c (Pipeline.arrRef spec8 2)) (V c (Pipeline.arrRef spec8 3)) (V c (Pipeline.arrRef spec8 5)) (V c (Pipeline.arrRef spec8 6)) (V c (Pipeline.arrRef spec8 7)) (V c (Pipeline.arrRef spec8 8)) (V c (Pipeline.arrRef spec8 9)) (V c (Pipeline.arrRef spec8 10)) (V c (Pipeline.arrRef spec8 11)) (V c (Pipeline.arrRef spec8 12)) (V c (Pipeline.arrRef spec8 13))) := by
  show (cfg8.win 14).cut (grid8.coords t) ((dat8 (F := Ideal) V c).after 14 t) = _
  rw [after8_14]
  unfold out8_14
  rw [View.canon_unit_zero hz8]
  simp only [View.ld_unit_zero (S := S2000x128) hz8, View.ld_unit_zero (S := S128x512) hz8, View.ld_unit_zero (S := S1x512) hz8, View.ld_unit_zero (S := S512x512) hz8, View.ld_unit_zero (S := S512x128) hz8, View.ld_unit_zero (S := S1x128) hz8]
  refine (congrArg ((cfg8.win 14).cut (grid8.coords t)) ((pay8_14_eq _ _ _ _ _ _ _ _ _ _ _ _ _).trans (blocks8_14 V c t))).trans ?_
  funext j
  refine (cut8_14_apply t _ j).trans ?_
  show _ = G8_14 (V c (Pipeline.arrRef spec8 0)) (V c (Pipeline.arrRef spec8 1)) (V c (Pipeline.arrRef spec8 2)) (V c (Pipeline.arrRef spec8 3)) (V c (Pipeline.arrRef spec8 5)) (V c (Pipeline.arrRef spec8 6)) (V c (Pipeline.arrRef spec8 7)) (V c (Pipeline.arrRef spec8 8)) (V c (Pipeline.arrRef spec8 9)) (V c (Pipeline.arrRef spec8 10)) (V c (Pipeline.arrRef spec8 11)) (V c (Pipeline.arrRef spec8 12)) (V c (Pipeline.arrRef spec8 13)) (((cfg8.win 14).blk t).view.emb j)
  rw [emb8_14 t j]
  exact edgeE1_rows _ _ _ _ _ _ _ _ _ (fun k => iblk8_0_at V c t (j 0) k) (fun k => iblk8_1_at V c t (j 0) k)
    (fun k => iblk8_2_at V c t (j 0) k) (fun k => iblk8_3_at V c t (j 0) k) (j 1)

set_option maxHeartbeats 2000000 in
/-- What point t writes back to window 15's array is block t of `G8_15` of the arrays as the region finds them. -/
theorem flushed8_15_eq (c : Dev nD) (t : Fin cfg8.N) :
    (dat8 (F := Ideal) V c).flushed 15 t = ((cfg8.win 15).blk t).view.read (Elt Ideal) (G8_15 (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8)) (V c (Pipeline.arrRef spec8 9)) (V c (Pipeline.arrRef spec8 10)) (V c (Pipeline.arrRef spec8 11)) (V c (Pipeline.arrRef spec8 12)) (V c (Pipeline.arrRef spec8 13))) := by
  show (cfg8.win 15).cut (grid8.coords t) ((dat8 (F := Ideal) V c).after 15 t) = _
  rw [after8_15]
  unfold out8_15
  rw [View.canon_unit_zero hz8]
  simp only [View.ld_unit_zero (S := S2000x128) hz8, View.ld_unit_zero (S := S128x512) hz8, View.ld_unit_zero (S := S1x512) hz8, View.ld_unit_zero (S := S512x512) hz8, View.ld_unit_zero (S := S512x128) hz8, View.ld_unit_zero (S := S1x128) hz8]
  refine (congrArg ((cfg8.win 15).cut (grid8.coords t)) ((pay8_15_eq _ _ _ _ _ _ _ _ _ _ _ _ _ _).trans (blocks8_15 V c t))).trans ?_
  funext j
  refine (cut8_15_apply t _ j).trans ?_
  show _ = G8_15 (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8)) (V c (Pipeline.arrRef spec8 9)) (V c (Pipeline.arrRef spec8 10)) (V c (Pipeline.arrRef spec8 11)) (V c (Pipeline.arrRef spec8 12)) (V c (Pipeline.arrRef spec8 13)) (((cfg8.win 15).blk t).view.emb j)
  rw [emb8_15 t j]
  exact edgeEs_rows _ _ _ _ _ _ _ _ _ (fun k => iblk8_0_at V c t (j 0) k) (fun k => iblk8_1_at V c t (j 0) k)
    (fun k => iblk8_2_at V c t (j 0) k) (fun k => iblk8_3_at V c t (j 0) k) (j 1) (iblk8_4_at V c t (j 0) (j 1))

/-- Window 14's array after the region. -/
theorem final8_14 (c : Dev nD) :
    (dat8 (F := Ideal) V c).arrAt 14 cfg8.N = G8_14 (V c (Pipeline.arrRef spec8 0)) (V c (Pipeline.arrRef spec8 1)) (V c (Pipeline.arrRef spec8 2)) (V c (Pipeline.arrRef spec8 3)) (V c (Pipeline.arrRef spec8 5)) (V c (Pipeline.arrRef spec8 6)) (V c (Pipeline.arrRef spec8 7)) (V c (Pipeline.arrRef spec8 8)) (V c (Pipeline.arrRef spec8 9)) (V c (Pipeline.arrRef spec8 10)) (V c (Pipeline.arrRef spec8 11)) (V c (Pipeline.arrRef spec8 12)) (V c (Pipeline.arrRef spec8 13)) :=
  (dat8 (F := Ideal) V c).arrAt_eq_of_cover 14 _ (fun t _ => flushed8_14_eq V c t) covered8_14

/-- Window 15's array after the region. -/
theorem final8_15 (c : Dev nD) :
    (dat8 (F := Ideal) V c).arrAt 15 cfg8.N = G8_15 (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8)) (V c (Pipeline.arrRef spec8 9)) (V c (Pipeline.arrRef spec8 10)) (V c (Pipeline.arrRef spec8 11)) (V c (Pipeline.arrRef spec8 12)) (V c (Pipeline.arrRef spec8 13)) :=
  (dat8 (F := Ideal) V c).arrAt_eq_of_cover 15 _ (fun t _ => flushed8_15_eq V c t) covered8_15

end Final

end Cert.KernelIdeal.Hand

end
-- ==== Proof.KI.Val9.lean ====
/- The value of region 9 at the ideal values: its output array after the run is three dense layers with positive
   part, stacked, of its seven input arrays as the region finds them, entry by entry. -/
import proofs.«147763_j11003706212366_2_alg».proof.Proof.KI.Reg9
import proofs.«147763_j11003706212366_2_alg».proof.Proof.LibReluDense
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.LibDense Cert.LibReluDense

section
variable (V : (c : Dev nD) → (b : Ref sig .tc) → Buf (Elt Ideal) ((c : Thread nD τ).loc b))

theorem hz9 : (![0, 0] : Fin 2 → Nat) = fun _ => 0 := funext fun a => by fin_cases a <;> rfl

/-! ## The closed form -/

/-- What the output array ends holding: max (max (max (x · W1 + b1) 0 · W2 + b2) 0 · W3 + b3) 0, entry by entry, of
    the rows array `a0`, the weights `a1`, `a3`, `a5` and the one-row biases `a2`, `a4`, `a6`. -/
def G9_7 (a0 : S5000x512.Idx → EReal) (a1 : S512x512.Idx → EReal) (a2 : S1x512.Idx → EReal) (a3 : S512x512.Idx → EReal)
    (a4 : S1x512.Idx → EReal) (a5 : S512x128.Idx → EReal) (a6 : S1x128.Idx → EReal) : S5000x128.Idx → EReal :=
  reluDense (reluDense (reluDense a0 a1 a2) a3 a4) a5 a6

/-- The same, spelled with the dense layer's entries. -/
theorem G9_7_apply (a0 : S5000x512.Idx → EReal) (a1 : S512x512.Idx → EReal) (a2 : S1x512.Idx → EReal) (a3 : S512x512.Idx → EReal)
    (a4 : S1x512.Idx → EReal) (a5 : S512x128.Idx → EReal) (a6 : S1x128.Idx → EReal) (p : Fin 5000) (q : Fin 128) :
    G9_7 a0 a1 a2 a3 a4 a5 a6 (ix2 p q)
      = max (denseAt (fun j : (⟨2, ![5000, 512]⟩ : Shape).Idx => max (denseAt (fun j' : (⟨2, ![5000, 512]⟩ : Shape).Idx => max (denseAt a0 a1 (rowOf a2) (j' 0) (j' 1)) 0) a3 (rowOf a4) (j 0) (j 1)) 0) a5 (rowOf a6) p q) 0 := rfl

/-- The body's payload on blocks is the same stack of layers of the blocks. -/
theorem pay9_eq (x0 : Vec Ideal S1000x512 .bf16) (x1 : Vec Ideal S512x512 .bf16) (x2 : Vec Ideal S1x512 .f32) (x3 : Vec Ideal S512x512 .bf16)
    (x4 : Vec Ideal S1x512 .f32) (x5 : Vec Ideal S512x128 .bf16) (x6 : Vec Ideal S1x128 .f32) :
    k9_pay1 (F := Ideal) x0 x1 x2 x3 x4 x5 x6 = reluDense (reluDense (reluDense x0 x1 x2) x3 x4) x5 x6 := by
  unfold k9_pay1
  refine (chip_reluDense (φ₁ := .bf16) (φ₂ := .bf16) 1000 512 128 (by decide) dot_S1000x512_S512x128_S1000x128_1_0_0_1_n_n rfl _ _ _ _ x5 x6).trans ?_
  refine congrArg (fun h => reluDense h x5 x6) ?_
  refine (truncf_id (ψ := .bf16) _ bitsLt_bf16_f32).trans ?_
  refine (chip_reluDense (φ₁ := .bf16) (φ₂ := .bf16) 1000 512 512 (by decide) dot_S1000x512_S512x512_S1000x512_1_0_0_1_n_n rfl _ _ _ _ x3 x4).trans ?_
  refine congrArg (fun h => reluDense h x3 x4) ?_
  refine (truncf_id (ψ := .bf16) _ bitsLt_bf16_f32).trans ?_
  refine (chip_reluDense (φ₁ := .bf16) (φ₂ := .bf16) 1000 512 512 (by decide) dot_S1000x512_S512x512_S1000x512_1_0_0_1_n_n rfl _ _ _ _ x1 x2).trans ?_
  exact congrArg (fun h => reluDense h x1 x2) (shapeCast_self x0 _)

/-! ## The index maps, decided over the grid -/

/-- The rows window and the output window sit at block (t, 0) at point `t`; the weights' and biases' windows at block
    (0, 0) at every point. -/
theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = t.val ∧ win9_7.index t (1 : Fin 2) = 0 :=
  (by decide +kernel : ∀ t : Fin grid9.N, _)

/-! ## The input blocks as parts of their arrays -/

/-- The rows window's block at point `t` is rows 1000·t … 1000·t + 999 of its array. -/
theorem iblk9_0_apply (c : Dev nD) (t : Fin cfg9.N) (x : S1000x512.Idx) (k : S5000x512.Idx)
    (hk0 : (k 0).val = 1000 * t.val + (x 0).val) (hk1 : (k 1).val = (x 1).val) :
    (iblk9 V c 0 t : Vec Ideal S1000x512 .bf16) x = (V c (Pipeline.arrRef spec9 0) : S5000x512.Idx → Elt Ideal .bf16) k := by
  have hi := idx_facts9 t
  unfold iblk9
  rw [View.read_apply]
  show V c (Pipeline.arrRef spec9 0) _ = V c (Pipeline.arrRef spec9 0) _
  congr 1
  funext a
  apply Fin.ext
  match a with
  | ⟨0, _⟩ => show win9_0.index t (0 : Fin 2) * 1000 + 1 * (x 0).val = (k 0).val; rw [hi.1, hk0]; omega
  | ⟨1, _⟩ => show win9_0.index t (1 : Fin 2) * 512 + 1 * (x 1).val = (k 1).val; rw [hi.2.1, hk1]; omega

/-- Window 1's block at every point is its whole array. -/
theorem iblk9_1_eq (c : Dev nD) (t : Fin cfg9.N) :
    (iblk9 V c 1 t : Vec Ideal S512x512 .bf16) = (V c (Pipeline.arrRef spec9 1) : S512x512.Idx → Elt Ideal .bf16) := by
  have hi := idx_facts9 t
  funext x
  unfold iblk9
  rw [View.read_apply]
  show V c (Pipeline.arrRef spec9 1) _ = V c (Pipeline.arrRef spec9 1) x
  congr 1
  funext a
  apply Fin.ext
  match a with
  | ⟨0, _⟩ => show win9_1.index t (0 : Fin 2) * 512 + 1 * (x 0).val = (x 0).val; rw [hi.2.2.1]; omega
  | ⟨1, _⟩ => show win9_1.index t (1 : Fin 2) * 512 + 1 * (x 1).val = (x 1).val; rw [hi.2.2.2.1]; omega

/-- Window 2's block at every point is its whole array. -/
theorem iblk9_2_eq (c : Dev nD) (t : Fin cfg9.N) :
    (iblk9 V c 2 t : Vec Ideal S1x512 .f32) = (V c (Pipeline.arrRef spec9 2) : S1x512.Idx → Elt Ideal .f32) := by
  have hi := idx_facts9 t
  funext x
  unfold iblk9
  rw [View.read_apply]
  show V c (Pipeline.arrRef spec9 2) _ = V c (Pipeline.arrRef spec9 2) x
  congr 1
  funext a
  apply Fin.ext
  match a with
  | ⟨0, _⟩ => show win9_2.index t (0 : Fin 2) * 1 + 1 * (x 0).val = (x 0).val; rw [hi.2.2.2.2.1]; omega
  | ⟨1, _⟩ => show win9_2.index t (1 : Fin 2) * 512 + 1 * (x 1).val = (x 1).val; rw [hi.2.2.2.2.2.1]; omega

/-- Window 3's block at every point is its whole array. -/
theorem iblk9_3_eq (c : Dev nD) (t : Fin cfg9.N) :
    (iblk9 V c 3 t : Vec Ideal S512x512 .bf16) = (V c (Pipeline.arrRef spec9 3) : S512x512.Idx → Elt Ideal .bf16) := by
  have hi := idx_facts9 t
  funext x
  unfold iblk9
  rw [View.read_apply]
  show V c (Pipeline.arrRef spec9 3) _ = V c (Pipeline.arrRef spec9 3) x
  congr 1
  funext a
  apply Fin.ext
  match a with
  | ⟨0, _⟩ => show win9_3.index t (0 : Fin 2) * 512 + 1 * (x 0).val = (x 0).val; rw [hi.2.2.2.2.2.2.1]; omega
  | ⟨1, _⟩ => show win9_3.index t (1 : Fin 2) * 512 + 1 * (x 1).val = (x 1).val; rw [hi.2.2.2.2.2.2.2.1]; omega

/-- Window 4's block at every point is its whole array. -/
theorem iblk9_4_eq (c : Dev nD) (t : Fin cfg9.N) :
    (iblk9 V c 4 t : Vec Ideal S1x512 .f32) = (V c (Pipeline.arrRef spec9 4) : S1x512.Idx → Elt Ideal .f32) := by
  have hi := idx_facts9 t
  funext x
  unfold iblk9
  rw [View.read_apply]
  show V c (Pipeline.arrRef spec9 4) _ = V c (Pipeline.arrRef spec9 4) x
  congr 1
  funext a
  apply Fin.ext
  match a with
  | ⟨0, _⟩ => show win9_4.index t (0 : Fin 2) * 1 + 1 * (x 0).val = (x 0).val; rw [hi.2.2.2.2.2.2.2.2.1]; omega
  | ⟨1, _⟩ => show win9_4.index t (1 : Fin 2) * 512 + 1 * (x 1).val = (x 1).val; rw [hi.2.2.2.2.2.2.2.2.2.1]; omega

/-- Window 5's block at every point is its whole array. -/
theorem iblk9_5_eq (c : Dev nD) (t : Fin cfg9.N) :
    (iblk9 V c 5 t : Vec Ideal S512x128 .bf16) = (V c (Pipeline.arrRef spec9 5) : S512x128.Idx → Elt Ideal .bf16) := by
  have hi := idx_facts9 t
  funext x
  unfold iblk9
  rw [View.read_apply]
  show V c (Pipeline.arrRef spec9 5) _ = V c (Pipeline.arrRef spec9 5) x
  congr 1
  funext a
  apply Fin.ext
  match a with
  | ⟨0, _⟩ => show win9_5.index t (0 : Fin 2) * 512 + 1 * (x 0).val = (x 0).val; rw [hi.2.2.2.2.2.2.2.2.2.2.1]; omega
  | ⟨1, _⟩ => show win9_5.index t (1 : Fin 2) * 128 + 1 * (x 1).val = (x 1).val; rw [hi.2.2.2.2.2.2.2.2.2.2.2.1]; omega

/-- Window 6's block at every point is its whole array. -/
theorem iblk9_6_eq (c : Dev nD) (t : Fin cfg9.N) :
    (iblk9 V c 6 t : Vec Ideal S1x128 .f32) = (V c (Pipeline.arrRef spec9 6) : S1x128.Idx → Elt Ideal .f32) := by
  have hi := idx_facts9 t
  funext x
  unfold iblk9
  rw [View.read_apply]
  show V c (Pipeline.arrRef spec9 6) _ = V c (Pipeline.arrRef spec9 6) x
  congr 1
  funext a
  apply Fin.ext
  match a with
  | ⟨0, _⟩ => show win9_6.index t (0 : Fin 2) * 1 + 1 * (x 0).val = (x 0).val; rw [hi.2.2.2.2.2.2.2.2.2.2.2.2.1]; omega
  | ⟨1, _⟩ => show win9_6.index t (1 : Fin 2) * 128 + 1 * (x 1).val = (x 1).val; rw [hi.2.2.2.2.2.2.2.2.2.2.2.2.2.1]; omega

/-! ## What a point writes back -/

/-- Blocks `X0 … X6` of which `X0` is rows 1000·t … of the rows array `A0` and the others are the whole arrays
    `A1 … A6` give, at local index `j`, the stack of layers of the whole arrays at the array index `i` in row
    1000·t + (row of j), same column: each layer's entry reads its own row of the layer below. -/
theorem out_point9 (X0 : S1000x512.Idx → EReal) (X1 : S512x512.Idx → EReal) (X2 : S1x512.Idx → EReal) (X3 : S512x512.Idx → EReal)
    (X4 : S1x512.Idx → EReal) (X5 : S512x128.Idx → EReal) (X6 : S1x128.Idx → EReal)
    (A0 : S5000x512.Idx → EReal) (A1 : S512x512.Idx → EReal) (A2 : S1x512.Idx → EReal)
    (A3 : S512x512.Idx → EReal) (A4 : S1x512.Idx → EReal) (A5 : S512x128.Idx → EReal) (A6 : S1x128.Idx → EReal) (t : ℕ)
    (hX : ∀ (x : S1000x512.Idx) (k : S5000x512.Idx), (k 0).val = 1000 * t + (x 0).val → (k 1).val = (x 1).val → X0 x = A0 k)
    (h1 : X1 = A1) (h2 : X2 = A2) (h3 : X3 = A3) (h4 : X4 = A4) (h5 : X5 = A5) (h6 : X6 = A6)
    (j : S1000x128.Idx) (i : S5000x128.Idx) (hi0 : (i 0).val = 1000 * t + (j 0).val) (hi1 : (i 1).val = (j 1).val) :
    reluDense (reluDense (reluDense X0 X1 X2) X3 X4) X5 X6 j = G9_7 A0 A1 A2 A3 A4 A5 A6 i := by
  subst h1 h2 h3 h4 h5 h6
  obtain ⟨p, q, rfl⟩ : ∃ p q, j = ix2 p q := ⟨_, _, eq_ix2 j⟩
  obtain ⟨r, q', rfl⟩ : ∃ r q', i = ix2 r q' := ⟨_, _, eq_ix2 i⟩
  obtain rfl : q = q' := Fin.ext hi1.symm
  unfold G9_7
  exact reluDense_rows _ _ (fun k => reluDense_rows _ _ (fun k' => reluDense_rows _ _
    (fun k'' => hX (ix2 p k'') (ix2 r k'') hi0 rfl) k') k) q

set_option maxHeartbeats 1000000 in
/-- What point `t` writes back is block `t` of `G9_7` of the arrays as the region finds them. -/
theorem flushed9_7_eq (c : Dev nD) (t : Fin cfg9.N) :
    (dat9 (F := Ideal) V c).flushed 7 t = ((cfg9.win 7).blk t).view.read (Elt Ideal) (G9_7 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6))) := by
  show (cfg9.win 7).cut (grid9.coords t) ((dat9 V c).after 7 t) = _
  rw [after9_7]
  unfold out9_7
  rw [View.canon_unit_zero hz9]
  simp only [View.ld_unit_zero (S := S1000x512) hz9, View.ld_unit_zero (S := S512x512) hz9, View.ld_unit_zero (S := S1x512) hz9, View.ld_unit_zero (S := S512x128) hz9, View.ld_unit_zero (S := S1x128) hz9]
  rw [pay9_eq]
  have hi := idx_facts9 t
  funext j
  rw [View.read_apply]
  refine out_point9 _ _ _ _ _ _ _ _ _ _ _ _ _ _ t.val (fun x k h0 h1 => iblk9_0_apply V c t x k h0 h1)
    (iblk9_1_eq V c t) (iblk9_2_eq V c t) (iblk9_3_eq V c t) (iblk9_4_eq V c t) (iblk9_5_eq V c t) (iblk9_6_eq V c t) _ _ ?_ ?_
  · show win9_7.index t (0 : Fin 2) * 1000 + 1 * (j 0).val = 1000 * t.val + (j 0).val
    rw [hi.2.2.2.2.2.2.2.2.2.2.2.2.2.2.1]; omega
  · show win9_7.index t (1 : Fin 2) * 128 + 1 * (j 1).val = (j 1).val
    rw [hi.2.2.2.2.2.2.2.2.2.2.2.2.2.2.2]; omega

/-! ## The blocks cover the array -/

/-- An index of the output array is in point `t`'s block iff each coordinate is in the block's range on its axis. -/
theorem mem_blk9_7 (t : Fin cfg9.N) (i : S5000x128.Idx) :
    i ∈ ((cfg9.win 7).blk t).view.set ↔ ∀ a : Fin 2, win9_7.index t a * S1000x128.size a ≤ (i a).val ∧ (i a).val < win9_7.index t a * S1000x128.size a + S1000x128.size a := by
  show i ∈ ((View.whole main_v279).slice (win9_7.rect t)).set ↔ _
  rw [View.set_slice_whole, Rect.mem_set_unit]
  exact Iff.rfl

/-- Row r of the output array lies in the block of point r / 1000. -/
theorem blocks_cover9_7 (i : S5000x128.Idx) :
    ∃ t : Fin cfg9.N, (cfg9.win 7).flush t = true ∧ i ∈ ((cfg9.win 7).blk t).view.set := by
  have hi0 : (i 0).val < 5000 := (i 0).isLt
  have hi1 : (i 1).val < 128 := (i 1).isLt
  have hN : (i 0).val / 1000 < cfg9.N := by show _ < grid9.N; rw [N_9]; omega
  have hi := idx_facts9 ⟨(i 0).val / 1000, hN⟩
  refine ⟨⟨(i 0).val / 1000, hN⟩, flush9_7 _, ?_⟩
  rw [mem_blk9_7]
  intro a
  match a with
  | ⟨0, _⟩ =>
    show win9_7.index ⟨(i 0).val / 1000, hN⟩ (0 : Fin 2) * 1000 ≤ (i 0).val ∧ (i 0).val < win9_7.index ⟨(i 0).val / 1000, hN⟩ (0 : Fin 2) * 1000 + 1000
    rw [hi.2.2.2.2.2.2.2.2.2.2.2.2.2.2.1]; show (i 0).val / 1000 * 1000 ≤ (i 0).val ∧ (i 0).val < (i 0).val / 1000 * 1000 + 1000; omega
  | ⟨1, _⟩ =>
    show win9_7.index ⟨(i 0).val / 1000, hN⟩ (1 : Fin 2) * 128 ≤ (i 1).val ∧ (i 1).val < win9_7.index ⟨(i 0).val / 1000, hN⟩ (1 : Fin 2) * 128 + 128
    rw [hi.2.2.2.2.2.2.2.2.2.2.2.2.2.2.2]; omega

/-! ## The output array after the run -/

/-- The output array after the region's last point is `G9_7` of the seven input arrays as the region finds them. -/
theorem final9_7 (c : Dev nD) :
    (dat9 (F := Ideal) V c).arrAt 7 cfg9.N = G9_7 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) :=
  (dat9 (F := Ideal) V c).arrAt_eq_of_cover 7 (G9_7 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)))
    (fun t _ => flushed9_7_eq V c t) (blocks_cover9_7)

end

end Cert.KernelIdeal.Hand

end
-- ==== Proof.KI.Val10.lean ====
/- The value of region 10 at the ideal values: its output array after the run is three dense layers with positive
   part, stacked, of its seven input arrays as the region finds them, entry by entry. -/
import proofs.«147763_j11003706212366_2_alg».proof.Proof.KI.Reg10
import proofs.«147763_j11003706212366_2_alg».proof.Proof.LibReluDense
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.LibDense Cert.LibReluDense

section
variable (V : (c : Dev nD) → (b : Ref sig .tc) → Buf (Elt Ideal) ((c : Thread nD τ).loc b))

theorem hz10 : (![0, 0] : Fin 2 → Nat) = fun _ => 0 := funext fun a => by fin_cases a <;> rfl

/-! ## The closed form -/

/-- What the output array ends holding: max (max (max (x · W1 + b1) 0 · W2 + b2) 0 · W3 + b3) 0, entry by entry, of
    the rows array `a0`, the weights `a1`, `a3`, `a5` and the one-row biases `a2`, `a4`, `a6`. -/
def G10_7 (a0 : S64x384.Idx → EReal) (a1 : S384x512.Idx → EReal) (a2 : S1x512.Idx → EReal) (a3 : S512x512.Idx → EReal)
    (a4 : S1x512.Idx → EReal) (a5 : S512x128.Idx → EReal) (a6 : S1x128.Idx → EReal) : S64x128.Idx → EReal :=
  reluDense (reluDense (reluDense a0 a1 a2) a3 a4) a5 a6

/-- The same, spelled with the dense layer's entries. -/
theorem G10_7_apply (a0 : S64x384.Idx → EReal) (a1 : S384x512.Idx → EReal) (a2 : S1x512.Idx → EReal) (a3 : S512x512.Idx → EReal)
    (a4 : S1x512.Idx → EReal) (a5 : S512x128.Idx → EReal) (a6 : S1x128.Idx → EReal) (p : Fin 64) (q : Fin 128) :
    G10_7 a0 a1 a2 a3 a4 a5 a6 (ix2 p q)
      = max (denseAt (fun j : (⟨2, ![64, 512]⟩ : Shape).Idx => max (denseAt (fun j' : (⟨2, ![64, 512]⟩ : Shape).Idx => max (denseAt a0 a1 (rowOf a2) (j' 0) (j' 1)) 0) a3 (rowOf a4) (j 0) (j 1)) 0) a5 (rowOf a6) p q) 0 := rfl

/-- The body's payload on blocks is the same stack of layers of the blocks. -/
theorem pay10_eq (x0 : Vec Ideal S64x384 .bf16) (x1 : Vec Ideal S384x512 .bf16) (x2 : Vec Ideal S1x512 .f32) (x3 : Vec Ideal S512x512 .bf16)
    (x4 : Vec Ideal S1x512 .f32) (x5 : Vec Ideal S512x128 .bf16) (x6 : Vec Ideal S1x128 .f32) :
    k10_pay1 (F := Ideal) x0 x1 x2 x3 x4 x5 x6 = reluDense (reluDense (reluDense x0 x1 x2) x3 x4) x5 x6 := by
  unfold k10_pay1
  refine (chip_reluDense (φ₁ := .bf16) (φ₂ := .bf16) 64 512 128 (by decide) dot_S64x512_S512x128_S64x128_1_0_0_1_n_n rfl _ _ _ _ x5 x6).trans ?_
  refine congrArg (fun h => reluDense h x5 x6) ?_
  refine (truncf_id (ψ := .bf16) _ bitsLt_bf16_f32).trans ?_
  refine (chip_reluDense (φ₁ := .bf16) (φ₂ := .bf16) 64 512 512 (by decide) dot_S64x512_S512x512_S64x512_1_0_0_1_n_n rfl _ _ _ _ x3 x4).trans ?_
  refine congrArg (fun h => reluDense h x3 x4) ?_
  refine (truncf_id (ψ := .bf16) _ bitsLt_bf16_f32).trans ?_
  refine (chip_reluDense (φ₁ := .bf16) (φ₂ := .bf16) 64 384 512 (by decide) dot_S64x384_S384x512_S64x512_1_0_0_1_n_n rfl _ _ _ _ x1 x2).trans ?_
  exact congrArg (fun h => reluDense h x1 x2) (shapeCast_self x0 _)

/-! ## The index maps, decided over the grid -/

/-- The rows window and the output window sit at block (t, 0) at point `t`; the weights' and biases' windows at block
    (0, 0) at every point. -/
theorem idx_facts10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 2) = t.val ∧ win10_7.index t (1 : Fin 2) = 0 :=
  (by decide +kernel : ∀ t : Fin grid10.N, _)

/-! ## The input blocks as parts of their arrays -/

/-- The rows window's block at point `t` is rows 64·t … 64·t + 63 of its array. -/
theorem iblk10_0_apply (c : Dev nD) (t : Fin cfg10.N) (x : S64x384.Idx) (k : S64x384.Idx)
    (hk0 : (k 0).val = 64 * t.val + (x 0).val) (hk1 : (k 1).val = (x 1).val) :
    (iblk10 V c 0 t : Vec Ideal S64x384 .bf16) x = (V c (Pipeline.arrRef spec10 0) : S64x384.Idx → Elt Ideal .bf16) k := by
  have hi := idx_facts10 t
  unfold iblk10
  rw [View.read_apply]
  show V c (Pipeline.arrRef spec10 0) _ = V c (Pipeline.arrRef spec10 0) _
  congr 1
  funext a
  apply Fin.ext
  match a with
  | ⟨0, _⟩ => show win10_0.index t (0 : Fin 2) * 64 + 1 * (x 0).val = (k 0).val; rw [hi.1, hk0]; omega
  | ⟨1, _⟩ => show win10_0.index t (1 : Fin 2) * 384 + 1 * (x 1).val = (k 1).val; rw [hi.2.1, hk1]; omega

/-- Window 1's block at every point is its whole array. -/
theorem iblk10_1_eq (c : Dev nD) (t : Fin cfg10.N) :
    (iblk10 V c 1 t : Vec Ideal S384x512 .bf16) = (V c (Pipeline.arrRef spec10 1) : S384x512.Idx → Elt Ideal .bf16) := by
  have hi := idx_facts10 t
  funext x
  unfold iblk10
  rw [View.read_apply]
  show V c (Pipeline.arrRef spec10 1) _ = V c (Pipeline.arrRef spec10 1) x
  congr 1
  funext a
  apply Fin.ext
  match a with
  | ⟨0, _⟩ => show win10_1.index t (0 : Fin 2) * 384 + 1 * (x 0).val = (x 0).val; rw [hi.2.2.1]; omega
  | ⟨1, _⟩ => show win10_1.index t (1 : Fin 2) * 512 + 1 * (x 1).val = (x 1).val; rw [hi.2.2.2.1]; omega

/-- Window 2's block at every point is its whole array. -/
theorem iblk10_2_eq (c : Dev nD) (t : Fin cfg10.N) :
    (iblk10 V c 2 t : Vec Ideal S1x512 .f32) = (V c (Pipeline.arrRef spec10 2) : S1x512.Idx → Elt Ideal .f32) := by
  have hi := idx_facts10 t
  funext x
  unfold iblk10
  rw [View.read_apply]
  show V c (Pipeline.arrRef spec10 2) _ = V c (Pipeline.arrRef spec10 2) x
  congr 1
  funext a
  apply Fin.ext
  match a with
  | ⟨0, _⟩ => show win10_2.index t (0 : Fin 2) * 1 + 1 * (x 0).val = (x 0).val; rw [hi.2.2.2.2.1]; omega
  | ⟨1, _⟩ => show win10_2.index t (1 : Fin 2) * 512 + 1 * (x 1).val = (x 1).val; rw [hi.2.2.2.2.2.1]; omega

/-- Window 3's block at every point is its whole array. -/
theorem iblk10_3_eq (c : Dev nD) (t : Fin cfg10.N) :
    (iblk10 V c 3 t : Vec Ideal S512x512 .bf16) = (V c (Pipeline.arrRef spec10 3) : S512x512.Idx → Elt Ideal .bf16) := by
  have hi := idx_facts10 t
  funext x
  unfold iblk10
  rw [View.read_apply]
  show V c (Pipeline.arrRef spec10 3) _ = V c (Pipeline.arrRef spec10 3) x
  congr 1
  funext a
  apply Fin.ext
  match a with
  | ⟨0, _⟩ => show win10_3.index t (0 : Fin 2) * 512 + 1 * (x 0).val = (x 0).val; rw [hi.2.2.2.2.2.2.1]; omega
  | ⟨1, _⟩ => show win10_3.index t (1 : Fin 2) * 512 + 1 * (x 1).val = (x 1).val; rw [hi.2.2.2.2.2.2.2.1]; omega

/-- Window 4's block at every point is its whole array. -/
theorem iblk10_4_eq (c : Dev nD) (t : Fin cfg10.N) :
    (iblk10 V c 4 t : Vec Ideal S1x512 .f32) = (V c (Pipeline.arrRef spec10 4) : S1x512.Idx → Elt Ideal .f32) := by
  have hi := idx_facts10 t
  funext x
  unfold iblk10
  rw [View.read_apply]
  show V c (Pipeline.arrRef spec10 4) _ = V c (Pipeline.arrRef spec10 4) x
  congr 1
  funext a
  apply Fin.ext
  match a with
  | ⟨0, _⟩ => show win10_4.index t (0 : Fin 2) * 1 + 1 * (x 0).val = (x 0).val; rw [hi.2.2.2.2.2.2.2.2.1]; omega
  | ⟨1, _⟩ => show win10_4.index t (1 : Fin 2) * 512 + 1 * (x 1).val = (x 1).val; rw [hi.2.2.2.2.2.2.2.2.2.1]; omega

/-- Window 5's block at every point is its whole array. -/
theorem iblk10_5_eq (c : Dev nD) (t : Fin cfg10.N) :
    (iblk10 V c 5 t : Vec Ideal S512x128 .bf16) = (V c (Pipeline.arrRef spec10 5) : S512x128.Idx → Elt Ideal .bf16) := by
  have hi := idx_facts10 t
  funext x
  unfold iblk10
  rw [View.read_apply]
  show V c (Pipeline.arrRef spec10 5) _ = V c (Pipeline.arrRef spec10 5) x
  congr 1
  funext a
  apply Fin.ext
  match a with
  | ⟨0, _⟩ => show win10_5.index t (0 : Fin 2) * 512 + 1 * (x 0).val = (x 0).val; rw [hi.2.2.2.2.2.2.2.2.2.2.1]; omega
  | ⟨1, _⟩ => show win10_5.index t (1 : Fin 2) * 128 + 1 * (x 1).val = (x 1).val; rw [hi.2.2.2.2.2.2.2.2.2.2.2.1]; omega

/-- Window 6's block at every point is its whole array. -/
theorem iblk10_6_eq (c : Dev nD) (t : Fin cfg10.N) :
    (iblk10 V c 6 t : Vec Ideal S1x128 .f32) = (V c (Pipeline.arrRef spec10 6) : S1x128.Idx → Elt Ideal .f32) := by
  have hi := idx_facts10 t
  funext x
  unfold iblk10
  rw [View.read_apply]
  show V c (Pipeline.arrRef spec10 6) _ = V c (Pipeline.arrRef spec10 6) x
  congr 1
  funext a
  apply Fin.ext
  match a with
  | ⟨0, _⟩ => show win10_6.index t (0 : Fin 2) * 1 + 1 * (x 0).val = (x 0).val; rw [hi.2.2.2.2.2.2.2.2.2.2.2.2.1]; omega
  | ⟨1, _⟩ => show win10_6.index t (1 : Fin 2) * 128 + 1 * (x 1).val = (x 1).val; rw [hi.2.2.2.2.2.2.2.2.2.2.2.2.2.1]; omega

/-! ## What a point writes back -/

/-- Blocks `X0 … X6` of which `X0` is rows 64·t … of the rows array `A0` and the others are the whole arrays
    `A1 … A6` give, at local index `j`, the stack of layers of the whole arrays at the array index `i` in row
    64·t + (row of j), same column: each layer's entry reads its own row of the layer below. -/
theorem out_point10 (X0 : S64x384.Idx → EReal) (X1 : S384x512.Idx → EReal) (X2 : S1x512.Idx → EReal) (X3 : S512x512.Idx → EReal)
    (X4 : S1x512.Idx → EReal) (X5 : S512x128.Idx → EReal) (X6 : S1x128.Idx → EReal)
    (A0 : S64x384.Idx → EReal) (A1 : S384x512.Idx → EReal) (A2 : S1x512.Idx → EReal)
    (A3 : S512x512.Idx → EReal) (A4 : S1x512.Idx → EReal) (A5 : S512x128.Idx → EReal) (A6 : S1x128.Idx → EReal) (t : ℕ)
    (hX : ∀ (x : S64x384.Idx) (k : S64x384.Idx), (k 0).val = 64 * t + (x 0).val → (k 1).val = (x 1).val → X0 x = A0 k)
    (h1 : X1 = A1) (h2 : X2 = A2) (h3 : X3 = A3) (h4 : X4 = A4) (h5 : X5 = A5) (h6 : X6 = A6)
    (j : S64x128.Idx) (i : S64x128.Idx) (hi0 : (i 0).val = 64 * t + (j 0).val) (hi1 : (i 1).val = (j 1).val) :
    reluDense (reluDense (reluDense X0 X1 X2) X3 X4) X5 X6 j = G10_7 A0 A1 A2 A3 A4 A5 A6 i := by
  subst h1 h2 h3 h4 h5 h6
  obtain ⟨p, q, rfl⟩ : ∃ p q, j = ix2 p q := ⟨_, _, eq_ix2 j⟩
  obtain ⟨r, q', rfl⟩ : ∃ r q', i = ix2 r q' := ⟨_, _, eq_ix2 i⟩
  obtain rfl : q = q' := Fin.ext hi1.symm
  unfold G10_7
  exact reluDense_rows _ _ (fun k => reluDense_rows _ _ (fun k' => reluDense_rows _ _
    (fun k'' => hX (ix2 p k'') (ix2 r k'') hi0 rfl) k') k) q

set_option maxHeartbeats 1000000 in
/-- What point `t` writes back is block `t` of `G10_7` of the arrays as the region finds them. -/
theorem flushed10_7_eq (c : Dev nD) (t : Fin cfg10.N) :
    (dat10 (F := Ideal) V c).flushed 7 t = ((cfg10.win 7).blk t).view.read (Elt Ideal) (G10_7 (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)) (V c (Pipeline.arrRef spec10 6))) := by
  show (cfg10.win 7).cut (grid10.coords t) ((dat10 V c).after 7 t) = _
  rw [after10_7]
  unfold out10_7
  rw [View.canon_unit_zero hz10]
  simp only [View.ld_unit_zero (S := S64x384) hz10, View.ld_unit_zero (S := S384x512) hz10, View.ld_unit_zero (S := S1x512) hz10, View.ld_unit_zero (S := S512x512) hz10, View.ld_unit_zero (S := S512x128) hz10, View.ld_unit_zero (S := S1x128) hz10]
  rw [pay10_eq]
  have hi := idx_facts10 t
  funext j
  rw [View.read_apply]
  refine out_point10 _ _ _ _ _ _ _ _ _ _ _ _ _ _ t.val (fun x k h0 h1 => iblk10_0_apply V c t x k h0 h1)
    (iblk10_1_eq V c t) (iblk10_2_eq V c t) (iblk10_3_eq V c t) (iblk10_4_eq V c t) (iblk10_5_eq V c t) (iblk10_6_eq V c t) _ _ ?_ ?_
  · show win10_7.index t (0 : Fin 2) * 64 + 1 * (j 0).val = 64 * t.val + (j 0).val
    rw [hi.2.2.2.2.2.2.2.2.2.2.2.2.2.2.1]; omega
  · show win10_7.index t (1 : Fin 2) * 128 + 1 * (j 1).val = (j 1).val
    rw [hi.2.2.2.2.2.2.2.2.2.2.2.2.2.2.2]; omega

/-! ## The blocks cover the array -/

/-- An index of the output array is in point `t`'s block iff each coordinate is in the block's range on its axis. -/
theorem mem_blk10_7 (t : Fin cfg10.N) (i : S64x128.Idx) :
    i ∈ ((cfg10.win 7).blk t).view.set ↔ ∀ a : Fin 2, win10_7.index t a * S64x128.size a ≤ (i a).val ∧ (i a).val < win10_7.index t a * S64x128.size a + S64x128.size a := by
  show i ∈ ((View.whole main_v306).slice (win10_7.rect t)).set ↔ _
  rw [View.set_slice_whole, Rect.mem_set_unit]
  exact Iff.rfl

/-- Row r of the output array lies in the block of point r / 64. -/
theorem blocks_cover10_7 (i : S64x128.Idx) :
    ∃ t : Fin cfg10.N, (cfg10.win 7).flush t = true ∧ i ∈ ((cfg10.win 7).blk t).view.set := by
  have hi0 : (i 0).val < 64 := (i 0).isLt
  have hi1 : (i 1).val < 128 := (i 1).isLt
  have hN : (i 0).val / 64 < cfg10.N := by show _ < grid10.N; rw [N_10]; omega
  have hi := idx_facts10 ⟨(i 0).val / 64, hN⟩
  refine ⟨⟨(i 0).val / 64, hN⟩, flush10_7 _, ?_⟩
  rw [mem_blk10_7]
  intro a
  match a with
  | ⟨0, _⟩ =>
    show win10_7.index ⟨(i 0).val / 64, hN⟩ (0 : Fin 2) * 64 ≤ (i 0).val ∧ (i 0).val < win10_7.index ⟨(i 0).val / 64, hN⟩ (0 : Fin 2) * 64 + 64
    rw [hi.2.2.2.2.2.2.2.2.2.2.2.2.2.2.1]; show (i 0).val / 64 * 64 ≤ (i 0).val ∧ (i 0).val < (i 0).val / 64 * 64 + 64; omega
  | ⟨1, _⟩ =>
    show win10_7.index ⟨(i 0).val / 64, hN⟩ (1 : Fin 2) * 128 ≤ (i 1).val ∧ (i 1).val < win10_7.index ⟨(i 0).val / 64, hN⟩ (1 : Fin 2) * 128 + 128
    rw [hi.2.2.2.2.2.2.2.2.2.2.2.2.2.2.2]; omega

/-! ## The output array after the run -/

/-- The output array after the region's last point is `G10_7` of the seven input arrays as the region finds them. -/
theorem final10_7 (c : Dev nD) :
    (dat10 (F := Ideal) V c).arrAt 7 cfg10.N = G10_7 (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)) (V c (Pipeline.arrRef spec10 6)) :=
  (dat10 (F := Ideal) V c).arrAt_eq_of_cover 7 (G10_7 (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)) (V c (Pipeline.arrRef spec10 6)))
    (fun t _ => flushed10_7_eq V c t) (blocks_cover10_7)

end

end Cert.KernelIdeal.Hand

end
-- ==== Proof.KI.Val11.lean ====
/- Region 11's output array after the region, at the ideal values, as ONE function of the six arrays the region reads.

   The region's body computes, on a block of 1000 rows,  (relu (xs · W1 + b1) · W2 + b2) + lp . Entry (p, q) of a dense
   layer reads row p of its left operand and nothing else of it, so the body's result on block t is block t of the same
   expression over the whole arrays (`G11_6`); the five blocks tile the 5000 rows, each is written back once, and so
   the array ends holding `G11_6` of the arrays as the region found them (`final11_6`). -/
import proofs.«147763_j11003706212366_2_alg».proof.Proof.KI.Reg11
import proofs.«147763_j11003706212366_2_alg».proof.Proof.LibChipRow
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open Cert.LibDense Cert.LibChipRow

/-! ## The closed form -/

/-- What the output array ends holding, entry by entry: the second dense layer of the rectified first one, plus lp. -/
def G11_6 (xs : S5000x128.Idx → EReal) (lp : S5000x3.Idx → EReal) (W1 : S128x128.Idx → EReal) (b1 : S1x128.Idx → EReal)
    (W2 : S128x3.Idx → EReal) (b2 : S1x3.Idx → EReal) : S5000x3.Idx → EReal :=
  fun i => denseAt (M := 5000) (K := 128) (N := 3)
      (fun j : S5000x128.Idx => max (denseAt (M := 5000) (K := 128) (N := 128) xs W1 (rowVec b1) (j 0) (j 1)) 0) W2 (rowVec b2) (i 0) (i 1)
    + lp i

/-! ## The payload, read at an entry -/

/-- The two products' dimension numbers are the plain ones: rows by contraction, times contraction by columns. -/
theorem dot11_1_eq : dot_S1000x128_S128x128_S1000x128_1_0_0_1_n_n = DotDims.plain 1000 128 128 := rfl
theorem dot11_2_eq : dot_S1000x128_S128x3_S1000x3_1_0_0_1_n_n = DotDims.plain 1000 128 3 := rfl

/-- The first layer and the rectifier on a block, at (p, k): the narrowing to bf16 changes no value. -/
theorem hid11_apply (x0 : FVec Ideal S1000x128 .bf16) (w1 : FVec Ideal S128x128 .bf16) (b1 : FVec Ideal S1x128 .f32)
    (hx : S1000x128.ShapeCasts S1000x128) (hw : S128x128.ShapeCasts S128x128) (hc : S1x128.ShapeCasts S1x128)
    (hb : S1x128.Broadcasts S1000x128) (hlt : FTy.bits .bf16 < FTy.bits .f32) (p : Fin 1000) (k : Fin 128) :
    (truncf .bf16 (maximumf (addf (matmul dot_S1000x128_S128x128_S1000x128_1_0_0_1_n_n none (shapeCast S1000x128 x0 hx)
            (shapeCast S128x128 w1 hw) (constant (F := Ideal) S1000x128 .f32 0x00000000#32))
          (broadcastTo S1000x128 (shapeCast S1x128 b1 hc) hb))
        (broadcast S1000x128 (Scalar.ofBits (F := Ideal) .f32 0x00000000#32))) hlt : FVec Ideal S1000x128 .bf16) (ix2 p k)
      = max (denseAt x0 w1 (rowVec b1) p k) 0 := by
  rw [truncf_apply, shapeCast_self x0 hx, shapeCast_self w1 hw, shapeCast_self b1 hc, dot11_1_eq]
  exact chip_dense_row_relu_apply 1000 128 128 (by decide) hb x0 w1 b1 p k

/-- The second layer on a block, at (p, q), whatever its left operand. -/
theorem lay11_apply (h : FVec Ideal S1000x128 .bf16) (w2 : FVec Ideal S128x3 .bf16) (b2 : FVec Ideal S1x3 .f32)
    (hw : S128x3.ShapeCasts S128x3) (hc : S1x3.ShapeCasts S1x3) (hb : S1x3.Broadcasts S1000x3) (p : Fin 1000) (q : Fin 3) :
    addf (matmul dot_S1000x128_S128x3_S1000x3_1_0_0_1_n_n none h (shapeCast S128x3 w2 hw) (constant (F := Ideal) S1000x3 .f32 0x00000000#32))
        (broadcastTo S1000x3 (shapeCast S1x3 b2 hc) hb) (ix2 p q)
      = denseAt h w2 (rowVec b2) p q := by
  rw [shapeCast_self w2 hw, shapeCast_self b2 hc, dot11_2_eq]
  exact chip_dense_row_apply 1000 128 3 (by decide) hb h w2 b2 p q

/-- The payload on a block, at (p, q). -/
theorem pay11_apply (x0 : FVec Ideal S1000x128 .bf16) (w1 : FVec Ideal S128x128 .bf16) (b1 : FVec Ideal S1x128 .f32)
    (w2 : FVec Ideal S128x3 .bf16) (b2 : FVec Ideal S1x3 .f32) (l0 : FVec Ideal S1000x3 .f32) (p : Fin 1000) (q : Fin 3) :
    k11_pay1 (F := Ideal) x0 w1 b1 w2 b2 l0 (ix2 p q)
      = denseAt (M := 1000) (K := 128) (N := 3)
          (fun j : S1000x128.Idx => max (denseAt (M := 1000) (K := 128) (N := 128) x0 w1 (rowVec b1) (j 0) (j 1)) 0) w2 (rowVec b2) p q
        + l0 (ix2 p q) := by
  unfold k11_pay1
  refine (addf_apply _ _ _).trans ?_
  refine congrArg₂ (· + ·) ?_ (congrFun (shapeCast_self l0 _) _)
  refine (lay11_apply _ w2 b2 _ _ _ p q).trans ?_
  exact denseAt_congr (fun k => hid11_apply x0 w1 b1 _ _ _ _ _ p k) (fun _ => rfl) rfl

/-- The payload on a block of rows, at (p, q), is G at (r, q) when row p of the block is row r of the arrays. -/
theorem pay11_block (xs : S5000x128.Idx → EReal) (lp : S5000x3.Idx → EReal) (W1 : S128x128.Idx → EReal) (b1 : S1x128.Idx → EReal)
    (W2 : S128x3.Idx → EReal) (b2 : S1x3.Idx → EReal)
    (x0 : FVec Ideal S1000x128 .bf16) (w1 : FVec Ideal S128x128 .bf16) (c1 : FVec Ideal S1x128 .f32)
    (w2 : FVec Ideal S128x3 .bf16) (c2 : FVec Ideal S1x3 .f32) (l0 : FVec Ideal S1000x3 .f32)
    (p : Fin 1000) (q : Fin 3) (r : Fin 5000)
    (hx : ∀ k : Fin 128, x0 (ix2 p k) = xs (ix2 r k)) (hl : l0 (ix2 p q) = lp (ix2 r q))
    (hw1 : ∀ a, w1 a = W1 a) (hb1 : ∀ a, c1 a = b1 a) (hw2 : ∀ a, w2 a = W2 a) (hb2 : ∀ a, c2 a = b2 a) :
    k11_pay1 (F := Ideal) x0 w1 c1 w2 c2 l0 (ix2 p q) = G11_6 xs lp W1 b1 W2 b2 (ix2 r q) := by
  rw [pay11_apply, hl]
  unfold G11_6
  refine congrArg (· + lp (ix2 r q)) ?_
  refine denseAt_congr (fun k => congrArg (max · 0) ?_) (fun k => hw2 _) (hb2 _)
  exact denseAt_congr (fun j => hx j) (fun j => hw1 _) (hb1 _)

/-- The same with the two entries given as indices: entry j of the block against entry i of the arrays, in the same
    column, row (j 0) of the block being row (i 0) of the arrays. -/
theorem pay11_at (xs : S5000x128.Idx → EReal) (lp : S5000x3.Idx → EReal) (W1 : S128x128.Idx → EReal) (b1 : S1x128.Idx → EReal)
    (W2 : S128x3.Idx → EReal) (b2 : S1x3.Idx → EReal)
    (x0 : FVec Ideal S1000x128 .bf16) (w1 : FVec Ideal S128x128 .bf16) (c1 : FVec Ideal S1x128 .f32)
    (w2 : FVec Ideal S128x3 .bf16) (c2 : FVec Ideal S1x3 .f32) (l0 : FVec Ideal S1000x3 .f32)
    (j : S1000x3.Idx) (i : S5000x3.Idx) (hq : (i 1).val = (j 1).val)
    (hx : ∀ k : Fin 128, x0 (ix2 (j 0) k) = xs (ix2 (i 0) k)) (hl : l0 j = lp i)
    (hw1 : ∀ a, w1 a = W1 a) (hb1 : ∀ a, c1 a = b1 a) (hw2 : ∀ a, w2 a = W2 a) (hb2 : ∀ a, c2 a = b2 a) :
    k11_pay1 (F := Ideal) x0 w1 c1 w2 c2 l0 j = G11_6 xs lp W1 b1 W2 b2 i := by
  obtain ⟨p, q, rfl⟩ : ∃ (p : Fin 1000) (q : Fin 3), j = ix2 p q := ⟨j 0, j 1, eq_ix2 j⟩
  obtain ⟨r, q', rfl⟩ : ∃ (r : Fin 5000) (q' : Fin 3), i = ix2 r q' := ⟨i 0, i 1, eq_ix2 i⟩
  obtain rfl : q' = q := Fin.ext hq
  exact pay11_block xs lp W1 b1 W2 b2 x0 w1 c1 w2 c2 l0 p q' r hx hl hw1 hb1 hw2 hb2

/-! ## The windows' block indices, decided over the grid -/

/-- The two row-blocked inputs move with the output; the weights' and biases' blocks stay at block 0; the output's
    block index is the point's number, below 5. -/
theorem idx_facts11 : ∀ t : Fin cfg11.N,
    win11_0.index t (0 : Fin 2) = win11_6.index t (0 : Fin 2) ∧ win11_0.index t (1 : Fin 2) = 0
    ∧ win11_1.index t (0 : Fin 2) = win11_6.index t (0 : Fin 2) ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) ≤ 4 ∧ win11_6.index t (1 : Fin 2) = 0 :=
  (by decide +kernel : ∀ t : Fin grid11.N, _)

/-- Every block of rows is some point's. -/
theorem idx_onto11 : ∀ q0 : Fin 5, ∃ t : Fin cfg11.N, win11_6.index t = ![q0.val, 0] :=
  (by decide +kernel : ∀ q0 : Fin 5, ∃ t : Fin grid11.N, win11_6.index t = ![q0.val, 0])

theorem hz11 : (![0, 0] : Fin 2 → Nat) = fun _ => 0 := funext fun a => by fin_cases a <;> rfl

/-! ## Where a block's entries sit in its array -/

/-- Entry j of the output block at point `t` sits at row  index · 1000 + (j 0)  of the array, in its own column. -/
theorem emb11_6 (t : Fin cfg11.N) (j : S1000x3.Idx) (hr : win11_6.index t (0 : Fin 2) * 1000 + (j 0).val < 5000) :
    ((cfg11.win 6).blk t).view.emb j = (ix2 (n0 := 5000) (n1 := 3) ⟨win11_6.index t (0 : Fin 2) * 1000 + (j 0).val, hr⟩ (j 1) : S5000x3.Idx) := by
  obtain ⟨e00, e01, e10, e11, e20, e21, e30, e31, e40, e41, e50, e51, e60, e61⟩ := idx_facts11 t
  funext a; apply Fin.ext
  match a with
  | ⟨0, _⟩ => show win11_6.index t (0 : Fin 2) * 1000 + 1 * (j 0).val = win11_6.index t (0 : Fin 2) * 1000 + (j 0).val; omega
  | ⟨1, _⟩ => show win11_6.index t (1 : Fin 2) * 3 + 1 * (j 1).val = (j 1).val; omega

/-- Row p of the xs block at point `t` is row  index · 1000 + p  of xs (the index the output's). -/
theorem read11_0 (V : (c : Dev nD) → (b : Ref sig .tc) → Buf (Elt Ideal) ((c : Thread nD τ).loc b)) (c : Dev nD) (t : Fin cfg11.N)
    (p : Fin 1000) (k : Fin 128) (hr : win11_6.index t (0 : Fin 2) * 1000 + p.val < 5000) :
    iblk11 V c 0 t (ix2 (n0 := 1000) (n1 := 128) p k) = (V c (Pipeline.arrRef spec11 0)) (ix2 (n0 := 5000) (n1 := 128) ⟨win11_6.index t (0 : Fin 2) * 1000 + p.val, hr⟩ k) := by
  have h0 : ((cfg11.win 0).blk t).view.emb (ix2 (n0 := 1000) (n1 := 128) p k) = (ix2 (n0 := 5000) (n1 := 128) ⟨win11_6.index t (0 : Fin 2) * 1000 + p.val, hr⟩ k : S5000x128.Idx) := by
    obtain ⟨e00, e01, e10, e11, e20, e21, e30, e31, e40, e41, e50, e51, e60, e61⟩ := idx_facts11 t
    funext a; apply Fin.ext
    match a with
    | ⟨0, _⟩ => show win11_0.index t (0 : Fin 2) * 1000 + 1 * p.val = win11_6.index t (0 : Fin 2) * 1000 + p.val; omega
    | ⟨1, _⟩ => show win11_0.index t (1 : Fin 2) * 128 + 1 * k.val = k.val; omega
  show (V c (Pipeline.arrRef spec11 0)) (((cfg11.win 0).blk t).view.emb (ix2 (n0 := 1000) (n1 := 128) p k)) = (V c (Pipeline.arrRef spec11 0)) (ix2 (n0 := 5000) (n1 := 128) ⟨win11_6.index t (0 : Fin 2) * 1000 + p.val, hr⟩ k)
  rw [h0]

/-- Entry j of the lp block at point `t` is the entry of lp at row  index · 1000 + (j 0)  in the same column. -/
theorem read11_1 (V : (c : Dev nD) → (b : Ref sig .tc) → Buf (Elt Ideal) ((c : Thread nD τ).loc b)) (c : Dev nD) (t : Fin cfg11.N)
    (j : S1000x3.Idx) (hr : win11_6.index t (0 : Fin 2) * 1000 + (j 0).val < 5000) :
    iblk11 V c 1 t j = (V c (Pipeline.arrRef spec11 1)) (ix2 (n0 := 5000) (n1 := 3) ⟨win11_6.index t (0 : Fin 2) * 1000 + (j 0).val, hr⟩ (j 1)) := by
  have h1 : ((cfg11.win 1).blk t).view.emb j = (ix2 (n0 := 5000) (n1 := 3) ⟨win11_6.index t (0 : Fin 2) * 1000 + (j 0).val, hr⟩ (j 1) : S5000x3.Idx) := by
    obtain ⟨e00, e01, e10, e11, e20, e21, e30, e31, e40, e41, e50, e51, e60, e61⟩ := idx_facts11 t
    funext a; apply Fin.ext
    match a with
    | ⟨0, _⟩ => show win11_1.index t (0 : Fin 2) * 1000 + 1 * (j 0).val = win11_6.index t (0 : Fin 2) * 1000 + (j 0).val; omega
    | ⟨1, _⟩ => show win11_1.index t (1 : Fin 2) * 3 + 1 * (j 1).val = (j 1).val; omega
  show (V c (Pipeline.arrRef spec11 1)) (((cfg11.win 1).blk t).view.emb j) = (V c (Pipeline.arrRef spec11 1)) (ix2 (n0 := 5000) (n1 := 3) ⟨win11_6.index t (0 : Fin 2) * 1000 + (j 0).val, hr⟩ (j 1))
  rw [h1]

/-- Window 2's block (the first layer's weights) is its whole array, at every point. -/
theorem read11_2 (V : (c : Dev nD) → (b : Ref sig .tc) → Buf (Elt Ideal) ((c : Thread nD τ).loc b)) (c : Dev nD) (t : Fin cfg11.N) (a : S128x128.Idx) :
    iblk11 V c 2 t a = (V c (Pipeline.arrRef spec11 2)) a := by
  have h : ((cfg11.win 2).blk t).view.emb a = (a : S128x128.Idx) := by
    obtain ⟨e00, e01, e10, e11, e20, e21, e30, e31, e40, e41, e50, e51, e60, e61⟩ := idx_facts11 t
    funext b; apply Fin.ext
    match b with
    | ⟨0, _⟩ => show win11_2.index t (0 : Fin 2) * 128 + 1 * (a 0).val = (a 0).val; omega
    | ⟨1, _⟩ => show win11_2.index t (1 : Fin 2) * 128 + 1 * (a 1).val = (a 1).val; omega
  show (V c (Pipeline.arrRef spec11 2)) (((cfg11.win 2).blk t).view.emb a) = (V c (Pipeline.arrRef spec11 2)) a
  rw [h]

/-- Window 3's block (the first layer's bias row) is its whole array, at every point. -/
theorem read11_3 (V : (c : Dev nD) → (b : Ref sig .tc) → Buf (Elt Ideal) ((c : Thread nD τ).loc b)) (c : Dev nD) (t : Fin cfg11.N) (a : S1x128.Idx) :
    iblk11 V c 3 t a = (V c (Pipeline.arrRef spec11 3)) a := by
  have h : ((cfg11.win 3).blk t).view.emb a = (a : S1x128.Idx) := by
    obtain ⟨e00, e01, e10, e11, e20, e21, e30, e31, e40, e41, e50, e51, e60, e61⟩ := idx_facts11 t
    funext b; apply Fin.ext
    match b with
    | ⟨0, _⟩ => show win11_3.index t (0 : Fin 2) * 1 + 1 * (a 0).val = (a 0).val; omega
    | ⟨1, _⟩ => show win11_3.index t (1 : Fin 2) * 128 + 1 * (a 1).val = (a 1).val; omega
  show (V c (Pipeline.arrRef spec11 3)) (((cfg11.win 3).blk t).view.emb a) = (V c (Pipeline.arrRef spec11 3)) a
  rw [h]

/-- Window 4's block (the second layer's weights) is its whole array, at every point. -/
theorem read11_4 (V : (c : Dev nD) → (b : Ref sig .tc) → Buf (Elt Ideal) ((c : Thread nD τ).loc b)) (c : Dev nD) (t : Fin cfg11.N) (a : S128x3.Idx) :
    iblk11 V c 4 t a = (V c (Pipeline.arrRef spec11 4)) a := by
  have h : ((cfg11.win 4).blk t).view.emb a = (a : S128x3.Idx) := by
    obtain ⟨e00, e01, e10, e11, e20, e21, e30, e31, e40, e41, e50, e51, e60, e61⟩ := idx_facts11 t
    funext b; apply Fin.ext
    match b with
    | ⟨0, _⟩ => show win11_4.index t (0 : Fin 2) * 128 + 1 * (a 0).val = (a 0).val; omega
    | ⟨1, _⟩ => show win11_4.index t (1 : Fin 2) * 3 + 1 * (a 1).val = (a 1).val; omega
  show (V c (Pipeline.arrRef spec11 4)) (((cfg11.win 4).blk t).view.emb a) = (V c (Pipeline.arrRef spec11 4)) a
  rw [h]

/-- Window 5's block (the second layer's bias row) is its whole array, at every point. -/
theorem read11_5 (V : (c : Dev nD) → (b : Ref sig .tc) → Buf (Elt Ideal) ((c : Thread nD τ).loc b)) (c : Dev nD) (t : Fin cfg11.N) (a : S1x3.Idx) :
    iblk11 V c 5 t a = (V c (Pipeline.arrRef spec11 5)) a := by
  have h : ((cfg11.win 5).blk t).view.emb a = (a : S1x3.Idx) := by
    obtain ⟨e00, e01, e10, e11, e20, e21, e30, e31, e40, e41, e50, e51, e60, e61⟩ := idx_facts11 t
    funext b; apply Fin.ext
    match b with
    | ⟨0, _⟩ => show win11_5.index t (0 : Fin 2) * 1 + 1 * (a 0).val = (a 0).val; omega
    | ⟨1, _⟩ => show win11_5.index t (1 : Fin 2) * 3 + 1 * (a 1).val = (a 1).val; omega
  show (V c (Pipeline.arrRef spec11 5)) (((cfg11.win 5).blk t).view.emb a) = (V c (Pipeline.arrRef spec11 5)) a
  rw [h]

/-! ## What a point writes back -/

/-- Point `t` writes back the payload of the six blocks at `t`: the body loads each buffer whole and stores once, over
    the whole output block. -/
theorem flushed11_6_pay (V : (c : Dev nD) → (b : Ref sig .tc) → Buf (Elt Ideal) ((c : Thread nD τ).loc b)) (c : Dev nD) (t : Fin cfg11.N) :
    (dat11 (F := Ideal) V c).flushed 6 t
      = (cfg11.win 6).cut (grid11.coords t) (k11_pay1 (F := Ideal) (iblk11 V c 0 t) (iblk11 V c 2 t) (iblk11 V c 3 t) (iblk11 V c 4 t) (iblk11 V c 5 t) (iblk11 V c 1 t)) := by
  show (cfg11.win 6).cut (grid11.coords t) ((dat11 V c).after 6 t) = _
  rw [after11_6]
  unfold out11_6
  rw [View.canon_unit_zero hz11]
  simp only [View.ld_unit_zero (S := S1000x128) hz11, View.ld_unit_zero (S := S128x128) hz11, View.ld_unit_zero (S := S1x128) hz11,
    View.ld_unit_zero (S := S128x3) hz11, View.ld_unit_zero (S := S1x3) hz11, View.ld_unit_zero (S := S1000x3) hz11]

/-- Point `t` writes back block `t` of `G11_6` of the arrays as the region finds them. -/
theorem flushed11_6_eq (V : (c : Dev nD) → (b : Ref sig .tc) → Buf (Elt Ideal) ((c : Thread nD τ).loc b)) (c : Dev nD) (t : Fin cfg11.N) :
    (dat11 (F := Ideal) V c).flushed 6 t
      = ((cfg11.win 6).blk t).view.read (Elt Ideal) (G11_6 (V c (Pipeline.arrRef spec11 0)) (V c (Pipeline.arrRef spec11 1)) (V c (Pipeline.arrRef spec11 2)) (V c (Pipeline.arrRef spec11 3)) (V c (Pipeline.arrRef spec11 4)) (V c (Pipeline.arrRef spec11 5))) := by
  rw [flushed11_6_pay]
  obtain ⟨e00, e01, e10, e11, e20, e21, e30, e31, e40, e41, e50, e51, e60, e61⟩ := idx_facts11 t
  funext j
  have hj0 : (j 0).val < 1000 := (j 0).isLt
  have hr : win11_6.index t (0 : Fin 2) * 1000 + (j 0).val < 5000 := by omega
  show k11_pay1 (F := Ideal) (iblk11 V c 0 t) (iblk11 V c 2 t) (iblk11 V c 3 t) (iblk11 V c 4 t) (iblk11 V c 5 t) (iblk11 V c 1 t) j = G11_6 (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) (((cfg11.win 6).blk t).view.emb j)
  rw [emb11_6 t j hr]
  exact pay11_at (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) (iblk11 V c 0 t) (iblk11 V c 2 t) (iblk11 V c 3 t) (iblk11 V c 4 t) (iblk11 V c 5 t) (iblk11 V c 1 t) j _ rfl
    (fun k => read11_0 V c t (j 0) k hr) (read11_1 V c t j hr) (read11_2 V c t) (read11_3 V c t) (read11_4 V c t) (read11_5 V c t)

/-! ## The blocks tile the array -/

/-- An index of the array is in point `t`'s block iff each coordinate is in the block's range on its axis. -/
theorem mem_blk11_6 (t : Fin cfg11.N) (i : S5000x3.Idx) :
    i ∈ ((cfg11.win 6).blk t).view.set ↔ ∀ a : Fin 2, win11_6.index t a * S1000x3.size a ≤ (i a).val ∧ (i a).val < win11_6.index t a * S1000x3.size a + S1000x3.size a := by
  show i ∈ ((View.whole main_v314).slice (win11_6.rect t)).set ↔ _
  rw [View.set_slice_whole, Rect.mem_set_unit]
  exact Iff.rfl

/-- Row r of the array lies in block r / 1000, and every block is written back. -/
theorem covered11_6 (i : S5000x3.Idx) : ∃ t : Fin cfg11.N, (cfg11.win 6).flush t = true ∧ i ∈ ((cfg11.win 6).blk t).view.set := by
  have hi0 : (i 0).val < 5000 := (i 0).isLt
  have hi1 : (i 1).val < 3 := (i 1).isLt
  obtain ⟨t, ht⟩ := idx_onto11 ⟨(i 0).val / 1000, by omega⟩
  have q0 : win11_6.index t (0 : Fin 2) = (i 0).val / 1000 := congrFun ht 0
  have q1 : win11_6.index t (1 : Fin 2) = 0 := congrFun ht 1
  refine ⟨t, flush11_6 t, ?_⟩
  rw [mem_blk11_6]
  intro a
  match a with
  | ⟨0, _⟩ => show win11_6.index t (0 : Fin 2) * 1000 ≤ (i 0).val ∧ (i 0).val < win11_6.index t (0 : Fin 2) * 1000 + 1000; omega
  | ⟨1, _⟩ => show win11_6.index t (1 : Fin 2) * 3 ≤ (i 1).val ∧ (i 1).val < win11_6.index t (1 : Fin 2) * 3 + 3; omega

/-! ## The array after the region -/

/-- The output array after the region is `G11_6` of the six arrays as the region found them. -/
theorem final11_6 (V : (c : Dev nD) → (b : Ref sig .tc) → Buf (Elt Ideal) ((c : Thread nD τ).loc b)) (c : Dev nD) :
    (dat11 (F := Ideal) V c).arrAt 6 cfg11.N = G11_6 (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) :=
  (dat11 (F := Ideal) V c).arrAt_eq_of_cover 6 _ (fun t _ => flushed11_6_eq V c t) covered11_6

end Cert.KernelIdeal.Hand

end
-- ==== Proof.KI.Val12.lean ====
/-
  Region 12 (position embedding): the value of its output array after the pipeline, at the ideal values.

  The output array has 5000 rows of 128 entries, written back in 5 blocks of 1000 rows. Row r of the result is
  relu(relu(p_r · W1 + b1) · W2 + b2) + xs_r: it reads row r of p and of xs and the whole of W1, b1, W2, b2. The body's
  payload on a block of rows is therefore the same block of rows of that function of the whole arrays; each point
  writes back its block of it, the blocks cover the array, and so the array ends holding it.
-/
import proofs.«147763_j11003706212366_2_alg».proof.Proof.KI.Reg12
import proofs.«147763_j11003706212366_2_alg».proof.Proof.LibChipRow
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.LibDense Cert.LibChipRow

/-! ## The function of the whole arrays -/

/-- Entry (r, q) of relu(relu(p · W1 + b1) · W2 + b2) + xs, from the arrays p, xs, W1, b1, W2, b2 (in window order;
    the biases are one-row matrices, read as vectors by `rowVec`; relu is max · 0). -/
def G12_6 (a0 : S5000x3.Idx → EReal) (a1 : S5000x128.Idx → EReal) (a2 : S3x128.Idx → EReal) (a3 : S1x128.Idx → EReal)
    (a4 : S128x128.Idx → EReal) (a5 : S1x128.Idx → EReal) : S5000x128.Idx → EReal :=
  fun i => max (denseAt (M := 5000) (K := 128) (N := 128)
      (fun j => max (denseAt (M := 5000) (K := 3) (N := 128) a0 a2 (rowVec a3) (j 0) (j 1)) 0) a4 (rowVec a5) (i 0) (i 1)) 0 + a1 i

/-- `G12_6` at (r, q), spelled out. -/
theorem G12_6_apply (a0 : S5000x3.Idx → EReal) (a1 : S5000x128.Idx → EReal) (a2 : S3x128.Idx → EReal) (a3 : S1x128.Idx → EReal)
    (a4 : S128x128.Idx → EReal) (a5 : S1x128.Idx → EReal) (r : Fin 5000) (q : Fin 128) :
    G12_6 a0 a1 a2 a3 a4 a5 (ix2 r q) = max (denseAt (M := 5000) (K := 128) (N := 128)
      (fun j => max (denseAt (M := 5000) (K := 3) (N := 128) a0 a2 (rowVec a3) (j 0) (j 1)) 0) a4 (rowVec a5) r q) 0 + a1 (ix2 r q) := rfl

/-- Row locality: the same expression computed from a block of rows of p and xs (local row `p` being array row `r`)
    and from operands that agree with W1, b1, W2, b2 is the function's entry (r, q). -/
theorem G12_6_block (a0 : S5000x3.Idx → EReal) (a1 : S5000x128.Idx → EReal) (a2 : S3x128.Idx → EReal) (a3 : S1x128.Idx → EReal)
    (a4 : S128x128.Idx → EReal) (a5 : S1x128.Idx → EReal)
    (b0 : S1000x3.Idx → EReal) (b1 : S1000x128.Idx → EReal) (b2 : S3x128.Idx → EReal) (b3 : S1x128.Idx → EReal)
    (b4 : S128x128.Idx → EReal) (b5 : S1x128.Idx → EReal) (r : Fin 5000) (p : Fin 1000) (q : Fin 128)
    (h0 : ∀ k : Fin 3, b0 (ix2 p k) = a0 (ix2 r k)) (h1 : b1 (ix2 p q) = a1 (ix2 r q))
    (h2 : ∀ y, b2 y = a2 y) (h3 : ∀ y, b3 y = a3 y) (h4 : ∀ y, b4 y = a4 y) (h5 : ∀ y, b5 y = a5 y) :
    max (denseAt (M := 1000) (K := 128) (N := 128)
      (fun j => max (denseAt (M := 1000) (K := 3) (N := 128) b0 b2 (rowVec b3) (j 0) (j 1)) 0) b4 (rowVec b5) p q) 0 + b1 (ix2 p q)
      = G12_6 a0 a1 a2 a3 a4 a5 (ix2 r q) := by
  obtain rfl : b2 = a2 := funext h2
  obtain rfl : b3 = a3 := funext h3
  obtain rfl : b4 = a4 := funext h4
  obtain rfl : b5 = a5 := funext h5
  rw [G12_6_apply, h1]
  refine congrArg (fun z => max z 0 + a1 (ix2 r q)) ?_
  refine denseAt_congr (fun k => ?_) (fun _ => rfl) rfl
  exact congrArg (fun z => max z 0) (denseAt_congr h0 (fun _ => rfl) rfl)

/-! ## The payload, read at an entry -/

/-- The body's payload at (p, q): two on-chip dense layers with row biases, each followed by the positive part (the
    narrowing between them changes nothing at the ideal values), plus the xs block. -/
theorem pay12_read (v0 : Vec Ideal S1000x3 .bf16) (v2 : Vec Ideal S3x128 .bf16) (v5 : Vec Ideal S1x128 .f32)
    (v12 : Vec Ideal S128x128 .bf16) (v15 : Vec Ideal S1x128 .f32) (v21 : Vec Ideal S1000x128 .f32) (p : Fin 1000) (q : Fin 128) :
    k12_pay1 v0 v2 v5 v12 v15 v21 (ix2 p q)
      = max (denseAt (M := 1000) (K := 128) (N := 128)
      (fun j => max (denseAt (M := 1000) (K := 3) (N := 128) v0 v2 (rowVec v5) (j 0) (j 1)) 0) v12 (rowVec v15) p q) 0 + v21 (ix2 p q) := by
  unfold k12_pay1
  simp only [shapeCast_self]
  refine (addf_apply _ _ _).trans (congrArg (· + v21 (ix2 p q)) ?_)
  refine (chip_dense_row_relu_apply (φ₁ := .bf16) (φ₂ := .bf16) 1000 128 128 (by decide) _ _ v12 v15 p q).trans ?_
  refine congrArg (fun z => max z 0) (denseAt_congr (fun k => ?_) (fun _ => rfl) rfl)
  exact chip_dense_row_relu_apply (φ₁ := .bf16) (φ₂ := .bf16) 1000 3 128 (by decide) _ v0 v2 v5 p k

section Value12
variable (V : (c : Dev nD) → (b : Ref sig .tc) → Buf (Elt Ideal) ((c : Thread nD τ).loc b))

/-! ## The index maps, decided over the grid -/

theorem hz12 : (![0, 0] : Fin 2 → Nat) = fun _ => 0 := funext fun a => by fin_cases a <;> rfl

/-- The row windows (p, xs) move with the output's row block and stay at column block 0; the output's row block is
    at most 4. -/
theorem idx12_rows : ∀ t : Fin cfg12.N,
    win12_0.index t (0 : Fin 2) = win12_6.index t (0 : Fin 2) ∧ win12_0.index t (1 : Fin 2) = 0
    ∧ win12_1.index t (0 : Fin 2) = win12_6.index t (0 : Fin 2) ∧ win12_1.index t (1 : Fin 2) = 0
    ∧ win12_6.index t (0 : Fin 2) ≤ 4 ∧ win12_6.index t (1 : Fin 2) = 0 :=
  (by decide +kernel : ∀ t : Fin grid12.N, _)

/-- The weight and bias windows stay at block (0, 0). -/
theorem idx12_whole : ∀ t : Fin cfg12.N,
    (win12_2.index t (0 : Fin 2) = 0 ∧ win12_2.index t (1 : Fin 2) = 0)
    ∧ (win12_3.index t (0 : Fin 2) = 0 ∧ win12_3.index t (1 : Fin 2) = 0)
    ∧ (win12_4.index t (0 : Fin 2) = 0 ∧ win12_4.index t (1 : Fin 2) = 0)
    ∧ (win12_5.index t (0 : Fin 2) = 0 ∧ win12_5.index t (1 : Fin 2) = 0) :=
  (by decide +kernel : ∀ t : Fin grid12.N, _)

/-- Every row block of the output is some point's. -/
theorem idx12_onto : ∀ q0 : Fin 5, ∃ t : Fin cfg12.N, win12_6.index t = ![q0.val, 0] :=
  (by decide +kernel : ∀ q0 : Fin 5, ∃ t : Fin grid12.N, win12_6.index t = ![q0.val, 0])

/-- The array row of local row `p` of the block at point `t`. -/
def row12 (t : Fin cfg12.N) (p : Fin 1000) : Fin 5000 :=
  ⟨win12_6.index t (0 : Fin 2) * 1000 + p.val, by have := (idx12_rows t).2.2.2.2.1; have := p.isLt; omega⟩

/-! ## The blocks, read at an entry -/

/-- Entry (p, q) of the output's block at `t` sits in the array at (row12 t p, q). -/
theorem emb12_6 (t : Fin cfg12.N) (p : Fin 1000) (q : Fin 128) :
    ((cfg12.win 6).blk t).view.emb (ix2 p q : S1000x128.Idx) = (ix2 (row12 t p) q : S5000x128.Idx) := by
  obtain ⟨-, -, -, -, -, e1⟩ := idx12_rows t
  funext a; apply Fin.ext
  match a with
  | ⟨0, _⟩ => show win12_6.index t (0 : Fin 2) * 1000 + 1 * p.val = win12_6.index t (0 : Fin 2) * 1000 + p.val; omega
  | ⟨1, _⟩ => show win12_6.index t (1 : Fin 2) * 128 + 1 * q.val = q.val; omega

/-- The p block at `t`, at (p, k), is the array at (row12 t p, k). -/
theorem iblk12_0_apply (c : Dev nD) (t : Fin cfg12.N) (p : Fin 1000) (k : Fin 3) :
    iblk12 V c 0 t (ix2 p k : S1000x3.Idx) = V c (Pipeline.arrRef spec12 0) (ix2 (row12 t p) k : S5000x3.Idx) := by
  obtain ⟨e0, e1, -⟩ := idx12_rows t
  show V c (Pipeline.arrRef spec12 0) (((cfg12.win 0).blk t).view.emb (ix2 p k : S1000x3.Idx)) = _
  refine congrArg _ (funext fun a => Fin.ext ?_)
  match a with
  | ⟨0, _⟩ => show win12_0.index t (0 : Fin 2) * 1000 + 1 * p.val = win12_6.index t (0 : Fin 2) * 1000 + p.val; omega
  | ⟨1, _⟩ => show win12_0.index t (1 : Fin 2) * 3 + 1 * k.val = k.val; omega

/-- The xs block at `t`, at (p, q), is the array at (row12 t p, q). -/
theorem iblk12_1_apply (c : Dev nD) (t : Fin cfg12.N) (p : Fin 1000) (q : Fin 128) :
    iblk12 V c 1 t (ix2 p q : S1000x128.Idx) = V c (Pipeline.arrRef spec12 1) (ix2 (row12 t p) q : S5000x128.Idx) := by
  obtain ⟨-, -, e0, e1, -⟩ := idx12_rows t
  show V c (Pipeline.arrRef spec12 1) (((cfg12.win 1).blk t).view.emb (ix2 p q : S1000x128.Idx)) = _
  refine congrArg _ (funext fun a => Fin.ext ?_)
  match a with
  | ⟨0, _⟩ => show win12_1.index t (0 : Fin 2) * 1000 + 1 * p.val = win12_6.index t (0 : Fin 2) * 1000 + p.val; omega
  | ⟨1, _⟩ => show win12_1.index t (1 : Fin 2) * 128 + 1 * q.val = q.val; omega

/-- Window 2 is its whole array at every point: its block reads the array. -/
theorem iblk12_2_apply (c : Dev nD) (t : Fin cfg12.N) (y : S3x128.Idx) :
    iblk12 V c 2 t y = V c (Pipeline.arrRef spec12 2) y := by
  obtain ⟨e0, e1⟩ := (idx12_whole t).1
  show V c (Pipeline.arrRef spec12 2) (((cfg12.win 2).blk t).view.emb y) = V c (Pipeline.arrRef spec12 2) y
  refine congrArg _ (funext fun a => Fin.ext ?_)
  match a with
  | ⟨0, _⟩ => show win12_2.index t (0 : Fin 2) * 3 + 1 * (y 0).val = (y 0).val; omega
  | ⟨1, _⟩ => show win12_2.index t (1 : Fin 2) * 128 + 1 * (y 1).val = (y 1).val; omega

/-- Window 3 is its whole array at every point: its block reads the array. -/
theorem iblk12_3_apply (c : Dev nD) (t : Fin cfg12.N) (y : S1x128.Idx) :
    iblk12 V c 3 t y = V c (Pipeline.arrRef spec12 3) y := by
  obtain ⟨e0, e1⟩ := (idx12_whole t).2.1
  show V c (Pipeline.arrRef spec12 3) (((cfg12.win 3).blk t).view.emb y) = V c (Pipeline.arrRef spec12 3) y
  refine congrArg _ (funext fun a => Fin.ext ?_)
  match a with
  | ⟨0, _⟩ => show win12_3.index t (0 : Fin 2) * 1 + 1 * (y 0).val = (y 0).val; omega
  | ⟨1, _⟩ => show win12_3.index t (1 : Fin 2) * 128 + 1 * (y 1).val = (y 1).val; omega

/-- Window 4 is its whole array at every point: its block reads the array. -/
theorem iblk12_4_apply (c : Dev nD) (t : Fin cfg12.N) (y : S128x128.Idx) :
    iblk12 V c 4 t y = V c (Pipeline.arrRef spec12 4) y := by
  obtain ⟨e0, e1⟩ := (idx12_whole t).2.2.1
  show V c (Pipeline.arrRef spec12 4) (((cfg12.win 4).blk t).view.emb y) = V c (Pipeline.arrRef spec12 4) y
  refine congrArg _ (funext fun a => Fin.ext ?_)
  match a with
  | ⟨0, _⟩ => show win12_4.index t (0 : Fin 2) * 128 + 1 * (y 0).val = (y 0).val; omega
  | ⟨1, _⟩ => show win12_4.index t (1 : Fin 2) * 128 + 1 * (y 1).val = (y 1).val; omega

/-- Window 5 is its whole array at every point: its block reads the array. -/
theorem iblk12_5_apply (c : Dev nD) (t : Fin cfg12.N) (y : S1x128.Idx) :
    iblk12 V c 5 t y = V c (Pipeline.arrRef spec12 5) y := by
  obtain ⟨e0, e1⟩ := (idx12_whole t).2.2.2
  show V c (Pipeline.arrRef spec12 5) (((cfg12.win 5).blk t).view.emb y) = V c (Pipeline.arrRef spec12 5) y
  refine congrArg _ (funext fun a => Fin.ext ?_)
  match a with
  | ⟨0, _⟩ => show win12_5.index t (0 : Fin 2) * 1 + 1 * (y 0).val = (y 0).val; omega
  | ⟨1, _⟩ => show win12_5.index t (1 : Fin 2) * 128 + 1 * (y 1).val = (y 1).val; omega

/-! ## What a point writes back -/

/-- The payload of the blocks at point `t`, at an entry of the block, is `G12_6` of the arrays at the entry's place in
    the output array. -/
theorem flushed12_6_pt (c : Dev nD) (t : Fin cfg12.N) (j : S1000x128.Idx) :
    k12_pay1 (iblk12 V c 0 t) (iblk12 V c 2 t) (iblk12 V c 3 t) (iblk12 V c 4 t) (iblk12 V c 5 t) (iblk12 V c 1 t) j
      = G12_6 (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (((cfg12.win 6).blk t).view.emb j) := by
  obtain ⟨p, q, rfl⟩ : ∃ (p : Fin 1000) (q : Fin 128), j = ix2 p q := ⟨j 0, j 1, eq_ix2 j⟩
  refine ((pay12_read _ _ _ _ _ _ p q).trans ?_).trans
    (congrArg (G12_6 (V c (Pipeline.arrRef spec12 0)) (V c (Pipeline.arrRef spec12 1)) (V c (Pipeline.arrRef spec12 2)) (V c (Pipeline.arrRef spec12 3)) (V c (Pipeline.arrRef spec12 4)) (V c (Pipeline.arrRef spec12 5))) (emb12_6 t p q)).symm
  exact G12_6_block _ _ _ _ _ _ _ _ _ _ _ _ (row12 t p) p q (fun k => iblk12_0_apply V c t p k) (iblk12_1_apply V c t p q)
    (iblk12_2_apply V c t) (iblk12_3_apply V c t) (iblk12_4_apply V c t) (iblk12_5_apply V c t)

set_option maxHeartbeats 1000000 in
/-- Point `t` writes back its block of `G12_6` of the arrays as the region finds them. -/
theorem flushed12_6_eq (c : Dev nD) (t : Fin cfg12.N) :
    (dat12 (F := Ideal) V c).flushed 6 t
      = ((cfg12.win 6).blk t).view.read (Elt Ideal) (G12_6 (V c (Pipeline.arrRef spec12 0)) (V c (Pipeline.arrRef spec12 1)) (V c (Pipeline.arrRef spec12 2)) (V c (Pipeline.arrRef spec12 3)) (V c (Pipeline.arrRef spec12 4)) (V c (Pipeline.arrRef spec12 5))) := by
  show (cfg12.win 6).cut (grid12.coords t) ((dat12 V c).after 6 t) = _
  rw [after12_6]
  unfold out12_6
  rw [View.canon_unit_zero hz12]
  simp only [View.ld_unit_zero (S := S1000x3) hz12, View.ld_unit_zero (S := S3x128) hz12, View.ld_unit_zero (S := S1x128) hz12,
    View.ld_unit_zero (S := S128x128) hz12, View.ld_unit_zero (S := S1000x128) hz12]
  exact funext fun (j : S1000x128.Idx) => flushed12_6_pt V c t j

/-! ## The blocks cover the array -/

/-- An index of the array is in point `t`'s block iff each coordinate is in the block's range on its axis. -/
theorem mem_blk12_6 (t : Fin cfg12.N) (i : S5000x128.Idx) :
    i ∈ ((cfg12.win 6).blk t).view.set ↔ ∀ a : Fin 2, win12_6.index t a * S1000x128.size a ≤ (i a).val ∧ (i a).val < win12_6.index t a * S1000x128.size a + S1000x128.size a := by
  show i ∈ ((View.whole main_v333).slice (win12_6.rect t)).set ↔ _
  rw [View.set_slice_whole, Rect.mem_set_unit]
  exact Iff.rfl

/-- Row r lies in the block of point r / 1000. -/
theorem blocks_cover12_6 (i : S5000x128.Idx) :
    ∃ t : Fin cfg12.N, (cfg12.win 6).flush t = true ∧ i ∈ ((cfg12.win 6).blk t).view.set := by
  have hi0 : (i 0).val < 5000 := (i 0).isLt
  have hi1 : (i 1).val < 128 := (i 1).isLt
  obtain ⟨t, ht⟩ := idx12_onto ⟨(i 0).val / 1000, by omega⟩
  have q0 : win12_6.index t (0 : Fin 2) = (i 0).val / 1000 := congrFun ht 0
  have q1 : win12_6.index t (1 : Fin 2) = 0 := congrFun ht 1
  refine ⟨t, flush12_6 t, ?_⟩
  rw [mem_blk12_6]
  intro a
  match a with
  | ⟨0, _⟩ => show win12_6.index t (0 : Fin 2) * 1000 ≤ (i 0).val ∧ (i 0).val < win12_6.index t (0 : Fin 2) * 1000 + 1000; omega
  | ⟨1, _⟩ => show win12_6.index t (1 : Fin 2) * 128 ≤ (i 1).val ∧ (i 1).val < win12_6.index t (1 : Fin 2) * 128 + 128; omega

/-! ## The array after the pipeline -/

/-- The output array after the pipeline is `G12_6` of the arrays as the region finds them. -/
theorem final12_6 (c : Dev nD) :
    (dat12 (F := Ideal) V c).arrAt 6 cfg12.N = G12_6 (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) :=
  (dat12 (F := Ideal) V c).arrAt_eq_of_cover 6 _ (fun t _ => flushed12_6_eq V c t) (blocks_cover12_6)

end Value12

end Cert.KernelIdeal.Hand
-- ==== Proof.KI.Val13.lean ====
/-
  The value of region 13's output array at the ideal values.

  The region embeds 80000 lengths, 4000 rows per point over 20 points:  ee = relu(relu(len · W₁ + b₁) · W₂ + b₂) + es,
  narrowed to bf16 (nothing at the ideal values). Here the array the pipeline leaves is shown to be ONE function of
  the six arrays the region is entered with, index by index: entry (P, q) is the perceptron's entry (P, q) of the
  whole arrays (`Cert.Spec.disAt`). The payload of the body's store, read at an entry of a block, is the perceptron's
  entry of the loaded blocks; a block's rows of the lengths and of the edge states are the arrays' rows at the block's
  place, and the weights are loaded whole, so that entry is the whole arrays' entry there; and the 20 blocks tile the
  array.
-/
import proofs.«147763_j11003706212366_2_alg».proof.Proof.KI.Reg13
import proofs.«147763_j11003706212366_2_alg».proof.Proof.SpecDis
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.Spec

section Value13
-- the buffer contents the region is entered with, at the ideal values
variable (V : (c : Dev nD) → (b : Ref sig .tc) → Buf (Elt Ideal) ((c : Thread nD τ).loc b))

theorem hz13 : (![0, 0] : Fin 2 → Nat) = fun _ => 0 := funext fun a => by fin_cases a <;> rfl

/-! ## The closed form -/

/-- The embedded rows as ONE function of the region's six entry arrays, in window order (lengths, edge states, first
    weight row, first bias row, second weight matrix, second bias row): entry (P, q) is the perceptron's. -/
def G13_6 (a0 : S80000x1.Idx → Elt Ideal .bf16) (a1 : S80000x128.Idx → Elt Ideal .f32) (a2 : S1x128.Idx → Elt Ideal .bf16)
    (a3 : S1x128.Idx → Elt Ideal .f32) (a4 : S128x128.Idx → Elt Ideal .bf16) (a5 : S1x128.Idx → Elt Ideal .f32) :
    S80000x128.Idx → Elt Ideal .bf16 :=
  fun i => disAt (M := 80000) (K := 1) (H := 128) (N := 128) a0 a2 a3 a4 a5 a1 (i 0) (i 1)

/-- The payload of the body's store, at entry (p, q) of the block, is the perceptron's entry (p, q) of the loaded
    blocks: the reshapes to the same shape are the identity, the rest is the on-chip spelling. -/
theorem pay13_apply (x0 : Vec Ideal S4000x1 .bf16) (x2 : Vec Ideal S1x128 .bf16) (x3 : Vec Ideal S1x128 .f32)
    (x4 : Vec Ideal S128x128 .bf16) (x5 : Vec Ideal S1x128 .f32) (x1 : Vec Ideal S4000x128 .f32) (p : Fin 4000) (q : Fin 128) :
    k13_pay1 x0 x2 x3 x4 x5 x1 (ix2 p q) = disAt (M := 4000) (K := 1) (H := 128) (N := 128) x0 x2 x3 x4 x5 x1 p q :=
  (dis_chip_apply (φ₁ := .bf16) (φ₂ := .bf16) (φ₃ := .bf16) 4000 1 128 128 (by decide) (by decide) bitsLt_bf16_f32
      broadcasts_S1x128_S4000x128 broadcasts_S1x128_S4000x128
      (shapeCast S4000x1 x0 shapeCasts_S4000x1_S4000x1) (shapeCast S1x128 x2 shapeCasts_S1x128_S1x128)
      (shapeCast S1x128 x3 shapeCasts_S1x128_S1x128) (shapeCast S128x128 x4 shapeCasts_S128x128_S128x128)
      (shapeCast S1x128 x5 shapeCasts_S1x128_S1x128) (shapeCast S4000x128 x1 shapeCasts_S4000x128_S4000x128) p q).trans
    (by simp only [shapeCast_self])

/-! ## The printed index maps -/

/-- Decided over the 20 points: the two row windows and the output sit at block row `t`, block column 0; the four
    weight windows stay at block (0, 0). -/
theorem idx_facts13 : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = t.val ∧ win13_6.index t (1 : Fin 2) = 0 :=
  (by decide +kernel : ∀ t : Fin grid13.N, _)

/-- Window 2's block is its whole array at every point: its block index stays (0, 0). -/
theorem wblk13_2 (c : Dev nD) (t : Fin cfg13.N) :
    (iblk13 V c 2 t : S1x128.Idx → Elt Ideal .bf16) = V c (Pipeline.arrRef spec13 2) := by
  obtain ⟨e00, e01, e10, e11, e20, e21, e30, e31, e40, e41, e50, e51, e60, e61⟩ := idx_facts13 t
  funext j
  show V c (Pipeline.arrRef spec13 2) (((cfg13.win 2).blk t).view.emb j) = V c (Pipeline.arrRef spec13 2) j
  refine congrArg (V c (Pipeline.arrRef spec13 2)) (funext fun a => Fin.ext ?_)
  match a with
  | ⟨0, _⟩ => show win13_2.index t (0 : Fin 2) * 1 + 1 * (j 0).val = (j 0).val; omega
  | ⟨1, _⟩ => show win13_2.index t (1 : Fin 2) * 128 + 1 * (j 1).val = (j 1).val; omega

/-- Window 3's block is its whole array at every point: its block index stays (0, 0). -/
theorem wblk13_3 (c : Dev nD) (t : Fin cfg13.N) :
    (iblk13 V c 3 t : S1x128.Idx → Elt Ideal .f32) = V c (Pipeline.arrRef spec13 3) := by
  obtain ⟨e00, e01, e10, e11, e20, e21, e30, e31, e40, e41, e50, e51, e60, e61⟩ := idx_facts13 t
  funext j
  show V c (Pipeline.arrRef spec13 3) (((cfg13.win 3).blk t).view.emb j) = V c (Pipeline.arrRef spec13 3) j
  refine congrArg (V c (Pipeline.arrRef spec13 3)) (funext fun a => Fin.ext ?_)
  match a with
  | ⟨0, _⟩ => show win13_3.index t (0 : Fin 2) * 1 + 1 * (j 0).val = (j 0).val; omega
  | ⟨1, _⟩ => show win13_3.index t (1 : Fin 2) * 128 + 1 * (j 1).val = (j 1).val; omega

/-- Window 4's block is its whole array at every point: its block index stays (0, 0). -/
theorem wblk13_4 (c : Dev nD) (t : Fin cfg13.N) :
    (iblk13 V c 4 t : S128x128.Idx → Elt Ideal .bf16) = V c (Pipeline.arrRef spec13 4) := by
  obtain ⟨e00, e01, e10, e11, e20, e21, e30, e31, e40, e41, e50, e51, e60, e61⟩ := idx_facts13 t
  funext j
  show V c (Pipeline.arrRef spec13 4) (((cfg13.win 4).blk t).view.emb j) = V c (Pipeline.arrRef spec13 4) j
  refine congrArg (V c (Pipeline.arrRef spec13 4)) (funext fun a => Fin.ext ?_)
  match a with
  | ⟨0, _⟩ => show win13_4.index t (0 : Fin 2) * 128 + 1 * (j 0).val = (j 0).val; omega
  | ⟨1, _⟩ => show win13_4.index t (1 : Fin 2) * 128 + 1 * (j 1).val = (j 1).val; omega

/-- Window 5's block is its whole array at every point: its block index stays (0, 0). -/
theorem wblk13_5 (c : Dev nD) (t : Fin cfg13.N) :
    (iblk13 V c 5 t : S1x128.Idx → Elt Ideal .f32) = V c (Pipeline.arrRef spec13 5) := by
  obtain ⟨e00, e01, e10, e11, e20, e21, e30, e31, e40, e41, e50, e51, e60, e61⟩ := idx_facts13 t
  funext j
  show V c (Pipeline.arrRef spec13 5) (((cfg13.win 5).blk t).view.emb j) = V c (Pipeline.arrRef spec13 5) j
  refine congrArg (V c (Pipeline.arrRef spec13 5)) (funext fun a => Fin.ext ?_)
  match a with
  | ⟨0, _⟩ => show win13_5.index t (0 : Fin 2) * 1 + 1 * (j 0).val = (j 0).val; omega
  | ⟨1, _⟩ => show win13_5.index t (1 : Fin 2) * 128 + 1 * (j 1).val = (j 1).val; omega

/-! ## One entry of one block -/

/-- Entry (p, q) of a block of the payload is entry (P, q) of `G13_6` when row p of the lengths' block is row P of
    the lengths, entry (p, q) of the edge states' block is entry (P, q) of the edge states, and the weight blocks are
    the weight arrays. -/
theorem point13_6 (A0 : S80000x1.Idx → Elt Ideal .bf16) (A1 : S80000x128.Idx → Elt Ideal .f32) (A2 : S1x128.Idx → Elt Ideal .bf16)
    (A3 : S1x128.Idx → Elt Ideal .f32) (A4 : S128x128.Idx → Elt Ideal .bf16) (A5 : S1x128.Idx → Elt Ideal .f32)
    (X0 : Vec Ideal S4000x1 .bf16) (X1 : Vec Ideal S4000x128 .f32) (X2 : Vec Ideal S1x128 .bf16) (X3 : Vec Ideal S1x128 .f32)
    (X4 : Vec Ideal S128x128 .bf16) (X5 : Vec Ideal S1x128 .f32) (p : Fin 4000) (q : Fin 128) (P : Fin 80000)
    (h0 : ∀ k : Fin 1, X0 (ix2 p k) = A0 (ix2 P k)) (h1 : X1 (ix2 p q) = A1 (ix2 P q))
    (h2 : X2 = A2) (h3 : X3 = A3) (h4 : X4 = A4) (h5 : X5 = A5) :
    k13_pay1 X0 X2 X3 X4 X5 X1 (ix2 p q) = G13_6 A0 A1 A2 A3 A4 A5 (ix2 P q) := by
  subst h2 h3 h4 h5
  exact (pay13_apply X0 X2 X3 X4 X5 X1 p q).trans (disAt_congr h0 h1)

/-- An index of a block is its two coordinates. -/
theorem split13_6 (j : S4000x128.Idx) : ∃ (p : Fin 4000) (q : Fin 128), j = ix2 p q := ⟨j 0, j 1, eq_ix2 j⟩

/-! ## A block's place in its array -/

/-- Entry (p, k) of point `t`'s block of window 0 (the lengths) sits at row t · 4000 + p of the array. -/
theorem emb13_0 (t : Fin cfg13.N) (p : Fin 4000) (k : Fin 1) (hP : t.val * 4000 + p.val < 80000) :
    ((cfg13.win 0).blk t).view.emb (ix2 p k) = (ix2 (⟨t.val * 4000 + p.val, hP⟩ : Fin 80000) k : S80000x1.Idx) := by
  obtain ⟨e00, e01, e10, e11, e20, e21, e30, e31, e40, e41, e50, e51, e60, e61⟩ := idx_facts13 t
  funext a; apply Fin.ext
  match a with
  | ⟨0, _⟩ => show win13_0.index t (0 : Fin 2) * 4000 + 1 * p.val = t.val * 4000 + p.val; omega
  | ⟨1, _⟩ => show win13_0.index t (1 : Fin 2) * 1 + 1 * k.val = k.val; omega

/-- Entry (p, q) of point `t`'s block of window 1 (the edge states) sits at row t · 4000 + p of the array. -/
theorem emb13_1 (t : Fin cfg13.N) (p : Fin 4000) (q : Fin 128) (hP : t.val * 4000 + p.val < 80000) :
    ((cfg13.win 1).blk t).view.emb (ix2 p q) = (ix2 (⟨t.val * 4000 + p.val, hP⟩ : Fin 80000) q : S80000x128.Idx) := by
  obtain ⟨e00, e01, e10, e11, e20, e21, e30, e31, e40, e41, e50, e51, e60, e61⟩ := idx_facts13 t
  funext a; apply Fin.ext
  match a with
  | ⟨0, _⟩ => show win13_1.index t (0 : Fin 2) * 4000 + 1 * p.val = t.val * 4000 + p.val; omega
  | ⟨1, _⟩ => show win13_1.index t (1 : Fin 2) * 128 + 1 * q.val = q.val; omega

/-- Entry (p, q) of point `t`'s block of window 6 (the output) sits at row t · 4000 + p of the array. -/
theorem emb13_6 (t : Fin cfg13.N) (p : Fin 4000) (q : Fin 128) (hP : t.val * 4000 + p.val < 80000) :
    ((cfg13.win 6).blk t).view.emb (ix2 p q) = (ix2 (⟨t.val * 4000 + p.val, hP⟩ : Fin 80000) q : S80000x128.Idx) := by
  obtain ⟨e00, e01, e10, e11, e20, e21, e30, e31, e40, e41, e50, e51, e60, e61⟩ := idx_facts13 t
  funext a; apply Fin.ext
  match a with
  | ⟨0, _⟩ => show win13_6.index t (0 : Fin 2) * 4000 + 1 * p.val = t.val * 4000 + p.val; omega
  | ⟨1, _⟩ => show win13_6.index t (1 : Fin 2) * 128 + 1 * q.val = q.val; omega

/-- so the block's entry is the array's entry there. -/
theorem rows13_0 (c : Dev nD) (t : Fin cfg13.N) (p : Fin 4000) (k : Fin 1) (hP : t.val * 4000 + p.val < 80000) :
    iblk13 V c 0 t (ix2 p k) = V c (Pipeline.arrRef spec13 0) (ix2 (⟨t.val * 4000 + p.val, hP⟩ : Fin 80000) k : S80000x1.Idx) := by
  show V c (Pipeline.arrRef spec13 0) (((cfg13.win 0).blk t).view.emb (ix2 p k)) = _
  rw [emb13_0 t p k hP]

/-- so the block's entry is the array's entry there. -/
theorem rows13_1 (c : Dev nD) (t : Fin cfg13.N) (p : Fin 4000) (q : Fin 128) (hP : t.val * 4000 + p.val < 80000) :
    iblk13 V c 1 t (ix2 p q) = V c (Pipeline.arrRef spec13 1) (ix2 (⟨t.val * 4000 + p.val, hP⟩ : Fin 80000) q : S80000x128.Idx) := by
  show V c (Pipeline.arrRef spec13 1) (((cfg13.win 1).blk t).view.emb (ix2 p q)) = _
  rw [emb13_1 t p q hP]

/-! ## What a point writes back -/

/-- WHAT POINT `t` WRITES BACK is block `t` of `G13_6` of the arrays the region is entered with. -/
theorem flushed13_6_eq (c : Dev nD) (t : Fin cfg13.N) :
    (dat13 (F := Ideal) V c).flushed 6 t = ((cfg13.win 6).blk t).view.read (Elt Ideal)
      (G13_6 (V c (Pipeline.arrRef spec13 0)) (V c (Pipeline.arrRef spec13 1)) (V c (Pipeline.arrRef spec13 2)) (V c (Pipeline.arrRef spec13 3)) (V c (Pipeline.arrRef spec13 4)) (V c (Pipeline.arrRef spec13 5))) := by
  show (cfg13.win 6).cut (grid13.coords t) ((dat13 V c).after 6 t) = _
  rw [after13_6]
  unfold out13_6
  rw [View.canon_unit_zero hz13]
  simp only [View.ld_unit_zero (S := S4000x1) hz13, View.ld_unit_zero (S := S1x128) hz13,
    View.ld_unit_zero (S := S128x128) hz13, View.ld_unit_zero (S := S4000x128) hz13]
  have ht : t.val < 20 := lt_of_lt_of_eq t.isLt N_13
  funext j
  obtain ⟨p, q, rfl⟩ := split13_6 j
  have hp : p.val < 4000 := p.isLt
  have hP : t.val * 4000 + p.val < 80000 := by omega
  show k13_pay1 (iblk13 V c 0 t) (iblk13 V c 2 t) (iblk13 V c 3 t) (iblk13 V c 4 t) (iblk13 V c 5 t) (iblk13 V c 1 t) (ix2 p q)
    = G13_6 (V c (Pipeline.arrRef spec13 0)) (V c (Pipeline.arrRef spec13 1)) (V c (Pipeline.arrRef spec13 2)) (V c (Pipeline.arrRef spec13 3)) (V c (Pipeline.arrRef spec13 4)) (V c (Pipeline.arrRef spec13 5)) (((cfg13.win 6).blk t).view.emb (ix2 p q))
  rw [emb13_6 t p q hP]
  exact point13_6 (V c (Pipeline.arrRef spec13 0)) (V c (Pipeline.arrRef spec13 1)) (V c (Pipeline.arrRef spec13 2)) (V c (Pipeline.arrRef spec13 3)) (V c (Pipeline.arrRef spec13 4)) (V c (Pipeline.arrRef spec13 5))
    (iblk13 V c 0 t) (iblk13 V c 1 t) (iblk13 V c 2 t) (iblk13 V c 3 t) (iblk13 V c 4 t) (iblk13 V c 5 t) p q ⟨t.val * 4000 + p.val, hP⟩
    (fun k => rows13_0 V c t p k hP) (rows13_1 V c t p q hP)
    (wblk13_2 V c t) (wblk13_3 V c t) (wblk13_4 V c t) (wblk13_5 V c t)

/-! ## The blocks tile the array -/

/-- An index of the array is in point `t`'s block iff each coordinate is in the block's range on its axis. -/
theorem mem_blk13_6 (t : Fin cfg13.N) (i : S80000x128.Idx) :
    i ∈ ((cfg13.win 6).blk t).view.set ↔ ∀ a : Fin 2, win13_6.index t a * S4000x128.size a ≤ (i a).val ∧ (i a).val < win13_6.index t a * S4000x128.size a + S4000x128.size a := by
  show i ∈ ((View.whole main_v355).slice (win13_6.rect t)).set ↔ _
  rw [View.set_slice_whole, Rect.mem_set_unit]
  exact Iff.rfl

/-- Every index of the array is in some point's block: row P lies in block P / 4000. -/
theorem cover_blk13_6 (i : S80000x128.Idx) :
    ∃ t : Fin cfg13.N, (cfg13.win 6).flush t = true ∧ i ∈ ((cfg13.win 6).blk t).view.set := by
  have hi0 : (i 0).val < 80000 := (i 0).isLt
  have hi1 : (i 1).val < 128 := (i 1).isLt
  have hlt : (i 0).val / 4000 < cfg13.N := lt_of_lt_of_eq (by omega : (i 0).val / 4000 < 20) N_13.symm
  refine ⟨⟨(i 0).val / 4000, hlt⟩, flush13_6 _, ?_⟩
  obtain ⟨e00, e01, e10, e11, e20, e21, e30, e31, e40, e41, e50, e51, e60, e61⟩ := idx_facts13 ⟨(i 0).val / 4000, hlt⟩
  have e60' : win13_6.index ⟨(i 0).val / 4000, hlt⟩ (0 : Fin 2) = (i 0).val / 4000 := e60
  rw [mem_blk13_6]
  intro a
  match a with
  | ⟨0, _⟩ => show win13_6.index ⟨(i 0).val / 4000, hlt⟩ (0 : Fin 2) * 4000 ≤ (i 0).val ∧ (i 0).val < win13_6.index ⟨(i 0).val / 4000, hlt⟩ (0 : Fin 2) * 4000 + 4000; omega
  | ⟨1, _⟩ => show win13_6.index ⟨(i 0).val / 4000, hlt⟩ (1 : Fin 2) * 128 ≤ (i 1).val ∧ (i 1).val < win13_6.index ⟨(i 0).val / 4000, hlt⟩ (1 : Fin 2) * 128 + 128; omega

/-! ## The array after the run -/

/-- THE ARRAY the pipeline leaves: `G13_6` of the arrays the region is entered with. -/
theorem final13_6 (c : Dev nD) : (dat13 (F := Ideal) V c).arrAt 6 cfg13.N
    = G13_6 (V c (Pipeline.arrRef spec13 0)) (V c (Pipeline.arrRef spec13 1)) (V c (Pipeline.arrRef spec13 2)) (V c (Pipeline.arrRef spec13 3)) (V c (Pipeline.arrRef spec13 4)) (V c (Pipeline.arrRef spec13 5)) :=
  (dat13 V c).arrAt_eq_of_cover 6 _ (fun t _ => flushed13_6_eq V c t) cover_blk13_6

end Value13

end Cert.KernelIdeal.Hand
-- ==== Proof.KI.Val14.lean ====
/-
  The edge-update region 14 at the ideal values: what its two output arrays hold after the region, as functions of the
  arrays the region reads.

  Every grid point t computes 2000 rows. Row p of the first output block is
      max (max (max (a·Wa + b·Wb + c·Wc + d·Wd + b1) 0 · W2 + b2) 0 · W3 + b3) 0
  at row p of the blocks of a, b, c, d, and the second output block adds the block of the old edge array: the functions
  `Spec.edgeE1` and `Spec.edgeEs` at height 2000. Block t of a row-tiled array is its rows 2000 t … 2000 t + 1999, and
  the block of a weight or bias array is the whole array, so what point t writes back is block t of the same functions of
  the whole arrays (their entries read one row of the inputs). The 40 blocks cover the 80000 rows: row r lies in block
  r / 2000. So each output array ends holding the function of the whole arrays.
-/
import proofs.«147763_j11003706212366_2_alg».proof.Proof.KI.Reg14
import proofs.«147763_j11003706212366_2_alg».proof.Proof.SpecEdge
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.LibDense Cert.LibReluDense Cert.DenseRows Cert.Spec

/-! ## The payloads, as functions of the blocks -/

theorem dot14_a : dot_S2000x128_S128x512_S2000x512_1_0_0_1_n_n = DotDims.plain 2000 128 512 := rfl
theorem dot14_b : dot_S2000x512_S512x512_S2000x512_1_0_0_1_n_n = DotDims.plain 2000 512 512 := rfl
theorem dot14_c : dot_S2000x512_S512x128_S2000x128_1_0_0_1_n_n = DotDims.plain 2000 512 128 := rfl

/-- The part's payload: the first hidden array of the blocks, against the second weight matrix. -/
theorem pay14_3_eq (v0 : Vec Ideal S2000x128 .bf16) (v2 : Vec Ideal S128x512 .bf16) (v5 : Vec Ideal S2000x128 .bf16) (v7 : Vec Ideal S128x512 .bf16)
    (v11 : Vec Ideal S2000x128 .bf16) (v13 : Vec Ideal S128x512 .bf16) (v17 : Vec Ideal S2000x128 .bf16) (v19 : Vec Ideal S128x512 .bf16)
    (v23 : Vec Ideal S1x512 .f32) (v30 : Vec Ideal S512x512 .bf16) :
    k14_pay3 v0 v2 v5 v7 v11 v13 v17 v19 v23 v30 = mul (edgeHid4 v0 v5 v11 v17 v2 v7 v13 v19 v23) v30 := by
  unfold k14_pay3
  refine (edge_chip_mul (φ₁ := .bf16) (φ₂ := .bf16) 2000 512 512 _ dot14_b shapeCasts_S512x512_S512x512 _ v30).trans ?_
  refine congrArg (mul · v30) ?_
  refine (edge_chip_truncPosAddRow (ψ := .bf16) (by decide) bitsLt_bf16_f32 shapeCasts_S1x512_S1x512 broadcasts_S1x512_S2000x512 _ v23).trans ?_
  unfold edgeHid4
  refine congrArg (fun z => pos (addRow z v23)) ?_
  exact congrArg₂ addf (congrArg₂ addf (congrArg₂ addf
      (edge_chip_mul' (φ₁ := .bf16) (φ₂ := .bf16) 2000 128 512 _ dot14_a shapeCasts_S2000x128_S2000x128 shapeCasts_S128x512_S128x512 v0 v2)
      (edge_chip_mul' (φ₁ := .bf16) (φ₂ := .bf16) 2000 128 512 _ dot14_a shapeCasts_S2000x128_S2000x128 shapeCasts_S128x512_S128x512 v5 v7))
      (edge_chip_mul' (φ₁ := .bf16) (φ₂ := .bf16) 2000 128 512 _ dot14_a shapeCasts_S2000x128_S2000x128 shapeCasts_S128x512_S128x512 v11 v13))
      (edge_chip_mul' (φ₁ := .bf16) (φ₂ := .bf16) 2000 128 512 _ dot14_a shapeCasts_S2000x128_S2000x128 shapeCasts_S128x512_S128x512 v17 v19)

/-- The first store's payload: the last two layers. -/
theorem pay14_1_eq (v32 : FVec Ideal S2000x512 .f32) (v33 : Vec Ideal S1x512 .f32) (v40 : Vec Ideal S512x128 .bf16) (v43 : Vec Ideal S1x128 .f32) :
    k14_pay1 v32 v33 v40 v43 = reluDense (pos (addRow v32 v33)) v40 v43 := by
  unfold k14_pay1
  refine (chip_reluDense (φ₁ := .bf16) (φ₂ := .bf16) 2000 512 128 (by decide) _ dot14_c shapeCasts_S512x128_S512x128 shapeCasts_S1x128_S1x128
    broadcasts_S1x128_S2000x128 _ v40 v43).trans ?_
  exact congrArg (reluDense · v40 v43)
    (edge_chip_truncPosAddRow (ψ := .bf16) (by decide) bitsLt_bf16_f32 shapeCasts_S1x512_S1x512 broadcasts_S1x512_S2000x512 v32 v33)

/-- The first store's payload over the loaded blocks: the new edge block. -/
theorem pay14_14_eq (v0 : Vec Ideal S2000x128 .bf16) (v2 : Vec Ideal S128x512 .bf16) (v5 : Vec Ideal S2000x128 .bf16) (v7 : Vec Ideal S128x512 .bf16)
    (v11 : Vec Ideal S2000x128 .bf16) (v13 : Vec Ideal S128x512 .bf16) (v17 : Vec Ideal S2000x128 .bf16) (v19 : Vec Ideal S128x512 .bf16)
    (v23 : Vec Ideal S1x512 .f32) (v30 : Vec Ideal S512x512 .bf16) (v33 : Vec Ideal S1x512 .f32) (v40 : Vec Ideal S512x128 .bf16) (v43 : Vec Ideal S1x128 .f32) :
    k14_pay1 (k14_pay3 v0 v2 v5 v7 v11 v13 v17 v19 v23 v30) v33 v40 v43 = edgeE1 v0 v5 v11 v17 v2 v7 v13 v19 v23 v30 v33 v40 v43 := by
  rw [pay14_1_eq, pay14_3_eq, edge_posAddRow_mul]
  rfl

/-- The second store's payload over the loaded blocks: the new edge block plus the old one. -/
theorem pay14_15_eq (v0 : Vec Ideal S2000x128 .bf16) (v2 : Vec Ideal S128x512 .bf16) (v5 : Vec Ideal S2000x128 .bf16) (v7 : Vec Ideal S128x512 .bf16)
    (v11 : Vec Ideal S2000x128 .bf16) (v13 : Vec Ideal S128x512 .bf16) (v17 : Vec Ideal S2000x128 .bf16) (v19 : Vec Ideal S128x512 .bf16)
    (v23 : Vec Ideal S1x512 .f32) (v30 : Vec Ideal S512x512 .bf16) (v33 : Vec Ideal S1x512 .f32) (v40 : Vec Ideal S512x128 .bf16) (v43 : Vec Ideal S1x128 .f32)
    (v50 : Vec Ideal S2000x128 .f32) :
    k14_pay2 (k14_pay3 v0 v2 v5 v7 v11 v13 v17 v19 v23 v30) v33 v40 v43 v50 = edgeEs v0 v5 v11 v17 v50 v2 v7 v13 v19 v23 v30 v33 v40 v43 := by
  unfold k14_pay2 edgeEs
  rw [pay14_14_eq, shapeCast_self v50 shapeCasts_S2000x128_S2000x128]
  rfl

/-! ## The index maps, decided over the grid -/

/-- The row-tiled windows have block index (t, 0) at point t; the weight and bias windows (0, 0). -/
theorem idx14 : ∀ t : Fin cfg14.N,
    win14_0.index t (0 : Fin 2) = t.val ∧ win14_0.index t (1 : Fin 2) = 0
    ∧ win14_1.index t (0 : Fin 2) = t.val ∧ win14_1.index t (1 : Fin 2) = 0
    ∧ win14_2.index t (0 : Fin 2) = t.val ∧ win14_2.index t (1 : Fin 2) = 0
    ∧ win14_3.index t (0 : Fin 2) = t.val ∧ win14_3.index t (1 : Fin 2) = 0
    ∧ win14_4.index t (0 : Fin 2) = t.val ∧ win14_4.index t (1 : Fin 2) = 0
    ∧ win14_14.index t (0 : Fin 2) = t.val ∧ win14_14.index t (1 : Fin 2) = 0
    ∧ win14_15.index t (0 : Fin 2) = t.val ∧ win14_15.index t (1 : Fin 2) = 0
    ∧ win14_5.index t (0 : Fin 2) = 0 ∧ win14_5.index t (1 : Fin 2) = 0
    ∧ win14_6.index t (0 : Fin 2) = 0 ∧ win14_6.index t (1 : Fin 2) = 0
    ∧ win14_7.index t (0 : Fin 2) = 0 ∧ win14_7.index t (1 : Fin 2) = 0
    ∧ win14_8.index t (0 : Fin 2) = 0 ∧ win14_8.index t (1 : Fin 2) = 0
    ∧ win14_9.index t (0 : Fin 2) = 0 ∧ win14_9.index t (1 : Fin 2) = 0
    ∧ win14_10.index t (0 : Fin 2) = 0 ∧ win14_10.index t (1 : Fin 2) = 0
    ∧ win14_11.index t (0 : Fin 2) = 0 ∧ win14_11.index t (1 : Fin 2) = 0
    ∧ win14_12.index t (0 : Fin 2) = 0 ∧ win14_12.index t (1 : Fin 2) = 0
    ∧ win14_13.index t (0 : Fin 2) = 0 ∧ win14_13.index t (1 : Fin 2) = 0 :=
  (by decide +kernel : ∀ t : Fin grid14.N, _)

theorem lt14 (t : Fin cfg14.N) : t.val < 40 := Nat.lt_of_lt_of_eq t.isLt N_14

/-- Row p of block t of a row-tiled array is row 2000 t + p of the array. -/
def row14 (t : Fin cfg14.N) (p : Fin 2000) : Fin 80000 := ⟨t.val * 2000 + p.val, by have := lt14 t; have := p.isLt; omega⟩

theorem hz14 : (![0, 0] : Fin 2 → Nat) = fun _ => 0 := funext fun a => by fin_cases a <;> rfl

section Blocks
variable {F : FTy → Type} [FloatOps F]
variable (V : (c : Dev nD) → (b : Ref sig .tc) → Buf (Elt F) ((c : Thread nD τ).loc b))

/-- Entry (p, k) of window 0's block at point t is entry (2000 t + p, k) of its array. -/
theorem iblk14_0_at (c : Dev nD) (t : Fin cfg14.N) (p : Fin 2000) (k : Fin 128) :
    (iblk14 V c 0 t : S2000x128.Idx → Elt F .bf16) (ix2 p k) = V c (Pipeline.arrRef spec14 0) (ix2 (row14 t p) k) := by
  show V c (Pipeline.arrRef spec14 0) (((cfg14.win 0).blk t).view.emb (ix2 p k)) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx14 t
  match a with
  | ⟨0, _⟩ => show win14_0.index t (0 : Fin 2) * 2000 + 1 * p.val = t.val * 2000 + p.val; omega
  | ⟨1, _⟩ => show win14_0.index t (1 : Fin 2) * 128 + 1 * k.val = k.val; omega

/-- Entry (p, k) of window 1's block at point t is entry (2000 t + p, k) of its array. -/
theorem iblk14_1_at (c : Dev nD) (t : Fin cfg14.N) (p : Fin 2000) (k : Fin 128) :
    (iblk14 V c 1 t : S2000x128.Idx → Elt F .bf16) (ix2 p k) = V c (Pipeline.arrRef spec14 1) (ix2 (row14 t p) k) := by
  show V c (Pipeline.arrRef spec14 1) (((cfg14.win 1).blk t).view.emb (ix2 p k)) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx14 t
  match a with
  | ⟨0, _⟩ => show win14_1.index t (0 : Fin 2) * 2000 + 1 * p.val = t.val * 2000 + p.val; omega
  | ⟨1, _⟩ => show win14_1.index t (1 : Fin 2) * 128 + 1 * k.val = k.val; omega

/-- Entry (p, k) of window 2's block at point t is entry (2000 t + p, k) of its array. -/
theorem iblk14_2_at (c : Dev nD) (t : Fin cfg14.N) (p : Fin 2000) (k : Fin 128) :
    (iblk14 V c 2 t : S2000x128.Idx → Elt F .bf16) (ix2 p k) = V c (Pipeline.arrRef spec14 2) (ix2 (row14 t p) k) := by
  show V c (Pipeline.arrRef spec14 2) (((cfg14.win 2).blk t).view.emb (ix2 p k)) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx14 t
  match a with
  | ⟨0, _⟩ => show win14_2.index t (0 : Fin 2) * 2000 + 1 * p.val = t.val * 2000 + p.val; omega
  | ⟨1, _⟩ => show win14_2.index t (1 : Fin 2) * 128 + 1 * k.val = k.val; omega

/-- Entry (p, k) of window 3's block at point t is entry (2000 t + p, k) of its array. -/
theorem iblk14_3_at (c : Dev nD) (t : Fin cfg14.N) (p : Fin 2000) (k : Fin 128) :
    (iblk14 V c 3 t : S2000x128.Idx → Elt F .bf16) (ix2 p k) = V c (Pipeline.arrRef spec14 3) (ix2 (row14 t p) k) := by
  show V c (Pipeline.arrRef spec14 3) (((cfg14.win 3).blk t).view.emb (ix2 p k)) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx14 t
  match a with
  | ⟨0, _⟩ => show win14_3.index t (0 : Fin 2) * 2000 + 1 * p.val = t.val * 2000 + p.val; omega
  | ⟨1, _⟩ => show win14_3.index t (1 : Fin 2) * 128 + 1 * k.val = k.val; omega

/-- Entry (p, k) of window 4's block at point t is entry (2000 t + p, k) of its array. -/
theorem iblk14_4_at (c : Dev nD) (t : Fin cfg14.N) (p : Fin 2000) (k : Fin 128) :
    (iblk14 V c 4 t : S2000x128.Idx → Elt F .f32) (ix2 p k) = V c (Pipeline.arrRef spec14 4) (ix2 (row14 t p) k) := by
  show V c (Pipeline.arrRef spec14 4) (((cfg14.win 4).blk t).view.emb (ix2 p k)) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx14 t
  match a with
  | ⟨0, _⟩ => show win14_4.index t (0 : Fin 2) * 2000 + 1 * p.val = t.val * 2000 + p.val; omega
  | ⟨1, _⟩ => show win14_4.index t (1 : Fin 2) * 128 + 1 * k.val = k.val; omega

/-- Window 5's block at every point is its whole array. -/
theorem iblk14_5_eq (c : Dev nD) (t : Fin cfg14.N) :
    (iblk14 V c 5 t : S128x512.Idx → Elt F .bf16) = V c (Pipeline.arrRef spec14 5) := by
  funext y
  show V c (Pipeline.arrRef spec14 5) (((cfg14.win 5).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx14 t
  match a with
  | ⟨0, _⟩ => show win14_5.index t (0 : Fin 2) * 128 + 1 * (y 0).val = (y 0).val; omega
  | ⟨1, _⟩ => show win14_5.index t (1 : Fin 2) * 512 + 1 * (y 1).val = (y 1).val; omega

/-- Window 6's block at every point is its whole array. -/
theorem iblk14_6_eq (c : Dev nD) (t : Fin cfg14.N) :
    (iblk14 V c 6 t : S128x512.Idx → Elt F .bf16) = V c (Pipeline.arrRef spec14 6) := by
  funext y
  show V c (Pipeline.arrRef spec14 6) (((cfg14.win 6).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx14 t
  match a with
  | ⟨0, _⟩ => show win14_6.index t (0 : Fin 2) * 128 + 1 * (y 0).val = (y 0).val; omega
  | ⟨1, _⟩ => show win14_6.index t (1 : Fin 2) * 512 + 1 * (y 1).val = (y 1).val; omega

/-- Window 7's block at every point is its whole array. -/
theorem iblk14_7_eq (c : Dev nD) (t : Fin cfg14.N) :
    (iblk14 V c 7 t : S128x512.Idx → Elt F .bf16) = V c (Pipeline.arrRef spec14 7) := by
  funext y
  show V c (Pipeline.arrRef spec14 7) (((cfg14.win 7).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx14 t
  match a with
  | ⟨0, _⟩ => show win14_7.index t (0 : Fin 2) * 128 + 1 * (y 0).val = (y 0).val; omega
  | ⟨1, _⟩ => show win14_7.index t (1 : Fin 2) * 512 + 1 * (y 1).val = (y 1).val; omega

/-- Window 8's block at every point is its whole array. -/
theorem iblk14_8_eq (c : Dev nD) (t : Fin cfg14.N) :
    (iblk14 V c 8 t : S128x512.Idx → Elt F .bf16) = V c (Pipeline.arrRef spec14 8) := by
  funext y
  show V c (Pipeline.arrRef spec14 8) (((cfg14.win 8).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx14 t
  match a with
  | ⟨0, _⟩ => show win14_8.index t (0 : Fin 2) * 128 + 1 * (y 0).val = (y 0).val; omega
  | ⟨1, _⟩ => show win14_8.index t (1 : Fin 2) * 512 + 1 * (y 1).val = (y 1).val; omega

/-- Window 9's block at every point is its whole array. -/
theorem iblk14_9_eq (c : Dev nD) (t : Fin cfg14.N) :
    (iblk14 V c 9 t : S1x512.Idx → Elt F .f32) = V c (Pipeline.arrRef spec14 9) := by
  funext y
  show V c (Pipeline.arrRef spec14 9) (((cfg14.win 9).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx14 t
  match a with
  | ⟨0, _⟩ => show win14_9.index t (0 : Fin 2) * 1 + 1 * (y 0).val = (y 0).val; omega
  | ⟨1, _⟩ => show win14_9.index t (1 : Fin 2) * 512 + 1 * (y 1).val = (y 1).val; omega

/-- Window 10's block at every point is its whole array. -/
theorem iblk14_10_eq (c : Dev nD) (t : Fin cfg14.N) :
    (iblk14 V c 10 t : S512x512.Idx → Elt F .bf16) = V c (Pipeline.arrRef spec14 10) := by
  funext y
  show V c (Pipeline.arrRef spec14 10) (((cfg14.win 10).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx14 t
  match a with
  | ⟨0, _⟩ => show win14_10.index t (0 : Fin 2) * 512 + 1 * (y 0).val = (y 0).val; omega
  | ⟨1, _⟩ => show win14_10.index t (1 : Fin 2) * 512 + 1 * (y 1).val = (y 1).val; omega

/-- Window 11's block at every point is its whole array. -/
theorem iblk14_11_eq (c : Dev nD) (t : Fin cfg14.N) :
    (iblk14 V c 11 t : S1x512.Idx → Elt F .f32) = V c (Pipeline.arrRef spec14 11) := by
  funext y
  show V c (Pipeline.arrRef spec14 11) (((cfg14.win 11).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx14 t
  match a with
  | ⟨0, _⟩ => show win14_11.index t (0 : Fin 2) * 1 + 1 * (y 0).val = (y 0).val; omega
  | ⟨1, _⟩ => show win14_11.index t (1 : Fin 2) * 512 + 1 * (y 1).val = (y 1).val; omega

/-- Window 12's block at every point is its whole array. -/
theorem iblk14_12_eq (c : Dev nD) (t : Fin cfg14.N) :
    (iblk14 V c 12 t : S512x128.Idx → Elt F .bf16) = V c (Pipeline.arrRef spec14 12) := by
  funext y
  show V c (Pipeline.arrRef spec14 12) (((cfg14.win 12).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx14 t
  match a with
  | ⟨0, _⟩ => show win14_12.index t (0 : Fin 2) * 512 + 1 * (y 0).val = (y 0).val; omega
  | ⟨1, _⟩ => show win14_12.index t (1 : Fin 2) * 128 + 1 * (y 1).val = (y 1).val; omega

/-- Window 13's block at every point is its whole array. -/
theorem iblk14_13_eq (c : Dev nD) (t : Fin cfg14.N) :
    (iblk14 V c 13 t : S1x128.Idx → Elt F .f32) = V c (Pipeline.arrRef spec14 13) := by
  funext y
  show V c (Pipeline.arrRef spec14 13) (((cfg14.win 13).blk t).view.emb y) = _
  refine congrArg _ (funext fun a => Fin.ext ?_)
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx14 t
  match a with
  | ⟨0, _⟩ => show win14_13.index t (0 : Fin 2) * 1 + 1 * (y 0).val = (y 0).val; omega
  | ⟨1, _⟩ => show win14_13.index t (1 : Fin 2) * 128 + 1 * (y 1).val = (y 1).val; omega

end Blocks

/-- Index j of output window 14's block at point t is index (2000 t + j 0, j 1) of its array. -/
theorem emb14_14 (t : Fin cfg14.N) (j : S2000x128.Idx) : ((cfg14.win 14).blk t).view.emb j = ix2 (row14 t (j 0)) (j 1) := by
  funext a; apply Fin.ext
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx14 t
  match a with
  | ⟨0, _⟩ => show win14_14.index t (0 : Fin 2) * 2000 + 1 * (j 0).val = t.val * 2000 + (j 0).val; omega
  | ⟨1, _⟩ => show win14_14.index t (1 : Fin 2) * 128 + 1 * (j 1).val = (j 1).val; omega

/-- An index of the array is in point t's block iff each coordinate is in the block's range on its axis. -/
theorem mem_blk14_14 (t : Fin cfg14.N) (i : S80000x128.Idx) :
    i ∈ ((cfg14.win 14).blk t).view.set ↔ ∀ a : Fin 2, win14_14.index t a * S2000x128.size a ≤ (i a).val ∧ (i a).val < win14_14.index t a * S2000x128.size a + S2000x128.size a := by
  show i ∈ ((View.whole main_v404_0).slice (win14_14.rect t)).set ↔ _
  rw [View.set_slice_whole, Rect.mem_set_unit]
  exact Iff.rfl

/-- Row r lies in block r / 2000: the 40 blocks cover the array. -/
theorem covered14_14 (i : S80000x128.Idx) : ∃ t : Fin cfg14.N, (cfg14.win 14).flush t = true ∧ i ∈ ((cfg14.win 14).blk t).view.set := by
  have hi0 : (i 0).val < 80000 := (i 0).isLt
  have hi1 : (i 1).val < 128 := (i 1).isLt
  have hlt : (i 0).val / 2000 < cfg14.N := Nat.lt_of_lt_of_eq (show (i 0).val / 2000 < 40 by omega) N_14.symm
  refine ⟨⟨(i 0).val / 2000, hlt⟩, flush14_14 _, ?_⟩
  rw [mem_blk14_14]
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx14 ⟨(i 0).val / 2000, hlt⟩
  intro a
  match a with
  | ⟨0, _⟩ =>
    show win14_14.index ⟨(i 0).val / 2000, hlt⟩ (0 : Fin 2) * 2000 ≤ (i 0).val ∧ (i 0).val < win14_14.index ⟨(i 0).val / 2000, hlt⟩ (0 : Fin 2) * 2000 + 2000
    rw [h14a]; show (i 0).val / 2000 * 2000 ≤ (i 0).val ∧ (i 0).val < (i 0).val / 2000 * 2000 + 2000; omega
  | ⟨1, _⟩ =>
    show win14_14.index ⟨(i 0).val / 2000, hlt⟩ (1 : Fin 2) * 128 ≤ (i 1).val ∧ (i 1).val < win14_14.index ⟨(i 0).val / 2000, hlt⟩ (1 : Fin 2) * 128 + 128
    rw [h14b]; omega

/-- Index j of output window 15's block at point t is index (2000 t + j 0, j 1) of its array. -/
theorem emb14_15 (t : Fin cfg14.N) (j : S2000x128.Idx) : ((cfg14.win 15).blk t).view.emb j = ix2 (row14 t (j 0)) (j 1) := by
  funext a; apply Fin.ext
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx14 t
  match a with
  | ⟨0, _⟩ => show win14_15.index t (0 : Fin 2) * 2000 + 1 * (j 0).val = t.val * 2000 + (j 0).val; omega
  | ⟨1, _⟩ => show win14_15.index t (1 : Fin 2) * 128 + 1 * (j 1).val = (j 1).val; omega

/-- An index of the array is in point t's block iff each coordinate is in the block's range on its axis. -/
theorem mem_blk14_15 (t : Fin cfg14.N) (i : S80000x128.Idx) :
    i ∈ ((cfg14.win 15).blk t).view.set ↔ ∀ a : Fin 2, win14_15.index t a * S2000x128.size a ≤ (i a).val ∧ (i a).val < win14_15.index t a * S2000x128.size a + S2000x128.size a := by
  show i ∈ ((View.whole main_v404_1).slice (win14_15.rect t)).set ↔ _
  rw [View.set_slice_whole, Rect.mem_set_unit]
  exact Iff.rfl

/-- Row r lies in block r / 2000: the 40 blocks cover the array. -/
theorem covered14_15 (i : S80000x128.Idx) : ∃ t : Fin cfg14.N, (cfg14.win 15).flush t = true ∧ i ∈ ((cfg14.win 15).blk t).view.set := by
  have hi0 : (i 0).val < 80000 := (i 0).isLt
  have hi1 : (i 1).val < 128 := (i 1).isLt
  have hlt : (i 0).val / 2000 < cfg14.N := Nat.lt_of_lt_of_eq (show (i 0).val / 2000 < 40 by omega) N_14.symm
  refine ⟨⟨(i 0).val / 2000, hlt⟩, flush14_15 _, ?_⟩
  rw [mem_blk14_15]
  obtain ⟨h0a, h0b, h1a, h1b, h2a, h2b, h3a, h3b, h4a, h4b, h14a, h14b, h15a, h15b, h5a, h5b, h6a, h6b, h7a, h7b, h8a, h8b, h9a, h9b, h10a, h10b, h11a, h11b, h12a, h12b, h13a, h13b⟩ := idx14 ⟨(i 0).val / 2000, hlt⟩
  intro a
  match a with
  | ⟨0, _⟩ =>
    show win14_15.index ⟨(i 0).val / 2000, hlt⟩ (0 : Fin 2) * 2000 ≤ (i 0).val ∧ (i 0).val < win14_15.index ⟨(i 0).val / 2000, hlt⟩ (0 : Fin 2) * 2000 + 2000
    rw [h15a]; show (i 0).val / 2000 * 2000 ≤ (i 0).val ∧ (i 0).val < (i 0).val / 2000 * 2000 + 2000; omega
  | ⟨1, _⟩ =>
    show win14_15.index ⟨(i 0).val / 2000, hlt⟩ (1 : Fin 2) * 128 ≤ (i 1).val ∧ (i 1).val < win14_15.index ⟨(i 0).val / 2000, hlt⟩ (1 : Fin 2) * 128 + 128
    rw [h15b]; omega

/-- What window 14's write-back reads of the buffer's contents X at index j is X at (j 0, j 1). -/
theorem cut14_14_apply (t : Fin cfg14.N) (X : S2000x128.Idx → EReal) (j : ((cfg14.win 14).xblock (grid14.coords t)).Idx) :
    (cfg14.win 14).cut (grid14.coords t) X j = X (ix2 (j 0) (j 1)) :=
  congrArg X (funext fun a => match a with | ⟨0, _⟩ => rfl | ⟨1, _⟩ => rfl)

/-- What window 15's write-back reads of the buffer's contents X at index j is X at (j 0, j 1). -/
theorem cut14_15_apply (t : Fin cfg14.N) (X : S2000x128.Idx → EReal) (j : ((cfg14.win 15).xblock (grid14.coords t)).Idx) :
    (cfg14.win 15).cut (grid14.coords t) X j = X (ix2 (j 0) (j 1)) :=
  congrArg X (funext fun a => match a with | ⟨0, _⟩ => rfl | ⟨1, _⟩ => rfl)

/-! ## Closed form: each output array as one function of the arrays the region reads -/

/-- The new edge array: window 14's array after the region, from the arrays of windows 0–3 and 5–13. -/
def G14_14 (a b c d : S80000x128.Idx → Elt Ideal .bf16) (wa wb wc wd : S128x512.Idx → Elt Ideal .bf16) (b1 : S1x512.Idx → Elt Ideal .f32)
    (w2 : S512x512.Idx → Elt Ideal .bf16) (b2 : S1x512.Idx → Elt Ideal .f32) (w3 : S512x128.Idx → Elt Ideal .bf16) (b3 : S1x128.Idx → Elt Ideal .f32) : S80000x128.Idx → Elt Ideal .f32 :=
  edgeE1 a b c d wa wb wc wd b1 w2 b2 w3 b3

/-- The residual output: window 15's array after the region, from the arrays of windows 0–13. -/
def G14_15 (a b c d : S80000x128.Idx → Elt Ideal .bf16) (es : S80000x128.Idx → Elt Ideal .f32) (wa wb wc wd : S128x512.Idx → Elt Ideal .bf16) (b1 : S1x512.Idx → Elt Ideal .f32)
    (w2 : S512x512.Idx → Elt Ideal .bf16) (b2 : S1x512.Idx → Elt Ideal .f32) (w3 : S512x128.Idx → Elt Ideal .bf16) (b3 : S1x128.Idx → Elt Ideal .f32) : S80000x128.Idx → Elt Ideal .f32 :=
  edgeEs a b c d es wa wb wc wd b1 w2 b2 w3 b3

section Final
variable (V : (c : Dev nD) → (b : Ref sig .tc) → Buf (Elt Ideal) ((c : Thread nD τ).loc b))

set_option maxHeartbeats 4000000 in
/-- The new edge block of the loaded blocks: the weight and bias blocks are their arrays. -/
theorem blocks14_14 (c : Dev nD) (t : Fin cfg14.N) :
    edgeE1 (M := 2000) (L := 128) (H := 512) (H' := 512) (O := 128) (iblk14 V c 0 t) (iblk14 V c 1 t) (iblk14 V c 2 t) (iblk14 V c 3 t) (iblk14 V c 5 t) (iblk14 V c 6 t) (iblk14 V c 7 t) (iblk14 V c 8 t) (iblk14 V c 9 t) (iblk14 V c 10 t) (iblk14 V c 11 t) (iblk14 V c 12 t) (iblk14 V c 13 t)
      = edgeE1 (M := 2000) (L := 128) (H := 512) (H' := 512) (O := 128) (iblk14 V c 0 t) (iblk14 V c 1 t) (iblk14 V c 2 t) (iblk14 V c 3 t) (V c (Pipeline.arrRef spec14 5)) (V c (Pipeline.arrRef spec14 6)) (V c (Pipeline.arrRef spec14 7)) (V c (Pipeline.arrRef spec14 8)) (V c (Pipeline.arrRef spec14 9)) (V c (Pipeline.arrRef spec14 10)) (V c (Pipeline.arrRef spec14 11)) (V c (Pipeline.arrRef spec14 12)) (V c (Pipeline.arrRef spec14 13)) := by
  rw [iblk14_5_eq V c t, iblk14_6_eq V c t, iblk14_7_eq V c t, iblk14_8_eq V c t, iblk14_9_eq V c t, iblk14_10_eq V c t, iblk14_11_eq V c t, iblk14_12_eq V c t, iblk14_13_eq V c t]

set_option maxHeartbeats 4000000 in
/-- The residual block of the loaded blocks likewise. -/
theorem blocks14_15 (c : Dev nD) (t : Fin cfg14.N) :
    edgeEs (M := 2000) (L := 128) (H := 512) (H' := 512) (O := 128) (iblk14 V c 0 t) (iblk14 V c 1 t) (iblk14 V c 2 t) (iblk14 V c 3 t) (iblk14 V c 4 t) (iblk14 V c 5 t) (iblk14 V c 6 t) (iblk14 V c 7 t) (iblk14 V c 8 t) (iblk14 V c 9 t) (iblk14 V c 10 t) (iblk14 V c 11 t) (iblk14 V c 12 t) (iblk14 V c 13 t)
      = edgeEs (M := 2000) (L := 128) (H := 512) (H' := 512) (O := 128) (iblk14 V c 0 t) (iblk14 V c 1 t) (iblk14 V c 2 t) (iblk14 V c 3 t) (iblk14 V c 4 t) (V c (Pipeline.arrRef spec14 5)) (V c (Pipeline.arrRef spec14 6)) (V c (Pipeline.arrRef spec14 7)) (V c (Pipeline.arrRef spec14 8)) (V c (Pipeline.arrRef spec14 9)) (V c (Pipeline.arrRef spec14 10)) (V c (Pipeline.arrRef spec14 11)) (V c (Pipeline.arrRef spec14 12)) (V c (Pipeline.arrRef spec14 13)) := by
  rw [iblk14_5_eq V c t, iblk14_6_eq V c t, iblk14_7_eq V c t, iblk14_8_eq V c t, iblk14_9_eq V c t, iblk14_10_eq V c t, iblk14_11_eq V c t, iblk14_12_eq V c t, iblk14_13_eq V c t]

set_option maxHeartbeats 4000000 in
/-- What point t writes back to window 14's array is block t of `G14_14` of the arrays as the region finds them. -/
theorem flushed14_14_eq (c : Dev nD) (t : Fin cfg14.N) :
    (dat14 (F := Ideal) V c).flushed 14 t = ((cfg14.win 14).blk t).view.read (Elt Ideal) (G14_14 (V c (Pipeline.arrRef spec14 0)) (V c (Pipeline.arrRef spec14 1)) (V c (Pipeline.arrRef spec14 2)) (V c (Pipeline.arrRef spec14 3)) (V c (Pipeline.arrRef spec14 5)) (V c (Pipeline.arrRef spec14 6)) (V c (Pipeline.arrRef spec14 7)) (V c (Pipeline.arrRef spec14 8)) (V c (Pipeline.arrRef spec14 9)) (V c (Pipeline.arrRef spec14 10)) (V c (Pipeline.arrRef spec14 11)) (V c (Pipeline.arrRef spec14 12)) (V c (Pipeline.arrRef spec14 13))) := by
  show (cfg14.win 14).cut (grid14.coords t) ((dat14 (F := Ideal) V c).after 14 t) = _
  rw [after14_14]
  unfold out14_14
  rw [View.canon_unit_zero hz14]
  simp only [View.ld_unit_zero (S := S2000x128) hz14, View.ld_unit_zero (S := S128x512) hz14, View.ld_unit_zero (S := S1x512) hz14, View.ld_unit_zero (S := S512x512) hz14, View.ld_unit_zero (S := S512x128) hz14, View.ld_unit_zero (S := S1x128) hz14]
  refine (congrArg ((cfg14.win 14).cut (grid14.coords t)) ((pay14_14_eq _ _ _ _ _ _ _ _ _ _ _ _ _).trans (blocks14_14 V c t))).trans ?_
  funext j
  refine (cut14_14_apply t _ j).trans ?_
  show _ = G14_14 (V c (Pipeline.arrRef spec14 0)) (V c (Pipeline.arrRef spec14 1)) (V c (Pipeline.arrRef spec14 2)) (V c (Pipeline.arrRef spec14 3)) (V c (Pipeline.arrRef spec14 5)) (V c (Pipeline.arrRef spec14 6)) (V c (Pipeline.arrRef spec14 7)) (V c (Pipeline.arrRef spec14 8)) (V c (Pipeline.arrRef spec14 9)) (V c (Pipeline.arrRef spec14 10)) (V c (Pipeline.arrRef spec14 11)) (V c (Pipeline.arrRef spec14 12)) (V c (Pipeline.arrRef spec14 13)) (((cfg14.win 14).blk t).view.emb j)
  rw [emb14_14 t j]
  exact edgeE1_rows _ _ _ _ _ _ _ _ _ (fun k => iblk14_0_at V c t (j 0) k) (fun k => iblk14_1_at V c t (j 0) k)
    (fun k => iblk14_2_at V c t (j 0) k) (fun k => iblk14_3_at V c t (j 0) k) (j 1)

set_option maxHeartbeats 4000000 in
/-- What point t writes back to window 15's array is block t of `G14_15` of the arrays as the region finds them. -/
theorem flushed14_15_eq (c : Dev nD) (t : Fin cfg14.N) :
    (dat14 (F := Ideal) V c).flushed 15 t = ((cfg14.win 15).blk t).view.read (Elt Ideal) (G14_15 (V c (Pipeline.arrRef spec14 0)) (V c (Pipeline.arrRef spec14 1)) (V c (Pipeline.arrRef spec14 2)) (V c (Pipeline.arrRef spec14 3)) (V c (Pipeline.arrRef spec14 4)) (V c (Pipeline.arrRef spec14 5)) (V c (Pipeline.arrRef spec14 6)) (V c (Pipeline.arrRef spec14 7)) (V c (Pipeline.arrRef spec14 8)) (V c (Pipeline.arrRef spec14 9)) (V c (Pipeline.arrRef spec14 10)) (V c (Pipeline.arrRef spec14 11)) (V c (Pipeline.arrRef spec14 12)) (V c (Pipeline.arrRef spec14 13))) := by
  show (cfg14.win 15).cut (grid14.coords t) ((dat14 (F := Ideal) V c).after 15 t) = _
  rw [after14_15]
  unfold out14_15
  rw [View.canon_unit_zero hz14]
  simp only [View.ld_unit_zero (S := S2000x128) hz14, View.ld_unit_zero (S := S128x512) hz14, View.ld_unit_zero (S := S1x512) hz14, View.ld_unit_zero (S := S512x512) hz14, View.ld_unit_zero (S := S512x128) hz14, View.ld_unit_zero (S := S1x128) hz14]
  refine (congrArg ((cfg14.win 15).cut (grid14.coords t)) ((pay14_15_eq _ _ _ _ _ _ _ _ _ _ _ _ _ _).trans (blocks14_15 V c t))).trans ?_
  funext j
  refine (cut14_15_apply t _ j).trans ?_
  show _ = G14_15 (V c (Pipeline.arrRef spec14 0)) (V c (Pipeline.arrRef spec14 1)) (V c (Pipeline.arrRef spec14 2)) (V c (Pipeline.arrRef spec14 3)) (V c (Pipeline.arrRef spec14 4)) (V c (Pipeline.arrRef spec14 5)) (V c (Pipeline.arrRef spec14 6)) (V c (Pipeline.arrRef spec14 7)) (V c (Pipeline.arrRef spec14 8)) (V c (Pipeline.arrRef spec14 9)) (V c (Pipeline.arrRef spec14 10)) (V c (Pipeline.arrRef spec14 11)) (V c (Pipeline.arrRef spec14 12)) (V c (Pipeline.arrRef spec14 13)) (((cfg14.win 15).blk t).view.emb j)
  rw [emb14_15 t j]
  exact edgeEs_rows _ _ _ _ _ _ _ _ _ (fun k => iblk14_0_at V c t (j 0) k) (fun k => iblk14_1_at V c t (j 0) k)
    (fun k => iblk14_2_at V c t (j 0) k) (fun k => iblk14_3_at V c t (j 0) k) (j 1) (iblk14_4_at V c t (j 0) (j 1))

/-- Window 14's array after the region. -/
theorem final14_14 (c : Dev nD) :
    (dat14 (F := Ideal) V c).arrAt 14 cfg14.N = G14_14 (V c (Pipeline.arrRef spec14 0)) (V c (Pipeline.arrRef spec14 1)) (V c (Pipeline.arrRef spec14 2)) (V c (Pipeline.arrRef spec14 3)) (V c (Pipeline.arrRef spec14 5)) (V c (Pipeline.arrRef spec14 6)) (V c (Pipeline.arrRef spec14 7)) (V c (Pipeline.arrRef spec14 8)) (V c (Pipeline.arrRef spec14 9)) (V c (Pipeline.arrRef spec14 10)) (V c (Pipeline.arrRef spec14 11)) (V c (Pipeline.arrRef spec14 12)) (V c (Pipeline.arrRef spec14 13)) :=
  (dat14 (F := Ideal) V c).arrAt_eq_of_cover 14 _ (fun t _ => flushed14_14_eq V c t) covered14_14

/-- Window 15's array after the region. -/
theorem final14_15 (c : Dev nD) :
    (dat14 (F := Ideal) V c).arrAt 15 cfg14.N = G14_15 (V c (Pipeline.arrRef spec14 0)) (V c (Pipeline.arrRef spec14 1)) (V c (Pipeline.arrRef spec14 2)) (V c (Pipeline.arrRef spec14 3)) (V c (Pipeline.arrRef spec14 4)) (V c (Pipeline.arrRef spec14 5)) (V c (Pipeline.arrRef spec14 6)) (V c (Pipeline.arrRef spec14 7)) (V c (Pipeline.arrRef spec14 8)) (V c (Pipeline.arrRef spec14 9)) (V c (Pipeline.arrRef spec14 10)) (V c (Pipeline.arrRef spec14 11)) (V c (Pipeline.arrRef spec14 12)) (V c (Pipeline.arrRef spec14 13)) :=
  (dat14 (F := Ideal) V c).arrAt_eq_of_cover 15 _ (fun t _ => flushed14_15_eq V c t) covered14_15

end Final

end Cert.KernelIdeal.Hand

end
-- ==== Proof.KI.Val15.lean ====
/- The value of region 15 at the ideal values: its output array after the run is three dense layers with positive
   part, stacked, of its seven input arrays as the region finds them, entry by entry. -/
import proofs.«147763_j11003706212366_2_alg».proof.Proof.KI.Reg15
import proofs.«147763_j11003706212366_2_alg».proof.Proof.LibReluDense
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.LibDense Cert.LibReluDense

section
variable (V : (c : Dev nD) → (b : Ref sig .tc) → Buf (Elt Ideal) ((c : Thread nD τ).loc b))

theorem hz15 : (![0, 0] : Fin 2 → Nat) = fun _ => 0 := funext fun a => by fin_cases a <;> rfl

/-! ## The closed form -/

/-- What the output array ends holding: max (max (max (x · W1 + b1) 0 · W2 + b2) 0 · W3 + b3) 0, entry by entry, of
    the rows array `a0`, the weights `a1`, `a3`, `a5` and the one-row biases `a2`, `a4`, `a6`. -/
def G15_7 (a0 : S5000x512.Idx → EReal) (a1 : S512x512.Idx → EReal) (a2 : S1x512.Idx → EReal) (a3 : S512x512.Idx → EReal)
    (a4 : S1x512.Idx → EReal) (a5 : S512x128.Idx → EReal) (a6 : S1x128.Idx → EReal) : S5000x128.Idx → EReal :=
  reluDense (reluDense (reluDense a0 a1 a2) a3 a4) a5 a6

/-- The same, spelled with the dense layer's entries. -/
theorem G15_7_apply (a0 : S5000x512.Idx → EReal) (a1 : S512x512.Idx → EReal) (a2 : S1x512.Idx → EReal) (a3 : S512x512.Idx → EReal)
    (a4 : S1x512.Idx → EReal) (a5 : S512x128.Idx → EReal) (a6 : S1x128.Idx → EReal) (p : Fin 5000) (q : Fin 128) :
    G15_7 a0 a1 a2 a3 a4 a5 a6 (ix2 p q)
      = max (denseAt (fun j : (⟨2, ![5000, 512]⟩ : Shape).Idx => max (denseAt (fun j' : (⟨2, ![5000, 512]⟩ : Shape).Idx => max (denseAt a0 a1 (rowOf a2) (j' 0) (j' 1)) 0) a3 (rowOf a4) (j 0) (j 1)) 0) a5 (rowOf a6) p q) 0 := rfl

/-- The body's payload on blocks is the same stack of layers of the blocks. -/
theorem pay15_eq (x0 : Vec Ideal S1000x512 .bf16) (x1 : Vec Ideal S512x512 .bf16) (x2 : Vec Ideal S1x512 .f32) (x3 : Vec Ideal S512x512 .bf16)
    (x4 : Vec Ideal S1x512 .f32) (x5 : Vec Ideal S512x128 .bf16) (x6 : Vec Ideal S1x128 .f32) :
    k15_pay1 (F := Ideal) x0 x1 x2 x3 x4 x5 x6 = reluDense (reluDense (reluDense x0 x1 x2) x3 x4) x5 x6 := by
  unfold k15_pay1
  refine (chip_reluDense (φ₁ := .bf16) (φ₂ := .bf16) 1000 512 128 (by decide) dot_S1000x512_S512x128_S1000x128_1_0_0_1_n_n rfl _ _ _ _ x5 x6).trans ?_
  refine congrArg (fun h => reluDense h x5 x6) ?_
  refine (truncf_id (ψ := .bf16) _ bitsLt_bf16_f32).trans ?_
  refine (chip_reluDense (φ₁ := .bf16) (φ₂ := .bf16) 1000 512 512 (by decide) dot_S1000x512_S512x512_S1000x512_1_0_0_1_n_n rfl _ _ _ _ x3 x4).trans ?_
  refine congrArg (fun h => reluDense h x3 x4) ?_
  refine (truncf_id (ψ := .bf16) _ bitsLt_bf16_f32).trans ?_
  refine (chip_reluDense (φ₁ := .bf16) (φ₂ := .bf16) 1000 512 512 (by decide) dot_S1000x512_S512x512_S1000x512_1_0_0_1_n_n rfl _ _ _ _ x1 x2).trans ?_
  exact congrArg (fun h => reluDense h x1 x2) (shapeCast_self x0 _)

/-! ## The index maps, decided over the grid -/

/-- The rows window and the output window sit at block (t, 0) at point `t`; the weights' and biases' windows at block
    (0, 0) at every point. -/
theorem idx_facts15 : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0
    ∧ win15_5.index t (0 : Fin 2) = 0 ∧ win15_5.index t (1 : Fin 2) = 0
    ∧ win15_6.index t (0 : Fin 2) = 0 ∧ win15_6.index t (1 : Fin 2) = 0
    ∧ win15_7.index t (0 : Fin 2) = t.val ∧ win15_7.index t (1 : Fin 2) = 0 :=
  (by decide +kernel : ∀ t : Fin grid15.N, _)

/-! ## The input blocks as parts of their arrays -/

/-- The rows window's block at point `t` is rows 1000·t … 1000·t + 999 of its array. -/
theorem iblk15_0_apply (c : Dev nD) (t : Fin cfg15.N) (x : S1000x512.Idx) (k : S5000x512.Idx)
    (hk0 : (k 0).val = 1000 * t.val + (x 0).val) (hk1 : (k 1).val = (x 1).val) :
    (iblk15 V c 0 t : Vec Ideal S1000x512 .bf16) x = (V c (Pipeline.arrRef spec15 0) : S5000x512.Idx → Elt Ideal .bf16) k := by
  have hi := idx_facts15 t
  unfold iblk15
  rw [View.read_apply]
  show V c (Pipeline.arrRef spec15 0) _ = V c (Pipeline.arrRef spec15 0) _
  congr 1
  funext a
  apply Fin.ext
  match a with
  | ⟨0, _⟩ => show win15_0.index t (0 : Fin 2) * 1000 + 1 * (x 0).val = (k 0).val; rw [hi.1, hk0]; omega
  | ⟨1, _⟩ => show win15_0.index t (1 : Fin 2) * 512 + 1 * (x 1).val = (k 1).val; rw [hi.2.1, hk1]; omega

/-- Window 1's block at every point is its whole array. -/
theorem iblk15_1_eq (c : Dev nD) (t : Fin cfg15.N) :
    (iblk15 V c 1 t : Vec Ideal S512x512 .bf16) = (V c (Pipeline.arrRef spec15 1) : S512x512.Idx → Elt Ideal .bf16) := by
  have hi := idx_facts15 t
  funext x
  unfold iblk15
  rw [View.read_apply]
  show V c (Pipeline.arrRef spec15 1) _ = V c (Pipeline.arrRef spec15 1) x
  congr 1
  funext a
  apply Fin.ext
  match a with
  | ⟨0, _⟩ => show win15_1.index t (0 : Fin 2) * 512 + 1 * (x 0).val = (x 0).val; rw [hi.2.2.1]; omega
  | ⟨1, _⟩ => show win15_1.index t (1 : Fin 2) * 512 + 1 * (x 1).val = (x 1).val; rw [hi.2.2.2.1]; omega

/-- Window 2's block at every point is its whole array. -/
theorem iblk15_2_eq (c : Dev nD) (t : Fin cfg15.N) :
    (iblk15 V c 2 t : Vec Ideal S1x512 .f32) = (V c (Pipeline.arrRef spec15 2) : S1x512.Idx → Elt Ideal .f32) := by
  have hi := idx_facts15 t
  funext x
  unfold iblk15
  rw [View.read_apply]
  show V c (Pipeline.arrRef spec15 2) _ = V c (Pipeline.arrRef spec15 2) x
  congr 1
  funext a
  apply Fin.ext
  match a with
  | ⟨0, _⟩ => show win15_2.index t (0 : Fin 2) * 1 + 1 * (x 0).val = (x 0).val; rw [hi.2.2.2.2.1]; omega
  | ⟨1, _⟩ => show win15_2.index t (1 : Fin 2) * 512 + 1 * (x 1).val = (x 1).val; rw [hi.2.2.2.2.2.1]; omega

/-- Window 3's block at every point is its whole array. -/
theorem iblk15_3_eq (c : Dev nD) (t : Fin cfg15.N) :
    (iblk15 V c 3 t : Vec Ideal S512x512 .bf16) = (V c (Pipeline.arrRef spec15 3) : S512x512.Idx → Elt Ideal .bf16) := by
  have hi := idx_facts15 t
  funext x
  unfold iblk15
  rw [View.read_apply]
  show V c (Pipeline.arrRef spec15 3) _ = V c (Pipeline.arrRef spec15 3) x
  congr 1
  funext a
  apply Fin.ext
  match a with
  | ⟨0, _⟩ => show win15_3.index t (0 : Fin 2) * 512 + 1 * (x 0).val = (x 0).val; rw [hi.2.2.2.2.2.2.1]; omega
  | ⟨1, _⟩ => show win15_3.index t (1 : Fin 2) * 512 + 1 * (x 1).val = (x 1).val; rw [hi.2.2.2.2.2.2.2.1]; omega

/-- Window 4's block at every point is its whole array. -/
theorem iblk15_4_eq (c : Dev nD) (t : Fin cfg15.N) :
    (iblk15 V c 4 t : Vec Ideal S1x512 .f32) = (V c (Pipeline.arrRef spec15 4) : S1x512.Idx → Elt Ideal .f32) := by
  have hi := idx_facts15 t
  funext x
  unfold iblk15
  rw [View.read_apply]
  show V c (Pipeline.arrRef spec15 4) _ = V c (Pipeline.arrRef spec15 4) x
  congr 1
  funext a
  apply Fin.ext
  match a with
  | ⟨0, _⟩ => show win15_4.index t (0 : Fin 2) * 1 + 1 * (x 0).val = (x 0).val; rw [hi.2.2.2.2.2.2.2.2.1]; omega
  | ⟨1, _⟩ => show win15_4.index t (1 : Fin 2) * 512 + 1 * (x 1).val = (x 1).val; rw [hi.2.2.2.2.2.2.2.2.2.1]; omega

/-- Window 5's block at every point is its whole array. -/
theorem iblk15_5_eq (c : Dev nD) (t : Fin cfg15.N) :
    (iblk15 V c 5 t : Vec Ideal S512x128 .bf16) = (V c (Pipeline.arrRef spec15 5) : S512x128.Idx → Elt Ideal .bf16) := by
  have hi := idx_facts15 t
  funext x
  unfold iblk15
  rw [View.read_apply]
  show V c (Pipeline.arrRef spec15 5) _ = V c (Pipeline.arrRef spec15 5) x
  congr 1
  funext a
  apply Fin.ext
  match a with
  | ⟨0, _⟩ => show win15_5.index t (0 : Fin 2) * 512 + 1 * (x 0).val = (x 0).val; rw [hi.2.2.2.2.2.2.2.2.2.2.1]; omega
  | ⟨1, _⟩ => show win15_5.index t (1 : Fin 2) * 128 + 1 * (x 1).val = (x 1).val; rw [hi.2.2.2.2.2.2.2.2.2.2.2.1]; omega

/-- Window 6's block at every point is its whole array. -/
theorem iblk15_6_eq (c : Dev nD) (t : Fin cfg15.N) :
    (iblk15 V c 6 t : Vec Ideal S1x128 .f32) = (V c (Pipeline.arrRef spec15 6) : S1x128.Idx → Elt Ideal .f32) := by
  have hi := idx_facts15 t
  funext x
  unfold iblk15
  rw [View.read_apply]
  show V c (Pipeline.arrRef spec15 6) _ = V c (Pipeline.arrRef spec15 6) x
  congr 1
  funext a
  apply Fin.ext
  match a with
  | ⟨0, _⟩ => show win15_6.index t (0 : Fin 2) * 1 + 1 * (x 0).val = (x 0).val; rw [hi.2.2.2.2.2.2.2.2.2.2.2.2.1]; omega
  | ⟨1, _⟩ => show win15_6.index t (1 : Fin 2) * 128 + 1 * (x 1).val = (x 1).val; rw [hi.2.2.2.2.2.2.2.2.2.2.2.2.2.1]; omega

/-! ## What a point writes back -/

/-- Blocks `X0 … X6` of which `X0` is rows 1000·t … of the rows array `A0` and the others are the whole arrays
    `A1 … A6` give, at local index `j`, the stack of layers of the whole arrays at the array index `i` in row
    1000·t + (row of j), same column: each layer's entry reads its own row of the layer below. -/
theorem out_point15 (X0 : S1000x512.Idx → EReal) (X1 : S512x512.Idx → EReal) (X2 : S1x512.Idx → EReal) (X3 : S512x512.Idx → EReal)
    (X4 : S1x512.Idx → EReal) (X5 : S512x128.Idx → EReal) (X6 : S1x128.Idx → EReal)
    (A0 : S5000x512.Idx → EReal) (A1 : S512x512.Idx → EReal) (A2 : S1x512.Idx → EReal)
    (A3 : S512x512.Idx → EReal) (A4 : S1x512.Idx → EReal) (A5 : S512x128.Idx → EReal) (A6 : S1x128.Idx → EReal) (t : ℕ)
    (hX : ∀ (x : S1000x512.Idx) (k : S5000x512.Idx), (k 0).val = 1000 * t + (x 0).val → (k 1).val = (x 1).val → X0 x = A0 k)
    (h1 : X1 = A1) (h2 : X2 = A2) (h3 : X3 = A3) (h4 : X4 = A4) (h5 : X5 = A5) (h6 : X6 = A6)
    (j : S1000x128.Idx) (i : S5000x128.Idx) (hi0 : (i 0).val = 1000 * t + (j 0).val) (hi1 : (i 1).val = (j 1).val) :
    reluDense (reluDense (reluDense X0 X1 X2) X3 X4) X5 X6 j = G15_7 A0 A1 A2 A3 A4 A5 A6 i := by
  subst h1 h2 h3 h4 h5 h6
  obtain ⟨p, q, rfl⟩ : ∃ p q, j = ix2 p q := ⟨_, _, eq_ix2 j⟩
  obtain ⟨r, q', rfl⟩ : ∃ r q', i = ix2 r q' := ⟨_, _, eq_ix2 i⟩
  obtain rfl : q = q' := Fin.ext hi1.symm
  unfold G15_7
  exact reluDense_rows _ _ (fun k => reluDense_rows _ _ (fun k' => reluDense_rows _ _
    (fun k'' => hX (ix2 p k'') (ix2 r k'') hi0 rfl) k') k) q

set_option maxHeartbeats 1000000 in
/-- What point `t` writes back is block `t` of `G15_7` of the arrays as the region finds them. -/
theorem flushed15_7_eq (c : Dev nD) (t : Fin cfg15.N) :
    (dat15 (F := Ideal) V c).flushed 7 t = ((cfg15.win 7).blk t).view.read (Elt Ideal) (G15_7 (V c (Pipeline.arrRef spec15 0)) (V c (Pipeline.arrRef spec15 1)) (V c (Pipeline.arrRef spec15 2)) (V c (Pipeline.arrRef spec15 3)) (V c (Pipeline.arrRef spec15 4)) (V c (Pipeline.arrRef spec15 5)) (V c (Pipeline.arrRef spec15 6))) := by
  show (cfg15.win 7).cut (grid15.coords t) ((dat15 V c).after 7 t) = _
  rw [after15_7]
  unfold out15_7
  rw [View.canon_unit_zero hz15]
  simp only [View.ld_unit_zero (S := S1000x512) hz15, View.ld_unit_zero (S := S512x512) hz15, View.ld_unit_zero (S := S1x512) hz15, View.ld_unit_zero (S := S512x128) hz15, View.ld_unit_zero (S := S1x128) hz15]
  rw [pay15_eq]
  have hi := idx_facts15 t
  funext j
  rw [View.read_apply]
  refine out_point15 _ _ _ _ _ _ _ _ _ _ _ _ _ _ t.val (fun x k h0 h1 => iblk15_0_apply V c t x k h0 h1)
    (iblk15_1_eq V c t) (iblk15_2_eq V c t) (iblk15_3_eq V c t) (iblk15_4_eq V c t) (iblk15_5_eq V c t) (iblk15_6_eq V c t) _ _ ?_ ?_
  · show win15_7.index t (0 : Fin 2) * 1000 + 1 * (j 0).val = 1000 * t.val + (j 0).val
    rw [hi.2.2.2.2.2.2.2.2.2.2.2.2.2.2.1]; omega
  · show win15_7.index t (1 : Fin 2) * 128 + 1 * (j 1).val = (j 1).val
    rw [hi.2.2.2.2.2.2.2.2.2.2.2.2.2.2.2]; omega

/-! ## The blocks cover the array -/

/-- An index of the output array is in point `t`'s block iff each coordinate is in the block's range on its axis. -/
theorem mem_blk15_7 (t : Fin cfg15.N) (i : S5000x128.Idx) :
    i ∈ ((cfg15.win 7).blk t).view.set ↔ ∀ a : Fin 2, win15_7.index t a * S1000x128.size a ≤ (i a).val ∧ (i a).val < win15_7.index t a * S1000x128.size a + S1000x128.size a := by
  show i ∈ ((View.whole main_v438).slice (win15_7.rect t)).set ↔ _
  rw [View.set_slice_whole, Rect.mem_set_unit]
  exact Iff.rfl

/-- Row r of the output array lies in the block of point r / 1000. -/
theorem blocks_cover15_7 (i : S5000x128.Idx) :
    ∃ t : Fin cfg15.N, (cfg15.win 7).flush t = true ∧ i ∈ ((cfg15.win 7).blk t).view.set := by
  have hi0 : (i 0).val < 5000 := (i 0).isLt
  have hi1 : (i 1).val < 128 := (i 1).isLt
  have hN : (i 0).val / 1000 < cfg15.N := by show _ < grid15.N; rw [N_15]; omega
  have hi := idx_facts15 ⟨(i 0).val / 1000, hN⟩
  refine ⟨⟨(i 0).val / 1000, hN⟩, flush15_7 _, ?_⟩
  rw [mem_blk15_7]
  intro a
  match a with
  | ⟨0, _⟩ =>
    show win15_7.index ⟨(i 0).val / 1000, hN⟩ (0 : Fin 2) * 1000 ≤ (i 0).val ∧ (i 0).val < win15_7.index ⟨(i 0).val / 1000, hN⟩ (0 : Fin 2) * 1000 + 1000
    rw [hi.2.2.2.2.2.2.2.2.2.2.2.2.2.2.1]; show (i 0).val / 1000 * 1000 ≤ (i 0).val ∧ (i 0).val < (i 0).val / 1000 * 1000 + 1000; omega
  | ⟨1, _⟩ =>
    show win15_7.index ⟨(i 0).val / 1000, hN⟩ (1 : Fin 2) * 128 ≤ (i 1).val ∧ (i 1).val < win15_7.index ⟨(i 0).val / 1000, hN⟩ (1 : Fin 2) * 128 + 128
    rw [hi.2.2.2.2.2.2.2.2.2.2.2.2.2.2.2]; omega

/-! ## The output array after the run -/

/-- The output array after the region's last point is `G15_7` of the seven input arrays as the region finds them. -/
theorem final15_7 (c : Dev nD) :
    (dat15 (F := Ideal) V c).arrAt 7 cfg15.N = G15_7 (V c (Pipeline.arrRef spec15 0)) (V c (Pipeline.arrRef spec15 1)) (V c (Pipeline.arrRef spec15 2)) (V c (Pipeline.arrRef spec15 3)) (V c (Pipeline.arrRef spec15 4)) (V c (Pipeline.arrRef spec15 5)) (V c (Pipeline.arrRef spec15 6)) :=
  (dat15 (F := Ideal) V c).arrAt_eq_of_cover 7 (G15_7 (V c (Pipeline.arrRef spec15 0)) (V c (Pipeline.arrRef spec15 1)) (V c (Pipeline.arrRef spec15 2)) (V c (Pipeline.arrRef spec15 3)) (V c (Pipeline.arrRef spec15 4)) (V c (Pipeline.arrRef spec15 5)) (V c (Pipeline.arrRef spec15 6)))
    (fun t _ => flushed15_7_eq V c t) (blocks_cover15_7)

end

end Cert.KernelIdeal.Hand

end
-- ==== Proof.KI.Val16.lean ====
/- Region 16's output array after the region, at the ideal values, as ONE function of the six arrays the region reads.

   The region's body computes, on a block of 1000 rows,  (relu (xs · W1 + b1) · W2 + b2) + lp . Entry (p, q) of a dense
   layer reads row p of its left operand and nothing else of it, so the body's result on block t is block t of the same
   expression over the whole arrays (`G16_6`); the five blocks tile the 5000 rows, each is written back once, and so
   the array ends holding `G16_6` of the arrays as the region found them (`final16_6`). -/
import proofs.«147763_j11003706212366_2_alg».proof.Proof.KI.Reg16
import proofs.«147763_j11003706212366_2_alg».proof.Proof.LibChipRow
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open Cert.LibDense Cert.LibChipRow

/-! ## The closed form -/

/-- What the output array ends holding, entry by entry: the second dense layer of the rectified first one, plus lp. -/
def G16_6 (xs : S5000x128.Idx → EReal) (lp : S5000x3.Idx → EReal) (W1 : S128x128.Idx → EReal) (b1 : S1x128.Idx → EReal)
    (W2 : S128x3.Idx → EReal) (b2 : S1x3.Idx → EReal) : S5000x3.Idx → EReal :=
  fun i => denseAt (M := 5000) (K := 128) (N := 3)
      (fun j : S5000x128.Idx => max (denseAt (M := 5000) (K := 128) (N := 128) xs W1 (rowVec b1) (j 0) (j 1)) 0) W2 (rowVec b2) (i 0) (i 1)
    + lp i

/-! ## The payload, read at an entry -/

/-- The two products' dimension numbers are the plain ones: rows by contraction, times contraction by columns. -/
theorem dot16_1_eq : dot_S1000x128_S128x128_S1000x128_1_0_0_1_n_n = DotDims.plain 1000 128 128 := rfl
theorem dot16_2_eq : dot_S1000x128_S128x3_S1000x3_1_0_0_1_n_n = DotDims.plain 1000 128 3 := rfl

/-- The first layer and the rectifier on a block, at (p, k): the narrowing to bf16 changes no value. -/
theorem hid16_apply (x0 : FVec Ideal S1000x128 .bf16) (w1 : FVec Ideal S128x128 .bf16) (b1 : FVec Ideal S1x128 .f32)
    (hx : S1000x128.ShapeCasts S1000x128) (hw : S128x128.ShapeCasts S128x128) (hc : S1x128.ShapeCasts S1x128)
    (hb : S1x128.Broadcasts S1000x128) (hlt : FTy.bits .bf16 < FTy.bits .f32) (p : Fin 1000) (k : Fin 128) :
    (truncf .bf16 (maximumf (addf (matmul dot_S1000x128_S128x128_S1000x128_1_0_0_1_n_n none (shapeCast S1000x128 x0 hx)
            (shapeCast S128x128 w1 hw) (constant (F := Ideal) S1000x128 .f32 0x00000000#32))
          (broadcastTo S1000x128 (shapeCast S1x128 b1 hc) hb))
        (broadcast S1000x128 (Scalar.ofBits (F := Ideal) .f32 0x00000000#32))) hlt : FVec Ideal S1000x128 .bf16) (ix2 p k)
      = max (denseAt x0 w1 (rowVec b1) p k) 0 := by
  rw [truncf_apply, shapeCast_self x0 hx, shapeCast_self w1 hw, shapeCast_self b1 hc, dot16_1_eq]
  exact chip_dense_row_relu_apply 1000 128 128 (by decide) hb x0 w1 b1 p k

/-- The second layer on a block, at (p, q), whatever its left operand. -/
theorem lay16_apply (h : FVec Ideal S1000x128 .bf16) (w2 : FVec Ideal S128x3 .bf16) (b2 : FVec Ideal S1x3 .f32)
    (hw : S128x3.ShapeCasts S128x3) (hc : S1x3.ShapeCasts S1x3) (hb : S1x3.Broadcasts S1000x3) (p : Fin 1000) (q : Fin 3) :
    addf (matmul dot_S1000x128_S128x3_S1000x3_1_0_0_1_n_n none h (shapeCast S128x3 w2 hw) (constant (F := Ideal) S1000x3 .f32 0x00000000#32))
        (broadcastTo S1000x3 (shapeCast S1x3 b2 hc) hb) (ix2 p q)
      = denseAt h w2 (rowVec b2) p q := by
  rw [shapeCast_self w2 hw, shapeCast_self b2 hc, dot16_2_eq]
  exact chip_dense_row_apply 1000 128 3 (by decide) hb h w2 b2 p q

/-- The payload on a block, at (p, q). -/
theorem pay16_apply (x0 : FVec Ideal S1000x128 .bf16) (w1 : FVec Ideal S128x128 .bf16) (b1 : FVec Ideal S1x128 .f32)
    (w2 : FVec Ideal S128x3 .bf16) (b2 : FVec Ideal S1x3 .f32) (l0 : FVec Ideal S1000x3 .f32) (p : Fin 1000) (q : Fin 3) :
    k16_pay1 (F := Ideal) x0 w1 b1 w2 b2 l0 (ix2 p q)
      = denseAt (M := 1000) (K := 128) (N := 3)
          (fun j : S1000x128.Idx => max (denseAt (M := 1000) (K := 128) (N := 128) x0 w1 (rowVec b1) (j 0) (j 1)) 0) w2 (rowVec b2) p q
        + l0 (ix2 p q) := by
  unfold k16_pay1
  refine (addf_apply _ _ _).trans ?_
  refine congrArg₂ (· + ·) ?_ (congrFun (shapeCast_self l0 _) _)
  refine (lay16_apply _ w2 b2 _ _ _ p q).trans ?_
  exact denseAt_congr (fun k => hid16_apply x0 w1 b1 _ _ _ _ _ p k) (fun _ => rfl) rfl

/-- The payload on a block of rows, at (p, q), is G at (r, q) when row p of the block is row r of the arrays. -/
theorem pay16_block (xs : S5000x128.Idx → EReal) (lp : S5000x3.Idx → EReal) (W1 : S128x128.Idx → EReal) (b1 : S1x128.Idx → EReal)
    (W2 : S128x3.Idx → EReal) (b2 : S1x3.Idx → EReal)
    (x0 : FVec Ideal S1000x128 .bf16) (w1 : FVec Ideal S128x128 .bf16) (c1 : FVec Ideal S1x128 .f32)
    (w2 : FVec Ideal S128x3 .bf16) (c2 : FVec Ideal S1x3 .f32) (l0 : FVec Ideal S1000x3 .f32)
    (p : Fin 1000) (q : Fin 3) (r : Fin 5000)
    (hx : ∀ k : Fin 128, x0 (ix2 p k) = xs (ix2 r k)) (hl : l0 (ix2 p q) = lp (ix2 r q))
    (hw1 : ∀ a, w1 a = W1 a) (hb1 : ∀ a, c1 a = b1 a) (hw2 : ∀ a, w2 a = W2 a) (hb2 : ∀ a, c2 a = b2 a) :
    k16_pay1 (F := Ideal) x0 w1 c1 w2 c2 l0 (ix2 p q) = G16_6 xs lp W1 b1 W2 b2 (ix2 r q) := by
  rw [pay16_apply, hl]
  unfold G16_6
  refine congrArg (· + lp (ix2 r q)) ?_
  refine denseAt_congr (fun k => congrArg (max · 0) ?_) (fun k => hw2 _) (hb2 _)
  exact denseAt_congr (fun j => hx j) (fun j => hw1 _) (hb1 _)

/-- The same with the two entries given as indices: entry j of the block against entry i of the arrays, in the same
    column, row (j 0) of the block being row (i 0) of the arrays. -/
theorem pay16_at (xs : S5000x128.Idx → EReal) (lp : S5000x3.Idx → EReal) (W1 : S128x128.Idx → EReal) (b1 : S1x128.Idx → EReal)
    (W2 : S128x3.Idx → EReal) (b2 : S1x3.Idx → EReal)
    (x0 : FVec Ideal S1000x128 .bf16) (w1 : FVec Ideal S128x128 .bf16) (c1 : FVec Ideal S1x128 .f32)
    (w2 : FVec Ideal S128x3 .bf16) (c2 : FVec Ideal S1x3 .f32) (l0 : FVec Ideal S1000x3 .f32)
    (j : S1000x3.Idx) (i : S5000x3.Idx) (hq : (i 1).val = (j 1).val)
    (hx : ∀ k : Fin 128, x0 (ix2 (j 0) k) = xs (ix2 (i 0) k)) (hl : l0 j = lp i)
    (hw1 : ∀ a, w1 a = W1 a) (hb1 : ∀ a, c1 a = b1 a) (hw2 : ∀ a, w2 a = W2 a) (hb2 : ∀ a, c2 a = b2 a) :
    k16_pay1 (F := Ideal) x0 w1 c1 w2 c2 l0 j = G16_6 xs lp W1 b1 W2 b2 i := by
  obtain ⟨p, q, rfl⟩ : ∃ (p : Fin 1000) (q : Fin 3), j = ix2 p q := ⟨j 0, j 1, eq_ix2 j⟩
  obtain ⟨r, q', rfl⟩ : ∃ (r : Fin 5000) (q' : Fin 3), i = ix2 r q' := ⟨i 0, i 1, eq_ix2 i⟩
  obtain rfl : q' = q := Fin.ext hq
  exact pay16_block xs lp W1 b1 W2 b2 x0 w1 c1 w2 c2 l0 p q' r hx hl hw1 hb1 hw2 hb2

/-! ## The windows' block indices, decided over the grid -/

/-- The two row-blocked inputs move with the output; the weights' and biases' blocks stay at block 0; the output's
    block index is the point's number, below 5. -/
theorem idx_facts16 : ∀ t : Fin cfg16.N,
    win16_0.index t (0 : Fin 2) = win16_6.index t (0 : Fin 2) ∧ win16_0.index t (1 : Fin 2) = 0
    ∧ win16_1.index t (0 : Fin 2) = win16_6.index t (0 : Fin 2) ∧ win16_1.index t (1 : Fin 2) = 0
    ∧ win16_2.index t (0 : Fin 2) = 0 ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0
    ∧ win16_5.index t (0 : Fin 2) = 0 ∧ win16_5.index t (1 : Fin 2) = 0
    ∧ win16_6.index t (0 : Fin 2) ≤ 4 ∧ win16_6.index t (1 : Fin 2) = 0 :=
  (by decide +kernel : ∀ t : Fin grid16.N, _)

/-- Every block of rows is some point's. -/
theorem idx_onto16 : ∀ q0 : Fin 5, ∃ t : Fin cfg16.N, win16_6.index t = ![q0.val, 0] :=
  (by decide +kernel : ∀ q0 : Fin 5, ∃ t : Fin grid16.N, win16_6.index t = ![q0.val, 0])

theorem hz16 : (![0, 0] : Fin 2 → Nat) = fun _ => 0 := funext fun a => by fin_cases a <;> rfl

/-! ## Where a block's entries sit in its array -/

/-- Entry j of the output block at point `t` sits at row  index · 1000 + (j 0)  of the array, in its own column. -/
theorem emb16_6 (t : Fin cfg16.N) (j : S1000x3.Idx) (hr : win16_6.index t (0 : Fin 2) * 1000 + (j 0).val < 5000) :
    ((cfg16.win 6).blk t).view.emb j = (ix2 (n0 := 5000) (n1 := 3) ⟨win16_6.index t (0 : Fin 2) * 1000 + (j 0).val, hr⟩ (j 1) : S5000x3.Idx) := by
  obtain ⟨e00, e01, e10, e11, e20, e21, e30, e31, e40, e41, e50, e51, e60, e61⟩ := idx_facts16 t
  funext a; apply Fin.ext
  match a with
  | ⟨0, _⟩ => show win16_6.index t (0 : Fin 2) * 1000 + 1 * (j 0).val = win16_6.index t (0 : Fin 2) * 1000 + (j 0).val; omega
  | ⟨1, _⟩ => show win16_6.index t (1 : Fin 2) * 3 + 1 * (j 1).val = (j 1).val; omega

/-- Row p of the xs block at point `t` is row  index · 1000 + p  of xs (the index the output's). -/
theorem read16_0 (V : (c : Dev nD) → (b : Ref sig .tc) → Buf (Elt Ideal) ((c : Thread nD τ).loc b)) (c : Dev nD) (t : Fin cfg16.N)
    (p : Fin 1000) (k : Fin 128) (hr : win16_6.index t (0 : Fin 2) * 1000 + p.val < 5000) :
    iblk16 V c 0 t (ix2 (n0 := 1000) (n1 := 128) p k) = (V c (Pipeline.arrRef spec16 0)) (ix2 (n0 := 5000) (n1 := 128) ⟨win16_6.index t (0 : Fin 2) * 1000 + p.val, hr⟩ k) := by
  have h0 : ((cfg16.win 0).blk t).view.emb (ix2 (n0 := 1000) (n1 := 128) p k) = (ix2 (n0 := 5000) (n1 := 128) ⟨win16_6.index t (0 : Fin 2) * 1000 + p.val, hr⟩ k : S5000x128.Idx) := by
    obtain ⟨e00, e01, e10, e11, e20, e21, e30, e31, e40, e41, e50, e51, e60, e61⟩ := idx_facts16 t
    funext a; apply Fin.ext
    match a with
    | ⟨0, _⟩ => show win16_0.index t (0 : Fin 2) * 1000 + 1 * p.val = win16_6.index t (0 : Fin 2) * 1000 + p.val; omega
    | ⟨1, _⟩ => show win16_0.index t (1 : Fin 2) * 128 + 1 * k.val = k.val; omega
  show (V c (Pipeline.arrRef spec16 0)) (((cfg16.win 0).blk t).view.emb (ix2 (n0 := 1000) (n1 := 128) p k)) = (V c (Pipeline.arrRef spec16 0)) (ix2 (n0 := 5000) (n1 := 128) ⟨win16_6.index t (0 : Fin 2) * 1000 + p.val, hr⟩ k)
  rw [h0]

/-- Entry j of the lp block at point `t` is the entry of lp at row  index · 1000 + (j 0)  in the same column. -/
theorem read16_1 (V : (c : Dev nD) → (b : Ref sig .tc) → Buf (Elt Ideal) ((c : Thread nD τ).loc b)) (c : Dev nD) (t : Fin cfg16.N)
    (j : S1000x3.Idx) (hr : win16_6.index t (0 : Fin 2) * 1000 + (j 0).val < 5000) :
    iblk16 V c 1 t j = (V c (Pipeline.arrRef spec16 1)) (ix2 (n0 := 5000) (n1 := 3) ⟨win16_6.index t (0 : Fin 2) * 1000 + (j 0).val, hr⟩ (j 1)) := by
  have h1 : ((cfg16.win 1).blk t).view.emb j = (ix2 (n0 := 5000) (n1 := 3) ⟨win16_6.index t (0 : Fin 2) * 1000 + (j 0).val, hr⟩ (j 1) : S5000x3.Idx) := by
    obtain ⟨e00, e01, e10, e11, e20, e21, e30, e31, e40, e41, e50, e51, e60, e61⟩ := idx_facts16 t
    funext a; apply Fin.ext
    match a with
    | ⟨0, _⟩ => show win16_1.index t (0 : Fin 2) * 1000 + 1 * (j 0).val = win16_6.index t (0 : Fin 2) * 1000 + (j 0).val; omega
    | ⟨1, _⟩ => show win16_1.index t (1 : Fin 2) * 3 + 1 * (j 1).val = (j 1).val; omega
  show (V c (Pipeline.arrRef spec16 1)) (((cfg16.win 1).blk t).view.emb j) = (V c (Pipeline.arrRef spec16 1)) (ix2 (n0 := 5000) (n1 := 3) ⟨win16_6.index t (0 : Fin 2) * 1000 + (j 0).val, hr⟩ (j 1))
  rw [h1]

/-- Window 2's block (the first layer's weights) is its whole array, at every point. -/
theorem read16_2 (V : (c : Dev nD) → (b : Ref sig .tc) → Buf (Elt Ideal) ((c : Thread nD τ).loc b)) (c : Dev nD) (t : Fin cfg16.N) (a : S128x128.Idx) :
    iblk16 V c 2 t a = (V c (Pipeline.arrRef spec16 2)) a := by
  have h : ((cfg16.win 2).blk t).view.emb a = (a : S128x128.Idx) := by
    obtain ⟨e00, e01, e10, e11, e20, e21, e30, e31, e40, e41, e50, e51, e60, e61⟩ := idx_facts16 t
    funext b; apply Fin.ext
    match b with
    | ⟨0, _⟩ => show win16_2.index t (0 : Fin 2) * 128 + 1 * (a 0).val = (a 0).val; omega
    | ⟨1, _⟩ => show win16_2.index t (1 : Fin 2) * 128 + 1 * (a 1).val = (a 1).val; omega
  show (V c (Pipeline.arrRef spec16 2)) (((cfg16.win 2).blk t).view.emb a) = (V c (Pipeline.arrRef spec16 2)) a
  rw [h]

/-- Window 3's block (the first layer's bias row) is its whole array, at every point. -/
theorem read16_3 (V : (c : Dev nD) → (b : Ref sig .tc) → Buf (Elt Ideal) ((c : Thread nD τ).loc b)) (c : Dev nD) (t : Fin cfg16.N) (a : S1x128.Idx) :
    iblk16 V c 3 t a = (V c (Pipeline.arrRef spec16 3)) a := by
  have h : ((cfg16.win 3).blk t).view.emb a = (a : S1x128.Idx) := by
    obtain ⟨e00, e01, e10, e11, e20, e21, e30, e31, e40, e41, e50, e51, e60, e61⟩ := idx_facts16 t
    funext b; apply Fin.ext
    match b with
    | ⟨0, _⟩ => show win16_3.index t (0 : Fin 2) * 1 + 1 * (a 0).val = (a 0).val; omega
    | ⟨1, _⟩ => show win16_3.index t (1 : Fin 2) * 128 + 1 * (a 1).val = (a 1).val; omega
  show (V c (Pipeline.arrRef spec16 3)) (((cfg16.win 3).blk t).view.emb a) = (V c (Pipeline.arrRef spec16 3)) a
  rw [h]

/-- Window 4's block (the second layer's weights) is its whole array, at every point. -/
theorem read16_4 (V : (c : Dev nD) → (b : Ref sig .tc) → Buf (Elt Ideal) ((c : Thread nD τ).loc b)) (c : Dev nD) (t : Fin cfg16.N) (a : S128x3.Idx) :
    iblk16 V c 4 t a = (V c (Pipeline.arrRef spec16 4)) a := by
  have h : ((cfg16.win 4).blk t).view.emb a = (a : S128x3.Idx) := by
    obtain ⟨e00, e01, e10, e11, e20, e21, e30, e31, e40, e41, e50, e51, e60, e61⟩ := idx_facts16 t
    funext b; apply Fin.ext
    match b with
    | ⟨0, _⟩ => show win16_4.index t (0 : Fin 2) * 128 + 1 * (a 0).val = (a 0).val; omega
    | ⟨1, _⟩ => show win16_4.index t (1 : Fin 2) * 3 + 1 * (a 1).val = (a 1).val; omega
  show (V c (Pipeline.arrRef spec16 4)) (((cfg16.win 4).blk t).view.emb a) = (V c (Pipeline.arrRef spec16 4)) a
  rw [h]

/-- Window 5's block (the second layer's bias row) is its whole array, at every point. -/
theorem read16_5 (V : (c : Dev nD) → (b : Ref sig .tc) → Buf (Elt Ideal) ((c : Thread nD τ).loc b)) (c : Dev nD) (t : Fin cfg16.N) (a : S1x3.Idx) :
    iblk16 V c 5 t a = (V c (Pipeline.arrRef spec16 5)) a := by
  have h : ((cfg16.win 5).blk t).view.emb a = (a : S1x3.Idx) := by
    obtain ⟨e00, e01, e10, e11, e20, e21, e30, e31, e40, e41, e50, e51, e60, e61⟩ := idx_facts16 t
    funext b; apply Fin.ext
    match b with
    | ⟨0, _⟩ => show win16_5.index t (0 : Fin 2) * 1 + 1 * (a 0).val = (a 0).val; omega
    | ⟨1, _⟩ => show win16_5.index t (1 : Fin 2) * 3 + 1 * (a 1).val = (a 1).val; omega
  show (V c (Pipeline.arrRef spec16 5)) (((cfg16.win 5).blk t).view.emb a) = (V c (Pipeline.arrRef spec16 5)) a
  rw [h]

/-! ## What a point writes back -/

/-- Point `t` writes back the payload of the six blocks at `t`: the body loads each buffer whole and stores once, over
    the whole output block. -/
theorem flushed16_6_pay (V : (c : Dev nD) → (b : Ref sig .tc) → Buf (Elt Ideal) ((c : Thread nD τ).loc b)) (c : Dev nD) (t : Fin cfg16.N) :
    (dat16 (F := Ideal) V c).flushed 6 t
      = (cfg16.win 6).cut (grid16.coords t) (k16_pay1 (F := Ideal) (iblk16 V c 0 t) (iblk16 V c 2 t) (iblk16 V c 3 t) (iblk16 V c 4 t) (iblk16 V c 5 t) (iblk16 V c 1 t)) := by
  show (cfg16.win 6).cut (grid16.coords t) ((dat16 V c).after 6 t) = _
  rw [after16_6]
  unfold out16_6
  rw [View.canon_unit_zero hz16]
  simp only [View.ld_unit_zero (S := S1000x128) hz16, View.ld_unit_zero (S := S128x128) hz16, View.ld_unit_zero (S := S1x128) hz16,
    View.ld_unit_zero (S := S128x3) hz16, View.ld_unit_zero (S := S1x3) hz16, View.ld_unit_zero (S := S1000x3) hz16]

/-- Point `t` writes back block `t` of `G16_6` of the arrays as the region finds them. -/
theorem flushed16_6_eq (V : (c : Dev nD) → (b : Ref sig .tc) → Buf (Elt Ideal) ((c : Thread nD τ).loc b)) (c : Dev nD) (t : Fin cfg16.N) :
    (dat16 (F := Ideal) V c).flushed 6 t
      = ((cfg16.win 6).blk t).view.read (Elt Ideal) (G16_6 (V c (Pipeline.arrRef spec16 0)) (V c (Pipeline.arrRef spec16 1)) (V c (Pipeline.arrRef spec16 2)) (V c (Pipeline.arrRef spec16 3)) (V c (Pipeline.arrRef spec16 4)) (V c (Pipeline.arrRef spec16 5))) := by
  rw [flushed16_6_pay]
  obtain ⟨e00, e01, e10, e11, e20, e21, e30, e31, e40, e41, e50, e51, e60, e61⟩ := idx_facts16 t
  funext j
  have hj0 : (j 0).val < 1000 := (j 0).isLt
  have hr : win16_6.index t (0 : Fin 2) * 1000 + (j 0).val < 5000 := by omega
  show k16_pay1 (F := Ideal) (iblk16 V c 0 t) (iblk16 V c 2 t) (iblk16 V c 3 t) (iblk16 V c 4 t) (iblk16 V c 5 t) (iblk16 V c 1 t) j = G16_6 (V c (Pipeline.arrRef spec16 0)) (V c (Pipeline.arrRef spec16 1)) (V c (Pipeline.arrRef spec16 2)) (V c (Pipeline.arrRef spec16 3)) (V c (Pipeline.arrRef spec16 4)) (V c (Pipeline.arrRef spec16 5)) (((cfg16.win 6).blk t).view.emb j)
  rw [emb16_6 t j hr]
  exact pay16_at (V c (Pipeline.arrRef spec16 0)) (V c (Pipeline.arrRef spec16 1)) (V c (Pipeline.arrRef spec16 2)) (V c (Pipeline.arrRef spec16 3)) (V c (Pipeline.arrRef spec16 4)) (V c (Pipeline.arrRef spec16 5)) (iblk16 V c 0 t) (iblk16 V c 2 t) (iblk16 V c 3 t) (iblk16 V c 4 t) (iblk16 V c 5 t) (iblk16 V c 1 t) j _ rfl
    (fun k => read16_0 V c t (j 0) k hr) (read16_1 V c t j hr) (read16_2 V c t) (read16_3 V c t) (read16_4 V c t) (read16_5 V c t)

/-! ## The blocks tile the array -/

/-- An index of the array is in point `t`'s block iff each coordinate is in the block's range on its axis. -/
theorem mem_blk16_6 (t : Fin cfg16.N) (i : S5000x3.Idx) :
    i ∈ ((cfg16.win 6).blk t).view.set ↔ ∀ a : Fin 2, win16_6.index t a * S1000x3.size a ≤ (i a).val ∧ (i a).val < win16_6.index t a * S1000x3.size a + S1000x3.size a := by
  show i ∈ ((View.whole main_v446).slice (win16_6.rect t)).set ↔ _
  rw [View.set_slice_whole, Rect.mem_set_unit]
  exact Iff.rfl

/-- Row r of the array lies in block r / 1000, and every block is written back. -/
theorem covered16_6 (i : S5000x3.Idx) : ∃ t : Fin cfg16.N, (cfg16.win 6).flush t = true ∧ i ∈ ((cfg16.win 6).blk t).view.set := by
  have hi0 : (i 0).val < 5000 := (i 0).isLt
  have hi1 : (i 1).val < 3 := (i 1).isLt
  obtain ⟨t, ht⟩ := idx_onto16 ⟨(i 0).val / 1000, by omega⟩
  have q0 : win16_6.index t (0 : Fin 2) = (i 0).val / 1000 := congrFun ht 0
  have q1 : win16_6.index t (1 : Fin 2) = 0 := congrFun ht 1
  refine ⟨t, flush16_6 t, ?_⟩
  rw [mem_blk16_6]
  intro a
  match a with
  | ⟨0, _⟩ => show win16_6.index t (0 : Fin 2) * 1000 ≤ (i 0).val ∧ (i 0).val < win16_6.index t (0 : Fin 2) * 1000 + 1000; omega
  | ⟨1, _⟩ => show win16_6.index t (1 : Fin 2) * 3 ≤ (i 1).val ∧ (i 1).val < win16_6.index t (1 : Fin 2) * 3 + 3; omega

/-! ## The array after the region -/

/-- The output array after the region is `G16_6` of the six arrays as the region found them. -/
theorem final16_6 (V : (c : Dev nD) → (b : Ref sig .tc) → Buf (Elt Ideal) ((c : Thread nD τ).loc b)) (c : Dev nD) :
    (dat16 (F := Ideal) V c).arrAt 6 cfg16.N = G16_6 (V c (Pipeline.arrRef spec16 0)) (V c (Pipeline.arrRef spec16 1)) (V c (Pipeline.arrRef spec16 2)) (V c (Pipeline.arrRef spec16 3)) (V c (Pipeline.arrRef spec16 4)) (V c (Pipeline.arrRef spec16 5)) :=
  (dat16 (F := Ideal) V c).arrAt_eq_of_cover 6 _ (fun t _ => flushed16_6_eq V c t) covered16_6

end Cert.KernelIdeal.Hand

end
-- ==== Proof.KI.KReg.lean ====
/- Each region's output arrays, read at the END of the run, at the exact instance: a region's output array is written by
   that region alone and its operand arrays are not written after it, so its final contents are the region's function of
   the FINAL contents of its operand arrays. -/
import proofs.«147763_j11003706212366_2_alg».proof.Proof.KI.Val0
import proofs.«147763_j11003706212366_2_alg».proof.Proof.KI.Val1
import proofs.«147763_j11003706212366_2_alg».proof.Proof.KI.Val2
import proofs.«147763_j11003706212366_2_alg».proof.Proof.KI.Val3
import proofs.«147763_j11003706212366_2_alg».proof.Proof.KI.Val4
import proofs.«147763_j11003706212366_2_alg».proof.Proof.KI.Val5
import proofs.«147763_j11003706212366_2_alg».proof.Proof.KI.Val6
import proofs.«147763_j11003706212366_2_alg».proof.Proof.KI.Val7
import proofs.«147763_j11003706212366_2_alg».proof.Proof.KI.Val8
import proofs.«147763_j11003706212366_2_alg».proof.Proof.KI.Val9
import proofs.«147763_j11003706212366_2_alg».proof.Proof.KI.Val10
import proofs.«147763_j11003706212366_2_alg».proof.Proof.KI.Val11
import proofs.«147763_j11003706212366_2_alg».proof.Proof.KI.Val12
import proofs.«147763_j11003706212366_2_alg».proof.Proof.KI.Val13
import proofs.«147763_j11003706212366_2_alg».proof.Proof.KI.Val14
import proofs.«147763_j11003706212366_2_alg».proof.Proof.KI.Val15
import proofs.«147763_j11003706212366_2_alg».proof.Proof.KI.Val16
import proofs.«147763_j11003706212366_2_alg».proof.Proof.KI.Keep

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

theorem kreg_main_v15 (c : Dev nD) :
    U41 m c (Proc.devRef .tc main_v15)
      = G0_6 (U41 m c (Proc.devRef .tc main_v10)) (U41 m c (Proc.devRef .tc main_arg0)) (U41 m c (Proc.devRef .tc main_v11)) (U41 m c (Proc.devRef .tc main_v13)) (U41 m c (Proc.devRef .tc main_v12)) (U41 m c (Proc.devRef .tc main_v14)) := by
  rw [keep1 m c main_v15 (by decide +kernel)]
  have e : U2 m c (Proc.devRef .tc main_v15) = (dat0 (F := Ideal) (T1 m) c).arrAt 6 cfg0.N := by
    unfold U2; rw [Function.update_self]
  rw [e, final0_6 (T1 m) c]
  show G0_6 (U1 m c (Proc.devRef .tc main_v10)) (U1 m c (Proc.devRef .tc main_arg0)) (U1 m c (Proc.devRef .tc main_v11)) (U1 m c (Proc.devRef .tc main_v13)) (U1 m c (Proc.devRef .tc main_v12)) (U1 m c (Proc.devRef .tc main_v14)) = _
  rw [← keep0 m c main_v10 (by decide +kernel),
    ← keep0 m c main_arg0 (by decide +kernel),
    ← keep0 m c main_v11 (by decide +kernel),
    ← keep0 m c main_v13 (by decide +kernel),
    ← keep0 m c main_v12 (by decide +kernel),
    ← keep0 m c main_v14 (by decide +kernel)]

theorem kreg_main_v37 (c : Dev nD) :
    U41 m c (Proc.devRef .tc main_v37)
      = G1_6 (U41 m c (Proc.devRef .tc main_v32)) (U41 m c (Proc.devRef .tc main_arg2)) (U41 m c (Proc.devRef .tc main_v33)) (U41 m c (Proc.devRef .tc main_v35)) (U41 m c (Proc.devRef .tc main_v34)) (U41 m c (Proc.devRef .tc main_v36)) := by
  rw [keep5 m c main_v37 (by decide +kernel)]
  have e : U6 m c (Proc.devRef .tc main_v37) = (dat1 (F := Ideal) (T5 m) c).arrAt 6 cfg1.N := by
    unfold U6; rw [Function.update_self]
  rw [e, final1_6 (T5 m) c]
  show G1_6 (U5 m c (Proc.devRef .tc main_v32)) (U5 m c (Proc.devRef .tc main_arg2)) (U5 m c (Proc.devRef .tc main_v33)) (U5 m c (Proc.devRef .tc main_v35)) (U5 m c (Proc.devRef .tc main_v34)) (U5 m c (Proc.devRef .tc main_v36)) = _
  rw [← keep4 m c main_v32 (by decide +kernel),
    ← keep4 m c main_arg2 (by decide +kernel),
    ← keep4 m c main_v33 (by decide +kernel),
    ← keep4 m c main_v35 (by decide +kernel),
    ← keep4 m c main_v34 (by decide +kernel),
    ← keep4 m c main_v36 (by decide +kernel)]

theorem kreg_main_v86_0 (c : Dev nD) :
    U41 m c (Proc.devRef .tc main_v86_0)
      = G2_14 (U41 m c (Proc.devRef .tc main_v46)) (U41 m c (Proc.devRef .tc main_v53)) (U41 m c (Proc.devRef .tc main_v37)) (U41 m c (Proc.devRef .tc main_v60)) (U41 m c (Proc.devRef .tc main_v74)) (U41 m c (Proc.devRef .tc main_v76)) (U41 m c (Proc.devRef .tc main_v78)) (U41 m c (Proc.devRef .tc main_v80)) (U41 m c (Proc.devRef .tc main_v83)) (U41 m c (Proc.devRef .tc main_v81)) (U41 m c (Proc.devRef .tc main_v84)) (U41 m c (Proc.devRef .tc main_v82)) (U41 m c (Proc.devRef .tc main_v85)) := by
  rw [keep7 m c main_v86_0 (by decide +kernel)]
  have e : U8 m c (Proc.devRef .tc main_v86_0) = (dat2 (F := Ideal) (T7 m) c).arrAt 14 cfg2.N := by
    unfold U8; rw [Function.update_of_ne (StableHlo.devRef_ne_of_ne (by decide : (main_v86_0 : Ref sig .tc) ≠ main_v86_1)), Function.update_self]
  rw [e, final2_14 (T7 m) c]
  show G2_14 (U7 m c (Proc.devRef .tc main_v46)) (U7 m c (Proc.devRef .tc main_v53)) (U7 m c (Proc.devRef .tc main_v37)) (U7 m c (Proc.devRef .tc main_v60)) (U7 m c (Proc.devRef .tc main_v74)) (U7 m c (Proc.devRef .tc main_v76)) (U7 m c (Proc.devRef .tc main_v78)) (U7 m c (Proc.devRef .tc main_v80)) (U7 m c (Proc.devRef .tc main_v83)) (U7 m c (Proc.devRef .tc main_v81)) (U7 m c (Proc.devRef .tc main_v84)) (U7 m c (Proc.devRef .tc main_v82)) (U7 m c (Proc.devRef .tc main_v85)) = _
  rw [← keep6 m c main_v46 (by decide +kernel),
    ← keep6 m c main_v53 (by decide +kernel),
    ← keep6 m c main_v37 (by decide +kernel),
    ← keep6 m c main_v60 (by decide +kernel),
    ← keep6 m c main_v74 (by decide +kernel),
    ← keep6 m c main_v76 (by decide +kernel),
    ← keep6 m c main_v78 (by decide +kernel),
    ← keep6 m c main_v80 (by decide +kernel),
    ← keep6 m c main_v83 (by decide +kernel),
    ← keep6 m c main_v81 (by decide +kernel),
    ← keep6 m c main_v84 (by decide +kernel),
    ← keep6 m c main_v82 (by decide +kernel),
    ← keep6 m c main_v85 (by decide +kernel)]

theorem kreg_main_v86_1 (c : Dev nD) :
    U41 m c (Proc.devRef .tc main_v86_1)
      = G2_15 (U41 m c (Proc.devRef .tc main_v46)) (U41 m c (Proc.devRef .tc main_v53)) (U41 m c (Proc.devRef .tc main_v37)) (U41 m c (Proc.devRef .tc main_v60)) (U41 m c (Proc.devRef .tc main_arg2)) (U41 m c (Proc.devRef .tc main_v74)) (U41 m c (Proc.devRef .tc main_v76)) (U41 m c (Proc.devRef .tc main_v78)) (U41 m c (Proc.devRef .tc main_v80)) (U41 m c (Proc.devRef .tc main_v83)) (U41 m c (Proc.devRef .tc main_v81)) (U41 m c (Proc.devRef .tc main_v84)) (U41 m c (Proc.devRef .tc main_v82)) (U41 m c (Proc.devRef .tc main_v85)) := by
  rw [keep7 m c main_v86_1 (by decide +kernel)]
  have e : U8 m c (Proc.devRef .tc main_v86_1) = (dat2 (F := Ideal) (T7 m) c).arrAt 15 cfg2.N := by
    unfold U8; rw [Function.update_self]
  rw [e, final2_15 (T7 m) c]
  show G2_15 (U7 m c (Proc.devRef .tc main_v46)) (U7 m c (Proc.devRef .tc main_v53)) (U7 m c (Proc.devRef .tc main_v37)) (U7 m c (Proc.devRef .tc main_v60)) (U7 m c (Proc.devRef .tc main_arg2)) (U7 m c (Proc.devRef .tc main_v74)) (U7 m c (Proc.devRef .tc main_v76)) (U7 m c (Proc.devRef .tc main_v78)) (U7 m c (Proc.devRef .tc main_v80)) (U7 m c (Proc.devRef .tc main_v83)) (U7 m c (Proc.devRef .tc main_v81)) (U7 m c (Proc.devRef .tc main_v84)) (U7 m c (Proc.devRef .tc main_v82)) (U7 m c (Proc.devRef .tc main_v85)) = _
  rw [← keep6 m c main_v46 (by decide +kernel),
    ← keep6 m c main_v53 (by decide +kernel),
    ← keep6 m c main_v37 (by decide +kernel),
    ← keep6 m c main_v60 (by decide +kernel),
    ← keep6 m c main_arg2 (by decide +kernel),
    ← keep6 m c main_v74 (by decide +kernel),
    ← keep6 m c main_v76 (by decide +kernel),
    ← keep6 m c main_v78 (by decide +kernel),
    ← keep6 m c main_v80 (by decide +kernel),
    ← keep6 m c main_v83 (by decide +kernel),
    ← keep6 m c main_v81 (by decide +kernel),
    ← keep6 m c main_v84 (by decide +kernel),
    ← keep6 m c main_v82 (by decide +kernel),
    ← keep6 m c main_v85 (by decide +kernel)]

theorem kreg_main_v120 (c : Dev nD) :
    U41 m c (Proc.devRef .tc main_v120)
      = G3_7 (U41 m c (Proc.devRef .tc main_v113)) (U41 m c (Proc.devRef .tc main_v114)) (U41 m c (Proc.devRef .tc main_v117)) (U41 m c (Proc.devRef .tc main_v115)) (U41 m c (Proc.devRef .tc main_v118)) (U41 m c (Proc.devRef .tc main_v116)) (U41 m c (Proc.devRef .tc main_v119)) := by
  rw [keep9 m c main_v120 (by decide +kernel)]
  have e : U10 m c (Proc.devRef .tc main_v120) = (dat3 (F := Ideal) (T9 m) c).arrAt 7 cfg3.N := by
    unfold U10; rw [Function.update_self]
  rw [e, final3_7 (T9 m) c]
  show G3_7 (U9 m c (Proc.devRef .tc main_v113)) (U9 m c (Proc.devRef .tc main_v114)) (U9 m c (Proc.devRef .tc main_v117)) (U9 m c (Proc.devRef .tc main_v115)) (U9 m c (Proc.devRef .tc main_v118)) (U9 m c (Proc.devRef .tc main_v116)) (U9 m c (Proc.devRef .tc main_v119)) = _
  rw [← keep8 m c main_v113 (by decide +kernel),
    ← keep8 m c main_v114 (by decide +kernel),
    ← keep8 m c main_v117 (by decide +kernel),
    ← keep8 m c main_v115 (by decide +kernel),
    ← keep8 m c main_v118 (by decide +kernel),
    ← keep8 m c main_v116 (by decide +kernel),
    ← keep8 m c main_v119 (by decide +kernel)]

theorem kreg_main_v147 (c : Dev nD) :
    U41 m c (Proc.devRef .tc main_v147)
      = G4_7 (U41 m c (Proc.devRef .tc main_v140)) (U41 m c (Proc.devRef .tc main_v141)) (U41 m c (Proc.devRef .tc main_v144)) (U41 m c (Proc.devRef .tc main_v142)) (U41 m c (Proc.devRef .tc main_v145)) (U41 m c (Proc.devRef .tc main_v143)) (U41 m c (Proc.devRef .tc main_v146)) := by
  rw [keep11 m c main_v147 (by decide +kernel)]
  have e : U12 m c (Proc.devRef .tc main_v147) = (dat4 (F := Ideal) (T11 m) c).arrAt 7 cfg4.N := by
    unfold U12; rw [Function.update_self]
  rw [e, final4_7 (T11 m) c]
  show G4_7 (U11 m c (Proc.devRef .tc main_v140)) (U11 m c (Proc.devRef .tc main_v141)) (U11 m c (Proc.devRef .tc main_v144)) (U11 m c (Proc.devRef .tc main_v142)) (U11 m c (Proc.devRef .tc main_v145)) (U11 m c (Proc.devRef .tc main_v143)) (U11 m c (Proc.devRef .tc main_v146)) = _
  rw [← keep10 m c main_v140 (by decide +kernel),
    ← keep10 m c main_v141 (by decide +kernel),
    ← keep10 m c main_v144 (by decide +kernel),
    ← keep10 m c main_v142 (by decide +kernel),
    ← keep10 m c main_v145 (by decide +kernel),
    ← keep10 m c main_v143 (by decide +kernel),
    ← keep10 m c main_v146 (by decide +kernel)]

theorem kreg_main_v155 (c : Dev nD) :
    U41 m c (Proc.devRef .tc main_v155)
      = G5_6 (U41 m c (Proc.devRef .tc main_v150)) (U41 m c (Proc.devRef .tc main_arg7)) (U41 m c (Proc.devRef .tc main_v151)) (U41 m c (Proc.devRef .tc main_v153)) (U41 m c (Proc.devRef .tc main_v152)) (U41 m c (Proc.devRef .tc main_v154)) := by
  rw [keep13 m c main_v155 (by decide +kernel)]
  have e : U14 m c (Proc.devRef .tc main_v155) = (dat5 (F := Ideal) (T13 m) c).arrAt 6 cfg5.N := by
    unfold U14; rw [Function.update_self]
  rw [e, final5_6 (T13 m) c]
  show G5_6 (U13 m c (Proc.devRef .tc main_v150)) (U13 m c (Proc.devRef .tc main_arg7)) (U13 m c (Proc.devRef .tc main_v151)) (U13 m c (Proc.devRef .tc main_v153)) (U13 m c (Proc.devRef .tc main_v152)) (U13 m c (Proc.devRef .tc main_v154)) = _
  rw [← keep12 m c main_v150 (by decide +kernel),
    ← keep12 m c main_arg7 (by decide +kernel),
    ← keep12 m c main_v151 (by decide +kernel),
    ← keep12 m c main_v153 (by decide +kernel),
    ← keep12 m c main_v152 (by decide +kernel),
    ← keep12 m c main_v154 (by decide +kernel)]

theorem kreg_main_v174 (c : Dev nD) :
    U41 m c (Proc.devRef .tc main_v174)
      = G6_6 (U41 m c (Proc.devRef .tc main_v169)) (U41 m c (Proc.devRef .tc main_v148)) (U41 m c (Proc.devRef .tc main_v170)) (U41 m c (Proc.devRef .tc main_v172)) (U41 m c (Proc.devRef .tc main_v171)) (U41 m c (Proc.devRef .tc main_v173)) := by
  rw [keep15 m c main_v174 (by decide +kernel)]
  have e : U16 m c (Proc.devRef .tc main_v174) = (dat6 (F := Ideal) (T15 m) c).arrAt 6 cfg6.N := by
    unfold U16; rw [Function.update_self]
  rw [e, final6_6 (T15 m) c]
  show G6_6 (U15 m c (Proc.devRef .tc main_v169)) (U15 m c (Proc.devRef .tc main_v148)) (U15 m c (Proc.devRef .tc main_v170)) (U15 m c (Proc.devRef .tc main_v172)) (U15 m c (Proc.devRef .tc main_v171)) (U15 m c (Proc.devRef .tc main_v173)) = _
  rw [← keep14 m c main_v169 (by decide +kernel),
    ← keep14 m c main_v148 (by decide +kernel),
    ← keep14 m c main_v170 (by decide +kernel),
    ← keep14 m c main_v172 (by decide +kernel),
    ← keep14 m c main_v171 (by decide +kernel),
    ← keep14 m c main_v173 (by decide +kernel)]

theorem kreg_main_v196 (c : Dev nD) :
    U41 m c (Proc.devRef .tc main_v196)
      = G7_6 (U41 m c (Proc.devRef .tc main_v191)) (U41 m c (Proc.devRef .tc main_v86_1)) (U41 m c (Proc.devRef .tc main_v192)) (U41 m c (Proc.devRef .tc main_v194)) (U41 m c (Proc.devRef .tc main_v193)) (U41 m c (Proc.devRef .tc main_v195)) := by
  rw [keep19 m c main_v196 (by decide +kernel)]
  have e : U20 m c (Proc.devRef .tc main_v196) = (dat7 (F := Ideal) (T19 m) c).arrAt 6 cfg7.N := by
    unfold U20; rw [Function.update_self]
  rw [e, final7_6 (T19 m) c]
  show G7_6 (U19 m c (Proc.devRef .tc main_v191)) (U19 m c (Proc.devRef .tc main_v86_1)) (U19 m c (Proc.devRef .tc main_v192)) (U19 m c (Proc.devRef .tc main_v194)) (U19 m c (Proc.devRef .tc main_v193)) (U19 m c (Proc.devRef .tc main_v195)) = _
  rw [← keep18 m c main_v191 (by decide +kernel),
    ← keep18 m c main_v86_1 (by decide +kernel),
    ← keep18 m c main_v192 (by decide +kernel),
    ← keep18 m c main_v194 (by decide +kernel),
    ← keep18 m c main_v193 (by decide +kernel),
    ← keep18 m c main_v195 (by decide +kernel)]

theorem kreg_main_v245_0 (c : Dev nD) :
    U41 m c (Proc.devRef .tc main_v245_0)
      = G8_14 (U41 m c (Proc.devRef .tc main_v205)) (U41 m c (Proc.devRef .tc main_v212)) (U41 m c (Proc.devRef .tc main_v196)) (U41 m c (Proc.devRef .tc main_v219)) (U41 m c (Proc.devRef .tc main_v233)) (U41 m c (Proc.devRef .tc main_v235)) (U41 m c (Proc.devRef .tc main_v237)) (U41 m c (Proc.devRef .tc main_v239)) (U41 m c (Proc.devRef .tc main_v242)) (U41 m c (Proc.devRef .tc main_v240)) (U41 m c (Proc.devRef .tc main_v243)) (U41 m c (Proc.devRef .tc main_v241)) (U41 m c (Proc.devRef .tc main_v244)) := by
  rw [keep21 m c main_v245_0 (by decide +kernel)]
  have e : U22 m c (Proc.devRef .tc main_v245_0) = (dat8 (F := Ideal) (T21 m) c).arrAt 14 cfg8.N := by
    unfold U22; rw [Function.update_of_ne (StableHlo.devRef_ne_of_ne (by decide : (main_v245_0 : Ref sig .tc) ≠ main_v245_1)), Function.update_self]
  rw [e, final8_14 (T21 m) c]
  show G8_14 (U21 m c (Proc.devRef .tc main_v205)) (U21 m c (Proc.devRef .tc main_v212)) (U21 m c (Proc.devRef .tc main_v196)) (U21 m c (Proc.devRef .tc main_v219)) (U21 m c (Proc.devRef .tc main_v233)) (U21 m c (Proc.devRef .tc main_v235)) (U21 m c (Proc.devRef .tc main_v237)) (U21 m c (Proc.devRef .tc main_v239)) (U21 m c (Proc.devRef .tc main_v242)) (U21 m c (Proc.devRef .tc main_v240)) (U21 m c (Proc.devRef .tc main_v243)) (U21 m c (Proc.devRef .tc main_v241)) (U21 m c (Proc.devRef .tc main_v244)) = _
  rw [← keep20 m c main_v205 (by decide +kernel),
    ← keep20 m c main_v212 (by decide +kernel),
    ← keep20 m c main_v196 (by decide +kernel),
    ← keep20 m c main_v219 (by decide +kernel),
    ← keep20 m c main_v233 (by decide +kernel),
    ← keep20 m c main_v235 (by decide +kernel),
    ← keep20 m c main_v237 (by decide +kernel),
    ← keep20 m c main_v239 (by decide +kernel),
    ← keep20 m c main_v242 (by decide +kernel),
    ← keep20 m c main_v240 (by decide +kernel),
    ← keep20 m c main_v243 (by decide +kernel),
    ← keep20 m c main_v241 (by decide +kernel),
    ← keep20 m c main_v244 (by decide +kernel)]

theorem kreg_main_v245_1 (c : Dev nD) :
    U41 m c (Proc.devRef .tc main_v245_1)
      = G8_15 (U41 m c (Proc.devRef .tc main_v205)) (U41 m c (Proc.devRef .tc main_v212)) (U41 m c (Proc.devRef .tc main_v196)) (U41 m c (Proc.devRef .tc main_v219)) (U41 m c (Proc.devRef .tc main_v86_1)) (U41 m c (Proc.devRef .tc main_v233)) (U41 m c (Proc.devRef .tc main_v235)) (U41 m c (Proc.devRef .tc main_v237)) (U41 m c (Proc.devRef .tc main_v239)) (U41 m c (Proc.devRef .tc main_v242)) (U41 m c (Proc.devRef .tc main_v240)) (U41 m c (Proc.devRef .tc main_v243)) (U41 m c (Proc.devRef .tc main_v241)) (U41 m c (Proc.devRef .tc main_v244)) := by
  rw [keep21 m c main_v245_1 (by decide +kernel)]
  have e : U22 m c (Proc.devRef .tc main_v245_1) = (dat8 (F := Ideal) (T21 m) c).arrAt 15 cfg8.N := by
    unfold U22; rw [Function.update_self]
  rw [e, final8_15 (T21 m) c]
  show G8_15 (U21 m c (Proc.devRef .tc main_v205)) (U21 m c (Proc.devRef .tc main_v212)) (U21 m c (Proc.devRef .tc main_v196)) (U21 m c (Proc.devRef .tc main_v219)) (U21 m c (Proc.devRef .tc main_v86_1)) (U21 m c (Proc.devRef .tc main_v233)) (U21 m c (Proc.devRef .tc main_v235)) (U21 m c (Proc.devRef .tc main_v237)) (U21 m c (Proc.devRef .tc main_v239)) (U21 m c (Proc.devRef .tc main_v242)) (U21 m c (Proc.devRef .tc main_v240)) (U21 m c (Proc.devRef .tc main_v243)) (U21 m c (Proc.devRef .tc main_v241)) (U21 m c (Proc.devRef .tc main_v244)) = _
  rw [← keep20 m c main_v205 (by decide +kernel),
    ← keep20 m c main_v212 (by decide +kernel),
    ← keep20 m c main_v196 (by decide +kernel),
    ← keep20 m c main_v219 (by decide +kernel),
    ← keep20 m c main_v86_1 (by decide +kernel),
    ← keep20 m c main_v233 (by decide +kernel),
    ← keep20 m c main_v235 (by decide +kernel),
    ← keep20 m c main_v237 (by decide +kernel),
    ← keep20 m c main_v239 (by decide +kernel),
    ← keep20 m c main_v242 (by decide +kernel),
    ← keep20 m c main_v240 (by decide +kernel),
    ← keep20 m c main_v243 (by decide +kernel),
    ← keep20 m c main_v241 (by decide +kernel),
    ← keep20 m c main_v244 (by decide +kernel)]

theorem kreg_main_v279 (c : Dev nD) :
    U41 m c (Proc.devRef .tc main_v279)
      = G9_7 (U41 m c (Proc.devRef .tc main_v272)) (U41 m c (Proc.devRef .tc main_v273)) (U41 m c (Proc.devRef .tc main_v276)) (U41 m c (Proc.devRef .tc main_v274)) (U41 m c (Proc.devRef .tc main_v277)) (U41 m c (Proc.devRef .tc main_v275)) (U41 m c (Proc.devRef .tc main_v278)) := by
  rw [keep23 m c main_v279 (by decide +kernel)]
  have e : U24 m c (Proc.devRef .tc main_v279) = (dat9 (F := Ideal) (T23 m) c).arrAt 7 cfg9.N := by
    unfold U24; rw [Function.update_self]
  rw [e, final9_7 (T23 m) c]
  show G9_7 (U23 m c (Proc.devRef .tc main_v272)) (U23 m c (Proc.devRef .tc main_v273)) (U23 m c (Proc.devRef .tc main_v276)) (U23 m c (Proc.devRef .tc main_v274)) (U23 m c (Proc.devRef .tc main_v277)) (U23 m c (Proc.devRef .tc main_v275)) (U23 m c (Proc.devRef .tc main_v278)) = _
  rw [← keep22 m c main_v272 (by decide +kernel),
    ← keep22 m c main_v273 (by decide +kernel),
    ← keep22 m c main_v276 (by decide +kernel),
    ← keep22 m c main_v274 (by decide +kernel),
    ← keep22 m c main_v277 (by decide +kernel),
    ← keep22 m c main_v275 (by decide +kernel),
    ← keep22 m c main_v278 (by decide +kernel)]

theorem kreg_main_v306 (c : Dev nD) :
    U41 m c (Proc.devRef .tc main_v306)
      = G10_7 (U41 m c (Proc.devRef .tc main_v299)) (U41 m c (Proc.devRef .tc main_v300)) (U41 m c (Proc.devRef .tc main_v303)) (U41 m c (Proc.devRef .tc main_v301)) (U41 m c (Proc.devRef .tc main_v304)) (U41 m c (Proc.devRef .tc main_v302)) (U41 m c (Proc.devRef .tc main_v305)) := by
  rw [keep25 m c main_v306 (by decide +kernel)]
  have e : U26 m c (Proc.devRef .tc main_v306) = (dat10 (F := Ideal) (T25 m) c).arrAt 7 cfg10.N := by
    unfold U26; rw [Function.update_self]
  rw [e, final10_7 (T25 m) c]
  show G10_7 (U25 m c (Proc.devRef .tc main_v299)) (U25 m c (Proc.devRef .tc main_v300)) (U25 m c (Proc.devRef .tc main_v303)) (U25 m c (Proc.devRef .tc main_v301)) (U25 m c (Proc.devRef .tc main_v304)) (U25 m c (Proc.devRef .tc main_v302)) (U25 m c (Proc.devRef .tc main_v305)) = _
  rw [← keep24 m c main_v299 (by decide +kernel),
    ← keep24 m c main_v300 (by decide +kernel),
    ← keep24 m c main_v303 (by decide +kernel),
    ← keep24 m c main_v301 (by decide +kernel),
    ← keep24 m c main_v304 (by decide +kernel),
    ← keep24 m c main_v302 (by decide +kernel),
    ← keep24 m c main_v305 (by decide +kernel)]

theorem kreg_main_v314 (c : Dev nD) :
    U41 m c (Proc.devRef .tc main_v314)
      = G11_6 (U41 m c (Proc.devRef .tc main_v309)) (U41 m c (Proc.devRef .tc main_v168)) (U41 m c (Proc.devRef .tc main_v310)) (U41 m c (Proc.devRef .tc main_v312)) (U41 m c (Proc.devRef .tc main_v311)) (U41 m c (Proc.devRef .tc main_v313)) := by
  rw [keep27 m c main_v314 (by decide +kernel)]
  have e : U28 m c (Proc.devRef .tc main_v314) = (dat11 (F := Ideal) (T27 m) c).arrAt 6 cfg11.N := by
    unfold U28; rw [Function.update_self]
  rw [e, final11_6 (T27 m) c]
  show G11_6 (U27 m c (Proc.devRef .tc main_v309)) (U27 m c (Proc.devRef .tc main_v168)) (U27 m c (Proc.devRef .tc main_v310)) (U27 m c (Proc.devRef .tc main_v312)) (U27 m c (Proc.devRef .tc main_v311)) (U27 m c (Proc.devRef .tc main_v313)) = _
  rw [← keep26 m c main_v309 (by decide +kernel),
    ← keep26 m c main_v168 (by decide +kernel),
    ← keep26 m c main_v310 (by decide +kernel),
    ← keep26 m c main_v312 (by decide +kernel),
    ← keep26 m c main_v311 (by decide +kernel),
    ← keep26 m c main_v313 (by decide +kernel)]

theorem kreg_main_v333 (c : Dev nD) :
    U41 m c (Proc.devRef .tc main_v333)
      = G12_6 (U41 m c (Proc.devRef .tc main_v328)) (U41 m c (Proc.devRef .tc main_v307)) (U41 m c (Proc.devRef .tc main_v329)) (U41 m c (Proc.devRef .tc main_v331)) (U41 m c (Proc.devRef .tc main_v330)) (U41 m c (Proc.devRef .tc main_v332)) := by
  rw [keep29 m c main_v333 (by decide +kernel)]
  have e : U30 m c (Proc.devRef .tc main_v333) = (dat12 (F := Ideal) (T29 m) c).arrAt 6 cfg12.N := by
    unfold U30; rw [Function.update_self]
  rw [e, final12_6 (T29 m) c]
  show G12_6 (U29 m c (Proc.devRef .tc main_v328)) (U29 m c (Proc.devRef .tc main_v307)) (U29 m c (Proc.devRef .tc main_v329)) (U29 m c (Proc.devRef .tc main_v331)) (U29 m c (Proc.devRef .tc main_v330)) (U29 m c (Proc.devRef .tc main_v332)) = _
  rw [← keep28 m c main_v328 (by decide +kernel),
    ← keep28 m c main_v307 (by decide +kernel),
    ← keep28 m c main_v329 (by decide +kernel),
    ← keep28 m c main_v331 (by decide +kernel),
    ← keep28 m c main_v330 (by decide +kernel),
    ← keep28 m c main_v332 (by decide +kernel)]

theorem kreg_main_v355 (c : Dev nD) :
    U41 m c (Proc.devRef .tc main_v355)
      = G13_6 (U41 m c (Proc.devRef .tc main_v350)) (U41 m c (Proc.devRef .tc main_v245_1)) (U41 m c (Proc.devRef .tc main_v351)) (U41 m c (Proc.devRef .tc main_v353)) (U41 m c (Proc.devRef .tc main_v352)) (U41 m c (Proc.devRef .tc main_v354)) := by
  rw [keep33 m c main_v355 (by decide +kernel)]
  have e : U34 m c (Proc.devRef .tc main_v355) = (dat13 (F := Ideal) (T33 m) c).arrAt 6 cfg13.N := by
    unfold U34; rw [Function.update_self]
  rw [e, final13_6 (T33 m) c]
  show G13_6 (U33 m c (Proc.devRef .tc main_v350)) (U33 m c (Proc.devRef .tc main_v245_1)) (U33 m c (Proc.devRef .tc main_v351)) (U33 m c (Proc.devRef .tc main_v353)) (U33 m c (Proc.devRef .tc main_v352)) (U33 m c (Proc.devRef .tc main_v354)) = _
  rw [← keep32 m c main_v350 (by decide +kernel),
    ← keep32 m c main_v245_1 (by decide +kernel),
    ← keep32 m c main_v351 (by decide +kernel),
    ← keep32 m c main_v353 (by decide +kernel),
    ← keep32 m c main_v352 (by decide +kernel),
    ← keep32 m c main_v354 (by decide +kernel)]

theorem kreg_main_v404_0 (c : Dev nD) :
    U41 m c (Proc.devRef .tc main_v404_0)
      = G14_14 (U41 m c (Proc.devRef .tc main_v364)) (U41 m c (Proc.devRef .tc main_v371)) (U41 m c (Proc.devRef .tc main_v355)) (U41 m c (Proc.devRef .tc main_v378)) (U41 m c (Proc.devRef .tc main_v392)) (U41 m c (Proc.devRef .tc main_v394)) (U41 m c (Proc.devRef .tc main_v396)) (U41 m c (Proc.devRef .tc main_v398)) (U41 m c (Proc.devRef .tc main_v401)) (U41 m c (Proc.devRef .tc main_v399)) (U41 m c (Proc.devRef .tc main_v402)) (U41 m c (Proc.devRef .tc main_v400)) (U41 m c (Proc.devRef .tc main_v403)) := by
  rw [keep35 m c main_v404_0 (by decide +kernel)]
  have e : U36 m c (Proc.devRef .tc main_v404_0) = (dat14 (F := Ideal) (T35 m) c).arrAt 14 cfg14.N := by
    unfold U36; rw [Function.update_of_ne (StableHlo.devRef_ne_of_ne (by decide : (main_v404_0 : Ref sig .tc) ≠ main_v404_1)), Function.update_self]
  rw [e, final14_14 (T35 m) c]
  show G14_14 (U35 m c (Proc.devRef .tc main_v364)) (U35 m c (Proc.devRef .tc main_v371)) (U35 m c (Proc.devRef .tc main_v355)) (U35 m c (Proc.devRef .tc main_v378)) (U35 m c (Proc.devRef .tc main_v392)) (U35 m c (Proc.devRef .tc main_v394)) (U35 m c (Proc.devRef .tc main_v396)) (U35 m c (Proc.devRef .tc main_v398)) (U35 m c (Proc.devRef .tc main_v401)) (U35 m c (Proc.devRef .tc main_v399)) (U35 m c (Proc.devRef .tc main_v402)) (U35 m c (Proc.devRef .tc main_v400)) (U35 m c (Proc.devRef .tc main_v403)) = _
  rw [← keep34 m c main_v364 (by decide +kernel),
    ← keep34 m c main_v371 (by decide +kernel),
    ← keep34 m c main_v355 (by decide +kernel),
    ← keep34 m c main_v378 (by decide +kernel),
    ← keep34 m c main_v392 (by decide +kernel),
    ← keep34 m c main_v394 (by decide +kernel),
    ← keep34 m c main_v396 (by decide +kernel),
    ← keep34 m c main_v398 (by decide +kernel),
    ← keep34 m c main_v401 (by decide +kernel),
    ← keep34 m c main_v399 (by decide +kernel),
    ← keep34 m c main_v402 (by decide +kernel),
    ← keep34 m c main_v400 (by decide +kernel),
    ← keep34 m c main_v403 (by decide +kernel)]

theorem kreg_main_v404_1 (c : Dev nD) :
    U41 m c (Proc.devRef .tc main_v404_1)
      = G14_15 (U41 m c (Proc.devRef .tc main_v364)) (U41 m c (Proc.devRef .tc main_v371)) (U41 m c (Proc.devRef .tc main_v355)) (U41 m c (Proc.devRef .tc main_v378)) (U41 m c (Proc.devRef .tc main_v245_1)) (U41 m c (Proc.devRef .tc main_v392)) (U41 m c (Proc.devRef .tc main_v394)) (U41 m c (Proc.devRef .tc main_v396)) (U41 m c (Proc.devRef .tc main_v398)) (U41 m c (Proc.devRef .tc main_v401)) (U41 m c (Proc.devRef .tc main_v399)) (U41 m c (Proc.devRef .tc main_v402)) (U41 m c (Proc.devRef .tc main_v400)) (U41 m c (Proc.devRef .tc main_v403)) := by
  rw [keep35 m c main_v404_1 (by decide +kernel)]
  have e : U36 m c (Proc.devRef .tc main_v404_1) = (dat14 (F := Ideal) (T35 m) c).arrAt 15 cfg14.N := by
    unfold U36; rw [Function.update_self]
  rw [e, final14_15 (T35 m) c]
  show G14_15 (U35 m c (Proc.devRef .tc main_v364)) (U35 m c (Proc.devRef .tc main_v371)) (U35 m c (Proc.devRef .tc main_v355)) (U35 m c (Proc.devRef .tc main_v378)) (U35 m c (Proc.devRef .tc main_v245_1)) (U35 m c (Proc.devRef .tc main_v392)) (U35 m c (Proc.devRef .tc main_v394)) (U35 m c (Proc.devRef .tc main_v396)) (U35 m c (Proc.devRef .tc main_v398)) (U35 m c (Proc.devRef .tc main_v401)) (U35 m c (Proc.devRef .tc main_v399)) (U35 m c (Proc.devRef .tc main_v402)) (U35 m c (Proc.devRef .tc main_v400)) (U35 m c (Proc.devRef .tc main_v403)) = _
  rw [← keep34 m c main_v364 (by decide +kernel),
    ← keep34 m c main_v371 (by decide +kernel),
    ← keep34 m c main_v355 (by decide +kernel),
    ← keep34 m c main_v378 (by decide +kernel),
    ← keep34 m c main_v245_1 (by decide +kernel),
    ← keep34 m c main_v392 (by decide +kernel),
    ← keep34 m c main_v394 (by decide +kernel),
    ← keep34 m c main_v396 (by decide +kernel),
    ← keep34 m c main_v398 (by decide +kernel),
    ← keep34 m c main_v401 (by decide +kernel),
    ← keep34 m c main_v399 (by decide +kernel),
    ← keep34 m c main_v402 (by decide +kernel),
    ← keep34 m c main_v400 (by decide +kernel),
    ← keep34 m c main_v403 (by decide +kernel)]

theorem kreg_main_v438 (c : Dev nD) :
    U41 m c (Proc.devRef .tc main_v438)
      = G15_7 (U41 m c (Proc.devRef .tc main_v431)) (U41 m c (Proc.devRef .tc main_v432)) (U41 m c (Proc.devRef .tc main_v435)) (U41 m c (Proc.devRef .tc main_v433)) (U41 m c (Proc.devRef .tc main_v436)) (U41 m c (Proc.devRef .tc main_v434)) (U41 m c (Proc.devRef .tc main_v437)) := by
  rw [keep37 m c main_v438 (by decide +kernel)]
  have e : U38 m c (Proc.devRef .tc main_v438) = (dat15 (F := Ideal) (T37 m) c).arrAt 7 cfg15.N := by
    unfold U38; rw [Function.update_self]
  rw [e, final15_7 (T37 m) c]
  show G15_7 (U37 m c (Proc.devRef .tc main_v431)) (U37 m c (Proc.devRef .tc main_v432)) (U37 m c (Proc.devRef .tc main_v435)) (U37 m c (Proc.devRef .tc main_v433)) (U37 m c (Proc.devRef .tc main_v436)) (U37 m c (Proc.devRef .tc main_v434)) (U37 m c (Proc.devRef .tc main_v437)) = _
  rw [← keep36 m c main_v431 (by decide +kernel),
    ← keep36 m c main_v432 (by decide +kernel),
    ← keep36 m c main_v435 (by decide +kernel),
    ← keep36 m c main_v433 (by decide +kernel),
    ← keep36 m c main_v436 (by decide +kernel),
    ← keep36 m c main_v434 (by decide +kernel),
    ← keep36 m c main_v437 (by decide +kernel)]

theorem kreg_main_v446 (c : Dev nD) :
    U41 m c (Proc.devRef .tc main_v446)
      = G16_6 (U41 m c (Proc.devRef .tc main_v441)) (U41 m c (Proc.devRef .tc main_v327)) (U41 m c (Proc.devRef .tc main_v442)) (U41 m c (Proc.devRef .tc main_v444)) (U41 m c (Proc.devRef .tc main_v443)) (U41 m c (Proc.devRef .tc main_v445)) := by
  rw [keep39 m c main_v446 (by decide +kernel)]
  have e : U40 m c (Proc.devRef .tc main_v446) = (dat16 (F := Ideal) (T39 m) c).arrAt 6 cfg16.N := by
    unfold U40; rw [Function.update_self]
  rw [e, final16_6 (T39 m) c]
  show G16_6 (U39 m c (Proc.devRef .tc main_v441)) (U39 m c (Proc.devRef .tc main_v327)) (U39 m c (Proc.devRef .tc main_v442)) (U39 m c (Proc.devRef .tc main_v444)) (U39 m c (Proc.devRef .tc main_v443)) (U39 m c (Proc.devRef .tc main_v445)) = _
  rw [← keep38 m c main_v441 (by decide +kernel),
    ← keep38 m c main_v327 (by decide +kernel),
    ← keep38 m c main_v442 (by decide +kernel),
    ← keep38 m c main_v444 (by decide +kernel),
    ← keep38 m c main_v443 (by decide +kernel),
    ← keep38 m c main_v445 (by decide +kernel)]

end Cert.KernelIdeal.Hand

end
-- ==== Proof.Ref.St0.lean ====
/-
  The reference's values stage by stage, before the first step and in step 0. For each piece of the line (Ref/Ops.lean) and each value it computes that a later piece
  or the caller reads: `ref_JJ_b`, the buffer after the piece as the piece's operations composed over the contents before it, and
  `fin_b`, the same equation between the FINAL contents `R m c` (Ref/Run.lean) — each buffer is written once, so what a value is
  computed from still holds at the end what it held then.
-/
import proofs.«147763_j11003706212366_2_alg».proof.Proof.Ref.Kept
import proofs.«147763_j11003706212366_2_alg».proof.Proof.LibNary3

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192
set_option maxHeartbeats 1000000
set_option Elab.async false

/-! ## Piece 00 (before the first step): the two rows of the edge index (sources, destinations) and the node count of every graph, at least one -/

/-- A buffer piece 00 does not write keeps its contents through it. -/
theorem keep_00 (W : Valuation τ sig (Elt F)) {r : Ref sig .tc} (h : r ∉ ops_00_W) :
    after (ops_00 : List (HloOp τ sig (Elt F))) W (Proc.devRef .tc r) = W (Proc.devRef .tc r) :=
  after_of_writes_sub ops_00 W ops_00_writes h
theorem in_00_arg1 : main_arg1 ∉ tailW_00 := nw_arg1
theorem in_00_arg4 : main_arg4 ∉ tailW_00 := nw_arg4

/-- `v1` after piece 00, from the contents before it. -/
theorem ref_00_v1 (W : Valuation τ sig (Elt F)) :
    after (ops_00 : List (HloOp τ sig (Elt F))) W (Proc.devRef .tc main_v1)
      = (shapeCast S80000 (((extractStridedSlice S1x80000 ![0, 0] · slices_S2x80000_S1x80000_0_0) : (⟨S2x80000, .i32⟩ : BufTy).Contents (Elt F) → (⟨S1x80000, .i32⟩ : BufTy).Contents (Elt F)) (W (Proc.devRef .tc main_arg1))) shapeCasts_S1x80000_S80000 : (⟨S80000, .i32⟩ : BufTy).Contents (Elt F)) := by
  after_results_simp <;> rfl

/-- The same equation on the final contents: `v1` is written once, and what it is computed from is never written again. -/
theorem fin_v1 (m : (ℓ : Loc nD τ sig) → Buf (Elt F) ℓ) (c : Dev nD) :
    R m c (Proc.devRef .tc main_v1)
      = (shapeCast S80000 (((extractStridedSlice S1x80000 ![0, 0] · slices_S2x80000_S1x80000_0_0) : (⟨S2x80000, .i32⟩ : BufTy).Contents (Elt F) → (⟨S1x80000, .i32⟩ : BufTy).Contents (Elt F)) (R m c (Proc.devRef .tc main_arg1))) shapeCasts_S1x80000_S80000 : (⟨S80000, .i32⟩ : BufTy).Contents (Elt F)) := by
  have e := ref_00_v1 (A_00 m c)
  rw [A_00_eq m c in_00_arg1] at e
  exact (R_of_01 m c nw_v1).trans e

/-- `v3` after piece 00, from the contents before it. -/
theorem ref_00_v3 (W : Valuation τ sig (Elt F)) :
    after (ops_00 : List (HloOp τ sig (Elt F))) W (Proc.devRef .tc main_v3)
      = (shapeCast S80000 (((extractStridedSlice S1x80000 ![1, 0] · slices_S2x80000_S1x80000_1_0) : (⟨S2x80000, .i32⟩ : BufTy).Contents (Elt F) → (⟨S1x80000, .i32⟩ : BufTy).Contents (Elt F)) (W (Proc.devRef .tc main_arg1))) shapeCasts_S1x80000_S80000 : (⟨S80000, .i32⟩ : BufTy).Contents (Elt F)) := by
  after_results_simp <;> rfl

/-- The same equation on the final contents: `v3` is written once, and what it is computed from is never written again. -/
theorem fin_v3 (m : (ℓ : Loc nD τ sig) → Buf (Elt F) ℓ) (c : Dev nD) :
    R m c (Proc.devRef .tc main_v3)
      = (shapeCast S80000 (((extractStridedSlice S1x80000 ![1, 0] · slices_S2x80000_S1x80000_1_0) : (⟨S2x80000, .i32⟩ : BufTy).Contents (Elt F) → (⟨S1x80000, .i32⟩ : BufTy).Contents (Elt F)) (R m c (Proc.devRef .tc main_arg1))) shapeCasts_S1x80000_S80000 : (⟨S80000, .i32⟩ : BufTy).Contents (Elt F)) := by
  have e := ref_00_v3 (A_00 m c)
  rw [A_00_eq m c in_00_arg1] at e
  exact (R_of_01 m c nw_v3).trans e

/-- `v9` after piece 00, from the contents before it. -/
theorem ref_00_v9 (W : Valuation τ sig (Elt F)) :
    after (ops_00 : List (HloOp τ sig (Elt F))) W (Proc.devRef .tc main_v9)
      = ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S5000x1_S5000x1_1_0_0_1 x i u) : (⟨S64x1, .f32⟩ : BufTy).Contents (Elt F) → (⟨S5000x1, .i32⟩ : BufTy).Contents (Elt F) → (⟨S5000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant S_ .f32 0x00000000#32 : (⟨S_, .f32⟩ : BufTy).Contents (Elt F))) ((broadcastInDim S5000x1 ![0] bcast_S5000_S5000x1_0 : (⟨S5000, .i32⟩ : BufTy).Contents (Elt F) → (⟨S5000x1, .i32⟩ : BufTy).Contents (Elt F)) (W (Proc.devRef .tc main_arg4))) ((broadcastInDim S5000x1 ![] bcast_S_S5000x1 : (⟨S_, .f32⟩ : BufTy).Contents (Elt F) → (⟨S5000x1, .f32⟩ : BufTy).Contents (Elt F)) (constant S_ .f32 0x3F800000#32 : (⟨S_, .f32⟩ : BufTy).Contents (Elt F)))) ((broadcastInDim S64x1 ![] bcast_S_S64x1 : (⟨S_, .f32⟩ : BufTy).Contents (Elt F) → (⟨S64x1, .f32⟩ : BufTy).Contents (Elt F)) (constant S_ .f32 0x3F800000#32 : (⟨S_, .f32⟩ : BufTy).Contents (Elt F)))) := by
  after_results_simp <;> rfl

/-- The same equation on the final contents: `v9` is written once, and what it is computed from is never written again. -/
theorem fin_v9 (m : (ℓ : Loc nD τ sig) → Buf (Elt F) ℓ) (c : Dev nD) :
    R m c (Proc.devRef .tc main_v9)
      = ((maximumf : (⟨S64x1, .f32⟩ : BufTy).Contents (Elt F) → (⟨S64x1, .f32⟩ : BufTy).Contents (Elt F) → (⟨S64x1, .f32⟩ : BufTy).Contents (Elt F)) (((fun x i u => Host.scatterAdd scatter_S64x1_S5000x1_S5000x1_1_0_0_1 x i u) : (⟨S64x1, .f32⟩ : BufTy).Contents (Elt F) → (⟨S5000x1, .i32⟩ : BufTy).Contents (Elt F) → (⟨S5000x1, .f32⟩ : BufTy).Contents (Elt F) → (⟨S64x1, .f32⟩ : BufTy).Contents (Elt F)) ((broadcastInDim S64x1 ![] bcast_S_S64x1 : (⟨S_, .f32⟩ : BufTy).Contents (Elt F) → (⟨S64x1, .f32⟩ : BufTy).Contents (Elt F)) (constant S_ .f32 0x00000000#32 : (⟨S_, .f32⟩ : BufTy).Contents (Elt F))) ((broadcastInDim S5000x1 ![0] bcast_S5000_S5000x1_0 : (⟨S5000, .i32⟩ : BufTy).Contents (Elt F) → (⟨S5000x1, .i32⟩ : BufTy).Contents (Elt F)) (R m c (Proc.devRef .tc main_arg4))) ((broadcastInDim S5000x1 ![] bcast_S_S5000x1 : (⟨S_, .f32⟩ : BufTy).Contents (Elt F) → (⟨S5000x1, .f32⟩ : BufTy).Contents (Elt F)) (constant S_ .f32 0x3F800000#32 : (⟨S_, .f32⟩ : BufTy).Contents (Elt F)))) ((broadcastInDim S64x1 ![] bcast_S_S64x1 : (⟨S_, .f32⟩ : BufTy).Contents (Elt F) → (⟨S64x1, .f32⟩ : BufTy).Contents (Elt F)) (constant S_ .f32 0x3F800000#32 : (⟨S_, .f32⟩ : BufTy).Contents (Elt F)))) := by
  have e := ref_00_v9 (A_00 m c)
  rw [A_00_eq m c in_00_arg4] at e
  exact (R_of_01 m c nw_v9).trans e

/-! ## Piece 01 (step 0): the node features plus the two-layer embedding of the positions -/

/-- A buffer piece 01 does not write keeps its contents through it. -/
theorem keep_01 (W : Valuation τ sig (Elt F)) {r : Ref sig .tc} (h : r ∉ ops_01_W) :
    after (ops_01 : List (HloOp τ sig (Elt F))) W (Proc.devRef .tc r) = W (Proc.devRef .tc r) :=
  after_of_writes_sub ops_01 W ops_01_writes h
theorem in_01_arg7 : main_arg7 ∉ tailW_01 := later_01 (nw_arg7)
theorem in_01_arg8 : main_arg8 ∉ tailW_01 := later_01 (nw_arg8)
theorem in_01_arg9 : main_arg9 ∉ tailW_01 := later_01 (nw_arg9)
theorem in_01_arg10 : main_arg10 ∉ tailW_01 := later_01 (nw_arg10)
theorem in_01_arg11 : main_arg11 ∉ tailW_01 := later_01 (nw_arg11)
theorem in_01_arg0 : main_arg0 ∉ tailW_01 := later_01 (nw_arg0)

/-- `v20` after piece 01, from the contents before it. -/
theorem ref_01_v20 (W : Valuation τ sig (Elt F)) :
    after (ops_01 : List (HloOp τ sig (Elt F))) W (Proc.devRef .tc main_v20)
      = ((addf : (⟨S5000x128, .f32⟩ : BufTy).Contents (Elt F) → (⟨S5000x128, .f32⟩ : BufTy).Contents (Elt F) → (⟨S5000x128, .f32⟩ : BufTy).Contents (Elt F)) (W (Proc.devRef .tc main_arg0)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x3_S3x128_S5000x128_1_0_0_1_n_n none l r) : (⟨S5000x3, .f32⟩ : BufTy).Contents (Elt F) → (⟨S3x128, .f32⟩ : BufTy).Contents (Elt F) → (⟨S5000x128, .f32⟩ : BufTy).Contents (Elt F)) (W (Proc.devRef .tc main_arg7)) (W (Proc.devRef .tc main_arg8))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (W (Proc.devRef .tc main_arg9))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) (W (Proc.devRef .tc main_arg10))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (W (Proc.devRef .tc main_arg11))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))))) := by
  after_results_simp <;> rfl

/-- The same equation on the final contents: `v20` is written once, and what it is computed from is never written again. -/
theorem fin_v20 (m : (ℓ : Loc nD τ sig) → Buf (Elt F) ℓ) (c : Dev nD) :
    R m c (Proc.devRef .tc main_v20)
      = ((addf : (⟨S5000x128, .f32⟩ : BufTy).Contents (Elt F) → (⟨S5000x128, .f32⟩ : BufTy).Contents (Elt F) → (⟨S5000x128, .f32⟩ : BufTy).Contents (Elt F)) (R m c (Proc.devRef .tc main_arg0)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x3_S3x128_S5000x128_1_0_0_1_n_n none l r) : (⟨S5000x3, .f32⟩ : BufTy).Contents (Elt F) → (⟨S3x128, .f32⟩ : BufTy).Contents (Elt F) → (⟨S5000x128, .f32⟩ : BufTy).Contents (Elt F)) (R m c (Proc.devRef .tc main_arg7)) (R m c (Proc.devRef .tc main_arg8))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (R m c (Proc.devRef .tc main_arg9))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) (R m c (Proc.devRef .tc main_arg10))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (R m c (Proc.devRef .tc main_arg11))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))))) := by
  have e := ref_01_v20 (A_01 m c)
  rw [A_01_eq m c in_01_arg7, A_01_eq m c in_01_arg8, A_01_eq m c in_01_arg9, A_01_eq m c in_01_arg10, A_01_eq m c in_01_arg11, A_01_eq m c in_01_arg0] at e
  exact (R_of_02 m c nw_v20).trans e

/-! ## Piece 02 (step 0): the length of every edge: the Euclidean norm of the difference of its two ends' positions -/

/-- A buffer piece 02 does not write keeps its contents through it. -/
theorem keep_02 (W : Valuation τ sig (Elt F)) {r : Ref sig .tc} (h : r ∉ ops_02_W) :
    after (ops_02 : List (HloOp τ sig (Elt F))) W (Proc.devRef .tc r) = W (Proc.devRef .tc r) :=
  after_of_writes_sub ops_02 W ops_02_writes h
theorem in_02_v1 : main_v1 ∉ tailW_02 := later_02 (nw_v1)
theorem in_02_arg7 : main_arg7 ∉ tailW_02 := later_02 (later_01 (nw_arg7))
theorem in_02_v3 : main_v3 ∉ tailW_02 := later_02 (nw_v3)

/-- `v36` after piece 02, from the contents before it. -/
theorem ref_02_v36 (W : Valuation τ sig (Elt F)) :
    after (ops_02 : List (HloOp τ sig (Elt F))) W (Proc.devRef .tc main_v36)
      = ((Host.sqrt : (⟨S80000x1, .f32⟩ : BufTy).Contents (Elt F) → (⟨S80000x1, .f32⟩ : BufTy).Contents (Elt F)) ((broadcastInDim S80000x1 ![0] bcast_S80000_S80000x1_0 : (⟨S80000, .f32⟩ : BufTy).Contents (Elt F) → (⟨S80000x1, .f32⟩ : BufTy).Contents (Elt F)) ((fun x v => Host.reduceAdd x v reducesTo_S80000x3_S80000_d1 h_S_ : (⟨S80000x3, .f32⟩ : BufTy).Contents (Elt F) → (⟨S_, .f32⟩ : BufTy).Contents (Elt F) → (⟨S80000, .f32⟩ : BufTy).Contents (Elt F)) ((mulf : (⟨S80000x3, .f32⟩ : BufTy).Contents (Elt F) → (⟨S80000x3, .f32⟩ : BufTy).Contents (Elt F) → (⟨S80000x3, .f32⟩ : BufTy).Contents (Elt F)) ((subf : (⟨S80000x3, .f32⟩ : BufTy).Contents (Elt F) → (⟨S80000x3, .f32⟩ : BufTy).Contents (Elt F) → (⟨S80000x3, .f32⟩ : BufTy).Contents (Elt F)) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (W (Proc.devRef .tc main_arg7)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v1))))) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (W (Proc.devRef .tc main_arg7)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v3)))))) ((subf : (⟨S80000x3, .f32⟩ : BufTy).Contents (Elt F) → (⟨S80000x3, .f32⟩ : BufTy).Contents (Elt F) → (⟨S80000x3, .f32⟩ : BufTy).Contents (Elt F)) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (W (Proc.devRef .tc main_arg7)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v1))))) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (W (Proc.devRef .tc main_arg7)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v3))))))) (constant S_ .f32 0x00000000#32 : (⟨S_, .f32⟩ : BufTy).Contents (Elt F))))) := by
  after_results_simp <;> rfl

/-- The same equation on the final contents: `v36` is written once, and what it is computed from is never written again. -/
theorem fin_v36 (m : (ℓ : Loc nD τ sig) → Buf (Elt F) ℓ) (c : Dev nD) :
    R m c (Proc.devRef .tc main_v36)
      = ((Host.sqrt : (⟨S80000x1, .f32⟩ : BufTy).Contents (Elt F) → (⟨S80000x1, .f32⟩ : BufTy).Contents (Elt F)) ((broadcastInDim S80000x1 ![0] bcast_S80000_S80000x1_0 : (⟨S80000, .f32⟩ : BufTy).Contents (Elt F) → (⟨S80000x1, .f32⟩ : BufTy).Contents (Elt F)) ((fun x v => Host.reduceAdd x v reducesTo_S80000x3_S80000_d1 h_S_ : (⟨S80000x3, .f32⟩ : BufTy).Contents (Elt F) → (⟨S_, .f32⟩ : BufTy).Contents (Elt F) → (⟨S80000, .f32⟩ : BufTy).Contents (Elt F)) ((mulf : (⟨S80000x3, .f32⟩ : BufTy).Contents (Elt F) → (⟨S80000x3, .f32⟩ : BufTy).Contents (Elt F) → (⟨S80000x3, .f32⟩ : BufTy).Contents (Elt F)) ((subf : (⟨S80000x3, .f32⟩ : BufTy).Contents (Elt F) → (⟨S80000x3, .f32⟩ : BufTy).Contents (Elt F) → (⟨S80000x3, .f32⟩ : BufTy).Contents (Elt F)) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (R m c (Proc.devRef .tc main_arg7)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v1))))) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (R m c (Proc.devRef .tc main_arg7)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v3)))))) ((subf : (⟨S80000x3, .f32⟩ : BufTy).Contents (Elt F) → (⟨S80000x3, .f32⟩ : BufTy).Contents (Elt F) → (⟨S80000x3, .f32⟩ : BufTy).Contents (Elt F)) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (R m c (Proc.devRef .tc main_arg7)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v1))))) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (R m c (Proc.devRef .tc main_arg7)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v3))))))) (constant S_ .f32 0x00000000#32 : (⟨S_, .f32⟩ : BufTy).Contents (Elt F))))) := by
  have e := ref_02_v36 (A_02 m c)
  rw [A_02_eq m c in_02_v1, A_02_eq m c in_02_arg7, A_02_eq m c in_02_v3] at e
  exact (R_of_03 m c nw_v36).trans e

/-! ## Piece 03 (step 0): the edge features plus the two-layer embedding of the lengths -/

/-- A buffer piece 03 does not write keeps its contents through it. -/
theorem keep_03 (W : Valuation τ sig (Elt F)) {r : Ref sig .tc} (h : r ∉ ops_03_W) :
    after (ops_03 : List (HloOp τ sig (Elt F))) W (Proc.devRef .tc r) = W (Proc.devRef .tc r) :=
  after_of_writes_sub ops_03 W ops_03_writes h
theorem in_03_v36 : main_v36 ∉ tailW_03 := nw_v36
theorem in_03_arg12 : main_arg12 ∉ tailW_03 := later_03 (later_02 (later_01 (nw_arg12)))
theorem in_03_arg13 : main_arg13 ∉ tailW_03 := later_03 (later_02 (later_01 (nw_arg13)))
theorem in_03_arg14 : main_arg14 ∉ tailW_03 := later_03 (later_02 (later_01 (nw_arg14)))
theorem in_03_arg15 : main_arg15 ∉ tailW_03 := later_03 (later_02 (later_01 (nw_arg15)))
theorem in_03_arg2 : main_arg2 ∉ tailW_03 := later_03 (later_02 (later_01 (nw_arg2)))

/-- `v47` after piece 03, from the contents before it. -/
theorem ref_03_v47 (W : Valuation τ sig (Elt F)) :
    after (ops_03 : List (HloOp τ sig (Elt F))) W (Proc.devRef .tc main_v47)
      = ((addf : (⟨S80000x128, .f32⟩ : BufTy).Contents (Elt F) → (⟨S80000x128, .f32⟩ : BufTy).Contents (Elt F) → (⟨S80000x128, .f32⟩ : BufTy).Contents (Elt F)) (W (Proc.devRef .tc main_arg2)) ((maximumf : (⟨S80000x128, .f32⟩ : BufTy).Contents (Elt F) → (⟨S80000x128, .f32⟩ : BufTy).Contents (Elt F) → (⟨S80000x128, .f32⟩ : BufTy).Contents (Elt F)) ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x128_S128x128_S80000x128_1_0_0_1_n_n none l r) : (⟨S80000x128, .f32⟩ : BufTy).Contents (Elt F) → (⟨S128x128, .f32⟩ : BufTy).Contents (Elt F) → (⟨S80000x128, .f32⟩ : BufTy).Contents (Elt F)) ((maximumf : (⟨S80000x128, .f32⟩ : BufTy).Contents (Elt F) → (⟨S80000x128, .f32⟩ : BufTy).Contents (Elt F) → (⟨S80000x128, .f32⟩ : BufTy).Contents (Elt F)) ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x1_S1x128_S80000x128_1_0_0_1_n_n none l r) : (⟨S80000x1, .f32⟩ : BufTy).Contents (Elt F) → (⟨S1x128, .f32⟩ : BufTy).Contents (Elt F) → (⟨S80000x128, .f32⟩ : BufTy).Contents (Elt F)) (W (Proc.devRef .tc main_v36)) (W (Proc.devRef .tc main_arg12))) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (W (Proc.devRef .tc main_arg13))))) ((broadcastInDim S80000x128 ![] bcast_S_S80000x128 : (⟨S_, .f32⟩ : BufTy).Contents (Elt F) → (⟨S80000x128, .f32⟩ : BufTy).Contents (Elt F)) (constant S_ .f32 0x00000000#32 : (⟨S_, .f32⟩ : BufTy).Contents (Elt F)))) (W (Proc.devRef .tc main_arg14))) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (W (Proc.devRef .tc main_arg15))))) ((broadcastInDim S80000x128 ![] bcast_S_S80000x128 : (⟨S_, .f32⟩ : BufTy).Contents (Elt F) → (⟨S80000x128, .f32⟩ : BufTy).Contents (Elt F)) (constant S_ .f32 0x00000000#32 : (⟨S_, .f32⟩ : BufTy).Contents (Elt F))))) := by
  after_results_simp <;> rfl

/-- The same equation on the final contents: `v47` is written once, and what it is computed from is never written again. -/
theorem fin_v47 (m : (ℓ : Loc nD τ sig) → Buf (Elt F) ℓ) (c : Dev nD) :
    R m c (Proc.devRef .tc main_v47)
      = ((addf : (⟨S80000x128, .f32⟩ : BufTy).Contents (Elt F) → (⟨S80000x128, .f32⟩ : BufTy).Contents (Elt F) → (⟨S80000x128, .f32⟩ : BufTy).Contents (Elt F)) (R m c (Proc.devRef .tc main_arg2)) ((maximumf : (⟨S80000x128, .f32⟩ : BufTy).Contents (Elt F) → (⟨S80000x128, .f32⟩ : BufTy).Contents (Elt F) → (⟨S80000x128, .f32⟩ : BufTy).Contents (Elt F)) ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x128_S128x128_S80000x128_1_0_0_1_n_n none l r) : (⟨S80000x128, .f32⟩ : BufTy).Contents (Elt F) → (⟨S128x128, .f32⟩ : BufTy).Contents (Elt F) → (⟨S80000x128, .f32⟩ : BufTy).Contents (Elt F)) ((maximumf : (⟨S80000x128, .f32⟩ : BufTy).Contents (Elt F) → (⟨S80000x128, .f32⟩ : BufTy).Contents (Elt F) → (⟨S80000x128, .f32⟩ : BufTy).Contents (Elt F)) ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x1_S1x128_S80000x128_1_0_0_1_n_n none l r) : (⟨S80000x1, .f32⟩ : BufTy).Contents (Elt F) → (⟨S1x128, .f32⟩ : BufTy).Contents (Elt F) → (⟨S80000x128, .f32⟩ : BufTy).Contents (Elt F)) (R m c (Proc.devRef .tc main_v36)) (R m c (Proc.devRef .tc main_arg12))) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (R m c (Proc.devRef .tc main_arg13))))) ((broadcastInDim S80000x128 ![] bcast_S_S80000x128 : (⟨S_, .f32⟩ : BufTy).Contents (Elt F) → (⟨S80000x128, .f32⟩ : BufTy).Contents (Elt F)) (constant S_ .f32 0x00000000#32 : (⟨S_, .f32⟩ : BufTy).Contents (Elt F)))) (R m c (Proc.devRef .tc main_arg14))) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (R m c (Proc.devRef .tc main_arg15))))) ((broadcastInDim S80000x128 ![] bcast_S_S80000x128 : (⟨S_, .f32⟩ : BufTy).Contents (Elt F) → (⟨S80000x128, .f32⟩ : BufTy).Contents (Elt F)) (constant S_ .f32 0x00000000#32 : (⟨S_, .f32⟩ : BufTy).Contents (Elt F))))) := by
  have e := ref_03_v47 (A_03 m c)
  rw [A_03_eq m c in_03_v36, A_03_eq m c in_03_arg12, A_03_eq m c in_03_arg13, A_03_eq m c in_03_arg14, A_03_eq m c in_03_arg15, A_03_eq m c in_03_arg2] at e
  exact (R_of_04 m c nw_v47).trans e

/-! ## Piece 04 (step 0): per edge, the embedded features of its source and of its destination, its own, and its graph's global row, side by side -/

/-- A buffer piece 04 does not write keeps its contents through it. -/
theorem keep_04 (W : Valuation τ sig (Elt F)) {r : Ref sig .tc} (h : r ∉ ops_04_W) :
    after (ops_04 : List (HloOp τ sig (Elt F))) W (Proc.devRef .tc r) = W (Proc.devRef .tc r) :=
  after_of_writes_sub ops_04 W ops_04_writes h
theorem in_04_v1 : main_v1 ∉ tailW_04 := later_04 (later_03 (later_02 (nw_v1)))
theorem in_04_v20 : main_v20 ∉ tailW_04 := later_04 (later_03 (nw_v20))
theorem in_04_v3 : main_v3 ∉ tailW_04 := later_04 (later_03 (later_02 (nw_v3)))
theorem in_04_arg5 : main_arg5 ∉ tailW_04 := later_04 (later_03 (later_02 (later_01 (nw_arg5))))
theorem in_04_arg3 : main_arg3 ∉ tailW_04 := later_04 (later_03 (later_02 (later_01 (nw_arg3))))
theorem in_04_v47 : main_v47 ∉ tailW_04 := nw_v47

/-- `v54` after piece 04, from the contents before it. -/
theorem ref_04_v54 (W : Valuation τ sig (Elt F)) :
    after (ops_04 : List (HloOp τ sig (Elt F))) W (Proc.devRef .tc main_v54)
      = (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (W (Proc.devRef .tc main_v20)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v1))))) := by
  after_results_simp <;> rfl

/-- The same equation on the final contents: `v54` is written once, and what it is computed from is never written again. -/
theorem fin_v54 (m : (ℓ : Loc nD τ sig) → Buf (Elt F) ℓ) (c : Dev nD) :
    R m c (Proc.devRef .tc main_v54)
      = (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (R m c (Proc.devRef .tc main_v20)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v1))))) := by
  have e := ref_04_v54 (A_04 m c)
  rw [A_04_eq m c in_04_v1, A_04_eq m c in_04_v20] at e
  exact (R_of_05 m c nw_v54).trans e

/-- `v61` after piece 04, from the contents before it. -/
theorem ref_04_v61 (W : Valuation τ sig (Elt F)) :
    after (ops_04 : List (HloOp τ sig (Elt F))) W (Proc.devRef .tc main_v61)
      = (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (W (Proc.devRef .tc main_v20)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v3))))) := by
  after_results_simp <;> rfl

/-- The same equation on the final contents: `v61` is written once, and what it is computed from is never written again. -/
theorem fin_v61 (m : (ℓ : Loc nD τ sig) → Buf (Elt F) ℓ) (c : Dev nD) :
    R m c (Proc.devRef .tc main_v61)
      = (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (R m c (Proc.devRef .tc main_v20)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v3))))) := by
  have e := ref_04_v61 (A_04 m c)
  rw [A_04_eq m c in_04_v20, A_04_eq m c in_04_v3] at e
  exact (R_of_05 m c nw_v61).trans e

/-- `v68` after piece 04, from the contents before it. -/
theorem ref_04_v68 (W : Valuation τ sig (Elt F)) :
    after (ops_04 : List (HloOp τ sig (Elt F))) W (Proc.devRef .tc main_v68)
      = (((fun x i => Host.gather gather_S64x128_S80000x1_S80000x128_1_0_n_n_0_1_1128 x i) : (⟨S64x128, .f32⟩ : BufTy).Contents (Elt F) → (⟨S80000x1, .i32⟩ : BufTy).Contents (Elt F) → (⟨S80000x128, .f32⟩ : BufTy).Contents (Elt F)) (W (Proc.devRef .tc main_arg3)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_arg5)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_arg5)) ((broadcastInDim S80000 ![] bcast_S_S80000 : (⟨S_, .i32⟩ : BufTy).Contents (Elt F) → (⟨S80000, .i32⟩ : BufTy).Contents (Elt F)) (constantI S_ 32 64#32 : (⟨S_, .i32⟩ : BufTy).Contents (Elt F)))) (W (Proc.devRef .tc main_arg5))))) := by
  after_results_simp <;> rfl

/-- The same equation on the final contents: `v68` is written once, and what it is computed from is never written again. -/
theorem fin_v68 (m : (ℓ : Loc nD τ sig) → Buf (Elt F) ℓ) (c : Dev nD) :
    R m c (Proc.devRef .tc main_v68)
      = (((fun x i => Host.gather gather_S64x128_S80000x1_S80000x128_1_0_n_n_0_1_1128 x i) : (⟨S64x128, .f32⟩ : BufTy).Contents (Elt F) → (⟨S80000x1, .i32⟩ : BufTy).Contents (Elt F) → (⟨S80000x128, .f32⟩ : BufTy).Contents (Elt F)) (R m c (Proc.devRef .tc main_arg3)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_arg5)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_arg5)) ((broadcastInDim S80000 ![] bcast_S_S80000 : (⟨S_, .i32⟩ : BufTy).Contents (Elt F) → (⟨S80000, .i32⟩ : BufTy).Contents (Elt F)) (constantI S_ 32 64#32 : (⟨S_, .i32⟩ : BufTy).Contents (Elt F)))) (R m c (Proc.devRef .tc main_arg5))))) := by
  have e := ref_04_v68 (A_04 m c)
  rw [A_04_eq m c in_04_arg5, A_04_eq m c in_04_arg3] at e
  exact (R_of_05 m c nw_v68).trans e

/-- `v69` after piece 04, from the contents before it. -/
theorem ref_04_v69 (W : Valuation τ sig (Elt F)) :
    after (ops_04 : List (HloOp τ sig (Elt F))) W (Proc.devRef .tc main_v69)
      = (concatenate S80000x512 1 [⟨S80000x128, (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (W (Proc.devRef .tc main_v20)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v1)))))⟩, ⟨S80000x128, (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (W (Proc.devRef .tc main_v20)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v3)))))⟩, ⟨S80000x128, (W (Proc.devRef .tc main_v47))⟩, ⟨S80000x128, (((fun x i => Host.gather gather_S64x128_S80000x1_S80000x128_1_0_n_n_0_1_1128 x i) : (⟨S64x128, .f32⟩ : BufTy).Contents (Elt F) → (⟨S80000x1, .i32⟩ : BufTy).Contents (Elt F) → (⟨S80000x128, .f32⟩ : BufTy).Contents (Elt F)) (W (Proc.devRef .tc main_arg3)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_arg5)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_arg5)) ((broadcastInDim S80000 ![] bcast_S_S80000 : (⟨S_, .i32⟩ : BufTy).Contents (Elt F) → (⟨S80000, .i32⟩ : BufTy).Contents (Elt F)) (constantI S_ 32 64#32 : (⟨S_, .i32⟩ : BufTy).Contents (Elt F)))) (W (Proc.devRef .tc main_arg5)))))⟩] concatenates_S80000x128_S80000x128_S80000x128_S80000x128_S80000x512_d1 : (⟨S80000x512, .f32⟩ : BufTy).Contents (Elt F)) := by
  after_results_simp <;> rfl

/-- The same equation on the final contents: `v69` is written once, and what it is computed from is never written again. -/
theorem fin_v69 (m : (ℓ : Loc nD τ sig) → Buf (Elt F) ℓ) (c : Dev nD) :
    R m c (Proc.devRef .tc main_v69)
      = (concatenate S80000x512 1 [⟨S80000x128, (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (R m c (Proc.devRef .tc main_v20)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v1)))))⟩, ⟨S80000x128, (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (R m c (Proc.devRef .tc main_v20)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v3)))))⟩, ⟨S80000x128, (R m c (Proc.devRef .tc main_v47))⟩, ⟨S80000x128, (((fun x i => Host.gather gather_S64x128_S80000x1_S80000x128_1_0_n_n_0_1_1128 x i) : (⟨S64x128, .f32⟩ : BufTy).Contents (Elt F) → (⟨S80000x1, .i32⟩ : BufTy).Contents (Elt F) → (⟨S80000x128, .f32⟩ : BufTy).Contents (Elt F)) (R m c (Proc.devRef .tc main_arg3)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_arg5)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_arg5)) ((broadcastInDim S80000 ![] bcast_S_S80000 : (⟨S_, .i32⟩ : BufTy).Contents (Elt F) → (⟨S80000, .i32⟩ : BufTy).Contents (Elt F)) (constantI S_ 32 64#32 : (⟨S_, .i32⟩ : BufTy).Contents (Elt F)))) (R m c (Proc.devRef .tc main_arg5)))))⟩] concatenates_S80000x128_S80000x128_S80000x128_S80000x128_S80000x512_d1 : (⟨S80000x512, .f32⟩ : BufTy).Contents (Elt F)) := by
  have e := ref_04_v69 (A_04 m c)
  rw [A_04_eq m c in_04_v1, A_04_eq m c in_04_v20, A_04_eq m c in_04_v3, A_04_eq m c in_04_arg5, A_04_eq m c in_04_arg3, A_04_eq m c in_04_v47] at e
  exact (R_of_05 m c nw_v69).trans e

/-! ## Piece 05 (step 0): the three-layer edge network on those rows -/

/-- A buffer piece 05 does not write keeps its contents through it. -/
theorem keep_05 (W : Valuation τ sig (Elt F)) {r : Ref sig .tc} (h : r ∉ ops_05_W) :
    after (ops_05 : List (HloOp τ sig (Elt F))) W (Proc.devRef .tc r) = W (Proc.devRef .tc r) :=
  after_of_writes_sub ops_05 W ops_05_writes h
theorem in_05_arg16 : main_arg16 ∉ tailW_05 := later_05 (later_04 (later_03 (later_02 (later_01 (nw_arg16)))))
theorem in_05_arg18 : main_arg18 ∉ tailW_05 := later_05 (later_04 (later_03 (later_02 (later_01 (nw_arg18)))))
theorem in_05_arg20 : main_arg20 ∉ tailW_05 := later_05 (later_04 (later_03 (later_02 (later_01 (nw_arg20)))))
theorem in_05_arg17 : main_arg17 ∉ tailW_05 := later_05 (later_04 (later_03 (later_02 (later_01 (nw_arg17)))))
theorem in_05_arg19 : main_arg19 ∉ tailW_05 := later_05 (later_04 (later_03 (later_02 (later_01 (nw_arg19)))))
theorem in_05_arg21 : main_arg21 ∉ tailW_05 := later_05 (later_04 (later_03 (later_02 (later_01 (nw_arg21)))))
theorem in_05_v69 : main_v69 ∉ tailW_05 := nw_v69

/-- `v96` after piece 05, from the contents before it. -/
theorem ref_05_v96 (W : Valuation τ sig (Elt F)) :
    after (ops_05 : List (HloOp τ sig (Elt F))) W (Proc.devRef .tc main_v96)
      = ((maximumf : (⟨S80000x128, .f32⟩ : BufTy).Contents (Elt F) → (⟨S80000x128, .f32⟩ : BufTy).Contents (Elt F) → (⟨S80000x128, .f32⟩ : BufTy).Contents (Elt F)) ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x512_S512x128_S80000x128_1_0_0_1_n_n none l r) : (⟨S80000x512, .f32⟩ : BufTy).Contents (Elt F) → (⟨S512x128, .f32⟩ : BufTy).Contents (Elt F) → (⟨S80000x128, .f32⟩ : BufTy).Contents (Elt F)) ((maximumf : (⟨S80000x512, .f32⟩ : BufTy).Contents (Elt F) → (⟨S80000x512, .f32⟩ : BufTy).Contents (Elt F) → (⟨S80000x512, .f32⟩ : BufTy).Contents (Elt F)) ((addf : (⟨S80000x512, .f32⟩ : BufTy).Contents (Elt F) → (⟨S80000x512, .f32⟩ : BufTy).Contents (Elt F) → (⟨S80000x512, .f32⟩ : BufTy).Contents (Elt F)) (((fun l r => Host.dotGeneral dot_S80000x512_S512x512_S80000x512_1_0_0_1_n_n none l r) : (⟨S80000x512, .f32⟩ : BufTy).Contents (Elt F) → (⟨S512x512, .f32⟩ : BufTy).Contents (Elt F) → (⟨S80000x512, .f32⟩ : BufTy).Contents (Elt F)) ((maximumf : (⟨S80000x512, .f32⟩ : BufTy).Contents (Elt F) → (⟨S80000x512, .f32⟩ : BufTy).Contents (Elt F) → (⟨S80000x512, .f32⟩ : BufTy).Contents (Elt F)) ((addf : (⟨S80000x512, .f32⟩ : BufTy).Contents (Elt F) → (⟨S80000x512, .f32⟩ : BufTy).Contents (Elt F) → (⟨S80000x512, .f32⟩ : BufTy).Contents (Elt F)) (((fun l r => Host.dotGeneral dot_S80000x512_S512x512_S80000x512_1_0_0_1_n_n none l r) : (⟨S80000x512, .f32⟩ : BufTy).Contents (Elt F) → (⟨S512x512, .f32⟩ : BufTy).Contents (Elt F) → (⟨S80000x512, .f32⟩ : BufTy).Contents (Elt F)) (W (Proc.devRef .tc main_v69)) (shapeCast S512x512 (((extractStridedSlice S1x512x512 ![0, 0, 0] · slices_S3x512x512_S1x512x512_0_0_0) : (⟨S3x512x512, .f32⟩ : BufTy).Contents (Elt F) → (⟨S1x512x512, .f32⟩ : BufTy).Contents (Elt F)) (W (Proc.devRef .tc main_arg16))) shapeCasts_S1x512x512_S512x512 : (⟨S512x512, .f32⟩ : BufTy).Contents (Elt F))) ((broadcastInDim S80000x512 ![0, 1] bcast_S1x512_S80000x512_0_1 : (⟨S1x512, .f32⟩ : BufTy).Contents (Elt F) → (⟨S80000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![0, 0] · slices_S3x512_S1x512_0_0) : (⟨S3x512, .f32⟩ : BufTy).Contents (Elt F) → (⟨S1x512, .f32⟩ : BufTy).Contents (Elt F)) (W (Proc.devRef .tc main_arg17))) shapeCasts_S1x512_S512 : (⟨S512, .f32⟩ : BufTy).Contents (Elt F))))) ((broadcastInDim S80000x512 ![] bcast_S_S80000x512 : (⟨S_, .f32⟩ : BufTy).Contents (Elt F) → (⟨S80000x512, .f32⟩ : BufTy).Contents (Elt F)) (constant S_ .f32 0x00000000#32 : (⟨S_, .f32⟩ : BufTy).Contents (Elt F)))) (shapeCast S512x512 (((extractStridedSlice S1x512x512 ![0, 0, 0] · slices_S3x512x512_S1x512x512_0_0_0) : (⟨S3x512x512, .f32⟩ : BufTy).Contents (Elt F) → (⟨S1x512x512, .f32⟩ : BufTy).Contents (Elt F)) (W (Proc.devRef .tc main_arg18))) shapeCasts_S1x512x512_S512x512 : (⟨S512x512, .f32⟩ : BufTy).Contents (Elt F))) ((broadcastInDim S80000x512 ![0, 1] bcast_S1x512_S80000x512_0_1 : (⟨S1x512, .f32⟩ : BufTy).Contents (Elt F) → (⟨S80000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![0, 0] · slices_S3x512_S1x512_0_0) : (⟨S3x512, .f32⟩ : BufTy).Contents (Elt F) → (⟨S1x512, .f32⟩ : BufTy).Contents (Elt F)) (W (Proc.devRef .tc main_arg19))) shapeCasts_S1x512_S512 : (⟨S512, .f32⟩ : BufTy).Contents (Elt F))))) ((broadcastInDim S80000x512 ![] bcast_S_S80000x512 : (⟨S_, .f32⟩ : BufTy).Contents (Elt F) → (⟨S80000x512, .f32⟩ : BufTy).Contents (Elt F)) (constant S_ .f32 0x00000000#32 : (⟨S_, .f32⟩ : BufTy).Contents (Elt F)))) (shapeCast S512x128 (((extractStridedSlice S1x512x128 ![0, 0, 0] · slices_S3x512x128_S1x512x128_0_0_0) : (⟨S3x512x128, .f32⟩ : BufTy).Contents (Elt F) → (⟨S1x512x128, .f32⟩ : BufTy).Contents (Elt F)) (W (Proc.devRef .tc main_arg20))) shapeCasts_S1x512x128_S512x128 : (⟨S512x128, .f32⟩ : BufTy).Contents (Elt F))) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S3x128_S1x128_0_0) : (⟨S3x128, .f32⟩ : BufTy).Contents (Elt F) → (⟨S1x128, .f32⟩ : BufTy).Contents (Elt F)) (W (Proc.devRef .tc main_arg21))) shapeCasts_S1x128_S128 : (⟨S128, .f32⟩ : BufTy).Contents (Elt F))))) ((broadcastInDim S80000x128 ![] bcast_S_S80000x128 : (⟨S_, .f32⟩ : BufTy).Contents (Elt F) → (⟨S80000x128, .f32⟩ : BufTy).Contents (Elt F)) (constant S_ .f32 0x00000000#32 : (⟨S_, .f32⟩ : BufTy).Contents (Elt F)))) := by
  after_results_simp <;> rfl

/-- The same equation on the final contents: `v96` is written once, and what it is computed from is never written again. -/
theorem fin_v96 (m : (ℓ : Loc nD τ sig) → Buf (Elt F) ℓ) (c : Dev nD) :
    R m c (Proc.devRef .tc main_v96)
      = ((maximumf : (⟨S80000x128, .f32⟩ : BufTy).Contents (Elt F) → (⟨S80000x128, .f32⟩ : BufTy).Contents (Elt F) → (⟨S80000x128, .f32⟩ : BufTy).Contents (Elt F)) ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x512_S512x128_S80000x128_1_0_0_1_n_n none l r) : (⟨S80000x512, .f32⟩ : BufTy).Contents (Elt F) → (⟨S512x128, .f32⟩ : BufTy).Contents (Elt F) → (⟨S80000x128, .f32⟩ : BufTy).Contents (Elt F)) ((maximumf : (⟨S80000x512, .f32⟩ : BufTy).Contents (Elt F) → (⟨S80000x512, .f32⟩ : BufTy).Contents (Elt F) → (⟨S80000x512, .f32⟩ : BufTy).Contents (Elt F)) ((addf : (⟨S80000x512, .f32⟩ : BufTy).Contents (Elt F) → (⟨S80000x512, .f32⟩ : BufTy).Contents (Elt F) → (⟨S80000x512, .f32⟩ : BufTy).Contents (Elt F)) (((fun l r => Host.dotGeneral dot_S80000x512_S512x512_S80000x512_1_0_0_1_n_n none l r) : (⟨S80000x512, .f32⟩ : BufTy).Contents (Elt F) → (⟨S512x512, .f32⟩ : BufTy).Contents (Elt F) → (⟨S80000x512, .f32⟩ : BufTy).Contents (Elt F)) ((maximumf : (⟨S80000x512, .f32⟩ : BufTy).Contents (Elt F) → (⟨S80000x512, .f32⟩ : BufTy).Contents (Elt F) → (⟨S80000x512, .f32⟩ : BufTy).Contents (Elt F)) ((addf : (⟨S80000x512, .f32⟩ : BufTy).Contents (Elt F) → (⟨S80000x512, .f32⟩ : BufTy).Contents (Elt F) → (⟨S80000x512, .f32⟩ : BufTy).Contents (Elt F)) (((fun l r => Host.dotGeneral dot_S80000x512_S512x512_S80000x512_1_0_0_1_n_n none l r) : (⟨S80000x512, .f32⟩ : BufTy).Contents (Elt F) → (⟨S512x512, .f32⟩ : BufTy).Contents (Elt F) → (⟨S80000x512, .f32⟩ : BufTy).Contents (Elt F)) (R m c (Proc.devRef .tc main_v69)) (shapeCast S512x512 (((extractStridedSlice S1x512x512 ![0, 0, 0] · slices_S3x512x512_S1x512x512_0_0_0) : (⟨S3x512x512, .f32⟩ : BufTy).Contents (Elt F) → (⟨S1x512x512, .f32⟩ : BufTy).Contents (Elt F)) (R m c (Proc.devRef .tc main_arg16))) shapeCasts_S1x512x512_S512x512 : (⟨S512x512, .f32⟩ : BufTy).Contents (Elt F))) ((broadcastInDim S80000x512 ![0, 1] bcast_S1x512_S80000x512_0_1 : (⟨S1x512, .f32⟩ : BufTy).Contents (Elt F) → (⟨S80000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![0, 0] · slices_S3x512_S1x512_0_0) : (⟨S3x512, .f32⟩ : BufTy).Contents (Elt F) → (⟨S1x512, .f32⟩ : BufTy).Contents (Elt F)) (R m c (Proc.devRef .tc main_arg17))) shapeCasts_S1x512_S512 : (⟨S512, .f32⟩ : BufTy).Contents (Elt F))))) ((broadcastInDim S80000x512 ![] bcast_S_S80000x512 : (⟨S_, .f32⟩ : BufTy).Contents (Elt F) → (⟨S80000x512, .f32⟩ : BufTy).Contents (Elt F)) (constant S_ .f32 0x00000000#32 : (⟨S_, .f32⟩ : BufTy).Contents (Elt F)))) (shapeCast S512x512 (((extractStridedSlice S1x512x512 ![0, 0, 0] · slices_S3x512x512_S1x512x512_0_0_0) : (⟨S3x512x512, .f32⟩ : BufTy).Contents (Elt F) → (⟨S1x512x512, .f32⟩ : BufTy).Contents (Elt F)) (R m c (Proc.devRef .tc main_arg18))) shapeCasts_S1x512x512_S512x512 : (⟨S512x512, .f32⟩ : BufTy).Contents (Elt F))) ((broadcastInDim S80000x512 ![0, 1] bcast_S1x512_S80000x512_0_1 : (⟨S1x512, .f32⟩ : BufTy).Contents (Elt F) → (⟨S80000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![0, 0] · slices_S3x512_S1x512_0_0) : (⟨S3x512, .f32⟩ : BufTy).Contents (Elt F) → (⟨S1x512, .f32⟩ : BufTy).Contents (Elt F)) (R m c (Proc.devRef .tc main_arg19))) shapeCasts_S1x512_S512 : (⟨S512, .f32⟩ : BufTy).Contents (Elt F))))) ((broadcastInDim S80000x512 ![] bcast_S_S80000x512 : (⟨S_, .f32⟩ : BufTy).Contents (Elt F) → (⟨S80000x512, .f32⟩ : BufTy).Contents (Elt F)) (constant S_ .f32 0x00000000#32 : (⟨S_, .f32⟩ : BufTy).Contents (Elt F)))) (shapeCast S512x128 (((extractStridedSlice S1x512x128 ![0, 0, 0] · slices_S3x512x128_S1x512x128_0_0_0) : (⟨S3x512x128, .f32⟩ : BufTy).Contents (Elt F) → (⟨S1x512x128, .f32⟩ : BufTy).Contents (Elt F)) (R m c (Proc.devRef .tc main_arg20))) shapeCasts_S1x512x128_S512x128 : (⟨S512x128, .f32⟩ : BufTy).Contents (Elt F))) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S3x128_S1x128_0_0) : (⟨S3x128, .f32⟩ : BufTy).Contents (Elt F) → (⟨S1x128, .f32⟩ : BufTy).Contents (Elt F)) (R m c (Proc.devRef .tc main_arg21))) shapeCasts_S1x128_S128 : (⟨S128, .f32⟩ : BufTy).Contents (Elt F))))) ((broadcastInDim S80000x128 ![] bcast_S_S80000x128 : (⟨S_, .f32⟩ : BufTy).Contents (Elt F) → (⟨S80000x128, .f32⟩ : BufTy).Contents (Elt F)) (constant S_ .f32 0x00000000#32 : (⟨S_, .f32⟩ : BufTy).Contents (Elt F)))) := by
  have e := ref_05_v96 (A_05 m c)
  rw [A_05_eq m c in_05_arg16, A_05_eq m c in_05_arg18, A_05_eq m c in_05_arg20, A_05_eq m c in_05_arg17, A_05_eq m c in_05_arg19, A_05_eq m c in_05_arg21, A_05_eq m c in_05_v69] at e
  exact (R_of_06 m c nw_v96).trans e

/-! ## Piece 06 (step 0): per node, its embedded features, the sum of the new edge rows leaving it, the sum of those entering it, and its graph's global row, side by side -/

/-- A buffer piece 06 does not write keeps its contents through it. -/
theorem keep_06 (W : Valuation τ sig (Elt F)) {r : Ref sig .tc} (h : r ∉ ops_06_W) :
    after (ops_06 : List (HloOp τ sig (Elt F))) W (Proc.devRef .tc r) = W (Proc.devRef .tc r) :=
  after_of_writes_sub ops_06 W ops_06_writes h
theorem in_06_v1 : main_v1 ∉ tailW_06 := later_06 (later_05 (later_04 (later_03 (later_02 (nw_v1)))))
theorem in_06_v96 : main_v96 ∉ tailW_06 := nw_v96
theorem in_06_v3 : main_v3 ∉ tailW_06 := later_06 (later_05 (later_04 (later_03 (later_02 (nw_v3)))))
theorem in_06_arg4 : main_arg4 ∉ tailW_06 := later_06 (later_05 (later_04 (later_03 (later_02 (later_01 (nw_arg4))))))
theorem in_06_arg3 : main_arg3 ∉ tailW_06 := later_06 (later_05 (later_04 (later_03 (later_02 (later_01 (nw_arg3))))))
theorem in_06_v20 : main_v20 ∉ tailW_06 := later_06 (later_05 (later_04 (later_03 (nw_v20))))

/-- `v99` after piece 06, from the contents before it. -/
theorem ref_06_v99 (W : Valuation τ sig (Elt F)) :
    after (ops_06 : List (HloOp τ sig (Elt F))) W (Proc.devRef .tc main_v99)
      = (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (W (Proc.devRef .tc main_v1))) (W (Proc.devRef .tc main_v96))) := by
  after_results_simp <;> rfl

/-- The same equation on the final contents: `v99` is written once, and what it is computed from is never written again. -/
theorem fin_v99 (m : (ℓ : Loc nD τ sig) → Buf (Elt F) ℓ) (c : Dev nD) :
    R m c (Proc.devRef .tc main_v99)
      = (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (R m c (Proc.devRef .tc main_v1))) (R m c (Proc.devRef .tc main_v96))) := by
  have e := ref_06_v99 (A_06 m c)
  rw [A_06_eq m c in_06_v1, A_06_eq m c in_06_v96] at e
  exact (R_of_07 m c nw_v99).trans e

/-- `v102` after piece 06, from the contents before it. -/
theorem ref_06_v102 (W : Valuation τ sig (Elt F)) :
    after (ops_06 : List (HloOp τ sig (Elt F))) W (Proc.devRef .tc main_v102)
      = (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (W (Proc.devRef .tc main_v3))) (W (Proc.devRef .tc main_v96))) := by
  after_results_simp <;> rfl

/-- The same equation on the final contents: `v102` is written once, and what it is computed from is never written again. -/
theorem fin_v102 (m : (ℓ : Loc nD τ sig) → Buf (Elt F) ℓ) (c : Dev nD) :
    R m c (Proc.devRef .tc main_v102)
      = (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (R m c (Proc.devRef .tc main_v3))) (R m c (Proc.devRef .tc main_v96))) := by
  have e := ref_06_v102 (A_06 m c)
  rw [A_06_eq m c in_06_v96, A_06_eq m c in_06_v3] at e
  exact (R_of_07 m c nw_v102).trans e

/-- `v109` after piece 06, from the contents before it. -/
theorem ref_06_v109 (W : Valuation τ sig (Elt F)) :
    after (ops_06 : List (HloOp τ sig (Elt F))) W (Proc.devRef .tc main_v109)
      = (((fun x i => Host.gather gather_S64x128_S5000x1_S5000x128_1_0_n_n_0_1_1128 x i) : (⟨S64x128, .f32⟩ : BufTy).Contents (Elt F) → (⟨S5000x1, .i32⟩ : BufTy).Contents (Elt F) → (⟨S5000x128, .f32⟩ : BufTy).Contents (Elt F)) (W (Proc.devRef .tc main_arg3)) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (W (Proc.devRef .tc main_arg4)) ((broadcastInDim S5000 ![] bcast_S_S5000 : (⟨S_, .i32⟩ : BufTy).Contents (Elt F) → (⟨S5000, .i32⟩ : BufTy).Contents (Elt F)) (constantI S_ 32 0#32 : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) (W (Proc.devRef .tc main_arg4)) ((broadcastInDim S5000 ![] bcast_S_S5000 : (⟨S_, .i32⟩ : BufTy).Contents (Elt F) → (⟨S5000, .i32⟩ : BufTy).Contents (Elt F)) (constantI S_ 32 64#32 : (⟨S_, .i32⟩ : BufTy).Contents (Elt F)))) (W (Proc.devRef .tc main_arg4))))) := by
  after_results_simp <;> rfl

/-- The same equation on the final contents: `v109` is written once, and what it is computed from is never written again. -/
theorem fin_v109 (m : (ℓ : Loc nD τ sig) → Buf (Elt F) ℓ) (c : Dev nD) :
    R m c (Proc.devRef .tc main_v109)
      = (((fun x i => Host.gather gather_S64x128_S5000x1_S5000x128_1_0_n_n_0_1_1128 x i) : (⟨S64x128, .f32⟩ : BufTy).Contents (Elt F) → (⟨S5000x1, .i32⟩ : BufTy).Contents (Elt F) → (⟨S5000x128, .f32⟩ : BufTy).Contents (Elt F)) (R m c (Proc.devRef .tc main_arg3)) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (R m c (Proc.devRef .tc main_arg4)) ((broadcastInDim S5000 ![] bcast_S_S5000 : (⟨S_, .i32⟩ : BufTy).Contents (Elt F) → (⟨S5000, .i32⟩ : BufTy).Contents (Elt F)) (constantI S_ 32 0#32 : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) (R m c (Proc.devRef .tc main_arg4)) ((broadcastInDim S5000 ![] bcast_S_S5000 : (⟨S_, .i32⟩ : BufTy).Contents (Elt F) → (⟨S5000, .i32⟩ : BufTy).Contents (Elt F)) (constantI S_ 32 64#32 : (⟨S_, .i32⟩ : BufTy).Contents (Elt F)))) (R m c (Proc.devRef .tc main_arg4))))) := by
  have e := ref_06_v109 (A_06 m c)
  rw [A_06_eq m c in_06_arg4, A_06_eq m c in_06_arg3] at e
  exact (R_of_07 m c nw_v109).trans e

/-- `v110` after piece 06, from the contents before it. -/
theorem ref_06_v110 (W : Valuation τ sig (Elt F)) :
    after (ops_06 : List (HloOp τ sig (Elt F))) W (Proc.devRef .tc main_v110)
      = (concatenate S5000x512 1 [⟨S5000x128, (W (Proc.devRef .tc main_v20))⟩, ⟨S5000x128, (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (W (Proc.devRef .tc main_v1))) (W (Proc.devRef .tc main_v96)))⟩, ⟨S5000x128, (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (W (Proc.devRef .tc main_v3))) (W (Proc.devRef .tc main_v96)))⟩, ⟨S5000x128, (((fun x i => Host.gather gather_S64x128_S5000x1_S5000x128_1_0_n_n_0_1_1128 x i) : (⟨S64x128, .f32⟩ : BufTy).Contents (Elt F) → (⟨S5000x1, .i32⟩ : BufTy).Contents (Elt F) → (⟨S5000x128, .f32⟩ : BufTy).Contents (Elt F)) (W (Proc.devRef .tc main_arg3)) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (W (Proc.devRef .tc main_arg4)) ((broadcastInDim S5000 ![] bcast_S_S5000 : (⟨S_, .i32⟩ : BufTy).Contents (Elt F) → (⟨S5000, .i32⟩ : BufTy).Contents (Elt F)) (constantI S_ 32 0#32 : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) (W (Proc.devRef .tc main_arg4)) ((broadcastInDim S5000 ![] bcast_S_S5000 : (⟨S_, .i32⟩ : BufTy).Contents (Elt F) → (⟨S5000, .i32⟩ : BufTy).Contents (Elt F)) (constantI S_ 32 64#32 : (⟨S_, .i32⟩ : BufTy).Contents (Elt F)))) (W (Proc.devRef .tc main_arg4)))))⟩] concatenates_S5000x128_S5000x128_S5000x128_S5000x128_S5000x512_d1 : (⟨S5000x512, .f32⟩ : BufTy).Contents (Elt F)) := by
  after_results_simp <;> rfl

/-- The same equation on the final contents: `v110` is written once, and what it is computed from is never written again. -/
theorem fin_v110 (m : (ℓ : Loc nD τ sig) → Buf (Elt F) ℓ) (c : Dev nD) :
    R m c (Proc.devRef .tc main_v110)
      = (concatenate S5000x512 1 [⟨S5000x128, (R m c (Proc.devRef .tc main_v20))⟩, ⟨S5000x128, (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (R m c (Proc.devRef .tc main_v1))) (R m c (Proc.devRef .tc main_v96)))⟩, ⟨S5000x128, (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (R m c (Proc.devRef .tc main_v3))) (R m c (Proc.devRef .tc main_v96)))⟩, ⟨S5000x128, (((fun x i => Host.gather gather_S64x128_S5000x1_S5000x128_1_0_n_n_0_1_1128 x i) : (⟨S64x128, .f32⟩ : BufTy).Contents (Elt F) → (⟨S5000x1, .i32⟩ : BufTy).Contents (Elt F) → (⟨S5000x128, .f32⟩ : BufTy).Contents (Elt F)) (R m c (Proc.devRef .tc main_arg3)) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (R m c (Proc.devRef .tc main_arg4)) ((broadcastInDim S5000 ![] bcast_S_S5000 : (⟨S_, .i32⟩ : BufTy).Contents (Elt F) → (⟨S5000, .i32⟩ : BufTy).Contents (Elt F)) (constantI S_ 32 0#32 : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) (R m c (Proc.devRef .tc main_arg4)) ((broadcastInDim S5000 ![] bcast_S_S5000 : (⟨S_, .i32⟩ : BufTy).Contents (Elt F) → (⟨S5000, .i32⟩ : BufTy).Contents (Elt F)) (constantI S_ 32 64#32 : (⟨S_, .i32⟩ : BufTy).Contents (Elt F)))) (R m c (Proc.devRef .tc main_arg4)))))⟩] concatenates_S5000x128_S5000x128_S5000x128_S5000x128_S5000x512_d1 : (⟨S5000x512, .f32⟩ : BufTy).Contents (Elt F)) := by
  have e := ref_06_v110 (A_06 m c)
  rw [A_06_eq m c in_06_v1, A_06_eq m c in_06_v96, A_06_eq m c in_06_v3, A_06_eq m c in_06_arg4, A_06_eq m c in_06_arg3, A_06_eq m c in_06_v20] at e
  exact (R_of_07 m c nw_v110).trans e

/-! ## Piece 07 (step 0): the three-layer node network on those rows -/

/-- A buffer piece 07 does not write keeps its contents through it. -/
theorem keep_07 (W : Valuation τ sig (Elt F)) {r : Ref sig .tc} (h : r ∉ ops_07_W) :
    after (ops_07 : List (HloOp τ sig (Elt F))) W (Proc.devRef .tc r) = W (Proc.devRef .tc r) :=
  after_of_writes_sub ops_07 W ops_07_writes h
theorem in_07_arg22 : main_arg22 ∉ tailW_07 := later_07 (later_06 (later_05 (later_04 (later_03 (later_02 (later_01 (nw_arg22)))))))
theorem in_07_arg24 : main_arg24 ∉ tailW_07 := later_07 (later_06 (later_05 (later_04 (later_03 (later_02 (later_01 (nw_arg24)))))))
theorem in_07_arg26 : main_arg26 ∉ tailW_07 := later_07 (later_06 (later_05 (later_04 (later_03 (later_02 (later_01 (nw_arg26)))))))
theorem in_07_arg23 : main_arg23 ∉ tailW_07 := later_07 (later_06 (later_05 (later_04 (later_03 (later_02 (later_01 (nw_arg23)))))))
theorem in_07_arg25 : main_arg25 ∉ tailW_07 := later_07 (later_06 (later_05 (later_04 (later_03 (later_02 (later_01 (nw_arg25)))))))
theorem in_07_arg27 : main_arg27 ∉ tailW_07 := later_07 (later_06 (later_05 (later_04 (later_03 (later_02 (later_01 (nw_arg27)))))))
theorem in_07_v110 : main_v110 ∉ tailW_07 := nw_v110

/-- `v137` after piece 07, from the contents before it. -/
theorem ref_07_v137 (W : Valuation τ sig (Elt F)) :
    after (ops_07 : List (HloOp τ sig (Elt F))) W (Proc.devRef .tc main_v137)
      = ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x512_S512x128_S5000x128_1_0_0_1_n_n none l r) : (⟨S5000x512, .f32⟩ : BufTy).Contents (Elt F) → (⟨S512x128, .f32⟩ : BufTy).Contents (Elt F) → (⟨S5000x128, .f32⟩ : BufTy).Contents (Elt F)) ((maximumf : (⟨S5000x512, .f32⟩ : BufTy).Contents (Elt F) → (⟨S5000x512, .f32⟩ : BufTy).Contents (Elt F) → (⟨S5000x512, .f32⟩ : BufTy).Contents (Elt F)) ((addf : (⟨S5000x512, .f32⟩ : BufTy).Contents (Elt F) → (⟨S5000x512, .f32⟩ : BufTy).Contents (Elt F) → (⟨S5000x512, .f32⟩ : BufTy).Contents (Elt F)) (((fun l r => Host.dotGeneral dot_S5000x512_S512x512_S5000x512_1_0_0_1_n_n none l r) : (⟨S5000x512, .f32⟩ : BufTy).Contents (Elt F) → (⟨S512x512, .f32⟩ : BufTy).Contents (Elt F) → (⟨S5000x512, .f32⟩ : BufTy).Contents (Elt F)) ((maximumf : (⟨S5000x512, .f32⟩ : BufTy).Contents (Elt F) → (⟨S5000x512, .f32⟩ : BufTy).Contents (Elt F) → (⟨S5000x512, .f32⟩ : BufTy).Contents (Elt F)) ((addf : (⟨S5000x512, .f32⟩ : BufTy).Contents (Elt F) → (⟨S5000x512, .f32⟩ : BufTy).Contents (Elt F) → (⟨S5000x512, .f32⟩ : BufTy).Contents (Elt F)) (((fun l r => Host.dotGeneral dot_S5000x512_S512x512_S5000x512_1_0_0_1_n_n none l r) : (⟨S5000x512, .f32⟩ : BufTy).Contents (Elt F) → (⟨S512x512, .f32⟩ : BufTy).Contents (Elt F) → (⟨S5000x512, .f32⟩ : BufTy).Contents (Elt F)) (W (Proc.devRef .tc main_v110)) (shapeCast S512x512 (((extractStridedSlice S1x512x512 ![0, 0, 0] · slices_S3x512x512_S1x512x512_0_0_0) : (⟨S3x512x512, .f32⟩ : BufTy).Contents (Elt F) → (⟨S1x512x512, .f32⟩ : BufTy).Contents (Elt F)) (W (Proc.devRef .tc main_arg22))) shapeCasts_S1x512x512_S512x512 : (⟨S512x512, .f32⟩ : BufTy).Contents (Elt F))) ((broadcastInDim S5000x512 ![0, 1] bcast_S1x512_S5000x512_0_1 : (⟨S1x512, .f32⟩ : BufTy).Contents (Elt F) → (⟨S5000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![0, 0] · slices_S3x512_S1x512_0_0) : (⟨S3x512, .f32⟩ : BufTy).Contents (Elt F) → (⟨S1x512, .f32⟩ : BufTy).Contents (Elt F)) (W (Proc.devRef .tc main_arg23))) shapeCasts_S1x512_S512 : (⟨S512, .f32⟩ : BufTy).Contents (Elt F))))) ((broadcastInDim S5000x512 ![] bcast_S_S5000x512 : (⟨S_, .f32⟩ : BufTy).Contents (Elt F) → (⟨S5000x512, .f32⟩ : BufTy).Contents (Elt F)) (constant S_ .f32 0x00000000#32 : (⟨S_, .f32⟩ : BufTy).Contents (Elt F)))) (shapeCast S512x512 (((extractStridedSlice S1x512x512 ![0, 0, 0] · slices_S3x512x512_S1x512x512_0_0_0) : (⟨S3x512x512, .f32⟩ : BufTy).Contents (Elt F) → (⟨S1x512x512, .f32⟩ : BufTy).Contents (Elt F)) (W (Proc.devRef .tc main_arg24))) shapeCasts_S1x512x512_S512x512 : (⟨S512x512, .f32⟩ : BufTy).Contents (Elt F))) ((broadcastInDim S5000x512 ![0, 1] bcast_S1x512_S5000x512_0_1 : (⟨S1x512, .f32⟩ : BufTy).Contents (Elt F) → (⟨S5000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![0, 0] · slices_S3x512_S1x512_0_0) : (⟨S3x512, .f32⟩ : BufTy).Contents (Elt F) → (⟨S1x512, .f32⟩ : BufTy).Contents (Elt F)) (W (Proc.devRef .tc main_arg25))) shapeCasts_S1x512_S512 : (⟨S512, .f32⟩ : BufTy).Contents (Elt F))))) ((broadcastInDim S5000x512 ![] bcast_S_S5000x512 : (⟨S_, .f32⟩ : BufTy).Contents (Elt F) → (⟨S5000x512, .f32⟩ : BufTy).Contents (Elt F)) (constant S_ .f32 0x00000000#32 : (⟨S_, .f32⟩ : BufTy).Contents (Elt F)))) (shapeCast S512x128 (((extractStridedSlice S1x512x128 ![0, 0, 0] · slices_S3x512x128_S1x512x128_0_0_0) : (⟨S3x512x128, .f32⟩ : BufTy).Contents (Elt F) → (⟨S1x512x128, .f32⟩ : BufTy).Contents (Elt F)) (W (Proc.devRef .tc main_arg26))) shapeCasts_S1x512x128_S512x128 : (⟨S512x128, .f32⟩ : BufTy).Contents (Elt F))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S3x128_S1x128_0_0) : (⟨S3x128, .f32⟩ : BufTy).Contents (Elt F) → (⟨S1x128, .f32⟩ : BufTy).Contents (Elt F)) (W (Proc.devRef .tc main_arg27))) shapeCasts_S1x128_S128 : (⟨S128, .f32⟩ : BufTy).Contents (Elt F))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) := by
  after_results_simp <;> rfl

/-- The same equation on the final contents: `v137` is written once, and what it is computed from is never written again. -/
theorem fin_v137 (m : (ℓ : Loc nD τ sig) → Buf (Elt F) ℓ) (c : Dev nD) :
    R m c (Proc.devRef .tc main_v137)
      = ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x512_S512x128_S5000x128_1_0_0_1_n_n none l r) : (⟨S5000x512, .f32⟩ : BufTy).Contents (Elt F) → (⟨S512x128, .f32⟩ : BufTy).Contents (Elt F) → (⟨S5000x128, .f32⟩ : BufTy).Contents (Elt F)) ((maximumf : (⟨S5000x512, .f32⟩ : BufTy).Contents (Elt F) → (⟨S5000x512, .f32⟩ : BufTy).Contents (Elt F) → (⟨S5000x512, .f32⟩ : BufTy).Contents (Elt F)) ((addf : (⟨S5000x512, .f32⟩ : BufTy).Contents (Elt F) → (⟨S5000x512, .f32⟩ : BufTy).Contents (Elt F) → (⟨S5000x512, .f32⟩ : BufTy).Contents (Elt F)) (((fun l r => Host.dotGeneral dot_S5000x512_S512x512_S5000x512_1_0_0_1_n_n none l r) : (⟨S5000x512, .f32⟩ : BufTy).Contents (Elt F) → (⟨S512x512, .f32⟩ : BufTy).Contents (Elt F) → (⟨S5000x512, .f32⟩ : BufTy).Contents (Elt F)) ((maximumf : (⟨S5000x512, .f32⟩ : BufTy).Contents (Elt F) → (⟨S5000x512, .f32⟩ : BufTy).Contents (Elt F) → (⟨S5000x512, .f32⟩ : BufTy).Contents (Elt F)) ((addf : (⟨S5000x512, .f32⟩ : BufTy).Contents (Elt F) → (⟨S5000x512, .f32⟩ : BufTy).Contents (Elt F) → (⟨S5000x512, .f32⟩ : BufTy).Contents (Elt F)) (((fun l r => Host.dotGeneral dot_S5000x512_S512x512_S5000x512_1_0_0_1_n_n none l r) : (⟨S5000x512, .f32⟩ : BufTy).Contents (Elt F) → (⟨S512x512, .f32⟩ : BufTy).Contents (Elt F) → (⟨S5000x512, .f32⟩ : BufTy).Contents (Elt F)) (R m c (Proc.devRef .tc main_v110)) (shapeCast S512x512 (((extractStridedSlice S1x512x512 ![0, 0, 0] · slices_S3x512x512_S1x512x512_0_0_0) : (⟨S3x512x512, .f32⟩ : BufTy).Contents (Elt F) → (⟨S1x512x512, .f32⟩ : BufTy).Contents (Elt F)) (R m c (Proc.devRef .tc main_arg22))) shapeCasts_S1x512x512_S512x512 : (⟨S512x512, .f32⟩ : BufTy).Contents (Elt F))) ((broadcastInDim S5000x512 ![0, 1] bcast_S1x512_S5000x512_0_1 : (⟨S1x512, .f32⟩ : BufTy).Contents (Elt F) → (⟨S5000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![0, 0] · slices_S3x512_S1x512_0_0) : (⟨S3x512, .f32⟩ : BufTy).Contents (Elt F) → (⟨S1x512, .f32⟩ : BufTy).Contents (Elt F)) (R m c (Proc.devRef .tc main_arg23))) shapeCasts_S1x512_S512 : (⟨S512, .f32⟩ : BufTy).Contents (Elt F))))) ((broadcastInDim S5000x512 ![] bcast_S_S5000x512 : (⟨S_, .f32⟩ : BufTy).Contents (Elt F) → (⟨S5000x512, .f32⟩ : BufTy).Contents (Elt F)) (constant S_ .f32 0x00000000#32 : (⟨S_, .f32⟩ : BufTy).Contents (Elt F)))) (shapeCast S512x512 (((extractStridedSlice S1x512x512 ![0, 0, 0] · slices_S3x512x512_S1x512x512_0_0_0) : (⟨S3x512x512, .f32⟩ : BufTy).Contents (Elt F) → (⟨S1x512x512, .f32⟩ : BufTy).Contents (Elt F)) (R m c (Proc.devRef .tc main_arg24))) shapeCasts_S1x512x512_S512x512 : (⟨S512x512, .f32⟩ : BufTy).Contents (Elt F))) ((broadcastInDim S5000x512 ![0, 1] bcast_S1x512_S5000x512_0_1 : (⟨S1x512, .f32⟩ : BufTy).Contents (Elt F) → (⟨S5000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![0, 0] · slices_S3x512_S1x512_0_0) : (⟨S3x512, .f32⟩ : BufTy).Contents (Elt F) → (⟨S1x512, .f32⟩ : BufTy).Contents (Elt F)) (R m c (Proc.devRef .tc main_arg25))) shapeCasts_S1x512_S512 : (⟨S512, .f32⟩ : BufTy).Contents (Elt F))))) ((broadcastInDim S5000x512 ![] bcast_S_S5000x512 : (⟨S_, .f32⟩ : BufTy).Contents (Elt F) → (⟨S5000x512, .f32⟩ : BufTy).Contents (Elt F)) (constant S_ .f32 0x00000000#32 : (⟨S_, .f32⟩ : BufTy).Contents (Elt F)))) (shapeCast S512x128 (((extractStridedSlice S1x512x128 ![0, 0, 0] · slices_S3x512x128_S1x512x128_0_0_0) : (⟨S3x512x128, .f32⟩ : BufTy).Contents (Elt F) → (⟨S1x512x128, .f32⟩ : BufTy).Contents (Elt F)) (R m c (Proc.devRef .tc main_arg26))) shapeCasts_S1x512x128_S512x128 : (⟨S512x128, .f32⟩ : BufTy).Contents (Elt F))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S3x128_S1x128_0_0) : (⟨S3x128, .f32⟩ : BufTy).Contents (Elt F) → (⟨S1x128, .f32⟩ : BufTy).Contents (Elt F)) (R m c (Proc.devRef .tc main_arg27))) shapeCasts_S1x128_S128 : (⟨S128, .f32⟩ : BufTy).Contents (Elt F))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) := by
  have e := ref_07_v137 (A_07 m c)
  rw [A_07_eq m c in_07_arg22, A_07_eq m c in_07_arg24, A_07_eq m c in_07_arg26, A_07_eq m c in_07_arg23, A_07_eq m c in_07_arg25, A_07_eq m c in_07_arg27, A_07_eq m c in_07_v110] at e
  exact (R_of_08 m c nw_v137).trans e

/-! ## Piece 08 (step 0): per graph, its global row, the sum of its nodes' new rows and the sum of its edges' new rows, side by side -/

/-- A buffer piece 08 does not write keeps its contents through it. -/
theorem keep_08 (W : Valuation τ sig (Elt F)) {r : Ref sig .tc} (h : r ∉ ops_08_W) :
    after (ops_08 : List (HloOp τ sig (Elt F))) W (Proc.devRef .tc r) = W (Proc.devRef .tc r) :=
  after_of_writes_sub ops_08 W ops_08_writes h
theorem in_08_arg4 : main_arg4 ∉ tailW_08 := later_08 (later_07 (later_06 (later_05 (later_04 (later_03 (later_02 (later_01 (nw_arg4))))))))
theorem in_08_v137 : main_v137 ∉ tailW_08 := nw_v137
theorem in_08_arg5 : main_arg5 ∉ tailW_08 := later_08 (later_07 (later_06 (later_05 (later_04 (later_03 (later_02 (later_01 (nw_arg5))))))))
theorem in_08_v96 : main_v96 ∉ tailW_08 := later_08 (later_07 (nw_v96))
theorem in_08_arg3 : main_arg3 ∉ tailW_08 := later_08 (later_07 (later_06 (later_05 (later_04 (later_03 (later_02 (later_01 (nw_arg3))))))))

/-- `v140` after piece 08, from the contents before it. -/
theorem ref_08_v140 (W : Valuation τ sig (Elt F)) :
    after (ops_08 : List (HloOp τ sig (Elt F))) W (Proc.devRef .tc main_v140)
      = (((fun x i u => Host.scatterAdd scatter_S64x128_S5000x1_S5000x128_1_0_0_1 x i u) : (⟨S64x128, .f32⟩ : BufTy).Contents (Elt F) → (⟨S5000x1, .i32⟩ : BufTy).Contents (Elt F) → (⟨S5000x128, .f32⟩ : BufTy).Contents (Elt F) → (⟨S64x128, .f32⟩ : BufTy).Contents (Elt F)) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F))) ((broadcastInDim S5000x1 ![0] bcast_S5000_S5000x1_0 : (⟨S5000, .i32⟩ : BufTy).Contents (Elt F) → (⟨S5000x1, .i32⟩ : BufTy).Contents (Elt F)) (W (Proc.devRef .tc main_arg4))) (W (Proc.devRef .tc main_v137))) := by
  simp (disch := decide) only [after_cons, after_nil, nullary_result', unary_result', binary_result', ternary_result', quaternary_result', reshape_result', nary4_result', nary3_result', nary_result',
    nullary_result_ne', unary_result_ne', binary_result_ne', ternary_result_ne', quaternary_result_ne', reshape_result_ne', nary_result_ne'] <;> rfl

/-- The same equation on the final contents: `v140` is written once, and what it is computed from is never written again. -/
theorem fin_v140 (m : (ℓ : Loc nD τ sig) → Buf (Elt F) ℓ) (c : Dev nD) :
    R m c (Proc.devRef .tc main_v140)
      = (((fun x i u => Host.scatterAdd scatter_S64x128_S5000x1_S5000x128_1_0_0_1 x i u) : (⟨S64x128, .f32⟩ : BufTy).Contents (Elt F) → (⟨S5000x1, .i32⟩ : BufTy).Contents (Elt F) → (⟨S5000x128, .f32⟩ : BufTy).Contents (Elt F) → (⟨S64x128, .f32⟩ : BufTy).Contents (Elt F)) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F))) ((broadcastInDim S5000x1 ![0] bcast_S5000_S5000x1_0 : (⟨S5000, .i32⟩ : BufTy).Contents (Elt F) → (⟨S5000x1, .i32⟩ : BufTy).Contents (Elt F)) (R m c (Proc.devRef .tc main_arg4))) (R m c (Proc.devRef .tc main_v137))) := by
  have e := ref_08_v140 (A_08 m c)
  rw [A_08_eq m c in_08_arg4, A_08_eq m c in_08_v137] at e
  exact (R_of_09 m c nw_v140).trans e

/-- `v143` after piece 08, from the contents before it. -/
theorem ref_08_v143 (W : Valuation τ sig (Elt F)) :
    after (ops_08 : List (HloOp τ sig (Elt F))) W (Proc.devRef .tc main_v143)
      = (((fun x i u => Host.scatterAdd scatter_S64x128_S80000x1_S80000x128_1_0_0_1 x i u) : (⟨S64x128, .f32⟩ : BufTy).Contents (Elt F) → (⟨S80000x1, .i32⟩ : BufTy).Contents (Elt F) → (⟨S80000x128, .f32⟩ : BufTy).Contents (Elt F) → (⟨S64x128, .f32⟩ : BufTy).Contents (Elt F)) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (W (Proc.devRef .tc main_arg5))) (W (Proc.devRef .tc main_v96))) := by
  simp (disch := decide) only [after_cons, after_nil, nullary_result', unary_result', binary_result', ternary_result', quaternary_result', reshape_result', nary4_result', nary3_result', nary_result',
    nullary_result_ne', unary_result_ne', binary_result_ne', ternary_result_ne', quaternary_result_ne', reshape_result_ne', nary_result_ne'] <;> rfl

/-- The same equation on the final contents: `v143` is written once, and what it is computed from is never written again. -/
theorem fin_v143 (m : (ℓ : Loc nD τ sig) → Buf (Elt F) ℓ) (c : Dev nD) :
    R m c (Proc.devRef .tc main_v143)
      = (((fun x i u => Host.scatterAdd scatter_S64x128_S80000x1_S80000x128_1_0_0_1 x i u) : (⟨S64x128, .f32⟩ : BufTy).Contents (Elt F) → (⟨S80000x1, .i32⟩ : BufTy).Contents (Elt F) → (⟨S80000x128, .f32⟩ : BufTy).Contents (Elt F) → (⟨S64x128, .f32⟩ : BufTy).Contents (Elt F)) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (R m c (Proc.devRef .tc main_arg5))) (R m c (Proc.devRef .tc main_v96))) := by
  have e := ref_08_v143 (A_08 m c)
  rw [A_08_eq m c in_08_arg5, A_08_eq m c in_08_v96] at e
  exact (R_of_09 m c nw_v143).trans e

/-- `v144` after piece 08, from the contents before it. -/
theorem ref_08_v144 (W : Valuation τ sig (Elt F)) :
    after (ops_08 : List (HloOp τ sig (Elt F))) W (Proc.devRef .tc main_v144)
      = (concatenate S64x384 1 [⟨S64x128, (W (Proc.devRef .tc main_arg3))⟩, ⟨S64x128, (((fun x i u => Host.scatterAdd scatter_S64x128_S5000x1_S5000x128_1_0_0_1 x i u) : (⟨S64x128, .f32⟩ : BufTy).Contents (Elt F) → (⟨S5000x1, .i32⟩ : BufTy).Contents (Elt F) → (⟨S5000x128, .f32⟩ : BufTy).Contents (Elt F) → (⟨S64x128, .f32⟩ : BufTy).Contents (Elt F)) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F))) ((broadcastInDim S5000x1 ![0] bcast_S5000_S5000x1_0 : (⟨S5000, .i32⟩ : BufTy).Contents (Elt F) → (⟨S5000x1, .i32⟩ : BufTy).Contents (Elt F)) (W (Proc.devRef .tc main_arg4))) (W (Proc.devRef .tc main_v137)))⟩, ⟨S64x128, (((fun x i u => Host.scatterAdd scatter_S64x128_S80000x1_S80000x128_1_0_0_1 x i u) : (⟨S64x128, .f32⟩ : BufTy).Contents (Elt F) → (⟨S80000x1, .i32⟩ : BufTy).Contents (Elt F) → (⟨S80000x128, .f32⟩ : BufTy).Contents (Elt F) → (⟨S64x128, .f32⟩ : BufTy).Contents (Elt F)) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (W (Proc.devRef .tc main_arg5))) (W (Proc.devRef .tc main_v96)))⟩] concatenates_S64x128_S64x128_S64x128_S64x384_d1 : (⟨S64x384, .f32⟩ : BufTy).Contents (Elt F)) := by
  simp (disch := decide) only [after_cons, after_nil, nullary_result', unary_result', binary_result', ternary_result', quaternary_result', reshape_result', nary4_result', nary3_result', nary_result',
    nullary_result_ne', unary_result_ne', binary_result_ne', ternary_result_ne', quaternary_result_ne', reshape_result_ne', nary_result_ne'] <;> rfl

/-- The same equation on the final contents: `v144` is written once, and what it is computed from is never written again. -/
theorem fin_v144 (m : (ℓ : Loc nD τ sig) → Buf (Elt F) ℓ) (c : Dev nD) :
    R m c (Proc.devRef .tc main_v144)
      = (concatenate S64x384 1 [⟨S64x128, (R m c (Proc.devRef .tc main_arg3))⟩, ⟨S64x128, (((fun x i u => Host.scatterAdd scatter_S64x128_S5000x1_S5000x128_1_0_0_1 x i u) : (⟨S64x128, .f32⟩ : BufTy).Contents (Elt F) → (⟨S5000x1, .i32⟩ : BufTy).Contents (Elt F) → (⟨S5000x128, .f32⟩ : BufTy).Contents (Elt F) → (⟨S64x128, .f32⟩ : BufTy).Contents (Elt F)) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F))) ((broadcastInDim S5000x1 ![0] bcast_S5000_S5000x1_0 : (⟨S5000, .i32⟩ : BufTy).Contents (Elt F) → (⟨S5000x1, .i32⟩ : BufTy).Contents (Elt F)) (R m c (Proc.devRef .tc main_arg4))) (R m c (Proc.devRef .tc main_v137)))⟩, ⟨S64x128, (((fun x i u => Host.scatterAdd scatter_S64x128_S80000x1_S80000x128_1_0_0_1 x i u) : (⟨S64x128, .f32⟩ : BufTy).Contents (Elt F) → (⟨S80000x1, .i32⟩ : BufTy).Contents (Elt F) → (⟨S80000x128, .f32⟩ : BufTy).Contents (Elt F) → (⟨S64x128, .f32⟩ : BufTy).Contents (Elt F)) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (R m c (Proc.devRef .tc main_arg5))) (R m c (Proc.devRef .tc main_v96)))⟩] concatenates_S64x128_S64x128_S64x128_S64x384_d1 : (⟨S64x384, .f32⟩ : BufTy).Contents (Elt F)) := by
  have e := ref_08_v144 (A_08 m c)
  rw [A_08_eq m c in_08_arg4, A_08_eq m c in_08_v137, A_08_eq m c in_08_arg5, A_08_eq m c in_08_v96, A_08_eq m c in_08_arg3] at e
  exact (R_of_09 m c nw_v144).trans e

/-! ## Piece 09 (step 0): the three-layer global network on those rows -/

/-- A buffer piece 09 does not write keeps its contents through it. -/
theorem keep_09 (W : Valuation τ sig (Elt F)) {r : Ref sig .tc} (h : r ∉ ops_09_W) :
    after (ops_09 : List (HloOp τ sig (Elt F))) W (Proc.devRef .tc r) = W (Proc.devRef .tc r) :=
  after_of_writes_sub ops_09 W ops_09_writes h
theorem in_09_arg28 : main_arg28 ∉ tailW_09 := later_09 (later_08 (later_07 (later_06 (later_05 (later_04 (later_03 (later_02 (later_01 (nw_arg28)))))))))
theorem in_09_arg30 : main_arg30 ∉ tailW_09 := later_09 (later_08 (later_07 (later_06 (later_05 (later_04 (later_03 (later_02 (later_01 (nw_arg30)))))))))
theorem in_09_arg32 : main_arg32 ∉ tailW_09 := later_09 (later_08 (later_07 (later_06 (later_05 (later_04 (later_03 (later_02 (later_01 (nw_arg32)))))))))
theorem in_09_arg29 : main_arg29 ∉ tailW_09 := later_09 (later_08 (later_07 (later_06 (later_05 (later_04 (later_03 (later_02 (later_01 (nw_arg29)))))))))
theorem in_09_arg31 : main_arg31 ∉ tailW_09 := later_09 (later_08 (later_07 (later_06 (later_05 (later_04 (later_03 (later_02 (later_01 (nw_arg31)))))))))
theorem in_09_arg33 : main_arg33 ∉ tailW_09 := later_09 (later_08 (later_07 (later_06 (later_05 (later_04 (later_03 (later_02 (later_01 (nw_arg33)))))))))
theorem in_09_v144 : main_v144 ∉ tailW_09 := nw_v144

/-- `v171` after piece 09, from the contents before it. -/
theorem ref_09_v171 (W : Valuation τ sig (Elt F)) :
    after (ops_09 : List (HloOp τ sig (Elt F))) W (Proc.devRef .tc main_v171)
      = ((maximumf : (⟨S64x128, .f32⟩ : BufTy).Contents (Elt F) → (⟨S64x128, .f32⟩ : BufTy).Contents (Elt F) → (⟨S64x128, .f32⟩ : BufTy).Contents (Elt F)) ((addf : (⟨S64x128, .f32⟩ : BufTy).Contents (Elt F) → (⟨S64x128, .f32⟩ : BufTy).Contents (Elt F) → (⟨S64x128, .f32⟩ : BufTy).Contents (Elt F)) (((fun l r => Host.dotGeneral dot_S64x512_S512x128_S64x128_1_0_0_1_n_n none l r) : (⟨S64x512, .f32⟩ : BufTy).Contents (Elt F) → (⟨S512x128, .f32⟩ : BufTy).Contents (Elt F) → (⟨S64x128, .f32⟩ : BufTy).Contents (Elt F)) ((maximumf : (⟨S64x512, .f32⟩ : BufTy).Contents (Elt F) → (⟨S64x512, .f32⟩ : BufTy).Contents (Elt F) → (⟨S64x512, .f32⟩ : BufTy).Contents (Elt F)) ((addf : (⟨S64x512, .f32⟩ : BufTy).Contents (Elt F) → (⟨S64x512, .f32⟩ : BufTy).Contents (Elt F) → (⟨S64x512, .f32⟩ : BufTy).Contents (Elt F)) (((fun l r => Host.dotGeneral dot_S64x512_S512x512_S64x512_1_0_0_1_n_n none l r) : (⟨S64x512, .f32⟩ : BufTy).Contents (Elt F) → (⟨S512x512, .f32⟩ : BufTy).Contents (Elt F) → (⟨S64x512, .f32⟩ : BufTy).Contents (Elt F)) ((maximumf : (⟨S64x512, .f32⟩ : BufTy).Contents (Elt F) → (⟨S64x512, .f32⟩ : BufTy).Contents (Elt F) → (⟨S64x512, .f32⟩ : BufTy).Contents (Elt F)) ((addf : (⟨S64x512, .f32⟩ : BufTy).Contents (Elt F) → (⟨S64x512, .f32⟩ : BufTy).Contents (Elt F) → (⟨S64x512, .f32⟩ : BufTy).Contents (Elt F)) (((fun l r => Host.dotGeneral dot_S64x384_S384x512_S64x512_1_0_0_1_n_n none l r) : (⟨S64x384, .f32⟩ : BufTy).Contents (Elt F) → (⟨S384x512, .f32⟩ : BufTy).Contents (Elt F) → (⟨S64x512, .f32⟩ : BufTy).Contents (Elt F)) (W (Proc.devRef .tc main_v144)) (shapeCast S384x512 (((extractStridedSlice S1x384x512 ![0, 0, 0] · slices_S2x384x512_S1x384x512_0_0_0) : (⟨S2x384x512, .f32⟩ : BufTy).Contents (Elt F) → (⟨S1x384x512, .f32⟩ : BufTy).Contents (Elt F)) (W (Proc.devRef .tc main_arg28))) shapeCasts_S1x384x512_S384x512 : (⟨S384x512, .f32⟩ : BufTy).Contents (Elt F))) ((broadcastInDim S64x512 ![0, 1] bcast_S1x512_S64x512_0_1 : (⟨S1x512, .f32⟩ : BufTy).Contents (Elt F) → (⟨S64x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![0, 0] · slices_S2x512_S1x512_0_0) : (⟨S2x512, .f32⟩ : BufTy).Contents (Elt F) → (⟨S1x512, .f32⟩ : BufTy).Contents (Elt F)) (W (Proc.devRef .tc main_arg29))) shapeCasts_S1x512_S512 : (⟨S512, .f32⟩ : BufTy).Contents (Elt F))))) ((broadcastInDim S64x512 ![] bcast_S_S64x512 : (⟨S_, .f32⟩ : BufTy).Contents (Elt F) → (⟨S64x512, .f32⟩ : BufTy).Contents (Elt F)) (constant S_ .f32 0x00000000#32 : (⟨S_, .f32⟩ : BufTy).Contents (Elt F)))) (shapeCast S512x512 (((extractStridedSlice S1x512x512 ![0, 0, 0] · slices_S2x512x512_S1x512x512_0_0_0) : (⟨S2x512x512, .f32⟩ : BufTy).Contents (Elt F) → (⟨S1x512x512, .f32⟩ : BufTy).Contents (Elt F)) (W (Proc.devRef .tc main_arg30))) shapeCasts_S1x512x512_S512x512 : (⟨S512x512, .f32⟩ : BufTy).Contents (Elt F))) ((broadcastInDim S64x512 ![0, 1] bcast_S1x512_S64x512_0_1 : (⟨S1x512, .f32⟩ : BufTy).Contents (Elt F) → (⟨S64x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![0, 0] · slices_S2x512_S1x512_0_0) : (⟨S2x512, .f32⟩ : BufTy).Contents (Elt F) → (⟨S1x512, .f32⟩ : BufTy).Contents (Elt F)) (W (Proc.devRef .tc main_arg31))) shapeCasts_S1x512_S512 : (⟨S512, .f32⟩ : BufTy).Contents (Elt F))))) ((broadcastInDim S64x512 ![] bcast_S_S64x512 : (⟨S_, .f32⟩ : BufTy).Contents (Elt F) → (⟨S64x512, .f32⟩ : BufTy).Contents (Elt F)) (constant S_ .f32 0x00000000#32 : (⟨S_, .f32⟩ : BufTy).Contents (Elt F)))) (shapeCast S512x128 (((extractStridedSlice S1x512x128 ![0, 0, 0] · slices_S2x512x128_S1x512x128_0_0_0) : (⟨S2x512x128, .f32⟩ : BufTy).Contents (Elt F) → (⟨S1x512x128, .f32⟩ : BufTy).Contents (Elt F)) (W (Proc.devRef .tc main_arg32))) shapeCasts_S1x512x128_S512x128 : (⟨S512x128, .f32⟩ : BufTy).Contents (Elt F))) ((broadcastInDim S64x128 ![0, 1] bcast_S1x128_S64x128_0_1 : (⟨S1x128, .f32⟩ : BufTy).Contents (Elt F) → (⟨S64x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S2x128_S1x128_0_0) : (⟨S2x128, .f32⟩ : BufTy).Contents (Elt F) → (⟨S1x128, .f32⟩ : BufTy).Contents (Elt F)) (W (Proc.devRef .tc main_arg33))) shapeCasts_S1x128_S128 : (⟨S128, .f32⟩ : BufTy).Contents (Elt F))))) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F)))) := by
  after_results_simp <;> rfl

/-- The same equation on the final contents: `v171` is written once, and what it is computed from is never written again. -/
theorem fin_v171 (m : (ℓ : Loc nD τ sig) → Buf (Elt F) ℓ) (c : Dev nD) :
    R m c (Proc.devRef .tc main_v171)
      = ((maximumf : (⟨S64x128, .f32⟩ : BufTy).Contents (Elt F) → (⟨S64x128, .f32⟩ : BufTy).Contents (Elt F) → (⟨S64x128, .f32⟩ : BufTy).Contents (Elt F)) ((addf : (⟨S64x128, .f32⟩ : BufTy).Contents (Elt F) → (⟨S64x128, .f32⟩ : BufTy).Contents (Elt F) → (⟨S64x128, .f32⟩ : BufTy).Contents (Elt F)) (((fun l r => Host.dotGeneral dot_S64x512_S512x128_S64x128_1_0_0_1_n_n none l r) : (⟨S64x512, .f32⟩ : BufTy).Contents (Elt F) → (⟨S512x128, .f32⟩ : BufTy).Contents (Elt F) → (⟨S64x128, .f32⟩ : BufTy).Contents (Elt F)) ((maximumf : (⟨S64x512, .f32⟩ : BufTy).Contents (Elt F) → (⟨S64x512, .f32⟩ : BufTy).Contents (Elt F) → (⟨S64x512, .f32⟩ : BufTy).Contents (Elt F)) ((addf : (⟨S64x512, .f32⟩ : BufTy).Contents (Elt F) → (⟨S64x512, .f32⟩ : BufTy).Contents (Elt F) → (⟨S64x512, .f32⟩ : BufTy).Contents (Elt F)) (((fun l r => Host.dotGeneral dot_S64x512_S512x512_S64x512_1_0_0_1_n_n none l r) : (⟨S64x512, .f32⟩ : BufTy).Contents (Elt F) → (⟨S512x512, .f32⟩ : BufTy).Contents (Elt F) → (⟨S64x512, .f32⟩ : BufTy).Contents (Elt F)) ((maximumf : (⟨S64x512, .f32⟩ : BufTy).Contents (Elt F) → (⟨S64x512, .f32⟩ : BufTy).Contents (Elt F) → (⟨S64x512, .f32⟩ : BufTy).Contents (Elt F)) ((addf : (⟨S64x512, .f32⟩ : BufTy).Contents (Elt F) → (⟨S64x512, .f32⟩ : BufTy).Contents (Elt F) → (⟨S64x512, .f32⟩ : BufTy).Contents (Elt F)) (((fun l r => Host.dotGeneral dot_S64x384_S384x512_S64x512_1_0_0_1_n_n none l r) : (⟨S64x384, .f32⟩ : BufTy).Contents (Elt F) → (⟨S384x512, .f32⟩ : BufTy).Contents (Elt F) → (⟨S64x512, .f32⟩ : BufTy).Contents (Elt F)) (R m c (Proc.devRef .tc main_v144)) (shapeCast S384x512 (((extractStridedSlice S1x384x512 ![0, 0, 0] · slices_S2x384x512_S1x384x512_0_0_0) : (⟨S2x384x512, .f32⟩ : BufTy).Contents (Elt F) → (⟨S1x384x512, .f32⟩ : BufTy).Contents (Elt F)) (R m c (Proc.devRef .tc main_arg28))) shapeCasts_S1x384x512_S384x512 : (⟨S384x512, .f32⟩ : BufTy).Contents (Elt F))) ((broadcastInDim S64x512 ![0, 1] bcast_S1x512_S64x512_0_1 : (⟨S1x512, .f32⟩ : BufTy).Contents (Elt F) → (⟨S64x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![0, 0] · slices_S2x512_S1x512_0_0) : (⟨S2x512, .f32⟩ : BufTy).Contents (Elt F) → (⟨S1x512, .f32⟩ : BufTy).Contents (Elt F)) (R m c (Proc.devRef .tc main_arg29))) shapeCasts_S1x512_S512 : (⟨S512, .f32⟩ : BufTy).Contents (Elt F))))) ((broadcastInDim S64x512 ![] bcast_S_S64x512 : (⟨S_, .f32⟩ : BufTy).Contents (Elt F) → (⟨S64x512, .f32⟩ : BufTy).Contents (Elt F)) (constant S_ .f32 0x00000000#32 : (⟨S_, .f32⟩ : BufTy).Contents (Elt F)))) (shapeCast S512x512 (((extractStridedSlice S1x512x512 ![0, 0, 0] · slices_S2x512x512_S1x512x512_0_0_0) : (⟨S2x512x512, .f32⟩ : BufTy).Contents (Elt F) → (⟨S1x512x512, .f32⟩ : BufTy).Contents (Elt F)) (R m c (Proc.devRef .tc main_arg30))) shapeCasts_S1x512x512_S512x512 : (⟨S512x512, .f32⟩ : BufTy).Contents (Elt F))) ((broadcastInDim S64x512 ![0, 1] bcast_S1x512_S64x512_0_1 : (⟨S1x512, .f32⟩ : BufTy).Contents (Elt F) → (⟨S64x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![0, 0] · slices_S2x512_S1x512_0_0) : (⟨S2x512, .f32⟩ : BufTy).Contents (Elt F) → (⟨S1x512, .f32⟩ : BufTy).Contents (Elt F)) (R m c (Proc.devRef .tc main_arg31))) shapeCasts_S1x512_S512 : (⟨S512, .f32⟩ : BufTy).Contents (Elt F))))) ((broadcastInDim S64x512 ![] bcast_S_S64x512 : (⟨S_, .f32⟩ : BufTy).Contents (Elt F) → (⟨S64x512, .f32⟩ : BufTy).Contents (Elt F)) (constant S_ .f32 0x00000000#32 : (⟨S_, .f32⟩ : BufTy).Contents (Elt F)))) (shapeCast S512x128 (((extractStridedSlice S1x512x128 ![0, 0, 0] · slices_S2x512x128_S1x512x128_0_0_0) : (⟨S2x512x128, .f32⟩ : BufTy).Contents (Elt F) → (⟨S1x512x128, .f32⟩ : BufTy).Contents (Elt F)) (R m c (Proc.devRef .tc main_arg32))) shapeCasts_S1x512x128_S512x128 : (⟨S512x128, .f32⟩ : BufTy).Contents (Elt F))) ((broadcastInDim S64x128 ![0, 1] bcast_S1x128_S64x128_0_1 : (⟨S1x128, .f32⟩ : BufTy).Contents (Elt F) → (⟨S64x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S2x128_S1x128_0_0) : (⟨S2x128, .f32⟩ : BufTy).Contents (Elt F) → (⟨S1x128, .f32⟩ : BufTy).Contents (Elt F)) (R m c (Proc.devRef .tc main_arg33))) shapeCasts_S1x128_S128 : (⟨S128, .f32⟩ : BufTy).Contents (Elt F))))) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F)))) := by
  have e := ref_09_v171 (A_09 m c)
  rw [A_09_eq m c in_09_arg28, A_09_eq m c in_09_arg30, A_09_eq m c in_09_arg32, A_09_eq m c in_09_arg29, A_09_eq m c in_09_arg31, A_09_eq m c in_09_arg33, A_09_eq m c in_09_v144] at e
  exact (R_of_10 m c nw_v171).trans e

/-! ## Piece 10 (step 0): the residual sums: new node, edge and global features plus the old -/

/-- A buffer piece 10 does not write keeps its contents through it. -/
theorem keep_10 (W : Valuation τ sig (Elt F)) {r : Ref sig .tc} (h : r ∉ ops_10_W) :
    after (ops_10 : List (HloOp τ sig (Elt F))) W (Proc.devRef .tc r) = W (Proc.devRef .tc r) :=
  after_of_writes_sub ops_10 W ops_10_writes h
theorem in_10_v137 : main_v137 ∉ tailW_10 := later_10 (later_09 (nw_v137))
theorem in_10_arg0 : main_arg0 ∉ tailW_10 := later_10 (later_09 (later_08 (later_07 (later_06 (later_05 (later_04 (later_03 (later_02 (later_01 (nw_arg0))))))))))
theorem in_10_v96 : main_v96 ∉ tailW_10 := later_10 (later_09 (later_08 (later_07 (nw_v96))))
theorem in_10_arg2 : main_arg2 ∉ tailW_10 := later_10 (later_09 (later_08 (later_07 (later_06 (later_05 (later_04 (later_03 (later_02 (later_01 (nw_arg2))))))))))
theorem in_10_v171 : main_v171 ∉ tailW_10 := nw_v171
theorem in_10_arg3 : main_arg3 ∉ tailW_10 := later_10 (later_09 (later_08 (later_07 (later_06 (later_05 (later_04 (later_03 (later_02 (later_01 (nw_arg3))))))))))

/-- `v172` after piece 10, from the contents before it. -/
theorem ref_10_v172 (W : Valuation τ sig (Elt F)) :
    after (ops_10 : List (HloOp τ sig (Elt F))) W (Proc.devRef .tc main_v172)
      = ((addf : (⟨S5000x128, .f32⟩ : BufTy).Contents (Elt F) → (⟨S5000x128, .f32⟩ : BufTy).Contents (Elt F) → (⟨S5000x128, .f32⟩ : BufTy).Contents (Elt F)) (W (Proc.devRef .tc main_v137)) (W (Proc.devRef .tc main_arg0))) := by
  after_results_simp <;> rfl

/-- The same equation on the final contents: `v172` is written once, and what it is computed from is never written again. -/
theorem fin_v172 (m : (ℓ : Loc nD τ sig) → Buf (Elt F) ℓ) (c : Dev nD) :
    R m c (Proc.devRef .tc main_v172)
      = ((addf : (⟨S5000x128, .f32⟩ : BufTy).Contents (Elt F) → (⟨S5000x128, .f32⟩ : BufTy).Contents (Elt F) → (⟨S5000x128, .f32⟩ : BufTy).Contents (Elt F)) (R m c (Proc.devRef .tc main_v137)) (R m c (Proc.devRef .tc main_arg0))) := by
  have e := ref_10_v172 (A_10 m c)
  rw [A_10_eq m c in_10_v137, A_10_eq m c in_10_arg0] at e
  exact (R_of_11 m c nw_v172).trans e

/-- `v173` after piece 10, from the contents before it. -/
theorem ref_10_v173 (W : Valuation τ sig (Elt F)) :
    after (ops_10 : List (HloOp τ sig (Elt F))) W (Proc.devRef .tc main_v173)
      = ((addf : (⟨S80000x128, .f32⟩ : BufTy).Contents (Elt F) → (⟨S80000x128, .f32⟩ : BufTy).Contents (Elt F) → (⟨S80000x128, .f32⟩ : BufTy).Contents (Elt F)) (W (Proc.devRef .tc main_v96)) (W (Proc.devRef .tc main_arg2))) := by
  after_results_simp <;> rfl

/-- The same equation on the final contents: `v173` is written once, and what it is computed from is never written again. -/
theorem fin_v173 (m : (ℓ : Loc nD τ sig) → Buf (Elt F) ℓ) (c : Dev nD) :
    R m c (Proc.devRef .tc main_v173)
      = ((addf : (⟨S80000x128, .f32⟩ : BufTy).Contents (Elt F) → (⟨S80000x128, .f32⟩ : BufTy).Contents (Elt F) → (⟨S80000x128, .f32⟩ : BufTy).Contents (Elt F)) (R m c (Proc.devRef .tc main_v96)) (R m c (Proc.devRef .tc main_arg2))) := by
  have e := ref_10_v173 (A_10 m c)
  rw [A_10_eq m c in_10_v96, A_10_eq m c in_10_arg2] at e
  exact (R_of_11 m c nw_v173).trans e

/-- `v174` after piece 10, from the contents before it. -/
theorem ref_10_v174 (W : Valuation τ sig (Elt F)) :
    after (ops_10 : List (HloOp τ sig (Elt F))) W (Proc.devRef .tc main_v174)
      = ((addf : (⟨S64x128, .f32⟩ : BufTy).Contents (Elt F) → (⟨S64x128, .f32⟩ : BufTy).Contents (Elt F) → (⟨S64x128, .f32⟩ : BufTy).Contents (Elt F)) (W (Proc.devRef .tc main_v171)) (W (Proc.devRef .tc main_arg3))) := by
  after_results_simp <;> rfl

/-- The same equation on the final contents: `v174` is written once, and what it is computed from is never written again. -/
theorem fin_v174 (m : (ℓ : Loc nD τ sig) → Buf (Elt F) ℓ) (c : Dev nD) :
    R m c (Proc.devRef .tc main_v174)
      = ((addf : (⟨S64x128, .f32⟩ : BufTy).Contents (Elt F) → (⟨S64x128, .f32⟩ : BufTy).Contents (Elt F) → (⟨S64x128, .f32⟩ : BufTy).Contents (Elt F)) (R m c (Proc.devRef .tc main_v171)) (R m c (Proc.devRef .tc main_arg3))) := by
  have e := ref_10_v174 (A_10 m c)
  rw [A_10_eq m c in_10_v171, A_10_eq m c in_10_arg3] at e
  exact (R_of_11 m c nw_v174).trans e

/-! ## Piece 11 (step 0): the decoder's displacement (two layers, no activation after the second) added to the positions -/

/-- A buffer piece 11 does not write keeps its contents through it. -/
theorem keep_11 (W : Valuation τ sig (Elt F)) {r : Ref sig .tc} (h : r ∉ ops_11_W) :
    after (ops_11 : List (HloOp τ sig (Elt F))) W (Proc.devRef .tc r) = W (Proc.devRef .tc r) :=
  after_of_writes_sub ops_11 W ops_11_writes h
theorem in_11_v172 : main_v172 ∉ tailW_11 := nw_v172
theorem in_11_arg34 : main_arg34 ∉ tailW_11 := later_11 (later_10 (later_09 (later_08 (later_07 (later_06 (later_05 (later_04 (later_03 (later_02 (later_01 (nw_arg34)))))))))))
theorem in_11_arg35 : main_arg35 ∉ tailW_11 := later_11 (later_10 (later_09 (later_08 (later_07 (later_06 (later_05 (later_04 (later_03 (later_02 (later_01 (nw_arg35)))))))))))
theorem in_11_arg36 : main_arg36 ∉ tailW_11 := later_11 (later_10 (later_09 (later_08 (later_07 (later_06 (later_05 (later_04 (later_03 (later_02 (later_01 (nw_arg36)))))))))))
theorem in_11_arg37 : main_arg37 ∉ tailW_11 := later_11 (later_10 (later_09 (later_08 (later_07 (later_06 (later_05 (later_04 (later_03 (later_02 (later_01 (nw_arg37)))))))))))
theorem in_11_arg7 : main_arg7 ∉ tailW_11 := later_11 (later_10 (later_09 (later_08 (later_07 (later_06 (later_05 (later_04 (later_03 (later_02 (later_01 (nw_arg7)))))))))))

/-- `v183` after piece 11, from the contents before it. -/
theorem ref_11_v183 (W : Valuation τ sig (Elt F)) :
    after (ops_11 : List (HloOp τ sig (Elt F))) W (Proc.devRef .tc main_v183)
      = ((addf : (⟨S5000x3, .f32⟩ : BufTy).Contents (Elt F) → (⟨S5000x3, .f32⟩ : BufTy).Contents (Elt F) → (⟨S5000x3, .f32⟩ : BufTy).Contents (Elt F)) (((fun l r => Host.dotGeneral dot_S5000x128_S128x3_S5000x3_1_0_0_1_n_n none l r) : (⟨S5000x128, .f32⟩ : BufTy).Contents (Elt F) → (⟨S128x3, .f32⟩ : BufTy).Contents (Elt F) → (⟨S5000x3, .f32⟩ : BufTy).Contents (Elt F)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)) (W (Proc.devRef .tc main_v172)) (W (Proc.devRef .tc main_arg34))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (W (Proc.devRef .tc main_arg35))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) (W (Proc.devRef .tc main_arg36))) ((broadcastInDim S5000x3 ![0, 1] bcast_S1x3_S5000x3_0_1 : (⟨S1x3, .f32⟩ : BufTy).Contents (Elt F) → (⟨S5000x3, .f32⟩ : BufTy).Contents (Elt F)) ((broadcastInDim S1x3 ![1] bcast_S3_S1x3_1 : (⟨S3, .f32⟩ : BufTy).Contents (Elt F) → (⟨S1x3, .f32⟩ : BufTy).Contents (Elt F)) (W (Proc.devRef .tc main_arg37))))) := by
  after_results_simp <;> rfl

/-- The same equation on the final contents: `v183` is written once, and what it is computed from is never written again. -/
theorem fin_v183 (m : (ℓ : Loc nD τ sig) → Buf (Elt F) ℓ) (c : Dev nD) :
    R m c (Proc.devRef .tc main_v183)
      = ((addf : (⟨S5000x3, .f32⟩ : BufTy).Contents (Elt F) → (⟨S5000x3, .f32⟩ : BufTy).Contents (Elt F) → (⟨S5000x3, .f32⟩ : BufTy).Contents (Elt F)) (((fun l r => Host.dotGeneral dot_S5000x128_S128x3_S5000x3_1_0_0_1_n_n none l r) : (⟨S5000x128, .f32⟩ : BufTy).Contents (Elt F) → (⟨S128x3, .f32⟩ : BufTy).Contents (Elt F) → (⟨S5000x3, .f32⟩ : BufTy).Contents (Elt F)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)) (R m c (Proc.devRef .tc main_v172)) (R m c (Proc.devRef .tc main_arg34))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (R m c (Proc.devRef .tc main_arg35))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) (R m c (Proc.devRef .tc main_arg36))) ((broadcastInDim S5000x3 ![0, 1] bcast_S1x3_S5000x3_0_1 : (⟨S1x3, .f32⟩ : BufTy).Contents (Elt F) → (⟨S5000x3, .f32⟩ : BufTy).Contents (Elt F)) ((broadcastInDim S1x3 ![1] bcast_S3_S1x3_1 : (⟨S3, .f32⟩ : BufTy).Contents (Elt F) → (⟨S1x3, .f32⟩ : BufTy).Contents (Elt F)) (R m c (Proc.devRef .tc main_arg37))))) := by
  have e := ref_11_v183 (A_11 m c)
  rw [A_11_eq m c in_11_v172, A_11_eq m c in_11_arg34, A_11_eq m c in_11_arg35, A_11_eq m c in_11_arg36, A_11_eq m c in_11_arg37] at e
  exact (R_of_12 m c nw_v183).trans e

/-- `v184` after piece 11, from the contents before it. -/
theorem ref_11_v184 (W : Valuation τ sig (Elt F)) :
    after (ops_11 : List (HloOp τ sig (Elt F))) W (Proc.devRef .tc main_v184)
      = ((addf : (⟨S5000x3, .f32⟩ : BufTy).Contents (Elt F) → (⟨S5000x3, .f32⟩ : BufTy).Contents (Elt F) → (⟨S5000x3, .f32⟩ : BufTy).Contents (Elt F)) (W (Proc.devRef .tc main_arg7)) ((addf : (⟨S5000x3, .f32⟩ : BufTy).Contents (Elt F) → (⟨S5000x3, .f32⟩ : BufTy).Contents (Elt F) → (⟨S5000x3, .f32⟩ : BufTy).Contents (Elt F)) (((fun l r => Host.dotGeneral dot_S5000x128_S128x3_S5000x3_1_0_0_1_n_n none l r) : (⟨S5000x128, .f32⟩ : BufTy).Contents (Elt F) → (⟨S128x3, .f32⟩ : BufTy).Contents (Elt F) → (⟨S5000x3, .f32⟩ : BufTy).Contents (Elt F)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)) (W (Proc.devRef .tc main_v172)) (W (Proc.devRef .tc main_arg34))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (W (Proc.devRef .tc main_arg35))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) (W (Proc.devRef .tc main_arg36))) ((broadcastInDim S5000x3 ![0, 1] bcast_S1x3_S5000x3_0_1 : (⟨S1x3, .f32⟩ : BufTy).Contents (Elt F) → (⟨S5000x3, .f32⟩ : BufTy).Contents (Elt F)) ((broadcastInDim S1x3 ![1] bcast_S3_S1x3_1 : (⟨S3, .f32⟩ : BufTy).Contents (Elt F) → (⟨S1x3, .f32⟩ : BufTy).Contents (Elt F)) (W (Proc.devRef .tc main_arg37)))))) := by
  after_results_simp <;> rfl

/-- The same equation on the final contents: `v184` is written once, and what it is computed from is never written again. -/
theorem fin_v184 (m : (ℓ : Loc nD τ sig) → Buf (Elt F) ℓ) (c : Dev nD) :
    R m c (Proc.devRef .tc main_v184)
      = ((addf : (⟨S5000x3, .f32⟩ : BufTy).Contents (Elt F) → (⟨S5000x3, .f32⟩ : BufTy).Contents (Elt F) → (⟨S5000x3, .f32⟩ : BufTy).Contents (Elt F)) (R m c (Proc.devRef .tc main_arg7)) ((addf : (⟨S5000x3, .f32⟩ : BufTy).Contents (Elt F) → (⟨S5000x3, .f32⟩ : BufTy).Contents (Elt F) → (⟨S5000x3, .f32⟩ : BufTy).Contents (Elt F)) (((fun l r => Host.dotGeneral dot_S5000x128_S128x3_S5000x3_1_0_0_1_n_n none l r) : (⟨S5000x128, .f32⟩ : BufTy).Contents (Elt F) → (⟨S128x3, .f32⟩ : BufTy).Contents (Elt F) → (⟨S5000x3, .f32⟩ : BufTy).Contents (Elt F)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)) (R m c (Proc.devRef .tc main_v172)) (R m c (Proc.devRef .tc main_arg34))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (R m c (Proc.devRef .tc main_arg35))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) (R m c (Proc.devRef .tc main_arg36))) ((broadcastInDim S5000x3 ![0, 1] bcast_S1x3_S5000x3_0_1 : (⟨S1x3, .f32⟩ : BufTy).Contents (Elt F) → (⟨S5000x3, .f32⟩ : BufTy).Contents (Elt F)) ((broadcastInDim S1x3 ![1] bcast_S3_S1x3_1 : (⟨S3, .f32⟩ : BufTy).Contents (Elt F) → (⟨S1x3, .f32⟩ : BufTy).Contents (Elt F)) (R m c (Proc.devRef .tc main_arg37)))))) := by
  have e := ref_11_v184 (A_11 m c)
  rw [A_11_eq m c in_11_v172, A_11_eq m c in_11_arg34, A_11_eq m c in_11_arg35, A_11_eq m c in_11_arg36, A_11_eq m c in_11_arg37, A_11_eq m c in_11_arg7] at e
  exact (R_of_12 m c nw_v184).trans e

/-! ## Piece 12 (step 0): the positions with every graph's mean position subtracted -/

/-- A buffer piece 12 does not write keeps its contents through it. -/
theorem keep_12 (W : Valuation τ sig (Elt F)) {r : Ref sig .tc} (h : r ∉ ops_12_W) :
    after (ops_12 : List (HloOp τ sig (Elt F))) W (Proc.devRef .tc r) = W (Proc.devRef .tc r) :=
  after_of_writes_sub ops_12 W ops_12_writes h
theorem in_12_arg4 : main_arg4 ∉ tailW_12 := later_12 (later_11 (later_10 (later_09 (later_08 (later_07 (later_06 (later_05 (later_04 (later_03 (later_02 (later_01 (nw_arg4))))))))))))
theorem in_12_v184 : main_v184 ∉ tailW_12 := nw_v184
theorem in_12_v9 : main_v9 ∉ tailW_12 := later_12 (later_11 (later_10 (later_09 (later_08 (later_07 (later_06 (later_05 (later_04 (later_03 (later_02 (nw_v9)))))))))))

/-- `v197` after piece 12, from the contents before it. -/
theorem ref_12_v197 (W : Valuation τ sig (Elt F)) :
    after (ops_12 : List (HloOp τ sig (Elt F))) W (Proc.devRef .tc main_v197)
      = ((subf : (⟨S5000x3, .f32⟩ : BufTy).Contents (Elt F) → (⟨S5000x3, .f32⟩ : BufTy).Contents (Elt F) → (⟨S5000x3, .f32⟩ : BufTy).Contents (Elt F)) (W (Proc.devRef .tc main_v184)) (((fun x i => Host.gather gather_S64x3_S5000x1_S5000x3_1_0_n_n_0_1_13 x i) : (⟨S64x3, .f32⟩ : BufTy).Contents (Elt F) → (⟨S5000x1, .i32⟩ : BufTy).Contents (Elt F) → (⟨S5000x3, .f32⟩ : BufTy).Contents (Elt F)) ((Host.divf : (⟨S64x3, .f32⟩ : BufTy).Contents (Elt F) → (⟨S64x3, .f32⟩ : BufTy).Contents (Elt F) → (⟨S64x3, .f32⟩ : BufTy).Contents (Elt F)) (((fun x i u => Host.scatterAdd scatter_S64x3_S5000x1_S5000x3_1_0_0_1 x i u) : (⟨S64x3, .f32⟩ : BufTy).Contents (Elt F) → (⟨S5000x1, .i32⟩ : BufTy).Contents (Elt F) → (⟨S5000x3, .f32⟩ : BufTy).Contents (Elt F) → (⟨S64x3, .f32⟩ : BufTy).Contents (Elt F)) ((broadcastInDim S64x3 ![] bcast_S_S64x3 : (⟨S_, .f32⟩ : BufTy).Contents (Elt F) → (⟨S64x3, .f32⟩ : BufTy).Contents (Elt F)) (constant S_ .f32 0x00000000#32 : (⟨S_, .f32⟩ : BufTy).Contents (Elt F))) ((broadcastInDim S5000x1 ![0] bcast_S5000_S5000x1_0 : (⟨S5000, .i32⟩ : BufTy).Contents (Elt F) → (⟨S5000x1, .i32⟩ : BufTy).Contents (Elt F)) (W (Proc.devRef .tc main_arg4))) (W (Proc.devRef .tc main_v184))) ((broadcastInDim S64x3 ![0, 1] bcast_S64x1_S64x3_0_1 : (⟨S64x1, .f32⟩ : BufTy).Contents (Elt F) → (⟨S64x3, .f32⟩ : BufTy).Contents (Elt F)) (W (Proc.devRef .tc main_v9)))) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (W (Proc.devRef .tc main_arg4)) ((broadcastInDim S5000 ![] bcast_S_S5000 : (⟨S_, .i32⟩ : BufTy).Contents (Elt F) → (⟨S5000, .i32⟩ : BufTy).Contents (Elt F)) (constantI S_ 32 0#32 : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) (W (Proc.devRef .tc main_arg4)) ((broadcastInDim S5000 ![] bcast_S_S5000 : (⟨S_, .i32⟩ : BufTy).Contents (Elt F) → (⟨S5000, .i32⟩ : BufTy).Contents (Elt F)) (constantI S_ 32 64#32 : (⟨S_, .i32⟩ : BufTy).Contents (Elt F)))) (W (Proc.devRef .tc main_arg4)))))) := by
  after_results_simp <;> rfl

/-- The same equation on the final contents: `v197` is written once, and what it is computed from is never written again. -/
theorem fin_v197 (m : (ℓ : Loc nD τ sig) → Buf (Elt F) ℓ) (c : Dev nD) :
    R m c (Proc.devRef .tc main_v197)
      = ((subf : (⟨S5000x3, .f32⟩ : BufTy).Contents (Elt F) → (⟨S5000x3, .f32⟩ : BufTy).Contents (Elt F) → (⟨S5000x3, .f32⟩ : BufTy).Contents (Elt F)) (R m c (Proc.devRef .tc main_v184)) (((fun x i => Host.gather gather_S64x3_S5000x1_S5000x3_1_0_n_n_0_1_13 x i) : (⟨S64x3, .f32⟩ : BufTy).Contents (Elt F) → (⟨S5000x1, .i32⟩ : BufTy).Contents (Elt F) → (⟨S5000x3, .f32⟩ : BufTy).Contents (Elt F)) ((Host.divf : (⟨S64x3, .f32⟩ : BufTy).Contents (Elt F) → (⟨S64x3, .f32⟩ : BufTy).Contents (Elt F) → (⟨S64x3, .f32⟩ : BufTy).Contents (Elt F)) (((fun x i u => Host.scatterAdd scatter_S64x3_S5000x1_S5000x3_1_0_0_1 x i u) : (⟨S64x3, .f32⟩ : BufTy).Contents (Elt F) → (⟨S5000x1, .i32⟩ : BufTy).Contents (Elt F) → (⟨S5000x3, .f32⟩ : BufTy).Contents (Elt F) → (⟨S64x3, .f32⟩ : BufTy).Contents (Elt F)) ((broadcastInDim S64x3 ![] bcast_S_S64x3 : (⟨S_, .f32⟩ : BufTy).Contents (Elt F) → (⟨S64x3, .f32⟩ : BufTy).Contents (Elt F)) (constant S_ .f32 0x00000000#32 : (⟨S_, .f32⟩ : BufTy).Contents (Elt F))) ((broadcastInDim S5000x1 ![0] bcast_S5000_S5000x1_0 : (⟨S5000, .i32⟩ : BufTy).Contents (Elt F) → (⟨S5000x1, .i32⟩ : BufTy).Contents (Elt F)) (R m c (Proc.devRef .tc main_arg4))) (R m c (Proc.devRef .tc main_v184))) ((broadcastInDim S64x3 ![0, 1] bcast_S64x1_S64x3_0_1 : (⟨S64x1, .f32⟩ : BufTy).Contents (Elt F) → (⟨S64x3, .f32⟩ : BufTy).Contents (Elt F)) (R m c (Proc.devRef .tc main_v9)))) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (R m c (Proc.devRef .tc main_arg4)) ((broadcastInDim S5000 ![] bcast_S_S5000 : (⟨S_, .i32⟩ : BufTy).Contents (Elt F) → (⟨S5000, .i32⟩ : BufTy).Contents (Elt F)) (constantI S_ 32 0#32 : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) (R m c (Proc.devRef .tc main_arg4)) ((broadcastInDim S5000 ![] bcast_S_S5000 : (⟨S_, .i32⟩ : BufTy).Contents (Elt F) → (⟨S5000, .i32⟩ : BufTy).Contents (Elt F)) (constantI S_ 32 64#32 : (⟨S_, .i32⟩ : BufTy).Contents (Elt F)))) (R m c (Proc.devRef .tc main_arg4)))))) := by
  have e := ref_12_v197 (A_12 m c)
  rw [A_12_eq m c in_12_arg4, A_12_eq m c in_12_v184, A_12_eq m c in_12_v9] at e
  exact (R_of_13 m c nw_v197).trans e

end Cert.ReferenceIdeal.Hand

end
-- ==== Proof.Ref.St1.lean ====
/-
  The reference's values stage by stage, in step 1. For each piece of the line (Ref/Ops.lean) and each value it computes that a later piece
  or the caller reads: `ref_JJ_b`, the buffer after the piece as the piece's operations composed over the contents before it, and
  `fin_b`, the same equation between the FINAL contents `R m c` (Ref/Run.lean) — each buffer is written once, so what a value is
  computed from still holds at the end what it held then.
-/
import proofs.«147763_j11003706212366_2_alg».proof.Proof.Ref.Kept
import proofs.«147763_j11003706212366_2_alg».proof.Proof.LibNary3

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192
set_option maxHeartbeats 1000000
set_option Elab.async false

/-! ## Piece 13 (step 1): the node features plus the two-layer embedding of the positions -/

/-- A buffer piece 13 does not write keeps its contents through it. -/
theorem keep_13 (W : Valuation τ sig (Elt F)) {r : Ref sig .tc} (h : r ∉ ops_13_W) :
    after (ops_13 : List (HloOp τ sig (Elt F))) W (Proc.devRef .tc r) = W (Proc.devRef .tc r) :=
  after_of_writes_sub ops_13 W ops_13_writes h
theorem in_13_v197 : main_v197 ∉ tailW_13 := nw_v197
theorem in_13_arg8 : main_arg8 ∉ tailW_13 := later_13 (later_12 (later_11 (later_10 (later_09 (later_08 (later_07 (later_06 (later_05 (later_04 (later_03 (later_02 (later_01 (nw_arg8)))))))))))))
theorem in_13_arg9 : main_arg9 ∉ tailW_13 := later_13 (later_12 (later_11 (later_10 (later_09 (later_08 (later_07 (later_06 (later_05 (later_04 (later_03 (later_02 (later_01 (nw_arg9)))))))))))))
theorem in_13_arg10 : main_arg10 ∉ tailW_13 := later_13 (later_12 (later_11 (later_10 (later_09 (later_08 (later_07 (later_06 (later_05 (later_04 (later_03 (later_02 (later_01 (nw_arg10)))))))))))))
theorem in_13_arg11 : main_arg11 ∉ tailW_13 := later_13 (later_12 (later_11 (later_10 (later_09 (later_08 (later_07 (later_06 (later_05 (later_04 (later_03 (later_02 (later_01 (nw_arg11)))))))))))))
theorem in_13_v172 : main_v172 ∉ tailW_13 := later_13 (later_12 (nw_v172))

/-- `v208` after piece 13, from the contents before it. -/
theorem ref_13_v208 (W : Valuation τ sig (Elt F)) :
    after (ops_13 : List (HloOp τ sig (Elt F))) W (Proc.devRef .tc main_v208)
      = ((addf : (⟨S5000x128, .f32⟩ : BufTy).Contents (Elt F) → (⟨S5000x128, .f32⟩ : BufTy).Contents (Elt F) → (⟨S5000x128, .f32⟩ : BufTy).Contents (Elt F)) (W (Proc.devRef .tc main_v172)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x3_S3x128_S5000x128_1_0_0_1_n_n none l r) : (⟨S5000x3, .f32⟩ : BufTy).Contents (Elt F) → (⟨S3x128, .f32⟩ : BufTy).Contents (Elt F) → (⟨S5000x128, .f32⟩ : BufTy).Contents (Elt F)) (W (Proc.devRef .tc main_v197)) (W (Proc.devRef .tc main_arg8))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (W (Proc.devRef .tc main_arg9))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) (W (Proc.devRef .tc main_arg10))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (W (Proc.devRef .tc main_arg11))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))))) := by
  after_results_simp <;> rfl

/-- The same equation on the final contents: `v208` is written once, and what it is computed from is never written again. -/
theorem fin_v208 (m : (ℓ : Loc nD τ sig) → Buf (Elt F) ℓ) (c : Dev nD) :
    R m c (Proc.devRef .tc main_v208)
      = ((addf : (⟨S5000x128, .f32⟩ : BufTy).Contents (Elt F) → (⟨S5000x128, .f32⟩ : BufTy).Contents (Elt F) → (⟨S5000x128, .f32⟩ : BufTy).Contents (Elt F)) (R m c (Proc.devRef .tc main_v172)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x3_S3x128_S5000x128_1_0_0_1_n_n none l r) : (⟨S5000x3, .f32⟩ : BufTy).Contents (Elt F) → (⟨S3x128, .f32⟩ : BufTy).Contents (Elt F) → (⟨S5000x128, .f32⟩ : BufTy).Contents (Elt F)) (R m c (Proc.devRef .tc main_v197)) (R m c (Proc.devRef .tc main_arg8))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (R m c (Proc.devRef .tc main_arg9))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) (R m c (Proc.devRef .tc main_arg10))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (R m c (Proc.devRef .tc main_arg11))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))))) := by
  have e := ref_13_v208 (A_13 m c)
  rw [A_13_eq m c in_13_v197, A_13_eq m c in_13_arg8, A_13_eq m c in_13_arg9, A_13_eq m c in_13_arg10, A_13_eq m c in_13_arg11, A_13_eq m c in_13_v172] at e
  exact (R_of_14 m c nw_v208).trans e

/-! ## Piece 14 (step 1): the length of every edge: the Euclidean norm of the difference of its two ends' positions -/

/-- A buffer piece 14 does not write keeps its contents through it. -/
theorem keep_14 (W : Valuation τ sig (Elt F)) {r : Ref sig .tc} (h : r ∉ ops_14_W) :
    after (ops_14 : List (HloOp τ sig (Elt F))) W (Proc.devRef .tc r) = W (Proc.devRef .tc r) :=
  after_of_writes_sub ops_14 W ops_14_writes h
theorem in_14_v1 : main_v1 ∉ tailW_14 := later_14 (later_13 (later_12 (later_11 (later_10 (later_09 (later_08 (later_07 (later_06 (later_05 (later_04 (later_03 (later_02 (nw_v1)))))))))))))
theorem in_14_v197 : main_v197 ∉ tailW_14 := later_14 (nw_v197)
theorem in_14_v3 : main_v3 ∉ tailW_14 := later_14 (later_13 (later_12 (later_11 (later_10 (later_09 (later_08 (later_07 (later_06 (later_05 (later_04 (later_03 (later_02 (nw_v3)))))))))))))

/-- `v224` after piece 14, from the contents before it. -/
theorem ref_14_v224 (W : Valuation τ sig (Elt F)) :
    after (ops_14 : List (HloOp τ sig (Elt F))) W (Proc.devRef .tc main_v224)
      = ((Host.sqrt : (⟨S80000x1, .f32⟩ : BufTy).Contents (Elt F) → (⟨S80000x1, .f32⟩ : BufTy).Contents (Elt F)) ((broadcastInDim S80000x1 ![0] bcast_S80000_S80000x1_0 : (⟨S80000, .f32⟩ : BufTy).Contents (Elt F) → (⟨S80000x1, .f32⟩ : BufTy).Contents (Elt F)) ((fun x v => Host.reduceAdd x v reducesTo_S80000x3_S80000_d1 h_S_ : (⟨S80000x3, .f32⟩ : BufTy).Contents (Elt F) → (⟨S_, .f32⟩ : BufTy).Contents (Elt F) → (⟨S80000, .f32⟩ : BufTy).Contents (Elt F)) ((mulf : (⟨S80000x3, .f32⟩ : BufTy).Contents (Elt F) → (⟨S80000x3, .f32⟩ : BufTy).Contents (Elt F) → (⟨S80000x3, .f32⟩ : BufTy).Contents (Elt F)) ((subf : (⟨S80000x3, .f32⟩ : BufTy).Contents (Elt F) → (⟨S80000x3, .f32⟩ : BufTy).Contents (Elt F) → (⟨S80000x3, .f32⟩ : BufTy).Contents (Elt F)) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (W (Proc.devRef .tc main_v197)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v1))))) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (W (Proc.devRef .tc main_v197)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v3)))))) ((subf : (⟨S80000x3, .f32⟩ : BufTy).Contents (Elt F) → (⟨S80000x3, .f32⟩ : BufTy).Contents (Elt F) → (⟨S80000x3, .f32⟩ : BufTy).Contents (Elt F)) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (W (Proc.devRef .tc main_v197)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v1))))) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (W (Proc.devRef .tc main_v197)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v3))))))) (constant S_ .f32 0x00000000#32 : (⟨S_, .f32⟩ : BufTy).Contents (Elt F))))) := by
  after_results_simp <;> rfl

/-- The same equation on the final contents: `v224` is written once, and what it is computed from is never written again. -/
theorem fin_v224 (m : (ℓ : Loc nD τ sig) → Buf (Elt F) ℓ) (c : Dev nD) :
    R m c (Proc.devRef .tc main_v224)
      = ((Host.sqrt : (⟨S80000x1, .f32⟩ : BufTy).Contents (Elt F) → (⟨S80000x1, .f32⟩ : BufTy).Contents (Elt F)) ((broadcastInDim S80000x1 ![0] bcast_S80000_S80000x1_0 : (⟨S80000, .f32⟩ : BufTy).Contents (Elt F) → (⟨S80000x1, .f32⟩ : BufTy).Contents (Elt F)) ((fun x v => Host.reduceAdd x v reducesTo_S80000x3_S80000_d1 h_S_ : (⟨S80000x3, .f32⟩ : BufTy).Contents (Elt F) → (⟨S_, .f32⟩ : BufTy).Contents (Elt F) → (⟨S80000, .f32⟩ : BufTy).Contents (Elt F)) ((mulf : (⟨S80000x3, .f32⟩ : BufTy).Contents (Elt F) → (⟨S80000x3, .f32⟩ : BufTy).Contents (Elt F) → (⟨S80000x3, .f32⟩ : BufTy).Contents (Elt F)) ((subf : (⟨S80000x3, .f32⟩ : BufTy).Contents (Elt F) → (⟨S80000x3, .f32⟩ : BufTy).Contents (Elt F) → (⟨S80000x3, .f32⟩ : BufTy).Contents (Elt F)) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (R m c (Proc.devRef .tc main_v197)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v1))))) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (R m c (Proc.devRef .tc main_v197)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v3)))))) ((subf : (⟨S80000x3, .f32⟩ : BufTy).Contents (Elt F) → (⟨S80000x3, .f32⟩ : BufTy).Contents (Elt F) → (⟨S80000x3, .f32⟩ : BufTy).Contents (Elt F)) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (R m c (Proc.devRef .tc main_v197)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v1))))) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (R m c (Proc.devRef .tc main_v197)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v3))))))) (constant S_ .f32 0x00000000#32 : (⟨S_, .f32⟩ : BufTy).Contents (Elt F))))) := by
  have e := ref_14_v224 (A_14 m c)
  rw [A_14_eq m c in_14_v1, A_14_eq m c in_14_v197, A_14_eq m c in_14_v3] at e
  exact (R_of_15 m c nw_v224).trans e

/-! ## Piece 15 (step 1): the edge features plus the two-layer embedding of the lengths -/

/-- A buffer piece 15 does not write keeps its contents through it. -/
theorem keep_15 (W : Valuation τ sig (Elt F)) {r : Ref sig .tc} (h : r ∉ ops_15_W) :
    after (ops_15 : List (HloOp τ sig (Elt F))) W (Proc.devRef .tc r) = W (Proc.devRef .tc r) :=
  after_of_writes_sub ops_15 W ops_15_writes h
theorem in_15_v224 : main_v224 ∉ tailW_15 := nw_v224
theorem in_15_arg12 : main_arg12 ∉ tailW_15 := later_15 (later_14 (later_13 (later_12 (later_11 (later_10 (later_09 (later_08 (later_07 (later_06 (later_05 (later_04 (later_03 (later_02 (later_01 (nw_arg12)))))))))))))))
theorem in_15_arg13 : main_arg13 ∉ tailW_15 := later_15 (later_14 (later_13 (later_12 (later_11 (later_10 (later_09 (later_08 (later_07 (later_06 (later_05 (later_04 (later_03 (later_02 (later_01 (nw_arg13)))))))))))))))
theorem in_15_arg14 : main_arg14 ∉ tailW_15 := later_15 (later_14 (later_13 (later_12 (later_11 (later_10 (later_09 (later_08 (later_07 (later_06 (later_05 (later_04 (later_03 (later_02 (later_01 (nw_arg14)))))))))))))))
theorem in_15_arg15 : main_arg15 ∉ tailW_15 := later_15 (later_14 (later_13 (later_12 (later_11 (later_10 (later_09 (later_08 (later_07 (later_06 (later_05 (later_04 (later_03 (later_02 (later_01 (nw_arg15)))))))))))))))
theorem in_15_v173 : main_v173 ∉ tailW_15 := later_15 (later_14 (later_13 (later_12 (nw_v173))))

/-- `v235` after piece 15, from the contents before it. -/
theorem ref_15_v235 (W : Valuation τ sig (Elt F)) :
    after (ops_15 : List (HloOp τ sig (Elt F))) W (Proc.devRef .tc main_v235)
      = ((addf : (⟨S80000x128, .f32⟩ : BufTy).Contents (Elt F) → (⟨S80000x128, .f32⟩ : BufTy).Contents (Elt F) → (⟨S80000x128, .f32⟩ : BufTy).Contents (Elt F)) (W (Proc.devRef .tc main_v173)) ((maximumf : (⟨S80000x128, .f32⟩ : BufTy).Contents (Elt F) → (⟨S80000x128, .f32⟩ : BufTy).Contents (Elt F) → (⟨S80000x128, .f32⟩ : BufTy).Contents (Elt F)) ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x128_S128x128_S80000x128_1_0_0_1_n_n none l r) : (⟨S80000x128, .f32⟩ : BufTy).Contents (Elt F) → (⟨S128x128, .f32⟩ : BufTy).Contents (Elt F) → (⟨S80000x128, .f32⟩ : BufTy).Contents (Elt F)) ((maximumf : (⟨S80000x128, .f32⟩ : BufTy).Contents (Elt F) → (⟨S80000x128, .f32⟩ : BufTy).Contents (Elt F) → (⟨S80000x128, .f32⟩ : BufTy).Contents (Elt F)) ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x1_S1x128_S80000x128_1_0_0_1_n_n none l r) : (⟨S80000x1, .f32⟩ : BufTy).Contents (Elt F) → (⟨S1x128, .f32⟩ : BufTy).Contents (Elt F) → (⟨S80000x128, .f32⟩ : BufTy).Contents (Elt F)) (W (Proc.devRef .tc main_v224)) (W (Proc.devRef .tc main_arg12))) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (W (Proc.devRef .tc main_arg13))))) ((broadcastInDim S80000x128 ![] bcast_S_S80000x128 : (⟨S_, .f32⟩ : BufTy).Contents (Elt F) → (⟨S80000x128, .f32⟩ : BufTy).Contents (Elt F)) (constant S_ .f32 0x00000000#32 : (⟨S_, .f32⟩ : BufTy).Contents (Elt F)))) (W (Proc.devRef .tc main_arg14))) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (W (Proc.devRef .tc main_arg15))))) ((broadcastInDim S80000x128 ![] bcast_S_S80000x128 : (⟨S_, .f32⟩ : BufTy).Contents (Elt F) → (⟨S80000x128, .f32⟩ : BufTy).Contents (Elt F)) (constant S_ .f32 0x00000000#32 : (⟨S_, .f32⟩ : BufTy).Contents (Elt F))))) := by
  after_results_simp <;> rfl

/-- The same equation on the final contents: `v235` is written once, and what it is computed from is never written again. -/
theorem fin_v235 (m : (ℓ : Loc nD τ sig) → Buf (Elt F) ℓ) (c : Dev nD) :
    R m c (Proc.devRef .tc main_v235)
      = ((addf : (⟨S80000x128, .f32⟩ : BufTy).Contents (Elt F) → (⟨S80000x128, .f32⟩ : BufTy).Contents (Elt F) → (⟨S80000x128, .f32⟩ : BufTy).Contents (Elt F)) (R m c (Proc.devRef .tc main_v173)) ((maximumf : (⟨S80000x128, .f32⟩ : BufTy).Contents (Elt F) → (⟨S80000x128, .f32⟩ : BufTy).Contents (Elt F) → (⟨S80000x128, .f32⟩ : BufTy).Contents (Elt F)) ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x128_S128x128_S80000x128_1_0_0_1_n_n none l r) : (⟨S80000x128, .f32⟩ : BufTy).Contents (Elt F) → (⟨S128x128, .f32⟩ : BufTy).Contents (Elt F) → (⟨S80000x128, .f32⟩ : BufTy).Contents (Elt F)) ((maximumf : (⟨S80000x128, .f32⟩ : BufTy).Contents (Elt F) → (⟨S80000x128, .f32⟩ : BufTy).Contents (Elt F) → (⟨S80000x128, .f32⟩ : BufTy).Contents (Elt F)) ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x1_S1x128_S80000x128_1_0_0_1_n_n none l r) : (⟨S80000x1, .f32⟩ : BufTy).Contents (Elt F) → (⟨S1x128, .f32⟩ : BufTy).Contents (Elt F) → (⟨S80000x128, .f32⟩ : BufTy).Contents (Elt F)) (R m c (Proc.devRef .tc main_v224)) (R m c (Proc.devRef .tc main_arg12))) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (R m c (Proc.devRef .tc main_arg13))))) ((broadcastInDim S80000x128 ![] bcast_S_S80000x128 : (⟨S_, .f32⟩ : BufTy).Contents (Elt F) → (⟨S80000x128, .f32⟩ : BufTy).Contents (Elt F)) (constant S_ .f32 0x00000000#32 : (⟨S_, .f32⟩ : BufTy).Contents (Elt F)))) (R m c (Proc.devRef .tc main_arg14))) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (R m c (Proc.devRef .tc main_arg15))))) ((broadcastInDim S80000x128 ![] bcast_S_S80000x128 : (⟨S_, .f32⟩ : BufTy).Contents (Elt F) → (⟨S80000x128, .f32⟩ : BufTy).Contents (Elt F)) (constant S_ .f32 0x00000000#32 : (⟨S_, .f32⟩ : BufTy).Contents (Elt F))))) := by
  have e := ref_15_v235 (A_15 m c)
  rw [A_15_eq m c in_15_v224, A_15_eq m c in_15_arg12, A_15_eq m c in_15_arg13, A_15_eq m c in_15_arg14, A_15_eq m c in_15_arg15, A_15_eq m c in_15_v173] at e
  exact (R_of_16 m c nw_v235).trans e

/-! ## Piece 16 (step 1): per edge, the embedded features of its source and of its destination, its own, and its graph's global row, side by side -/

/-- A buffer piece 16 does not write keeps its contents through it. -/
theorem keep_16 (W : Valuation τ sig (Elt F)) {r : Ref sig .tc} (h : r ∉ ops_16_W) :
    after (ops_16 : List (HloOp τ sig (Elt F))) W (Proc.devRef .tc r) = W (Proc.devRef .tc r) :=
  after_of_writes_sub ops_16 W ops_16_writes h
theorem in_16_v1 : main_v1 ∉ tailW_16 := later_16 (later_15 (later_14 (later_13 (later_12 (later_11 (later_10 (later_09 (later_08 (later_07 (later_06 (later_05 (later_04 (later_03 (later_02 (nw_v1)))))))))))))))
theorem in_16_v208 : main_v208 ∉ tailW_16 := later_16 (later_15 (nw_v208))
theorem in_16_v3 : main_v3 ∉ tailW_16 := later_16 (later_15 (later_14 (later_13 (later_12 (later_11 (later_10 (later_09 (later_08 (later_07 (later_06 (later_05 (later_04 (later_03 (later_02 (nw_v3)))))))))))))))
theorem in_16_arg5 : main_arg5 ∉ tailW_16 := later_16 (later_15 (later_14 (later_13 (later_12 (later_11 (later_10 (later_09 (later_08 (later_07 (later_06 (later_05 (later_04 (later_03 (later_02 (later_01 (nw_arg5))))))))))))))))
theorem in_16_v174 : main_v174 ∉ tailW_16 := later_16 (later_15 (later_14 (later_13 (later_12 (nw_v174)))))
theorem in_16_v235 : main_v235 ∉ tailW_16 := nw_v235

/-- `v242` after piece 16, from the contents before it. -/
theorem ref_16_v242 (W : Valuation τ sig (Elt F)) :
    after (ops_16 : List (HloOp τ sig (Elt F))) W (Proc.devRef .tc main_v242)
      = (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (W (Proc.devRef .tc main_v208)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v1))))) := by
  after_results_simp <;> rfl

/-- The same equation on the final contents: `v242` is written once, and what it is computed from is never written again. -/
theorem fin_v242 (m : (ℓ : Loc nD τ sig) → Buf (Elt F) ℓ) (c : Dev nD) :
    R m c (Proc.devRef .tc main_v242)
      = (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (R m c (Proc.devRef .tc main_v208)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v1))))) := by
  have e := ref_16_v242 (A_16 m c)
  rw [A_16_eq m c in_16_v1, A_16_eq m c in_16_v208] at e
  exact (R_of_17 m c nw_v242).trans e

/-- `v249` after piece 16, from the contents before it. -/
theorem ref_16_v249 (W : Valuation τ sig (Elt F)) :
    after (ops_16 : List (HloOp τ sig (Elt F))) W (Proc.devRef .tc main_v249)
      = (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (W (Proc.devRef .tc main_v208)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v3))))) := by
  after_results_simp <;> rfl

/-- The same equation on the final contents: `v249` is written once, and what it is computed from is never written again. -/
theorem fin_v249 (m : (ℓ : Loc nD τ sig) → Buf (Elt F) ℓ) (c : Dev nD) :
    R m c (Proc.devRef .tc main_v249)
      = (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (R m c (Proc.devRef .tc main_v208)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v3))))) := by
  have e := ref_16_v249 (A_16 m c)
  rw [A_16_eq m c in_16_v208, A_16_eq m c in_16_v3] at e
  exact (R_of_17 m c nw_v249).trans e

/-- `v256` after piece 16, from the contents before it. -/
theorem ref_16_v256 (W : Valuation τ sig (Elt F)) :
    after (ops_16 : List (HloOp τ sig (Elt F))) W (Proc.devRef .tc main_v256)
      = (((fun x i => Host.gather gather_S64x128_S80000x1_S80000x128_1_0_n_n_0_1_1128 x i) : (⟨S64x128, .f32⟩ : BufTy).Contents (Elt F) → (⟨S80000x1, .i32⟩ : BufTy).Contents (Elt F) → (⟨S80000x128, .f32⟩ : BufTy).Contents (Elt F)) (W (Proc.devRef .tc main_v174)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_arg5)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_arg5)) ((broadcastInDim S80000 ![] bcast_S_S80000 : (⟨S_, .i32⟩ : BufTy).Contents (Elt F) → (⟨S80000, .i32⟩ : BufTy).Contents (Elt F)) (constantI S_ 32 64#32 : (⟨S_, .i32⟩ : BufTy).Contents (Elt F)))) (W (Proc.devRef .tc main_arg5))))) := by
  after_results_simp <;> rfl

/-- The same equation on the final contents: `v256` is written once, and what it is computed from is never written again. -/
theorem fin_v256 (m : (ℓ : Loc nD τ sig) → Buf (Elt F) ℓ) (c : Dev nD) :
    R m c (Proc.devRef .tc main_v256)
      = (((fun x i => Host.gather gather_S64x128_S80000x1_S80000x128_1_0_n_n_0_1_1128 x i) : (⟨S64x128, .f32⟩ : BufTy).Contents (Elt F) → (⟨S80000x1, .i32⟩ : BufTy).Contents (Elt F) → (⟨S80000x128, .f32⟩ : BufTy).Contents (Elt F)) (R m c (Proc.devRef .tc main_v174)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_arg5)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_arg5)) ((broadcastInDim S80000 ![] bcast_S_S80000 : (⟨S_, .i32⟩ : BufTy).Contents (Elt F) → (⟨S80000, .i32⟩ : BufTy).Contents (Elt F)) (constantI S_ 32 64#32 : (⟨S_, .i32⟩ : BufTy).Contents (Elt F)))) (R m c (Proc.devRef .tc main_arg5))))) := by
  have e := ref_16_v256 (A_16 m c)
  rw [A_16_eq m c in_16_arg5, A_16_eq m c in_16_v174] at e
  exact (R_of_17 m c nw_v256).trans e

/-- `v257` after piece 16, from the contents before it. -/
theorem ref_16_v257 (W : Valuation τ sig (Elt F)) :
    after (ops_16 : List (HloOp τ sig (Elt F))) W (Proc.devRef .tc main_v257)
      = (concatenate S80000x512 1 [⟨S80000x128, (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (W (Proc.devRef .tc main_v208)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v1)))))⟩, ⟨S80000x128, (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (W (Proc.devRef .tc main_v208)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v3)))))⟩, ⟨S80000x128, (W (Proc.devRef .tc main_v235))⟩, ⟨S80000x128, (((fun x i => Host.gather gather_S64x128_S80000x1_S80000x128_1_0_n_n_0_1_1128 x i) : (⟨S64x128, .f32⟩ : BufTy).Contents (Elt F) → (⟨S80000x1, .i32⟩ : BufTy).Contents (Elt F) → (⟨S80000x128, .f32⟩ : BufTy).Contents (Elt F)) (W (Proc.devRef .tc main_v174)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_arg5)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_arg5)) ((broadcastInDim S80000 ![] bcast_S_S80000 : (⟨S_, .i32⟩ : BufTy).Contents (Elt F) → (⟨S80000, .i32⟩ : BufTy).Contents (Elt F)) (constantI S_ 32 64#32 : (⟨S_, .i32⟩ : BufTy).Contents (Elt F)))) (W (Proc.devRef .tc main_arg5)))))⟩] concatenates_S80000x128_S80000x128_S80000x128_S80000x128_S80000x512_d1 : (⟨S80000x512, .f32⟩ : BufTy).Contents (Elt F)) := by
  after_results_simp <;> rfl

/-- The same equation on the final contents: `v257` is written once, and what it is computed from is never written again. -/
theorem fin_v257 (m : (ℓ : Loc nD τ sig) → Buf (Elt F) ℓ) (c : Dev nD) :
    R m c (Proc.devRef .tc main_v257)
      = (concatenate S80000x512 1 [⟨S80000x128, (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (R m c (Proc.devRef .tc main_v208)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v1)))))⟩, ⟨S80000x128, (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (R m c (Proc.devRef .tc main_v208)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v3)))))⟩, ⟨S80000x128, (R m c (Proc.devRef .tc main_v235))⟩, ⟨S80000x128, (((fun x i => Host.gather gather_S64x128_S80000x1_S80000x128_1_0_n_n_0_1_1128 x i) : (⟨S64x128, .f32⟩ : BufTy).Contents (Elt F) → (⟨S80000x1, .i32⟩ : BufTy).Contents (Elt F) → (⟨S80000x128, .f32⟩ : BufTy).Contents (Elt F)) (R m c (Proc.devRef .tc main_v174)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_arg5)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_arg5)) ((broadcastInDim S80000 ![] bcast_S_S80000 : (⟨S_, .i32⟩ : BufTy).Contents (Elt F) → (⟨S80000, .i32⟩ : BufTy).Contents (Elt F)) (constantI S_ 32 64#32 : (⟨S_, .i32⟩ : BufTy).Contents (Elt F)))) (R m c (Proc.devRef .tc main_arg5)))))⟩] concatenates_S80000x128_S80000x128_S80000x128_S80000x128_S80000x512_d1 : (⟨S80000x512, .f32⟩ : BufTy).Contents (Elt F)) := by
  have e := ref_16_v257 (A_16 m c)
  rw [A_16_eq m c in_16_v1, A_16_eq m c in_16_v208, A_16_eq m c in_16_v3, A_16_eq m c in_16_arg5, A_16_eq m c in_16_v174, A_16_eq m c in_16_v235] at e
  exact (R_of_17 m c nw_v257).trans e

/-! ## Piece 17 (step 1): the three-layer edge network on those rows -/

/-- A buffer piece 17 does not write keeps its contents through it. -/
theorem keep_17 (W : Valuation τ sig (Elt F)) {r : Ref sig .tc} (h : r ∉ ops_17_W) :
    after (ops_17 : List (HloOp τ sig (Elt F))) W (Proc.devRef .tc r) = W (Proc.devRef .tc r) :=
  after_of_writes_sub ops_17 W ops_17_writes h
theorem in_17_arg16 : main_arg16 ∉ tailW_17 := later_17 (later_16 (later_15 (later_14 (later_13 (later_12 (later_11 (later_10 (later_09 (later_08 (later_07 (later_06 (later_05 (later_04 (later_03 (later_02 (later_01 (nw_arg16)))))))))))))))))
theorem in_17_arg18 : main_arg18 ∉ tailW_17 := later_17 (later_16 (later_15 (later_14 (later_13 (later_12 (later_11 (later_10 (later_09 (later_08 (later_07 (later_06 (later_05 (later_04 (later_03 (later_02 (later_01 (nw_arg18)))))))))))))))))
theorem in_17_arg20 : main_arg20 ∉ tailW_17 := later_17 (later_16 (later_15 (later_14 (later_13 (later_12 (later_11 (later_10 (later_09 (later_08 (later_07 (later_06 (later_05 (later_04 (later_03 (later_02 (later_01 (nw_arg20)))))))))))))))))
theorem in_17_arg17 : main_arg17 ∉ tailW_17 := later_17 (later_16 (later_15 (later_14 (later_13 (later_12 (later_11 (later_10 (later_09 (later_08 (later_07 (later_06 (later_05 (later_04 (later_03 (later_02 (later_01 (nw_arg17)))))))))))))))))
theorem in_17_arg19 : main_arg19 ∉ tailW_17 := later_17 (later_16 (later_15 (later_14 (later_13 (later_12 (later_11 (later_10 (later_09 (later_08 (later_07 (later_06 (later_05 (later_04 (later_03 (later_02 (later_01 (nw_arg19)))))))))))))))))
theorem in_17_arg21 : main_arg21 ∉ tailW_17 := later_17 (later_16 (later_15 (later_14 (later_13 (later_12 (later_11 (later_10 (later_09 (later_08 (later_07 (later_06 (later_05 (later_04 (later_03 (later_02 (later_01 (nw_arg21)))))))))))))))))
theorem in_17_v257 : main_v257 ∉ tailW_17 := nw_v257

/-- `v284` after piece 17, from the contents before it. -/
theorem ref_17_v284 (W : Valuation τ sig (Elt F)) :
    after (ops_17 : List (HloOp τ sig (Elt F))) W (Proc.devRef .tc main_v284)
      = ((maximumf : (⟨S80000x128, .f32⟩ : BufTy).Contents (Elt F) → (⟨S80000x128, .f32⟩ : BufTy).Contents (Elt F) → (⟨S80000x128, .f32⟩ : BufTy).Contents (Elt F)) ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x512_S512x128_S80000x128_1_0_0_1_n_n none l r) : (⟨S80000x512, .f32⟩ : BufTy).Contents (Elt F) → (⟨S512x128, .f32⟩ : BufTy).Contents (Elt F) → (⟨S80000x128, .f32⟩ : BufTy).Contents (Elt F)) ((maximumf : (⟨S80000x512, .f32⟩ : BufTy).Contents (Elt F) → (⟨S80000x512, .f32⟩ : BufTy).Contents (Elt F) → (⟨S80000x512, .f32⟩ : BufTy).Contents (Elt F)) ((addf : (⟨S80000x512, .f32⟩ : BufTy).Contents (Elt F) → (⟨S80000x512, .f32⟩ : BufTy).Contents (Elt F) → (⟨S80000x512, .f32⟩ : BufTy).Contents (Elt F)) (((fun l r => Host.dotGeneral dot_S80000x512_S512x512_S80000x512_1_0_0_1_n_n none l r) : (⟨S80000x512, .f32⟩ : BufTy).Contents (Elt F) → (⟨S512x512, .f32⟩ : BufTy).Contents (Elt F) → (⟨S80000x512, .f32⟩ : BufTy).Contents (Elt F)) ((maximumf : (⟨S80000x512, .f32⟩ : BufTy).Contents (Elt F) → (⟨S80000x512, .f32⟩ : BufTy).Contents (Elt F) → (⟨S80000x512, .f32⟩ : BufTy).Contents (Elt F)) ((addf : (⟨S80000x512, .f32⟩ : BufTy).Contents (Elt F) → (⟨S80000x512, .f32⟩ : BufTy).Contents (Elt F) → (⟨S80000x512, .f32⟩ : BufTy).Contents (Elt F)) (((fun l r => Host.dotGeneral dot_S80000x512_S512x512_S80000x512_1_0_0_1_n_n none l r) : (⟨S80000x512, .f32⟩ : BufTy).Contents (Elt F) → (⟨S512x512, .f32⟩ : BufTy).Contents (Elt F) → (⟨S80000x512, .f32⟩ : BufTy).Contents (Elt F)) (W (Proc.devRef .tc main_v257)) (shapeCast S512x512 (((extractStridedSlice S1x512x512 ![1, 0, 0] · slices_S3x512x512_S1x512x512_1_0_0) : (⟨S3x512x512, .f32⟩ : BufTy).Contents (Elt F) → (⟨S1x512x512, .f32⟩ : BufTy).Contents (Elt F)) (W (Proc.devRef .tc main_arg16))) shapeCasts_S1x512x512_S512x512 : (⟨S512x512, .f32⟩ : BufTy).Contents (Elt F))) ((broadcastInDim S80000x512 ![0, 1] bcast_S1x512_S80000x512_0_1 : (⟨S1x512, .f32⟩ : BufTy).Contents (Elt F) → (⟨S80000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![1, 0] · slices_S3x512_S1x512_1_0) : (⟨S3x512, .f32⟩ : BufTy).Contents (Elt F) → (⟨S1x512, .f32⟩ : BufTy).Contents (Elt F)) (W (Proc.devRef .tc main_arg17))) shapeCasts_S1x512_S512 : (⟨S512, .f32⟩ : BufTy).Contents (Elt F))))) ((broadcastInDim S80000x512 ![] bcast_S_S80000x512 : (⟨S_, .f32⟩ : BufTy).Contents (Elt F) → (⟨S80000x512, .f32⟩ : BufTy).Contents (Elt F)) (constant S_ .f32 0x00000000#32 : (⟨S_, .f32⟩ : BufTy).Contents (Elt F)))) (shapeCast S512x512 (((extractStridedSlice S1x512x512 ![1, 0, 0] · slices_S3x512x512_S1x512x512_1_0_0) : (⟨S3x512x512, .f32⟩ : BufTy).Contents (Elt F) → (⟨S1x512x512, .f32⟩ : BufTy).Contents (Elt F)) (W (Proc.devRef .tc main_arg18))) shapeCasts_S1x512x512_S512x512 : (⟨S512x512, .f32⟩ : BufTy).Contents (Elt F))) ((broadcastInDim S80000x512 ![0, 1] bcast_S1x512_S80000x512_0_1 : (⟨S1x512, .f32⟩ : BufTy).Contents (Elt F) → (⟨S80000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![1, 0] · slices_S3x512_S1x512_1_0) : (⟨S3x512, .f32⟩ : BufTy).Contents (Elt F) → (⟨S1x512, .f32⟩ : BufTy).Contents (Elt F)) (W (Proc.devRef .tc main_arg19))) shapeCasts_S1x512_S512 : (⟨S512, .f32⟩ : BufTy).Contents (Elt F))))) ((broadcastInDim S80000x512 ![] bcast_S_S80000x512 : (⟨S_, .f32⟩ : BufTy).Contents (Elt F) → (⟨S80000x512, .f32⟩ : BufTy).Contents (Elt F)) (constant S_ .f32 0x00000000#32 : (⟨S_, .f32⟩ : BufTy).Contents (Elt F)))) (shapeCast S512x128 (((extractStridedSlice S1x512x128 ![1, 0, 0] · slices_S3x512x128_S1x512x128_1_0_0) : (⟨S3x512x128, .f32⟩ : BufTy).Contents (Elt F) → (⟨S1x512x128, .f32⟩ : BufTy).Contents (Elt F)) (W (Proc.devRef .tc main_arg20))) shapeCasts_S1x512x128_S512x128 : (⟨S512x128, .f32⟩ : BufTy).Contents (Elt F))) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![1, 0] · slices_S3x128_S1x128_1_0) : (⟨S3x128, .f32⟩ : BufTy).Contents (Elt F) → (⟨S1x128, .f32⟩ : BufTy).Contents (Elt F)) (W (Proc.devRef .tc main_arg21))) shapeCasts_S1x128_S128 : (⟨S128, .f32⟩ : BufTy).Contents (Elt F))))) ((broadcastInDim S80000x128 ![] bcast_S_S80000x128 : (⟨S_, .f32⟩ : BufTy).Contents (Elt F) → (⟨S80000x128, .f32⟩ : BufTy).Contents (Elt F)) (constant S_ .f32 0x00000000#32 : (⟨S_, .f32⟩ : BufTy).Contents (Elt F)))) := by
  after_results_simp <;> rfl

/-- The same equation on the final contents: `v284` is written once, and what it is computed from is never written again. -/
theorem fin_v284 (m : (ℓ : Loc nD τ sig) → Buf (Elt F) ℓ) (c : Dev nD) :
    R m c (Proc.devRef .tc main_v284)
      = ((maximumf : (⟨S80000x128, .f32⟩ : BufTy).Contents (Elt F) → (⟨S80000x128, .f32⟩ : BufTy).Contents (Elt F) → (⟨S80000x128, .f32⟩ : BufTy).Contents (Elt F)) ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x512_S512x128_S80000x128_1_0_0_1_n_n none l r) : (⟨S80000x512, .f32⟩ : BufTy).Contents (Elt F) → (⟨S512x128, .f32⟩ : BufTy).Contents (Elt F) → (⟨S80000x128, .f32⟩ : BufTy).Contents (Elt F)) ((maximumf : (⟨S80000x512, .f32⟩ : BufTy).Contents (Elt F) → (⟨S80000x512, .f32⟩ : BufTy).Contents (Elt F) → (⟨S80000x512, .f32⟩ : BufTy).Contents (Elt F)) ((addf : (⟨S80000x512, .f32⟩ : BufTy).Contents (Elt F) → (⟨S80000x512, .f32⟩ : BufTy).Contents (Elt F) → (⟨S80000x512, .f32⟩ : BufTy).Contents (Elt F)) (((fun l r => Host.dotGeneral dot_S80000x512_S512x512_S80000x512_1_0_0_1_n_n none l r) : (⟨S80000x512, .f32⟩ : BufTy).Contents (Elt F) → (⟨S512x512, .f32⟩ : BufTy).Contents (Elt F) → (⟨S80000x512, .f32⟩ : BufTy).Contents (Elt F)) ((maximumf : (⟨S80000x512, .f32⟩ : BufTy).Contents (Elt F) → (⟨S80000x512, .f32⟩ : BufTy).Contents (Elt F) → (⟨S80000x512, .f32⟩ : BufTy).Contents (Elt F)) ((addf : (⟨S80000x512, .f32⟩ : BufTy).Contents (Elt F) → (⟨S80000x512, .f32⟩ : BufTy).Contents (Elt F) → (⟨S80000x512, .f32⟩ : BufTy).Contents (Elt F)) (((fun l r => Host.dotGeneral dot_S80000x512_S512x512_S80000x512_1_0_0_1_n_n none l r) : (⟨S80000x512, .f32⟩ : BufTy).Contents (Elt F) → (⟨S512x512, .f32⟩ : BufTy).Contents (Elt F) → (⟨S80000x512, .f32⟩ : BufTy).Contents (Elt F)) (R m c (Proc.devRef .tc main_v257)) (shapeCast S512x512 (((extractStridedSlice S1x512x512 ![1, 0, 0] · slices_S3x512x512_S1x512x512_1_0_0) : (⟨S3x512x512, .f32⟩ : BufTy).Contents (Elt F) → (⟨S1x512x512, .f32⟩ : BufTy).Contents (Elt F)) (R m c (Proc.devRef .tc main_arg16))) shapeCasts_S1x512x512_S512x512 : (⟨S512x512, .f32⟩ : BufTy).Contents (Elt F))) ((broadcastInDim S80000x512 ![0, 1] bcast_S1x512_S80000x512_0_1 : (⟨S1x512, .f32⟩ : BufTy).Contents (Elt F) → (⟨S80000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![1, 0] · slices_S3x512_S1x512_1_0) : (⟨S3x512, .f32⟩ : BufTy).Contents (Elt F) → (⟨S1x512, .f32⟩ : BufTy).Contents (Elt F)) (R m c (Proc.devRef .tc main_arg17))) shapeCasts_S1x512_S512 : (⟨S512, .f32⟩ : BufTy).Contents (Elt F))))) ((broadcastInDim S80000x512 ![] bcast_S_S80000x512 : (⟨S_, .f32⟩ : BufTy).Contents (Elt F) → (⟨S80000x512, .f32⟩ : BufTy).Contents (Elt F)) (constant S_ .f32 0x00000000#32 : (⟨S_, .f32⟩ : BufTy).Contents (Elt F)))) (shapeCast S512x512 (((extractStridedSlice S1x512x512 ![1, 0, 0] · slices_S3x512x512_S1x512x512_1_0_0) : (⟨S3x512x512, .f32⟩ : BufTy).Contents (Elt F) → (⟨S1x512x512, .f32⟩ : BufTy).Contents (Elt F)) (R m c (Proc.devRef .tc main_arg18))) shapeCasts_S1x512x512_S512x512 : (⟨S512x512, .f32⟩ : BufTy).Contents (Elt F))) ((broadcastInDim S80000x512 ![0, 1] bcast_S1x512_S80000x512_0_1 : (⟨S1x512, .f32⟩ : BufTy).Contents (Elt F) → (⟨S80000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![1, 0] · slices_S3x512_S1x512_1_0) : (⟨S3x512, .f32⟩ : BufTy).Contents (Elt F) → (⟨S1x512, .f32⟩ : BufTy).Contents (Elt F)) (R m c (Proc.devRef .tc main_arg19))) shapeCasts_S1x512_S512 : (⟨S512, .f32⟩ : BufTy).Contents (Elt F))))) ((broadcastInDim S80000x512 ![] bcast_S_S80000x512 : (⟨S_, .f32⟩ : BufTy).Contents (Elt F) → (⟨S80000x512, .f32⟩ : BufTy).Contents (Elt F)) (constant S_ .f32 0x00000000#32 : (⟨S_, .f32⟩ : BufTy).Contents (Elt F)))) (shapeCast S512x128 (((extractStridedSlice S1x512x128 ![1, 0, 0] · slices_S3x512x128_S1x512x128_1_0_0) : (⟨S3x512x128, .f32⟩ : BufTy).Contents (Elt F) → (⟨S1x512x128, .f32⟩ : BufTy).Contents (Elt F)) (R m c (Proc.devRef .tc main_arg20))) shapeCasts_S1x512x128_S512x128 : (⟨S512x128, .f32⟩ : BufTy).Contents (Elt F))) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![1, 0] · slices_S3x128_S1x128_1_0) : (⟨S3x128, .f32⟩ : BufTy).Contents (Elt F) → (⟨S1x128, .f32⟩ : BufTy).Contents (Elt F)) (R m c (Proc.devRef .tc main_arg21))) shapeCasts_S1x128_S128 : (⟨S128, .f32⟩ : BufTy).Contents (Elt F))))) ((broadcastInDim S80000x128 ![] bcast_S_S80000x128 : (⟨S_, .f32⟩ : BufTy).Contents (Elt F) → (⟨S80000x128, .f32⟩ : BufTy).Contents (Elt F)) (constant S_ .f32 0x00000000#32 : (⟨S_, .f32⟩ : BufTy).Contents (Elt F)))) := by
  have e := ref_17_v284 (A_17 m c)
  rw [A_17_eq m c in_17_arg16, A_17_eq m c in_17_arg18, A_17_eq m c in_17_arg20, A_17_eq m c in_17_arg17, A_17_eq m c in_17_arg19, A_17_eq m c in_17_arg21, A_17_eq m c in_17_v257] at e
  exact (R_of_18 m c nw_v284).trans e

/-! ## Piece 18 (step 1): per node, its embedded features, the sum of the new edge rows leaving it, the sum of those entering it, and its graph's global row, side by side -/

/-- A buffer piece 18 does not write keeps its contents through it. -/
theorem keep_18 (W : Valuation τ sig (Elt F)) {r : Ref sig .tc} (h : r ∉ ops_18_W) :
    after (ops_18 : List (HloOp τ sig (Elt F))) W (Proc.devRef .tc r) = W (Proc.devRef .tc r) :=
  after_of_writes_sub ops_18 W ops_18_writes h
theorem in_18_v1 : main_v1 ∉ tailW_18 := later_18 (later_17 (later_16 (later_15 (later_14 (later_13 (later_12 (later_11 (later_10 (later_09 (later_08 (later_07 (later_06 (later_05 (later_04 (later_03 (later_02 (nw_v1)))))))))))))))))
theorem in_18_v284 : main_v284 ∉ tailW_18 := nw_v284
theorem in_18_v3 : main_v3 ∉ tailW_18 := later_18 (later_17 (later_16 (later_15 (later_14 (later_13 (later_12 (later_11 (later_10 (later_09 (later_08 (later_07 (later_06 (later_05 (later_04 (later_03 (later_02 (nw_v3)))))))))))))))))
theorem in_18_arg4 : main_arg4 ∉ tailW_18 := later_18 (later_17 (later_16 (later_15 (later_14 (later_13 (later_12 (later_11 (later_10 (later_09 (later_08 (later_07 (later_06 (later_05 (later_04 (later_03 (later_02 (later_01 (nw_arg4))))))))))))))))))
theorem in_18_v174 : main_v174 ∉ tailW_18 := later_18 (later_17 (later_16 (later_15 (later_14 (later_13 (later_12 (nw_v174)))))))
theorem in_18_v208 : main_v208 ∉ tailW_18 := later_18 (later_17 (later_16 (later_15 (nw_v208))))

/-- `v287` after piece 18, from the contents before it. -/
theorem ref_18_v287 (W : Valuation τ sig (Elt F)) :
    after (ops_18 : List (HloOp τ sig (Elt F))) W (Proc.devRef .tc main_v287)
      = (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (W (Proc.devRef .tc main_v1))) (W (Proc.devRef .tc main_v284))) := by
  after_results_simp <;> rfl

/-- The same equation on the final contents: `v287` is written once, and what it is computed from is never written again. -/
theorem fin_v287 (m : (ℓ : Loc nD τ sig) → Buf (Elt F) ℓ) (c : Dev nD) :
    R m c (Proc.devRef .tc main_v287)
      = (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (R m c (Proc.devRef .tc main_v1))) (R m c (Proc.devRef .tc main_v284))) := by
  have e := ref_18_v287 (A_18 m c)
  rw [A_18_eq m c in_18_v1, A_18_eq m c in_18_v284] at e
  exact (R_of_19 m c nw_v287).trans e

/-- `v290` after piece 18, from the contents before it. -/
theorem ref_18_v290 (W : Valuation τ sig (Elt F)) :
    after (ops_18 : List (HloOp τ sig (Elt F))) W (Proc.devRef .tc main_v290)
      = (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (W (Proc.devRef .tc main_v3))) (W (Proc.devRef .tc main_v284))) := by
  after_results_simp <;> rfl

/-- The same equation on the final contents: `v290` is written once, and what it is computed from is never written again. -/
theorem fin_v290 (m : (ℓ : Loc nD τ sig) → Buf (Elt F) ℓ) (c : Dev nD) :
    R m c (Proc.devRef .tc main_v290)
      = (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (R m c (Proc.devRef .tc main_v3))) (R m c (Proc.devRef .tc main_v284))) := by
  have e := ref_18_v290 (A_18 m c)
  rw [A_18_eq m c in_18_v284, A_18_eq m c in_18_v3] at e
  exact (R_of_19 m c nw_v290).trans e

/-- `v297` after piece 18, from the contents before it. -/
theorem ref_18_v297 (W : Valuation τ sig (Elt F)) :
    after (ops_18 : List (HloOp τ sig (Elt F))) W (Proc.devRef .tc main_v297)
      = (((fun x i => Host.gather gather_S64x128_S5000x1_S5000x128_1_0_n_n_0_1_1128 x i) : (⟨S64x128, .f32⟩ : BufTy).Contents (Elt F) → (⟨S5000x1, .i32⟩ : BufTy).Contents (Elt F) → (⟨S5000x128, .f32⟩ : BufTy).Contents (Elt F)) (W (Proc.devRef .tc main_v174)) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (W (Proc.devRef .tc main_arg4)) ((broadcastInDim S5000 ![] bcast_S_S5000 : (⟨S_, .i32⟩ : BufTy).Contents (Elt F) → (⟨S5000, .i32⟩ : BufTy).Contents (Elt F)) (constantI S_ 32 0#32 : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) (W (Proc.devRef .tc main_arg4)) ((broadcastInDim S5000 ![] bcast_S_S5000 : (⟨S_, .i32⟩ : BufTy).Contents (Elt F) → (⟨S5000, .i32⟩ : BufTy).Contents (Elt F)) (constantI S_ 32 64#32 : (⟨S_, .i32⟩ : BufTy).Contents (Elt F)))) (W (Proc.devRef .tc main_arg4))))) := by
  after_results_simp <;> rfl

/-- The same equation on the final contents: `v297` is written once, and what it is computed from is never written again. -/
theorem fin_v297 (m : (ℓ : Loc nD τ sig) → Buf (Elt F) ℓ) (c : Dev nD) :
    R m c (Proc.devRef .tc main_v297)
      = (((fun x i => Host.gather gather_S64x128_S5000x1_S5000x128_1_0_n_n_0_1_1128 x i) : (⟨S64x128, .f32⟩ : BufTy).Contents (Elt F) → (⟨S5000x1, .i32⟩ : BufTy).Contents (Elt F) → (⟨S5000x128, .f32⟩ : BufTy).Contents (Elt F)) (R m c (Proc.devRef .tc main_v174)) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (R m c (Proc.devRef .tc main_arg4)) ((broadcastInDim S5000 ![] bcast_S_S5000 : (⟨S_, .i32⟩ : BufTy).Contents (Elt F) → (⟨S5000, .i32⟩ : BufTy).Contents (Elt F)) (constantI S_ 32 0#32 : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) (R m c (Proc.devRef .tc main_arg4)) ((broadcastInDim S5000 ![] bcast_S_S5000 : (⟨S_, .i32⟩ : BufTy).Contents (Elt F) → (⟨S5000, .i32⟩ : BufTy).Contents (Elt F)) (constantI S_ 32 64#32 : (⟨S_, .i32⟩ : BufTy).Contents (Elt F)))) (R m c (Proc.devRef .tc main_arg4))))) := by
  have e := ref_18_v297 (A_18 m c)
  rw [A_18_eq m c in_18_arg4, A_18_eq m c in_18_v174] at e
  exact (R_of_19 m c nw_v297).trans e

/-- `v298` after piece 18, from the contents before it. -/
theorem ref_18_v298 (W : Valuation τ sig (Elt F)) :
    after (ops_18 : List (HloOp τ sig (Elt F))) W (Proc.devRef .tc main_v298)
      = (concatenate S5000x512 1 [⟨S5000x128, (W (Proc.devRef .tc main_v208))⟩, ⟨S5000x128, (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (W (Proc.devRef .tc main_v1))) (W (Proc.devRef .tc main_v284)))⟩, ⟨S5000x128, (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (W (Proc.devRef .tc main_v3))) (W (Proc.devRef .tc main_v284)))⟩, ⟨S5000x128, (((fun x i => Host.gather gather_S64x128_S5000x1_S5000x128_1_0_n_n_0_1_1128 x i) : (⟨S64x128, .f32⟩ : BufTy).Contents (Elt F) → (⟨S5000x1, .i32⟩ : BufTy).Contents (Elt F) → (⟨S5000x128, .f32⟩ : BufTy).Contents (Elt F)) (W (Proc.devRef .tc main_v174)) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (W (Proc.devRef .tc main_arg4)) ((broadcastInDim S5000 ![] bcast_S_S5000 : (⟨S_, .i32⟩ : BufTy).Contents (Elt F) → (⟨S5000, .i32⟩ : BufTy).Contents (Elt F)) (constantI S_ 32 0#32 : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) (W (Proc.devRef .tc main_arg4)) ((broadcastInDim S5000 ![] bcast_S_S5000 : (⟨S_, .i32⟩ : BufTy).Contents (Elt F) → (⟨S5000, .i32⟩ : BufTy).Contents (Elt F)) (constantI S_ 32 64#32 : (⟨S_, .i32⟩ : BufTy).Contents (Elt F)))) (W (Proc.devRef .tc main_arg4)))))⟩] concatenates_S5000x128_S5000x128_S5000x128_S5000x128_S5000x512_d1 : (⟨S5000x512, .f32⟩ : BufTy).Contents (Elt F)) := by
  after_results_simp <;> rfl

/-- The same equation on the final contents: `v298` is written once, and what it is computed from is never written again. -/
theorem fin_v298 (m : (ℓ : Loc nD τ sig) → Buf (Elt F) ℓ) (c : Dev nD) :
    R m c (Proc.devRef .tc main_v298)
      = (concatenate S5000x512 1 [⟨S5000x128, (R m c (Proc.devRef .tc main_v208))⟩, ⟨S5000x128, (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (R m c (Proc.devRef .tc main_v1))) (R m c (Proc.devRef .tc main_v284)))⟩, ⟨S5000x128, (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (R m c (Proc.devRef .tc main_v3))) (R m c (Proc.devRef .tc main_v284)))⟩, ⟨S5000x128, (((fun x i => Host.gather gather_S64x128_S5000x1_S5000x128_1_0_n_n_0_1_1128 x i) : (⟨S64x128, .f32⟩ : BufTy).Contents (Elt F) → (⟨S5000x1, .i32⟩ : BufTy).Contents (Elt F) → (⟨S5000x128, .f32⟩ : BufTy).Contents (Elt F)) (R m c (Proc.devRef .tc main_v174)) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (R m c (Proc.devRef .tc main_arg4)) ((broadcastInDim S5000 ![] bcast_S_S5000 : (⟨S_, .i32⟩ : BufTy).Contents (Elt F) → (⟨S5000, .i32⟩ : BufTy).Contents (Elt F)) (constantI S_ 32 0#32 : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) (R m c (Proc.devRef .tc main_arg4)) ((broadcastInDim S5000 ![] bcast_S_S5000 : (⟨S_, .i32⟩ : BufTy).Contents (Elt F) → (⟨S5000, .i32⟩ : BufTy).Contents (Elt F)) (constantI S_ 32 64#32 : (⟨S_, .i32⟩ : BufTy).Contents (Elt F)))) (R m c (Proc.devRef .tc main_arg4)))))⟩] concatenates_S5000x128_S5000x128_S5000x128_S5000x128_S5000x512_d1 : (⟨S5000x512, .f32⟩ : BufTy).Contents (Elt F)) := by
  have e := ref_18_v298 (A_18 m c)
  rw [A_18_eq m c in_18_v1, A_18_eq m c in_18_v284, A_18_eq m c in_18_v3, A_18_eq m c in_18_arg4, A_18_eq m c in_18_v174, A_18_eq m c in_18_v208] at e
  exact (R_of_19 m c nw_v298).trans e

/-! ## Piece 19 (step 1): the three-layer node network on those rows -/

/-- A buffer piece 19 does not write keeps its contents through it. -/
theorem keep_19 (W : Valuation τ sig (Elt F)) {r : Ref sig .tc} (h : r ∉ ops_19_W) :
    after (ops_19 : List (HloOp τ sig (Elt F))) W (Proc.devRef .tc r) = W (Proc.devRef .tc r) :=
  after_of_writes_sub ops_19 W ops_19_writes h
theorem in_19_arg22 : main_arg22 ∉ tailW_19 := later_19 (later_18 (later_17 (later_16 (later_15 (later_14 (later_13 (later_12 (later_11 (later_10 (later_09 (later_08 (later_07 (later_06 (later_05 (later_04 (later_03 (later_02 (later_01 (nw_arg22)))))))))))))))))))
theorem in_19_arg24 : main_arg24 ∉ tailW_19 := later_19 (later_18 (later_17 (later_16 (later_15 (later_14 (later_13 (later_12 (later_11 (later_10 (later_09 (later_08 (later_07 (later_06 (later_05 (later_04 (later_03 (later_02 (later_01 (nw_arg24)))))))))))))))))))
theorem in_19_arg26 : main_arg26 ∉ tailW_19 := later_19 (later_18 (later_17 (later_16 (later_15 (later_14 (later_13 (later_12 (later_11 (later_10 (later_09 (later_08 (later_07 (later_06 (later_05 (later_04 (later_03 (later_02 (later_01 (nw_arg26)))))))))))))))))))
theorem in_19_arg23 : main_arg23 ∉ tailW_19 := later_19 (later_18 (later_17 (later_16 (later_15 (later_14 (later_13 (later_12 (later_11 (later_10 (later_09 (later_08 (later_07 (later_06 (later_05 (later_04 (later_03 (later_02 (later_01 (nw_arg23)))))))))))))))))))
theorem in_19_arg25 : main_arg25 ∉ tailW_19 := later_19 (later_18 (later_17 (later_16 (later_15 (later_14 (later_13 (later_12 (later_11 (later_10 (later_09 (later_08 (later_07 (later_06 (later_05 (later_04 (later_03 (later_02 (later_01 (nw_arg25)))))))))))))))))))
theorem in_19_arg27 : main_arg27 ∉ tailW_19 := later_19 (later_18 (later_17 (later_16 (later_15 (later_14 (later_13 (later_12 (later_11 (later_10 (later_09 (later_08 (later_07 (later_06 (later_05 (later_04 (later_03 (later_02 (later_01 (nw_arg27)))))))))))))))))))
theorem in_19_v298 : main_v298 ∉ tailW_19 := nw_v298

/-- `v325` after piece 19, from the contents before it. -/
theorem ref_19_v325 (W : Valuation τ sig (Elt F)) :
    after (ops_19 : List (HloOp τ sig (Elt F))) W (Proc.devRef .tc main_v325)
      = ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x512_S512x128_S5000x128_1_0_0_1_n_n none l r) : (⟨S5000x512, .f32⟩ : BufTy).Contents (Elt F) → (⟨S512x128, .f32⟩ : BufTy).Contents (Elt F) → (⟨S5000x128, .f32⟩ : BufTy).Contents (Elt F)) ((maximumf : (⟨S5000x512, .f32⟩ : BufTy).Contents (Elt F) → (⟨S5000x512, .f32⟩ : BufTy).Contents (Elt F) → (⟨S5000x512, .f32⟩ : BufTy).Contents (Elt F)) ((addf : (⟨S5000x512, .f32⟩ : BufTy).Contents (Elt F) → (⟨S5000x512, .f32⟩ : BufTy).Contents (Elt F) → (⟨S5000x512, .f32⟩ : BufTy).Contents (Elt F)) (((fun l r => Host.dotGeneral dot_S5000x512_S512x512_S5000x512_1_0_0_1_n_n none l r) : (⟨S5000x512, .f32⟩ : BufTy).Contents (Elt F) → (⟨S512x512, .f32⟩ : BufTy).Contents (Elt F) → (⟨S5000x512, .f32⟩ : BufTy).Contents (Elt F)) ((maximumf : (⟨S5000x512, .f32⟩ : BufTy).Contents (Elt F) → (⟨S5000x512, .f32⟩ : BufTy).Contents (Elt F) → (⟨S5000x512, .f32⟩ : BufTy).Contents (Elt F)) ((addf : (⟨S5000x512, .f32⟩ : BufTy).Contents (Elt F) → (⟨S5000x512, .f32⟩ : BufTy).Contents (Elt F) → (⟨S5000x512, .f32⟩ : BufTy).Contents (Elt F)) (((fun l r => Host.dotGeneral dot_S5000x512_S512x512_S5000x512_1_0_0_1_n_n none l r) : (⟨S5000x512, .f32⟩ : BufTy).Contents (Elt F) → (⟨S512x512, .f32⟩ : BufTy).Contents (Elt F) → (⟨S5000x512, .f32⟩ : BufTy).Contents (Elt F)) (W (Proc.devRef .tc main_v298)) (shapeCast S512x512 (((extractStridedSlice S1x512x512 ![1, 0, 0] · slices_S3x512x512_S1x512x512_1_0_0) : (⟨S3x512x512, .f32⟩ : BufTy).Contents (Elt F) → (⟨S1x512x512, .f32⟩ : BufTy).Contents (Elt F)) (W (Proc.devRef .tc main_arg22))) shapeCasts_S1x512x512_S512x512 : (⟨S512x512, .f32⟩ : BufTy).Contents (Elt F))) ((broadcastInDim S5000x512 ![0, 1] bcast_S1x512_S5000x512_0_1 : (⟨S1x512, .f32⟩ : BufTy).Contents (Elt F) → (⟨S5000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![1, 0] · slices_S3x512_S1x512_1_0) : (⟨S3x512, .f32⟩ : BufTy).Contents (Elt F) → (⟨S1x512, .f32⟩ : BufTy).Contents (Elt F)) (W (Proc.devRef .tc main_arg23))) shapeCasts_S1x512_S512 : (⟨S512, .f32⟩ : BufTy).Contents (Elt F))))) ((broadcastInDim S5000x512 ![] bcast_S_S5000x512 : (⟨S_, .f32⟩ : BufTy).Contents (Elt F) → (⟨S5000x512, .f32⟩ : BufTy).Contents (Elt F)) (constant S_ .f32 0x00000000#32 : (⟨S_, .f32⟩ : BufTy).Contents (Elt F)))) (shapeCast S512x512 (((extractStridedSlice S1x512x512 ![1, 0, 0] · slices_S3x512x512_S1x512x512_1_0_0) : (⟨S3x512x512, .f32⟩ : BufTy).Contents (Elt F) → (⟨S1x512x512, .f32⟩ : BufTy).Contents (Elt F)) (W (Proc.devRef .tc main_arg24))) shapeCasts_S1x512x512_S512x512 : (⟨S512x512, .f32⟩ : BufTy).Contents (Elt F))) ((broadcastInDim S5000x512 ![0, 1] bcast_S1x512_S5000x512_0_1 : (⟨S1x512, .f32⟩ : BufTy).Contents (Elt F) → (⟨S5000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![1, 0] · slices_S3x512_S1x512_1_0) : (⟨S3x512, .f32⟩ : BufTy).Contents (Elt F) → (⟨S1x512, .f32⟩ : BufTy).Contents (Elt F)) (W (Proc.devRef .tc main_arg25))) shapeCasts_S1x512_S512 : (⟨S512, .f32⟩ : BufTy).Contents (Elt F))))) ((broadcastInDim S5000x512 ![] bcast_S_S5000x512 : (⟨S_, .f32⟩ : BufTy).Contents (Elt F) → (⟨S5000x512, .f32⟩ : BufTy).Contents (Elt F)) (constant S_ .f32 0x00000000#32 : (⟨S_, .f32⟩ : BufTy).Contents (Elt F)))) (shapeCast S512x128 (((extractStridedSlice S1x512x128 ![1, 0, 0] · slices_S3x512x128_S1x512x128_1_0_0) : (⟨S3x512x128, .f32⟩ : BufTy).Contents (Elt F) → (⟨S1x512x128, .f32⟩ : BufTy).Contents (Elt F)) (W (Proc.devRef .tc main_arg26))) shapeCasts_S1x512x128_S512x128 : (⟨S512x128, .f32⟩ : BufTy).Contents (Elt F))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![1, 0] · slices_S3x128_S1x128_1_0) : (⟨S3x128, .f32⟩ : BufTy).Contents (Elt F) → (⟨S1x128, .f32⟩ : BufTy).Contents (Elt F)) (W (Proc.devRef .tc main_arg27))) shapeCasts_S1x128_S128 : (⟨S128, .f32⟩ : BufTy).Contents (Elt F))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) := by
  after_results_simp <;> rfl

/-- The same equation on the final contents: `v325` is written once, and what it is computed from is never written again. -/
theorem fin_v325 (m : (ℓ : Loc nD τ sig) → Buf (Elt F) ℓ) (c : Dev nD) :
    R m c (Proc.devRef .tc main_v325)
      = ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x512_S512x128_S5000x128_1_0_0_1_n_n none l r) : (⟨S5000x512, .f32⟩ : BufTy).Contents (Elt F) → (⟨S512x128, .f32⟩ : BufTy).Contents (Elt F) → (⟨S5000x128, .f32⟩ : BufTy).Contents (Elt F)) ((maximumf : (⟨S5000x512, .f32⟩ : BufTy).Contents (Elt F) → (⟨S5000x512, .f32⟩ : BufTy).Contents (Elt F) → (⟨S5000x512, .f32⟩ : BufTy).Contents (Elt F)) ((addf : (⟨S5000x512, .f32⟩ : BufTy).Contents (Elt F) → (⟨S5000x512, .f32⟩ : BufTy).Contents (Elt F) → (⟨S5000x512, .f32⟩ : BufTy).Contents (Elt F)) (((fun l r => Host.dotGeneral dot_S5000x512_S512x512_S5000x512_1_0_0_1_n_n none l r) : (⟨S5000x512, .f32⟩ : BufTy).Contents (Elt F) → (⟨S512x512, .f32⟩ : BufTy).Contents (Elt F) → (⟨S5000x512, .f32⟩ : BufTy).Contents (Elt F)) ((maximumf : (⟨S5000x512, .f32⟩ : BufTy).Contents (Elt F) → (⟨S5000x512, .f32⟩ : BufTy).Contents (Elt F) → (⟨S5000x512, .f32⟩ : BufTy).Contents (Elt F)) ((addf : (⟨S5000x512, .f32⟩ : BufTy).Contents (Elt F) → (⟨S5000x512, .f32⟩ : BufTy).Contents (Elt F) → (⟨S5000x512, .f32⟩ : BufTy).Contents (Elt F)) (((fun l r => Host.dotGeneral dot_S5000x512_S512x512_S5000x512_1_0_0_1_n_n none l r) : (⟨S5000x512, .f32⟩ : BufTy).Contents (Elt F) → (⟨S512x512, .f32⟩ : BufTy).Contents (Elt F) → (⟨S5000x512, .f32⟩ : BufTy).Contents (Elt F)) (R m c (Proc.devRef .tc main_v298)) (shapeCast S512x512 (((extractStridedSlice S1x512x512 ![1, 0, 0] · slices_S3x512x512_S1x512x512_1_0_0) : (⟨S3x512x512, .f32⟩ : BufTy).Contents (Elt F) → (⟨S1x512x512, .f32⟩ : BufTy).Contents (Elt F)) (R m c (Proc.devRef .tc main_arg22))) shapeCasts_S1x512x512_S512x512 : (⟨S512x512, .f32⟩ : BufTy).Contents (Elt F))) ((broadcastInDim S5000x512 ![0, 1] bcast_S1x512_S5000x512_0_1 : (⟨S1x512, .f32⟩ : BufTy).Contents (Elt F) → (⟨S5000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![1, 0] · slices_S3x512_S1x512_1_0) : (⟨S3x512, .f32⟩ : BufTy).Contents (Elt F) → (⟨S1x512, .f32⟩ : BufTy).Contents (Elt F)) (R m c (Proc.devRef .tc main_arg23))) shapeCasts_S1x512_S512 : (⟨S512, .f32⟩ : BufTy).Contents (Elt F))))) ((broadcastInDim S5000x512 ![] bcast_S_S5000x512 : (⟨S_, .f32⟩ : BufTy).Contents (Elt F) → (⟨S5000x512, .f32⟩ : BufTy).Contents (Elt F)) (constant S_ .f32 0x00000000#32 : (⟨S_, .f32⟩ : BufTy).Contents (Elt F)))) (shapeCast S512x512 (((extractStridedSlice S1x512x512 ![1, 0, 0] · slices_S3x512x512_S1x512x512_1_0_0) : (⟨S3x512x512, .f32⟩ : BufTy).Contents (Elt F) → (⟨S1x512x512, .f32⟩ : BufTy).Contents (Elt F)) (R m c (Proc.devRef .tc main_arg24))) shapeCasts_S1x512x512_S512x512 : (⟨S512x512, .f32⟩ : BufTy).Contents (Elt F))) ((broadcastInDim S5000x512 ![0, 1] bcast_S1x512_S5000x512_0_1 : (⟨S1x512, .f32⟩ : BufTy).Contents (Elt F) → (⟨S5000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![1, 0] · slices_S3x512_S1x512_1_0) : (⟨S3x512, .f32⟩ : BufTy).Contents (Elt F) → (⟨S1x512, .f32⟩ : BufTy).Contents (Elt F)) (R m c (Proc.devRef .tc main_arg25))) shapeCasts_S1x512_S512 : (⟨S512, .f32⟩ : BufTy).Contents (Elt F))))) ((broadcastInDim S5000x512 ![] bcast_S_S5000x512 : (⟨S_, .f32⟩ : BufTy).Contents (Elt F) → (⟨S5000x512, .f32⟩ : BufTy).Contents (Elt F)) (constant S_ .f32 0x00000000#32 : (⟨S_, .f32⟩ : BufTy).Contents (Elt F)))) (shapeCast S512x128 (((extractStridedSlice S1x512x128 ![1, 0, 0] · slices_S3x512x128_S1x512x128_1_0_0) : (⟨S3x512x128, .f32⟩ : BufTy).Contents (Elt F) → (⟨S1x512x128, .f32⟩ : BufTy).Contents (Elt F)) (R m c (Proc.devRef .tc main_arg26))) shapeCasts_S1x512x128_S512x128 : (⟨S512x128, .f32⟩ : BufTy).Contents (Elt F))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![1, 0] · slices_S3x128_S1x128_1_0) : (⟨S3x128, .f32⟩ : BufTy).Contents (Elt F) → (⟨S1x128, .f32⟩ : BufTy).Contents (Elt F)) (R m c (Proc.devRef .tc main_arg27))) shapeCasts_S1x128_S128 : (⟨S128, .f32⟩ : BufTy).Contents (Elt F))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) := by
  have e := ref_19_v325 (A_19 m c)
  rw [A_19_eq m c in_19_arg22, A_19_eq m c in_19_arg24, A_19_eq m c in_19_arg26, A_19_eq m c in_19_arg23, A_19_eq m c in_19_arg25, A_19_eq m c in_19_arg27, A_19_eq m c in_19_v298] at e
  exact (R_of_20 m c nw_v325).trans e

/-! ## Piece 20 (step 1): per graph, its global row, the sum of its nodes' new rows and the sum of its edges' new rows, side by side -/

/-- A buffer piece 20 does not write keeps its contents through it. -/
theorem keep_20 (W : Valuation τ sig (Elt F)) {r : Ref sig .tc} (h : r ∉ ops_20_W) :
    after (ops_20 : List (HloOp τ sig (Elt F))) W (Proc.devRef .tc r) = W (Proc.devRef .tc r) :=
  after_of_writes_sub ops_20 W ops_20_writes h
theorem in_20_arg4 : main_arg4 ∉ tailW_20 := later_20 (later_19 (later_18 (later_17 (later_16 (later_15 (later_14 (later_13 (later_12 (later_11 (later_10 (later_09 (later_08 (later_07 (later_06 (later_05 (later_04 (later_03 (later_02 (later_01 (nw_arg4))))))))))))))))))))
theorem in_20_v325 : main_v325 ∉ tailW_20 := nw_v325
theorem in_20_arg5 : main_arg5 ∉ tailW_20 := later_20 (later_19 (later_18 (later_17 (later_16 (later_15 (later_14 (later_13 (later_12 (later_11 (later_10 (later_09 (later_08 (later_07 (later_06 (later_05 (later_04 (later_03 (later_02 (later_01 (nw_arg5))))))))))))))))))))
theorem in_20_v284 : main_v284 ∉ tailW_20 := later_20 (later_19 (nw_v284))
theorem in_20_v174 : main_v174 ∉ tailW_20 := later_20 (later_19 (later_18 (later_17 (later_16 (later_15 (later_14 (later_13 (later_12 (nw_v174)))))))))

/-- `v328` after piece 20, from the contents before it. -/
theorem ref_20_v328 (W : Valuation τ sig (Elt F)) :
    after (ops_20 : List (HloOp τ sig (Elt F))) W (Proc.devRef .tc main_v328)
      = (((fun x i u => Host.scatterAdd scatter_S64x128_S5000x1_S5000x128_1_0_0_1 x i u) : (⟨S64x128, .f32⟩ : BufTy).Contents (Elt F) → (⟨S5000x1, .i32⟩ : BufTy).Contents (Elt F) → (⟨S5000x128, .f32⟩ : BufTy).Contents (Elt F) → (⟨S64x128, .f32⟩ : BufTy).Contents (Elt F)) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F))) ((broadcastInDim S5000x1 ![0] bcast_S5000_S5000x1_0 : (⟨S5000, .i32⟩ : BufTy).Contents (Elt F) → (⟨S5000x1, .i32⟩ : BufTy).Contents (Elt F)) (W (Proc.devRef .tc main_arg4))) (W (Proc.devRef .tc main_v325))) := by
  simp (disch := decide) only [after_cons, after_nil, nullary_result', unary_result', binary_result', ternary_result', quaternary_result', reshape_result', nary4_result', nary3_result', nary_result',
    nullary_result_ne', unary_result_ne', binary_result_ne', ternary_result_ne', quaternary_result_ne', reshape_result_ne', nary_result_ne'] <;> rfl

/-- The same equation on the final contents: `v328` is written once, and what it is computed from is never written again. -/
theorem fin_v328 (m : (ℓ : Loc nD τ sig) → Buf (Elt F) ℓ) (c : Dev nD) :
    R m c (Proc.devRef .tc main_v328)
      = (((fun x i u => Host.scatterAdd scatter_S64x128_S5000x1_S5000x128_1_0_0_1 x i u) : (⟨S64x128, .f32⟩ : BufTy).Contents (Elt F) → (⟨S5000x1, .i32⟩ : BufTy).Contents (Elt F) → (⟨S5000x128, .f32⟩ : BufTy).Contents (Elt F) → (⟨S64x128, .f32⟩ : BufTy).Contents (Elt F)) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F))) ((broadcastInDim S5000x1 ![0] bcast_S5000_S5000x1_0 : (⟨S5000, .i32⟩ : BufTy).Contents (Elt F) → (⟨S5000x1, .i32⟩ : BufTy).Contents (Elt F)) (R m c (Proc.devRef .tc main_arg4))) (R m c (Proc.devRef .tc main_v325))) := by
  have e := ref_20_v328 (A_20 m c)
  rw [A_20_eq m c in_20_arg4, A_20_eq m c in_20_v325] at e
  exact (R_of_21 m c nw_v328).trans e

/-- `v331` after piece 20, from the contents before it. -/
theorem ref_20_v331 (W : Valuation τ sig (Elt F)) :
    after (ops_20 : List (HloOp τ sig (Elt F))) W (Proc.devRef .tc main_v331)
      = (((fun x i u => Host.scatterAdd scatter_S64x128_S80000x1_S80000x128_1_0_0_1 x i u) : (⟨S64x128, .f32⟩ : BufTy).Contents (Elt F) → (⟨S80000x1, .i32⟩ : BufTy).Contents (Elt F) → (⟨S80000x128, .f32⟩ : BufTy).Contents (Elt F) → (⟨S64x128, .f32⟩ : BufTy).Contents (Elt F)) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (W (Proc.devRef .tc main_arg5))) (W (Proc.devRef .tc main_v284))) := by
  simp (disch := decide) only [after_cons, after_nil, nullary_result', unary_result', binary_result', ternary_result', quaternary_result', reshape_result', nary4_result', nary3_result', nary_result',
    nullary_result_ne', unary_result_ne', binary_result_ne', ternary_result_ne', quaternary_result_ne', reshape_result_ne', nary_result_ne'] <;> rfl

/-- The same equation on the final contents: `v331` is written once, and what it is computed from is never written again. -/
theorem fin_v331 (m : (ℓ : Loc nD τ sig) → Buf (Elt F) ℓ) (c : Dev nD) :
    R m c (Proc.devRef .tc main_v331)
      = (((fun x i u => Host.scatterAdd scatter_S64x128_S80000x1_S80000x128_1_0_0_1 x i u) : (⟨S64x128, .f32⟩ : BufTy).Contents (Elt F) → (⟨S80000x1, .i32⟩ : BufTy).Contents (Elt F) → (⟨S80000x128, .f32⟩ : BufTy).Contents (Elt F) → (⟨S64x128, .f32⟩ : BufTy).Contents (Elt F)) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (R m c (Proc.devRef .tc main_arg5))) (R m c (Proc.devRef .tc main_v284))) := by
  have e := ref_20_v331 (A_20 m c)
  rw [A_20_eq m c in_20_arg5, A_20_eq m c in_20_v284] at e
  exact (R_of_21 m c nw_v331).trans e

/-- `v332` after piece 20, from the contents before it. -/
theorem ref_20_v332 (W : Valuation τ sig (Elt F)) :
    after (ops_20 : List (HloOp τ sig (Elt F))) W (Proc.devRef .tc main_v332)
      = (concatenate S64x384 1 [⟨S64x128, (W (Proc.devRef .tc main_v174))⟩, ⟨S64x128, (((fun x i u => Host.scatterAdd scatter_S64x128_S5000x1_S5000x128_1_0_0_1 x i u) : (⟨S64x128, .f32⟩ : BufTy).Contents (Elt F) → (⟨S5000x1, .i32⟩ : BufTy).Contents (Elt F) → (⟨S5000x128, .f32⟩ : BufTy).Contents (Elt F) → (⟨S64x128, .f32⟩ : BufTy).Contents (Elt F)) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F))) ((broadcastInDim S5000x1 ![0] bcast_S5000_S5000x1_0 : (⟨S5000, .i32⟩ : BufTy).Contents (Elt F) → (⟨S5000x1, .i32⟩ : BufTy).Contents (Elt F)) (W (Proc.devRef .tc main_arg4))) (W (Proc.devRef .tc main_v325)))⟩, ⟨S64x128, (((fun x i u => Host.scatterAdd scatter_S64x128_S80000x1_S80000x128_1_0_0_1 x i u) : (⟨S64x128, .f32⟩ : BufTy).Contents (Elt F) → (⟨S80000x1, .i32⟩ : BufTy).Contents (Elt F) → (⟨S80000x128, .f32⟩ : BufTy).Contents (Elt F) → (⟨S64x128, .f32⟩ : BufTy).Contents (Elt F)) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (W (Proc.devRef .tc main_arg5))) (W (Proc.devRef .tc main_v284)))⟩] concatenates_S64x128_S64x128_S64x128_S64x384_d1 : (⟨S64x384, .f32⟩ : BufTy).Contents (Elt F)) := by
  simp (disch := decide) only [after_cons, after_nil, nullary_result', unary_result', binary_result', ternary_result', quaternary_result', reshape_result', nary4_result', nary3_result', nary_result',
    nullary_result_ne', unary_result_ne', binary_result_ne', ternary_result_ne', quaternary_result_ne', reshape_result_ne', nary_result_ne'] <;> rfl

/-- The same equation on the final contents: `v332` is written once, and what it is computed from is never written again. -/
theorem fin_v332 (m : (ℓ : Loc nD τ sig) → Buf (Elt F) ℓ) (c : Dev nD) :
    R m c (Proc.devRef .tc main_v332)
      = (concatenate S64x384 1 [⟨S64x128, (R m c (Proc.devRef .tc main_v174))⟩, ⟨S64x128, (((fun x i u => Host.scatterAdd scatter_S64x128_S5000x1_S5000x128_1_0_0_1 x i u) : (⟨S64x128, .f32⟩ : BufTy).Contents (Elt F) → (⟨S5000x1, .i32⟩ : BufTy).Contents (Elt F) → (⟨S5000x128, .f32⟩ : BufTy).Contents (Elt F) → (⟨S64x128, .f32⟩ : BufTy).Contents (Elt F)) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F))) ((broadcastInDim S5000x1 ![0] bcast_S5000_S5000x1_0 : (⟨S5000, .i32⟩ : BufTy).Contents (Elt F) → (⟨S5000x1, .i32⟩ : BufTy).Contents (Elt F)) (R m c (Proc.devRef .tc main_arg4))) (R m c (Proc.devRef .tc main_v325)))⟩, ⟨S64x128, (((fun x i u => Host.scatterAdd scatter_S64x128_S80000x1_S80000x128_1_0_0_1 x i u) : (⟨S64x128, .f32⟩ : BufTy).Contents (Elt F) → (⟨S80000x1, .i32⟩ : BufTy).Contents (Elt F) → (⟨S80000x128, .f32⟩ : BufTy).Contents (Elt F) → (⟨S64x128, .f32⟩ : BufTy).Contents (Elt F)) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (R m c (Proc.devRef .tc main_arg5))) (R m c (Proc.devRef .tc main_v284)))⟩] concatenates_S64x128_S64x128_S64x128_S64x384_d1 : (⟨S64x384, .f32⟩ : BufTy).Contents (Elt F)) := by
  have e := ref_20_v332 (A_20 m c)
  rw [A_20_eq m c in_20_arg4, A_20_eq m c in_20_v325, A_20_eq m c in_20_arg5, A_20_eq m c in_20_v284, A_20_eq m c in_20_v174] at e
  exact (R_of_21 m c nw_v332).trans e

/-! ## Piece 21 (step 1): the three-layer global network on those rows -/

/-- A buffer piece 21 does not write keeps its contents through it. -/
theorem keep_21 (W : Valuation τ sig (Elt F)) {r : Ref sig .tc} (h : r ∉ ops_21_W) :
    after (ops_21 : List (HloOp τ sig (Elt F))) W (Proc.devRef .tc r) = W (Proc.devRef .tc r) :=
  after_of_writes_sub ops_21 W ops_21_writes h
theorem in_21_arg28 : main_arg28 ∉ tailW_21 := later_21 (later_20 (later_19 (later_18 (later_17 (later_16 (later_15 (later_14 (later_13 (later_12 (later_11 (later_10 (later_09 (later_08 (later_07 (later_06 (later_05 (later_04 (later_03 (later_02 (later_01 (nw_arg28)))))))))))))))))))))
theorem in_21_arg30 : main_arg30 ∉ tailW_21 := later_21 (later_20 (later_19 (later_18 (later_17 (later_16 (later_15 (later_14 (later_13 (later_12 (later_11 (later_10 (later_09 (later_08 (later_07 (later_06 (later_05 (later_04 (later_03 (later_02 (later_01 (nw_arg30)))))))))))))))))))))
theorem in_21_arg32 : main_arg32 ∉ tailW_21 := later_21 (later_20 (later_19 (later_18 (later_17 (later_16 (later_15 (later_14 (later_13 (later_12 (later_11 (later_10 (later_09 (later_08 (later_07 (later_06 (later_05 (later_04 (later_03 (later_02 (later_01 (nw_arg32)))))))))))))))))))))
theorem in_21_arg29 : main_arg29 ∉ tailW_21 := later_21 (later_20 (later_19 (later_18 (later_17 (later_16 (later_15 (later_14 (later_13 (later_12 (later_11 (later_10 (later_09 (later_08 (later_07 (later_06 (later_05 (later_04 (later_03 (later_02 (later_01 (nw_arg29)))))))))))))))))))))
theorem in_21_arg31 : main_arg31 ∉ tailW_21 := later_21 (later_20 (later_19 (later_18 (later_17 (later_16 (later_15 (later_14 (later_13 (later_12 (later_11 (later_10 (later_09 (later_08 (later_07 (later_06 (later_05 (later_04 (later_03 (later_02 (later_01 (nw_arg31)))))))))))))))))))))
theorem in_21_arg33 : main_arg33 ∉ tailW_21 := later_21 (later_20 (later_19 (later_18 (later_17 (later_16 (later_15 (later_14 (later_13 (later_12 (later_11 (later_10 (later_09 (later_08 (later_07 (later_06 (later_05 (later_04 (later_03 (later_02 (later_01 (nw_arg33)))))))))))))))))))))
theorem in_21_v332 : main_v332 ∉ tailW_21 := nw_v332

/-- `v359` after piece 21, from the contents before it. -/
theorem ref_21_v359 (W : Valuation τ sig (Elt F)) :
    after (ops_21 : List (HloOp τ sig (Elt F))) W (Proc.devRef .tc main_v359)
      = ((maximumf : (⟨S64x128, .f32⟩ : BufTy).Contents (Elt F) → (⟨S64x128, .f32⟩ : BufTy).Contents (Elt F) → (⟨S64x128, .f32⟩ : BufTy).Contents (Elt F)) ((addf : (⟨S64x128, .f32⟩ : BufTy).Contents (Elt F) → (⟨S64x128, .f32⟩ : BufTy).Contents (Elt F) → (⟨S64x128, .f32⟩ : BufTy).Contents (Elt F)) (((fun l r => Host.dotGeneral dot_S64x512_S512x128_S64x128_1_0_0_1_n_n none l r) : (⟨S64x512, .f32⟩ : BufTy).Contents (Elt F) → (⟨S512x128, .f32⟩ : BufTy).Contents (Elt F) → (⟨S64x128, .f32⟩ : BufTy).Contents (Elt F)) ((maximumf : (⟨S64x512, .f32⟩ : BufTy).Contents (Elt F) → (⟨S64x512, .f32⟩ : BufTy).Contents (Elt F) → (⟨S64x512, .f32⟩ : BufTy).Contents (Elt F)) ((addf : (⟨S64x512, .f32⟩ : BufTy).Contents (Elt F) → (⟨S64x512, .f32⟩ : BufTy).Contents (Elt F) → (⟨S64x512, .f32⟩ : BufTy).Contents (Elt F)) (((fun l r => Host.dotGeneral dot_S64x512_S512x512_S64x512_1_0_0_1_n_n none l r) : (⟨S64x512, .f32⟩ : BufTy).Contents (Elt F) → (⟨S512x512, .f32⟩ : BufTy).Contents (Elt F) → (⟨S64x512, .f32⟩ : BufTy).Contents (Elt F)) ((maximumf : (⟨S64x512, .f32⟩ : BufTy).Contents (Elt F) → (⟨S64x512, .f32⟩ : BufTy).Contents (Elt F) → (⟨S64x512, .f32⟩ : BufTy).Contents (Elt F)) ((addf : (⟨S64x512, .f32⟩ : BufTy).Contents (Elt F) → (⟨S64x512, .f32⟩ : BufTy).Contents (Elt F) → (⟨S64x512, .f32⟩ : BufTy).Contents (Elt F)) (((fun l r => Host.dotGeneral dot_S64x384_S384x512_S64x512_1_0_0_1_n_n none l r) : (⟨S64x384, .f32⟩ : BufTy).Contents (Elt F) → (⟨S384x512, .f32⟩ : BufTy).Contents (Elt F) → (⟨S64x512, .f32⟩ : BufTy).Contents (Elt F)) (W (Proc.devRef .tc main_v332)) (shapeCast S384x512 (((extractStridedSlice S1x384x512 ![1, 0, 0] · slices_S2x384x512_S1x384x512_1_0_0) : (⟨S2x384x512, .f32⟩ : BufTy).Contents (Elt F) → (⟨S1x384x512, .f32⟩ : BufTy).Contents (Elt F)) (W (Proc.devRef .tc main_arg28))) shapeCasts_S1x384x512_S384x512 : (⟨S384x512, .f32⟩ : BufTy).Contents (Elt F))) ((broadcastInDim S64x512 ![0, 1] bcast_S1x512_S64x512_0_1 : (⟨S1x512, .f32⟩ : BufTy).Contents (Elt F) → (⟨S64x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![1, 0] · slices_S2x512_S1x512_1_0) : (⟨S2x512, .f32⟩ : BufTy).Contents (Elt F) → (⟨S1x512, .f32⟩ : BufTy).Contents (Elt F)) (W (Proc.devRef .tc main_arg29))) shapeCasts_S1x512_S512 : (⟨S512, .f32⟩ : BufTy).Contents (Elt F))))) ((broadcastInDim S64x512 ![] bcast_S_S64x512 : (⟨S_, .f32⟩ : BufTy).Contents (Elt F) → (⟨S64x512, .f32⟩ : BufTy).Contents (Elt F)) (constant S_ .f32 0x00000000#32 : (⟨S_, .f32⟩ : BufTy).Contents (Elt F)))) (shapeCast S512x512 (((extractStridedSlice S1x512x512 ![1, 0, 0] · slices_S2x512x512_S1x512x512_1_0_0) : (⟨S2x512x512, .f32⟩ : BufTy).Contents (Elt F) → (⟨S1x512x512, .f32⟩ : BufTy).Contents (Elt F)) (W (Proc.devRef .tc main_arg30))) shapeCasts_S1x512x512_S512x512 : (⟨S512x512, .f32⟩ : BufTy).Contents (Elt F))) ((broadcastInDim S64x512 ![0, 1] bcast_S1x512_S64x512_0_1 : (⟨S1x512, .f32⟩ : BufTy).Contents (Elt F) → (⟨S64x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![1, 0] · slices_S2x512_S1x512_1_0) : (⟨S2x512, .f32⟩ : BufTy).Contents (Elt F) → (⟨S1x512, .f32⟩ : BufTy).Contents (Elt F)) (W (Proc.devRef .tc main_arg31))) shapeCasts_S1x512_S512 : (⟨S512, .f32⟩ : BufTy).Contents (Elt F))))) ((broadcastInDim S64x512 ![] bcast_S_S64x512 : (⟨S_, .f32⟩ : BufTy).Contents (Elt F) → (⟨S64x512, .f32⟩ : BufTy).Contents (Elt F)) (constant S_ .f32 0x00000000#32 : (⟨S_, .f32⟩ : BufTy).Contents (Elt F)))) (shapeCast S512x128 (((extractStridedSlice S1x512x128 ![1, 0, 0] · slices_S2x512x128_S1x512x128_1_0_0) : (⟨S2x512x128, .f32⟩ : BufTy).Contents (Elt F) → (⟨S1x512x128, .f32⟩ : BufTy).Contents (Elt F)) (W (Proc.devRef .tc main_arg32))) shapeCasts_S1x512x128_S512x128 : (⟨S512x128, .f32⟩ : BufTy).Contents (Elt F))) ((broadcastInDim S64x128 ![0, 1] bcast_S1x128_S64x128_0_1 : (⟨S1x128, .f32⟩ : BufTy).Contents (Elt F) → (⟨S64x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![1, 0] · slices_S2x128_S1x128_1_0) : (⟨S2x128, .f32⟩ : BufTy).Contents (Elt F) → (⟨S1x128, .f32⟩ : BufTy).Contents (Elt F)) (W (Proc.devRef .tc main_arg33))) shapeCasts_S1x128_S128 : (⟨S128, .f32⟩ : BufTy).Contents (Elt F))))) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F)))) := by
  after_results_simp <;> rfl

/-- The same equation on the final contents: `v359` is written once, and what it is computed from is never written again. -/
theorem fin_v359 (m : (ℓ : Loc nD τ sig) → Buf (Elt F) ℓ) (c : Dev nD) :
    R m c (Proc.devRef .tc main_v359)
      = ((maximumf : (⟨S64x128, .f32⟩ : BufTy).Contents (Elt F) → (⟨S64x128, .f32⟩ : BufTy).Contents (Elt F) → (⟨S64x128, .f32⟩ : BufTy).Contents (Elt F)) ((addf : (⟨S64x128, .f32⟩ : BufTy).Contents (Elt F) → (⟨S64x128, .f32⟩ : BufTy).Contents (Elt F) → (⟨S64x128, .f32⟩ : BufTy).Contents (Elt F)) (((fun l r => Host.dotGeneral dot_S64x512_S512x128_S64x128_1_0_0_1_n_n none l r) : (⟨S64x512, .f32⟩ : BufTy).Contents (Elt F) → (⟨S512x128, .f32⟩ : BufTy).Contents (Elt F) → (⟨S64x128, .f32⟩ : BufTy).Contents (Elt F)) ((maximumf : (⟨S64x512, .f32⟩ : BufTy).Contents (Elt F) → (⟨S64x512, .f32⟩ : BufTy).Contents (Elt F) → (⟨S64x512, .f32⟩ : BufTy).Contents (Elt F)) ((addf : (⟨S64x512, .f32⟩ : BufTy).Contents (Elt F) → (⟨S64x512, .f32⟩ : BufTy).Contents (Elt F) → (⟨S64x512, .f32⟩ : BufTy).Contents (Elt F)) (((fun l r => Host.dotGeneral dot_S64x512_S512x512_S64x512_1_0_0_1_n_n none l r) : (⟨S64x512, .f32⟩ : BufTy).Contents (Elt F) → (⟨S512x512, .f32⟩ : BufTy).Contents (Elt F) → (⟨S64x512, .f32⟩ : BufTy).Contents (Elt F)) ((maximumf : (⟨S64x512, .f32⟩ : BufTy).Contents (Elt F) → (⟨S64x512, .f32⟩ : BufTy).Contents (Elt F) → (⟨S64x512, .f32⟩ : BufTy).Contents (Elt F)) ((addf : (⟨S64x512, .f32⟩ : BufTy).Contents (Elt F) → (⟨S64x512, .f32⟩ : BufTy).Contents (Elt F) → (⟨S64x512, .f32⟩ : BufTy).Contents (Elt F)) (((fun l r => Host.dotGeneral dot_S64x384_S384x512_S64x512_1_0_0_1_n_n none l r) : (⟨S64x384, .f32⟩ : BufTy).Contents (Elt F) → (⟨S384x512, .f32⟩ : BufTy).Contents (Elt F) → (⟨S64x512, .f32⟩ : BufTy).Contents (Elt F)) (R m c (Proc.devRef .tc main_v332)) (shapeCast S384x512 (((extractStridedSlice S1x384x512 ![1, 0, 0] · slices_S2x384x512_S1x384x512_1_0_0) : (⟨S2x384x512, .f32⟩ : BufTy).Contents (Elt F) → (⟨S1x384x512, .f32⟩ : BufTy).Contents (Elt F)) (R m c (Proc.devRef .tc main_arg28))) shapeCasts_S1x384x512_S384x512 : (⟨S384x512, .f32⟩ : BufTy).Contents (Elt F))) ((broadcastInDim S64x512 ![0, 1] bcast_S1x512_S64x512_0_1 : (⟨S1x512, .f32⟩ : BufTy).Contents (Elt F) → (⟨S64x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![1, 0] · slices_S2x512_S1x512_1_0) : (⟨S2x512, .f32⟩ : BufTy).Contents (Elt F) → (⟨S1x512, .f32⟩ : BufTy).Contents (Elt F)) (R m c (Proc.devRef .tc main_arg29))) shapeCasts_S1x512_S512 : (⟨S512, .f32⟩ : BufTy).Contents (Elt F))))) ((broadcastInDim S64x512 ![] bcast_S_S64x512 : (⟨S_, .f32⟩ : BufTy).Contents (Elt F) → (⟨S64x512, .f32⟩ : BufTy).Contents (Elt F)) (constant S_ .f32 0x00000000#32 : (⟨S_, .f32⟩ : BufTy).Contents (Elt F)))) (shapeCast S512x512 (((extractStridedSlice S1x512x512 ![1, 0, 0] · slices_S2x512x512_S1x512x512_1_0_0) : (⟨S2x512x512, .f32⟩ : BufTy).Contents (Elt F) → (⟨S1x512x512, .f32⟩ : BufTy).Contents (Elt F)) (R m c (Proc.devRef .tc main_arg30))) shapeCasts_S1x512x512_S512x512 : (⟨S512x512, .f32⟩ : BufTy).Contents (Elt F))) ((broadcastInDim S64x512 ![0, 1] bcast_S1x512_S64x512_0_1 : (⟨S1x512, .f32⟩ : BufTy).Contents (Elt F) → (⟨S64x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![1, 0] · slices_S2x512_S1x512_1_0) : (⟨S2x512, .f32⟩ : BufTy).Contents (Elt F) → (⟨S1x512, .f32⟩ : BufTy).Contents (Elt F)) (R m c (Proc.devRef .tc main_arg31))) shapeCasts_S1x512_S512 : (⟨S512, .f32⟩ : BufTy).Contents (Elt F))))) ((broadcastInDim S64x512 ![] bcast_S_S64x512 : (⟨S_, .f32⟩ : BufTy).Contents (Elt F) → (⟨S64x512, .f32⟩ : BufTy).Contents (Elt F)) (constant S_ .f32 0x00000000#32 : (⟨S_, .f32⟩ : BufTy).Contents (Elt F)))) (shapeCast S512x128 (((extractStridedSlice S1x512x128 ![1, 0, 0] · slices_S2x512x128_S1x512x128_1_0_0) : (⟨S2x512x128, .f32⟩ : BufTy).Contents (Elt F) → (⟨S1x512x128, .f32⟩ : BufTy).Contents (Elt F)) (R m c (Proc.devRef .tc main_arg32))) shapeCasts_S1x512x128_S512x128 : (⟨S512x128, .f32⟩ : BufTy).Contents (Elt F))) ((broadcastInDim S64x128 ![0, 1] bcast_S1x128_S64x128_0_1 : (⟨S1x128, .f32⟩ : BufTy).Contents (Elt F) → (⟨S64x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![1, 0] · slices_S2x128_S1x128_1_0) : (⟨S2x128, .f32⟩ : BufTy).Contents (Elt F) → (⟨S1x128, .f32⟩ : BufTy).Contents (Elt F)) (R m c (Proc.devRef .tc main_arg33))) shapeCasts_S1x128_S128 : (⟨S128, .f32⟩ : BufTy).Contents (Elt F))))) ((broadcastInDim S64x128 ![] bcast_S_S64x128 : (⟨S_, .f32⟩ : BufTy).Contents (Elt F) → (⟨S64x128, .f32⟩ : BufTy).Contents (Elt F)) (constant S_ .f32 0x00000000#32 : (⟨S_, .f32⟩ : BufTy).Contents (Elt F)))) := by
  have e := ref_21_v359 (A_21 m c)
  rw [A_21_eq m c in_21_arg28, A_21_eq m c in_21_arg30, A_21_eq m c in_21_arg32, A_21_eq m c in_21_arg29, A_21_eq m c in_21_arg31, A_21_eq m c in_21_arg33, A_21_eq m c in_21_v332] at e
  exact (R_of_22 m c nw_v359).trans e

/-! ## Piece 22 (step 1): the residual sums: new node, edge and global features plus the old -/

/-- A buffer piece 22 does not write keeps its contents through it. -/
theorem keep_22 (W : Valuation τ sig (Elt F)) {r : Ref sig .tc} (h : r ∉ ops_22_W) :
    after (ops_22 : List (HloOp τ sig (Elt F))) W (Proc.devRef .tc r) = W (Proc.devRef .tc r) :=
  after_of_writes_sub ops_22 W ops_22_writes h
theorem in_22_v325 : main_v325 ∉ tailW_22 := later_22 (later_21 (nw_v325))
theorem in_22_v172 : main_v172 ∉ tailW_22 := later_22 (later_21 (later_20 (later_19 (later_18 (later_17 (later_16 (later_15 (later_14 (later_13 (later_12 (nw_v172)))))))))))
theorem in_22_v284 : main_v284 ∉ tailW_22 := later_22 (later_21 (later_20 (later_19 (nw_v284))))
theorem in_22_v173 : main_v173 ∉ tailW_22 := later_22 (later_21 (later_20 (later_19 (later_18 (later_17 (later_16 (later_15 (later_14 (later_13 (later_12 (nw_v173)))))))))))
theorem in_22_v359 : main_v359 ∉ tailW_22 := nw_v359
theorem in_22_v174 : main_v174 ∉ tailW_22 := later_22 (later_21 (later_20 (later_19 (later_18 (later_17 (later_16 (later_15 (later_14 (later_13 (later_12 (nw_v174)))))))))))

/-- `v360` after piece 22, from the contents before it. -/
theorem ref_22_v360 (W : Valuation τ sig (Elt F)) :
    after (ops_22 : List (HloOp τ sig (Elt F))) W (Proc.devRef .tc main_v360)
      = ((addf : (⟨S5000x128, .f32⟩ : BufTy).Contents (Elt F) → (⟨S5000x128, .f32⟩ : BufTy).Contents (Elt F) → (⟨S5000x128, .f32⟩ : BufTy).Contents (Elt F)) (W (Proc.devRef .tc main_v325)) (W (Proc.devRef .tc main_v172))) := by
  after_results_simp <;> rfl

/-- The same equation on the final contents: `v360` is written once, and what it is computed from is never written again. -/
theorem fin_v360 (m : (ℓ : Loc nD τ sig) → Buf (Elt F) ℓ) (c : Dev nD) :
    R m c (Proc.devRef .tc main_v360)
      = ((addf : (⟨S5000x128, .f32⟩ : BufTy).Contents (Elt F) → (⟨S5000x128, .f32⟩ : BufTy).Contents (Elt F) → (⟨S5000x128, .f32⟩ : BufTy).Contents (Elt F)) (R m c (Proc.devRef .tc main_v325)) (R m c (Proc.devRef .tc main_v172))) := by
  have e := ref_22_v360 (A_22 m c)
  rw [A_22_eq m c in_22_v325, A_22_eq m c in_22_v172] at e
  exact (R_of_23 m c nw_v360).trans e

/-- `v361` after piece 22, from the contents before it. -/
theorem ref_22_v361 (W : Valuation τ sig (Elt F)) :
    after (ops_22 : List (HloOp τ sig (Elt F))) W (Proc.devRef .tc main_v361)
      = ((addf : (⟨S80000x128, .f32⟩ : BufTy).Contents (Elt F) → (⟨S80000x128, .f32⟩ : BufTy).Contents (Elt F) → (⟨S80000x128, .f32⟩ : BufTy).Contents (Elt F)) (W (Proc.devRef .tc main_v284)) (W (Proc.devRef .tc main_v173))) := by
  after_results_simp <;> rfl

/-- The same equation on the final contents: `v361` is written once, and what it is computed from is never written again. -/
theorem fin_v361 (m : (ℓ : Loc nD τ sig) → Buf (Elt F) ℓ) (c : Dev nD) :
    R m c (Proc.devRef .tc main_v361)
      = ((addf : (⟨S80000x128, .f32⟩ : BufTy).Contents (Elt F) → (⟨S80000x128, .f32⟩ : BufTy).Contents (Elt F) → (⟨S80000x128, .f32⟩ : BufTy).Contents (Elt F)) (R m c (Proc.devRef .tc main_v284)) (R m c (Proc.devRef .tc main_v173))) := by
  have e := ref_22_v361 (A_22 m c)
  rw [A_22_eq m c in_22_v284, A_22_eq m c in_22_v173] at e
  exact (R_of_23 m c nw_v361).trans e

/-- `v362` after piece 22, from the contents before it. -/
theorem ref_22_v362 (W : Valuation τ sig (Elt F)) :
    after (ops_22 : List (HloOp τ sig (Elt F))) W (Proc.devRef .tc main_v362)
      = ((addf : (⟨S64x128, .f32⟩ : BufTy).Contents (Elt F) → (⟨S64x128, .f32⟩ : BufTy).Contents (Elt F) → (⟨S64x128, .f32⟩ : BufTy).Contents (Elt F)) (W (Proc.devRef .tc main_v359)) (W (Proc.devRef .tc main_v174))) := by
  after_results_simp <;> rfl

/-- The same equation on the final contents: `v362` is written once, and what it is computed from is never written again. -/
theorem fin_v362 (m : (ℓ : Loc nD τ sig) → Buf (Elt F) ℓ) (c : Dev nD) :
    R m c (Proc.devRef .tc main_v362)
      = ((addf : (⟨S64x128, .f32⟩ : BufTy).Contents (Elt F) → (⟨S64x128, .f32⟩ : BufTy).Contents (Elt F) → (⟨S64x128, .f32⟩ : BufTy).Contents (Elt F)) (R m c (Proc.devRef .tc main_v359)) (R m c (Proc.devRef .tc main_v174))) := by
  have e := ref_22_v362 (A_22 m c)
  rw [A_22_eq m c in_22_v359, A_22_eq m c in_22_v174] at e
  exact (R_of_23 m c nw_v362).trans e

/-! ## Piece 23 (step 1): the decoder's displacement (two layers, no activation after the second) added to the positions -/

/-- A buffer piece 23 does not write keeps its contents through it. -/
theorem keep_23 (W : Valuation τ sig (Elt F)) {r : Ref sig .tc} (h : r ∉ ops_23_W) :
    after (ops_23 : List (HloOp τ sig (Elt F))) W (Proc.devRef .tc r) = W (Proc.devRef .tc r) :=
  after_of_writes_sub ops_23 W ops_23_writes h
theorem in_23_v360 : main_v360 ∉ tailW_23 := nw_v360
theorem in_23_arg34 : main_arg34 ∉ tailW_23 := later_23 (later_22 (later_21 (later_20 (later_19 (later_18 (later_17 (later_16 (later_15 (later_14 (later_13 (later_12 (later_11 (later_10 (later_09 (later_08 (later_07 (later_06 (later_05 (later_04 (later_03 (later_02 (later_01 (nw_arg34)))))))))))))))))))))))
theorem in_23_arg35 : main_arg35 ∉ tailW_23 := later_23 (later_22 (later_21 (later_20 (later_19 (later_18 (later_17 (later_16 (later_15 (later_14 (later_13 (later_12 (later_11 (later_10 (later_09 (later_08 (later_07 (later_06 (later_05 (later_04 (later_03 (later_02 (later_01 (nw_arg35)))))))))))))))))))))))
theorem in_23_arg36 : main_arg36 ∉ tailW_23 := later_23 (later_22 (later_21 (later_20 (later_19 (later_18 (later_17 (later_16 (later_15 (later_14 (later_13 (later_12 (later_11 (later_10 (later_09 (later_08 (later_07 (later_06 (later_05 (later_04 (later_03 (later_02 (later_01 (nw_arg36)))))))))))))))))))))))
theorem in_23_arg37 : main_arg37 ∉ tailW_23 := later_23 (later_22 (later_21 (later_20 (later_19 (later_18 (later_17 (later_16 (later_15 (later_14 (later_13 (later_12 (later_11 (later_10 (later_09 (later_08 (later_07 (later_06 (later_05 (later_04 (later_03 (later_02 (later_01 (nw_arg37)))))))))))))))))))))))
theorem in_23_v197 : main_v197 ∉ tailW_23 := later_23 (later_22 (later_21 (later_20 (later_19 (later_18 (later_17 (later_16 (later_15 (later_14 (nw_v197))))))))))

/-- `v371` after piece 23, from the contents before it. -/
theorem ref_23_v371 (W : Valuation τ sig (Elt F)) :
    after (ops_23 : List (HloOp τ sig (Elt F))) W (Proc.devRef .tc main_v371)
      = ((addf : (⟨S5000x3, .f32⟩ : BufTy).Contents (Elt F) → (⟨S5000x3, .f32⟩ : BufTy).Contents (Elt F) → (⟨S5000x3, .f32⟩ : BufTy).Contents (Elt F)) (((fun l r => Host.dotGeneral dot_S5000x128_S128x3_S5000x3_1_0_0_1_n_n none l r) : (⟨S5000x128, .f32⟩ : BufTy).Contents (Elt F) → (⟨S128x3, .f32⟩ : BufTy).Contents (Elt F) → (⟨S5000x3, .f32⟩ : BufTy).Contents (Elt F)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)) (W (Proc.devRef .tc main_v360)) (W (Proc.devRef .tc main_arg34))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (W (Proc.devRef .tc main_arg35))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) (W (Proc.devRef .tc main_arg36))) ((broadcastInDim S5000x3 ![0, 1] bcast_S1x3_S5000x3_0_1 : (⟨S1x3, .f32⟩ : BufTy).Contents (Elt F) → (⟨S5000x3, .f32⟩ : BufTy).Contents (Elt F)) ((broadcastInDim S1x3 ![1] bcast_S3_S1x3_1 : (⟨S3, .f32⟩ : BufTy).Contents (Elt F) → (⟨S1x3, .f32⟩ : BufTy).Contents (Elt F)) (W (Proc.devRef .tc main_arg37))))) := by
  after_results_simp <;> rfl

/-- The same equation on the final contents: `v371` is written once, and what it is computed from is never written again. -/
theorem fin_v371 (m : (ℓ : Loc nD τ sig) → Buf (Elt F) ℓ) (c : Dev nD) :
    R m c (Proc.devRef .tc main_v371)
      = ((addf : (⟨S5000x3, .f32⟩ : BufTy).Contents (Elt F) → (⟨S5000x3, .f32⟩ : BufTy).Contents (Elt F) → (⟨S5000x3, .f32⟩ : BufTy).Contents (Elt F)) (((fun l r => Host.dotGeneral dot_S5000x128_S128x3_S5000x3_1_0_0_1_n_n none l r) : (⟨S5000x128, .f32⟩ : BufTy).Contents (Elt F) → (⟨S128x3, .f32⟩ : BufTy).Contents (Elt F) → (⟨S5000x3, .f32⟩ : BufTy).Contents (Elt F)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)) (R m c (Proc.devRef .tc main_v360)) (R m c (Proc.devRef .tc main_arg34))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (R m c (Proc.devRef .tc main_arg35))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) (R m c (Proc.devRef .tc main_arg36))) ((broadcastInDim S5000x3 ![0, 1] bcast_S1x3_S5000x3_0_1 : (⟨S1x3, .f32⟩ : BufTy).Contents (Elt F) → (⟨S5000x3, .f32⟩ : BufTy).Contents (Elt F)) ((broadcastInDim S1x3 ![1] bcast_S3_S1x3_1 : (⟨S3, .f32⟩ : BufTy).Contents (Elt F) → (⟨S1x3, .f32⟩ : BufTy).Contents (Elt F)) (R m c (Proc.devRef .tc main_arg37))))) := by
  have e := ref_23_v371 (A_23 m c)
  rw [A_23_eq m c in_23_v360, A_23_eq m c in_23_arg34, A_23_eq m c in_23_arg35, A_23_eq m c in_23_arg36, A_23_eq m c in_23_arg37] at e
  exact (R_of_24 m c nw_v371).trans e

/-- `v372` after piece 23, from the contents before it. -/
theorem ref_23_v372 (W : Valuation τ sig (Elt F)) :
    after (ops_23 : List (HloOp τ sig (Elt F))) W (Proc.devRef .tc main_v372)
      = ((addf : (⟨S5000x3, .f32⟩ : BufTy).Contents (Elt F) → (⟨S5000x3, .f32⟩ : BufTy).Contents (Elt F) → (⟨S5000x3, .f32⟩ : BufTy).Contents (Elt F)) (W (Proc.devRef .tc main_v197)) ((addf : (⟨S5000x3, .f32⟩ : BufTy).Contents (Elt F) → (⟨S5000x3, .f32⟩ : BufTy).Contents (Elt F) → (⟨S5000x3, .f32⟩ : BufTy).Contents (Elt F)) (((fun l r => Host.dotGeneral dot_S5000x128_S128x3_S5000x3_1_0_0_1_n_n none l r) : (⟨S5000x128, .f32⟩ : BufTy).Contents (Elt F) → (⟨S128x3, .f32⟩ : BufTy).Contents (Elt F) → (⟨S5000x3, .f32⟩ : BufTy).Contents (Elt F)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)) (W (Proc.devRef .tc main_v360)) (W (Proc.devRef .tc main_arg34))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (W (Proc.devRef .tc main_arg35))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) (W (Proc.devRef .tc main_arg36))) ((broadcastInDim S5000x3 ![0, 1] bcast_S1x3_S5000x3_0_1 : (⟨S1x3, .f32⟩ : BufTy).Contents (Elt F) → (⟨S5000x3, .f32⟩ : BufTy).Contents (Elt F)) ((broadcastInDim S1x3 ![1] bcast_S3_S1x3_1 : (⟨S3, .f32⟩ : BufTy).Contents (Elt F) → (⟨S1x3, .f32⟩ : BufTy).Contents (Elt F)) (W (Proc.devRef .tc main_arg37)))))) := by
  after_results_simp <;> rfl

/-- The same equation on the final contents: `v372` is written once, and what it is computed from is never written again. -/
theorem fin_v372 (m : (ℓ : Loc nD τ sig) → Buf (Elt F) ℓ) (c : Dev nD) :
    R m c (Proc.devRef .tc main_v372)
      = ((addf : (⟨S5000x3, .f32⟩ : BufTy).Contents (Elt F) → (⟨S5000x3, .f32⟩ : BufTy).Contents (Elt F) → (⟨S5000x3, .f32⟩ : BufTy).Contents (Elt F)) (R m c (Proc.devRef .tc main_v197)) ((addf : (⟨S5000x3, .f32⟩ : BufTy).Contents (Elt F) → (⟨S5000x3, .f32⟩ : BufTy).Contents (Elt F) → (⟨S5000x3, .f32⟩ : BufTy).Contents (Elt F)) (((fun l r => Host.dotGeneral dot_S5000x128_S128x3_S5000x3_1_0_0_1_n_n none l r) : (⟨S5000x128, .f32⟩ : BufTy).Contents (Elt F) → (⟨S128x3, .f32⟩ : BufTy).Contents (Elt F) → (⟨S5000x3, .f32⟩ : BufTy).Contents (Elt F)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)) (R m c (Proc.devRef .tc main_v360)) (R m c (Proc.devRef .tc main_arg34))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (R m c (Proc.devRef .tc main_arg35))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) (R m c (Proc.devRef .tc main_arg36))) ((broadcastInDim S5000x3 ![0, 1] bcast_S1x3_S5000x3_0_1 : (⟨S1x3, .f32⟩ : BufTy).Contents (Elt F) → (⟨S5000x3, .f32⟩ : BufTy).Contents (Elt F)) ((broadcastInDim S1x3 ![1] bcast_S3_S1x3_1 : (⟨S3, .f32⟩ : BufTy).Contents (Elt F) → (⟨S1x3, .f32⟩ : BufTy).Contents (Elt F)) (R m c (Proc.devRef .tc main_arg37)))))) := by
  have e := ref_23_v372 (A_23 m c)
  rw [A_23_eq m c in_23_v360, A_23_eq m c in_23_arg34, A_23_eq m c in_23_arg35, A_23_eq m c in_23_arg36, A_23_eq m c in_23_arg37, A_23_eq m c in_23_v197] at e
  exact (R_of_24 m c nw_v372).trans e

/-! ## Piece 24 (step 1): the positions with every graph's mean position subtracted -/

/-- A buffer piece 24 does not write keeps its contents through it. -/
theorem keep_24 (W : Valuation τ sig (Elt F)) {r : Ref sig .tc} (h : r ∉ ops_24_W) :
    after (ops_24 : List (HloOp τ sig (Elt F))) W (Proc.devRef .tc r) = W (Proc.devRef .tc r) :=
  after_of_writes_sub ops_24 W ops_24_writes h
theorem in_24_arg4 : main_arg4 ∉ tailW_24 := later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg4))))))))))))))))))))))))
theorem in_24_v372 : main_v372 ∉ tailW_24 := nw_v372
theorem in_24_v9 : main_v9 ∉ tailW_24 := later_24 (later_23 (later_22 (later_21 (later_20 (later_19 (later_18 (later_17 (later_16 (later_15 (later_14 (later_13 (later_12 (later_11 (later_10 (later_09 (later_08 (later_07 (later_06 (later_05 (later_04 (later_03 (later_02 (nw_v9)))))))))))))))))))))))

/-- `v385` after piece 24, from the contents before it. -/
theorem ref_24_v385 (W : Valuation τ sig (Elt F)) :
    after (ops_24 : List (HloOp τ sig (Elt F))) W (Proc.devRef .tc main_v385)
      = ((subf : (⟨S5000x3, .f32⟩ : BufTy).Contents (Elt F) → (⟨S5000x3, .f32⟩ : BufTy).Contents (Elt F) → (⟨S5000x3, .f32⟩ : BufTy).Contents (Elt F)) (W (Proc.devRef .tc main_v372)) (((fun x i => Host.gather gather_S64x3_S5000x1_S5000x3_1_0_n_n_0_1_13 x i) : (⟨S64x3, .f32⟩ : BufTy).Contents (Elt F) → (⟨S5000x1, .i32⟩ : BufTy).Contents (Elt F) → (⟨S5000x3, .f32⟩ : BufTy).Contents (Elt F)) ((Host.divf : (⟨S64x3, .f32⟩ : BufTy).Contents (Elt F) → (⟨S64x3, .f32⟩ : BufTy).Contents (Elt F) → (⟨S64x3, .f32⟩ : BufTy).Contents (Elt F)) (((fun x i u => Host.scatterAdd scatter_S64x3_S5000x1_S5000x3_1_0_0_1 x i u) : (⟨S64x3, .f32⟩ : BufTy).Contents (Elt F) → (⟨S5000x1, .i32⟩ : BufTy).Contents (Elt F) → (⟨S5000x3, .f32⟩ : BufTy).Contents (Elt F) → (⟨S64x3, .f32⟩ : BufTy).Contents (Elt F)) ((broadcastInDim S64x3 ![] bcast_S_S64x3 : (⟨S_, .f32⟩ : BufTy).Contents (Elt F) → (⟨S64x3, .f32⟩ : BufTy).Contents (Elt F)) (constant S_ .f32 0x00000000#32 : (⟨S_, .f32⟩ : BufTy).Contents (Elt F))) ((broadcastInDim S5000x1 ![0] bcast_S5000_S5000x1_0 : (⟨S5000, .i32⟩ : BufTy).Contents (Elt F) → (⟨S5000x1, .i32⟩ : BufTy).Contents (Elt F)) (W (Proc.devRef .tc main_arg4))) (W (Proc.devRef .tc main_v372))) ((broadcastInDim S64x3 ![0, 1] bcast_S64x1_S64x3_0_1 : (⟨S64x1, .f32⟩ : BufTy).Contents (Elt F) → (⟨S64x3, .f32⟩ : BufTy).Contents (Elt F)) (W (Proc.devRef .tc main_v9)))) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (W (Proc.devRef .tc main_arg4)) ((broadcastInDim S5000 ![] bcast_S_S5000 : (⟨S_, .i32⟩ : BufTy).Contents (Elt F) → (⟨S5000, .i32⟩ : BufTy).Contents (Elt F)) (constantI S_ 32 0#32 : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) (W (Proc.devRef .tc main_arg4)) ((broadcastInDim S5000 ![] bcast_S_S5000 : (⟨S_, .i32⟩ : BufTy).Contents (Elt F) → (⟨S5000, .i32⟩ : BufTy).Contents (Elt F)) (constantI S_ 32 64#32 : (⟨S_, .i32⟩ : BufTy).Contents (Elt F)))) (W (Proc.devRef .tc main_arg4)))))) := by
  after_results_simp <;> rfl

/-- The same equation on the final contents: `v385` is written once, and what it is computed from is never written again. -/
theorem fin_v385 (m : (ℓ : Loc nD τ sig) → Buf (Elt F) ℓ) (c : Dev nD) :
    R m c (Proc.devRef .tc main_v385)
      = ((subf : (⟨S5000x3, .f32⟩ : BufTy).Contents (Elt F) → (⟨S5000x3, .f32⟩ : BufTy).Contents (Elt F) → (⟨S5000x3, .f32⟩ : BufTy).Contents (Elt F)) (R m c (Proc.devRef .tc main_v372)) (((fun x i => Host.gather gather_S64x3_S5000x1_S5000x3_1_0_n_n_0_1_13 x i) : (⟨S64x3, .f32⟩ : BufTy).Contents (Elt F) → (⟨S5000x1, .i32⟩ : BufTy).Contents (Elt F) → (⟨S5000x3, .f32⟩ : BufTy).Contents (Elt F)) ((Host.divf : (⟨S64x3, .f32⟩ : BufTy).Contents (Elt F) → (⟨S64x3, .f32⟩ : BufTy).Contents (Elt F) → (⟨S64x3, .f32⟩ : BufTy).Contents (Elt F)) (((fun x i u => Host.scatterAdd scatter_S64x3_S5000x1_S5000x3_1_0_0_1 x i u) : (⟨S64x3, .f32⟩ : BufTy).Contents (Elt F) → (⟨S5000x1, .i32⟩ : BufTy).Contents (Elt F) → (⟨S5000x3, .f32⟩ : BufTy).Contents (Elt F) → (⟨S64x3, .f32⟩ : BufTy).Contents (Elt F)) ((broadcastInDim S64x3 ![] bcast_S_S64x3 : (⟨S_, .f32⟩ : BufTy).Contents (Elt F) → (⟨S64x3, .f32⟩ : BufTy).Contents (Elt F)) (constant S_ .f32 0x00000000#32 : (⟨S_, .f32⟩ : BufTy).Contents (Elt F))) ((broadcastInDim S5000x1 ![0] bcast_S5000_S5000x1_0 : (⟨S5000, .i32⟩ : BufTy).Contents (Elt F) → (⟨S5000x1, .i32⟩ : BufTy).Contents (Elt F)) (R m c (Proc.devRef .tc main_arg4))) (R m c (Proc.devRef .tc main_v372))) ((broadcastInDim S64x3 ![0, 1] bcast_S64x1_S64x3_0_1 : (⟨S64x1, .f32⟩ : BufTy).Contents (Elt F) → (⟨S64x3, .f32⟩ : BufTy).Contents (Elt F)) (R m c (Proc.devRef .tc main_v9)))) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (R m c (Proc.devRef .tc main_arg4)) ((broadcastInDim S5000 ![] bcast_S_S5000 : (⟨S_, .i32⟩ : BufTy).Contents (Elt F) → (⟨S5000, .i32⟩ : BufTy).Contents (Elt F)) (constantI S_ 32 0#32 : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) (R m c (Proc.devRef .tc main_arg4)) ((broadcastInDim S5000 ![] bcast_S_S5000 : (⟨S_, .i32⟩ : BufTy).Contents (Elt F) → (⟨S5000, .i32⟩ : BufTy).Contents (Elt F)) (constantI S_ 32 64#32 : (⟨S_, .i32⟩ : BufTy).Contents (Elt F)))) (R m c (Proc.devRef .tc main_arg4)))))) := by
  have e := ref_24_v385 (A_24 m c)
  rw [A_24_eq m c in_24_arg4, A_24_eq m c in_24_v372, A_24_eq m c in_24_v9] at e
  exact (R_of_25 m c nw_v385).trans e

end Cert.ReferenceIdeal.Hand

end
-- ==== Proof.Ref.St2.lean ====
/-
  The reference's values stage by stage, in step 2 and after it. For each piece of the line (Ref/Ops.lean) and each value it computes that a later piece
  or the caller reads: `ref_JJ_b`, the buffer after the piece as the piece's operations composed over the contents before it, and
  `fin_b`, the same equation between the FINAL contents `R m c` (Ref/Run.lean) — each buffer is written once, so what a value is
  computed from still holds at the end what it held then.
-/
import proofs.«147763_j11003706212366_2_alg».proof.Proof.Ref.Kept
import proofs.«147763_j11003706212366_2_alg».proof.Proof.LibNary3

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192
set_option maxHeartbeats 1000000
set_option Elab.async false

/-! ## Piece 25 (step 2): the node features plus the two-layer embedding of the positions -/

/-- A buffer piece 25 does not write keeps its contents through it. -/
theorem keep_25 (W : Valuation τ sig (Elt F)) {r : Ref sig .tc} (h : r ∉ ops_25_W) :
    after (ops_25 : List (HloOp τ sig (Elt F))) W (Proc.devRef .tc r) = W (Proc.devRef .tc r) :=
  after_of_writes_sub ops_25 W ops_25_writes h
theorem in_25_v385 : main_v385 ∉ tailW_25 := nw_v385
theorem in_25_arg8 : main_arg8 ∉ tailW_25 := later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg8)))))))))))))))))))))))))
theorem in_25_arg9 : main_arg9 ∉ tailW_25 := later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg9)))))))))))))))))))))))))
theorem in_25_arg10 : main_arg10 ∉ tailW_25 := later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg10)))))))))))))))))))))))))
theorem in_25_arg11 : main_arg11 ∉ tailW_25 := later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg11)))))))))))))))))))))))))
theorem in_25_v360 : main_v360 ∉ tailW_25 := later_25 (later_24 (nw_v360))

/-- `v396` after piece 25, from the contents before it. -/
theorem ref_25_v396 (W : Valuation τ sig (Elt F)) :
    after (ops_25 : List (HloOp τ sig (Elt F))) W (Proc.devRef .tc main_v396)
      = ((addf : (⟨S5000x128, .f32⟩ : BufTy).Contents (Elt F) → (⟨S5000x128, .f32⟩ : BufTy).Contents (Elt F) → (⟨S5000x128, .f32⟩ : BufTy).Contents (Elt F)) (W (Proc.devRef .tc main_v360)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x3_S3x128_S5000x128_1_0_0_1_n_n none l r) : (⟨S5000x3, .f32⟩ : BufTy).Contents (Elt F) → (⟨S3x128, .f32⟩ : BufTy).Contents (Elt F) → (⟨S5000x128, .f32⟩ : BufTy).Contents (Elt F)) (W (Proc.devRef .tc main_v385)) (W (Proc.devRef .tc main_arg8))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (W (Proc.devRef .tc main_arg9))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) (W (Proc.devRef .tc main_arg10))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (W (Proc.devRef .tc main_arg11))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))))) := by
  after_results_simp <;> rfl

/-- The same equation on the final contents: `v396` is written once, and what it is computed from is never written again. -/
theorem fin_v396 (m : (ℓ : Loc nD τ sig) → Buf (Elt F) ℓ) (c : Dev nD) :
    R m c (Proc.devRef .tc main_v396)
      = ((addf : (⟨S5000x128, .f32⟩ : BufTy).Contents (Elt F) → (⟨S5000x128, .f32⟩ : BufTy).Contents (Elt F) → (⟨S5000x128, .f32⟩ : BufTy).Contents (Elt F)) (R m c (Proc.devRef .tc main_v360)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x3_S3x128_S5000x128_1_0_0_1_n_n none l r) : (⟨S5000x3, .f32⟩ : BufTy).Contents (Elt F) → (⟨S3x128, .f32⟩ : BufTy).Contents (Elt F) → (⟨S5000x128, .f32⟩ : BufTy).Contents (Elt F)) (R m c (Proc.devRef .tc main_v385)) (R m c (Proc.devRef .tc main_arg8))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (R m c (Proc.devRef .tc main_arg9))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) (R m c (Proc.devRef .tc main_arg10))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (R m c (Proc.devRef .tc main_arg11))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))))) := by
  have e := ref_25_v396 (A_25 m c)
  rw [A_25_eq m c in_25_v385, A_25_eq m c in_25_arg8, A_25_eq m c in_25_arg9, A_25_eq m c in_25_arg10, A_25_eq m c in_25_arg11, A_25_eq m c in_25_v360] at e
  exact (R_of_26 m c nw_v396).trans e

/-! ## Piece 26 (step 2): the length of every edge: the Euclidean norm of the difference of its two ends' positions -/

/-- A buffer piece 26 does not write keeps its contents through it. -/
theorem keep_26 (W : Valuation τ sig (Elt F)) {r : Ref sig .tc} (h : r ∉ ops_26_W) :
    after (ops_26 : List (HloOp τ sig (Elt F))) W (Proc.devRef .tc r) = W (Proc.devRef .tc r) :=
  after_of_writes_sub ops_26 W ops_26_writes h
theorem in_26_v1 : main_v1 ∉ tailW_26 := later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (nw_v1)))))))))))))))))))))))))
theorem in_26_v385 : main_v385 ∉ tailW_26 := later_26 (nw_v385)
theorem in_26_v3 : main_v3 ∉ tailW_26 := later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (nw_v3)))))))))))))))))))))))))

/-- `v412` after piece 26, from the contents before it. -/
theorem ref_26_v412 (W : Valuation τ sig (Elt F)) :
    after (ops_26 : List (HloOp τ sig (Elt F))) W (Proc.devRef .tc main_v412)
      = ((Host.sqrt : (⟨S80000x1, .f32⟩ : BufTy).Contents (Elt F) → (⟨S80000x1, .f32⟩ : BufTy).Contents (Elt F)) ((broadcastInDim S80000x1 ![0] bcast_S80000_S80000x1_0 : (⟨S80000, .f32⟩ : BufTy).Contents (Elt F) → (⟨S80000x1, .f32⟩ : BufTy).Contents (Elt F)) ((fun x v => Host.reduceAdd x v reducesTo_S80000x3_S80000_d1 h_S_ : (⟨S80000x3, .f32⟩ : BufTy).Contents (Elt F) → (⟨S_, .f32⟩ : BufTy).Contents (Elt F) → (⟨S80000, .f32⟩ : BufTy).Contents (Elt F)) ((mulf : (⟨S80000x3, .f32⟩ : BufTy).Contents (Elt F) → (⟨S80000x3, .f32⟩ : BufTy).Contents (Elt F) → (⟨S80000x3, .f32⟩ : BufTy).Contents (Elt F)) ((subf : (⟨S80000x3, .f32⟩ : BufTy).Contents (Elt F) → (⟨S80000x3, .f32⟩ : BufTy).Contents (Elt F) → (⟨S80000x3, .f32⟩ : BufTy).Contents (Elt F)) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (W (Proc.devRef .tc main_v385)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v1))))) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (W (Proc.devRef .tc main_v385)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v3)))))) ((subf : (⟨S80000x3, .f32⟩ : BufTy).Contents (Elt F) → (⟨S80000x3, .f32⟩ : BufTy).Contents (Elt F) → (⟨S80000x3, .f32⟩ : BufTy).Contents (Elt F)) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (W (Proc.devRef .tc main_v385)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v1))))) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (W (Proc.devRef .tc main_v385)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v3))))))) (constant S_ .f32 0x00000000#32 : (⟨S_, .f32⟩ : BufTy).Contents (Elt F))))) := by
  after_results_simp <;> rfl

/-- The same equation on the final contents: `v412` is written once, and what it is computed from is never written again. -/
theorem fin_v412 (m : (ℓ : Loc nD τ sig) → Buf (Elt F) ℓ) (c : Dev nD) :
    R m c (Proc.devRef .tc main_v412)
      = ((Host.sqrt : (⟨S80000x1, .f32⟩ : BufTy).Contents (Elt F) → (⟨S80000x1, .f32⟩ : BufTy).Contents (Elt F)) ((broadcastInDim S80000x1 ![0] bcast_S80000_S80000x1_0 : (⟨S80000, .f32⟩ : BufTy).Contents (Elt F) → (⟨S80000x1, .f32⟩ : BufTy).Contents (Elt F)) ((fun x v => Host.reduceAdd x v reducesTo_S80000x3_S80000_d1 h_S_ : (⟨S80000x3, .f32⟩ : BufTy).Contents (Elt F) → (⟨S_, .f32⟩ : BufTy).Contents (Elt F) → (⟨S80000, .f32⟩ : BufTy).Contents (Elt F)) ((mulf : (⟨S80000x3, .f32⟩ : BufTy).Contents (Elt F) → (⟨S80000x3, .f32⟩ : BufTy).Contents (Elt F) → (⟨S80000x3, .f32⟩ : BufTy).Contents (Elt F)) ((subf : (⟨S80000x3, .f32⟩ : BufTy).Contents (Elt F) → (⟨S80000x3, .f32⟩ : BufTy).Contents (Elt F) → (⟨S80000x3, .f32⟩ : BufTy).Contents (Elt F)) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (R m c (Proc.devRef .tc main_v385)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v1))))) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (R m c (Proc.devRef .tc main_v385)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v3)))))) ((subf : (⟨S80000x3, .f32⟩ : BufTy).Contents (Elt F) → (⟨S80000x3, .f32⟩ : BufTy).Contents (Elt F) → (⟨S80000x3, .f32⟩ : BufTy).Contents (Elt F)) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (R m c (Proc.devRef .tc main_v385)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v1))))) (((fun x i => Host.gather gather_S5000x3_S80000x1_S80000x3_1_0_n_n_0_1_13 x i) : (⟨S5000x3, .f32⟩ : BufTy).Contents (Elt F) → (⟨S80000x1, .i32⟩ : BufTy).Contents (Elt F) → (⟨S80000x3, .f32⟩ : BufTy).Contents (Elt F)) (R m c (Proc.devRef .tc main_v385)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v3))))))) (constant S_ .f32 0x00000000#32 : (⟨S_, .f32⟩ : BufTy).Contents (Elt F))))) := by
  have e := ref_26_v412 (A_26 m c)
  rw [A_26_eq m c in_26_v1, A_26_eq m c in_26_v385, A_26_eq m c in_26_v3] at e
  exact (R_of_27 m c nw_v412).trans e

/-! ## Piece 27 (step 2): the edge features plus the two-layer embedding of the lengths -/

/-- A buffer piece 27 does not write keeps its contents through it. -/
theorem keep_27 (W : Valuation τ sig (Elt F)) {r : Ref sig .tc} (h : r ∉ ops_27_W) :
    after (ops_27 : List (HloOp τ sig (Elt F))) W (Proc.devRef .tc r) = W (Proc.devRef .tc r) :=
  after_of_writes_sub ops_27 W ops_27_writes h
theorem in_27_v412 : main_v412 ∉ tailW_27 := nw_v412
theorem in_27_arg12 : main_arg12 ∉ tailW_27 := later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg12)))))))))))))))))))))))))))
theorem in_27_arg13 : main_arg13 ∉ tailW_27 := later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg13)))))))))))))))))))))))))))
theorem in_27_arg14 : main_arg14 ∉ tailW_27 := later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg14)))))))))))))))))))))))))))
theorem in_27_arg15 : main_arg15 ∉ tailW_27 := later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg15)))))))))))))))))))))))))))
theorem in_27_v361 : main_v361 ∉ tailW_27 := later_27 (later_26 (later_25 (later_24 (nw_v361))))

/-- `v423` after piece 27, from the contents before it. -/
theorem ref_27_v423 (W : Valuation τ sig (Elt F)) :
    after (ops_27 : List (HloOp τ sig (Elt F))) W (Proc.devRef .tc main_v423)
      = ((addf : (⟨S80000x128, .f32⟩ : BufTy).Contents (Elt F) → (⟨S80000x128, .f32⟩ : BufTy).Contents (Elt F) → (⟨S80000x128, .f32⟩ : BufTy).Contents (Elt F)) (W (Proc.devRef .tc main_v361)) ((maximumf : (⟨S80000x128, .f32⟩ : BufTy).Contents (Elt F) → (⟨S80000x128, .f32⟩ : BufTy).Contents (Elt F) → (⟨S80000x128, .f32⟩ : BufTy).Contents (Elt F)) ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x128_S128x128_S80000x128_1_0_0_1_n_n none l r) : (⟨S80000x128, .f32⟩ : BufTy).Contents (Elt F) → (⟨S128x128, .f32⟩ : BufTy).Contents (Elt F) → (⟨S80000x128, .f32⟩ : BufTy).Contents (Elt F)) ((maximumf : (⟨S80000x128, .f32⟩ : BufTy).Contents (Elt F) → (⟨S80000x128, .f32⟩ : BufTy).Contents (Elt F) → (⟨S80000x128, .f32⟩ : BufTy).Contents (Elt F)) ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x1_S1x128_S80000x128_1_0_0_1_n_n none l r) : (⟨S80000x1, .f32⟩ : BufTy).Contents (Elt F) → (⟨S1x128, .f32⟩ : BufTy).Contents (Elt F) → (⟨S80000x128, .f32⟩ : BufTy).Contents (Elt F)) (W (Proc.devRef .tc main_v412)) (W (Proc.devRef .tc main_arg12))) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (W (Proc.devRef .tc main_arg13))))) ((broadcastInDim S80000x128 ![] bcast_S_S80000x128 : (⟨S_, .f32⟩ : BufTy).Contents (Elt F) → (⟨S80000x128, .f32⟩ : BufTy).Contents (Elt F)) (constant S_ .f32 0x00000000#32 : (⟨S_, .f32⟩ : BufTy).Contents (Elt F)))) (W (Proc.devRef .tc main_arg14))) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (W (Proc.devRef .tc main_arg15))))) ((broadcastInDim S80000x128 ![] bcast_S_S80000x128 : (⟨S_, .f32⟩ : BufTy).Contents (Elt F) → (⟨S80000x128, .f32⟩ : BufTy).Contents (Elt F)) (constant S_ .f32 0x00000000#32 : (⟨S_, .f32⟩ : BufTy).Contents (Elt F))))) := by
  after_results_simp <;> rfl

/-- The same equation on the final contents: `v423` is written once, and what it is computed from is never written again. -/
theorem fin_v423 (m : (ℓ : Loc nD τ sig) → Buf (Elt F) ℓ) (c : Dev nD) :
    R m c (Proc.devRef .tc main_v423)
      = ((addf : (⟨S80000x128, .f32⟩ : BufTy).Contents (Elt F) → (⟨S80000x128, .f32⟩ : BufTy).Contents (Elt F) → (⟨S80000x128, .f32⟩ : BufTy).Contents (Elt F)) (R m c (Proc.devRef .tc main_v361)) ((maximumf : (⟨S80000x128, .f32⟩ : BufTy).Contents (Elt F) → (⟨S80000x128, .f32⟩ : BufTy).Contents (Elt F) → (⟨S80000x128, .f32⟩ : BufTy).Contents (Elt F)) ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x128_S128x128_S80000x128_1_0_0_1_n_n none l r) : (⟨S80000x128, .f32⟩ : BufTy).Contents (Elt F) → (⟨S128x128, .f32⟩ : BufTy).Contents (Elt F) → (⟨S80000x128, .f32⟩ : BufTy).Contents (Elt F)) ((maximumf : (⟨S80000x128, .f32⟩ : BufTy).Contents (Elt F) → (⟨S80000x128, .f32⟩ : BufTy).Contents (Elt F) → (⟨S80000x128, .f32⟩ : BufTy).Contents (Elt F)) ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x1_S1x128_S80000x128_1_0_0_1_n_n none l r) : (⟨S80000x1, .f32⟩ : BufTy).Contents (Elt F) → (⟨S1x128, .f32⟩ : BufTy).Contents (Elt F) → (⟨S80000x128, .f32⟩ : BufTy).Contents (Elt F)) (R m c (Proc.devRef .tc main_v412)) (R m c (Proc.devRef .tc main_arg12))) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (R m c (Proc.devRef .tc main_arg13))))) ((broadcastInDim S80000x128 ![] bcast_S_S80000x128 : (⟨S_, .f32⟩ : BufTy).Contents (Elt F) → (⟨S80000x128, .f32⟩ : BufTy).Contents (Elt F)) (constant S_ .f32 0x00000000#32 : (⟨S_, .f32⟩ : BufTy).Contents (Elt F)))) (R m c (Proc.devRef .tc main_arg14))) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (R m c (Proc.devRef .tc main_arg15))))) ((broadcastInDim S80000x128 ![] bcast_S_S80000x128 : (⟨S_, .f32⟩ : BufTy).Contents (Elt F) → (⟨S80000x128, .f32⟩ : BufTy).Contents (Elt F)) (constant S_ .f32 0x00000000#32 : (⟨S_, .f32⟩ : BufTy).Contents (Elt F))))) := by
  have e := ref_27_v423 (A_27 m c)
  rw [A_27_eq m c in_27_v412, A_27_eq m c in_27_arg12, A_27_eq m c in_27_arg13, A_27_eq m c in_27_arg14, A_27_eq m c in_27_arg15, A_27_eq m c in_27_v361] at e
  exact (R_of_28 m c nw_v423).trans e

/-! ## Piece 28 (step 2): per edge, the embedded features of its source and of its destination, its own, and its graph's global row, side by side -/

/-- A buffer piece 28 does not write keeps its contents through it. -/
theorem keep_28 (W : Valuation τ sig (Elt F)) {r : Ref sig .tc} (h : r ∉ ops_28_W) :
    after (ops_28 : List (HloOp τ sig (Elt F))) W (Proc.devRef .tc r) = W (Proc.devRef .tc r) :=
  after_of_writes_sub ops_28 W ops_28_writes h
theorem in_28_v1 : main_v1 ∉ tailW_28 := later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (nw_v1)))))))))))))))))))))))))))
theorem in_28_v396 : main_v396 ∉ tailW_28 := later_28 (later_27 (nw_v396))
theorem in_28_v3 : main_v3 ∉ tailW_28 := later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (nw_v3)))))))))))))))))))))))))))
theorem in_28_arg5 : main_arg5 ∉ tailW_28 := later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg5))))))))))))))))))))))))))))
theorem in_28_v362 : main_v362 ∉ tailW_28 := later_28 (later_27 (later_26 (later_25 (later_24 (nw_v362)))))
theorem in_28_v423 : main_v423 ∉ tailW_28 := nw_v423

/-- `v430` after piece 28, from the contents before it. -/
theorem ref_28_v430 (W : Valuation τ sig (Elt F)) :
    after (ops_28 : List (HloOp τ sig (Elt F))) W (Proc.devRef .tc main_v430)
      = (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (W (Proc.devRef .tc main_v396)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v1))))) := by
  after_results_simp <;> rfl

/-- The same equation on the final contents: `v430` is written once, and what it is computed from is never written again. -/
theorem fin_v430 (m : (ℓ : Loc nD τ sig) → Buf (Elt F) ℓ) (c : Dev nD) :
    R m c (Proc.devRef .tc main_v430)
      = (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (R m c (Proc.devRef .tc main_v396)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v1))))) := by
  have e := ref_28_v430 (A_28 m c)
  rw [A_28_eq m c in_28_v1, A_28_eq m c in_28_v396] at e
  exact (R_of_29 m c nw_v430).trans e

/-- `v437` after piece 28, from the contents before it. -/
theorem ref_28_v437 (W : Valuation τ sig (Elt F)) :
    after (ops_28 : List (HloOp τ sig (Elt F))) W (Proc.devRef .tc main_v437)
      = (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (W (Proc.devRef .tc main_v396)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v3))))) := by
  after_results_simp <;> rfl

/-- The same equation on the final contents: `v437` is written once, and what it is computed from is never written again. -/
theorem fin_v437 (m : (ℓ : Loc nD τ sig) → Buf (Elt F) ℓ) (c : Dev nD) :
    R m c (Proc.devRef .tc main_v437)
      = (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (R m c (Proc.devRef .tc main_v396)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v3))))) := by
  have e := ref_28_v437 (A_28 m c)
  rw [A_28_eq m c in_28_v396, A_28_eq m c in_28_v3] at e
  exact (R_of_29 m c nw_v437).trans e

/-- `v444` after piece 28, from the contents before it. -/
theorem ref_28_v444 (W : Valuation τ sig (Elt F)) :
    after (ops_28 : List (HloOp τ sig (Elt F))) W (Proc.devRef .tc main_v444)
      = (((fun x i => Host.gather gather_S64x128_S80000x1_S80000x128_1_0_n_n_0_1_1128 x i) : (⟨S64x128, .f32⟩ : BufTy).Contents (Elt F) → (⟨S80000x1, .i32⟩ : BufTy).Contents (Elt F) → (⟨S80000x128, .f32⟩ : BufTy).Contents (Elt F)) (W (Proc.devRef .tc main_v362)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_arg5)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_arg5)) ((broadcastInDim S80000 ![] bcast_S_S80000 : (⟨S_, .i32⟩ : BufTy).Contents (Elt F) → (⟨S80000, .i32⟩ : BufTy).Contents (Elt F)) (constantI S_ 32 64#32 : (⟨S_, .i32⟩ : BufTy).Contents (Elt F)))) (W (Proc.devRef .tc main_arg5))))) := by
  after_results_simp <;> rfl

/-- The same equation on the final contents: `v444` is written once, and what it is computed from is never written again. -/
theorem fin_v444 (m : (ℓ : Loc nD τ sig) → Buf (Elt F) ℓ) (c : Dev nD) :
    R m c (Proc.devRef .tc main_v444)
      = (((fun x i => Host.gather gather_S64x128_S80000x1_S80000x128_1_0_n_n_0_1_1128 x i) : (⟨S64x128, .f32⟩ : BufTy).Contents (Elt F) → (⟨S80000x1, .i32⟩ : BufTy).Contents (Elt F) → (⟨S80000x128, .f32⟩ : BufTy).Contents (Elt F)) (R m c (Proc.devRef .tc main_v362)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_arg5)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_arg5)) ((broadcastInDim S80000 ![] bcast_S_S80000 : (⟨S_, .i32⟩ : BufTy).Contents (Elt F) → (⟨S80000, .i32⟩ : BufTy).Contents (Elt F)) (constantI S_ 32 64#32 : (⟨S_, .i32⟩ : BufTy).Contents (Elt F)))) (R m c (Proc.devRef .tc main_arg5))))) := by
  have e := ref_28_v444 (A_28 m c)
  rw [A_28_eq m c in_28_arg5, A_28_eq m c in_28_v362] at e
  exact (R_of_29 m c nw_v444).trans e

/-- `v445` after piece 28, from the contents before it. -/
theorem ref_28_v445 (W : Valuation τ sig (Elt F)) :
    after (ops_28 : List (HloOp τ sig (Elt F))) W (Proc.devRef .tc main_v445)
      = (concatenate S80000x512 1 [⟨S80000x128, (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (W (Proc.devRef .tc main_v396)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v1)))))⟩, ⟨S80000x128, (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (W (Proc.devRef .tc main_v396)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (W (Proc.devRef .tc main_v3)))))⟩, ⟨S80000x128, (W (Proc.devRef .tc main_v423))⟩, ⟨S80000x128, (((fun x i => Host.gather gather_S64x128_S80000x1_S80000x128_1_0_n_n_0_1_1128 x i) : (⟨S64x128, .f32⟩ : BufTy).Contents (Elt F) → (⟨S80000x1, .i32⟩ : BufTy).Contents (Elt F) → (⟨S80000x128, .f32⟩ : BufTy).Contents (Elt F)) (W (Proc.devRef .tc main_v362)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (W (Proc.devRef .tc main_arg5)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (W (Proc.devRef .tc main_arg5)) ((broadcastInDim S80000 ![] bcast_S_S80000 : (⟨S_, .i32⟩ : BufTy).Contents (Elt F) → (⟨S80000, .i32⟩ : BufTy).Contents (Elt F)) (constantI S_ 32 64#32 : (⟨S_, .i32⟩ : BufTy).Contents (Elt F)))) (W (Proc.devRef .tc main_arg5)))))⟩] concatenates_S80000x128_S80000x128_S80000x128_S80000x128_S80000x512_d1 : (⟨S80000x512, .f32⟩ : BufTy).Contents (Elt F)) := by
  after_results_simp <;> rfl

/-- The same equation on the final contents: `v445` is written once, and what it is computed from is never written again. -/
theorem fin_v445 (m : (ℓ : Loc nD τ sig) → Buf (Elt F) ℓ) (c : Dev nD) :
    R m c (Proc.devRef .tc main_v445)
      = (concatenate S80000x512 1 [⟨S80000x128, (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (R m c (Proc.devRef .tc main_v396)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v1)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v1)))))⟩, ⟨S80000x128, (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (R m c (Proc.devRef .tc main_v396)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_v3)) ((broadcastInDim S80000 ![] bcast_S_S80000 : (⟨S_, .i32⟩ : BufTy).Contents (Elt F) → (⟨S80000, .i32⟩ : BufTy).Contents (Elt F)) (constantI S_ 32 5000#32 : (⟨S_, .i32⟩ : BufTy).Contents (Elt F)))) (R m c (Proc.devRef .tc main_v3)))))⟩, ⟨S80000x128, (R m c (Proc.devRef .tc main_v423))⟩, ⟨S80000x128, (((fun x i => Host.gather gather_S64x128_S80000x1_S80000x128_1_0_n_n_0_1_1128 x i) : (⟨S64x128, .f32⟩ : BufTy).Contents (Elt F) → (⟨S80000x1, .i32⟩ : BufTy).Contents (Elt F) → (⟨S80000x128, .f32⟩ : BufTy).Contents (Elt F)) (R m c (Proc.devRef .tc main_v362)) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (R m c (Proc.devRef .tc main_arg5)) ((broadcastInDim S80000 ![] bcast_S_S80000 : (⟨S_, .i32⟩ : BufTy).Contents (Elt F) → (⟨S80000, .i32⟩ : BufTy).Contents (Elt F)) (constantI S_ 32 0#32 : (⟨S_, .i32⟩ : BufTy).Contents (Elt F)))) ((addi : (⟨S80000, .i32⟩ : BufTy).Contents (Elt F) → (⟨S80000, .i32⟩ : BufTy).Contents (Elt F) → (⟨S80000, .i32⟩ : BufTy).Contents (Elt F)) (R m c (Proc.devRef .tc main_arg5)) ((broadcastInDim S80000 ![] bcast_S_S80000 : (⟨S_, .i32⟩ : BufTy).Contents (Elt F) → (⟨S80000, .i32⟩ : BufTy).Contents (Elt F)) (constantI S_ 32 64#32 : (⟨S_, .i32⟩ : BufTy).Contents (Elt F)))) (R m c (Proc.devRef .tc main_arg5)))))⟩] concatenates_S80000x128_S80000x128_S80000x128_S80000x128_S80000x512_d1 : (⟨S80000x512, .f32⟩ : BufTy).Contents (Elt F)) := by
  have e := ref_28_v445 (A_28 m c)
  rw [A_28_eq m c in_28_v1, A_28_eq m c in_28_v396, A_28_eq m c in_28_v3, A_28_eq m c in_28_arg5, A_28_eq m c in_28_v362, A_28_eq m c in_28_v423] at e
  exact (R_of_29 m c nw_v445).trans e

/-! ## Piece 29 (step 2): the three-layer edge network on those rows -/

/-- A buffer piece 29 does not write keeps its contents through it. -/
theorem keep_29 (W : Valuation τ sig (Elt F)) {r : Ref sig .tc} (h : r ∉ ops_29_W) :
    after (ops_29 : List (HloOp τ sig (Elt F))) W (Proc.devRef .tc r) = W (Proc.devRef .tc r) :=
  after_of_writes_sub ops_29 W ops_29_writes h
theorem in_29_arg16 : main_arg16 ∉ tailW_29 := later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg16)))))))))))))))))))))))))))))
theorem in_29_arg18 : main_arg18 ∉ tailW_29 := later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg18)))))))))))))))))))))))))))))
theorem in_29_arg20 : main_arg20 ∉ tailW_29 := later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg20)))))))))))))))))))))))))))))
theorem in_29_arg17 : main_arg17 ∉ tailW_29 := later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg17)))))))))))))))))))))))))))))
theorem in_29_arg19 : main_arg19 ∉ tailW_29 := later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg19)))))))))))))))))))))))))))))
theorem in_29_arg21 : main_arg21 ∉ tailW_29 := later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg21)))))))))))))))))))))))))))))
theorem in_29_v445 : main_v445 ∉ tailW_29 := nw_v445

/-- `v472` after piece 29, from the contents before it. -/
theorem ref_29_v472 (W : Valuation τ sig (Elt F)) :
    after (ops_29 : List (HloOp τ sig (Elt F))) W (Proc.devRef .tc main_v472)
      = ((maximumf : (⟨S80000x128, .f32⟩ : BufTy).Contents (Elt F) → (⟨S80000x128, .f32⟩ : BufTy).Contents (Elt F) → (⟨S80000x128, .f32⟩ : BufTy).Contents (Elt F)) ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x512_S512x128_S80000x128_1_0_0_1_n_n none l r) : (⟨S80000x512, .f32⟩ : BufTy).Contents (Elt F) → (⟨S512x128, .f32⟩ : BufTy).Contents (Elt F) → (⟨S80000x128, .f32⟩ : BufTy).Contents (Elt F)) ((maximumf : (⟨S80000x512, .f32⟩ : BufTy).Contents (Elt F) → (⟨S80000x512, .f32⟩ : BufTy).Contents (Elt F) → (⟨S80000x512, .f32⟩ : BufTy).Contents (Elt F)) ((addf : (⟨S80000x512, .f32⟩ : BufTy).Contents (Elt F) → (⟨S80000x512, .f32⟩ : BufTy).Contents (Elt F) → (⟨S80000x512, .f32⟩ : BufTy).Contents (Elt F)) (((fun l r => Host.dotGeneral dot_S80000x512_S512x512_S80000x512_1_0_0_1_n_n none l r) : (⟨S80000x512, .f32⟩ : BufTy).Contents (Elt F) → (⟨S512x512, .f32⟩ : BufTy).Contents (Elt F) → (⟨S80000x512, .f32⟩ : BufTy).Contents (Elt F)) ((maximumf : (⟨S80000x512, .f32⟩ : BufTy).Contents (Elt F) → (⟨S80000x512, .f32⟩ : BufTy).Contents (Elt F) → (⟨S80000x512, .f32⟩ : BufTy).Contents (Elt F)) ((addf : (⟨S80000x512, .f32⟩ : BufTy).Contents (Elt F) → (⟨S80000x512, .f32⟩ : BufTy).Contents (Elt F) → (⟨S80000x512, .f32⟩ : BufTy).Contents (Elt F)) (((fun l r => Host.dotGeneral dot_S80000x512_S512x512_S80000x512_1_0_0_1_n_n none l r) : (⟨S80000x512, .f32⟩ : BufTy).Contents (Elt F) → (⟨S512x512, .f32⟩ : BufTy).Contents (Elt F) → (⟨S80000x512, .f32⟩ : BufTy).Contents (Elt F)) (W (Proc.devRef .tc main_v445)) (shapeCast S512x512 (((extractStridedSlice S1x512x512 ![2, 0, 0] · slices_S3x512x512_S1x512x512_2_0_0) : (⟨S3x512x512, .f32⟩ : BufTy).Contents (Elt F) → (⟨S1x512x512, .f32⟩ : BufTy).Contents (Elt F)) (W (Proc.devRef .tc main_arg16))) shapeCasts_S1x512x512_S512x512 : (⟨S512x512, .f32⟩ : BufTy).Contents (Elt F))) ((broadcastInDim S80000x512 ![0, 1] bcast_S1x512_S80000x512_0_1 : (⟨S1x512, .f32⟩ : BufTy).Contents (Elt F) → (⟨S80000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![2, 0] · slices_S3x512_S1x512_2_0) : (⟨S3x512, .f32⟩ : BufTy).Contents (Elt F) → (⟨S1x512, .f32⟩ : BufTy).Contents (Elt F)) (W (Proc.devRef .tc main_arg17))) shapeCasts_S1x512_S512 : (⟨S512, .f32⟩ : BufTy).Contents (Elt F))))) ((broadcastInDim S80000x512 ![] bcast_S_S80000x512 : (⟨S_, .f32⟩ : BufTy).Contents (Elt F) → (⟨S80000x512, .f32⟩ : BufTy).Contents (Elt F)) (constant S_ .f32 0x00000000#32 : (⟨S_, .f32⟩ : BufTy).Contents (Elt F)))) (shapeCast S512x512 (((extractStridedSlice S1x512x512 ![2, 0, 0] · slices_S3x512x512_S1x512x512_2_0_0) : (⟨S3x512x512, .f32⟩ : BufTy).Contents (Elt F) → (⟨S1x512x512, .f32⟩ : BufTy).Contents (Elt F)) (W (Proc.devRef .tc main_arg18))) shapeCasts_S1x512x512_S512x512 : (⟨S512x512, .f32⟩ : BufTy).Contents (Elt F))) ((broadcastInDim S80000x512 ![0, 1] bcast_S1x512_S80000x512_0_1 : (⟨S1x512, .f32⟩ : BufTy).Contents (Elt F) → (⟨S80000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![2, 0] · slices_S3x512_S1x512_2_0) : (⟨S3x512, .f32⟩ : BufTy).Contents (Elt F) → (⟨S1x512, .f32⟩ : BufTy).Contents (Elt F)) (W (Proc.devRef .tc main_arg19))) shapeCasts_S1x512_S512 : (⟨S512, .f32⟩ : BufTy).Contents (Elt F))))) ((broadcastInDim S80000x512 ![] bcast_S_S80000x512 : (⟨S_, .f32⟩ : BufTy).Contents (Elt F) → (⟨S80000x512, .f32⟩ : BufTy).Contents (Elt F)) (constant S_ .f32 0x00000000#32 : (⟨S_, .f32⟩ : BufTy).Contents (Elt F)))) (shapeCast S512x128 (((extractStridedSlice S1x512x128 ![2, 0, 0] · slices_S3x512x128_S1x512x128_2_0_0) : (⟨S3x512x128, .f32⟩ : BufTy).Contents (Elt F) → (⟨S1x512x128, .f32⟩ : BufTy).Contents (Elt F)) (W (Proc.devRef .tc main_arg20))) shapeCasts_S1x512x128_S512x128 : (⟨S512x128, .f32⟩ : BufTy).Contents (Elt F))) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![2, 0] · slices_S3x128_S1x128_2_0) : (⟨S3x128, .f32⟩ : BufTy).Contents (Elt F) → (⟨S1x128, .f32⟩ : BufTy).Contents (Elt F)) (W (Proc.devRef .tc main_arg21))) shapeCasts_S1x128_S128 : (⟨S128, .f32⟩ : BufTy).Contents (Elt F))))) ((broadcastInDim S80000x128 ![] bcast_S_S80000x128 : (⟨S_, .f32⟩ : BufTy).Contents (Elt F) → (⟨S80000x128, .f32⟩ : BufTy).Contents (Elt F)) (constant S_ .f32 0x00000000#32 : (⟨S_, .f32⟩ : BufTy).Contents (Elt F)))) := by
  after_results_simp <;> rfl

/-- The same equation on the final contents: `v472` is written once, and what it is computed from is never written again. -/
theorem fin_v472 (m : (ℓ : Loc nD τ sig) → Buf (Elt F) ℓ) (c : Dev nD) :
    R m c (Proc.devRef .tc main_v472)
      = ((maximumf : (⟨S80000x128, .f32⟩ : BufTy).Contents (Elt F) → (⟨S80000x128, .f32⟩ : BufTy).Contents (Elt F) → (⟨S80000x128, .f32⟩ : BufTy).Contents (Elt F)) ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x512_S512x128_S80000x128_1_0_0_1_n_n none l r) : (⟨S80000x512, .f32⟩ : BufTy).Contents (Elt F) → (⟨S512x128, .f32⟩ : BufTy).Contents (Elt F) → (⟨S80000x128, .f32⟩ : BufTy).Contents (Elt F)) ((maximumf : (⟨S80000x512, .f32⟩ : BufTy).Contents (Elt F) → (⟨S80000x512, .f32⟩ : BufTy).Contents (Elt F) → (⟨S80000x512, .f32⟩ : BufTy).Contents (Elt F)) ((addf : (⟨S80000x512, .f32⟩ : BufTy).Contents (Elt F) → (⟨S80000x512, .f32⟩ : BufTy).Contents (Elt F) → (⟨S80000x512, .f32⟩ : BufTy).Contents (Elt F)) (((fun l r => Host.dotGeneral dot_S80000x512_S512x512_S80000x512_1_0_0_1_n_n none l r) : (⟨S80000x512, .f32⟩ : BufTy).Contents (Elt F) → (⟨S512x512, .f32⟩ : BufTy).Contents (Elt F) → (⟨S80000x512, .f32⟩ : BufTy).Contents (Elt F)) ((maximumf : (⟨S80000x512, .f32⟩ : BufTy).Contents (Elt F) → (⟨S80000x512, .f32⟩ : BufTy).Contents (Elt F) → (⟨S80000x512, .f32⟩ : BufTy).Contents (Elt F)) ((addf : (⟨S80000x512, .f32⟩ : BufTy).Contents (Elt F) → (⟨S80000x512, .f32⟩ : BufTy).Contents (Elt F) → (⟨S80000x512, .f32⟩ : BufTy).Contents (Elt F)) (((fun l r => Host.dotGeneral dot_S80000x512_S512x512_S80000x512_1_0_0_1_n_n none l r) : (⟨S80000x512, .f32⟩ : BufTy).Contents (Elt F) → (⟨S512x512, .f32⟩ : BufTy).Contents (Elt F) → (⟨S80000x512, .f32⟩ : BufTy).Contents (Elt F)) (R m c (Proc.devRef .tc main_v445)) (shapeCast S512x512 (((extractStridedSlice S1x512x512 ![2, 0, 0] · slices_S3x512x512_S1x512x512_2_0_0) : (⟨S3x512x512, .f32⟩ : BufTy).Contents (Elt F) → (⟨S1x512x512, .f32⟩ : BufTy).Contents (Elt F)) (R m c (Proc.devRef .tc main_arg16))) shapeCasts_S1x512x512_S512x512 : (⟨S512x512, .f32⟩ : BufTy).Contents (Elt F))) ((broadcastInDim S80000x512 ![0, 1] bcast_S1x512_S80000x512_0_1 : (⟨S1x512, .f32⟩ : BufTy).Contents (Elt F) → (⟨S80000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![2, 0] · slices_S3x512_S1x512_2_0) : (⟨S3x512, .f32⟩ : BufTy).Contents (Elt F) → (⟨S1x512, .f32⟩ : BufTy).Contents (Elt F)) (R m c (Proc.devRef .tc main_arg17))) shapeCasts_S1x512_S512 : (⟨S512, .f32⟩ : BufTy).Contents (Elt F))))) ((broadcastInDim S80000x512 ![] bcast_S_S80000x512 : (⟨S_, .f32⟩ : BufTy).Contents (Elt F) → (⟨S80000x512, .f32⟩ : BufTy).Contents (Elt F)) (constant S_ .f32 0x00000000#32 : (⟨S_, .f32⟩ : BufTy).Contents (Elt F)))) (shapeCast S512x512 (((extractStridedSlice S1x512x512 ![2, 0, 0] · slices_S3x512x512_S1x512x512_2_0_0) : (⟨S3x512x512, .f32⟩ : BufTy).Contents (Elt F) → (⟨S1x512x512, .f32⟩ : BufTy).Contents (Elt F)) (R m c (Proc.devRef .tc main_arg18))) shapeCasts_S1x512x512_S512x512 : (⟨S512x512, .f32⟩ : BufTy).Contents (Elt F))) ((broadcastInDim S80000x512 ![0, 1] bcast_S1x512_S80000x512_0_1 : (⟨S1x512, .f32⟩ : BufTy).Contents (Elt F) → (⟨S80000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![2, 0] · slices_S3x512_S1x512_2_0) : (⟨S3x512, .f32⟩ : BufTy).Contents (Elt F) → (⟨S1x512, .f32⟩ : BufTy).Contents (Elt F)) (R m c (Proc.devRef .tc main_arg19))) shapeCasts_S1x512_S512 : (⟨S512, .f32⟩ : BufTy).Contents (Elt F))))) ((broadcastInDim S80000x512 ![] bcast_S_S80000x512 : (⟨S_, .f32⟩ : BufTy).Contents (Elt F) → (⟨S80000x512, .f32⟩ : BufTy).Contents (Elt F)) (constant S_ .f32 0x00000000#32 : (⟨S_, .f32⟩ : BufTy).Contents (Elt F)))) (shapeCast S512x128 (((extractStridedSlice S1x512x128 ![2, 0, 0] · slices_S3x512x128_S1x512x128_2_0_0) : (⟨S3x512x128, .f32⟩ : BufTy).Contents (Elt F) → (⟨S1x512x128, .f32⟩ : BufTy).Contents (Elt F)) (R m c (Proc.devRef .tc main_arg20))) shapeCasts_S1x512x128_S512x128 : (⟨S512x128, .f32⟩ : BufTy).Contents (Elt F))) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![2, 0] · slices_S3x128_S1x128_2_0) : (⟨S3x128, .f32⟩ : BufTy).Contents (Elt F) → (⟨S1x128, .f32⟩ : BufTy).Contents (Elt F)) (R m c (Proc.devRef .tc main_arg21))) shapeCasts_S1x128_S128 : (⟨S128, .f32⟩ : BufTy).Contents (Elt F))))) ((broadcastInDim S80000x128 ![] bcast_S_S80000x128 : (⟨S_, .f32⟩ : BufTy).Contents (Elt F) → (⟨S80000x128, .f32⟩ : BufTy).Contents (Elt F)) (constant S_ .f32 0x00000000#32 : (⟨S_, .f32⟩ : BufTy).Contents (Elt F)))) := by
  have e := ref_29_v472 (A_29 m c)
  rw [A_29_eq m c in_29_arg16, A_29_eq m c in_29_arg18, A_29_eq m c in_29_arg20, A_29_eq m c in_29_arg17, A_29_eq m c in_29_arg19, A_29_eq m c in_29_arg21, A_29_eq m c in_29_v445] at e
  exact (R_of_30 m c nw_v472).trans e

/-! ## Piece 30 (step 2): per node, its embedded features, the sum of the new edge rows leaving it, the sum of those entering it, and its graph's global row, side by side -/

/-- A buffer piece 30 does not write keeps its contents through it. -/
theorem keep_30 (W : Valuation τ sig (Elt F)) {r : Ref sig .tc} (h : r ∉ ops_30_W) :
    after (ops_30 : List (HloOp τ sig (Elt F))) W (Proc.devRef .tc r) = W (Proc.devRef .tc r) :=
  after_of_writes_sub ops_30 W ops_30_writes h
theorem in_30_v1 : main_v1 ∉ tailW_30 := later_30 (later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (nw_v1)))))))))))))))))))))))))))))
theorem in_30_v472 : main_v472 ∉ tailW_30 := nw_v472
theorem in_30_v3 : main_v3 ∉ tailW_30 := later_30 (later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (nw_v3)))))))))))))))))))))))))))))
theorem in_30_arg4 : main_arg4 ∉ tailW_30 := later_30 (later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg4))))))))))))))))))))))))))))))
theorem in_30_v362 : main_v362 ∉ tailW_30 := later_30 (later_29 (later_28 (later_27 (later_26 (later_25 (later_24 (nw_v362)))))))
theorem in_30_v396 : main_v396 ∉ tailW_30 := later_30 (later_29 (later_28 (later_27 (nw_v396))))

/-- `v475` after piece 30, from the contents before it. -/
theorem ref_30_v475 (W : Valuation τ sig (Elt F)) :
    after (ops_30 : List (HloOp τ sig (Elt F))) W (Proc.devRef .tc main_v475)
      = (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (W (Proc.devRef .tc main_v1))) (W (Proc.devRef .tc main_v472))) := by
  after_results_simp <;> rfl

/-- The same equation on the final contents: `v475` is written once, and what it is computed from is never written again. -/
theorem fin_v475 (m : (ℓ : Loc nD τ sig) → Buf (Elt F) ℓ) (c : Dev nD) :
    R m c (Proc.devRef .tc main_v475)
      = (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (R m c (Proc.devRef .tc main_v1))) (R m c (Proc.devRef .tc main_v472))) := by
  have e := ref_30_v475 (A_30 m c)
  rw [A_30_eq m c in_30_v1, A_30_eq m c in_30_v472] at e
  exact (R_of_31 m c nw_v475).trans e

/-- `v478` after piece 30, from the contents before it. -/
theorem ref_30_v478 (W : Valuation τ sig (Elt F)) :
    after (ops_30 : List (HloOp τ sig (Elt F))) W (Proc.devRef .tc main_v478)
      = (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (W (Proc.devRef .tc main_v3))) (W (Proc.devRef .tc main_v472))) := by
  after_results_simp <;> rfl

/-- The same equation on the final contents: `v478` is written once, and what it is computed from is never written again. -/
theorem fin_v478 (m : (ℓ : Loc nD τ sig) → Buf (Elt F) ℓ) (c : Dev nD) :
    R m c (Proc.devRef .tc main_v478)
      = (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (R m c (Proc.devRef .tc main_v3))) (R m c (Proc.devRef .tc main_v472))) := by
  have e := ref_30_v478 (A_30 m c)
  rw [A_30_eq m c in_30_v472, A_30_eq m c in_30_v3] at e
  exact (R_of_31 m c nw_v478).trans e

/-- `v485` after piece 30, from the contents before it. -/
theorem ref_30_v485 (W : Valuation τ sig (Elt F)) :
    after (ops_30 : List (HloOp τ sig (Elt F))) W (Proc.devRef .tc main_v485)
      = (((fun x i => Host.gather gather_S64x128_S5000x1_S5000x128_1_0_n_n_0_1_1128 x i) : (⟨S64x128, .f32⟩ : BufTy).Contents (Elt F) → (⟨S5000x1, .i32⟩ : BufTy).Contents (Elt F) → (⟨S5000x128, .f32⟩ : BufTy).Contents (Elt F)) (W (Proc.devRef .tc main_v362)) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (W (Proc.devRef .tc main_arg4)) ((broadcastInDim S5000 ![] bcast_S_S5000 : (⟨S_, .i32⟩ : BufTy).Contents (Elt F) → (⟨S5000, .i32⟩ : BufTy).Contents (Elt F)) (constantI S_ 32 0#32 : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) (W (Proc.devRef .tc main_arg4)) ((broadcastInDim S5000 ![] bcast_S_S5000 : (⟨S_, .i32⟩ : BufTy).Contents (Elt F) → (⟨S5000, .i32⟩ : BufTy).Contents (Elt F)) (constantI S_ 32 64#32 : (⟨S_, .i32⟩ : BufTy).Contents (Elt F)))) (W (Proc.devRef .tc main_arg4))))) := by
  after_results_simp <;> rfl

/-- The same equation on the final contents: `v485` is written once, and what it is computed from is never written again. -/
theorem fin_v485 (m : (ℓ : Loc nD τ sig) → Buf (Elt F) ℓ) (c : Dev nD) :
    R m c (Proc.devRef .tc main_v485)
      = (((fun x i => Host.gather gather_S64x128_S5000x1_S5000x128_1_0_n_n_0_1_1128 x i) : (⟨S64x128, .f32⟩ : BufTy).Contents (Elt F) → (⟨S5000x1, .i32⟩ : BufTy).Contents (Elt F) → (⟨S5000x128, .f32⟩ : BufTy).Contents (Elt F)) (R m c (Proc.devRef .tc main_v362)) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (R m c (Proc.devRef .tc main_arg4)) ((broadcastInDim S5000 ![] bcast_S_S5000 : (⟨S_, .i32⟩ : BufTy).Contents (Elt F) → (⟨S5000, .i32⟩ : BufTy).Contents (Elt F)) (constantI S_ 32 0#32 : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) (R m c (Proc.devRef .tc main_arg4)) ((broadcastInDim S5000 ![] bcast_S_S5000 : (⟨S_, .i32⟩ : BufTy).Contents (Elt F) → (⟨S5000, .i32⟩ : BufTy).Contents (Elt F)) (constantI S_ 32 64#32 : (⟨S_, .i32⟩ : BufTy).Contents (Elt F)))) (R m c (Proc.devRef .tc main_arg4))))) := by
  have e := ref_30_v485 (A_30 m c)
  rw [A_30_eq m c in_30_arg4, A_30_eq m c in_30_v362] at e
  exact (R_of_31 m c nw_v485).trans e

/-- `v486` after piece 30, from the contents before it. -/
theorem ref_30_v486 (W : Valuation τ sig (Elt F)) :
    after (ops_30 : List (HloOp τ sig (Elt F))) W (Proc.devRef .tc main_v486)
      = (concatenate S5000x512 1 [⟨S5000x128, (W (Proc.devRef .tc main_v396))⟩, ⟨S5000x128, (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (W (Proc.devRef .tc main_v1))) (W (Proc.devRef .tc main_v472)))⟩, ⟨S5000x128, (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (W (Proc.devRef .tc main_v3))) (W (Proc.devRef .tc main_v472)))⟩, ⟨S5000x128, (((fun x i => Host.gather gather_S64x128_S5000x1_S5000x128_1_0_n_n_0_1_1128 x i) : (⟨S64x128, .f32⟩ : BufTy).Contents (Elt F) → (⟨S5000x1, .i32⟩ : BufTy).Contents (Elt F) → (⟨S5000x128, .f32⟩ : BufTy).Contents (Elt F)) (W (Proc.devRef .tc main_v362)) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (W (Proc.devRef .tc main_arg4)) ((broadcastInDim S5000 ![] bcast_S_S5000 : (⟨S_, .i32⟩ : BufTy).Contents (Elt F) → (⟨S5000, .i32⟩ : BufTy).Contents (Elt F)) (constantI S_ 32 0#32 : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) (W (Proc.devRef .tc main_arg4)) ((broadcastInDim S5000 ![] bcast_S_S5000 : (⟨S_, .i32⟩ : BufTy).Contents (Elt F) → (⟨S5000, .i32⟩ : BufTy).Contents (Elt F)) (constantI S_ 32 64#32 : (⟨S_, .i32⟩ : BufTy).Contents (Elt F)))) (W (Proc.devRef .tc main_arg4)))))⟩] concatenates_S5000x128_S5000x128_S5000x128_S5000x128_S5000x512_d1 : (⟨S5000x512, .f32⟩ : BufTy).Contents (Elt F)) := by
  after_results_simp <;> rfl

/-- The same equation on the final contents: `v486` is written once, and what it is computed from is never written again. -/
theorem fin_v486 (m : (ℓ : Loc nD τ sig) → Buf (Elt F) ℓ) (c : Dev nD) :
    R m c (Proc.devRef .tc main_v486)
      = (concatenate S5000x512 1 [⟨S5000x128, (R m c (Proc.devRef .tc main_v396))⟩, ⟨S5000x128, (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (R m c (Proc.devRef .tc main_v1))) (R m c (Proc.devRef .tc main_v472)))⟩, ⟨S5000x128, (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F))) ((broadcastInDim S80000x1 ![0] bcast_S80000_S80000x1_0 : (⟨S80000, .i32⟩ : BufTy).Contents (Elt F) → (⟨S80000x1, .i32⟩ : BufTy).Contents (Elt F)) (R m c (Proc.devRef .tc main_v3))) (R m c (Proc.devRef .tc main_v472)))⟩, ⟨S5000x128, (((fun x i => Host.gather gather_S64x128_S5000x1_S5000x128_1_0_n_n_0_1_1128 x i) : (⟨S64x128, .f32⟩ : BufTy).Contents (Elt F) → (⟨S5000x1, .i32⟩ : BufTy).Contents (Elt F) → (⟨S5000x128, .f32⟩ : BufTy).Contents (Elt F)) (R m c (Proc.devRef .tc main_v362)) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (R m c (Proc.devRef .tc main_arg4)) ((broadcastInDim S5000 ![] bcast_S_S5000 : (⟨S_, .i32⟩ : BufTy).Contents (Elt F) → (⟨S5000, .i32⟩ : BufTy).Contents (Elt F)) (constantI S_ 32 0#32 : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) (R m c (Proc.devRef .tc main_arg4)) ((broadcastInDim S5000 ![] bcast_S_S5000 : (⟨S_, .i32⟩ : BufTy).Contents (Elt F) → (⟨S5000, .i32⟩ : BufTy).Contents (Elt F)) (constantI S_ 32 64#32 : (⟨S_, .i32⟩ : BufTy).Contents (Elt F)))) (R m c (Proc.devRef .tc main_arg4)))))⟩] concatenates_S5000x128_S5000x128_S5000x128_S5000x128_S5000x512_d1 : (⟨S5000x512, .f32⟩ : BufTy).Contents (Elt F)) := by
  have e := ref_30_v486 (A_30 m c)
  rw [A_30_eq m c in_30_v1, A_30_eq m c in_30_v472, A_30_eq m c in_30_v3, A_30_eq m c in_30_arg4, A_30_eq m c in_30_v362, A_30_eq m c in_30_v396] at e
  exact (R_of_31 m c nw_v486).trans e

/-! ## Piece 31 (step 2): the three-layer node network on those rows -/

/-- A buffer piece 31 does not write keeps its contents through it. -/
theorem keep_31 (W : Valuation τ sig (Elt F)) {r : Ref sig .tc} (h : r ∉ ops_31_W) :
    after (ops_31 : List (HloOp τ sig (Elt F))) W (Proc.devRef .tc r) = W (Proc.devRef .tc r) :=
  after_of_writes_sub ops_31 W ops_31_writes h
theorem in_31_arg22 : main_arg22 ∉ tailW_31 := later_31 (later_30 (later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg22)))))))))))))))))))))))))))))))
theorem in_31_arg24 : main_arg24 ∉ tailW_31 := later_31 (later_30 (later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg24)))))))))))))))))))))))))))))))
theorem in_31_arg26 : main_arg26 ∉ tailW_31 := later_31 (later_30 (later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg26)))))))))))))))))))))))))))))))
theorem in_31_arg23 : main_arg23 ∉ tailW_31 := later_31 (later_30 (later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg23)))))))))))))))))))))))))))))))
theorem in_31_arg25 : main_arg25 ∉ tailW_31 := later_31 (later_30 (later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg25)))))))))))))))))))))))))))))))
theorem in_31_arg27 : main_arg27 ∉ tailW_31 := later_31 (later_30 (later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg27)))))))))))))))))))))))))))))))
theorem in_31_v486 : main_v486 ∉ tailW_31 := nw_v486

/-- `v513` after piece 31, from the contents before it. -/
theorem ref_31_v513 (W : Valuation τ sig (Elt F)) :
    after (ops_31 : List (HloOp τ sig (Elt F))) W (Proc.devRef .tc main_v513)
      = ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x512_S512x128_S5000x128_1_0_0_1_n_n none l r) : (⟨S5000x512, .f32⟩ : BufTy).Contents (Elt F) → (⟨S512x128, .f32⟩ : BufTy).Contents (Elt F) → (⟨S5000x128, .f32⟩ : BufTy).Contents (Elt F)) ((maximumf : (⟨S5000x512, .f32⟩ : BufTy).Contents (Elt F) → (⟨S5000x512, .f32⟩ : BufTy).Contents (Elt F) → (⟨S5000x512, .f32⟩ : BufTy).Contents (Elt F)) ((addf : (⟨S5000x512, .f32⟩ : BufTy).Contents (Elt F) → (⟨S5000x512, .f32⟩ : BufTy).Contents (Elt F) → (⟨S5000x512, .f32⟩ : BufTy).Contents (Elt F)) (((fun l r => Host.dotGeneral dot_S5000x512_S512x512_S5000x512_1_0_0_1_n_n none l r) : (⟨S5000x512, .f32⟩ : BufTy).Contents (Elt F) → (⟨S512x512, .f32⟩ : BufTy).Contents (Elt F) → (⟨S5000x512, .f32⟩ : BufTy).Contents (Elt F)) ((maximumf : (⟨S5000x512, .f32⟩ : BufTy).Contents (Elt F) → (⟨S5000x512, .f32⟩ : BufTy).Contents (Elt F) → (⟨S5000x512, .f32⟩ : BufTy).Contents (Elt F)) ((addf : (⟨S5000x512, .f32⟩ : BufTy).Contents (Elt F) → (⟨S5000x512, .f32⟩ : BufTy).Contents (Elt F) → (⟨S5000x512, .f32⟩ : BufTy).Contents (Elt F)) (((fun l r => Host.dotGeneral dot_S5000x512_S512x512_S5000x512_1_0_0_1_n_n none l r) : (⟨S5000x512, .f32⟩ : BufTy).Contents (Elt F) → (⟨S512x512, .f32⟩ : BufTy).Contents (Elt F) → (⟨S5000x512, .f32⟩ : BufTy).Contents (Elt F)) (W (Proc.devRef .tc main_v486)) (shapeCast S512x512 (((extractStridedSlice S1x512x512 ![2, 0, 0] · slices_S3x512x512_S1x512x512_2_0_0) : (⟨S3x512x512, .f32⟩ : BufTy).Contents (Elt F) → (⟨S1x512x512, .f32⟩ : BufTy).Contents (Elt F)) (W (Proc.devRef .tc main_arg22))) shapeCasts_S1x512x512_S512x512 : (⟨S512x512, .f32⟩ : BufTy).Contents (Elt F))) ((broadcastInDim S5000x512 ![0, 1] bcast_S1x512_S5000x512_0_1 : (⟨S1x512, .f32⟩ : BufTy).Contents (Elt F) → (⟨S5000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![2, 0] · slices_S3x512_S1x512_2_0) : (⟨S3x512, .f32⟩ : BufTy).Contents (Elt F) → (⟨S1x512, .f32⟩ : BufTy).Contents (Elt F)) (W (Proc.devRef .tc main_arg23))) shapeCasts_S1x512_S512 : (⟨S512, .f32⟩ : BufTy).Contents (Elt F))))) ((broadcastInDim S5000x512 ![] bcast_S_S5000x512 : (⟨S_, .f32⟩ : BufTy).Contents (Elt F) → (⟨S5000x512, .f32⟩ : BufTy).Contents (Elt F)) (constant S_ .f32 0x00000000#32 : (⟨S_, .f32⟩ : BufTy).Contents (Elt F)))) (shapeCast S512x512 (((extractStridedSlice S1x512x512 ![2, 0, 0] · slices_S3x512x512_S1x512x512_2_0_0) : (⟨S3x512x512, .f32⟩ : BufTy).Contents (Elt F) → (⟨S1x512x512, .f32⟩ : BufTy).Contents (Elt F)) (W (Proc.devRef .tc main_arg24))) shapeCasts_S1x512x512_S512x512 : (⟨S512x512, .f32⟩ : BufTy).Contents (Elt F))) ((broadcastInDim S5000x512 ![0, 1] bcast_S1x512_S5000x512_0_1 : (⟨S1x512, .f32⟩ : BufTy).Contents (Elt F) → (⟨S5000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![2, 0] · slices_S3x512_S1x512_2_0) : (⟨S3x512, .f32⟩ : BufTy).Contents (Elt F) → (⟨S1x512, .f32⟩ : BufTy).Contents (Elt F)) (W (Proc.devRef .tc main_arg25))) shapeCasts_S1x512_S512 : (⟨S512, .f32⟩ : BufTy).Contents (Elt F))))) ((broadcastInDim S5000x512 ![] bcast_S_S5000x512 : (⟨S_, .f32⟩ : BufTy).Contents (Elt F) → (⟨S5000x512, .f32⟩ : BufTy).Contents (Elt F)) (constant S_ .f32 0x00000000#32 : (⟨S_, .f32⟩ : BufTy).Contents (Elt F)))) (shapeCast S512x128 (((extractStridedSlice S1x512x128 ![2, 0, 0] · slices_S3x512x128_S1x512x128_2_0_0) : (⟨S3x512x128, .f32⟩ : BufTy).Contents (Elt F) → (⟨S1x512x128, .f32⟩ : BufTy).Contents (Elt F)) (W (Proc.devRef .tc main_arg26))) shapeCasts_S1x512x128_S512x128 : (⟨S512x128, .f32⟩ : BufTy).Contents (Elt F))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![2, 0] · slices_S3x128_S1x128_2_0) : (⟨S3x128, .f32⟩ : BufTy).Contents (Elt F) → (⟨S1x128, .f32⟩ : BufTy).Contents (Elt F)) (W (Proc.devRef .tc main_arg27))) shapeCasts_S1x128_S128 : (⟨S128, .f32⟩ : BufTy).Contents (Elt F))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) := by
  after_results_simp <;> rfl

/-- The same equation on the final contents: `v513` is written once, and what it is computed from is never written again. -/
theorem fin_v513 (m : (ℓ : Loc nD τ sig) → Buf (Elt F) ℓ) (c : Dev nD) :
    R m c (Proc.devRef .tc main_v513)
      = ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x512_S512x128_S5000x128_1_0_0_1_n_n none l r) : (⟨S5000x512, .f32⟩ : BufTy).Contents (Elt F) → (⟨S512x128, .f32⟩ : BufTy).Contents (Elt F) → (⟨S5000x128, .f32⟩ : BufTy).Contents (Elt F)) ((maximumf : (⟨S5000x512, .f32⟩ : BufTy).Contents (Elt F) → (⟨S5000x512, .f32⟩ : BufTy).Contents (Elt F) → (⟨S5000x512, .f32⟩ : BufTy).Contents (Elt F)) ((addf : (⟨S5000x512, .f32⟩ : BufTy).Contents (Elt F) → (⟨S5000x512, .f32⟩ : BufTy).Contents (Elt F) → (⟨S5000x512, .f32⟩ : BufTy).Contents (Elt F)) (((fun l r => Host.dotGeneral dot_S5000x512_S512x512_S5000x512_1_0_0_1_n_n none l r) : (⟨S5000x512, .f32⟩ : BufTy).Contents (Elt F) → (⟨S512x512, .f32⟩ : BufTy).Contents (Elt F) → (⟨S5000x512, .f32⟩ : BufTy).Contents (Elt F)) ((maximumf : (⟨S5000x512, .f32⟩ : BufTy).Contents (Elt F) → (⟨S5000x512, .f32⟩ : BufTy).Contents (Elt F) → (⟨S5000x512, .f32⟩ : BufTy).Contents (Elt F)) ((addf : (⟨S5000x512, .f32⟩ : BufTy).Contents (Elt F) → (⟨S5000x512, .f32⟩ : BufTy).Contents (Elt F) → (⟨S5000x512, .f32⟩ : BufTy).Contents (Elt F)) (((fun l r => Host.dotGeneral dot_S5000x512_S512x512_S5000x512_1_0_0_1_n_n none l r) : (⟨S5000x512, .f32⟩ : BufTy).Contents (Elt F) → (⟨S512x512, .f32⟩ : BufTy).Contents (Elt F) → (⟨S5000x512, .f32⟩ : BufTy).Contents (Elt F)) (R m c (Proc.devRef .tc main_v486)) (shapeCast S512x512 (((extractStridedSlice S1x512x512 ![2, 0, 0] · slices_S3x512x512_S1x512x512_2_0_0) : (⟨S3x512x512, .f32⟩ : BufTy).Contents (Elt F) → (⟨S1x512x512, .f32⟩ : BufTy).Contents (Elt F)) (R m c (Proc.devRef .tc main_arg22))) shapeCasts_S1x512x512_S512x512 : (⟨S512x512, .f32⟩ : BufTy).Contents (Elt F))) ((broadcastInDim S5000x512 ![0, 1] bcast_S1x512_S5000x512_0_1 : (⟨S1x512, .f32⟩ : BufTy).Contents (Elt F) → (⟨S5000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![2, 0] · slices_S3x512_S1x512_2_0) : (⟨S3x512, .f32⟩ : BufTy).Contents (Elt F) → (⟨S1x512, .f32⟩ : BufTy).Contents (Elt F)) (R m c (Proc.devRef .tc main_arg23))) shapeCasts_S1x512_S512 : (⟨S512, .f32⟩ : BufTy).Contents (Elt F))))) ((broadcastInDim S5000x512 ![] bcast_S_S5000x512 : (⟨S_, .f32⟩ : BufTy).Contents (Elt F) → (⟨S5000x512, .f32⟩ : BufTy).Contents (Elt F)) (constant S_ .f32 0x00000000#32 : (⟨S_, .f32⟩ : BufTy).Contents (Elt F)))) (shapeCast S512x512 (((extractStridedSlice S1x512x512 ![2, 0, 0] · slices_S3x512x512_S1x512x512_2_0_0) : (⟨S3x512x512, .f32⟩ : BufTy).Contents (Elt F) → (⟨S1x512x512, .f32⟩ : BufTy).Contents (Elt F)) (R m c (Proc.devRef .tc main_arg24))) shapeCasts_S1x512x512_S512x512 : (⟨S512x512, .f32⟩ : BufTy).Contents (Elt F))) ((broadcastInDim S5000x512 ![0, 1] bcast_S1x512_S5000x512_0_1 : (⟨S1x512, .f32⟩ : BufTy).Contents (Elt F) → (⟨S5000x512, .f32⟩ : BufTy).Contents (Elt F)) ((broadcastInDim S1x512 ![1] bcast_S512_S1x512_1 : (⟨S512, .f32⟩ : BufTy).Contents (Elt F) → (⟨S1x512, .f32⟩ : BufTy).Contents (Elt F)) (shapeCast S512 (((extractStridedSlice S1x512 ![2, 0] · slices_S3x512_S1x512_2_0) : (⟨S3x512, .f32⟩ : BufTy).Contents (Elt F) → (⟨S1x512, .f32⟩ : BufTy).Contents (Elt F)) (R m c (Proc.devRef .tc main_arg25))) shapeCasts_S1x512_S512 : (⟨S512, .f32⟩ : BufTy).Contents (Elt F))))) ((broadcastInDim S5000x512 ![] bcast_S_S5000x512 : (⟨S_, .f32⟩ : BufTy).Contents (Elt F) → (⟨S5000x512, .f32⟩ : BufTy).Contents (Elt F)) (constant S_ .f32 0x00000000#32 : (⟨S_, .f32⟩ : BufTy).Contents (Elt F)))) (shapeCast S512x128 (((extractStridedSlice S1x512x128 ![2, 0, 0] · slices_S3x512x128_S1x512x128_2_0_0) : (⟨S3x512x128, .f32⟩ : BufTy).Contents (Elt F) → (⟨S1x512x128, .f32⟩ : BufTy).Contents (Elt F)) (R m c (Proc.devRef .tc main_arg26))) shapeCasts_S1x512x128_S512x128 : (⟨S512x128, .f32⟩ : BufTy).Contents (Elt F))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![2, 0] · slices_S3x128_S1x128_2_0) : (⟨S3x128, .f32⟩ : BufTy).Contents (Elt F) → (⟨S1x128, .f32⟩ : BufTy).Contents (Elt F)) (R m c (Proc.devRef .tc main_arg27))) shapeCasts_S1x128_S128 : (⟨S128, .f32⟩ : BufTy).Contents (Elt F))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) := by
  have e := ref_31_v513 (A_31 m c)
  rw [A_31_eq m c in_31_arg22, A_31_eq m c in_31_arg24, A_31_eq m c in_31_arg26, A_31_eq m c in_31_arg23, A_31_eq m c in_31_arg25, A_31_eq m c in_31_arg27, A_31_eq m c in_31_v486] at e
  exact (R_of_32 m c nw_v513).trans e

/-! ## Piece 32 (step 2): the residual sums: new node, edge and global features plus the old -/

/-- A buffer piece 32 does not write keeps its contents through it. -/
theorem keep_32 (W : Valuation τ sig (Elt F)) {r : Ref sig .tc} (h : r ∉ ops_32_W) :
    after (ops_32 : List (HloOp τ sig (Elt F))) W (Proc.devRef .tc r) = W (Proc.devRef .tc r) :=
  after_of_writes_sub ops_32 W ops_32_writes h
theorem in_32_v513 : main_v513 ∉ tailW_32 := nw_v513
theorem in_32_v360 : main_v360 ∉ tailW_32 := later_32 (later_31 (later_30 (later_29 (later_28 (later_27 (later_26 (later_25 (later_24 (nw_v360)))))))))
theorem in_32_v472 : main_v472 ∉ tailW_32 := later_32 (later_31 (nw_v472))
theorem in_32_v361 : main_v361 ∉ tailW_32 := later_32 (later_31 (later_30 (later_29 (later_28 (later_27 (later_26 (later_25 (later_24 (nw_v361)))))))))
theorem in_32_v362 : main_v362 ∉ tailW_32 := later_32 (later_31 (later_30 (later_29 (later_28 (later_27 (later_26 (later_25 (later_24 (nw_v362)))))))))

/-- `v514` after piece 32, from the contents before it. -/
theorem ref_32_v514 (W : Valuation τ sig (Elt F)) :
    after (ops_32 : List (HloOp τ sig (Elt F))) W (Proc.devRef .tc main_v514)
      = ((addf : (⟨S5000x128, .f32⟩ : BufTy).Contents (Elt F) → (⟨S5000x128, .f32⟩ : BufTy).Contents (Elt F) → (⟨S5000x128, .f32⟩ : BufTy).Contents (Elt F)) (W (Proc.devRef .tc main_v513)) (W (Proc.devRef .tc main_v360))) := by
  after_results_simp <;> rfl

/-- The same equation on the final contents: `v514` is written once, and what it is computed from is never written again. -/
theorem fin_v514 (m : (ℓ : Loc nD τ sig) → Buf (Elt F) ℓ) (c : Dev nD) :
    R m c (Proc.devRef .tc main_v514)
      = ((addf : (⟨S5000x128, .f32⟩ : BufTy).Contents (Elt F) → (⟨S5000x128, .f32⟩ : BufTy).Contents (Elt F) → (⟨S5000x128, .f32⟩ : BufTy).Contents (Elt F)) (R m c (Proc.devRef .tc main_v513)) (R m c (Proc.devRef .tc main_v360))) := by
  have e := ref_32_v514 (A_32 m c)
  rw [A_32_eq m c in_32_v513, A_32_eq m c in_32_v360] at e
  exact (R_of_33 m c nw_v514).trans e

/-- `v515` after piece 32, from the contents before it. -/
theorem ref_32_v515 (W : Valuation τ sig (Elt F)) :
    after (ops_32 : List (HloOp τ sig (Elt F))) W (Proc.devRef .tc main_v515)
      = ((addf : (⟨S80000x128, .f32⟩ : BufTy).Contents (Elt F) → (⟨S80000x128, .f32⟩ : BufTy).Contents (Elt F) → (⟨S80000x128, .f32⟩ : BufTy).Contents (Elt F)) (W (Proc.devRef .tc main_v472)) (W (Proc.devRef .tc main_v361))) := by
  after_results_simp <;> rfl

/-- The same equation on the final contents: `v515` is written once, and what it is computed from is never written again. -/
theorem fin_v515 (m : (ℓ : Loc nD τ sig) → Buf (Elt F) ℓ) (c : Dev nD) :
    R m c (Proc.devRef .tc main_v515)
      = ((addf : (⟨S80000x128, .f32⟩ : BufTy).Contents (Elt F) → (⟨S80000x128, .f32⟩ : BufTy).Contents (Elt F) → (⟨S80000x128, .f32⟩ : BufTy).Contents (Elt F)) (R m c (Proc.devRef .tc main_v472)) (R m c (Proc.devRef .tc main_v361))) := by
  have e := ref_32_v515 (A_32 m c)
  rw [A_32_eq m c in_32_v472, A_32_eq m c in_32_v361] at e
  exact (R_of_33 m c nw_v515).trans e

/-- `v516` after piece 32, from the contents before it. -/
theorem ref_32_v516 (W : Valuation τ sig (Elt F)) :
    after (ops_32 : List (HloOp τ sig (Elt F))) W (Proc.devRef .tc main_v516)
      = ((addf : (⟨S64x128, .f32⟩ : BufTy).Contents (Elt F) → (⟨S64x128, .f32⟩ : BufTy).Contents (Elt F) → (⟨S64x128, .f32⟩ : BufTy).Contents (Elt F)) (W (Proc.devRef .tc main_v362)) (W (Proc.devRef .tc main_v362))) := by
  after_results_simp <;> rfl

/-- The same equation on the final contents: `v516` is written once, and what it is computed from is never written again. -/
theorem fin_v516 (m : (ℓ : Loc nD τ sig) → Buf (Elt F) ℓ) (c : Dev nD) :
    R m c (Proc.devRef .tc main_v516)
      = ((addf : (⟨S64x128, .f32⟩ : BufTy).Contents (Elt F) → (⟨S64x128, .f32⟩ : BufTy).Contents (Elt F) → (⟨S64x128, .f32⟩ : BufTy).Contents (Elt F)) (R m c (Proc.devRef .tc main_v362)) (R m c (Proc.devRef .tc main_v362))) := by
  have e := ref_32_v516 (A_32 m c)
  rw [A_32_eq m c in_32_v362] at e
  exact (R_of_33 m c nw_v516).trans e

/-! ## Piece 33 (step 2): the decoder's displacement (two layers, no activation after the second) added to the positions -/

/-- A buffer piece 33 does not write keeps its contents through it. -/
theorem keep_33 (W : Valuation τ sig (Elt F)) {r : Ref sig .tc} (h : r ∉ ops_33_W) :
    after (ops_33 : List (HloOp τ sig (Elt F))) W (Proc.devRef .tc r) = W (Proc.devRef .tc r) :=
  after_of_writes_sub ops_33 W ops_33_writes h
theorem in_33_v514 : main_v514 ∉ tailW_33 := nw_v514
theorem in_33_arg34 : main_arg34 ∉ tailW_33 := later_33 (later_32 (later_31 (later_30 (later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg34)))))))))))))))))))))))))))))))))
theorem in_33_arg35 : main_arg35 ∉ tailW_33 := later_33 (later_32 (later_31 (later_30 (later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg35)))))))))))))))))))))))))))))))))
theorem in_33_arg36 : main_arg36 ∉ tailW_33 := later_33 (later_32 (later_31 (later_30 (later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg36)))))))))))))))))))))))))))))))))
theorem in_33_arg37 : main_arg37 ∉ tailW_33 := later_33 (later_32 (later_31 (later_30 (later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg37)))))))))))))))))))))))))))))))))
theorem in_33_v385 : main_v385 ∉ tailW_33 := later_33 (later_32 (later_31 (later_30 (later_29 (later_28 (later_27 (later_26 (nw_v385))))))))

/-- `v525` after piece 33, from the contents before it. -/
theorem ref_33_v525 (W : Valuation τ sig (Elt F)) :
    after (ops_33 : List (HloOp τ sig (Elt F))) W (Proc.devRef .tc main_v525)
      = ((addf : (⟨S5000x3, .f32⟩ : BufTy).Contents (Elt F) → (⟨S5000x3, .f32⟩ : BufTy).Contents (Elt F) → (⟨S5000x3, .f32⟩ : BufTy).Contents (Elt F)) (((fun l r => Host.dotGeneral dot_S5000x128_S128x3_S5000x3_1_0_0_1_n_n none l r) : (⟨S5000x128, .f32⟩ : BufTy).Contents (Elt F) → (⟨S128x3, .f32⟩ : BufTy).Contents (Elt F) → (⟨S5000x3, .f32⟩ : BufTy).Contents (Elt F)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)) (W (Proc.devRef .tc main_v514)) (W (Proc.devRef .tc main_arg34))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (W (Proc.devRef .tc main_arg35))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) (W (Proc.devRef .tc main_arg36))) ((broadcastInDim S5000x3 ![0, 1] bcast_S1x3_S5000x3_0_1 : (⟨S1x3, .f32⟩ : BufTy).Contents (Elt F) → (⟨S5000x3, .f32⟩ : BufTy).Contents (Elt F)) ((broadcastInDim S1x3 ![1] bcast_S3_S1x3_1 : (⟨S3, .f32⟩ : BufTy).Contents (Elt F) → (⟨S1x3, .f32⟩ : BufTy).Contents (Elt F)) (W (Proc.devRef .tc main_arg37))))) := by
  after_results_simp <;> rfl

/-- The same equation on the final contents: `v525` is written once, and what it is computed from is never written again. -/
theorem fin_v525 (m : (ℓ : Loc nD τ sig) → Buf (Elt F) ℓ) (c : Dev nD) :
    R m c (Proc.devRef .tc main_v525)
      = ((addf : (⟨S5000x3, .f32⟩ : BufTy).Contents (Elt F) → (⟨S5000x3, .f32⟩ : BufTy).Contents (Elt F) → (⟨S5000x3, .f32⟩ : BufTy).Contents (Elt F)) (((fun l r => Host.dotGeneral dot_S5000x128_S128x3_S5000x3_1_0_0_1_n_n none l r) : (⟨S5000x128, .f32⟩ : BufTy).Contents (Elt F) → (⟨S128x3, .f32⟩ : BufTy).Contents (Elt F) → (⟨S5000x3, .f32⟩ : BufTy).Contents (Elt F)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)) (R m c (Proc.devRef .tc main_v514)) (R m c (Proc.devRef .tc main_arg34))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (R m c (Proc.devRef .tc main_arg35))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) (R m c (Proc.devRef .tc main_arg36))) ((broadcastInDim S5000x3 ![0, 1] bcast_S1x3_S5000x3_0_1 : (⟨S1x3, .f32⟩ : BufTy).Contents (Elt F) → (⟨S5000x3, .f32⟩ : BufTy).Contents (Elt F)) ((broadcastInDim S1x3 ![1] bcast_S3_S1x3_1 : (⟨S3, .f32⟩ : BufTy).Contents (Elt F) → (⟨S1x3, .f32⟩ : BufTy).Contents (Elt F)) (R m c (Proc.devRef .tc main_arg37))))) := by
  have e := ref_33_v525 (A_33 m c)
  rw [A_33_eq m c in_33_v514, A_33_eq m c in_33_arg34, A_33_eq m c in_33_arg35, A_33_eq m c in_33_arg36, A_33_eq m c in_33_arg37] at e
  exact (R_of_34 m c nw_v525).trans e

/-- `v526` after piece 33, from the contents before it. -/
theorem ref_33_v526 (W : Valuation τ sig (Elt F)) :
    after (ops_33 : List (HloOp τ sig (Elt F))) W (Proc.devRef .tc main_v526)
      = ((addf : (⟨S5000x3, .f32⟩ : BufTy).Contents (Elt F) → (⟨S5000x3, .f32⟩ : BufTy).Contents (Elt F) → (⟨S5000x3, .f32⟩ : BufTy).Contents (Elt F)) (W (Proc.devRef .tc main_v385)) ((addf : (⟨S5000x3, .f32⟩ : BufTy).Contents (Elt F) → (⟨S5000x3, .f32⟩ : BufTy).Contents (Elt F) → (⟨S5000x3, .f32⟩ : BufTy).Contents (Elt F)) (((fun l r => Host.dotGeneral dot_S5000x128_S128x3_S5000x3_1_0_0_1_n_n none l r) : (⟨S5000x128, .f32⟩ : BufTy).Contents (Elt F) → (⟨S128x3, .f32⟩ : BufTy).Contents (Elt F) → (⟨S5000x3, .f32⟩ : BufTy).Contents (Elt F)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)) (W (Proc.devRef .tc main_v514)) (W (Proc.devRef .tc main_arg34))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (W (Proc.devRef .tc main_arg35))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) (W (Proc.devRef .tc main_arg36))) ((broadcastInDim S5000x3 ![0, 1] bcast_S1x3_S5000x3_0_1 : (⟨S1x3, .f32⟩ : BufTy).Contents (Elt F) → (⟨S5000x3, .f32⟩ : BufTy).Contents (Elt F)) ((broadcastInDim S1x3 ![1] bcast_S3_S1x3_1 : (⟨S3, .f32⟩ : BufTy).Contents (Elt F) → (⟨S1x3, .f32⟩ : BufTy).Contents (Elt F)) (W (Proc.devRef .tc main_arg37)))))) := by
  after_results_simp <;> rfl

/-- The same equation on the final contents: `v526` is written once, and what it is computed from is never written again. -/
theorem fin_v526 (m : (ℓ : Loc nD τ sig) → Buf (Elt F) ℓ) (c : Dev nD) :
    R m c (Proc.devRef .tc main_v526)
      = ((addf : (⟨S5000x3, .f32⟩ : BufTy).Contents (Elt F) → (⟨S5000x3, .f32⟩ : BufTy).Contents (Elt F) → (⟨S5000x3, .f32⟩ : BufTy).Contents (Elt F)) (R m c (Proc.devRef .tc main_v385)) ((addf : (⟨S5000x3, .f32⟩ : BufTy).Contents (Elt F) → (⟨S5000x3, .f32⟩ : BufTy).Contents (Elt F) → (⟨S5000x3, .f32⟩ : BufTy).Contents (Elt F)) (((fun l r => Host.dotGeneral dot_S5000x128_S128x3_S5000x3_1_0_0_1_n_n none l r) : (⟨S5000x128, .f32⟩ : BufTy).Contents (Elt F) → (⟨S128x3, .f32⟩ : BufTy).Contents (Elt F) → (⟨S5000x3, .f32⟩ : BufTy).Contents (Elt F)) ((maximumf : (⟨S5000x128, .f32⟩ : BufTy).Contents (Elt F) → (⟨S5000x128, .f32⟩ : BufTy).Contents (Elt F) → (⟨S5000x128, .f32⟩ : BufTy).Contents (Elt F)) ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)) (R m c (Proc.devRef .tc main_v514)) (R m c (Proc.devRef .tc main_arg34))) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (R m c (Proc.devRef .tc main_arg35))))) ((broadcastInDim S5000x128 ![] bcast_S_S5000x128 : (⟨S_, .f32⟩ : BufTy).Contents (Elt F) → (⟨S5000x128, .f32⟩ : BufTy).Contents (Elt F)) (constant S_ .f32 0x00000000#32 : (⟨S_, .f32⟩ : BufTy).Contents (Elt F)))) (R m c (Proc.devRef .tc main_arg36))) ((broadcastInDim S5000x3 ![0, 1] bcast_S1x3_S5000x3_0_1 : (⟨S1x3, .f32⟩ : BufTy).Contents (Elt F) → (⟨S5000x3, .f32⟩ : BufTy).Contents (Elt F)) ((broadcastInDim S1x3 ![1] bcast_S3_S1x3_1 : (⟨S3, .f32⟩ : BufTy).Contents (Elt F) → (⟨S1x3, .f32⟩ : BufTy).Contents (Elt F)) (R m c (Proc.devRef .tc main_arg37)))))) := by
  have e := ref_33_v526 (A_33 m c)
  rw [A_33_eq m c in_33_v514, A_33_eq m c in_33_arg34, A_33_eq m c in_33_arg35, A_33_eq m c in_33_arg36, A_33_eq m c in_33_arg37, A_33_eq m c in_33_v385] at e
  exact (R_of_34 m c nw_v526).trans e

/-! ## Piece 34 (step 2): the positions with every graph's mean position subtracted -/

/-- A buffer piece 34 does not write keeps its contents through it. -/
theorem keep_34 (W : Valuation τ sig (Elt F)) {r : Ref sig .tc} (h : r ∉ ops_34_W) :
    after (ops_34 : List (HloOp τ sig (Elt F))) W (Proc.devRef .tc r) = W (Proc.devRef .tc r) :=
  after_of_writes_sub ops_34 W ops_34_writes h
theorem in_34_arg4 : main_arg4 ∉ tailW_34 := later_34 (later_33 (later_32 (later_31 (later_30 (later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (later_01 (nw_arg4))))))))))))))))))))))))))))))))))
theorem in_34_v526 : main_v526 ∉ tailW_34 := nw_v526
theorem in_34_v9 : main_v9 ∉ tailW_34 := later_34 (later_33 (later_32 (later_31 (later_30 (later_29 (later_28 (later_27 (later_26 (later_25 (later_24 (later_23 (later_22 (later_21 (later_20 (later_19 (later_18 (later_17 (later_16 (later_15 (later_14 (later_13 (later_12 (later_11 (later_10 (later_09 (later_08 (later_07 (later_06 (later_05 (later_04 (later_03 (later_02 (nw_v9)))))))))))))))))))))))))))))))))

/-- `v539` after piece 34, from the contents before it. -/
theorem ref_34_v539 (W : Valuation τ sig (Elt F)) :
    after (ops_34 : List (HloOp τ sig (Elt F))) W (Proc.devRef .tc main_v539)
      = ((subf : (⟨S5000x3, .f32⟩ : BufTy).Contents (Elt F) → (⟨S5000x3, .f32⟩ : BufTy).Contents (Elt F) → (⟨S5000x3, .f32⟩ : BufTy).Contents (Elt F)) (W (Proc.devRef .tc main_v526)) (((fun x i => Host.gather gather_S64x3_S5000x1_S5000x3_1_0_n_n_0_1_13 x i) : (⟨S64x3, .f32⟩ : BufTy).Contents (Elt F) → (⟨S5000x1, .i32⟩ : BufTy).Contents (Elt F) → (⟨S5000x3, .f32⟩ : BufTy).Contents (Elt F)) ((Host.divf : (⟨S64x3, .f32⟩ : BufTy).Contents (Elt F) → (⟨S64x3, .f32⟩ : BufTy).Contents (Elt F) → (⟨S64x3, .f32⟩ : BufTy).Contents (Elt F)) (((fun x i u => Host.scatterAdd scatter_S64x3_S5000x1_S5000x3_1_0_0_1 x i u) : (⟨S64x3, .f32⟩ : BufTy).Contents (Elt F) → (⟨S5000x1, .i32⟩ : BufTy).Contents (Elt F) → (⟨S5000x3, .f32⟩ : BufTy).Contents (Elt F) → (⟨S64x3, .f32⟩ : BufTy).Contents (Elt F)) ((broadcastInDim S64x3 ![] bcast_S_S64x3 : (⟨S_, .f32⟩ : BufTy).Contents (Elt F) → (⟨S64x3, .f32⟩ : BufTy).Contents (Elt F)) (constant S_ .f32 0x00000000#32 : (⟨S_, .f32⟩ : BufTy).Contents (Elt F))) ((broadcastInDim S5000x1 ![0] bcast_S5000_S5000x1_0 : (⟨S5000, .i32⟩ : BufTy).Contents (Elt F) → (⟨S5000x1, .i32⟩ : BufTy).Contents (Elt F)) (W (Proc.devRef .tc main_arg4))) (W (Proc.devRef .tc main_v526))) ((broadcastInDim S64x3 ![0, 1] bcast_S64x1_S64x3_0_1 : (⟨S64x1, .f32⟩ : BufTy).Contents (Elt F) → (⟨S64x3, .f32⟩ : BufTy).Contents (Elt F)) (W (Proc.devRef .tc main_v9)))) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (W (Proc.devRef .tc main_arg4)) ((broadcastInDim S5000 ![] bcast_S_S5000 : (⟨S_, .i32⟩ : BufTy).Contents (Elt F) → (⟨S5000, .i32⟩ : BufTy).Contents (Elt F)) (constantI S_ 32 0#32 : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) (W (Proc.devRef .tc main_arg4)) ((broadcastInDim S5000 ![] bcast_S_S5000 : (⟨S_, .i32⟩ : BufTy).Contents (Elt F) → (⟨S5000, .i32⟩ : BufTy).Contents (Elt F)) (constantI S_ 32 64#32 : (⟨S_, .i32⟩ : BufTy).Contents (Elt F)))) (W (Proc.devRef .tc main_arg4)))))) := by
  after_results_simp <;> rfl

/-- The same equation on the final contents: `v539` is written once, and what it is computed from is never written again. -/
theorem fin_v539 (m : (ℓ : Loc nD τ sig) → Buf (Elt F) ℓ) (c : Dev nD) :
    R m c (Proc.devRef .tc main_v539)
      = ((subf : (⟨S5000x3, .f32⟩ : BufTy).Contents (Elt F) → (⟨S5000x3, .f32⟩ : BufTy).Contents (Elt F) → (⟨S5000x3, .f32⟩ : BufTy).Contents (Elt F)) (R m c (Proc.devRef .tc main_v526)) (((fun x i => Host.gather gather_S64x3_S5000x1_S5000x3_1_0_n_n_0_1_13 x i) : (⟨S64x3, .f32⟩ : BufTy).Contents (Elt F) → (⟨S5000x1, .i32⟩ : BufTy).Contents (Elt F) → (⟨S5000x3, .f32⟩ : BufTy).Contents (Elt F)) ((Host.divf : (⟨S64x3, .f32⟩ : BufTy).Contents (Elt F) → (⟨S64x3, .f32⟩ : BufTy).Contents (Elt F) → (⟨S64x3, .f32⟩ : BufTy).Contents (Elt F)) (((fun x i u => Host.scatterAdd scatter_S64x3_S5000x1_S5000x3_1_0_0_1 x i u) : (⟨S64x3, .f32⟩ : BufTy).Contents (Elt F) → (⟨S5000x1, .i32⟩ : BufTy).Contents (Elt F) → (⟨S5000x3, .f32⟩ : BufTy).Contents (Elt F) → (⟨S64x3, .f32⟩ : BufTy).Contents (Elt F)) ((broadcastInDim S64x3 ![] bcast_S_S64x3 : (⟨S_, .f32⟩ : BufTy).Contents (Elt F) → (⟨S64x3, .f32⟩ : BufTy).Contents (Elt F)) (constant S_ .f32 0x00000000#32 : (⟨S_, .f32⟩ : BufTy).Contents (Elt F))) ((broadcastInDim S5000x1 ![0] bcast_S5000_S5000x1_0 : (⟨S5000, .i32⟩ : BufTy).Contents (Elt F) → (⟨S5000x1, .i32⟩ : BufTy).Contents (Elt F)) (R m c (Proc.devRef .tc main_arg4))) (R m c (Proc.devRef .tc main_v526))) ((broadcastInDim S64x3 ![0, 1] bcast_S64x1_S64x3_0_1 : (⟨S64x1, .f32⟩ : BufTy).Contents (Elt F) → (⟨S64x3, .f32⟩ : BufTy).Contents (Elt F)) (R m c (Proc.devRef .tc main_v9)))) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (R m c (Proc.devRef .tc main_arg4)) ((broadcastInDim S5000 ![] bcast_S_S5000 : (⟨S_, .i32⟩ : BufTy).Contents (Elt F) → (⟨S5000, .i32⟩ : BufTy).Contents (Elt F)) (constantI S_ 32 0#32 : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) (R m c (Proc.devRef .tc main_arg4)) ((broadcastInDim S5000 ![] bcast_S_S5000 : (⟨S_, .i32⟩ : BufTy).Contents (Elt F) → (⟨S5000, .i32⟩ : BufTy).Contents (Elt F)) (constantI S_ 32 64#32 : (⟨S_, .i32⟩ : BufTy).Contents (Elt F)))) (R m c (Proc.devRef .tc main_arg4)))))) := by
  have e := ref_34_v539 (A_34 m c)
  rw [A_34_eq m c in_34_arg4, A_34_eq m c in_34_v526, A_34_eq m c in_34_v9] at e
  exact (R_of_35 m c nw_v539).trans e

/-! ## Piece 35 (after the last step): the three steps' positions stacked -/

/-- A buffer piece 35 does not write keeps its contents through it. -/
theorem keep_35 (W : Valuation τ sig (Elt F)) {r : Ref sig .tc} (h : r ∉ ops_35_W) :
    after (ops_35 : List (HloOp τ sig (Elt F))) W (Proc.devRef .tc r) = W (Proc.devRef .tc r) :=
  after_of_writes_sub ops_35 W ops_35_writes h
theorem in_35_v197 : main_v197 ∉ tailW_35 := later_35 (later_34 (later_33 (later_32 (later_31 (later_30 (later_29 (later_28 (later_27 (later_26 (later_25 (later_24 (later_23 (later_22 (later_21 (later_20 (later_19 (later_18 (later_17 (later_16 (later_15 (later_14 (nw_v197))))))))))))))))))))))
theorem in_35_v385 : main_v385 ∉ tailW_35 := later_35 (later_34 (later_33 (later_32 (later_31 (later_30 (later_29 (later_28 (later_27 (later_26 (nw_v385))))))))))
theorem in_35_v539 : main_v539 ∉ tailW_35 := nw_v539

/-- `v543` after piece 35, from the contents before it. -/
theorem ref_35_v543 (W : Valuation τ sig (Elt F)) :
    after (ops_35 : List (HloOp τ sig (Elt F))) W (Proc.devRef .tc main_v543)
      = (concatenate S3x5000x3 0 [⟨S1x5000x3, ((broadcastInDim S1x5000x3 ![1, 2] bcast_S5000x3_S1x5000x3_1_2 : (⟨S5000x3, .f32⟩ : BufTy).Contents (Elt F) → (⟨S1x5000x3, .f32⟩ : BufTy).Contents (Elt F)) (W (Proc.devRef .tc main_v197)))⟩, ⟨S1x5000x3, ((broadcastInDim S1x5000x3 ![1, 2] bcast_S5000x3_S1x5000x3_1_2 : (⟨S5000x3, .f32⟩ : BufTy).Contents (Elt F) → (⟨S1x5000x3, .f32⟩ : BufTy).Contents (Elt F)) (W (Proc.devRef .tc main_v385)))⟩, ⟨S1x5000x3, ((broadcastInDim S1x5000x3 ![1, 2] bcast_S5000x3_S1x5000x3_1_2 : (⟨S5000x3, .f32⟩ : BufTy).Contents (Elt F) → (⟨S1x5000x3, .f32⟩ : BufTy).Contents (Elt F)) (W (Proc.devRef .tc main_v539)))⟩] concatenates_S1x5000x3_S1x5000x3_S1x5000x3_S3x5000x3_d0 : (⟨S3x5000x3, .f32⟩ : BufTy).Contents (Elt F)) := by
  simp (disch := decide) only [after_cons, after_nil, nullary_result', unary_result', binary_result', ternary_result', quaternary_result', reshape_result', nary4_result', nary3_result', nary_result',
    nullary_result_ne', unary_result_ne', binary_result_ne', ternary_result_ne', quaternary_result_ne', reshape_result_ne', nary_result_ne'] <;> rfl

/-- The same equation on the final contents: `v543` is written once, and what it is computed from is never written again. -/
theorem fin_v543 (m : (ℓ : Loc nD τ sig) → Buf (Elt F) ℓ) (c : Dev nD) :
    R m c (Proc.devRef .tc main_v543)
      = (concatenate S3x5000x3 0 [⟨S1x5000x3, ((broadcastInDim S1x5000x3 ![1, 2] bcast_S5000x3_S1x5000x3_1_2 : (⟨S5000x3, .f32⟩ : BufTy).Contents (Elt F) → (⟨S1x5000x3, .f32⟩ : BufTy).Contents (Elt F)) (R m c (Proc.devRef .tc main_v197)))⟩, ⟨S1x5000x3, ((broadcastInDim S1x5000x3 ![1, 2] bcast_S5000x3_S1x5000x3_1_2 : (⟨S5000x3, .f32⟩ : BufTy).Contents (Elt F) → (⟨S1x5000x3, .f32⟩ : BufTy).Contents (Elt F)) (R m c (Proc.devRef .tc main_v385)))⟩, ⟨S1x5000x3, ((broadcastInDim S1x5000x3 ![1, 2] bcast_S5000x3_S1x5000x3_1_2 : (⟨S5000x3, .f32⟩ : BufTy).Contents (Elt F) → (⟨S1x5000x3, .f32⟩ : BufTy).Contents (Elt F)) (R m c (Proc.devRef .tc main_v539)))⟩] concatenates_S1x5000x3_S1x5000x3_S1x5000x3_S3x5000x3_d0 : (⟨S3x5000x3, .f32⟩ : BufTy).Contents (Elt F)) := by
  have e := ref_35_v543 (A_35 m c)
  rw [A_35_eq m c in_35_v197, A_35_eq m c in_35_v385, A_35_eq m c in_35_v539] at e
  exact (R_of_36 m c main_v543).trans e

end Cert.ReferenceIdeal.Hand

end
-- ==== Proof.Bridge.Pos.lean ====
/-
  The position embedding ex = relu(relu(p · W1 + b1) · W2 + b2) + xs: the kernel region's function of its operands as the
  host prepares them, against the reference's term, at the ideal values.

  The kernel's host lines narrow p, W1 and W2 to bf16 (a change of format: nothing at the ideal values) and reshape each
  bias vector to a one-row matrix; the region then computes, row by row, the function `G0_6`. The reference computes
  two plain `dot_general`s, each followed by the bias vector broadcast to one row and then down all the rows, an
  addition and the maximum with the zero constant broadcast to the whole shape, and adds the result to xs on the
  other side of the sum. Read at an entry (r, q) both sides are
  max (Σ_k max (Σ_j p (r, j) · W1 (j, k) + b1 k) 0 · W2 (k, q) + b2 q) 0 and xs (r, q), added in either order.
-/
import proofs.«147763_j11003706212366_2_alg».proof.Proof.KI.Val0
import proofs.«147763_j11003706212366_2_alg».proof.ReferenceIdeal

noncomputable section

namespace Cert.Bridge.Pos

open Idealize.ShloMosaic Idealize.ShloMosaic.ValueIdx Cert.LibDense Cert.LibChipRow

/-- The two sides agree, whatever the proofs of the layout operations' side conditions and for any dimension numbers
    that are the plain ones. -/
theorem pos_eq
    (d1 : DotDims ⟨2, ![5000, 3]⟩ ⟨2, ![3, 128]⟩ ⟨2, ![5000, 128]⟩) (hd1 : d1 = DotDims.plain 5000 3 128)
    (d2 : DotDims ⟨2, ![5000, 128]⟩ ⟨2, ![128, 128]⟩ ⟨2, ![5000, 128]⟩) (hd2 : d2 = DotDims.plain 5000 128 128)
    (hlt : FTy.bits .bf16 < FTy.bits .f32) (hc : (⟨1, ![128]⟩ : Shape).ShapeCasts ⟨2, ![1, 128]⟩)
    (h1 : (⟨1, ![128]⟩ : Shape).BroadcastsInDim ⟨2, ![1, 128]⟩ ![1])
    (h2 : (⟨2, ![1, 128]⟩ : Shape).BroadcastsInDim ⟨2, ![5000, 128]⟩ ![0, 1])
    (h0 : (⟨0, ![]⟩ : Shape).BroadcastsInDim ⟨2, ![5000, 128]⟩ ![])
    (x : FVec Ideal ⟨2, ![5000, 128]⟩ .f32) (p : FVec Ideal ⟨2, ![5000, 3]⟩ .f32) (W1 : FVec Ideal ⟨2, ![3, 128]⟩ .f32)
    (b1 : FVec Ideal ⟨1, ![128]⟩ .f32) (W2 : FVec Ideal ⟨2, ![128, 128]⟩ .f32) (b2 : FVec Ideal ⟨1, ![128]⟩ .f32) :
    Cert.KernelIdeal.Hand.G0_6 (truncf .bf16 p hlt) x (truncf .bf16 W1 hlt) (shapeCast ⟨2, ![1, 128]⟩ b1 hc)
        (truncf .bf16 W2 hlt) (shapeCast ⟨2, ![1, 128]⟩ b2 hc)
      = addf x (maximumf (addf (Host.dotGeneral (F := Ideal) d2 none
            (maximumf (addf (Host.dotGeneral (F := Ideal) d1 none p W1)
                (broadcastInDim ⟨2, ![5000, 128]⟩ ![0, 1] h2 (broadcastInDim ⟨2, ![1, 128]⟩ ![1] h1 b1)))
              (broadcastInDim ⟨2, ![5000, 128]⟩ ![] h0 (constant (F := Ideal) ⟨0, ![]⟩ .f32 0x00000000#32))) W2)
          (broadcastInDim ⟨2, ![5000, 128]⟩ ![0, 1] h2 (broadcastInDim ⟨2, ![1, 128]⟩ ![1] h1 b2)))
        (broadcastInDim ⟨2, ![5000, 128]⟩ ![] h0 (constant (F := Ideal) ⟨0, ![]⟩ .f32 0x00000000#32))) := by
  subst hd1 hd2
  funext i
  obtain ⟨r, q, rfl⟩ : ∃ (r : Fin 5000) (q : Fin 128), i = ix2 r q := ⟨i 0, i 1, eq_ix2 i⟩
  -- the zero constant broadcast to the whole shape reads 0 everywhere
  have hz : ∀ j : (⟨2, ![5000, 128]⟩ : Shape).Idx,
      broadcastInDim ⟨2, ![5000, 128]⟩ ![] h0 (constant (F := Ideal) ⟨0, ![]⟩ .f32 0x00000000#32) j = (0 : EReal) :=
    fun j => (Cert.LibRowReads.splat_read h0 _ j).trans ((constant_apply _ _).trans Ideal.ofBits_zero_f32)
  -- the reference's side at (r, q): xs plus the positive part of the second layer over the reference's hidden array
  rw [addf_apply, maximumf_apply, hz, host_dense_apply 5000 128 128 (by decide) h1 h2 _ W2 b2 r q]
  -- the kernel's side at (r, q): the same two summands in the other order
  rw [Cert.KernelIdeal.Hand.G0_6_apply, add_comm]
  refine congrArg (fun z => x (ix2 r q) + max z 0)
    (denseAt_congr (fun k => ?_) (fun _ => rfl) (Cert.LibRowReads.asRow_read hc b2 q))
  -- the hidden arrays agree at (r, k)
  rw [maximumf_apply, hz, host_dense_apply 5000 3 128 (by decide) h1 h2 p W1 b1 r k]
  exact congrArg (fun z => max z 0) (denseAt_congr (fun _ => rfl) (fun _ => rfl) (Cert.LibRowReads.asRow_read hc b1 k))

section Named
variable [Cert.ReferenceIdeal.Facts₀]
open Cert.ReferenceIdeal Cert.ReferenceIdeal.Facts₀

/-- The same with the side conditions and dimension numbers the two programs print: the kernel's host preparation of
    the operands on the left, the reference's term for ex on the right. -/
theorem pos_bridge (x : FVec Ideal S5000x128 .f32) (p : FVec Ideal S5000x3 .f32) (W1 : FVec Ideal S3x128 .f32)
    (b1 : FVec Ideal S128 .f32) (W2 : FVec Ideal S128x128 .f32) (b2 : FVec Ideal S128 .f32) :
    Cert.KernelIdeal.Hand.G0_6 (truncf .bf16 p Cert.KernelIdeal.Gen.bitsLt_bf16_f32) x (truncf .bf16 W1 Cert.KernelIdeal.Gen.bitsLt_bf16_f32)
        (shapeCast Cert.KernelIdeal.S1x128 b1 Cert.KernelIdeal.Gen.shapeCasts_S128_S1x128)
        (truncf .bf16 W2 Cert.KernelIdeal.Gen.bitsLt_bf16_f32)
        (shapeCast Cert.KernelIdeal.S1x128 b2 Cert.KernelIdeal.Gen.shapeCasts_S128_S1x128)
      = addf x (maximumf (addf (Host.dotGeneral (F := Ideal) dot_S5000x128_S128x128_S5000x128_1_0_0_1_n_n none
            (maximumf (addf (Host.dotGeneral (F := Ideal) dot_S5000x3_S3x128_S5000x128_1_0_0_1_n_n none p W1)
                (broadcastInDim S5000x128 ![0, 1] bcast_S1x128_S5000x128_0_1 (broadcastInDim S1x128 ![1] bcast_S128_S1x128_1 b1)))
              (broadcastInDim S5000x128 ![] bcast_S_S5000x128 (constant (F := Ideal) S_ .f32 0x00000000#32))) W2)
          (broadcastInDim S5000x128 ![0, 1] bcast_S1x128_S5000x128_0_1 (broadcastInDim S1x128 ![1] bcast_S128_S1x128_1 b2)))
        (broadcastInDim S5000x128 ![] bcast_S_S5000x128 (constant (F := Ideal) S_ .f32 0x00000000#32))) :=
  pos_eq _ rfl _ rfl _ _ _ _ _ x p W1 b1 W2 b2

end Named

end Cert.Bridge.Pos
-- ==== Proof.Bridge.Dis.lean ====
/-
  The distance embedding  ee = relu(relu(len · W₁ + b₁) · W₂ + b₂) + es  computed two ways gives one array, at the ideal
  values.

  On one side the region's closed form `G1_6` applied to the operands as they are prepared for the region: the lengths
  and the two weight matrices narrowed to bf16 (a change of format, so nothing at the ideal values), each bias vector
  reshaped to one row, the edge states as they are. On the other side the plain program's term: two `dot_general`
  layers, each bias vector broadcast to one row and down the rows and added, the positive part taken against a
  broadcast zero, and the edge states added first. Both are read at an entry (P, q) and give the same sum; the last
  addition is commuted.
-/
import proofs.«147763_j11003706212366_2_alg».proof.Proof.KI.Val1
import proofs.«147763_j11003706212366_2_alg».proof.ReferenceIdeal

set_option maxRecDepth 16384

noncomputable section

namespace Cert.Bridge.Dis

open Idealize.ShloMosaic Idealize.ShloMosaic.ValueIdx Cert.LibDense Cert.Spec
open Cert.KernelIdeal Cert.KernelIdeal.Gen Cert.KernelIdeal.Hand

variable [Cert.ReferenceIdeal.Facts]

/-- The plain program's term for the embedded rows, of its six arrays. -/
def refDis (len : FVec Ideal Cert.ReferenceIdeal.S80000x1 .f32) (W1 : FVec Ideal Cert.ReferenceIdeal.S1x128 .f32) (b1 : FVec Ideal Cert.ReferenceIdeal.S128 .f32)
    (W2 : FVec Ideal Cert.ReferenceIdeal.S128x128 .f32) (b2 : FVec Ideal Cert.ReferenceIdeal.S128 .f32) (es : FVec Ideal Cert.ReferenceIdeal.S80000x128 .f32) :
    FVec Ideal Cert.ReferenceIdeal.S80000x128 .f32 :=
  addf es (maximumf (addf (Host.dotGeneral Cert.ReferenceIdeal.dot_S80000x128_S128x128_S80000x128_1_0_0_1_n_n none
      (maximumf (addf (Host.dotGeneral Cert.ReferenceIdeal.dot_S80000x1_S1x128_S80000x128_1_0_0_1_n_n none len W1) (broadcastInDim Cert.ReferenceIdeal.S80000x128 ![0, 1] Cert.ReferenceIdeal.Facts₀.bcast_S1x128_S80000x128_0_1 (broadcastInDim Cert.ReferenceIdeal.S1x128 ![1] Cert.ReferenceIdeal.Facts₀.bcast_S128_S1x128_1 b1))) (broadcastInDim Cert.ReferenceIdeal.S80000x128 ![] Cert.ReferenceIdeal.Facts₀.bcast_S_S80000x128 (constant Cert.ReferenceIdeal.S_ .f32 0x00000000#32)))
      W2) (broadcastInDim Cert.ReferenceIdeal.S80000x128 ![0, 1] Cert.ReferenceIdeal.Facts₀.bcast_S1x128_S80000x128_0_1 (broadcastInDim Cert.ReferenceIdeal.S1x128 ![1] Cert.ReferenceIdeal.Facts₀.bcast_S128_S1x128_1 b2))) (broadcastInDim Cert.ReferenceIdeal.S80000x128 ![] Cert.ReferenceIdeal.Facts₀.bcast_S_S80000x128 (constant Cert.ReferenceIdeal.S_ .f32 0x00000000#32)))

/-- The plain program's dimension numbers are the plain ones: rows by contraction, times contraction by columns. -/
theorem dot1_eq : Cert.ReferenceIdeal.dot_S80000x1_S1x128_S80000x128_1_0_0_1_n_n = DotDims.plain 80000 1 128 := rfl
theorem dot2_eq : Cert.ReferenceIdeal.dot_S80000x128_S128x128_S80000x128_1_0_0_1_n_n = DotDims.plain 80000 128 128 := rfl

/-- A bias vector reshaped to one row, read back as a vector, is the vector. -/
theorem rowVec_asRow (b : FVec Ideal S128 .f32) : disRowVec (shapeCast S1x128 b shapeCasts_S128_S1x128) = b :=
  funext fun j => by
    rw [eq_ix1 j]
    exact Cert.LibRowReads.asRow_read shapeCasts_S128_S1x128 b (j 0)

/-- The broadcast zero reads 0 everywhere. -/
theorem zero_read (j : Cert.ReferenceIdeal.S80000x128.Idx) : ((broadcastInDim Cert.ReferenceIdeal.S80000x128 ![] Cert.ReferenceIdeal.Facts₀.bcast_S_S80000x128 (constant Cert.ReferenceIdeal.S_ .f32 0x00000000#32)) : FVec Ideal Cert.ReferenceIdeal.S80000x128 .f32) j = (0 : EReal) :=
  (Cert.LibRowReads.splat_read Cert.ReferenceIdeal.Facts₀.bcast_S_S80000x128 _ j).trans Ideal.ofBits_zero_f32

/-- The region's closed form on the prepared operands is the plain program's term. -/
theorem dis_bridge (len : FVec Ideal Cert.ReferenceIdeal.S80000x1 .f32) (W1 : FVec Ideal Cert.ReferenceIdeal.S1x128 .f32) (b1 : FVec Ideal Cert.ReferenceIdeal.S128 .f32)
    (W2 : FVec Ideal Cert.ReferenceIdeal.S128x128 .f32) (b2 : FVec Ideal Cert.ReferenceIdeal.S128 .f32) (es : FVec Ideal Cert.ReferenceIdeal.S80000x128 .f32) :
    G1_6 (truncf .bf16 len bitsLt_bf16_f32) es (truncf .bf16 W1 bitsLt_bf16_f32) (shapeCast S1x128 b1 shapeCasts_S128_S1x128)
        (truncf .bf16 W2 bitsLt_bf16_f32) (shapeCast S1x128 b2 shapeCasts_S128_S1x128)
      = refDis len W1 b1 W2 b2 es := by
  funext i
  obtain ⟨P, q, rfl⟩ : ∃ (P : Fin 80000) (q : Fin 128), i = ix2 P q := ⟨i 0, i 1, eq_ix2 i⟩
  show disAt (M := 80000) (K := 1) (H := 128) (N := 128) len W1 (shapeCast S1x128 b1 shapeCasts_S128_S1x128) W2
      (shapeCast S1x128 b2 shapeCasts_S128_S1x128) es P q = refDis len W1 b1 W2 b2 es (ix2 P q)
  unfold disAt refDis
  rw [dot1_eq, dot2_eq, rowVec_asRow b1, rowVec_asRow b2, addf_apply, maximumf_apply, zero_read,
    host_dense_apply 80000 128 128 (by decide) Cert.ReferenceIdeal.Facts₀.bcast_S128_S1x128_1 Cert.ReferenceIdeal.Facts₀.bcast_S1x128_S80000x128_0_1 _ W2 b2 P q]
  refine (add_comm _ _).trans ?_
  refine congrArg (fun z => es (ix2 P q) + max z 0) ?_
  refine denseAt_congr (fun k => ?_) (fun _ => rfl) rfl
  show max (denseAt len W1 b1 P k) 0 = _
  rw [maximumf_apply, zero_read,
    host_dense_apply 80000 1 128 (by decide) Cert.ReferenceIdeal.Facts₀.bcast_S128_S1x128_1 Cert.ReferenceIdeal.Facts₀.bcast_S1x128_S80000x128_0_1 len W1 b1 P k]

end Cert.Bridge.Dis

end
-- ==== Proof.LibTileSum.lean ====
/-
  A sum over `m * n` consecutive indices, taken tile by tile.

  The indices `0, …, m * n - 1` fall into `m` tiles of `n` consecutive ones: index `s` is entry `s % n` of tile
  `s / n`, and entry `q` of tile `k` is index `n * k + q`. In a commutative additive monoid the sum over all indices is
  the sum, over the tiles, of each tile's sum.
-/
import Mathlib.Algebra.BigOperators.Fin
import Mathlib.Data.Fintype.BigOperators
import Mathlib.Logic.Equiv.Fin.Basic

namespace Cert.TileSum

/-- Entry `q` of tile `k` lies below `m * n`. -/
theorem tile_lt {m n N : ℕ} (h : m * n = N) (k : Fin m) (q : Fin n) : n * k.val + q.val < N := by
  subst h
  calc n * k.val + q.val < n * k.val + n := Nat.add_lt_add_left q.isLt _
    _ = n * (k.val + 1) := (Nat.mul_succ _ _).symm
    _ ≤ n * m := Nat.mul_le_mul_left _ k.isLt
    _ = m * n := Nat.mul_comm _ _

/-- A sum over `N = m * n` indices is the sum over the `m` tiles of each tile's `n` terms, entry `q` of tile `k`
    being index `n * k + q`. -/
theorem sum_tiles {M : Type*} [AddCommMonoid M] {m n N : ℕ} (h : m * n = N) (f : Fin N → M) :
    ∑ k : Fin m, ∑ q : Fin n, f ⟨n * k.val + q.val, tile_lt h k q⟩ = ∑ s : Fin N, f s := by
  subst h
  rw [← Equiv.sum_comp finProdFinEquiv f, Fintype.sum_prod_type]
  refine Finset.sum_congr rfl fun k _ => Finset.sum_congr rfl fun q _ => congrArg f (Fin.ext ?_)
  show n * k.val + q.val = q.val + n * k.val
  exact Nat.add_comm _ _

end Cert.TileSum
-- ==== Proof.LibFourBlocks.lean ====
/-
  A sum over `4 * n` consecutive indices, taken as four consecutive blocks of `n`.

  The indices `0, …, 4 * n - 1` fall into four blocks of `n` consecutive ones: `j`, `n + j`, `2 * n + j` and
  `3 * n + j` for `j` below `n`. In a commutative additive monoid the sum over all the indices is the first block's
  sum plus the second's, then plus the third's, then plus the fourth's: the additions are taken in that order, from
  the left. Only commutativity and associativity of the addition are used (no subtraction, no cancellation), so the
  statement holds on the extended reals.
-/
import Mathlib.Algebra.BigOperators.Fin
import proofs.«147763_j11003706212366_2_alg».proof.Proof.LibTileSum

open scoped BigOperators

namespace Cert.FourBlocks

/-- Entry `j` of the first block lies below `4 * n`. -/
theorem lt0 {n N : ℕ} (h : 4 * n = N) (j : Fin n) : j.val < N := by
  have := j.isLt; omega

/-- Entry `j` of the second block lies below `4 * n`. -/
theorem lt1 {n N : ℕ} (h : 4 * n = N) (j : Fin n) : n + j.val < N := by
  have := j.isLt; omega

/-- Entry `j` of the third block lies below `4 * n`. -/
theorem lt2 {n N : ℕ} (h : 4 * n = N) (j : Fin n) : 2 * n + j.val < N := by
  have := j.isLt; omega

/-- Entry `j` of the fourth block lies below `4 * n`. -/
theorem lt3 {n N : ℕ} (h : 4 * n = N) (j : Fin n) : 3 * n + j.val < N := by
  have := j.isLt; omega

/-- A sum over `N = 4 * n` indices is the sum of its four blocks of `n` consecutive terms, added from the left:
    ((first + second) + third) + fourth. -/
theorem sum_four_blocks {M : Type*} [AddCommMonoid M] {n N : ℕ} (h : 4 * n = N) (f : Fin N → M) :
    ∑ s : Fin N, f s
      = ((∑ j : Fin n, f ⟨j.val, lt0 h j⟩ + ∑ j : Fin n, f ⟨n + j.val, lt1 h j⟩)
          + ∑ j : Fin n, f ⟨2 * n + j.val, lt2 h j⟩)
        + ∑ j : Fin n, f ⟨3 * n + j.val, lt3 h j⟩ := by
  refine (Cert.TileSum.sum_tiles h f).symm.trans ?_
  rw [Fin.sum_univ_four]
  refine congrArg₂ (· + ·) (congrArg₂ (· + ·) (congrArg₂ (· + ·) ?_ ?_) ?_) ?_ <;>
    refine Finset.sum_congr rfl fun j _ => congrArg f (Fin.ext ?_)
  · show n * 0 + j.val = j.val; omega
  · show n * 1 + j.val = n + j.val; omega
  · show n * 2 + j.val = 2 * n + j.val; omega
  · show n * 3 + j.val = 3 * n + j.val; omega

/-- Entry `j` of the first block of 128 lies below 512. -/
theorem b0 (j : Fin 128) : j.val < 512 := by have := j.isLt; omega
/-- Entry `j` of the second block of 128 lies below 512. -/
theorem b1 (j : Fin 128) : 128 + j.val < 512 := by have := j.isLt; omega
/-- Entry `j` of the third block of 128 lies below 512. -/
theorem b2 (j : Fin 128) : 256 + j.val < 512 := by have := j.isLt; omega
/-- Entry `j` of the fourth block of 128 lies below 512. -/
theorem b3 (j : Fin 128) : 384 + j.val < 512 := by have := j.isLt; omega

/-- The same for 512 indices in four blocks of 128, each block's first index written out: 0, 128, 256, 384. -/
theorem sum_four_blocks_512 {M : Type*} [AddCommMonoid M] (f : Fin 512 → M) :
    ∑ s : Fin 512, f s
      = ((∑ j : Fin 128, f ⟨j.val, b0 j⟩ + ∑ j : Fin 128, f ⟨128 + j.val, b1 j⟩)
          + ∑ j : Fin 128, f ⟨256 + j.val, b2 j⟩)
        + ∑ j : Fin 128, f ⟨384 + j.val, b3 j⟩ := by
  refine (sum_four_blocks (n := 128) (N := 512) rfl f).trans ?_
  refine congrArg₂ (· + ·) (congrArg₂ (· + ·) (congrArg₂ (· + ·) ?_ ?_) ?_) ?_ <;>
    exact Finset.sum_congr rfl fun j _ => congrArg f (Fin.ext rfl)

end Cert.FourBlocks
-- ==== Proof.LibConcatRead.lean ====
/-
  Four matrices laid side by side, and a band of rows of a matrix, read at an index.

  * Four [n, c] matrices laid side by side along the columns form one [n, K] matrix (K = 4 c). Its column `j` is column
    `j` of the first one, its column `c + j` is column `j` of the second, `2 c + j` of the third, `3 c + j` of the fourth
    (`j` below `c`).
  * Rows `off, …, off + c - 1` of an [R, N] matrix form a [c, N] matrix whose row `j` is row `off + j` of the whole one.
  The column, respectively the row, read in the whole matrix is named by an equation on its value, so that it may be
  written in any form. The side conditions of the operations are hypotheses, so the lemmas apply under any proofs of them.
-/
import Idealize.ShloMosaic.Lib.Pipeline.Value
import Idealize.ShloMosaic.Lib.ValueIdx

noncomputable section

namespace Cert.LibConcatRead

open Idealize.ShloMosaic Idealize.ShloMosaic.ValueIdx

variable {α : Type}

/-- Four [n, c] matrices side by side as one [n, K] matrix, read at row `r` and at the column that is column `j` of the
    first one. -/
theorem cat4_read0 {n c K : Nat}
    (h : Shape.Concatenates [(⟨2, ![n, c]⟩ : Shape), ⟨2, ![n, c]⟩, ⟨2, ![n, c]⟩, ⟨2, ![n, c]⟩] ⟨2, ![n, K]⟩ 1)
    (x0 x1 x2 x3 : (⟨2, ![n, c]⟩ : Shape).Idx → α) (r : Fin n) (j : Fin c) (k : Fin K) (hk : k.val = j.val) :
    concatenate ⟨2, ![n, K]⟩ 1 [⟨⟨2, ![n, c]⟩, x0⟩, ⟨⟨2, ![n, c]⟩, x1⟩, ⟨⟨2, ![n, c]⟩, x2⟩, ⟨⟨2, ![n, c]⟩, x3⟩] h (ix2 r k)
      = x0 (ix2 r j) := by
  refine concatenate_apply_piece (t := ⟨2, ![n, K]⟩) 1
    [⟨⟨2, ![n, c]⟩, x0⟩, ⟨⟨2, ![n, c]⟩, x1⟩, ⟨⟨2, ![n, c]⟩, x2⟩, ⟨⟨2, ![n, c]⟩, x3⟩] h (ix2 r k) 0
    (by show (0 : Nat) < 4; omega) ⟨2, ![n, c]⟩ x0 rfl rfl _ rfl (ix2 r j) (fun b => ?_) ?_
  · match b with
    | ⟨0, _⟩ => exact fun _ => rfl
    | ⟨1, _⟩ => exact fun hne => absurd rfl hne
  · show 0 + j.val = k.val
    omega

/-- Four [n, c] matrices side by side as one [n, K] matrix, read at row `r` and at the column that is column `j` of the
    second one. -/
theorem cat4_read1 {n c K : Nat}
    (h : Shape.Concatenates [(⟨2, ![n, c]⟩ : Shape), ⟨2, ![n, c]⟩, ⟨2, ![n, c]⟩, ⟨2, ![n, c]⟩] ⟨2, ![n, K]⟩ 1)
    (x0 x1 x2 x3 : (⟨2, ![n, c]⟩ : Shape).Idx → α) (r : Fin n) (j : Fin c) (k : Fin K) (hk : k.val = c + j.val) :
    concatenate ⟨2, ![n, K]⟩ 1 [⟨⟨2, ![n, c]⟩, x0⟩, ⟨⟨2, ![n, c]⟩, x1⟩, ⟨⟨2, ![n, c]⟩, x2⟩, ⟨⟨2, ![n, c]⟩, x3⟩] h (ix2 r k)
      = x1 (ix2 r j) := by
  refine concatenate_apply_piece (t := ⟨2, ![n, K]⟩) 1
    [⟨⟨2, ![n, c]⟩, x0⟩, ⟨⟨2, ![n, c]⟩, x1⟩, ⟨⟨2, ![n, c]⟩, x2⟩, ⟨⟨2, ![n, c]⟩, x3⟩] h (ix2 r k) 1
    (by show (1 : Nat) < 4; omega) ⟨2, ![n, c]⟩ x1 rfl rfl _ rfl (ix2 r j) (fun b => ?_) ?_
  · match b with
    | ⟨0, _⟩ => exact fun _ => rfl
    | ⟨1, _⟩ => exact fun hne => absurd rfl hne
  · show (c + 0) + j.val = k.val
    omega

/-- Four [n, c] matrices side by side as one [n, K] matrix, read at row `r` and at the column that is column `j` of the
    third one. -/
theorem cat4_read2 {n c K : Nat}
    (h : Shape.Concatenates [(⟨2, ![n, c]⟩ : Shape), ⟨2, ![n, c]⟩, ⟨2, ![n, c]⟩, ⟨2, ![n, c]⟩] ⟨2, ![n, K]⟩ 1)
    (x0 x1 x2 x3 : (⟨2, ![n, c]⟩ : Shape).Idx → α) (r : Fin n) (j : Fin c) (k : Fin K) (hk : k.val = 2 * c + j.val) :
    concatenate ⟨2, ![n, K]⟩ 1 [⟨⟨2, ![n, c]⟩, x0⟩, ⟨⟨2, ![n, c]⟩, x1⟩, ⟨⟨2, ![n, c]⟩, x2⟩, ⟨⟨2, ![n, c]⟩, x3⟩] h (ix2 r k)
      = x2 (ix2 r j) := by
  refine concatenate_apply_piece (t := ⟨2, ![n, K]⟩) 1
    [⟨⟨2, ![n, c]⟩, x0⟩, ⟨⟨2, ![n, c]⟩, x1⟩, ⟨⟨2, ![n, c]⟩, x2⟩, ⟨⟨2, ![n, c]⟩, x3⟩] h (ix2 r k) 2
    (by show (2 : Nat) < 4; omega) ⟨2, ![n, c]⟩ x2 rfl rfl _ rfl (ix2 r j) (fun b => ?_) ?_
  · match b with
    | ⟨0, _⟩ => exact fun _ => rfl
    | ⟨1, _⟩ => exact fun hne => absurd rfl hne
  · show (c + (c + 0)) + j.val = k.val
    omega

/-- Four [n, c] matrices side by side as one [n, K] matrix, read at row `r` and at the column that is column `j` of the
    fourth one. -/
theorem cat4_read3 {n c K : Nat}
    (h : Shape.Concatenates [(⟨2, ![n, c]⟩ : Shape), ⟨2, ![n, c]⟩, ⟨2, ![n, c]⟩, ⟨2, ![n, c]⟩] ⟨2, ![n, K]⟩ 1)
    (x0 x1 x2 x3 : (⟨2, ![n, c]⟩ : Shape).Idx → α) (r : Fin n) (j : Fin c) (k : Fin K) (hk : k.val = 3 * c + j.val) :
    concatenate ⟨2, ![n, K]⟩ 1 [⟨⟨2, ![n, c]⟩, x0⟩, ⟨⟨2, ![n, c]⟩, x1⟩, ⟨⟨2, ![n, c]⟩, x2⟩, ⟨⟨2, ![n, c]⟩, x3⟩] h (ix2 r k)
      = x3 (ix2 r j) := by
  refine concatenate_apply_piece (t := ⟨2, ![n, K]⟩) 1
    [⟨⟨2, ![n, c]⟩, x0⟩, ⟨⟨2, ![n, c]⟩, x1⟩, ⟨⟨2, ![n, c]⟩, x2⟩, ⟨⟨2, ![n, c]⟩, x3⟩] h (ix2 r k) 3
    (by show (3 : Nat) < 4; omega) ⟨2, ![n, c]⟩ x3 rfl rfl _ rfl (ix2 r j) (fun b => ?_) ?_
  · match b with
    | ⟨0, _⟩ => exact fun _ => rfl
    | ⟨1, _⟩ => exact fun hne => absurd rfl hne
  · show (c + (c + (c + 0))) + j.val = k.val
    omega

/-- Row `j` of a band of `c` rows starting at row `off` of an [R, N] matrix lies inside the matrix. -/
theorem rows_lt {R c N : Nat} {off : Nat} (h : (⟨2, ![R, N]⟩ : Shape).Slices ![off, 0] ⟨2, ![c, N]⟩) (j : Fin c) :
    off + j.val < R := by
  have h0 : off + c ≤ R := h.2 (0 : Fin 2)
  have := j.isLt
  omega

/-- Rows [off, off + c) of an [R, N] matrix, as a [c, N] matrix, read at (j, q): the whole matrix at row `off + j`. -/
theorem rows_read {R c N : Nat} (off : Nat) (h : (⟨2, ![R, N]⟩ : Shape).Slices ![off, 0] ⟨2, ![c, N]⟩)
    (w : (⟨2, ![R, N]⟩ : Shape).Idx → α) (j : Fin c) (q : Fin N) (k : Fin R) (hk : k.val = off + j.val) :
    extractStridedSlice ⟨2, ![c, N]⟩ ![off, 0] w h (ix2 j q) = w (ix2 k q) := by
  refine extractStridedSlice_apply ![off, 0] w h (ix2 j q) (ix2 k q) (fun ax => ?_)
  match ax with
  | ⟨0, _⟩ => exact hk
  | ⟨1, _⟩ => show q.val = 0 + q.val; omega

end Cert.LibConcatRead

end
-- ==== Proof.LibEdgeFirstLayer.lean ====
/-
  A product with four matrices laid side by side is the sum of four products with the bands of rows they meet.

  Let A, B, C, D be [n, 128] matrices and W a [512, N] matrix, and let W₀, W₁, W₂, W₃ be its bands of rows
  0–127, 128–255, 256–383, 384–511. Row r of [A B C D] (the four side by side, an [n, 512] matrix) against column q of W
  is a sum of 512 products; its first 128 terms are row r of A against column q of W₀, the next 128 row r of B against
  column q of W₁, and so on. So, entry by entry,
      [A B C D] · W  =  ((A · W₀ + B · W₁) + C · W₂) + D · W₃ ,
  the additions on the right taken from the left. Only that the addition is commutative and associative is used:
  a sum of 512 terms is regrouped into four sums of 128. No product is distributed and nothing is cancelled, so the
  statement holds on the extended reals, infinities included.

  `four_block_contraction` is the statement for the two layout operations (four operands concatenated along the
  columns; bands of rows sliced out) over any values with a commutative associative addition and a product.
  `host_eq_chip_rows` states it for the two spellings of the products at the ideal values: one host product of the
  concatenation on the left, on the right four matrix products accumulated into zero, of operands that hold the rows
  and bands in question (possibly a block of rows of A, B, C, D, and in any number formats); `host_eq_chip` is its case
  where the operands are A, B, C, D and the bands themselves.
-/
import proofs.«147763_j11003706212366_2_alg».proof.Proof.LibFourBlocks
import proofs.«147763_j11003706212366_2_alg».proof.Proof.LibConcatRead
import proofs.«147763_j11003706212366_2_alg».proof.Proof.LibMatmulRows

noncomputable section

open scoped BigOperators

namespace Cert.EdgeFirstLayer

open Idealize.ShloMosaic Idealize.ShloMosaic.ValueIdx

/-- Row r of [A B C D] against column q of W, as the four sums over the bands of W, added from the left. -/
theorem four_block_contraction {V : Type} [AddCommMonoid V] [Mul V] {n N : Nat}
    (hcat : Shape.Concatenates [(⟨2, ![n, 128]⟩ : Shape), ⟨2, ![n, 128]⟩, ⟨2, ![n, 128]⟩, ⟨2, ![n, 128]⟩] ⟨2, ![n, 512]⟩ 1)
    (h0 : (⟨2, ![512, N]⟩ : Shape).Slices ![0, 0] ⟨2, ![128, N]⟩) (h1 : (⟨2, ![512, N]⟩ : Shape).Slices ![128, 0] ⟨2, ![128, N]⟩)
    (h2 : (⟨2, ![512, N]⟩ : Shape).Slices ![256, 0] ⟨2, ![128, N]⟩) (h3 : (⟨2, ![512, N]⟩ : Shape).Slices ![384, 0] ⟨2, ![128, N]⟩)
    (A B C D : (⟨2, ![n, 128]⟩ : Shape).Idx → V) (W : (⟨2, ![512, N]⟩ : Shape).Idx → V) (r : Fin n) (q : Fin N) :
    ∑ k : Fin 512, concatenate ⟨2, ![n, 512]⟩ 1 [⟨⟨2, ![n, 128]⟩, A⟩, ⟨⟨2, ![n, 128]⟩, B⟩, ⟨⟨2, ![n, 128]⟩, C⟩, ⟨⟨2, ![n, 128]⟩, D⟩] hcat (ix2 r k) * W (ix2 k q)
      = ((∑ j : Fin 128, A (ix2 r j) * extractStridedSlice ⟨2, ![128, N]⟩ ![0, 0] W h0 (ix2 j q)
            + ∑ j : Fin 128, B (ix2 r j) * extractStridedSlice ⟨2, ![128, N]⟩ ![128, 0] W h1 (ix2 j q))
          + ∑ j : Fin 128, C (ix2 r j) * extractStridedSlice ⟨2, ![128, N]⟩ ![256, 0] W h2 (ix2 j q))
        + ∑ j : Fin 128, D (ix2 r j) * extractStridedSlice ⟨2, ![128, N]⟩ ![384, 0] W h3 (ix2 j q) := by
  refine (Cert.FourBlocks.sum_four_blocks_512
    (fun k : Fin 512 => concatenate ⟨2, ![n, 512]⟩ 1 [⟨⟨2, ![n, 128]⟩, A⟩, ⟨⟨2, ![n, 128]⟩, B⟩, ⟨⟨2, ![n, 128]⟩, C⟩, ⟨⟨2, ![n, 128]⟩, D⟩] hcat (ix2 r k) * W (ix2 k q))).trans ?_
  refine congrArg₂ (· + ·) (congrArg₂ (· + ·) (congrArg₂ (· + ·) ?_ ?_) ?_) ?_ <;>
    refine Finset.sum_congr rfl fun j _ => ?_
  · exact congrArg₂ (· * ·) (Cert.LibConcatRead.cat4_read0 hcat A B C D r j ⟨j.val, Cert.FourBlocks.b0 j⟩ rfl)
      (Cert.LibConcatRead.rows_read 0 h0 W j q ⟨j.val, Cert.FourBlocks.b0 j⟩ (Nat.zero_add _).symm).symm
  · exact congrArg₂ (· * ·) (Cert.LibConcatRead.cat4_read1 hcat A B C D r j ⟨128 + j.val, Cert.FourBlocks.b1 j⟩ rfl)
      (Cert.LibConcatRead.rows_read 128 h1 W j q ⟨128 + j.val, Cert.FourBlocks.b1 j⟩ rfl).symm
  · exact congrArg₂ (· * ·) (Cert.LibConcatRead.cat4_read2 hcat A B C D r j ⟨256 + j.val, Cert.FourBlocks.b2 j⟩ rfl)
      (Cert.LibConcatRead.rows_read 256 h2 W j q ⟨256 + j.val, Cert.FourBlocks.b2 j⟩ rfl).symm
  · exact congrArg₂ (· * ·) (Cert.LibConcatRead.cat4_read3 hcat A B C D r j ⟨384 + j.val, Cert.FourBlocks.b3 j⟩ rfl)
      (Cert.LibConcatRead.rows_read 384 h3 W j q ⟨384 + j.val, Cert.FourBlocks.b3 j⟩ rfl).symm

/-- The host's product of [A B C D] with W at (r, q) is, at the ideal values, the sum — from the left — of four matrix
    products accumulated into zero, read at (p, q), whenever their left operands hold at row p what A, B, C, D hold at
    row r and their right operands hold in column q what the four bands of W hold there. -/
theorem host_eq_chip_rows {n M N : Nat} {φA φW φa φw : FTy}
    (hcat : Shape.Concatenates [(⟨2, ![n, 128]⟩ : Shape), ⟨2, ![n, 128]⟩, ⟨2, ![n, 128]⟩, ⟨2, ![n, 128]⟩] ⟨2, ![n, 512]⟩ 1)
    (h0 : (⟨2, ![512, N]⟩ : Shape).Slices ![0, 0] ⟨2, ![128, N]⟩) (h1 : (⟨2, ![512, N]⟩ : Shape).Slices ![128, 0] ⟨2, ![128, N]⟩)
    (h2 : (⟨2, ![512, N]⟩ : Shape).Slices ![256, 0] ⟨2, ![128, N]⟩) (h3 : (⟨2, ![512, N]⟩ : Shape).Slices ![384, 0] ⟨2, ![128, N]⟩)
    (A B C D : FVec Ideal ⟨2, ![n, 128]⟩ φA) (W : FVec Ideal ⟨2, ![512, N]⟩ φW)
    (a b c d : FVec Ideal ⟨2, ![M, 128]⟩ φa) (w0 w1 w2 w3 : FVec Ideal ⟨2, ![128, N]⟩ φw)
    (r : Fin n) (p : Fin M) (q : Fin N)
    (ha : ∀ j : Fin 128, a (ix2 p j) = A (ix2 r j)) (hb : ∀ j : Fin 128, b (ix2 p j) = B (ix2 r j))
    (hc : ∀ j : Fin 128, c (ix2 p j) = C (ix2 r j)) (hd : ∀ j : Fin 128, d (ix2 p j) = D (ix2 r j))
    (hw0 : ∀ j : Fin 128, w0 (ix2 j q) = extractStridedSlice ⟨2, ![128, N]⟩ ![0, 0] W h0 (ix2 j q))
    (hw1 : ∀ j : Fin 128, w1 (ix2 j q) = extractStridedSlice ⟨2, ![128, N]⟩ ![128, 0] W h1 (ix2 j q))
    (hw2 : ∀ j : Fin 128, w2 (ix2 j q) = extractStridedSlice ⟨2, ![128, N]⟩ ![256, 0] W h2 (ix2 j q))
    (hw3 : ∀ j : Fin 128, w3 (ix2 j q) = extractStridedSlice ⟨2, ![128, N]⟩ ![384, 0] W h3 (ix2 j q)) :
    Host.dotGeneral (DotDims.plain n 512 N) none
        (concatenate ⟨2, ![n, 512]⟩ 1 [⟨⟨2, ![n, 128]⟩, A⟩, ⟨⟨2, ![n, 128]⟩, B⟩, ⟨⟨2, ![n, 128]⟩, C⟩, ⟨⟨2, ![n, 128]⟩, D⟩] hcat : FVec Ideal ⟨2, ![n, 512]⟩ φA) W (ix2 r q)
      = addf (addf (addf (matmul (DotDims.plain M 128 N) none a w0 (constant ⟨2, ![M, N]⟩ .f32 0x00000000#32))
                         (matmul (DotDims.plain M 128 N) none b w1 (constant ⟨2, ![M, N]⟩ .f32 0x00000000#32)))
                   (matmul (DotDims.plain M 128 N) none c w2 (constant ⟨2, ![M, N]⟩ .f32 0x00000000#32)))
             (matmul (DotDims.plain M 128 N) none d w3 (constant ⟨2, ![M, N]⟩ .f32 0x00000000#32)) (ix2 p q) := by
  rw [addf_apply, addf_apply, addf_apply]
  refine ((Cert.Bridge.dotGeneral_plain_apply (φ₁ := φA) (φ₂ := φW) n 512 N none .single _ W r q).trans
    (four_block_contraction hcat h0 h1 h2 h3 A B C D W r q)).trans ?_
  refine congrArg₂ (· + ·) (congrArg₂ (· + ·) (congrArg₂ (· + ·) ?_ ?_) ?_) ?_
  · refine Eq.trans (Finset.sum_congr rfl fun j _ => ?_)
      (Cert.Bridge.matmul_plain_zero_apply (φ₁ := φa) (φ₂ := φw) M 128 N none a w0 p q).symm
    rw [ha j, hw0 j]
  · refine Eq.trans (Finset.sum_congr rfl fun j _ => ?_)
      (Cert.Bridge.matmul_plain_zero_apply (φ₁ := φa) (φ₂ := φw) M 128 N none b w1 p q).symm
    rw [hb j, hw1 j]
  · refine Eq.trans (Finset.sum_congr rfl fun j _ => ?_)
      (Cert.Bridge.matmul_plain_zero_apply (φ₁ := φa) (φ₂ := φw) M 128 N none c w2 p q).symm
    rw [hc j, hw2 j]
  · refine Eq.trans (Finset.sum_congr rfl fun j _ => ?_)
      (Cert.Bridge.matmul_plain_zero_apply (φ₁ := φa) (φ₂ := φw) M 128 N none d w3 p q).symm
    rw [hd j, hw3 j]

/-- The host's product of [A B C D] with W is, entry by entry at the ideal values, the sum — from the left — of the four
    matrix products of A, B, C, D with the bands of rows of W, each accumulated into zero. -/
theorem host_eq_chip {n N : Nat} {φA φW : FTy}
    (hcat : Shape.Concatenates [(⟨2, ![n, 128]⟩ : Shape), ⟨2, ![n, 128]⟩, ⟨2, ![n, 128]⟩, ⟨2, ![n, 128]⟩] ⟨2, ![n, 512]⟩ 1)
    (h0 : (⟨2, ![512, N]⟩ : Shape).Slices ![0, 0] ⟨2, ![128, N]⟩) (h1 : (⟨2, ![512, N]⟩ : Shape).Slices ![128, 0] ⟨2, ![128, N]⟩)
    (h2 : (⟨2, ![512, N]⟩ : Shape).Slices ![256, 0] ⟨2, ![128, N]⟩) (h3 : (⟨2, ![512, N]⟩ : Shape).Slices ![384, 0] ⟨2, ![128, N]⟩)
    (A B C D : FVec Ideal ⟨2, ![n, 128]⟩ φA) (W : FVec Ideal ⟨2, ![512, N]⟩ φW) (r : Fin n) (q : Fin N) :
    Host.dotGeneral (DotDims.plain n 512 N) none
        (concatenate ⟨2, ![n, 512]⟩ 1 [⟨⟨2, ![n, 128]⟩, A⟩, ⟨⟨2, ![n, 128]⟩, B⟩, ⟨⟨2, ![n, 128]⟩, C⟩, ⟨⟨2, ![n, 128]⟩, D⟩] hcat : FVec Ideal ⟨2, ![n, 512]⟩ φA) W (ix2 r q)
      = addf (addf (addf (matmul (DotDims.plain n 128 N) none A (extractStridedSlice ⟨2, ![128, N]⟩ ![0, 0] W h0 : FVec Ideal ⟨2, ![128, N]⟩ φW) (constant ⟨2, ![n, N]⟩ .f32 0x00000000#32))
                         (matmul (DotDims.plain n 128 N) none B (extractStridedSlice ⟨2, ![128, N]⟩ ![128, 0] W h1 : FVec Ideal ⟨2, ![128, N]⟩ φW) (constant ⟨2, ![n, N]⟩ .f32 0x00000000#32)))
                   (matmul (DotDims.plain n 128 N) none C (extractStridedSlice ⟨2, ![128, N]⟩ ![256, 0] W h2 : FVec Ideal ⟨2, ![128, N]⟩ φW) (constant ⟨2, ![n, N]⟩ .f32 0x00000000#32)))
             (matmul (DotDims.plain n 128 N) none D (extractStridedSlice ⟨2, ![128, N]⟩ ![384, 0] W h3 : FVec Ideal ⟨2, ![128, N]⟩ φW) (constant ⟨2, ![n, N]⟩ .f32 0x00000000#32)) (ix2 r q) :=
  host_eq_chip_rows hcat h0 h1 h2 h3 A B C D W A B C D _ _ _ _ r r q
    (fun _ => rfl) (fun _ => rfl) (fun _ => rfl) (fun _ => rfl) (fun _ => rfl) (fun _ => rfl) (fun _ => rfl) (fun _ => rfl)

end Cert.EdgeFirstLayer

end
-- ==== Proof.SpecEdgeHost.lean ====
/-
  The edge update's perceptron in its two spellings, at the ideal values, for any number of rows.

  The host spelling lays the four [n, 128] inputs side by side and runs three layers on the [n, 512] result: a plain
  product with the weight matrix, the bias vector broadcast to one row and then down all the rows and added, and the
  maximum with the zero scalar broadcast to the shape. The on-chip side is handed the first weight matrix as its four bands
  of 128 rows, every matrix narrowed to bf16 (a change of format, so nothing at the ideal values) and every bias reshaped
  to a one-row matrix, and computes `Spec.edgeE1` of them. The two agree entry by entry:
  * the first layers (`edgeHid4_eq_host`) because a sum of 512 products regroups into four sums of 128 added from the
    left (LibEdgeFirstLayer.lean), the bias read at (r, k) being the vector's entry k on both sides;
  * the other two layer by layer (`LibReluDense.host_reluDense`).
  `edgeEs_eq_host` adds the old edge array to both.
-/
import proofs.«147763_j11003706212366_2_alg».proof.Proof.SpecEdge
import proofs.«147763_j11003706212366_2_alg».proof.Proof.LibEdgeFirstLayer
import proofs.«147763_j11003706212366_2_alg».proof.Proof.LibRowReads

noncomputable section

open scoped BigOperators

namespace Cert.Spec

open Idealize.ShloMosaic Idealize.ShloMosaic.ValueIdx Cert.LibDense Cert.LibReluDense Cert.DenseRows

/-- The first layer on the two sides, for any height n and width N of the hidden array: the four band products of the
    inputs with the narrowed bands of W, plus the bias reshaped to a row, the positive part — against the host's product of
    the four inputs side by side with W, plus the bias broadcast down the rows, the maximum with the zero scalar's splat. -/
theorem edgeHid4_eq_host {n N : Nat} (hN : N ≠ 1) (hlt : FTy.bits .bf16 < FTy.bits .f32)
    (d : DotDims ⟨2, ![n, 512]⟩ ⟨2, ![512, N]⟩ ⟨2, ![n, N]⟩) (hd : d = DotDims.plain n 512 N)
    (hcat : Shape.Concatenates [(⟨2, ![n, 128]⟩ : Shape), ⟨2, ![n, 128]⟩, ⟨2, ![n, 128]⟩, ⟨2, ![n, 128]⟩] ⟨2, ![n, 512]⟩ 1)
    (h0 : (⟨2, ![512, N]⟩ : Shape).Slices ![0, 0] ⟨2, ![128, N]⟩) (h1 : (⟨2, ![512, N]⟩ : Shape).Slices ![128, 0] ⟨2, ![128, N]⟩)
    (h2 : (⟨2, ![512, N]⟩ : Shape).Slices ![256, 0] ⟨2, ![128, N]⟩) (h3 : (⟨2, ![512, N]⟩ : Shape).Slices ![384, 0] ⟨2, ![128, N]⟩)
    (hb1 : (⟨1, ![N]⟩ : Shape).BroadcastsInDim ⟨2, ![1, N]⟩ ![1])
    (hb2 : (⟨2, ![1, N]⟩ : Shape).BroadcastsInDim ⟨2, ![n, N]⟩ ![0, 1])
    (hb0 : (⟨0, ![]⟩ : Shape).BroadcastsInDim ⟨2, ![n, N]⟩ ![])
    (hc : (⟨1, ![N]⟩ : Shape).ShapeCasts ⟨2, ![1, N]⟩)
    (a b c dd : FVec Ideal ⟨2, ![n, 128]⟩ .f32) (W : FVec Ideal ⟨2, ![512, N]⟩ .f32) (b1 : FVec Ideal ⟨1, ![N]⟩ .f32) :
    edgeHid4 a b c dd
        (truncf .bf16 (extractStridedSlice ⟨2, ![128, N]⟩ ![0, 0] W h0 : FVec Ideal ⟨2, ![128, N]⟩ .f32) hlt)
        (truncf .bf16 (extractStridedSlice ⟨2, ![128, N]⟩ ![128, 0] W h1 : FVec Ideal ⟨2, ![128, N]⟩ .f32) hlt)
        (truncf .bf16 (extractStridedSlice ⟨2, ![128, N]⟩ ![256, 0] W h2 : FVec Ideal ⟨2, ![128, N]⟩ .f32) hlt)
        (truncf .bf16 (extractStridedSlice ⟨2, ![128, N]⟩ ![384, 0] W h3 : FVec Ideal ⟨2, ![128, N]⟩ .f32) hlt)
        (shapeCast ⟨2, ![1, N]⟩ b1 hc)
      = maximumf (addf (Host.dotGeneral d none
            (concatenate ⟨2, ![n, 512]⟩ 1 [⟨⟨2, ![n, 128]⟩, a⟩, ⟨⟨2, ![n, 128]⟩, b⟩, ⟨⟨2, ![n, 128]⟩, c⟩, ⟨⟨2, ![n, 128]⟩, dd⟩] hcat : FVec Ideal ⟨2, ![n, 512]⟩ .f32) W)
          (broadcastInDim ⟨2, ![n, N]⟩ ![0, 1] hb2 (broadcastInDim ⟨2, ![1, N]⟩ ![1] hb1 b1)))
        (broadcastInDim ⟨2, ![n, N]⟩ ![] hb0 (constant (F := Ideal) ⟨0, ![]⟩ .f32 0x00000000#32)) := by
  subst hd
  funext i
  obtain ⟨r, k, rfl⟩ : ∃ r k, i = ix2 r k := ⟨_, _, eq_ix2 i⟩
  rw [maximumf_apply, addf_apply, Cert.LibRowReads.down_read hN hb1 hb2 b1 r k, Cert.LibRowReads.splat_read hb0, constant_apply]
  refine congrArg₂ max (congrArg₂ (· + ·) ?_ (Cert.LibRowReads.asRow_read hc b1 k)) Ideal.ofBits_zero_f32.symm
  exact ((Cert.Bridge.dotGeneral_plain_apply (φ₁ := .f32) (φ₂ := .f32) n 512 N none .single _ W r k).trans
    (Cert.EdgeFirstLayer.four_block_contraction hcat h0 h1 h2 h3 a b c dd W r k)).symm

/-- The whole perceptron on the two sides. -/
theorem edgeE1_eq_host {n H' O : Nat} (hH : 512 ≠ 1) (hH' : H' ≠ 1) (hO : O ≠ 1) (hlt : FTy.bits .bf16 < FTy.bits .f32)
    (d1 : DotDims ⟨2, ![n, 512]⟩ ⟨2, ![512, 512]⟩ ⟨2, ![n, 512]⟩) (hd1 : d1 = DotDims.plain n 512 512)
    (d2 : DotDims ⟨2, ![n, 512]⟩ ⟨2, ![512, H']⟩ ⟨2, ![n, H']⟩) (hd2 : d2 = DotDims.plain n 512 H')
    (d3 : DotDims ⟨2, ![n, H']⟩ ⟨2, ![H', O]⟩ ⟨2, ![n, O]⟩) (hd3 : d3 = DotDims.plain n H' O)
    (hcat : Shape.Concatenates [(⟨2, ![n, 128]⟩ : Shape), ⟨2, ![n, 128]⟩, ⟨2, ![n, 128]⟩, ⟨2, ![n, 128]⟩] ⟨2, ![n, 512]⟩ 1)
    (h0 : (⟨2, ![512, 512]⟩ : Shape).Slices ![0, 0] ⟨2, ![128, 512]⟩) (h1 : (⟨2, ![512, 512]⟩ : Shape).Slices ![128, 0] ⟨2, ![128, 512]⟩)
    (h2 : (⟨2, ![512, 512]⟩ : Shape).Slices ![256, 0] ⟨2, ![128, 512]⟩) (h3 : (⟨2, ![512, 512]⟩ : Shape).Slices ![384, 0] ⟨2, ![128, 512]⟩)
    (hb1a : (⟨1, ![512]⟩ : Shape).BroadcastsInDim ⟨2, ![1, 512]⟩ ![1]) (hb1b : (⟨2, ![1, 512]⟩ : Shape).BroadcastsInDim ⟨2, ![n, 512]⟩ ![0, 1])
    (hb1z : (⟨0, ![]⟩ : Shape).BroadcastsInDim ⟨2, ![n, 512]⟩ ![]) (hc1 : (⟨1, ![512]⟩ : Shape).ShapeCasts ⟨2, ![1, 512]⟩)
    (hb2a : (⟨1, ![H']⟩ : Shape).BroadcastsInDim ⟨2, ![1, H']⟩ ![1]) (hb2b : (⟨2, ![1, H']⟩ : Shape).BroadcastsInDim ⟨2, ![n, H']⟩ ![0, 1])
    (hb2z : (⟨0, ![]⟩ : Shape).BroadcastsInDim ⟨2, ![n, H']⟩ ![]) (hc2 : (⟨1, ![H']⟩ : Shape).ShapeCasts ⟨2, ![1, H']⟩)
    (hb3a : (⟨1, ![O]⟩ : Shape).BroadcastsInDim ⟨2, ![1, O]⟩ ![1]) (hb3b : (⟨2, ![1, O]⟩ : Shape).BroadcastsInDim ⟨2, ![n, O]⟩ ![0, 1])
    (hb3z : (⟨0, ![]⟩ : Shape).BroadcastsInDim ⟨2, ![n, O]⟩ ![]) (hc3 : (⟨1, ![O]⟩ : Shape).ShapeCasts ⟨2, ![1, O]⟩)
    (a b c dd : FVec Ideal ⟨2, ![n, 128]⟩ .f32) (W1 : FVec Ideal ⟨2, ![512, 512]⟩ .f32) (b1 : FVec Ideal ⟨1, ![512]⟩ .f32)
    (W2 : FVec Ideal ⟨2, ![512, H']⟩ .f32) (b2 : FVec Ideal ⟨1, ![H']⟩ .f32) (W3 : FVec Ideal ⟨2, ![H', O]⟩ .f32) (b3 : FVec Ideal ⟨1, ![O]⟩ .f32) :
    edgeE1 a b c dd
        (truncf .bf16 (extractStridedSlice ⟨2, ![128, 512]⟩ ![0, 0] W1 h0 : FVec Ideal ⟨2, ![128, 512]⟩ .f32) hlt)
        (truncf .bf16 (extractStridedSlice ⟨2, ![128, 512]⟩ ![128, 0] W1 h1 : FVec Ideal ⟨2, ![128, 512]⟩ .f32) hlt)
        (truncf .bf16 (extractStridedSlice ⟨2, ![128, 512]⟩ ![256, 0] W1 h2 : FVec Ideal ⟨2, ![128, 512]⟩ .f32) hlt)
        (truncf .bf16 (extractStridedSlice ⟨2, ![128, 512]⟩ ![384, 0] W1 h3 : FVec Ideal ⟨2, ![128, 512]⟩ .f32) hlt)
        (shapeCast ⟨2, ![1, 512]⟩ b1 hc1) (truncf .bf16 W2 hlt) (shapeCast ⟨2, ![1, H']⟩ b2 hc2) (truncf .bf16 W3 hlt) (shapeCast ⟨2, ![1, O]⟩ b3 hc3)
      = maximumf (addf (Host.dotGeneral d3 none
            (maximumf (addf (Host.dotGeneral d2 none
                (maximumf (addf (Host.dotGeneral d1 none
                    (concatenate ⟨2, ![n, 512]⟩ 1 [⟨⟨2, ![n, 128]⟩, a⟩, ⟨⟨2, ![n, 128]⟩, b⟩, ⟨⟨2, ![n, 128]⟩, c⟩, ⟨⟨2, ![n, 128]⟩, dd⟩] hcat : FVec Ideal ⟨2, ![n, 512]⟩ .f32) W1)
                  (broadcastInDim ⟨2, ![n, 512]⟩ ![0, 1] hb1b (broadcastInDim ⟨2, ![1, 512]⟩ ![1] hb1a b1)))
                (broadcastInDim ⟨2, ![n, 512]⟩ ![] hb1z (constant (F := Ideal) ⟨0, ![]⟩ .f32 0x00000000#32)))
              W2)
              (broadcastInDim ⟨2, ![n, H']⟩ ![0, 1] hb2b (broadcastInDim ⟨2, ![1, H']⟩ ![1] hb2a b2)))
            (broadcastInDim ⟨2, ![n, H']⟩ ![] hb2z (constant (F := Ideal) ⟨0, ![]⟩ .f32 0x00000000#32)))
          W3)
          (broadcastInDim ⟨2, ![n, O]⟩ ![0, 1] hb3b (broadcastInDim ⟨2, ![1, O]⟩ ![1] hb3a b3)))
        (broadcastInDim ⟨2, ![n, O]⟩ ![] hb3z (constant (F := Ideal) ⟨0, ![]⟩ .f32 0x00000000#32)) := by
  rw [host_reluDense n H' O hO d3 hd3 hb3a hb3b hb3z hc3, host_reluDense n 512 H' hH' d2 hd2 hb2a hb2b hb2z hc2,
    ← edgeHid4_eq_host hH hlt d1 hd1 hcat h0 h1 h2 h3 hb1a hb1b hb1z hc1 a b c dd W1 b1]
  rfl

/-- The residual output on the two sides: the same old edge array added to both. -/
theorem edgeEs_eq_host {n H' O : Nat} (hH : 512 ≠ 1) (hH' : H' ≠ 1) (hO : O ≠ 1) (hlt : FTy.bits .bf16 < FTy.bits .f32)
    (d1 : DotDims ⟨2, ![n, 512]⟩ ⟨2, ![512, 512]⟩ ⟨2, ![n, 512]⟩) (hd1 : d1 = DotDims.plain n 512 512)
    (d2 : DotDims ⟨2, ![n, 512]⟩ ⟨2, ![512, H']⟩ ⟨2, ![n, H']⟩) (hd2 : d2 = DotDims.plain n 512 H')
    (d3 : DotDims ⟨2, ![n, H']⟩ ⟨2, ![H', O]⟩ ⟨2, ![n, O]⟩) (hd3 : d3 = DotDims.plain n H' O)
    (hcat : Shape.Concatenates [(⟨2, ![n, 128]⟩ : Shape), ⟨2, ![n, 128]⟩, ⟨2, ![n, 128]⟩, ⟨2, ![n, 128]⟩] ⟨2, ![n, 512]⟩ 1)
    (h0 : (⟨2, ![512, 512]⟩ : Shape).Slices ![0, 0] ⟨2, ![128, 512]⟩) (h1 : (⟨2, ![512, 512]⟩ : Shape).Slices ![128, 0] ⟨2, ![128, 512]⟩)
    (h2 : (⟨2, ![512, 512]⟩ : Shape).Slices ![256, 0] ⟨2, ![128, 512]⟩) (h3 : (⟨2, ![512, 512]⟩ : Shape).Slices ![384, 0] ⟨2, ![128, 512]⟩)
    (hb1a : (⟨1, ![512]⟩ : Shape).BroadcastsInDim ⟨2, ![1, 512]⟩ ![1]) (hb1b : (⟨2, ![1, 512]⟩ : Shape).BroadcastsInDim ⟨2, ![n, 512]⟩ ![0, 1])
    (hb1z : (⟨0, ![]⟩ : Shape).BroadcastsInDim ⟨2, ![n, 512]⟩ ![]) (hc1 : (⟨1, ![512]⟩ : Shape).ShapeCasts ⟨2, ![1, 512]⟩)
    (hb2a : (⟨1, ![H']⟩ : Shape).BroadcastsInDim ⟨2, ![1, H']⟩ ![1]) (hb2b : (⟨2, ![1, H']⟩ : Shape).BroadcastsInDim ⟨2, ![n, H']⟩ ![0, 1])
    (hb2z : (⟨0, ![]⟩ : Shape).BroadcastsInDim ⟨2, ![n, H']⟩ ![]) (hc2 : (⟨1, ![H']⟩ : Shape).ShapeCasts ⟨2, ![1, H']⟩)
    (hb3a : (⟨1, ![O]⟩ : Shape).BroadcastsInDim ⟨2, ![1, O]⟩ ![1]) (hb3b : (⟨2, ![1, O]⟩ : Shape).BroadcastsInDim ⟨2, ![n, O]⟩ ![0, 1])
    (hb3z : (⟨0, ![]⟩ : Shape).BroadcastsInDim ⟨2, ![n, O]⟩ ![]) (hc3 : (⟨1, ![O]⟩ : Shape).ShapeCasts ⟨2, ![1, O]⟩)
    (a b c dd : FVec Ideal ⟨2, ![n, 128]⟩ .f32) (es : FVec Ideal ⟨2, ![n, O]⟩ .f32) (W1 : FVec Ideal ⟨2, ![512, 512]⟩ .f32) (b1 : FVec Ideal ⟨1, ![512]⟩ .f32)
    (W2 : FVec Ideal ⟨2, ![512, H']⟩ .f32) (b2 : FVec Ideal ⟨1, ![H']⟩ .f32) (W3 : FVec Ideal ⟨2, ![H', O]⟩ .f32) (b3 : FVec Ideal ⟨1, ![O]⟩ .f32) :
    edgeEs a b c dd es
        (truncf .bf16 (extractStridedSlice ⟨2, ![128, 512]⟩ ![0, 0] W1 h0 : FVec Ideal ⟨2, ![128, 512]⟩ .f32) hlt)
        (truncf .bf16 (extractStridedSlice ⟨2, ![128, 512]⟩ ![128, 0] W1 h1 : FVec Ideal ⟨2, ![128, 512]⟩ .f32) hlt)
        (truncf .bf16 (extractStridedSlice ⟨2, ![128, 512]⟩ ![256, 0] W1 h2 : FVec Ideal ⟨2, ![128, 512]⟩ .f32) hlt)
        (truncf .bf16 (extractStridedSlice ⟨2, ![128, 512]⟩ ![384, 0] W1 h3 : FVec Ideal ⟨2, ![128, 512]⟩ .f32) hlt)
        (shapeCast ⟨2, ![1, 512]⟩ b1 hc1) (truncf .bf16 W2 hlt) (shapeCast ⟨2, ![1, H']⟩ b2 hc2) (truncf .bf16 W3 hlt) (shapeCast ⟨2, ![1, O]⟩ b3 hc3)
      = addf (maximumf (addf (Host.dotGeneral d3 none
            (maximumf (addf (Host.dotGeneral d2 none
                (maximumf (addf (Host.dotGeneral d1 none
                    (concatenate ⟨2, ![n, 512]⟩ 1 [⟨⟨2, ![n, 128]⟩, a⟩, ⟨⟨2, ![n, 128]⟩, b⟩, ⟨⟨2, ![n, 128]⟩, c⟩, ⟨⟨2, ![n, 128]⟩, dd⟩] hcat : FVec Ideal ⟨2, ![n, 512]⟩ .f32) W1)
                  (broadcastInDim ⟨2, ![n, 512]⟩ ![0, 1] hb1b (broadcastInDim ⟨2, ![1, 512]⟩ ![1] hb1a b1)))
                (broadcastInDim ⟨2, ![n, 512]⟩ ![] hb1z (constant (F := Ideal) ⟨0, ![]⟩ .f32 0x00000000#32)))
              W2)
              (broadcastInDim ⟨2, ![n, H']⟩ ![0, 1] hb2b (broadcastInDim ⟨2, ![1, H']⟩ ![1] hb2a b2)))
            (broadcastInDim ⟨2, ![n, H']⟩ ![] hb2z (constant (F := Ideal) ⟨0, ![]⟩ .f32 0x00000000#32)))
          W3)
          (broadcastInDim ⟨2, ![n, O]⟩ ![0, 1] hb3b (broadcastInDim ⟨2, ![1, O]⟩ ![1] hb3a b3)))
        (broadcastInDim ⟨2, ![n, O]⟩ ![] hb3z (constant (F := Ideal) ⟨0, ![]⟩ .f32 0x00000000#32))) es := by
  rw [← edgeE1_eq_host hH hH' hO hlt d1 hd1 d2 hd2 d3 hd3 hcat h0 h1 h2 h3 hb1a hb1b hb1z hc1 hb2a hb2b hb2z hc2 hb3a hb3b hb3z hc3 a b c dd W1 b1 W2 b2 W3 b3]
  rfl

end Cert.Spec

end
-- ==== Proof.Bridge.Edge.lean ====
/-
  The edge update on the two sides, at the ideal values.

  The reference lays the four [80000, 128] inputs side by side and runs its three-layer perceptron on the [80000, 512]
  result: a product with W1, the bias b1 broadcast down the rows, the positive part; the same with W2, b2; the same with
  W3, b3 (`refE1`); its residual output adds the old edge array (`refEs`). The kernel side is handed W1 as its four bands
  of 128 rows, every matrix narrowed to bf16 (nothing at the ideal values) and every bias reshaped to a one-row matrix, and
  its region leaves `G2_14` and `G2_15` of them. For arbitrary arrays the two sides are equal, entry by entry: the first
  layers by the four-band law, the other two layer by layer (SpecEdgeHost.lean, at 80000 rows and widths 512, 512, 128).
  The three steps of the network use the same shapes and the same records, so the statement serves all three.
-/
import proofs.«147763_j11003706212366_2_alg».proof.Proof.KI.Val2
import proofs.«147763_j11003706212366_2_alg».proof.Proof.Gen.ReferenceIdeal
import proofs.«147763_j11003706212366_2_alg».proof.Proof.SpecEdgeHost

set_option maxRecDepth 16384

noncomputable section

namespace Cert.Bridge.Edge

open Idealize.ShloMosaic Idealize.ShloMosaic.ValueIdx Cert.Spec

/-- The reference's new edge array, as a function of the values its perceptron reads: the four inputs, the three weight
    matrices and the three bias vectors. -/
def refE1 (a b c d : FVec Ideal Cert.ReferenceIdeal.S80000x128 .f32) (W1 : FVec Ideal Cert.ReferenceIdeal.S512x512 .f32)
    (b1 : FVec Ideal Cert.ReferenceIdeal.S512 .f32) (W2 : FVec Ideal Cert.ReferenceIdeal.S512x512 .f32) (b2 : FVec Ideal Cert.ReferenceIdeal.S512 .f32)
    (W3 : FVec Ideal Cert.ReferenceIdeal.S512x128 .f32) (b3 : FVec Ideal Cert.ReferenceIdeal.S128 .f32) : FVec Ideal Cert.ReferenceIdeal.S80000x128 .f32 :=
  maximumf (addf (Host.dotGeneral Cert.ReferenceIdeal.dot_S80000x512_S512x128_S80000x128_1_0_0_1_n_n none
      (maximumf (addf (Host.dotGeneral Cert.ReferenceIdeal.dot_S80000x512_S512x512_S80000x512_1_0_0_1_n_n none
          (maximumf (addf (Host.dotGeneral Cert.ReferenceIdeal.dot_S80000x512_S512x512_S80000x512_1_0_0_1_n_n none
              (concatenate Cert.ReferenceIdeal.S80000x512 1 [⟨Cert.ReferenceIdeal.S80000x128, a⟩, ⟨Cert.ReferenceIdeal.S80000x128, b⟩, ⟨Cert.ReferenceIdeal.S80000x128, c⟩, ⟨Cert.ReferenceIdeal.S80000x128, d⟩]
                Cert.ReferenceIdeal.Gen.concatenates_S80000x128_S80000x128_S80000x128_S80000x128_S80000x512_d1 : FVec Ideal Cert.ReferenceIdeal.S80000x512 .f32) W1)
            (broadcastInDim Cert.ReferenceIdeal.S80000x512 ![0, 1] Cert.ReferenceIdeal.Gen.bcast_S1x512_S80000x512_0_1 (broadcastInDim Cert.ReferenceIdeal.S1x512 ![1] Cert.ReferenceIdeal.Gen.bcast_S512_S1x512_1 b1) : FVec Ideal Cert.ReferenceIdeal.S80000x512 .f32))
          (broadcastInDim Cert.ReferenceIdeal.S80000x512 ![] Cert.ReferenceIdeal.Gen.bcast_S_S80000x512 (constant (F := Ideal) Cert.ReferenceIdeal.S_ .f32 0x00000000#32)) : FVec Ideal Cert.ReferenceIdeal.S80000x512 .f32)
        W2)
        (broadcastInDim Cert.ReferenceIdeal.S80000x512 ![0, 1] Cert.ReferenceIdeal.Gen.bcast_S1x512_S80000x512_0_1 (broadcastInDim Cert.ReferenceIdeal.S1x512 ![1] Cert.ReferenceIdeal.Gen.bcast_S512_S1x512_1 b2) : FVec Ideal Cert.ReferenceIdeal.S80000x512 .f32))
      (broadcastInDim Cert.ReferenceIdeal.S80000x512 ![] Cert.ReferenceIdeal.Gen.bcast_S_S80000x512 (constant (F := Ideal) Cert.ReferenceIdeal.S_ .f32 0x00000000#32)) : FVec Ideal Cert.ReferenceIdeal.S80000x512 .f32)
    W3)
    (broadcastInDim Cert.ReferenceIdeal.S80000x128 ![0, 1] Cert.ReferenceIdeal.Gen.bcast_S1x128_S80000x128_0_1 (broadcastInDim Cert.ReferenceIdeal.S1x128 ![1] Cert.ReferenceIdeal.Gen.bcast_S128_S1x128_1 b3) : FVec Ideal Cert.ReferenceIdeal.S80000x128 .f32))
  (broadcastInDim Cert.ReferenceIdeal.S80000x128 ![] Cert.ReferenceIdeal.Gen.bcast_S_S80000x128 (constant (F := Ideal) Cert.ReferenceIdeal.S_ .f32 0x00000000#32))

/-- The reference's residual output: its new edge array plus the old one. -/
def refEs (a b c d : FVec Ideal Cert.ReferenceIdeal.S80000x128 .f32) (es : FVec Ideal Cert.ReferenceIdeal.S80000x128 .f32) (W1 : FVec Ideal Cert.ReferenceIdeal.S512x512 .f32)
    (b1 : FVec Ideal Cert.ReferenceIdeal.S512 .f32) (W2 : FVec Ideal Cert.ReferenceIdeal.S512x512 .f32) (b2 : FVec Ideal Cert.ReferenceIdeal.S512 .f32)
    (W3 : FVec Ideal Cert.ReferenceIdeal.S512x128 .f32) (b3 : FVec Ideal Cert.ReferenceIdeal.S128 .f32) : FVec Ideal Cert.ReferenceIdeal.S80000x128 .f32 :=
  addf (refE1 a b c d W1 b1 W2 b2 W3 b3) es

/-- The new edge array: the kernel side's function of the operands as the host lines prepare them is the reference's. -/
theorem e1_bridge (a b c d : FVec Ideal Cert.ReferenceIdeal.S80000x128 .f32) (W1 : FVec Ideal Cert.ReferenceIdeal.S512x512 .f32)
    (b1 : FVec Ideal Cert.ReferenceIdeal.S512 .f32) (W2 : FVec Ideal Cert.ReferenceIdeal.S512x512 .f32) (b2 : FVec Ideal Cert.ReferenceIdeal.S512 .f32)
    (W3 : FVec Ideal Cert.ReferenceIdeal.S512x128 .f32) (b3 : FVec Ideal Cert.ReferenceIdeal.S128 .f32) :
    Cert.KernelIdeal.Hand.G2_14 a b c d
        (truncf .bf16 (extractStridedSlice Cert.KernelIdeal.S128x512 ![0, 0] W1 Cert.KernelIdeal.Gen.slices_S512x512_S128x512_0_0 : FVec Ideal Cert.KernelIdeal.S128x512 .f32) Cert.KernelIdeal.Gen.bitsLt_bf16_f32 : FVec Ideal Cert.KernelIdeal.S128x512 .bf16)
        (truncf .bf16 (extractStridedSlice Cert.KernelIdeal.S128x512 ![128, 0] W1 Cert.KernelIdeal.Gen.slices_S512x512_S128x512_128_0 : FVec Ideal Cert.KernelIdeal.S128x512 .f32) Cert.KernelIdeal.Gen.bitsLt_bf16_f32 : FVec Ideal Cert.KernelIdeal.S128x512 .bf16)
        (truncf .bf16 (extractStridedSlice Cert.KernelIdeal.S128x512 ![256, 0] W1 Cert.KernelIdeal.Gen.slices_S512x512_S128x512_256_0 : FVec Ideal Cert.KernelIdeal.S128x512 .f32) Cert.KernelIdeal.Gen.bitsLt_bf16_f32 : FVec Ideal Cert.KernelIdeal.S128x512 .bf16)
        (truncf .bf16 (extractStridedSlice Cert.KernelIdeal.S128x512 ![384, 0] W1 Cert.KernelIdeal.Gen.slices_S512x512_S128x512_384_0 : FVec Ideal Cert.KernelIdeal.S128x512 .f32) Cert.KernelIdeal.Gen.bitsLt_bf16_f32 : FVec Ideal Cert.KernelIdeal.S128x512 .bf16)
        (shapeCast Cert.KernelIdeal.S1x512 b1 Cert.KernelIdeal.Gen.shapeCasts_S512_S1x512 : FVec Ideal Cert.KernelIdeal.S1x512 .f32)
        (truncf .bf16 W2 Cert.KernelIdeal.Gen.bitsLt_bf16_f32 : FVec Ideal Cert.KernelIdeal.S512x512 .bf16) (shapeCast Cert.KernelIdeal.S1x512 b2 Cert.KernelIdeal.Gen.shapeCasts_S512_S1x512 : FVec Ideal Cert.KernelIdeal.S1x512 .f32)
        (truncf .bf16 W3 Cert.KernelIdeal.Gen.bitsLt_bf16_f32 : FVec Ideal Cert.KernelIdeal.S512x128 .bf16) (shapeCast Cert.KernelIdeal.S1x128 b3 Cert.KernelIdeal.Gen.shapeCasts_S128_S1x128 : FVec Ideal Cert.KernelIdeal.S1x128 .f32)
      = refE1 a b c d W1 b1 W2 b2 W3 b3 :=
  edgeE1_eq_host (n := 80000) (H' := 512) (O := 128) (by decide) (by decide) (by decide) Cert.KernelIdeal.Gen.bitsLt_bf16_f32
    Cert.ReferenceIdeal.dot_S80000x512_S512x512_S80000x512_1_0_0_1_n_n rfl Cert.ReferenceIdeal.dot_S80000x512_S512x512_S80000x512_1_0_0_1_n_n rfl
    Cert.ReferenceIdeal.dot_S80000x512_S512x128_S80000x128_1_0_0_1_n_n rfl
    Cert.ReferenceIdeal.Gen.concatenates_S80000x128_S80000x128_S80000x128_S80000x128_S80000x512_d1
    Cert.KernelIdeal.Gen.slices_S512x512_S128x512_0_0 Cert.KernelIdeal.Gen.slices_S512x512_S128x512_128_0 Cert.KernelIdeal.Gen.slices_S512x512_S128x512_256_0 Cert.KernelIdeal.Gen.slices_S512x512_S128x512_384_0
    Cert.ReferenceIdeal.Gen.bcast_S512_S1x512_1 Cert.ReferenceIdeal.Gen.bcast_S1x512_S80000x512_0_1 Cert.ReferenceIdeal.Gen.bcast_S_S80000x512 Cert.KernelIdeal.Gen.shapeCasts_S512_S1x512
    Cert.ReferenceIdeal.Gen.bcast_S512_S1x512_1 Cert.ReferenceIdeal.Gen.bcast_S1x512_S80000x512_0_1 Cert.ReferenceIdeal.Gen.bcast_S_S80000x512 Cert.KernelIdeal.Gen.shapeCasts_S512_S1x512
    Cert.ReferenceIdeal.Gen.bcast_S128_S1x128_1 Cert.ReferenceIdeal.Gen.bcast_S1x128_S80000x128_0_1 Cert.ReferenceIdeal.Gen.bcast_S_S80000x128 Cert.KernelIdeal.Gen.shapeCasts_S128_S1x128
    a b c d W1 b1 W2 b2 W3 b3

/-- The residual output likewise. -/
theorem es_bridge (a b c d : FVec Ideal Cert.ReferenceIdeal.S80000x128 .f32) (es : FVec Ideal Cert.ReferenceIdeal.S80000x128 .f32) (W1 : FVec Ideal Cert.ReferenceIdeal.S512x512 .f32)
    (b1 : FVec Ideal Cert.ReferenceIdeal.S512 .f32) (W2 : FVec Ideal Cert.ReferenceIdeal.S512x512 .f32) (b2 : FVec Ideal Cert.ReferenceIdeal.S512 .f32)
    (W3 : FVec Ideal Cert.ReferenceIdeal.S512x128 .f32) (b3 : FVec Ideal Cert.ReferenceIdeal.S128 .f32) :
    Cert.KernelIdeal.Hand.G2_15 a b c d es
        (truncf .bf16 (extractStridedSlice Cert.KernelIdeal.S128x512 ![0, 0] W1 Cert.KernelIdeal.Gen.slices_S512x512_S128x512_0_0 : FVec Ideal Cert.KernelIdeal.S128x512 .f32) Cert.KernelIdeal.Gen.bitsLt_bf16_f32 : FVec Ideal Cert.KernelIdeal.S128x512 .bf16)
        (truncf .bf16 (extractStridedSlice Cert.KernelIdeal.S128x512 ![128, 0] W1 Cert.KernelIdeal.Gen.slices_S512x512_S128x512_128_0 : FVec Ideal Cert.KernelIdeal.S128x512 .f32) Cert.KernelIdeal.Gen.bitsLt_bf16_f32 : FVec Ideal Cert.KernelIdeal.S128x512 .bf16)
        (truncf .bf16 (extractStridedSlice Cert.KernelIdeal.S128x512 ![256, 0] W1 Cert.KernelIdeal.Gen.slices_S512x512_S128x512_256_0 : FVec Ideal Cert.KernelIdeal.S128x512 .f32) Cert.KernelIdeal.Gen.bitsLt_bf16_f32 : FVec Ideal Cert.KernelIdeal.S128x512 .bf16)
        (truncf .bf16 (extractStridedSlice Cert.KernelIdeal.S128x512 ![384, 0] W1 Cert.KernelIdeal.Gen.slices_S512x512_S128x512_384_0 : FVec Ideal Cert.KernelIdeal.S128x512 .f32) Cert.KernelIdeal.Gen.bitsLt_bf16_f32 : FVec Ideal Cert.KernelIdeal.S128x512 .bf16)
        (shapeCast Cert.KernelIdeal.S1x512 b1 Cert.KernelIdeal.Gen.shapeCasts_S512_S1x512 : FVec Ideal Cert.KernelIdeal.S1x512 .f32)
        (truncf .bf16 W2 Cert.KernelIdeal.Gen.bitsLt_bf16_f32 : FVec Ideal Cert.KernelIdeal.S512x512 .bf16) (shapeCast Cert.KernelIdeal.S1x512 b2 Cert.KernelIdeal.Gen.shapeCasts_S512_S1x512 : FVec Ideal Cert.KernelIdeal.S1x512 .f32)
        (truncf .bf16 W3 Cert.KernelIdeal.Gen.bitsLt_bf16_f32 : FVec Ideal Cert.KernelIdeal.S512x128 .bf16) (shapeCast Cert.KernelIdeal.S1x128 b3 Cert.KernelIdeal.Gen.shapeCasts_S128_S1x128 : FVec Ideal Cert.KernelIdeal.S1x128 .f32)
      = refEs a b c d es W1 b1 W2 b2 W3 b3 :=
  edgeEs_eq_host (n := 80000) (H' := 512) (O := 128) (by decide) (by decide) (by decide) Cert.KernelIdeal.Gen.bitsLt_bf16_f32
    Cert.ReferenceIdeal.dot_S80000x512_S512x512_S80000x512_1_0_0_1_n_n rfl Cert.ReferenceIdeal.dot_S80000x512_S512x512_S80000x512_1_0_0_1_n_n rfl
    Cert.ReferenceIdeal.dot_S80000x512_S512x128_S80000x128_1_0_0_1_n_n rfl
    Cert.ReferenceIdeal.Gen.concatenates_S80000x128_S80000x128_S80000x128_S80000x128_S80000x512_d1
    Cert.KernelIdeal.Gen.slices_S512x512_S128x512_0_0 Cert.KernelIdeal.Gen.slices_S512x512_S128x512_128_0 Cert.KernelIdeal.Gen.slices_S512x512_S128x512_256_0 Cert.KernelIdeal.Gen.slices_S512x512_S128x512_384_0
    Cert.ReferenceIdeal.Gen.bcast_S512_S1x512_1 Cert.ReferenceIdeal.Gen.bcast_S1x512_S80000x512_0_1 Cert.ReferenceIdeal.Gen.bcast_S_S80000x512 Cert.KernelIdeal.Gen.shapeCasts_S512_S1x512
    Cert.ReferenceIdeal.Gen.bcast_S512_S1x512_1 Cert.ReferenceIdeal.Gen.bcast_S1x512_S80000x512_0_1 Cert.ReferenceIdeal.Gen.bcast_S_S80000x512 Cert.KernelIdeal.Gen.shapeCasts_S512_S1x512
    Cert.ReferenceIdeal.Gen.bcast_S128_S1x128_1 Cert.ReferenceIdeal.Gen.bcast_S1x128_S80000x128_0_1 Cert.ReferenceIdeal.Gen.bcast_S_S80000x128 Cert.KernelIdeal.Gen.shapeCasts_S128_S1x128
    a b c d es W1 b1 W2 b2 W3 b3

end Cert.Bridge.Edge

end
-- ==== Proof.Bridge.Mlp.lean ====
/- The generic three-layer perceptron, on the chip and on the host: the chip's closed form applied to the operands as
   the host prepares them for it (activations and weights narrowed to bf16, each bias vector reshaped to one row) is
   the host's term for the same value (plain products, each bias broadcast to a row and down the rows, the positive
   part as the maximum with a broadcast zero), at the ideal values, for arbitrary operands. -/
import proofs.«147763_j11003706212366_2_alg».proof.Proof.KI.Val3
import proofs.«147763_j11003706212366_2_alg».proof.Proof.KI.Val4
import proofs.«147763_j11003706212366_2_alg».proof.ReferenceIdeal

noncomputable section

namespace Cert.Bridge.Mlp

open Idealize.ShloMosaic Idealize.ShloMosaic.ValueIdx Cert.LibReluDense
open Cert.ReferenceIdeal Cert.ReferenceIdeal.Facts₀

variable [Cert.ReferenceIdeal.Facts₀]

/-- The node perceptron: rows [5000, 512], layers 512 → 512 → 512 → 128. -/
theorem node (x : FVec Ideal S5000x512 .f32) (w1 : FVec Ideal S512x512 .f32) (b1 : FVec Ideal S512 .f32)
    (w2 : FVec Ideal S512x512 .f32) (b2 : FVec Ideal S512 .f32) (w3 : FVec Ideal S512x128 .f32) (b3 : FVec Ideal S128 .f32) :
    Cert.KernelIdeal.Hand.G3_7 (truncf .bf16 x Cert.KernelIdeal.Gen.bitsLt_bf16_f32) (truncf .bf16 w1 Cert.KernelIdeal.Gen.bitsLt_bf16_f32) (shapeCast Cert.KernelIdeal.S1x512 b1 Cert.KernelIdeal.Gen.shapeCasts_S512_S1x512)
        (truncf .bf16 w2 Cert.KernelIdeal.Gen.bitsLt_bf16_f32) (shapeCast Cert.KernelIdeal.S1x512 b2 Cert.KernelIdeal.Gen.shapeCasts_S512_S1x512) (truncf .bf16 w3 Cert.KernelIdeal.Gen.bitsLt_bf16_f32) (shapeCast Cert.KernelIdeal.S1x128 b3 Cert.KernelIdeal.Gen.shapeCasts_S128_S1x128)
      = maximumf (addf (Host.dotGeneral dot_S5000x512_S512x128_S5000x128_1_0_0_1_n_n none (maximumf (addf (Host.dotGeneral dot_S5000x512_S512x512_S5000x512_1_0_0_1_n_n none (maximumf (addf (Host.dotGeneral dot_S5000x512_S512x512_S5000x512_1_0_0_1_n_n none x w1)
        (broadcastInDim S5000x512 ![0, 1] bcast_S1x512_S5000x512_0_1 (broadcastInDim S1x512 ![1] bcast_S512_S1x512_1 b1)))
      (broadcastInDim S5000x512 ![] bcast_S_S5000x512 (constant (F := Ideal) S_ .f32 0x00000000#32))) w2)
        (broadcastInDim S5000x512 ![0, 1] bcast_S1x512_S5000x512_0_1 (broadcastInDim S1x512 ![1] bcast_S512_S1x512_1 b2)))
      (broadcastInDim S5000x512 ![] bcast_S_S5000x512 (constant (F := Ideal) S_ .f32 0x00000000#32))) w3)
        (broadcastInDim S5000x128 ![0, 1] bcast_S1x128_S5000x128_0_1 (broadcastInDim S1x128 ![1] bcast_S128_S1x128_1 b3)))
      (broadcastInDim S5000x128 ![] bcast_S_S5000x128 (constant (F := Ideal) S_ .f32 0x00000000#32)) := by
  have e1 := host_reluDense 5000 512 512 (by decide) dot_S5000x512_S512x512_S5000x512_1_0_0_1_n_n rfl bcast_S512_S1x512_1 bcast_S1x512_S5000x512_0_1 bcast_S_S5000x512 Cert.KernelIdeal.Gen.shapeCasts_S512_S1x512 x w1 b1
  have e2 := host_reluDense 5000 512 512 (by decide) dot_S5000x512_S512x512_S5000x512_1_0_0_1_n_n rfl bcast_S512_S1x512_1 bcast_S1x512_S5000x512_0_1 bcast_S_S5000x512 Cert.KernelIdeal.Gen.shapeCasts_S512_S1x512 (reluDense x w1 (shapeCast Cert.KernelIdeal.S1x512 b1 Cert.KernelIdeal.Gen.shapeCasts_S512_S1x512)) w2 b2
  have e3 := host_reluDense 5000 512 128 (by decide) dot_S5000x512_S512x128_S5000x128_1_0_0_1_n_n rfl bcast_S128_S1x128_1 bcast_S1x128_S5000x128_0_1 bcast_S_S5000x128 Cert.KernelIdeal.Gen.shapeCasts_S128_S1x128 (reluDense (reluDense x w1 (shapeCast Cert.KernelIdeal.S1x512 b1 Cert.KernelIdeal.Gen.shapeCasts_S512_S1x512)) w2 (shapeCast Cert.KernelIdeal.S1x512 b2 Cert.KernelIdeal.Gen.shapeCasts_S512_S1x512)) w3 b3
  rw [e1, e2, e3]
  rfl

/-- The graph perceptron: rows [64, 384], layers 384 → 512 → 512 → 128. -/
theorem glob (x : FVec Ideal S64x384 .f32) (w1 : FVec Ideal S384x512 .f32) (b1 : FVec Ideal S512 .f32)
    (w2 : FVec Ideal S512x512 .f32) (b2 : FVec Ideal S512 .f32) (w3 : FVec Ideal S512x128 .f32) (b3 : FVec Ideal S128 .f32) :
    Cert.KernelIdeal.Hand.G4_7 (truncf .bf16 x Cert.KernelIdeal.Gen.bitsLt_bf16_f32) (truncf .bf16 w1 Cert.KernelIdeal.Gen.bitsLt_bf16_f32) (shapeCast Cert.KernelIdeal.S1x512 b1 Cert.KernelIdeal.Gen.shapeCasts_S512_S1x512)
        (truncf .bf16 w2 Cert.KernelIdeal.Gen.bitsLt_bf16_f32) (shapeCast Cert.KernelIdeal.S1x512 b2 Cert.KernelIdeal.Gen.shapeCasts_S512_S1x512) (truncf .bf16 w3 Cert.KernelIdeal.Gen.bitsLt_bf16_f32) (shapeCast Cert.KernelIdeal.S1x128 b3 Cert.KernelIdeal.Gen.shapeCasts_S128_S1x128)
      = maximumf (addf (Host.dotGeneral dot_S64x512_S512x128_S64x128_1_0_0_1_n_n none (maximumf (addf (Host.dotGeneral dot_S64x512_S512x512_S64x512_1_0_0_1_n_n none (maximumf (addf (Host.dotGeneral dot_S64x384_S384x512_S64x512_1_0_0_1_n_n none x w1)
        (broadcastInDim S64x512 ![0, 1] bcast_S1x512_S64x512_0_1 (broadcastInDim S1x512 ![1] bcast_S512_S1x512_1 b1)))
      (broadcastInDim S64x512 ![] bcast_S_S64x512 (constant (F := Ideal) S_ .f32 0x00000000#32))) w2)
        (broadcastInDim S64x512 ![0, 1] bcast_S1x512_S64x512_0_1 (broadcastInDim S1x512 ![1] bcast_S512_S1x512_1 b2)))
      (broadcastInDim S64x512 ![] bcast_S_S64x512 (constant (F := Ideal) S_ .f32 0x00000000#32))) w3)
        (broadcastInDim S64x128 ![0, 1] bcast_S1x128_S64x128_0_1 (broadcastInDim S1x128 ![1] bcast_S128_S1x128_1 b3)))
      (broadcastInDim S64x128 ![] bcast_S_S64x128 (constant (F := Ideal) S_ .f32 0x00000000#32)) := by
  have e1 := host_reluDense 64 384 512 (by decide) dot_S64x384_S384x512_S64x512_1_0_0_1_n_n rfl bcast_S512_S1x512_1 bcast_S1x512_S64x512_0_1 bcast_S_S64x512 Cert.KernelIdeal.Gen.shapeCasts_S512_S1x512 x w1 b1
  have e2 := host_reluDense 64 512 512 (by decide) dot_S64x512_S512x512_S64x512_1_0_0_1_n_n rfl bcast_S512_S1x512_1 bcast_S1x512_S64x512_0_1 bcast_S_S64x512 Cert.KernelIdeal.Gen.shapeCasts_S512_S1x512 (reluDense x w1 (shapeCast Cert.KernelIdeal.S1x512 b1 Cert.KernelIdeal.Gen.shapeCasts_S512_S1x512)) w2 b2
  have e3 := host_reluDense 64 512 128 (by decide) dot_S64x512_S512x128_S64x128_1_0_0_1_n_n rfl bcast_S128_S1x128_1 bcast_S1x128_S64x128_0_1 bcast_S_S64x128 Cert.KernelIdeal.Gen.shapeCasts_S128_S1x128 (reluDense (reluDense x w1 (shapeCast Cert.KernelIdeal.S1x512 b1 Cert.KernelIdeal.Gen.shapeCasts_S512_S1x512)) w2 (shapeCast Cert.KernelIdeal.S1x512 b2 Cert.KernelIdeal.Gen.shapeCasts_S512_S1x512)) w3 b3
  rw [e1, e2, e3]
  rfl

end Cert.Bridge.Mlp

end
-- ==== Proof.Bridge.Dec.lean ====
/- The decoder of region 5, on operands as the kernel's host lines prepare them, is the reference's decoder.

   The kernel's host lines narrow the activations and the two weight matrices to bf16 and reshape each bias vector to
   one row before the region; at the ideal values a change of format changes nothing and the row's entries are the
   vector's. The reference computes the same two dense layers with plain `dot_general`s, each bias broadcast to a row
   and then down the rows, the rectifier as a maximum with the zero splat, and adds the positions FIRST where the
   region adds them LAST: sums of extended reals commute. Both sides are read at one entry (p, q). -/
import proofs.«147763_j11003706212366_2_alg».proof.Proof.KI.Val5
import proofs.«147763_j11003706212366_2_alg».proof.ReferenceIdeal

noncomputable section

namespace Cert.Bridge.Dec

open Idealize.ShloMosaic Idealize.ShloMosaic.ValueIdx
open Cert.KernelIdeal (S5000x128 S5000x3 S128x128 S1x128 S128x3 S1x3 S128 S3 S_)
open Cert.LibDense Cert.LibChipRow

variable [Cert.ReferenceIdeal.Facts₀]

/-- The reference's two products have the plain dimension numbers. -/
theorem refdot1_eq : Cert.ReferenceIdeal.dot_S5000x128_S128x128_S5000x128_1_0_0_1_n_n = DotDims.plain 5000 128 128 := rfl
theorem refdot2_eq : Cert.ReferenceIdeal.dot_S5000x128_S128x3_S5000x3_1_0_0_1_n_n = DotDims.plain 5000 128 3 := rfl

/-- A [N] vector reshaped to a row, read back as a vector, is the vector. -/
theorem rowVec_asRow {N : Nat} (hc : (⟨1, ![N]⟩ : Shape).ShapeCasts ⟨2, ![1, N]⟩) (v : (⟨1, ![N]⟩ : Shape).Idx → EReal) (q : Fin N) :
    rowVec (shapeCast ⟨2, ![1, N]⟩ v hc) (ix1 q) = v (ix1 q) :=
  Cert.LibRowReads.asRow_read hc v q

/-- The region's closed form on the operands the kernel's host lines prepare is the reference's term for last_pos + delta. -/
theorem dec_bridge
    (xs : FVec Ideal S5000x128 .f32) (lp : FVec Ideal S5000x3 .f32) (W1 : FVec Ideal S128x128 .f32) (b1 : FVec Ideal S128 .f32)
    (W2 : FVec Ideal S128x3 .f32) (b2 : FVec Ideal S3 .f32)
    (hlt : FTy.bits .bf16 < FTy.bits .f32) (hc1 : S128.ShapeCasts S1x128) (hc2 : S3.ShapeCasts S1x3)
    (h11 : S128.BroadcastsInDim S1x128 ![1]) (h12 : S1x128.BroadcastsInDim S5000x128 ![0, 1])
    (h0 : S_.BroadcastsInDim S5000x128 ![])
    (h21 : S3.BroadcastsInDim S1x3 ![1]) (h22 : S1x3.BroadcastsInDim S5000x3 ![0, 1]) :
    Cert.KernelIdeal.Hand.G5_6 (truncf .bf16 xs hlt) lp (truncf .bf16 W1 hlt) (shapeCast S1x128 b1 hc1)
        (truncf .bf16 W2 hlt) (shapeCast S1x3 b2 hc2)
      = addf lp (addf (Host.dotGeneral Cert.ReferenceIdeal.dot_S5000x128_S128x3_S5000x3_1_0_0_1_n_n none
            (maximumf (addf (Host.dotGeneral Cert.ReferenceIdeal.dot_S5000x128_S128x128_S5000x128_1_0_0_1_n_n none xs W1)
                (broadcastInDim S5000x128 ![0, 1] h12 (broadcastInDim S1x128 ![1] h11 b1)))
              (broadcastInDim S5000x128 ![] h0 (constant (F := Ideal) S_ .f32 0x00000000#32))) W2)
          (broadcastInDim S5000x3 ![0, 1] h22 (broadcastInDim S1x3 ![1] h21 b2))) := by
  funext i
  obtain ⟨p, q, rfl⟩ : ∃ (p : Fin 5000) (q : Fin 3), i = ix2 p q := ⟨i 0, i 1, eq_ix2 i⟩
  rw [addf_apply, refdot1_eq, refdot2_eq, host_dense_apply 5000 128 3 (by decide) h21 h22 _ W2 b2 p q]
  unfold Cert.KernelIdeal.Hand.G5_6
  rw [add_comm]
  refine congrArg (lp (ix2 p q) + ·) ?_
  refine denseAt_congr (fun k => ?_) (fun _ => rfl) (rowVec_asRow hc2 b2 q)
  rw [maximumf_apply, Cert.LibRowReads.splat_read, constant_apply, Ideal.ofBits_zero_f32,
    host_dense_apply 5000 128 128 (by decide) h11 h12 xs W1 b1 p k]
  exact congrArg (max · 0) (denseAt_congr (fun _ => rfl) (fun _ => rfl) (rowVec_asRow hc1 b1 k))

end Cert.Bridge.Dec

end
-- ==== Proof.Bridge.Chain.lean ====
/-
  The two programs' final contents, value by value: from runs that end with the same arrays in the arguments (as they do
  from launch memories that agree on them), every value the kernel program computes — the rows of the edge list, the graphs' sizes and, in each of the three steps, the embedded
  node features, the edge lengths, the embedded edge features, the edge, node and graph networks' new rows, the residual
  sums, the decoded positions and their recentring — is, at the end of the run, the value the reference program holds
  for it, and so are the four results. At the exact instance: floats are extended reals and a change of format is the
  identity. Each value is read on the kernel side as its region's or its host lines' function of earlier values, on the
  reference side as its printed term over earlier values, and the two are joined by the earlier equalities and, for a
  region, by the region's bridge.
-/
import proofs.«147763_j11003706212366_2_alg».proof.Proof.Bridge.ChainArgs
import proofs.«147763_j11003706212366_2_alg».proof.Proof.KI.KFin
import proofs.«147763_j11003706212366_2_alg».proof.Proof.KI.KReg
import proofs.«147763_j11003706212366_2_alg».proof.Proof.Ref.St0
import proofs.«147763_j11003706212366_2_alg».proof.Proof.Ref.St1
import proofs.«147763_j11003706212366_2_alg».proof.Proof.Ref.St2
import proofs.«147763_j11003706212366_2_alg».proof.Proof.Bridge.Pos
import proofs.«147763_j11003706212366_2_alg».proof.Proof.Bridge.Dis
import proofs.«147763_j11003706212366_2_alg».proof.Proof.Bridge.Edge
import proofs.«147763_j11003706212366_2_alg».proof.Proof.Bridge.Mlp
import proofs.«147763_j11003706212366_2_alg».proof.Proof.Bridge.Dec

set_option maxRecDepth 16384
-- one declaration at a time: each reads buffer types out of the two programs' long tables, and side by side they do not fit
set_option Elab.async false

noncomputable section

namespace Cert.Bridge.Chain

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-! ## The arguments -/

theorem arg0 (H : ArgsEq m m') (c : Dev Cert.KernelIdeal.nD) :
    Cert.KernelIdeal.Hand.U41 m c (Proc.devRef .tc Cert.KernelIdeal.main_arg0) = Cert.ReferenceIdeal.Hand.R m' c (Proc.devRef .tc Cert.ReferenceIdeal.main_arg0) := (H c).1

theorem arg1 (H : ArgsEq m m') (c : Dev Cert.KernelIdeal.nD) :
    Cert.KernelIdeal.Hand.U41 m c (Proc.devRef .tc Cert.KernelIdeal.main_arg1) = Cert.ReferenceIdeal.Hand.R m' c (Proc.devRef .tc Cert.ReferenceIdeal.main_arg1) := (H c).2.1

theorem arg2 (H : ArgsEq m m') (c : Dev Cert.KernelIdeal.nD) :
    Cert.KernelIdeal.Hand.U41 m c (Proc.devRef .tc Cert.KernelIdeal.main_arg2) = Cert.ReferenceIdeal.Hand.R m' c (Proc.devRef .tc Cert.ReferenceIdeal.main_arg2) := (H c).2.2.1

theorem arg3 (H : ArgsEq m m') (c : Dev Cert.KernelIdeal.nD) :
    Cert.KernelIdeal.Hand.U41 m c (Proc.devRef .tc Cert.KernelIdeal.main_arg3) = Cert.ReferenceIdeal.Hand.R m' c (Proc.devRef .tc Cert.ReferenceIdeal.main_arg3) := (H c).2.2.2.1

theorem arg4 (H : ArgsEq m m') (c : Dev Cert.KernelIdeal.nD) :
    Cert.KernelIdeal.Hand.U41 m c (Proc.devRef .tc Cert.KernelIdeal.main_arg4) = Cert.ReferenceIdeal.Hand.R m' c (Proc.devRef .tc Cert.ReferenceIdeal.main_arg4) := (H c).2.2.2.2.1

theorem arg5 (H : ArgsEq m m') (c : Dev Cert.KernelIdeal.nD) :
    Cert.KernelIdeal.Hand.U41 m c (Proc.devRef .tc Cert.KernelIdeal.main_arg5) = Cert.ReferenceIdeal.Hand.R m' c (Proc.devRef .tc Cert.ReferenceIdeal.main_arg5) := (H c).2.2.2.2.2.1

theorem arg6 (H : ArgsEq m m') (c : Dev Cert.KernelIdeal.nD) :
    Cert.KernelIdeal.Hand.U41 m c (Proc.devRef .tc Cert.KernelIdeal.main_arg6) = Cert.ReferenceIdeal.Hand.R m' c (Proc.devRef .tc Cert.ReferenceIdeal.main_arg6) := (H c).2.2.2.2.2.2.1

theorem arg7 (H : ArgsEq m m') (c : Dev Cert.KernelIdeal.nD) :
    Cert.KernelIdeal.Hand.U41 m c (Proc.devRef .tc Cert.KernelIdeal.main_arg7) = Cert.ReferenceIdeal.Hand.R m' c (Proc.devRef .tc Cert.ReferenceIdeal.main_arg7) := (H c).2.2.2.2.2.2.2.1

theorem arg8 (H : ArgsEq m m') (c : Dev Cert.KernelIdeal.nD) :
    Cert.KernelIdeal.Hand.U41 m c (Proc.devRef .tc Cert.KernelIdeal.main_arg8) = Cert.ReferenceIdeal.Hand.R m' c (Proc.devRef .tc Cert.ReferenceIdeal.main_arg8) := (H c).2.2.2.2.2.2.2.2.1

theorem arg9 (H : ArgsEq m m') (c : Dev Cert.KernelIdeal.nD) :
    Cert.KernelIdeal.Hand.U41 m c (Proc.devRef .tc Cert.KernelIdeal.main_arg9) = Cert.ReferenceIdeal.Hand.R m' c (Proc.devRef .tc Cert.ReferenceIdeal.main_arg9) := (H c).2.2.2.2.2.2.2.2.2.1

theorem arg10 (H : ArgsEq m m') (c : Dev Cert.KernelIdeal.nD) :
    Cert.KernelIdeal.Hand.U41 m c (Proc.devRef .tc Cert.KernelIdeal.main_arg10) = Cert.ReferenceIdeal.Hand.R m' c (Proc.devRef .tc Cert.ReferenceIdeal.main_arg10) := (H c).2.2.2.2.2.2.2.2.2.2.1

theorem arg11 (H : ArgsEq m m') (c : Dev Cert.KernelIdeal.nD) :
    Cert.KernelIdeal.Hand.U41 m c (Proc.devRef .tc Cert.KernelIdeal.main_arg11) = Cert.ReferenceIdeal.Hand.R m' c (Proc.devRef .tc Cert.ReferenceIdeal.main_arg11) := (H c).2.2.2.2.2.2.2.2.2.2.2.1

theorem arg12 (H : ArgsEq m m') (c : Dev Cert.KernelIdeal.nD) :
    Cert.KernelIdeal.Hand.U41 m c (Proc.devRef .tc Cert.KernelIdeal.main_arg12) = Cert.ReferenceIdeal.Hand.R m' c (Proc.devRef .tc Cert.ReferenceIdeal.main_arg12) := (H c).2.2.2.2.2.2.2.2.2.2.2.2.1

theorem arg13 (H : ArgsEq m m') (c : Dev Cert.KernelIdeal.nD) :
    Cert.KernelIdeal.Hand.U41 m c (Proc.devRef .tc Cert.KernelIdeal.main_arg13) = Cert.ReferenceIdeal.Hand.R m' c (Proc.devRef .tc Cert.ReferenceIdeal.main_arg13) := (H c).2.2.2.2.2.2.2.2.2.2.2.2.2.1

theorem arg14 (H : ArgsEq m m') (c : Dev Cert.KernelIdeal.nD) :
    Cert.KernelIdeal.Hand.U41 m c (Proc.devRef .tc Cert.KernelIdeal.main_arg14) = Cert.ReferenceIdeal.Hand.R m' c (Proc.devRef .tc Cert.ReferenceIdeal.main_arg14) := (H c).2.2.2.2.2.2.2.2.2.2.2.2.2.2.1

theorem arg15 (H : ArgsEq m m') (c : Dev Cert.KernelIdeal.nD) :
    Cert.KernelIdeal.Hand.U41 m c (Proc.devRef .tc Cert.KernelIdeal.main_arg15) = Cert.ReferenceIdeal.Hand.R m' c (Proc.devRef .tc Cert.ReferenceIdeal.main_arg15) := (H c).2.2.2.2.2.2.2.2.2.2.2.2.2.2.2.1

theorem arg16 (H : ArgsEq m m') (c : Dev Cert.KernelIdeal.nD) :
    Cert.KernelIdeal.Hand.U41 m c (Proc.devRef .tc Cert.KernelIdeal.main_arg16) = Cert.ReferenceIdeal.Hand.R m' c (Proc.devRef .tc Cert.ReferenceIdeal.main_arg16) := (H c).2.2.2.2.2.2.2.2.2.2.2.2.2.2.2.2.1

theorem arg17 (H : ArgsEq m m') (c : Dev Cert.KernelIdeal.nD) :
    Cert.KernelIdeal.Hand.U41 m c (Proc.devRef .tc Cert.KernelIdeal.main_arg17) = Cert.ReferenceIdeal.Hand.R m' c (Proc.devRef .tc Cert.ReferenceIdeal.main_arg17) := (H c).2.2.2.2.2.2.2.2.2.2.2.2.2.2.2.2.2.1

theorem arg18 (H : ArgsEq m m') (c : Dev Cert.KernelIdeal.nD) :
    Cert.KernelIdeal.Hand.U41 m c (Proc.devRef .tc Cert.KernelIdeal.main_arg18) = Cert.ReferenceIdeal.Hand.R m' c (Proc.devRef .tc Cert.ReferenceIdeal.main_arg18) := (H c).2.2.2.2.2.2.2.2.2.2.2.2.2.2.2.2.2.2.1

theorem arg19 (H : ArgsEq m m') (c : Dev Cert.KernelIdeal.nD) :
    Cert.KernelIdeal.Hand.U41 m c (Proc.devRef .tc Cert.KernelIdeal.main_arg19) = Cert.ReferenceIdeal.Hand.R m' c (Proc.devRef .tc Cert.ReferenceIdeal.main_arg19) := (H c).2.2.2.2.2.2.2.2.2.2.2.2.2.2.2.2.2.2.2.1

theorem arg20 (H : ArgsEq m m') (c : Dev Cert.KernelIdeal.nD) :
    Cert.KernelIdeal.Hand.U41 m c (Proc.devRef .tc Cert.KernelIdeal.main_arg20) = Cert.ReferenceIdeal.Hand.R m' c (Proc.devRef .tc Cert.ReferenceIdeal.main_arg20) := (H c).2.2.2.2.2.2.2.2.2.2.2.2.2.2.2.2.2.2.2.2.1

theorem arg21 (H : ArgsEq m m') (c : Dev Cert.KernelIdeal.nD) :
    Cert.KernelIdeal.Hand.U41 m c (Proc.devRef .tc Cert.KernelIdeal.main_arg21) = Cert.ReferenceIdeal.Hand.R m' c (Proc.devRef .tc Cert.ReferenceIdeal.main_arg21) := (H c).2.2.2.2.2.2.2.2.2.2.2.2.2.2.2.2.2.2.2.2.2.1

theorem arg22 (H : ArgsEq m m') (c : Dev Cert.KernelIdeal.nD) :
    Cert.KernelIdeal.Hand.U41 m c (Proc.devRef .tc Cert.KernelIdeal.main_arg22) = Cert.ReferenceIdeal.Hand.R m' c (Proc.devRef .tc Cert.ReferenceIdeal.main_arg22) := (H c).2.2.2.2.2.2.2.2.2.2.2.2.2.2.2.2.2.2.2.2.2.2.1

theorem arg23 (H : ArgsEq m m') (c : Dev Cert.KernelIdeal.nD) :
    Cert.KernelIdeal.Hand.U41 m c (Proc.devRef .tc Cert.KernelIdeal.main_arg23) = Cert.ReferenceIdeal.Hand.R m' c (Proc.devRef .tc Cert.ReferenceIdeal.main_arg23) := (H c).2.2.2.2.2.2.2.2.2.2.2.2.2.2.2.2.2.2.2.2.2.2.2.1

theorem arg24 (H : ArgsEq m m') (c : Dev Cert.KernelIdeal.nD) :
    Cert.KernelIdeal.Hand.U41 m c (Proc.devRef .tc Cert.KernelIdeal.main_arg24) = Cert.ReferenceIdeal.Hand.R m' c (Proc.devRef .tc Cert.ReferenceIdeal.main_arg24) := (H c).2.2.2.2.2.2.2.2.2.2.2.2.2.2.2.2.2.2.2.2.2.2.2.2.1

theorem arg25 (H : ArgsEq m m') (c : Dev Cert.KernelIdeal.nD) :
    Cert.KernelIdeal.Hand.U41 m c (Proc.devRef .tc Cert.KernelIdeal.main_arg25) = Cert.ReferenceIdeal.Hand.R m' c (Proc.devRef .tc Cert.ReferenceIdeal.main_arg25) := (H c).2.2.2.2.2.2.2.2.2.2.2.2.2.2.2.2.2.2.2.2.2.2.2.2.2.1

theorem arg26 (H : ArgsEq m m') (c : Dev Cert.KernelIdeal.nD) :
    Cert.KernelIdeal.Hand.U41 m c (Proc.devRef .tc Cert.KernelIdeal.main_arg26) = Cert.ReferenceIdeal.Hand.R m' c (Proc.devRef .tc Cert.ReferenceIdeal.main_arg26) := (H c).2.2.2.2.2.2.2.2.2.2.2.2.2.2.2.2.2.2.2.2.2.2.2.2.2.2.1

theorem arg27 (H : ArgsEq m m') (c : Dev Cert.KernelIdeal.nD) :
    Cert.KernelIdeal.Hand.U41 m c (Proc.devRef .tc Cert.KernelIdeal.main_arg27) = Cert.ReferenceIdeal.Hand.R m' c (Proc.devRef .tc Cert.ReferenceIdeal.main_arg27) := (H c).2.2.2.2.2.2.2.2.2.2.2.2.2.2.2.2.2.2.2.2.2.2.2.2.2.2.2.1

theorem arg28 (H : ArgsEq m m') (c : Dev Cert.KernelIdeal.nD) :
    Cert.KernelIdeal.Hand.U41 m c (Proc.devRef .tc Cert.KernelIdeal.main_arg28) = Cert.ReferenceIdeal.Hand.R m' c (Proc.devRef .tc Cert.ReferenceIdeal.main_arg28) := (H c).2.2.2.2.2.2.2.2.2.2.2.2.2.2.2.2.2.2.2.2.2.2.2.2.2.2.2.2.1

theorem arg29 (H : ArgsEq m m') (c : Dev Cert.KernelIdeal.nD) :
    Cert.KernelIdeal.Hand.U41 m c (Proc.devRef .tc Cert.KernelIdeal.main_arg29) = Cert.ReferenceIdeal.Hand.R m' c (Proc.devRef .tc Cert.ReferenceIdeal.main_arg29) := (H c).2.2.2.2.2.2.2.2.2.2.2.2.2.2.2.2.2.2.2.2.2.2.2.2.2.2.2.2.2.1

theorem arg30 (H : ArgsEq m m') (c : Dev Cert.KernelIdeal.nD) :
    Cert.KernelIdeal.Hand.U41 m c (Proc.devRef .tc Cert.KernelIdeal.main_arg30) = Cert.ReferenceIdeal.Hand.R m' c (Proc.devRef .tc Cert.ReferenceIdeal.main_arg30) := (H c).2.2.2.2.2.2.2.2.2.2.2.2.2.2.2.2.2.2.2.2.2.2.2.2.2.2.2.2.2.2.1

theorem arg31 (H : ArgsEq m m') (c : Dev Cert.KernelIdeal.nD) :
    Cert.KernelIdeal.Hand.U41 m c (Proc.devRef .tc Cert.KernelIdeal.main_arg31) = Cert.ReferenceIdeal.Hand.R m' c (Proc.devRef .tc Cert.ReferenceIdeal.main_arg31) := (H c).2.2.2.2.2.2.2.2.2.2.2.2.2.2.2.2.2.2.2.2.2.2.2.2.2.2.2.2.2.2.2.1

theorem arg32 (H : ArgsEq m m') (c : Dev Cert.KernelIdeal.nD) :
    Cert.KernelIdeal.Hand.U41 m c (Proc.devRef .tc Cert.KernelIdeal.main_arg32) = Cert.ReferenceIdeal.Hand.R m' c (Proc.devRef .tc Cert.ReferenceIdeal.main_arg32) := (H c).2.2.2.2.2.2.2.2.2.2.2.2.2.2.2.2.2.2.2.2.2.2.2.2.2.2.2.2.2.2.2.2.1

theorem arg33 (H : ArgsEq m m') (c : Dev Cert.KernelIdeal.nD) :
    Cert.KernelIdeal.Hand.U41 m c (Proc.devRef .tc Cert.KernelIdeal.main_arg33) = Cert.ReferenceIdeal.Hand.R m' c (Proc.devRef .tc Cert.ReferenceIdeal.main_arg33) := (H c).2.2.2.2.2.2.2.2.2.2.2.2.2.2.2.2.2.2.2.2.2.2.2.2.2.2.2.2.2.2.2.2.2.1

theorem arg34 (H : ArgsEq m m') (c : Dev Cert.KernelIdeal.nD) :
    Cert.KernelIdeal.Hand.U41 m c (Proc.devRef .tc Cert.KernelIdeal.main_arg34) = Cert.ReferenceIdeal.Hand.R m' c (Proc.devRef .tc Cert.ReferenceIdeal.main_arg34) := (H c).2.2.2.2.2.2.2.2.2.2.2.2.2.2.2.2.2.2.2.2.2.2.2.2.2.2.2.2.2.2.2.2.2.2.1

theorem arg35 (H : ArgsEq m m') (c : Dev Cert.KernelIdeal.nD) :
    Cert.KernelIdeal.Hand.U41 m c (Proc.devRef .tc Cert.KernelIdeal.main_arg35) = Cert.ReferenceIdeal.Hand.R m' c (Proc.devRef .tc Cert.ReferenceIdeal.main_arg35) := (H c).2.2.2.2.2.2.2.2.2.2.2.2.2.2.2.2.2.2.2.2.2.2.2.2.2.2.2.2.2.2.2.2.2.2.2.1

theorem arg36 (H : ArgsEq m m') (c : Dev Cert.KernelIdeal.nD) :
    Cert.KernelIdeal.Hand.U41 m c (Proc.devRef .tc Cert.KernelIdeal.main_arg36) = Cert.ReferenceIdeal.Hand.R m' c (Proc.devRef .tc Cert.ReferenceIdeal.main_arg36) := (H c).2.2.2.2.2.2.2.2.2.2.2.2.2.2.2.2.2.2.2.2.2.2.2.2.2.2.2.2.2.2.2.2.2.2.2.2.1

theorem arg37 (H : ArgsEq m m') (c : Dev Cert.KernelIdeal.nD) :
    Cert.KernelIdeal.Hand.U41 m c (Proc.devRef .tc Cert.KernelIdeal.main_arg37) = Cert.ReferenceIdeal.Hand.R m' c (Proc.devRef .tc Cert.ReferenceIdeal.main_arg37) := (H c).2.2.2.2.2.2.2.2.2.2.2.2.2.2.2.2.2.2.2.2.2.2.2.2.2.2.2.2.2.2.2.2.2.2.2.2.2

/-! ## Before the first step -/

/-- Each edge's source node. -/
theorem st_v1 (H : ArgsEq m m') (c : Dev Cert.KernelIdeal.nD) :
    Cert.KernelIdeal.Hand.U41 m c (Proc.devRef .tc Cert.KernelIdeal.main_v1) = Cert.ReferenceIdeal.Hand.R m' c (Proc.devRef .tc Cert.ReferenceIdeal.main_v1) := by
  rw [Cert.KernelIdeal.Hand.kfin_main_v1 m c, arg1 m m' H c, Cert.ReferenceIdeal.Hand.fin_v1 m' c] <;>
  rfl

/-- Each edge's target node. -/
theorem st_v3 (H : ArgsEq m m') (c : Dev Cert.KernelIdeal.nD) :
    Cert.KernelIdeal.Hand.U41 m c (Proc.devRef .tc Cert.KernelIdeal.main_v3) = Cert.ReferenceIdeal.Hand.R m' c (Proc.devRef .tc Cert.ReferenceIdeal.main_v3) := by
  rw [Cert.KernelIdeal.Hand.kfin_main_v3 m c, arg1 m m' H c, Cert.ReferenceIdeal.Hand.fin_v3 m' c] <;>
  rfl

/-- The graphs' node counts. -/
theorem st_v9 (H : ArgsEq m m') (c : Dev Cert.KernelIdeal.nD) :
    Cert.KernelIdeal.Hand.U41 m c (Proc.devRef .tc Cert.KernelIdeal.main_v9) = Cert.ReferenceIdeal.Hand.R m' c (Proc.devRef .tc Cert.ReferenceIdeal.main_v9) := by
  rw [Cert.KernelIdeal.Hand.kfin_main_v9 m c, arg4 m m' H c, Cert.ReferenceIdeal.Hand.fin_v9 m' c] <;>
  rfl

/-! ## Step 0 -/

/-- The node features plus the embedding of the positions. -/
theorem st_v15 (H : ArgsEq m m') (c : Dev Cert.KernelIdeal.nD) :
    Cert.KernelIdeal.Hand.U41 m c (Proc.devRef .tc Cert.KernelIdeal.main_v15) = Cert.ReferenceIdeal.Hand.R m' c (Proc.devRef .tc Cert.ReferenceIdeal.main_v20) := by
  rw [Cert.KernelIdeal.Hand.kreg_main_v15 m c, Cert.KernelIdeal.Hand.kfin_main_v10 m c, Cert.KernelIdeal.Hand.kfin_main_v11 m c,
    Cert.KernelIdeal.Hand.kfin_main_v13 m c, Cert.KernelIdeal.Hand.kfin_main_v12 m c, Cert.KernelIdeal.Hand.kfin_main_v14 m c, arg7 m m' H c, arg0 m m' H c,
    arg8 m m' H c, arg9 m m' H c, arg10 m m' H c, arg11 m m' H c, Cert.ReferenceIdeal.Hand.fin_v20 m' c] <;>
  exact Cert.Bridge.Pos.pos_bridge ..

theorem st_v31 (H : ArgsEq m m') (c : Dev Cert.KernelIdeal.nD) :
    Cert.KernelIdeal.Hand.U41 m c (Proc.devRef .tc Cert.KernelIdeal.main_v31) = Cert.ReferenceIdeal.Hand.R m' c (Proc.devRef .tc Cert.ReferenceIdeal.main_v36) := by
  rw [Cert.KernelIdeal.Hand.kfin_main_v31 m c, Cert.KernelIdeal.Hand.kfin_main_v30 m c, arg7 m m' H c, st_v1 m m' H c, st_v3 m m' H c,
    Cert.ReferenceIdeal.Hand.fin_v36 m' c] <;>
  rfl

/-- The edge features plus the embedding of the lengths. -/
theorem st_v37 (H : ArgsEq m m') (c : Dev Cert.KernelIdeal.nD) :
    Cert.KernelIdeal.Hand.U41 m c (Proc.devRef .tc Cert.KernelIdeal.main_v37) = Cert.ReferenceIdeal.Hand.R m' c (Proc.devRef .tc Cert.ReferenceIdeal.main_v47) := by
  rw [Cert.KernelIdeal.Hand.kreg_main_v37 m c, Cert.KernelIdeal.Hand.kfin_main_v32 m c, Cert.KernelIdeal.Hand.kfin_main_v33 m c,
    Cert.KernelIdeal.Hand.kfin_main_v35 m c, Cert.KernelIdeal.Hand.kfin_main_v34 m c, Cert.KernelIdeal.Hand.kfin_main_v36 m c, st_v31 m m' H c,
    arg2 m m' H c, arg12 m m' H c, arg13 m m' H c, arg14 m m' H c, arg15 m m' H c, Cert.ReferenceIdeal.Hand.fin_v47 m' c] <;>
  exact Cert.Bridge.Dis.dis_bridge ..

/-- The edge network's new rows. -/
theorem st_v86_0 (H : ArgsEq m m') (c : Dev Cert.KernelIdeal.nD) :
    Cert.KernelIdeal.Hand.U41 m c (Proc.devRef .tc Cert.KernelIdeal.main_v86_0) = Cert.ReferenceIdeal.Hand.R m' c (Proc.devRef .tc Cert.ReferenceIdeal.main_v96) := by
  rw [Cert.KernelIdeal.Hand.kreg_main_v86_0 m c, Cert.KernelIdeal.Hand.kfin_main_v46 m c, Cert.KernelIdeal.Hand.kfin_main_v53 m c,
    Cert.KernelIdeal.Hand.kfin_main_v60 m c, Cert.KernelIdeal.Hand.kfin_main_v74 m c, Cert.KernelIdeal.Hand.kfin_main_v76 m c,
    Cert.KernelIdeal.Hand.kfin_main_v78 m c, Cert.KernelIdeal.Hand.kfin_main_v80 m c, Cert.KernelIdeal.Hand.kfin_main_v83 m c,
    Cert.KernelIdeal.Hand.kfin_main_v81 m c, Cert.KernelIdeal.Hand.kfin_main_v84 m c, Cert.KernelIdeal.Hand.kfin_main_v82 m c,
    Cert.KernelIdeal.Hand.kfin_main_v85 m c, st_v15 m m' H c, st_v1 m m' H c, st_v3 m m' H c, st_v37 m m' H c, arg3 m m' H c, arg5 m m' H c, arg16 m m' H c,
    arg17 m m' H c, arg18 m m' H c, arg19 m m' H c, arg20 m m' H c, arg21 m m' H c, Cert.ReferenceIdeal.Hand.fin_v96 m' c,
    Cert.ReferenceIdeal.Hand.fin_v69 m' c] <;>
  exact Cert.Bridge.Edge.e1_bridge ..

/-- The edge features plus the edge network's new rows. -/
theorem st_v86_1 (H : ArgsEq m m') (c : Dev Cert.KernelIdeal.nD) :
    Cert.KernelIdeal.Hand.U41 m c (Proc.devRef .tc Cert.KernelIdeal.main_v86_1) = Cert.ReferenceIdeal.Hand.R m' c (Proc.devRef .tc Cert.ReferenceIdeal.main_v173) := by
  rw [Cert.KernelIdeal.Hand.kreg_main_v86_1 m c, Cert.KernelIdeal.Hand.kfin_main_v46 m c, Cert.KernelIdeal.Hand.kfin_main_v53 m c,
    Cert.KernelIdeal.Hand.kfin_main_v60 m c, Cert.KernelIdeal.Hand.kfin_main_v74 m c, Cert.KernelIdeal.Hand.kfin_main_v76 m c,
    Cert.KernelIdeal.Hand.kfin_main_v78 m c, Cert.KernelIdeal.Hand.kfin_main_v80 m c, Cert.KernelIdeal.Hand.kfin_main_v83 m c,
    Cert.KernelIdeal.Hand.kfin_main_v81 m c, Cert.KernelIdeal.Hand.kfin_main_v84 m c, Cert.KernelIdeal.Hand.kfin_main_v82 m c,
    Cert.KernelIdeal.Hand.kfin_main_v85 m c, st_v15 m m' H c, st_v1 m m' H c, st_v3 m m' H c, st_v37 m m' H c, arg3 m m' H c, arg5 m m' H c, arg2 m m' H c,
    arg16 m m' H c, arg17 m m' H c, arg18 m m' H c, arg19 m m' H c, arg20 m m' H c, arg21 m m' H c, Cert.ReferenceIdeal.Hand.fin_v173 m' c,
    Cert.ReferenceIdeal.Hand.fin_v96 m' c, Cert.ReferenceIdeal.Hand.fin_v69 m' c] <;>
  exact Cert.Bridge.Edge.es_bridge ..

/-- The node network's new rows. -/
theorem st_v120 (H : ArgsEq m m') (c : Dev Cert.KernelIdeal.nD) :
    Cert.KernelIdeal.Hand.U41 m c (Proc.devRef .tc Cert.KernelIdeal.main_v120) = Cert.ReferenceIdeal.Hand.R m' c (Proc.devRef .tc Cert.ReferenceIdeal.main_v137) := by
  rw [Cert.KernelIdeal.Hand.kreg_main_v120 m c, Cert.KernelIdeal.Hand.kfin_main_v113 m c, Cert.KernelIdeal.Hand.kfin_main_v114 m c,
    Cert.KernelIdeal.Hand.kfin_main_v117 m c, Cert.KernelIdeal.Hand.kfin_main_v115 m c, Cert.KernelIdeal.Hand.kfin_main_v118 m c,
    Cert.KernelIdeal.Hand.kfin_main_v116 m c, Cert.KernelIdeal.Hand.kfin_main_v119 m c, st_v15 m m' H c, st_v86_0 m m' H c, st_v1 m m' H c, st_v3 m m' H c,
    arg3 m m' H c, arg4 m m' H c, arg22 m m' H c, arg23 m m' H c, arg24 m m' H c, arg25 m m' H c, arg26 m m' H c, arg27 m m' H c,
    Cert.ReferenceIdeal.Hand.fin_v137 m' c, Cert.ReferenceIdeal.Hand.fin_v110 m' c] <;>
  exact Cert.Bridge.Mlp.node ..

/-- The graph network's new rows. -/
theorem st_v147 (H : ArgsEq m m') (c : Dev Cert.KernelIdeal.nD) :
    Cert.KernelIdeal.Hand.U41 m c (Proc.devRef .tc Cert.KernelIdeal.main_v147) = Cert.ReferenceIdeal.Hand.R m' c (Proc.devRef .tc Cert.ReferenceIdeal.main_v171) := by
  rw [Cert.KernelIdeal.Hand.kreg_main_v147 m c, Cert.KernelIdeal.Hand.kfin_main_v140 m c, Cert.KernelIdeal.Hand.kfin_main_v141 m c,
    Cert.KernelIdeal.Hand.kfin_main_v144 m c, Cert.KernelIdeal.Hand.kfin_main_v142 m c, Cert.KernelIdeal.Hand.kfin_main_v145 m c,
    Cert.KernelIdeal.Hand.kfin_main_v143 m c, Cert.KernelIdeal.Hand.kfin_main_v146 m c, arg3 m m' H c, st_v120 m m' H c, arg4 m m' H c, st_v86_0 m m' H c,
    arg5 m m' H c, arg28 m m' H c, arg29 m m' H c, arg30 m m' H c, arg31 m m' H c, arg32 m m' H c, arg33 m m' H c, Cert.ReferenceIdeal.Hand.fin_v171 m' c,
    Cert.ReferenceIdeal.Hand.fin_v144 m' c] <;>
  exact Cert.Bridge.Mlp.glob ..

theorem st_v148 (H : ArgsEq m m') (c : Dev Cert.KernelIdeal.nD) :
    Cert.KernelIdeal.Hand.U41 m c (Proc.devRef .tc Cert.KernelIdeal.main_v148) = Cert.ReferenceIdeal.Hand.R m' c (Proc.devRef .tc Cert.ReferenceIdeal.main_v172) := by
  rw [Cert.KernelIdeal.Hand.kfin_main_v148 m c, st_v120 m m' H c, arg0 m m' H c, Cert.ReferenceIdeal.Hand.fin_v172 m' c] <;>
  rfl

theorem st_v149 (H : ArgsEq m m') (c : Dev Cert.KernelIdeal.nD) :
    Cert.KernelIdeal.Hand.U41 m c (Proc.devRef .tc Cert.KernelIdeal.main_v149) = Cert.ReferenceIdeal.Hand.R m' c (Proc.devRef .tc Cert.ReferenceIdeal.main_v174) := by
  rw [Cert.KernelIdeal.Hand.kfin_main_v149 m c, st_v147 m m' H c, arg3 m m' H c, Cert.ReferenceIdeal.Hand.fin_v174 m' c] <;>
  rfl

/-- The positions plus the decoder's displacement. -/
theorem st_v155 (H : ArgsEq m m') (c : Dev Cert.KernelIdeal.nD) :
    Cert.KernelIdeal.Hand.U41 m c (Proc.devRef .tc Cert.KernelIdeal.main_v155) = Cert.ReferenceIdeal.Hand.R m' c (Proc.devRef .tc Cert.ReferenceIdeal.main_v184) := by
  rw [Cert.KernelIdeal.Hand.kreg_main_v155 m c, Cert.KernelIdeal.Hand.kfin_main_v150 m c, Cert.KernelIdeal.Hand.kfin_main_v151 m c,
    Cert.KernelIdeal.Hand.kfin_main_v153 m c, Cert.KernelIdeal.Hand.kfin_main_v152 m c, Cert.KernelIdeal.Hand.kfin_main_v154 m c,
    ← Cert.KernelIdeal.Hand.kfin_main_v148 m c, st_v148 m m' H c, arg7 m m' H c, arg34 m m' H c, arg35 m m' H c, arg36 m m' H c, arg37 m m' H c,
    Cert.ReferenceIdeal.Hand.fin_v184 m' c] <;>
  exact Cert.Bridge.Dec.dec_bridge ..

theorem st_v168 (H : ArgsEq m m') (c : Dev Cert.KernelIdeal.nD) :
    Cert.KernelIdeal.Hand.U41 m c (Proc.devRef .tc Cert.KernelIdeal.main_v168) = Cert.ReferenceIdeal.Hand.R m' c (Proc.devRef .tc Cert.ReferenceIdeal.main_v197) := by
  rw [Cert.KernelIdeal.Hand.kfin_main_v168 m c, st_v155 m m' H c, arg4 m m' H c, st_v9 m m' H c, Cert.ReferenceIdeal.Hand.fin_v197 m' c] <;>
  rfl

/-! ## Step 1 -/

/-- The node features plus the embedding of the positions. -/
theorem st_v174 (H : ArgsEq m m') (c : Dev Cert.KernelIdeal.nD) :
    Cert.KernelIdeal.Hand.U41 m c (Proc.devRef .tc Cert.KernelIdeal.main_v174) = Cert.ReferenceIdeal.Hand.R m' c (Proc.devRef .tc Cert.ReferenceIdeal.main_v208) := by
  rw [Cert.KernelIdeal.Hand.kreg_main_v174 m c, (rfl : Cert.KernelIdeal.Hand.G6_6 = Cert.KernelIdeal.Hand.G0_6), Cert.KernelIdeal.Hand.kfin_main_v169 m c,
    Cert.KernelIdeal.Hand.kfin_main_v170 m c, Cert.KernelIdeal.Hand.kfin_main_v172 m c, Cert.KernelIdeal.Hand.kfin_main_v171 m c,
    Cert.KernelIdeal.Hand.kfin_main_v173 m c, ← Cert.KernelIdeal.Hand.kfin_main_v168 m c, st_v168 m m' H c, st_v148 m m' H c, arg8 m m' H c, arg9 m m' H c,
    arg10 m m' H c, arg11 m m' H c, Cert.ReferenceIdeal.Hand.fin_v208 m' c] <;>
  exact Cert.Bridge.Pos.pos_bridge ..

theorem st_v190 (H : ArgsEq m m') (c : Dev Cert.KernelIdeal.nD) :
    Cert.KernelIdeal.Hand.U41 m c (Proc.devRef .tc Cert.KernelIdeal.main_v190) = Cert.ReferenceIdeal.Hand.R m' c (Proc.devRef .tc Cert.ReferenceIdeal.main_v224) := by
  rw [Cert.KernelIdeal.Hand.kfin_main_v190 m c, Cert.KernelIdeal.Hand.kfin_main_v189 m c, st_v168 m m' H c, st_v1 m m' H c, st_v3 m m' H c,
    Cert.ReferenceIdeal.Hand.fin_v224 m' c] <;>
  rfl

/-- The edge features plus the embedding of the lengths. -/
theorem st_v196 (H : ArgsEq m m') (c : Dev Cert.KernelIdeal.nD) :
    Cert.KernelIdeal.Hand.U41 m c (Proc.devRef .tc Cert.KernelIdeal.main_v196) = Cert.ReferenceIdeal.Hand.R m' c (Proc.devRef .tc Cert.ReferenceIdeal.main_v235) := by
  rw [Cert.KernelIdeal.Hand.kreg_main_v196 m c, (rfl : Cert.KernelIdeal.Hand.G7_6 = Cert.KernelIdeal.Hand.G1_6), Cert.KernelIdeal.Hand.kfin_main_v191 m c,
    Cert.KernelIdeal.Hand.kfin_main_v192 m c, Cert.KernelIdeal.Hand.kfin_main_v194 m c, Cert.KernelIdeal.Hand.kfin_main_v193 m c,
    Cert.KernelIdeal.Hand.kfin_main_v195 m c, st_v190 m m' H c, st_v86_1 m m' H c, arg12 m m' H c, arg13 m m' H c, arg14 m m' H c, arg15 m m' H c,
    Cert.ReferenceIdeal.Hand.fin_v235 m' c] <;>
  exact Cert.Bridge.Dis.dis_bridge ..

/-- The edge network's new rows. -/
theorem st_v245_0 (H : ArgsEq m m') (c : Dev Cert.KernelIdeal.nD) :
    Cert.KernelIdeal.Hand.U41 m c (Proc.devRef .tc Cert.KernelIdeal.main_v245_0) = Cert.ReferenceIdeal.Hand.R m' c (Proc.devRef .tc Cert.ReferenceIdeal.main_v284) := by
  rw [Cert.KernelIdeal.Hand.kreg_main_v245_0 m c, (rfl : Cert.KernelIdeal.Hand.G8_14 = Cert.KernelIdeal.Hand.G2_14), Cert.KernelIdeal.Hand.kfin_main_v205 m c,
    Cert.KernelIdeal.Hand.kfin_main_v212 m c, Cert.KernelIdeal.Hand.kfin_main_v219 m c, Cert.KernelIdeal.Hand.kfin_main_v233 m c,
    Cert.KernelIdeal.Hand.kfin_main_v235 m c, Cert.KernelIdeal.Hand.kfin_main_v237 m c, Cert.KernelIdeal.Hand.kfin_main_v239 m c,
    Cert.KernelIdeal.Hand.kfin_main_v242 m c, Cert.KernelIdeal.Hand.kfin_main_v240 m c, Cert.KernelIdeal.Hand.kfin_main_v243 m c,
    Cert.KernelIdeal.Hand.kfin_main_v241 m c, Cert.KernelIdeal.Hand.kfin_main_v244 m c, st_v174 m m' H c, st_v1 m m' H c, st_v3 m m' H c, st_v196 m m' H c,
    st_v149 m m' H c, arg5 m m' H c, arg16 m m' H c, arg17 m m' H c, arg18 m m' H c, arg19 m m' H c, arg20 m m' H c, arg21 m m' H c,
    Cert.ReferenceIdeal.Hand.fin_v284 m' c, Cert.ReferenceIdeal.Hand.fin_v257 m' c] <;>
  exact Cert.Bridge.Edge.e1_bridge ..

/-- The edge features plus the edge network's new rows. -/
theorem st_v245_1 (H : ArgsEq m m') (c : Dev Cert.KernelIdeal.nD) :
    Cert.KernelIdeal.Hand.U41 m c (Proc.devRef .tc Cert.KernelIdeal.main_v245_1) = Cert.ReferenceIdeal.Hand.R m' c (Proc.devRef .tc Cert.ReferenceIdeal.main_v361) := by
  rw [Cert.KernelIdeal.Hand.kreg_main_v245_1 m c, (rfl : Cert.KernelIdeal.Hand.G8_15 = Cert.KernelIdeal.Hand.G2_15), Cert.KernelIdeal.Hand.kfin_main_v205 m c,
    Cert.KernelIdeal.Hand.kfin_main_v212 m c, Cert.KernelIdeal.Hand.kfin_main_v219 m c, Cert.KernelIdeal.Hand.kfin_main_v233 m c,
    Cert.KernelIdeal.Hand.kfin_main_v235 m c, Cert.KernelIdeal.Hand.kfin_main_v237 m c, Cert.KernelIdeal.Hand.kfin_main_v239 m c,
    Cert.KernelIdeal.Hand.kfin_main_v242 m c, Cert.KernelIdeal.Hand.kfin_main_v240 m c, Cert.KernelIdeal.Hand.kfin_main_v243 m c,
    Cert.KernelIdeal.Hand.kfin_main_v241 m c, Cert.KernelIdeal.Hand.kfin_main_v244 m c, st_v174 m m' H c, st_v1 m m' H c, st_v3 m m' H c, st_v196 m m' H c,
    st_v149 m m' H c, arg5 m m' H c, st_v86_1 m m' H c, arg16 m m' H c, arg17 m m' H c, arg18 m m' H c, arg19 m m' H c, arg20 m m' H c, arg21 m m' H c,
    Cert.ReferenceIdeal.Hand.fin_v361 m' c, Cert.ReferenceIdeal.Hand.fin_v284 m' c, Cert.ReferenceIdeal.Hand.fin_v257 m' c] <;>
  exact Cert.Bridge.Edge.es_bridge ..

/-- The node network's new rows. -/
theorem st_v279 (H : ArgsEq m m') (c : Dev Cert.KernelIdeal.nD) :
    Cert.KernelIdeal.Hand.U41 m c (Proc.devRef .tc Cert.KernelIdeal.main_v279) = Cert.ReferenceIdeal.Hand.R m' c (Proc.devRef .tc Cert.ReferenceIdeal.main_v325) := by
  rw [Cert.KernelIdeal.Hand.kreg_main_v279 m c, (rfl : Cert.KernelIdeal.Hand.G9_7 = Cert.KernelIdeal.Hand.G3_7), Cert.KernelIdeal.Hand.kfin_main_v272 m c,
    Cert.KernelIdeal.Hand.kfin_main_v273 m c, Cert.KernelIdeal.Hand.kfin_main_v276 m c, Cert.KernelIdeal.Hand.kfin_main_v274 m c,
    Cert.KernelIdeal.Hand.kfin_main_v277 m c, Cert.KernelIdeal.Hand.kfin_main_v275 m c, Cert.KernelIdeal.Hand.kfin_main_v278 m c, st_v174 m m' H c,
    st_v245_0 m m' H c, st_v1 m m' H c, st_v3 m m' H c, st_v149 m m' H c, arg4 m m' H c, arg22 m m' H c, arg23 m m' H c, arg24 m m' H c, arg25 m m' H c,
    arg26 m m' H c, arg27 m m' H c, Cert.ReferenceIdeal.Hand.fin_v325 m' c, Cert.ReferenceIdeal.Hand.fin_v298 m' c] <;>
  exact Cert.Bridge.Mlp.node ..

/-- The graph network's new rows. -/
theorem st_v306 (H : ArgsEq m m') (c : Dev Cert.KernelIdeal.nD) :
    Cert.KernelIdeal.Hand.U41 m c (Proc.devRef .tc Cert.KernelIdeal.main_v306) = Cert.ReferenceIdeal.Hand.R m' c (Proc.devRef .tc Cert.ReferenceIdeal.main_v359) := by
  rw [Cert.KernelIdeal.Hand.kreg_main_v306 m c, (rfl : Cert.KernelIdeal.Hand.G10_7 = Cert.KernelIdeal.Hand.G4_7), Cert.KernelIdeal.Hand.kfin_main_v299 m c,
    Cert.KernelIdeal.Hand.kfin_main_v300 m c, Cert.KernelIdeal.Hand.kfin_main_v303 m c, Cert.KernelIdeal.Hand.kfin_main_v301 m c,
    Cert.KernelIdeal.Hand.kfin_main_v304 m c, Cert.KernelIdeal.Hand.kfin_main_v302 m c, Cert.KernelIdeal.Hand.kfin_main_v305 m c, st_v149 m m' H c,
    st_v279 m m' H c, arg4 m m' H c, st_v245_0 m m' H c, arg5 m m' H c, arg28 m m' H c, arg29 m m' H c, arg30 m m' H c, arg31 m m' H c, arg32 m m' H c,
    arg33 m m' H c, Cert.ReferenceIdeal.Hand.fin_v359 m' c, Cert.ReferenceIdeal.Hand.fin_v332 m' c] <;>
  exact Cert.Bridge.Mlp.glob ..

theorem st_v307 (H : ArgsEq m m') (c : Dev Cert.KernelIdeal.nD) :
    Cert.KernelIdeal.Hand.U41 m c (Proc.devRef .tc Cert.KernelIdeal.main_v307) = Cert.ReferenceIdeal.Hand.R m' c (Proc.devRef .tc Cert.ReferenceIdeal.main_v360) := by
  rw [Cert.KernelIdeal.Hand.kfin_main_v307 m c, st_v279 m m' H c, st_v148 m m' H c, Cert.ReferenceIdeal.Hand.fin_v360 m' c] <;>
  rfl

theorem st_v308 (H : ArgsEq m m') (c : Dev Cert.KernelIdeal.nD) :
    Cert.KernelIdeal.Hand.U41 m c (Proc.devRef .tc Cert.KernelIdeal.main_v308) = Cert.ReferenceIdeal.Hand.R m' c (Proc.devRef .tc Cert.ReferenceIdeal.main_v362) := by
  rw [Cert.KernelIdeal.Hand.kfin_main_v308 m c, st_v306 m m' H c, st_v149 m m' H c, Cert.ReferenceIdeal.Hand.fin_v362 m' c] <;>
  rfl

/-- The positions plus the decoder's displacement. -/
theorem st_v314 (H : ArgsEq m m') (c : Dev Cert.KernelIdeal.nD) :
    Cert.KernelIdeal.Hand.U41 m c (Proc.devRef .tc Cert.KernelIdeal.main_v314) = Cert.ReferenceIdeal.Hand.R m' c (Proc.devRef .tc Cert.ReferenceIdeal.main_v372) := by
  rw [Cert.KernelIdeal.Hand.kreg_main_v314 m c, (rfl : Cert.KernelIdeal.Hand.G11_6 = Cert.KernelIdeal.Hand.G5_6), Cert.KernelIdeal.Hand.kfin_main_v309 m c,
    Cert.KernelIdeal.Hand.kfin_main_v310 m c, Cert.KernelIdeal.Hand.kfin_main_v312 m c, Cert.KernelIdeal.Hand.kfin_main_v311 m c,
    Cert.KernelIdeal.Hand.kfin_main_v313 m c, ← Cert.KernelIdeal.Hand.kfin_main_v307 m c, st_v307 m m' H c, st_v168 m m' H c, arg34 m m' H c, arg35 m m' H c,
    arg36 m m' H c, arg37 m m' H c, Cert.ReferenceIdeal.Hand.fin_v372 m' c] <;>
  exact Cert.Bridge.Dec.dec_bridge ..

theorem st_v327 (H : ArgsEq m m') (c : Dev Cert.KernelIdeal.nD) :
    Cert.KernelIdeal.Hand.U41 m c (Proc.devRef .tc Cert.KernelIdeal.main_v327) = Cert.ReferenceIdeal.Hand.R m' c (Proc.devRef .tc Cert.ReferenceIdeal.main_v385) := by
  rw [Cert.KernelIdeal.Hand.kfin_main_v327 m c, st_v314 m m' H c, arg4 m m' H c, st_v9 m m' H c, Cert.ReferenceIdeal.Hand.fin_v385 m' c] <;>
  rfl

/-! ## Step 2 and the results -/

/-- The node features plus the embedding of the positions. -/
theorem st_v333 (H : ArgsEq m m') (c : Dev Cert.KernelIdeal.nD) :
    Cert.KernelIdeal.Hand.U41 m c (Proc.devRef .tc Cert.KernelIdeal.main_v333) = Cert.ReferenceIdeal.Hand.R m' c (Proc.devRef .tc Cert.ReferenceIdeal.main_v396) := by
  rw [Cert.KernelIdeal.Hand.kreg_main_v333 m c, (rfl : Cert.KernelIdeal.Hand.G12_6 = Cert.KernelIdeal.Hand.G0_6), Cert.KernelIdeal.Hand.kfin_main_v328 m c,
    Cert.KernelIdeal.Hand.kfin_main_v329 m c, Cert.KernelIdeal.Hand.kfin_main_v331 m c, Cert.KernelIdeal.Hand.kfin_main_v330 m c,
    Cert.KernelIdeal.Hand.kfin_main_v332 m c, ← Cert.KernelIdeal.Hand.kfin_main_v327 m c, st_v327 m m' H c, st_v307 m m' H c, arg8 m m' H c, arg9 m m' H c,
    arg10 m m' H c, arg11 m m' H c, Cert.ReferenceIdeal.Hand.fin_v396 m' c] <;>
  exact Cert.Bridge.Pos.pos_bridge ..

theorem st_v349 (H : ArgsEq m m') (c : Dev Cert.KernelIdeal.nD) :
    Cert.KernelIdeal.Hand.U41 m c (Proc.devRef .tc Cert.KernelIdeal.main_v349) = Cert.ReferenceIdeal.Hand.R m' c (Proc.devRef .tc Cert.ReferenceIdeal.main_v412) := by
  rw [Cert.KernelIdeal.Hand.kfin_main_v349 m c, Cert.KernelIdeal.Hand.kfin_main_v348 m c, st_v327 m m' H c, st_v1 m m' H c, st_v3 m m' H c,
    Cert.ReferenceIdeal.Hand.fin_v412 m' c] <;>
  rfl

/-- The edge features plus the embedding of the lengths. -/
theorem st_v355 (H : ArgsEq m m') (c : Dev Cert.KernelIdeal.nD) :
    Cert.KernelIdeal.Hand.U41 m c (Proc.devRef .tc Cert.KernelIdeal.main_v355) = Cert.ReferenceIdeal.Hand.R m' c (Proc.devRef .tc Cert.ReferenceIdeal.main_v423) := by
  rw [Cert.KernelIdeal.Hand.kreg_main_v355 m c, (rfl : Cert.KernelIdeal.Hand.G13_6 = Cert.KernelIdeal.Hand.G1_6), Cert.KernelIdeal.Hand.kfin_main_v350 m c,
    Cert.KernelIdeal.Hand.kfin_main_v351 m c, Cert.KernelIdeal.Hand.kfin_main_v353 m c, Cert.KernelIdeal.Hand.kfin_main_v352 m c,
    Cert.KernelIdeal.Hand.kfin_main_v354 m c, st_v349 m m' H c, st_v245_1 m m' H c, arg12 m m' H c, arg13 m m' H c, arg14 m m' H c, arg15 m m' H c,
    Cert.ReferenceIdeal.Hand.fin_v423 m' c] <;>
  exact Cert.Bridge.Dis.dis_bridge ..

/-- The edge network's new rows. -/
theorem st_v404_0 (H : ArgsEq m m') (c : Dev Cert.KernelIdeal.nD) :
    Cert.KernelIdeal.Hand.U41 m c (Proc.devRef .tc Cert.KernelIdeal.main_v404_0) = Cert.ReferenceIdeal.Hand.R m' c (Proc.devRef .tc Cert.ReferenceIdeal.main_v472) := by
  rw [Cert.KernelIdeal.Hand.kreg_main_v404_0 m c, (rfl : Cert.KernelIdeal.Hand.G14_14 = Cert.KernelIdeal.Hand.G2_14), Cert.KernelIdeal.Hand.kfin_main_v364 m c,
    Cert.KernelIdeal.Hand.kfin_main_v371 m c, Cert.KernelIdeal.Hand.kfin_main_v378 m c, Cert.KernelIdeal.Hand.kfin_main_v392 m c,
    Cert.KernelIdeal.Hand.kfin_main_v394 m c, Cert.KernelIdeal.Hand.kfin_main_v396 m c, Cert.KernelIdeal.Hand.kfin_main_v398 m c,
    Cert.KernelIdeal.Hand.kfin_main_v401 m c, Cert.KernelIdeal.Hand.kfin_main_v399 m c, Cert.KernelIdeal.Hand.kfin_main_v402 m c,
    Cert.KernelIdeal.Hand.kfin_main_v400 m c, Cert.KernelIdeal.Hand.kfin_main_v403 m c, st_v333 m m' H c, st_v1 m m' H c, st_v3 m m' H c, st_v355 m m' H c,
    st_v308 m m' H c, arg5 m m' H c, arg16 m m' H c, arg17 m m' H c, arg18 m m' H c, arg19 m m' H c, arg20 m m' H c, arg21 m m' H c,
    Cert.ReferenceIdeal.Hand.fin_v472 m' c, Cert.ReferenceIdeal.Hand.fin_v445 m' c] <;>
  exact Cert.Bridge.Edge.e1_bridge ..

/-- The edge features plus the edge network's new rows. -/
theorem st_v404_1 (H : ArgsEq m m') (c : Dev Cert.KernelIdeal.nD) :
    Cert.KernelIdeal.Hand.U41 m c (Proc.devRef .tc Cert.KernelIdeal.main_v404_1) = Cert.ReferenceIdeal.Hand.R m' c (Proc.devRef .tc Cert.ReferenceIdeal.main_v515) := by
  rw [Cert.KernelIdeal.Hand.kreg_main_v404_1 m c, (rfl : Cert.KernelIdeal.Hand.G14_15 = Cert.KernelIdeal.Hand.G2_15), Cert.KernelIdeal.Hand.kfin_main_v364 m c,
    Cert.KernelIdeal.Hand.kfin_main_v371 m c, Cert.KernelIdeal.Hand.kfin_main_v378 m c, Cert.KernelIdeal.Hand.kfin_main_v392 m c,
    Cert.KernelIdeal.Hand.kfin_main_v394 m c, Cert.KernelIdeal.Hand.kfin_main_v396 m c, Cert.KernelIdeal.Hand.kfin_main_v398 m c,
    Cert.KernelIdeal.Hand.kfin_main_v401 m c, Cert.KernelIdeal.Hand.kfin_main_v399 m c, Cert.KernelIdeal.Hand.kfin_main_v402 m c,
    Cert.KernelIdeal.Hand.kfin_main_v400 m c, Cert.KernelIdeal.Hand.kfin_main_v403 m c, st_v333 m m' H c, st_v1 m m' H c, st_v3 m m' H c, st_v355 m m' H c,
    st_v308 m m' H c, arg5 m m' H c, st_v245_1 m m' H c, arg16 m m' H c, arg17 m m' H c, arg18 m m' H c, arg19 m m' H c, arg20 m m' H c, arg21 m m' H c,
    Cert.ReferenceIdeal.Hand.fin_v515 m' c, Cert.ReferenceIdeal.Hand.fin_v472 m' c, Cert.ReferenceIdeal.Hand.fin_v445 m' c] <;>
  exact Cert.Bridge.Edge.es_bridge ..

/-- The node network's new rows. -/
theorem st_v438 (H : ArgsEq m m') (c : Dev Cert.KernelIdeal.nD) :
    Cert.KernelIdeal.Hand.U41 m c (Proc.devRef .tc Cert.KernelIdeal.main_v438) = Cert.ReferenceIdeal.Hand.R m' c (Proc.devRef .tc Cert.ReferenceIdeal.main_v513) := by
  rw [Cert.KernelIdeal.Hand.kreg_main_v438 m c, (rfl : Cert.KernelIdeal.Hand.G15_7 = Cert.KernelIdeal.Hand.G3_7), Cert.KernelIdeal.Hand.kfin_main_v431 m c,
    Cert.KernelIdeal.Hand.kfin_main_v432 m c, Cert.KernelIdeal.Hand.kfin_main_v435 m c, Cert.KernelIdeal.Hand.kfin_main_v433 m c,
    Cert.KernelIdeal.Hand.kfin_main_v436 m c, Cert.KernelIdeal.Hand.kfin_main_v434 m c, Cert.KernelIdeal.Hand.kfin_main_v437 m c, st_v333 m m' H c,
    st_v404_0 m m' H c, st_v1 m m' H c, st_v3 m m' H c, st_v308 m m' H c, arg4 m m' H c, arg22 m m' H c, arg23 m m' H c, arg24 m m' H c, arg25 m m' H c,
    arg26 m m' H c, arg27 m m' H c, Cert.ReferenceIdeal.Hand.fin_v513 m' c, Cert.ReferenceIdeal.Hand.fin_v486 m' c] <;>
  exact Cert.Bridge.Mlp.node ..

theorem st_v439 (H : ArgsEq m m') (c : Dev Cert.KernelIdeal.nD) :
    Cert.KernelIdeal.Hand.U41 m c (Proc.devRef .tc Cert.KernelIdeal.main_v439) = Cert.ReferenceIdeal.Hand.R m' c (Proc.devRef .tc Cert.ReferenceIdeal.main_v514) := by
  rw [Cert.KernelIdeal.Hand.kfin_main_v439 m c, st_v438 m m' H c, st_v307 m m' H c, Cert.ReferenceIdeal.Hand.fin_v514 m' c] <;>
  rfl

theorem st_v440 (H : ArgsEq m m') (c : Dev Cert.KernelIdeal.nD) :
    Cert.KernelIdeal.Hand.U41 m c (Proc.devRef .tc Cert.KernelIdeal.main_v440) = Cert.ReferenceIdeal.Hand.R m' c (Proc.devRef .tc Cert.ReferenceIdeal.main_v516) := by
  rw [Cert.KernelIdeal.Hand.kfin_main_v440 m c, st_v308 m m' H c, Cert.ReferenceIdeal.Hand.fin_v516 m' c] <;>
  rfl

/-- The positions plus the decoder's displacement. -/
theorem st_v446 (H : ArgsEq m m') (c : Dev Cert.KernelIdeal.nD) :
    Cert.KernelIdeal.Hand.U41 m c (Proc.devRef .tc Cert.KernelIdeal.main_v446) = Cert.ReferenceIdeal.Hand.R m' c (Proc.devRef .tc Cert.ReferenceIdeal.main_v526) := by
  rw [Cert.KernelIdeal.Hand.kreg_main_v446 m c, (rfl : Cert.KernelIdeal.Hand.G16_6 = Cert.KernelIdeal.Hand.G5_6), Cert.KernelIdeal.Hand.kfin_main_v441 m c,
    Cert.KernelIdeal.Hand.kfin_main_v442 m c, Cert.KernelIdeal.Hand.kfin_main_v444 m c, Cert.KernelIdeal.Hand.kfin_main_v443 m c,
    Cert.KernelIdeal.Hand.kfin_main_v445 m c, ← Cert.KernelIdeal.Hand.kfin_main_v439 m c, st_v439 m m' H c, st_v327 m m' H c, arg34 m m' H c, arg35 m m' H c,
    arg36 m m' H c, arg37 m m' H c, Cert.ReferenceIdeal.Hand.fin_v526 m' c] <;>
  exact Cert.Bridge.Dec.dec_bridge ..

theorem st_v463 (H : ArgsEq m m') (c : Dev Cert.KernelIdeal.nD) :
    Cert.KernelIdeal.Hand.U41 m c (Proc.devRef .tc Cert.KernelIdeal.main_v463) = Cert.ReferenceIdeal.Hand.R m' c (Proc.devRef .tc Cert.ReferenceIdeal.main_v543) := by
  rw [Cert.KernelIdeal.Hand.kfin_main_v463 m c, st_v168 m m' H c, st_v327 m m' H c, st_v446 m m' H c, arg4 m m' H c, st_v9 m m' H c,
    Cert.ReferenceIdeal.Hand.fin_v543 m' c, Cert.ReferenceIdeal.Hand.fin_v539 m' c] <;>
  rfl

/-! ## The four results -/

/-- The node features, the edge features, the graph features and the stack of the three steps' positions end equal. -/
theorem results (H : ArgsEq m m') (c : Dev Cert.KernelIdeal.nD) :
    Cert.KernelIdeal.Hand.U41 m c (Proc.devRef .tc Cert.KernelIdeal.main_v439) = Cert.ReferenceIdeal.Hand.R m' c (Proc.devRef .tc Cert.ReferenceIdeal.main_v514)
    ∧ Cert.KernelIdeal.Hand.U41 m c (Proc.devRef .tc Cert.KernelIdeal.main_v404_1) = Cert.ReferenceIdeal.Hand.R m' c (Proc.devRef .tc Cert.ReferenceIdeal.main_v515)
    ∧ Cert.KernelIdeal.Hand.U41 m c (Proc.devRef .tc Cert.KernelIdeal.main_v440) = Cert.ReferenceIdeal.Hand.R m' c (Proc.devRef .tc Cert.ReferenceIdeal.main_v516)
    ∧ Cert.KernelIdeal.Hand.U41 m c (Proc.devRef .tc Cert.KernelIdeal.main_v463) = Cert.ReferenceIdeal.Hand.R m' c (Proc.devRef .tc Cert.ReferenceIdeal.main_v543) :=
  ⟨st_v439 m m' H c, st_v404_1 m m' H c, st_v440 m m' H c, st_v463 m m' H c⟩

end Cert.Bridge.Chain

end
-- ==== Proof.lean ====
/- The certificate's claim (Defs.lean `Cert.Claim`): the side conditions the four printed texts state have witnesses, and

   1. the kernel as printed, at the word level, runs to the end from every launch memory and leaves its thirty-eight
      argument arrays as launched;
   2. the same program read at the ideal values (floats as extended reals, every operation the exact one) does so too;
   3. the reference, read at the ideal values, does so too;
   4. the passage from the word-level text to the ideal one rewrote no operation, so there is nothing to preserve;
   5. from launch memories that agree on the thirty-eight arguments, the kernel and the reference at the ideal values
      both run to the end, leave their arguments as launched, and end with the same four results: the node features,
      the edge features, the graph features and the stack of the three steps' positions.

   1 and 2 are one theorem, proved once for any float carrier: @main is run item by item — a stretch of host
   operations changes the buffers it names, a pipelined region writes back its output arrays and nothing else — to
   contents `U41` of every unscoped buffer, at which each argument reads its launch contents (KI/Regs.lean `frame`; its
   copy at the word-level text, K/Regs.lean). 3 is the reference's run to the contents `R` (Ref/Run.lean `run`), at which
   each argument reads its launch contents (Ref/Kept.lean). 5 takes the kernel's four results at `U41` as the common
   values: the kernel's run ends there by `run`, and the reference's contents `R` of its four results are those
   values, by the chain of step-by-step equalities of Bridge/Chain.lean (`results`). -/
import proofs.«147763_j11003706212366_2_alg».proof.Defs
import proofs.«147763_j11003706212366_2_alg».proof.Proof.Gen.Kernel
import proofs.«147763_j11003706212366_2_alg».proof.Proof.Gen.KernelIdeal
import proofs.«147763_j11003706212366_2_alg».proof.Proof.Gen.ReferenceIdeal
import proofs.«147763_j11003706212366_2_alg».proof.Proof.Gen.Pre_finite_inputs
import proofs.«147763_j11003706212366_2_alg».proof.Proof.KI.Regs
import proofs.«147763_j11003706212366_2_alg».proof.Proof.Ref.Run
import proofs.«147763_j11003706212366_2_alg».proof.Proof.Ref.Kept
import proofs.«147763_j11003706212366_2_alg».proof.Proof.K.Regs
import proofs.«147763_j11003706212366_2_alg».proof.Proof.Bridge.Chain
import Idealize.ShloMosaic.Adequacy
import Idealize.ShloMosaic.Init

-- one declaration at a time: each reads buffer types out of the two programs' long tables
set_option Elab.async false
set_option maxRecDepth 16384

noncomputable section

namespace Cert.Proof

open Idealize.ShloMosaic Idealize.ShloMosaic.TcCoe Idealize.SL.Sem

/-- The word-level kernel runs to the end and leaves its arguments as launched. -/
theorem frame_kernel : Cert.frame_Kernel :=
  fun m g _ => Cert.Kernel.Hand.frame (F := Bits) m g

/-- So does the kernel read at the ideal values: the same theorem at the other carrier. -/
theorem frame_kernelIdeal : Cert.frame_KernelIdeal :=
  fun m g _ => Cert.KernelIdeal.Hand.frame (F := Ideal) m g

/-- The reference runs to the contents `R`, at which each argument reads its launch contents. -/
theorem frame_referenceIdeal : Cert.frame_ReferenceIdeal :=
  fun m g _ => (θ_run (Cert.ReferenceIdeal.defs (F := Ideal)) _ _).mono (fun r h c =>
    ⟨(h c Cert.ReferenceIdeal.main_arg0).trans (Cert.ReferenceIdeal.Hand.R_main_arg0 m c),
      (h c Cert.ReferenceIdeal.main_arg1).trans (Cert.ReferenceIdeal.Hand.R_main_arg1 m c),
      (h c Cert.ReferenceIdeal.main_arg2).trans (Cert.ReferenceIdeal.Hand.R_main_arg2 m c),
      (h c Cert.ReferenceIdeal.main_arg3).trans (Cert.ReferenceIdeal.Hand.R_main_arg3 m c),
      (h c Cert.ReferenceIdeal.main_arg4).trans (Cert.ReferenceIdeal.Hand.R_main_arg4 m c),
      (h c Cert.ReferenceIdeal.main_arg5).trans (Cert.ReferenceIdeal.Hand.R_main_arg5 m c),
      (h c Cert.ReferenceIdeal.main_arg6).trans (Cert.ReferenceIdeal.Hand.R_main_arg6 m c),
      (h c Cert.ReferenceIdeal.main_arg7).trans (Cert.ReferenceIdeal.Hand.R_main_arg7 m c),
      (h c Cert.ReferenceIdeal.main_arg8).trans (Cert.ReferenceIdeal.Hand.R_main_arg8 m c),
      (h c Cert.ReferenceIdeal.main_arg9).trans (Cert.ReferenceIdeal.Hand.R_main_arg9 m c),
      (h c Cert.ReferenceIdeal.main_arg10).trans (Cert.ReferenceIdeal.Hand.R_main_arg10 m c),
      (h c Cert.ReferenceIdeal.main_arg11).trans (Cert.ReferenceIdeal.Hand.R_main_arg11 m c),
      (h c Cert.ReferenceIdeal.main_arg12).trans (Cert.ReferenceIdeal.Hand.R_main_arg12 m c),
      (h c Cert.ReferenceIdeal.main_arg13).trans (Cert.ReferenceIdeal.Hand.R_main_arg13 m c),
      (h c Cert.ReferenceIdeal.main_arg14).trans (Cert.ReferenceIdeal.Hand.R_main_arg14 m c),
      (h c Cert.ReferenceIdeal.main_arg15).trans (Cert.ReferenceIdeal.Hand.R_main_arg15 m c),
      (h c Cert.ReferenceIdeal.main_arg16).trans (Cert.ReferenceIdeal.Hand.R_main_arg16 m c),
      (h c Cert.ReferenceIdeal.main_arg17).trans (Cert.ReferenceIdeal.Hand.R_main_arg17 m c),
      (h c Cert.ReferenceIdeal.main_arg18).trans (Cert.ReferenceIdeal.Hand.R_main_arg18 m c),
      (h c Cert.ReferenceIdeal.main_arg19).trans (Cert.ReferenceIdeal.Hand.R_main_arg19 m c),
      (h c Cert.ReferenceIdeal.main_arg20).trans (Cert.ReferenceIdeal.Hand.R_main_arg20 m c),
      (h c Cert.ReferenceIdeal.main_arg21).trans (Cert.ReferenceIdeal.Hand.R_main_arg21 m c),
      (h c Cert.ReferenceIdeal.main_arg22).trans (Cert.ReferenceIdeal.Hand.R_main_arg22 m c),
      (h c Cert.ReferenceIdeal.main_arg23).trans (Cert.ReferenceIdeal.Hand.R_main_arg23 m c),
      (h c Cert.ReferenceIdeal.main_arg24).trans (Cert.ReferenceIdeal.Hand.R_main_arg24 m c),
      (h c Cert.ReferenceIdeal.main_arg25).trans (Cert.ReferenceIdeal.Hand.R_main_arg25 m c),
      (h c Cert.ReferenceIdeal.main_arg26).trans (Cert.ReferenceIdeal.Hand.R_main_arg26 m c),
      (h c Cert.ReferenceIdeal.main_arg27).trans (Cert.ReferenceIdeal.Hand.R_main_arg27 m c),
      (h c Cert.ReferenceIdeal.main_arg28).trans (Cert.ReferenceIdeal.Hand.R_main_arg28 m c),
      (h c Cert.ReferenceIdeal.main_arg29).trans (Cert.ReferenceIdeal.Hand.R_main_arg29 m c),
      (h c Cert.ReferenceIdeal.main_arg30).trans (Cert.ReferenceIdeal.Hand.R_main_arg30 m c),
      (h c Cert.ReferenceIdeal.main_arg31).trans (Cert.ReferenceIdeal.Hand.R_main_arg31 m c),
      (h c Cert.ReferenceIdeal.main_arg32).trans (Cert.ReferenceIdeal.Hand.R_main_arg32 m c),
      (h c Cert.ReferenceIdeal.main_arg33).trans (Cert.ReferenceIdeal.Hand.R_main_arg33 m c),
      (h c Cert.ReferenceIdeal.main_arg34).trans (Cert.ReferenceIdeal.Hand.R_main_arg34 m c),
      (h c Cert.ReferenceIdeal.main_arg35).trans (Cert.ReferenceIdeal.Hand.R_main_arg35 m c),
      (h c Cert.ReferenceIdeal.main_arg36).trans (Cert.ReferenceIdeal.Hand.R_main_arg36 m c),
      (h c Cert.ReferenceIdeal.main_arg37).trans (Cert.ReferenceIdeal.Hand.R_main_arg37 m c)⟩)
    (Cert.ReferenceIdeal.Hand.run m g)

/-- At the kernel's last contents each argument reads its launch contents. -/
theorem U41_arg (m : (ℓ : Loc Cert.KernelIdeal.nD Cert.KernelIdeal.τ Cert.KernelIdeal.sig) → Buf (Elt Ideal) ℓ) (c : Dev Cert.KernelIdeal.nD) (b : Ref Cert.KernelIdeal.sig .tc)
    (hb : Cert.KernelIdeal.Gen.V41 m (Cert.KernelIdeal.Hand.outs m) c (Proc.devRef .tc b) = m ((c.tc : Thread Cert.KernelIdeal.nD Cert.KernelIdeal.τ).loc b)) :
    Cert.KernelIdeal.Hand.U41 m c (Proc.devRef .tc b) = m ((c.tc : Thread Cert.KernelIdeal.nD Cert.KernelIdeal.τ).loc b) :=
  (congrFun (Cert.KernelIdeal.Hand.V41_eq m c) _).symm.trans hb

/-- The kernel's half of the comparison: its run ends with the four results at `U41` and the arguments as launched. -/
theorem kernel_side (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v439) = Cert.KernelIdeal.Hand.U41 m c (Proc.devRef .tc Cert.KernelIdeal.main_v439)
          ∧ r.2.mem ((c.tc : Thread Cert.KernelIdeal.nD Cert.KernelIdeal.τ).loc Cert.KernelIdeal.main_v404_1) = Cert.KernelIdeal.Hand.U41 m c (Proc.devRef .tc Cert.KernelIdeal.main_v404_1)
          ∧ r.2.mem ((c.tc : Thread Cert.KernelIdeal.nD Cert.KernelIdeal.τ).loc Cert.KernelIdeal.main_v440) = Cert.KernelIdeal.Hand.U41 m c (Proc.devRef .tc Cert.KernelIdeal.main_v440)
          ∧ r.2.mem ((c.tc : Thread Cert.KernelIdeal.nD Cert.KernelIdeal.τ).loc Cert.KernelIdeal.main_v463) = Cert.KernelIdeal.Hand.U41 m c (Proc.devRef .tc Cert.KernelIdeal.main_v463)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)) :=
  (θ_run (Cert.KernelIdeal.defs (F := Ideal)) _ _).mono (fun r h c =>
    ⟨h c _ (Cert.KernelIdeal.Hand.mem_uc Cert.KernelIdeal.main_v439 (by decide)),
      h c _ (Cert.KernelIdeal.Hand.mem_uc Cert.KernelIdeal.main_v404_1 (by decide)),
      h c _ (Cert.KernelIdeal.Hand.mem_uc Cert.KernelIdeal.main_v440 (by decide)),
      h c _ (Cert.KernelIdeal.Hand.mem_uc Cert.KernelIdeal.main_v463 (by decide)),
      (h c _ (Cert.KernelIdeal.Hand.mem_uc Cert.KernelIdeal.main_arg0 (by decide))).trans (U41_arg m c Cert.KernelIdeal.main_arg0 (Cert.KernelIdeal.Gen.V41_main_arg0 m (Cert.KernelIdeal.Hand.outs m) c)),
      (h c _ (Cert.KernelIdeal.Hand.mem_uc Cert.KernelIdeal.main_arg1 (by decide))).trans (U41_arg m c Cert.KernelIdeal.main_arg1 (Cert.KernelIdeal.Gen.V41_main_arg1 m (Cert.KernelIdeal.Hand.outs m) c)),
      (h c _ (Cert.KernelIdeal.Hand.mem_uc Cert.KernelIdeal.main_arg2 (by decide))).trans (U41_arg m c Cert.KernelIdeal.main_arg2 (Cert.KernelIdeal.Gen.V41_main_arg2 m (Cert.KernelIdeal.Hand.outs m) c)),
      (h c _ (Cert.KernelIdeal.Hand.mem_uc Cert.KernelIdeal.main_arg3 (by decide))).trans (U41_arg m c Cert.KernelIdeal.main_arg3 (Cert.KernelIdeal.Gen.V41_main_arg3 m (Cert.KernelIdeal.Hand.outs m) c)),
      (h c _ (Cert.KernelIdeal.Hand.mem_uc Cert.KernelIdeal.main_arg4 (by decide))).trans (U41_arg m c Cert.KernelIdeal.main_arg4 (Cert.KernelIdeal.Gen.V41_main_arg4 m (Cert.KernelIdeal.Hand.outs m) c)),
      (h c _ (Cert.KernelIdeal.Hand.mem_uc Cert.KernelIdeal.main_arg5 (by decide))).trans (U41_arg m c Cert.KernelIdeal.main_arg5 (Cert.KernelIdeal.Gen.V41_main_arg5 m (Cert.KernelIdeal.Hand.outs m) c)),
      (h c _ (Cert.KernelIdeal.Hand.mem_uc Cert.KernelIdeal.main_arg6 (by decide))).trans (U41_arg m c Cert.KernelIdeal.main_arg6 (Cert.KernelIdeal.Gen.V41_main_arg6 m (Cert.KernelIdeal.Hand.outs m) c)),
      (h c _ (Cert.KernelIdeal.Hand.mem_uc Cert.KernelIdeal.main_arg7 (by decide))).trans (U41_arg m c Cert.KernelIdeal.main_arg7 (Cert.KernelIdeal.Gen.V41_main_arg7 m (Cert.KernelIdeal.Hand.outs m) c)),
      (h c _ (Cert.KernelIdeal.Hand.mem_uc Cert.KernelIdeal.main_arg8 (by decide))).trans (U41_arg m c Cert.KernelIdeal.main_arg8 (Cert.KernelIdeal.Gen.V41_main_arg8 m (Cert.KernelIdeal.Hand.outs m) c)),
      (h c _ (Cert.KernelIdeal.Hand.mem_uc Cert.KernelIdeal.main_arg9 (by decide))).trans (U41_arg m c Cert.KernelIdeal.main_arg9 (Cert.KernelIdeal.Gen.V41_main_arg9 m (Cert.KernelIdeal.Hand.outs m) c)),
      (h c _ (Cert.KernelIdeal.Hand.mem_uc Cert.KernelIdeal.main_arg10 (by decide))).trans (U41_arg m c Cert.KernelIdeal.main_arg10 (Cert.KernelIdeal.Gen.V41_main_arg10 m (Cert.KernelIdeal.Hand.outs m) c)),
      (h c _ (Cert.KernelIdeal.Hand.mem_uc Cert.KernelIdeal.main_arg11 (by decide))).trans (U41_arg m c Cert.KernelIdeal.main_arg11 (Cert.KernelIdeal.Gen.V41_main_arg11 m (Cert.KernelIdeal.Hand.outs m) c)),
      (h c _ (Cert.KernelIdeal.Hand.mem_uc Cert.KernelIdeal.main_arg12 (by decide))).trans (U41_arg m c Cert.KernelIdeal.main_arg12 (Cert.KernelIdeal.Gen.V41_main_arg12 m (Cert.KernelIdeal.Hand.outs m) c)),
      (h c _ (Cert.KernelIdeal.Hand.mem_uc Cert.KernelIdeal.main_arg13 (by decide))).trans (U41_arg m c Cert.KernelIdeal.main_arg13 (Cert.KernelIdeal.Gen.V41_main_arg13 m (Cert.KernelIdeal.Hand.outs m) c)),
      (h c _ (Cert.KernelIdeal.Hand.mem_uc Cert.KernelIdeal.main_arg14 (by decide))).trans (U41_arg m c Cert.KernelIdeal.main_arg14 (Cert.KernelIdeal.Gen.V41_main_arg14 m (Cert.KernelIdeal.Hand.outs m) c)),
      (h c _ (Cert.KernelIdeal.Hand.mem_uc Cert.KernelIdeal.main_arg15 (by decide))).trans (U41_arg m c Cert.KernelIdeal.main_arg15 (Cert.KernelIdeal.Gen.V41_main_arg15 m (Cert.KernelIdeal.Hand.outs m) c)),
      (h c _ (Cert.KernelIdeal.Hand.mem_uc Cert.KernelIdeal.main_arg16 (by decide))).trans (U41_arg m c Cert.KernelIdeal.main_arg16 (Cert.KernelIdeal.Gen.V41_main_arg16 m (Cert.KernelIdeal.Hand.outs m) c)),
      (h c _ (Cert.KernelIdeal.Hand.mem_uc Cert.KernelIdeal.main_arg17 (by decide))).trans (U41_arg m c Cert.KernelIdeal.main_arg17 (Cert.KernelIdeal.Gen.V41_main_arg17 m (Cert.KernelIdeal.Hand.outs m) c)),
      (h c _ (Cert.KernelIdeal.Hand.mem_uc Cert.KernelIdeal.main_arg18 (by decide))).trans (U41_arg m c Cert.KernelIdeal.main_arg18 (Cert.KernelIdeal.Gen.V41_main_arg18 m (Cert.KernelIdeal.Hand.outs m) c)),
      (h c _ (Cert.KernelIdeal.Hand.mem_uc Cert.KernelIdeal.main_arg19 (by decide))).trans (U41_arg m c Cert.KernelIdeal.main_arg19 (Cert.KernelIdeal.Gen.V41_main_arg19 m (Cert.KernelIdeal.Hand.outs m) c)),
      (h c _ (Cert.KernelIdeal.Hand.mem_uc Cert.KernelIdeal.main_arg20 (by decide))).trans (U41_arg m c Cert.KernelIdeal.main_arg20 (Cert.KernelIdeal.Gen.V41_main_arg20 m (Cert.KernelIdeal.Hand.outs m) c)),
      (h c _ (Cert.KernelIdeal.Hand.mem_uc Cert.KernelIdeal.main_arg21 (by decide))).trans (U41_arg m c Cert.KernelIdeal.main_arg21 (Cert.KernelIdeal.Gen.V41_main_arg21 m (Cert.KernelIdeal.Hand.outs m) c)),
      (h c _ (Cert.KernelIdeal.Hand.mem_uc Cert.KernelIdeal.main_arg22 (by decide))).trans (U41_arg m c Cert.KernelIdeal.main_arg22 (Cert.KernelIdeal.Gen.V41_main_arg22 m (Cert.KernelIdeal.Hand.outs m) c)),
      (h c _ (Cert.KernelIdeal.Hand.mem_uc Cert.KernelIdeal.main_arg23 (by decide))).trans (U41_arg m c Cert.KernelIdeal.main_arg23 (Cert.KernelIdeal.Gen.V41_main_arg23 m (Cert.KernelIdeal.Hand.outs m) c)),
      (h c _ (Cert.KernelIdeal.Hand.mem_uc Cert.KernelIdeal.main_arg24 (by decide))).trans (U41_arg m c Cert.KernelIdeal.main_arg24 (Cert.KernelIdeal.Gen.V41_main_arg24 m (Cert.KernelIdeal.Hand.outs m) c)),
      (h c _ (Cert.KernelIdeal.Hand.mem_uc Cert.KernelIdeal.main_arg25 (by decide))).trans (U41_arg m c Cert.KernelIdeal.main_arg25 (Cert.KernelIdeal.Gen.V41_main_arg25 m (Cert.KernelIdeal.Hand.outs m) c)),
      (h c _ (Cert.KernelIdeal.Hand.mem_uc Cert.KernelIdeal.main_arg26 (by decide))).trans (U41_arg m c Cert.KernelIdeal.main_arg26 (Cert.KernelIdeal.Gen.V41_main_arg26 m (Cert.KernelIdeal.Hand.outs m) c)),
      (h c _ (Cert.KernelIdeal.Hand.mem_uc Cert.KernelIdeal.main_arg27 (by decide))).trans (U41_arg m c Cert.KernelIdeal.main_arg27 (Cert.KernelIdeal.Gen.V41_main_arg27 m (Cert.KernelIdeal.Hand.outs m) c)),
      (h c _ (Cert.KernelIdeal.Hand.mem_uc Cert.KernelIdeal.main_arg28 (by decide))).trans (U41_arg m c Cert.KernelIdeal.main_arg28 (Cert.KernelIdeal.Gen.V41_main_arg28 m (Cert.KernelIdeal.Hand.outs m) c)),
      (h c _ (Cert.KernelIdeal.Hand.mem_uc Cert.KernelIdeal.main_arg29 (by decide))).trans (U41_arg m c Cert.KernelIdeal.main_arg29 (Cert.KernelIdeal.Gen.V41_main_arg29 m (Cert.KernelIdeal.Hand.outs m) c)),
      (h c _ (Cert.KernelIdeal.Hand.mem_uc Cert.KernelIdeal.main_arg30 (by decide))).trans (U41_arg m c Cert.KernelIdeal.main_arg30 (Cert.KernelIdeal.Gen.V41_main_arg30 m (Cert.KernelIdeal.Hand.outs m) c)),
      (h c _ (Cert.KernelIdeal.Hand.mem_uc Cert.KernelIdeal.main_arg31 (by decide))).trans (U41_arg m c Cert.KernelIdeal.main_arg31 (Cert.KernelIdeal.Gen.V41_main_arg31 m (Cert.KernelIdeal.Hand.outs m) c)),
      (h c _ (Cert.KernelIdeal.Hand.mem_uc Cert.KernelIdeal.main_arg32 (by decide))).trans (U41_arg m c Cert.KernelIdeal.main_arg32 (Cert.KernelIdeal.Gen.V41_main_arg32 m (Cert.KernelIdeal.Hand.outs m) c)),
      (h c _ (Cert.KernelIdeal.Hand.mem_uc Cert.KernelIdeal.main_arg33 (by decide))).trans (U41_arg m c Cert.KernelIdeal.main_arg33 (Cert.KernelIdeal.Gen.V41_main_arg33 m (Cert.KernelIdeal.Hand.outs m) c)),
      (h c _ (Cert.KernelIdeal.Hand.mem_uc Cert.KernelIdeal.main_arg34 (by decide))).trans (U41_arg m c Cert.KernelIdeal.main_arg34 (Cert.KernelIdeal.Gen.V41_main_arg34 m (Cert.KernelIdeal.Hand.outs m) c)),
      (h c _ (Cert.KernelIdeal.Hand.mem_uc Cert.KernelIdeal.main_arg35 (by decide))).trans (U41_arg m c Cert.KernelIdeal.main_arg35 (Cert.KernelIdeal.Gen.V41_main_arg35 m (Cert.KernelIdeal.Hand.outs m) c)),
      (h c _ (Cert.KernelIdeal.Hand.mem_uc Cert.KernelIdeal.main_arg36 (by decide))).trans (U41_arg m c Cert.KernelIdeal.main_arg36 (Cert.KernelIdeal.Gen.V41_main_arg36 m (Cert.KernelIdeal.Hand.outs m) c)),
      (h c _ (Cert.KernelIdeal.Hand.mem_uc Cert.KernelIdeal.main_arg37 (by decide))).trans (U41_arg m c Cert.KernelIdeal.main_arg37 (Cert.KernelIdeal.Gen.V41_main_arg37 m (Cert.KernelIdeal.Hand.outs m) c))⟩)
    (Cert.KernelIdeal.Hand.run m g)

/-- The reference's result v514 ends at the kernel's v439. -/
theorem res_v439 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (H : Cert.Bridge.Chain.ArgsEq m m') (c : Dev Cert.KernelIdeal.nD) :
    Cert.ReferenceIdeal.Hand.R m' c (Proc.devRef .tc Cert.ReferenceIdeal.main_v514) = Cert.KernelIdeal.Hand.U41 m c (Proc.devRef .tc Cert.KernelIdeal.main_v439) :=
  (Cert.Bridge.Chain.results m m' H c).1.symm

/-- The reference's result v515 ends at the kernel's v404_1. -/
theorem res_v404_1 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (H : Cert.Bridge.Chain.ArgsEq m m') (c : Dev Cert.KernelIdeal.nD) :
    Cert.ReferenceIdeal.Hand.R m' c (Proc.devRef .tc Cert.ReferenceIdeal.main_v515) = Cert.KernelIdeal.Hand.U41 m c (Proc.devRef .tc Cert.KernelIdeal.main_v404_1) :=
  (Cert.Bridge.Chain.results m m' H c).2.1.symm

/-- The reference's result v516 ends at the kernel's v440. -/
theorem res_v440 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (H : Cert.Bridge.Chain.ArgsEq m m') (c : Dev Cert.KernelIdeal.nD) :
    Cert.ReferenceIdeal.Hand.R m' c (Proc.devRef .tc Cert.ReferenceIdeal.main_v516) = Cert.KernelIdeal.Hand.U41 m c (Proc.devRef .tc Cert.KernelIdeal.main_v440) :=
  (Cert.Bridge.Chain.results m m' H c).2.2.1.symm

/-- The reference's result v543 ends at the kernel's v463. -/
theorem res_v463 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (H : Cert.Bridge.Chain.ArgsEq m m') (c : Dev Cert.KernelIdeal.nD) :
    Cert.ReferenceIdeal.Hand.R m' c (Proc.devRef .tc Cert.ReferenceIdeal.main_v543) = Cert.KernelIdeal.Hand.U41 m c (Proc.devRef .tc Cert.KernelIdeal.main_v463) :=
  (Cert.Bridge.Chain.results m m' H c).2.2.2.symm

/-- The reference's half: its run ends with its four results at the kernel's, and its arguments as launched. -/
theorem reference_side (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (H : Cert.Bridge.Chain.ArgsEq m m') :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v514) = Cert.KernelIdeal.Hand.U41 m c (Proc.devRef .tc Cert.KernelIdeal.main_v439)
          ∧ r.2.mem ((c.tc : Thread Cert.ReferenceIdeal.nD Cert.ReferenceIdeal.τ).loc Cert.ReferenceIdeal.main_v515) = Cert.KernelIdeal.Hand.U41 m c (Proc.devRef .tc Cert.KernelIdeal.main_v404_1)
          ∧ r.2.mem ((c.tc : Thread Cert.ReferenceIdeal.nD Cert.ReferenceIdeal.τ).loc Cert.ReferenceIdeal.main_v516) = Cert.KernelIdeal.Hand.U41 m c (Proc.devRef .tc Cert.KernelIdeal.main_v440)
          ∧ r.2.mem ((c.tc : Thread Cert.ReferenceIdeal.nD Cert.ReferenceIdeal.τ).loc Cert.ReferenceIdeal.main_v543) = Cert.KernelIdeal.Hand.U41 m c (Proc.devRef .tc Cert.KernelIdeal.main_v463)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)) :=
  (θ_run (Cert.ReferenceIdeal.defs (F := Ideal)) _ _).mono (fun r h c =>
    ⟨(h c Cert.ReferenceIdeal.main_v514).trans (res_v439 m m' H c),
      (h c Cert.ReferenceIdeal.main_v515).trans (res_v404_1 m m' H c),
      (h c Cert.ReferenceIdeal.main_v516).trans (res_v440 m m' H c),
      (h c Cert.ReferenceIdeal.main_v543).trans (res_v463 m m' H c),
      (h c Cert.ReferenceIdeal.main_arg0).trans (Cert.ReferenceIdeal.Hand.R_main_arg0 m' c),
      (h c Cert.ReferenceIdeal.main_arg1).trans (Cert.ReferenceIdeal.Hand.R_main_arg1 m' c),
      (h c Cert.ReferenceIdeal.main_arg2).trans (Cert.ReferenceIdeal.Hand.R_main_arg2 m' c),
      (h c Cert.ReferenceIdeal.main_arg3).trans (Cert.ReferenceIdeal.Hand.R_main_arg3 m' c),
      (h c Cert.ReferenceIdeal.main_arg4).trans (Cert.ReferenceIdeal.Hand.R_main_arg4 m' c),
      (h c Cert.ReferenceIdeal.main_arg5).trans (Cert.ReferenceIdeal.Hand.R_main_arg5 m' c),
      (h c Cert.ReferenceIdeal.main_arg6).trans (Cert.ReferenceIdeal.Hand.R_main_arg6 m' c),
      (h c Cert.ReferenceIdeal.main_arg7).trans (Cert.ReferenceIdeal.Hand.R_main_arg7 m' c),
      (h c Cert.ReferenceIdeal.main_arg8).trans (Cert.ReferenceIdeal.Hand.R_main_arg8 m' c),
      (h c Cert.ReferenceIdeal.main_arg9).trans (Cert.ReferenceIdeal.Hand.R_main_arg9 m' c),
      (h c Cert.ReferenceIdeal.main_arg10).trans (Cert.ReferenceIdeal.Hand.R_main_arg10 m' c),
      (h c Cert.ReferenceIdeal.main_arg11).trans (Cert.ReferenceIdeal.Hand.R_main_arg11 m' c),
      (h c Cert.ReferenceIdeal.main_arg12).trans (Cert.ReferenceIdeal.Hand.R_main_arg12 m' c),
      (h c Cert.ReferenceIdeal.main_arg13).trans (Cert.ReferenceIdeal.Hand.R_main_arg13 m' c),
      (h c Cert.ReferenceIdeal.main_arg14).trans (Cert.ReferenceIdeal.Hand.R_main_arg14 m' c),
      (h c Cert.ReferenceIdeal.main_arg15).trans (Cert.ReferenceIdeal.Hand.R_main_arg15 m' c),
      (h c Cert.ReferenceIdeal.main_arg16).trans (Cert.ReferenceIdeal.Hand.R_main_arg16 m' c),
      (h c Cert.ReferenceIdeal.main_arg17).trans (Cert.ReferenceIdeal.Hand.R_main_arg17 m' c),
      (h c Cert.ReferenceIdeal.main_arg18).trans (Cert.ReferenceIdeal.Hand.R_main_arg18 m' c),
      (h c Cert.ReferenceIdeal.main_arg19).trans (Cert.ReferenceIdeal.Hand.R_main_arg19 m' c),
      (h c Cert.ReferenceIdeal.main_arg20).trans (Cert.ReferenceIdeal.Hand.R_main_arg20 m' c),
      (h c Cert.ReferenceIdeal.main_arg21).trans (Cert.ReferenceIdeal.Hand.R_main_arg21 m' c),
      (h c Cert.ReferenceIdeal.main_arg22).trans (Cert.ReferenceIdeal.Hand.R_main_arg22 m' c),
      (h c Cert.ReferenceIdeal.main_arg23).trans (Cert.ReferenceIdeal.Hand.R_main_arg23 m' c),
      (h c Cert.ReferenceIdeal.main_arg24).trans (Cert.ReferenceIdeal.Hand.R_main_arg24 m' c),
      (h c Cert.ReferenceIdeal.main_arg25).trans (Cert.ReferenceIdeal.Hand.R_main_arg25 m' c),
      (h c Cert.ReferenceIdeal.main_arg26).trans (Cert.ReferenceIdeal.Hand.R_main_arg26 m' c),
      (h c Cert.ReferenceIdeal.main_arg27).trans (Cert.ReferenceIdeal.Hand.R_main_arg27 m' c),
      (h c Cert.ReferenceIdeal.main_arg28).trans (Cert.ReferenceIdeal.Hand.R_main_arg28 m' c),
      (h c Cert.ReferenceIdeal.main_arg29).trans (Cert.ReferenceIdeal.Hand.R_main_arg29 m' c),
      (h c Cert.ReferenceIdeal.main_arg30).trans (Cert.ReferenceIdeal.Hand.R_main_arg30 m' c),
      (h c Cert.ReferenceIdeal.main_arg31).trans (Cert.ReferenceIdeal.Hand.R_main_arg31 m' c),
      (h c Cert.ReferenceIdeal.main_arg32).trans (Cert.ReferenceIdeal.Hand.R_main_arg32 m' c),
      (h c Cert.ReferenceIdeal.main_arg33).trans (Cert.ReferenceIdeal.Hand.R_main_arg33 m' c),
      (h c Cert.ReferenceIdeal.main_arg34).trans (Cert.ReferenceIdeal.Hand.R_main_arg34 m' c),
      (h c Cert.ReferenceIdeal.main_arg35).trans (Cert.ReferenceIdeal.Hand.R_main_arg35 m' c),
      (h c Cert.ReferenceIdeal.main_arg36).trans (Cert.ReferenceIdeal.Hand.R_main_arg36 m' c),
      (h c Cert.ReferenceIdeal.main_arg37).trans (Cert.ReferenceIdeal.Hand.R_main_arg37 m' c)⟩)
    (Cert.ReferenceIdeal.Hand.run m' g')

/-- At the ideal values the two programs end with the same four results: the kernel's, at its last contents. From launch
    memories that agree on an argument both runs end with the launch array in it (Bridge/ChainArgs.lean `arg_of_K`), which is
    where the chain of equalities starts. -/
theorem algebraic : Cert.algebraic_KernelIdeal_ReferenceIdeal :=
  fun m g m' g' _ H =>
    ⟨fun c => Cert.KernelIdeal.Hand.U41 m c (Proc.devRef .tc Cert.KernelIdeal.main_v439), fun c => Cert.KernelIdeal.Hand.U41 m c (Proc.devRef .tc Cert.KernelIdeal.main_v404_1),
      fun c => Cert.KernelIdeal.Hand.U41 m c (Proc.devRef .tc Cert.KernelIdeal.main_v440), fun c => Cert.KernelIdeal.Hand.U41 m c (Proc.devRef .tc Cert.KernelIdeal.main_v463),
      kernel_side m g, reference_side m m' g'
        (fun c => ⟨Cert.Bridge.Chain.arg_of_0 m m' c (H c).1,
          Cert.Bridge.Chain.arg_of_1 m m' c (H c).2.1,
          Cert.Bridge.Chain.arg_of_2 m m' c (H c).2.2.1,
          Cert.Bridge.Chain.arg_of_3 m m' c (H c).2.2.2.1,
          Cert.Bridge.Chain.arg_of_4 m m' c (H c).2.2.2.2.1,
          Cert.Bridge.Chain.arg_of_5 m m' c (H c).2.2.2.2.2.1,
          Cert.Bridge.Chain.arg_of_6 m m' c (H c).2.2.2.2.2.2.1,
          Cert.Bridge.Chain.arg_of_7 m m' c (H c).2.2.2.2.2.2.2.1,
          Cert.Bridge.Chain.arg_of_8 m m' c (H c).2.2.2.2.2.2.2.2.1,
          Cert.Bridge.Chain.arg_of_9 m m' c (H c).2.2.2.2.2.2.2.2.2.1,
          Cert.Bridge.Chain.arg_of_10 m m' c (H c).2.2.2.2.2.2.2.2.2.2.1,
          Cert.Bridge.Chain.arg_of_11 m m' c (H c).2.2.2.2.2.2.2.2.2.2.2.1,
          Cert.Bridge.Chain.arg_of_12 m m' c (H c).2.2.2.2.2.2.2.2.2.2.2.2.1,
          Cert.Bridge.Chain.arg_of_13 m m' c (H c).2.2.2.2.2.2.2.2.2.2.2.2.2.1,
          Cert.Bridge.Chain.arg_of_14 m m' c (H c).2.2.2.2.2.2.2.2.2.2.2.2.2.2.1,
          Cert.Bridge.Chain.arg_of_15 m m' c (H c).2.2.2.2.2.2.2.2.2.2.2.2.2.2.2.1,
          Cert.Bridge.Chain.arg_of_16 m m' c (H c).2.2.2.2.2.2.2.2.2.2.2.2.2.2.2.2.1,
          Cert.Bridge.Chain.arg_of_17 m m' c (H c).2.2.2.2.2.2.2.2.2.2.2.2.2.2.2.2.2.1,
          Cert.Bridge.Chain.arg_of_18 m m' c (H c).2.2.2.2.2.2.2.2.2.2.2.2.2.2.2.2.2.2.1,
          Cert.Bridge.Chain.arg_of_19 m m' c (H c).2.2.2.2.2.2.2.2.2.2.2.2.2.2.2.2.2.2.2.1,
          Cert.Bridge.Chain.arg_of_20 m m' c (H c).2.2.2.2.2.2.2.2.2.2.2.2.2.2.2.2.2.2.2.2.1,
          Cert.Bridge.Chain.arg_of_21 m m' c (H c).2.2.2.2.2.2.2.2.2.2.2.2.2.2.2.2.2.2.2.2.2.1,
          Cert.Bridge.Chain.arg_of_22 m m' c (H c).2.2.2.2.2.2.2.2.2.2.2.2.2.2.2.2.2.2.2.2.2.2.1,
          Cert.Bridge.Chain.arg_of_23 m m' c (H c).2.2.2.2.2.2.2.2.2.2.2.2.2.2.2.2.2.2.2.2.2.2.2.1,
          Cert.Bridge.Chain.arg_of_24 m m' c (H c).2.2.2.2.2.2.2.2.2.2.2.2.2.2.2.2.2.2.2.2.2.2.2.2.1,
          Cert.Bridge.Chain.arg_of_25 m m' c (H c).2.2.2.2.2.2.2.2.2.2.2.2.2.2.2.2.2.2.2.2.2.2.2.2.2.1,
          Cert.Bridge.Chain.arg_of_26 m m' c (H c).2.2.2.2.2.2.2.2.2.2.2.2.2.2.2.2.2.2.2.2.2.2.2.2.2.2.1,
          Cert.Bridge.Chain.arg_of_27 m m' c (H c).2.2.2.2.2.2.2.2.2.2.2.2.2.2.2.2.2.2.2.2.2.2.2.2.2.2.2.1,
          Cert.Bridge.Chain.arg_of_28 m m' c (H c).2.2.2.2.2.2.2.2.2.2.2.2.2.2.2.2.2.2.2.2.2.2.2.2.2.2.2.2.1,
          Cert.Bridge.Chain.arg_of_29 m m' c (H c).2.2.2.2.2.2.2.2.2.2.2.2.2.2.2.2.2.2.2.2.2.2.2.2.2.2.2.2.2.1,
          Cert.Bridge.Chain.arg_of_30 m m' c (H c).2.2.2.2.2.2.2.2.2.2.2.2.2.2.2.2.2.2.2.2.2.2.2.2.2.2.2.2.2.2.1,
          Cert.Bridge.Chain.arg_of_31 m m' c (H c).2.2.2.2.2.2.2.2.2.2.2.2.2.2.2.2.2.2.2.2.2.2.2.2.2.2.2.2.2.2.2.1,
          Cert.Bridge.Chain.arg_of_32 m m' c (H c).2.2.2.2.2.2.2.2.2.2.2.2.2.2.2.2.2.2.2.2.2.2.2.2.2.2.2.2.2.2.2.2.1,
          Cert.Bridge.Chain.arg_of_33 m m' c (H c).2.2.2.2.2.2.2.2.2.2.2.2.2.2.2.2.2.2.2.2.2.2.2.2.2.2.2.2.2.2.2.2.2.1,
          Cert.Bridge.Chain.arg_of_34 m m' c (H c).2.2.2.2.2.2.2.2.2.2.2.2.2.2.2.2.2.2.2.2.2.2.2.2.2.2.2.2.2.2.2.2.2.2.1,
          Cert.Bridge.Chain.arg_of_35 m m' c (H c).2.2.2.2.2.2.2.2.2.2.2.2.2.2.2.2.2.2.2.2.2.2.2.2.2.2.2.2.2.2.2.2.2.2.2.1,
          Cert.Bridge.Chain.arg_of_36 m m' c (H c).2.2.2.2.2.2.2.2.2.2.2.2.2.2.2.2.2.2.2.2.2.2.2.2.2.2.2.2.2.2.2.2.2.2.2.2.1,
          Cert.Bridge.Chain.arg_of_37 m m' c (H c).2.2.2.2.2.2.2.2.2.2.2.2.2.2.2.2.2.2.2.2.2.2.2.2.2.2.2.2.2.2.2.2.2.2.2.2.2⟩)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
